-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v860) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x5 : Shape := ⟨2, ![512, 5]⟩
abbrev S512x128x2 : Shape := ⟨3, ![512, 128, 2]⟩
abbrev S_ : Shape := ⟨0, ![]⟩
abbrev S512x1 : Shape := ⟨2, ![512, 1]⟩
abbrev S512 : Shape := ⟨1, ![512]⟩

class Facts : Prop where
  bcast_S_S2x256x256x256 : S_.BroadcastsInDim S2x256x256x256 (![] : Fin 0 → Fin S2x256x256x256.rank)
  reducesTo_S2x256x256x256_S_d0_1_2_3 : S2x256x256x256.ReducesTo [0, 1, 2, 3] S_
  h_S_ : 0 < S_.numel
  bcast_S_S2x256x128x128 : S_.BroadcastsInDim S2x256x128x128 (![] : Fin 0 → Fin S2x256x128x128.rank)
  reducesTo_S2x256x128x128_S_d0_1_2_3 : S2x256x128x128.ReducesTo [0, 1, 2, 3] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  bcast_S_S2x256x32x32 : S_.BroadcastsInDim S2x256x32x32 (![] : Fin 0 → Fin S2x256x32x32.rank)
  reducesTo_S2x256x32x32_S_d0_1_2_3 : S2x256x32x32.ReducesTo [0, 1, 2, 3] S_
  bcast_S_S512x5 : S_.BroadcastsInDim S512x5 (![] : Fin 0 → Fin S512x5.rank)
  reducesTo_S512x5_S_d0_1 : S512x5.ReducesTo [0, 1] S_
  bcast_S_S512x128x2 : S_.BroadcastsInDim S512x128x2 (![] : Fin 0 → Fin S512x128x2.rank)
  reducesTo_S512x128x2_S_d0_1_2 : S512x128x2.ReducesTo [0, 1, 2] S_
  slices_S512x5_S512x1_0_0 : S512x5.Slices ![0, 0] S512x1
  shapeCasts_S512x1_S512 : S512x1.ShapeCasts S512
  bcast_S_S512 : S_.BroadcastsInDim S512 (![] : Fin 0 → Fin S512.rank)
  reducesTo_S512_S_d0 : S512.ReducesTo [0] S_

variable [Facts]

def fn_part2 {F : FTy → Type} [FloatOps F] (main_v28 : IVec S_ 1) (main_v33 : IVec S512 1) (main_v34 : FVec F S512x1 .f32) : IVec S_ 1 :=
  let main_v35 : FVec F S512 .f32 := shapeCast S512 main_v34 shapeCasts_S512x1_S512
  let main_v36 : IVec S512 32 := fptosi 32 main_v35
  let main_c_11 : IVec S_ 32 := constantI S_ 32 2#32
  let main_v37 : IVec S512 32 := broadcastInDim S512 ![] bcast_S_S512 main_c_11
  let main_v38 : IVec S512 1 := cmpi .slt main_v36 main_v37
  let main_v39 : IVec S512 1 := andi main_v33 main_v38
  let main_c_12 : IVec S_ 1 := constantI S_ 1 1#1
  let main_v40 : IVec S_ 1 := (fun x v => Host.reduce IntOp.andi x v reducesTo_S512_S_d0 h_S_) main_v39 main_c_12
  let main_v41 : IVec S_ 1 := andi main_v28 main_v40
  main_v41

def fn_part1 {F : FTy → Type} [FloatOps F] (main_arg4 : FVec F S512x5 .f32) (main_arg5 : FVec F S512x128x2 .f32) (main_v13 : IVec S_ 1) (main_v16 : IVec S2x256x32x32 1) : IVec S_ 1 :=
  let main_c_5 : IVec S_ 1 := constantI S_ 1 1#1
  let main_v17 : IVec S_ 1 := (fun x v => Host.reduce IntOp.andi x v reducesTo_S2x256x32x32_S_d0_1_2_3 h_S_) main_v16 main_c_5
  let main_v18 : IVec S_ 1 := andi main_v13 main_v17
  let main_v19 : FVec F S512x5 .f32 := Host.absf main_arg4
  let main_cst_6 : FVec F S_ .f32 := constant S_ .f32 0x7F800000#32
  let main_v20 : FVec F S512x5 .f32 := broadcastInDim S512x5 ![] bcast_S_S512x5 main_cst_6
  let main_v21 : IVec S512x5 1 := cmpf .olt main_v19 main_v20
  let main_c_7 : IVec S_ 1 := constantI S_ 1 1#1
  let main_v22 : IVec S_ 1 := (fun x v => Host.reduce IntOp.andi x v reducesTo_S512x5_S_d0_1 h_S_) main_v21 main_c_7
  let main_v23 : IVec S_ 1 := andi main_v18 main_v22
  let main_v24 : FVec F S512x128x2 .f32 := Host.absf main_arg5
  let main_cst_8 : FVec F S_ .f32 := constant S_ .f32 0x7F800000#32
  let main_v25 : FVec F S512x128x2 .f32 := broadcastInDim S512x128x2 ![] bcast_S_S512x128x2 main_cst_8
  let main_v26 : IVec S512x128x2 1 := cmpf .olt main_v24 main_v25
  let main_c_9 : IVec S_ 1 := constantI S_ 1 1#1
  let main_v27 : IVec S_ 1 := (fun x v => Host.reduce IntOp.andi x v reducesTo_S512x128x2_S_d0_1_2 h_S_) main_v26 main_c_9
  let main_v28 : IVec S_ 1 := andi main_v23 main_v27
  let main_v29 : FVec F S512x1 .f32 := (extractStridedSlice S512x1 ![0, 0] · slices_S512x5_S512x1_0_0) main_arg4
  let main_v30 : FVec F S512 .f32 := shapeCast S512 main_v29 shapeCasts_S512x1_S512
  let main_v31 : IVec S512 32 := fptosi 32 main_v30
  let main_c_10 : IVec S_ 32 := constantI S_ 32 0#32
  let main_v32 : IVec S512 32 := broadcastInDim S512 ![] bcast_S_S512 main_c_10
  let main_v33 : IVec S512 1 := cmpi .sge main_v31 main_v32
  let main_v34 : FVec F S512x1 .f32 := (extractStridedSlice S512x1 ![0, 0] · slices_S512x5_S512x1_0_0) main_arg4
  fn_part2 (F := F) main_v28 main_v33 main_v34

def fn {F : FTy → Type} [FloatOps F] (main_arg0 : FVec F S2x256x256x256 .f32) (main_arg1 : FVec F S2x256x128x128 .f32) (main_arg2 : FVec F S2x256x64x64 .f32) (main_arg3 : FVec F S2x256x32x32 .f32) (main_arg4 : FVec F S512x5 .f32) (main_arg5 : FVec F S512x128x2 .f32) : IVec S_ 1 :=
  let main_v0 : FVec F S2x256x256x256 .f32 := Host.absf main_arg0
  let main_cst : FVec F S_ .f32 := constant S_ .f32 0x7F800000#32
  let main_v1 : FVec F S2x256x256x256 .f32 := broadcastInDim S2x256x256x256 ![] bcast_S_S2x256x256x256 main_cst
  let main_v2 : IVec S2x256x256x256 1 := cmpf .olt main_v0 main_v1
  let main_c : IVec S_ 1 := constantI S_ 1 1#1
  let main_v3 : IVec S_ 1 := (fun x v => Host.reduce IntOp.andi x v reducesTo_S2x256x256x256_S_d0_1_2_3 h_S_) main_v2 main_c
  let main_v4 : FVec F S2x256x128x128 .f32 := Host.absf main_arg1
  let main_cst_0 : FVec F S_ .f32 := constant S_ .f32 0x7F800000#32
  let main_v5 : FVec F S2x256x128x128 .f32 := broadcastInDim S2x256x128x128 ![] bcast_S_S2x256x128x128 main_cst_0
  let main_v6 : IVec S2x256x128x128 1 := cmpf .olt main_v4 main_v5
  let main_c_1 : IVec S_ 1 := constantI S_ 1 1#1
  let main_v7 : IVec S_ 1 := (fun x v => Host.reduce IntOp.andi x v reducesTo_S2x256x128x128_S_d0_1_2_3 h_S_) main_v6 main_c_1
  let main_v8 : IVec S_ 1 := andi main_v3 main_v7
  let main_v9 : FVec F S2x256x64x64 .f32 := Host.absf main_arg2
  let main_cst_2 : FVec F S_ .f32 := constant S_ .f32 0x7F800000#32
  let main_v10 : FVec F S2x256x64x64 .f32 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  let main_v14 : FVec F S2x256x32x32 .f32 := Host.absf main_arg3
  let main_cst_4 : FVec F S_ .f32 := constant S_ .f32 0x7F800000#32
  let main_v15 : FVec F S2x256x32x32 .f32 := broadcastInDim S2x256x32x32 ![] bcast_S_S2x256x32x32 main_cst_4
  let main_v16 : IVec S2x256x32x32 1 := cmpf .olt main_v14 main_v15
  fn_part1 (F := F) main_arg4 main_arg5 main_v13 main_v16
-- ==== Kernel.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x5 : Shape := ⟨2, ![512, 5]⟩
abbrev S512x128x2 : Shape := ⟨3, ![512, 128, 2]⟩
abbrev S512x2 : Shape := ⟨2, ![512, 2]⟩
abbrev S512x1x2 : Shape := ⟨3, ![512, 1, 2]⟩
abbrev S512x1 : Shape := ⟨2, ![512, 1]⟩
abbrev S512 : Shape := ⟨1, ![512]⟩
abbrev S512x128 : Shape := ⟨2, ![512, 128]⟩
abbrev S512x128x1 : Shape := ⟨3, ![512, 128, 1]⟩
abbrev S_ : Shape := ⟨0, ![]⟩
abbrev S512x256x128 : Shape := ⟨3, ![512, 256, 128]⟩
abbrev S1x256x8x256 : Shape := ⟨4, ![1, 256, 8, 256]⟩
abbrev S8x128 : Shape := ⟨2, ![8, 128]⟩
abbrev S8x256x128 : Shape := ⟨3, ![8, 256, 128]⟩
abbrev S256x8x128 : Shape := ⟨3, ![256, 8, 128]⟩
abbrev S256x1x1 : Shape := ⟨3, ![256, 1, 1]⟩
abbrev S1x8x128 : Shape := ⟨3, ![1, 8, 128]⟩
abbrev S256x1024 : Shape := ⟨2, ![256, 1024]⟩
abbrev S256x8x256 : Shape := ⟨3, ![256, 8, 256]⟩
abbrev S2048x256 : Shape := ⟨2, ![2048, 256]⟩
abbrev S2048x1024 : Shape := ⟨2, ![2048, 1024]⟩
abbrev S256x8x8x128 : Shape := ⟨4, ![256, 8, 8, 128]⟩
abbrev S8x1x1 : Shape := ⟨3, ![8, 1, 1]⟩
abbrev S8x8x128 : Shape := ⟨3, ![8, 8, 128]⟩
abbrev S1x8x8x128 : Shape := ⟨4, ![1, 8, 8, 128]⟩
abbrev S1x256x8x128 : Shape := ⟨4, ![1, 256, 8, 128]⟩
abbrev S128x1x1 : Shape := ⟨3, ![128, 1, 1]⟩
abbrev S128x8x128 : Shape := ⟨3, ![128, 8, 128]⟩
abbrev S128x1024 : Shape := ⟨2, ![128, 1024]⟩
abbrev S2048x128 : Shape := ⟨2, ![2048, 128]⟩
abbrev S1x256x8x64 : Shape := ⟨4, ![1, 256, 8, 64]⟩
abbrev S64x1x1 : Shape := ⟨3, ![64, 1, 1]⟩
abbrev S64x8x128 : Shape := ⟨3, ![64, 8, 128]⟩
abbrev S64x1024 : Shape := ⟨2, ![64, 1024]⟩
abbrev S256x8x64 : Shape := ⟨3, ![256, 8, 64]⟩
abbrev S2048x64 : Shape := ⟨2, ![2048, 64]⟩
abbrev S1x256x8x32 : Shape := ⟨4, ![1, 256, 8, 32]⟩
abbrev S32x1x1 : Shape := ⟨3, ![32, 1, 1]⟩
abbrev S32x8x128 : Shape := ⟨3, ![32, 8, 128]⟩
abbrev S32x1024 : Shape := ⟨2, ![32, 1024]⟩
abbrev S256x8x32 : Shape := ⟨3, ![256, 8, 32]⟩
abbrev S2048x32 : Shape := ⟨2, ![2048, 32]⟩
abbrev S512x1024x128 : Shape := ⟨3, ![512, 1024, 128]⟩

abbrev nBuf : Space → Nat
  | .hbm => 113
  | .vmem => 60
  | .smem => 0
  | _ => 0

abbrev bufTy : (tb : Table) → Fin (tcTables nBuf tb) → BufTy
  | .hbm, ⟨0, _⟩ => ⟨S2x256x256x256, .f32⟩
  | .hbm, ⟨1, _⟩ => ⟨S2x256x128x128, .f32⟩
  | .hbm, ⟨2, _⟩ => ⟨S2x256x64x64, .f32⟩
  | .hbm, ⟨3, _⟩ => ⟨S2x256x32x32, .f32⟩
  | .hbm, ⟨4, _⟩ => ⟨S512x5, .f32⟩
  | .hbm, ⟨5, _⟩ => ⟨S512x128x2, .f32⟩
  | .hbm, ⟨6, _⟩ => ⟨S512x2, .f32⟩
  | .hbm, ⟨7, _⟩ => ⟨S512x2, .f32⟩
  | .hbm, ⟨8, _⟩ => ⟨S512x1x2, .f32⟩
  | .hbm, ⟨9, _⟩ => ⟨S512x2, .f32⟩
  | .hbm, ⟨10, _⟩ => ⟨S512x1x2, .f32⟩
  | .hbm, ⟨11, _⟩ => ⟨S512x128x2, .f32⟩
  | .hbm, ⟨12, _⟩ => ⟨S512x128x2, .f32⟩
  | .hbm, ⟨13, _⟩ => ⟨S512x128x2, .f32⟩
  | .hbm, ⟨14, _⟩ => ⟨S512x128x2, .f32⟩
  | .hbm, ⟨15, _⟩ => ⟨S512x1, .f32⟩
  | .hbm, ⟨16, _⟩ => ⟨S512, .f32⟩
  | .hbm, ⟨17, _⟩ => ⟨S512, .i32⟩
  | .hbm, ⟨18, _⟩ => ⟨S512x1, .i32⟩
  | .hbm, ⟨19, _⟩ => ⟨S512x128, .i32⟩
  | .hbm, ⟨20, _⟩ => ⟨S512x128x1, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128x1, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S512x128, .i32⟩
  | .hbm, ⟨41, _⟩ => ⟨S512x128, .i32⟩
  | .hbm, ⟨42, _⟩ => ⟨S512x256x128, .f32⟩
  | .hbm, ⟨43, _⟩ => ⟨S512x128x1, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128x1, .f32⟩
  | .hbm, ⟨52, _⟩ => ⟨S512x128, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S_, .f32⟩
  | .hbm, ⟨57, _⟩ => ⟨S512x128, .f32⟩
  | .hbm, ⟨58, _⟩ => ⟨S512x128, .f32⟩
  | .hbm, ⟨59, _⟩ => ⟨S512x128, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S512x128, .i32⟩
  | .hbm, ⟨64, _⟩ => ⟨S512x128, .i32⟩
  | .hbm, ⟨65, _⟩ => ⟨S512x256x128, .f32⟩
  | .hbm, ⟨66, _⟩ => ⟨S512x128x1, .f32⟩
  | .hbm, ⟨67, _⟩ => ⟨S512x128, .f32⟩
  | .hbm, ⟨68, _⟩ => ⟨S_, .f32⟩
  | .hbm, ⟨69, _⟩ => ⟨S512x128, .f32⟩
  | .hbm, ⟨70, _⟩ => ⟨S512x128, .f32⟩
  | .hbm, ⟨71, _⟩ => ⟨S_, .f32⟩
  | .hbm, ⟨72, _⟩ => ⟨S512x128, .f32⟩
  | .hbm, ⟨73, _⟩ => ⟨S512x128, .f32⟩
  | .hbm, ⟨74, _⟩ => ⟨S512x128x1, .f32⟩
  | .hbm, ⟨75, _⟩ => ⟨S512x128, .f32⟩
  | .hbm, ⟨76, _⟩ => ⟨S_, .f32⟩
  | .hbm, ⟨77, _⟩ => ⟨S512x128, .f32⟩
  | .hbm, ⟨78, _⟩ => ⟨S512x128, .f32⟩
  | .hbm, ⟨79, _⟩ => ⟨S_, .f32⟩
  | .hbm, ⟨80, _⟩ => ⟨S512x128, .f32⟩
  | .hbm, ⟨81, _⟩ => ⟨S512x128, .f32⟩
  | .hbm, ⟨82, _⟩ => ⟨S512x128, .f32⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S512x128, .i32⟩
  | .hbm, ⟨87, _⟩ => ⟨S512x128, .i32⟩
  | .hbm, ⟨88, _⟩ => ⟨S512x256x128, .f32⟩
  | .hbm, ⟨89, _⟩ => ⟨S512x128x1, .f32⟩
  | .hbm, ⟨90, _⟩ => ⟨S512x128, .f32⟩
  | .hbm, ⟨91, _⟩ => ⟨S_, .f32⟩
  | .hbm, ⟨92, _⟩ => ⟨S512x128, .f32⟩
  | .hbm, ⟨93, _⟩ => ⟨S512x128, .f32⟩
  | .hbm, ⟨94, _⟩ => ⟨S_, .f32⟩
  | .hbm, ⟨95, _⟩ => ⟨S512x128, .f32⟩
  | .hbm, ⟨96, _⟩ => ⟨S512x128, .f32⟩
  | .hbm, ⟨97, _⟩ => ⟨S512x128x1, .f32⟩
  | .hbm, ⟨98, _⟩ => ⟨S512x128, .f32⟩
  | .hbm, ⟨99, _⟩ => ⟨S_, .f32⟩
  | .hbm, ⟨100, _⟩ => ⟨S512x128, .f32⟩
  | .hbm, ⟨101, _⟩ => ⟨S512x128, .f32⟩
  | .hbm, ⟨102, _⟩ => ⟨S_, .f32⟩
  | .hbm, ⟨103, _⟩ => ⟨S512x128, .f32⟩
  | .hbm, ⟨104, _⟩ => ⟨S512x128, .f32⟩
  | .hbm, ⟨105, _⟩ => ⟨S512x128, .f32⟩
  | .hbm, ⟨106, _⟩ => ⟨S512x128, .f32⟩
  | .hbm, ⟨107, _⟩ => ⟨S512x128, .f32⟩
  | .hbm, ⟨108, _⟩ => ⟨S512x128, .f32⟩
  | .hbm, ⟨109, _⟩ => ⟨S512x128, .i32⟩
  | .hbm, ⟨110, _⟩ => ⟨S512x128, .i32⟩
  | .hbm, ⟨111, _⟩ => ⟨S512x256x128, .f32⟩
  | .hbm, ⟨112, _⟩ => ⟨S512x1024x128, .f32⟩
  | .local _ .vmem, ⟨0, _⟩ => ⟨S1x256x8x256, .f32⟩
  | .local _ .vmem, ⟨1, _⟩ => ⟨S1x256x8x256, .f32⟩
  | .local _ .vmem, ⟨2, _⟩ => ⟨S8x128, .i32⟩
  | .local _ .vmem, ⟨3, _⟩ => ⟨S8x128, .i32⟩
  | .local _ .vmem, ⟨4, _⟩ => ⟨S8x128, .i32⟩
  | .local _ .vmem, ⟨5, _⟩ => ⟨S8x128, .i32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .i32⟩
  | .local _ .vmem, ⟨11, _⟩ => ⟨S8x128, .i32⟩
  | .local _ .vmem, ⟨12, _⟩ => ⟨S8x256x128, .f32⟩
  | .local _ .vmem, ⟨13, _⟩ => ⟨S8x256x128, .f32⟩
  | .local _ .vmem, ⟨14, _⟩ => ⟨S256x8x128, .f32⟩
  | .local _ .vmem, ⟨15, _⟩ => ⟨S1x256x8x128, .f32⟩
  | .local _ .vmem, ⟨16, _⟩ => ⟨S1x256x8x128, .f32⟩
  | .local _ .vmem, ⟨17, _⟩ => ⟨S8x128, .i32⟩
  | .local _ .vmem, ⟨18, _⟩ => ⟨S8x128, .i32⟩
  | .local _ .vmem, ⟨19, _⟩ => ⟨S8x128, .i32⟩
  | .local _ .vmem, ⟨20, _⟩ => ⟨S8x128, .i32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .i32⟩
  | .local _ .vmem, ⟨26, _⟩ => ⟨S8x128, .i32⟩
  | .local _ .vmem, ⟨27, _⟩ => ⟨S8x256x128, .f32⟩
  | .local _ .vmem, ⟨28, _⟩ => ⟨S8x256x128, .f32⟩
  | .local _ .vmem, ⟨29, _⟩ => ⟨S256x8x128, .f32⟩
  | .local _ .vmem, ⟨30, _⟩ => ⟨S1x256x8x64, .f32⟩
  | .local _ .vmem, ⟨31, _⟩ => ⟨S1x256x8x64, .f32⟩
  | .local _ .vmem, ⟨32, _⟩ => ⟨S8x128, .i32⟩
  | .local _ .vmem, ⟨33, _⟩ => ⟨S8x128, .i32⟩
  | .local _ .vmem, ⟨34, _⟩ => ⟨S8x128, .i32⟩
  | .local _ .vmem, ⟨35, _⟩ => ⟨S8x128, .i32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .i32⟩
  | .local _ .vmem, ⟨41, _⟩ => ⟨S8x128, .i32⟩
  | .local _ .vmem, ⟨42, _⟩ => ⟨S8x256x128, .f32⟩
  | .local _ .vmem, ⟨43, _⟩ => ⟨S8x256x128, .f32⟩
  | .local _ .vmem, ⟨44, _⟩ => ⟨S256x8x128, .f32⟩
  | .local _ .vmem, ⟨45, _⟩ => ⟨S1x256x8x32, .f32⟩
  | .local _ .vmem, ⟨46, _⟩ => ⟨S1x256x8x32, .f32⟩
  | .local _ .vmem, ⟨47, _⟩ => ⟨S8x128, .i32⟩
  | .local _ .vmem, ⟨48, _⟩ => ⟨S8x128, .i32⟩
  | .local _ .vmem, ⟨49, _⟩ => ⟨S8x128, .i32⟩
  | .local _ .vmem, ⟨50, _⟩ => ⟨S8x128, .i32⟩
  | .local _ .vmem, ⟨51, _⟩ => ⟨S8x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S8x128, .i32⟩
  | .local _ .vmem, ⟨56, _⟩ => ⟨S8x128, .i32⟩
  | .local _ .vmem, ⟨57, _⟩ => ⟨S8x256x128, .f32⟩
  | .local _ .vmem, ⟨58, _⟩ => ⟨S8x256x128, .f32⟩
  | .local _ .vmem, ⟨59, _⟩ => ⟨S256x8x128, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_scratch0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_stg6_0 : Ref sig .tc := ⟨.vmem, 57, rfl⟩
abbrev cc3_stg6_1 : Ref sig .tc := ⟨.vmem, 58, rfl⟩
abbrev cc3_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨3, ![64, 2, 32], ![false, false, false]⟩

def k0_cond2 (i : grid0.Coords) : BitVec 1 :=
  let arg1 : BitVec 32 := BitVec.ofNat 32 (i 1).val
  let c1_i32_29 : BitVec 32 := 1#32
  let v86 : BitVec 1 := Scalar.cmpi .eq arg1 c1_i32_29
  let arg2 : BitVec 32 := BitVec.ofNat 32 (i 2).val
  let c31_i32 : BitVec 32 := 31#32
  let v87 : BitVec 1 := Scalar.cmpi .eq arg2 c31_i32
  let v88 : BitVec 1 := Scalar.andi v86 v87
  let v89 : BitVec 32 := Scalar.extui v88
  let c0_i32_30 : BitVec 32 := 0#32
  let v90 : BitVec 1 := Scalar.cmpi .ne v89 c0_i32_30
  v90

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨3, ![64, 2, 16], ![false, false, false]⟩

def k1_cond2 (i : grid1.Coords) : BitVec 1 :=
  let arg1 : BitVec 32 := BitVec.ofNat 32 (i 1).val
  let c1_i32_29 : BitVec 32 := 1#32
  let v86 : BitVec 1 := Scalar.cmpi .eq arg1 c1_i32_29
  let arg2 : BitVec 32 := BitVec.ofNat 32 (i 2).val
  let c15_i32 : BitVec 32 := 15#32
  let v87 : BitVec 1 := Scalar.cmpi .eq arg2 c15_i32
  let v88 : BitVec 1 := Scalar.andi v86 v87
  let v89 : BitVec 32 := Scalar.extui v88
  let c0_i32_30 : BitVec 32 := 0#32
  let v90 : BitVec 1 := Scalar.cmpi .ne v89 c0_i32_30
  v90

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S8x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S8x128 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S8x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev grid2 : Pipeline.Grid := ⟨3, ![64, 2, 8], ![false, false, false]⟩

def k2_cond2 (i : grid2.Coords) : BitVec 1 :=
  let arg1 : BitVec 32 := BitVec.ofNat 32 (i 1).val
  let c1_i32_29 : BitVec 32 := 1#32
  let v86 : BitVec 1 := Scalar.cmpi .eq arg1 c1_i32_29
  let arg2 : BitVec 32 := BitVec.ofNat 32 (i 2).val
  let c7_i32 : BitVec 32 := 7#32
  let v87 : BitVec 1 := Scalar.cmpi .eq arg2 c7_i32
  let v88 : BitVec 1 := Scalar.andi v86 v87
  let v89 : BitVec 32 := Scalar.extui v88
  let c0_i32_30 : BitVec 32 := 0#32
  let v90 : BitVec 1 := Scalar.cmpi .ne v89 c0_i32_30
  v90

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x8x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S8x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S8x128 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S8x256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev grid3 : Pipeline.Grid := ⟨3, ![64, 2, 4], ![false, false, false]⟩

def k3_cond2 (i : grid3.Coords) : BitVec 1 :=
  let arg1 : BitVec 32 := BitVec.ofNat 32 (i 1).val
  let c1_i32_29 : BitVec 32 := 1#32
  let v86 : BitVec 1 := Scalar.cmpi .eq arg1 c1_i32_29
  let arg2 : BitVec 32 := BitVec.ofNat 32 (i 2).val
  let c3_i32 : BitVec 32 := 3#32
  let v87 : BitVec 1 := Scalar.cmpi .eq arg2 c3_i32
  let v88 : BitVec 1 := Scalar.andi v86 v87
  let v89 : BitVec 32 := Scalar.extui v88
  let c0_i32_30 : BitVec 32 := 0#32
  let v90 : BitVec 1 := Scalar.cmpi .ne v89 c0_i32_30
  v90

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x8x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S8x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, false]

abbrev stage3_2 : Fin 2 → Memref sig .tc .vmem S8x128 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 2 → Memref sig .tc .vmem S8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, false]

abbrev stage3_5 : Fin 2 → Memref sig .tc .vmem S8x128 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, false]

abbrev stage3_6 : Fin 2 → Memref sig .tc .vmem S8x256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, false]

class Facts₀ : Prop where
  slices_S512x5_S512x2_0_1 : S512x5.Slices ![0, 1] S512x2
  slices_S512x5_S512x2_0_3 : S512x5.Slices ![0, 3] S512x2
  bcast_S512x2_S512x1x2_0_2 : S512x2.BroadcastsInDim S512x1x2 (![0, 2] : Fin 2 → Fin S512x1x2.rank)
  bcast_S512x1x2_S512x128x2_0_1_2 : S512x1x2.BroadcastsInDim S512x128x2 (![0, 1, 2] : Fin 3 → Fin S512x128x2.rank)
  slices_S512x5_S512x1_0_0 : S512x5.Slices ![0, 0] S512x1
  shapeCasts_S512x1_S512 : S512x1.ShapeCasts S512
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  slices_S512x128x2_S512x128x1_0_0_0 : S512x128x2.Slices ![0, 0, 0] S512x128x1
  shapeCasts_S512x128x1_S512x128 : S512x128x1.ShapeCasts S512x128
  bcast_S_S512x128 : S_.BroadcastsInDim S512x128 (![] : Fin 0 → Fin S512x128.rank)
  slices_S512x128x2_S512x128x1_0_0_1 : S512x128x2.Slices ![0, 0, 1] S512x128x1
  inb_S256x8x128_S256x8x128_0_0_0 : ∀ a, (![0, 0, 0] : Fin 3 → Nat) a + S256x8x128.size a ≤ S256x8x128.size a
  h_S256x8x128 : 0 < S256x8x128.numel
  shapeCasts_S256x8x128_S256x8x128 : S256x8x128.ShapeCasts S256x8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  natLt_1_32 : 1 < 32
  iota_S256x1x1_d0_w32 : S256x1x1.Iotas .tc 32 [0]
  shapeCasts_S8x128_S1x8x128 : S8x128.ShapeCasts S1x8x128
  broadcasts_S256x1x1_S256x8x128 : S256x1x1.Broadcasts S256x8x128
  broadcasts_S1x8x128_S256x8x128 : S1x8x128.Broadcasts S256x8x128
  shapeCasts_S1x8x128_S1x8x128 : S1x8x128.ShapeCasts S1x8x128
  shapeCasts_S256x8x128_S256x1024 : S256x8x128.ShapeCasts S256x1024
  bitsLt_bf16_f32 : FTy.bits .bf16 < FTy.bits .f32
  inb_S1x256x8x256_S1x256x8x256_0_0_0_0 : ∀ a, (![0, 0, 0, 0] : Fin 4 → Nat) a + S1x256x8x256.size a ≤ S1x256x8x256.size a
  h_S1x256x8x256 : 0 < S1x256x8x256.numel
  shapeCasts_S1x256x8x256_S256x8x256 : S1x256x8x256.ShapeCasts S256x8x256
  shapeCasts_S256x8x256_S2048x256 : S256x8x256.ShapeCasts S2048x256
  shapeCasts_S2048x1024_S256x8x8x128 : S2048x1024.ShapeCasts S256x8x8x128
  iota_S8x1x1_d0_w32 : S8x1x1.Iotas .tc 32 [0]
  broadcasts_S8x1x1_S8x8x128 : S8x1x1.Broadcasts S8x8x128
  broadcasts_S1x8x128_S8x8x128 : S1x8x128.Broadcasts S8x8x128
  shapeCasts_S8x8x128_S1x8x8x128 : S8x8x128.ShapeCasts S1x8x8x128
  broadcasts_S1x8x8x128_S256x8x8x128 : S1x8x8x128.Broadcasts S256x8x8x128
  reduces_S256x8x8x128_S256x8x128 : S256x8x8x128.Reduces [1] S256x8x128
  transposes_S256x8x128_p1_0_2_S8x256x128 : S256x8x128.Transposes [1, 0, 2] S8x256x128
  inb_S8x256x128_S8x256x128_0_0_0 : ∀ a, (![0, 0, 0] : Fin 3 → Nat) a + S8x256x128.size a ≤ S8x256x128.size a
  h_S8x256x128 : 0 < S8x256x128.numel
  iota_S128x1x1_d0_w32 : S128x1x1.Iotas .tc 32 [0]
  broadcasts_S128x1x1_S128x8x128 : S128x1x1.Broadcasts S128x8x128
  broadcasts_S1x8x128_S128x8x128 : S1x8x128.Broadcasts S128x8x128
  shapeCasts_S128x8x128_S128x1024 : S128x8x128.ShapeCasts S128x1024
  inb_S1x256x8x128_S1x256x8x128_0_0_0_0 : ∀ a, (![0, 0, 0, 0] : Fin 4 → Nat) a + S1x256x8x128.size a ≤ S1x256x8x128.size a
  h_S1x256x8x128 : 0 < S1x256x8x128.numel
  shapeCasts_S1x256x8x128_S256x8x128 : S1x256x8x128.ShapeCasts S256x8x128
  shapeCasts_S256x8x128_S2048x128 : S256x8x128.ShapeCasts S2048x128
  iota_S64x1x1_d0_w32 : S64x1x1.Iotas .tc 32 [0]
  broadcasts_S64x1x1_S64x8x128 : S64x1x1.Broadcasts S64x8x128
  broadcasts_S1x8x128_S64x8x128 : S1x8x128.Broadcasts S64x8x128
  shapeCasts_S64x8x128_S64x1024 : S64x8x128.ShapeCasts S64x1024
  inb_S1x256x8x64_S1x256x8x64_0_0_0_0 : ∀ a, (![0, 0, 0, 0] : Fin 4 → Nat) a + S1x256x8x64.size a ≤ S1x256x8x64.size a
  h_S1x256x8x64 : 0 < S1x256x8x64.numel
  shapeCasts_S1x256x8x64_S256x8x64 : S1x256x8x64.ShapeCasts S256x8x64
  shapeCasts_S256x8x64_S2048x64 : S256x8x64.ShapeCasts S2048x64
  iota_S32x1x1_d0_w32 : S32x1x1.Iotas .tc 32 [0]
  broadcasts_S32x1x1_S32x8x128 : S32x1x1.Broadcasts S32x8x128
  broadcasts_S1x8x128_S32x8x128 : S1x8x128.Broadcasts S32x8x128
  shapeCasts_S32x8x128_S32x1024 : S32x8x128.ShapeCasts S32x1024
  inb_S1x256x8x32_S1x256x8x32_0_0_0_0 : ∀ a, (![0, 0, 0, 0] : Fin 4 → Nat) a + S1x256x8x32.size a ≤ S1x256x8x32.size a
  h_S1x256x8x32 : 0 < S1x256x8x32.numel
  shapeCasts_S1x256x8x32_S256x8x32 : S1x256x8x32.ShapeCasts S256x8x32
  shapeCasts_S256x8x32_S2048x32 : S256x8x32.ShapeCasts S2048x32
  concatenates_S512x256x128_S512x256x128_S512x256x128_S512x256x128_S512x1024x128_d1 : Shape.Concatenates [S512x256x128, S512x256x128, S512x256x128, S512x256x128] S512x1024x128 1
  dot_S2048x256_S256x1024_S2048x1024_1_0_0_1_n_n_wf : DotDims.WF S2048x256 S256x1024 S2048x1024 [1] [0] [0] [1] [] []
  dot_S2048x128_S128x1024_S2048x1024_1_0_0_1_n_n_wf : DotDims.WF S2048x128 S128x1024 S2048x1024 [1] [0] [0] [1] [] []
  dot_S2048x64_S64x1024_S2048x1024_1_0_0_1_n_n_wf : DotDims.WF S2048x64 S64x1024 S2048x1024 [1] [0] [0] [1] [] []
  dot_S2048x32_S32x1024_S2048x1024_1_0_0_1_n_n_wf : DotDims.WF S2048x32 S32x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x256.size a ≤ S2x256x256x256.size a
  hwx0_0 : ∀ i : grid0.Coords, EltTy.bits .f32 = 32 ∨ (Rect.block (s := S2x256x256x256) S1x256x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S512x128.size a
  hwx0_1 : ∀ i : grid0.Coords, EltTy.bits .i32 = 32 ∨ (Rect.block (s := S512x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S512x128.size a
  hwx0_2 : ∀ i : grid0.Coords, EltTy.bits .i32 = 32 ∨ (Rect.block (s := S512x128) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S512x128.size a
  hwx0_3 : ∀ i : grid0.Coords, EltTy.bits .f32 = 32 ∨ (Rect.block (s := S512x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S512x128.size a
  hwx0_4 : ∀ i : grid0.Coords, EltTy.bits .f32 = 32 ∨ (Rect.block (s := S512x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S512x128.size a
  hwx0_5 : ∀ i : grid0.Coords, EltTy.bits .i32 = 32 ∨ (Rect.block (s := S512x128) S8x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x128.size a ≤ S512x256x128.size a
  hwx0_6 : ∀ i : grid0.Coords, EltTy.bits .f32 = 32 ∨ (Rect.block (s := S512x256x128) S8x256x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x8x128.size a ≤ S2x256x128x128.size a
  hwx1_0 : ∀ i : grid1.Coords, EltTy.bits .f32 = 32 ∨ (Rect.block (s := S2x256x128x128) S1x256x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S512x128.size a
  hwx1_1 : ∀ i : grid1.Coords, EltTy.bits .i32 = 32 ∨ (Rect.block (s := S512x128) S8x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S512x128.size a
  hwx1_2 : ∀ i : grid1.Coords, EltTy.bits .i32 = 32 ∨ (Rect.block (s := S512x128) S8x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S512x128.size a
  hwx1_3 : ∀ i : grid1.Coords, EltTy.bits .f32 = 32 ∨ (Rect.block (s := S512x128) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S512x128.size a
  hwx1_4 : ∀ i : grid1.Coords, EltTy.bits .f32 = 32 ∨ (Rect.block (s := S512x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S512x128.size a
  hwx1_5 : ∀ i : grid1.Coords, EltTy.bits .i32 = 32 ∨ (Rect.block (s := S512x128) S8x128.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256x128.size a ≤ S512x256x128.size a
  hwx1_6 : ∀ i : grid1.Coords, EltTy.bits .f32 = 32 ∨ (Rect.block (s := S512x256x128) S8x256x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x8x64.size a ≤ S2x256x64x64.size a
  hwx2_0 : ∀ i : grid2.Coords, EltTy.bits .f32 = 32 ∨ (Rect.block (s := S2x256x64x64) S1x256x8x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S512x128.size a
  hwx2_1 : ∀ i : grid2.Coords, EltTy.bits .i32 = 32 ∨ (Rect.block (s := S512x128) S8x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S512x128.size a
  hwx2_2 : ∀ i : grid2.Coords, EltTy.bits .i32 = 32 ∨ (Rect.block (s := S512x128) S8x128.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S512x128.size a
  hwx2_3 : ∀ i : grid2.Coords, EltTy.bits .f32 = 32 ∨ (Rect.block (s := S512x128) S8x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S512x128.size a
  hwx2_4 : ∀ i : grid2.Coords, EltTy.bits .f32 = 32 ∨ (Rect.block (s := S512x128) S8x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S512x128.size a
  hwx2_5 : ∀ i : grid2.Coords, EltTy.bits .i32 = 32 ∨ (Rect.block (s := S512x128) S8x128.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x256x128.size a ≤ S512x256x128.size a
  hwx2_6 : ∀ i : grid2.Coords, EltTy.bits .f32 = 32 ∨ (Rect.block (s := S512x256x128) S8x256x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x8x32.size a ≤ S2x256x32x32.size a
  hwx3_0 : ∀ i : grid3.Coords, EltTy.bits .f32 = 32 ∨ (Rect.block (s := S2x256x32x32) S1x256x8x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x128.size a ≤ S512x128.size a
  hwx3_1 : ∀ i : grid3.Coords, EltTy.bits .i32 = 32 ∨ (Rect.block (s := S512x128) S8x128.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x128.size a ≤ S512x128.size a
  hwx3_2 : ∀ i : grid3.Coords, EltTy.bits .i32 = 32 ∨ (Rect.block (s := S512x128) S8x128.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S512x128.size a
  hwx3_3 : ∀ i : grid3.Coords, EltTy.bits .f32 = 32 ∨ (Rect.block (s := S512x128) S8x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x128.size a ≤ S512x128.size a
  hwx3_4 : ∀ i : grid3.Coords, EltTy.bits .f32 = 32 ∨ (Rect.block (s := S512x128) S8x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8x128.size a ≤ S512x128.size a
  hwx3_5 : ∀ i : grid3.Coords, EltTy.bits .i32 = 32 ∨ (Rect.block (s := S512x128) S8x128.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x256x128.size a ≤ S512x256x128.size a
  hwx3_6 : ∀ i : grid3.Coords, EltTy.bits .f32 = 32 ∨ (Rect.block (s := S512x256x128) S8x256x128.size (cc3_transform_6 i) (hinb3_6 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf

abbrev win0_0 : Pipeline.Window sig grid0 :=
  Pipeline.Window.ofSpec (Memref.whole main_arg0) S1x256x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S8x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S8x256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S1x256x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S8x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S8x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v51) S8x256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg2) S1x256x8x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S8x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S8x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v67) S8x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13) S8x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70) S8x256x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_arg3) S1x256x8x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S8x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S8x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S8x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v86) S8x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v13) S8x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v89) S8x256x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x5 : Shape := ⟨2, ![512, 5]⟩
abbrev S512x128x2 : Shape := ⟨3, ![512, 128, 2]⟩
abbrev S512x1 : Shape := ⟨2, ![512, 1]⟩
abbrev S512 : Shape := ⟨1, ![512]⟩
abbrev S512x2 : Shape := ⟨2, ![512, 2]⟩
abbrev S512x1x2 : Shape := ⟨3, ![512, 1, 2]⟩
abbrev S512x128x1 : Shape := ⟨3, ![512, 128, 1]⟩
abbrev S512x128 : Shape := ⟨2, ![512, 128]⟩
abbrev S_ : Shape := ⟨0, ![]⟩
abbrev S512x128x3 : Shape := ⟨3, ![512, 128, 3]⟩
abbrev S512x128x256 : Shape := ⟨3, ![512, 128, 256]⟩
abbrev S512x256x128 : Shape := ⟨3, ![512, 256, 128]⟩
abbrev S512x1024x128 : Shape := ⟨3, ![512, 1024, 128]⟩

abbrev nBuf : Space → Nat
  | .hbm => 1299
  | .vmem => 0
  | .smem => 0
  | _ => 0

abbrev hbmTy0_0 (i : Nat) : BufTy := match i % 128 with
  | 0 => ⟨S2x256x256x256, .f32⟩
  | 1 => ⟨S2x256x128x128, .f32⟩
  | 2 => ⟨S2x256x64x64, .f32⟩
  | 3 => ⟨S2x256x32x32, .f32⟩
  | 4 => ⟨S512x5, .f32⟩
  | 5 => ⟨S512x128x2, .f32⟩
  | 6 => ⟨S512x1, .f32⟩
  | 7 => ⟨S512, .f32⟩
  | 8 => ⟨S512, .i32⟩
  | 9 => ⟨S512x2, .f32⟩
  | 10 => ⟨S512x2, .f32⟩
  | 11 => ⟨S512x1x2, .f32⟩
  | 12 => ⟨S512x2, .f32⟩
  | 13 => ⟨S512x1x2, .f32⟩
  | 14 => ⟨S512x128x2, .f32⟩
  | 15 => ⟨S512x128x2, .f32⟩
  | 16 => ⟨S512x128x2, .f32⟩
  | 17 => ⟨S512x128x2, .f32⟩
  | 18 => ⟨S512x128x1, .f32⟩
  | 19 => ⟨S512x128, .f32⟩
  | 20 => ⟨S_, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128x1, .f32⟩
  | 27 => ⟨S512x128, .f32⟩
  | 28 => ⟨S_, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .i32⟩
  | 39 => ⟨S512x128, .i32⟩
  | 40 => ⟨S_, .i32⟩
  | 41 => ⟨S512x128, .i32⟩
  | 42 => ⟨S512x128, .i1⟩
  | 43 => ⟨S_, .i32⟩
  | 44 => ⟨S512x128, .i32⟩
  | 45 => ⟨S512x128, .i1⟩
  | 46 => ⟨S512x128, .i1⟩
  | 47 => ⟨S_, .i32⟩
  | 48 => ⟨S512x128, .i32⟩
  | 49 => ⟨S512x128, .i1⟩
  | 50 => ⟨S512x128, .i1⟩
  | 51 => ⟨S_, .i32⟩
  | 52 => ⟨S512x128, .i32⟩
  | 53 => ⟨S512x128, .i1⟩
  | 54 => ⟨S512x128, .i1⟩
  | 55 => ⟨S_, .i32⟩
  | 56 => ⟨S_, .i32⟩
  | 57 => ⟨S_, .i32⟩
  | 58 => ⟨S512x128, .i32⟩
  | 59 => ⟨S512x128, .i32⟩
  | 60 => ⟨S_, .i32⟩
  | 61 => ⟨S512x128, .i32⟩
  | 62 => ⟨S512x128, .i32⟩
  | 63 => ⟨S_, .i32⟩
  | 64 => ⟨S_, .i32⟩
  | 65 => ⟨S_, .i32⟩
  | 66 => ⟨S512x128, .i32⟩
  | 67 => ⟨S512x128, .i32⟩
  | 68 => ⟨S_, .i32⟩
  | 69 => ⟨S512x128, .i32⟩
  | 70 => ⟨S512x128, .i32⟩
  | 71 => ⟨S512x1, .i32⟩
  | 72 => ⟨S_, .i32⟩
  | 73 => ⟨S512x1, .i32⟩
  | 74 => ⟨S512x1, .i1⟩
  | 75 => ⟨S_, .i32⟩
  | 76 => ⟨S512x1, .i32⟩
  | 77 => ⟨S512x1, .i32⟩
  | 78 => ⟨S512x1, .i32⟩
  | 79 => ⟨S_, .i32⟩
  | 80 => ⟨S512x128, .i32⟩
  | 81 => ⟨S512x128, .i1⟩
  | 82 => ⟨S_, .i32⟩
  | 83 => ⟨S512x128, .i32⟩
  | 84 => ⟨S512x128, .i32⟩
  | 85 => ⟨S512x128, .i32⟩
  | 86 => ⟨S_, .i32⟩
  | 87 => ⟨S512x128, .i32⟩
  | 88 => ⟨S512x128, .i1⟩
  | 89 => ⟨S_, .i32⟩
  | 90 => ⟨S512x128, .i32⟩
  | 91 => ⟨S512x128, .i32⟩
  | 92 => ⟨S512x128, .i32⟩
  | 93 => ⟨S512x128, .i32⟩
  | 94 => ⟨S512x128x1, .i32⟩
  | 95 => ⟨S512x128x1, .i32⟩
  | 96 => ⟨S512x128x1, .i32⟩
  | 97 => ⟨S512x128x3, .i32⟩
  | 98 => ⟨S512x128x256, .f32⟩
  | 99 => ⟨S512x128x1, .i1⟩
  | 100 => ⟨S512x128x1, .f32⟩
  | 101 => ⟨S512x128x256, .f32⟩
  | 102 => ⟨S512x128x256, .f32⟩
  | 103 => ⟨S_, .i32⟩
  | 104 => ⟨S512x128, .i32⟩
  | 105 => ⟨S512x128, .i32⟩
  | 106 => ⟨S_, .i32⟩
  | 107 => ⟨S512x128, .i32⟩
  | 108 => ⟨S512x128, .i1⟩
  | 109 => ⟨S_, .i32⟩
  | 110 => ⟨S512x128, .i32⟩
  | 111 => ⟨S512x128, .i1⟩
  | 112 => ⟨S512x128, .i1⟩
  | 113 => ⟨S_, .i32⟩
  | 114 => ⟨S512x128, .i32⟩
  | 115 => ⟨S512x128, .i1⟩
  | 116 => ⟨S512x128, .i1⟩
  | 117 => ⟨S_, .i32⟩
  | 118 => ⟨S512x128, .i32⟩
  | 119 => ⟨S512x128, .i1⟩
  | 120 => ⟨S512x128, .i1⟩
  | 121 => ⟨S_, .i32⟩
  | 122 => ⟨S_, .i32⟩
  | 123 => ⟨S_, .i32⟩
  | 124 => ⟨S512x128, .i32⟩
  | 125 => ⟨S512x128, .i32⟩
  | 126 => ⟨S_, .i32⟩
  | 127 => ⟨S512x128, .i32⟩
  | _ => ⟨S2x256x256x256, .f32⟩

abbrev hbmTy0_1 (i : Nat) : BufTy := match i % 128 with
  | 0 => ⟨S512x128, .i32⟩
  | 1 => ⟨S_, .i32⟩
  | 2 => ⟨S_, .i32⟩
  | 3 => ⟨S_, .i32⟩
  | 4 => ⟨S512x128, .i32⟩
  | 5 => ⟨S512x128, .i32⟩
  | 6 => ⟨S_, .i32⟩
  | 7 => ⟨S512x128, .i32⟩
  | 8 => ⟨S512x128, .i32⟩
  | 9 => ⟨S512x1, .i32⟩
  | 10 => ⟨S_, .i32⟩
  | 11 => ⟨S512x1, .i32⟩
  | 12 => ⟨S512x1, .i1⟩
  | 13 => ⟨S_, .i32⟩
  | 14 => ⟨S512x1, .i32⟩
  | 15 => ⟨S512x1, .i32⟩
  | 16 => ⟨S512x1, .i32⟩
  | 17 => ⟨S_, .i32⟩
  | 18 => ⟨S512x128, .i32⟩
  | 19 => ⟨S512x128, .i1⟩
  | 20 => ⟨S_, .i32⟩
  | 21 => ⟨S512x128, .i32⟩
  | 22 => ⟨S512x128, .i32⟩
  | 23 => ⟨S512x128, .i32⟩
  | 24 => ⟨S_, .i32⟩
  | 25 => ⟨S512x128, .i32⟩
  | 26 => ⟨S512x128, .i1⟩
  | 27 => ⟨S_, .i32⟩
  | 28 => ⟨S512x128, .i32⟩
  | 29 => ⟨S512x128, .i32⟩
  | 30 => ⟨S512x128, .i32⟩
  | 31 => ⟨S512x128, .i32⟩
  | 32 => ⟨S512x128x1, .i32⟩
  | 33 => ⟨S512x128x1, .i32⟩
  | 34 => ⟨S512x128x1, .i32⟩
  | 35 => ⟨S512x128x3, .i32⟩
  | 36 => ⟨S512x128x256, .f32⟩
  | 37 => ⟨S512x128x1, .i1⟩
  | 38 => ⟨S512x128x1, .f32⟩
  | 39 => ⟨S512x128x256, .f32⟩
  | 40 => ⟨S512x128x256, .f32⟩
  | 41 => ⟨S_, .i32⟩
  | 42 => ⟨S512x128, .i32⟩
  | 43 => ⟨S512x128, .i32⟩
  | 44 => ⟨S_, .i32⟩
  | 45 => ⟨S512x128, .i32⟩
  | 46 => ⟨S512x128, .i1⟩
  | 47 => ⟨S_, .i32⟩
  | 48 => ⟨S512x128, .i32⟩
  | 49 => ⟨S512x128, .i1⟩
  | 50 => ⟨S512x128, .i1⟩
  | 51 => ⟨S_, .i32⟩
  | 52 => ⟨S512x128, .i32⟩
  | 53 => ⟨S512x128, .i1⟩
  | 54 => ⟨S512x128, .i1⟩
  | 55 => ⟨S_, .i32⟩
  | 56 => ⟨S512x128, .i32⟩
  | 57 => ⟨S512x128, .i1⟩
  | 58 => ⟨S512x128, .i1⟩
  | 59 => ⟨S_, .i32⟩
  | 60 => ⟨S_, .i32⟩
  | 61 => ⟨S_, .i32⟩
  | 62 => ⟨S512x128, .i32⟩
  | 63 => ⟨S512x128, .i32⟩
  | 64 => ⟨S_, .i32⟩
  | 65 => ⟨S512x128, .i32⟩
  | 66 => ⟨S512x128, .i32⟩
  | 67 => ⟨S_, .i32⟩
  | 68 => ⟨S_, .i32⟩
  | 69 => ⟨S_, .i32⟩
  | 70 => ⟨S512x128, .i32⟩
  | 71 => ⟨S512x128, .i32⟩
  | 72 => ⟨S_, .i32⟩
  | 73 => ⟨S512x128, .i32⟩
  | 74 => ⟨S512x128, .i32⟩
  | 75 => ⟨S512x1, .i32⟩
  | 76 => ⟨S_, .i32⟩
  | 77 => ⟨S512x1, .i32⟩
  | 78 => ⟨S512x1, .i1⟩
  | 79 => ⟨S_, .i32⟩
  | 80 => ⟨S512x1, .i32⟩
  | 81 => ⟨S512x1, .i32⟩
  | 82 => ⟨S512x1, .i32⟩
  | 83 => ⟨S_, .i32⟩
  | 84 => ⟨S512x128, .i32⟩
  | 85 => ⟨S512x128, .i1⟩
  | 86 => ⟨S_, .i32⟩
  | 87 => ⟨S512x128, .i32⟩
  | 88 => ⟨S512x128, .i32⟩
  | 89 => ⟨S512x128, .i32⟩
  | 90 => ⟨S_, .i32⟩
  | 91 => ⟨S512x128, .i32⟩
  | 92 => ⟨S512x128, .i1⟩
  | 93 => ⟨S_, .i32⟩
  | 94 => ⟨S512x128, .i32⟩
  | 95 => ⟨S512x128, .i32⟩
  | 96 => ⟨S512x128, .i32⟩
  | 97 => ⟨S512x128, .i32⟩
  | 98 => ⟨S512x128x1, .i32⟩
  | 99 => ⟨S512x128x1, .i32⟩
  | 100 => ⟨S512x128x1, .i32⟩
  | 101 => ⟨S512x128x3, .i32⟩
  | 102 => ⟨S512x128x256, .f32⟩
  | 103 => ⟨S512x128x1, .i1⟩
  | 104 => ⟨S512x128x1, .f32⟩
  | 105 => ⟨S512x128x256, .f32⟩
  | 106 => ⟨S512x128x256, .f32⟩
  | 107 => ⟨S_, .i32⟩
  | 108 => ⟨S512x128, .i32⟩
  | 109 => ⟨S512x128, .i32⟩
  | 110 => ⟨S_, .i32⟩
  | 111 => ⟨S512x128, .i32⟩
  | 112 => ⟨S512x128, .i32⟩
  | 113 => ⟨S_, .i32⟩
  | 114 => ⟨S512x128, .i32⟩
  | 115 => ⟨S512x128, .i1⟩
  | 116 => ⟨S_, .i32⟩
  | 117 => ⟨S512x128, .i32⟩
  | 118 => ⟨S512x128, .i1⟩
  | 119 => ⟨S512x128, .i1⟩
  | 120 => ⟨S_, .i32⟩
  | 121 => ⟨S512x128, .i32⟩
  | 122 => ⟨S512x128, .i1⟩
  | 123 => ⟨S512x128, .i1⟩
  | 124 => ⟨S_, .i32⟩
  | 125 => ⟨S512x128, .i32⟩
  | 126 => ⟨S512x128, .i1⟩
  | 127 => ⟨S512x128, .i1⟩
  | _ => ⟨S2x256x256x256, .f32⟩

abbrev hbmTy0_2 (i : Nat) : BufTy := match i % 128 with
  | 0 => ⟨S_, .i32⟩
  | 1 => ⟨S_, .i32⟩
  | 2 => ⟨S_, .i32⟩
  | 3 => ⟨S512x128, .i32⟩
  | 4 => ⟨S512x128, .i32⟩
  | 5 => ⟨S_, .i32⟩
  | 6 => ⟨S512x128, .i32⟩
  | 7 => ⟨S512x128, .i32⟩
  | 8 => ⟨S_, .i32⟩
  | 9 => ⟨S_, .i32⟩
  | 10 => ⟨S_, .i32⟩
  | 11 => ⟨S512x128, .i32⟩
  | 12 => ⟨S512x128, .i32⟩
  | 13 => ⟨S_, .i32⟩
  | 14 => ⟨S512x128, .i32⟩
  | 15 => ⟨S512x128, .i32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S_, .i32⟩
  | 25 => ⟨S512x128, .i32⟩
  | 26 => ⟨S512x128, .i1⟩
  | 27 => ⟨S_, .i32⟩
  | 28 => ⟨S512x128, .i32⟩
  | 29 => ⟨S512x128, .i32⟩
  | 30 => ⟨S512x128, .i32⟩
  | 31 => ⟨S_, .i32⟩
  | 32 => ⟨S512x128, .i32⟩
  | 33 => ⟨S512x128, .i1⟩
  | 34 => ⟨S_, .i32⟩
  | 35 => ⟨S512x128, .i32⟩
  | 36 => ⟨S512x128, .i32⟩
  | 37 => ⟨S512x128, .i32⟩
  | 38 => ⟨S512x128, .i32⟩
  | 39 => ⟨S512x128x1, .i32⟩
  | 40 => ⟨S512x128x1, .i32⟩
  | 41 => ⟨S512x128x1, .i32⟩
  | 42 => ⟨S512x128x3, .i32⟩
  | 43 => ⟨S512x128x256, .f32⟩
  | 44 => ⟨S512x128x1, .i1⟩
  | 45 => ⟨S512x128x1, .f32⟩
  | 46 => ⟨S512x128x256, .f32⟩
  | 47 => ⟨S512x128x256, .f32⟩
  | 48 => ⟨S512x128x1, .f32⟩
  | 49 => ⟨S512x128x1, .f32⟩
  | 50 => ⟨S_, .f32⟩
  | 51 => ⟨S512x128x1, .f32⟩
  | 52 => ⟨S512x128x1, .f32⟩
  | 53 => ⟨S512x128x256, .f32⟩
  | 54 => ⟨S512x128x256, .f32⟩
  | 55 => ⟨S_, .f32⟩
  | 56 => ⟨S512x128x1, .f32⟩
  | 57 => ⟨S512x128x1, .f32⟩
  | 58 => ⟨S512x128x256, .f32⟩
  | 59 => ⟨S512x128x256, .f32⟩
  | 60 => ⟨S512x128x256, .f32⟩
  | 61 => ⟨S512x128x256, .f32⟩
  | 62 => ⟨S_, .f32⟩
  | 63 => ⟨S512x128x1, .f32⟩
  | 64 => ⟨S512x128x1, .f32⟩
  | 65 => ⟨S512x128x256, .f32⟩
  | 66 => ⟨S512x128x256, .f32⟩
  | 67 => ⟨S512x128x256, .f32⟩
  | 68 => ⟨S_, .f32⟩
  | 69 => ⟨S512x128x1, .f32⟩
  | 70 => ⟨S512x128x1, .f32⟩
  | 71 => ⟨S512x128x256, .f32⟩
  | 72 => ⟨S512x128x256, .f32⟩
  | 73 => ⟨S512x128x256, .f32⟩
  | 74 => ⟨S512x128x256, .f32⟩
  | 75 => ⟨S512x128x256, .f32⟩
  | 76 => ⟨S512x128x256, .f32⟩
  | 77 => ⟨S512x128x256, .f32⟩
  | 78 => ⟨S512x128x256, .f32⟩
  | 79 => ⟨S512x128x256, .f32⟩
  | 80 => ⟨S512x128x256, .f32⟩
  | 81 => ⟨S512x256x128, .f32⟩
  | 82 => ⟨S512x128x1, .f32⟩
  | 83 => ⟨S512x128, .f32⟩
  | 84 => ⟨S_, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S512x128x1, .f32⟩
  | 91 => ⟨S512x128, .f32⟩
  | 92 => ⟨S_, .f32⟩
  | 93 => ⟨S512x128, .f32⟩
  | 94 => ⟨S512x128, .f32⟩
  | 95 => ⟨S_, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .i32⟩
  | 103 => ⟨S512x128, .i32⟩
  | 104 => ⟨S_, .i32⟩
  | 105 => ⟨S512x128, .i32⟩
  | 106 => ⟨S512x128, .i1⟩
  | 107 => ⟨S_, .i32⟩
  | 108 => ⟨S512x128, .i32⟩
  | 109 => ⟨S512x128, .i1⟩
  | 110 => ⟨S512x128, .i1⟩
  | 111 => ⟨S_, .i32⟩
  | 112 => ⟨S512x128, .i32⟩
  | 113 => ⟨S512x128, .i1⟩
  | 114 => ⟨S512x128, .i1⟩
  | 115 => ⟨S_, .i32⟩
  | 116 => ⟨S512x128, .i32⟩
  | 117 => ⟨S512x128, .i1⟩
  | 118 => ⟨S512x128, .i1⟩
  | 119 => ⟨S_, .i32⟩
  | 120 => ⟨S_, .i32⟩
  | 121 => ⟨S_, .i32⟩
  | 122 => ⟨S512x128, .i32⟩
  | 123 => ⟨S512x128, .i32⟩
  | 124 => ⟨S_, .i32⟩
  | 125 => ⟨S512x128, .i32⟩
  | 126 => ⟨S512x128, .i32⟩
  | 127 => ⟨S_, .i32⟩
  | _ => ⟨S2x256x256x256, .f32⟩

abbrev hbmTy0_3 (i : Nat) : BufTy := match i % 128 with
  | 0 => ⟨S_, .i32⟩
  | 1 => ⟨S_, .i32⟩
  | 2 => ⟨S512x128, .i32⟩
  | 3 => ⟨S512x128, .i32⟩
  | 4 => ⟨S_, .i32⟩
  | 5 => ⟨S512x128, .i32⟩
  | 6 => ⟨S512x128, .i32⟩
  | 7 => ⟨S512x1, .i32⟩
  | 8 => ⟨S_, .i32⟩
  | 9 => ⟨S512x1, .i32⟩
  | 10 => ⟨S512x1, .i1⟩
  | 11 => ⟨S_, .i32⟩
  | 12 => ⟨S512x1, .i32⟩
  | 13 => ⟨S512x1, .i32⟩
  | 14 => ⟨S512x1, .i32⟩
  | 15 => ⟨S_, .i32⟩
  | 16 => ⟨S512x128, .i32⟩
  | 17 => ⟨S512x128, .i1⟩
  | 18 => ⟨S_, .i32⟩
  | 19 => ⟨S512x128, .i32⟩
  | 20 => ⟨S512x128, .i32⟩
  | 21 => ⟨S512x128, .i32⟩
  | 22 => ⟨S_, .i32⟩
  | 23 => ⟨S512x128, .i32⟩
  | 24 => ⟨S512x128, .i1⟩
  | 25 => ⟨S_, .i32⟩
  | 26 => ⟨S512x128, .i32⟩
  | 27 => ⟨S512x128, .i32⟩
  | 28 => ⟨S512x128, .i32⟩
  | 29 => ⟨S512x128, .i32⟩
  | 30 => ⟨S512x128x1, .i32⟩
  | 31 => ⟨S512x128x1, .i32⟩
  | 32 => ⟨S512x128x1, .i32⟩
  | 33 => ⟨S512x128x3, .i32⟩
  | 34 => ⟨S512x128x256, .f32⟩
  | 35 => ⟨S512x128x1, .i1⟩
  | 36 => ⟨S512x128x1, .f32⟩
  | 37 => ⟨S512x128x256, .f32⟩
  | 38 => ⟨S512x128x256, .f32⟩
  | 39 => ⟨S_, .i32⟩
  | 40 => ⟨S512x128, .i32⟩
  | 41 => ⟨S512x128, .i32⟩
  | 42 => ⟨S_, .i32⟩
  | 43 => ⟨S512x128, .i32⟩
  | 44 => ⟨S512x128, .i1⟩
  | 45 => ⟨S_, .i32⟩
  | 46 => ⟨S512x128, .i32⟩
  | 47 => ⟨S512x128, .i1⟩
  | 48 => ⟨S512x128, .i1⟩
  | 49 => ⟨S_, .i32⟩
  | 50 => ⟨S512x128, .i32⟩
  | 51 => ⟨S512x128, .i1⟩
  | 52 => ⟨S512x128, .i1⟩
  | 53 => ⟨S_, .i32⟩
  | 54 => ⟨S512x128, .i32⟩
  | 55 => ⟨S512x128, .i1⟩
  | 56 => ⟨S512x128, .i1⟩
  | 57 => ⟨S_, .i32⟩
  | 58 => ⟨S_, .i32⟩
  | 59 => ⟨S_, .i32⟩
  | 60 => ⟨S512x128, .i32⟩
  | 61 => ⟨S512x128, .i32⟩
  | 62 => ⟨S_, .i32⟩
  | 63 => ⟨S512x128, .i32⟩
  | 64 => ⟨S512x128, .i32⟩
  | 65 => ⟨S_, .i32⟩
  | 66 => ⟨S_, .i32⟩
  | 67 => ⟨S_, .i32⟩
  | 68 => ⟨S512x128, .i32⟩
  | 69 => ⟨S512x128, .i32⟩
  | 70 => ⟨S_, .i32⟩
  | 71 => ⟨S512x128, .i32⟩
  | 72 => ⟨S512x128, .i32⟩
  | 73 => ⟨S512x1, .i32⟩
  | 74 => ⟨S_, .i32⟩
  | 75 => ⟨S512x1, .i32⟩
  | 76 => ⟨S512x1, .i1⟩
  | 77 => ⟨S_, .i32⟩
  | 78 => ⟨S512x1, .i32⟩
  | 79 => ⟨S512x1, .i32⟩
  | 80 => ⟨S512x1, .i32⟩
  | 81 => ⟨S_, .i32⟩
  | 82 => ⟨S512x128, .i32⟩
  | 83 => ⟨S512x128, .i1⟩
  | 84 => ⟨S_, .i32⟩
  | 85 => ⟨S512x128, .i32⟩
  | 86 => ⟨S512x128, .i32⟩
  | 87 => ⟨S512x128, .i32⟩
  | 88 => ⟨S_, .i32⟩
  | 89 => ⟨S512x128, .i32⟩
  | 90 => ⟨S512x128, .i1⟩
  | 91 => ⟨S_, .i32⟩
  | 92 => ⟨S512x128, .i32⟩
  | 93 => ⟨S512x128, .i32⟩
  | 94 => ⟨S512x128, .i32⟩
  | 95 => ⟨S512x128, .i32⟩
  | 96 => ⟨S512x128x1, .i32⟩
  | 97 => ⟨S512x128x1, .i32⟩
  | 98 => ⟨S512x128x1, .i32⟩
  | 99 => ⟨S512x128x3, .i32⟩
  | 100 => ⟨S512x128x256, .f32⟩
  | 101 => ⟨S512x128x1, .i1⟩
  | 102 => ⟨S512x128x1, .f32⟩
  | 103 => ⟨S512x128x256, .f32⟩
  | 104 => ⟨S512x128x256, .f32⟩
  | 105 => ⟨S_, .i32⟩
  | 106 => ⟨S512x128, .i32⟩
  | 107 => ⟨S512x128, .i32⟩
  | 108 => ⟨S_, .i32⟩
  | 109 => ⟨S512x128, .i32⟩
  | 110 => ⟨S512x128, .i1⟩
  | 111 => ⟨S_, .i32⟩
  | 112 => ⟨S512x128, .i32⟩
  | 113 => ⟨S512x128, .i1⟩
  | 114 => ⟨S512x128, .i1⟩
  | 115 => ⟨S_, .i32⟩
  | 116 => ⟨S512x128, .i32⟩
  | 117 => ⟨S512x128, .i1⟩
  | 118 => ⟨S512x128, .i1⟩
  | 119 => ⟨S_, .i32⟩
  | 120 => ⟨S512x128, .i32⟩
  | 121 => ⟨S512x128, .i1⟩
  | 122 => ⟨S512x128, .i1⟩
  | 123 => ⟨S_, .i32⟩
  | 124 => ⟨S_, .i32⟩
  | 125 => ⟨S_, .i32⟩
  | 126 => ⟨S512x128, .i32⟩
  | 127 => ⟨S512x128, .i32⟩
  | _ => ⟨S2x256x256x256, .f32⟩

abbrev hbmTy0_4 (i : Nat) : BufTy := match i % 128 with
  | 0 => ⟨S_, .i32⟩
  | 1 => ⟨S512x128, .i32⟩
  | 2 => ⟨S512x128, .i32⟩
  | 3 => ⟨S_, .i32⟩
  | 4 => ⟨S_, .i32⟩
  | 5 => ⟨S_, .i32⟩
  | 6 => ⟨S512x128, .i32⟩
  | 7 => ⟨S512x128, .i32⟩
  | 8 => ⟨S_, .i32⟩
  | 9 => ⟨S512x128, .i32⟩
  | 10 => ⟨S512x128, .i32⟩
  | 11 => ⟨S512x1, .i32⟩
  | 12 => ⟨S_, .i32⟩
  | 13 => ⟨S512x1, .i32⟩
  | 14 => ⟨S512x1, .i1⟩
  | 15 => ⟨S_, .i32⟩
  | 16 => ⟨S512x1, .i32⟩
  | 17 => ⟨S512x1, .i32⟩
  | 18 => ⟨S512x1, .i32⟩
  | 19 => ⟨S_, .i32⟩
  | 20 => ⟨S512x128, .i32⟩
  | 21 => ⟨S512x128, .i1⟩
  | 22 => ⟨S_, .i32⟩
  | 23 => ⟨S512x128, .i32⟩
  | 24 => ⟨S512x128, .i32⟩
  | 25 => ⟨S512x128, .i32⟩
  | 26 => ⟨S_, .i32⟩
  | 27 => ⟨S512x128, .i32⟩
  | 28 => ⟨S512x128, .i1⟩
  | 29 => ⟨S_, .i32⟩
  | 30 => ⟨S512x128, .i32⟩
  | 31 => ⟨S512x128, .i32⟩
  | 32 => ⟨S512x128, .i32⟩
  | 33 => ⟨S512x128, .i32⟩
  | 34 => ⟨S512x128x1, .i32⟩
  | 35 => ⟨S512x128x1, .i32⟩
  | 36 => ⟨S512x128x1, .i32⟩
  | 37 => ⟨S512x128x3, .i32⟩
  | 38 => ⟨S512x128x256, .f32⟩
  | 39 => ⟨S512x128x1, .i1⟩
  | 40 => ⟨S512x128x1, .f32⟩
  | 41 => ⟨S512x128x256, .f32⟩
  | 42 => ⟨S512x128x256, .f32⟩
  | 43 => ⟨S_, .i32⟩
  | 44 => ⟨S512x128, .i32⟩
  | 45 => ⟨S512x128, .i32⟩
  | 46 => ⟨S_, .i32⟩
  | 47 => ⟨S512x128, .i32⟩
  | 48 => ⟨S512x128, .i32⟩
  | 49 => ⟨S_, .i32⟩
  | 50 => ⟨S512x128, .i32⟩
  | 51 => ⟨S512x128, .i1⟩
  | 52 => ⟨S_, .i32⟩
  | 53 => ⟨S512x128, .i32⟩
  | 54 => ⟨S512x128, .i1⟩
  | 55 => ⟨S512x128, .i1⟩
  | 56 => ⟨S_, .i32⟩
  | 57 => ⟨S512x128, .i32⟩
  | 58 => ⟨S512x128, .i1⟩
  | 59 => ⟨S512x128, .i1⟩
  | 60 => ⟨S_, .i32⟩
  | 61 => ⟨S512x128, .i32⟩
  | 62 => ⟨S512x128, .i1⟩
  | 63 => ⟨S512x128, .i1⟩
  | 64 => ⟨S_, .i32⟩
  | 65 => ⟨S_, .i32⟩
  | 66 => ⟨S_, .i32⟩
  | 67 => ⟨S512x128, .i32⟩
  | 68 => ⟨S512x128, .i32⟩
  | 69 => ⟨S_, .i32⟩
  | 70 => ⟨S512x128, .i32⟩
  | 71 => ⟨S512x128, .i32⟩
  | 72 => ⟨S_, .i32⟩
  | 73 => ⟨S_, .i32⟩
  | 74 => ⟨S_, .i32⟩
  | 75 => ⟨S512x128, .i32⟩
  | 76 => ⟨S512x128, .i32⟩
  | 77 => ⟨S_, .i32⟩
  | 78 => ⟨S512x128, .i32⟩
  | 79 => ⟨S512x128, .i32⟩
  | 80 => ⟨S512x1, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i32⟩
  | 87 => ⟨S512x1, .i32⟩
  | 88 => ⟨S_, .i32⟩
  | 89 => ⟨S512x128, .i32⟩
  | 90 => ⟨S512x128, .i1⟩
  | 91 => ⟨S_, .i32⟩
  | 92 => ⟨S512x128, .i32⟩
  | 93 => ⟨S512x128, .i32⟩
  | 94 => ⟨S512x128, .i32⟩
  | 95 => ⟨S_, .i32⟩
  | 96 => ⟨S512x128, .i32⟩
  | 97 => ⟨S512x128, .i1⟩
  | 98 => ⟨S_, .i32⟩
  | 99 => ⟨S512x128, .i32⟩
  | 100 => ⟨S512x128, .i32⟩
  | 101 => ⟨S512x128, .i32⟩
  | 102 => ⟨S512x128, .i32⟩
  | 103 => ⟨S512x128x1, .i32⟩
  | 104 => ⟨S512x128x1, .i32⟩
  | 105 => ⟨S512x128x1, .i32⟩
  | 106 => ⟨S512x128x3, .i32⟩
  | 107 => ⟨S512x128x256, .f32⟩
  | 108 => ⟨S512x128x1, .i1⟩
  | 109 => ⟨S512x128x1, .f32⟩
  | 110 => ⟨S512x128x256, .f32⟩
  | 111 => ⟨S512x128x256, .f32⟩
  | 112 => ⟨S512x128x1, .f32⟩
  | 113 => ⟨S512x128x1, .f32⟩
  | 114 => ⟨S_, .f32⟩
  | 115 => ⟨S512x128x1, .f32⟩
  | 116 => ⟨S512x128x1, .f32⟩
  | 117 => ⟨S512x128x256, .f32⟩
  | 118 => ⟨S512x128x256, .f32⟩
  | 119 => ⟨S_, .f32⟩
  | 120 => ⟨S512x128x1, .f32⟩
  | 121 => ⟨S512x128x1, .f32⟩
  | 122 => ⟨S512x128x256, .f32⟩
  | 123 => ⟨S512x128x256, .f32⟩
  | 124 => ⟨S512x128x256, .f32⟩
  | 125 => ⟨S512x128x256, .f32⟩
  | 126 => ⟨S_, .f32⟩
  | 127 => ⟨S512x128x1, .f32⟩
  | _ => ⟨S2x256x256x256, .f32⟩

abbrev hbmTy0_5 (i : Nat) : BufTy := match i % 128 with
  | 0 => ⟨S512x128x1, .f32⟩
  | 1 => ⟨S512x128x256, .f32⟩
  | 2 => ⟨S512x128x256, .f32⟩
  | 3 => ⟨S512x128x256, .f32⟩
  | 4 => ⟨S_, .f32⟩
  | 5 => ⟨S512x128x1, .f32⟩
  | 6 => ⟨S512x128x1, .f32⟩
  | 7 => ⟨S512x128x256, .f32⟩
  | 8 => ⟨S512x128x256, .f32⟩
  | 9 => ⟨S512x128x256, .f32⟩
  | 10 => ⟨S512x128x256, .f32⟩
  | 11 => ⟨S512x128x256, .f32⟩
  | 12 => ⟨S512x128x256, .f32⟩
  | 13 => ⟨S512x128x256, .f32⟩
  | 14 => ⟨S512x128x256, .f32⟩
  | 15 => ⟨S512x128x256, .f32⟩
  | 16 => ⟨S512x128x256, .f32⟩
  | 17 => ⟨S512x256x128, .f32⟩
  | 18 => ⟨S512x128x1, .f32⟩
  | 19 => ⟨S512x128, .f32⟩
  | 20 => ⟨S_, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128x1, .f32⟩
  | 27 => ⟨S512x128, .f32⟩
  | 28 => ⟨S_, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .i32⟩
  | 39 => ⟨S512x128, .i32⟩
  | 40 => ⟨S_, .i32⟩
  | 41 => ⟨S512x128, .i32⟩
  | 42 => ⟨S512x128, .i1⟩
  | 43 => ⟨S_, .i32⟩
  | 44 => ⟨S512x128, .i32⟩
  | 45 => ⟨S512x128, .i1⟩
  | 46 => ⟨S512x128, .i1⟩
  | 47 => ⟨S_, .i32⟩
  | 48 => ⟨S512x128, .i32⟩
  | 49 => ⟨S512x128, .i1⟩
  | 50 => ⟨S512x128, .i1⟩
  | 51 => ⟨S_, .i32⟩
  | 52 => ⟨S512x128, .i32⟩
  | 53 => ⟨S512x128, .i1⟩
  | 54 => ⟨S512x128, .i1⟩
  | 55 => ⟨S_, .i32⟩
  | 56 => ⟨S_, .i32⟩
  | 57 => ⟨S_, .i32⟩
  | 58 => ⟨S512x128, .i32⟩
  | 59 => ⟨S512x128, .i32⟩
  | 60 => ⟨S_, .i32⟩
  | 61 => ⟨S512x128, .i32⟩
  | 62 => ⟨S512x128, .i32⟩
  | 63 => ⟨S_, .i32⟩
  | 64 => ⟨S_, .i32⟩
  | 65 => ⟨S_, .i32⟩
  | 66 => ⟨S512x128, .i32⟩
  | 67 => ⟨S512x128, .i32⟩
  | 68 => ⟨S_, .i32⟩
  | 69 => ⟨S512x128, .i32⟩
  | 70 => ⟨S512x128, .i32⟩
  | 71 => ⟨S512x1, .i32⟩
  | 72 => ⟨S_, .i32⟩
  | 73 => ⟨S512x1, .i32⟩
  | 74 => ⟨S512x1, .i1⟩
  | 75 => ⟨S_, .i32⟩
  | 76 => ⟨S512x1, .i32⟩
  | 77 => ⟨S512x1, .i32⟩
  | 78 => ⟨S512x1, .i32⟩
  | 79 => ⟨S_, .i32⟩
  | 80 => ⟨S512x128, .i32⟩
  | 81 => ⟨S512x128, .i1⟩
  | 82 => ⟨S_, .i32⟩
  | 83 => ⟨S512x128, .i32⟩
  | 84 => ⟨S512x128, .i32⟩
  | 85 => ⟨S512x128, .i32⟩
  | 86 => ⟨S_, .i32⟩
  | 87 => ⟨S512x128, .i32⟩
  | 88 => ⟨S512x128, .i1⟩
  | 89 => ⟨S_, .i32⟩
  | 90 => ⟨S512x128, .i32⟩
  | 91 => ⟨S512x128, .i32⟩
  | 92 => ⟨S512x128, .i32⟩
  | 93 => ⟨S512x128, .i32⟩
  | 94 => ⟨S512x128x1, .i32⟩
  | 95 => ⟨S512x128x1, .i32⟩
  | 96 => ⟨S512x128x1, .i32⟩
  | 97 => ⟨S512x128x3, .i32⟩
  | 98 => ⟨S512x128x256, .f32⟩
  | 99 => ⟨S512x128x1, .i1⟩
  | 100 => ⟨S512x128x1, .f32⟩
  | 101 => ⟨S512x128x256, .f32⟩
  | 102 => ⟨S512x128x256, .f32⟩
  | 103 => ⟨S_, .i32⟩
  | 104 => ⟨S512x128, .i32⟩
  | 105 => ⟨S512x128, .i32⟩
  | 106 => ⟨S_, .i32⟩
  | 107 => ⟨S512x128, .i32⟩
  | 108 => ⟨S512x128, .i1⟩
  | 109 => ⟨S_, .i32⟩
  | 110 => ⟨S512x128, .i32⟩
  | 111 => ⟨S512x128, .i1⟩
  | 112 => ⟨S512x128, .i1⟩
  | 113 => ⟨S_, .i32⟩
  | 114 => ⟨S512x128, .i32⟩
  | 115 => ⟨S512x128, .i1⟩
  | 116 => ⟨S512x128, .i1⟩
  | 117 => ⟨S_, .i32⟩
  | 118 => ⟨S512x128, .i32⟩
  | 119 => ⟨S512x128, .i1⟩
  | 120 => ⟨S512x128, .i1⟩
  | 121 => ⟨S_, .i32⟩
  | 122 => ⟨S_, .i32⟩
  | 123 => ⟨S_, .i32⟩
  | 124 => ⟨S512x128, .i32⟩
  | 125 => ⟨S512x128, .i32⟩
  | 126 => ⟨S_, .i32⟩
  | 127 => ⟨S512x128, .i32⟩
  | _ => ⟨S2x256x256x256, .f32⟩

abbrev hbmTy0_6 (i : Nat) : BufTy := match i % 128 with
  | 0 => ⟨S512x128, .i32⟩
  | 1 => ⟨S_, .i32⟩
  | 2 => ⟨S_, .i32⟩
  | 3 => ⟨S_, .i32⟩
  | 4 => ⟨S512x128, .i32⟩
  | 5 => ⟨S512x128, .i32⟩
  | 6 => ⟨S_, .i32⟩
  | 7 => ⟨S512x128, .i32⟩
  | 8 => ⟨S512x128, .i32⟩
  | 9 => ⟨S512x1, .i32⟩
  | 10 => ⟨S_, .i32⟩
  | 11 => ⟨S512x1, .i32⟩
  | 12 => ⟨S512x1, .i1⟩
  | 13 => ⟨S_, .i32⟩
  | 14 => ⟨S512x1, .i32⟩
  | 15 => ⟨S512x1, .i32⟩
  | 16 => ⟨S512x1, .i32⟩
  | 17 => ⟨S_, .i32⟩
  | 18 => ⟨S512x128, .i32⟩
  | 19 => ⟨S512x128, .i1⟩
  | 20 => ⟨S_, .i32⟩
  | 21 => ⟨S512x128, .i32⟩
  | 22 => ⟨S512x128, .i32⟩
  | 23 => ⟨S512x128, .i32⟩
  | 24 => ⟨S_, .i32⟩
  | 25 => ⟨S512x128, .i32⟩
  | 26 => ⟨S512x128, .i1⟩
  | 27 => ⟨S_, .i32⟩
  | 28 => ⟨S512x128, .i32⟩
  | 29 => ⟨S512x128, .i32⟩
  | 30 => ⟨S512x128, .i32⟩
  | 31 => ⟨S512x128, .i32⟩
  | 32 => ⟨S512x128x1, .i32⟩
  | 33 => ⟨S512x128x1, .i32⟩
  | 34 => ⟨S512x128x1, .i32⟩
  | 35 => ⟨S512x128x3, .i32⟩
  | 36 => ⟨S512x128x256, .f32⟩
  | 37 => ⟨S512x128x1, .i1⟩
  | 38 => ⟨S512x128x1, .f32⟩
  | 39 => ⟨S512x128x256, .f32⟩
  | 40 => ⟨S512x128x256, .f32⟩
  | 41 => ⟨S_, .i32⟩
  | 42 => ⟨S512x128, .i32⟩
  | 43 => ⟨S512x128, .i32⟩
  | 44 => ⟨S_, .i32⟩
  | 45 => ⟨S512x128, .i32⟩
  | 46 => ⟨S512x128, .i1⟩
  | 47 => ⟨S_, .i32⟩
  | 48 => ⟨S512x128, .i32⟩
  | 49 => ⟨S512x128, .i1⟩
  | 50 => ⟨S512x128, .i1⟩
  | 51 => ⟨S_, .i32⟩
  | 52 => ⟨S512x128, .i32⟩
  | 53 => ⟨S512x128, .i1⟩
  | 54 => ⟨S512x128, .i1⟩
  | 55 => ⟨S_, .i32⟩
  | 56 => ⟨S512x128, .i32⟩
  | 57 => ⟨S512x128, .i1⟩
  | 58 => ⟨S512x128, .i1⟩
  | 59 => ⟨S_, .i32⟩
  | 60 => ⟨S_, .i32⟩
  | 61 => ⟨S_, .i32⟩
  | 62 => ⟨S512x128, .i32⟩
  | 63 => ⟨S512x128, .i32⟩
  | 64 => ⟨S_, .i32⟩
  | 65 => ⟨S512x128, .i32⟩
  | 66 => ⟨S512x128, .i32⟩
  | 67 => ⟨S_, .i32⟩
  | 68 => ⟨S_, .i32⟩
  | 69 => ⟨S_, .i32⟩
  | 70 => ⟨S512x128, .i32⟩
  | 71 => ⟨S512x128, .i32⟩
  | 72 => ⟨S_, .i32⟩
  | 73 => ⟨S512x128, .i32⟩
  | 74 => ⟨S512x128, .i32⟩
  | 75 => ⟨S512x1, .i32⟩
  | 76 => ⟨S_, .i32⟩
  | 77 => ⟨S512x1, .i32⟩
  | 78 => ⟨S512x1, .i1⟩
  | 79 => ⟨S_, .i32⟩
  | 80 => ⟨S512x1, .i32⟩
  | 81 => ⟨S512x1, .i32⟩
  | 82 => ⟨S512x1, .i32⟩
  | 83 => ⟨S_, .i32⟩
  | 84 => ⟨S512x128, .i32⟩
  | 85 => ⟨S512x128, .i1⟩
  | 86 => ⟨S_, .i32⟩
  | 87 => ⟨S512x128, .i32⟩
  | 88 => ⟨S512x128, .i32⟩
  | 89 => ⟨S512x128, .i32⟩
  | 90 => ⟨S_, .i32⟩
  | 91 => ⟨S512x128, .i32⟩
  | 92 => ⟨S512x128, .i1⟩
  | 93 => ⟨S_, .i32⟩
  | 94 => ⟨S512x128, .i32⟩
  | 95 => ⟨S512x128, .i32⟩
  | 96 => ⟨S512x128, .i32⟩
  | 97 => ⟨S512x128, .i32⟩
  | 98 => ⟨S512x128x1, .i32⟩
  | 99 => ⟨S512x128x1, .i32⟩
  | 100 => ⟨S512x128x1, .i32⟩
  | 101 => ⟨S512x128x3, .i32⟩
  | 102 => ⟨S512x128x256, .f32⟩
  | 103 => ⟨S512x128x1, .i1⟩
  | 104 => ⟨S512x128x1, .f32⟩
  | 105 => ⟨S512x128x256, .f32⟩
  | 106 => ⟨S512x128x256, .f32⟩
  | 107 => ⟨S_, .i32⟩
  | 108 => ⟨S512x128, .i32⟩
  | 109 => ⟨S512x128, .i32⟩
  | 110 => ⟨S_, .i32⟩
  | 111 => ⟨S512x128, .i32⟩
  | 112 => ⟨S512x128, .i32⟩
  | 113 => ⟨S_, .i32⟩
  | 114 => ⟨S512x128, .i32⟩
  | 115 => ⟨S512x128, .i1⟩
  | 116 => ⟨S_, .i32⟩
  | 117 => ⟨S512x128, .i32⟩
  | 118 => ⟨S512x128, .i1⟩
  | 119 => ⟨S512x128, .i1⟩
  | 120 => ⟨S_, .i32⟩
  | 121 => ⟨S512x128, .i32⟩
  | 122 => ⟨S512x128, .i1⟩
  | 123 => ⟨S512x128, .i1⟩
  | 124 => ⟨S_, .i32⟩
  | 125 => ⟨S512x128, .i32⟩
  | 126 => ⟨S512x128, .i1⟩
  | 127 => ⟨S512x128, .i1⟩
  | _ => ⟨S2x256x256x256, .f32⟩

abbrev hbmTy0_7 (i : Nat) : BufTy := match i % 128 with
  | 0 => ⟨S_, .i32⟩
  | 1 => ⟨S_, .i32⟩
  | 2 => ⟨S_, .i32⟩
  | 3 => ⟨S512x128, .i32⟩
  | 4 => ⟨S512x128, .i32⟩
  | 5 => ⟨S_, .i32⟩
  | 6 => ⟨S512x128, .i32⟩
  | 7 => ⟨S512x128, .i32⟩
  | 8 => ⟨S_, .i32⟩
  | 9 => ⟨S_, .i32⟩
  | 10 => ⟨S_, .i32⟩
  | 11 => ⟨S512x128, .i32⟩
  | 12 => ⟨S512x128, .i32⟩
  | 13 => ⟨S_, .i32⟩
  | 14 => ⟨S512x128, .i32⟩
  | 15 => ⟨S512x128, .i32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S_, .i32⟩
  | 25 => ⟨S512x128, .i32⟩
  | 26 => ⟨S512x128, .i1⟩
  | 27 => ⟨S_, .i32⟩
  | 28 => ⟨S512x128, .i32⟩
  | 29 => ⟨S512x128, .i32⟩
  | 30 => ⟨S512x128, .i32⟩
  | 31 => ⟨S_, .i32⟩
  | 32 => ⟨S512x128, .i32⟩
  | 33 => ⟨S512x128, .i1⟩
  | 34 => ⟨S_, .i32⟩
  | 35 => ⟨S512x128, .i32⟩
  | 36 => ⟨S512x128, .i32⟩
  | 37 => ⟨S512x128, .i32⟩
  | 38 => ⟨S512x128, .i32⟩
  | 39 => ⟨S512x128x1, .i32⟩
  | 40 => ⟨S512x128x1, .i32⟩
  | 41 => ⟨S512x128x1, .i32⟩
  | 42 => ⟨S512x128x3, .i32⟩
  | 43 => ⟨S512x128x256, .f32⟩
  | 44 => ⟨S512x128x1, .i1⟩
  | 45 => ⟨S512x128x1, .f32⟩
  | 46 => ⟨S512x128x256, .f32⟩
  | 47 => ⟨S512x128x256, .f32⟩
  | 48 => ⟨S512x128x1, .f32⟩
  | 49 => ⟨S512x128x1, .f32⟩
  | 50 => ⟨S_, .f32⟩
  | 51 => ⟨S512x128x1, .f32⟩
  | 52 => ⟨S512x128x1, .f32⟩
  | 53 => ⟨S512x128x256, .f32⟩
  | 54 => ⟨S512x128x256, .f32⟩
  | 55 => ⟨S_, .f32⟩
  | 56 => ⟨S512x128x1, .f32⟩
  | 57 => ⟨S512x128x1, .f32⟩
  | 58 => ⟨S512x128x256, .f32⟩
  | 59 => ⟨S512x128x256, .f32⟩
  | 60 => ⟨S512x128x256, .f32⟩
  | 61 => ⟨S512x128x256, .f32⟩
  | 62 => ⟨S_, .f32⟩
  | 63 => ⟨S512x128x1, .f32⟩
  | 64 => ⟨S512x128x1, .f32⟩
  | 65 => ⟨S512x128x256, .f32⟩
  | 66 => ⟨S512x128x256, .f32⟩
  | 67 => ⟨S512x128x256, .f32⟩
  | 68 => ⟨S_, .f32⟩
  | 69 => ⟨S512x128x1, .f32⟩
  | 70 => ⟨S512x128x1, .f32⟩
  | 71 => ⟨S512x128x256, .f32⟩
  | 72 => ⟨S512x128x256, .f32⟩
  | 73 => ⟨S512x128x256, .f32⟩
  | 74 => ⟨S512x128x256, .f32⟩
  | 75 => ⟨S512x128x256, .f32⟩
  | 76 => ⟨S512x128x256, .f32⟩
  | 77 => ⟨S512x128x256, .f32⟩
  | 78 => ⟨S512x128x256, .f32⟩
  | 79 => ⟨S512x128x256, .f32⟩
  | 80 => ⟨S512x128x256, .f32⟩
  | 81 => ⟨S512x256x128, .f32⟩
  | 82 => ⟨S512x128x1, .f32⟩
  | 83 => ⟨S512x128, .f32⟩
  | 84 => ⟨S_, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S512x128x1, .f32⟩
  | 91 => ⟨S512x128, .f32⟩
  | 92 => ⟨S_, .f32⟩
  | 93 => ⟨S512x128, .f32⟩
  | 94 => ⟨S512x128, .f32⟩
  | 95 => ⟨S_, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .i32⟩
  | 103 => ⟨S512x128, .i32⟩
  | 104 => ⟨S_, .i32⟩
  | 105 => ⟨S512x128, .i32⟩
  | 106 => ⟨S512x128, .i1⟩
  | 107 => ⟨S_, .i32⟩
  | 108 => ⟨S512x128, .i32⟩
  | 109 => ⟨S512x128, .i1⟩
  | 110 => ⟨S512x128, .i1⟩
  | 111 => ⟨S_, .i32⟩
  | 112 => ⟨S512x128, .i32⟩
  | 113 => ⟨S512x128, .i1⟩
  | 114 => ⟨S512x128, .i1⟩
  | 115 => ⟨S_, .i32⟩
  | 116 => ⟨S512x128, .i32⟩
  | 117 => ⟨S512x128, .i1⟩
  | 118 => ⟨S512x128, .i1⟩
  | 119 => ⟨S_, .i32⟩
  | 120 => ⟨S_, .i32⟩
  | 121 => ⟨S_, .i32⟩
  | 122 => ⟨S512x128, .i32⟩
  | 123 => ⟨S512x128, .i32⟩
  | 124 => ⟨S_, .i32⟩
  | 125 => ⟨S512x128, .i32⟩
  | 126 => ⟨S512x128, .i32⟩
  | 127 => ⟨S_, .i32⟩
  | _ => ⟨S2x256x256x256, .f32⟩

abbrev hbmTy0_8 (i : Nat) : BufTy := match i % 128 with
  | 0 => ⟨S_, .i32⟩
  | 1 => ⟨S_, .i32⟩
  | 2 => ⟨S512x128, .i32⟩
  | 3 => ⟨S512x128, .i32⟩
  | 4 => ⟨S_, .i32⟩
  | 5 => ⟨S512x128, .i32⟩
  | 6 => ⟨S512x128, .i32⟩
  | 7 => ⟨S512x1, .i32⟩
  | 8 => ⟨S_, .i32⟩
  | 9 => ⟨S512x1, .i32⟩
  | 10 => ⟨S512x1, .i1⟩
  | 11 => ⟨S_, .i32⟩
  | 12 => ⟨S512x1, .i32⟩
  | 13 => ⟨S512x1, .i32⟩
  | 14 => ⟨S512x1, .i32⟩
  | 15 => ⟨S_, .i32⟩
  | 16 => ⟨S512x128, .i32⟩
  | 17 => ⟨S512x128, .i1⟩
  | 18 => ⟨S_, .i32⟩
  | 19 => ⟨S512x128, .i32⟩
  | 20 => ⟨S512x128, .i32⟩
  | 21 => ⟨S512x128, .i32⟩
  | 22 => ⟨S_, .i32⟩
  | 23 => ⟨S512x128, .i32⟩
  | 24 => ⟨S512x128, .i1⟩
  | 25 => ⟨S_, .i32⟩
  | 26 => ⟨S512x128, .i32⟩
  | 27 => ⟨S512x128, .i32⟩
  | 28 => ⟨S512x128, .i32⟩
  | 29 => ⟨S512x128, .i32⟩
  | 30 => ⟨S512x128x1, .i32⟩
  | 31 => ⟨S512x128x1, .i32⟩
  | 32 => ⟨S512x128x1, .i32⟩
  | 33 => ⟨S512x128x3, .i32⟩
  | 34 => ⟨S512x128x256, .f32⟩
  | 35 => ⟨S512x128x1, .i1⟩
  | 36 => ⟨S512x128x1, .f32⟩
  | 37 => ⟨S512x128x256, .f32⟩
  | 38 => ⟨S512x128x256, .f32⟩
  | 39 => ⟨S_, .i32⟩
  | 40 => ⟨S512x128, .i32⟩
  | 41 => ⟨S512x128, .i32⟩
  | 42 => ⟨S_, .i32⟩
  | 43 => ⟨S512x128, .i32⟩
  | 44 => ⟨S512x128, .i1⟩
  | 45 => ⟨S_, .i32⟩
  | 46 => ⟨S512x128, .i32⟩
  | 47 => ⟨S512x128, .i1⟩
  | 48 => ⟨S512x128, .i1⟩
  | 49 => ⟨S_, .i32⟩
  | 50 => ⟨S512x128, .i32⟩
  | 51 => ⟨S512x128, .i1⟩
  | 52 => ⟨S512x128, .i1⟩
  | 53 => ⟨S_, .i32⟩
  | 54 => ⟨S512x128, .i32⟩
  | 55 => ⟨S512x128, .i1⟩
  | 56 => ⟨S512x128, .i1⟩
  | 57 => ⟨S_, .i32⟩
  | 58 => ⟨S_, .i32⟩
  | 59 => ⟨S_, .i32⟩
  | 60 => ⟨S512x128, .i32⟩
  | 61 => ⟨S512x128, .i32⟩
  | 62 => ⟨S_, .i32⟩
  | 63 => ⟨S512x128, .i32⟩
  | 64 => ⟨S512x128, .i32⟩
  | 65 => ⟨S_, .i32⟩
  | 66 => ⟨S_, .i32⟩
  | 67 => ⟨S_, .i32⟩
  | 68 => ⟨S512x128, .i32⟩
  | 69 => ⟨S512x128, .i32⟩
  | 70 => ⟨S_, .i32⟩
  | 71 => ⟨S512x128, .i32⟩
  | 72 => ⟨S512x128, .i32⟩
  | 73 => ⟨S512x1, .i32⟩
  | 74 => ⟨S_, .i32⟩
  | 75 => ⟨S512x1, .i32⟩
  | 76 => ⟨S512x1, .i1⟩
  | 77 => ⟨S_, .i32⟩
  | 78 => ⟨S512x1, .i32⟩
  | 79 => ⟨S512x1, .i32⟩
  | 80 => ⟨S512x1, .i32⟩
  | 81 => ⟨S_, .i32⟩
  | 82 => ⟨S512x128, .i32⟩
  | 83 => ⟨S512x128, .i1⟩
  | 84 => ⟨S_, .i32⟩
  | 85 => ⟨S512x128, .i32⟩
  | 86 => ⟨S512x128, .i32⟩
  | 87 => ⟨S512x128, .i32⟩
  | 88 => ⟨S_, .i32⟩
  | 89 => ⟨S512x128, .i32⟩
  | 90 => ⟨S512x128, .i1⟩
  | 91 => ⟨S_, .i32⟩
  | 92 => ⟨S512x128, .i32⟩
  | 93 => ⟨S512x128, .i32⟩
  | 94 => ⟨S512x128, .i32⟩
  | 95 => ⟨S512x128, .i32⟩
  | 96 => ⟨S512x128x1, .i32⟩
  | 97 => ⟨S512x128x1, .i32⟩
  | 98 => ⟨S512x128x1, .i32⟩
  | 99 => ⟨S512x128x3, .i32⟩
  | 100 => ⟨S512x128x256, .f32⟩
  | 101 => ⟨S512x128x1, .i1⟩
  | 102 => ⟨S512x128x1, .f32⟩
  | 103 => ⟨S512x128x256, .f32⟩
  | 104 => ⟨S512x128x256, .f32⟩
  | 105 => ⟨S_, .i32⟩
  | 106 => ⟨S512x128, .i32⟩
  | 107 => ⟨S512x128, .i32⟩
  | 108 => ⟨S_, .i32⟩
  | 109 => ⟨S512x128, .i32⟩
  | 110 => ⟨S512x128, .i1⟩
  | 111 => ⟨S_, .i32⟩
  | 112 => ⟨S512x128, .i32⟩
  | 113 => ⟨S512x128, .i1⟩
  | 114 => ⟨S512x128, .i1⟩
  | 115 => ⟨S_, .i32⟩
  | 116 => ⟨S512x128, .i32⟩
  | 117 => ⟨S512x128, .i1⟩
  | 118 => ⟨S512x128, .i1⟩
  | 119 => ⟨S_, .i32⟩
  | 120 => ⟨S512x128, .i32⟩
  | 121 => ⟨S512x128, .i1⟩
  | 122 => ⟨S512x128, .i1⟩
  | 123 => ⟨S_, .i32⟩
  | 124 => ⟨S_, .i32⟩
  | 125 => ⟨S_, .i32⟩
  | 126 => ⟨S512x128, .i32⟩
  | 127 => ⟨S512x128, .i32⟩
  | _ => ⟨S2x256x256x256, .f32⟩

abbrev hbmTy0_9 (i : Nat) : BufTy := match i % 128 with
  | 0 => ⟨S_, .i32⟩
  | 1 => ⟨S512x128, .i32⟩
  | 2 => ⟨S512x128, .i32⟩
  | 3 => ⟨S_, .i32⟩
  | 4 => ⟨S_, .i32⟩
  | 5 => ⟨S_, .i32⟩
  | 6 => ⟨S512x128, .i32⟩
  | 7 => ⟨S512x128, .i32⟩
  | 8 => ⟨S_, .i32⟩
  | 9 => ⟨S512x128, .i32⟩
  | 10 => ⟨S512x128, .i32⟩
  | 11 => ⟨S512x1, .i32⟩
  | 12 => ⟨S_, .i32⟩
  | 13 => ⟨S512x1, .i32⟩
  | 14 => ⟨S512x1, .i1⟩
  | 15 => ⟨S_, .i32⟩
  | 16 => ⟨S512x1, .i32⟩
  | 17 => ⟨S512x1, .i32⟩
  | 18 => ⟨S512x1, .i32⟩
  | 19 => ⟨S_, .i32⟩
  | 20 => ⟨S512x128, .i32⟩
  | 21 => ⟨S512x128, .i1⟩
  | 22 => ⟨S_, .i32⟩
  | 23 => ⟨S512x128, .i32⟩
  | 24 => ⟨S512x128, .i32⟩
  | 25 => ⟨S512x128, .i32⟩
  | 26 => ⟨S_, .i32⟩
  | 27 => ⟨S512x128, .i32⟩
  | 28 => ⟨S512x128, .i1⟩
  | 29 => ⟨S_, .i32⟩
  | 30 => ⟨S512x128, .i32⟩
  | 31 => ⟨S512x128, .i32⟩
  | 32 => ⟨S512x128, .i32⟩
  | 33 => ⟨S512x128, .i32⟩
  | 34 => ⟨S512x128x1, .i32⟩
  | 35 => ⟨S512x128x1, .i32⟩
  | 36 => ⟨S512x128x1, .i32⟩
  | 37 => ⟨S512x128x3, .i32⟩
  | 38 => ⟨S512x128x256, .f32⟩
  | 39 => ⟨S512x128x1, .i1⟩
  | 40 => ⟨S512x128x1, .f32⟩
  | 41 => ⟨S512x128x256, .f32⟩
  | 42 => ⟨S512x128x256, .f32⟩
  | 43 => ⟨S_, .i32⟩
  | 44 => ⟨S512x128, .i32⟩
  | 45 => ⟨S512x128, .i32⟩
  | 46 => ⟨S_, .i32⟩
  | 47 => ⟨S512x128, .i32⟩
  | 48 => ⟨S512x128, .i32⟩
  | 49 => ⟨S_, .i32⟩
  | 50 => ⟨S512x128, .i32⟩
  | 51 => ⟨S512x128, .i1⟩
  | 52 => ⟨S_, .i32⟩
  | 53 => ⟨S512x128, .i32⟩
  | 54 => ⟨S512x128, .i1⟩
  | 55 => ⟨S512x128, .i1⟩
  | 56 => ⟨S_, .i32⟩
  | 57 => ⟨S512x128, .i32⟩
  | 58 => ⟨S512x128, .i1⟩
  | 59 => ⟨S512x128, .i1⟩
  | 60 => ⟨S_, .i32⟩
  | 61 => ⟨S512x128, .i32⟩
  | 62 => ⟨S512x128, .i1⟩
  | 63 => ⟨S512x128, .i1⟩
  | 64 => ⟨S_, .i32⟩
  | 65 => ⟨S_, .i32⟩
  | 66 => ⟨S_, .i32⟩
  | 67 => ⟨S512x128, .i32⟩
  | 68 => ⟨S512x128, .i32⟩
  | 69 => ⟨S_, .i32⟩
  | 70 => ⟨S512x128, .i32⟩
  | 71 => ⟨S512x128, .i32⟩
  | 72 => ⟨S_, .i32⟩
  | 73 => ⟨S_, .i32⟩
  | 74 => ⟨S_, .i32⟩
  | 75 => ⟨S512x128, .i32⟩
  | 76 => ⟨S512x128, .i32⟩
  | 77 => ⟨S_, .i32⟩
  | 78 => ⟨S512x128, .i32⟩
  | 79 => ⟨S512x128, .i32⟩
  | 80 => ⟨S512x1, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i32⟩
  | 87 => ⟨S512x1, .i32⟩
  | 88 => ⟨S_, .i32⟩
  | 89 => ⟨S512x128, .i32⟩
  | 90 => ⟨S512x128, .i1⟩
  | 91 => ⟨S_, .i32⟩
  | 92 => ⟨S512x128, .i32⟩
  | 93 => ⟨S512x128, .i32⟩
  | 94 => ⟨S512x128, .i32⟩
  | 95 => ⟨S_, .i32⟩
  | 96 => ⟨S512x128, .i32⟩
  | 97 => ⟨S512x128, .i1⟩
  | 98 => ⟨S_, .i32⟩
  | 99 => ⟨S512x128, .i32⟩
  | 100 => ⟨S512x128, .i32⟩
  | 101 => ⟨S512x128, .i32⟩
  | 102 => ⟨S512x128, .i32⟩
  | 103 => ⟨S512x128x1, .i32⟩
  | 104 => ⟨S512x128x1, .i32⟩
  | 105 => ⟨S512x128x1, .i32⟩
  | 106 => ⟨S512x128x3, .i32⟩
  | 107 => ⟨S512x128x256, .f32⟩
  | 108 => ⟨S512x128x1, .i1⟩
  | 109 => ⟨S512x128x1, .f32⟩
  | 110 => ⟨S512x128x256, .f32⟩
  | 111 => ⟨S512x128x256, .f32⟩
  | 112 => ⟨S512x128x1, .f32⟩
  | 113 => ⟨S512x128x1, .f32⟩
  | 114 => ⟨S_, .f32⟩
  | 115 => ⟨S512x128x1, .f32⟩
  | 116 => ⟨S512x128x1, .f32⟩
  | 117 => ⟨S512x128x256, .f32⟩
  | 118 => ⟨S512x128x256, .f32⟩
  | 119 => ⟨S_, .f32⟩
  | 120 => ⟨S512x128x1, .f32⟩
  | 121 => ⟨S512x128x1, .f32⟩
  | 122 => ⟨S512x128x256, .f32⟩
  | 123 => ⟨S512x128x256, .f32⟩
  | 124 => ⟨S512x128x256, .f32⟩
  | 125 => ⟨S512x128x256, .f32⟩
  | 126 => ⟨S_, .f32⟩
  | 127 => ⟨S512x128x1, .f32⟩
  | _ => ⟨S2x256x256x256, .f32⟩

abbrev hbmTy0_10 (i : Nat) : BufTy := match i % 128 with
  | 0 => ⟨S512x128x1, .f32⟩
  | 1 => ⟨S512x128x256, .f32⟩
  | 2 => ⟨S512x128x256, .f32⟩
  | 3 => ⟨S512x128x256, .f32⟩
  | 4 => ⟨S_, .f32⟩
  | 5 => ⟨S512x128x1, .f32⟩
  | 6 => ⟨S512x128x1, .f32⟩
  | 7 => ⟨S512x128x256, .f32⟩
  | 8 => ⟨S512x128x256, .f32⟩
  | 9 => ⟨S512x128x256, .f32⟩
  | 10 => ⟨S512x128x256, .f32⟩
  | 11 => ⟨S512x128x256, .f32⟩
  | 12 => ⟨S512x128x256, .f32⟩
  | 13 => ⟨S512x128x256, .f32⟩
  | 14 => ⟨S512x128x256, .f32⟩
  | 15 => ⟨S512x128x256, .f32⟩
  | 16 => ⟨S512x128x256, .f32⟩
  | 17 => ⟨S512x256x128, .f32⟩
  | 18 => ⟨S512x1024x128, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_c_7 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v41 : Ref sig .tc := ⟨.hbm, 62, rfl⟩
abbrev main_c_8 : Ref sig .tc := ⟨.hbm, 63, rfl⟩
abbrev main_c_9 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_12 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_v54 : Ref sig .tc := ⟨.hbm, 87, rfl⟩
abbrev main_v55 : Ref sig .tc := ⟨.hbm, 88, rfl⟩
abbrev main_c_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_20 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_21 : Ref sig .tc := ⟨.hbm, 121, rfl⟩
abbrev main_c_22 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v82 : Ref sig .tc := ⟨.hbm, 128, rfl⟩
abbrev main_c_23 : Ref sig .tc := ⟨.hbm, 129, rfl⟩
abbrev main_c_24 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v83 : Ref sig .tc := ⟨.hbm, 136, rfl⟩
abbrev main_v84 : Ref sig .tc := ⟨.hbm, 137, rfl⟩
abbrev main_c_25 : Ref sig .tc := ⟨.hbm, 138, rfl⟩
abbrev main_v85 : Ref sig .tc := ⟨.hbm, 139, rfl⟩
abbrev main_v86 : Ref sig .tc := ⟨.hbm, 140, rfl⟩
abbrev main_c_26 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_27 : Ref sig .tc := ⟨.hbm, 145, rfl⟩
abbrev main_v90 : Ref sig .tc := ⟨.hbm, 146, rfl⟩
abbrev main_v91 : Ref sig .tc := ⟨.hbm, 147, rfl⟩
abbrev main_c_28 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_c_29 : Ref sig .tc := ⟨.hbm, 152, rfl⟩
abbrev main_v95 : Ref sig .tc := ⟨.hbm, 153, rfl⟩
abbrev main_v96 : Ref sig .tc := ⟨.hbm, 154, rfl⟩
abbrev main_c_30 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_31 : Ref sig .tc := ⟨.hbm, 169, rfl⟩
abbrev main_v110 : Ref sig .tc := ⟨.hbm, 170, rfl⟩
abbrev main_v111 : Ref sig .tc := ⟨.hbm, 171, rfl⟩
abbrev main_c_32 : Ref sig .tc := ⟨.hbm, 172, rfl⟩
abbrev main_v112 : Ref sig .tc := ⟨.hbm, 173, rfl⟩
abbrev main_v113 : Ref sig .tc := ⟨.hbm, 174, rfl⟩
abbrev main_c_33 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_34 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_35 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_36 : Ref sig .tc := ⟨.hbm, 187, rfl⟩
abbrev main_c_37 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_v123 : Ref sig .tc := ⟨.hbm, 194, rfl⟩
abbrev main_c_38 : Ref sig .tc := ⟨.hbm, 195, rfl⟩
abbrev main_c_39 : Ref sig .tc := ⟨.hbm, 196, rfl⟩
abbrev main_call5_v0 : Ref sig .tc := ⟨.hbm, 197, rfl⟩
abbrev main_call5_v1 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_v124 : Ref sig .tc := ⟨.hbm, 202, rfl⟩
abbrev main_v125 : Ref sig .tc := ⟨.hbm, 203, rfl⟩
abbrev main_c_40 : Ref sig .tc := ⟨.hbm, 204, rfl⟩
abbrev main_v126 : Ref sig .tc := ⟨.hbm, 205, rfl⟩
abbrev main_v127 : Ref sig .tc := ⟨.hbm, 206, rfl⟩
abbrev main_c_41 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_c_42 : Ref sig .tc := ⟨.hbm, 211, rfl⟩
abbrev main_v131 : Ref sig .tc := ⟨.hbm, 212, rfl⟩
abbrev main_v132 : Ref sig .tc := ⟨.hbm, 213, rfl⟩
abbrev main_c_43 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_c_44 : Ref sig .tc := ⟨.hbm, 218, rfl⟩
abbrev main_v136 : Ref sig .tc := ⟨.hbm, 219, rfl⟩
abbrev main_v137 : Ref sig .tc := ⟨.hbm, 220, rfl⟩
abbrev main_c_45 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_c_46 : Ref sig .tc := ⟨.hbm, 235, rfl⟩
abbrev main_v151 : Ref sig .tc := ⟨.hbm, 236, rfl⟩
abbrev main_v152 : Ref sig .tc := ⟨.hbm, 237, rfl⟩
abbrev main_c_47 : Ref sig .tc := ⟨.hbm, 238, rfl⟩
abbrev main_v153 : Ref sig .tc := ⟨.hbm, 239, rfl⟩
abbrev main_v154 : Ref sig .tc := ⟨.hbm, 240, rfl⟩
abbrev main_c_48 : Ref sig .tc := ⟨.hbm, 241, rfl⟩
abbrev main_v155 : Ref sig .tc := ⟨.hbm, 242, rfl⟩
abbrev main_v156 : Ref sig .tc := ⟨.hbm, 243, rfl⟩
abbrev main_c_49 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_c_50 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_c_51 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_c_52 : Ref sig .tc := ⟨.hbm, 256, rfl⟩
abbrev main_c_53 : Ref sig .tc := ⟨.hbm, 257, rfl⟩
abbrev main_call6_v0 : Ref sig .tc := ⟨.hbm, 258, rfl⟩
abbrev main_call6_v1 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_v166 : Ref sig .tc := ⟨.hbm, 263, rfl⟩
abbrev main_c_54 : Ref sig .tc := ⟨.hbm, 264, rfl⟩
abbrev main_c_55 : Ref sig .tc := ⟨.hbm, 265, rfl⟩
abbrev main_call7_v0 : Ref sig .tc := ⟨.hbm, 266, rfl⟩
abbrev main_call7_v1 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_v167 : Ref sig .tc := ⟨.hbm, 271, rfl⟩
abbrev main_v168 : Ref sig .tc := ⟨.hbm, 272, rfl⟩
abbrev main_c_56 : Ref sig .tc := ⟨.hbm, 273, rfl⟩
abbrev main_v169 : Ref sig .tc := ⟨.hbm, 274, rfl⟩
abbrev main_v170 : Ref sig .tc := ⟨.hbm, 275, rfl⟩
abbrev main_c_57 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_c_58 : Ref sig .tc := ⟨.hbm, 280, rfl⟩
abbrev main_v174 : Ref sig .tc := ⟨.hbm, 281, rfl⟩
abbrev main_v175 : Ref sig .tc := ⟨.hbm, 282, rfl⟩
abbrev main_c_59 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_c_60 : Ref sig .tc := ⟨.hbm, 287, rfl⟩
abbrev main_v179 : Ref sig .tc := ⟨.hbm, 288, rfl⟩
abbrev main_v180 : Ref sig .tc := ⟨.hbm, 289, rfl⟩
abbrev main_c_61 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_cst_62 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_63 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_cst_64 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_cst_65 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_cst_66 : Ref sig .tc := ⟨.hbm, 340, rfl⟩
abbrev main_v226 : Ref sig .tc := ⟨.hbm, 341, rfl⟩
abbrev main_v227 : Ref sig .tc := ⟨.hbm, 342, rfl⟩
abbrev main_cst_67 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_cst_68 : Ref sig .tc := ⟨.hbm, 348, rfl⟩
abbrev main_v232 : Ref sig .tc := ⟨.hbm, 349, rfl⟩
abbrev main_v233 : Ref sig .tc := ⟨.hbm, 350, rfl⟩
abbrev main_cst_69 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_c_70 : Ref sig .tc := ⟨.hbm, 360, rfl⟩
abbrev main_v242 : Ref sig .tc := ⟨.hbm, 361, rfl⟩
abbrev main_v243 : Ref sig .tc := ⟨.hbm, 362, rfl⟩
abbrev main_c_71 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_c_72 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_c_73 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_c_74 : Ref sig .tc := ⟨.hbm, 375, rfl⟩
abbrev main_c_75 : Ref sig .tc := ⟨.hbm, 376, rfl⟩
abbrev main_call8_v0 : Ref sig .tc := ⟨.hbm, 377, rfl⟩
abbrev main_call8_v1 : Ref sig .tc := ⟨.hbm, 378, rfl⟩
abbrev main_call8_v2 : Ref sig .tc := ⟨.hbm, 379, rfl⟩
abbrev main_call8_v3 : Ref sig .tc := ⟨.hbm, 380, rfl⟩
abbrev main_call8_v4 : Ref sig .tc := ⟨.hbm, 381, rfl⟩
abbrev main_v253 : Ref sig .tc := ⟨.hbm, 382, rfl⟩
abbrev main_c_76 : Ref sig .tc := ⟨.hbm, 383, rfl⟩
abbrev main_c_77 : Ref sig .tc := ⟨.hbm, 384, rfl⟩
abbrev main_call9_v0 : Ref sig .tc := ⟨.hbm, 385, rfl⟩
abbrev main_call9_v1 : Ref sig .tc := ⟨.hbm, 386, rfl⟩
abbrev main_call9_v2 : Ref sig .tc := ⟨.hbm, 387, rfl⟩
abbrev main_call9_v3 : Ref sig .tc := ⟨.hbm, 388, rfl⟩
abbrev main_call9_v4 : Ref sig .tc := ⟨.hbm, 389, rfl⟩
abbrev main_v254 : Ref sig .tc := ⟨.hbm, 390, rfl⟩
abbrev main_v255 : Ref sig .tc := ⟨.hbm, 391, rfl⟩
abbrev main_c_78 : Ref sig .tc := ⟨.hbm, 392, rfl⟩
abbrev main_v256 : Ref sig .tc := ⟨.hbm, 393, rfl⟩
abbrev main_v257 : Ref sig .tc := ⟨.hbm, 394, rfl⟩
abbrev main_c_79 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_c_80 : Ref sig .tc := ⟨.hbm, 399, rfl⟩
abbrev main_v261 : Ref sig .tc := ⟨.hbm, 400, rfl⟩
abbrev main_v262 : Ref sig .tc := ⟨.hbm, 401, rfl⟩
abbrev main_c_81 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_c_82 : Ref sig .tc := ⟨.hbm, 406, rfl⟩
abbrev main_v266 : Ref sig .tc := ⟨.hbm, 407, rfl⟩
abbrev main_v267 : Ref sig .tc := ⟨.hbm, 408, rfl⟩
abbrev main_c_83 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_v271 : Ref sig .tc := ⟨.hbm, 413, rfl⟩
abbrev main_v272 : Ref sig .tc := ⟨.hbm, 414, rfl⟩
abbrev main_v273 : Ref sig .tc := ⟨.hbm, 415, rfl⟩
abbrev main_v274 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_c_84 : Ref sig .tc := ⟨.hbm, 423, rfl⟩
abbrev main_v281 : Ref sig .tc := ⟨.hbm, 424, rfl⟩
abbrev main_v282 : Ref sig .tc := ⟨.hbm, 425, rfl⟩
abbrev main_c_85 : Ref sig .tc := ⟨.hbm, 426, rfl⟩
abbrev main_v283 : Ref sig .tc := ⟨.hbm, 427, rfl⟩
abbrev main_v284 : Ref sig .tc := ⟨.hbm, 428, rfl⟩
abbrev main_c_86 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_c_87 : Ref sig .tc := ⟨.hbm, 433, rfl⟩
abbrev main_v288 : Ref sig .tc := ⟨.hbm, 434, rfl⟩
abbrev main_v289 : Ref sig .tc := ⟨.hbm, 435, rfl⟩
abbrev main_v290 : Ref sig .tc := ⟨.hbm, 436, rfl⟩
abbrev main_c_88 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_c_89 : Ref sig .tc := ⟨.hbm, 441, rfl⟩
abbrev main_c_90 : Ref sig .tc := ⟨.hbm, 442, rfl⟩
abbrev main_call10_v0 : Ref sig .tc := ⟨.hbm, 443, rfl⟩
abbrev main_call10_v1 : Ref sig .tc := ⟨.hbm, 444, rfl⟩
abbrev main_call10_v2 : Ref sig .tc := ⟨.hbm, 445, rfl⟩
abbrev main_call10_v3 : Ref sig .tc := ⟨.hbm, 446, rfl⟩
abbrev main_call10_v4 : Ref sig .tc := ⟨.hbm, 447, rfl⟩
abbrev main_v294 : Ref sig .tc := ⟨.hbm, 448, rfl⟩
abbrev main_c_91 : Ref sig .tc := ⟨.hbm, 449, rfl⟩
abbrev main_c_92 : Ref sig .tc := ⟨.hbm, 450, rfl⟩
abbrev main_call11_v0 : Ref sig .tc := ⟨.hbm, 451, rfl⟩
abbrev main_call11_v1 : Ref sig .tc := ⟨.hbm, 452, rfl⟩
abbrev main_call11_v2 : Ref sig .tc := ⟨.hbm, 453, rfl⟩
abbrev main_call11_v3 : Ref sig .tc := ⟨.hbm, 454, rfl⟩
abbrev main_call11_v4 : Ref sig .tc := ⟨.hbm, 455, rfl⟩
abbrev main_v295 : Ref sig .tc := ⟨.hbm, 456, rfl⟩
abbrev main_v296 : Ref sig .tc := ⟨.hbm, 457, rfl⟩
abbrev main_c_93 : Ref sig .tc := ⟨.hbm, 458, rfl⟩
abbrev main_v297 : Ref sig .tc := ⟨.hbm, 459, rfl⟩
abbrev main_v298 : Ref sig .tc := ⟨.hbm, 460, rfl⟩
abbrev main_c_94 : Ref sig .tc := ⟨.hbm, 461, rfl⟩
abbrev main_v299 : Ref sig .tc := ⟨.hbm, 462, rfl⟩
abbrev main_v300 : Ref sig .tc := ⟨.hbm, 463, rfl⟩
abbrev main_v301 : Ref sig .tc := ⟨.hbm, 464, rfl⟩
abbrev main_c_95 : Ref sig .tc := ⟨.hbm, 465, rfl⟩
abbrev main_v302 : Ref sig .tc := ⟨.hbm, 466, rfl⟩
abbrev main_v303 : Ref sig .tc := ⟨.hbm, 467, rfl⟩
abbrev main_c_96 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_c_97 : Ref sig .tc := ⟨.hbm, 472, rfl⟩
abbrev main_v307 : Ref sig .tc := ⟨.hbm, 473, rfl⟩
abbrev main_v308 : Ref sig .tc := ⟨.hbm, 474, rfl⟩
abbrev main_c_98 : Ref sig .tc := ⟨.hbm, 475, rfl⟩
abbrev main_v309 : Ref sig .tc := ⟨.hbm, 476, rfl⟩
abbrev main_v310 : Ref sig .tc := ⟨.hbm, 477, rfl⟩
abbrev main_v311 : Ref sig .tc := ⟨.hbm, 478, rfl⟩
abbrev main_v312 : Ref sig .tc := ⟨.hbm, 479, rfl⟩
abbrev main_v313 : Ref sig .tc := ⟨.hbm, 480, rfl⟩
abbrev main_v314 : Ref sig .tc := ⟨.hbm, 481, rfl⟩
abbrev main_v315 : Ref sig .tc := ⟨.hbm, 482, rfl⟩
abbrev main_v316 : Ref sig .tc := ⟨.hbm, 483, rfl⟩
abbrev main_v317 : Ref sig .tc := ⟨.hbm, 484, rfl⟩
abbrev main_v318 : Ref sig .tc := ⟨.hbm, 485, rfl⟩
abbrev main_v319 : Ref sig .tc := ⟨.hbm, 486, rfl⟩
abbrev main_v320 : Ref sig .tc := ⟨.hbm, 487, rfl⟩
abbrev main_v321 : Ref sig .tc := ⟨.hbm, 488, rfl⟩
abbrev main_c_99 : Ref sig .tc := ⟨.hbm, 489, rfl⟩
abbrev main_v322 : Ref sig .tc := ⟨.hbm, 490, rfl⟩
abbrev main_v323 : Ref sig .tc := ⟨.hbm, 491, rfl⟩
abbrev main_c_100 : Ref sig .tc := ⟨.hbm, 492, rfl⟩
abbrev main_v324 : Ref sig .tc := ⟨.hbm, 493, rfl⟩
abbrev main_v325 : Ref sig .tc := ⟨.hbm, 494, rfl⟩
abbrev main_c_101 : Ref sig .tc := ⟨.hbm, 495, rfl⟩
abbrev main_v326 : Ref sig .tc := ⟨.hbm, 496, rfl⟩
abbrev main_v327 : Ref sig .tc := ⟨.hbm, 497, rfl⟩
abbrev main_v328 : Ref sig .tc := ⟨.hbm, 498, rfl⟩
abbrev main_c_102 : Ref sig .tc := ⟨.hbm, 499, rfl⟩
abbrev main_v329 : Ref sig .tc := ⟨.hbm, 500, rfl⟩
abbrev main_v330 : Ref sig .tc := ⟨.hbm, 501, rfl⟩
abbrev main_v331 : Ref sig .tc := ⟨.hbm, 502, rfl⟩
abbrev main_c_103 : Ref sig .tc := ⟨.hbm, 503, rfl⟩
abbrev main_v332 : Ref sig .tc := ⟨.hbm, 504, rfl⟩
abbrev main_v333 : Ref sig .tc := ⟨.hbm, 505, rfl⟩
abbrev main_v334 : Ref sig .tc := ⟨.hbm, 506, rfl⟩
abbrev main_c_104 : Ref sig .tc := ⟨.hbm, 507, rfl⟩
abbrev main_c_105 : Ref sig .tc := ⟨.hbm, 508, rfl⟩
abbrev main_call12_v0 : Ref sig .tc := ⟨.hbm, 509, rfl⟩
abbrev main_call12_v1 : Ref sig .tc := ⟨.hbm, 510, rfl⟩
abbrev main_call12_v2 : Ref sig .tc := ⟨.hbm, 511, rfl⟩
abbrev main_call12_v3 : Ref sig .tc := ⟨.hbm, 512, rfl⟩
abbrev main_call12_v4 : Ref sig .tc := ⟨.hbm, 513, rfl⟩
abbrev main_v335 : Ref sig .tc := ⟨.hbm, 514, rfl⟩
abbrev main_c_106 : Ref sig .tc := ⟨.hbm, 515, rfl⟩
abbrev main_c_107 : Ref sig .tc := ⟨.hbm, 516, rfl⟩
abbrev main_call13_v0 : Ref sig .tc := ⟨.hbm, 517, rfl⟩
abbrev main_call13_v1 : Ref sig .tc := ⟨.hbm, 518, rfl⟩
abbrev main_call13_v2 : Ref sig .tc := ⟨.hbm, 519, rfl⟩
abbrev main_call13_v3 : Ref sig .tc := ⟨.hbm, 520, rfl⟩
abbrev main_call13_v4 : Ref sig .tc := ⟨.hbm, 521, rfl⟩
abbrev main_v336 : Ref sig .tc := ⟨.hbm, 522, rfl⟩
abbrev main_v337 : Ref sig .tc := ⟨.hbm, 523, rfl⟩
abbrev main_c_108 : Ref sig .tc := ⟨.hbm, 524, rfl⟩
abbrev main_v338 : Ref sig .tc := ⟨.hbm, 525, rfl⟩
abbrev main_v339 : Ref sig .tc := ⟨.hbm, 526, rfl⟩
abbrev main_c_109 : Ref sig .tc := ⟨.hbm, 527, rfl⟩
abbrev main_v340 : Ref sig .tc := ⟨.hbm, 528, rfl⟩
abbrev main_v341 : Ref sig .tc := ⟨.hbm, 529, rfl⟩
abbrev main_v342 : Ref sig .tc := ⟨.hbm, 530, rfl⟩
abbrev main_c_110 : Ref sig .tc := ⟨.hbm, 531, rfl⟩
abbrev main_v343 : Ref sig .tc := ⟨.hbm, 532, rfl⟩
abbrev main_v344 : Ref sig .tc := ⟨.hbm, 533, rfl⟩
abbrev main_c_111 : Ref sig .tc := ⟨.hbm, 534, rfl⟩
abbrev main_v345 : Ref sig .tc := ⟨.hbm, 535, rfl⟩
abbrev main_v346 : Ref sig .tc := ⟨.hbm, 536, rfl⟩
abbrev main_v347 : Ref sig .tc := ⟨.hbm, 537, rfl⟩
abbrev main_c_112 : Ref sig .tc := ⟨.hbm, 538, rfl⟩
abbrev main_v348 : Ref sig .tc := ⟨.hbm, 539, rfl⟩
abbrev main_v349 : Ref sig .tc := ⟨.hbm, 540, rfl⟩
abbrev main_c_113 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_c_114 : Ref sig .tc := ⟨.hbm, 555, rfl⟩
abbrev main_v363 : Ref sig .tc := ⟨.hbm, 556, rfl⟩
abbrev main_v364 : Ref sig .tc := ⟨.hbm, 557, rfl⟩
abbrev main_c_115 : Ref sig .tc := ⟨.hbm, 558, rfl⟩
abbrev main_v365 : Ref sig .tc := ⟨.hbm, 559, rfl⟩
abbrev main_v366 : Ref sig .tc := ⟨.hbm, 560, rfl⟩
abbrev main_c_116 : Ref sig .tc := ⟨.hbm, 561, rfl⟩
abbrev main_v367 : Ref sig .tc := ⟨.hbm, 562, rfl⟩
abbrev main_v368 : Ref sig .tc := ⟨.hbm, 563, rfl⟩
abbrev main_c_117 : Ref sig .tc := ⟨.hbm, 564, rfl⟩
abbrev main_v369 : Ref sig .tc := ⟨.hbm, 565, rfl⟩
abbrev main_v370 : Ref sig .tc := ⟨.hbm, 566, rfl⟩
abbrev main_v371 : Ref sig .tc := ⟨.hbm, 567, rfl⟩
abbrev main_c_118 : Ref sig .tc := ⟨.hbm, 568, rfl⟩
abbrev main_v372 : Ref sig .tc := ⟨.hbm, 569, rfl⟩
abbrev main_v373 : Ref sig .tc := ⟨.hbm, 570, rfl⟩
abbrev main_v374 : Ref sig .tc := ⟨.hbm, 571, rfl⟩
abbrev main_c_119 : Ref sig .tc := ⟨.hbm, 572, rfl⟩
abbrev main_v375 : Ref sig .tc := ⟨.hbm, 573, rfl⟩
abbrev main_v376 : Ref sig .tc := ⟨.hbm, 574, rfl⟩
abbrev main_v377 : Ref sig .tc := ⟨.hbm, 575, rfl⟩
abbrev main_c_120 : Ref sig .tc := ⟨.hbm, 576, rfl⟩
abbrev main_c_121 : Ref sig .tc := ⟨.hbm, 577, rfl⟩
abbrev main_call14_v0 : Ref sig .tc := ⟨.hbm, 578, rfl⟩
abbrev main_call14_v1 : Ref sig .tc := ⟨.hbm, 579, rfl⟩
abbrev main_call14_v2 : Ref sig .tc := ⟨.hbm, 580, rfl⟩
abbrev main_call14_v3 : Ref sig .tc := ⟨.hbm, 581, rfl⟩
abbrev main_call14_v4 : Ref sig .tc := ⟨.hbm, 582, rfl⟩
abbrev main_v378 : Ref sig .tc := ⟨.hbm, 583, rfl⟩
abbrev main_c_122 : Ref sig .tc := ⟨.hbm, 584, rfl⟩
abbrev main_c_123 : Ref sig .tc := ⟨.hbm, 585, rfl⟩
abbrev main_call15_v0 : Ref sig .tc := ⟨.hbm, 586, rfl⟩
abbrev main_call15_v1 : Ref sig .tc := ⟨.hbm, 587, rfl⟩
abbrev main_call15_v2 : Ref sig .tc := ⟨.hbm, 588, rfl⟩
abbrev main_call15_v3 : Ref sig .tc := ⟨.hbm, 589, rfl⟩
abbrev main_call15_v4 : Ref sig .tc := ⟨.hbm, 590, rfl⟩
abbrev main_v379 : Ref sig .tc := ⟨.hbm, 591, rfl⟩
abbrev main_v380 : Ref sig .tc := ⟨.hbm, 592, rfl⟩
abbrev main_c_124 : Ref sig .tc := ⟨.hbm, 593, rfl⟩
abbrev main_v381 : Ref sig .tc := ⟨.hbm, 594, rfl⟩
abbrev main_v382 : Ref sig .tc := ⟨.hbm, 595, rfl⟩
abbrev main_c_125 : Ref sig .tc := ⟨.hbm, 596, rfl⟩
abbrev main_v383 : Ref sig .tc := ⟨.hbm, 597, rfl⟩
abbrev main_v384 : Ref sig .tc := ⟨.hbm, 598, rfl⟩
abbrev main_v385 : Ref sig .tc := ⟨.hbm, 599, rfl⟩
abbrev main_c_126 : Ref sig .tc := ⟨.hbm, 600, rfl⟩
abbrev main_v386 : Ref sig .tc := ⟨.hbm, 601, rfl⟩
abbrev main_v387 : Ref sig .tc := ⟨.hbm, 602, rfl⟩
abbrev main_c_127 : Ref sig .tc := ⟨.hbm, 603, rfl⟩
abbrev main_v388 : Ref sig .tc := ⟨.hbm, 604, rfl⟩
abbrev main_v389 : Ref sig .tc := ⟨.hbm, 605, rfl⟩
abbrev main_v390 : Ref sig .tc := ⟨.hbm, 606, rfl⟩
abbrev main_c_128 : Ref sig .tc := ⟨.hbm, 607, rfl⟩
abbrev main_v391 : Ref sig .tc := ⟨.hbm, 608, rfl⟩
abbrev main_v392 : Ref sig .tc := ⟨.hbm, 609, rfl⟩
abbrev main_c_129 : Ref sig .tc := ⟨.hbm, 610, rfl⟩
abbrev main_v393 : Ref sig .tc := ⟨.hbm, 611, rfl⟩
abbrev main_v394 : Ref sig .tc := ⟨.hbm, 612, rfl⟩
abbrev main_v395 : Ref sig .tc := ⟨.hbm, 613, rfl⟩
abbrev main_v396 : Ref sig .tc := ⟨.hbm, 614, rfl⟩
abbrev main_v397 : Ref sig .tc := ⟨.hbm, 615, rfl⟩
abbrev main_v398 : Ref sig .tc := ⟨.hbm, 616, rfl⟩
abbrev main_v399 : Ref sig .tc := ⟨.hbm, 617, rfl⟩
abbrev main_v400 : Ref sig .tc := ⟨.hbm, 618, rfl⟩
abbrev main_v401 : Ref sig .tc := ⟨.hbm, 619, rfl⟩
abbrev main_v402 : Ref sig .tc := ⟨.hbm, 620, rfl⟩
abbrev main_v403 : Ref sig .tc := ⟨.hbm, 621, rfl⟩
abbrev main_v404 : Ref sig .tc := ⟨.hbm, 622, rfl⟩
abbrev main_v405 : Ref sig .tc := ⟨.hbm, 623, rfl⟩
abbrev main_v406 : Ref sig .tc := ⟨.hbm, 624, rfl⟩
abbrev main_v407 : Ref sig .tc := ⟨.hbm, 625, rfl⟩
abbrev main_cst_130 : Ref sig .tc := ⟨.hbm, 626, rfl⟩
abbrev main_v408 : Ref sig .tc := ⟨.hbm, 627, rfl⟩
abbrev main_v409 : Ref sig .tc := ⟨.hbm, 628, rfl⟩
abbrev main_v410 : Ref sig .tc := ⟨.hbm, 629, rfl⟩
abbrev main_v411 : Ref sig .tc := ⟨.hbm, 630, rfl⟩
abbrev main_cst_131 : Ref sig .tc := ⟨.hbm, 631, rfl⟩
abbrev main_v412 : Ref sig .tc := ⟨.hbm, 632, rfl⟩
abbrev main_v413 : Ref sig .tc := ⟨.hbm, 633, rfl⟩
abbrev main_v414 : Ref sig .tc := ⟨.hbm, 634, rfl⟩
abbrev main_v415 : Ref sig .tc := ⟨.hbm, 635, rfl⟩
abbrev main_v416 : Ref sig .tc := ⟨.hbm, 636, rfl⟩
abbrev main_v417 : Ref sig .tc := ⟨.hbm, 637, rfl⟩
abbrev main_cst_132 : Ref sig .tc := ⟨.hbm, 638, rfl⟩
abbrev main_v418 : Ref sig .tc := ⟨.hbm, 639, rfl⟩
abbrev main_v419 : Ref sig .tc := ⟨.hbm, 640, rfl⟩
abbrev main_v420 : Ref sig .tc := ⟨.hbm, 641, rfl⟩
abbrev main_v421 : Ref sig .tc := ⟨.hbm, 642, rfl⟩
abbrev main_v422 : Ref sig .tc := ⟨.hbm, 643, rfl⟩
abbrev main_cst_133 : Ref sig .tc := ⟨.hbm, 644, rfl⟩
abbrev main_v423 : Ref sig .tc := ⟨.hbm, 645, rfl⟩
abbrev main_v424 : Ref sig .tc := ⟨.hbm, 646, rfl⟩
abbrev main_v425 : Ref sig .tc := ⟨.hbm, 647, rfl⟩
abbrev main_v426 : Ref sig .tc := ⟨.hbm, 648, rfl⟩
abbrev main_v427 : Ref sig .tc := ⟨.hbm, 649, rfl⟩
abbrev main_v428 : Ref sig .tc := ⟨.hbm, 650, rfl⟩
abbrev main_v429 : Ref sig .tc := ⟨.hbm, 651, rfl⟩
abbrev main_v430 : Ref sig .tc := ⟨.hbm, 652, rfl⟩
abbrev main_v431 : Ref sig .tc := ⟨.hbm, 653, rfl⟩
abbrev main_v432 : Ref sig .tc := ⟨.hbm, 654, rfl⟩
abbrev main_v433 : Ref sig .tc := ⟨.hbm, 655, rfl⟩
abbrev main_v434 : Ref sig .tc := ⟨.hbm, 656, rfl⟩
abbrev main_v435 : Ref sig .tc := ⟨.hbm, 657, rfl⟩
abbrev main_v436 : Ref sig .tc := ⟨.hbm, 658, rfl⟩
abbrev main_v437 : Ref sig .tc := ⟨.hbm, 659, rfl⟩
abbrev main_cst_134 : Ref sig .tc := ⟨.hbm, 660, rfl⟩
abbrev main_v438 : Ref sig .tc := ⟨.hbm, 661, rfl⟩
abbrev main_v439 : Ref sig .tc := ⟨.hbm, 662, rfl⟩
abbrev main_cst_135 : Ref sig .tc := ⟨.hbm, 663, rfl⟩
abbrev main_v440 : Ref sig .tc := ⟨.hbm, 664, rfl⟩
abbrev main_v441 : Ref sig .tc := ⟨.hbm, 665, rfl⟩
abbrev main_v442 : Ref sig .tc := ⟨.hbm, 666, rfl⟩
abbrev main_v443 : Ref sig .tc := ⟨.hbm, 667, rfl⟩
abbrev main_cst_136 : Ref sig .tc := ⟨.hbm, 668, rfl⟩
abbrev main_v444 : Ref sig .tc := ⟨.hbm, 669, rfl⟩
abbrev main_v445 : Ref sig .tc := ⟨.hbm, 670, rfl⟩
abbrev main_cst_137 : Ref sig .tc := ⟨.hbm, 671, rfl⟩
abbrev main_v446 : Ref sig .tc := ⟨.hbm, 672, rfl⟩
abbrev main_v447 : Ref sig .tc := ⟨.hbm, 673, rfl⟩
abbrev main_v448 : Ref sig .tc := ⟨.hbm, 674, rfl⟩
abbrev main_v449 : Ref sig .tc := ⟨.hbm, 675, rfl⟩
abbrev main_v450 : Ref sig .tc := ⟨.hbm, 676, rfl⟩
abbrev main_v451 : Ref sig .tc := ⟨.hbm, 677, rfl⟩
abbrev main_v452 : Ref sig .tc := ⟨.hbm, 678, rfl⟩
abbrev main_v453 : Ref sig .tc := ⟨.hbm, 679, rfl⟩
abbrev main_c_138 : Ref sig .tc := ⟨.hbm, 680, rfl⟩
abbrev main_v454 : Ref sig .tc := ⟨.hbm, 681, rfl⟩
abbrev main_v455 : Ref sig .tc := ⟨.hbm, 682, rfl⟩
abbrev main_c_139 : Ref sig .tc := ⟨.hbm, 683, rfl⟩
abbrev main_v456 : Ref sig .tc := ⟨.hbm, 684, rfl⟩
abbrev main_v457 : Ref sig .tc := ⟨.hbm, 685, rfl⟩
abbrev main_v458 : Ref sig .tc := ⟨.hbm, 686, rfl⟩
abbrev main_c_140 : Ref sig .tc := ⟨.hbm, 687, rfl⟩
abbrev main_v459 : Ref sig .tc := ⟨.hbm, 688, rfl⟩
abbrev main_v460 : Ref sig .tc := ⟨.hbm, 689, rfl⟩
abbrev main_v461 : Ref sig .tc := ⟨.hbm, 690, rfl⟩
abbrev main_c_141 : Ref sig .tc := ⟨.hbm, 691, rfl⟩
abbrev main_v462 : Ref sig .tc := ⟨.hbm, 692, rfl⟩
abbrev main_v463 : Ref sig .tc := ⟨.hbm, 693, rfl⟩
abbrev main_v464 : Ref sig .tc := ⟨.hbm, 694, rfl⟩
abbrev main_c_142 : Ref sig .tc := ⟨.hbm, 695, rfl⟩
abbrev main_c_143 : Ref sig .tc := ⟨.hbm, 696, rfl⟩
abbrev main_call16_v0 : Ref sig .tc := ⟨.hbm, 697, rfl⟩
abbrev main_call16_v1 : Ref sig .tc := ⟨.hbm, 698, rfl⟩
abbrev main_call16_v2 : Ref sig .tc := ⟨.hbm, 699, rfl⟩
abbrev main_call16_v3 : Ref sig .tc := ⟨.hbm, 700, rfl⟩
abbrev main_call16_v4 : Ref sig .tc := ⟨.hbm, 701, rfl⟩
abbrev main_v465 : Ref sig .tc := ⟨.hbm, 702, rfl⟩
abbrev main_c_144 : Ref sig .tc := ⟨.hbm, 703, rfl⟩
abbrev main_c_145 : Ref sig .tc := ⟨.hbm, 704, rfl⟩
abbrev main_call17_v0 : Ref sig .tc := ⟨.hbm, 705, rfl⟩
abbrev main_call17_v1 : Ref sig .tc := ⟨.hbm, 706, rfl⟩
abbrev main_call17_v2 : Ref sig .tc := ⟨.hbm, 707, rfl⟩
abbrev main_call17_v3 : Ref sig .tc := ⟨.hbm, 708, rfl⟩
abbrev main_call17_v4 : Ref sig .tc := ⟨.hbm, 709, rfl⟩
abbrev main_v466 : Ref sig .tc := ⟨.hbm, 710, rfl⟩
abbrev main_v467 : Ref sig .tc := ⟨.hbm, 711, rfl⟩
abbrev main_c_146 : Ref sig .tc := ⟨.hbm, 712, rfl⟩
abbrev main_v468 : Ref sig .tc := ⟨.hbm, 713, rfl⟩
abbrev main_v469 : Ref sig .tc := ⟨.hbm, 714, rfl⟩
abbrev main_c_147 : Ref sig .tc := ⟨.hbm, 715, rfl⟩
abbrev main_v470 : Ref sig .tc := ⟨.hbm, 716, rfl⟩
abbrev main_v471 : Ref sig .tc := ⟨.hbm, 717, rfl⟩
abbrev main_v472 : Ref sig .tc := ⟨.hbm, 718, rfl⟩
abbrev main_c_148 : Ref sig .tc := ⟨.hbm, 719, rfl⟩
abbrev main_v473 : Ref sig .tc := ⟨.hbm, 720, rfl⟩
abbrev main_v474 : Ref sig .tc := ⟨.hbm, 721, rfl⟩
abbrev main_c_149 : Ref sig .tc := ⟨.hbm, 722, rfl⟩
abbrev main_v475 : Ref sig .tc := ⟨.hbm, 723, rfl⟩
abbrev main_v476 : Ref sig .tc := ⟨.hbm, 724, rfl⟩
abbrev main_v477 : Ref sig .tc := ⟨.hbm, 725, rfl⟩
abbrev main_c_150 : Ref sig .tc := ⟨.hbm, 726, rfl⟩
abbrev main_v478 : Ref sig .tc := ⟨.hbm, 727, rfl⟩
abbrev main_v479 : Ref sig .tc := ⟨.hbm, 728, rfl⟩
abbrev main_c_151 : Ref sig .tc := ⟨.hbm, 729, rfl⟩
abbrev main_v480 : Ref sig .tc := ⟨.hbm, 730, rfl⟩
abbrev main_v481 : Ref sig .tc := ⟨.hbm, 731, rfl⟩
abbrev main_v482 : Ref sig .tc := ⟨.hbm, 732, rfl⟩
abbrev main_v483 : Ref sig .tc := ⟨.hbm, 733, rfl⟩
abbrev main_v484 : Ref sig .tc := ⟨.hbm, 734, rfl⟩
abbrev main_v485 : Ref sig .tc := ⟨.hbm, 735, rfl⟩
abbrev main_v486 : Ref sig .tc := ⟨.hbm, 736, rfl⟩
abbrev main_v487 : Ref sig .tc := ⟨.hbm, 737, rfl⟩
abbrev main_v488 : Ref sig .tc := ⟨.hbm, 738, rfl⟩
abbrev main_v489 : Ref sig .tc := ⟨.hbm, 739, rfl⟩
abbrev main_v490 : Ref sig .tc := ⟨.hbm, 740, rfl⟩
abbrev main_v491 : Ref sig .tc := ⟨.hbm, 741, rfl⟩
abbrev main_v492 : Ref sig .tc := ⟨.hbm, 742, rfl⟩
abbrev main_c_152 : Ref sig .tc := ⟨.hbm, 743, rfl⟩
abbrev main_v493 : Ref sig .tc := ⟨.hbm, 744, rfl⟩
abbrev main_v494 : Ref sig .tc := ⟨.hbm, 745, rfl⟩
abbrev main_c_153 : Ref sig .tc := ⟨.hbm, 746, rfl⟩
abbrev main_v495 : Ref sig .tc := ⟨.hbm, 747, rfl⟩
abbrev main_v496 : Ref sig .tc := ⟨.hbm, 748, rfl⟩
abbrev main_c_154 : Ref sig .tc := ⟨.hbm, 749, rfl⟩
abbrev main_v497 : Ref sig .tc := ⟨.hbm, 750, rfl⟩
abbrev main_v498 : Ref sig .tc := ⟨.hbm, 751, rfl⟩
abbrev main_v499 : Ref sig .tc := ⟨.hbm, 752, rfl⟩
abbrev main_c_155 : Ref sig .tc := ⟨.hbm, 753, rfl⟩
abbrev main_v500 : Ref sig .tc := ⟨.hbm, 754, rfl⟩
abbrev main_v501 : Ref sig .tc := ⟨.hbm, 755, rfl⟩
abbrev main_v502 : Ref sig .tc := ⟨.hbm, 756, rfl⟩
abbrev main_c_156 : Ref sig .tc := ⟨.hbm, 757, rfl⟩
abbrev main_v503 : Ref sig .tc := ⟨.hbm, 758, rfl⟩
abbrev main_v504 : Ref sig .tc := ⟨.hbm, 759, rfl⟩
abbrev main_v505 : Ref sig .tc := ⟨.hbm, 760, rfl⟩
abbrev main_c_157 : Ref sig .tc := ⟨.hbm, 761, rfl⟩
abbrev main_c_158 : Ref sig .tc := ⟨.hbm, 762, rfl⟩
abbrev main_call18_v0 : Ref sig .tc := ⟨.hbm, 763, rfl⟩
abbrev main_call18_v1 : Ref sig .tc := ⟨.hbm, 764, rfl⟩
abbrev main_call18_v2 : Ref sig .tc := ⟨.hbm, 765, rfl⟩
abbrev main_call18_v3 : Ref sig .tc := ⟨.hbm, 766, rfl⟩
abbrev main_call18_v4 : Ref sig .tc := ⟨.hbm, 767, rfl⟩
abbrev main_v506 : Ref sig .tc := ⟨.hbm, 768, rfl⟩
abbrev main_c_159 : Ref sig .tc := ⟨.hbm, 769, rfl⟩
abbrev main_c_160 : Ref sig .tc := ⟨.hbm, 770, rfl⟩
abbrev main_call19_v0 : Ref sig .tc := ⟨.hbm, 771, rfl⟩
abbrev main_call19_v1 : Ref sig .tc := ⟨.hbm, 772, rfl⟩
abbrev main_call19_v2 : Ref sig .tc := ⟨.hbm, 773, rfl⟩
abbrev main_call19_v3 : Ref sig .tc := ⟨.hbm, 774, rfl⟩
abbrev main_call19_v4 : Ref sig .tc := ⟨.hbm, 775, rfl⟩
abbrev main_v507 : Ref sig .tc := ⟨.hbm, 776, rfl⟩
abbrev main_v508 : Ref sig .tc := ⟨.hbm, 777, rfl⟩
abbrev main_c_161 : Ref sig .tc := ⟨.hbm, 778, rfl⟩
abbrev main_v509 : Ref sig .tc := ⟨.hbm, 779, rfl⟩
abbrev main_v510 : Ref sig .tc := ⟨.hbm, 780, rfl⟩
abbrev main_c_162 : Ref sig .tc := ⟨.hbm, 781, rfl⟩
abbrev main_v511 : Ref sig .tc := ⟨.hbm, 782, rfl⟩
abbrev main_v512 : Ref sig .tc := ⟨.hbm, 783, rfl⟩
abbrev main_v513 : Ref sig .tc := ⟨.hbm, 784, rfl⟩
abbrev main_c_163 : Ref sig .tc := ⟨.hbm, 785, rfl⟩
abbrev main_v514 : Ref sig .tc := ⟨.hbm, 786, rfl⟩
abbrev main_v515 : Ref sig .tc := ⟨.hbm, 787, rfl⟩
abbrev main_c_164 : Ref sig .tc := ⟨.hbm, 788, rfl⟩
abbrev main_v516 : Ref sig .tc := ⟨.hbm, 789, rfl⟩
abbrev main_v517 : Ref sig .tc := ⟨.hbm, 790, rfl⟩
abbrev main_v518 : Ref sig .tc := ⟨.hbm, 791, rfl⟩
abbrev main_c_165 : Ref sig .tc := ⟨.hbm, 792, rfl⟩
abbrev main_v519 : Ref sig .tc := ⟨.hbm, 793, rfl⟩
abbrev main_v520 : Ref sig .tc := ⟨.hbm, 794, rfl⟩
abbrev main_c_166 : Ref sig .tc := ⟨.hbm, 795, rfl⟩
abbrev main_v521 : Ref sig .tc := ⟨.hbm, 796, rfl⟩
abbrev main_v522 : Ref sig .tc := ⟨.hbm, 797, rfl⟩
abbrev main_v523 : Ref sig .tc := ⟨.hbm, 798, rfl⟩
abbrev main_v524 : Ref sig .tc := ⟨.hbm, 799, rfl⟩
abbrev main_v525 : Ref sig .tc := ⟨.hbm, 800, rfl⟩
abbrev main_v526 : Ref sig .tc := ⟨.hbm, 801, rfl⟩
abbrev main_v527 : Ref sig .tc := ⟨.hbm, 802, rfl⟩
abbrev main_v528 : Ref sig .tc := ⟨.hbm, 803, rfl⟩
abbrev main_v529 : Ref sig .tc := ⟨.hbm, 804, rfl⟩
abbrev main_v530 : Ref sig .tc := ⟨.hbm, 805, rfl⟩
abbrev main_v531 : Ref sig .tc := ⟨.hbm, 806, rfl⟩
abbrev main_v532 : Ref sig .tc := ⟨.hbm, 807, rfl⟩
abbrev main_v533 : Ref sig .tc := ⟨.hbm, 808, rfl⟩
abbrev main_c_167 : Ref sig .tc := ⟨.hbm, 809, rfl⟩
abbrev main_v534 : Ref sig .tc := ⟨.hbm, 810, rfl⟩
abbrev main_v535 : Ref sig .tc := ⟨.hbm, 811, rfl⟩
abbrev main_c_168 : Ref sig .tc := ⟨.hbm, 812, rfl⟩
abbrev main_v536 : Ref sig .tc := ⟨.hbm, 813, rfl⟩
abbrev main_v537 : Ref sig .tc := ⟨.hbm, 814, rfl⟩
abbrev main_c_169 : Ref sig .tc := ⟨.hbm, 815, rfl⟩
abbrev main_v538 : Ref sig .tc := ⟨.hbm, 816, rfl⟩
abbrev main_v539 : Ref sig .tc := ⟨.hbm, 817, rfl⟩
abbrev main_v540 : Ref sig .tc := ⟨.hbm, 818, rfl⟩
abbrev main_c_170 : Ref sig .tc := ⟨.hbm, 819, rfl⟩
abbrev main_v541 : Ref sig .tc := ⟨.hbm, 820, rfl⟩
abbrev main_v542 : Ref sig .tc := ⟨.hbm, 821, rfl⟩
abbrev main_v543 : Ref sig .tc := ⟨.hbm, 822, rfl⟩
abbrev main_c_171 : Ref sig .tc := ⟨.hbm, 823, rfl⟩
abbrev main_v544 : Ref sig .tc := ⟨.hbm, 824, rfl⟩
abbrev main_v545 : Ref sig .tc := ⟨.hbm, 825, rfl⟩
abbrev main_v546 : Ref sig .tc := ⟨.hbm, 826, rfl⟩
abbrev main_c_172 : Ref sig .tc := ⟨.hbm, 827, rfl⟩
abbrev main_c_173 : Ref sig .tc := ⟨.hbm, 828, rfl⟩
abbrev main_call20_v0 : Ref sig .tc := ⟨.hbm, 829, rfl⟩
abbrev main_call20_v1 : Ref sig .tc := ⟨.hbm, 830, rfl⟩
abbrev main_call20_v2 : Ref sig .tc := ⟨.hbm, 831, rfl⟩
abbrev main_call20_v3 : Ref sig .tc := ⟨.hbm, 832, rfl⟩
abbrev main_call20_v4 : Ref sig .tc := ⟨.hbm, 833, rfl⟩
abbrev main_v547 : Ref sig .tc := ⟨.hbm, 834, rfl⟩
abbrev main_c_174 : Ref sig .tc := ⟨.hbm, 835, rfl⟩
abbrev main_c_175 : Ref sig .tc := ⟨.hbm, 836, rfl⟩
abbrev main_call21_v0 : Ref sig .tc := ⟨.hbm, 837, rfl⟩
abbrev main_call21_v1 : Ref sig .tc := ⟨.hbm, 838, rfl⟩
abbrev main_call21_v2 : Ref sig .tc := ⟨.hbm, 839, rfl⟩
abbrev main_call21_v3 : Ref sig .tc := ⟨.hbm, 840, rfl⟩
abbrev main_call21_v4 : Ref sig .tc := ⟨.hbm, 841, rfl⟩
abbrev main_v548 : Ref sig .tc := ⟨.hbm, 842, rfl⟩
abbrev main_v549 : Ref sig .tc := ⟨.hbm, 843, rfl⟩
abbrev main_c_176 : Ref sig .tc := ⟨.hbm, 844, rfl⟩
abbrev main_v550 : Ref sig .tc := ⟨.hbm, 845, rfl⟩
abbrev main_v551 : Ref sig .tc := ⟨.hbm, 846, rfl⟩
abbrev main_c_177 : Ref sig .tc := ⟨.hbm, 847, rfl⟩
abbrev main_v552 : Ref sig .tc := ⟨.hbm, 848, rfl⟩
abbrev main_v553 : Ref sig .tc := ⟨.hbm, 849, rfl⟩
abbrev main_v554 : Ref sig .tc := ⟨.hbm, 850, rfl⟩
abbrev main_c_178 : Ref sig .tc := ⟨.hbm, 851, rfl⟩
abbrev main_v555 : Ref sig .tc := ⟨.hbm, 852, rfl⟩
abbrev main_v556 : Ref sig .tc := ⟨.hbm, 853, rfl⟩
abbrev main_c_179 : Ref sig .tc := ⟨.hbm, 854, rfl⟩
abbrev main_v557 : Ref sig .tc := ⟨.hbm, 855, rfl⟩
abbrev main_v558 : Ref sig .tc := ⟨.hbm, 856, rfl⟩
abbrev main_v559 : Ref sig .tc := ⟨.hbm, 857, rfl⟩
abbrev main_c_180 : Ref sig .tc := ⟨.hbm, 858, rfl⟩
abbrev main_v560 : Ref sig .tc := ⟨.hbm, 859, rfl⟩
abbrev main_v561 : Ref sig .tc := ⟨.hbm, 860, rfl⟩
abbrev main_c_181 : Ref sig .tc := ⟨.hbm, 861, rfl⟩
abbrev main_v562 : Ref sig .tc := ⟨.hbm, 862, rfl⟩
abbrev main_v563 : Ref sig .tc := ⟨.hbm, 863, rfl⟩
abbrev main_v564 : Ref sig .tc := ⟨.hbm, 864, rfl⟩
abbrev main_v565 : Ref sig .tc := ⟨.hbm, 865, rfl⟩
abbrev main_v566 : Ref sig .tc := ⟨.hbm, 866, rfl⟩
abbrev main_v567 : Ref sig .tc := ⟨.hbm, 867, rfl⟩
abbrev main_v568 : Ref sig .tc := ⟨.hbm, 868, rfl⟩
abbrev main_v569 : Ref sig .tc := ⟨.hbm, 869, rfl⟩
abbrev main_v570 : Ref sig .tc := ⟨.hbm, 870, rfl⟩
abbrev main_v571 : Ref sig .tc := ⟨.hbm, 871, rfl⟩
abbrev main_v572 : Ref sig .tc := ⟨.hbm, 872, rfl⟩
abbrev main_v573 : Ref sig .tc := ⟨.hbm, 873, rfl⟩
abbrev main_v574 : Ref sig .tc := ⟨.hbm, 874, rfl⟩
abbrev main_c_182 : Ref sig .tc := ⟨.hbm, 875, rfl⟩
abbrev main_v575 : Ref sig .tc := ⟨.hbm, 876, rfl⟩
abbrev main_v576 : Ref sig .tc := ⟨.hbm, 877, rfl⟩
abbrev main_c_183 : Ref sig .tc := ⟨.hbm, 878, rfl⟩
abbrev main_v577 : Ref sig .tc := ⟨.hbm, 879, rfl⟩
abbrev main_v578 : Ref sig .tc := ⟨.hbm, 880, rfl⟩
abbrev main_c_184 : Ref sig .tc := ⟨.hbm, 881, rfl⟩
abbrev main_v579 : Ref sig .tc := ⟨.hbm, 882, rfl⟩
abbrev main_v580 : Ref sig .tc := ⟨.hbm, 883, rfl⟩
abbrev main_c_185 : Ref sig .tc := ⟨.hbm, 884, rfl⟩
abbrev main_v581 : Ref sig .tc := ⟨.hbm, 885, rfl⟩
abbrev main_v582 : Ref sig .tc := ⟨.hbm, 886, rfl⟩
abbrev main_v583 : Ref sig .tc := ⟨.hbm, 887, rfl⟩
abbrev main_c_186 : Ref sig .tc := ⟨.hbm, 888, rfl⟩
abbrev main_v584 : Ref sig .tc := ⟨.hbm, 889, rfl⟩
abbrev main_v585 : Ref sig .tc := ⟨.hbm, 890, rfl⟩
abbrev main_v586 : Ref sig .tc := ⟨.hbm, 891, rfl⟩
abbrev main_c_187 : Ref sig .tc := ⟨.hbm, 892, rfl⟩
abbrev main_v587 : Ref sig .tc := ⟨.hbm, 893, rfl⟩
abbrev main_v588 : Ref sig .tc := ⟨.hbm, 894, rfl⟩
abbrev main_v589 : Ref sig .tc := ⟨.hbm, 895, rfl⟩
abbrev main_c_188 : Ref sig .tc := ⟨.hbm, 896, rfl⟩
abbrev main_c_189 : Ref sig .tc := ⟨.hbm, 897, rfl⟩
abbrev main_call22_v0 : Ref sig .tc := ⟨.hbm, 898, rfl⟩
abbrev main_call22_v1 : Ref sig .tc := ⟨.hbm, 899, rfl⟩
abbrev main_call22_v2 : Ref sig .tc := ⟨.hbm, 900, rfl⟩
abbrev main_call22_v3 : Ref sig .tc := ⟨.hbm, 901, rfl⟩
abbrev main_call22_v4 : Ref sig .tc := ⟨.hbm, 902, rfl⟩
abbrev main_v590 : Ref sig .tc := ⟨.hbm, 903, rfl⟩
abbrev main_c_190 : Ref sig .tc := ⟨.hbm, 904, rfl⟩
abbrev main_c_191 : Ref sig .tc := ⟨.hbm, 905, rfl⟩
abbrev main_call23_v0 : Ref sig .tc := ⟨.hbm, 906, rfl⟩
abbrev main_call23_v1 : Ref sig .tc := ⟨.hbm, 907, rfl⟩
abbrev main_call23_v2 : Ref sig .tc := ⟨.hbm, 908, rfl⟩
abbrev main_call23_v3 : Ref sig .tc := ⟨.hbm, 909, rfl⟩
abbrev main_call23_v4 : Ref sig .tc := ⟨.hbm, 910, rfl⟩
abbrev main_v591 : Ref sig .tc := ⟨.hbm, 911, rfl⟩
abbrev main_v592 : Ref sig .tc := ⟨.hbm, 912, rfl⟩
abbrev main_c_192 : Ref sig .tc := ⟨.hbm, 913, rfl⟩
abbrev main_v593 : Ref sig .tc := ⟨.hbm, 914, rfl⟩
abbrev main_v594 : Ref sig .tc := ⟨.hbm, 915, rfl⟩
abbrev main_c_193 : Ref sig .tc := ⟨.hbm, 916, rfl⟩
abbrev main_v595 : Ref sig .tc := ⟨.hbm, 917, rfl⟩
abbrev main_v596 : Ref sig .tc := ⟨.hbm, 918, rfl⟩
abbrev main_v597 : Ref sig .tc := ⟨.hbm, 919, rfl⟩
abbrev main_c_194 : Ref sig .tc := ⟨.hbm, 920, rfl⟩
abbrev main_v598 : Ref sig .tc := ⟨.hbm, 921, rfl⟩
abbrev main_v599 : Ref sig .tc := ⟨.hbm, 922, rfl⟩
abbrev main_c_195 : Ref sig .tc := ⟨.hbm, 923, rfl⟩
abbrev main_v600 : Ref sig .tc := ⟨.hbm, 924, rfl⟩
abbrev main_v601 : Ref sig .tc := ⟨.hbm, 925, rfl⟩
abbrev main_v602 : Ref sig .tc := ⟨.hbm, 926, rfl⟩
abbrev main_c_196 : Ref sig .tc := ⟨.hbm, 927, rfl⟩
abbrev main_v603 : Ref sig .tc := ⟨.hbm, 928, rfl⟩
abbrev main_v604 : Ref sig .tc := ⟨.hbm, 929, rfl⟩
abbrev main_c_197 : Ref sig .tc := ⟨.hbm, 930, rfl⟩
abbrev main_v605 : Ref sig .tc := ⟨.hbm, 931, rfl⟩
abbrev main_v606 : Ref sig .tc := ⟨.hbm, 932, rfl⟩
abbrev main_v607 : Ref sig .tc := ⟨.hbm, 933, rfl⟩
abbrev main_v608 : Ref sig .tc := ⟨.hbm, 934, rfl⟩
abbrev main_v609 : Ref sig .tc := ⟨.hbm, 935, rfl⟩
abbrev main_v610 : Ref sig .tc := ⟨.hbm, 936, rfl⟩
abbrev main_v611 : Ref sig .tc := ⟨.hbm, 937, rfl⟩
abbrev main_v612 : Ref sig .tc := ⟨.hbm, 938, rfl⟩
abbrev main_v613 : Ref sig .tc := ⟨.hbm, 939, rfl⟩
abbrev main_v614 : Ref sig .tc := ⟨.hbm, 940, rfl⟩
abbrev main_v615 : Ref sig .tc := ⟨.hbm, 941, rfl⟩
abbrev main_v616 : Ref sig .tc := ⟨.hbm, 942, rfl⟩
abbrev main_v617 : Ref sig .tc := ⟨.hbm, 943, rfl⟩
abbrev main_v618 : Ref sig .tc := ⟨.hbm, 944, rfl⟩
abbrev main_v619 : Ref sig .tc := ⟨.hbm, 945, rfl⟩
abbrev main_cst_198 : Ref sig .tc := ⟨.hbm, 946, rfl⟩
abbrev main_v620 : Ref sig .tc := ⟨.hbm, 947, rfl⟩
abbrev main_v621 : Ref sig .tc := ⟨.hbm, 948, rfl⟩
abbrev main_v622 : Ref sig .tc := ⟨.hbm, 949, rfl⟩
abbrev main_v623 : Ref sig .tc := ⟨.hbm, 950, rfl⟩
abbrev main_cst_199 : Ref sig .tc := ⟨.hbm, 951, rfl⟩
abbrev main_v624 : Ref sig .tc := ⟨.hbm, 952, rfl⟩
abbrev main_v625 : Ref sig .tc := ⟨.hbm, 953, rfl⟩
abbrev main_v626 : Ref sig .tc := ⟨.hbm, 954, rfl⟩
abbrev main_v627 : Ref sig .tc := ⟨.hbm, 955, rfl⟩
abbrev main_v628 : Ref sig .tc := ⟨.hbm, 956, rfl⟩
abbrev main_v629 : Ref sig .tc := ⟨.hbm, 957, rfl⟩
abbrev main_cst_200 : Ref sig .tc := ⟨.hbm, 958, rfl⟩
abbrev main_v630 : Ref sig .tc := ⟨.hbm, 959, rfl⟩
abbrev main_v631 : Ref sig .tc := ⟨.hbm, 960, rfl⟩
abbrev main_v632 : Ref sig .tc := ⟨.hbm, 961, rfl⟩
abbrev main_v633 : Ref sig .tc := ⟨.hbm, 962, rfl⟩
abbrev main_v634 : Ref sig .tc := ⟨.hbm, 963, rfl⟩
abbrev main_cst_201 : Ref sig .tc := ⟨.hbm, 964, rfl⟩
abbrev main_v635 : Ref sig .tc := ⟨.hbm, 965, rfl⟩
abbrev main_v636 : Ref sig .tc := ⟨.hbm, 966, rfl⟩
abbrev main_v637 : Ref sig .tc := ⟨.hbm, 967, rfl⟩
abbrev main_v638 : Ref sig .tc := ⟨.hbm, 968, rfl⟩
abbrev main_v639 : Ref sig .tc := ⟨.hbm, 969, rfl⟩
abbrev main_v640 : Ref sig .tc := ⟨.hbm, 970, rfl⟩
abbrev main_v641 : Ref sig .tc := ⟨.hbm, 971, rfl⟩
abbrev main_v642 : Ref sig .tc := ⟨.hbm, 972, rfl⟩
abbrev main_v643 : Ref sig .tc := ⟨.hbm, 973, rfl⟩
abbrev main_v644 : Ref sig .tc := ⟨.hbm, 974, rfl⟩
abbrev main_v645 : Ref sig .tc := ⟨.hbm, 975, rfl⟩
abbrev main_v646 : Ref sig .tc := ⟨.hbm, 976, rfl⟩
abbrev main_v647 : Ref sig .tc := ⟨.hbm, 977, rfl⟩
abbrev main_v648 : Ref sig .tc := ⟨.hbm, 978, rfl⟩
abbrev main_v649 : Ref sig .tc := ⟨.hbm, 979, rfl⟩
abbrev main_cst_202 : Ref sig .tc := ⟨.hbm, 980, rfl⟩
abbrev main_v650 : Ref sig .tc := ⟨.hbm, 981, rfl⟩
abbrev main_v651 : Ref sig .tc := ⟨.hbm, 982, rfl⟩
abbrev main_cst_203 : Ref sig .tc := ⟨.hbm, 983, rfl⟩
abbrev main_v652 : Ref sig .tc := ⟨.hbm, 984, rfl⟩
abbrev main_v653 : Ref sig .tc := ⟨.hbm, 985, rfl⟩
abbrev main_v654 : Ref sig .tc := ⟨.hbm, 986, rfl⟩
abbrev main_v655 : Ref sig .tc := ⟨.hbm, 987, rfl⟩
abbrev main_cst_204 : Ref sig .tc := ⟨.hbm, 988, rfl⟩
abbrev main_v656 : Ref sig .tc := ⟨.hbm, 989, rfl⟩
abbrev main_v657 : Ref sig .tc := ⟨.hbm, 990, rfl⟩
abbrev main_cst_205 : Ref sig .tc := ⟨.hbm, 991, rfl⟩
abbrev main_v658 : Ref sig .tc := ⟨.hbm, 992, rfl⟩
abbrev main_v659 : Ref sig .tc := ⟨.hbm, 993, rfl⟩
abbrev main_v660 : Ref sig .tc := ⟨.hbm, 994, rfl⟩
abbrev main_v661 : Ref sig .tc := ⟨.hbm, 995, rfl⟩
abbrev main_v662 : Ref sig .tc := ⟨.hbm, 996, rfl⟩
abbrev main_v663 : Ref sig .tc := ⟨.hbm, 997, rfl⟩
abbrev main_v664 : Ref sig .tc := ⟨.hbm, 998, rfl⟩
abbrev main_v665 : Ref sig .tc := ⟨.hbm, 999, rfl⟩
abbrev main_c_206 : Ref sig .tc := ⟨.hbm, 1000, rfl⟩
abbrev main_v666 : Ref sig .tc := ⟨.hbm, 1001, rfl⟩
abbrev main_v667 : Ref sig .tc := ⟨.hbm, 1002, rfl⟩
abbrev main_c_207 : Ref sig .tc := ⟨.hbm, 1003, rfl⟩
abbrev main_v668 : Ref sig .tc := ⟨.hbm, 1004, rfl⟩
abbrev main_v669 : Ref sig .tc := ⟨.hbm, 1005, rfl⟩
abbrev main_v670 : Ref sig .tc := ⟨.hbm, 1006, rfl⟩
abbrev main_c_208 : Ref sig .tc := ⟨.hbm, 1007, rfl⟩
abbrev main_v671 : Ref sig .tc := ⟨.hbm, 1008, rfl⟩
abbrev main_v672 : Ref sig .tc := ⟨.hbm, 1009, rfl⟩
abbrev main_v673 : Ref sig .tc := ⟨.hbm, 1010, rfl⟩
abbrev main_c_209 : Ref sig .tc := ⟨.hbm, 1011, rfl⟩
abbrev main_v674 : Ref sig .tc := ⟨.hbm, 1012, rfl⟩
abbrev main_v675 : Ref sig .tc := ⟨.hbm, 1013, rfl⟩
abbrev main_v676 : Ref sig .tc := ⟨.hbm, 1014, rfl⟩
abbrev main_c_210 : Ref sig .tc := ⟨.hbm, 1015, rfl⟩
abbrev main_c_211 : Ref sig .tc := ⟨.hbm, 1016, rfl⟩
abbrev main_call24_v0 : Ref sig .tc := ⟨.hbm, 1017, rfl⟩
abbrev main_call24_v1 : Ref sig .tc := ⟨.hbm, 1018, rfl⟩
abbrev main_call24_v2 : Ref sig .tc := ⟨.hbm, 1019, rfl⟩
abbrev main_call24_v3 : Ref sig .tc := ⟨.hbm, 1020, rfl⟩
abbrev main_call24_v4 : Ref sig .tc := ⟨.hbm, 1021, rfl⟩
abbrev main_v677 : Ref sig .tc := ⟨.hbm, 1022, rfl⟩
abbrev main_c_212 : Ref sig .tc := ⟨.hbm, 1023, rfl⟩
abbrev main_c_213 : Ref sig .tc := ⟨.hbm, 1024, rfl⟩
abbrev main_call25_v0 : Ref sig .tc := ⟨.hbm, 1025, rfl⟩
abbrev main_call25_v1 : Ref sig .tc := ⟨.hbm, 1026, rfl⟩
abbrev main_call25_v2 : Ref sig .tc := ⟨.hbm, 1027, rfl⟩
abbrev main_call25_v3 : Ref sig .tc := ⟨.hbm, 1028, rfl⟩
abbrev main_call25_v4 : Ref sig .tc := ⟨.hbm, 1029, rfl⟩
abbrev main_v678 : Ref sig .tc := ⟨.hbm, 1030, rfl⟩
abbrev main_v679 : Ref sig .tc := ⟨.hbm, 1031, rfl⟩
abbrev main_c_214 : Ref sig .tc := ⟨.hbm, 1032, rfl⟩
abbrev main_v680 : Ref sig .tc := ⟨.hbm, 1033, rfl⟩
abbrev main_v681 : Ref sig .tc := ⟨.hbm, 1034, rfl⟩
abbrev main_c_215 : Ref sig .tc := ⟨.hbm, 1035, rfl⟩
abbrev main_v682 : Ref sig .tc := ⟨.hbm, 1036, rfl⟩
abbrev main_v683 : Ref sig .tc := ⟨.hbm, 1037, rfl⟩
abbrev main_v684 : Ref sig .tc := ⟨.hbm, 1038, rfl⟩
abbrev main_c_216 : Ref sig .tc := ⟨.hbm, 1039, rfl⟩
abbrev main_v685 : Ref sig .tc := ⟨.hbm, 1040, rfl⟩
abbrev main_v686 : Ref sig .tc := ⟨.hbm, 1041, rfl⟩
abbrev main_c_217 : Ref sig .tc := ⟨.hbm, 1042, rfl⟩
abbrev main_v687 : Ref sig .tc := ⟨.hbm, 1043, rfl⟩
abbrev main_v688 : Ref sig .tc := ⟨.hbm, 1044, rfl⟩
abbrev main_v689 : Ref sig .tc := ⟨.hbm, 1045, rfl⟩
abbrev main_c_218 : Ref sig .tc := ⟨.hbm, 1046, rfl⟩
abbrev main_v690 : Ref sig .tc := ⟨.hbm, 1047, rfl⟩
abbrev main_v691 : Ref sig .tc := ⟨.hbm, 1048, rfl⟩
abbrev main_c_219 : Ref sig .tc := ⟨.hbm, 1049, rfl⟩
abbrev main_v692 : Ref sig .tc := ⟨.hbm, 1050, rfl⟩
abbrev main_v693 : Ref sig .tc := ⟨.hbm, 1051, rfl⟩
abbrev main_v694 : Ref sig .tc := ⟨.hbm, 1052, rfl⟩
abbrev main_v695 : Ref sig .tc := ⟨.hbm, 1053, rfl⟩
abbrev main_v696 : Ref sig .tc := ⟨.hbm, 1054, rfl⟩
abbrev main_v697 : Ref sig .tc := ⟨.hbm, 1055, rfl⟩
abbrev main_v698 : Ref sig .tc := ⟨.hbm, 1056, rfl⟩
abbrev main_v699 : Ref sig .tc := ⟨.hbm, 1057, rfl⟩
abbrev main_v700 : Ref sig .tc := ⟨.hbm, 1058, rfl⟩
abbrev main_v701 : Ref sig .tc := ⟨.hbm, 1059, rfl⟩
abbrev main_v702 : Ref sig .tc := ⟨.hbm, 1060, rfl⟩
abbrev main_v703 : Ref sig .tc := ⟨.hbm, 1061, rfl⟩
abbrev main_v704 : Ref sig .tc := ⟨.hbm, 1062, rfl⟩
abbrev main_c_220 : Ref sig .tc := ⟨.hbm, 1063, rfl⟩
abbrev main_v705 : Ref sig .tc := ⟨.hbm, 1064, rfl⟩
abbrev main_v706 : Ref sig .tc := ⟨.hbm, 1065, rfl⟩
abbrev main_c_221 : Ref sig .tc := ⟨.hbm, 1066, rfl⟩
abbrev main_v707 : Ref sig .tc := ⟨.hbm, 1067, rfl⟩
abbrev main_v708 : Ref sig .tc := ⟨.hbm, 1068, rfl⟩
abbrev main_c_222 : Ref sig .tc := ⟨.hbm, 1069, rfl⟩
abbrev main_v709 : Ref sig .tc := ⟨.hbm, 1070, rfl⟩
abbrev main_v710 : Ref sig .tc := ⟨.hbm, 1071, rfl⟩
abbrev main_v711 : Ref sig .tc := ⟨.hbm, 1072, rfl⟩
abbrev main_c_223 : Ref sig .tc := ⟨.hbm, 1073, rfl⟩
abbrev main_v712 : Ref sig .tc := ⟨.hbm, 1074, rfl⟩
abbrev main_v713 : Ref sig .tc := ⟨.hbm, 1075, rfl⟩
abbrev main_v714 : Ref sig .tc := ⟨.hbm, 1076, rfl⟩
abbrev main_c_224 : Ref sig .tc := ⟨.hbm, 1077, rfl⟩
abbrev main_v715 : Ref sig .tc := ⟨.hbm, 1078, rfl⟩
abbrev main_v716 : Ref sig .tc := ⟨.hbm, 1079, rfl⟩
abbrev main_v717 : Ref sig .tc := ⟨.hbm, 1080, rfl⟩
abbrev main_c_225 : Ref sig .tc := ⟨.hbm, 1081, rfl⟩
abbrev main_c_226 : Ref sig .tc := ⟨.hbm, 1082, rfl⟩
abbrev main_call26_v0 : Ref sig .tc := ⟨.hbm, 1083, rfl⟩
abbrev main_call26_v1 : Ref sig .tc := ⟨.hbm, 1084, rfl⟩
abbrev main_call26_v2 : Ref sig .tc := ⟨.hbm, 1085, rfl⟩
abbrev main_call26_v3 : Ref sig .tc := ⟨.hbm, 1086, rfl⟩
abbrev main_call26_v4 : Ref sig .tc := ⟨.hbm, 1087, rfl⟩
abbrev main_v718 : Ref sig .tc := ⟨.hbm, 1088, rfl⟩
abbrev main_c_227 : Ref sig .tc := ⟨.hbm, 1089, rfl⟩
abbrev main_c_228 : Ref sig .tc := ⟨.hbm, 1090, rfl⟩
abbrev main_call27_v0 : Ref sig .tc := ⟨.hbm, 1091, rfl⟩
abbrev main_call27_v1 : Ref sig .tc := ⟨.hbm, 1092, rfl⟩
abbrev main_call27_v2 : Ref sig .tc := ⟨.hbm, 1093, rfl⟩
abbrev main_call27_v3 : Ref sig .tc := ⟨.hbm, 1094, rfl⟩
abbrev main_call27_v4 : Ref sig .tc := ⟨.hbm, 1095, rfl⟩
abbrev main_v719 : Ref sig .tc := ⟨.hbm, 1096, rfl⟩
abbrev main_v720 : Ref sig .tc := ⟨.hbm, 1097, rfl⟩
abbrev main_c_229 : Ref sig .tc := ⟨.hbm, 1098, rfl⟩
abbrev main_v721 : Ref sig .tc := ⟨.hbm, 1099, rfl⟩
abbrev main_v722 : Ref sig .tc := ⟨.hbm, 1100, rfl⟩
abbrev main_c_230 : Ref sig .tc := ⟨.hbm, 1101, rfl⟩
abbrev main_v723 : Ref sig .tc := ⟨.hbm, 1102, rfl⟩
abbrev main_v724 : Ref sig .tc := ⟨.hbm, 1103, rfl⟩
abbrev main_v725 : Ref sig .tc := ⟨.hbm, 1104, rfl⟩
abbrev main_c_231 : Ref sig .tc := ⟨.hbm, 1105, rfl⟩
abbrev main_v726 : Ref sig .tc := ⟨.hbm, 1106, rfl⟩
abbrev main_v727 : Ref sig .tc := ⟨.hbm, 1107, rfl⟩
abbrev main_c_232 : Ref sig .tc := ⟨.hbm, 1108, rfl⟩
abbrev main_v728 : Ref sig .tc := ⟨.hbm, 1109, rfl⟩
abbrev main_v729 : Ref sig .tc := ⟨.hbm, 1110, rfl⟩
abbrev main_v730 : Ref sig .tc := ⟨.hbm, 1111, rfl⟩
abbrev main_c_233 : Ref sig .tc := ⟨.hbm, 1112, rfl⟩
abbrev main_v731 : Ref sig .tc := ⟨.hbm, 1113, rfl⟩
abbrev main_v732 : Ref sig .tc := ⟨.hbm, 1114, rfl⟩
abbrev main_c_234 : Ref sig .tc := ⟨.hbm, 1115, rfl⟩
abbrev main_v733 : Ref sig .tc := ⟨.hbm, 1116, rfl⟩
abbrev main_v734 : Ref sig .tc := ⟨.hbm, 1117, rfl⟩
abbrev main_v735 : Ref sig .tc := ⟨.hbm, 1118, rfl⟩
abbrev main_v736 : Ref sig .tc := ⟨.hbm, 1119, rfl⟩
abbrev main_v737 : Ref sig .tc := ⟨.hbm, 1120, rfl⟩
abbrev main_v738 : Ref sig .tc := ⟨.hbm, 1121, rfl⟩
abbrev main_v739 : Ref sig .tc := ⟨.hbm, 1122, rfl⟩
abbrev main_v740 : Ref sig .tc := ⟨.hbm, 1123, rfl⟩
abbrev main_v741 : Ref sig .tc := ⟨.hbm, 1124, rfl⟩
abbrev main_v742 : Ref sig .tc := ⟨.hbm, 1125, rfl⟩
abbrev main_v743 : Ref sig .tc := ⟨.hbm, 1126, rfl⟩
abbrev main_v744 : Ref sig .tc := ⟨.hbm, 1127, rfl⟩
abbrev main_v745 : Ref sig .tc := ⟨.hbm, 1128, rfl⟩
abbrev main_c_235 : Ref sig .tc := ⟨.hbm, 1129, rfl⟩
abbrev main_v746 : Ref sig .tc := ⟨.hbm, 1130, rfl⟩
abbrev main_v747 : Ref sig .tc := ⟨.hbm, 1131, rfl⟩
abbrev main_c_236 : Ref sig .tc := ⟨.hbm, 1132, rfl⟩
abbrev main_v748 : Ref sig .tc := ⟨.hbm, 1133, rfl⟩
abbrev main_v749 : Ref sig .tc := ⟨.hbm, 1134, rfl⟩
abbrev main_c_237 : Ref sig .tc := ⟨.hbm, 1135, rfl⟩
abbrev main_v750 : Ref sig .tc := ⟨.hbm, 1136, rfl⟩
abbrev main_v751 : Ref sig .tc := ⟨.hbm, 1137, rfl⟩
abbrev main_v752 : Ref sig .tc := ⟨.hbm, 1138, rfl⟩
abbrev main_c_238 : Ref sig .tc := ⟨.hbm, 1139, rfl⟩
abbrev main_v753 : Ref sig .tc := ⟨.hbm, 1140, rfl⟩
abbrev main_v754 : Ref sig .tc := ⟨.hbm, 1141, rfl⟩
abbrev main_v755 : Ref sig .tc := ⟨.hbm, 1142, rfl⟩
abbrev main_c_239 : Ref sig .tc := ⟨.hbm, 1143, rfl⟩
abbrev main_v756 : Ref sig .tc := ⟨.hbm, 1144, rfl⟩
abbrev main_v757 : Ref sig .tc := ⟨.hbm, 1145, rfl⟩
abbrev main_v758 : Ref sig .tc := ⟨.hbm, 1146, rfl⟩
abbrev main_c_240 : Ref sig .tc := ⟨.hbm, 1147, rfl⟩
abbrev main_c_241 : Ref sig .tc := ⟨.hbm, 1148, rfl⟩
abbrev main_call28_v0 : Ref sig .tc := ⟨.hbm, 1149, rfl⟩
abbrev main_call28_v1 : Ref sig .tc := ⟨.hbm, 1150, rfl⟩
abbrev main_call28_v2 : Ref sig .tc := ⟨.hbm, 1151, rfl⟩
abbrev main_call28_v3 : Ref sig .tc := ⟨.hbm, 1152, rfl⟩
abbrev main_call28_v4 : Ref sig .tc := ⟨.hbm, 1153, rfl⟩
abbrev main_v759 : Ref sig .tc := ⟨.hbm, 1154, rfl⟩
abbrev main_c_242 : Ref sig .tc := ⟨.hbm, 1155, rfl⟩
abbrev main_c_243 : Ref sig .tc := ⟨.hbm, 1156, rfl⟩
abbrev main_call29_v0 : Ref sig .tc := ⟨.hbm, 1157, rfl⟩
abbrev main_call29_v1 : Ref sig .tc := ⟨.hbm, 1158, rfl⟩
abbrev main_call29_v2 : Ref sig .tc := ⟨.hbm, 1159, rfl⟩
abbrev main_call29_v3 : Ref sig .tc := ⟨.hbm, 1160, rfl⟩
abbrev main_call29_v4 : Ref sig .tc := ⟨.hbm, 1161, rfl⟩
abbrev main_v760 : Ref sig .tc := ⟨.hbm, 1162, rfl⟩
abbrev main_v761 : Ref sig .tc := ⟨.hbm, 1163, rfl⟩
abbrev main_c_244 : Ref sig .tc := ⟨.hbm, 1164, rfl⟩
abbrev main_v762 : Ref sig .tc := ⟨.hbm, 1165, rfl⟩
abbrev main_v763 : Ref sig .tc := ⟨.hbm, 1166, rfl⟩
abbrev main_c_245 : Ref sig .tc := ⟨.hbm, 1167, rfl⟩
abbrev main_v764 : Ref sig .tc := ⟨.hbm, 1168, rfl⟩
abbrev main_v765 : Ref sig .tc := ⟨.hbm, 1169, rfl⟩
abbrev main_v766 : Ref sig .tc := ⟨.hbm, 1170, rfl⟩
abbrev main_c_246 : Ref sig .tc := ⟨.hbm, 1171, rfl⟩
abbrev main_v767 : Ref sig .tc := ⟨.hbm, 1172, rfl⟩
abbrev main_v768 : Ref sig .tc := ⟨.hbm, 1173, rfl⟩
abbrev main_c_247 : Ref sig .tc := ⟨.hbm, 1174, rfl⟩
abbrev main_v769 : Ref sig .tc := ⟨.hbm, 1175, rfl⟩
abbrev main_v770 : Ref sig .tc := ⟨.hbm, 1176, rfl⟩
abbrev main_v771 : Ref sig .tc := ⟨.hbm, 1177, rfl⟩
abbrev main_c_248 : Ref sig .tc := ⟨.hbm, 1178, rfl⟩
abbrev main_v772 : Ref sig .tc := ⟨.hbm, 1179, rfl⟩
abbrev main_v773 : Ref sig .tc := ⟨.hbm, 1180, rfl⟩
abbrev main_c_249 : Ref sig .tc := ⟨.hbm, 1181, rfl⟩
abbrev main_v774 : Ref sig .tc := ⟨.hbm, 1182, rfl⟩
abbrev main_v775 : Ref sig .tc := ⟨.hbm, 1183, rfl⟩
abbrev main_v776 : Ref sig .tc := ⟨.hbm, 1184, rfl⟩
abbrev main_v777 : Ref sig .tc := ⟨.hbm, 1185, rfl⟩
abbrev main_v778 : Ref sig .tc := ⟨.hbm, 1186, rfl⟩
abbrev main_v779 : Ref sig .tc := ⟨.hbm, 1187, rfl⟩
abbrev main_v780 : Ref sig .tc := ⟨.hbm, 1188, rfl⟩
abbrev main_v781 : Ref sig .tc := ⟨.hbm, 1189, rfl⟩
abbrev main_v782 : Ref sig .tc := ⟨.hbm, 1190, rfl⟩
abbrev main_v783 : Ref sig .tc := ⟨.hbm, 1191, rfl⟩
abbrev main_v784 : Ref sig .tc := ⟨.hbm, 1192, rfl⟩
abbrev main_v785 : Ref sig .tc := ⟨.hbm, 1193, rfl⟩
abbrev main_v786 : Ref sig .tc := ⟨.hbm, 1194, rfl⟩
abbrev main_c_250 : Ref sig .tc := ⟨.hbm, 1195, rfl⟩
abbrev main_v787 : Ref sig .tc := ⟨.hbm, 1196, rfl⟩
abbrev main_v788 : Ref sig .tc := ⟨.hbm, 1197, rfl⟩
abbrev main_c_251 : Ref sig .tc := ⟨.hbm, 1198, rfl⟩
abbrev main_v789 : Ref sig .tc := ⟨.hbm, 1199, rfl⟩
abbrev main_v790 : Ref sig .tc := ⟨.hbm, 1200, rfl⟩
abbrev main_c_252 : Ref sig .tc := ⟨.hbm, 1201, rfl⟩
abbrev main_v791 : Ref sig .tc := ⟨.hbm, 1202, rfl⟩
abbrev main_v792 : Ref sig .tc := ⟨.hbm, 1203, rfl⟩
abbrev main_c_253 : Ref sig .tc := ⟨.hbm, 1204, rfl⟩
abbrev main_v793 : Ref sig .tc := ⟨.hbm, 1205, rfl⟩
abbrev main_v794 : Ref sig .tc := ⟨.hbm, 1206, rfl⟩
abbrev main_v795 : Ref sig .tc := ⟨.hbm, 1207, rfl⟩
abbrev main_c_254 : Ref sig .tc := ⟨.hbm, 1208, rfl⟩
abbrev main_v796 : Ref sig .tc := ⟨.hbm, 1209, rfl⟩
abbrev main_v797 : Ref sig .tc := ⟨.hbm, 1210, rfl⟩
abbrev main_v798 : Ref sig .tc := ⟨.hbm, 1211, rfl⟩
abbrev main_c_255 : Ref sig .tc := ⟨.hbm, 1212, rfl⟩
abbrev main_v799 : Ref sig .tc := ⟨.hbm, 1213, rfl⟩
abbrev main_v800 : Ref sig .tc := ⟨.hbm, 1214, rfl⟩
abbrev main_v801 : Ref sig .tc := ⟨.hbm, 1215, rfl⟩
abbrev main_c_256 : Ref sig .tc := ⟨.hbm, 1216, rfl⟩
abbrev main_c_257 : Ref sig .tc := ⟨.hbm, 1217, rfl⟩
abbrev main_call30_v0 : Ref sig .tc := ⟨.hbm, 1218, rfl⟩
abbrev main_call30_v1 : Ref sig .tc := ⟨.hbm, 1219, rfl⟩
abbrev main_call30_v2 : Ref sig .tc := ⟨.hbm, 1220, rfl⟩
abbrev main_call30_v3 : Ref sig .tc := ⟨.hbm, 1221, rfl⟩
abbrev main_call30_v4 : Ref sig .tc := ⟨.hbm, 1222, rfl⟩
abbrev main_v802 : Ref sig .tc := ⟨.hbm, 1223, rfl⟩
abbrev main_c_258 : Ref sig .tc := ⟨.hbm, 1224, rfl⟩
abbrev main_c_259 : Ref sig .tc := ⟨.hbm, 1225, rfl⟩
abbrev main_call31_v0 : Ref sig .tc := ⟨.hbm, 1226, rfl⟩
abbrev main_call31_v1 : Ref sig .tc := ⟨.hbm, 1227, rfl⟩
abbrev main_call31_v2 : Ref sig .tc := ⟨.hbm, 1228, rfl⟩
abbrev main_call31_v3 : Ref sig .tc := ⟨.hbm, 1229, rfl⟩
abbrev main_call31_v4 : Ref sig .tc := ⟨.hbm, 1230, rfl⟩
abbrev main_v803 : Ref sig .tc := ⟨.hbm, 1231, rfl⟩
abbrev main_v804 : Ref sig .tc := ⟨.hbm, 1232, rfl⟩
abbrev main_c_260 : Ref sig .tc := ⟨.hbm, 1233, rfl⟩
abbrev main_v805 : Ref sig .tc := ⟨.hbm, 1234, rfl⟩
abbrev main_v806 : Ref sig .tc := ⟨.hbm, 1235, rfl⟩
abbrev main_c_261 : Ref sig .tc := ⟨.hbm, 1236, rfl⟩
abbrev main_v807 : Ref sig .tc := ⟨.hbm, 1237, rfl⟩
abbrev main_v808 : Ref sig .tc := ⟨.hbm, 1238, rfl⟩
abbrev main_v809 : Ref sig .tc := ⟨.hbm, 1239, rfl⟩
abbrev main_c_262 : Ref sig .tc := ⟨.hbm, 1240, rfl⟩
abbrev main_v810 : Ref sig .tc := ⟨.hbm, 1241, rfl⟩
abbrev main_v811 : Ref sig .tc := ⟨.hbm, 1242, rfl⟩
abbrev main_c_263 : Ref sig .tc := ⟨.hbm, 1243, rfl⟩
abbrev main_v812 : Ref sig .tc := ⟨.hbm, 1244, rfl⟩
abbrev main_v813 : Ref sig .tc := ⟨.hbm, 1245, rfl⟩
abbrev main_v814 : Ref sig .tc := ⟨.hbm, 1246, rfl⟩
abbrev main_c_264 : Ref sig .tc := ⟨.hbm, 1247, rfl⟩
abbrev main_v815 : Ref sig .tc := ⟨.hbm, 1248, rfl⟩
abbrev main_v816 : Ref sig .tc := ⟨.hbm, 1249, rfl⟩
abbrev main_c_265 : Ref sig .tc := ⟨.hbm, 1250, rfl⟩
abbrev main_v817 : Ref sig .tc := ⟨.hbm, 1251, rfl⟩
abbrev main_v818 : Ref sig .tc := ⟨.hbm, 1252, rfl⟩
abbrev main_v819 : Ref sig .tc := ⟨.hbm, 1253, rfl⟩
abbrev main_v820 : Ref sig .tc := ⟨.hbm, 1254, rfl⟩
abbrev main_v821 : Ref sig .tc := ⟨.hbm, 1255, rfl⟩
abbrev main_v822 : Ref sig .tc := ⟨.hbm, 1256, rfl⟩
abbrev main_v823 : Ref sig .tc := ⟨.hbm, 1257, rfl⟩
abbrev main_v824 : Ref sig .tc := ⟨.hbm, 1258, rfl⟩
abbrev main_v825 : Ref sig .tc := ⟨.hbm, 1259, rfl⟩
abbrev main_v826 : Ref sig .tc := ⟨.hbm, 1260, rfl⟩
abbrev main_v827 : Ref sig .tc := ⟨.hbm, 1261, rfl⟩
abbrev main_v828 : Ref sig .tc := ⟨.hbm, 1262, rfl⟩
abbrev main_v829 : Ref sig .tc := ⟨.hbm, 1263, rfl⟩
abbrev main_v830 : Ref sig .tc := ⟨.hbm, 1264, rfl⟩
abbrev main_v831 : Ref sig .tc := ⟨.hbm, 1265, rfl⟩
abbrev main_cst_266 : Ref sig .tc := ⟨.hbm, 1266, rfl⟩
abbrev main_v832 : Ref sig .tc := ⟨.hbm, 1267, rfl⟩
abbrev main_v833 : Ref sig .tc := ⟨.hbm, 1268, rfl⟩
abbrev main_v834 : Ref sig .tc := ⟨.hbm, 1269, rfl⟩
abbrev main_v835 : Ref sig .tc := ⟨.hbm, 1270, rfl⟩
abbrev main_cst_267 : Ref sig .tc := ⟨.hbm, 1271, rfl⟩
abbrev main_v836 : Ref sig .tc := ⟨.hbm, 1272, rfl⟩
abbrev main_v837 : Ref sig .tc := ⟨.hbm, 1273, rfl⟩
abbrev main_v838 : Ref sig .tc := ⟨.hbm, 1274, rfl⟩
abbrev main_v839 : Ref sig .tc := ⟨.hbm, 1275, rfl⟩
abbrev main_v840 : Ref sig .tc := ⟨.hbm, 1276, rfl⟩
abbrev main_v841 : Ref sig .tc := ⟨.hbm, 1277, rfl⟩
abbrev main_cst_268 : Ref sig .tc := ⟨.hbm, 1278, rfl⟩
abbrev main_v842 : Ref sig .tc := ⟨.hbm, 1279, rfl⟩
abbrev main_v843 : Ref sig .tc := ⟨.hbm, 1280, rfl⟩
abbrev main_v844 : Ref sig .tc := ⟨.hbm, 1281, rfl⟩
abbrev main_v845 : Ref sig .tc := ⟨.hbm, 1282, rfl⟩
abbrev main_v846 : Ref sig .tc := ⟨.hbm, 1283, rfl⟩
abbrev main_cst_269 : Ref sig .tc := ⟨.hbm, 1284, rfl⟩
abbrev main_v847 : Ref sig .tc := ⟨.hbm, 1285, rfl⟩
abbrev main_v848 : Ref sig .tc := ⟨.hbm, 1286, rfl⟩
abbrev main_v849 : Ref sig .tc := ⟨.hbm, 1287, rfl⟩
abbrev main_v850 : Ref sig .tc := ⟨.hbm, 1288, rfl⟩
abbrev main_v851 : Ref sig .tc := ⟨.hbm, 1289, rfl⟩
abbrev main_v852 : Ref sig .tc := ⟨.hbm, 1290, rfl⟩
abbrev main_v853 : Ref sig .tc := ⟨.hbm, 1291, rfl⟩
abbrev main_v854 : Ref sig .tc := ⟨.hbm, 1292, rfl⟩
abbrev main_v855 : Ref sig .tc := ⟨.hbm, 1293, rfl⟩
abbrev main_v856 : Ref sig .tc := ⟨.hbm, 1294, rfl⟩
abbrev main_v857 : Ref sig .tc := ⟨.hbm, 1295, rfl⟩
abbrev main_v858 : Ref sig .tc := ⟨.hbm, 1296, rfl⟩
abbrev main_v859 : Ref sig .tc := ⟨.hbm, 1297, rfl⟩
abbrev main_v860 : Ref sig .tc := ⟨.hbm, 1298, rfl⟩

abbrev nD : Nat := 1
abbrev τ : Topo := Topo.v7x

variable {F : FTy → Type} [FloatOps F]

class Facts₀ : Prop where
  slices_S512x5_S512x1_0_0 : S512x5.Slices ![0, 0] S512x1
  shapeCasts_S512x1_S512 : S512x1.ShapeCasts S512
  slices_S512x5_S512x2_0_1 : S512x5.Slices ![0, 1] S512x2
  slices_S512x5_S512x2_0_3 : S512x5.Slices ![0, 3] S512x2
  bcast_S512x2_S512x1x2_0_2 : S512x2.BroadcastsInDim S512x1x2 (![0, 2] : Fin 2 → Fin S512x1x2.rank)
  bcast_S512x1x2_S512x128x2_0_1_2 : S512x1x2.BroadcastsInDim S512x128x2 (![0, 1, 2] : Fin 3 → Fin S512x128x2.rank)
  slices_S512x128x2_S512x128x1_0_0_0 : S512x128x2.Slices ![0, 0, 0] S512x128x1
  shapeCasts_S512x128x1_S512x128 : S512x128x1.ShapeCasts S512x128
  bcast_S_S512x128 : S_.BroadcastsInDim S512x128 (![] : Fin 0 → Fin S512x128.rank)
  slices_S512x128x2_S512x128x1_0_0_1 : S512x128x2.Slices ![0, 0, 1] S512x128x1
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S512x128_S512x128x1_0_1 : S512x128.BroadcastsInDim S512x128x1 (![0, 1] : Fin 2 → Fin S512x128x1.rank)
  concatenates_S512x128x1_S512x128x1_S512x128x1_S512x128x3_d2 : Shape.Concatenates [S512x128x1, S512x128x1, S512x128x1] S512x128x3 2
  bcast_S512x128x1_S512x128x256_0_1_2 : S512x128x1.BroadcastsInDim S512x128x256 (![0, 1, 2] : Fin 3 → Fin S512x128x256.rank)
  bcast_S_S512x128x1 : S_.BroadcastsInDim S512x128x1 (![] : Fin 0 → Fin S512x128x1.rank)
  transposes_S512x128x256_S512x256x128_0_2_1 : S512x128x256.Transposes [0, 2, 1] S512x256x128
  concatenates_S512x256x128_S512x256x128_S512x256x128_S512x256x128_S512x1024x128_d1 : Shape.Concatenates [S512x256x128, S512x256x128, S512x256x128, S512x256x128] S512x1024x128 1
  gather_S2x256x256x256_S512x128x3_S512x128x256_2_023_n_n_023_2_125611_wf : GatherDims.WF S2x256x256x256 S512x128x3 S512x128x256 [2] [0, 2, 3] [] [0, 2, 3] [] 2 ![1, 256, 1, 1]
  gather_S2x256x128x128_S512x128x3_S512x128x256_2_023_n_n_023_2_125611_wf : GatherDims.WF S2x256x128x128 S512x128x3 S512x128x256 [2] [0, 2, 3] [] [0, 2, 3] [] 2 ![1, 256, 1, 1]
  gather_S2x256x64x64_S512x128x3_S512x128x256_2_023_n_n_023_2_125611_wf : GatherDims.WF S2x256x64x64 S512x128x3 S512x128x256 [2] [0, 2, 3] [] [0, 2, 3] [] 2 ![1, 256, 1, 1]
  gather_S2x256x32x32_S512x128x3_S512x128x256_2_023_n_n_023_2_125611_wf : GatherDims.WF S2x256x32x32 S512x128x3 S512x128x256 [2] [0, 2, 3] [] [0, 2, 3] [] 2 ![1, 256, 1, 1]

variable [Facts₀]

def gather_S2x256x256x256_S512x128x3_S512x128x256_2_023_n_n_023_2_125611 : GatherDims S2x256x256x256 S512x128x3 S512x128x256 where
  offsetDims := [2]
  collapsedSliceDims := [0, 2, 3]
  operandBatchingDims := []
  startIndicesBatchingDims := []
  startIndexMap := [0, 2, 3]
  indexVectorDim := 2
  sliceSizes := ![1, 256, 1, 1]
  wf := gather_S2x256x256x256_S512x128x3_S512x128x256_2_023_n_n_023_2_125611_wf
def gather_S2x256x128x128_S512x128x3_S512x128x256_2_023_n_n_023_2_125611 : GatherDims S2x256x128x128 S512x128x3 S512x128x256 where
  offsetDims := [2]
  collapsedSliceDims := [0, 2, 3]
  operandBatchingDims := []
  startIndicesBatchingDims := []
  startIndexMap := [0, 2, 3]
  indexVectorDim := 2
  sliceSizes := ![1, 256, 1, 1]
  wf := gather_S2x256x128x128_S512x128x3_S512x128x256_2_023_n_n_023_2_125611_wf
def gather_S2x256x64x64_S512x128x3_S512x128x256_2_023_n_n_023_2_125611 : GatherDims S2x256x64x64 S512x128x3 S512x128x256 where
  offsetDims := [2]
  collapsedSliceDims := [0, 2, 3]
  operandBatchingDims := []
  startIndicesBatchingDims := []
  startIndexMap := [0, 2, 3]
  indexVectorDim := 2
  sliceSizes := ![1, 256, 1, 1]
  wf := gather_S2x256x64x64_S512x128x3_S512x128x256_2_023_n_n_023_2_125611_wf
def gather_S2x256x32x32_S512x128x3_S512x128x256_2_023_n_n_023_2_125611 : GatherDims S2x256x32x32 S512x128x3 S512x128x256 where
  offsetDims := [2]
  collapsedSliceDims := [0, 2, 3]
  operandBatchingDims := []
  startIndicesBatchingDims := []
  startIndexMap := [0, 2, 3]
  indexVectorDim := 2
  sliceSizes := ![1, 256, 1, 1]
  wf := gather_S2x256x32x32_S512x128x3_S512x128x256_2_023_n_n_023_2_125611_wf

class Facts : Prop extends Facts₀ where

variable [Facts]
-- ==== Proof.KB0Run.lean ====
/-
  The body of pallas_call 0 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.Kernel.Launch
import proofs.«110520_j35545149342110_1_alg».proof.Proof.Gen.Kernel.Skeleton
import proofs.«110520_j35545149342110_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast0 (i : grid0.Coords) : Prop := k0_cond2 i = 1#1

set_option maxHeartbeats 4000000 in
/-- A FIRST point: the accumulator, whatever it held, is zeroed and then receives the point's partial sums; the
    output block is not touched. -/
noncomputable def runFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, fun xi9 E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, fun xi9 E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, ?_, fun E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.Kernel.Hand

end
-- ==== Proof.KB0Val.lean ====
/-
  What the three runs of pallas_call 0's body leave, as values. One point adds to the accumulator the point's partial
  sums: `step0` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KB0Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r0 : (![0, 0] : Fin 2 → Nat) = fun _ => 0 := funext fun a => by fin_cases a <;> rfl
theorem hz3r0 : (![0, 0, 0] : Fin 3 → Nat) = fun _ => 0 := funext fun a => by fin_cases a <;> rfl
theorem hz4r0 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step0 (i : grid0.Coords) (x3 : Vec F S1x256x8x256 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k0_pay1 (k0_pay13 (BitVec.ofNat 32 (i 2).val) (k0_pay4 x5) (k0_pay5 x7) (k0_pay6 i x8) (k0_pay9 x4 x6) (k0_pay10 x4) (k0_pay11 x6) (k0_pay12 (F := F)) x3 prev)

/-- The zero block a first point stores. -/
abbrev zeroAcc0 : Vec F S256x8x128 .f32 := k0_pay3 (F := F)

/-! ## A middle point -/

theorem coverMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid0 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid0 c i arg3 harg3 arg4 harg4 arg5 harg5 arg6 harg6 arg7 harg7 arg8 harg8 arg9 harg9 arg10 harg10 hc0 hc1 x3 x4 x5 x6 x7 x8 xs).1) = step0 i x3 x4 x5 x6 x7 x8 xs := by
  rw [View.read_writes_eq_canon _ _ _ (coverMid0 c i arg3 harg3 arg4 harg4 arg5 harg5 arg6 harg6 arg7 harg7 arg8 harg8 arg9 harg9 arg10 harg10 hc0 hc1 x3 x4 x5 x6 x7 x8 xs)]
  unfold runMid0
  dsimp only
  sl_unfold_words
  rw [View.canon_unit_zero hz3r0]
  unfold step0
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

/-! ## A first point -/

theorem coverFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst0 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst0 c i arg3 harg3 arg4 harg4 arg5 harg5 arg6 harg6 arg7 harg7 arg8 harg8 arg9 harg9 arg10 harg10 hc0 hc1 x3 x4 x5 x6 x7 x8 xs).1) = step0 i x3 x4 x5 x6 x7 x8 (zeroAcc0 (F := F)) := by
  rw [View.read_writes_eq_canon _ _ _ (coverFirst0 c i arg3 harg3 arg4 harg4 arg5 harg5 arg6 harg6 arg7 harg7 arg8 harg8 arg9 harg9 arg10 harg10 hc0 hc1 x3 x4 x5 x6 x7 x8 xs)]
  unfold runFirst0
  dsimp only
  sl_unfold_words
  rw [View.canon_cons_unit_zero (S := S256x8x128) hz3r0]
  unfold step0
  simp only [View.readCov_unit_zero (S := S256x8x128) _ hz3r0]
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

/-! ## A last point -/

theorem coverLastS0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast0 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast0 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast0 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast0 c i arg3 harg3 arg4 harg4 arg5 harg5 arg6 harg6 arg7 harg7 arg8 harg8 arg9 harg9 arg10 harg10 hc0 hc1 x3 x4 x5 x6 x7 x8 xs).2.1) = step0 i x3 x4 x5 x6 x7 x8 xs := by
  rw [View.read_writes_eq_canon _ _ _ (coverLastS0 c i arg3 harg3 arg4 harg4 arg5 harg5 arg6 harg6 arg7 harg7 arg8 harg8 arg9 harg9 arg10 harg10 hc0 hc1 x3 x4 x5 x6 x7 x8 xs)]
  unfold runLast0
  dsimp only
  sl_unfold_words
  rw [View.canon_unit_zero hz3r0]
  unfold step0
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

theorem valLastO0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast0 c i arg3 harg3 arg4 harg4 arg5 harg5 arg6 harg6 arg7 harg7 arg8 harg8 arg9 harg9 arg10 harg10 hc0 hc1 x3 x4 x5 x6 x7 x8 xs).1) = k0_pay2 (step0 i x3 x4 x5 x6 x7 x8 xs) := by
  rw [View.read_writes_eq_canon _ _ _ (coverLastO0 c i arg3 harg3 arg4 harg4 arg5 harg5 arg6 harg6 arg7 harg7 arg8 harg8 arg9 harg9 arg10 harg10 hc0 hc1 x3 x4 x5 x6 x7 x8 xs)]
  unfold runLast0
  dsimp only
  sl_unfold_words
  rw [View.canon_unit_zero hz3r0]
  unfold step0
  simp only [View.readCov_unit_zero (S := S256x8x128) _ hz3r0]
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

end Cert.Kernel.Hand

end
-- ==== Proof.KB0Data.lean ====
/-
  The proof data of pallas_call 0 and its body obligation. The grid has 64 points per tile of regions of interest
  (batch images × row tiles); within such a group the accumulator is zeroed at the first point, added to at every
  point, and written out at the last. `acc0 n` is what the accumulator holds after point `n`, by recursion on the
  point: one `step0` applied to the zero block at a group's first point and to `acc0 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KB0Val
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst0 : ∀ t : Fin cfg0.N, condFirst0 (grid0.coords t) ↔ t.val % 64 = 0 :=
  (by decide +kernel : ∀ t : Fin grid0.N, condFirst0 (grid0.coords t) ↔ t.val % 64 = 0)
theorem hcondLast0 : ∀ t : Fin cfg0.N, condLast0 (grid0.coords t) ↔ t.val % 64 = 63 :=
  (by decide +kernel : ∀ t : Fin grid0.N, condLast0 (grid0.coords t) ↔ t.val % 64 = 63)
theorem idleAt0_6 : ∀ t : Fin cfg0.N, ¬condLast0 (grid0.coords t) → cfg0.idle 6 (grid0.coords t) = true := by decide +kernel
theorem liveAt0_6 : ∀ t : Fin cfg0.N, condLast0 (grid0.coords t) → cfg0.idle 6 (grid0.coords t) = false := by decide +kernel
theorem noFlush0_6 : ∀ t : Fin cfg0.N, ¬condLast0 (grid0.coords t) → (cfg0.win 6).flush t = false := by decide +kernel

/-! ## The staging memrefs and the scratch -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev scM0 : Memref sig .tc .vmem S256x8x128 .f32 := Memref.whole cc0_scratch0

/-- The class invariant with the accumulator scratch split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after point `n`. -/
def acc0 (c : Dev nD) : (n : ℕ) → n < cfg0.N → Vec F S256x8x128 .f32
  | 0, h => step0 (grid0.coords ⟨0, h⟩) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (zeroAcc0 (F := F))
  | n + 1, h => step0 (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)
      (if (n + 1) % 64 = 0 then zeroAcc0 (F := F) else acc0 c n (Nat.lt_of_succ_lt h))

/-- At a group's first point the update starts from the zero block. -/
theorem acc0_first (c : Dev nD) (t : Fin cfg0.N) (h0 : t.val % 64 = 0) :
    acc0 V c t.val t.isLt = step0 (grid0.coords t) (iblk0 V c 0 t) (iblk0 V c 1 t) (iblk0 V c 2 t) (iblk0 V c 3 t) (iblk0 V c 4 t) (iblk0 V c 5 t) (zeroAcc0 (F := F)) := by
  obtain ⟨n, hn⟩ := t
  cases n with
  | zero => rfl
  | succ n => show step0 _ _ _ _ _ _ _ (if (n + 1) % 64 = 0 then _ else _) = _; rw [if_pos h0]

/-- Elsewhere it starts from what the point before left. -/
theorem acc0_next (c : Dev nD) (t : Fin cfg0.N) (h0 : ¬t.val % 64 = 0) :
    acc0 V c t.val t.isLt = step0 (grid0.coords t) (iblk0 V c 0 t) (iblk0 V c 1 t) (iblk0 V c 2 t) (iblk0 V c 3 t) (iblk0 V c 4 t) (iblk0 V c 5 t)
      (acc0 V c (t.val - 1) (Nat.lt_of_le_of_lt (Nat.sub_le _ _) t.isLt)) := by
  obtain ⟨n, hn⟩ := t
  cases n with
  | zero => exact absurd (Nat.zero_mod _) h0
  | succ n => show step0 _ _ _ _ _ _ _ (if (n + 1) % 64 = 0 then _ else _) = _; rw [if_neg h0]; rfl

/-! ## The invariant and the proof data -/

/-- Before the first point the class invariant (the scratch at anything); before point `n + 1` the accumulator at
    what point `n` left, beside the rest of the scoped memory and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of pipeline 0 on core `c`: the arrays as the region finds them; after the body each input's
    buffer at its block and the output's at the accumulator with its first two axes exchanged; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the closed forms say which situation the point is in; the invariant hands the body the
    accumulator at what the point before left (at anything before the first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 4 t = owns (c : Thread nD τ) (ms0_4 t) fullShare ((dat0 V c).after 4 t) from by
    unfold Dat.leavesExact; rfl, after0_4]
  rw [show (dat0 V c).leavesExact 5 t = owns (c : Thread nD τ) (ms0_5 t) fullShare ((dat0 V c).after 5 t) from by
    unfold Dat.leavesExact; rfl, after0_5]
  have hN : t.val < 4096 := lt_of_lt_of_eq t.isLt (show cfg0.N = 4096 from N_0)
  by_cases h0 : t.val % 64 = 0
  · have h1 : ¬t.val % 64 = 63 := by omega
    rw [Dat.leavesExact_idle (dat0 V c) 6 t (idleAt0_6 t (fun h => h1 ((hcondLast0 t).mp h))) (noFlush0_6 t (fun h => h1 ((hcondLast0 t).mp h)))]
    by_cases hz : t.val = 0
    · rw [PhiS0_castSucc V c t, PhiS0_zero V c _ _ hz, PhiA0_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst0]
            exact (acc0_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst0]
            exact (acc0_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS0_castSucc V c t, PhiS0_pos V c _ _ hz]
    by_cases h1 : t.val % 64 = 63
    · rw [show (dat0 V c).leavesExact 6 t = owns (c : Thread nD τ) (ms0_6 t) fullShare ((dat0 V c).after 6 t) from by
        unfold Dat.leavesExact; rw [liveAt0_6 t ((hcondLast0 t).mpr h1)], after0_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast0 c (grid0.coords t) _ _ _ _ _ _ _ _ _ _ _ _ _ _ _ _ (fun h => h0 ((hcondFirst0 t).mp h)) ((hcondLast0 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS0]
            exact (acc0_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO0]
      exact congrArg k0_pay2 (acc0_next V c t h0).symm
    · rw [Dat.leavesExact_idle (dat0 V c) 6 t (idleAt0_6 t (fun h => h1 ((hcondLast0 t).mp h))) (noFlush0_6 t (fun h => h1 ((hcondLast0 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid0 c (grid0.coords t) _ _ _ _ _ _ _ _ _ _ _ _ _ _ _ _ (fun h => h0 ((hcondFirst0 t).mp h)) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid0]
            exact (acc0_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 4096 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrb⟩, Hg⟩
  isplitl [HS0 Hrb]
  · isplitl [HS0]
    · iexists _; iexact HS0
    iexact Hrb
  iexact Hg

end Region

end Cert.Kernel.Hand

end
-- ==== Proof.KB1Run.lean ====
/-
  The body of pallas_call 1 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.Kernel.Launch
import proofs.«110520_j35545149342110_1_alg».proof.Proof.Gen.Kernel.Skeleton
import proofs.«110520_j35545149342110_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst1 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast1 (i : grid1.Coords) : Prop := k1_cond2 i = 1#1

set_option maxHeartbeats 4000000 in
/-- A FIRST point: the accumulator, whatever it held, is zeroed and then receives the point's partial sums; the
    output block is not touched. -/
noncomputable def runFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, fun xi9 E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, fun xi9 E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, ?_, fun E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.Kernel.Hand

end
-- ==== Proof.KB1Val.lean ====
/-
  What the three runs of pallas_call 1's body leave, as values. One point adds to the accumulator the point's partial
  sums: `step1` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KB1Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r1 : (![0, 0] : Fin 2 → Nat) = fun _ => 0 := funext fun a => by fin_cases a <;> rfl
theorem hz3r1 : (![0, 0, 0] : Fin 3 → Nat) = fun _ => 0 := funext fun a => by fin_cases a <;> rfl
theorem hz4r1 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step1 (i : grid1.Coords) (x3 : Vec F S1x256x8x128 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k1_pay1 (k1_pay13 (BitVec.ofNat 32 (i 2).val) (k1_pay4 x5) (k1_pay5 x7) (k1_pay6 i x8) (k1_pay9 x4 x6) (k1_pay10 x4) (k1_pay11 x6) (k1_pay12 (F := F)) x3 prev)

/-- The zero block a first point stores. -/
abbrev zeroAcc1 : Vec F S256x8x128 .f32 := k1_pay3 (F := F)

/-! ## A middle point -/

theorem coverMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid1 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid1 c i arg3 harg3 arg4 harg4 arg5 harg5 arg6 harg6 arg7 harg7 arg8 harg8 arg9 harg9 arg10 harg10 hc0 hc1 x3 x4 x5 x6 x7 x8 xs).1) = step1 i x3 x4 x5 x6 x7 x8 xs := by
  rw [View.read_writes_eq_canon _ _ _ (coverMid1 c i arg3 harg3 arg4 harg4 arg5 harg5 arg6 harg6 arg7 harg7 arg8 harg8 arg9 harg9 arg10 harg10 hc0 hc1 x3 x4 x5 x6 x7 x8 xs)]
  unfold runMid1
  dsimp only
  sl_unfold_words
  rw [View.canon_unit_zero hz3r1]
  unfold step1
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

/-! ## A first point -/

theorem coverFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst1 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst1 c i arg3 harg3 arg4 harg4 arg5 harg5 arg6 harg6 arg7 harg7 arg8 harg8 arg9 harg9 arg10 harg10 hc0 hc1 x3 x4 x5 x6 x7 x8 xs).1) = step1 i x3 x4 x5 x6 x7 x8 (zeroAcc1 (F := F)) := by
  rw [View.read_writes_eq_canon _ _ _ (coverFirst1 c i arg3 harg3 arg4 harg4 arg5 harg5 arg6 harg6 arg7 harg7 arg8 harg8 arg9 harg9 arg10 harg10 hc0 hc1 x3 x4 x5 x6 x7 x8 xs)]
  unfold runFirst1
  dsimp only
  sl_unfold_words
  rw [View.canon_cons_unit_zero (S := S256x8x128) hz3r1]
  unfold step1
  simp only [View.readCov_unit_zero (S := S256x8x128) _ hz3r1]
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

/-! ## A last point -/

theorem coverLastS1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast1 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast1 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast1 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast1 c i arg3 harg3 arg4 harg4 arg5 harg5 arg6 harg6 arg7 harg7 arg8 harg8 arg9 harg9 arg10 harg10 hc0 hc1 x3 x4 x5 x6 x7 x8 xs).2.1) = step1 i x3 x4 x5 x6 x7 x8 xs := by
  rw [View.read_writes_eq_canon _ _ _ (coverLastS1 c i arg3 harg3 arg4 harg4 arg5 harg5 arg6 harg6 arg7 harg7 arg8 harg8 arg9 harg9 arg10 harg10 hc0 hc1 x3 x4 x5 x6 x7 x8 xs)]
  unfold runLast1
  dsimp only
  sl_unfold_words
  rw [View.canon_unit_zero hz3r1]
  unfold step1
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

theorem valLastO1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast1 c i arg3 harg3 arg4 harg4 arg5 harg5 arg6 harg6 arg7 harg7 arg8 harg8 arg9 harg9 arg10 harg10 hc0 hc1 x3 x4 x5 x6 x7 x8 xs).1) = k1_pay2 (step1 i x3 x4 x5 x6 x7 x8 xs) := by
  rw [View.read_writes_eq_canon _ _ _ (coverLastO1 c i arg3 harg3 arg4 harg4 arg5 harg5 arg6 harg6 arg7 harg7 arg8 harg8 arg9 harg9 arg10 harg10 hc0 hc1 x3 x4 x5 x6 x7 x8 xs)]
  unfold runLast1
  dsimp only
  sl_unfold_words
  rw [View.canon_unit_zero hz3r1]
  unfold step1
  simp only [View.readCov_unit_zero (S := S256x8x128) _ hz3r1]
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

end Cert.Kernel.Hand

end
-- ==== Proof.KB1Data.lean ====
/-
  The proof data of pallas_call 1 and its body obligation. The grid has 32 points per tile of regions of interest
  (batch images × row tiles); within such a group the accumulator is zeroed at the first point, added to at every
  point, and written out at the last. `acc1 n` is what the accumulator holds after point `n`, by recursion on the
  point: one `step1` applied to the zero block at a group's first point and to `acc1 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KB1Val
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst1 : ∀ t : Fin cfg1.N, condFirst1 (grid1.coords t) ↔ t.val % 32 = 0 :=
  (by decide +kernel : ∀ t : Fin grid1.N, condFirst1 (grid1.coords t) ↔ t.val % 32 = 0)
theorem hcondLast1 : ∀ t : Fin cfg1.N, condLast1 (grid1.coords t) ↔ t.val % 32 = 31 :=
  (by decide +kernel : ∀ t : Fin grid1.N, condLast1 (grid1.coords t) ↔ t.val % 32 = 31)
theorem idleAt1_6 : ∀ t : Fin cfg1.N, ¬condLast1 (grid1.coords t) → cfg1.idle 6 (grid1.coords t) = true := by decide +kernel
theorem liveAt1_6 : ∀ t : Fin cfg1.N, condLast1 (grid1.coords t) → cfg1.idle 6 (grid1.coords t) = false := by decide +kernel
theorem noFlush1_6 : ∀ t : Fin cfg1.N, ¬condLast1 (grid1.coords t) → (cfg1.win 6).flush t = false := by decide +kernel

/-! ## The staging memrefs and the scratch -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev scM1 : Memref sig .tc .vmem S256x8x128 .f32 := Memref.whole cc1_scratch0

/-- The class invariant with the accumulator scratch split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after point `n`. -/
def acc1 (c : Dev nD) : (n : ℕ) → n < cfg1.N → Vec F S256x8x128 .f32
  | 0, h => step1 (grid1.coords ⟨0, h⟩) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (zeroAcc1 (F := F))
  | n + 1, h => step1 (grid1.coords ⟨n + 1, h⟩) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (if (n + 1) % 32 = 0 then zeroAcc1 (F := F) else acc1 c n (Nat.lt_of_succ_lt h))

/-- At a group's first point the update starts from the zero block. -/
theorem acc1_first (c : Dev nD) (t : Fin cfg1.N) (h0 : t.val % 32 = 0) :
    acc1 V c t.val t.isLt = step1 (grid1.coords t) (iblk1 V c 0 t) (iblk1 V c 1 t) (iblk1 V c 2 t) (iblk1 V c 3 t) (iblk1 V c 4 t) (iblk1 V c 5 t) (zeroAcc1 (F := F)) := by
  obtain ⟨n, hn⟩ := t
  cases n with
  | zero => rfl
  | succ n => show step1 _ _ _ _ _ _ _ (if (n + 1) % 32 = 0 then _ else _) = _; rw [if_pos h0]

/-- Elsewhere it starts from what the point before left. -/
theorem acc1_next (c : Dev nD) (t : Fin cfg1.N) (h0 : ¬t.val % 32 = 0) :
    acc1 V c t.val t.isLt = step1 (grid1.coords t) (iblk1 V c 0 t) (iblk1 V c 1 t) (iblk1 V c 2 t) (iblk1 V c 3 t) (iblk1 V c 4 t) (iblk1 V c 5 t)
      (acc1 V c (t.val - 1) (Nat.lt_of_le_of_lt (Nat.sub_le _ _) t.isLt)) := by
  obtain ⟨n, hn⟩ := t
  cases n with
  | zero => exact absurd (Nat.zero_mod _) h0
  | succ n => show step1 _ _ _ _ _ _ _ (if (n + 1) % 32 = 0 then _ else _) = _; rw [if_neg h0]; rfl

/-! ## The invariant and the proof data -/

/-- Before the first point the class invariant (the scratch at anything); before point `n + 1` the accumulator at
    what point `n` left, beside the rest of the scoped memory and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of pipeline 1 on core `c`: the arrays as the region finds them; after the body each input's
    buffer at its block and the output's at the accumulator with its first two axes exchanged; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the closed forms say which situation the point is in; the invariant hands the body the
    accumulator at what the point before left (at anything before the first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  rw [show (dat1 V c).leavesExact 4 t = owns (c : Thread nD τ) (ms1_4 t) fullShare ((dat1 V c).after 4 t) from by
    unfold Dat.leavesExact; rfl, after1_4]
  rw [show (dat1 V c).leavesExact 5 t = owns (c : Thread nD τ) (ms1_5 t) fullShare ((dat1 V c).after 5 t) from by
    unfold Dat.leavesExact; rfl, after1_5]
  have hN : t.val < 2048 := lt_of_lt_of_eq t.isLt (show cfg1.N = 2048 from N_1)
  by_cases h0 : t.val % 32 = 0
  · have h1 : ¬t.val % 32 = 31 := by omega
    rw [Dat.leavesExact_idle (dat1 V c) 6 t (idleAt1_6 t (fun h => h1 ((hcondLast1 t).mp h))) (noFlush1_6 t (fun h => h1 ((hcondLast1 t).mp h)))]
    by_cases hz : t.val = 0
    · rw [PhiS1_castSucc V c t, PhiS1_zero V c _ _ hz, PhiA1_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst1 c (grid1.coords t) _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst1]
            exact (acc1_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst1 c (grid1.coords t) _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst1]
            exact (acc1_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS1_castSucc V c t, PhiS1_pos V c _ _ hz]
    by_cases h1 : t.val % 32 = 31
    · rw [show (dat1 V c).leavesExact 6 t = owns (c : Thread nD τ) (ms1_6 t) fullShare ((dat1 V c).after 6 t) from by
        unfold Dat.leavesExact; rw [liveAt1_6 t ((hcondLast1 t).mpr h1)], after1_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast1 c (grid1.coords t) _ _ _ _ _ _ _ _ _ _ _ _ _ _ _ _ (fun h => h0 ((hcondFirst1 t).mp h)) ((hcondLast1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS1]
            exact (acc1_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO1]
      exact congrArg k1_pay2 (acc1_next V c t h0).symm
    · rw [Dat.leavesExact_idle (dat1 V c) 6 t (idleAt1_6 t (fun h => h1 ((hcondLast1 t).mp h))) (noFlush1_6 t (fun h => h1 ((hcondLast1 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid1 c (grid1.coords t) _ _ _ _ _ _ _ _ _ _ _ _ _ _ _ _ (fun h => h0 ((hcondFirst1 t).mp h)) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid1]
            exact (acc1_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 2048 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrb⟩, Hg⟩
  isplitl [HS0 Hrb]
  · isplitl [HS0]
    · iexists _; iexact HS0
    iexact Hrb
  iexact Hg

end Region

end Cert.Kernel.Hand

end
-- ==== Proof.KB2Run.lean ====
/-
  The body of pallas_call 2 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.Kernel.Launch
import proofs.«110520_j35545149342110_1_alg».proof.Proof.Gen.Kernel.Skeleton
import proofs.«110520_j35545149342110_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst2 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast2 (i : grid2.Coords) : Prop := k2_cond2 i = 1#1

set_option maxHeartbeats 4000000 in
/-- A FIRST point: the accumulator, whatever it held, is zeroed and then receives the point's partial sums; the
    output block is not touched. -/
noncomputable def runFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, fun xi9 E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, fun xi9 E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, ?_, fun E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.Kernel.Hand

end
-- ==== Proof.KB2Val.lean ====
/-
  What the three runs of pallas_call 2's body leave, as values. One point adds to the accumulator the point's partial
  sums: `step2` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KB2Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r2 : (![0, 0] : Fin 2 → Nat) = fun _ => 0 := funext fun a => by fin_cases a <;> rfl
theorem hz3r2 : (![0, 0, 0] : Fin 3 → Nat) = fun _ => 0 := funext fun a => by fin_cases a <;> rfl
theorem hz4r2 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step2 (i : grid2.Coords) (x3 : Vec F S1x256x8x64 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k2_pay1 (k2_pay13 (BitVec.ofNat 32 (i 2).val) (k2_pay4 x5) (k2_pay5 x7) (k2_pay6 i x8) (k2_pay9 x4 x6) (k2_pay10 x4) (k2_pay11 x6) (k2_pay12 (F := F)) x3 prev)

/-- The zero block a first point stores. -/
abbrev zeroAcc2 : Vec F S256x8x128 .f32 := k2_pay3 (F := F)

/-! ## A middle point -/

theorem coverMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid2 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid2 c i arg3 harg3 arg4 harg4 arg5 harg5 arg6 harg6 arg7 harg7 arg8 harg8 arg9 harg9 arg10 harg10 hc0 hc1 x3 x4 x5 x6 x7 x8 xs).1) = step2 i x3 x4 x5 x6 x7 x8 xs := by
  rw [View.read_writes_eq_canon _ _ _ (coverMid2 c i arg3 harg3 arg4 harg4 arg5 harg5 arg6 harg6 arg7 harg7 arg8 harg8 arg9 harg9 arg10 harg10 hc0 hc1 x3 x4 x5 x6 x7 x8 xs)]
  unfold runMid2
  dsimp only
  sl_unfold_words
  rw [View.canon_unit_zero hz3r2]
  unfold step2
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

/-! ## A first point -/

theorem coverFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst2 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst2 c i arg3 harg3 arg4 harg4 arg5 harg5 arg6 harg6 arg7 harg7 arg8 harg8 arg9 harg9 arg10 harg10 hc0 hc1 x3 x4 x5 x6 x7 x8 xs).1) = step2 i x3 x4 x5 x6 x7 x8 (zeroAcc2 (F := F)) := by
  rw [View.read_writes_eq_canon _ _ _ (coverFirst2 c i arg3 harg3 arg4 harg4 arg5 harg5 arg6 harg6 arg7 harg7 arg8 harg8 arg9 harg9 arg10 harg10 hc0 hc1 x3 x4 x5 x6 x7 x8 xs)]
  unfold runFirst2
  dsimp only
  sl_unfold_words
  rw [View.canon_cons_unit_zero (S := S256x8x128) hz3r2]
  unfold step2
  simp only [View.readCov_unit_zero (S := S256x8x128) _ hz3r2]
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

/-! ## A last point -/

theorem coverLastS2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast2 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast2 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast2 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast2 c i arg3 harg3 arg4 harg4 arg5 harg5 arg6 harg6 arg7 harg7 arg8 harg8 arg9 harg9 arg10 harg10 hc0 hc1 x3 x4 x5 x6 x7 x8 xs).2.1) = step2 i x3 x4 x5 x6 x7 x8 xs := by
  rw [View.read_writes_eq_canon _ _ _ (coverLastS2 c i arg3 harg3 arg4 harg4 arg5 harg5 arg6 harg6 arg7 harg7 arg8 harg8 arg9 harg9 arg10 harg10 hc0 hc1 x3 x4 x5 x6 x7 x8 xs)]
  unfold runLast2
  dsimp only
  sl_unfold_words
  rw [View.canon_unit_zero hz3r2]
  unfold step2
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

theorem valLastO2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast2 c i arg3 harg3 arg4 harg4 arg5 harg5 arg6 harg6 arg7 harg7 arg8 harg8 arg9 harg9 arg10 harg10 hc0 hc1 x3 x4 x5 x6 x7 x8 xs).1) = k2_pay2 (step2 i x3 x4 x5 x6 x7 x8 xs) := by
  rw [View.read_writes_eq_canon _ _ _ (coverLastO2 c i arg3 harg3 arg4 harg4 arg5 harg5 arg6 harg6 arg7 harg7 arg8 harg8 arg9 harg9 arg10 harg10 hc0 hc1 x3 x4 x5 x6 x7 x8 xs)]
  unfold runLast2
  dsimp only
  sl_unfold_words
  rw [View.canon_unit_zero hz3r2]
  unfold step2
  simp only [View.readCov_unit_zero (S := S256x8x128) _ hz3r2]
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

end Cert.Kernel.Hand

end
-- ==== Proof.KB2Data.lean ====
/-
  The proof data of pallas_call 2 and its body obligation. The grid has 16 points per tile of regions of interest
  (batch images × row tiles); within such a group the accumulator is zeroed at the first point, added to at every
  point, and written out at the last. `acc2 n` is what the accumulator holds after point `n`, by recursion on the
  point: one `step2` applied to the zero block at a group's first point and to `acc2 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KB2Val
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)
theorem idleAt2_6 : ∀ t : Fin cfg2.N, ¬condLast2 (grid2.coords t) → cfg2.idle 6 (grid2.coords t) = true := by decide +kernel
theorem liveAt2_6 : ∀ t : Fin cfg2.N, condLast2 (grid2.coords t) → cfg2.idle 6 (grid2.coords t) = false := by decide +kernel
theorem noFlush2_6 : ∀ t : Fin cfg2.N, ¬condLast2 (grid2.coords t) → (cfg2.win 6).flush t = false := by decide +kernel

/-! ## The staging memrefs and the scratch -/

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
abbrev ms2_3 (t : Fin cfg2.N) := win2_3.stage (cfg2.slots t 3)
abbrev hs2_3 (t : Fin cfg2.N) : (ms2_3 t).IsWhole := hstage2_3 ((cfg2.slots t 3).cast nbuf2_3)
abbrev ms2_4 (t : Fin cfg2.N) := win2_4.stage (cfg2.slots t 4)
abbrev hs2_4 (t : Fin cfg2.N) : (ms2_4 t).IsWhole := hstage2_4 ((cfg2.slots t 4).cast nbuf2_4)
abbrev ms2_5 (t : Fin cfg2.N) := win2_5.stage (cfg2.slots t 5)
abbrev hs2_5 (t : Fin cfg2.N) : (ms2_5 t).IsWhole := hstage2_5 ((cfg2.slots t 5).cast nbuf2_5)
abbrev ms2_6 (t : Fin cfg2.N) := win2_6.stage (cfg2.slots t 6)
abbrev hs2_6 (t : Fin cfg2.N) : (ms2_6 t).IsWhole := hstage2_6 ((cfg2.slots t 6).cast nbuf2_6)
abbrev scM2 : Memref sig .tc .vmem S256x8x128 .f32 := Memref.whole cc2_scratch0

/-- The class invariant with the accumulator scratch split off the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- What the accumulator holds after point `n`. -/
def acc2 (c : Dev nD) : (n : ℕ) → n < cfg2.N → Vec F S256x8x128 .f32
  | 0, h => step2 (grid2.coords ⟨0, h⟩) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (zeroAcc2 (F := F))
  | n + 1, h => step2 (grid2.coords ⟨n + 1, h⟩) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)
      (if (n + 1) % 16 = 0 then zeroAcc2 (F := F) else acc2 c n (Nat.lt_of_succ_lt h))

/-- At a group's first point the update starts from the zero block. -/
theorem acc2_first (c : Dev nD) (t : Fin cfg2.N) (h0 : t.val % 16 = 0) :
    acc2 V c t.val t.isLt = step2 (grid2.coords t) (iblk2 V c 0 t) (iblk2 V c 1 t) (iblk2 V c 2 t) (iblk2 V c 3 t) (iblk2 V c 4 t) (iblk2 V c 5 t) (zeroAcc2 (F := F)) := by
  obtain ⟨n, hn⟩ := t
  cases n with
  | zero => rfl
  | succ n => show step2 _ _ _ _ _ _ _ (if (n + 1) % 16 = 0 then _ else _) = _; rw [if_pos h0]

/-- Elsewhere it starts from what the point before left. -/
theorem acc2_next (c : Dev nD) (t : Fin cfg2.N) (h0 : ¬t.val % 16 = 0) :
    acc2 V c t.val t.isLt = step2 (grid2.coords t) (iblk2 V c 0 t) (iblk2 V c 1 t) (iblk2 V c 2 t) (iblk2 V c 3 t) (iblk2 V c 4 t) (iblk2 V c 5 t)
      (acc2 V c (t.val - 1) (Nat.lt_of_le_of_lt (Nat.sub_le _ _) t.isLt)) := by
  obtain ⟨n, hn⟩ := t
  cases n with
  | zero => exact absurd (Nat.zero_mod _) h0
  | succ n => show step2 _ _ _ _ _ _ _ (if (n + 1) % 16 = 0 then _ else _) = _; rw [if_neg h0]; rfl

/-! ## The invariant and the proof data -/

/-- Before the first point the class invariant (the scratch at anything); before point `n + 1` the accumulator at
    what point `n` left, beside the rest of the scoped memory and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of pipeline 2 on core `c`: the arrays as the region finds them; after the body each input's
    buffer at its block and the output's at the accumulator with its first two axes exchanged; the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay2 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = k2_pay2 (acc2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the closed forms say which situation the point is in; the invariant hands the body the
    accumulator at what the point before left (at anything before the first point) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rfl, after2_0]
  rw [show (dat2 V c).leavesExact 1 t = owns (c : Thread nD τ) (ms2_1 t) fullShare ((dat2 V c).after 1 t) from by
    unfold Dat.leavesExact; rfl, after2_1]
  rw [show (dat2 V c).leavesExact 2 t = owns (c : Thread nD τ) (ms2_2 t) fullShare ((dat2 V c).after 2 t) from by
    unfold Dat.leavesExact; rfl, after2_2]
  rw [show (dat2 V c).leavesExact 3 t = owns (c : Thread nD τ) (ms2_3 t) fullShare ((dat2 V c).after 3 t) from by
    unfold Dat.leavesExact; rfl, after2_3]
  rw [show (dat2 V c).leavesExact 4 t = owns (c : Thread nD τ) (ms2_4 t) fullShare ((dat2 V c).after 4 t) from by
    unfold Dat.leavesExact; rfl, after2_4]
  rw [show (dat2 V c).leavesExact 5 t = owns (c : Thread nD τ) (ms2_5 t) fullShare ((dat2 V c).after 5 t) from by
    unfold Dat.leavesExact; rfl, after2_5]
  have hN : t.val < 1024 := lt_of_lt_of_eq t.isLt (show cfg2.N = 1024 from N_2)
  by_cases h0 : t.val % 16 = 0
  · have h1 : ¬t.val % 16 = 15 := by omega
    rw [Dat.leavesExact_idle (dat2 V c) 6 t (idleAt2_6 t (fun h => h1 ((hcondLast2 t).mp h))) (noFlush2_6 t (fun h => h1 ((hcondLast2 t).mp h)))]
    by_cases hz : t.val = 0
    · rw [PhiS2_castSucc V c t, PhiS2_zero V c _ _ hz, PhiA2_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst2 c (grid2.coords t) _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst2]
            exact (acc2_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst2 c (grid2.coords t) _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst2]
            exact (acc2_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS2_castSucc V c t, PhiS2_pos V c _ _ hz]
    by_cases h1 : t.val % 16 = 15
    · rw [show (dat2 V c).leavesExact 6 t = owns (c : Thread nD τ) (ms2_6 t) fullShare ((dat2 V c).after 6 t) from by
        unfold Dat.leavesExact; rw [liveAt2_6 t ((hcondLast2 t).mpr h1)], after2_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast2 c (grid2.coords t) _ _ _ _ _ _ _ _ _ _ _ _ _ _ _ _ (fun h => h0 ((hcondFirst2 t).mp h)) ((hcondLast2 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS2]
            exact (acc2_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO2]
      exact congrArg k2_pay2 (acc2_next V c t h0).symm
    · rw [Dat.leavesExact_idle (dat2 V c) 6 t (idleAt2_6 t (fun h => h1 ((hcondLast2 t).mp h))) (noFlush2_6 t (fun h => h1 ((hcondLast2 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid2 c (grid2.coords t) _ _ _ _ _ _ _ _ _ _ _ _ _ _ _ _ (fun h => h0 ((hcondFirst2 t).mp h)) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid2]
            exact (acc2_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region hands the kernel is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 1024 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS0, Hrb⟩, Hg⟩
  isplitl [HS0 Hrb]
  · isplitl [HS0]
    · iexists _; iexact HS0
    iexact Hrb
  iexact Hg

end Region

end Cert.Kernel.Hand

end
-- ==== Proof.KB3Run.lean ====
/-
  The body of pallas_call 3 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.Kernel.Launch
import proofs.«110520_j35545149342110_1_alg».proof.Proof.Gen.Kernel.Skeleton
import proofs.«110520_j35545149342110_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst3 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast3 (i : grid3.Coords) : Prop := k3_cond2 i = 1#1

set_option maxHeartbeats 4000000 in
/-- A FIRST point: the accumulator, whatever it held, is zeroed and then receives the point's partial sums; the
    output block is not touched. -/
noncomputable def runFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, fun xi9 E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, fun xi9 E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, ?_, fun E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.Kernel.Hand

end
-- ==== Proof.KB3Val.lean ====
/-
  What the three runs of pallas_call 3's body leave, as values. One point adds to the accumulator the point's partial
  sums: `step3` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KB3Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r3 : (![0, 0] : Fin 2 → Nat) = fun _ => 0 := funext fun a => by fin_cases a <;> rfl
theorem hz3r3 : (![0, 0, 0] : Fin 3 → Nat) = fun _ => 0 := funext fun a => by fin_cases a <;> rfl
theorem hz4r3 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step3 (i : grid3.Coords) (x3 : Vec F S1x256x8x32 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k3_pay1 (k3_pay13 (BitVec.ofNat 32 (i 2).val) (k3_pay4 x5) (k3_pay5 x7) (k3_pay6 i x8) (k3_pay9 x4 x6) (k3_pay10 x4) (k3_pay11 x6) (k3_pay12 (F := F)) x3 prev)

/-- The zero block a first point stores. -/
abbrev zeroAcc3 : Vec F S256x8x128 .f32 := k3_pay3 (F := F)

/-! ## A middle point -/

theorem coverMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid3 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid3 c i arg3 harg3 arg4 harg4 arg5 harg5 arg6 harg6 arg7 harg7 arg8 harg8 arg9 harg9 arg10 harg10 hc0 hc1 x3 x4 x5 x6 x7 x8 xs).1) = step3 i x3 x4 x5 x6 x7 x8 xs := by
  rw [View.read_writes_eq_canon _ _ _ (coverMid3 c i arg3 harg3 arg4 harg4 arg5 harg5 arg6 harg6 arg7 harg7 arg8 harg8 arg9 harg9 arg10 harg10 hc0 hc1 x3 x4 x5 x6 x7 x8 xs)]
  unfold runMid3
  dsimp only
  sl_unfold_words
  rw [View.canon_unit_zero hz3r3]
  unfold step3
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

/-! ## A first point -/

theorem coverFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst3 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst3 c i arg3 harg3 arg4 harg4 arg5 harg5 arg6 harg6 arg7 harg7 arg8 harg8 arg9 harg9 arg10 harg10 hc0 hc1 x3 x4 x5 x6 x7 x8 xs).1) = step3 i x3 x4 x5 x6 x7 x8 (zeroAcc3 (F := F)) := by
  rw [View.read_writes_eq_canon _ _ _ (coverFirst3 c i arg3 harg3 arg4 harg4 arg5 harg5 arg6 harg6 arg7 harg7 arg8 harg8 arg9 harg9 arg10 harg10 hc0 hc1 x3 x4 x5 x6 x7 x8 xs)]
  unfold runFirst3
  dsimp only
  sl_unfold_words
  rw [View.canon_cons_unit_zero (S := S256x8x128) hz3r3]
  unfold step3
  simp only [View.readCov_unit_zero (S := S256x8x128) _ hz3r3]
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

/-! ## A last point -/

theorem coverLastS3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast3 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast3 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast3 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast3 c i arg3 harg3 arg4 harg4 arg5 harg5 arg6 harg6 arg7 harg7 arg8 harg8 arg9 harg9 arg10 harg10 hc0 hc1 x3 x4 x5 x6 x7 x8 xs).2.1) = step3 i x3 x4 x5 x6 x7 x8 xs := by
  rw [View.read_writes_eq_canon _ _ _ (coverLastS3 c i arg3 harg3 arg4 harg4 arg5 harg5 arg6 harg6 arg7 harg7 arg8 harg8 arg9 harg9 arg10 harg10 hc0 hc1 x3 x4 x5 x6 x7 x8 xs)]
  unfold runLast3
  dsimp only
  sl_unfold_words
  rw [View.canon_unit_zero hz3r3]
  unfold step3
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

theorem valLastO3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast3 c i arg3 harg3 arg4 harg4 arg5 harg5 arg6 harg6 arg7 harg7 arg8 harg8 arg9 harg9 arg10 harg10 hc0 hc1 x3 x4 x5 x6 x7 x8 xs).1) = k3_pay2 (step3 i x3 x4 x5 x6 x7 x8 xs) := by
  rw [View.read_writes_eq_canon _ _ _ (coverLastO3 c i arg3 harg3 arg4 harg4 arg5 harg5 arg6 harg6 arg7 harg7 arg8 harg8 arg9 harg9 arg10 harg10 hc0 hc1 x3 x4 x5 x6 x7 x8 xs)]
  unfold runLast3
  dsimp only
  sl_unfold_words
  rw [View.canon_unit_zero hz3r3]
  unfold step3
  simp only [View.readCov_unit_zero (S := S256x8x128) _ hz3r3]
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

end Cert.Kernel.Hand

end
-- ==== Proof.KB3Data.lean ====
/-
  The proof data of pallas_call 3 and its body obligation. The grid has 8 points per tile of regions of interest
  (batch images × row tiles); within such a group the accumulator is zeroed at the first point, added to at every
  point, and written out at the last. `acc3 n` is what the accumulator holds after point `n`, by recursion on the
  point: one `step3` applied to the zero block at a group's first point and to `acc3 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KB3Val
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst3 : ∀ t : Fin cfg3.N, condFirst3 (grid3.coords t) ↔ t.val % 8 = 0 :=
  (by decide +kernel : ∀ t : Fin grid3.N, condFirst3 (grid3.coords t) ↔ t.val % 8 = 0)
theorem hcondLast3 : ∀ t : Fin cfg3.N, condLast3 (grid3.coords t) ↔ t.val % 8 = 7 :=
  (by decide +kernel : ∀ t : Fin grid3.N, condLast3 (grid3.coords t) ↔ t.val % 8 = 7)
theorem idleAt3_6 : ∀ t : Fin cfg3.N, ¬condLast3 (grid3.coords t) → cfg3.idle 6 (grid3.coords t) = true := by decide +kernel
theorem liveAt3_6 : ∀ t : Fin cfg3.N, condLast3 (grid3.coords t) → cfg3.idle 6 (grid3.coords t) = false := by decide +kernel
theorem noFlush3_6 : ∀ t : Fin cfg3.N, ¬condLast3 (grid3.coords t) → (cfg3.win 6).flush t = false := by decide +kernel

/-! ## The staging memrefs and the scratch -/

abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)
abbrev scM3 : Memref sig .tc .vmem S256x8x128 .f32 := Memref.whole cc3_scratch0

/-- The class invariant with the accumulator scratch split off the scoped rest. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

section Region

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- What the accumulator holds after point `n`. -/
def acc3 (c : Dev nD) : (n : ℕ) → n < cfg3.N → Vec F S256x8x128 .f32
  | 0, h => step3 (grid3.coords ⟨0, h⟩) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (zeroAcc3 (F := F))
  | n + 1, h => step3 (grid3.coords ⟨n + 1, h⟩) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩)
      (if (n + 1) % 8 = 0 then zeroAcc3 (F := F) else acc3 c n (Nat.lt_of_succ_lt h))

/-- At a group's first point the update starts from the zero block. -/
theorem acc3_first (c : Dev nD) (t : Fin cfg3.N) (h0 : t.val % 8 = 0) :
    acc3 V c t.val t.isLt = step3 (grid3.coords t) (iblk3 V c 0 t) (iblk3 V c 1 t) (iblk3 V c 2 t) (iblk3 V c 3 t) (iblk3 V c 4 t) (iblk3 V c 5 t) (zeroAcc3 (F := F)) := by
  obtain ⟨n, hn⟩ := t
  cases n with
  | zero => rfl
  | succ n => show step3 _ _ _ _ _ _ _ (if (n + 1) % 8 = 0 then _ else _) = _; rw [if_pos h0]

/-- Elsewhere it starts from what the point before left. -/
theorem acc3_next (c : Dev nD) (t : Fin cfg3.N) (h0 : ¬t.val % 8 = 0) :
    acc3 V c t.val t.isLt = step3 (grid3.coords t) (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := by
  obtain ⟨n, hn⟩ := t
  cases n with
  | zero => exact absurd (Nat.zero_mod _) h0
  | succ n => show step3 _ _ _ _ _ _ _ (if (n + 1) % 8 = 0 then _ else _) = _; rw [if_neg h0]; rfl

/-! ## The invariant and the proof data -/

/-- Before the first point the class invariant (the scratch at anything); before point `n + 1` the accumulator at
    what point `n` left, beside the rest of the scoped memory and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of pipeline 3 on core `c`: the arrays as the region finds them; after the body each input's
    buffer at its block and the output's at the accumulator with its first two axes exchanged; the invariant above;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay2 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = k3_pay2 (acc3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the closed forms say which situation the point is in; the invariant hands the body the
    accumulator at what the point before left (at anything before the first point) and takes it back at this
    point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rfl, after3_0]
  rw [show (dat3 V c).leavesExact 1 t = owns (c : Thread nD τ) (ms3_1 t) fullShare ((dat3 V c).after 1 t) from by
    unfold Dat.leavesExact; rfl, after3_1]
  rw [show (dat3 V c).leavesExact 2 t = owns (c : Thread nD τ) (ms3_2 t) fullShare ((dat3 V c).after 2 t) from by
    unfold Dat.leavesExact; rfl, after3_2]
  rw [show (dat3 V c).leavesExact 3 t = owns (c : Thread nD τ) (ms3_3 t) fullShare ((dat3 V c).after 3 t) from by
    unfold Dat.leavesExact; rfl, after3_3]
  rw [show (dat3 V c).leavesExact 4 t = owns (c : Thread nD τ) (ms3_4 t) fullShare ((dat3 V c).after 4 t) from by
    unfold Dat.leavesExact; rfl, after3_4]
  rw [show (dat3 V c).leavesExact 5 t = owns (c : Thread nD τ) (ms3_5 t) fullShare ((dat3 V c).after 5 t) from by
    unfold Dat.leavesExact; rfl, after3_5]
  have hN : t.val < 512 := lt_of_lt_of_eq t.isLt (show cfg3.N = 512 from N_3)
  by_cases h0 : t.val % 8 = 0
  · have h1 : ¬t.val % 8 = 7 := by omega
    rw [Dat.leavesExact_idle (dat3 V c) 6 t (idleAt3_6 t (fun h => h1 ((hcondLast3 t).mp h))) (noFlush3_6 t (fun h => h1 ((hcondLast3 t).mp h)))]
    by_cases hz : t.val = 0
    · rw [PhiS3_castSucc V c t, PhiS3_zero V c _ _ hz, PhiA3_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst3 c (grid3.coords t) _ _ _ _ _ _ _ _ _ _ _ _ _ _ _ _ ((hcondFirst3 t).mpr h0) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst3]
            exact (acc3_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst3 c (grid3.coords t) _ _ _ _ _ _ _ _ _ _ _ _ _ _ _ _ ((hcondFirst3 t).mpr h0) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst3]
            exact (acc3_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS3_castSucc V c t, PhiS3_pos V c _ _ hz]
    by_cases h1 : t.val % 8 = 7
    · rw [show (dat3 V c).leavesExact 6 t = owns (c : Thread nD τ) (ms3_6 t) fullShare ((dat3 V c).after 6 t) from by
        unfold Dat.leavesExact; rw [liveAt3_6 t ((hcondLast3 t).mpr h1)], after3_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast3 c (grid3.coords t) _ _ _ _ _ _ _ _ _ _ _ _ _ _ _ _ (fun h => h0 ((hcondFirst3 t).mp h)) ((hcondLast3 t).mpr h1) (iblk3 V c 0 t) (iblk3 V c 1 t) (iblk3 V c 2 t) (iblk3 V c 3 t) (iblk3 V c 4 t) (iblk3 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS3]
            exact (acc3_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO3]
      exact congrArg k3_pay2 (acc3_next V c t h0).symm
    · rw [Dat.leavesExact_idle (dat3 V c) 6 t (idleAt3_6 t (fun h => h1 ((hcondLast3 t).mp h))) (noFlush3_6 t (fun h => h1 ((hcondLast3 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid3 c (grid3.coords t) _ _ _ _ _ _ _ _ _ _ _ _ _ _ _ _ (fun h => h0 ((hcondFirst3 t).mp h)) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid3]
            exact (acc3_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region hands the kernel is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 512 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨HS0, Hrb⟩, Hg⟩
  isplitl [HS0 Hrb]
  · isplitl [HS0]
    · iexists _; iexact HS0
    iexact Hrb
  iexact Hg

end Region

end Cert.Kernel.Hand

end
-- ==== Proof.KBRegions.lean ====
/-
  The whole program as a run. @main is nine segments: host operations, then each of the four pallas_calls followed
  by host operations. `W0 … W9` are the contents of every unscoped buffer on a core at the ten segment boundaries:
  the launch memory; after a host stretch, those operations applied; after a region, its arrays at what the pipeline
  leaves (the inputs as entered, the output's write-backs folded over the grid) and every other buffer as entered.
  The run: every weakly fair execution of @main terminates without a fault, and in every final state each unscoped
  buffer on each core holds `W9`. Both the frame claim (no segment writes an argument) and the value of the result
  are read off that.
-/
import proofs.«110520_j35545149342110_1_alg».proof.Proof.KB0Data
import proofs.«110520_j35545149342110_1_alg».proof.Proof.KB1Data
import proofs.«110520_j35545149342110_1_alg».proof.Proof.KB2Data
import proofs.«110520_j35545149342110_1_alg».proof.Proof.KB3Data
import proofs.«110520_j35545149342110_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the segment boundaries -/

/-- Core `c`'s buffers at launch. -/
abbrev W0 : Dev nD → Valuation τ sig (Elt F) := fun c b => m (c, b)
/-- After the first host stretch (region 0's entry). -/
def W1 (c : Dev nD) : Valuation τ sig (Elt F) := StableHlo.after hostOps0 (W0 m c)
abbrev V1 : (c : Dev nD) → (b : Ref sig .tc) → Buf (Elt F) ((c : Thread nD τ).loc b) := fun c b => W1 m c b

/-- Region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The host stretch after region 0. -/
def W3 (c : Dev nD) : Valuation τ sig (Elt F) := StableHlo.after hostOps1 (W2 m c)
abbrev V3 : (c : Dev nD) → (b : Ref sig .tc) → Buf (Elt F) ((c : Thread nD τ).loc b) := fun c b => W3 m c b

/-- Region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The host stretch after region 1. -/
def W5 (c : Dev nD) : Valuation τ sig (Elt F) := StableHlo.after hostOps2 (W4 m c)
abbrev V5 : (c : Dev nD) → (b : Ref sig .tc) → Buf (Elt F) ((c : Thread nD τ).loc b) := fun c b => W5 m c b

/-- Region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The host stretch after region 2. -/
def W7 (c : Dev nD) : Valuation τ sig (Elt F) := StableHlo.after hostOps3 (W6 m c)
abbrev V7 : (c : Dev nD) → (b : Ref sig .tc) → Buf (Elt F) ((c : Thread nD τ).loc b) := fun c b => W7 m c b

/-- Region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The host stretch after region 3. -/
def W9 (c : Dev nD) : Valuation τ sig (Elt F) := StableHlo.after hostOps4 (W8 m c)
abbrev V9 : (c : Dev nD) → (b : Ref sig .tc) → Buf (Elt F) ((c : Thread nD τ).loc b) := fun c b => W9 m c b

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (W9 m c)

/-- What a region hands its kernel makes the class invariant: the generator register and the scoped rest (the tables,
    none here, are dropped). -/
theorem toPhiA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- And the class invariant gives them back. -/
theorem ofPhiA {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`. Its arrays are
    split out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec0 c _).trans (hin0 (V1 m) c)
  hout c := by
    rw [Pipeline.ownSems0_none]
    exact (hout0 (V1 m) c).trans (ofPhiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec1 c _).trans (hin1 (V3 m) c)
  hout c := by
    rw [Pipeline.ownSems0_none]
    exact (hout1 (V3 m) c).trans (ofPhiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec2 c _).trans (hin2 (V5 m) c)
  hout c := by
    rw [Pipeline.ownSems0_none]
    exact (hout2 (V5 m) c).trans (ofPhiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec3 c _).trans (hin3 (V7 m) c)
  hout c := by
    rw [Pipeline.ownSems0_none]
    exact (hout3 (V7 m) c).trans (ofPhiA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)),
    .region (reg3 m),
    .host (hseg hostOps4 hostOps4_sub hostOps4_fresh' (W8 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer of every core holds `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W9 m c) s')
      isplitl [Hh] <;> iassumption)
    (hQ := fun s h c => h c)

end Cert.Kernel.Hand

end
-- ==== Proof.KBFrame.lean ====
/-
  The frame claim read off the run: every argument array ends holding what it held at launch. Each argument's buffer
  is followed backwards through the nine segments: a host stretch writes only its own result buffers, and a region
  changes only its output array — an argument is either one of its input windows' arrays, which the pipeline leaves
  as entered, or no array of the region at all.
-/
import proofs.«110520_j35545149342110_1_alg».proof.Proof.KBRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host stretch writes it, and a region stages it as an input window or bypasses it. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := (by unfold W9; exact StableHlo.after_of_writes_sub hostOps4 _ hostOps4_writes (by decide))
    _ = W7 m c (Proc.devRef .tc main_arg0) := (W8_of_ne m c main_arg0 (by decide))
    _ = W6 m c (Proc.devRef .tc main_arg0) := (by unfold W7; exact StableHlo.after_of_writes_sub hostOps3 _ hostOps3_writes (by decide))
    _ = W5 m c (Proc.devRef .tc main_arg0) := (W6_of_ne m c main_arg0 (by decide))
    _ = W4 m c (Proc.devRef .tc main_arg0) := (by unfold W5; exact StableHlo.after_of_writes_sub hostOps2 _ hostOps2_writes (by decide))
    _ = W3 m c (Proc.devRef .tc main_arg0) := (W4_of_ne m c main_arg0 (by decide))
    _ = W2 m c (Proc.devRef .tc main_arg0) := (by unfold W3; exact StableHlo.after_of_writes_sub hostOps1 _ hostOps1_writes (by decide))
    _ = W1 m c (Proc.devRef .tc main_arg0) := ((W2_arr m c 0).trans (((dat0 (V1 m) c).arrAt_in 0 rfl _).trans (A_eq0 (V1 m) c 0)))
    _ = W0 m c (Proc.devRef .tc main_arg0) := (by unfold W1; exact StableHlo.after_of_writes_sub hostOps0 _ hostOps0_writes (by decide))
    _ = m ((c : Thread nD τ).loc main_arg0) := rfl

/-- `main_arg1` ends as launched: no host stretch writes it, and a region stages it as an input window or bypasses it. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := (by unfold W9; exact StableHlo.after_of_writes_sub hostOps4 _ hostOps4_writes (by decide))
    _ = W7 m c (Proc.devRef .tc main_arg1) := (W8_of_ne m c main_arg1 (by decide))
    _ = W6 m c (Proc.devRef .tc main_arg1) := (by unfold W7; exact StableHlo.after_of_writes_sub hostOps3 _ hostOps3_writes (by decide))
    _ = W5 m c (Proc.devRef .tc main_arg1) := (W6_of_ne m c main_arg1 (by decide))
    _ = W4 m c (Proc.devRef .tc main_arg1) := (by unfold W5; exact StableHlo.after_of_writes_sub hostOps2 _ hostOps2_writes (by decide))
    _ = W3 m c (Proc.devRef .tc main_arg1) := ((W4_arr m c 0).trans (((dat1 (V3 m) c).arrAt_in 0 rfl _).trans (A_eq1 (V3 m) c 0)))
    _ = W2 m c (Proc.devRef .tc main_arg1) := (by unfold W3; exact StableHlo.after_of_writes_sub hostOps1 _ hostOps1_writes (by decide))
    _ = W1 m c (Proc.devRef .tc main_arg1) := (W2_of_ne m c main_arg1 (by decide))
    _ = W0 m c (Proc.devRef .tc main_arg1) := (by unfold W1; exact StableHlo.after_of_writes_sub hostOps0 _ hostOps0_writes (by decide))
    _ = m ((c : Thread nD τ).loc main_arg1) := rfl

/-- `main_arg2` ends as launched: no host stretch writes it, and a region stages it as an input window or bypasses it. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := (by unfold W9; exact StableHlo.after_of_writes_sub hostOps4 _ hostOps4_writes (by decide))
    _ = W7 m c (Proc.devRef .tc main_arg2) := (W8_of_ne m c main_arg2 (by decide))
    _ = W6 m c (Proc.devRef .tc main_arg2) := (by unfold W7; exact StableHlo.after_of_writes_sub hostOps3 _ hostOps3_writes (by decide))
    _ = W5 m c (Proc.devRef .tc main_arg2) := ((W6_arr m c 0).trans (((dat2 (V5 m) c).arrAt_in 0 rfl _).trans (A_eq2 (V5 m) c 0)))
    _ = W4 m c (Proc.devRef .tc main_arg2) := (by unfold W5; exact StableHlo.after_of_writes_sub hostOps2 _ hostOps2_writes (by decide))
    _ = W3 m c (Proc.devRef .tc main_arg2) := (W4_of_ne m c main_arg2 (by decide))
    _ = W2 m c (Proc.devRef .tc main_arg2) := (by unfold W3; exact StableHlo.after_of_writes_sub hostOps1 _ hostOps1_writes (by decide))
    _ = W1 m c (Proc.devRef .tc main_arg2) := (W2_of_ne m c main_arg2 (by decide))
    _ = W0 m c (Proc.devRef .tc main_arg2) := (by unfold W1; exact StableHlo.after_of_writes_sub hostOps0 _ hostOps0_writes (by decide))
    _ = m ((c : Thread nD τ).loc main_arg2) := rfl

/-- `main_arg3` ends as launched: no host stretch writes it, and a region stages it as an input window or bypasses it. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := (by unfold W9; exact StableHlo.after_of_writes_sub hostOps4 _ hostOps4_writes (by decide))
    _ = W7 m c (Proc.devRef .tc main_arg3) := ((W8_arr m c 0).trans (((dat3 (V7 m) c).arrAt_in 0 rfl _).trans (A_eq3 (V7 m) c 0)))
    _ = W6 m c (Proc.devRef .tc main_arg3) := (by unfold W7; exact StableHlo.after_of_writes_sub hostOps3 _ hostOps3_writes (by decide))
    _ = W5 m c (Proc.devRef .tc main_arg3) := (W6_of_ne m c main_arg3 (by decide))
    _ = W4 m c (Proc.devRef .tc main_arg3) := (by unfold W5; exact StableHlo.after_of_writes_sub hostOps2 _ hostOps2_writes (by decide))
    _ = W3 m c (Proc.devRef .tc main_arg3) := (W4_of_ne m c main_arg3 (by decide))
    _ = W2 m c (Proc.devRef .tc main_arg3) := (by unfold W3; exact StableHlo.after_of_writes_sub hostOps1 _ hostOps1_writes (by decide))
    _ = W1 m c (Proc.devRef .tc main_arg3) := (W2_of_ne m c main_arg3 (by decide))
    _ = W0 m c (Proc.devRef .tc main_arg3) := (by unfold W1; exact StableHlo.after_of_writes_sub hostOps0 _ hostOps0_writes (by decide))
    _ = m ((c : Thread nD τ).loc main_arg3) := rfl

/-- `main_arg4` ends as launched: no host stretch writes it, and a region stages it as an input window or bypasses it. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := (by unfold W9; exact StableHlo.after_of_writes_sub hostOps4 _ hostOps4_writes (by decide))
    _ = W7 m c (Proc.devRef .tc main_arg4) := (W8_of_ne m c main_arg4 (by decide))
    _ = W6 m c (Proc.devRef .tc main_arg4) := (by unfold W7; exact StableHlo.after_of_writes_sub hostOps3 _ hostOps3_writes (by decide))
    _ = W5 m c (Proc.devRef .tc main_arg4) := (W6_of_ne m c main_arg4 (by decide))
    _ = W4 m c (Proc.devRef .tc main_arg4) := (by unfold W5; exact StableHlo.after_of_writes_sub hostOps2 _ hostOps2_writes (by decide))
    _ = W3 m c (Proc.devRef .tc main_arg4) := (W4_of_ne m c main_arg4 (by decide))
    _ = W2 m c (Proc.devRef .tc main_arg4) := (by unfold W3; exact StableHlo.after_of_writes_sub hostOps1 _ hostOps1_writes (by decide))
    _ = W1 m c (Proc.devRef .tc main_arg4) := (W2_of_ne m c main_arg4 (by decide))
    _ = W0 m c (Proc.devRef .tc main_arg4) := (by unfold W1; exact StableHlo.after_of_writes_sub hostOps0 _ hostOps0_writes (by decide))
    _ = m ((c : Thread nD τ).loc main_arg4) := rfl

/-- `main_arg5` ends as launched: no host stretch writes it, and a region stages it as an input window or bypasses it. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := (by unfold W9; exact StableHlo.after_of_writes_sub hostOps4 _ hostOps4_writes (by decide))
    _ = W7 m c (Proc.devRef .tc main_arg5) := (W8_of_ne m c main_arg5 (by decide))
    _ = W6 m c (Proc.devRef .tc main_arg5) := (by unfold W7; exact StableHlo.after_of_writes_sub hostOps3 _ hostOps3_writes (by decide))
    _ = W5 m c (Proc.devRef .tc main_arg5) := (W6_of_ne m c main_arg5 (by decide))
    _ = W4 m c (Proc.devRef .tc main_arg5) := (by unfold W5; exact StableHlo.after_of_writes_sub hostOps2 _ hostOps2_writes (by decide))
    _ = W3 m c (Proc.devRef .tc main_arg5) := (W4_of_ne m c main_arg5 (by decide))
    _ = W2 m c (Proc.devRef .tc main_arg5) := (by unfold W3; exact StableHlo.after_of_writes_sub hostOps1 _ hostOps1_writes (by decide))
    _ = W1 m c (Proc.devRef .tc main_arg5) := (W2_of_ne m c main_arg5 (by decide))
    _ = W0 m c (Proc.devRef .tc main_arg5) := (by unfold W1; exact StableHlo.after_of_writes_sub hostOps0 _ hostOps0_writes (by decide))
    _ = m ((c : Thread nD τ).loc main_arg5) := rfl

/-- THE FRAME at any `F`: every weakly fair execution of @main terminates, nothing faults, and the six argument
    arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.Kernel.Hand

end
-- ==== Proof.KI0Run.lean ====
/-
  The body of pallas_call 0 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.KernelIdeal.Launch
import proofs.«110520_j35545149342110_1_alg».proof.Proof.Gen.KernelIdeal.Skeleton
import proofs.«110520_j35545149342110_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast0 (i : grid0.Coords) : Prop := k0_cond2 i = 1#1

set_option maxHeartbeats 4000000 in
/-- A FIRST point: the accumulator, whatever it held, is zeroed and then receives the point's partial sums; the
    output block is not touched. -/
noncomputable def runFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, fun xi9 E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, fun xi9 E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__level_kernel i arg3 harg3 arg4 harg4 arg5 harg5 arg6 harg6 arg7 harg7 arg8 harg8 arg9 harg9 arg10 harg10) K } := by
  refine ⟨?_, ?_, fun E K => ?run⟩
  case run =>
    simp only [cc0__level_kernel_eq_skeleton]; unfold cc0__level_kernel_skel
    simp only [k0_part1_eq_skeleton, k0_part2_eq_skeleton]; unfold k0_part1_skel k0_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.KernelIdeal.Hand

end
-- ==== Proof.KI0Val.lean ====
/-
  What the three runs of pallas_call 0's body leave, as values. One point adds to the accumulator the point's partial
  sums: `step0` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KI0Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r0 : (![0, 0] : Fin 2 → Nat) = fun _ => 0 := funext fun a => by fin_cases a <;> rfl
theorem hz3r0 : (![0, 0, 0] : Fin 3 → Nat) = fun _ => 0 := funext fun a => by fin_cases a <;> rfl
theorem hz4r0 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step0 (i : grid0.Coords) (x3 : Vec F S1x256x8x256 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k0_pay1 (k0_pay13 (BitVec.ofNat 32 (i 2).val) (k0_pay4 x5) (k0_pay5 x7) (k0_pay6 i x8) (k0_pay9 x4 x6) (k0_pay10 x4) (k0_pay11 x6) (k0_pay12 (F := F)) x3 prev)

/-- The zero block a first point stores. -/
abbrev zeroAcc0 : Vec F S256x8x128 .f32 := k0_pay3 (F := F)

/-! ## A middle point -/

theorem coverMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid0 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid0 c i arg3 harg3 arg4 harg4 arg5 harg5 arg6 harg6 arg7 harg7 arg8 harg8 arg9 harg9 arg10 harg10 hc0 hc1 x3 x4 x5 x6 x7 x8 xs).1) = step0 i x3 x4 x5 x6 x7 x8 xs := by
  rw [View.read_writes_eq_canon _ _ _ (coverMid0 c i arg3 harg3 arg4 harg4 arg5 harg5 arg6 harg6 arg7 harg7 arg8 harg8 arg9 harg9 arg10 harg10 hc0 hc1 x3 x4 x5 x6 x7 x8 xs)]
  unfold runMid0
  dsimp only
  sl_unfold_words
  rw [View.canon_unit_zero hz3r0]
  unfold step0
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

/-! ## A first point -/

theorem coverFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst0 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst0 i) (hc1 : ¬condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst0 c i arg3 harg3 arg4 harg4 arg5 harg5 arg6 harg6 arg7 harg7 arg8 harg8 arg9 harg9 arg10 harg10 hc0 hc1 x3 x4 x5 x6 x7 x8 xs).1) = step0 i x3 x4 x5 x6 x7 x8 (zeroAcc0 (F := F)) := by
  rw [View.read_writes_eq_canon _ _ _ (coverFirst0 c i arg3 harg3 arg4 harg4 arg5 harg5 arg6 harg6 arg7 harg7 arg8 harg8 arg9 harg9 arg10 harg10 hc0 hc1 x3 x4 x5 x6 x7 x8 xs)]
  unfold runFirst0
  dsimp only
  sl_unfold_words
  rw [View.canon_cons_unit_zero (S := S256x8x128) hz3r0]
  unfold step0
  simp only [View.readCov_unit_zero (S := S256x8x128) _ hz3r0]
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

/-! ## A last point -/

theorem coverLastS0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast0 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast0 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast0 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast0 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast0 c i arg3 harg3 arg4 harg4 arg5 harg5 arg6 harg6 arg7 harg7 arg8 harg8 arg9 harg9 arg10 harg10 hc0 hc1 x3 x4 x5 x6 x7 x8 xs).2.1) = step0 i x3 x4 x5 x6 x7 x8 xs := by
  rw [View.read_writes_eq_canon _ _ _ (coverLastS0 c i arg3 harg3 arg4 harg4 arg5 harg5 arg6 harg6 arg7 harg7 arg8 harg8 arg9 harg9 arg10 harg10 hc0 hc1 x3 x4 x5 x6 x7 x8 xs)]
  unfold runLast0
  dsimp only
  sl_unfold_words
  rw [View.canon_unit_zero hz3r0]
  unfold step0
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

theorem valLastO0 (c : Dev nD) (i : grid0.Coords) (arg3 : Memref sig .tc .vmem S1x256x8x256 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst0 i) (hc1 : condLast0 i) (x3 : Vec F S1x256x8x256 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast0 c i arg3 harg3 arg4 harg4 arg5 harg5 arg6 harg6 arg7 harg7 arg8 harg8 arg9 harg9 arg10 harg10 hc0 hc1 x3 x4 x5 x6 x7 x8 xs).1) = k0_pay2 (step0 i x3 x4 x5 x6 x7 x8 xs) := by
  rw [View.read_writes_eq_canon _ _ _ (coverLastO0 c i arg3 harg3 arg4 harg4 arg5 harg5 arg6 harg6 arg7 harg7 arg8 harg8 arg9 harg9 arg10 harg10 hc0 hc1 x3 x4 x5 x6 x7 x8 xs)]
  unfold runLast0
  dsimp only
  sl_unfold_words
  rw [View.canon_unit_zero hz3r0]
  unfold step0
  simp only [View.readCov_unit_zero (S := S256x8x128) _ hz3r0]
  simp only [View.readAt_eq_ld, harg3.read_unread, harg4.read_unread, harg5.read_unread, harg6.read_unread, harg7.read_unread, harg8.read_unread, harg10.read_unread,
    View.ld_unit_zero (S := S8x128) hz2r0, View.ld_unit_zero (S := S256x8x128) hz3r0, View.ld_unit_zero (S := S1x256x8x256) hz4r0]

end Cert.KernelIdeal.Hand

end
-- ==== Proof.KI0Data.lean ====
/-
  The proof data of pallas_call 0 and its body obligation. The grid has 64 points per tile of regions of interest
  (batch images × row tiles); within such a group the accumulator is zeroed at the first point, added to at every
  point, and written out at the last. `acc0 n` is what the accumulator holds after point `n`, by recursion on the
  point: one `step0` applied to the zero block at a group's first point and to `acc0 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KI0Val
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst0 : ∀ t : Fin cfg0.N, condFirst0 (grid0.coords t) ↔ t.val % 64 = 0 :=
  (by decide +kernel : ∀ t : Fin grid0.N, condFirst0 (grid0.coords t) ↔ t.val % 64 = 0)
theorem hcondLast0 : ∀ t : Fin cfg0.N, condLast0 (grid0.coords t) ↔ t.val % 64 = 63 :=
  (by decide +kernel : ∀ t : Fin grid0.N, condLast0 (grid0.coords t) ↔ t.val % 64 = 63)
theorem idleAt0_6 : ∀ t : Fin cfg0.N, ¬condLast0 (grid0.coords t) → cfg0.idle 6 (grid0.coords t) = true := by decide +kernel
theorem liveAt0_6 : ∀ t : Fin cfg0.N, condLast0 (grid0.coords t) → cfg0.idle 6 (grid0.coords t) = false := by decide +kernel
theorem noFlush0_6 : ∀ t : Fin cfg0.N, ¬condLast0 (grid0.coords t) → (cfg0.win 6).flush t = false := by decide +kernel

/-! ## The staging memrefs and the scratch -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev scM0 : Memref sig .tc .vmem S256x8x128 .f32 := Memref.whole cc0_scratch0

/-- The class invariant with the accumulator scratch split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after point `n`. -/
def acc0 (c : Dev nD) : (n : ℕ) → n < cfg0.N → Vec F S256x8x128 .f32
  | 0, h => step0 (grid0.coords ⟨0, h⟩) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (zeroAcc0 (F := F))
  | n + 1, h => step0 (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)
      (if (n + 1) % 64 = 0 then zeroAcc0 (F := F) else acc0 c n (Nat.lt_of_succ_lt h))

/-- At a group's first point the update starts from the zero block. -/
theorem acc0_first (c : Dev nD) (t : Fin cfg0.N) (h0 : t.val % 64 = 0) :
    acc0 V c t.val t.isLt = step0 (grid0.coords t) (iblk0 V c 0 t) (iblk0 V c 1 t) (iblk0 V c 2 t) (iblk0 V c 3 t) (iblk0 V c 4 t) (iblk0 V c 5 t) (zeroAcc0 (F := F)) := by
  obtain ⟨n, hn⟩ := t
  cases n with
  | zero => rfl
  | succ n => show step0 _ _ _ _ _ _ _ (if (n + 1) % 64 = 0 then _ else _) = _; rw [if_pos h0]

/-- Elsewhere it starts from what the point before left. -/
theorem acc0_next (c : Dev nD) (t : Fin cfg0.N) (h0 : ¬t.val % 64 = 0) :
    acc0 V c t.val t.isLt = step0 (grid0.coords t) (iblk0 V c 0 t) (iblk0 V c 1 t) (iblk0 V c 2 t) (iblk0 V c 3 t) (iblk0 V c 4 t) (iblk0 V c 5 t)
      (acc0 V c (t.val - 1) (Nat.lt_of_le_of_lt (Nat.sub_le _ _) t.isLt)) := by
  obtain ⟨n, hn⟩ := t
  cases n with
  | zero => exact absurd (Nat.zero_mod _) h0
  | succ n => show step0 _ _ _ _ _ _ _ (if (n + 1) % 64 = 0 then _ else _) = _; rw [if_neg h0]; rfl

/-! ## The invariant and the proof data -/

/-- Before the first point the class invariant (the scratch at anything); before point `n + 1` the accumulator at
    what point `n` left, beside the rest of the scoped memory and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of pipeline 0 on core `c`: the arrays as the region finds them; after the body each input's
    buffer at its block and the output's at the accumulator with its first two axes exchanged; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the closed forms say which situation the point is in; the invariant hands the body the
    accumulator at what the point before left (at anything before the first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 4 t = owns (c : Thread nD τ) (ms0_4 t) fullShare ((dat0 V c).after 4 t) from by
    unfold Dat.leavesExact; rfl, after0_4]
  rw [show (dat0 V c).leavesExact 5 t = owns (c : Thread nD τ) (ms0_5 t) fullShare ((dat0 V c).after 5 t) from by
    unfold Dat.leavesExact; rfl, after0_5]
  have hN : t.val < 4096 := lt_of_lt_of_eq t.isLt (show cfg0.N = 4096 from N_0)
  by_cases h0 : t.val % 64 = 0
  · have h1 : ¬t.val % 64 = 63 := by omega
    rw [Dat.leavesExact_idle (dat0 V c) 6 t (idleAt0_6 t (fun h => h1 ((hcondLast0 t).mp h))) (noFlush0_6 t (fun h => h1 ((hcondLast0 t).mp h)))]
    by_cases hz : t.val = 0
    · rw [PhiS0_castSucc V c t, PhiS0_zero V c _ _ hz, PhiA0_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst0]
            exact (acc0_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst0 c (grid0.coords t) _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst0]
            exact (acc0_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS0_castSucc V c t, PhiS0_pos V c _ _ hz]
    by_cases h1 : t.val % 64 = 63
    · rw [show (dat0 V c).leavesExact 6 t = owns (c : Thread nD τ) (ms0_6 t) fullShare ((dat0 V c).after 6 t) from by
        unfold Dat.leavesExact; rw [liveAt0_6 t ((hcondLast0 t).mpr h1)], after0_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast0 c (grid0.coords t) _ _ _ _ _ _ _ _ _ _ _ _ _ _ _ _ (fun h => h0 ((hcondFirst0 t).mp h)) ((hcondLast0 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS0]
            exact (acc0_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO0]
      exact congrArg k0_pay2 (acc0_next V c t h0).symm
    · rw [Dat.leavesExact_idle (dat0 V c) 6 t (idleAt0_6 t (fun h => h1 ((hcondLast0 t).mp h))) (noFlush0_6 t (fun h => h1 ((hcondLast0 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid0 c (grid0.coords t) _ _ _ _ _ _ _ _ _ _ _ _ _ _ _ _ (fun h => h0 ((hcondFirst0 t).mp h)) (fun h => h1 ((hcondLast0 t).mp h)) (iblk0 V c 0 t) (iblk0 V c 1 t) (iblk0 V c 2 t) (iblk0 V c 3 t) (iblk0 V c 4 t) (iblk0 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid0]
            exact (acc0_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 4096 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrb⟩, Hg⟩
  isplitl [HS0 Hrb]
  · isplitl [HS0]
    · iexists _; iexact HS0
    iexact Hrb
  iexact Hg

end Region

end Cert.KernelIdeal.Hand

end
-- ==== Proof.KI1Run.lean ====
/-
  The body of pallas_call 1 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.KernelIdeal.Launch
import proofs.«110520_j35545149342110_1_alg».proof.Proof.Gen.KernelIdeal.Skeleton
import proofs.«110520_j35545149342110_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst1 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast1 (i : grid1.Coords) : Prop := k1_cond2 i = 1#1

set_option maxHeartbeats 4000000 in
/-- A FIRST point: the accumulator, whatever it held, is zeroed and then receives the point's partial sums; the
    output block is not touched. -/
noncomputable def runFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, fun xi9 E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, fun xi9 E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc1__level_kernel i arg3 harg3 arg4 harg4 arg5 harg5 arg6 harg6 arg7 harg7 arg8 harg8 arg9 harg9 arg10 harg10) K } := by
  refine ⟨?_, ?_, fun E K => ?run⟩
  case run =>
    simp only [cc1__level_kernel_eq_skeleton]; unfold cc1__level_kernel_skel
    simp only [k1_part1_eq_skeleton, k1_part2_eq_skeleton]; unfold k1_part1_skel k1_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.KernelIdeal.Hand

end
-- ==== Proof.KI1Val.lean ====
/-
  What the three runs of pallas_call 1's body leave, as values. One point adds to the accumulator the point's partial
  sums: `step1` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KI1Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r1 : (![0, 0] : Fin 2 → Nat) = fun _ => 0 := funext fun a => by fin_cases a <;> rfl
theorem hz3r1 : (![0, 0, 0] : Fin 3 → Nat) = fun _ => 0 := funext fun a => by fin_cases a <;> rfl
theorem hz4r1 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step1 (i : grid1.Coords) (x3 : Vec F S1x256x8x128 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k1_pay1 (k1_pay13 (BitVec.ofNat 32 (i 2).val) (k1_pay4 x5) (k1_pay5 x7) (k1_pay6 i x8) (k1_pay9 x4 x6) (k1_pay10 x4) (k1_pay11 x6) (k1_pay12 (F := F)) x3 prev)

/-- The zero block a first point stores. -/
abbrev zeroAcc1 : Vec F S256x8x128 .f32 := k1_pay3 (F := F)

/-! ## A middle point -/

theorem coverMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid1 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid1 c i arg3 harg3 arg4 harg4 arg5 harg5 arg6 harg6 arg7 harg7 arg8 harg8 arg9 harg9 arg10 harg10 hc0 hc1 x3 x4 x5 x6 x7 x8 xs).1) = step1 i x3 x4 x5 x6 x7 x8 xs := by
  rw [View.read_writes_eq_canon _ _ _ (coverMid1 c i arg3 harg3 arg4 harg4 arg5 harg5 arg6 harg6 arg7 harg7 arg8 harg8 arg9 harg9 arg10 harg10 hc0 hc1 x3 x4 x5 x6 x7 x8 xs)]
  unfold runMid1
  dsimp only
  sl_unfold_words
  rw [View.canon_unit_zero hz3r1]
  unfold step1
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

/-! ## A first point -/

theorem coverFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst1 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst1 i) (hc1 : ¬condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst1 c i arg3 harg3 arg4 harg4 arg5 harg5 arg6 harg6 arg7 harg7 arg8 harg8 arg9 harg9 arg10 harg10 hc0 hc1 x3 x4 x5 x6 x7 x8 xs).1) = step1 i x3 x4 x5 x6 x7 x8 (zeroAcc1 (F := F)) := by
  rw [View.read_writes_eq_canon _ _ _ (coverFirst1 c i arg3 harg3 arg4 harg4 arg5 harg5 arg6 harg6 arg7 harg7 arg8 harg8 arg9 harg9 arg10 harg10 hc0 hc1 x3 x4 x5 x6 x7 x8 xs)]
  unfold runFirst1
  dsimp only
  sl_unfold_words
  rw [View.canon_cons_unit_zero (S := S256x8x128) hz3r1]
  unfold step1
  simp only [View.readCov_unit_zero (S := S256x8x128) _ hz3r1]
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

/-! ## A last point -/

theorem coverLastS1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast1 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast1 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast1 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast1 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast1 c i arg3 harg3 arg4 harg4 arg5 harg5 arg6 harg6 arg7 harg7 arg8 harg8 arg9 harg9 arg10 harg10 hc0 hc1 x3 x4 x5 x6 x7 x8 xs).2.1) = step1 i x3 x4 x5 x6 x7 x8 xs := by
  rw [View.read_writes_eq_canon _ _ _ (coverLastS1 c i arg3 harg3 arg4 harg4 arg5 harg5 arg6 harg6 arg7 harg7 arg8 harg8 arg9 harg9 arg10 harg10 hc0 hc1 x3 x4 x5 x6 x7 x8 xs)]
  unfold runLast1
  dsimp only
  sl_unfold_words
  rw [View.canon_unit_zero hz3r1]
  unfold step1
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

theorem valLastO1 (c : Dev nD) (i : grid1.Coords) (arg3 : Memref sig .tc .vmem S1x256x8x128 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst1 i) (hc1 : condLast1 i) (x3 : Vec F S1x256x8x128 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast1 c i arg3 harg3 arg4 harg4 arg5 harg5 arg6 harg6 arg7 harg7 arg8 harg8 arg9 harg9 arg10 harg10 hc0 hc1 x3 x4 x5 x6 x7 x8 xs).1) = k1_pay2 (step1 i x3 x4 x5 x6 x7 x8 xs) := by
  rw [View.read_writes_eq_canon _ _ _ (coverLastO1 c i arg3 harg3 arg4 harg4 arg5 harg5 arg6 harg6 arg7 harg7 arg8 harg8 arg9 harg9 arg10 harg10 hc0 hc1 x3 x4 x5 x6 x7 x8 xs)]
  unfold runLast1
  dsimp only
  sl_unfold_words
  rw [View.canon_unit_zero hz3r1]
  unfold step1
  simp only [View.readCov_unit_zero (S := S256x8x128) _ hz3r1]
  simp only [View.readAt_eq_ld, harg3.read_unread, harg4.read_unread, harg5.read_unread, harg6.read_unread, harg7.read_unread, harg8.read_unread, harg10.read_unread,
    View.ld_unit_zero (S := S8x128) hz2r1, View.ld_unit_zero (S := S256x8x128) hz3r1, View.ld_unit_zero (S := S1x256x8x128) hz4r1]

end Cert.KernelIdeal.Hand

end
-- ==== Proof.KI1Data.lean ====
/-
  The proof data of pallas_call 1 and its body obligation. The grid has 32 points per tile of regions of interest
  (batch images × row tiles); within such a group the accumulator is zeroed at the first point, added to at every
  point, and written out at the last. `acc1 n` is what the accumulator holds after point `n`, by recursion on the
  point: one `step1` applied to the zero block at a group's first point and to `acc1 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KI1Val
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst1 : ∀ t : Fin cfg1.N, condFirst1 (grid1.coords t) ↔ t.val % 32 = 0 :=
  (by decide +kernel : ∀ t : Fin grid1.N, condFirst1 (grid1.coords t) ↔ t.val % 32 = 0)
theorem hcondLast1 : ∀ t : Fin cfg1.N, condLast1 (grid1.coords t) ↔ t.val % 32 = 31 :=
  (by decide +kernel : ∀ t : Fin grid1.N, condLast1 (grid1.coords t) ↔ t.val % 32 = 31)
theorem idleAt1_6 : ∀ t : Fin cfg1.N, ¬condLast1 (grid1.coords t) → cfg1.idle 6 (grid1.coords t) = true := by decide +kernel
theorem liveAt1_6 : ∀ t : Fin cfg1.N, condLast1 (grid1.coords t) → cfg1.idle 6 (grid1.coords t) = false := by decide +kernel
theorem noFlush1_6 : ∀ t : Fin cfg1.N, ¬condLast1 (grid1.coords t) → (cfg1.win 6).flush t = false := by decide +kernel

/-! ## The staging memrefs and the scratch -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev scM1 : Memref sig .tc .vmem S256x8x128 .f32 := Memref.whole cc1_scratch0

/-- The class invariant with the accumulator scratch split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after point `n`. -/
def acc1 (c : Dev nD) : (n : ℕ) → n < cfg1.N → Vec F S256x8x128 .f32
  | 0, h => step1 (grid1.coords ⟨0, h⟩) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (zeroAcc1 (F := F))
  | n + 1, h => step1 (grid1.coords ⟨n + 1, h⟩) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (if (n + 1) % 32 = 0 then zeroAcc1 (F := F) else acc1 c n (Nat.lt_of_succ_lt h))

/-- At a group's first point the update starts from the zero block. -/
theorem acc1_first (c : Dev nD) (t : Fin cfg1.N) (h0 : t.val % 32 = 0) :
    acc1 V c t.val t.isLt = step1 (grid1.coords t) (iblk1 V c 0 t) (iblk1 V c 1 t) (iblk1 V c 2 t) (iblk1 V c 3 t) (iblk1 V c 4 t) (iblk1 V c 5 t) (zeroAcc1 (F := F)) := by
  obtain ⟨n, hn⟩ := t
  cases n with
  | zero => rfl
  | succ n => show step1 _ _ _ _ _ _ _ (if (n + 1) % 32 = 0 then _ else _) = _; rw [if_pos h0]

/-- Elsewhere it starts from what the point before left. -/
theorem acc1_next (c : Dev nD) (t : Fin cfg1.N) (h0 : ¬t.val % 32 = 0) :
    acc1 V c t.val t.isLt = step1 (grid1.coords t) (iblk1 V c 0 t) (iblk1 V c 1 t) (iblk1 V c 2 t) (iblk1 V c 3 t) (iblk1 V c 4 t) (iblk1 V c 5 t)
      (acc1 V c (t.val - 1) (Nat.lt_of_le_of_lt (Nat.sub_le _ _) t.isLt)) := by
  obtain ⟨n, hn⟩ := t
  cases n with
  | zero => exact absurd (Nat.zero_mod _) h0
  | succ n => show step1 _ _ _ _ _ _ _ (if (n + 1) % 32 = 0 then _ else _) = _; rw [if_neg h0]; rfl

/-! ## The invariant and the proof data -/

/-- Before the first point the class invariant (the scratch at anything); before point `n + 1` the accumulator at
    what point `n` left, beside the rest of the scoped memory and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of pipeline 1 on core `c`: the arrays as the region finds them; after the body each input's
    buffer at its block and the output's at the accumulator with its first two axes exchanged; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the closed forms say which situation the point is in; the invariant hands the body the
    accumulator at what the point before left (at anything before the first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  rw [show (dat1 V c).leavesExact 4 t = owns (c : Thread nD τ) (ms1_4 t) fullShare ((dat1 V c).after 4 t) from by
    unfold Dat.leavesExact; rfl, after1_4]
  rw [show (dat1 V c).leavesExact 5 t = owns (c : Thread nD τ) (ms1_5 t) fullShare ((dat1 V c).after 5 t) from by
    unfold Dat.leavesExact; rfl, after1_5]
  have hN : t.val < 2048 := lt_of_lt_of_eq t.isLt (show cfg1.N = 2048 from N_1)
  by_cases h0 : t.val % 32 = 0
  · have h1 : ¬t.val % 32 = 31 := by omega
    rw [Dat.leavesExact_idle (dat1 V c) 6 t (idleAt1_6 t (fun h => h1 ((hcondLast1 t).mp h))) (noFlush1_6 t (fun h => h1 ((hcondLast1 t).mp h)))]
    by_cases hz : t.val = 0
    · rw [PhiS1_castSucc V c t, PhiS1_zero V c _ _ hz, PhiA1_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst1 c (grid1.coords t) _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst1]
            exact (acc1_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst1 c (grid1.coords t) _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst1]
            exact (acc1_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS1_castSucc V c t, PhiS1_pos V c _ _ hz]
    by_cases h1 : t.val % 32 = 31
    · rw [show (dat1 V c).leavesExact 6 t = owns (c : Thread nD τ) (ms1_6 t) fullShare ((dat1 V c).after 6 t) from by
        unfold Dat.leavesExact; rw [liveAt1_6 t ((hcondLast1 t).mpr h1)], after1_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast1 c (grid1.coords t) _ _ _ _ _ _ _ _ _ _ _ _ _ _ _ _ (fun h => h0 ((hcondFirst1 t).mp h)) ((hcondLast1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS1]
            exact (acc1_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO1]
      exact congrArg k1_pay2 (acc1_next V c t h0).symm
    · rw [Dat.leavesExact_idle (dat1 V c) 6 t (idleAt1_6 t (fun h => h1 ((hcondLast1 t).mp h))) (noFlush1_6 t (fun h => h1 ((hcondLast1 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid1 c (grid1.coords t) _ _ _ _ _ _ _ _ _ _ _ _ _ _ _ _ (fun h => h0 ((hcondFirst1 t).mp h)) (fun h => h1 ((hcondLast1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid1]
            exact (acc1_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 2048 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrb⟩, Hg⟩
  isplitl [HS0 Hrb]
  · isplitl [HS0]
    · iexists _; iexact HS0
    iexact Hrb
  iexact Hg

end Region

end Cert.KernelIdeal.Hand

end
-- ==== Proof.KI2Run.lean ====
/-
  The body of pallas_call 2 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.KernelIdeal.Launch
import proofs.«110520_j35545149342110_1_alg».proof.Proof.Gen.KernelIdeal.Skeleton
import proofs.«110520_j35545149342110_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst2 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast2 (i : grid2.Coords) : Prop := k2_cond2 i = 1#1

set_option maxHeartbeats 4000000 in
/-- A FIRST point: the accumulator, whatever it held, is zeroed and then receives the point's partial sums; the
    output block is not touched. -/
noncomputable def runFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, fun xi9 E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, fun xi9 E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc2__level_kernel i arg3 harg3 arg4 harg4 arg5 harg5 arg6 harg6 arg7 harg7 arg8 harg8 arg9 harg9 arg10 harg10) K } := by
  refine ⟨?_, ?_, fun E K => ?run⟩
  case run =>
    simp only [cc2__level_kernel_eq_skeleton]; unfold cc2__level_kernel_skel
    simp only [k2_part1_eq_skeleton, k2_part2_eq_skeleton]; unfold k2_part1_skel k2_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.KernelIdeal.Hand

end
-- ==== Proof.KI2Val.lean ====
/-
  What the three runs of pallas_call 2's body leave, as values. One point adds to the accumulator the point's partial
  sums: `step2` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KI2Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r2 : (![0, 0] : Fin 2 → Nat) = fun _ => 0 := funext fun a => by fin_cases a <;> rfl
theorem hz3r2 : (![0, 0, 0] : Fin 3 → Nat) = fun _ => 0 := funext fun a => by fin_cases a <;> rfl
theorem hz4r2 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step2 (i : grid2.Coords) (x3 : Vec F S1x256x8x64 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k2_pay1 (k2_pay13 (BitVec.ofNat 32 (i 2).val) (k2_pay4 x5) (k2_pay5 x7) (k2_pay6 i x8) (k2_pay9 x4 x6) (k2_pay10 x4) (k2_pay11 x6) (k2_pay12 (F := F)) x3 prev)

/-- The zero block a first point stores. -/
abbrev zeroAcc2 : Vec F S256x8x128 .f32 := k2_pay3 (F := F)

/-! ## A middle point -/

theorem coverMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid2 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid2 c i arg3 harg3 arg4 harg4 arg5 harg5 arg6 harg6 arg7 harg7 arg8 harg8 arg9 harg9 arg10 harg10 hc0 hc1 x3 x4 x5 x6 x7 x8 xs).1) = step2 i x3 x4 x5 x6 x7 x8 xs := by
  rw [View.read_writes_eq_canon _ _ _ (coverMid2 c i arg3 harg3 arg4 harg4 arg5 harg5 arg6 harg6 arg7 harg7 arg8 harg8 arg9 harg9 arg10 harg10 hc0 hc1 x3 x4 x5 x6 x7 x8 xs)]
  unfold runMid2
  dsimp only
  sl_unfold_words
  rw [View.canon_unit_zero hz3r2]
  unfold step2
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

/-! ## A first point -/

theorem coverFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst2 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst2 i) (hc1 : ¬condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst2 c i arg3 harg3 arg4 harg4 arg5 harg5 arg6 harg6 arg7 harg7 arg8 harg8 arg9 harg9 arg10 harg10 hc0 hc1 x3 x4 x5 x6 x7 x8 xs).1) = step2 i x3 x4 x5 x6 x7 x8 (zeroAcc2 (F := F)) := by
  rw [View.read_writes_eq_canon _ _ _ (coverFirst2 c i arg3 harg3 arg4 harg4 arg5 harg5 arg6 harg6 arg7 harg7 arg8 harg8 arg9 harg9 arg10 harg10 hc0 hc1 x3 x4 x5 x6 x7 x8 xs)]
  unfold runFirst2
  dsimp only
  sl_unfold_words
  rw [View.canon_cons_unit_zero (S := S256x8x128) hz3r2]
  unfold step2
  simp only [View.readCov_unit_zero (S := S256x8x128) _ hz3r2]
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

/-! ## A last point -/

theorem coverLastS2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast2 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast2 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast2 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast2 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast2 c i arg3 harg3 arg4 harg4 arg5 harg5 arg6 harg6 arg7 harg7 arg8 harg8 arg9 harg9 arg10 harg10 hc0 hc1 x3 x4 x5 x6 x7 x8 xs).2.1) = step2 i x3 x4 x5 x6 x7 x8 xs := by
  rw [View.read_writes_eq_canon _ _ _ (coverLastS2 c i arg3 harg3 arg4 harg4 arg5 harg5 arg6 harg6 arg7 harg7 arg8 harg8 arg9 harg9 arg10 harg10 hc0 hc1 x3 x4 x5 x6 x7 x8 xs)]
  unfold runLast2
  dsimp only
  sl_unfold_words
  rw [View.canon_unit_zero hz3r2]
  unfold step2
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

theorem valLastO2 (c : Dev nD) (i : grid2.Coords) (arg3 : Memref sig .tc .vmem S1x256x8x64 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst2 i) (hc1 : condLast2 i) (x3 : Vec F S1x256x8x64 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast2 c i arg3 harg3 arg4 harg4 arg5 harg5 arg6 harg6 arg7 harg7 arg8 harg8 arg9 harg9 arg10 harg10 hc0 hc1 x3 x4 x5 x6 x7 x8 xs).1) = k2_pay2 (step2 i x3 x4 x5 x6 x7 x8 xs) := by
  rw [View.read_writes_eq_canon _ _ _ (coverLastO2 c i arg3 harg3 arg4 harg4 arg5 harg5 arg6 harg6 arg7 harg7 arg8 harg8 arg9 harg9 arg10 harg10 hc0 hc1 x3 x4 x5 x6 x7 x8 xs)]
  unfold runLast2
  dsimp only
  sl_unfold_words
  rw [View.canon_unit_zero hz3r2]
  unfold step2
  simp only [View.readCov_unit_zero (S := S256x8x128) _ hz3r2]
  simp only [View.readAt_eq_ld, harg3.read_unread, harg4.read_unread, harg5.read_unread, harg6.read_unread, harg7.read_unread, harg8.read_unread, harg10.read_unread,
    View.ld_unit_zero (S := S8x128) hz2r2, View.ld_unit_zero (S := S256x8x128) hz3r2, View.ld_unit_zero (S := S1x256x8x64) hz4r2]

end Cert.KernelIdeal.Hand

end
-- ==== Proof.KI2Data.lean ====
/-
  The proof data of pallas_call 2 and its body obligation. The grid has 16 points per tile of regions of interest
  (batch images × row tiles); within such a group the accumulator is zeroed at the first point, added to at every
  point, and written out at the last. `acc2 n` is what the accumulator holds after point `n`, by recursion on the
  point: one `step2` applied to the zero block at a group's first point and to `acc2 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KI2Val
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)
theorem idleAt2_6 : ∀ t : Fin cfg2.N, ¬condLast2 (grid2.coords t) → cfg2.idle 6 (grid2.coords t) = true := by decide +kernel
theorem liveAt2_6 : ∀ t : Fin cfg2.N, condLast2 (grid2.coords t) → cfg2.idle 6 (grid2.coords t) = false := by decide +kernel
theorem noFlush2_6 : ∀ t : Fin cfg2.N, ¬condLast2 (grid2.coords t) → (cfg2.win 6).flush t = false := by decide +kernel

/-! ## The staging memrefs and the scratch -/

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
abbrev ms2_3 (t : Fin cfg2.N) := win2_3.stage (cfg2.slots t 3)
abbrev hs2_3 (t : Fin cfg2.N) : (ms2_3 t).IsWhole := hstage2_3 ((cfg2.slots t 3).cast nbuf2_3)
abbrev ms2_4 (t : Fin cfg2.N) := win2_4.stage (cfg2.slots t 4)
abbrev hs2_4 (t : Fin cfg2.N) : (ms2_4 t).IsWhole := hstage2_4 ((cfg2.slots t 4).cast nbuf2_4)
abbrev ms2_5 (t : Fin cfg2.N) := win2_5.stage (cfg2.slots t 5)
abbrev hs2_5 (t : Fin cfg2.N) : (ms2_5 t).IsWhole := hstage2_5 ((cfg2.slots t 5).cast nbuf2_5)
abbrev ms2_6 (t : Fin cfg2.N) := win2_6.stage (cfg2.slots t 6)
abbrev hs2_6 (t : Fin cfg2.N) : (ms2_6 t).IsWhole := hstage2_6 ((cfg2.slots t 6).cast nbuf2_6)
abbrev scM2 : Memref sig .tc .vmem S256x8x128 .f32 := Memref.whole cc2_scratch0

/-- The class invariant with the accumulator scratch split off the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- What the accumulator holds after point `n`. -/
def acc2 (c : Dev nD) : (n : ℕ) → n < cfg2.N → Vec F S256x8x128 .f32
  | 0, h => step2 (grid2.coords ⟨0, h⟩) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (zeroAcc2 (F := F))
  | n + 1, h => step2 (grid2.coords ⟨n + 1, h⟩) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)
      (if (n + 1) % 16 = 0 then zeroAcc2 (F := F) else acc2 c n (Nat.lt_of_succ_lt h))

/-- At a group's first point the update starts from the zero block. -/
theorem acc2_first (c : Dev nD) (t : Fin cfg2.N) (h0 : t.val % 16 = 0) :
    acc2 V c t.val t.isLt = step2 (grid2.coords t) (iblk2 V c 0 t) (iblk2 V c 1 t) (iblk2 V c 2 t) (iblk2 V c 3 t) (iblk2 V c 4 t) (iblk2 V c 5 t) (zeroAcc2 (F := F)) := by
  obtain ⟨n, hn⟩ := t
  cases n with
  | zero => rfl
  | succ n => show step2 _ _ _ _ _ _ _ (if (n + 1) % 16 = 0 then _ else _) = _; rw [if_pos h0]

/-- Elsewhere it starts from what the point before left. -/
theorem acc2_next (c : Dev nD) (t : Fin cfg2.N) (h0 : ¬t.val % 16 = 0) :
    acc2 V c t.val t.isLt = step2 (grid2.coords t) (iblk2 V c 0 t) (iblk2 V c 1 t) (iblk2 V c 2 t) (iblk2 V c 3 t) (iblk2 V c 4 t) (iblk2 V c 5 t)
      (acc2 V c (t.val - 1) (Nat.lt_of_le_of_lt (Nat.sub_le _ _) t.isLt)) := by
  obtain ⟨n, hn⟩ := t
  cases n with
  | zero => exact absurd (Nat.zero_mod _) h0
  | succ n => show step2 _ _ _ _ _ _ _ (if (n + 1) % 16 = 0 then _ else _) = _; rw [if_neg h0]; rfl

/-! ## The invariant and the proof data -/

/-- Before the first point the class invariant (the scratch at anything); before point `n + 1` the accumulator at
    what point `n` left, beside the rest of the scoped memory and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of pipeline 2 on core `c`: the arrays as the region finds them; after the body each input's
    buffer at its block and the output's at the accumulator with its first two axes exchanged; the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay2 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = k2_pay2 (acc2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the closed forms say which situation the point is in; the invariant hands the body the
    accumulator at what the point before left (at anything before the first point) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rfl, after2_0]
  rw [show (dat2 V c).leavesExact 1 t = owns (c : Thread nD τ) (ms2_1 t) fullShare ((dat2 V c).after 1 t) from by
    unfold Dat.leavesExact; rfl, after2_1]
  rw [show (dat2 V c).leavesExact 2 t = owns (c : Thread nD τ) (ms2_2 t) fullShare ((dat2 V c).after 2 t) from by
    unfold Dat.leavesExact; rfl, after2_2]
  rw [show (dat2 V c).leavesExact 3 t = owns (c : Thread nD τ) (ms2_3 t) fullShare ((dat2 V c).after 3 t) from by
    unfold Dat.leavesExact; rfl, after2_3]
  rw [show (dat2 V c).leavesExact 4 t = owns (c : Thread nD τ) (ms2_4 t) fullShare ((dat2 V c).after 4 t) from by
    unfold Dat.leavesExact; rfl, after2_4]
  rw [show (dat2 V c).leavesExact 5 t = owns (c : Thread nD τ) (ms2_5 t) fullShare ((dat2 V c).after 5 t) from by
    unfold Dat.leavesExact; rfl, after2_5]
  have hN : t.val < 1024 := lt_of_lt_of_eq t.isLt (show cfg2.N = 1024 from N_2)
  by_cases h0 : t.val % 16 = 0
  · have h1 : ¬t.val % 16 = 15 := by omega
    rw [Dat.leavesExact_idle (dat2 V c) 6 t (idleAt2_6 t (fun h => h1 ((hcondLast2 t).mp h))) (noFlush2_6 t (fun h => h1 ((hcondLast2 t).mp h)))]
    by_cases hz : t.val = 0
    · rw [PhiS2_castSucc V c t, PhiS2_zero V c _ _ hz, PhiA2_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst2 c (grid2.coords t) _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst2]
            exact (acc2_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst2 c (grid2.coords t) _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst2]
            exact (acc2_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS2_castSucc V c t, PhiS2_pos V c _ _ hz]
    by_cases h1 : t.val % 16 = 15
    · rw [show (dat2 V c).leavesExact 6 t = owns (c : Thread nD τ) (ms2_6 t) fullShare ((dat2 V c).after 6 t) from by
        unfold Dat.leavesExact; rw [liveAt2_6 t ((hcondLast2 t).mpr h1)], after2_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast2 c (grid2.coords t) _ _ _ _ _ _ _ _ _ _ _ _ _ _ _ _ (fun h => h0 ((hcondFirst2 t).mp h)) ((hcondLast2 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS2]
            exact (acc2_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO2]
      exact congrArg k2_pay2 (acc2_next V c t h0).symm
    · rw [Dat.leavesExact_idle (dat2 V c) 6 t (idleAt2_6 t (fun h => h1 ((hcondLast2 t).mp h))) (noFlush2_6 t (fun h => h1 ((hcondLast2 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid2 c (grid2.coords t) _ _ _ _ _ _ _ _ _ _ _ _ _ _ _ _ (fun h => h0 ((hcondFirst2 t).mp h)) (fun h => h1 ((hcondLast2 t).mp h)) (iblk2 V c 0 t) (iblk2 V c 1 t) (iblk2 V c 2 t) (iblk2 V c 3 t) (iblk2 V c 4 t) (iblk2 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid2]
            exact (acc2_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region hands the kernel is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 1024 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS0, Hrb⟩, Hg⟩
  isplitl [HS0 Hrb]
  · isplitl [HS0]
    · iexists _; iexact HS0
    iexact Hrb
  iexact Hg

end Region

end Cert.KernelIdeal.Hand

end
-- ==== Proof.KI3Run.lean ====
/-
  The body of pallas_call 3 run once, in each of the three situations a grid point can be in. The grid is
  (tile of regions of interest, batch image, tile of feature rows); the accumulator scratch lives across the last two
  axes. At the FIRST point of a group (batch image 0, row tile 0) the body zeroes the accumulator before adding the
  point's partial sums; at the LAST point (last batch image, last row tile) it also writes the accumulator,
  transposed, into the output block; at every other point it only adds. Each run is stated on arbitrary whole
  staging buffers: the six input blocks come back as they were, an output block the case does not store into
  comes back untouched, and what the case stores is recorded as the list of written pieces the execution finds.
-/
import proofs.«110520_j35545149342110_1_alg».proof.Proof.Gen.KernelIdeal.Launch
import proofs.«110520_j35545149342110_1_alg».proof.Proof.Gen.KernelIdeal.Skeleton
import proofs.«110520_j35545149342110_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: batch image 0 and row tile 0. -/
abbrev condFirst3 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The accumulator is written out at this point: the last batch image and the last row tile. -/
abbrev condLast3 (i : grid3.Coords) : Prop := k3_cond2 i = 1#1

set_option maxHeartbeats 4000000 in
/-- A FIRST point: the accumulator, whatever it held, is zeroed and then receives the point's partial sums; the
    output block is not touched. -/
noncomputable def runFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, fun xi9 E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A MIDDLE point: the accumulator, at the contents `xs` the point before left, receives the point's partial sums;
    the output block is not touched. -/
noncomputable def runMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    { LS : List (View.Piece (Elt F) S256x8x128 .f32) //
      ∀ (xi9 : Vec F S8x256x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ owns (c : Thread nD τ) arg9 fullShare xi9
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, fun xi9 E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

set_option maxHeartbeats 4000000 in
/-- A LAST point: the accumulator receives the point's partial sums and is then copied, its first two axes
    exchanged, into the output block, whatever that held. -/
noncomputable def runLast3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) :
    Σ' (L9 : List (View.Piece (Elt F) S8x256x128 .f32)), { LS : List (View.Piece (Elt F) S256x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ (∃ d9, owns (c : Thread nD τ) arg9 fullShare d9) ∗ owns (c : Thread nD τ) arg10 fullShare xs
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc3__level_kernel i arg3 harg3 arg4 harg4 arg5 harg5 arg6 harg6 arg7 harg7 arg8 harg8 arg9 harg9 arg10 harg10) K } := by
  refine ⟨?_, ?_, fun E K => ?run⟩
  case run =>
    simp only [cc3__level_kernel_eq_skeleton]; unfold cc3__level_kernel_skel
    simp only [k3_part1_eq_skeleton, k3_part2_eq_skeleton]; unfold k3_part1_skel k3_part2_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8
    obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.KernelIdeal.Hand

end
-- ==== Proof.KI3Val.lean ====
/-
  What the three runs of pallas_call 3's body leave, as values. One point adds to the accumulator the point's partial
  sums: `step3` is that update as one pure function of the point's six input blocks and the accumulator's previous
  contents (the body's own arithmetic, named by its payloads). A first point applies it to the zero block, a middle
  and a last point to what the point before left; a last point leaves in the output block the accumulator with its
  first two axes exchanged. Each statement reads the run's written pieces back through the buffer: the pieces cover
  the buffer, so what was there before does not matter.
-/
import proofs.«110520_j35545149342110_1_alg».proof.Proof.KI3Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r3 : (![0, 0] : Fin 2 → Nat) = fun _ => 0 := funext fun a => by fin_cases a <;> rfl
theorem hz3r3 : (![0, 0, 0] : Fin 3 → Nat) = fun _ => 0 := funext fun a => by fin_cases a <;> rfl
theorem hz4r3 : (![0, 0, 0, 0] : Fin 4 → Nat) = fun _ => 0 := funext fun a => by fin_cases a <;> rfl

/-- One point's update of the accumulator: the previous contents `prev` plus the point's partial sums, computed from
    the feature block `x3`, the cell indices `x4` (columns) and `x5` (rows), the weights `x6`, `x7` and the batch
    indices `x8` of the tile's sampling points. -/
def step3 (i : grid3.Coords) (x3 : Vec F S1x256x8x32 .f32) (x4 : Vec F S8x128 .i32) (x5 : Vec F S8x128 .i32) (x6 : Vec F S8x128 .f32) (x7 : Vec F S8x128 .f32) (x8 : Vec F S8x128 .i32) (prev : Vec F S256x8x128 .f32) : Vec F S256x8x128 .f32 :=
  k3_pay1 (k3_pay13 (BitVec.ofNat 32 (i 2).val) (k3_pay4 x5) (k3_pay5 x7) (k3_pay6 i x8) (k3_pay9 x4 x6) (k3_pay10 x4) (k3_pay11 x6) (k3_pay12 (F := F)) x3 prev)

/-- The zero block a first point stores. -/
abbrev zeroAcc3 : Vec F S256x8x128 .f32 := k3_pay3 (F := F)

/-! ## A middle point -/

theorem coverMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runMid3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runMid3 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valMid3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runMid3 c i arg3 harg3 arg4 harg4 arg5 harg5 arg6 harg6 arg7 harg7 arg8 harg8 arg9 harg9 arg10 harg10 hc0 hc1 x3 x4 x5 x6 x7 x8 xs).1) = step3 i x3 x4 x5 x6 x7 x8 xs := by
  rw [View.read_writes_eq_canon _ _ _ (coverMid3 c i arg3 harg3 arg4 harg4 arg5 harg5 arg6 harg6 arg7 harg7 arg8 harg8 arg9 harg9 arg10 harg10 hc0 hc1 x3 x4 x5 x6 x7 x8 xs)]
  unfold runMid3
  dsimp only
  sl_unfold_words
  rw [View.canon_unit_zero hz3r3]
  unfold step3
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

/-! ## A first point -/

theorem coverFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runFirst3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runFirst3 c i arg3 harg3 arg4 harg4 arg5 harg5 arg6 harg6 arg7 harg7 arg8 harg8 arg9 harg9 arg10 harg10 hc0 hc1 x3 x4 x5 x6 x7 x8 xs).1 S256x8x128.size (by sl_kernel_rfl) y

theorem valFirst3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : condFirst3 i) (hc1 : ¬condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runFirst3 c i arg3 harg3 arg4 harg4 arg5 harg5 arg6 harg6 arg7 harg7 arg8 harg8 arg9 harg9 arg10 harg10 hc0 hc1 x3 x4 x5 x6 x7 x8 xs).1) = step3 i x3 x4 x5 x6 x7 x8 (zeroAcc3 (F := F)) := by
  rw [View.read_writes_eq_canon _ _ _ (coverFirst3 c i arg3 harg3 arg4 harg4 arg5 harg5 arg6 harg6 arg7 harg7 arg8 harg8 arg9 harg9 arg10 harg10 hc0 hc1 x3 x4 x5 x6 x7 x8 xs)]
  unfold runFirst3
  dsimp only
  sl_unfold_words
  rw [View.canon_cons_unit_zero (S := S256x8x128) hz3r3]
  unfold step3
  simp only [View.readCov_unit_zero (S := S256x8x128) _ hz3r3]
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

/-! ## A last point -/

theorem coverLastS3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S256x8x128.Idx) :
    ∃ pc ∈ (runLast3 c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (runLast3 c i arg3 harg3 arg4 harg4 arg5 harg5 arg6 harg6 arg7 harg7 arg8 harg8 arg9 harg9 arg10 harg10 hc0 hc1 x3 x4 x5 x6 x7 x8 xs).2.1 S256x8x128.size (by sl_kernel_rfl) y

theorem coverLastO3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (y : S8x256x128.Idx) :
    ∃ pc ∈ (runLast3 c i arg3 harg3 arg4 harg4 arg5 harg5 arg6 harg6 arg7 harg7 arg8 harg8 arg9 harg9 arg10 harg10 hc0 hc1 x3 x4 x5 x6 x7 x8 xs).1, y ∈ pc.1.set :=
  View.cover_of_tiledL (runLast3 c i arg3 harg3 arg4 harg4 arg5 harg5 arg6 harg6 arg7 harg7 arg8 harg8 arg9 harg9 arg10 harg10 hc0 hc1 x3 x4 x5 x6 x7 x8 xs).1 S8x256x128.size (by sl_kernel_rfl) y

theorem valLastS3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg10.view.ty.Contents (Elt F)) :
    arg10.view.read (Elt F) (arg10.view.writes (Elt F) f (runLast3 c i arg3 harg3 arg4 harg4 arg5 harg5 arg6 harg6 arg7 harg7 arg8 harg8 arg9 harg9 arg10 harg10 hc0 hc1 x3 x4 x5 x6 x7 x8 xs).2.1) = step3 i x3 x4 x5 x6 x7 x8 xs := by
  rw [View.read_writes_eq_canon _ _ _ (coverLastS3 c i arg3 harg3 arg4 harg4 arg5 harg5 arg6 harg6 arg7 harg7 arg8 harg8 arg9 harg9 arg10 harg10 hc0 hc1 x3 x4 x5 x6 x7 x8 xs)]
  unfold runLast3
  dsimp only
  sl_unfold_words
  rw [View.canon_unit_zero hz3r3]
  unfold step3
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

theorem valLastO3 (c : Dev nD) (i : grid3.Coords) (arg3 : Memref sig .tc .vmem S1x256x8x32 .f32) (harg3 : arg3.IsWhole) (arg4 : Memref sig .tc .vmem S8x128 .i32) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S8x256x128 .f32) (harg9 : arg9.IsWhole) (arg10 : Memref sig .tc .vmem S256x8x128 .f32) (harg10 : arg10.IsWhole)
    (hc0 : ¬condFirst3 i) (hc1 : condLast3 i) (x3 : Vec F S1x256x8x32 .f32) (x4 : Vec F S8x128 .i32) (x5 : Vec F S8x128 .i32) (x6 : Vec F S8x128 .f32) (x7 : Vec F S8x128 .f32) (x8 : Vec F S8x128 .i32) (xs : Vec F S256x8x128 .f32) (f : arg9.view.ty.Contents (Elt F)) :
    arg9.view.read (Elt F) (arg9.view.writes (Elt F) f (runLast3 c i arg3 harg3 arg4 harg4 arg5 harg5 arg6 harg6 arg7 harg7 arg8 harg8 arg9 harg9 arg10 harg10 hc0 hc1 x3 x4 x5 x6 x7 x8 xs).1) = k3_pay2 (step3 i x3 x4 x5 x6 x7 x8 xs) := by
  rw [View.read_writes_eq_canon _ _ _ (coverLastO3 c i arg3 harg3 arg4 harg4 arg5 harg5 arg6 harg6 arg7 harg7 arg8 harg8 arg9 harg9 arg10 harg10 hc0 hc1 x3 x4 x5 x6 x7 x8 xs)]
  unfold runLast3
  dsimp only
  sl_unfold_words
  rw [View.canon_unit_zero hz3r3]
  unfold step3
  simp only [View.readCov_unit_zero (S := S256x8x128) _ hz3r3]
  simp only [View.readAt_eq_ld, harg3.read_unread, harg4.read_unread, harg5.read_unread, harg6.read_unread, harg7.read_unread, harg8.read_unread, harg10.read_unread,
    View.ld_unit_zero (S := S8x128) hz2r3, View.ld_unit_zero (S := S256x8x128) hz3r3, View.ld_unit_zero (S := S1x256x8x32) hz4r3]

end Cert.KernelIdeal.Hand

end
-- ==== Proof.KI3Data.lean ====
/-
  The proof data of pallas_call 3 and its body obligation. The grid has 8 points per tile of regions of interest
  (batch images × row tiles); within such a group the accumulator is zeroed at the first point, added to at every
  point, and written out at the last. `acc3 n` is what the accumulator holds after point `n`, by recursion on the
  point: one `step3` applied to the zero block at a group's first point and to `acc3 (n - 1)` elsewhere.
  The six inputs' staging buffers hold their blocks at every point (fetched there or not); the output's staging
  buffer is left alone except at a group's last point, where it receives the accumulator with its first two axes
  exchanged. The invariant carried from point to point is the accumulator's contents beside the rest of the scoped
  memory and the generator register.
-/
import proofs.«110520_j35545149342110_1_alg».proof.Proof.KI3Val
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

theorem hcondFirst3 : ∀ t : Fin cfg3.N, condFirst3 (grid3.coords t) ↔ t.val % 8 = 0 :=
  (by decide +kernel : ∀ t : Fin grid3.N, condFirst3 (grid3.coords t) ↔ t.val % 8 = 0)
theorem hcondLast3 : ∀ t : Fin cfg3.N, condLast3 (grid3.coords t) ↔ t.val % 8 = 7 :=
  (by decide +kernel : ∀ t : Fin grid3.N, condLast3 (grid3.coords t) ↔ t.val % 8 = 7)
theorem idleAt3_6 : ∀ t : Fin cfg3.N, ¬condLast3 (grid3.coords t) → cfg3.idle 6 (grid3.coords t) = true := by decide +kernel
theorem liveAt3_6 : ∀ t : Fin cfg3.N, condLast3 (grid3.coords t) → cfg3.idle 6 (grid3.coords t) = false := by decide +kernel
theorem noFlush3_6 : ∀ t : Fin cfg3.N, ¬condLast3 (grid3.coords t) → (cfg3.win 6).flush t = false := by decide +kernel

/-! ## The staging memrefs and the scratch -/

abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)
abbrev scM3 : Memref sig .tc .vmem S256x8x128 .f32 := Memref.whole cc3_scratch0

/-- The class invariant with the accumulator scratch split off the scoped rest. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

section Region

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- What the accumulator holds after point `n`. -/
def acc3 (c : Dev nD) : (n : ℕ) → n < cfg3.N → Vec F S256x8x128 .f32
  | 0, h => step3 (grid3.coords ⟨0, h⟩) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (zeroAcc3 (F := F))
  | n + 1, h => step3 (grid3.coords ⟨n + 1, h⟩) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩)
      (if (n + 1) % 8 = 0 then zeroAcc3 (F := F) else acc3 c n (Nat.lt_of_succ_lt h))

/-- At a group's first point the update starts from the zero block. -/
theorem acc3_first (c : Dev nD) (t : Fin cfg3.N) (h0 : t.val % 8 = 0) :
    acc3 V c t.val t.isLt = step3 (grid3.coords t) (iblk3 V c 0 t) (iblk3 V c 1 t) (iblk3 V c 2 t) (iblk3 V c 3 t) (iblk3 V c 4 t) (iblk3 V c 5 t) (zeroAcc3 (F := F)) := by
  obtain ⟨n, hn⟩ := t
  cases n with
  | zero => rfl
  | succ n => show step3 _ _ _ _ _ _ _ (if (n + 1) % 8 = 0 then _ else _) = _; rw [if_pos h0]

/-- Elsewhere it starts from what the point before left. -/
theorem acc3_next (c : Dev nD) (t : Fin cfg3.N) (h0 : ¬t.val % 8 = 0) :
    acc3 V c t.val t.isLt = step3 (grid3.coords t) (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := by
  obtain ⟨n, hn⟩ := t
  cases n with
  | zero => exact absurd (Nat.zero_mod _) h0
  | succ n => show step3 _ _ _ _ _ _ _ (if (n + 1) % 8 = 0 then _ else _) = _; rw [if_neg h0]; rfl

/-! ## The invariant and the proof data -/

/-- Before the first point the class invariant (the scratch at anything); before point `n + 1` the accumulator at
    what point `n` left, beside the rest of the scoped memory and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of pipeline 3 on core `c`: the arrays as the region finds them; after the body each input's
    buffer at its block and the output's at the accumulator with its first two axes exchanged; the invariant above;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay2 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = k3_pay2 (acc3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the closed forms say which situation the point is in; the invariant hands the body the
    accumulator at what the point before left (at anything before the first point) and takes it back at this
    point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rfl, after3_0]
  rw [show (dat3 V c).leavesExact 1 t = owns (c : Thread nD τ) (ms3_1 t) fullShare ((dat3 V c).after 1 t) from by
    unfold Dat.leavesExact; rfl, after3_1]
  rw [show (dat3 V c).leavesExact 2 t = owns (c : Thread nD τ) (ms3_2 t) fullShare ((dat3 V c).after 2 t) from by
    unfold Dat.leavesExact; rfl, after3_2]
  rw [show (dat3 V c).leavesExact 3 t = owns (c : Thread nD τ) (ms3_3 t) fullShare ((dat3 V c).after 3 t) from by
    unfold Dat.leavesExact; rfl, after3_3]
  rw [show (dat3 V c).leavesExact 4 t = owns (c : Thread nD τ) (ms3_4 t) fullShare ((dat3 V c).after 4 t) from by
    unfold Dat.leavesExact; rfl, after3_4]
  rw [show (dat3 V c).leavesExact 5 t = owns (c : Thread nD τ) (ms3_5 t) fullShare ((dat3 V c).after 5 t) from by
    unfold Dat.leavesExact; rfl, after3_5]
  have hN : t.val < 512 := lt_of_lt_of_eq t.isLt (show cfg3.N = 512 from N_3)
  by_cases h0 : t.val % 8 = 0
  · have h1 : ¬t.val % 8 = 7 := by omega
    rw [Dat.leavesExact_idle (dat3 V c) 6 t (idleAt3_6 t (fun h => h1 ((hcondLast3 t).mp h))) (noFlush3_6 t (fun h => h1 ((hcondLast3 t).mp h)))]
    by_cases hz : t.val = 0
    · rw [PhiS3_castSucc V c t, PhiS3_zero V c _ _ hz, PhiA3_eq]
      iintro ⟨⟨⟨⟨%ds, HS0⟩, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst3 c (grid3.coords t) _ _ _ _ _ _ _ _ _ _ _ _ _ _ _ _ ((hcondFirst3 t).mpr h0) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst3]
            exact (acc3_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst3 c (grid3.coords t) _ _ _ _ _ _ _ _ _ _ _ _ _ _ _ _ ((hcondFirst3 t).mpr h0) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valFirst3]
            exact (acc3_first V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    rw [PhiS3_castSucc V c t, PhiS3_pos V c _ _ hz]
    by_cases h1 : t.val % 8 = 7
    · rw [show (dat3 V c).leavesExact 6 t = owns (c : Thread nD τ) (ms3_6 t) fullShare ((dat3 V c).after 6 t) from by
        unfold Dat.leavesExact; rw [liveAt3_6 t ((hcondLast3 t).mpr h1)], after3_6]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast3 c (grid3.coords t) _ _ _ _ _ _ _ _ _ _ _ _ _ _ _ _ (fun h => h0 ((hcondFirst3 t).mp h)) ((hcondLast3 t).mpr h1) (iblk3 V c 0 t) (iblk3 V c 1 t) (iblk3 V c 2 t) (iblk3 V c 3 t) (iblk3 V c 4 t) (iblk3 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro
            rw [valLastS3]
            exact (acc3_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [valLastO3]
      exact congrArg k3_pay2 (acc3_next V c t h0).symm
    · rw [Dat.leavesExact_idle (dat3 V c) 6 t (idleAt3_6 t (fun h => h1 ((hcondLast3 t).mp h))) (noFlush3_6 t (fun h => h1 ((hcondLast3 t).mp h)))]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid3 c (grid3.coords t) _ _ _ _ _ _ _ _ _ _ _ _ _ _ _ _ (fun h => h0 ((hcondFirst3 t).mp h)) (fun h => h1 ((hcondLast3 t).mp h)) (iblk3 V c 0 t) (iblk3 V c 1 t) (iblk3 V c 2 t) (iblk3 V c 3 t) (iblk3 V c 4 t) (iblk3 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro
            rw [valMid3]
            exact (acc3_next V c t h0).symm
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region hands the kernel is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 512 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨HS0, Hrb⟩, Hg⟩
  isplitl [HS0 Hrb]
  · isplitl [HS0]
    · iexists _; iexact HS0
    iexact Hrb
  iexact Hg

end Region

end Cert.KernelIdeal.Hand

end
-- ==== Proof.KIRegions.lean ====
/-
  The whole program as a run. @main is nine segments: host operations, then each of the four pallas_calls followed
  by host operations. `W0 … W9` are the contents of every unscoped buffer on a core at the ten segment boundaries:
  the launch memory; after a host stretch, those operations applied; after a region, its arrays at what the pipeline
  leaves (the inputs as entered, the output's write-backs folded over the grid) and every other buffer as entered.
  The run: every weakly fair execution of @main terminates without a fault, and in every final state each unscoped
  buffer on each core holds `W9`. Both the frame claim (no segment writes an argument) and the value of the result
  are read off that.
-/
import proofs.«110520_j35545149342110_1_alg».proof.Proof.KI0Data
import proofs.«110520_j35545149342110_1_alg».proof.Proof.KI1Data
import proofs.«110520_j35545149342110_1_alg».proof.Proof.KI2Data
import proofs.«110520_j35545149342110_1_alg».proof.Proof.KI3Data
import proofs.«110520_j35545149342110_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the segment boundaries -/

/-- Core `c`'s buffers at launch. -/
abbrev W0 : Dev nD → Valuation τ sig (Elt F) := fun c b => m (c, b)
/-- After the first host stretch (region 0's entry). -/
def W1 (c : Dev nD) : Valuation τ sig (Elt F) := StableHlo.after hostOps0 (W0 m c)
abbrev V1 : (c : Dev nD) → (b : Ref sig .tc) → Buf (Elt F) ((c : Thread nD τ).loc b) := fun c b => W1 m c b

/-- Region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The host stretch after region 0. -/
def W3 (c : Dev nD) : Valuation τ sig (Elt F) := StableHlo.after hostOps1 (W2 m c)
abbrev V3 : (c : Dev nD) → (b : Ref sig .tc) → Buf (Elt F) ((c : Thread nD τ).loc b) := fun c b => W3 m c b

/-- Region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The host stretch after region 1. -/
def W5 (c : Dev nD) : Valuation τ sig (Elt F) := StableHlo.after hostOps2 (W4 m c)
abbrev V5 : (c : Dev nD) → (b : Ref sig .tc) → Buf (Elt F) ((c : Thread nD τ).loc b) := fun c b => W5 m c b

/-- Region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The host stretch after region 2. -/
def W7 (c : Dev nD) : Valuation τ sig (Elt F) := StableHlo.after hostOps3 (W6 m c)
abbrev V7 : (c : Dev nD) → (b : Ref sig .tc) → Buf (Elt F) ((c : Thread nD τ).loc b) := fun c b => W7 m c b

/-- Region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The host stretch after region 3. -/
def W9 (c : Dev nD) : Valuation τ sig (Elt F) := StableHlo.after hostOps4 (W8 m c)
abbrev V9 : (c : Dev nD) → (b : Ref sig .tc) → Buf (Elt F) ((c : Thread nD τ).loc b) := fun c b => W9 m c b

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (W9 m c)

/-- What a region hands its kernel makes the class invariant: the generator register and the scoped rest (the tables,
    none here, are dropped). -/
theorem toPhiA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- And the class invariant gives them back. -/
theorem ofPhiA {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`. Its arrays are
    split out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec0 c _).trans (hin0 (V1 m) c)
  hout c := by
    rw [Pipeline.ownSems0_none]
    exact (hout0 (V1 m) c).trans (ofPhiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec1 c _).trans (hin1 (V3 m) c)
  hout c := by
    rw [Pipeline.ownSems0_none]
    exact (hout1 (V3 m) c).trans (ofPhiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec2 c _).trans (hin2 (V5 m) c)
  hout c := by
    rw [Pipeline.ownSems0_none]
    exact (hout2 (V5 m) c).trans (ofPhiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec3 c _).trans (hin3 (V7 m) c)
  hout c := by
    rw [Pipeline.ownSems0_none]
    exact (hout3 (V7 m) c).trans (ofPhiA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)),
    .region (reg3 m),
    .host (hseg hostOps4 hostOps4_sub hostOps4_fresh' (W8 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer of every core holds `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.KIFrame.lean ====
/-
  The frame claim read off the run: every argument array ends holding what it held at launch. Each argument's buffer
  is followed backwards through the nine segments: a host stretch writes only its own result buffers, and a region
  changes only its output array — an argument is either one of its input windows' arrays, which the pipeline leaves
  as entered, or no array of the region at all.
-/
import proofs.«110520_j35545149342110_1_alg».proof.Proof.KIRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host stretch writes it, and a region stages it as an input window or bypasses it. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := (by unfold W9; exact StableHlo.after_of_writes_sub hostOps4 _ hostOps4_writes (by decide))
    _ = W7 m c (Proc.devRef .tc main_arg0) := (W8_of_ne m c main_arg0 (by decide))
    _ = W6 m c (Proc.devRef .tc main_arg0) := (by unfold W7; exact StableHlo.after_of_writes_sub hostOps3 _ hostOps3_writes (by decide))
    _ = W5 m c (Proc.devRef .tc main_arg0) := (W6_of_ne m c main_arg0 (by decide))
    _ = W4 m c (Proc.devRef .tc main_arg0) := (by unfold W5; exact StableHlo.after_of_writes_sub hostOps2 _ hostOps2_writes (by decide))
    _ = W3 m c (Proc.devRef .tc main_arg0) := (W4_of_ne m c main_arg0 (by decide))
    _ = W2 m c (Proc.devRef .tc main_arg0) := (by unfold W3; exact StableHlo.after_of_writes_sub hostOps1 _ hostOps1_writes (by decide))
    _ = W1 m c (Proc.devRef .tc main_arg0) := ((W2_arr m c 0).trans (((dat0 (V1 m) c).arrAt_in 0 rfl _).trans (A_eq0 (V1 m) c 0)))
    _ = W0 m c (Proc.devRef .tc main_arg0) := (by unfold W1; exact StableHlo.after_of_writes_sub hostOps0 _ hostOps0_writes (by decide))
    _ = m ((c : Thread nD τ).loc main_arg0) := rfl

/-- `main_arg1` ends as launched: no host stretch writes it, and a region stages it as an input window or bypasses it. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := (by unfold W9; exact StableHlo.after_of_writes_sub hostOps4 _ hostOps4_writes (by decide))
    _ = W7 m c (Proc.devRef .tc main_arg1) := (W8_of_ne m c main_arg1 (by decide))
    _ = W6 m c (Proc.devRef .tc main_arg1) := (by unfold W7; exact StableHlo.after_of_writes_sub hostOps3 _ hostOps3_writes (by decide))
    _ = W5 m c (Proc.devRef .tc main_arg1) := (W6_of_ne m c main_arg1 (by decide))
    _ = W4 m c (Proc.devRef .tc main_arg1) := (by unfold W5; exact StableHlo.after_of_writes_sub hostOps2 _ hostOps2_writes (by decide))
    _ = W3 m c (Proc.devRef .tc main_arg1) := ((W4_arr m c 0).trans (((dat1 (V3 m) c).arrAt_in 0 rfl _).trans (A_eq1 (V3 m) c 0)))
    _ = W2 m c (Proc.devRef .tc main_arg1) := (by unfold W3; exact StableHlo.after_of_writes_sub hostOps1 _ hostOps1_writes (by decide))
    _ = W1 m c (Proc.devRef .tc main_arg1) := (W2_of_ne m c main_arg1 (by decide))
    _ = W0 m c (Proc.devRef .tc main_arg1) := (by unfold W1; exact StableHlo.after_of_writes_sub hostOps0 _ hostOps0_writes (by decide))
    _ = m ((c : Thread nD τ).loc main_arg1) := rfl

/-- `main_arg2` ends as launched: no host stretch writes it, and a region stages it as an input window or bypasses it. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := (by unfold W9; exact StableHlo.after_of_writes_sub hostOps4 _ hostOps4_writes (by decide))
    _ = W7 m c (Proc.devRef .tc main_arg2) := (W8_of_ne m c main_arg2 (by decide))
    _ = W6 m c (Proc.devRef .tc main_arg2) := (by unfold W7; exact StableHlo.after_of_writes_sub hostOps3 _ hostOps3_writes (by decide))
    _ = W5 m c (Proc.devRef .tc main_arg2) := ((W6_arr m c 0).trans (((dat2 (V5 m) c).arrAt_in 0 rfl _).trans (A_eq2 (V5 m) c 0)))
    _ = W4 m c (Proc.devRef .tc main_arg2) := (by unfold W5; exact StableHlo.after_of_writes_sub hostOps2 _ hostOps2_writes (by decide))
    _ = W3 m c (Proc.devRef .tc main_arg2) := (W4_of_ne m c main_arg2 (by decide))
    _ = W2 m c (Proc.devRef .tc main_arg2) := (by unfold W3; exact StableHlo.after_of_writes_sub hostOps1 _ hostOps1_writes (by decide))
    _ = W1 m c (Proc.devRef .tc main_arg2) := (W2_of_ne m c main_arg2 (by decide))
    _ = W0 m c (Proc.devRef .tc main_arg2) := (by unfold W1; exact StableHlo.after_of_writes_sub hostOps0 _ hostOps0_writes (by decide))
    _ = m ((c : Thread nD τ).loc main_arg2) := rfl

/-- `main_arg3` ends as launched: no host stretch writes it, and a region stages it as an input window or bypasses it. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := (by unfold W9; exact StableHlo.after_of_writes_sub hostOps4 _ hostOps4_writes (by decide))
    _ = W7 m c (Proc.devRef .tc main_arg3) := ((W8_arr m c 0).trans (((dat3 (V7 m) c).arrAt_in 0 rfl _).trans (A_eq3 (V7 m) c 0)))
    _ = W6 m c (Proc.devRef .tc main_arg3) := (by unfold W7; exact StableHlo.after_of_writes_sub hostOps3 _ hostOps3_writes (by decide))
    _ = W5 m c (Proc.devRef .tc main_arg3) := (W6_of_ne m c main_arg3 (by decide))
    _ = W4 m c (Proc.devRef .tc main_arg3) := (by unfold W5; exact StableHlo.after_of_writes_sub hostOps2 _ hostOps2_writes (by decide))
    _ = W3 m c (Proc.devRef .tc main_arg3) := (W4_of_ne m c main_arg3 (by decide))
    _ = W2 m c (Proc.devRef .tc main_arg3) := (by unfold W3; exact StableHlo.after_of_writes_sub hostOps1 _ hostOps1_writes (by decide))
    _ = W1 m c (Proc.devRef .tc main_arg3) := (W2_of_ne m c main_arg3 (by decide))
    _ = W0 m c (Proc.devRef .tc main_arg3) := (by unfold W1; exact StableHlo.after_of_writes_sub hostOps0 _ hostOps0_writes (by decide))
    _ = m ((c : Thread nD τ).loc main_arg3) := rfl

/-- `main_arg4` ends as launched: no host stretch writes it, and a region stages it as an input window or bypasses it. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := (by unfold W9; exact StableHlo.after_of_writes_sub hostOps4 _ hostOps4_writes (by decide))
    _ = W7 m c (Proc.devRef .tc main_arg4) := (W8_of_ne m c main_arg4 (by decide))
    _ = W6 m c (Proc.devRef .tc main_arg4) := (by unfold W7; exact StableHlo.after_of_writes_sub hostOps3 _ hostOps3_writes (by decide))
    _ = W5 m c (Proc.devRef .tc main_arg4) := (W6_of_ne m c main_arg4 (by decide))
    _ = W4 m c (Proc.devRef .tc main_arg4) := (by unfold W5; exact StableHlo.after_of_writes_sub hostOps2 _ hostOps2_writes (by decide))
    _ = W3 m c (Proc.devRef .tc main_arg4) := (W4_of_ne m c main_arg4 (by decide))
    _ = W2 m c (Proc.devRef .tc main_arg4) := (by unfold W3; exact StableHlo.after_of_writes_sub hostOps1 _ hostOps1_writes (by decide))
    _ = W1 m c (Proc.devRef .tc main_arg4) := (W2_of_ne m c main_arg4 (by decide))
    _ = W0 m c (Proc.devRef .tc main_arg4) := (by unfold W1; exact StableHlo.after_of_writes_sub hostOps0 _ hostOps0_writes (by decide))
    _ = m ((c : Thread nD τ).loc main_arg4) := rfl

/-- `main_arg5` ends as launched: no host stretch writes it, and a region stages it as an input window or bypasses it. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := (by unfold W9; exact StableHlo.after_of_writes_sub hostOps4 _ hostOps4_writes (by decide))
    _ = W7 m c (Proc.devRef .tc main_arg5) := (W8_of_ne m c main_arg5 (by decide))
    _ = W6 m c (Proc.devRef .tc main_arg5) := (by unfold W7; exact StableHlo.after_of_writes_sub hostOps3 _ hostOps3_writes (by decide))
    _ = W5 m c (Proc.devRef .tc main_arg5) := (W6_of_ne m c main_arg5 (by decide))
    _ = W4 m c (Proc.devRef .tc main_arg5) := (by unfold W5; exact StableHlo.after_of_writes_sub hostOps2 _ hostOps2_writes (by decide))
    _ = W3 m c (Proc.devRef .tc main_arg5) := (W4_of_ne m c main_arg5 (by decide))
    _ = W2 m c (Proc.devRef .tc main_arg5) := (by unfold W3; exact StableHlo.after_of_writes_sub hostOps1 _ hostOps1_writes (by decide))
    _ = W1 m c (Proc.devRef .tc main_arg5) := (W2_of_ne m c main_arg5 (by decide))
    _ = W0 m c (Proc.devRef .tc main_arg5) := (by unfold W1; exact StableHlo.after_of_writes_sub hostOps0 _ hostOps0_writes (by decide))
    _ = m ((c : Thread nD τ).loc main_arg5) := rfl

/-- THE FRAME at any `F`: every weakly fair execution of @main terminates, nothing faults, and the six argument
    arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.KernelIdeal.Hand

end
-- ==== Proof.LibLayoutIdx.lean ====
/-
  Layout operations read at an index given by coordinates, for the shapes a blocked contraction meets: a row, a
  column or a plane broadcast over a leading axis, and the row-major reshapes that merge or split adjacent axes.
  Each lemma names both indices by coordinates (`ixN`), so that a chain of them rewrites a payload outermost
  operation first. A merged axis is stated at any index `r` with its number given (`r = i · b + j`), because the
  merged extent of a printed shape is a literal (2048) and not a product (256 · 8).
-/
import Idealize.ShloMosaic.Lib.ValueIdx
import Idealize.ShloMosaic.Lib.ValueLayout
import Idealize.ShloMosaic.Lib.Pipeline.Value

namespace Cert.LibLayoutIdx

open Idealize.ShloMosaic Idealize.ShloMosaic.ValueIdx

variable {α : Type}

/-! ## Broadcasts -/

/-- A `[1, b, c]` array broadcast to `[a, b, c]` reads, at `(i, j, k)`, the operand's one plane at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, 1]` array (one value per leading coordinate) broadcast to `[a, b, c]` reads, at `(i, j, k)`, the
    operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c, d]` array broadcast to `[a, b, c, d]` reads, at `(i, j, k, l)`, the operand at `(0, j, k, l)`. -/
theorem broadcastTo_1bcd_abcd_apply {a b c d : ℕ} (v : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ v h (ix4 i j k l) = v (ix4 (0 : Fin 1) j k l) := by
  refine broadcastTo_apply v h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-! ## Row-major reshapes that merge or split adjacent axes -/

/-- `[a, b, c]` cast to `[a, n]` (the last two axes merged): at `(i, q)` with `q = j · c + k` it reads the operand at
    `(i, j, k)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (i : Fin a) (j : Fin b) (k : Fin c) (q : Fin n)
    (hq : q.val = j.val * c + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn]; ring)

/-- `[a, b, c]` cast to `[n, c]` (the first two axes merged): at `(r, k)` with `r = i · b + j` it reads the operand at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[n, m]` cast to `[a, b, c, d]` (each axis split in two): at `(i, j, k, l)` it reads the operand at `(r, q)` with
    `r = i · b + j` and `q = k · d + l`. -/
theorem shapeCast_nm_abcd_apply {a b c d n m : ℕ} (x : (⟨2, ![n, m]⟩ : Shape).Idx → α)
    (h : (⟨2, ![n, m]⟩ : Shape).ShapeCasts ⟨4, ![a, b, c, d]⟩) (hm : m = c * d) (i : Fin a) (j : Fin b) (k : Fin c) (l : Fin d)
    (r : Fin n) (q : Fin m) (hr : r.val = i.val * b + j.val) (hq : q.val = k.val * d + l.val) :
    shapeCast ⟨4, ![a, b, c, d]⟩ x h (ix4 i j k l) = x (ix2 r q) :=
  shapeCast_apply x h _ _ (by
    rw [Shape.rowMajor_val_four, Shape.rowMajor_val_two]
    show r.val * m + q.val = ((i.val * b + j.val) * c + k.val) * d + l.val
    rw [hr, hq, hm]; ring)

/-- A select on an equality test of two words is an `if` on their equality. -/
theorem select_cmpi_eq {β : Type} {w : ℕ} (x y : BitVec w) (a b : β) :
    Scalar.select (IntOp.cmpi .eq x y) a b = if x = y then a else b := by
  unfold Scalar.select IntOp.cmpi
  by_cases h : x = y
  · subst h; simp
  · have hb : (x == y) = false := by simpa using h
    simp [hb, h]

end Cert.LibLayoutIdx
-- ==== Proof.KI0Pay.lean ====
/-
  One grid point's update of pallas_call 0's accumulator, read at an index, at the ideal values. The body contracts
  the feature block (256 channels × 8 rows × 256 columns) over its columns against a weight matrix built from the
  tile's sampling points — for each point the tent `[w = x]·(1 − wx) + [w = x+1]·wx` in the column number, times `1` where
  the point's batch index is the grid's batch coordinate and `0` elsewhere —, multiplies by the matching tent in the row
  number and sums over the block's eight rows. The reshapes around the matrix product (rows × columns flattened both
  ways) are read through by coordinates; the product itself is a plain sum at the ideal values.
-/
import proofs.«110520_j35545149342110_1_alg».proof.Proof.KI0Val
import proofs.«110520_j35545149342110_1_alg».proof.Proof.LibLayoutIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.LibLayoutIdx

/-- The column weight of pallas_call 0's body at column `w` for sampling point `(j, p)` of the tile: the tent
    `[w = x]·(1 − wx) + [w = x + 1]·wx` over the point's cell `x` and fraction `wx`, the tests made on 32-bit words. -/
theorem colTent0_apply (x4 : Vec Ideal S8x128 .i32) (x6 : Vec Ideal S8x128 .f32) (w : Fin 256) (j : Fin 8) (p : Fin 128) :
    addf (k0_pay9 (F := Ideal) x4 x6) (select (k0_pay10 (F := Ideal) x4) (k0_pay11 (F := Ideal) x6) (k0_pay12 (F := Ideal))) (ix3 w j p)
      = (if BitVec.ofNat 32 w.val = x4 (ix2 j p) then Ideal.ofBits .f32 0x3F800000#32 - x6 (ix2 j p) else 0)
        + (if BitVec.ofNat 32 w.val = x4 (ix2 j p) + 1#32 then x6 (ix2 j p) else 0) := by
  rw [addf_apply, select_apply]
  unfold k0_pay9 k0_pay10 k0_pay11 k0_pay12 k0_pay7 k0_pay8
  simp only [select_apply, shapeCast_self]
  simp only [cmpi, addi, IntOp.addi, subf_apply, broadcast_apply, broadcastTo_1bc_abc_apply, broadcastTo_a11_abc_apply,
    shapeCast_ab_1ab_apply, iota_single_apply, select_cmpi_eq, Ideal.ofBits_def, Ideal.ofBits_zero_f32]
  have hio : iota Kind.tc S256x1x1 32 [0] iota_S256x1x1_d0_w32 (ix3 w (0 : Fin 1) (0 : Fin 1)) = BitVec.ofNat 32 w.val :=
    iota_single_apply Kind.tc S256x1x1 32 0 iota_S256x1x1_d0_w32 _
  rw [hio]

/-- The batch mask as a number: `1` where the two words agree, `0` elsewhere. -/
theorem maskVal0 (x y : BitVec 32) :
    FloatOps.sitofp (F := Ideal) .f32 ((IntOp.cmpi .eq x y).setWidth 32) = if x = y then (1 : EReal) else 0 := by
  by_cases h : x = y
  · subst h
    have e : IntOp.cmpi .eq x x = 1#1 := by unfold IntOp.cmpi; simp
    rw [e, if_pos rfl]
    show (((BitVec.setWidth 32 (1#1)).toInt : ℝ) : EReal) = 1
    have e2 : (BitVec.setWidth 32 (1#1)).toInt = 1 := by decide
    rw [e2]; norm_num
  · have hb : (x == y) = false := by simpa using h
    have e : IntOp.cmpi .eq x y = 0#1 := by unfold IntOp.cmpi; rw [hb]; rfl
    rw [e, if_neg h]
    show (((BitVec.setWidth 32 (0#1)).toInt : ℝ) : EReal) = 0
    have e2 : (BitVec.setWidth 32 (0#1)).toInt = 0 := by decide
    rw [e2]; norm_num

/-- The row weight at feature row `hh` of the block at row tile `i 2`, for sampling point `(j, p)`. -/
theorem rowTent0_apply (i2 : BitVec 32) (x5 : Vec Ideal S8x128 .i32) (x7 : Vec Ideal S8x128 .f32) (hh : Fin 8) (j : Fin 8) (p : Fin 128) :
    addf
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (shapeCast S1x8x128 (k0_pay4 (F := Ideal) x5) shapeCasts_S8x128_S1x8x128) broadcasts_S1x8x128_S8x8x128))
        (broadcastTo S8x8x128 (subf (broadcast S1x8x128 (FloatOps.ofBits (F := Ideal) FTy.f32 1065353216#32)) (shapeCast S1x8x128 (k0_pay5 (F := Ideal) x7) shapeCasts_S8x128_S1x8x128)) broadcasts_S1x8x128_S8x8x128)
        (broadcast S8x8x128 (FloatOps.ofBits (F := Ideal) FTy.f32 0#32)))
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (addi (shapeCast S1x8x128 (k0_pay4 (F := Ideal) x5) shapeCasts_S8x128_S1x8x128) (broadcast S1x8x128 1#32)) broadcasts_S1x8x128_S8x8x128))
        (broadcastTo S8x8x128 (shapeCast S1x8x128 (k0_pay5 (F := Ideal) x7) shapeCasts_S8x128_S1x8x128) broadcasts_S1x8x128_S8x8x128)
        (broadcast S8x8x128 (FloatOps.ofBits (F := Ideal) FTy.f32 0#32))) (ix3 hh j p)
      = (if BitVec.ofNat 32 hh.val + i2 * 8#32 = x5 (ix2 j p) then Ideal.ofBits .f32 0x3F800000#32 - x7 (ix2 j p) else 0)
        + (if BitVec.ofNat 32 hh.val + i2 * 8#32 = x5 (ix2 j p) + 1#32 then x7 (ix2 j p) else 0) := by
  rw [addf_apply, select_apply, select_apply]
  unfold k0_pay4 k0_pay5
  simp only [shapeCast_self]
  have hio : iota Kind.tc S8x1x1 32 [0] iota_S8x1x1_d0_w32 (ix3 hh (0 : Fin 1) (0 : Fin 1)) = BitVec.ofNat 32 hh.val :=
    iota_single_apply Kind.tc S8x1x1 32 0 iota_S8x1x1_d0_w32 _
  simp only [cmpi, addi, IntOp.addi, Scalar.muli, IntOp.muli, subf_apply, broadcast_apply, broadcastTo_1bc_abc_apply, broadcastTo_a11_abc_apply,
    shapeCast_ab_1ab_apply, select_cmpi_eq, Ideal.ofBits_def, Ideal.ofBits_zero_f32, hio]

set_option maxHeartbeats 2000000 in
/-- ONE POINT'S UPDATE AT AN INDEX. At channel `ch` and sampling point `(j, p)` of the tile the accumulator gains the sum,
    over the eight feature rows of the block, of the row's contraction with the column tent (times the batch mask),
    times the row tent. -/
theorem step0_apply (i : grid0.Coords) (x3 : Vec Ideal S1x256x8x256 .f32) (x4 x5 : Vec Ideal S8x128 .i32) (x6 x7 : Vec Ideal S8x128 .f32)
    (x8 : Vec Ideal S8x128 .i32) (prev : Vec Ideal S256x8x128 .f32) (ch : Fin 256) (j : Fin 8) (p : Fin 128) :
    step0 (F := Ideal) i x3 x4 x5 x6 x7 x8 prev (ix3 ch j p)
      = prev (ix3 ch j p) + ∑ hh : Fin 8,
          (∑ w : Fin 256, x3 (ix4 (0 : Fin 1) ch hh w)
              * (((if BitVec.ofNat 32 w.val = x4 (ix2 j p) then Ideal.ofBits .f32 0x3F800000#32 - x6 (ix2 j p) else 0)
                  + (if BitVec.ofNat 32 w.val = x4 (ix2 j p) + 1#32 then x6 (ix2 j p) else 0))
                 * (if x8 (ix2 j p) = BitVec.ofNat 32 (i 1).val then (1 : EReal) else 0)))
          * ((if BitVec.ofNat 32 hh.val + BitVec.ofNat 32 (i 2).val * 8#32 = x5 (ix2 j p) then Ideal.ofBits .f32 0x3F800000#32 - x7 (ix2 j p) else 0)
              + (if BitVec.ofNat 32 hh.val + BitVec.ofNat 32 (i 2).val * 8#32 = x5 (ix2 j p) + 1#32 then x7 (ix2 j p) else 0)) := by
  unfold step0 k0_pay1 k0_pay13
  simp only [shapeCast_self]
  rw [addf_apply]
  congr 1
  refine (Ideal.multiReduction_add_single _ (0x00000000#32) reduces_S256x8x8x128_S256x8x128 _ _ (ix3 ch j p)).trans ?_
  show (∑ hh : Fin 8, _) = _
  refine Finset.sum_congr rfl fun hh _ => ?_
  have hl : reduces_S256x8x8x128_S256x8x128.lift (ix3 ch j p) hh = ix4 ch hh j p := by
    funext c; apply Fin.ext
    match c with
    | ⟨0, _⟩ => rfl
    | ⟨1, _⟩ => rfl
    | ⟨2, _⟩ => rfl
    | ⟨3, _⟩ => rfl
  rw [hl]
  refine (mulf_apply (s := S256x8x8x128) (φ := FTy.f32) _ _ (ix4 ch hh j p)).trans ?_
  congr 1
  · have hch := ch.isLt; have hhh := hh.isLt; have hj := j.isLt; have hp := p.isLt
    refine (shapeCast_nm_abcd_apply _ _ (by norm_num) ch hh j p (⟨ch.val * 8 + hh.val, by omega⟩ : Fin 2048)
      (⟨j.val * 128 + p.val, by omega⟩ : Fin 1024) rfl rfl).trans ?_
    simp only [matmul]
    refine (Ideal.matmul_constant_zero_apply dot_S2048x256_S256x1024_S2048x1024_1_0_0_1_n_n none _ _ _).trans ?_
    refine ((Equiv.sum_comp (contrEquiv1 dot_S2048x256_S256x1024_S2048x1024_1_0_0_1_n_n 256 rfl rfl).symm _).symm).trans ?_
    refine Finset.sum_congr rfl fun w _ => ?_
    have hL : dot_S2048x256_S256x1024_S2048x1024_1_0_0_1_n_n.lhsIdx (ix2 (⟨ch.val * 8 + hh.val, by omega⟩ : Fin 2048) (⟨j.val * 128 + p.val, by omega⟩ : Fin 1024))
        ((contrEquiv1 dot_S2048x256_S256x1024_S2048x1024_1_0_0_1_n_n 256 rfl rfl).symm w) = ix2 (⟨ch.val * 8 + hh.val, by omega⟩ : Fin 2048) w := by
      funext a; apply Fin.ext
      match a with
      | ⟨0, _⟩ => rfl
      | ⟨1, _⟩ => exact (dot_S2048x256_S256x1024_S2048x1024_1_0_0_1_n_n.lhsIdx_val_of_single (cl := 1) rfl _ _).trans (contrEquiv1_symm_val dot_S2048x256_S256x1024_S2048x1024_1_0_0_1_n_n 256 rfl rfl w)
    have hR : dot_S2048x256_S256x1024_S2048x1024_1_0_0_1_n_n.rhsIdx (ix2 (⟨ch.val * 8 + hh.val, by omega⟩ : Fin 2048) (⟨j.val * 128 + p.val, by omega⟩ : Fin 1024))
        ((contrEquiv1 dot_S2048x256_S256x1024_S2048x1024_1_0_0_1_n_n 256 rfl rfl).symm w) = ix2 w (⟨j.val * 128 + p.val, by omega⟩ : Fin 1024) := by
      funext a; apply Fin.ext
      match a with
      | ⟨0, _⟩ => exact (dot_S2048x256_S256x1024_S2048x1024_1_0_0_1_n_n.rhsIdx_val_of_single (cr := 0) rfl _ _).trans (contrEquiv1_symm_val dot_S2048x256_S256x1024_S2048x1024_1_0_0_1_n_n 256 rfl rfl w)
      | ⟨1, _⟩ => rfl
    rw [hL, hR]
    congr 1
    · refine (truncf_apply (s := S2048x256) (φ := FTy.f32) (ψ := FTy.bf16) _ bitsLt_bf16_f32 _).trans ?_
      refine (shapeCast_abc_nc_apply _ _ ch hh w (⟨ch.val * 8 + hh.val, by omega⟩ : Fin 2048) rfl).trans ?_
      exact shapeCast_1abc_abc_apply _ _ ch hh w
    · refine (truncf_apply (s := S256x1024) (φ := FTy.f32) (ψ := FTy.bf16) _ bitsLt_bf16_f32 _).trans ?_
      refine (shapeCast_abc_an_apply _ _ (by norm_num) w j p (⟨j.val * 128 + p.val, by omega⟩ : Fin 1024) rfl).trans ?_
      refine (mulf_apply (s := S256x8x128) (φ := FTy.f32) _ _ (ix3 w j p)).trans ?_
      congr 1
      · exact colTent0_apply x4 x6 w j p
      · rw [broadcastTo_1bc_abc_apply, shapeCast_ab_1ab_apply]
        unfold k0_pay6
        simp only [shapeCast_self]
        exact maskVal0 _ _
  · rw [broadcastTo_1bcd_abcd_apply, shapeCast_abc_1abc_apply]
    exact rowTent0_apply (BitVec.ofNat 32 (i 2).val) x5 x7 hh j p

end Cert.KernelIdeal.Hand

end
-- ==== Proof.KI0Blk.lean ====
/-
  The windows of pallas_call 0 read as entries of the arrays. The grid's 4096 points are numbered row-major over
  (tile of regions of interest, batch image, row tile): point `t` is tile `t / 64`, image `(t / 32) % 2`, row tile
  `t % 32`. The index maps are decided once over the grid in that closed form; a block's entry is then the array's
  entry at (block index × block size + the coordinate inside the block) on each axis.
-/
import proofs.«110520_j35545149342110_1_alg».proof.Proof.KI0Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The index maps over the grid, in closed form -/

/-- The feature window follows the batch image and the row tile. -/
theorem idx0_f : ∀ t : Fin cfg0.N, win0_0.index t 0 = (t.val / 32) % 2 ∧ win0_0.index t 1 = 0 ∧ win0_0.index t 2 = t.val % 32 ∧ win0_0.index t 3 = 0 :=
  (by decide +kernel : ∀ t : Fin grid0.N, win0_0.index t 0 = (t.val / 32) % 2 ∧ win0_0.index t 1 = 0 ∧ win0_0.index t 2 = t.val % 32 ∧ win0_0.index t 3 = 0)
/-- The five per-point windows follow the tile of regions of interest. -/
theorem idx0_s : ∀ t : Fin cfg0.N, (win0_1.index t 0 = t.val / 64 ∧ win0_1.index t 1 = 0) ∧ (win0_2.index t 0 = t.val / 64 ∧ win0_2.index t 1 = 0) ∧ (win0_3.index t 0 = t.val / 64 ∧ win0_3.index t 1 = 0) ∧ (win0_4.index t 0 = t.val / 64 ∧ win0_4.index t 1 = 0) ∧ (win0_5.index t 0 = t.val / 64 ∧ win0_5.index t 1 = 0) :=
  (by decide +kernel : ∀ t : Fin grid0.N, (win0_1.index t 0 = t.val / 64 ∧ win0_1.index t 1 = 0) ∧ (win0_2.index t 0 = t.val / 64 ∧ win0_2.index t 1 = 0) ∧ (win0_3.index t 0 = t.val / 64 ∧ win0_3.index t 1 = 0) ∧ (win0_4.index t 0 = t.val / 64 ∧ win0_4.index t 1 = 0) ∧ (win0_5.index t 0 = t.val / 64 ∧ win0_5.index t 1 = 0))
/-- So does the output window. -/
theorem idx0_o : ∀ t : Fin cfg0.N, win0_6.index t 0 = t.val / 64 ∧ win0_6.index t 1 = 0 ∧ win0_6.index t 2 = 0 :=
  (by decide +kernel : ∀ t : Fin grid0.N, win0_6.index t 0 = t.val / 64 ∧ win0_6.index t 1 = 0 ∧ win0_6.index t 2 = 0)
/-- The grid coordinates the body reads, from the point's number. -/
theorem coord0 : ∀ t : Fin cfg0.N, ((grid0.coords t) 1).val = (t.val / 32) % 2 ∧ ((grid0.coords t) 2).val = t.val % 32 :=
  (by decide +kernel : ∀ t : Fin grid0.N, ((grid0.coords t) 1).val = (t.val / 32) % 2 ∧ ((grid0.coords t) 2).val = t.val % 32)

section Region

variable (V : (c : Dev nD) → (b : Ref sig .tc) → Buf (Elt F) ((c : Thread nD τ).loc b))

/-! ## The blocks as entries of the arrays -/

/-- The feature block at point `t`: batch image `(t / 32) % 2`, rows `8·(t % 32) … + 7`. -/
theorem iblk0_0_apply (c : Dev nD) (t : Fin cfg0.N) (ch : Fin 256) (hh : Fin 8) (w : Fin 256) :
    iblk0 V c 0 t (ix4 (0 : Fin 1) ch hh w)
      = V c main_arg0 (ix4 (⟨(t.val / 32) % 2, Nat.mod_lt _ (by decide)⟩ : Fin 2) ch
          (⟨8 * (t.val % 32) + hh.val, by have := hh.isLt; have := Nat.mod_lt t.val (show 0 < 32 by decide); omega⟩ : Fin 256) w) := by
  have hi := idx0_f t
  unfold iblk0
  rw [View.read_apply]
  show V c main_arg0 _ = V c main_arg0 _
  congr 1
  funext a
  apply Fin.ext
  match a with
  | ⟨0, _⟩ => show win0_0.index t 0 * 1 + 1 * 0 = (t.val / 32) % 2; rw [hi.1]; omega
  | ⟨1, _⟩ => show win0_0.index t 1 * 256 + 1 * ch.val = ch.val; rw [hi.2.1]; omega
  | ⟨2, _⟩ => show win0_0.index t 2 * 8 + 1 * hh.val = 8 * (t.val % 32) + hh.val; rw [hi.2.2.1]; omega
  | ⟨3, _⟩ => show win0_0.index t 3 * 256 + 1 * w.val = w.val; rw [hi.2.2.2]; omega

/-- Window 1's block at point `t` is rows `8·(t / 64) … + 7` of its array. -/
theorem iblk0_1_apply (c : Dev nD) (t : Fin cfg0.N) (j : Fin 8) (p : Fin 128) :
    iblk0 V c 1 t (ix2 j p) = V c main_v30 (ix2 (⟨8 * (t.val / 64) + j.val, by have := t.isLt; have hN : cfg0.N = 4096 := N_0; have := j.isLt; omega⟩ : Fin 512) p) := by
  have hi := idx0_s t
  unfold iblk0
  rw [View.read_apply]
  show V c main_v30 _ = V c main_v30 _
  congr 1
  funext a
  apply Fin.ext
  match a with
  | ⟨0, _⟩ => show win0_1.index t 0 * 8 + 1 * j.val = 8 * (t.val / 64) + j.val; rw [hi.1.1]; omega
  | ⟨1, _⟩ => show win0_1.index t 1 * 128 + 1 * p.val = p.val; rw [hi.1.2]; omega

/-- Window 2's block at point `t` is rows `8·(t / 64) … + 7` of its array. -/
theorem iblk0_2_apply (c : Dev nD) (t : Fin cfg0.N) (j : Fin 8) (p : Fin 128) :
    iblk0 V c 2 t (ix2 j p) = V c main_v31 (ix2 (⟨8 * (t.val / 64) + j.val, by have := t.isLt; have hN : cfg0.N = 4096 := N_0; have := j.isLt; omega⟩ : Fin 512) p) := by
  have hi := idx0_s t
  unfold iblk0
  rw [View.read_apply]
  show V c main_v31 _ = V c main_v31 _
  congr 1
  funext a
  apply Fin.ext
  match a with
  | ⟨0, _⟩ => show win0_2.index t 0 * 8 + 1 * j.val = 8 * (t.val / 64) + j.val; rw [hi.2.1.1]; omega
  | ⟨1, _⟩ => show win0_2.index t 1 * 128 + 1 * p.val = p.val; rw [hi.2.1.2]; omega

/-- Window 3's block at point `t` is rows `8·(t / 64) … + 7` of its array. -/
theorem iblk0_3_apply (c : Dev nD) (t : Fin cfg0.N) (j : Fin 8) (p : Fin 128) :
    iblk0 V c 3 t (ix2 j p) = V c main_v28 (ix2 (⟨8 * (t.val / 64) + j.val, by have := t.isLt; have hN : cfg0.N = 4096 := N_0; have := j.isLt; omega⟩ : Fin 512) p) := by
  have hi := idx0_s t
  unfold iblk0
  rw [View.read_apply]
  show V c main_v28 _ = V c main_v28 _
  congr 1
  funext a
  apply Fin.ext
  match a with
  | ⟨0, _⟩ => show win0_3.index t 0 * 8 + 1 * j.val = 8 * (t.val / 64) + j.val; rw [hi.2.2.1.1]; omega
  | ⟨1, _⟩ => show win0_3.index t 1 * 128 + 1 * p.val = p.val; rw [hi.2.2.1.2]; omega

/-- Window 4's block at point `t` is rows `8·(t / 64) … + 7` of its array. -/
theorem iblk0_4_apply (c : Dev nD) (t : Fin cfg0.N) (j : Fin 8) (p : Fin 128) :
    iblk0 V c 4 t (ix2 j p) = V c main_v29 (ix2 (⟨8 * (t.val / 64) + j.val, by have := t.isLt; have hN : cfg0.N = 4096 := N_0; have := j.isLt; omega⟩ : Fin 512) p) := by
  have hi := idx0_s t
  unfold iblk0
  rw [View.read_apply]
  show V c main_v29 _ = V c main_v29 _
  congr 1
  funext a
  apply Fin.ext
  match a with
  | ⟨0, _⟩ => show win0_4.index t 0 * 8 + 1 * j.val = 8 * (t.val / 64) + j.val; rw [hi.2.2.2.1.1]; omega
  | ⟨1, _⟩ => show win0_4.index t 1 * 128 + 1 * p.val = p.val; rw [hi.2.2.2.1.2]; omega

/-- Window 5's block at point `t` is rows `8·(t / 64) … + 7` of its array. -/
theorem iblk0_5_apply (c : Dev nD) (t : Fin cfg0.N) (j : Fin 8) (p : Fin 128) :
    iblk0 V c 5 t (ix2 j p) = V c main_v13 (ix2 (⟨8 * (t.val / 64) + j.val, by have := t.isLt; have hN : cfg0.N = 4096 := N_0; have := j.isLt; omega⟩ : Fin 512) p) := by
  have hi := idx0_s t
  unfold iblk0
  rw [View.read_apply]
  show V c main_v13 _ = V c main_v13 _
  congr 1
  funext a
  apply Fin.ext
  match a with
  | ⟨0, _⟩ => show win0_5.index t 0 * 8 + 1 * j.val = 8 * (t.val / 64) + j.val; rw [hi.2.2.2.2.1]; omega
  | ⟨1, _⟩ => show win0_5.index t 1 * 128 + 1 * p.val = p.val; rw [hi.2.2.2.2.2]; omega

end Region

end Cert.KernelIdeal.Hand

end
-- ==== Proof.KI0Sum.lean ====
/-
  The output of pallas_call 0 in closed form, at the ideal values. A group of 64 consecutive grid points (the two
  batch images × 32 row tiles of one tile of regions of interest) zeroes the accumulator, adds one partial term per
  point, and writes it out: so what the group's last point writes is the sum of the group's 64 partial terms. A
  point's partial term is stated over the whole arrays the region finds: the feature map, the cell indices and
  fractions of every sampling point, and the batch index of every region of interest.
-/
import proofs.«110520_j35545149342110_1_alg».proof.Proof.KI0Pay
import proofs.«110520_j35545149342110_1_alg».proof.Proof.KI0Blk

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The partial term point number `t` adds at channel `ch`, region of interest `n`, sampling point `p`, over the
    feature map `A`, the sampling points' column and row cells `X`, `Y` and fractions `WX`, `WY`, and the regions' batch
    indices `BI`: over the eight feature rows of the point's row tile, the row of batch image `(t / 32) % 2` contracted
    with the column tent of the sampling point (times 1 where the region's batch index is that image), times the row
    tent. -/
def term0 (A : S2x256x256x256.Idx → EReal) (X Y : S512x128.Idx → BitVec 32) (WX WY : S512x128.Idx → EReal) (BI : S512x128.Idx → BitVec 32)
    (t : ℕ) (n : Fin 512) (ch : Fin 256) (p : Fin 128) : EReal :=
  ∑ hh : Fin 8,
    (∑ w : Fin 256, A (ix4 (⟨(t / 32) % 2, Nat.mod_lt _ (by decide)⟩ : Fin 2) ch
          (⟨8 * (t % 32) + hh.val, by have := hh.isLt; have := Nat.mod_lt t (show 0 < 32 by decide); omega⟩ : Fin 256) w)
        * (((if BitVec.ofNat 32 w.val = X (ix2 n p) then Ideal.ofBits .f32 0x3F800000#32 - WX (ix2 n p) else 0)
            + (if BitVec.ofNat 32 w.val = X (ix2 n p) + 1#32 then WX (ix2 n p) else 0))
           * (if BI (ix2 n p) = BitVec.ofNat 32 ((t / 32) % 2) then (1 : EReal) else 0)))
    * ((if BitVec.ofNat 32 hh.val + BitVec.ofNat 32 (t % 32) * 8#32 = Y (ix2 n p) then Ideal.ofBits .f32 0x3F800000#32 - WY (ix2 n p) else 0)
        + (if BitVec.ofNat 32 hh.val + BitVec.ofNat 32 (t % 32) * 8#32 = Y (ix2 n p) + 1#32 then WY (ix2 n p) else 0))

section Region

variable (V : (c : Dev nD) → (b : Ref sig .tc) → Buf (Elt Ideal) ((c : Thread nD τ).loc b))

/-- The zero block at an index. -/
theorem zeroAcc0_apply (i : S256x8x128.Idx) : zeroAcc0 (F := Ideal) i = 0 := by
  unfold zeroAcc0 k0_pay3
  simp only [shapeCast_self, broadcast_apply, Ideal.ofBits_def, Ideal.ofBits_zero_f32]

/-- One point: the accumulator after point `t` is what it started the point with plus the point's partial term, at the
    region of interest `n = 8·(t / 64) + j`. -/
theorem acc0_point (c : Dev nD) (t : Fin cfg0.N) (ch : Fin 256) (j : Fin 8) (p : Fin 128) (prev : Vec Ideal S256x8x128 .f32)
    (n : Fin 512) (hn : n.val = 8 * (t.val / 64) + j.val) :
    step0 (F := Ideal) (grid0.coords t) (iblk0 V c 0 t) (iblk0 V c 1 t) (iblk0 V c 2 t) (iblk0 V c 3 t) (iblk0 V c 4 t) (iblk0 V c 5 t) prev (ix3 ch j p)
      = prev (ix3 ch j p) + term0 (V c main_arg0) (V c main_v30) (V c main_v31) (V c main_v28) (V c main_v29) (V c main_v13) t.val n ch p := by
  have hN : cfg0.N = 4096 := N_0
  have e : (⟨8 * (t.val / 64) + j.val, by have := t.isLt; have := j.isLt; omega⟩ : Fin 512) = n := Fin.ext hn.symm
  rw [step0_apply]
  unfold term0
  simp only [iblk0_0_apply, iblk0_1_apply, iblk0_2_apply, iblk0_3_apply, iblk0_4_apply, iblk0_5_apply,
    (coord0 t).1, (coord0 t).2, e]

/-- The accumulator's contents depend on the point's number only. -/
theorem acc0_congr (c : Dev nD) (a b : ℕ) (ha : a < cfg0.N) (hb : b < cfg0.N) (h : a = b) : acc0 V c a ha = acc0 V c b hb := by
  subst h; rfl

/-- A GROUP: after its `s`-th point the accumulator holds the sum of the group's first `s + 1` partial terms. -/
theorem acc0_group (c : Dev nD) (g : ℕ) (hg : g < 64) (ch : Fin 256) (j : Fin 8) (p : Fin 128) (n : Fin 512) (hn : n.val = 8 * g + j.val) :
    ∀ (s : ℕ) (hs : s < 64) (h : g * 64 + s < cfg0.N),
      acc0 V c (g * 64 + s) h (ix3 ch j p)
        = ∑ s' ∈ Finset.range (s + 1), term0 (V c main_arg0) (V c main_v30) (V c main_v31) (V c main_v28) (V c main_v29) (V c main_v13) (g * 64 + s') n ch p := by
  intro s
  induction s with
  | zero =>
    intro hs h
    have h0 : (⟨g * 64 + 0, h⟩ : Fin cfg0.N).val % 64 = 0 := by show (g * 64 + 0) % 64 = 0; omega
    have e := acc0_first V c ⟨g * 64 + 0, h⟩ h0
    rw [show acc0 V c (g * 64 + 0) h = _ from e,
      acc0_point V c ⟨g * 64 + 0, h⟩ ch j p _ n (by show n.val = 8 * ((g * 64 + 0) / 64) + j.val; omega),
      zeroAcc0_apply, zero_add, Finset.sum_range_one]
  | succ s ih =>
    intro hs h
    have hn' : ¬(⟨g * 64 + (s + 1), h⟩ : Fin cfg0.N).val % 64 = 0 := by show ¬(g * 64 + (s + 1)) % 64 = 0; omega
    have e := acc0_next V c ⟨g * 64 + (s + 1), h⟩ hn'
    rw [show acc0 V c (g * 64 + (s + 1)) h = _ from e,
      acc0_point V c ⟨g * 64 + (s + 1), h⟩ ch j p _ n (by show n.val = 8 * ((g * 64 + (s + 1)) / 64) + j.val; omega),
      Finset.sum_range_succ]
    congr 1
    have := ih (by omega) (by omega)
    rw [← this]
    exact congrFun (acc0_congr V c _ _ _ _ (by show g * 64 + (s + 1) - 1 = g * 64 + s; omega)) _

end Region

end Cert.KernelIdeal.Hand

end
-- ==== Proof.KI0Out.lean ====
/-
  What pallas_call 0 leaves in its output array [512, 256, 128], at the ideal values: at (region of interest n, channel,
  sampling point p) the sum of the 64 partial terms of group `n / 8`. The output window's block at a group's last point
  is rows `8·g … 8·g + 7` of the array, and what the point writes back is the accumulator with its first two axes
  exchanged; the 64 groups' write-backs cover the array.
-/
import proofs.«110520_j35545149342110_1_alg».proof.Proof.KI0Sum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region

variable (V : (c : Dev nD) → (b : Ref sig .tc) → Buf (Elt Ideal) ((c : Thread nD τ).loc b))

/-- The output array of region 0. -/
def out0 (c : Dev nD) : S512x256x128.Idx → EReal := fun y =>
  ∑ s ∈ Finset.range 64, term0 (V c main_arg0) (V c main_v30) (V c main_v31) (V c main_v28) (V c main_v29) (V c main_v13) ((y 0).val / 8 * 64 + s) (y 0) (y 1) (y 2)

/-- The accumulator with its first two axes exchanged, at an index. -/
theorem pay2_0_apply (a : Vec Ideal S256x8x128 .f32) (j : Fin 8) (ch : Fin 256) (p : Fin 128) :
    k0_pay2 (F := Ideal) a (ix3 j ch p) = a (ix3 ch j p) := by
  unfold k0_pay2
  exact transpose_apply _ a _ _ _ fun b => match b with | ⟨0, _⟩ => rfl | ⟨1, _⟩ => rfl | ⟨2, _⟩ => rfl

/-- What a group's last point writes back is the output array read through the window's block there. -/
theorem flushed0_eq (c : Dev nD) (t : Fin cfg0.N) (hf : (cfg0.win 6).flush t = true) :
    (dat0 V c).flushed 6 t = ((cfg0.win 6).blk t).view.read (Elt Ideal) (out0 V c) := by
  have hN : cfg0.N = 4096 := N_0
  have hlast : t.val % 64 = 63 := (flush0_6 t).mp hf
  have hi := idx0_o t
  funext y
  obtain ⟨j, ch, p, rfl⟩ : ∃ (j : Fin 8) (ch : Fin 256) (p : Fin 128), y = ix3 j ch p := ⟨y 0, y 1, y 2, eq_ix3 y⟩
  rw [View.read_apply]
  show (cfg0.win 6).cut (grid0.coords t) ((dat0 V c).after 6 t) (ix3 j ch p) = _
  rw [after0_6]
  show k0_pay2 (F := Ideal) (acc0 V c t.val t.isLt) (ix3 j ch p) = _
  rw [pay2_0_apply]
  have ht : t.val = t.val / 64 * 64 + 63 := by omega
  rw [congrFun (acc0_congr V c t.val (t.val / 64 * 64 + 63) t.isLt (by omega) ht) _,
    acc0_group V c (t.val / 64) (by have := t.isLt; omega) ch j p (⟨8 * (t.val / 64) + j.val, by have := t.isLt; have := j.isLt; omega⟩ : Fin 512) rfl 63 (by decide) (by omega)]
  have hy : ((cfg0.win 6).blk t).view.emb (ix3 j ch p)
      = ix3 (⟨8 * (t.val / 64) + j.val, by have := t.isLt; have := j.isLt; omega⟩ : Fin 512) ch p := by
    funext a; apply Fin.ext
    match a with
    | ⟨0, _⟩ => show win0_6.index t 0 * 8 + 1 * j.val = 8 * (t.val / 64) + j.val; rw [hi.1]; omega
    | ⟨1, _⟩ => show win0_6.index t 1 * 256 + 1 * ch.val = ch.val; rw [hi.2.1]; omega
    | ⟨2, _⟩ => show win0_6.index t 2 * 128 + 1 * p.val = p.val; rw [hi.2.2]; omega
  show _ = out0 V c (((cfg0.win 6).blk t).view.emb (ix3 j ch p))
  rw [hy]
  show _ = ∑ s ∈ Finset.range 64, term0 (V c main_arg0) (V c main_v30) (V c main_v31) (V c main_v28) (V c main_v29) (V c main_v13) ((8 * (t.val / 64) + j.val) / 8 * 64 + s)
    (⟨8 * (t.val / 64) + j.val, by have := t.isLt; have := j.isLt; omega⟩ : Fin 512) ch p
  rw [show (8 * (t.val / 64) + j.val) / 8 = t.val / 64 from by have := j.isLt; omega]

/-- The 64 groups' write-backs cover the output array, so it ends holding `out0`. -/
theorem final0 (c : Dev nD) : (dat0 V c).arrAt 6 cfg0.N = out0 V c :=
  (dat0 V c).arrAt_eq_of_cover 6 (out0 V c) (flushed0_eq V c) fun i => by
    have hN : cfg0.N = 4096 := N_0
    have h0 : (i 0 : Nat) < 512 := (i 0).isLt
    have h1 : (i 1 : Nat) < 256 := (i 1).isLt
    have h2 : (i 2 : Nat) < 128 := (i 2).isLt
    let t : Fin cfg0.N := ⟨(i 0).val / 8 * 64 + 63, by omega⟩
    have hi := idx0_o t
    refine ⟨t, (flush0_6 t).mpr (by show ((i 0).val / 8 * 64 + 63) % 64 = 63; omega), ?_⟩
    show i ∈ ((View.whole main_v32).slice (win0_6.rect t)).set
    rw [View.set_slice_whole, Rect.mem_set_unit]
    intro a
    have ht : t.val / 64 = (i 0).val / 8 := by show ((i 0).val / 8 * 64 + 63) / 64 = (i 0).val / 8; omega
    match a with
    | ⟨0, _⟩ => show win0_6.index t 0 * win0_6.size 0 ≤ (i 0 : Nat) ∧ (i 0 : Nat) < win0_6.index t 0 * win0_6.size 0 + win0_6.xsize (grid0.coords t) 0
                rw [hi.1, ht, show win0_6.size 0 = 8 from rfl, show win0_6.xsize (grid0.coords t) 0 = 8 from rfl]; omega
    | ⟨1, _⟩ => show win0_6.index t 1 * win0_6.size 1 ≤ (i 1 : Nat) ∧ (i 1 : Nat) < win0_6.index t 1 * win0_6.size 1 + win0_6.xsize (grid0.coords t) 1
                rw [hi.2.1, show win0_6.size 1 = 256 from rfl, show win0_6.xsize (grid0.coords t) 1 = 256 from rfl]; omega
    | ⟨2, _⟩ => show win0_6.index t 2 * win0_6.size 2 ≤ (i 2 : Nat) ∧ (i 2 : Nat) < win0_6.index t 2 * win0_6.size 2 + win0_6.xsize (grid0.coords t) 2
                rw [hi.2.2, show win0_6.size 2 = 128 from rfl, show win0_6.xsize (grid0.coords t) 2 = 128 from rfl]; omega

end Region

end Cert.KernelIdeal.Hand

end
-- ==== Proof.LibTentSum.lean ====
/-
  Bilinear sampling as a masked contraction, one axis at a time.

  A row `f : Fin W → EReal` is sampled at a cell `x` (a 32-bit word: the floor of the sampling
  coordinate, which may lie outside the row) with the two weights `a` (on cell `x`) and `b` (on
  cell `x + 1`). One way to write the sample is a sum over the whole row against the "tent"
  `[w = x]·a + [w = x+1]·b`, the equality tests made on 32-bit words; the other is to read the two
  cells directly, each counted only when its index lies inside the row. The two agree for every
  extended-real row: at each `w` at most one of the two tests holds (`x ≠ x + 1` on words), so no
  distributivity is used, and a sum of a term selected by one equality has a single summand.
-/
import Mathlib

namespace Cert.LibTentSum

open Finset

/-- On an index below `2^32`, the word of the index is `x` exactly when the index is `x`'s number. -/
theorem ofNat_eq_iff (W : ℕ) (hW : W ≤ 2 ^ 32) (x : BitVec 32) (w : Fin W) :
    BitVec.ofNat 32 w.val = x ↔ w.val = x.toNat := by
  have hw : w.val < 2 ^ 32 := lt_of_lt_of_le w.isLt hW
  constructor
  · intro h
    rw [← h, BitVec.toNat_ofNat, Nat.mod_eq_of_lt hw]
  · intro h
    apply BitVec.eq_of_toNat_eq
    rw [BitVec.toNat_ofNat, Nat.mod_eq_of_lt hw, h]

/-- A sum over the row of a term selected by one word equality is that term at the cell, when the
    cell lies in the row, and nothing otherwise. -/
theorem sum_select (W : ℕ) (hW : W ≤ 2 ^ 32) (x : BitVec 32) (g : Fin W → EReal) :
    (∑ w : Fin W, if BitVec.ofNat 32 w.val = x then g w else 0)
      = if h : x.toNat < W then g ⟨x.toNat, h⟩ else 0 := by
  simp only [ofNat_eq_iff W hW x]
  split_ifs with h
  · rw [Finset.sum_eq_single (⟨x.toNat, h⟩ : Fin W)]
    · rw [if_pos rfl]
    · intro w _ hne
      rw [if_neg]
      intro h'
      exact hne (Fin.ext h')
    · intro h'
      exact absurd (Finset.mem_univ _) h'
  · apply Finset.sum_eq_zero
    intro w _
    rw [if_neg]
    intro h'
    exact h (h' ▸ w.isLt)

/-- A word is never its own successor. -/
theorem ne_succ (x : BitVec 32) : x ≠ x + 1 := by
  intro h
  have h' := congrArg BitVec.toNat h
  rw [BitVec.toNat_add] at h'
  have h1 : (1 : BitVec 32).toNat = 1 := rfl
  have h2 : (2 : ℕ) ^ 32 = 4294967296 := by norm_num
  have hx := x.isLt
  rw [h1, h2] at h'
  rw [h2] at hx
  omega

/-- THE TENT SUM. The row summed against `[w = x]·a + [w = x+1]·b` is the two cells read directly,
    each only when its index lies in the row. -/
theorem sum_tent (W : ℕ) (hW : W ≤ 2 ^ 32) (x : BitVec 32) (a b : EReal) (f : Fin W → EReal) :
    (∑ w : Fin W, f w * ((if BitVec.ofNat 32 w.val = x then a else 0)
        + (if BitVec.ofNat 32 w.val = x + 1 then b else 0)))
      = (if h : x.toNat < W then f ⟨x.toNat, h⟩ * a else 0)
        + (if h : (x + 1).toNat < W then f ⟨(x + 1).toNat, h⟩ * b else 0) := by
  rw [← sum_select W hW x (fun w => f w * a), ← sum_select W hW (x + 1) (fun w => f w * b),
    ← Finset.sum_add_distrib]
  refine Finset.sum_congr rfl fun w _ => ?_
  by_cases h1 : BitVec.ofNat 32 w.val = x
  · have h2 : ¬ BitVec.ofNat 32 w.val = x + 1 := fun h2 => ne_succ x (h1.symm.trans h2)
    rw [if_pos h1, if_neg h2, if_pos h1, if_neg h2, add_zero, add_zero]
  · by_cases h2 : BitVec.ofNat 32 w.val = x + 1
    · rw [if_neg h1, if_pos h2, if_neg h1, if_pos h2, zero_add, zero_add]
    · rw [if_neg h1, if_neg h2, if_neg h1, if_neg h2, add_zero, mul_zero]

end Cert.LibTentSum
-- ==== Proof.LibBilinear.lean ====
/-
  Bilinear sampling as a masked, tiled contraction: the whole collapse.

  A feature map `Ā b h w` (batch image, row, column; given on naturals, its values outside the map never consulted) is
  sampled at the cell `(Y, X)` (32-bit words: floors of the sampling coordinates, possibly outside the map) of batch
  image `B` with column weights `a`, `b` and row weights `a'`, `b'`. A tiled kernel computes the sample as a sum over
  `2·Hb` steps — batch image `s / Hb`, row tile `s % Hb` — of: the eight rows of the tile, each contracted over all
  columns against the column tent times the indicator that the step's batch image is `B`, times the row tent at the
  row's number `8·(s % Hb) + hh` (the number formed on words as `hh + (s % Hb)·8`).
  `collapse`: that sum is the row sample of the column samples of image `B`: `[Y in range]·I(Y)·a' +
  [Y+1 in range]·I(Y+1)·b'` with `I(h) = [X in range]·Ā B h X·a + [X+1 in range]·Ā B h (X+1)·b`. Only `B < 2` is used: no
  step of the argument distributes a product over a sum of two nonzero terms, so it holds for every extended-real map.
-/
import Mathlib
import proofs.«110520_j35545149342110_1_alg».proof.Proof.LibTentSum

namespace Cert.LibBilinear

open Finset Cert.LibTentSum

/-- The column sample of row `h` of image `β`: the two neighbouring columns, each counted when inside the row. -/
noncomputable def colSample (W : ℕ) (Ā : ℕ → ℕ → ℕ → EReal) (β h : ℕ) (X : BitVec 32) (a b : EReal) : EReal :=
  (if X.toNat < W then Ā β h X.toNat * a else 0) + (if (X + 1).toNat < W then Ā β h (X + 1).toNat * b else 0)

/-- A row contracted with the column tent times an indicator that holds: the column sample. -/
theorem cols_on (W : ℕ) (hW : W ≤ 2 ^ 32) (f : ℕ → EReal) (X : BitVec 32) (a b : EReal) :
    (∑ w : Fin W, f w.val * (((if BitVec.ofNat 32 w.val = X then a else 0) + (if BitVec.ofNat 32 w.val = X + 1 then b else 0)) * (1 : EReal)))
      = (if X.toNat < W then f X.toNat * a else 0) + (if (X + 1).toNat < W then f (X + 1).toNat * b else 0) := by
  simp only [mul_one]
  exact sum_tent W hW X a b (fun w => f w.val)

/-- The same with an indicator that fails: nothing. -/
theorem cols_off (W : ℕ) (f : ℕ → EReal) (c : EReal) :
    (∑ w : Fin W, f w.val * (c * (0 : EReal))) = 0 := by
  simp only [mul_zero, Finset.sum_const_zero]

/-- The row number formed on 32-bit words: `hh + hb · 8` is the word of `8·hb + hh`. -/
theorem row_word (hh hb : ℕ) : BitVec.ofNat 32 hh + BitVec.ofNat 32 hb * 8#32 = BitVec.ofNat 32 (8 * hb + hh) := by
  have h8 : (8#32 : BitVec 32) = BitVec.ofNat 32 8 := rfl
  rw [h8, ← BitVec.ofNat_mul, ← BitVec.ofNat_add]
  congr 1
  ring

/-- A sum over `2·Hb` steps is the double sum over (batch image, row tile). -/
theorem sum_steps (Hb : ℕ) (hHb : 0 < Hb) (G : ℕ → ℕ → EReal) :
    (∑ s ∈ Finset.range (2 * Hb), G (s / Hb % 2) (s % Hb)) = ∑ b : Fin 2, ∑ hb : Fin Hb, G b.val hb.val := by
  rw [← Fin.sum_univ_eq_sum_range (fun s => G (s / Hb % 2) (s % Hb)) (2 * Hb)]
  rw [← Equiv.sum_comp (finProdFinEquiv (m := 2) (n := Hb)) (fun x : Fin (2 * Hb) => G (x.val / Hb % 2) (x.val % Hb))]
  rw [Fintype.sum_prod_type]
  refine Finset.sum_congr rfl fun b _ => Finset.sum_congr rfl fun hb _ => ?_
  have hv : (finProdFinEquiv (b, hb)).val = hb.val + Hb * b.val := rfl
  rw [hv]
  have h1 : (hb.val + Hb * b.val) / Hb = b.val := by
    rw [Nat.add_mul_div_left _ _ hHb, Nat.div_eq_of_lt hb.isLt, Nat.zero_add]
  have h2 : (hb.val + Hb * b.val) % Hb = hb.val := by
    rw [Nat.add_mul_mod_self_left, Nat.mod_eq_of_lt hb.isLt]
  rw [h1, h2, Nat.mod_eq_of_lt b.isLt]

/-- A double sum over (row tile, row in the tile) is the sum over the row number. -/
theorem sum_rows (Hb : ℕ) (G : ℕ → EReal) :
    (∑ hb : Fin Hb, ∑ hh : Fin 8, G (8 * hb.val + hh.val)) = ∑ h : Fin (Hb * 8), G h.val := by
  rw [← Equiv.sum_comp (finProdFinEquiv (m := Hb) (n := 8)) (fun x : Fin (Hb * 8) => G x.val)]
  rw [Fintype.sum_prod_type]
  refine Finset.sum_congr rfl fun hb _ => Finset.sum_congr rfl fun hh _ => ?_
  have hv : (finProdFinEquiv (hb, hh)).val = hh.val + 8 * hb.val := rfl
  rw [hv, Nat.add_comm]

/-- THE COLLAPSE. -/
theorem collapse (W Hb : ℕ) (hW : W ≤ 2 ^ 32) (hH : Hb * 8 ≤ 2 ^ 32) (hHb : 0 < Hb) (Ā : ℕ → ℕ → ℕ → EReal)
    (X Y B : BitVec 32) (hB : B.toNat < 2) (a b a' b' : EReal) :
    (∑ s ∈ Finset.range (2 * Hb), ∑ hh : Fin 8,
        (∑ w : Fin W, Ā (s / Hb % 2) (8 * (s % Hb) + hh.val) w.val
            * (((if BitVec.ofNat 32 w.val = X then a else 0) + (if BitVec.ofNat 32 w.val = X + 1 then b else 0))
               * (if B = BitVec.ofNat 32 (s / Hb % 2) then (1 : EReal) else 0)))
          * ((if BitVec.ofNat 32 hh.val + BitVec.ofNat 32 (s % Hb) * 8#32 = Y then a' else 0)
              + (if BitVec.ofNat 32 hh.val + BitVec.ofNat 32 (s % Hb) * 8#32 = Y + 1 then b' else 0)))
      = (if Y.toNat < Hb * 8 then colSample W Ā B.toNat Y.toNat X a b * a' else 0)
        + (if (Y + 1).toNat < Hb * 8 then colSample W Ā B.toNat (Y + 1).toNat X a b * b' else 0) := by
  -- steps as (batch image, row tile)
  rw [sum_steps Hb hHb (fun bi hb => ∑ hh : Fin 8,
        (∑ w : Fin W, Ā bi (8 * hb + hh.val) w.val
            * (((if BitVec.ofNat 32 w.val = X then a else 0) + (if BitVec.ofNat 32 w.val = X + 1 then b else 0))
               * (if B = BitVec.ofNat 32 bi then (1 : EReal) else 0)))
          * ((if BitVec.ofNat 32 hh.val + BitVec.ofNat 32 hb * 8#32 = Y then a' else 0)
              + (if BitVec.ofNat 32 hh.val + BitVec.ofNat 32 hb * 8#32 = Y + 1 then b' else 0)))]
  -- only the batch image `B` contributes
  have hBw : B = BitVec.ofNat 32 B.toNat := by
    apply BitVec.eq_of_toNat_eq; rw [BitVec.toNat_ofNat, Nat.mod_eq_of_lt]; exact B.isLt
  rw [Finset.sum_eq_single (⟨B.toNat, hB⟩ : Fin 2)]
  · -- the image `B`: the indicator holds
    simp only [← hBw, if_true]
    simp only [cols_on W hW, row_word]
    rw [sum_rows Hb (fun h => ((if X.toNat < W then Ā B.toNat h X.toNat * a else 0) + (if (X + 1).toNat < W then Ā B.toNat h (X + 1).toNat * b else 0))
        * ((if BitVec.ofNat 32 h = Y then a' else 0) + (if BitVec.ofNat 32 h = Y + 1 then b' else 0)))]
    have := sum_tent (Hb * 8) hH Y a' b' (fun h => (if X.toNat < W then Ā B.toNat h.val X.toNat * a else 0) + (if (X + 1).toNat < W then Ā B.toNat h.val (X + 1).toNat * b else 0))
    rw [this]
    unfold colSample
    rfl
  · -- another image: the indicator fails
    intro bi _ hne
    have hf : ¬ B = BitVec.ofNat 32 bi.val := by
      intro h
      apply hne
      apply Fin.ext
      have := congrArg BitVec.toNat h
      rw [BitVec.toNat_ofNat, Nat.mod_eq_of_lt (lt_of_lt_of_le bi.isLt (by norm_num))] at this
      exact this.symm
    simp only [if_neg hf, mul_zero, zero_mul, Finset.sum_const_zero]
  · intro h; exact absurd (Finset.mem_univ _) h

end Cert.LibBilinear
-- ==== Proof.KI0Lvl.lean ====
/-
  Level 0: the kernel's output entry as the nested sample. A group's 64 partial terms, their point numbers rewritten
  as (batch image, row tile), are exactly the steps of the tiled contraction that collapses to the row sample of the
  column samples of the region's batch image; the feature map enters as a function on naturals (zero outside the map).
-/
import proofs.«110520_j35545149342110_1_alg».proof.Proof.KI0Out
import proofs.«110520_j35545149342110_1_alg».proof.Proof.LibBilinear

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.LibBilinear

/-- The level's feature map at channel `ch` as a function of (batch image, row, column) numbers, zero outside the map. -/
def featN0 (A : S2x256x256x256.Idx → EReal) (ch : Fin 256) : ℕ → ℕ → ℕ → EReal := fun b h w =>
  if hb : b < 2 then if hh : h < 256 then if hw : w < 256 then A (ix4 ⟨b, hb⟩ ch ⟨h, hh⟩ ⟨w, hw⟩) else 0 else 0 else 0

theorem featN0_eq (A : S2x256x256x256.Idx → EReal) (ch : Fin 256) (b h : ℕ) (hb : b < 2) (hh : h < 256) (w : Fin 256) :
    A (ix4 ⟨b, hb⟩ ch ⟨h, hh⟩ w) = featN0 A ch b h w.val := by
  unfold featN0
  rw [dif_pos hb, dif_pos hh, dif_pos w.isLt]

/-- A group's partial terms sum to the nested sample. -/
theorem sumTerm0_nested (A : S2x256x256x256.Idx → EReal) (X Y : S512x128.Idx → BitVec 32) (WX WY : S512x128.Idx → EReal) (BI : S512x128.Idx → BitVec 32)
    (g : ℕ) (n : Fin 512) (ch : Fin 256) (p : Fin 128) (hB : (BI (ix2 n p)).toNat < 2) :
    (∑ s ∈ Finset.range 64, term0 A X Y WX WY BI (g * 64 + s) n ch p)
      = (if (Y (ix2 n p)).toNat < 32 * 8 then colSample 256 (featN0 A ch) (BI (ix2 n p)).toNat (Y (ix2 n p)).toNat (X (ix2 n p))
            (Ideal.ofBits .f32 0x3F800000#32 - WX (ix2 n p)) (WX (ix2 n p)) * (Ideal.ofBits .f32 0x3F800000#32 - WY (ix2 n p)) else 0)
        + (if (Y (ix2 n p) + 1).toNat < 32 * 8 then colSample 256 (featN0 A ch) (BI (ix2 n p)).toNat (Y (ix2 n p) + 1).toNat (X (ix2 n p))
            (Ideal.ofBits .f32 0x3F800000#32 - WX (ix2 n p)) (WX (ix2 n p)) * (WY (ix2 n p)) else 0) := by
  have key : ∀ s ∈ Finset.range (2 * 32), term0 A X Y WX WY BI (g * 64 + s) n ch p
      = ∑ hh : Fin 8,
        (∑ w : Fin 256, featN0 A ch (s / 32 % 2) (8 * (s % 32) + hh.val) w.val
            * (((if BitVec.ofNat 32 w.val = X (ix2 n p) then Ideal.ofBits .f32 0x3F800000#32 - WX (ix2 n p) else 0)
                + (if BitVec.ofNat 32 w.val = X (ix2 n p) + 1 then WX (ix2 n p) else 0))
               * (if BI (ix2 n p) = BitVec.ofNat 32 (s / 32 % 2) then (1 : EReal) else 0)))
          * ((if BitVec.ofNat 32 hh.val + BitVec.ofNat 32 (s % 32) * 8#32 = Y (ix2 n p) then Ideal.ofBits .f32 0x3F800000#32 - WY (ix2 n p) else 0)
              + (if BitVec.ofNat 32 hh.val + BitVec.ofNat 32 (s % 32) * 8#32 = Y (ix2 n p) + 1 then WY (ix2 n p) else 0)) := by
    intro s hs
    have hs' : s < 2 * 32 := Finset.mem_range.mp hs
    have e1 : (g * 64 + s) / 32 % 2 = s / 32 % 2 := by omega
    have e2 : (g * 64 + s) % 32 = s % 32 := by omega
    unfold term0
    simp only [featN0_eq, e1, e2]
    rfl
  show (∑ s ∈ Finset.range (2 * 32), _) = _
  rw [Finset.sum_congr rfl key]
  exact collapse 256 32 (by norm_num) (by norm_num) (by norm_num) (featN0 A ch) (X (ix2 n p)) (Y (ix2 n p)) (BI (ix2 n p)) hB _ _ _ _

section Region

variable (V : (c : Dev nD) → (b : Ref sig .tc) → Buf (Elt Ideal) ((c : Thread nD τ).loc b))

/-- The region's output array at an index. -/
theorem out0_apply (c : Dev nD) (n : Fin 512) (ch : Fin 256) (p : Fin 128) :
    out0 V c (ix3 n ch p) = ∑ s ∈ Finset.range 64, term0 (V c main_arg0) (V c main_v30) (V c main_v31) (V c main_v28) (V c main_v29) (V c main_v13) (n.val / 8 * 64 + s) n ch p := rfl

end Region

end Cert.KernelIdeal.Hand

end
-- ==== Proof.KIPrelude.lean ====
/-
  The host side of the kernel program, read against the reference's. Before each pallas_call the kernel's @main computes,
  with the same host operations as the reference, the sampling coordinates of every point, their floors as cells,
  the fractions, and the batch index of every region of interest; these are the arrays the regions' windows stage.
  Here each such array, as its region finds it, is identified with the reference's stage computing the same value
  (the two texts apply the same operations to the same arguments). The plumbing lemmas say which buffers a segment
  leaves alone: a host stretch writes only its own results, a region only its output.
-/
import proofs.«110520_j35545149342110_1_alg».proof.Proof.KIRegions
import proofs.«110520_j35545149342110_1_alg».proof.Proof.RefReadP
import Idealize.ShloMosaic.Lib.StableHlo.Run
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-! ## What each segment leaves alone -/

theorem W2_v8 (c : Dev nD) : W2 m c (Proc.devRef .tc main_v8) = W1 m c (Proc.devRef .tc main_v8) := W2_of_ne m c main_v8 (by decide)
theorem W3_v8 (c : Dev nD) : W3 m c (Proc.devRef .tc main_v8) = W2 m c (Proc.devRef .tc main_v8) := by unfold W3; exact StableHlo.after_of_writes_sub hostOps1 _ hostOps1_writes (by decide)
theorem W4_v8 (c : Dev nD) : W4 m c (Proc.devRef .tc main_v8) = W3 m c (Proc.devRef .tc main_v8) := W4_of_ne m c main_v8 (by decide)
theorem W5_v8 (c : Dev nD) : W5 m c (Proc.devRef .tc main_v8) = W4 m c (Proc.devRef .tc main_v8) := by unfold W5; exact StableHlo.after_of_writes_sub hostOps2 _ hostOps2_writes (by decide)
theorem W6_v8 (c : Dev nD) : W6 m c (Proc.devRef .tc main_v8) = W5 m c (Proc.devRef .tc main_v8) := W6_of_ne m c main_v8 (by decide)
theorem W7_v8 (c : Dev nD) : W7 m c (Proc.devRef .tc main_v8) = W6 m c (Proc.devRef .tc main_v8) := by unfold W7; exact StableHlo.after_of_writes_sub hostOps3 _ hostOps3_writes (by decide)

theorem W2_v13 (c : Dev nD) : W2 m c (Proc.devRef .tc main_v13) = W1 m c (Proc.devRef .tc main_v13) :=
  (W2_arr m c 5).trans (((dat0 (V1 m) c).arrAt_in 5 rfl _).trans (A_eq0 (V1 m) c 5))
theorem W3_v13 (c : Dev nD) : W3 m c (Proc.devRef .tc main_v13) = W2 m c (Proc.devRef .tc main_v13) := by unfold W3; exact StableHlo.after_of_writes_sub hostOps1 _ hostOps1_writes (by decide)
theorem W4_v13 (c : Dev nD) : W4 m c (Proc.devRef .tc main_v13) = W3 m c (Proc.devRef .tc main_v13) :=
  (W4_arr m c 5).trans (((dat1 (V3 m) c).arrAt_in 5 rfl _).trans (A_eq1 (V3 m) c 5))
theorem W5_v13 (c : Dev nD) : W5 m c (Proc.devRef .tc main_v13) = W4 m c (Proc.devRef .tc main_v13) := by unfold W5; exact StableHlo.after_of_writes_sub hostOps2 _ hostOps2_writes (by decide)
theorem W6_v13 (c : Dev nD) : W6 m c (Proc.devRef .tc main_v13) = W5 m c (Proc.devRef .tc main_v13) :=
  (W6_arr m c 5).trans (((dat2 (V5 m) c).arrAt_in 5 rfl _).trans (A_eq2 (V5 m) c 5))
theorem W7_v13 (c : Dev nD) : W7 m c (Proc.devRef .tc main_v13) = W6 m c (Proc.devRef .tc main_v13) := by unfold W7; exact StableHlo.after_of_writes_sub hostOps3 _ hostOps3_writes (by decide)

/-! ## The sampling coordinates and the batch indices -/

/-- The sampling coordinates `xy1 + points · (xy2 − xy1)` are the reference's. -/
theorem W1_coords (c : Dev nD) : W1 m c (Proc.devRef .tc main_v8) = Cert.ReferenceIdeal.Read.val_main_v11 (F := Ideal) (m ((c.tc : Thread nD τ).loc main_arg4)) (m ((c.tc : Thread nD τ).loc main_arg5)) := by
  unfold W1
  after_results
  rfl

set_option maxHeartbeats 4000000 in
/-- The batch index of region of interest `n` (broadcast over its sampling points) is the reference's. -/
theorem W1_bi (c : Dev nD) (n : Fin 512) (p : Fin 128) :
    (W1 m c (Proc.devRef .tc main_v13) : S512x128.Idx → BitVec 32) (ValueIdx.ix2 n p) = Cert.ReferenceIdeal.Read.val_main_v2 (F := Ideal) (m ((c.tc : Thread nD τ).loc main_arg4)) (ValueIdx.ix1 n) := by
  unfold W1
  after_results
  refine (broadcastInDim_apply _ bcast_S512x1_S512x128_0_1 _ (ValueIdx.ix2 n p) (ValueIdx.ix2 n (0 : Fin 1)) (fun a => match a with
    | ⟨0, _⟩ => by show n.val = if (512 : Nat) = 1 then 0 else n.val; rw [if_neg (by decide)]
    | ⟨1, _⟩ => by show 0 = if (1 : Nat) = 1 then 0 else p.val; rw [if_pos rfl])).trans ?_
  refine (broadcastInDim_apply _ bcast_S512_S512x1_0 _ (ValueIdx.ix2 n (0 : Fin 1)) (ValueIdx.ix1 n) (fun a => match a with
    | ⟨0, _⟩ => by show n.val = if (512 : Nat) = 1 then 0 else n.val; rw [if_neg (by decide)])).trans ?_
  rfl

/-! ## Level 0: the sampling points' cells and fractions as region 0 finds them are the reference's -/

set_option maxHeartbeats 8000000 in
theorem lvl0_x (c : Dev nD) : W1 m c (Proc.devRef .tc main_v30) = Cert.ReferenceIdeal.Read.val_main_v28 (F := Ideal) (m ((c.tc : Thread nD τ).loc main_arg4)) (m ((c.tc : Thread nD τ).loc main_arg5)) := by
  unfold W1
  after_results
  rfl

set_option maxHeartbeats 8000000 in
theorem lvl0_y (c : Dev nD) : W1 m c (Proc.devRef .tc main_v31) = Cert.ReferenceIdeal.Read.val_main_v29 (F := Ideal) (m ((c.tc : Thread nD τ).loc main_arg4)) (m ((c.tc : Thread nD τ).loc main_arg5)) := by
  unfold W1
  after_results
  rfl

set_option maxHeartbeats 8000000 in
theorem lvl0_wx (c : Dev nD) : W1 m c (Proc.devRef .tc main_v28) = Cert.ReferenceIdeal.Read.val_main_v26 (F := Ideal) (m ((c.tc : Thread nD τ).loc main_arg4)) (m ((c.tc : Thread nD τ).loc main_arg5)) := by
  unfold W1
  after_results
  rfl

set_option maxHeartbeats 8000000 in
theorem lvl0_wy (c : Dev nD) : W1 m c (Proc.devRef .tc main_v29) = Cert.ReferenceIdeal.Read.val_main_v27 (F := Ideal) (m ((c.tc : Thread nD τ).loc main_arg4)) (m ((c.tc : Thread nD τ).loc main_arg5)) := by
  unfold W1
  after_results
  rfl

theorem lvl0_bi (c : Dev nD) : W1 m c (Proc.devRef .tc main_v13) = W1 m c (Proc.devRef .tc main_v13) := rfl

/-! ## Level 1: the sampling points' cells and fractions as region 1 finds them are the reference's -/

set_option maxHeartbeats 8000000 in
theorem lvl1_x (c : Dev nD) : W3 m c (Proc.devRef .tc main_v49) = Cert.ReferenceIdeal.Read.val_main_v240 (F := Ideal) (m ((c.tc : Thread nD τ).loc main_arg4)) (m ((c.tc : Thread nD τ).loc main_arg5)) := by
  unfold W3
  after_results
  rw [(W2_v8 m c), W1_coords m c]
  rfl

set_option maxHeartbeats 8000000 in
theorem lvl1_y (c : Dev nD) : W3 m c (Proc.devRef .tc main_v50) = Cert.ReferenceIdeal.Read.val_main_v241 (F := Ideal) (m ((c.tc : Thread nD τ).loc main_arg4)) (m ((c.tc : Thread nD τ).loc main_arg5)) := by
  unfold W3
  after_results
  rw [(W2_v8 m c), W1_coords m c]
  rfl

set_option maxHeartbeats 8000000 in
theorem lvl1_wx (c : Dev nD) : W3 m c (Proc.devRef .tc main_v47) = Cert.ReferenceIdeal.Read.val_main_v238 (F := Ideal) (m ((c.tc : Thread nD τ).loc main_arg4)) (m ((c.tc : Thread nD τ).loc main_arg5)) := by
  unfold W3
  after_results
  rw [(W2_v8 m c), W1_coords m c]
  rfl

set_option maxHeartbeats 8000000 in
theorem lvl1_wy (c : Dev nD) : W3 m c (Proc.devRef .tc main_v48) = Cert.ReferenceIdeal.Read.val_main_v239 (F := Ideal) (m ((c.tc : Thread nD τ).loc main_arg4)) (m ((c.tc : Thread nD τ).loc main_arg5)) := by
  unfold W3
  after_results
  rw [(W2_v8 m c), W1_coords m c]
  rfl

theorem lvl1_bi (c : Dev nD) : W3 m c (Proc.devRef .tc main_v13) = W1 m c (Proc.devRef .tc main_v13) := ((W3_v13 m c).trans (W2_v13 m c))

/-! ## Level 2: the sampling points' cells and fractions as region 2 finds them are the reference's -/

set_option maxHeartbeats 8000000 in
theorem lvl2_x (c : Dev nD) : W5 m c (Proc.devRef .tc main_v68) = Cert.ReferenceIdeal.Read.val_main_v452 (F := Ideal) (m ((c.tc : Thread nD τ).loc main_arg4)) (m ((c.tc : Thread nD τ).loc main_arg5)) := by
  unfold W5
  after_results
  rw [(((W4_v8 m c).trans (W3_v8 m c)).trans (W2_v8 m c)), W1_coords m c]
  rfl

set_option maxHeartbeats 8000000 in
theorem lvl2_y (c : Dev nD) : W5 m c (Proc.devRef .tc main_v69) = Cert.ReferenceIdeal.Read.val_main_v453 (F := Ideal) (m ((c.tc : Thread nD τ).loc main_arg4)) (m ((c.tc : Thread nD τ).loc main_arg5)) := by
  unfold W5
  after_results
  rw [(((W4_v8 m c).trans (W3_v8 m c)).trans (W2_v8 m c)), W1_coords m c]
  rfl

set_option maxHeartbeats 8000000 in
theorem lvl2_wx (c : Dev nD) : W5 m c (Proc.devRef .tc main_v66) = Cert.ReferenceIdeal.Read.val_main_v450 (F := Ideal) (m ((c.tc : Thread nD τ).loc main_arg4)) (m ((c.tc : Thread nD τ).loc main_arg5)) := by
  unfold W5
  after_results
  rw [(((W4_v8 m c).trans (W3_v8 m c)).trans (W2_v8 m c)), W1_coords m c]
  rfl

set_option maxHeartbeats 8000000 in
theorem lvl2_wy (c : Dev nD) : W5 m c (Proc.devRef .tc main_v67) = Cert.ReferenceIdeal.Read.val_main_v451 (F := Ideal) (m ((c.tc : Thread nD τ).loc main_arg4)) (m ((c.tc : Thread nD τ).loc main_arg5)) := by
  unfold W5
  after_results
  rw [(((W4_v8 m c).trans (W3_v8 m c)).trans (W2_v8 m c)), W1_coords m c]
  rfl

theorem lvl2_bi (c : Dev nD) : W5 m c (Proc.devRef .tc main_v13) = W1 m c (Proc.devRef .tc main_v13) := ((((W5_v13 m c).trans (W4_v13 m c)).trans (W3_v13 m c)).trans (W2_v13 m c))

/-! ## Level 3: the sampling points' cells and fractions as region 3 finds them are the reference's -/

set_option maxHeartbeats 8000000 in
theorem lvl3_x (c : Dev nD) : W7 m c (Proc.devRef .tc main_v87) = Cert.ReferenceIdeal.Read.val_main_v664 (F := Ideal) (m ((c.tc : Thread nD τ).loc main_arg4)) (m ((c.tc : Thread nD τ).loc main_arg5)) := by
  unfold W7
  after_results
  rw [(((((W6_v8 m c).trans (W5_v8 m c)).trans (W4_v8 m c)).trans (W3_v8 m c)).trans (W2_v8 m c)), W1_coords m c]
  rfl

set_option maxHeartbeats 8000000 in
theorem lvl3_y (c : Dev nD) : W7 m c (Proc.devRef .tc main_v88) = Cert.ReferenceIdeal.Read.val_main_v665 (F := Ideal) (m ((c.tc : Thread nD τ).loc main_arg4)) (m ((c.tc : Thread nD τ).loc main_arg5)) := by
  unfold W7
  after_results
  rw [(((((W6_v8 m c).trans (W5_v8 m c)).trans (W4_v8 m c)).trans (W3_v8 m c)).trans (W2_v8 m c)), W1_coords m c]
  rfl

set_option maxHeartbeats 8000000 in
theorem lvl3_wx (c : Dev nD) : W7 m c (Proc.devRef .tc main_v85) = Cert.ReferenceIdeal.Read.val_main_v662 (F := Ideal) (m ((c.tc : Thread nD τ).loc main_arg4)) (m ((c.tc : Thread nD τ).loc main_arg5)) := by
  unfold W7
  after_results
  rw [(((((W6_v8 m c).trans (W5_v8 m c)).trans (W4_v8 m c)).trans (W3_v8 m c)).trans (W2_v8 m c)), W1_coords m c]
  rfl

set_option maxHeartbeats 8000000 in
theorem lvl3_wy (c : Dev nD) : W7 m c (Proc.devRef .tc main_v86) = Cert.ReferenceIdeal.Read.val_main_v663 (F := Ideal) (m ((c.tc : Thread nD τ).loc main_arg4)) (m ((c.tc : Thread nD τ).loc main_arg5)) := by
  unfold W7
  after_results
  rw [(((((W6_v8 m c).trans (W5_v8 m c)).trans (W4_v8 m c)).trans (W3_v8 m c)).trans (W2_v8 m c)), W1_coords m c]
  rfl

theorem lvl3_bi (c : Dev nD) : W7 m c (Proc.devRef .tc main_v13) = W1 m c (Proc.devRef .tc main_v13) := ((((((W7_v13 m c).trans (W6_v13 m c)).trans (W5_v13 m c)).trans (W4_v13 m c)).trans (W3_v13 m c)).trans (W2_v13 m c))

end Cert.KernelIdeal.Hand

end
-- ==== Proof.LibRefSample.lean ====
/-
  The reference's four-corner bilinear formula against the nested form.

  `refSample`: the sample as a jnp reference writes it — the four corner values (each zero when its cell lies outside
  the map), each times its column weight and then its row weight, added left to right. `refSample_eq`: when the map's
  values and the weights are real numbers this is the row sample of the column samples,
  `[Y in range]·(I(Y)·(1 − wy)) + [Y+1 in range]·(I(Y+1)·wy)` with `I` the column sample — the products distributed over the
  column sample's two terms, which is where the values must be finite.
-/
import Mathlib
import proofs.«110520_j35545149342110_1_alg».proof.Proof.LibBilinear

namespace Cert.LibRefSample

open Cert.LibBilinear

/-- A corner value: the map's entry when the cell `(y, x)` lies inside it, zero otherwise. -/
noncomputable def corner (W H : ℕ) (Ā : ℕ → ℕ → ℕ → EReal) (B y x : BitVec 32) : EReal :=
  if x.toNat < W ∧ y.toNat < H then Ā B.toNat y.toNat x.toNat else 0

/-- The four-corner formula, `one` standing for the constant 1 of the program. -/
noncomputable def refSample (W H : ℕ) (Ā : ℕ → ℕ → ℕ → EReal) (B X Y : BitVec 32) (one wx wy : EReal) : EReal :=
  ((corner W H Ā B Y X * (one - wx)) * (one - wy) + (corner W H Ā B Y (X + 1) * wx) * (one - wy)
    + (corner W H Ā B (Y + 1) X * (one - wx)) * wy) + (corner W H Ā B (Y + 1) (X + 1) * wx) * wy

/-- For real values the four-corner formula is the nested sample. -/
theorem refSample_eq (W H : ℕ) (Ā : ℕ → ℕ → ℕ → EReal) (hĀ : ∀ b h w, ∃ r : ℝ, Ā b h w = (r : EReal)) (B X Y : BitVec 32)
    (one wx wy : EReal) (hone : ∃ r : ℝ, one = (r : EReal)) (hwx : ∃ r : ℝ, wx = (r : EReal)) (hwy : ∃ r : ℝ, wy = (r : EReal)) :
    refSample W H Ā B X Y one wx wy
      = (if Y.toNat < H then colSample W Ā B.toNat Y.toNat X (one - wx) wx * (one - wy) else 0)
        + (if (Y + 1).toNat < H then colSample W Ā B.toNat (Y + 1).toNat X (one - wx) wx * wy else 0) := by
  obtain ⟨o, rfl⟩ := hone
  obtain ⟨x, rfl⟩ := hwx
  obtain ⟨y, rfl⟩ := hwy
  obtain ⟨c00, h00⟩ := hĀ B.toNat Y.toNat X.toNat
  obtain ⟨c01, h01⟩ := hĀ B.toNat Y.toNat (X + 1).toNat
  obtain ⟨c10, h10⟩ := hĀ B.toNat (Y + 1).toNat X.toNat
  obtain ⟨c11, h11⟩ := hĀ B.toNat (Y + 1).toNat (X + 1).toNat
  unfold refSample corner colSample
  rw [h00, h01, h10, h11]
  by_cases hx0 : X.toNat < W <;> by_cases hx1 : (X + 1).toNat < W <;> by_cases hy0 : Y.toNat < H <;> by_cases hy1 : (Y + 1).toNat < H <;>
    simp only [hx0, hx1, hy0, hy1, and_self, and_true, true_and, and_false, false_and, if_true, if_false, ← EReal.coe_zero,
      ← EReal.coe_sub, ← EReal.coe_mul, ← EReal.coe_add, EReal.coe_eq_coe_iff] <;>
    ring

end Cert.LibRefSample
-- ==== Proof.LibGatherPoint.lean ====
/-
  Two shape operations of a point-sampling program read at an index, for every extent.

  `stablehlo.gather` of a map `[N, C, H, W]` (images, channels, rows, columns) at an array `[R, P, 3]` of start
  indices `(image, row, column)`, one per region and point, with the image, row and column axes collapsed (slice size
  1) and the whole channel axis as the one offset axis: what indexing `x[b, :, y, x]` by three integer arrays lowers
  to. Result element `(n, p, c)` is the map at channel `c` and at the three start indices of `(n, p)`, each read
  signed and clamped into its axis, as StableHLO's gather clamps every start index.

  `stablehlo.concatenate` of three `[R, P, 1]` arrays along the last axis: component `k` of `(n, p)` is the k-th
  array at `(n, p, 0)`.

  Then the facts on 32-bit words the program's index arithmetic needs — a signed range test `0 ≤ x < W` is
  `x.toNat < W` (for `W < 2³¹`); clipping into `[0, W − 1]`, adding the extent to a negative index and the gather's clamp
  do nothing to an index already in range — and with them ONE CORNER of a sampling cell (`corner_read`): the gathered
  value times the validity bit is the map's value at the cell, or zero when the cell lies outside the map.
-/
import Idealize.ShloMosaic.Lib.ValueIdx
import Idealize.ShloMosaic.Lib.Pipeline.Value

namespace Cert.LibGatherPoint

open Idealize.ShloMosaic Idealize.ShloMosaic.ValueIdx

variable {α : Type}

/-! ## An index is determined by its coordinates -/

/-- A rank-1 index with coordinate `n` is `ix1 n`. -/
theorem idx1_eq {a : ℕ} {i : (⟨1, ![a]⟩ : Shape).Idx} {n : Fin a} (h : (i 0).val = n.val) : i = ix1 n := by
  funext d
  match d with
  | ⟨0, _⟩ => exact Fin.ext h

/-- A rank-2 index with coordinates `n`, `p` is `ix2 n p`. -/
theorem idx2_eq {a b : ℕ} {i : (⟨2, ![a, b]⟩ : Shape).Idx} {n : Fin a} {p : Fin b} (h0 : (i 0).val = n.val)
    (h1 : (i 1).val = p.val) : i = ix2 n p := by
  funext d
  match d with
  | ⟨0, _⟩ => exact Fin.ext h0
  | ⟨1, _⟩ => exact Fin.ext h1

/-- A rank-3 index with coordinates `n`, `p`, `q` is `ix3 n p q`. -/
theorem idx3_eq {a b c : ℕ} {i : (⟨3, ![a, b, c]⟩ : Shape).Idx} {n : Fin a} {p : Fin b} {q : Fin c}
    (h0 : (i 0).val = n.val) (h1 : (i 1).val = p.val) (h2 : (i 2).val = q.val) : i = ix3 n p q := by
  funext d
  match d with
  | ⟨0, _⟩ => exact Fin.ext h0
  | ⟨1, _⟩ => exact Fin.ext h1
  | ⟨2, _⟩ => exact Fin.ext h2

/-! ## The gather -/

/-- The dimension numbers: offset axis 2 of the result (the channels), operand axes 0, 2, 3 collapsed and named, in
    that order, by the three components of a start index, which lie along axis 2 of the start indices. Their
    conditions `wf` are decided on a program's literal shapes. -/
abbrev pointDims (N C H W R P : ℕ)
    (wf : GatherDims.WF ⟨4, ![N, C, H, W]⟩ ⟨3, ![R, P, 3]⟩ ⟨3, ![R, P, C]⟩ [2] [0, 2, 3] [] [0, 2, 3] [] 2 ![1, C, 1, 1]) :
    GatherDims ⟨4, ![N, C, H, W]⟩ ⟨3, ![R, P, 3]⟩ ⟨3, ![R, P, C]⟩ where
  offsetDims := [2]
  collapsedSliceDims := [0, 2, 3]
  operandBatchingDims := []
  startIndicesBatchingDims := []
  startIndexMap := [0, 2, 3]
  indexVectorDim := 2
  sliceSizes := ![1, C, 1, 1]
  wf := wf

/-- THE GATHER READ AT `(n, p, c)`: the map at channel `c`, at the image, row and column the start index of `(n, p)`
    names, each component read signed and clamped into `[0, extent − 1]`. -/
theorem gather_point_apply {N C H W R P w : ℕ} (hN : 0 < N) (hH : 0 < H) (hW : 0 < W)
    (wf : GatherDims.WF ⟨4, ![N, C, H, W]⟩ ⟨3, ![R, P, 3]⟩ ⟨3, ![R, P, C]⟩ [2] [0, 2, 3] [] [0, 2, 3] [] 2 ![1, C, 1, 1])
    (x : (⟨4, ![N, C, H, W]⟩ : Shape).Idx → α) (idx : IVec ⟨3, ![R, P, 3]⟩ w) (n : Fin R) (p : Fin P) (c : Fin C) :
    Host.gather (pointDims N C H W R P wf) x idx (ix3 n p c)
      = x (ix4 (⟨min (idx (ix3 n p (0 : Fin 3))).toInt.toNat (N - 1), by omega⟩ : Fin N) c
          (⟨min (idx (ix3 n p (1 : Fin 3))).toInt.toNat (H - 1), by omega⟩ : Fin H)
          (⟨min (idx (ix3 n p (2 : Fin 3))).toInt.toNat (W - 1), by omega⟩ : Fin W)) := by
  unfold Host.gather
  congr 1
  funext a
  refine Fin.ext ?_
  show (pointDims N C H W R P wf).start (ix3 n p c) idx a + (pointDims N C H W R P wf).batchCoord (ix3 n p c) a
    + (pointDims N C H W R P wf).offCoord (ix3 n p c) a = _
  rw [GatherDims.batchCoord_eq_zero _ _ _ List.not_mem_nil, Nat.add_zero]
  match a with
  | ⟨0, _⟩ =>
    have hm : (⟨0, by decide⟩ : Fin 4) ∈ [(0 : Fin 4), 2, 3] := by decide
    rw [GatherDims.offCoord_eq_zero _ _ _ (fun h => ((GatherDims.mem_sKept _ _).mp h).1 hm), Nat.add_zero]
    unfold GatherDims.start
    rw [dif_pos (show (⟨0, by decide⟩ : Fin 4) ∈ (pointDims N C H W R P wf).startIndexMap from hm)]
    have hsi : (pointDims N C H W R P wf).siIdx (ix3 n p c) ⟨List.idxOf (⟨0, by decide⟩ : Fin 4)
        (pointDims N C H W R P wf).startIndexMap, List.idxOf_lt_length_iff.2 hm⟩ = ix3 n p (0 : Fin 3) := by
      funext b; refine Fin.ext ?_
      match b with
      | ⟨0, _⟩ => rfl
      | ⟨1, _⟩ => rfl
      | ⟨2, _⟩ => rfl
    rw [hsi]
    rfl
  | ⟨1, _⟩ =>
    have hn : (⟨1, by decide⟩ : Fin 4) ∉ [(0 : Fin 4), 2, 3] := by decide
    unfold GatherDims.start
    rw [dif_neg (show (⟨1, by decide⟩ : Fin 4) ∉ (pointDims N C H W R P wf).startIndexMap from hn), Nat.zero_add]
    unfold GatherDims.offCoord
    rw [dif_pos ((GatherDims.mem_sKept _ _).mpr ⟨hn, List.not_mem_nil⟩)]
    rfl
  | ⟨2, _⟩ =>
    have hm : (⟨2, by decide⟩ : Fin 4) ∈ [(0 : Fin 4), 2, 3] := by decide
    rw [GatherDims.offCoord_eq_zero _ _ _ (fun h => ((GatherDims.mem_sKept _ _).mp h).1 hm), Nat.add_zero]
    unfold GatherDims.start
    rw [dif_pos (show (⟨2, by decide⟩ : Fin 4) ∈ (pointDims N C H W R P wf).startIndexMap from hm)]
    have hsi : (pointDims N C H W R P wf).siIdx (ix3 n p c) ⟨List.idxOf (⟨2, by decide⟩ : Fin 4)
        (pointDims N C H W R P wf).startIndexMap, List.idxOf_lt_length_iff.2 hm⟩ = ix3 n p (1 : Fin 3) := by
      funext b; refine Fin.ext ?_
      match b with
      | ⟨0, _⟩ => rfl
      | ⟨1, _⟩ => rfl
      | ⟨2, _⟩ => rfl
    rw [hsi]
    rfl
  | ⟨3, _⟩ =>
    have hm : (⟨3, by decide⟩ : Fin 4) ∈ [(0 : Fin 4), 2, 3] := by decide
    rw [GatherDims.offCoord_eq_zero _ _ _ (fun h => ((GatherDims.mem_sKept _ _).mp h).1 hm), Nat.add_zero]
    unfold GatherDims.start
    rw [dif_pos (show (⟨3, by decide⟩ : Fin 4) ∈ (pointDims N C H W R P wf).startIndexMap from hm)]
    have hsi : (pointDims N C H W R P wf).siIdx (ix3 n p c) ⟨List.idxOf (⟨3, by decide⟩ : Fin 4)
        (pointDims N C H W R P wf).startIndexMap, List.idxOf_lt_length_iff.2 hm⟩ = ix3 n p (2 : Fin 3) := by
      funext b; refine Fin.ext ?_
      match b with
      | ⟨0, _⟩ => rfl
      | ⟨1, _⟩ => rfl
      | ⟨2, _⟩ => rfl
    rw [hsi]
    rfl

/-! ## The concatenation of the three components -/

section Concat
variable {R P : ℕ} (a b c : (⟨3, ![R, P, 1]⟩ : Shape).Idx → α)
  (h : Shape.Concatenates (([⟨⟨3, ![R, P, 1]⟩, a⟩, ⟨⟨3, ![R, P, 1]⟩, b⟩, ⟨⟨3, ![R, P, 1]⟩, c⟩] :
    List ((s : Shape) × (s.Idx → α))).map (·.1)) ⟨3, ![R, P, 3]⟩ 2)

/-- Component 0 of `(n, p)` is the first array at `(n, p, 0)`. -/
theorem concat3_apply0 (n : Fin R) (p : Fin P) :
    concatenate ⟨3, ![R, P, 3]⟩ 2 [⟨⟨3, ![R, P, 1]⟩, a⟩, ⟨⟨3, ![R, P, 1]⟩, b⟩, ⟨⟨3, ![R, P, 1]⟩, c⟩] h
      (ix3 n p (0 : Fin 3)) = a (ix3 n p (0 : Fin 1)) :=
  concatenate_apply_piece 2 _ h _ 0 (by show (0 : ℕ) < 3; omega) ⟨3, ![R, P, 1]⟩ a rfl rfl 0 rfl (ix3 n p (0 : Fin 1))
    (fun d hd => match d with
      | ⟨0, _⟩ => rfl
      | ⟨1, _⟩ => rfl
      | ⟨2, _⟩ => absurd rfl hd) rfl

/-- Component 1 of `(n, p)` is the second array at `(n, p, 0)`. -/
theorem concat3_apply1 (n : Fin R) (p : Fin P) :
    concatenate ⟨3, ![R, P, 3]⟩ 2 [⟨⟨3, ![R, P, 1]⟩, a⟩, ⟨⟨3, ![R, P, 1]⟩, b⟩, ⟨⟨3, ![R, P, 1]⟩, c⟩] h
      (ix3 n p (1 : Fin 3)) = b (ix3 n p (0 : Fin 1)) :=
  concatenate_apply_piece 2 _ h _ 1 (by show (1 : ℕ) < 3; omega) ⟨3, ![R, P, 1]⟩ b rfl rfl 1 rfl (ix3 n p (0 : Fin 1))
    (fun d hd => match d with
      | ⟨0, _⟩ => rfl
      | ⟨1, _⟩ => rfl
      | ⟨2, _⟩ => absurd rfl hd) rfl

/-- Component 2 of `(n, p)` is the third array at `(n, p, 0)`. -/
theorem concat3_apply2 (n : Fin R) (p : Fin P) :
    concatenate ⟨3, ![R, P, 3]⟩ 2 [⟨⟨3, ![R, P, 1]⟩, a⟩, ⟨⟨3, ![R, P, 1]⟩, b⟩, ⟨⟨3, ![R, P, 1]⟩, c⟩] h
      (ix3 n p (2 : Fin 3)) = c (ix3 n p (0 : Fin 1)) :=
  concatenate_apply_piece 2 _ h _ 2 (by show (2 : ℕ) < 3; omega) ⟨3, ![R, P, 1]⟩ c rfl rfl 2 rfl (ix3 n p (0 : Fin 1))
    (fun d hd => match d with
      | ⟨0, _⟩ => rfl
      | ⟨1, _⟩ => rfl
      | ⟨2, _⟩ => absurd rfl hd) rfl

end Concat

/-! ## Words: the range test, the clip and the negative-index rule on an index in range -/

/-- The validity bit of a corner: the conjunction of the four signed comparisons `0 ≤ x`, `x < W`, `0 ≤ y`, `y < H`. -/
def validBit (Wd Hd x y : BitVec 32) : BitVec 1 :=
  IntOp.andi (IntOp.andi (IntOp.andi (IntOp.cmpi .sge x 0#32) (IntOp.cmpi .slt x Wd)) (IntOp.cmpi .sge y 0#32))
    (IntOp.cmpi .slt y Hd)

/-- Clipping a word into `[0, hi]` (signed): the larger of it and zero, then the smaller of that and `hi`. -/
def clip (hi v : BitVec 32) : BitVec 32 := IntOp.minsi hi (IntOp.maxsi 0#32 v)

/-- Array indexing's treatment of a negative index: the extent added to it. -/
def normIdx (D v : BitVec 32) : BitVec 32 := Scalar.select (IntOp.cmpi .slt v 0#32) (IntOp.addi v D) v

/-- A word whose number is below `2³¹` reads signed as that number. -/
theorem toInt_of_lt {x : BitVec 32} {W : ℕ} (hW : W ≤ 2 ^ 31) (hx : x.toNat < W) : x.toInt = (x.toNat : ℤ) := by
  rw [BitVec.toInt_eq_toNat_cond]
  split
  · rfl
  · omega

/-- The signed range test `0 ≤ x < W` on a word, for `W < 2³¹`, is `x.toNat < W`. -/
theorem sge_zero_and_slt_iff {x Wd : BitVec 32} {W : ℕ} (hW : W < 2 ^ 31) (hWd : Wd.toNat = W) :
    ((0#32).sle x = true ∧ x.slt Wd = true) ↔ x.toNat < W := by
  have hWi : Wd.toInt = (W : ℤ) := by
    rw [toInt_of_lt (x := Wd) (W := 2 ^ 31) (le_refl _) (by omega), hWd]
  rw [BitVec.sle, BitVec.slt, decide_eq_true_iff, decide_eq_true_iff, hWi]
  have h0 : (0#32).toInt = 0 := by decide
  rw [h0, BitVec.toInt_eq_toNat_cond]
  have := x.isLt
  split <;> omega

/-- The validity bit is `1` exactly when both coordinates are in range. -/
theorem validBit_eq {x y Wd Hd : BitVec 32} {W H : ℕ} (hW : W < 2 ^ 31) (hH : H < 2 ^ 31) (hWd : Wd.toNat = W)
    (hHd : Hd.toNat = H) : validBit Wd Hd x y = BitVec.ofBool (decide (x.toNat < W ∧ y.toNat < H)) := by
  have hx : decide (x.toNat < W) = ((0#32).sle x && x.slt Wd) := by
    rw [Bool.eq_iff_iff, decide_eq_true_iff, Bool.and_eq_true]; exact (sge_zero_and_slt_iff hW hWd).symm
  have hy : decide (y.toNat < H) = ((0#32).sle y && y.slt Hd) := by
    rw [Bool.eq_iff_iff, decide_eq_true_iff, Bool.and_eq_true]; exact (sge_zero_and_slt_iff hH hHd).symm
  rw [Bool.decide_and, hx, hy]
  show BitVec.ofBool ((0#32).sle x) &&& BitVec.ofBool (x.slt Wd) &&& BitVec.ofBool ((0#32).sle y)
    &&& BitVec.ofBool (y.slt Hd) = _
  cases (0#32).sle x <;> cases x.slt Wd <;> cases (0#32).sle y <;> cases y.slt Hd <;> rfl

/-- Clipping does nothing to a word in range. -/
theorem clip_of_lt {x hi : BitVec 32} {W : ℕ} (hW : W ≤ 2 ^ 31) (hhi : hi.toNat + 1 = W) (hx : x.toNat < W) :
    clip hi x = x := by
  have hxi := toInt_of_lt hW hx
  have hhii : hi.toInt = (hi.toNat : ℤ) := toInt_of_lt (x := hi) hW (by omega)
  have h0 : (0#32).toInt = 0 := by decide
  unfold clip IntOp.minsi IntOp.maxsi
  have hm : (if x.slt 0#32 = true then 0#32 else x) = x := by
    rw [if_neg]; rw [BitVec.slt, decide_eq_true_iff, h0, hxi]; omega
  rw [hm]
  by_cases hlt : hi.slt x = true
  · rw [BitVec.slt, decide_eq_true_iff, hhii, hxi] at hlt; omega
  · rw [if_neg hlt]

/-- Adding the extent to a negative index does nothing to a word whose number is below `2³¹`. -/
theorem normIdx_of_lt {x D : BitVec 32} {W : ℕ} (hW : W ≤ 2 ^ 31) (hx : x.toNat < W) : normIdx D x = x := by
  have hxi := toInt_of_lt hW hx
  have h0 : (0#32).toInt = 0 := by decide
  unfold normIdx Scalar.select IntOp.cmpi
  have : x.slt 0#32 = false := by
    rw [BitVec.slt, decide_eq_false_iff_not, h0, hxi]; omega
  rw [this]; rfl

/-- A start index in range, read signed and clamped into `[0, W − 1]`, is its number. -/
theorem clamp_of_lt {x : BitVec 32} {W : ℕ} (hW : W ≤ 2 ^ 31) (hx : x.toNat < W) :
    min x.toInt.toNat (W - 1) = x.toNat := by
  rw [toInt_of_lt hW hx, Int.toNat_natCast]; omega

/-! ## One corner of a sampling cell -/

/-- A map `[N, C, H, W]` at channel `c` as a function of three naturals (image, row, column), zero outside the map. -/
noncomputable def natMap {N C H W : ℕ} (x : (⟨4, ![N, C, H, W]⟩ : Shape).Idx → EReal) (c : Fin C) : ℕ → ℕ → ℕ → EReal :=
  fun b h w => if hh : b < N ∧ h < H ∧ w < W then x (ix4 ⟨b, hh.1⟩ c ⟨h, hh.2.1⟩ ⟨w, hh.2.2⟩) else 0

/-- The same function with the three range tests nested: image, then row, then column. -/
theorem natMap_apply_nested {N C H W : ℕ} (x : (⟨4, ![N, C, H, W]⟩ : Shape).Idx → EReal) (c : Fin C) (b h w : ℕ) :
    natMap x c b h w
      = if hb : b < N then if hh : h < H then if hw : w < W then x (ix4 ⟨b, hb⟩ c ⟨h, hh⟩ ⟨w, hw⟩) else 0 else 0 else 0 := by
  unfold natMap
  by_cases hb : b < N
  · by_cases hh : h < H
    · by_cases hw : w < W
      · rw [dif_pos ⟨hb, hh, hw⟩, dif_pos hb, dif_pos hh, dif_pos hw]
      · rw [dif_neg (fun k => hw k.2.2), dif_pos hb, dif_pos hh, dif_neg hw]
    · rw [dif_neg (fun k => hh k.2.1), dif_pos hb, dif_neg hh]
  · rw [dif_neg (fun k => hb k.1), dif_neg hb]

/-- … as an equation of functions of the three naturals. -/
theorem natMap_eq_nested {N C H W : ℕ} (x : (⟨4, ![N, C, H, W]⟩ : Shape).Idx → EReal) (c : Fin C) :
    natMap x c = fun b h w =>
      if hb : b < N then if hh : h < H then if hw : w < W then x (ix4 ⟨b, hb⟩ c ⟨h, hh⟩ ⟨w, hw⟩) else 0 else 0 else 0 := by
  funext b h w
  exact natMap_apply_nested x c b h w

/-- ONE CORNER: the map gathered at the clipped cell `(Y, X)` of image `B` — each index passed through the
    negative-index rule, as array indexing does — times the validity bit of the unclipped cell read as a number, is
    the map's value at `(B, Y, X)` when the cell lies in the map and zero otherwise. In range the clip, the
    negative-index rule and the gather's clamp all do nothing; out of range the product is a value times zero. -/
theorem corner_read {N C H W R P : ℕ} (hN : N ≤ 2 ^ 31) (hH : H < 2 ^ 31) (hW : W < 2 ^ 31)
    (wf : GatherDims.WF ⟨4, ![N, C, H, W]⟩ ⟨3, ![R, P, 3]⟩ ⟨3, ![R, P, C]⟩ [2] [0, 2, 3] [] [0, 2, 3] [] 2 ![1, C, 1, 1])
    (x : (⟨4, ![N, C, H, W]⟩ : Shape).Idx → EReal) (idx : IVec ⟨3, ![R, P, 3]⟩ 32) (n : Fin R) (p : Fin P) (c : Fin C)
    (B X Y Nd Hd Wd Hm Wm : BitVec 32) (hHd : Hd.toNat = H) (hWd : Wd.toNat = W) (hHm : Hm.toNat + 1 = H)
    (hWm : Wm.toNat + 1 = W) (hB : B.toNat < N)
    (h0 : idx (ix3 n p (0 : Fin 3)) = normIdx Nd B) (h1 : idx (ix3 n p (1 : Fin 3)) = normIdx Hd (clip Hm Y))
    (h2 : idx (ix3 n p (2 : Fin 3)) = normIdx Wd (clip Wm X)) :
    Host.gather (pointDims N C H W R P wf) x idx (ix3 n p c) * (((validBit Wd Hd X Y).toNat : ℝ) : EReal)
      = if X.toNat < W ∧ Y.toNat < H then natMap x c B.toNat Y.toNat X.toNat else 0 := by
  rw [validBit_eq hW hH hWd hHd]
  by_cases hv : X.toNat < W ∧ Y.toNat < H
  · rw [if_pos hv, decide_eq_true hv]
    have e1 : (((BitVec.ofBool true).toNat : ℝ) : EReal) = 1 := by
      show (((1 : ℕ) : ℝ) : EReal) = 1
      rw [Nat.cast_one, EReal.coe_one]
    rw [e1, mul_one, gather_point_apply (by omega) (by omega) (by omega) wf x idx n p c]
    unfold natMap
    rw [dif_pos ⟨hB, hv.2, hv.1⟩]
    congr 1
    have hY : (clip Hm Y) = Y := clip_of_lt (le_of_lt hH) hHm hv.2
    have hX : (clip Wm X) = X := clip_of_lt (le_of_lt hW) hWm hv.1
    funext a
    refine Fin.ext ?_
    match a with
    | ⟨0, _⟩ =>
      show min (idx (ix3 n p (0 : Fin 3))).toInt.toNat (N - 1) = B.toNat
      rw [h0, normIdx_of_lt hN hB, clamp_of_lt hN hB]
    | ⟨1, _⟩ => rfl
    | ⟨2, _⟩ =>
      show min (idx (ix3 n p (1 : Fin 3))).toInt.toNat (H - 1) = Y.toNat
      rw [h1, hY, normIdx_of_lt (le_of_lt hH) hv.2, clamp_of_lt (le_of_lt hH) hv.2]
    | ⟨3, _⟩ =>
      show min (idx (ix3 n p (2 : Fin 3))).toInt.toNat (W - 1) = X.toNat
      rw [h2, hX, normIdx_of_lt (le_of_lt hW) hv.1, clamp_of_lt (le_of_lt hW) hv.1]
  · rw [if_neg hv, decide_eq_false hv]
    have e0 : (((BitVec.ofBool false).toNat : ℝ) : EReal) = 0 := by
      show (((0 : ℕ) : ℝ) : EReal) = 0
      rw [Nat.cast_zero, EReal.coe_zero]
    rw [e0, mul_zero]

end Cert.LibGatherPoint
-- ==== Proof.RefLevel0.lean ====
/-
  Level 0 of the reference (the map of extent 256 × 256), read at one output element.

  The reference gathers, for every region `n`, sampling point `p` and channel `ch`, the four corners of the point's cell
  from the map — each corner's indices clipped into the map and passed through array indexing's negative-index rule,
  the gathered value multiplied by the corner's validity bit —, weights them with the point's fractions and adds the
  four terms; the level's output is that array with its last two axes exchanged. Read at `(n, ch, p)` this is the
  four-corner bilinear sample `refSample` of the map at channel `ch`, given the region's image index, the point's cell
  and its fractions, which stay the reference's own arrays. Each corner is one use of `corner_read`; the weights are
  broadcasts read at an index.
-/
import proofs.«110520_j35545149342110_1_alg».proof.Proof.RefReadP
import proofs.«110520_j35545149342110_1_alg».proof.Proof.LibRefSample
import proofs.«110520_j35545149342110_1_alg».proof.Proof.LibGatherPoint

noncomputable section

namespace Cert.RefLevel

open Cert.ReferenceIdeal Cert.ReferenceIdeal.Gen Cert.ReferenceIdeal.Read Idealize.ShloMosaic Idealize.ShloMosaic.ValueIdx
  Idealize.SL.Sem Cert.LibGatherPoint

/-- The elementwise operations and the broadcast constants of level 0, read at an index. -/
macro "lvl0_simp" : tactic => `(tactic| simp only [val_main_c_apply, val_main_v30_apply, val_main_v31_apply, val_main_c_3_apply, val_main_v32_apply, val_main_v33_apply, val_main_v34_apply, val_main_c_4_apply, val_main_v35_apply, val_main_v36_apply, val_main_v37_apply, val_main_c_5_apply, val_main_v38_apply, val_main_v39_apply, val_main_v40_apply, val_main_c_6_apply, val_main_c_7_apply, val_main_call0_v0_apply, val_main_call0_v1_apply, val_main_call0_v2_apply, val_main_call0_v3_apply, val_main_call0_v4_apply, val_main_v41_apply, val_main_c_8_apply, val_main_c_9_apply, val_main_call1_v0_apply, val_main_call1_v1_apply, val_main_call1_v2_apply, val_main_call1_v3_apply, val_main_call1_v4_apply, val_main_v42_apply, val_main_c_10_apply, val_main_v44_apply, val_main_v45_apply, val_main_c_11_apply, val_main_v46_apply, val_main_v47_apply, val_main_v48_apply, val_main_c_12_apply, val_main_v49_apply, val_main_v50_apply, val_main_c_13_apply, val_main_v51_apply, val_main_v52_apply, val_main_v53_apply, val_main_c_14_apply, val_main_v54_apply, val_main_v55_apply, val_main_c_15_apply, val_main_v56_apply, val_main_v57_apply, val_main_v58_apply, val_main_v66_apply, val_main_v68_apply, val_main_c_16_apply, val_main_v69_apply, val_main_v70_apply, val_main_c_17_apply, val_main_v71_apply, val_main_v72_apply, val_main_c_18_apply, val_main_v73_apply, val_main_v74_apply, val_main_v75_apply, val_main_c_19_apply, val_main_v76_apply, val_main_v77_apply, val_main_v78_apply, val_main_c_20_apply, val_main_v79_apply, val_main_v80_apply, val_main_v81_apply, val_main_c_21_apply, val_main_c_22_apply, val_main_call2_v0_apply, val_main_call2_v1_apply, val_main_call2_v2_apply, val_main_call2_v3_apply, val_main_call2_v4_apply, val_main_v82_apply, val_main_c_23_apply, val_main_c_24_apply, val_main_call3_v0_apply, val_main_call3_v1_apply, val_main_call3_v2_apply, val_main_call3_v3_apply, val_main_call3_v4_apply, val_main_v83_apply, val_main_c_25_apply, val_main_v85_apply, val_main_v86_apply, val_main_c_26_apply, val_main_v87_apply, val_main_v88_apply, val_main_v89_apply, val_main_c_27_apply, val_main_v90_apply, val_main_v91_apply, val_main_c_28_apply, val_main_v92_apply, val_main_v93_apply, val_main_v94_apply, val_main_c_29_apply, val_main_v95_apply, val_main_v96_apply, val_main_c_30_apply, val_main_v97_apply, val_main_v98_apply, val_main_v99_apply, val_main_v107_apply, val_main_v109_apply, val_main_c_31_apply, val_main_v110_apply, val_main_v111_apply, val_main_c_32_apply, val_main_v112_apply, val_main_v113_apply, val_main_c_33_apply, val_main_v114_apply, val_main_v115_apply, val_main_v116_apply, val_main_c_34_apply, val_main_v117_apply, val_main_v118_apply, val_main_v119_apply, val_main_c_35_apply, val_main_v120_apply, val_main_v121_apply, val_main_v122_apply, val_main_c_36_apply, val_main_c_37_apply, val_main_call4_v0_apply, val_main_call4_v1_apply, val_main_call4_v2_apply, val_main_call4_v3_apply, val_main_call4_v4_apply, val_main_v123_apply, val_main_c_38_apply, val_main_c_39_apply, val_main_call5_v0_apply, val_main_call5_v1_apply, val_main_call5_v2_apply, val_main_call5_v3_apply, val_main_call5_v4_apply, val_main_v124_apply, val_main_c_40_apply, val_main_v126_apply, val_main_v127_apply, val_main_c_41_apply, val_main_v128_apply, val_main_v129_apply, val_main_v130_apply, val_main_c_42_apply, val_main_v131_apply, val_main_v132_apply, val_main_c_43_apply, val_main_v133_apply, val_main_v134_apply, val_main_v135_apply, val_main_c_44_apply, val_main_v136_apply, val_main_v137_apply, val_main_c_45_apply, val_main_v138_apply, val_main_v139_apply, val_main_v140_apply, val_main_v148_apply, val_main_v150_apply, val_main_c_46_apply, val_main_v151_apply, val_main_v152_apply, val_main_c_47_apply, val_main_v153_apply, val_main_v154_apply, val_main_c_48_apply, val_main_v155_apply, val_main_v156_apply, val_main_c_49_apply, val_main_v157_apply, val_main_v158_apply, val_main_v159_apply, val_main_c_50_apply, val_main_v160_apply, val_main_v161_apply, val_main_v162_apply, val_main_c_51_apply, val_main_v163_apply, val_main_v164_apply, val_main_v165_apply, val_main_c_52_apply, val_main_c_53_apply, val_main_call6_v0_apply, val_main_call6_v1_apply, val_main_call6_v2_apply, val_main_call6_v3_apply, val_main_call6_v4_apply, val_main_v166_apply, val_main_c_54_apply, val_main_c_55_apply, val_main_call7_v0_apply, val_main_call7_v1_apply, val_main_call7_v2_apply, val_main_call7_v3_apply, val_main_call7_v4_apply, val_main_v167_apply, val_main_c_56_apply, val_main_v169_apply, val_main_v170_apply, val_main_c_57_apply, val_main_v171_apply, val_main_v172_apply, val_main_v173_apply, val_main_c_58_apply, val_main_v174_apply, val_main_v175_apply, val_main_c_59_apply, val_main_v176_apply, val_main_v177_apply, val_main_v178_apply, val_main_c_60_apply, val_main_v179_apply, val_main_v180_apply, val_main_c_61_apply, val_main_v181_apply, val_main_v182_apply, val_main_v183_apply, val_main_v191_apply, val_main_v193_apply, val_main_cst_62_apply, val_main_v196_apply, val_main_v197_apply, val_main_v199_apply, val_main_cst_63_apply, val_main_v200_apply, val_main_v201_apply, val_main_v203_apply, val_main_v205_apply, val_main_cst_64_apply, val_main_v206_apply, val_main_v207_apply, val_main_v209_apply, val_main_v210_apply, val_main_cst_65_apply, val_main_v211_apply, val_main_v212_apply, val_main_v214_apply, val_main_v216_apply, val_main_v217_apply, val_main_v219_apply, val_main_v221_apply, val_main_v222_apply])

/-- Corner `c00` of level 0: the gathered value times the validity bit is the map's value at the corner's cell, or zero
    when the cell lies outside the map. -/
theorem l0_c00 (x0 : (⟨S2x256x256x256, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v68 (F := Ideal) x0 x4 x5 (ix3 n p ch)
      = if (val_main_v28 (F := Ideal) x4 x5 (ix2 n p)).toNat < 256 ∧ (val_main_v29 (F := Ideal) x4 x5 (ix2 n p)).toNat < 256
          then natMap (N := 2) (C := 256) (H := 256) (W := 256) x0 ch (val_main_v2 (F := Ideal) x4 (ix1 n)).toNat (val_main_v29 (F := Ideal) x4 x5 (ix2 n p)).toNat (val_main_v28 (F := Ideal) x4 x5 (ix2 n p)).toNat else 0 := by
  have h0 : val_main_v63 (F := Ideal) x4 x5 (ix3 n p (0 : Fin 3)) = normIdx 2#32 (val_main_v2 (F := Ideal) x4 (ix1 n)) := by
    refine (concat3_apply0 _ _ _ _ n p).trans ?_
    rw [val_main_v60_apply, show idx_main_v60 (ix3 n p (0 : Fin 1)) = ix2 n p from idx2_eq rfl rfl,
      val_main_v59_apply, show idx_main_v59 (ix2 n p) = ix2 n (0 : Fin 1) from idx2_eq rfl rfl]
    lvl0_simp
    rw [val_main_v43_apply, show idx_main_v43 (ix2 n (0 : Fin 1)) = ix1 n from idx1_eq rfl]
    all_goals rfl
  have h1 : val_main_v63 (F := Ideal) x4 x5 (ix3 n p (1 : Fin 3)) = normIdx 256#32 (clip 255#32 (val_main_v29 (F := Ideal) x4 x5 (ix2 n p))) := by
    refine (concat3_apply1 _ _ _ _ n p).trans ?_
    rw [val_main_v61_apply, show idx_main_v61 (ix3 n p (0 : Fin 1)) = ix2 n p from idx2_eq rfl rfl]
    lvl0_simp
    all_goals rfl
  have h2 : val_main_v63 (F := Ideal) x4 x5 (ix3 n p (2 : Fin 3)) = normIdx 256#32 (clip 255#32 (val_main_v28 (F := Ideal) x4 x5 (ix2 n p))) := by
    refine (concat3_apply2 _ _ _ _ n p).trans ?_
    rw [val_main_v62_apply, show idx_main_v62 (ix3 n p (0 : Fin 1)) = ix2 n p from idx2_eq rfl rfl]
    lvl0_simp
    all_goals rfl
  have hv : val_main_v67 (F := Ideal) x4 x5 (ix3 n p ch) = (((validBit 256#32 256#32 (val_main_v28 (F := Ideal) x4 x5 (ix2 n p)) (val_main_v29 (F := Ideal) x4 x5 (ix2 n p))).toNat : ℝ) : EReal) := by
    rw [val_main_v67_apply, show idx_main_v67 (ix3 n p ch) = ix3 n p (0 : Fin 1) from idx3_eq rfl rfl rfl,
      val_main_v66_apply, val_main_v65_apply, show idx_main_v65 (ix3 n p (0 : Fin 1)) = ix2 n p from idx2_eq rfl rfl]
    lvl0_simp
    all_goals rfl
  rw [val_main_v68_apply, hv]
  exact corner_read (N := 2) (C := 256) (H := 256) (W := 256) (R := 512) (P := 128) (by norm_num) (by norm_num) (by norm_num)
    _ x0 (val_main_v63 (F := Ideal) x4 x5) n p ch (val_main_v2 (F := Ideal) x4 (ix1 n)) (val_main_v28 (F := Ideal) x4 x5 (ix2 n p)) (val_main_v29 (F := Ideal) x4 x5 (ix2 n p)) 2#32 256#32 256#32 255#32 255#32 rfl rfl rfl rfl hB h0 h1 h2

/-- Corner `c01` of level 0: the gathered value times the validity bit is the map's value at the corner's cell, or zero
    when the cell lies outside the map. -/
theorem l0_c01 (x0 : (⟨S2x256x256x256, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v109 (F := Ideal) x0 x4 x5 (ix3 n p ch)
      = if ((val_main_v28 (F := Ideal) x4 x5 (ix2 n p)) + 1).toNat < 256 ∧ (val_main_v29 (F := Ideal) x4 x5 (ix2 n p)).toNat < 256
          then natMap (N := 2) (C := 256) (H := 256) (W := 256) x0 ch (val_main_v2 (F := Ideal) x4 (ix1 n)).toNat (val_main_v29 (F := Ideal) x4 x5 (ix2 n p)).toNat ((val_main_v28 (F := Ideal) x4 x5 (ix2 n p)) + 1).toNat else 0 := by
  have h0 : val_main_v104 (F := Ideal) x4 x5 (ix3 n p (0 : Fin 3)) = normIdx 2#32 (val_main_v2 (F := Ideal) x4 (ix1 n)) := by
    refine (concat3_apply0 _ _ _ _ n p).trans ?_
    rw [val_main_v101_apply, show idx_main_v101 (ix3 n p (0 : Fin 1)) = ix2 n p from idx2_eq rfl rfl,
      val_main_v100_apply, show idx_main_v100 (ix2 n p) = ix2 n (0 : Fin 1) from idx2_eq rfl rfl]
    lvl0_simp
    rw [val_main_v84_apply, show idx_main_v84 (ix2 n (0 : Fin 1)) = ix1 n from idx1_eq rfl]
    all_goals rfl
  have h1 : val_main_v104 (F := Ideal) x4 x5 (ix3 n p (1 : Fin 3)) = normIdx 256#32 (clip 255#32 (val_main_v29 (F := Ideal) x4 x5 (ix2 n p))) := by
    refine (concat3_apply1 _ _ _ _ n p).trans ?_
    rw [val_main_v102_apply, show idx_main_v102 (ix3 n p (0 : Fin 1)) = ix2 n p from idx2_eq rfl rfl]
    lvl0_simp
    all_goals rfl
  have h2 : val_main_v104 (F := Ideal) x4 x5 (ix3 n p (2 : Fin 3)) = normIdx 256#32 (clip 255#32 ((val_main_v28 (F := Ideal) x4 x5 (ix2 n p)) + 1)) := by
    refine (concat3_apply2 _ _ _ _ n p).trans ?_
    rw [val_main_v103_apply, show idx_main_v103 (ix3 n p (0 : Fin 1)) = ix2 n p from idx2_eq rfl rfl]
    lvl0_simp
    all_goals rfl
  have hv : val_main_v108 (F := Ideal) x4 x5 (ix3 n p ch) = (((validBit 256#32 256#32 ((val_main_v28 (F := Ideal) x4 x5 (ix2 n p)) + 1) (val_main_v29 (F := Ideal) x4 x5 (ix2 n p))).toNat : ℝ) : EReal) := by
    rw [val_main_v108_apply, show idx_main_v108 (ix3 n p ch) = ix3 n p (0 : Fin 1) from idx3_eq rfl rfl rfl,
      val_main_v107_apply, val_main_v106_apply, show idx_main_v106 (ix3 n p (0 : Fin 1)) = ix2 n p from idx2_eq rfl rfl]
    lvl0_simp
    all_goals rfl
  rw [val_main_v109_apply, hv]
  exact corner_read (N := 2) (C := 256) (H := 256) (W := 256) (R := 512) (P := 128) (by norm_num) (by norm_num) (by norm_num)
    _ x0 (val_main_v104 (F := Ideal) x4 x5) n p ch (val_main_v2 (F := Ideal) x4 (ix1 n)) ((val_main_v28 (F := Ideal) x4 x5 (ix2 n p)) + 1) (val_main_v29 (F := Ideal) x4 x5 (ix2 n p)) 2#32 256#32 256#32 255#32 255#32 rfl rfl rfl rfl hB h0 h1 h2

/-- Corner `c10` of level 0: the gathered value times the validity bit is the map's value at the corner's cell, or zero
    when the cell lies outside the map. -/
theorem l0_c10 (x0 : (⟨S2x256x256x256, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v150 (F := Ideal) x0 x4 x5 (ix3 n p ch)
      = if (val_main_v28 (F := Ideal) x4 x5 (ix2 n p)).toNat < 256 ∧ ((val_main_v29 (F := Ideal) x4 x5 (ix2 n p)) + 1).toNat < 256
          then natMap (N := 2) (C := 256) (H := 256) (W := 256) x0 ch (val_main_v2 (F := Ideal) x4 (ix1 n)).toNat ((val_main_v29 (F := Ideal) x4 x5 (ix2 n p)) + 1).toNat (val_main_v28 (F := Ideal) x4 x5 (ix2 n p)).toNat else 0 := by
  have h0 : val_main_v145 (F := Ideal) x4 x5 (ix3 n p (0 : Fin 3)) = normIdx 2#32 (val_main_v2 (F := Ideal) x4 (ix1 n)) := by
    refine (concat3_apply0 _ _ _ _ n p).trans ?_
    rw [val_main_v142_apply, show idx_main_v142 (ix3 n p (0 : Fin 1)) = ix2 n p from idx2_eq rfl rfl,
      val_main_v141_apply, show idx_main_v141 (ix2 n p) = ix2 n (0 : Fin 1) from idx2_eq rfl rfl]
    lvl0_simp
    rw [val_main_v125_apply, show idx_main_v125 (ix2 n (0 : Fin 1)) = ix1 n from idx1_eq rfl]
    all_goals rfl
  have h1 : val_main_v145 (F := Ideal) x4 x5 (ix3 n p (1 : Fin 3)) = normIdx 256#32 (clip 255#32 ((val_main_v29 (F := Ideal) x4 x5 (ix2 n p)) + 1)) := by
    refine (concat3_apply1 _ _ _ _ n p).trans ?_
    rw [val_main_v143_apply, show idx_main_v143 (ix3 n p (0 : Fin 1)) = ix2 n p from idx2_eq rfl rfl]
    lvl0_simp
    all_goals rfl
  have h2 : val_main_v145 (F := Ideal) x4 x5 (ix3 n p (2 : Fin 3)) = normIdx 256#32 (clip 255#32 (val_main_v28 (F := Ideal) x4 x5 (ix2 n p))) := by
    refine (concat3_apply2 _ _ _ _ n p).trans ?_
    rw [val_main_v144_apply, show idx_main_v144 (ix3 n p (0 : Fin 1)) = ix2 n p from idx2_eq rfl rfl]
    lvl0_simp
    all_goals rfl
  have hv : val_main_v149 (F := Ideal) x4 x5 (ix3 n p ch) = (((validBit 256#32 256#32 (val_main_v28 (F := Ideal) x4 x5 (ix2 n p)) ((val_main_v29 (F := Ideal) x4 x5 (ix2 n p)) + 1)).toNat : ℝ) : EReal) := by
    rw [val_main_v149_apply, show idx_main_v149 (ix3 n p ch) = ix3 n p (0 : Fin 1) from idx3_eq rfl rfl rfl,
      val_main_v148_apply, val_main_v147_apply, show idx_main_v147 (ix3 n p (0 : Fin 1)) = ix2 n p from idx2_eq rfl rfl]
    lvl0_simp
    all_goals rfl
  rw [val_main_v150_apply, hv]
  exact corner_read (N := 2) (C := 256) (H := 256) (W := 256) (R := 512) (P := 128) (by norm_num) (by norm_num) (by norm_num)
    _ x0 (val_main_v145 (F := Ideal) x4 x5) n p ch (val_main_v2 (F := Ideal) x4 (ix1 n)) (val_main_v28 (F := Ideal) x4 x5 (ix2 n p)) ((val_main_v29 (F := Ideal) x4 x5 (ix2 n p)) + 1) 2#32 256#32 256#32 255#32 255#32 rfl rfl rfl rfl hB h0 h1 h2

/-- Corner `c11` of level 0: the gathered value times the validity bit is the map's value at the corner's cell, or zero
    when the cell lies outside the map. -/
theorem l0_c11 (x0 : (⟨S2x256x256x256, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v193 (F := Ideal) x0 x4 x5 (ix3 n p ch)
      = if ((val_main_v28 (F := Ideal) x4 x5 (ix2 n p)) + 1).toNat < 256 ∧ ((val_main_v29 (F := Ideal) x4 x5 (ix2 n p)) + 1).toNat < 256
          then natMap (N := 2) (C := 256) (H := 256) (W := 256) x0 ch (val_main_v2 (F := Ideal) x4 (ix1 n)).toNat ((val_main_v29 (F := Ideal) x4 x5 (ix2 n p)) + 1).toNat ((val_main_v28 (F := Ideal) x4 x5 (ix2 n p)) + 1).toNat else 0 := by
  have h0 : val_main_v188 (F := Ideal) x4 x5 (ix3 n p (0 : Fin 3)) = normIdx 2#32 (val_main_v2 (F := Ideal) x4 (ix1 n)) := by
    refine (concat3_apply0 _ _ _ _ n p).trans ?_
    rw [val_main_v185_apply, show idx_main_v185 (ix3 n p (0 : Fin 1)) = ix2 n p from idx2_eq rfl rfl,
      val_main_v184_apply, show idx_main_v184 (ix2 n p) = ix2 n (0 : Fin 1) from idx2_eq rfl rfl]
    lvl0_simp
    rw [val_main_v168_apply, show idx_main_v168 (ix2 n (0 : Fin 1)) = ix1 n from idx1_eq rfl]
    all_goals rfl
  have h1 : val_main_v188 (F := Ideal) x4 x5 (ix3 n p (1 : Fin 3)) = normIdx 256#32 (clip 255#32 ((val_main_v29 (F := Ideal) x4 x5 (ix2 n p)) + 1)) := by
    refine (concat3_apply1 _ _ _ _ n p).trans ?_
    rw [val_main_v186_apply, show idx_main_v186 (ix3 n p (0 : Fin 1)) = ix2 n p from idx2_eq rfl rfl]
    lvl0_simp
    all_goals rfl
  have h2 : val_main_v188 (F := Ideal) x4 x5 (ix3 n p (2 : Fin 3)) = normIdx 256#32 (clip 255#32 ((val_main_v28 (F := Ideal) x4 x5 (ix2 n p)) + 1)) := by
    refine (concat3_apply2 _ _ _ _ n p).trans ?_
    rw [val_main_v187_apply, show idx_main_v187 (ix3 n p (0 : Fin 1)) = ix2 n p from idx2_eq rfl rfl]
    lvl0_simp
    all_goals rfl
  have hv : val_main_v192 (F := Ideal) x4 x5 (ix3 n p ch) = (((validBit 256#32 256#32 ((val_main_v28 (F := Ideal) x4 x5 (ix2 n p)) + 1) ((val_main_v29 (F := Ideal) x4 x5 (ix2 n p)) + 1)).toNat : ℝ) : EReal) := by
    rw [val_main_v192_apply, show idx_main_v192 (ix3 n p ch) = ix3 n p (0 : Fin 1) from idx3_eq rfl rfl rfl,
      val_main_v191_apply, val_main_v190_apply, show idx_main_v190 (ix3 n p (0 : Fin 1)) = ix2 n p from idx2_eq rfl rfl]
    lvl0_simp
    all_goals rfl
  rw [val_main_v193_apply, hv]
  exact corner_read (N := 2) (C := 256) (H := 256) (W := 256) (R := 512) (P := 128) (by norm_num) (by norm_num) (by norm_num)
    _ x0 (val_main_v188 (F := Ideal) x4 x5) n p ch (val_main_v2 (F := Ideal) x4 (ix1 n)) ((val_main_v28 (F := Ideal) x4 x5 (ix2 n p)) + 1) ((val_main_v29 (F := Ideal) x4 x5 (ix2 n p)) + 1) 2#32 256#32 256#32 255#32 255#32 rfl rfl rfl rfl hB h0 h1 h2

/-- LEVEL 0 AT ONE OUTPUT ELEMENT: the reference's value at region `n`, channel `ch`, point `p` is the four-corner
    bilinear sample of the map at channel `ch`, for a region whose image index is 0 or 1. -/
theorem ref0_apply (x0 : (⟨S2x256x256x256, .f32⟩ : BufTy).Contents (Elt Ideal)) (x4 : (⟨S512x5, .f32⟩ : BufTy).Contents (Elt Ideal))
    (x5 : (⟨S512x128x2, .f32⟩ : BufTy).Contents (Elt Ideal)) (n : Fin 512) (ch : Fin 256) (p : Fin 128)
    (hB : (val_main_v2 (F := Ideal) x4 (ix1 n)).toNat < 2) :
    val_main_v223 (F := Ideal) x0 x4 x5 (ix3 n ch p)
      = Cert.LibRefSample.refSample 256 256 (natMap (N := 2) (C := 256) (H := 256) (W := 256) x0 ch) (val_main_v2 (F := Ideal) x4 (ix1 n))
          (val_main_v28 (F := Ideal) x4 x5 (ix2 n p)) (val_main_v29 (F := Ideal) x4 x5 (ix2 n p)) (Idealize.ShloMosaic.Ideal.ofBits .f32 0x3F800000#32)
          (val_main_v26 (F := Ideal) x4 x5 (ix2 n p)) (val_main_v27 (F := Ideal) x4 x5 (ix2 n p)) := by
  have w198 : val_main_v198 (F := Ideal) x4 x5 (ix3 n p ch) = (Idealize.ShloMosaic.Ideal.ofBits .f32 0x3F800000#32) - (val_main_v26 (F := Ideal) x4 x5 (ix2 n p)) := by
    rw [val_main_v198_apply, show idx_main_v198 (ix3 n p ch) = ix3 n p (0 : Fin 1) from idx3_eq rfl rfl rfl, val_main_v197_apply,
      val_main_v196_apply, val_main_cst_62_apply, val_main_v194_apply,
      show idx_main_v194 (ix3 n p (0 : Fin 1)) = ix2 n p from idx2_eq rfl rfl]
    all_goals rfl
  have w202 : val_main_v202 (F := Ideal) x4 x5 (ix3 n p ch) = (Idealize.ShloMosaic.Ideal.ofBits .f32 0x3F800000#32) - (val_main_v27 (F := Ideal) x4 x5 (ix2 n p)) := by
    rw [val_main_v202_apply, show idx_main_v202 (ix3 n p ch) = ix3 n p (0 : Fin 1) from idx3_eq rfl rfl rfl, val_main_v201_apply,
      val_main_v200_apply, val_main_cst_63_apply, val_main_v195_apply,
      show idx_main_v195 (ix3 n p (0 : Fin 1)) = ix2 n p from idx2_eq rfl rfl]
    all_goals rfl
  have w204 : val_main_v204 (F := Ideal) x4 x5 (ix3 n p ch) = (val_main_v26 (F := Ideal) x4 x5 (ix2 n p)) := by
    rw [val_main_v204_apply, show idx_main_v204 (ix3 n p ch) = ix3 n p (0 : Fin 1) from idx3_eq rfl rfl rfl, val_main_v194_apply,
      show idx_main_v194 (ix3 n p (0 : Fin 1)) = ix2 n p from idx2_eq rfl rfl]
  have w208 : val_main_v208 (F := Ideal) x4 x5 (ix3 n p ch) = (Idealize.ShloMosaic.Ideal.ofBits .f32 0x3F800000#32) - (val_main_v27 (F := Ideal) x4 x5 (ix2 n p)) := by
    rw [val_main_v208_apply, show idx_main_v208 (ix3 n p ch) = ix3 n p (0 : Fin 1) from idx3_eq rfl rfl rfl, val_main_v207_apply,
      val_main_v206_apply, val_main_cst_64_apply, val_main_v195_apply,
      show idx_main_v195 (ix3 n p (0 : Fin 1)) = ix2 n p from idx2_eq rfl rfl]
    all_goals rfl
  have w213 : val_main_v213 (F := Ideal) x4 x5 (ix3 n p ch) = (Idealize.ShloMosaic.Ideal.ofBits .f32 0x3F800000#32) - (val_main_v26 (F := Ideal) x4 x5 (ix2 n p)) := by
    rw [val_main_v213_apply, show idx_main_v213 (ix3 n p ch) = ix3 n p (0 : Fin 1) from idx3_eq rfl rfl rfl, val_main_v212_apply,
      val_main_v211_apply, val_main_cst_65_apply, val_main_v194_apply,
      show idx_main_v194 (ix3 n p (0 : Fin 1)) = ix2 n p from idx2_eq rfl rfl]
    all_goals rfl
  have w215 : val_main_v215 (F := Ideal) x4 x5 (ix3 n p ch) = (val_main_v27 (F := Ideal) x4 x5 (ix2 n p)) := by
    rw [val_main_v215_apply, show idx_main_v215 (ix3 n p ch) = ix3 n p (0 : Fin 1) from idx3_eq rfl rfl rfl, val_main_v195_apply,
      show idx_main_v195 (ix3 n p (0 : Fin 1)) = ix2 n p from idx2_eq rfl rfl]
  have w218 : val_main_v218 (F := Ideal) x4 x5 (ix3 n p ch) = (val_main_v26 (F := Ideal) x4 x5 (ix2 n p)) := by
    rw [val_main_v218_apply, show idx_main_v218 (ix3 n p ch) = ix3 n p (0 : Fin 1) from idx3_eq rfl rfl rfl, val_main_v194_apply,
      show idx_main_v194 (ix3 n p (0 : Fin 1)) = ix2 n p from idx2_eq rfl rfl]
  have w220 : val_main_v220 (F := Ideal) x4 x5 (ix3 n p ch) = (val_main_v27 (F := Ideal) x4 x5 (ix2 n p)) := by
    rw [val_main_v220_apply, show idx_main_v220 (ix3 n p ch) = ix3 n p (0 : Fin 1) from idx3_eq rfl rfl rfl, val_main_v195_apply,
      show idx_main_v195 (ix3 n p (0 : Fin 1)) = ix2 n p from idx2_eq rfl rfl]
  rw [val_main_v223_apply, show idx_main_v223 (ix3 n ch p) = ix3 n p ch from idx3_eq rfl rfl rfl,
    val_main_v222_apply, val_main_v217_apply, val_main_v210_apply, val_main_v203_apply, val_main_v199_apply, val_main_v209_apply, val_main_v205_apply,
    val_main_v216_apply, val_main_v214_apply, val_main_v221_apply, val_main_v219_apply,
    l0_c00 x0 x4 x5 n p ch hB, l0_c01 x0 x4 x5 n p ch hB, l0_c10 x0 x4 x5 n p ch hB, l0_c11 x0 x4 x5 n p ch hB,
    w198, w202, w204, w208, w213, w215, w218, w220]
  all_goals rfl

end Cert.RefLevel

end
-- ==== Proof.LibReal.lean ====
/-
  Reals among the extended reals, closed under the operations of the sampling arithmetic: sums, differences, products,
  the quotient by a nonzero real, and the floor. The float literals met (1, 0.5, 4, 8, 16, 32) denote reals.
-/
import Idealize.ShloMosaic.PureOps.Ideal
import Idealize.ShloMosaic.PureOps.Ideal.Laws

namespace Cert.LibReal

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.div {x y : EReal} (hx : IsReal x) (r : ℝ) (hr : r ≠ 0) (hy : y = (r : EReal)) : IsReal (Ideal.div x y) := by
  obtain ⟨a, rfl⟩ := hx
  rw [hy, Ideal.div_coe hr]
  exact ⟨a * (1 / r), (EReal.coe_mul a (1 / r)).symm⟩
theorem IsReal.floor {x : EReal} (hx : IsReal x) : IsReal (Ideal.liftRound Int.floor x) := by
  obtain ⟨a, rfl⟩ := hx; exact ⟨((Int.floor a : ℤ) : ℝ), Ideal.liftRound_coe a Int.floor⟩

/-! ## The literals -/

theorem lit_one : Ideal.ofBits .f32 0x3F800000#32 = ((1 : ℝ) : EReal) := by
  simp [Ideal.ofBits, Ideal.ieee]
  norm_cast
  norm_num
theorem lit_half : Ideal.ofBits .f32 0x3F000000#32 = ((0.5 : ℝ) : EReal) := by
  simp [Ideal.ofBits, Ideal.ieee]
  norm_cast
  norm_num
theorem lit_4 : Ideal.ofBits .f32 0x40800000#32 = ((4 : ℝ) : EReal) := by
  simp [Ideal.ofBits, Ideal.ieee]
  norm_cast
  norm_num
theorem lit_8 : Ideal.ofBits .f32 0x41000000#32 = ((8 : ℝ) : EReal) := by
  simp [Ideal.ofBits, Ideal.ieee]
  norm_cast
  norm_num
theorem lit_16 : Ideal.ofBits .f32 0x41800000#32 = ((16 : ℝ) : EReal) := by
  simp [Ideal.ofBits, Ideal.ieee]
  norm_cast
  norm_num
theorem lit_32 : Ideal.ofBits .f32 0x42000000#32 = ((32 : ℝ) : EReal) := by
  simp [Ideal.ofBits, Ideal.ieee]
  norm_cast
  norm_num

end Cert.LibReal
-- ==== Proof.RefReal.lean ====
/-
  The reference's sampling coordinates and fractions are real numbers when the inputs are. The coordinates are
  `xy1 + points · (xy2 − xy1)` of entries of `rois` and `points`; a level's cell coordinate is that divided by the level's
  stride, minus one half; the fraction is the coordinate minus its floor.
-/
import proofs.«110520_j35545149342110_1_alg».proof.Proof.RefReadP
import proofs.«110520_j35545149342110_1_alg».proof.Proof.LibReal

set_option maxRecDepth 16384

noncomputable section

namespace Cert.RefReal

open Cert.ReferenceIdeal Idealize.ShloMosaic Cert.LibReal

variable (x4 : (⟨S512x5, .f32⟩ : BufTy).Contents (Elt Ideal)) (x5 : (⟨S512x128x2, .f32⟩ : BufTy).Contents (Elt Ideal))
variable (h4 : ∀ i, IsReal (x4 i)) (h5 : ∀ i, IsReal (x5 i))
include h4 h5

/-- The sampling coordinates are real. -/
theorem real_coords (i : S512x128x2.Idx) : IsReal (Cert.ReferenceIdeal.Read.val_main_v11 (F := Ideal) x4 x5 i) := by
  rw [Cert.ReferenceIdeal.Read.val_main_v11_apply, Cert.ReferenceIdeal.Read.val_main_v10_apply, Cert.ReferenceIdeal.Read.val_main_v5_apply, Cert.ReferenceIdeal.Read.val_main_v3_apply,
    Cert.ReferenceIdeal.Read.val_main_v9_apply, Cert.ReferenceIdeal.Read.val_main_v8_apply, Cert.ReferenceIdeal.Read.val_main_v7_apply, Cert.ReferenceIdeal.Read.val_main_v6_apply, Cert.ReferenceIdeal.Read.val_main_v4_apply, Cert.ReferenceIdeal.Read.val_main_v3_apply]
  exact IsReal.add (h4 _) (IsReal.mul (h5 _) (IsReal.sub (h4 _) (h4 _)))

/-! ## Level 0 -/

/-- Level 0: the x sampling coordinate in cells, `coords / stride − 0.5`, is real. -/
theorem real0_px (i : S512x128.Idx) : IsReal (Cert.ReferenceIdeal.Read.val_main_v17 (F := Ideal) x4 x5 i) := by
  rw [Cert.ReferenceIdeal.Read.val_main_v17_apply, Cert.ReferenceIdeal.Read.val_main_v15_apply, Cert.ReferenceIdeal.Read.val_main_v13_apply, Cert.ReferenceIdeal.Read.val_main_v12_apply,
    Cert.ReferenceIdeal.Read.val_main_v14_apply, Cert.ReferenceIdeal.Read.val_main_cst_apply, Cert.ReferenceIdeal.Read.val_main_v16_apply, Cert.ReferenceIdeal.Read.val_main_cst_0_apply]
  exact IsReal.sub (IsReal.div (real_coords x4 x5 h4 h5 _) 4 (by norm_num) lit_4) ⟨0.5, lit_half⟩

/-- Level 0: the y sampling coordinate in cells, `coords / stride − 0.5`, is real. -/
theorem real0_py (i : S512x128.Idx) : IsReal (Cert.ReferenceIdeal.Read.val_main_v23 (F := Ideal) x4 x5 i) := by
  rw [Cert.ReferenceIdeal.Read.val_main_v23_apply, Cert.ReferenceIdeal.Read.val_main_v21_apply, Cert.ReferenceIdeal.Read.val_main_v19_apply, Cert.ReferenceIdeal.Read.val_main_v18_apply,
    Cert.ReferenceIdeal.Read.val_main_v20_apply, Cert.ReferenceIdeal.Read.val_main_cst_1_apply, Cert.ReferenceIdeal.Read.val_main_v22_apply, Cert.ReferenceIdeal.Read.val_main_cst_2_apply]
  exact IsReal.sub (IsReal.div (real_coords x4 x5 h4 h5 _) 4 (by norm_num) lit_4) ⟨0.5, lit_half⟩

/-- Level 0: the fractions `p − floor p` are real. -/
theorem real0_wx (i : S512x128.Idx) : IsReal (Cert.ReferenceIdeal.Read.val_main_v26 (F := Ideal) x4 x5 i) := by
  rw [Cert.ReferenceIdeal.Read.val_main_v26_apply, Cert.ReferenceIdeal.Read.val_main_v24_apply]
  exact IsReal.sub (real0_px x4 x5 h4 h5 i) (IsReal.floor (real0_px x4 x5 h4 h5 i))
theorem real0_wy (i : S512x128.Idx) : IsReal (Cert.ReferenceIdeal.Read.val_main_v27 (F := Ideal) x4 x5 i) := by
  rw [Cert.ReferenceIdeal.Read.val_main_v27_apply, Cert.ReferenceIdeal.Read.val_main_v25_apply]
  exact IsReal.sub (real0_py x4 x5 h4 h5 i) (IsReal.floor (real0_py x4 x5 h4 h5 i))

/-! ## Level 1 -/

/-- Level 1: the x sampling coordinate in cells, `coords / stride − 0.5`, is real. -/
theorem real1_px (i : S512x128.Idx) : IsReal (Cert.ReferenceIdeal.Read.val_main_v229 (F := Ideal) x4 x5 i) := by
  rw [Cert.ReferenceIdeal.Read.val_main_v229_apply, Cert.ReferenceIdeal.Read.val_main_v227_apply, Cert.ReferenceIdeal.Read.val_main_v225_apply, Cert.ReferenceIdeal.Read.val_main_v224_apply,
    Cert.ReferenceIdeal.Read.val_main_v226_apply, Cert.ReferenceIdeal.Read.val_main_cst_66_apply, Cert.ReferenceIdeal.Read.val_main_v228_apply, Cert.ReferenceIdeal.Read.val_main_cst_67_apply]
  exact IsReal.sub (IsReal.div (real_coords x4 x5 h4 h5 _) 8 (by norm_num) lit_8) ⟨0.5, lit_half⟩

/-- Level 1: the y sampling coordinate in cells, `coords / stride − 0.5`, is real. -/
theorem real1_py (i : S512x128.Idx) : IsReal (Cert.ReferenceIdeal.Read.val_main_v235 (F := Ideal) x4 x5 i) := by
  rw [Cert.ReferenceIdeal.Read.val_main_v235_apply, Cert.ReferenceIdeal.Read.val_main_v233_apply, Cert.ReferenceIdeal.Read.val_main_v231_apply, Cert.ReferenceIdeal.Read.val_main_v230_apply,
    Cert.ReferenceIdeal.Read.val_main_v232_apply, Cert.ReferenceIdeal.Read.val_main_cst_68_apply, Cert.ReferenceIdeal.Read.val_main_v234_apply, Cert.ReferenceIdeal.Read.val_main_cst_69_apply]
  exact IsReal.sub (IsReal.div (real_coords x4 x5 h4 h5 _) 8 (by norm_num) lit_8) ⟨0.5, lit_half⟩

/-- Level 1: the fractions `p − floor p` are real. -/
theorem real1_wx (i : S512x128.Idx) : IsReal (Cert.ReferenceIdeal.Read.val_main_v238 (F := Ideal) x4 x5 i) := by
  rw [Cert.ReferenceIdeal.Read.val_main_v238_apply, Cert.ReferenceIdeal.Read.val_main_v236_apply]
  exact IsReal.sub (real1_px x4 x5 h4 h5 i) (IsReal.floor (real1_px x4 x5 h4 h5 i))
theorem real1_wy (i : S512x128.Idx) : IsReal (Cert.ReferenceIdeal.Read.val_main_v239 (F := Ideal) x4 x5 i) := by
  rw [Cert.ReferenceIdeal.Read.val_main_v239_apply, Cert.ReferenceIdeal.Read.val_main_v237_apply]
  exact IsReal.sub (real1_py x4 x5 h4 h5 i) (IsReal.floor (real1_py x4 x5 h4 h5 i))

/-! ## Level 2 -/

/-- Level 2: the x sampling coordinate in cells, `coords / stride − 0.5`, is real. -/
theorem real2_px (i : S512x128.Idx) : IsReal (Cert.ReferenceIdeal.Read.val_main_v441 (F := Ideal) x4 x5 i) := by
  rw [Cert.ReferenceIdeal.Read.val_main_v441_apply, Cert.ReferenceIdeal.Read.val_main_v439_apply, Cert.ReferenceIdeal.Read.val_main_v437_apply, Cert.ReferenceIdeal.Read.val_main_v436_apply,
    Cert.ReferenceIdeal.Read.val_main_v438_apply, Cert.ReferenceIdeal.Read.val_main_cst_134_apply, Cert.ReferenceIdeal.Read.val_main_v440_apply, Cert.ReferenceIdeal.Read.val_main_cst_135_apply]
  exact IsReal.sub (IsReal.div (real_coords x4 x5 h4 h5 _) 16 (by norm_num) lit_16) ⟨0.5, lit_half⟩

/-- Level 2: the y sampling coordinate in cells, `coords / stride − 0.5`, is real. -/
theorem real2_py (i : S512x128.Idx) : IsReal (Cert.ReferenceIdeal.Read.val_main_v447 (F := Ideal) x4 x5 i) := by
  rw [Cert.ReferenceIdeal.Read.val_main_v447_apply, Cert.ReferenceIdeal.Read.val_main_v445_apply, Cert.ReferenceIdeal.Read.val_main_v443_apply, Cert.ReferenceIdeal.Read.val_main_v442_apply,
    Cert.ReferenceIdeal.Read.val_main_v444_apply, Cert.ReferenceIdeal.Read.val_main_cst_136_apply, Cert.ReferenceIdeal.Read.val_main_v446_apply, Cert.ReferenceIdeal.Read.val_main_cst_137_apply]
  exact IsReal.sub (IsReal.div (real_coords x4 x5 h4 h5 _) 16 (by norm_num) lit_16) ⟨0.5, lit_half⟩

/-- Level 2: the fractions `p − floor p` are real. -/
theorem real2_wx (i : S512x128.Idx) : IsReal (Cert.ReferenceIdeal.Read.val_main_v450 (F := Ideal) x4 x5 i) := by
  rw [Cert.ReferenceIdeal.Read.val_main_v450_apply, Cert.ReferenceIdeal.Read.val_main_v448_apply]
  exact IsReal.sub (real2_px x4 x5 h4 h5 i) (IsReal.floor (real2_px x4 x5 h4 h5 i))
theorem real2_wy (i : S512x128.Idx) : IsReal (Cert.ReferenceIdeal.Read.val_main_v451 (F := Ideal) x4 x5 i) := by
  rw [Cert.ReferenceIdeal.Read.val_main_v451_apply, Cert.ReferenceIdeal.Read.val_main_v449_apply]
  exact IsReal.sub (real2_py x4 x5 h4 h5 i) (IsReal.floor (real2_py x4 x5 h4 h5 i))

/-! ## Level 3 -/

/-- Level 3: the x sampling coordinate in cells, `coords / stride − 0.5`, is real. -/
theorem real3_px (i : S512x128.Idx) : IsReal (Cert.ReferenceIdeal.Read.val_main_v653 (F := Ideal) x4 x5 i) := by
  rw [Cert.ReferenceIdeal.Read.val_main_v653_apply, Cert.ReferenceIdeal.Read.val_main_v651_apply, Cert.ReferenceIdeal.Read.val_main_v649_apply, Cert.ReferenceIdeal.Read.val_main_v648_apply,
    Cert.ReferenceIdeal.Read.val_main_v650_apply, Cert.ReferenceIdeal.Read.val_main_cst_202_apply, Cert.ReferenceIdeal.Read.val_main_v652_apply, Cert.ReferenceIdeal.Read.val_main_cst_203_apply]
  exact IsReal.sub (IsReal.div (real_coords x4 x5 h4 h5 _) 32 (by norm_num) lit_32) ⟨0.5, lit_half⟩

/-- Level 3: the y sampling coordinate in cells, `coords / stride − 0.5`, is real. -/
theorem real3_py (i : S512x128.Idx) : IsReal (Cert.ReferenceIdeal.Read.val_main_v659 (F := Ideal) x4 x5 i) := by
  rw [Cert.ReferenceIdeal.Read.val_main_v659_apply, Cert.ReferenceIdeal.Read.val_main_v657_apply, Cert.ReferenceIdeal.Read.val_main_v655_apply, Cert.ReferenceIdeal.Read.val_main_v654_apply,
    Cert.ReferenceIdeal.Read.val_main_v656_apply, Cert.ReferenceIdeal.Read.val_main_cst_204_apply, Cert.ReferenceIdeal.Read.val_main_v658_apply, Cert.ReferenceIdeal.Read.val_main_cst_205_apply]
  exact IsReal.sub (IsReal.div (real_coords x4 x5 h4 h5 _) 32 (by norm_num) lit_32) ⟨0.5, lit_half⟩

/-- Level 3: the fractions `p − floor p` are real. -/
theorem real3_wx (i : S512x128.Idx) : IsReal (Cert.ReferenceIdeal.Read.val_main_v662 (F := Ideal) x4 x5 i) := by
  rw [Cert.ReferenceIdeal.Read.val_main_v662_apply, Cert.ReferenceIdeal.Read.val_main_v660_apply]
  exact IsReal.sub (real3_px x4 x5 h4 h5 i) (IsReal.floor (real3_px x4 x5 h4 h5 i))
theorem real3_wy (i : S512x128.Idx) : IsReal (Cert.ReferenceIdeal.Read.val_main_v663 (F := Ideal) x4 x5 i) := by
  rw [Cert.ReferenceIdeal.Read.val_main_v663_apply, Cert.ReferenceIdeal.Read.val_main_v661_apply]
  exact IsReal.sub (real3_py x4 x5 h4 h5 i) (IsReal.floor (real3_py x4 x5 h4 h5 i))

end Cert.RefReal

end
-- ==== Proof.KI0Eq.lean ====
/-
  Level 0: what the kernel leaves in its output array is the reference's stage. Entry by entry: the region's output is
  the nested sample over the arrays the region finds; those arrays are the reference's cells, fractions and batch
  indices, and the launch's feature map; the nested sample is the reference's four-corner formula when the values are
  real; and that formula is the reference's stage read at the entry.
-/
import proofs.«110520_j35545149342110_1_alg».proof.Proof.KI0Lvl
import proofs.«110520_j35545149342110_1_alg».proof.Proof.KIPrelude
import proofs.«110520_j35545149342110_1_alg».proof.Proof.RefLevel0
import proofs.«110520_j35545149342110_1_alg».proof.Proof.RefReal
import proofs.«110520_j35545149342110_1_alg».proof.Proof.LibRefSample

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LibBilinear Cert.LibRefSample Cert.LibReal Cert.LibGatherPoint

variable (m : (ℓ : Loc nD τ sig) → Buf (Elt Ideal) ℓ)

/-- The level's feature map as region 0 finds it is the launch's. -/
theorem W1_feat0 (c : Dev nD) : W1 m c (Proc.devRef .tc main_arg0) = m ((c.tc : Thread nD τ).loc main_arg0) :=
  calc W1 m c (Proc.devRef .tc main_arg0)
    _ = W0 m c (Proc.devRef .tc main_arg0) := by unfold W1; exact StableHlo.after_of_writes_sub hostOps0 _ hostOps0_writes (by decide)
    _ = m ((c.tc : Thread nD τ).loc main_arg0) := rfl

/-- The feature map on naturals is real when the map is. -/
theorem featN0_real (A : S2x256x256x256.Idx → EReal) (hA : ∀ i, IsReal (A i)) (ch : Fin 256) (b h w : ℕ) : ∃ r : ℝ, featN0 A ch b h w = (r : EReal) := by
  unfold featN0
  split_ifs
  · exact hA _
  · exact ⟨0, rfl⟩
  · exact ⟨0, rfl⟩
  · exact ⟨0, rfl⟩

set_option maxHeartbeats 4000000 in
/-- LEVEL 0: the kernel's output array is the reference's stage `%223`. -/
theorem level0_eq (c : Dev nD)
    (hA : ∀ i, IsReal ((m ((c.tc : Thread nD τ).loc main_arg0) : S2x256x256x256.Idx → EReal) i))
    (h4 : ∀ i, IsReal ((m ((c.tc : Thread nD τ).loc main_arg4) : S512x5.Idx → EReal) i))
    (h5 : ∀ i, IsReal ((m ((c.tc : Thread nD τ).loc main_arg5) : S512x128x2.Idx → EReal) i))
    (hB : ∀ n : Fin 512, (Cert.ReferenceIdeal.Read.val_main_v2 (F := Ideal) (m ((c.tc : Thread nD τ).loc main_arg4)) (ix1 n)).toNat < 2) :
    (W2 m c (Proc.devRef .tc main_v32) : S512x256x128.Idx → EReal) = Cert.ReferenceIdeal.Read.val_main_v223 (F := Ideal) (m ((c.tc : Thread nD τ).loc main_arg0)) (m ((c.tc : Thread nD τ).loc main_arg4)) (m ((c.tc : Thread nD τ).loc main_arg5)) := by
  funext y
  obtain ⟨n, ch, p, rfl⟩ : ∃ (n : Fin 512) (ch : Fin 256) (p : Fin 128), y = ix3 n ch p := ⟨y 0, y 1, y 2, eq_ix3 y⟩
  have hk : W2 m c (Proc.devRef .tc main_v32) = out0 (V1 m) c := (W2_arr m c 6).trans (final0 (V1 m) c)
  have hbi : (W1 m c (Proc.devRef .tc main_v13) : S512x128.Idx → BitVec 32) (ix2 n p) = Cert.ReferenceIdeal.Read.val_main_v2 (F := Ideal) (m ((c.tc : Thread nD τ).loc main_arg4)) (ix1 n) := by
    rw [lvl0_bi m c]; exact W1_bi m c n p
  rw [congrFun hk (ix3 n ch p), out0_apply,
    sumTerm0_nested _ _ _ _ _ _ (n.val / 8) n ch p (by show ((W1 m c (Proc.devRef .tc main_v13) : S512x128.Idx → BitVec 32) (ix2 n p)).toNat < 2; rw [hbi]; exact hB n)]
  rw [Cert.RefLevel.ref0_apply _ _ _ n ch p (hB n),
    refSample_eq 256 256 _ (fun b h w => by rw [natMap_eq_nested]; exact featN0_real _ hA ch b h w) _ _ _ _ _ _ ⟨1, lit_one⟩
      (Cert.RefReal.real0_wx _ _ h4 h5 _) (Cert.RefReal.real0_wy _ _ h4 h5 _)]
  have e1 : V1 m c main_v30 = Cert.ReferenceIdeal.Read.val_main_v28 (F := Ideal) (m ((c.tc : Thread nD τ).loc main_arg4)) (m ((c.tc : Thread nD τ).loc main_arg5)) := lvl0_x m c
  have e2 : V1 m c main_v31 = Cert.ReferenceIdeal.Read.val_main_v29 (F := Ideal) (m ((c.tc : Thread nD τ).loc main_arg4)) (m ((c.tc : Thread nD τ).loc main_arg5)) := lvl0_y m c
  have e3 : V1 m c main_v28 = Cert.ReferenceIdeal.Read.val_main_v26 (F := Ideal) (m ((c.tc : Thread nD τ).loc main_arg4)) (m ((c.tc : Thread nD τ).loc main_arg5)) := lvl0_wx m c
  have e4 : V1 m c main_v29 = Cert.ReferenceIdeal.Read.val_main_v27 (F := Ideal) (m ((c.tc : Thread nD τ).loc main_arg4)) (m ((c.tc : Thread nD τ).loc main_arg5)) := lvl0_wy m c
  have e5 : (V1 m c main_v13 : S512x128.Idx → BitVec 32) (ix2 n p) = Cert.ReferenceIdeal.Read.val_main_v2 (F := Ideal) (m ((c.tc : Thread nD τ).loc main_arg4)) (ix1 n) := hbi
  have e6 : V1 m c main_arg0 = (m ((c.tc : Thread nD τ).loc main_arg0)) := W1_feat0 m c
  have e7 : featN0 (m ((c.tc : Thread nD τ).loc main_arg0)) ch = natMap (N := 2) (C := 256) (H := 256) (W := 256) (m ((c.tc : Thread nD τ).loc main_arg0)) ch := by
    rw [natMap_eq_nested]; rfl
  rw [e1, e2, e3, e4, e5, e6, e7]

end Cert.KernelIdeal.Hand

end
-- ==== Proof.KI1Pay.lean ====
/-
  One grid point's update of pallas_call 1's accumulator, read at an index, at the ideal values. The body contracts
  the feature block (256 channels × 8 rows × 128 columns) over its columns against a weight matrix built from the
  tile's sampling points — for each point the tent `[w = x]·(1 − wx) + [w = x+1]·wx` in the column number, times `1` where
  the point's batch index is the grid's batch coordinate and `0` elsewhere —, multiplies by the matching tent in the row
  number and sums over the block's eight rows. The reshapes around the matrix product (rows × columns flattened both
  ways) are read through by coordinates; the product itself is a plain sum at the ideal values.
-/
import proofs.«110520_j35545149342110_1_alg».proof.Proof.KI1Val
import proofs.«110520_j35545149342110_1_alg».proof.Proof.LibLayoutIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.LibLayoutIdx

/-- The column weight of pallas_call 1's body at column `w` for sampling point `(j, p)` of the tile: the tent
    `[w = x]·(1 − wx) + [w = x + 1]·wx` over the point's cell `x` and fraction `wx`, the tests made on 32-bit words. -/
theorem colTent1_apply (x4 : Vec Ideal S8x128 .i32) (x6 : Vec Ideal S8x128 .f32) (w : Fin 128) (j : Fin 8) (p : Fin 128) :
    addf (k1_pay9 (F := Ideal) x4 x6) (select (k1_pay10 (F := Ideal) x4) (k1_pay11 (F := Ideal) x6) (k1_pay12 (F := Ideal))) (ix3 w j p)
      = (if BitVec.ofNat 32 w.val = x4 (ix2 j p) then Ideal.ofBits .f32 0x3F800000#32 - x6 (ix2 j p) else 0)
        + (if BitVec.ofNat 32 w.val = x4 (ix2 j p) + 1#32 then x6 (ix2 j p) else 0) := by
  rw [addf_apply, select_apply]
  unfold k1_pay9 k1_pay10 k1_pay11 k1_pay12 k1_pay7 k1_pay8
  simp only [select_apply, shapeCast_self]
  simp only [cmpi, addi, IntOp.addi, subf_apply, broadcast_apply, broadcastTo_1bc_abc_apply, broadcastTo_a11_abc_apply,
    shapeCast_ab_1ab_apply, iota_single_apply, select_cmpi_eq, Ideal.ofBits_def, Ideal.ofBits_zero_f32]
  have hio : iota Kind.tc S128x1x1 32 [0] iota_S128x1x1_d0_w32 (ix3 w (0 : Fin 1) (0 : Fin 1)) = BitVec.ofNat 32 w.val :=
    iota_single_apply Kind.tc S128x1x1 32 0 iota_S128x1x1_d0_w32 _
  rw [hio]

/-- The batch mask as a number: `1` where the two words agree, `0` elsewhere. -/
theorem maskVal1 (x y : BitVec 32) :
    FloatOps.sitofp (F := Ideal) .f32 ((IntOp.cmpi .eq x y).setWidth 32) = if x = y then (1 : EReal) else 0 := by
  by_cases h : x = y
  · subst h
    have e : IntOp.cmpi .eq x x = 1#1 := by unfold IntOp.cmpi; simp
    rw [e, if_pos rfl]
    show (((BitVec.setWidth 32 (1#1)).toInt : ℝ) : EReal) = 1
    have e2 : (BitVec.setWidth 32 (1#1)).toInt = 1 := by decide
    rw [e2]; norm_num
  · have hb : (x == y) = false := by simpa using h
    have e : IntOp.cmpi .eq x y = 0#1 := by unfold IntOp.cmpi; rw [hb]; rfl
    rw [e, if_neg h]
    show (((BitVec.setWidth 32 (0#1)).toInt : ℝ) : EReal) = 0
    have e2 : (BitVec.setWidth 32 (0#1)).toInt = 0 := by decide
    rw [e2]; norm_num

/-- The row weight at feature row `hh` of the block at row tile `i 2`, for sampling point `(j, p)`. -/
theorem rowTent1_apply (i2 : BitVec 32) (x5 : Vec Ideal S8x128 .i32) (x7 : Vec Ideal S8x128 .f32) (hh : Fin 8) (j : Fin 8) (p : Fin 128) :
    addf
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (shapeCast S1x8x128 (k1_pay4 (F := Ideal) x5) shapeCasts_S8x128_S1x8x128) broadcasts_S1x8x128_S8x8x128))
        (broadcastTo S8x8x128 (subf (broadcast S1x8x128 (FloatOps.ofBits (F := Ideal) FTy.f32 1065353216#32)) (shapeCast S1x8x128 (k1_pay5 (F := Ideal) x7) shapeCasts_S8x128_S1x8x128)) broadcasts_S1x8x128_S8x8x128)
        (broadcast S8x8x128 (FloatOps.ofBits (F := Ideal) FTy.f32 0#32)))
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (addi (shapeCast S1x8x128 (k1_pay4 (F := Ideal) x5) shapeCasts_S8x128_S1x8x128) (broadcast S1x8x128 1#32)) broadcasts_S1x8x128_S8x8x128))
        (broadcastTo S8x8x128 (shapeCast S1x8x128 (k1_pay5 (F := Ideal) x7) shapeCasts_S8x128_S1x8x128) broadcasts_S1x8x128_S8x8x128)
        (broadcast S8x8x128 (FloatOps.ofBits (F := Ideal) FTy.f32 0#32))) (ix3 hh j p)
      = (if BitVec.ofNat 32 hh.val + i2 * 8#32 = x5 (ix2 j p) then Ideal.ofBits .f32 0x3F800000#32 - x7 (ix2 j p) else 0)
        + (if BitVec.ofNat 32 hh.val + i2 * 8#32 = x5 (ix2 j p) + 1#32 then x7 (ix2 j p) else 0) := by
  rw [addf_apply, select_apply, select_apply]
  unfold k1_pay4 k1_pay5
  simp only [shapeCast_self]
  have hio : iota Kind.tc S8x1x1 32 [0] iota_S8x1x1_d0_w32 (ix3 hh (0 : Fin 1) (0 : Fin 1)) = BitVec.ofNat 32 hh.val :=
    iota_single_apply Kind.tc S8x1x1 32 0 iota_S8x1x1_d0_w32 _
  simp only [cmpi, addi, IntOp.addi, Scalar.muli, IntOp.muli, subf_apply, broadcast_apply, broadcastTo_1bc_abc_apply, broadcastTo_a11_abc_apply,
    shapeCast_ab_1ab_apply, select_cmpi_eq, Ideal.ofBits_def, Ideal.ofBits_zero_f32, hio]

set_option maxHeartbeats 2000000 in
/-- ONE POINT'S UPDATE AT AN INDEX. At channel `ch` and sampling point `(j, p)` of the tile the accumulator gains the sum,
    over the eight feature rows of the block, of the row's contraction with the column tent (times the batch mask),
    times the row tent. -/
theorem step1_apply (i : grid1.Coords) (x3 : Vec Ideal S1x256x8x128 .f32) (x4 x5 : Vec Ideal S8x128 .i32) (x6 x7 : Vec Ideal S8x128 .f32)
    (x8 : Vec Ideal S8x128 .i32) (prev : Vec Ideal S256x8x128 .f32) (ch : Fin 256) (j : Fin 8) (p : Fin 128) :
    step1 (F := Ideal) i x3 x4 x5 x6 x7 x8 prev (ix3 ch j p)
      = prev (ix3 ch j p) + ∑ hh : Fin 8,
          (∑ w : Fin 128, x3 (ix4 (0 : Fin 1) ch hh w)
              * (((if BitVec.ofNat 32 w.val = x4 (ix2 j p) then Ideal.ofBits .f32 0x3F800000#32 - x6 (ix2 j p) else 0)
                  + (if BitVec.ofNat 32 w.val = x4 (ix2 j p) + 1#32 then x6 (ix2 j p) else 0))
                 * (if x8 (ix2 j p) = BitVec.ofNat 32 (i 1).val then (1 : EReal) else 0)))
          * ((if BitVec.ofNat 32 hh.val + BitVec.ofNat 32 (i 2).val * 8#32 = x5 (ix2 j p) then Ideal.ofBits .f32 0x3F800000#32 - x7 (ix2 j p) else 0)
              + (if BitVec.ofNat 32 hh.val + BitVec.ofNat 32 (i 2).val * 8#32 = x5 (ix2 j p) + 1#32 then x7 (ix2 j p) else 0)) := by
  unfold step1 k1_pay1 k1_pay13
  simp only [shapeCast_self]
  rw [addf_apply]
  congr 1
  refine (Ideal.multiReduction_add_single _ (0x00000000#32) reduces_S256x8x8x128_S256x8x128 _ _ (ix3 ch j p)).trans ?_
  show (∑ hh : Fin 8, _) = _
  refine Finset.sum_congr rfl fun hh _ => ?_
  have hl : reduces_S256x8x8x128_S256x8x128.lift (ix3 ch j p) hh = ix4 ch hh j p := by
    funext c; apply Fin.ext
    match c with
    | ⟨0, _⟩ => rfl
    | ⟨1, _⟩ => rfl
    | ⟨2, _⟩ => rfl
    | ⟨3, _⟩ => rfl
  rw [hl]
  refine (mulf_apply (s := S256x8x8x128) (φ := FTy.f32) _ _ (ix4 ch hh j p)).trans ?_
  congr 1
  · have hch := ch.isLt; have hhh := hh.isLt; have hj := j.isLt; have hp := p.isLt
    refine (shapeCast_nm_abcd_apply _ _ (by norm_num) ch hh j p (⟨ch.val * 8 + hh.val, by omega⟩ : Fin 2048)
      (⟨j.val * 128 + p.val, by omega⟩ : Fin 1024) rfl rfl).trans ?_
    simp only [matmul]
    refine (Ideal.matmul_constant_zero_apply dot_S2048x128_S128x1024_S2048x1024_1_0_0_1_n_n none _ _ _).trans ?_
    refine ((Equiv.sum_comp (contrEquiv1 dot_S2048x128_S128x1024_S2048x1024_1_0_0_1_n_n 128 rfl rfl).symm _).symm).trans ?_
    refine Finset.sum_congr rfl fun w _ => ?_
    have hL : dot_S2048x128_S128x1024_S2048x1024_1_0_0_1_n_n.lhsIdx (ix2 (⟨ch.val * 8 + hh.val, by omega⟩ : Fin 2048) (⟨j.val * 128 + p.val, by omega⟩ : Fin 1024))
        ((contrEquiv1 dot_S2048x128_S128x1024_S2048x1024_1_0_0_1_n_n 128 rfl rfl).symm w) = ix2 (⟨ch.val * 8 + hh.val, by omega⟩ : Fin 2048) w := by
      funext a; apply Fin.ext
      match a with
      | ⟨0, _⟩ => rfl
      | ⟨1, _⟩ => exact (dot_S2048x128_S128x1024_S2048x1024_1_0_0_1_n_n.lhsIdx_val_of_single (cl := 1) rfl _ _).trans (contrEquiv1_symm_val dot_S2048x128_S128x1024_S2048x1024_1_0_0_1_n_n 128 rfl rfl w)
    have hR : dot_S2048x128_S128x1024_S2048x1024_1_0_0_1_n_n.rhsIdx (ix2 (⟨ch.val * 8 + hh.val, by omega⟩ : Fin 2048) (⟨j.val * 128 + p.val, by omega⟩ : Fin 1024))
        ((contrEquiv1 dot_S2048x128_S128x1024_S2048x1024_1_0_0_1_n_n 128 rfl rfl).symm w) = ix2 w (⟨j.val * 128 + p.val, by omega⟩ : Fin 1024) := by
      funext a; apply Fin.ext
      match a with
      | ⟨0, _⟩ => exact (dot_S2048x128_S128x1024_S2048x1024_1_0_0_1_n_n.rhsIdx_val_of_single (cr := 0) rfl _ _).trans (contrEquiv1_symm_val dot_S2048x128_S128x1024_S2048x1024_1_0_0_1_n_n 128 rfl rfl w)
      | ⟨1, _⟩ => rfl
    rw [hL, hR]
    congr 1
    · refine (truncf_apply (s := S2048x128) (φ := FTy.f32) (ψ := FTy.bf16) _ bitsLt_bf16_f32 _).trans ?_
      refine (shapeCast_abc_nc_apply _ _ ch hh w (⟨ch.val * 8 + hh.val, by omega⟩ : Fin 2048) rfl).trans ?_
      exact shapeCast_1abc_abc_apply _ _ ch hh w
    · refine (truncf_apply (s := S128x1024) (φ := FTy.f32) (ψ := FTy.bf16) _ bitsLt_bf16_f32 _).trans ?_
      refine (shapeCast_abc_an_apply _ _ (by norm_num) w j p (⟨j.val * 128 + p.val, by omega⟩ : Fin 1024) rfl).trans ?_
      refine (mulf_apply (s := S128x8x128) (φ := FTy.f32) _ _ (ix3 w j p)).trans ?_
      congr 1
      · exact colTent1_apply x4 x6 w j p
      · rw [broadcastTo_1bc_abc_apply, shapeCast_ab_1ab_apply]
        unfold k1_pay6
        simp only [shapeCast_self]
        exact maskVal1 _ _
  · rw [broadcastTo_1bcd_abcd_apply, shapeCast_abc_1abc_apply]
    exact rowTent1_apply (BitVec.ofNat 32 (i 2).val) x5 x7 hh j p

end Cert.KernelIdeal.Hand

end
-- ==== Proof.KI1Blk.lean ====
/-
  The windows of pallas_call 1 read as entries of the arrays. The grid's 2048 points are numbered row-major over
  (tile of regions of interest, batch image, row tile): point `t` is tile `t / 32`, image `(t / 16) % 2`, row tile
  `t % 16`. The index maps are decided once over the grid in that closed form; a block's entry is then the array's
  entry at (block index × block size + the coordinate inside the block) on each axis.
-/
import proofs.«110520_j35545149342110_1_alg».proof.Proof.KI1Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The index maps over the grid, in closed form -/

/-- The feature window follows the batch image and the row tile. -/
theorem idx1_f : ∀ t : Fin cfg1.N, win1_0.index t 0 = (t.val / 16) % 2 ∧ win1_0.index t 1 = 0 ∧ win1_0.index t 2 = t.val % 16 ∧ win1_0.index t 3 = 0 :=
  (by decide +kernel : ∀ t : Fin grid1.N, win1_0.index t 0 = (t.val / 16) % 2 ∧ win1_0.index t 1 = 0 ∧ win1_0.index t 2 = t.val % 16 ∧ win1_0.index t 3 = 0)
/-- The five per-point windows follow the tile of regions of interest. -/
theorem idx1_s : ∀ t : Fin cfg1.N, (win1_1.index t 0 = t.val / 32 ∧ win1_1.index t 1 = 0) ∧ (win1_2.index t 0 = t.val / 32 ∧ win1_2.index t 1 = 0) ∧ (win1_3.index t 0 = t.val / 32 ∧ win1_3.index t 1 = 0) ∧ (win1_4.index t 0 = t.val / 32 ∧ win1_4.index t 1 = 0) ∧ (win1_5.index t 0 = t.val / 32 ∧ win1_5.index t 1 = 0) :=
  (by decide +kernel : ∀ t : Fin grid1.N, (win1_1.index t 0 = t.val / 32 ∧ win1_1.index t 1 = 0) ∧ (win1_2.index t 0 = t.val / 32 ∧ win1_2.index t 1 = 0) ∧ (win1_3.index t 0 = t.val / 32 ∧ win1_3.index t 1 = 0) ∧ (win1_4.index t 0 = t.val / 32 ∧ win1_4.index t 1 = 0) ∧ (win1_5.index t 0 = t.val / 32 ∧ win1_5.index t 1 = 0))
/-- So does the output window. -/
theorem idx1_o : ∀ t : Fin cfg1.N, win1_6.index t 0 = t.val / 32 ∧ win1_6.index t 1 = 0 ∧ win1_6.index t 2 = 0 :=
  (by decide +kernel : ∀ t : Fin grid1.N, win1_6.index t 0 = t.val / 32 ∧ win1_6.index t 1 = 0 ∧ win1_6.index t 2 = 0)
/-- The grid coordinates the body reads, from the point's number. -/
theorem coord1 : ∀ t : Fin cfg1.N, ((grid1.coords t) 1).val = (t.val / 16) % 2 ∧ ((grid1.coords t) 2).val = t.val % 16 :=
  (by decide +kernel : ∀ t : Fin grid1.N, ((grid1.coords t) 1).val = (t.val / 16) % 2 ∧ ((grid1.coords t) 2).val = t.val % 16)

section Region

variable (V : (c : Dev nD) → (b : Ref sig .tc) → Buf (Elt F) ((c : Thread nD τ).loc b))

/-! ## The blocks as entries of the arrays -/

/-- The feature block at point `t`: batch image `(t / 16) % 2`, rows `8·(t % 16) … + 7`. -/
theorem iblk1_0_apply (c : Dev nD) (t : Fin cfg1.N) (ch : Fin 256) (hh : Fin 8) (w : Fin 128) :
    iblk1 V c 0 t (ix4 (0 : Fin 1) ch hh w)
      = V c main_arg1 (ix4 (⟨(t.val / 16) % 2, Nat.mod_lt _ (by decide)⟩ : Fin 2) ch
          (⟨8 * (t.val % 16) + hh.val, by have := hh.isLt; have := Nat.mod_lt t.val (show 0 < 16 by decide); omega⟩ : Fin 128) w) := by
  have hi := idx1_f t
  unfold iblk1
  rw [View.read_apply]
  show V c main_arg1 _ = V c main_arg1 _
  congr 1
  funext a
  apply Fin.ext
  match a with
  | ⟨0, _⟩ => show win1_0.index t 0 * 1 + 1 * 0 = (t.val / 16) % 2; rw [hi.1]; omega
  | ⟨1, _⟩ => show win1_0.index t 1 * 256 + 1 * ch.val = ch.val; rw [hi.2.1]; omega
  | ⟨2, _⟩ => show win1_0.index t 2 * 8 + 1 * hh.val = 8 * (t.val % 16) + hh.val; rw [hi.2.2.1]; omega
  | ⟨3, _⟩ => show win1_0.index t 3 * 128 + 1 * w.val = w.val; rw [hi.2.2.2]; omega

/-- Window 1's block at point `t` is rows `8·(t / 32) … + 7` of its array. -/
theorem iblk1_1_apply (c : Dev nD) (t : Fin cfg1.N) (j : Fin 8) (p : Fin 128) :
    iblk1 V c 1 t (ix2 j p) = V c main_v49 (ix2 (⟨8 * (t.val / 32) + j.val, by have := t.isLt; have hN : cfg1.N = 2048 := N_1; have := j.isLt; omega⟩ : Fin 512) p) := by
  have hi := idx1_s t
  unfold iblk1
  rw [View.read_apply]
  show V c main_v49 _ = V c main_v49 _
  congr 1
  funext a
  apply Fin.ext
  match a with
  | ⟨0, _⟩ => show win1_1.index t 0 * 8 + 1 * j.val = 8 * (t.val / 32) + j.val; rw [hi.1.1]; omega
  | ⟨1, _⟩ => show win1_1.index t 1 * 128 + 1 * p.val = p.val; rw [hi.1.2]; omega

/-- Window 2's block at point `t` is rows `8·(t / 32) … + 7` of its array. -/
theorem iblk1_2_apply (c : Dev nD) (t : Fin cfg1.N) (j : Fin 8) (p : Fin 128) :
    iblk1 V c 2 t (ix2 j p) = V c main_v50 (ix2 (⟨8 * (t.val / 32) + j.val, by have := t.isLt; have hN : cfg1.N = 2048 := N_1; have := j.isLt; omega⟩ : Fin 512) p) := by
  have hi := idx1_s t
  unfold iblk1
  rw [View.read_apply]
  show V c main_v50 _ = V c main_v50 _
  congr 1
  funext a
  apply Fin.ext
  match a with
  | ⟨0, _⟩ => show win1_2.index t 0 * 8 + 1 * j.val = 8 * (t.val / 32) + j.val; rw [hi.2.1.1]; omega
  | ⟨1, _⟩ => show win1_2.index t 1 * 128 + 1 * p.val = p.val; rw [hi.2.1.2]; omega

/-- Window 3's block at point `t` is rows `8·(t / 32) … + 7` of its array. -/
theorem iblk1_3_apply (c : Dev nD) (t : Fin cfg1.N) (j : Fin 8) (p : Fin 128) :
    iblk1 V c 3 t (ix2 j p) = V c main_v47 (ix2 (⟨8 * (t.val / 32) + j.val, by have := t.isLt; have hN : cfg1.N = 2048 := N_1; have := j.isLt; omega⟩ : Fin 512) p) := by
  have hi := idx1_s t
  unfold iblk1
  rw [View.read_apply]
  show V c main_v47 _ = V c main_v47 _
  congr 1
  funext a
  apply Fin.ext
  match a with
  | ⟨0, _⟩ => show win1_3.index t 0 * 8 + 1 * j.val = 8 * (t.val / 32) + j.val; rw [hi.2.2.1.1]; omega
  | ⟨1, _⟩ => show win1_3.index t 1 * 128 + 1 * p.val = p.val; rw [hi.2.2.1.2]; omega

/-- Window 4's block at point `t` is rows `8·(t / 32) … + 7` of its array. -/
theorem iblk1_4_apply (c : Dev nD) (t : Fin cfg1.N) (j : Fin 8) (p : Fin 128) :
    iblk1 V c 4 t (ix2 j p) = V c main_v48 (ix2 (⟨8 * (t.val / 32) + j.val, by have := t.isLt; have hN : cfg1.N = 2048 := N_1; have := j.isLt; omega⟩ : Fin 512) p) := by
  have hi := idx1_s t
  unfold iblk1
  rw [View.read_apply]
  show V c main_v48 _ = V c main_v48 _
  congr 1
  funext a
  apply Fin.ext
  match a with
  | ⟨0, _⟩ => show win1_4.index t 0 * 8 + 1 * j.val = 8 * (t.val / 32) + j.val; rw [hi.2.2.2.1.1]; omega
  | ⟨1, _⟩ => show win1_4.index t 1 * 128 + 1 * p.val = p.val; rw [hi.2.2.2.1.2]; omega

/-- Window 5's block at point `t` is rows `8·(t / 32) … + 7` of its array. -/
theorem iblk1_5_apply (c : Dev nD) (t : Fin cfg1.N) (j : Fin 8) (p : Fin 128) :
    iblk1 V c 5 t (ix2 j p) = V c main_v13 (ix2 (⟨8 * (t.val / 32) + j.val, by have := t.isLt; have hN : cfg1.N = 2048 := N_1; have := j.isLt; omega⟩ : Fin 512) p) := by
  have hi := idx1_s t
  unfold iblk1
  rw [View.read_apply]
  show V c main_v13 _ = V c main_v13 _
  congr 1
  funext a
  apply Fin.ext
  match a with
  | ⟨0, _⟩ => show win1_5.index t 0 * 8 + 1 * j.val = 8 * (t.val / 32) + j.val; rw [hi.2.2.2.2.1]; omega
  | ⟨1, _⟩ => show win1_5.index t 1 * 128 + 1 * p.val = p.val; rw [hi.2.2.2.2.2]; omega

end Region

end Cert.KernelIdeal.Hand

end
-- ==== Proof.KI1Sum.lean ====
/-
  The output of pallas_call 1 in closed form, at the ideal values. A group of 32 consecutive grid points (the two
  batch images × 16 row tiles of one tile of regions of interest) zeroes the accumulator, adds one partial term per
  point, and writes it out: so what the group's last point writes is the sum of the group's 32 partial terms. A
  point's partial term is stated over the whole arrays the region finds: the feature map, the cell indices and
  fractions of every sampling point, and the batch index of every region of interest.
-/
import proofs.«110520_j35545149342110_1_alg».proof.Proof.KI1Pay
import proofs.«110520_j35545149342110_1_alg».proof.Proof.KI1Blk

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The partial term point number `t` adds at channel `ch`, region of interest `n`, sampling point `p`, over the
    feature map `A`, the sampling points' column and row cells `X`, `Y` and fractions `WX`, `WY`, and the regions' batch
    indices `BI`: over the eight feature rows of the point's row tile, the row of batch image `(t / 16) % 2` contracted
    with the column tent of the sampling point (times 1 where the region's batch index is that image), times the row
    tent. -/
def term1 (A : S2x256x128x128.Idx → EReal) (X Y : S512x128.Idx → BitVec 32) (WX WY : S512x128.Idx → EReal) (BI : S512x128.Idx → BitVec 32)
    (t : ℕ) (n : Fin 512) (ch : Fin 256) (p : Fin 128) : EReal :=
  ∑ hh : Fin 8,
    (∑ w : Fin 128, A (ix4 (⟨(t / 16) % 2, Nat.mod_lt _ (by decide)⟩ : Fin 2) ch
          (⟨8 * (t % 16) + hh.val, by have := hh.isLt; have := Nat.mod_lt t (show 0 < 16 by decide); omega⟩ : Fin 128) w)
        * (((if BitVec.ofNat 32 w.val = X (ix2 n p) then Ideal.ofBits .f32 0x3F800000#32 - WX (ix2 n p) else 0)
            + (if BitVec.ofNat 32 w.val = X (ix2 n p) + 1#32 then WX (ix2 n p) else 0))
           * (if BI (ix2 n p) = BitVec.ofNat 32 ((t / 16) % 2) then (1 : EReal) else 0)))
    * ((if BitVec.ofNat 32 hh.val + BitVec.ofNat 32 (t % 16) * 8#32 = Y (ix2 n p) then Ideal.ofBits .f32 0x3F800000#32 - WY (ix2 n p) else 0)
        + (if BitVec.ofNat 32 hh.val + BitVec.ofNat 32 (t % 16) * 8#32 = Y (ix2 n p) + 1#32 then WY (ix2 n p) else 0))

section Region

variable (V : (c : Dev nD) → (b : Ref sig .tc) → Buf (Elt Ideal) ((c : Thread nD τ).loc b))

/-- The zero block at an index. -/
theorem zeroAcc1_apply (i : S256x8x128.Idx) : zeroAcc1 (F := Ideal) i = 0 := by
  unfold zeroAcc1 k1_pay3
  simp only [shapeCast_self, broadcast_apply, Ideal.ofBits_def, Ideal.ofBits_zero_f32]

/-- One point: the accumulator after point `t` is what it started the point with plus the point's partial term, at the
    region of interest `n = 8·(t / 32) + j`. -/
theorem acc1_point (c : Dev nD) (t : Fin cfg1.N) (ch : Fin 256) (j : Fin 8) (p : Fin 128) (prev : Vec Ideal S256x8x128 .f32)
    (n : Fin 512) (hn : n.val = 8 * (t.val / 32) + j.val) :
    step1 (F := Ideal) (grid1.coords t) (iblk1 V c 0 t) (iblk1 V c 1 t) (iblk1 V c 2 t) (iblk1 V c 3 t) (iblk1 V c 4 t) (iblk1 V c 5 t) prev (ix3 ch j p)
      = prev (ix3 ch j p) + term1 (V c main_arg1) (V c main_v49) (V c main_v50) (V c main_v47) (V c main_v48) (V c main_v13) t.val n ch p := by
  have hN : cfg1.N = 2048 := N_1
  have e : (⟨8 * (t.val / 32) + j.val, by have := t.isLt; have := j.isLt; omega⟩ : Fin 512) = n := Fin.ext hn.symm
  rw [step1_apply]
  unfold term1
  simp only [iblk1_0_apply, iblk1_1_apply, iblk1_2_apply, iblk1_3_apply, iblk1_4_apply, iblk1_5_apply,
    (coord1 t).1, (coord1 t).2, e]

/-- The accumulator's contents depend on the point's number only. -/
theorem acc1_congr (c : Dev nD) (a b : ℕ) (ha : a < cfg1.N) (hb : b < cfg1.N) (h : a = b) : acc1 V c a ha = acc1 V c b hb := by
  subst h; rfl

/-- A GROUP: after its `s`-th point the accumulator holds the sum of the group's first `s + 1` partial terms. -/
theorem acc1_group (c : Dev nD) (g : ℕ) (hg : g < 64) (ch : Fin 256) (j : Fin 8) (p : Fin 128) (n : Fin 512) (hn : n.val = 8 * g + j.val) :
    ∀ (s : ℕ) (hs : s < 32) (h : g * 32 + s < cfg1.N),
      acc1 V c (g * 32 + s) h (ix3 ch j p)
        = ∑ s' ∈ Finset.range (s + 1), term1 (V c main_arg1) (V c main_v49) (V c main_v50) (V c main_v47) (V c main_v48) (V c main_v13) (g * 32 + s') n ch p := by
  intro s
  induction s with
  | zero =>
    intro hs h
    have h0 : (⟨g * 32 + 0, h⟩ : Fin cfg1.N).val % 32 = 0 := by show (g * 32 + 0) % 32 = 0; omega
    have e := acc1_first V c ⟨g * 32 + 0, h⟩ h0
    rw [show acc1 V c (g * 32 + 0) h = _ from e,
      acc1_point V c ⟨g * 32 + 0, h⟩ ch j p _ n (by show n.val = 8 * ((g * 32 + 0) / 32) + j.val; omega),
      zeroAcc1_apply, zero_add, Finset.sum_range_one]
  | succ s ih =>
    intro hs h
    have hn' : ¬(⟨g * 32 + (s + 1), h⟩ : Fin cfg1.N).val % 32 = 0 := by show ¬(g * 32 + (s + 1)) % 32 = 0; omega
    have e := acc1_next V c ⟨g * 32 + (s + 1), h⟩ hn'
    rw [show acc1 V c (g * 32 + (s + 1)) h = _ from e,
      acc1_point V c ⟨g * 32 + (s + 1), h⟩ ch j p _ n (by show n.val = 8 * ((g * 32 + (s + 1)) / 32) + j.val; omega),
      Finset.sum_range_succ]
    congr 1
    have := ih (by omega) (by omega)
    rw [← this]
    exact congrFun (acc1_congr V c _ _ _ _ (by show g * 32 + (s + 1) - 1 = g * 32 + s; omega)) _

end Region

end Cert.KernelIdeal.Hand

end
-- ==== Proof.KI1Out.lean ====
/-
  What pallas_call 1 leaves in its output array [512, 256, 128], at the ideal values: at (region of interest n, channel,
  sampling point p) the sum of the 32 partial terms of group `n / 8`. The output window's block at a group's last point
  is rows `8·g … 8·g + 7` of the array, and what the point writes back is the accumulator with its first two axes
  exchanged; the 64 groups' write-backs cover the array.
-/
import proofs.«110520_j35545149342110_1_alg».proof.Proof.KI1Sum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region

variable (V : (c : Dev nD) → (b : Ref sig .tc) → Buf (Elt Ideal) ((c : Thread nD τ).loc b))

/-- The output array of region 1. -/
def out1 (c : Dev nD) : S512x256x128.Idx → EReal := fun y =>
  ∑ s ∈ Finset.range 32, term1 (V c main_arg1) (V c main_v49) (V c main_v50) (V c main_v47) (V c main_v48) (V c main_v13) ((y 0).val / 8 * 32 + s) (y 0) (y 1) (y 2)

/-- The accumulator with its first two axes exchanged, at an index. -/
theorem pay2_1_apply (a : Vec Ideal S256x8x128 .f32) (j : Fin 8) (ch : Fin 256) (p : Fin 128) :
    k1_pay2 (F := Ideal) a (ix3 j ch p) = a (ix3 ch j p) := by
  unfold k1_pay2
  exact transpose_apply _ a _ _ _ fun b => match b with | ⟨0, _⟩ => rfl | ⟨1, _⟩ => rfl | ⟨2, _⟩ => rfl

/-- What a group's last point writes back is the output array read through the window's block there. -/
theorem flushed1_eq (c : Dev nD) (t : Fin cfg1.N) (hf : (cfg1.win 6).flush t = true) :
    (dat1 V c).flushed 6 t = ((cfg1.win 6).blk t).view.read (Elt Ideal) (out1 V c) := by
  have hN : cfg1.N = 2048 := N_1
  have hlast : t.val % 32 = 31 := (flush1_6 t).mp hf
  have hi := idx1_o t
  funext y
  obtain ⟨j, ch, p, rfl⟩ : ∃ (j : Fin 8) (ch : Fin 256) (p : Fin 128), y = ix3 j ch p := ⟨y 0, y 1, y 2, eq_ix3 y⟩
  rw [View.read_apply]
  show (cfg1.win 6).cut (grid1.coords t) ((dat1 V c).after 6 t) (ix3 j ch p) = _
  rw [after1_6]
  show k1_pay2 (F := Ideal) (acc1 V c t.val t.isLt) (ix3 j ch p) = _
  rw [pay2_1_apply]
  have ht : t.val = t.val / 32 * 32 + 31 := by omega
  rw [congrFun (acc1_congr V c t.val (t.val / 32 * 32 + 31) t.isLt (by omega) ht) _,
    acc1_group V c (t.val / 32) (by have := t.isLt; omega) ch j p (⟨8 * (t.val / 32) + j.val, by have := t.isLt; have := j.isLt; omega⟩ : Fin 512) rfl 31 (by decide) (by omega)]
  have hy : ((cfg1.win 6).blk t).view.emb (ix3 j ch p)
      = ix3 (⟨8 * (t.val / 32) + j.val, by have := t.isLt; have := j.isLt; omega⟩ : Fin 512) ch p := by
    funext a; apply Fin.ext
    match a with
    | ⟨0, _⟩ => show win1_6.index t 0 * 8 + 1 * j.val = 8 * (t.val / 32) + j.val; rw [hi.1]; omega
    | ⟨1, _⟩ => show win1_6.index t 1 * 256 + 1 * ch.val = ch.val; rw [hi.2.1]; omega
    | ⟨2, _⟩ => show win1_6.index t 2 * 128 + 1 * p.val = p.val; rw [hi.2.2]; omega
  show _ = out1 V c (((cfg1.win 6).blk t).view.emb (ix3 j ch p))
  rw [hy]
  show _ = ∑ s ∈ Finset.range 32, term1 (V c main_arg1) (V c main_v49) (V c main_v50) (V c main_v47) (V c main_v48) (V c main_v13) ((8 * (t.val / 32) + j.val) / 8 * 32 + s)
    (⟨8 * (t.val / 32) + j.val, by have := t.isLt; have := j.isLt; omega⟩ : Fin 512) ch p
  rw [show (8 * (t.val / 32) + j.val) / 8 = t.val / 32 from by have := j.isLt; omega]

/-- The 64 groups' write-backs cover the output array, so it ends holding `out1`. -/
theorem final1 (c : Dev nD) : (dat1 V c).arrAt 6 cfg1.N = out1 V c :=
  (dat1 V c).arrAt_eq_of_cover 6 (out1 V c) (flushed1_eq V c) fun i => by
    have hN : cfg1.N = 2048 := N_1
    have h0 : (i 0 : Nat) < 512 := (i 0).isLt
    have h1 : (i 1 : Nat) < 256 := (i 1).isLt
    have h2 : (i 2 : Nat) < 128 := (i 2).isLt
    let t : Fin cfg1.N := ⟨(i 0).val / 8 * 32 + 31, by omega⟩
    have hi := idx1_o t
    refine ⟨t, (flush1_6 t).mpr (by show ((i 0).val / 8 * 32 + 31) % 32 = 31; omega), ?_⟩
    show i ∈ ((View.whole main_v51).slice (win1_6.rect t)).set
    rw [View.set_slice_whole, Rect.mem_set_unit]
    intro a
    have ht : t.val / 32 = (i 0).val / 8 := by show ((i 0).val / 8 * 32 + 31) / 32 = (i 0).val / 8; omega
    match a with
    | ⟨0, _⟩ => show win1_6.index t 0 * win1_6.size 0 ≤ (i 0 : Nat) ∧ (i 0 : Nat) < win1_6.index t 0 * win1_6.size 0 + win1_6.xsize (grid1.coords t) 0
                rw [hi.1, ht, show win1_6.size 0 = 8 from rfl, show win1_6.xsize (grid1.coords t) 0 = 8 from rfl]; omega
    | ⟨1, _⟩ => show win1_6.index t 1 * win1_6.size 1 ≤ (i 1 : Nat) ∧ (i 1 : Nat) < win1_6.index t 1 * win1_6.size 1 + win1_6.xsize (grid1.coords t) 1
                rw [hi.2.1, show win1_6.size 1 = 256 from rfl, show win1_6.xsize (grid1.coords t) 1 = 256 from rfl]; omega
    | ⟨2, _⟩ => show win1_6.index t 2 * win1_6.size 2 ≤ (i 2 : Nat) ∧ (i 2 : Nat) < win1_6.index t 2 * win1_6.size 2 + win1_6.xsize (grid1.coords t) 2
                rw [hi.2.2, show win1_6.size 2 = 128 from rfl, show win1_6.xsize (grid1.coords t) 2 = 128 from rfl]; omega

end Region

end Cert.KernelIdeal.Hand

end
-- ==== Proof.KI1Lvl.lean ====
/-
  Level 1: the kernel's output entry as the nested sample. A group's 32 partial terms, their point numbers rewritten
  as (batch image, row tile), are exactly the steps of the tiled contraction that collapses to the row sample of the
  column samples of the region's batch image; the feature map enters as a function on naturals (zero outside the map).
-/
import proofs.«110520_j35545149342110_1_alg».proof.Proof.KI1Out
import proofs.«110520_j35545149342110_1_alg».proof.Proof.LibBilinear

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.LibBilinear

/-- The level's feature map at channel `ch` as a function of (batch image, row, column) numbers, zero outside the map. -/
def featN1 (A : S2x256x128x128.Idx → EReal) (ch : Fin 256) : ℕ → ℕ → ℕ → EReal := fun b h w =>
  if hb : b < 2 then if hh : h < 128 then if hw : w < 128 then A (ix4 ⟨b, hb⟩ ch ⟨h, hh⟩ ⟨w, hw⟩) else 0 else 0 else 0

theorem featN1_eq (A : S2x256x128x128.Idx → EReal) (ch : Fin 256) (b h : ℕ) (hb : b < 2) (hh : h < 128) (w : Fin 128) :
    A (ix4 ⟨b, hb⟩ ch ⟨h, hh⟩ w) = featN1 A ch b h w.val := by
  unfold featN1
  rw [dif_pos hb, dif_pos hh, dif_pos w.isLt]

/-- A group's partial terms sum to the nested sample. -/
theorem sumTerm1_nested (A : S2x256x128x128.Idx → EReal) (X Y : S512x128.Idx → BitVec 32) (WX WY : S512x128.Idx → EReal) (BI : S512x128.Idx → BitVec 32)
    (g : ℕ) (n : Fin 512) (ch : Fin 256) (p : Fin 128) (hB : (BI (ix2 n p)).toNat < 2) :
    (∑ s ∈ Finset.range 32, term1 A X Y WX WY BI (g * 32 + s) n ch p)
      = (if (Y (ix2 n p)).toNat < 16 * 8 then colSample 128 (featN1 A ch) (BI (ix2 n p)).toNat (Y (ix2 n p)).toNat (X (ix2 n p))
            (Ideal.ofBits .f32 0x3F800000#32 - WX (ix2 n p)) (WX (ix2 n p)) * (Ideal.ofBits .f32 0x3F800000#32 - WY (ix2 n p)) else 0)
        + (if (Y (ix2 n p) + 1).toNat < 16 * 8 then colSample 128 (featN1 A ch) (BI (ix2 n p)).toNat (Y (ix2 n p) + 1).toNat (X (ix2 n p))
            (Ideal.ofBits .f32 0x3F800000#32 - WX (ix2 n p)) (WX (ix2 n p)) * (WY (ix2 n p)) else 0) := by
  have key : ∀ s ∈ Finset.range (2 * 16), term1 A X Y WX WY BI (g * 32 + s) n ch p
      = ∑ hh : Fin 8,
        (∑ w : Fin 128, featN1 A ch (s / 16 % 2) (8 * (s % 16) + hh.val) w.val
            * (((if BitVec.ofNat 32 w.val = X (ix2 n p) then Ideal.ofBits .f32 0x3F800000#32 - WX (ix2 n p) else 0)
                + (if BitVec.ofNat 32 w.val = X (ix2 n p) + 1 then WX (ix2 n p) else 0))
               * (if BI (ix2 n p) = BitVec.ofNat 32 (s / 16 % 2) then (1 : EReal) else 0)))
          * ((if BitVec.ofNat 32 hh.val + BitVec.ofNat 32 (s % 16) * 8#32 = Y (ix2 n p) then Ideal.ofBits .f32 0x3F800000#32 - WY (ix2 n p) else 0)
              + (if BitVec.ofNat 32 hh.val + BitVec.ofNat 32 (s % 16) * 8#32 = Y (ix2 n p) + 1 then WY (ix2 n p) else 0)) := by
    intro s hs
    have hs' : s < 2 * 16 := Finset.mem_range.mp hs
    have e1 : (g * 32 + s) / 16 % 2 = s / 16 % 2 := by omega
    have e2 : (g * 32 + s) % 16 = s % 16 := by omega
    unfold term1
    simp only [featN1_eq, e1, e2]
    rfl
  show (∑ s ∈ Finset.range (2 * 16), _) = _
  rw [Finset.sum_congr rfl key]
  exact collapse 128 16 (by norm_num) (by norm_num) (by norm_num) (featN1 A ch) (X (ix2 n p)) (Y (ix2 n p)) (BI (ix2 n p)) hB _ _ _ _

section Region

variable (V : (c : Dev nD) → (b : Ref sig .tc) → Buf (Elt Ideal) ((c : Thread nD τ).loc b))

/-- The region's output array at an index. -/
theorem out1_apply (c : Dev nD) (n : Fin 512) (ch : Fin 256) (p : Fin 128) :
    out1 V c (ix3 n ch p) = ∑ s ∈ Finset.range 32, term1 (V c main_arg1) (V c main_v49) (V c main_v50) (V c main_v47) (V c main_v48) (V c main_v13) (n.val / 8 * 32 + s) n ch p := rfl

end Region

end Cert.KernelIdeal.Hand

end
-- ==== Proof.RefLevel1.lean ====
/-
  Level 1 of the reference (the map of extent 128 × 128), read at one output element.

  The reference gathers, for every region `n`, sampling point `p` and channel `ch`, the four corners of the point's cell
  from the map — each corner's indices clipped into the map and passed through array indexing's negative-index rule,
  the gathered value multiplied by the corner's validity bit —, weights them with the point's fractions and adds the
  four terms; the level's output is that array with its last two axes exchanged. Read at `(n, ch, p)` this is the
  four-corner bilinear sample `refSample` of the map at channel `ch`, given the region's image index, the point's cell
  and its fractions, which stay the reference's own arrays. Each corner is one use of `corner_read`; the weights are
  broadcasts read at an index.
-/
import proofs.«110520_j35545149342110_1_alg».proof.Proof.RefReadP
import proofs.«110520_j35545149342110_1_alg».proof.Proof.LibRefSample
import proofs.«110520_j35545149342110_1_alg».proof.Proof.LibGatherPoint

noncomputable section

namespace Cert.RefLevel

open Cert.ReferenceIdeal Cert.ReferenceIdeal.Gen Cert.ReferenceIdeal.Read Idealize.ShloMosaic Idealize.ShloMosaic.ValueIdx
  Idealize.SL.Sem Cert.LibGatherPoint

/-- The elementwise operations and the broadcast constants of level 1, read at an index. -/
macro "lvl1_simp" : tactic => `(tactic| simp only [val_main_c_70_apply, val_main_v242_apply, val_main_v243_apply, val_main_c_71_apply, val_main_v244_apply, val_main_v245_apply, val_main_v246_apply, val_main_c_72_apply, val_main_v247_apply, val_main_v248_apply, val_main_v249_apply, val_main_c_73_apply, val_main_v250_apply, val_main_v251_apply, val_main_v252_apply, val_main_c_74_apply, val_main_c_75_apply, val_main_call8_v0_apply, val_main_call8_v1_apply, val_main_call8_v2_apply, val_main_call8_v3_apply, val_main_call8_v4_apply, val_main_v253_apply, val_main_c_76_apply, val_main_c_77_apply, val_main_call9_v0_apply, val_main_call9_v1_apply, val_main_call9_v2_apply, val_main_call9_v3_apply, val_main_call9_v4_apply, val_main_v254_apply, val_main_c_78_apply, val_main_v256_apply, val_main_v257_apply, val_main_c_79_apply, val_main_v258_apply, val_main_v259_apply, val_main_v260_apply, val_main_c_80_apply, val_main_v261_apply, val_main_v262_apply, val_main_c_81_apply, val_main_v263_apply, val_main_v264_apply, val_main_v265_apply, val_main_c_82_apply, val_main_v266_apply, val_main_v267_apply, val_main_c_83_apply, val_main_v268_apply, val_main_v269_apply, val_main_v270_apply, val_main_v278_apply, val_main_v280_apply, val_main_c_84_apply, val_main_v281_apply, val_main_v282_apply, val_main_c_85_apply, val_main_v283_apply, val_main_v284_apply, val_main_c_86_apply, val_main_v285_apply, val_main_v286_apply, val_main_v287_apply, val_main_c_87_apply, val_main_v288_apply, val_main_v289_apply, val_main_v290_apply, val_main_c_88_apply, val_main_v291_apply, val_main_v292_apply, val_main_v293_apply, val_main_c_89_apply, val_main_c_90_apply, val_main_call10_v0_apply, val_main_call10_v1_apply, val_main_call10_v2_apply, val_main_call10_v3_apply, val_main_call10_v4_apply, val_main_v294_apply, val_main_c_91_apply, val_main_c_92_apply, val_main_call11_v0_apply, val_main_call11_v1_apply, val_main_call11_v2_apply, val_main_call11_v3_apply, val_main_call11_v4_apply, val_main_v295_apply, val_main_c_93_apply, val_main_v297_apply, val_main_v298_apply, val_main_c_94_apply, val_main_v299_apply, val_main_v300_apply, val_main_v301_apply, val_main_c_95_apply, val_main_v302_apply, val_main_v303_apply, val_main_c_96_apply, val_main_v304_apply, val_main_v305_apply, val_main_v306_apply, val_main_c_97_apply, val_main_v307_apply, val_main_v308_apply, val_main_c_98_apply, val_main_v309_apply, val_main_v310_apply, val_main_v311_apply, val_main_v319_apply, val_main_v321_apply, val_main_c_99_apply, val_main_v322_apply, val_main_v323_apply, val_main_c_100_apply, val_main_v324_apply, val_main_v325_apply, val_main_c_101_apply, val_main_v326_apply, val_main_v327_apply, val_main_v328_apply, val_main_c_102_apply, val_main_v329_apply, val_main_v330_apply, val_main_v331_apply, val_main_c_103_apply, val_main_v332_apply, val_main_v333_apply, val_main_v334_apply, val_main_c_104_apply, val_main_c_105_apply, val_main_call12_v0_apply, val_main_call12_v1_apply, val_main_call12_v2_apply, val_main_call12_v3_apply, val_main_call12_v4_apply, val_main_v335_apply, val_main_c_106_apply, val_main_c_107_apply, val_main_call13_v0_apply, val_main_call13_v1_apply, val_main_call13_v2_apply, val_main_call13_v3_apply, val_main_call13_v4_apply, val_main_v336_apply, val_main_c_108_apply, val_main_v338_apply, val_main_v339_apply, val_main_c_109_apply, val_main_v340_apply, val_main_v341_apply, val_main_v342_apply, val_main_c_110_apply, val_main_v343_apply, val_main_v344_apply, val_main_c_111_apply, val_main_v345_apply, val_main_v346_apply, val_main_v347_apply, val_main_c_112_apply, val_main_v348_apply, val_main_v349_apply, val_main_c_113_apply, val_main_v350_apply, val_main_v351_apply, val_main_v352_apply, val_main_v360_apply, val_main_v362_apply, val_main_c_114_apply, val_main_v363_apply, val_main_v364_apply, val_main_c_115_apply, val_main_v365_apply, val_main_v366_apply, val_main_c_116_apply, val_main_v367_apply, val_main_v368_apply, val_main_c_117_apply, val_main_v369_apply, val_main_v370_apply, val_main_v371_apply, val_main_c_118_apply, val_main_v372_apply, val_main_v373_apply, val_main_v374_apply, val_main_c_119_apply, val_main_v375_apply, val_main_v376_apply, val_main_v377_apply, val_main_c_120_apply, val_main_c_121_apply, val_main_call14_v0_apply, val_main_call14_v1_apply, val_main_call14_v2_apply, val_main_call14_v3_apply, val_main_call14_v4_apply, val_main_v378_apply, val_main_c_122_apply, val_main_c_123_apply, val_main_call15_v0_apply, val_main_call15_v1_apply, val_main_call15_v2_apply, val_main_call15_v3_apply, val_main_call15_v4_apply, val_main_v379_apply, val_main_c_124_apply, val_main_v381_apply, val_main_v382_apply, val_main_c_125_apply, val_main_v383_apply, val_main_v384_apply, val_main_v385_apply, val_main_c_126_apply, val_main_v386_apply, val_main_v387_apply, val_main_c_127_apply, val_main_v388_apply, val_main_v389_apply, val_main_v390_apply, val_main_c_128_apply, val_main_v391_apply, val_main_v392_apply, val_main_c_129_apply, val_main_v393_apply, val_main_v394_apply, val_main_v395_apply, val_main_v403_apply, val_main_v405_apply, val_main_cst_130_apply, val_main_v408_apply, val_main_v409_apply, val_main_v411_apply, val_main_cst_131_apply, val_main_v412_apply, val_main_v413_apply, val_main_v415_apply, val_main_v417_apply, val_main_cst_132_apply, val_main_v418_apply, val_main_v419_apply, val_main_v421_apply, val_main_v422_apply, val_main_cst_133_apply, val_main_v423_apply, val_main_v424_apply, val_main_v426_apply, val_main_v428_apply, val_main_v429_apply, val_main_v431_apply, val_main_v433_apply, val_main_v434_apply])

/-- Corner `c00` of level 1: the gathered value times the validity bit is the map's value at the corner's cell, or zero
    when the cell lies outside the map. -/
theorem l1_c00 (x1 : (⟨S2x256x128x128, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v280 (F := Ideal) x1 x4 x5 (ix3 n p ch)
      = if (val_main_v240 (F := Ideal) x4 x5 (ix2 n p)).toNat < 128 ∧ (val_main_v241 (F := Ideal) x4 x5 (ix2 n p)).toNat < 128
          then natMap (N := 2) (C := 256) (H := 128) (W := 128) x1 ch (val_main_v2 (F := Ideal) x4 (ix1 n)).toNat (val_main_v241 (F := Ideal) x4 x5 (ix2 n p)).toNat (val_main_v240 (F := Ideal) x4 x5 (ix2 n p)).toNat else 0 := by
  have h0 : val_main_v275 (F := Ideal) x4 x5 (ix3 n p (0 : Fin 3)) = normIdx 2#32 (val_main_v2 (F := Ideal) x4 (ix1 n)) := by
    refine (concat3_apply0 _ _ _ _ n p).trans ?_
    rw [val_main_v272_apply, show idx_main_v272 (ix3 n p (0 : Fin 1)) = ix2 n p from idx2_eq rfl rfl,
      val_main_v271_apply, show idx_main_v271 (ix2 n p) = ix2 n (0 : Fin 1) from idx2_eq rfl rfl]
    lvl1_simp
    rw [val_main_v255_apply, show idx_main_v255 (ix2 n (0 : Fin 1)) = ix1 n from idx1_eq rfl]
    all_goals rfl
  have h1 : val_main_v275 (F := Ideal) x4 x5 (ix3 n p (1 : Fin 3)) = normIdx 128#32 (clip 127#32 (val_main_v241 (F := Ideal) x4 x5 (ix2 n p))) := by
    refine (concat3_apply1 _ _ _ _ n p).trans ?_
    rw [val_main_v273_apply, show idx_main_v273 (ix3 n p (0 : Fin 1)) = ix2 n p from idx2_eq rfl rfl]
    lvl1_simp
    all_goals rfl
  have h2 : val_main_v275 (F := Ideal) x4 x5 (ix3 n p (2 : Fin 3)) = normIdx 128#32 (clip 127#32 (val_main_v240 (F := Ideal) x4 x5 (ix2 n p))) := by
    refine (concat3_apply2 _ _ _ _ n p).trans ?_
    rw [val_main_v274_apply, show idx_main_v274 (ix3 n p (0 : Fin 1)) = ix2 n p from idx2_eq rfl rfl]
    lvl1_simp
    all_goals rfl
  have hv : val_main_v279 (F := Ideal) x4 x5 (ix3 n p ch) = (((validBit 128#32 128#32 (val_main_v240 (F := Ideal) x4 x5 (ix2 n p)) (val_main_v241 (F := Ideal) x4 x5 (ix2 n p))).toNat : ℝ) : EReal) := by
    rw [val_main_v279_apply, show idx_main_v279 (ix3 n p ch) = ix3 n p (0 : Fin 1) from idx3_eq rfl rfl rfl,
      val_main_v278_apply, val_main_v277_apply, show idx_main_v277 (ix3 n p (0 : Fin 1)) = ix2 n p from idx2_eq rfl rfl]
    lvl1_simp
    all_goals rfl
  rw [val_main_v280_apply, hv]
  exact corner_read (N := 2) (C := 256) (H := 128) (W := 128) (R := 512) (P := 128) (by norm_num) (by norm_num) (by norm_num)
    _ x1 (val_main_v275 (F := Ideal) x4 x5) n p ch (val_main_v2 (F := Ideal) x4 (ix1 n)) (val_main_v240 (F := Ideal) x4 x5 (ix2 n p)) (val_main_v241 (F := Ideal) x4 x5 (ix2 n p)) 2#32 128#32 128#32 127#32 127#32 rfl rfl rfl rfl hB h0 h1 h2

/-- Corner `c01` of level 1: the gathered value times the validity bit is the map's value at the corner's cell, or zero
    when the cell lies outside the map. -/
theorem l1_c01 (x1 : (⟨S2x256x128x128, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v321 (F := Ideal) x1 x4 x5 (ix3 n p ch)
      = if ((val_main_v240 (F := Ideal) x4 x5 (ix2 n p)) + 1).toNat < 128 ∧ (val_main_v241 (F := Ideal) x4 x5 (ix2 n p)).toNat < 128
          then natMap (N := 2) (C := 256) (H := 128) (W := 128) x1 ch (val_main_v2 (F := Ideal) x4 (ix1 n)).toNat (val_main_v241 (F := Ideal) x4 x5 (ix2 n p)).toNat ((val_main_v240 (F := Ideal) x4 x5 (ix2 n p)) + 1).toNat else 0 := by
  have h0 : val_main_v316 (F := Ideal) x4 x5 (ix3 n p (0 : Fin 3)) = normIdx 2#32 (val_main_v2 (F := Ideal) x4 (ix1 n)) := by
    refine (concat3_apply0 _ _ _ _ n p).trans ?_
    rw [val_main_v313_apply, show idx_main_v313 (ix3 n p (0 : Fin 1)) = ix2 n p from idx2_eq rfl rfl,
      val_main_v312_apply, show idx_main_v312 (ix2 n p) = ix2 n (0 : Fin 1) from idx2_eq rfl rfl]
    lvl1_simp
    rw [val_main_v296_apply, show idx_main_v296 (ix2 n (0 : Fin 1)) = ix1 n from idx1_eq rfl]
    all_goals rfl
  have h1 : val_main_v316 (F := Ideal) x4 x5 (ix3 n p (1 : Fin 3)) = normIdx 128#32 (clip 127#32 (val_main_v241 (F := Ideal) x4 x5 (ix2 n p))) := by
    refine (concat3_apply1 _ _ _ _ n p).trans ?_
    rw [val_main_v314_apply, show idx_main_v314 (ix3 n p (0 : Fin 1)) = ix2 n p from idx2_eq rfl rfl]
    lvl1_simp
    all_goals rfl
  have h2 : val_main_v316 (F := Ideal) x4 x5 (ix3 n p (2 : Fin 3)) = normIdx 128#32 (clip 127#32 ((val_main_v240 (F := Ideal) x4 x5 (ix2 n p)) + 1)) := by
    refine (concat3_apply2 _ _ _ _ n p).trans ?_
    rw [val_main_v315_apply, show idx_main_v315 (ix3 n p (0 : Fin 1)) = ix2 n p from idx2_eq rfl rfl]
    lvl1_simp
    all_goals rfl
  have hv : val_main_v320 (F := Ideal) x4 x5 (ix3 n p ch) = (((validBit 128#32 128#32 ((val_main_v240 (F := Ideal) x4 x5 (ix2 n p)) + 1) (val_main_v241 (F := Ideal) x4 x5 (ix2 n p))).toNat : ℝ) : EReal) := by
    rw [val_main_v320_apply, show idx_main_v320 (ix3 n p ch) = ix3 n p (0 : Fin 1) from idx3_eq rfl rfl rfl,
      val_main_v319_apply, val_main_v318_apply, show idx_main_v318 (ix3 n p (0 : Fin 1)) = ix2 n p from idx2_eq rfl rfl]
    lvl1_simp
    all_goals rfl
  rw [val_main_v321_apply, hv]
  exact corner_read (N := 2) (C := 256) (H := 128) (W := 128) (R := 512) (P := 128) (by norm_num) (by norm_num) (by norm_num)
    _ x1 (val_main_v316 (F := Ideal) x4 x5) n p ch (val_main_v2 (F := Ideal) x4 (ix1 n)) ((val_main_v240 (F := Ideal) x4 x5 (ix2 n p)) + 1) (val_main_v241 (F := Ideal) x4 x5 (ix2 n p)) 2#32 128#32 128#32 127#32 127#32 rfl rfl rfl rfl hB h0 h1 h2

/-- Corner `c10` of level 1: the gathered value times the validity bit is the map's value at the corner's cell, or zero
    when the cell lies outside the map. -/
theorem l1_c10 (x1 : (⟨S2x256x128x128, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v362 (F := Ideal) x1 x4 x5 (ix3 n p ch)
      = if (val_main_v240 (F := Ideal) x4 x5 (ix2 n p)).toNat < 128 ∧ ((val_main_v241 (F := Ideal) x4 x5 (ix2 n p)) + 1).toNat < 128
          then natMap (N := 2) (C := 256) (H := 128) (W := 128) x1 ch (val_main_v2 (F := Ideal) x4 (ix1 n)).toNat ((val_main_v241 (F := Ideal) x4 x5 (ix2 n p)) + 1).toNat (val_main_v240 (F := Ideal) x4 x5 (ix2 n p)).toNat else 0 := by
  have h0 : val_main_v357 (F := Ideal) x4 x5 (ix3 n p (0 : Fin 3)) = normIdx 2#32 (val_main_v2 (F := Ideal) x4 (ix1 n)) := by
    refine (concat3_apply0 _ _ _ _ n p).trans ?_
    rw [val_main_v354_apply, show idx_main_v354 (ix3 n p (0 : Fin 1)) = ix2 n p from idx2_eq rfl rfl,
      val_main_v353_apply, show idx_main_v353 (ix2 n p) = ix2 n (0 : Fin 1) from idx2_eq rfl rfl]
    lvl1_simp
    rw [val_main_v337_apply, show idx_main_v337 (ix2 n (0 : Fin 1)) = ix1 n from idx1_eq rfl]
    all_goals rfl
  have h1 : val_main_v357 (F := Ideal) x4 x5 (ix3 n p (1 : Fin 3)) = normIdx 128#32 (clip 127#32 ((val_main_v241 (F := Ideal) x4 x5 (ix2 n p)) + 1)) := by
    refine (concat3_apply1 _ _ _ _ n p).trans ?_
    rw [val_main_v355_apply, show idx_main_v355 (ix3 n p (0 : Fin 1)) = ix2 n p from idx2_eq rfl rfl]
    lvl1_simp
    all_goals rfl
  have h2 : val_main_v357 (F := Ideal) x4 x5 (ix3 n p (2 : Fin 3)) = normIdx 128#32 (clip 127#32 (val_main_v240 (F := Ideal) x4 x5 (ix2 n p))) := by
    refine (concat3_apply2 _ _ _ _ n p).trans ?_
    rw [val_main_v356_apply, show idx_main_v356 (ix3 n p (0 : Fin 1)) = ix2 n p from idx2_eq rfl rfl]
    lvl1_simp
    all_goals rfl
  have hv : val_main_v361 (F := Ideal) x4 x5 (ix3 n p ch) = (((validBit 128#32 128#32 (val_main_v240 (F := Ideal) x4 x5 (ix2 n p)) ((val_main_v241 (F := Ideal) x4 x5 (ix2 n p)) + 1)).toNat : ℝ) : EReal) := by
    rw [val_main_v361_apply, show idx_main_v361 (ix3 n p ch) = ix3 n p (0 : Fin 1) from idx3_eq rfl rfl rfl,
      val_main_v360_apply, val_main_v359_apply, show idx_main_v359 (ix3 n p (0 : Fin 1)) = ix2 n p from idx2_eq rfl rfl]
    lvl1_simp
    all_goals rfl
  rw [val_main_v362_apply, hv]
  exact corner_read (N := 2) (C := 256) (H := 128) (W := 128) (R := 512) (P := 128) (by norm_num) (by norm_num) (by norm_num)
    _ x1 (val_main_v357 (F := Ideal) x4 x5) n p ch (val_main_v2 (F := Ideal) x4 (ix1 n)) (val_main_v240 (F := Ideal) x4 x5 (ix2 n p)) ((val_main_v241 (F := Ideal) x4 x5 (ix2 n p)) + 1) 2#32 128#32 128#32 127#32 127#32 rfl rfl rfl rfl hB h0 h1 h2

/-- Corner `c11` of level 1: the gathered value times the validity bit is the map's value at the corner's cell, or zero
    when the cell lies outside the map. -/
theorem l1_c11 (x1 : (⟨S2x256x128x128, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v405 (F := Ideal) x1 x4 x5 (ix3 n p ch)
      = if ((val_main_v240 (F := Ideal) x4 x5 (ix2 n p)) + 1).toNat < 128 ∧ ((val_main_v241 (F := Ideal) x4 x5 (ix2 n p)) + 1).toNat < 128
          then natMap (N := 2) (C := 256) (H := 128) (W := 128) x1 ch (val_main_v2 (F := Ideal) x4 (ix1 n)).toNat ((val_main_v241 (F := Ideal) x4 x5 (ix2 n p)) + 1).toNat ((val_main_v240 (F := Ideal) x4 x5 (ix2 n p)) + 1).toNat else 0 := by
  have h0 : val_main_v400 (F := Ideal) x4 x5 (ix3 n p (0 : Fin 3)) = normIdx 2#32 (val_main_v2 (F := Ideal) x4 (ix1 n)) := by
    refine (concat3_apply0 _ _ _ _ n p).trans ?_
    rw [val_main_v397_apply, show idx_main_v397 (ix3 n p (0 : Fin 1)) = ix2 n p from idx2_eq rfl rfl,
      val_main_v396_apply, show idx_main_v396 (ix2 n p) = ix2 n (0 : Fin 1) from idx2_eq rfl rfl]
    lvl1_simp
    rw [val_main_v380_apply, show idx_main_v380 (ix2 n (0 : Fin 1)) = ix1 n from idx1_eq rfl]
    all_goals rfl
  have h1 : val_main_v400 (F := Ideal) x4 x5 (ix3 n p (1 : Fin 3)) = normIdx 128#32 (clip 127#32 ((val_main_v241 (F := Ideal) x4 x5 (ix2 n p)) + 1)) := by
    refine (concat3_apply1 _ _ _ _ n p).trans ?_
    rw [val_main_v398_apply, show idx_main_v398 (ix3 n p (0 : Fin 1)) = ix2 n p from idx2_eq rfl rfl]
    lvl1_simp
    all_goals rfl
  have h2 : val_main_v400 (F := Ideal) x4 x5 (ix3 n p (2 : Fin 3)) = normIdx 128#32 (clip 127#32 ((val_main_v240 (F := Ideal) x4 x5 (ix2 n p)) + 1)) := by
    refine (concat3_apply2 _ _ _ _ n p).trans ?_
    rw [val_main_v399_apply, show idx_main_v399 (ix3 n p (0 : Fin 1)) = ix2 n p from idx2_eq rfl rfl]
    lvl1_simp
    all_goals rfl
  have hv : val_main_v404 (F := Ideal) x4 x5 (ix3 n p ch) = (((validBit 128#32 128#32 ((val_main_v240 (F := Ideal) x4 x5 (ix2 n p)) + 1) ((val_main_v241 (F := Ideal) x4 x5 (ix2 n p)) + 1)).toNat : ℝ) : EReal) := by
    rw [val_main_v404_apply, show idx_main_v404 (ix3 n p ch) = ix3 n p (0 : Fin 1) from idx3_eq rfl rfl rfl,
      val_main_v403_apply, val_main_v402_apply, show idx_main_v402 (ix3 n p (0 : Fin 1)) = ix2 n p from idx2_eq rfl rfl]
    lvl1_simp
    all_goals rfl
  rw [val_main_v405_apply, hv]
  exact corner_read (N := 2) (C := 256) (H := 128) (W := 128) (R := 512) (P := 128) (by norm_num) (by norm_num) (by norm_num)
    _ x1 (val_main_v400 (F := Ideal) x4 x5) n p ch (val_main_v2 (F := Ideal) x4 (ix1 n)) ((val_main_v240 (F := Ideal) x4 x5 (ix2 n p)) + 1) ((val_main_v241 (F := Ideal) x4 x5 (ix2 n p)) + 1) 2#32 128#32 128#32 127#32 127#32 rfl rfl rfl rfl hB h0 h1 h2

/-- LEVEL 1 AT ONE OUTPUT ELEMENT: the reference's value at region `n`, channel `ch`, point `p` is the four-corner
    bilinear sample of the map at channel `ch`, for a region whose image index is 0 or 1. -/
theorem ref1_apply (x1 : (⟨S2x256x128x128, .f32⟩ : BufTy).Contents (Elt Ideal)) (x4 : (⟨S512x5, .f32⟩ : BufTy).Contents (Elt Ideal))
    (x5 : (⟨S512x128x2, .f32⟩ : BufTy).Contents (Elt Ideal)) (n : Fin 512) (ch : Fin 256) (p : Fin 128)
    (hB : (val_main_v2 (F := Ideal) x4 (ix1 n)).toNat < 2) :
    val_main_v435 (F := Ideal) x1 x4 x5 (ix3 n ch p)
      = Cert.LibRefSample.refSample 128 128 (natMap (N := 2) (C := 256) (H := 128) (W := 128) x1 ch) (val_main_v2 (F := Ideal) x4 (ix1 n))
          (val_main_v240 (F := Ideal) x4 x5 (ix2 n p)) (val_main_v241 (F := Ideal) x4 x5 (ix2 n p)) (Idealize.ShloMosaic.Ideal.ofBits .f32 0x3F800000#32)
          (val_main_v238 (F := Ideal) x4 x5 (ix2 n p)) (val_main_v239 (F := Ideal) x4 x5 (ix2 n p)) := by
  have w198 : val_main_v410 (F := Ideal) x4 x5 (ix3 n p ch) = (Idealize.ShloMosaic.Ideal.ofBits .f32 0x3F800000#32) - (val_main_v238 (F := Ideal) x4 x5 (ix2 n p)) := by
    rw [val_main_v410_apply, show idx_main_v410 (ix3 n p ch) = ix3 n p (0 : Fin 1) from idx3_eq rfl rfl rfl, val_main_v409_apply,
      val_main_v408_apply, val_main_cst_130_apply, val_main_v406_apply,
      show idx_main_v406 (ix3 n p (0 : Fin 1)) = ix2 n p from idx2_eq rfl rfl]
    all_goals rfl
  have w202 : val_main_v414 (F := Ideal) x4 x5 (ix3 n p ch) = (Idealize.ShloMosaic.Ideal.ofBits .f32 0x3F800000#32) - (val_main_v239 (F := Ideal) x4 x5 (ix2 n p)) := by
    rw [val_main_v414_apply, show idx_main_v414 (ix3 n p ch) = ix3 n p (0 : Fin 1) from idx3_eq rfl rfl rfl, val_main_v413_apply,
      val_main_v412_apply, val_main_cst_131_apply, val_main_v407_apply,
      show idx_main_v407 (ix3 n p (0 : Fin 1)) = ix2 n p from idx2_eq rfl rfl]
    all_goals rfl
  have w204 : val_main_v416 (F := Ideal) x4 x5 (ix3 n p ch) = (val_main_v238 (F := Ideal) x4 x5 (ix2 n p)) := by
    rw [val_main_v416_apply, show idx_main_v416 (ix3 n p ch) = ix3 n p (0 : Fin 1) from idx3_eq rfl rfl rfl, val_main_v406_apply,
      show idx_main_v406 (ix3 n p (0 : Fin 1)) = ix2 n p from idx2_eq rfl rfl]
  have w208 : val_main_v420 (F := Ideal) x4 x5 (ix3 n p ch) = (Idealize.ShloMosaic.Ideal.ofBits .f32 0x3F800000#32) - (val_main_v239 (F := Ideal) x4 x5 (ix2 n p)) := by
    rw [val_main_v420_apply, show idx_main_v420 (ix3 n p ch) = ix3 n p (0 : Fin 1) from idx3_eq rfl rfl rfl, val_main_v419_apply,
      val_main_v418_apply, val_main_cst_132_apply, val_main_v407_apply,
      show idx_main_v407 (ix3 n p (0 : Fin 1)) = ix2 n p from idx2_eq rfl rfl]
    all_goals rfl
  have w213 : val_main_v425 (F := Ideal) x4 x5 (ix3 n p ch) = (Idealize.ShloMosaic.Ideal.ofBits .f32 0x3F800000#32) - (val_main_v238 (F := Ideal) x4 x5 (ix2 n p)) := by
    rw [val_main_v425_apply, show idx_main_v425 (ix3 n p ch) = ix3 n p (0 : Fin 1) from idx3_eq rfl rfl rfl, val_main_v424_apply,
      val_main_v423_apply, val_main_cst_133_apply, val_main_v406_apply,
      show idx_main_v406 (ix3 n p (0 : Fin 1)) = ix2 n p from idx2_eq rfl rfl]
    all_goals rfl
  have w215 : val_main_v427 (F := Ideal) x4 x5 (ix3 n p ch) = (val_main_v239 (F := Ideal) x4 x5 (ix2 n p)) := by
    rw [val_main_v427_apply, show idx_main_v427 (ix3 n p ch) = ix3 n p (0 : Fin 1) from idx3_eq rfl rfl rfl, val_main_v407_apply,
      show idx_main_v407 (ix3 n p (0 : Fin 1)) = ix2 n p from idx2_eq rfl rfl]
  have w218 : val_main_v430 (F := Ideal) x4 x5 (ix3 n p ch) = (val_main_v238 (F := Ideal) x4 x5 (ix2 n p)) := by
    rw [val_main_v430_apply, show idx_main_v430 (ix3 n p ch) = ix3 n p (0 : Fin 1) from idx3_eq rfl rfl rfl, val_main_v406_apply,
      show idx_main_v406 (ix3 n p (0 : Fin 1)) = ix2 n p from idx2_eq rfl rfl]
  have w220 : val_main_v432 (F := Ideal) x4 x5 (ix3 n p ch) = (val_main_v239 (F := Ideal) x4 x5 (ix2 n p)) := by
    rw [val_main_v432_apply, show idx_main_v432 (ix3 n p ch) = ix3 n p (0 : Fin 1) from idx3_eq rfl rfl rfl, val_main_v407_apply,
      show idx_main_v407 (ix3 n p (0 : Fin 1)) = ix2 n p from idx2_eq rfl rfl]
  rw [val_main_v435_apply, show idx_main_v435 (ix3 n ch p) = ix3 n p ch from idx3_eq rfl rfl rfl,
    val_main_v434_apply, val_main_v429_apply, val_main_v422_apply, val_main_v415_apply, val_main_v411_apply, val_main_v421_apply, val_main_v417_apply,
    val_main_v428_apply, val_main_v426_apply, val_main_v433_apply, val_main_v431_apply,
    l1_c00 x1 x4 x5 n p ch hB, l1_c01 x1 x4 x5 n p ch hB, l1_c10 x1 x4 x5 n p ch hB, l1_c11 x1 x4 x5 n p ch hB,
    w198, w202, w204, w208, w213, w215, w218, w220]
  all_goals rfl

end Cert.RefLevel

end
-- ==== Proof.KI1Eq.lean ====
/-
  Level 1: what the kernel leaves in its output array is the reference's stage. Entry by entry: the region's output is
  the nested sample over the arrays the region finds; those arrays are the reference's cells, fractions and batch
  indices, and the launch's feature map; the nested sample is the reference's four-corner formula when the values are
  real; and that formula is the reference's stage read at the entry.
-/
import proofs.«110520_j35545149342110_1_alg».proof.Proof.KI1Lvl
import proofs.«110520_j35545149342110_1_alg».proof.Proof.KIPrelude
import proofs.«110520_j35545149342110_1_alg».proof.Proof.RefLevel1
import proofs.«110520_j35545149342110_1_alg».proof.Proof.RefReal
import proofs.«110520_j35545149342110_1_alg».proof.Proof.LibRefSample

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LibBilinear Cert.LibRefSample Cert.LibReal Cert.LibGatherPoint

variable (m : (ℓ : Loc nD τ sig) → Buf (Elt Ideal) ℓ)

/-- The level's feature map as region 1 finds it is the launch's. -/
theorem W3_feat1 (c : Dev nD) : W3 m c (Proc.devRef .tc main_arg1) = m ((c.tc : Thread nD τ).loc main_arg1) :=
  calc W3 m c (Proc.devRef .tc main_arg1)
    _ = W2 m c (Proc.devRef .tc main_arg1) := by unfold W3; exact StableHlo.after_of_writes_sub hostOps1 _ hostOps1_writes (by decide)
    _ = W1 m c (Proc.devRef .tc main_arg1) := W2_of_ne m c main_arg1 (by decide)
    _ = W0 m c (Proc.devRef .tc main_arg1) := by unfold W1; exact StableHlo.after_of_writes_sub hostOps0 _ hostOps0_writes (by decide)
    _ = m ((c.tc : Thread nD τ).loc main_arg1) := rfl

/-- The feature map on naturals is real when the map is. -/
theorem featN1_real (A : S2x256x128x128.Idx → EReal) (hA : ∀ i, IsReal (A i)) (ch : Fin 256) (b h w : ℕ) : ∃ r : ℝ, featN1 A ch b h w = (r : EReal) := by
  unfold featN1
  split_ifs
  · exact hA _
  · exact ⟨0, rfl⟩
  · exact ⟨0, rfl⟩
  · exact ⟨0, rfl⟩

set_option maxHeartbeats 4000000 in
/-- LEVEL 1: the kernel's output array is the reference's stage `%435`. -/
theorem level1_eq (c : Dev nD)
    (hA : ∀ i, IsReal ((m ((c.tc : Thread nD τ).loc main_arg1) : S2x256x128x128.Idx → EReal) i))
    (h4 : ∀ i, IsReal ((m ((c.tc : Thread nD τ).loc main_arg4) : S512x5.Idx → EReal) i))
    (h5 : ∀ i, IsReal ((m ((c.tc : Thread nD τ).loc main_arg5) : S512x128x2.Idx → EReal) i))
    (hB : ∀ n : Fin 512, (Cert.ReferenceIdeal.Read.val_main_v2 (F := Ideal) (m ((c.tc : Thread nD τ).loc main_arg4)) (ix1 n)).toNat < 2) :
    (W4 m c (Proc.devRef .tc main_v51) : S512x256x128.Idx → EReal) = Cert.ReferenceIdeal.Read.val_main_v435 (F := Ideal) (m ((c.tc : Thread nD τ).loc main_arg1)) (m ((c.tc : Thread nD τ).loc main_arg4)) (m ((c.tc : Thread nD τ).loc main_arg5)) := by
  funext y
  obtain ⟨n, ch, p, rfl⟩ : ∃ (n : Fin 512) (ch : Fin 256) (p : Fin 128), y = ix3 n ch p := ⟨y 0, y 1, y 2, eq_ix3 y⟩
  have hk : W4 m c (Proc.devRef .tc main_v51) = out1 (V3 m) c := (W4_arr m c 6).trans (final1 (V3 m) c)
  have hbi : (W3 m c (Proc.devRef .tc main_v13) : S512x128.Idx → BitVec 32) (ix2 n p) = Cert.ReferenceIdeal.Read.val_main_v2 (F := Ideal) (m ((c.tc : Thread nD τ).loc main_arg4)) (ix1 n) := by
    rw [lvl1_bi m c]; exact W1_bi m c n p
  rw [congrFun hk (ix3 n ch p), out1_apply,
    sumTerm1_nested _ _ _ _ _ _ (n.val / 8) n ch p (by show ((W3 m c (Proc.devRef .tc main_v13) : S512x128.Idx → BitVec 32) (ix2 n p)).toNat < 2; rw [hbi]; exact hB n)]
  rw [Cert.RefLevel.ref1_apply _ _ _ n ch p (hB n),
    refSample_eq 128 128 _ (fun b h w => by rw [natMap_eq_nested]; exact featN1_real _ hA ch b h w) _ _ _ _ _ _ ⟨1, lit_one⟩
      (Cert.RefReal.real1_wx _ _ h4 h5 _) (Cert.RefReal.real1_wy _ _ h4 h5 _)]
  have e1 : V3 m c main_v49 = Cert.ReferenceIdeal.Read.val_main_v240 (F := Ideal) (m ((c.tc : Thread nD τ).loc main_arg4)) (m ((c.tc : Thread nD τ).loc main_arg5)) := lvl1_x m c
  have e2 : V3 m c main_v50 = Cert.ReferenceIdeal.Read.val_main_v241 (F := Ideal) (m ((c.tc : Thread nD τ).loc main_arg4)) (m ((c.tc : Thread nD τ).loc main_arg5)) := lvl1_y m c
  have e3 : V3 m c main_v47 = Cert.ReferenceIdeal.Read.val_main_v238 (F := Ideal) (m ((c.tc : Thread nD τ).loc main_arg4)) (m ((c.tc : Thread nD τ).loc main_arg5)) := lvl1_wx m c
  have e4 : V3 m c main_v48 = Cert.ReferenceIdeal.Read.val_main_v239 (F := Ideal) (m ((c.tc : Thread nD τ).loc main_arg4)) (m ((c.tc : Thread nD τ).loc main_arg5)) := lvl1_wy m c
  have e5 : (V3 m c main_v13 : S512x128.Idx → BitVec 32) (ix2 n p) = Cert.ReferenceIdeal.Read.val_main_v2 (F := Ideal) (m ((c.tc : Thread nD τ).loc main_arg4)) (ix1 n) := hbi
  have e6 : V3 m c main_arg1 = (m ((c.tc : Thread nD τ).loc main_arg1)) := W3_feat1 m c
  have e7 : featN1 (m ((c.tc : Thread nD τ).loc main_arg1)) ch = natMap (N := 2) (C := 256) (H := 128) (W := 128) (m ((c.tc : Thread nD τ).loc main_arg1)) ch := by
    rw [natMap_eq_nested]; rfl
  rw [e1, e2, e3, e4, e5, e6, e7]

end Cert.KernelIdeal.Hand

end
-- ==== Proof.KI2Pay.lean ====
/-
  One grid point's update of pallas_call 2's accumulator, read at an index, at the ideal values. The body contracts
  the feature block (256 channels × 8 rows × 64 columns) over its columns against a weight matrix built from the
  tile's sampling points — for each point the tent `[w = x]·(1 − wx) + [w = x+1]·wx` in the column number, times `1` where
  the point's batch index is the grid's batch coordinate and `0` elsewhere —, multiplies by the matching tent in the row
  number and sums over the block's eight rows. The reshapes around the matrix product (rows × columns flattened both
  ways) are read through by coordinates; the product itself is a plain sum at the ideal values.
-/
import proofs.«110520_j35545149342110_1_alg».proof.Proof.KI2Val
import proofs.«110520_j35545149342110_1_alg».proof.Proof.LibLayoutIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.LibLayoutIdx

/-- The column weight of pallas_call 2's body at column `w` for sampling point `(j, p)` of the tile: the tent
    `[w = x]·(1 − wx) + [w = x + 1]·wx` over the point's cell `x` and fraction `wx`, the tests made on 32-bit words. -/
theorem colTent2_apply (x4 : Vec Ideal S8x128 .i32) (x6 : Vec Ideal S8x128 .f32) (w : Fin 64) (j : Fin 8) (p : Fin 128) :
    addf (k2_pay9 (F := Ideal) x4 x6) (select (k2_pay10 (F := Ideal) x4) (k2_pay11 (F := Ideal) x6) (k2_pay12 (F := Ideal))) (ix3 w j p)
      = (if BitVec.ofNat 32 w.val = x4 (ix2 j p) then Ideal.ofBits .f32 0x3F800000#32 - x6 (ix2 j p) else 0)
        + (if BitVec.ofNat 32 w.val = x4 (ix2 j p) + 1#32 then x6 (ix2 j p) else 0) := by
  rw [addf_apply, select_apply]
  unfold k2_pay9 k2_pay10 k2_pay11 k2_pay12 k2_pay7 k2_pay8
  simp only [select_apply, shapeCast_self]
  simp only [cmpi, addi, IntOp.addi, subf_apply, broadcast_apply, broadcastTo_1bc_abc_apply, broadcastTo_a11_abc_apply,
    shapeCast_ab_1ab_apply, iota_single_apply, select_cmpi_eq, Ideal.ofBits_def, Ideal.ofBits_zero_f32]
  have hio : iota Kind.tc S64x1x1 32 [0] iota_S64x1x1_d0_w32 (ix3 w (0 : Fin 1) (0 : Fin 1)) = BitVec.ofNat 32 w.val :=
    iota_single_apply Kind.tc S64x1x1 32 0 iota_S64x1x1_d0_w32 _
  rw [hio]

/-- The batch mask as a number: `1` where the two words agree, `0` elsewhere. -/
theorem maskVal2 (x y : BitVec 32) :
    FloatOps.sitofp (F := Ideal) .f32 ((IntOp.cmpi .eq x y).setWidth 32) = if x = y then (1 : EReal) else 0 := by
  by_cases h : x = y
  · subst h
    have e : IntOp.cmpi .eq x x = 1#1 := by unfold IntOp.cmpi; simp
    rw [e, if_pos rfl]
    show (((BitVec.setWidth 32 (1#1)).toInt : ℝ) : EReal) = 1
    have e2 : (BitVec.setWidth 32 (1#1)).toInt = 1 := by decide
    rw [e2]; norm_num
  · have hb : (x == y) = false := by simpa using h
    have e : IntOp.cmpi .eq x y = 0#1 := by unfold IntOp.cmpi; rw [hb]; rfl
    rw [e, if_neg h]
    show (((BitVec.setWidth 32 (0#1)).toInt : ℝ) : EReal) = 0
    have e2 : (BitVec.setWidth 32 (0#1)).toInt = 0 := by decide
    rw [e2]; norm_num

/-- The row weight at feature row `hh` of the block at row tile `i 2`, for sampling point `(j, p)`. -/
theorem rowTent2_apply (i2 : BitVec 32) (x5 : Vec Ideal S8x128 .i32) (x7 : Vec Ideal S8x128 .f32) (hh : Fin 8) (j : Fin 8) (p : Fin 128) :
    addf
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (shapeCast S1x8x128 (k2_pay4 (F := Ideal) x5) shapeCasts_S8x128_S1x8x128) broadcasts_S1x8x128_S8x8x128))
        (broadcastTo S8x8x128 (subf (broadcast S1x8x128 (FloatOps.ofBits (F := Ideal) FTy.f32 1065353216#32)) (shapeCast S1x8x128 (k2_pay5 (F := Ideal) x7) shapeCasts_S8x128_S1x8x128)) broadcasts_S1x8x128_S8x8x128)
        (broadcast S8x8x128 (FloatOps.ofBits (F := Ideal) FTy.f32 0#32)))
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (addi (shapeCast S1x8x128 (k2_pay4 (F := Ideal) x5) shapeCasts_S8x128_S1x8x128) (broadcast S1x8x128 1#32)) broadcasts_S1x8x128_S8x8x128))
        (broadcastTo S8x8x128 (shapeCast S1x8x128 (k2_pay5 (F := Ideal) x7) shapeCasts_S8x128_S1x8x128) broadcasts_S1x8x128_S8x8x128)
        (broadcast S8x8x128 (FloatOps.ofBits (F := Ideal) FTy.f32 0#32))) (ix3 hh j p)
      = (if BitVec.ofNat 32 hh.val + i2 * 8#32 = x5 (ix2 j p) then Ideal.ofBits .f32 0x3F800000#32 - x7 (ix2 j p) else 0)
        + (if BitVec.ofNat 32 hh.val + i2 * 8#32 = x5 (ix2 j p) + 1#32 then x7 (ix2 j p) else 0) := by
  rw [addf_apply, select_apply, select_apply]
  unfold k2_pay4 k2_pay5
  simp only [shapeCast_self]
  have hio : iota Kind.tc S8x1x1 32 [0] iota_S8x1x1_d0_w32 (ix3 hh (0 : Fin 1) (0 : Fin 1)) = BitVec.ofNat 32 hh.val :=
    iota_single_apply Kind.tc S8x1x1 32 0 iota_S8x1x1_d0_w32 _
  simp only [cmpi, addi, IntOp.addi, Scalar.muli, IntOp.muli, subf_apply, broadcast_apply, broadcastTo_1bc_abc_apply, broadcastTo_a11_abc_apply,
    shapeCast_ab_1ab_apply, select_cmpi_eq, Ideal.ofBits_def, Ideal.ofBits_zero_f32, hio]

set_option maxHeartbeats 2000000 in
/-- ONE POINT'S UPDATE AT AN INDEX. At channel `ch` and sampling point `(j, p)` of the tile the accumulator gains the sum,
    over the eight feature rows of the block, of the row's contraction with the column tent (times the batch mask),
    times the row tent. -/
theorem step2_apply (i : grid2.Coords) (x3 : Vec Ideal S1x256x8x64 .f32) (x4 x5 : Vec Ideal S8x128 .i32) (x6 x7 : Vec Ideal S8x128 .f32)
    (x8 : Vec Ideal S8x128 .i32) (prev : Vec Ideal S256x8x128 .f32) (ch : Fin 256) (j : Fin 8) (p : Fin 128) :
    step2 (F := Ideal) i x3 x4 x5 x6 x7 x8 prev (ix3 ch j p)
      = prev (ix3 ch j p) + ∑ hh : Fin 8,
          (∑ w : Fin 64, x3 (ix4 (0 : Fin 1) ch hh w)
              * (((if BitVec.ofNat 32 w.val = x4 (ix2 j p) then Ideal.ofBits .f32 0x3F800000#32 - x6 (ix2 j p) else 0)
                  + (if BitVec.ofNat 32 w.val = x4 (ix2 j p) + 1#32 then x6 (ix2 j p) else 0))
                 * (if x8 (ix2 j p) = BitVec.ofNat 32 (i 1).val then (1 : EReal) else 0)))
          * ((if BitVec.ofNat 32 hh.val + BitVec.ofNat 32 (i 2).val * 8#32 = x5 (ix2 j p) then Ideal.ofBits .f32 0x3F800000#32 - x7 (ix2 j p) else 0)
              + (if BitVec.ofNat 32 hh.val + BitVec.ofNat 32 (i 2).val * 8#32 = x5 (ix2 j p) + 1#32 then x7 (ix2 j p) else 0)) := by
  unfold step2 k2_pay1 k2_pay13
  simp only [shapeCast_self]
  rw [addf_apply]
  congr 1
  refine (Ideal.multiReduction_add_single _ (0x00000000#32) reduces_S256x8x8x128_S256x8x128 _ _ (ix3 ch j p)).trans ?_
  show (∑ hh : Fin 8, _) = _
  refine Finset.sum_congr rfl fun hh _ => ?_
  have hl : reduces_S256x8x8x128_S256x8x128.lift (ix3 ch j p) hh = ix4 ch hh j p := by
    funext c; apply Fin.ext
    match c with
    | ⟨0, _⟩ => rfl
    | ⟨1, _⟩ => rfl
    | ⟨2, _⟩ => rfl
    | ⟨3, _⟩ => rfl
  rw [hl]
  refine (mulf_apply (s := S256x8x8x128) (φ := FTy.f32) _ _ (ix4 ch hh j p)).trans ?_
  congr 1
  · have hch := ch.isLt; have hhh := hh.isLt; have hj := j.isLt; have hp := p.isLt
    refine (shapeCast_nm_abcd_apply _ _ (by norm_num) ch hh j p (⟨ch.val * 8 + hh.val, by omega⟩ : Fin 2048)
      (⟨j.val * 128 + p.val, by omega⟩ : Fin 1024) rfl rfl).trans ?_
    simp only [matmul]
    refine (Ideal.matmul_constant_zero_apply dot_S2048x64_S64x1024_S2048x1024_1_0_0_1_n_n none _ _ _).trans ?_
    refine ((Equiv.sum_comp (contrEquiv1 dot_S2048x64_S64x1024_S2048x1024_1_0_0_1_n_n 64 rfl rfl).symm _).symm).trans ?_
    refine Finset.sum_congr rfl fun w _ => ?_
    have hL : dot_S2048x64_S64x1024_S2048x1024_1_0_0_1_n_n.lhsIdx (ix2 (⟨ch.val * 8 + hh.val, by omega⟩ : Fin 2048) (⟨j.val * 128 + p.val, by omega⟩ : Fin 1024))
        ((contrEquiv1 dot_S2048x64_S64x1024_S2048x1024_1_0_0_1_n_n 64 rfl rfl).symm w) = ix2 (⟨ch.val * 8 + hh.val, by omega⟩ : Fin 2048) w := by
      funext a; apply Fin.ext
      match a with
      | ⟨0, _⟩ => rfl
      | ⟨1, _⟩ => exact (dot_S2048x64_S64x1024_S2048x1024_1_0_0_1_n_n.lhsIdx_val_of_single (cl := 1) rfl _ _).trans (contrEquiv1_symm_val dot_S2048x64_S64x1024_S2048x1024_1_0_0_1_n_n 64 rfl rfl w)
    have hR : dot_S2048x64_S64x1024_S2048x1024_1_0_0_1_n_n.rhsIdx (ix2 (⟨ch.val * 8 + hh.val, by omega⟩ : Fin 2048) (⟨j.val * 128 + p.val, by omega⟩ : Fin 1024))
        ((contrEquiv1 dot_S2048x64_S64x1024_S2048x1024_1_0_0_1_n_n 64 rfl rfl).symm w) = ix2 w (⟨j.val * 128 + p.val, by omega⟩ : Fin 1024) := by
      funext a; apply Fin.ext
      match a with
      | ⟨0, _⟩ => exact (dot_S2048x64_S64x1024_S2048x1024_1_0_0_1_n_n.rhsIdx_val_of_single (cr := 0) rfl _ _).trans (contrEquiv1_symm_val dot_S2048x64_S64x1024_S2048x1024_1_0_0_1_n_n 64 rfl rfl w)
      | ⟨1, _⟩ => rfl
    rw [hL, hR]
    congr 1
    · refine (truncf_apply (s := S2048x64) (φ := FTy.f32) (ψ := FTy.bf16) _ bitsLt_bf16_f32 _).trans ?_
      refine (shapeCast_abc_nc_apply _ _ ch hh w (⟨ch.val * 8 + hh.val, by omega⟩ : Fin 2048) rfl).trans ?_
      exact shapeCast_1abc_abc_apply _ _ ch hh w
    · refine (truncf_apply (s := S64x1024) (φ := FTy.f32) (ψ := FTy.bf16) _ bitsLt_bf16_f32 _).trans ?_
      refine (shapeCast_abc_an_apply _ _ (by norm_num) w j p (⟨j.val * 128 + p.val, by omega⟩ : Fin 1024) rfl).trans ?_
      refine (mulf_apply (s := S64x8x128) (φ := FTy.f32) _ _ (ix3 w j p)).trans ?_
      congr 1
      · exact colTent2_apply x4 x6 w j p
      · rw [broadcastTo_1bc_abc_apply, shapeCast_ab_1ab_apply]
        unfold k2_pay6
        simp only [shapeCast_self]
        exact maskVal2 _ _
  · rw [broadcastTo_1bcd_abcd_apply, shapeCast_abc_1abc_apply]
    exact rowTent2_apply (BitVec.ofNat 32 (i 2).val) x5 x7 hh j p

end Cert.KernelIdeal.Hand

end
-- ==== Proof.KI2Blk.lean ====
/-
  The windows of pallas_call 2 read as entries of the arrays. The grid's 1024 points are numbered row-major over
  (tile of regions of interest, batch image, row tile): point `t` is tile `t / 16`, image `(t / 8) % 2`, row tile
  `t % 8`. The index maps are decided once over the grid in that closed form; a block's entry is then the array's
  entry at (block index × block size + the coordinate inside the block) on each axis.
-/
import proofs.«110520_j35545149342110_1_alg».proof.Proof.KI2Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The index maps over the grid, in closed form -/

/-- The feature window follows the batch image and the row tile. -/
theorem idx2_f : ∀ t : Fin cfg2.N, win2_0.index t 0 = (t.val / 8) % 2 ∧ win2_0.index t 1 = 0 ∧ win2_0.index t 2 = t.val % 8 ∧ win2_0.index t 3 = 0 :=
  (by decide +kernel : ∀ t : Fin grid2.N, win2_0.index t 0 = (t.val / 8) % 2 ∧ win2_0.index t 1 = 0 ∧ win2_0.index t 2 = t.val % 8 ∧ win2_0.index t 3 = 0)
/-- The five per-point windows follow the tile of regions of interest. -/
theorem idx2_s : ∀ t : Fin cfg2.N, (win2_1.index t 0 = t.val / 16 ∧ win2_1.index t 1 = 0) ∧ (win2_2.index t 0 = t.val / 16 ∧ win2_2.index t 1 = 0) ∧ (win2_3.index t 0 = t.val / 16 ∧ win2_3.index t 1 = 0) ∧ (win2_4.index t 0 = t.val / 16 ∧ win2_4.index t 1 = 0) ∧ (win2_5.index t 0 = t.val / 16 ∧ win2_5.index t 1 = 0) :=
  (by decide +kernel : ∀ t : Fin grid2.N, (win2_1.index t 0 = t.val / 16 ∧ win2_1.index t 1 = 0) ∧ (win2_2.index t 0 = t.val / 16 ∧ win2_2.index t 1 = 0) ∧ (win2_3.index t 0 = t.val / 16 ∧ win2_3.index t 1 = 0) ∧ (win2_4.index t 0 = t.val / 16 ∧ win2_4.index t 1 = 0) ∧ (win2_5.index t 0 = t.val / 16 ∧ win2_5.index t 1 = 0))
/-- So does the output window. -/
theorem idx2_o : ∀ t : Fin cfg2.N, win2_6.index t 0 = t.val / 16 ∧ win2_6.index t 1 = 0 ∧ win2_6.index t 2 = 0 :=
  (by decide +kernel : ∀ t : Fin grid2.N, win2_6.index t 0 = t.val / 16 ∧ win2_6.index t 1 = 0 ∧ win2_6.index t 2 = 0)
/-- The grid coordinates the body reads, from the point's number. -/
theorem coord2 : ∀ t : Fin cfg2.N, ((grid2.coords t) 1).val = (t.val / 8) % 2 ∧ ((grid2.coords t) 2).val = t.val % 8 :=
  (by decide +kernel : ∀ t : Fin grid2.N, ((grid2.coords t) 1).val = (t.val / 8) % 2 ∧ ((grid2.coords t) 2).val = t.val % 8)

section Region

variable (V : (c : Dev nD) → (b : Ref sig .tc) → Buf (Elt F) ((c : Thread nD τ).loc b))

/-! ## The blocks as entries of the arrays -/

/-- The feature block at point `t`: batch image `(t / 8) % 2`, rows `8·(t % 8) … + 7`. -/
theorem iblk2_0_apply (c : Dev nD) (t : Fin cfg2.N) (ch : Fin 256) (hh : Fin 8) (w : Fin 64) :
    iblk2 V c 0 t (ix4 (0 : Fin 1) ch hh w)
      = V c main_arg2 (ix4 (⟨(t.val / 8) % 2, Nat.mod_lt _ (by decide)⟩ : Fin 2) ch
          (⟨8 * (t.val % 8) + hh.val, by have := hh.isLt; have := Nat.mod_lt t.val (show 0 < 8 by decide); omega⟩ : Fin 64) w) := by
  have hi := idx2_f t
  unfold iblk2
  rw [View.read_apply]
  show V c main_arg2 _ = V c main_arg2 _
  congr 1
  funext a
  apply Fin.ext
  match a with
  | ⟨0, _⟩ => show win2_0.index t 0 * 1 + 1 * 0 = (t.val / 8) % 2; rw [hi.1]; omega
  | ⟨1, _⟩ => show win2_0.index t 1 * 256 + 1 * ch.val = ch.val; rw [hi.2.1]; omega
  | ⟨2, _⟩ => show win2_0.index t 2 * 8 + 1 * hh.val = 8 * (t.val % 8) + hh.val; rw [hi.2.2.1]; omega
  | ⟨3, _⟩ => show win2_0.index t 3 * 64 + 1 * w.val = w.val; rw [hi.2.2.2]; omega

/-- Window 1's block at point `t` is rows `8·(t / 16) … + 7` of its array. -/
theorem iblk2_1_apply (c : Dev nD) (t : Fin cfg2.N) (j : Fin 8) (p : Fin 128) :
    iblk2 V c 1 t (ix2 j p) = V c main_v68 (ix2 (⟨8 * (t.val / 16) + j.val, by have := t.isLt; have hN : cfg2.N = 1024 := N_2; have := j.isLt; omega⟩ : Fin 512) p) := by
  have hi := idx2_s t
  unfold iblk2
  rw [View.read_apply]
  show V c main_v68 _ = V c main_v68 _
  congr 1
  funext a
  apply Fin.ext
  match a with
  | ⟨0, _⟩ => show win2_1.index t 0 * 8 + 1 * j.val = 8 * (t.val / 16) + j.val; rw [hi.1.1]; omega
  | ⟨1, _⟩ => show win2_1.index t 1 * 128 + 1 * p.val = p.val; rw [hi.1.2]; omega

/-- Window 2's block at point `t` is rows `8·(t / 16) … + 7` of its array. -/
theorem iblk2_2_apply (c : Dev nD) (t : Fin cfg2.N) (j : Fin 8) (p : Fin 128) :
    iblk2 V c 2 t (ix2 j p) = V c main_v69 (ix2 (⟨8 * (t.val / 16) + j.val, by have := t.isLt; have hN : cfg2.N = 1024 := N_2; have := j.isLt; omega⟩ : Fin 512) p) := by
  have hi := idx2_s t
  unfold iblk2
  rw [View.read_apply]
  show V c main_v69 _ = V c main_v69 _
  congr 1
  funext a
  apply Fin.ext
  match a with
  | ⟨0, _⟩ => show win2_2.index t 0 * 8 + 1 * j.val = 8 * (t.val / 16) + j.val; rw [hi.2.1.1]; omega
  | ⟨1, _⟩ => show win2_2.index t 1 * 128 + 1 * p.val = p.val; rw [hi.2.1.2]; omega

/-- Window 3's block at point `t` is rows `8·(t / 16) … + 7` of its array. -/
theorem iblk2_3_apply (c : Dev nD) (t : Fin cfg2.N) (j : Fin 8) (p : Fin 128) :
    iblk2 V c 3 t (ix2 j p) = V c main_v66 (ix2 (⟨8 * (t.val / 16) + j.val, by have := t.isLt; have hN : cfg2.N = 1024 := N_2; have := j.isLt; omega⟩ : Fin 512) p) := by
  have hi := idx2_s t
  unfold iblk2
  rw [View.read_apply]
  show V c main_v66 _ = V c main_v66 _
  congr 1
  funext a
  apply Fin.ext
  match a with
  | ⟨0, _⟩ => show win2_3.index t 0 * 8 + 1 * j.val = 8 * (t.val / 16) + j.val; rw [hi.2.2.1.1]; omega
  | ⟨1, _⟩ => show win2_3.index t 1 * 128 + 1 * p.val = p.val; rw [hi.2.2.1.2]; omega

/-- Window 4's block at point `t` is rows `8·(t / 16) … + 7` of its array. -/
theorem iblk2_4_apply (c : Dev nD) (t : Fin cfg2.N) (j : Fin 8) (p : Fin 128) :
    iblk2 V c 4 t (ix2 j p) = V c main_v67 (ix2 (⟨8 * (t.val / 16) + j.val, by have := t.isLt; have hN : cfg2.N = 1024 := N_2; have := j.isLt; omega⟩ : Fin 512) p) := by
  have hi := idx2_s t
  unfold iblk2
  rw [View.read_apply]
  show V c main_v67 _ = V c main_v67 _
  congr 1
  funext a
  apply Fin.ext
  match a with
  | ⟨0, _⟩ => show win2_4.index t 0 * 8 + 1 * j.val = 8 * (t.val / 16) + j.val; rw [hi.2.2.2.1.1]; omega
  | ⟨1, _⟩ => show win2_4.index t 1 * 128 + 1 * p.val = p.val; rw [hi.2.2.2.1.2]; omega

/-- Window 5's block at point `t` is rows `8·(t / 16) … + 7` of its array. -/
theorem iblk2_5_apply (c : Dev nD) (t : Fin cfg2.N) (j : Fin 8) (p : Fin 128) :
    iblk2 V c 5 t (ix2 j p) = V c main_v13 (ix2 (⟨8 * (t.val / 16) + j.val, by have := t.isLt; have hN : cfg2.N = 1024 := N_2; have := j.isLt; omega⟩ : Fin 512) p) := by
  have hi := idx2_s t
  unfold iblk2
  rw [View.read_apply]
  show V c main_v13 _ = V c main_v13 _
  congr 1
  funext a
  apply Fin.ext
  match a with
  | ⟨0, _⟩ => show win2_5.index t 0 * 8 + 1 * j.val = 8 * (t.val / 16) + j.val; rw [hi.2.2.2.2.1]; omega
  | ⟨1, _⟩ => show win2_5.index t 1 * 128 + 1 * p.val = p.val; rw [hi.2.2.2.2.2]; omega

end Region

end Cert.KernelIdeal.Hand

end
-- ==== Proof.KI2Sum.lean ====
/-
  The output of pallas_call 2 in closed form, at the ideal values. A group of 16 consecutive grid points (the two
  batch images × 8 row tiles of one tile of regions of interest) zeroes the accumulator, adds one partial term per
  point, and writes it out: so what the group's last point writes is the sum of the group's 16 partial terms. A
  point's partial term is stated over the whole arrays the region finds: the feature map, the cell indices and
  fractions of every sampling point, and the batch index of every region of interest.
-/
import proofs.«110520_j35545149342110_1_alg».proof.Proof.KI2Pay
import proofs.«110520_j35545149342110_1_alg».proof.Proof.KI2Blk

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The partial term point number `t` adds at channel `ch`, region of interest `n`, sampling point `p`, over the
    feature map `A`, the sampling points' column and row cells `X`, `Y` and fractions `WX`, `WY`, and the regions' batch
    indices `BI`: over the eight feature rows of the point's row tile, the row of batch image `(t / 8) % 2` contracted
    with the column tent of the sampling point (times 1 where the region's batch index is that image), times the row
    tent. -/
def term2 (A : S2x256x64x64.Idx → EReal) (X Y : S512x128.Idx → BitVec 32) (WX WY : S512x128.Idx → EReal) (BI : S512x128.Idx → BitVec 32)
    (t : ℕ) (n : Fin 512) (ch : Fin 256) (p : Fin 128) : EReal :=
  ∑ hh : Fin 8,
    (∑ w : Fin 64, A (ix4 (⟨(t / 8) % 2, Nat.mod_lt _ (by decide)⟩ : Fin 2) ch
          (⟨8 * (t % 8) + hh.val, by have := hh.isLt; have := Nat.mod_lt t (show 0 < 8 by decide); omega⟩ : Fin 64) w)
        * (((if BitVec.ofNat 32 w.val = X (ix2 n p) then Ideal.ofBits .f32 0x3F800000#32 - WX (ix2 n p) else 0)
            + (if BitVec.ofNat 32 w.val = X (ix2 n p) + 1#32 then WX (ix2 n p) else 0))
           * (if BI (ix2 n p) = BitVec.ofNat 32 ((t / 8) % 2) then (1 : EReal) else 0)))
    * ((if BitVec.ofNat 32 hh.val + BitVec.ofNat 32 (t % 8) * 8#32 = Y (ix2 n p) then Ideal.ofBits .f32 0x3F800000#32 - WY (ix2 n p) else 0)
        + (if BitVec.ofNat 32 hh.val + BitVec.ofNat 32 (t % 8) * 8#32 = Y (ix2 n p) + 1#32 then WY (ix2 n p) else 0))

section Region

variable (V : (c : Dev nD) → (b : Ref sig .tc) → Buf (Elt Ideal) ((c : Thread nD τ).loc b))

/-- The zero block at an index. -/
theorem zeroAcc2_apply (i : S256x8x128.Idx) : zeroAcc2 (F := Ideal) i = 0 := by
  unfold zeroAcc2 k2_pay3
  simp only [shapeCast_self, broadcast_apply, Ideal.ofBits_def, Ideal.ofBits_zero_f32]

/-- One point: the accumulator after point `t` is what it started the point with plus the point's partial term, at the
    region of interest `n = 8·(t / 16) + j`. -/
theorem acc2_point (c : Dev nD) (t : Fin cfg2.N) (ch : Fin 256) (j : Fin 8) (p : Fin 128) (prev : Vec Ideal S256x8x128 .f32)
    (n : Fin 512) (hn : n.val = 8 * (t.val / 16) + j.val) :
    step2 (F := Ideal) (grid2.coords t) (iblk2 V c 0 t) (iblk2 V c 1 t) (iblk2 V c 2 t) (iblk2 V c 3 t) (iblk2 V c 4 t) (iblk2 V c 5 t) prev (ix3 ch j p)
      = prev (ix3 ch j p) + term2 (V c main_arg2) (V c main_v68) (V c main_v69) (V c main_v66) (V c main_v67) (V c main_v13) t.val n ch p := by
  have hN : cfg2.N = 1024 := N_2
  have e : (⟨8 * (t.val / 16) + j.val, by have := t.isLt; have := j.isLt; omega⟩ : Fin 512) = n := Fin.ext hn.symm
  rw [step2_apply]
  unfold term2
  simp only [iblk2_0_apply, iblk2_1_apply, iblk2_2_apply, iblk2_3_apply, iblk2_4_apply, iblk2_5_apply,
    (coord2 t).1, (coord2 t).2, e]

/-- The accumulator's contents depend on the point's number only. -/
theorem acc2_congr (c : Dev nD) (a b : ℕ) (ha : a < cfg2.N) (hb : b < cfg2.N) (h : a = b) : acc2 V c a ha = acc2 V c b hb := by
  subst h; rfl

/-- A GROUP: after its `s`-th point the accumulator holds the sum of the group's first `s + 1` partial terms. -/
theorem acc2_group (c : Dev nD) (g : ℕ) (hg : g < 64) (ch : Fin 256) (j : Fin 8) (p : Fin 128) (n : Fin 512) (hn : n.val = 8 * g + j.val) :
    ∀ (s : ℕ) (hs : s < 16) (h : g * 16 + s < cfg2.N),
      acc2 V c (g * 16 + s) h (ix3 ch j p)
        = ∑ s' ∈ Finset.range (s + 1), term2 (V c main_arg2) (V c main_v68) (V c main_v69) (V c main_v66) (V c main_v67) (V c main_v13) (g * 16 + s') n ch p := by
  intro s
  induction s with
  | zero =>
    intro hs h
    have h0 : (⟨g * 16 + 0, h⟩ : Fin cfg2.N).val % 16 = 0 := by show (g * 16 + 0) % 16 = 0; omega
    have e := acc2_first V c ⟨g * 16 + 0, h⟩ h0
    rw [show acc2 V c (g * 16 + 0) h = _ from e,
      acc2_point V c ⟨g * 16 + 0, h⟩ ch j p _ n (by show n.val = 8 * ((g * 16 + 0) / 16) + j.val; omega),
      zeroAcc2_apply, zero_add, Finset.sum_range_one]
  | succ s ih =>
    intro hs h
    have hn' : ¬(⟨g * 16 + (s + 1), h⟩ : Fin cfg2.N).val % 16 = 0 := by show ¬(g * 16 + (s + 1)) % 16 = 0; omega
    have e := acc2_next V c ⟨g * 16 + (s + 1), h⟩ hn'
    rw [show acc2 V c (g * 16 + (s + 1)) h = _ from e,
      acc2_point V c ⟨g * 16 + (s + 1), h⟩ ch j p _ n (by show n.val = 8 * ((g * 16 + (s + 1)) / 16) + j.val; omega),
      Finset.sum_range_succ]
    congr 1
    have := ih (by omega) (by omega)
    rw [← this]
    exact congrFun (acc2_congr V c _ _ _ _ (by show g * 16 + (s + 1) - 1 = g * 16 + s; omega)) _

end Region

end Cert.KernelIdeal.Hand

end
-- ==== Proof.KI2Out.lean ====
/-
  What pallas_call 2 leaves in its output array [512, 256, 128], at the ideal values: at (region of interest n, channel,
  sampling point p) the sum of the 16 partial terms of group `n / 8`. The output window's block at a group's last point
  is rows `8·g … 8·g + 7` of the array, and what the point writes back is the accumulator with its first two axes
  exchanged; the 64 groups' write-backs cover the array.
-/
import proofs.«110520_j35545149342110_1_alg».proof.Proof.KI2Sum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region

variable (V : (c : Dev nD) → (b : Ref sig .tc) → Buf (Elt Ideal) ((c : Thread nD τ).loc b))

/-- The output array of region 2. -/
def out2 (c : Dev nD) : S512x256x128.Idx → EReal := fun y =>
  ∑ s ∈ Finset.range 16, term2 (V c main_arg2) (V c main_v68) (V c main_v69) (V c main_v66) (V c main_v67) (V c main_v13) ((y 0).val / 8 * 16 + s) (y 0) (y 1) (y 2)

/-- The accumulator with its first two axes exchanged, at an index. -/
theorem pay2_2_apply (a : Vec Ideal S256x8x128 .f32) (j : Fin 8) (ch : Fin 256) (p : Fin 128) :
    k2_pay2 (F := Ideal) a (ix3 j ch p) = a (ix3 ch j p) := by
  unfold k2_pay2
  exact transpose_apply _ a _ _ _ fun b => match b with | ⟨0, _⟩ => rfl | ⟨1, _⟩ => rfl | ⟨2, _⟩ => rfl

/-- What a group's last point writes back is the output array read through the window's block there. -/
theorem flushed2_eq (c : Dev nD) (t : Fin cfg2.N) (hf : (cfg2.win 6).flush t = true) :
    (dat2 V c).flushed 6 t = ((cfg2.win 6).blk t).view.read (Elt Ideal) (out2 V c) := by
  have hN : cfg2.N = 1024 := N_2
  have hlast : t.val % 16 = 15 := (flush2_6 t).mp hf
  have hi := idx2_o t
  funext y
  obtain ⟨j, ch, p, rfl⟩ : ∃ (j : Fin 8) (ch : Fin 256) (p : Fin 128), y = ix3 j ch p := ⟨y 0, y 1, y 2, eq_ix3 y⟩
  rw [View.read_apply]
  show (cfg2.win 6).cut (grid2.coords t) ((dat2 V c).after 6 t) (ix3 j ch p) = _
  rw [after2_6]
  show k2_pay2 (F := Ideal) (acc2 V c t.val t.isLt) (ix3 j ch p) = _
  rw [pay2_2_apply]
  have ht : t.val = t.val / 16 * 16 + 15 := by omega
  rw [congrFun (acc2_congr V c t.val (t.val / 16 * 16 + 15) t.isLt (by omega) ht) _,
    acc2_group V c (t.val / 16) (by have := t.isLt; omega) ch j p (⟨8 * (t.val / 16) + j.val, by have := t.isLt; have := j.isLt; omega⟩ : Fin 512) rfl 15 (by decide) (by omega)]
  have hy : ((cfg2.win 6).blk t).view.emb (ix3 j ch p)
      = ix3 (⟨8 * (t.val / 16) + j.val, by have := t.isLt; have := j.isLt; omega⟩ : Fin 512) ch p := by
    funext a; apply Fin.ext
    match a with
    | ⟨0, _⟩ => show win2_6.index t 0 * 8 + 1 * j.val = 8 * (t.val / 16) + j.val; rw [hi.1]; omega
    | ⟨1, _⟩ => show win2_6.index t 1 * 256 + 1 * ch.val = ch.val; rw [hi.2.1]; omega
    | ⟨2, _⟩ => show win2_6.index t 2 * 128 + 1 * p.val = p.val; rw [hi.2.2]; omega
  show _ = out2 V c (((cfg2.win 6).blk t).view.emb (ix3 j ch p))
  rw [hy]
  show _ = ∑ s ∈ Finset.range 16, term2 (V c main_arg2) (V c main_v68) (V c main_v69) (V c main_v66) (V c main_v67) (V c main_v13) ((8 * (t.val / 16) + j.val) / 8 * 16 + s)
    (⟨8 * (t.val / 16) + j.val, by have := t.isLt; have := j.isLt; omega⟩ : Fin 512) ch p
  rw [show (8 * (t.val / 16) + j.val) / 8 = t.val / 16 from by have := j.isLt; omega]

/-- The 64 groups' write-backs cover the output array, so it ends holding `out2`. -/
theorem final2 (c : Dev nD) : (dat2 V c).arrAt 6 cfg2.N = out2 V c :=
  (dat2 V c).arrAt_eq_of_cover 6 (out2 V c) (flushed2_eq V c) fun i => by
    have hN : cfg2.N = 1024 := N_2
    have h0 : (i 0 : Nat) < 512 := (i 0).isLt
    have h1 : (i 1 : Nat) < 256 := (i 1).isLt
    have h2 : (i 2 : Nat) < 128 := (i 2).isLt
    let t : Fin cfg2.N := ⟨(i 0).val / 8 * 16 + 15, by omega⟩
    have hi := idx2_o t
    refine ⟨t, (flush2_6 t).mpr (by show ((i 0).val / 8 * 16 + 15) % 16 = 15; omega), ?_⟩
    show i ∈ ((View.whole main_v70).slice (win2_6.rect t)).set
    rw [View.set_slice_whole, Rect.mem_set_unit]
    intro a
    have ht : t.val / 16 = (i 0).val / 8 := by show ((i 0).val / 8 * 16 + 15) / 16 = (i 0).val / 8; omega
    match a with
    | ⟨0, _⟩ => show win2_6.index t 0 * win2_6.size 0 ≤ (i 0 : Nat) ∧ (i 0 : Nat) < win2_6.index t 0 * win2_6.size 0 + win2_6.xsize (grid2.coords t) 0
                rw [hi.1, ht, show win2_6.size 0 = 8 from rfl, show win2_6.xsize (grid2.coords t) 0 = 8 from rfl]; omega
    | ⟨1, _⟩ => show win2_6.index t 1 * win2_6.size 1 ≤ (i 1 : Nat) ∧ (i 1 : Nat) < win2_6.index t 1 * win2_6.size 1 + win2_6.xsize (grid2.coords t) 1
                rw [hi.2.1, show win2_6.size 1 = 256 from rfl, show win2_6.xsize (grid2.coords t) 1 = 256 from rfl]; omega
    | ⟨2, _⟩ => show win2_6.index t 2 * win2_6.size 2 ≤ (i 2 : Nat) ∧ (i 2 : Nat) < win2_6.index t 2 * win2_6.size 2 + win2_6.xsize (grid2.coords t) 2
                rw [hi.2.2, show win2_6.size 2 = 128 from rfl, show win2_6.xsize (grid2.coords t) 2 = 128 from rfl]; omega

end Region

end Cert.KernelIdeal.Hand

end
-- ==== Proof.KI2Lvl.lean ====
/-
  Level 2: the kernel's output entry as the nested sample. A group's 16 partial terms, their point numbers rewritten
  as (batch image, row tile), are exactly the steps of the tiled contraction that collapses to the row sample of the
  column samples of the region's batch image; the feature map enters as a function on naturals (zero outside the map).
-/
import proofs.«110520_j35545149342110_1_alg».proof.Proof.KI2Out
import proofs.«110520_j35545149342110_1_alg».proof.Proof.LibBilinear

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.LibBilinear

/-- The level's feature map at channel `ch` as a function of (batch image, row, column) numbers, zero outside the map. -/
def featN2 (A : S2x256x64x64.Idx → EReal) (ch : Fin 256) : ℕ → ℕ → ℕ → EReal := fun b h w =>
  if hb : b < 2 then if hh : h < 64 then if hw : w < 64 then A (ix4 ⟨b, hb⟩ ch ⟨h, hh⟩ ⟨w, hw⟩) else 0 else 0 else 0

theorem featN2_eq (A : S2x256x64x64.Idx → EReal) (ch : Fin 256) (b h : ℕ) (hb : b < 2) (hh : h < 64) (w : Fin 64) :
    A (ix4 ⟨b, hb⟩ ch ⟨h, hh⟩ w) = featN2 A ch b h w.val := by
  unfold featN2
  rw [dif_pos hb, dif_pos hh, dif_pos w.isLt]

/-- A group's partial terms sum to the nested sample. -/
theorem sumTerm2_nested (A : S2x256x64x64.Idx → EReal) (X Y : S512x128.Idx → BitVec 32) (WX WY : S512x128.Idx → EReal) (BI : S512x128.Idx → BitVec 32)
    (g : ℕ) (n : Fin 512) (ch : Fin 256) (p : Fin 128) (hB : (BI (ix2 n p)).toNat < 2) :
    (∑ s ∈ Finset.range 16, term2 A X Y WX WY BI (g * 16 + s) n ch p)
      = (if (Y (ix2 n p)).toNat < 8 * 8 then colSample 64 (featN2 A ch) (BI (ix2 n p)).toNat (Y (ix2 n p)).toNat (X (ix2 n p))
            (Ideal.ofBits .f32 0x3F800000#32 - WX (ix2 n p)) (WX (ix2 n p)) * (Ideal.ofBits .f32 0x3F800000#32 - WY (ix2 n p)) else 0)
        + (if (Y (ix2 n p) + 1).toNat < 8 * 8 then colSample 64 (featN2 A ch) (BI (ix2 n p)).toNat (Y (ix2 n p) + 1).toNat (X (ix2 n p))
            (Ideal.ofBits .f32 0x3F800000#32 - WX (ix2 n p)) (WX (ix2 n p)) * (WY (ix2 n p)) else 0) := by
  have key : ∀ s ∈ Finset.range (2 * 8), term2 A X Y WX WY BI (g * 16 + s) n ch p
      = ∑ hh : Fin 8,
        (∑ w : Fin 64, featN2 A ch (s / 8 % 2) (8 * (s % 8) + hh.val) w.val
            * (((if BitVec.ofNat 32 w.val = X (ix2 n p) then Ideal.ofBits .f32 0x3F800000#32 - WX (ix2 n p) else 0)
                + (if BitVec.ofNat 32 w.val = X (ix2 n p) + 1 then WX (ix2 n p) else 0))
               * (if BI (ix2 n p) = BitVec.ofNat 32 (s / 8 % 2) then (1 : EReal) else 0)))
          * ((if BitVec.ofNat 32 hh.val + BitVec.ofNat 32 (s % 8) * 8#32 = Y (ix2 n p) then Ideal.ofBits .f32 0x3F800000#32 - WY (ix2 n p) else 0)
              + (if BitVec.ofNat 32 hh.val + BitVec.ofNat 32 (s % 8) * 8#32 = Y (ix2 n p) + 1 then WY (ix2 n p) else 0)) := by
    intro s hs
    have hs' : s < 2 * 8 := Finset.mem_range.mp hs
    have e1 : (g * 16 + s) / 8 % 2 = s / 8 % 2 := by omega
    have e2 : (g * 16 + s) % 8 = s % 8 := by omega
    unfold term2
    simp only [featN2_eq, e1, e2]
    rfl
  show (∑ s ∈ Finset.range (2 * 8), _) = _
  rw [Finset.sum_congr rfl key]
  exact collapse 64 8 (by norm_num) (by norm_num) (by norm_num) (featN2 A ch) (X (ix2 n p)) (Y (ix2 n p)) (BI (ix2 n p)) hB _ _ _ _

section Region

variable (V : (c : Dev nD) → (b : Ref sig .tc) → Buf (Elt Ideal) ((c : Thread nD τ).loc b))

/-- The region's output array at an index. -/
theorem out2_apply (c : Dev nD) (n : Fin 512) (ch : Fin 256) (p : Fin 128) :
    out2 V c (ix3 n ch p) = ∑ s ∈ Finset.range 16, term2 (V c main_arg2) (V c main_v68) (V c main_v69) (V c main_v66) (V c main_v67) (V c main_v13) (n.val / 8 * 16 + s) n ch p := rfl

end Region

end Cert.KernelIdeal.Hand

end
-- ==== Proof.RefLevel2.lean ====
/-
  Level 2 of the reference (the map of extent 64 × 64), read at one output element.

  The reference gathers, for every region `n`, sampling point `p` and channel `ch`, the four corners of the point's cell
  from the map — each corner's indices clipped into the map and passed through array indexing's negative-index rule,
  the gathered value multiplied by the corner's validity bit —, weights them with the point's fractions and adds the
  four terms; the level's output is that array with its last two axes exchanged. Read at `(n, ch, p)` this is the
  four-corner bilinear sample `refSample` of the map at channel `ch`, given the region's image index, the point's cell
  and its fractions, which stay the reference's own arrays. Each corner is one use of `corner_read`; the weights are
  broadcasts read at an index.
-/
import proofs.«110520_j35545149342110_1_alg».proof.Proof.RefReadP
import proofs.«110520_j35545149342110_1_alg».proof.Proof.LibRefSample
import proofs.«110520_j35545149342110_1_alg».proof.Proof.LibGatherPoint

noncomputable section

namespace Cert.RefLevel

open Cert.ReferenceIdeal Cert.ReferenceIdeal.Gen Cert.ReferenceIdeal.Read Idealize.ShloMosaic Idealize.ShloMosaic.ValueIdx
  Idealize.SL.Sem Cert.LibGatherPoint

/-- The elementwise operations and the broadcast constants of level 2, read at an index. -/
macro "lvl2_simp" : tactic => `(tactic| simp only [val_main_c_138_apply, val_main_v454_apply, val_main_v455_apply, val_main_c_139_apply, val_main_v456_apply, val_main_v457_apply, val_main_v458_apply, val_main_c_140_apply, val_main_v459_apply, val_main_v460_apply, val_main_v461_apply, val_main_c_141_apply, val_main_v462_apply, val_main_v463_apply, val_main_v464_apply, val_main_c_142_apply, val_main_c_143_apply, val_main_call16_v0_apply, val_main_call16_v1_apply, val_main_call16_v2_apply, val_main_call16_v3_apply, val_main_call16_v4_apply, val_main_v465_apply, val_main_c_144_apply, val_main_c_145_apply, val_main_call17_v0_apply, val_main_call17_v1_apply, val_main_call17_v2_apply, val_main_call17_v3_apply, val_main_call17_v4_apply, val_main_v466_apply, val_main_c_146_apply, val_main_v468_apply, val_main_v469_apply, val_main_c_147_apply, val_main_v470_apply, val_main_v471_apply, val_main_v472_apply, val_main_c_148_apply, val_main_v473_apply, val_main_v474_apply, val_main_c_149_apply, val_main_v475_apply, val_main_v476_apply, val_main_v477_apply, val_main_c_150_apply, val_main_v478_apply, val_main_v479_apply, val_main_c_151_apply, val_main_v480_apply, val_main_v481_apply, val_main_v482_apply, val_main_v490_apply, val_main_v492_apply, val_main_c_152_apply, val_main_v493_apply, val_main_v494_apply, val_main_c_153_apply, val_main_v495_apply, val_main_v496_apply, val_main_c_154_apply, val_main_v497_apply, val_main_v498_apply, val_main_v499_apply, val_main_c_155_apply, val_main_v500_apply, val_main_v501_apply, val_main_v502_apply, val_main_c_156_apply, val_main_v503_apply, val_main_v504_apply, val_main_v505_apply, val_main_c_157_apply, val_main_c_158_apply, val_main_call18_v0_apply, val_main_call18_v1_apply, val_main_call18_v2_apply, val_main_call18_v3_apply, val_main_call18_v4_apply, val_main_v506_apply, val_main_c_159_apply, val_main_c_160_apply, val_main_call19_v0_apply, val_main_call19_v1_apply, val_main_call19_v2_apply, val_main_call19_v3_apply, val_main_call19_v4_apply, val_main_v507_apply, val_main_c_161_apply, val_main_v509_apply, val_main_v510_apply, val_main_c_162_apply, val_main_v511_apply, val_main_v512_apply, val_main_v513_apply, val_main_c_163_apply, val_main_v514_apply, val_main_v515_apply, val_main_c_164_apply, val_main_v516_apply, val_main_v517_apply, val_main_v518_apply, val_main_c_165_apply, val_main_v519_apply, val_main_v520_apply, val_main_c_166_apply, val_main_v521_apply, val_main_v522_apply, val_main_v523_apply, val_main_v531_apply, val_main_v533_apply, val_main_c_167_apply, val_main_v534_apply, val_main_v535_apply, val_main_c_168_apply, val_main_v536_apply, val_main_v537_apply, val_main_c_169_apply, val_main_v538_apply, val_main_v539_apply, val_main_v540_apply, val_main_c_170_apply, val_main_v541_apply, val_main_v542_apply, val_main_v543_apply, val_main_c_171_apply, val_main_v544_apply, val_main_v545_apply, val_main_v546_apply, val_main_c_172_apply, val_main_c_173_apply, val_main_call20_v0_apply, val_main_call20_v1_apply, val_main_call20_v2_apply, val_main_call20_v3_apply, val_main_call20_v4_apply, val_main_v547_apply, val_main_c_174_apply, val_main_c_175_apply, val_main_call21_v0_apply, val_main_call21_v1_apply, val_main_call21_v2_apply, val_main_call21_v3_apply, val_main_call21_v4_apply, val_main_v548_apply, val_main_c_176_apply, val_main_v550_apply, val_main_v551_apply, val_main_c_177_apply, val_main_v552_apply, val_main_v553_apply, val_main_v554_apply, val_main_c_178_apply, val_main_v555_apply, val_main_v556_apply, val_main_c_179_apply, val_main_v557_apply, val_main_v558_apply, val_main_v559_apply, val_main_c_180_apply, val_main_v560_apply, val_main_v561_apply, val_main_c_181_apply, val_main_v562_apply, val_main_v563_apply, val_main_v564_apply, val_main_v572_apply, val_main_v574_apply, val_main_c_182_apply, val_main_v575_apply, val_main_v576_apply, val_main_c_183_apply, val_main_v577_apply, val_main_v578_apply, val_main_c_184_apply, val_main_v579_apply, val_main_v580_apply, val_main_c_185_apply, val_main_v581_apply, val_main_v582_apply, val_main_v583_apply, val_main_c_186_apply, val_main_v584_apply, val_main_v585_apply, val_main_v586_apply, val_main_c_187_apply, val_main_v587_apply, val_main_v588_apply, val_main_v589_apply, val_main_c_188_apply, val_main_c_189_apply, val_main_call22_v0_apply, val_main_call22_v1_apply, val_main_call22_v2_apply, val_main_call22_v3_apply, val_main_call22_v4_apply, val_main_v590_apply, val_main_c_190_apply, val_main_c_191_apply, val_main_call23_v0_apply, val_main_call23_v1_apply, val_main_call23_v2_apply, val_main_call23_v3_apply, val_main_call23_v4_apply, val_main_v591_apply, val_main_c_192_apply, val_main_v593_apply, val_main_v594_apply, val_main_c_193_apply, val_main_v595_apply, val_main_v596_apply, val_main_v597_apply, val_main_c_194_apply, val_main_v598_apply, val_main_v599_apply, val_main_c_195_apply, val_main_v600_apply, val_main_v601_apply, val_main_v602_apply, val_main_c_196_apply, val_main_v603_apply, val_main_v604_apply, val_main_c_197_apply, val_main_v605_apply, val_main_v606_apply, val_main_v607_apply, val_main_v615_apply, val_main_v617_apply, val_main_cst_198_apply, val_main_v620_apply, val_main_v621_apply, val_main_v623_apply, val_main_cst_199_apply, val_main_v624_apply, val_main_v625_apply, val_main_v627_apply, val_main_v629_apply, val_main_cst_200_apply, val_main_v630_apply, val_main_v631_apply, val_main_v633_apply, val_main_v634_apply, val_main_cst_201_apply, val_main_v635_apply, val_main_v636_apply, val_main_v638_apply, val_main_v640_apply, val_main_v641_apply, val_main_v643_apply, val_main_v645_apply, val_main_v646_apply])

/-- Corner `c00` of level 2: the gathered value times the validity bit is the map's value at the corner's cell, or zero
    when the cell lies outside the map. -/
theorem l2_c00 (x2 : (⟨S2x256x64x64, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v492 (F := Ideal) x2 x4 x5 (ix3 n p ch)
      = if (val_main_v452 (F := Ideal) x4 x5 (ix2 n p)).toNat < 64 ∧ (val_main_v453 (F := Ideal) x4 x5 (ix2 n p)).toNat < 64
          then natMap (N := 2) (C := 256) (H := 64) (W := 64) x2 ch (val_main_v2 (F := Ideal) x4 (ix1 n)).toNat (val_main_v453 (F := Ideal) x4 x5 (ix2 n p)).toNat (val_main_v452 (F := Ideal) x4 x5 (ix2 n p)).toNat else 0 := by
  have h0 : val_main_v487 (F := Ideal) x4 x5 (ix3 n p (0 : Fin 3)) = normIdx 2#32 (val_main_v2 (F := Ideal) x4 (ix1 n)) := by
    refine (concat3_apply0 _ _ _ _ n p).trans ?_
    rw [val_main_v484_apply, show idx_main_v484 (ix3 n p (0 : Fin 1)) = ix2 n p from idx2_eq rfl rfl,
      val_main_v483_apply, show idx_main_v483 (ix2 n p) = ix2 n (0 : Fin 1) from idx2_eq rfl rfl]
    lvl2_simp
    rw [val_main_v467_apply, show idx_main_v467 (ix2 n (0 : Fin 1)) = ix1 n from idx1_eq rfl]
    all_goals rfl
  have h1 : val_main_v487 (F := Ideal) x4 x5 (ix3 n p (1 : Fin 3)) = normIdx 64#32 (clip 63#32 (val_main_v453 (F := Ideal) x4 x5 (ix2 n p))) := by
    refine (concat3_apply1 _ _ _ _ n p).trans ?_
    rw [val_main_v485_apply, show idx_main_v485 (ix3 n p (0 : Fin 1)) = ix2 n p from idx2_eq rfl rfl]
    lvl2_simp
    all_goals rfl
  have h2 : val_main_v487 (F := Ideal) x4 x5 (ix3 n p (2 : Fin 3)) = normIdx 64#32 (clip 63#32 (val_main_v452 (F := Ideal) x4 x5 (ix2 n p))) := by
    refine (concat3_apply2 _ _ _ _ n p).trans ?_
    rw [val_main_v486_apply, show idx_main_v486 (ix3 n p (0 : Fin 1)) = ix2 n p from idx2_eq rfl rfl]
    lvl2_simp
    all_goals rfl
  have hv : val_main_v491 (F := Ideal) x4 x5 (ix3 n p ch) = (((validBit 64#32 64#32 (val_main_v452 (F := Ideal) x4 x5 (ix2 n p)) (val_main_v453 (F := Ideal) x4 x5 (ix2 n p))).toNat : ℝ) : EReal) := by
    rw [val_main_v491_apply, show idx_main_v491 (ix3 n p ch) = ix3 n p (0 : Fin 1) from idx3_eq rfl rfl rfl,
      val_main_v490_apply, val_main_v489_apply, show idx_main_v489 (ix3 n p (0 : Fin 1)) = ix2 n p from idx2_eq rfl rfl]
    lvl2_simp
    all_goals rfl
  rw [val_main_v492_apply, hv]
  exact corner_read (N := 2) (C := 256) (H := 64) (W := 64) (R := 512) (P := 128) (by norm_num) (by norm_num) (by norm_num)
    _ x2 (val_main_v487 (F := Ideal) x4 x5) n p ch (val_main_v2 (F := Ideal) x4 (ix1 n)) (val_main_v452 (F := Ideal) x4 x5 (ix2 n p)) (val_main_v453 (F := Ideal) x4 x5 (ix2 n p)) 2#32 64#32 64#32 63#32 63#32 rfl rfl rfl rfl hB h0 h1 h2

/-- Corner `c01` of level 2: the gathered value times the validity bit is the map's value at the corner's cell, or zero
    when the cell lies outside the map. -/
theorem l2_c01 (x2 : (⟨S2x256x64x64, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v533 (F := Ideal) x2 x4 x5 (ix3 n p ch)
      = if ((val_main_v452 (F := Ideal) x4 x5 (ix2 n p)) + 1).toNat < 64 ∧ (val_main_v453 (F := Ideal) x4 x5 (ix2 n p)).toNat < 64
          then natMap (N := 2) (C := 256) (H := 64) (W := 64) x2 ch (val_main_v2 (F := Ideal) x4 (ix1 n)).toNat (val_main_v453 (F := Ideal) x4 x5 (ix2 n p)).toNat ((val_main_v452 (F := Ideal) x4 x5 (ix2 n p)) + 1).toNat else 0 := by
  have h0 : val_main_v528 (F := Ideal) x4 x5 (ix3 n p (0 : Fin 3)) = normIdx 2#32 (val_main_v2 (F := Ideal) x4 (ix1 n)) := by
    refine (concat3_apply0 _ _ _ _ n p).trans ?_
    rw [val_main_v525_apply, show idx_main_v525 (ix3 n p (0 : Fin 1)) = ix2 n p from idx2_eq rfl rfl,
      val_main_v524_apply, show idx_main_v524 (ix2 n p) = ix2 n (0 : Fin 1) from idx2_eq rfl rfl]
    lvl2_simp
    rw [val_main_v508_apply, show idx_main_v508 (ix2 n (0 : Fin 1)) = ix1 n from idx1_eq rfl]
    all_goals rfl
  have h1 : val_main_v528 (F := Ideal) x4 x5 (ix3 n p (1 : Fin 3)) = normIdx 64#32 (clip 63#32 (val_main_v453 (F := Ideal) x4 x5 (ix2 n p))) := by
    refine (concat3_apply1 _ _ _ _ n p).trans ?_
    rw [val_main_v526_apply, show idx_main_v526 (ix3 n p (0 : Fin 1)) = ix2 n p from idx2_eq rfl rfl]
    lvl2_simp
    all_goals rfl
  have h2 : val_main_v528 (F := Ideal) x4 x5 (ix3 n p (2 : Fin 3)) = normIdx 64#32 (clip 63#32 ((val_main_v452 (F := Ideal) x4 x5 (ix2 n p)) + 1)) := by
    refine (concat3_apply2 _ _ _ _ n p).trans ?_
    rw [val_main_v527_apply, show idx_main_v527 (ix3 n p (0 : Fin 1)) = ix2 n p from idx2_eq rfl rfl]
    lvl2_simp
    all_goals rfl
  have hv : val_main_v532 (F := Ideal) x4 x5 (ix3 n p ch) = (((validBit 64#32 64#32 ((val_main_v452 (F := Ideal) x4 x5 (ix2 n p)) + 1) (val_main_v453 (F := Ideal) x4 x5 (ix2 n p))).toNat : ℝ) : EReal) := by
    rw [val_main_v532_apply, show idx_main_v532 (ix3 n p ch) = ix3 n p (0 : Fin 1) from idx3_eq rfl rfl rfl,
      val_main_v531_apply, val_main_v530_apply, show idx_main_v530 (ix3 n p (0 : Fin 1)) = ix2 n p from idx2_eq rfl rfl]
    lvl2_simp
    all_goals rfl
  rw [val_main_v533_apply, hv]
  exact corner_read (N := 2) (C := 256) (H := 64) (W := 64) (R := 512) (P := 128) (by norm_num) (by norm_num) (by norm_num)
    _ x2 (val_main_v528 (F := Ideal) x4 x5) n p ch (val_main_v2 (F := Ideal) x4 (ix1 n)) ((val_main_v452 (F := Ideal) x4 x5 (ix2 n p)) + 1) (val_main_v453 (F := Ideal) x4 x5 (ix2 n p)) 2#32 64#32 64#32 63#32 63#32 rfl rfl rfl rfl hB h0 h1 h2

/-- Corner `c10` of level 2: the gathered value times the validity bit is the map's value at the corner's cell, or zero
    when the cell lies outside the map. -/
theorem l2_c10 (x2 : (⟨S2x256x64x64, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v574 (F := Ideal) x2 x4 x5 (ix3 n p ch)
      = if (val_main_v452 (F := Ideal) x4 x5 (ix2 n p)).toNat < 64 ∧ ((val_main_v453 (F := Ideal) x4 x5 (ix2 n p)) + 1).toNat < 64
          then natMap (N := 2) (C := 256) (H := 64) (W := 64) x2 ch (val_main_v2 (F := Ideal) x4 (ix1 n)).toNat ((val_main_v453 (F := Ideal) x4 x5 (ix2 n p)) + 1).toNat (val_main_v452 (F := Ideal) x4 x5 (ix2 n p)).toNat else 0 := by
  have h0 : val_main_v569 (F := Ideal) x4 x5 (ix3 n p (0 : Fin 3)) = normIdx 2#32 (val_main_v2 (F := Ideal) x4 (ix1 n)) := by
    refine (concat3_apply0 _ _ _ _ n p).trans ?_
    rw [val_main_v566_apply, show idx_main_v566 (ix3 n p (0 : Fin 1)) = ix2 n p from idx2_eq rfl rfl,
      val_main_v565_apply, show idx_main_v565 (ix2 n p) = ix2 n (0 : Fin 1) from idx2_eq rfl rfl]
    lvl2_simp
    rw [val_main_v549_apply, show idx_main_v549 (ix2 n (0 : Fin 1)) = ix1 n from idx1_eq rfl]
    all_goals rfl
  have h1 : val_main_v569 (F := Ideal) x4 x5 (ix3 n p (1 : Fin 3)) = normIdx 64#32 (clip 63#32 ((val_main_v453 (F := Ideal) x4 x5 (ix2 n p)) + 1)) := by
    refine (concat3_apply1 _ _ _ _ n p).trans ?_
    rw [val_main_v567_apply, show idx_main_v567 (ix3 n p (0 : Fin 1)) = ix2 n p from idx2_eq rfl rfl]
    lvl2_simp
    all_goals rfl
  have h2 : val_main_v569 (F := Ideal) x4 x5 (ix3 n p (2 : Fin 3)) = normIdx 64#32 (clip 63#32 (val_main_v452 (F := Ideal) x4 x5 (ix2 n p))) := by
    refine (concat3_apply2 _ _ _ _ n p).trans ?_
    rw [val_main_v568_apply, show idx_main_v568 (ix3 n p (0 : Fin 1)) = ix2 n p from idx2_eq rfl rfl]
    lvl2_simp
    all_goals rfl
  have hv : val_main_v573 (F := Ideal) x4 x5 (ix3 n p ch) = (((validBit 64#32 64#32 (val_main_v452 (F := Ideal) x4 x5 (ix2 n p)) ((val_main_v453 (F := Ideal) x4 x5 (ix2 n p)) + 1)).toNat : ℝ) : EReal) := by
    rw [val_main_v573_apply, show idx_main_v573 (ix3 n p ch) = ix3 n p (0 : Fin 1) from idx3_eq rfl rfl rfl,
      val_main_v572_apply, val_main_v571_apply, show idx_main_v571 (ix3 n p (0 : Fin 1)) = ix2 n p from idx2_eq rfl rfl]
    lvl2_simp
    all_goals rfl
  rw [val_main_v574_apply, hv]
  exact corner_read (N := 2) (C := 256) (H := 64) (W := 64) (R := 512) (P := 128) (by norm_num) (by norm_num) (by norm_num)
    _ x2 (val_main_v569 (F := Ideal) x4 x5) n p ch (val_main_v2 (F := Ideal) x4 (ix1 n)) (val_main_v452 (F := Ideal) x4 x5 (ix2 n p)) ((val_main_v453 (F := Ideal) x4 x5 (ix2 n p)) + 1) 2#32 64#32 64#32 63#32 63#32 rfl rfl rfl rfl hB h0 h1 h2

/-- Corner `c11` of level 2: the gathered value times the validity bit is the map's value at the corner's cell, or zero
    when the cell lies outside the map. -/
theorem l2_c11 (x2 : (⟨S2x256x64x64, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v617 (F := Ideal) x2 x4 x5 (ix3 n p ch)
      = if ((val_main_v452 (F := Ideal) x4 x5 (ix2 n p)) + 1).toNat < 64 ∧ ((val_main_v453 (F := Ideal) x4 x5 (ix2 n p)) + 1).toNat < 64
          then natMap (N := 2) (C := 256) (H := 64) (W := 64) x2 ch (val_main_v2 (F := Ideal) x4 (ix1 n)).toNat ((val_main_v453 (F := Ideal) x4 x5 (ix2 n p)) + 1).toNat ((val_main_v452 (F := Ideal) x4 x5 (ix2 n p)) + 1).toNat else 0 := by
  have h0 : val_main_v612 (F := Ideal) x4 x5 (ix3 n p (0 : Fin 3)) = normIdx 2#32 (val_main_v2 (F := Ideal) x4 (ix1 n)) := by
    refine (concat3_apply0 _ _ _ _ n p).trans ?_
    rw [val_main_v609_apply, show idx_main_v609 (ix3 n p (0 : Fin 1)) = ix2 n p from idx2_eq rfl rfl,
      val_main_v608_apply, show idx_main_v608 (ix2 n p) = ix2 n (0 : Fin 1) from idx2_eq rfl rfl]
    lvl2_simp
    rw [val_main_v592_apply, show idx_main_v592 (ix2 n (0 : Fin 1)) = ix1 n from idx1_eq rfl]
    all_goals rfl
  have h1 : val_main_v612 (F := Ideal) x4 x5 (ix3 n p (1 : Fin 3)) = normIdx 64#32 (clip 63#32 ((val_main_v453 (F := Ideal) x4 x5 (ix2 n p)) + 1)) := by
    refine (concat3_apply1 _ _ _ _ n p).trans ?_
    rw [val_main_v610_apply, show idx_main_v610 (ix3 n p (0 : Fin 1)) = ix2 n p from idx2_eq rfl rfl]
    lvl2_simp
    all_goals rfl
  have h2 : val_main_v612 (F := Ideal) x4 x5 (ix3 n p (2 : Fin 3)) = normIdx 64#32 (clip 63#32 ((val_main_v452 (F := Ideal) x4 x5 (ix2 n p)) + 1)) := by
    refine (concat3_apply2 _ _ _ _ n p).trans ?_
    rw [val_main_v611_apply, show idx_main_v611 (ix3 n p (0 : Fin 1)) = ix2 n p from idx2_eq rfl rfl]
    lvl2_simp
    all_goals rfl
  have hv : val_main_v616 (F := Ideal) x4 x5 (ix3 n p ch) = (((validBit 64#32 64#32 ((val_main_v452 (F := Ideal) x4 x5 (ix2 n p)) + 1) ((val_main_v453 (F := Ideal) x4 x5 (ix2 n p)) + 1)).toNat : ℝ) : EReal) := by
    rw [val_main_v616_apply, show idx_main_v616 (ix3 n p ch) = ix3 n p (0 : Fin 1) from idx3_eq rfl rfl rfl,
      val_main_v615_apply, val_main_v614_apply, show idx_main_v614 (ix3 n p (0 : Fin 1)) = ix2 n p from idx2_eq rfl rfl]
    lvl2_simp
    all_goals rfl
  rw [val_main_v617_apply, hv]
  exact corner_read (N := 2) (C := 256) (H := 64) (W := 64) (R := 512) (P := 128) (by norm_num) (by norm_num) (by norm_num)
    _ x2 (val_main_v612 (F := Ideal) x4 x5) n p ch (val_main_v2 (F := Ideal) x4 (ix1 n)) ((val_main_v452 (F := Ideal) x4 x5 (ix2 n p)) + 1) ((val_main_v453 (F := Ideal) x4 x5 (ix2 n p)) + 1) 2#32 64#32 64#32 63#32 63#32 rfl rfl rfl rfl hB h0 h1 h2

/-- LEVEL 2 AT ONE OUTPUT ELEMENT: the reference's value at region `n`, channel `ch`, point `p` is the four-corner
    bilinear sample of the map at channel `ch`, for a region whose image index is 0 or 1. -/
theorem ref2_apply (x2 : (⟨S2x256x64x64, .f32⟩ : BufTy).Contents (Elt Ideal)) (x4 : (⟨S512x5, .f32⟩ : BufTy).Contents (Elt Ideal))
    (x5 : (⟨S512x128x2, .f32⟩ : BufTy).Contents (Elt Ideal)) (n : Fin 512) (ch : Fin 256) (p : Fin 128)
    (hB : (val_main_v2 (F := Ideal) x4 (ix1 n)).toNat < 2) :
    val_main_v647 (F := Ideal) x2 x4 x5 (ix3 n ch p)
      = Cert.LibRefSample.refSample 64 64 (natMap (N := 2) (C := 256) (H := 64) (W := 64) x2 ch) (val_main_v2 (F := Ideal) x4 (ix1 n))
          (val_main_v452 (F := Ideal) x4 x5 (ix2 n p)) (val_main_v453 (F := Ideal) x4 x5 (ix2 n p)) (Idealize.ShloMosaic.Ideal.ofBits .f32 0x3F800000#32)
          (val_main_v450 (F := Ideal) x4 x5 (ix2 n p)) (val_main_v451 (F := Ideal) x4 x5 (ix2 n p)) := by
  have w198 : val_main_v622 (F := Ideal) x4 x5 (ix3 n p ch) = (Idealize.ShloMosaic.Ideal.ofBits .f32 0x3F800000#32) - (val_main_v450 (F := Ideal) x4 x5 (ix2 n p)) := by
    rw [val_main_v622_apply, show idx_main_v622 (ix3 n p ch) = ix3 n p (0 : Fin 1) from idx3_eq rfl rfl rfl, val_main_v621_apply,
      val_main_v620_apply, val_main_cst_198_apply, val_main_v618_apply,
      show idx_main_v618 (ix3 n p (0 : Fin 1)) = ix2 n p from idx2_eq rfl rfl]
    all_goals rfl
  have w202 : val_main_v626 (F := Ideal) x4 x5 (ix3 n p ch) = (Idealize.ShloMosaic.Ideal.ofBits .f32 0x3F800000#32) - (val_main_v451 (F := Ideal) x4 x5 (ix2 n p)) := by
    rw [val_main_v626_apply, show idx_main_v626 (ix3 n p ch) = ix3 n p (0 : Fin 1) from idx3_eq rfl rfl rfl, val_main_v625_apply,
      val_main_v624_apply, val_main_cst_199_apply, val_main_v619_apply,
      show idx_main_v619 (ix3 n p (0 : Fin 1)) = ix2 n p from idx2_eq rfl rfl]
    all_goals rfl
  have w204 : val_main_v628 (F := Ideal) x4 x5 (ix3 n p ch) = (val_main_v450 (F := Ideal) x4 x5 (ix2 n p)) := by
    rw [val_main_v628_apply, show idx_main_v628 (ix3 n p ch) = ix3 n p (0 : Fin 1) from idx3_eq rfl rfl rfl, val_main_v618_apply,
      show idx_main_v618 (ix3 n p (0 : Fin 1)) = ix2 n p from idx2_eq rfl rfl]
  have w208 : val_main_v632 (F := Ideal) x4 x5 (ix3 n p ch) = (Idealize.ShloMosaic.Ideal.ofBits .f32 0x3F800000#32) - (val_main_v451 (F := Ideal) x4 x5 (ix2 n p)) := by
    rw [val_main_v632_apply, show idx_main_v632 (ix3 n p ch) = ix3 n p (0 : Fin 1) from idx3_eq rfl rfl rfl, val_main_v631_apply,
      val_main_v630_apply, val_main_cst_200_apply, val_main_v619_apply,
      show idx_main_v619 (ix3 n p (0 : Fin 1)) = ix2 n p from idx2_eq rfl rfl]
    all_goals rfl
  have w213 : val_main_v637 (F := Ideal) x4 x5 (ix3 n p ch) = (Idealize.ShloMosaic.Ideal.ofBits .f32 0x3F800000#32) - (val_main_v450 (F := Ideal) x4 x5 (ix2 n p)) := by
    rw [val_main_v637_apply, show idx_main_v637 (ix3 n p ch) = ix3 n p (0 : Fin 1) from idx3_eq rfl rfl rfl, val_main_v636_apply,
      val_main_v635_apply, val_main_cst_201_apply, val_main_v618_apply,
      show idx_main_v618 (ix3 n p (0 : Fin 1)) = ix2 n p from idx2_eq rfl rfl]
    all_goals rfl
  have w215 : val_main_v639 (F := Ideal) x4 x5 (ix3 n p ch) = (val_main_v451 (F := Ideal) x4 x5 (ix2 n p)) := by
    rw [val_main_v639_apply, show idx_main_v639 (ix3 n p ch) = ix3 n p (0 : Fin 1) from idx3_eq rfl rfl rfl, val_main_v619_apply,
      show idx_main_v619 (ix3 n p (0 : Fin 1)) = ix2 n p from idx2_eq rfl rfl]
  have w218 : val_main_v642 (F := Ideal) x4 x5 (ix3 n p ch) = (val_main_v450 (F := Ideal) x4 x5 (ix2 n p)) := by
    rw [val_main_v642_apply, show idx_main_v642 (ix3 n p ch) = ix3 n p (0 : Fin 1) from idx3_eq rfl rfl rfl, val_main_v618_apply,
      show idx_main_v618 (ix3 n p (0 : Fin 1)) = ix2 n p from idx2_eq rfl rfl]
  have w220 : val_main_v644 (F := Ideal) x4 x5 (ix3 n p ch) = (val_main_v451 (F := Ideal) x4 x5 (ix2 n p)) := by
    rw [val_main_v644_apply, show idx_main_v644 (ix3 n p ch) = ix3 n p (0 : Fin 1) from idx3_eq rfl rfl rfl, val_main_v619_apply,
      show idx_main_v619 (ix3 n p (0 : Fin 1)) = ix2 n p from idx2_eq rfl rfl]
  rw [val_main_v647_apply, show idx_main_v647 (ix3 n ch p) = ix3 n p ch from idx3_eq rfl rfl rfl,
    val_main_v646_apply, val_main_v641_apply, val_main_v634_apply, val_main_v627_apply, val_main_v623_apply, val_main_v633_apply, val_main_v629_apply,
    val_main_v640_apply, val_main_v638_apply, val_main_v645_apply, val_main_v643_apply,
    l2_c00 x2 x4 x5 n p ch hB, l2_c01 x2 x4 x5 n p ch hB, l2_c10 x2 x4 x5 n p ch hB, l2_c11 x2 x4 x5 n p ch hB,
    w198, w202, w204, w208, w213, w215, w218, w220]
  all_goals rfl

end Cert.RefLevel

end
-- ==== Proof.KI2Eq.lean ====
/-
  Level 2: what the kernel leaves in its output array is the reference's stage. Entry by entry: the region's output is
  the nested sample over the arrays the region finds; those arrays are the reference's cells, fractions and batch
  indices, and the launch's feature map; the nested sample is the reference's four-corner formula when the values are
  real; and that formula is the reference's stage read at the entry.
-/
import proofs.«110520_j35545149342110_1_alg».proof.Proof.KI2Lvl
import proofs.«110520_j35545149342110_1_alg».proof.Proof.KIPrelude
import proofs.«110520_j35545149342110_1_alg».proof.Proof.RefLevel2
import proofs.«110520_j35545149342110_1_alg».proof.Proof.RefReal
import proofs.«110520_j35545149342110_1_alg».proof.Proof.LibRefSample

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LibBilinear Cert.LibRefSample Cert.LibReal Cert.LibGatherPoint

variable (m : (ℓ : Loc nD τ sig) → Buf (Elt Ideal) ℓ)

/-- The level's feature map as region 2 finds it is the launch's. -/
theorem W5_feat2 (c : Dev nD) : W5 m c (Proc.devRef .tc main_arg2) = m ((c.tc : Thread nD τ).loc main_arg2) :=
  calc W5 m c (Proc.devRef .tc main_arg2)
    _ = W4 m c (Proc.devRef .tc main_arg2) := by unfold W5; exact StableHlo.after_of_writes_sub hostOps2 _ hostOps2_writes (by decide)
    _ = W3 m c (Proc.devRef .tc main_arg2) := W4_of_ne m c main_arg2 (by decide)
    _ = W2 m c (Proc.devRef .tc main_arg2) := by unfold W3; exact StableHlo.after_of_writes_sub hostOps1 _ hostOps1_writes (by decide)
    _ = W1 m c (Proc.devRef .tc main_arg2) := W2_of_ne m c main_arg2 (by decide)
    _ = W0 m c (Proc.devRef .tc main_arg2) := by unfold W1; exact StableHlo.after_of_writes_sub hostOps0 _ hostOps0_writes (by decide)
    _ = m ((c.tc : Thread nD τ).loc main_arg2) := rfl

/-- The feature map on naturals is real when the map is. -/
theorem featN2_real (A : S2x256x64x64.Idx → EReal) (hA : ∀ i, IsReal (A i)) (ch : Fin 256) (b h w : ℕ) : ∃ r : ℝ, featN2 A ch b h w = (r : EReal) := by
  unfold featN2
  split_ifs
  · exact hA _
  · exact ⟨0, rfl⟩
  · exact ⟨0, rfl⟩
  · exact ⟨0, rfl⟩

set_option maxHeartbeats 4000000 in
/-- LEVEL 2: the kernel's output array is the reference's stage `%647`. -/
theorem level2_eq (c : Dev nD)
    (hA : ∀ i, IsReal ((m ((c.tc : Thread nD τ).loc main_arg2) : S2x256x64x64.Idx → EReal) i))
    (h4 : ∀ i, IsReal ((m ((c.tc : Thread nD τ).loc main_arg4) : S512x5.Idx → EReal) i))
    (h5 : ∀ i, IsReal ((m ((c.tc : Thread nD τ).loc main_arg5) : S512x128x2.Idx → EReal) i))
    (hB : ∀ n : Fin 512, (Cert.ReferenceIdeal.Read.val_main_v2 (F := Ideal) (m ((c.tc : Thread nD τ).loc main_arg4)) (ix1 n)).toNat < 2) :
    (W6 m c (Proc.devRef .tc main_v70) : S512x256x128.Idx → EReal) = Cert.ReferenceIdeal.Read.val_main_v647 (F := Ideal) (m ((c.tc : Thread nD τ).loc main_arg2)) (m ((c.tc : Thread nD τ).loc main_arg4)) (m ((c.tc : Thread nD τ).loc main_arg5)) := by
  funext y
  obtain ⟨n, ch, p, rfl⟩ : ∃ (n : Fin 512) (ch : Fin 256) (p : Fin 128), y = ix3 n ch p := ⟨y 0, y 1, y 2, eq_ix3 y⟩
  have hk : W6 m c (Proc.devRef .tc main_v70) = out2 (V5 m) c := (W6_arr m c 6).trans (final2 (V5 m) c)
  have hbi : (W5 m c (Proc.devRef .tc main_v13) : S512x128.Idx → BitVec 32) (ix2 n p) = Cert.ReferenceIdeal.Read.val_main_v2 (F := Ideal) (m ((c.tc : Thread nD τ).loc main_arg4)) (ix1 n) := by
    rw [lvl2_bi m c]; exact W1_bi m c n p
  rw [congrFun hk (ix3 n ch p), out2_apply,
    sumTerm2_nested _ _ _ _ _ _ (n.val / 8) n ch p (by show ((W5 m c (Proc.devRef .tc main_v13) : S512x128.Idx → BitVec 32) (ix2 n p)).toNat < 2; rw [hbi]; exact hB n)]
  rw [Cert.RefLevel.ref2_apply _ _ _ n ch p (hB n),
    refSample_eq 64 64 _ (fun b h w => by rw [natMap_eq_nested]; exact featN2_real _ hA ch b h w) _ _ _ _ _ _ ⟨1, lit_one⟩
      (Cert.RefReal.real2_wx _ _ h4 h5 _) (Cert.RefReal.real2_wy _ _ h4 h5 _)]
  have e1 : V5 m c main_v68 = Cert.ReferenceIdeal.Read.val_main_v452 (F := Ideal) (m ((c.tc : Thread nD τ).loc main_arg4)) (m ((c.tc : Thread nD τ).loc main_arg5)) := lvl2_x m c
  have e2 : V5 m c main_v69 = Cert.ReferenceIdeal.Read.val_main_v453 (F := Ideal) (m ((c.tc : Thread nD τ).loc main_arg4)) (m ((c.tc : Thread nD τ).loc main_arg5)) := lvl2_y m c
  have e3 : V5 m c main_v66 = Cert.ReferenceIdeal.Read.val_main_v450 (F := Ideal) (m ((c.tc : Thread nD τ).loc main_arg4)) (m ((c.tc : Thread nD τ).loc main_arg5)) := lvl2_wx m c
  have e4 : V5 m c main_v67 = Cert.ReferenceIdeal.Read.val_main_v451 (F := Ideal) (m ((c.tc : Thread nD τ).loc main_arg4)) (m ((c.tc : Thread nD τ).loc main_arg5)) := lvl2_wy m c
  have e5 : (V5 m c main_v13 : S512x128.Idx → BitVec 32) (ix2 n p) = Cert.ReferenceIdeal.Read.val_main_v2 (F := Ideal) (m ((c.tc : Thread nD τ).loc main_arg4)) (ix1 n) := hbi
  have e6 : V5 m c main_arg2 = (m ((c.tc : Thread nD τ).loc main_arg2)) := W5_feat2 m c
  have e7 : featN2 (m ((c.tc : Thread nD τ).loc main_arg2)) ch = natMap (N := 2) (C := 256) (H := 64) (W := 64) (m ((c.tc : Thread nD τ).loc main_arg2)) ch := by
    rw [natMap_eq_nested]; rfl
  rw [e1, e2, e3, e4, e5, e6, e7]

end Cert.KernelIdeal.Hand

end
-- ==== Proof.KI3Pay.lean ====
/-
  One grid point's update of pallas_call 3's accumulator, read at an index, at the ideal values. The body contracts
  the feature block (256 channels × 8 rows × 32 columns) over its columns against a weight matrix built from the
  tile's sampling points — for each point the tent `[w = x]·(1 − wx) + [w = x+1]·wx` in the column number, times `1` where
  the point's batch index is the grid's batch coordinate and `0` elsewhere —, multiplies by the matching tent in the row
  number and sums over the block's eight rows. The reshapes around the matrix product (rows × columns flattened both
  ways) are read through by coordinates; the product itself is a plain sum at the ideal values.
-/
import proofs.«110520_j35545149342110_1_alg».proof.Proof.KI3Val
import proofs.«110520_j35545149342110_1_alg».proof.Proof.LibLayoutIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.LibLayoutIdx

/-- The column weight of pallas_call 3's body at column `w` for sampling point `(j, p)` of the tile: the tent
    `[w = x]·(1 − wx) + [w = x + 1]·wx` over the point's cell `x` and fraction `wx`, the tests made on 32-bit words. -/
theorem colTent3_apply (x4 : Vec Ideal S8x128 .i32) (x6 : Vec Ideal S8x128 .f32) (w : Fin 32) (j : Fin 8) (p : Fin 128) :
    addf (k3_pay9 (F := Ideal) x4 x6) (select (k3_pay10 (F := Ideal) x4) (k3_pay11 (F := Ideal) x6) (k3_pay12 (F := Ideal))) (ix3 w j p)
      = (if BitVec.ofNat 32 w.val = x4 (ix2 j p) then Ideal.ofBits .f32 0x3F800000#32 - x6 (ix2 j p) else 0)
        + (if BitVec.ofNat 32 w.val = x4 (ix2 j p) + 1#32 then x6 (ix2 j p) else 0) := by
  rw [addf_apply, select_apply]
  unfold k3_pay9 k3_pay10 k3_pay11 k3_pay12 k3_pay7 k3_pay8
  simp only [select_apply, shapeCast_self]
  simp only [cmpi, addi, IntOp.addi, subf_apply, broadcast_apply, broadcastTo_1bc_abc_apply, broadcastTo_a11_abc_apply,
    shapeCast_ab_1ab_apply, iota_single_apply, select_cmpi_eq, Ideal.ofBits_def, Ideal.ofBits_zero_f32]
  have hio : iota Kind.tc S32x1x1 32 [0] iota_S32x1x1_d0_w32 (ix3 w (0 : Fin 1) (0 : Fin 1)) = BitVec.ofNat 32 w.val :=
    iota_single_apply Kind.tc S32x1x1 32 0 iota_S32x1x1_d0_w32 _
  rw [hio]

/-- The batch mask as a number: `1` where the two words agree, `0` elsewhere. -/
theorem maskVal3 (x y : BitVec 32) :
    FloatOps.sitofp (F := Ideal) .f32 ((IntOp.cmpi .eq x y).setWidth 32) = if x = y then (1 : EReal) else 0 := by
  by_cases h : x = y
  · subst h
    have e : IntOp.cmpi .eq x x = 1#1 := by unfold IntOp.cmpi; simp
    rw [e, if_pos rfl]
    show (((BitVec.setWidth 32 (1#1)).toInt : ℝ) : EReal) = 1
    have e2 : (BitVec.setWidth 32 (1#1)).toInt = 1 := by decide
    rw [e2]; norm_num
  · have hb : (x == y) = false := by simpa using h
    have e : IntOp.cmpi .eq x y = 0#1 := by unfold IntOp.cmpi; rw [hb]; rfl
    rw [e, if_neg h]
    show (((BitVec.setWidth 32 (0#1)).toInt : ℝ) : EReal) = 0
    have e2 : (BitVec.setWidth 32 (0#1)).toInt = 0 := by decide
    rw [e2]; norm_num

/-- The row weight at feature row `hh` of the block at row tile `i 2`, for sampling point `(j, p)`. -/
theorem rowTent3_apply (i2 : BitVec 32) (x5 : Vec Ideal S8x128 .i32) (x7 : Vec Ideal S8x128 .f32) (hh : Fin 8) (j : Fin 8) (p : Fin 128) :
    addf
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (shapeCast S1x8x128 (k3_pay4 (F := Ideal) x5) shapeCasts_S8x128_S1x8x128) broadcasts_S1x8x128_S8x8x128))
        (broadcastTo S8x8x128 (subf (broadcast S1x8x128 (FloatOps.ofBits (F := Ideal) FTy.f32 1065353216#32)) (shapeCast S1x8x128 (k3_pay5 (F := Ideal) x7) shapeCasts_S8x128_S1x8x128)) broadcasts_S1x8x128_S8x8x128)
        (broadcast S8x8x128 (FloatOps.ofBits (F := Ideal) FTy.f32 0#32)))
      (select
        (cmpi CmpIPredicate.eq
          (broadcastTo S8x8x128 (addi (iota Kind.tc S8x1x1 32 [0] iota_S8x1x1_d0_w32) (broadcast S8x1x1 (Scalar.muli i2 8#32))) broadcasts_S8x1x1_S8x8x128)
          (broadcastTo S8x8x128 (addi (shapeCast S1x8x128 (k3_pay4 (F := Ideal) x5) shapeCasts_S8x128_S1x8x128) (broadcast S1x8x128 1#32)) broadcasts_S1x8x128_S8x8x128))
        (broadcastTo S8x8x128 (shapeCast S1x8x128 (k3_pay5 (F := Ideal) x7) shapeCasts_S8x128_S1x8x128) broadcasts_S1x8x128_S8x8x128)
        (broadcast S8x8x128 (FloatOps.ofBits (F := Ideal) FTy.f32 0#32))) (ix3 hh j p)
      = (if BitVec.ofNat 32 hh.val + i2 * 8#32 = x5 (ix2 j p) then Ideal.ofBits .f32 0x3F800000#32 - x7 (ix2 j p) else 0)
        + (if BitVec.ofNat 32 hh.val + i2 * 8#32 = x5 (ix2 j p) + 1#32 then x7 (ix2 j p) else 0) := by
  rw [addf_apply, select_apply, select_apply]
  unfold k3_pay4 k3_pay5
  simp only [shapeCast_self]
  have hio : iota Kind.tc S8x1x1 32 [0] iota_S8x1x1_d0_w32 (ix3 hh (0 : Fin 1) (0 : Fin 1)) = BitVec.ofNat 32 hh.val :=
    iota_single_apply Kind.tc S8x1x1 32 0 iota_S8x1x1_d0_w32 _
  simp only [cmpi, addi, IntOp.addi, Scalar.muli, IntOp.muli, subf_apply, broadcast_apply, broadcastTo_1bc_abc_apply, broadcastTo_a11_abc_apply,
    shapeCast_ab_1ab_apply, select_cmpi_eq, Ideal.ofBits_def, Ideal.ofBits_zero_f32, hio]

set_option maxHeartbeats 2000000 in
/-- ONE POINT'S UPDATE AT AN INDEX. At channel `ch` and sampling point `(j, p)` of the tile the accumulator gains the sum,
    over the eight feature rows of the block, of the row's contraction with the column tent (times the batch mask),
    times the row tent. -/
theorem step3_apply (i : grid3.Coords) (x3 : Vec Ideal S1x256x8x32 .f32) (x4 x5 : Vec Ideal S8x128 .i32) (x6 x7 : Vec Ideal S8x128 .f32)
    (x8 : Vec Ideal S8x128 .i32) (prev : Vec Ideal S256x8x128 .f32) (ch : Fin 256) (j : Fin 8) (p : Fin 128) :
    step3 (F := Ideal) i x3 x4 x5 x6 x7 x8 prev (ix3 ch j p)
      = prev (ix3 ch j p) + ∑ hh : Fin 8,
          (∑ w : Fin 32, x3 (ix4 (0 : Fin 1) ch hh w)
              * (((if BitVec.ofNat 32 w.val = x4 (ix2 j p) then Ideal.ofBits .f32 0x3F800000#32 - x6 (ix2 j p) else 0)
                  + (if BitVec.ofNat 32 w.val = x4 (ix2 j p) + 1#32 then x6 (ix2 j p) else 0))
                 * (if x8 (ix2 j p) = BitVec.ofNat 32 (i 1).val then (1 : EReal) else 0)))
          * ((if BitVec.ofNat 32 hh.val + BitVec.ofNat 32 (i 2).val * 8#32 = x5 (ix2 j p) then Ideal.ofBits .f32 0x3F800000#32 - x7 (ix2 j p) else 0)
              + (if BitVec.ofNat 32 hh.val + BitVec.ofNat 32 (i 2).val * 8#32 = x5 (ix2 j p) + 1#32 then x7 (ix2 j p) else 0)) := by
  unfold step3 k3_pay1 k3_pay13
  simp only [shapeCast_self]
  rw [addf_apply]
  congr 1
  refine (Ideal.multiReduction_add_single _ (0x00000000#32) reduces_S256x8x8x128_S256x8x128 _ _ (ix3 ch j p)).trans ?_
  show (∑ hh : Fin 8, _) = _
  refine Finset.sum_congr rfl fun hh _ => ?_
  have hl : reduces_S256x8x8x128_S256x8x128.lift (ix3 ch j p) hh = ix4 ch hh j p := by
    funext c; apply Fin.ext
    match c with
    | ⟨0, _⟩ => rfl
    | ⟨1, _⟩ => rfl
    | ⟨2, _⟩ => rfl
    | ⟨3, _⟩ => rfl
  rw [hl]
  refine (mulf_apply (s := S256x8x8x128) (φ := FTy.f32) _ _ (ix4 ch hh j p)).trans ?_
  congr 1
  · have hch := ch.isLt; have hhh := hh.isLt; have hj := j.isLt; have hp := p.isLt
    refine (shapeCast_nm_abcd_apply _ _ (by norm_num) ch hh j p (⟨ch.val * 8 + hh.val, by omega⟩ : Fin 2048)
      (⟨j.val * 128 + p.val, by omega⟩ : Fin 1024) rfl rfl).trans ?_
    simp only [matmul]
    refine (Ideal.matmul_constant_zero_apply dot_S2048x32_S32x1024_S2048x1024_1_0_0_1_n_n none _ _ _).trans ?_
    refine ((Equiv.sum_comp (contrEquiv1 dot_S2048x32_S32x1024_S2048x1024_1_0_0_1_n_n 32 rfl rfl).symm _).symm).trans ?_
    refine Finset.sum_congr rfl fun w _ => ?_
    have hL : dot_S2048x32_S32x1024_S2048x1024_1_0_0_1_n_n.lhsIdx (ix2 (⟨ch.val * 8 + hh.val, by omega⟩ : Fin 2048) (⟨j.val * 128 + p.val, by omega⟩ : Fin 1024))
        ((contrEquiv1 dot_S2048x32_S32x1024_S2048x1024_1_0_0_1_n_n 32 rfl rfl).symm w) = ix2 (⟨ch.val * 8 + hh.val, by omega⟩ : Fin 2048) w := by
      funext a; apply Fin.ext
      match a with
      | ⟨0, _⟩ => rfl
      | ⟨1, _⟩ => exact (dot_S2048x32_S32x1024_S2048x1024_1_0_0_1_n_n.lhsIdx_val_of_single (cl := 1) rfl _ _).trans (contrEquiv1_symm_val dot_S2048x32_S32x1024_S2048x1024_1_0_0_1_n_n 32 rfl rfl w)
    have hR : dot_S2048x32_S32x1024_S2048x1024_1_0_0_1_n_n.rhsIdx (ix2 (⟨ch.val * 8 + hh.val, by omega⟩ : Fin 2048) (⟨j.val * 128 + p.val, by omega⟩ : Fin 1024))
        ((contrEquiv1 dot_S2048x32_S32x1024_S2048x1024_1_0_0_1_n_n 32 rfl rfl).symm w) = ix2 w (⟨j.val * 128 + p.val, by omega⟩ : Fin 1024) := by
      funext a; apply Fin.ext
      match a with
      | ⟨0, _⟩ => exact (dot_S2048x32_S32x1024_S2048x1024_1_0_0_1_n_n.rhsIdx_val_of_single (cr := 0) rfl _ _).trans (contrEquiv1_symm_val dot_S2048x32_S32x1024_S2048x1024_1_0_0_1_n_n 32 rfl rfl w)
      | ⟨1, _⟩ => rfl
    rw [hL, hR]
    congr 1
    · refine (truncf_apply (s := S2048x32) (φ := FTy.f32) (ψ := FTy.bf16) _ bitsLt_bf16_f32 _).trans ?_
      refine (shapeCast_abc_nc_apply _ _ ch hh w (⟨ch.val * 8 + hh.val, by omega⟩ : Fin 2048) rfl).trans ?_
      exact shapeCast_1abc_abc_apply _ _ ch hh w
    · refine (truncf_apply (s := S32x1024) (φ := FTy.f32) (ψ := FTy.bf16) _ bitsLt_bf16_f32 _).trans ?_
      refine (shapeCast_abc_an_apply _ _ (by norm_num) w j p (⟨j.val * 128 + p.val, by omega⟩ : Fin 1024) rfl).trans ?_
      refine (mulf_apply (s := S32x8x128) (φ := FTy.f32) _ _ (ix3 w j p)).trans ?_
      congr 1
      · exact colTent3_apply x4 x6 w j p
      · rw [broadcastTo_1bc_abc_apply, shapeCast_ab_1ab_apply]
        unfold k3_pay6
        simp only [shapeCast_self]
        exact maskVal3 _ _
  · rw [broadcastTo_1bcd_abcd_apply, shapeCast_abc_1abc_apply]
    exact rowTent3_apply (BitVec.ofNat 32 (i 2).val) x5 x7 hh j p

end Cert.KernelIdeal.Hand

end
-- ==== Proof.KI3Blk.lean ====
/-
  The windows of pallas_call 3 read as entries of the arrays. The grid's 512 points are numbered row-major over
  (tile of regions of interest, batch image, row tile): point `t` is tile `t / 8`, image `(t / 4) % 2`, row tile
  `t % 4`. The index maps are decided once over the grid in that closed form; a block's entry is then the array's
  entry at (block index × block size + the coordinate inside the block) on each axis.
-/
import proofs.«110520_j35545149342110_1_alg».proof.Proof.KI3Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The index maps over the grid, in closed form -/

/-- The feature window follows the batch image and the row tile. -/
theorem idx3_f : ∀ t : Fin cfg3.N, win3_0.index t 0 = (t.val / 4) % 2 ∧ win3_0.index t 1 = 0 ∧ win3_0.index t 2 = t.val % 4 ∧ win3_0.index t 3 = 0 :=
  (by decide +kernel : ∀ t : Fin grid3.N, win3_0.index t 0 = (t.val / 4) % 2 ∧ win3_0.index t 1 = 0 ∧ win3_0.index t 2 = t.val % 4 ∧ win3_0.index t 3 = 0)
/-- The five per-point windows follow the tile of regions of interest. -/
theorem idx3_s : ∀ t : Fin cfg3.N, (win3_1.index t 0 = t.val / 8 ∧ win3_1.index t 1 = 0) ∧ (win3_2.index t 0 = t.val / 8 ∧ win3_2.index t 1 = 0) ∧ (win3_3.index t 0 = t.val / 8 ∧ win3_3.index t 1 = 0) ∧ (win3_4.index t 0 = t.val / 8 ∧ win3_4.index t 1 = 0) ∧ (win3_5.index t 0 = t.val / 8 ∧ win3_5.index t 1 = 0) :=
  (by decide +kernel : ∀ t : Fin grid3.N, (win3_1.index t 0 = t.val / 8 ∧ win3_1.index t 1 = 0) ∧ (win3_2.index t 0 = t.val / 8 ∧ win3_2.index t 1 = 0) ∧ (win3_3.index t 0 = t.val / 8 ∧ win3_3.index t 1 = 0) ∧ (win3_4.index t 0 = t.val / 8 ∧ win3_4.index t 1 = 0) ∧ (win3_5.index t 0 = t.val / 8 ∧ win3_5.index t 1 = 0))
/-- So does the output window. -/
theorem idx3_o : ∀ t : Fin cfg3.N, win3_6.index t 0 = t.val / 8 ∧ win3_6.index t 1 = 0 ∧ win3_6.index t 2 = 0 :=
  (by decide +kernel : ∀ t : Fin grid3.N, win3_6.index t 0 = t.val / 8 ∧ win3_6.index t 1 = 0 ∧ win3_6.index t 2 = 0)
/-- The grid coordinates the body reads, from the point's number. -/
theorem coord3 : ∀ t : Fin cfg3.N, ((grid3.coords t) 1).val = (t.val / 4) % 2 ∧ ((grid3.coords t) 2).val = t.val % 4 :=
  (by decide +kernel : ∀ t : Fin grid3.N, ((grid3.coords t) 1).val = (t.val / 4) % 2 ∧ ((grid3.coords t) 2).val = t.val % 4)

section Region

variable (V : (c : Dev nD) → (b : Ref sig .tc) → Buf (Elt F) ((c : Thread nD τ).loc b))

/-! ## The blocks as entries of the arrays -/

/-- The feature block at point `t`: batch image `(t / 4) % 2`, rows `8·(t % 4) … + 7`. -/
theorem iblk3_0_apply (c : Dev nD) (t : Fin cfg3.N) (ch : Fin 256) (hh : Fin 8) (w : Fin 32) :
    iblk3 V c 0 t (ix4 (0 : Fin 1) ch hh w)
      = V c main_arg3 (ix4 (⟨(t.val / 4) % 2, Nat.mod_lt _ (by decide)⟩ : Fin 2) ch
          (⟨8 * (t.val % 4) + hh.val, by have := hh.isLt; have := Nat.mod_lt t.val (show 0 < 4 by decide); omega⟩ : Fin 32) w) := by
  have hi := idx3_f t
  unfold iblk3
  rw [View.read_apply]
  show V c main_arg3 _ = V c main_arg3 _
  congr 1
  funext a
  apply Fin.ext
  match a with
  | ⟨0, _⟩ => show win3_0.index t 0 * 1 + 1 * 0 = (t.val / 4) % 2; rw [hi.1]; omega
  | ⟨1, _⟩ => show win3_0.index t 1 * 256 + 1 * ch.val = ch.val; rw [hi.2.1]; omega
  | ⟨2, _⟩ => show win3_0.index t 2 * 8 + 1 * hh.val = 8 * (t.val % 4) + hh.val; rw [hi.2.2.1]; omega
  | ⟨3, _⟩ => show win3_0.index t 3 * 32 + 1 * w.val = w.val; rw [hi.2.2.2]; omega

/-- Window 1's block at point `t` is rows `8·(t / 8) … + 7` of its array. -/
theorem iblk3_1_apply (c : Dev nD) (t : Fin cfg3.N) (j : Fin 8) (p : Fin 128) :
    iblk3 V c 1 t (ix2 j p) = V c main_v87 (ix2 (⟨8 * (t.val / 8) + j.val, by have := t.isLt; have hN : cfg3.N = 512 := N_3; have := j.isLt; omega⟩ : Fin 512) p) := by
  have hi := idx3_s t
  unfold iblk3
  rw [View.read_apply]
  show V c main_v87 _ = V c main_v87 _
  congr 1
  funext a
  apply Fin.ext
  match a with
  | ⟨0, _⟩ => show win3_1.index t 0 * 8 + 1 * j.val = 8 * (t.val / 8) + j.val; rw [hi.1.1]; omega
  | ⟨1, _⟩ => show win3_1.index t 1 * 128 + 1 * p.val = p.val; rw [hi.1.2]; omega

/-- Window 2's block at point `t` is rows `8·(t / 8) … + 7` of its array. -/
theorem iblk3_2_apply (c : Dev nD) (t : Fin cfg3.N) (j : Fin 8) (p : Fin 128) :
    iblk3 V c 2 t (ix2 j p) = V c main_v88 (ix2 (⟨8 * (t.val / 8) + j.val, by have := t.isLt; have hN : cfg3.N = 512 := N_3; have := j.isLt; omega⟩ : Fin 512) p) := by
  have hi := idx3_s t
  unfold iblk3
  rw [View.read_apply]
  show V c main_v88 _ = V c main_v88 _
  congr 1
  funext a
  apply Fin.ext
  match a with
  | ⟨0, _⟩ => show win3_2.index t 0 * 8 + 1 * j.val = 8 * (t.val / 8) + j.val; rw [hi.2.1.1]; omega
  | ⟨1, _⟩ => show win3_2.index t 1 * 128 + 1 * p.val = p.val; rw [hi.2.1.2]; omega

/-- Window 3's block at point `t` is rows `8·(t / 8) … + 7` of its array. -/
theorem iblk3_3_apply (c : Dev nD) (t : Fin cfg3.N) (j : Fin 8) (p : Fin 128) :
    iblk3 V c 3 t (ix2 j p) = V c main_v85 (ix2 (⟨8 * (t.val / 8) + j.val, by have := t.isLt; have hN : cfg3.N = 512 := N_3; have := j.isLt; omega⟩ : Fin 512) p) := by
  have hi := idx3_s t
  unfold iblk3
  rw [View.read_apply]
  show V c main_v85 _ = V c main_v85 _
  congr 1
  funext a
  apply Fin.ext
  match a with
  | ⟨0, _⟩ => show win3_3.index t 0 * 8 + 1 * j.val = 8 * (t.val / 8) + j.val; rw [hi.2.2.1.1]; omega
  | ⟨1, _⟩ => show win3_3.index t 1 * 128 + 1 * p.val = p.val; rw [hi.2.2.1.2]; omega

/-- Window 4's block at point `t` is rows `8·(t / 8) … + 7` of its array. -/
theorem iblk3_4_apply (c : Dev nD) (t : Fin cfg3.N) (j : Fin 8) (p : Fin 128) :
    iblk3 V c 4 t (ix2 j p) = V c main_v86 (ix2 (⟨8 * (t.val / 8) + j.val, by have := t.isLt; have hN : cfg3.N = 512 := N_3; have := j.isLt; omega⟩ : Fin 512) p) := by
  have hi := idx3_s t
  unfold iblk3
  rw [View.read_apply]
  show V c main_v86 _ = V c main_v86 _
  congr 1
  funext a
  apply Fin.ext
  match a with
  | ⟨0, _⟩ => show win3_4.index t 0 * 8 + 1 * j.val = 8 * (t.val / 8) + j.val; rw [hi.2.2.2.1.1]; omega
  | ⟨1, _⟩ => show win3_4.index t 1 * 128 + 1 * p.val = p.val; rw [hi.2.2.2.1.2]; omega

/-- Window 5's block at point `t` is rows `8·(t / 8) … + 7` of its array. -/
theorem iblk3_5_apply (c : Dev nD) (t : Fin cfg3.N) (j : Fin 8) (p : Fin 128) :
    iblk3 V c 5 t (ix2 j p) = V c main_v13 (ix2 (⟨8 * (t.val / 8) + j.val, by have := t.isLt; have hN : cfg3.N = 512 := N_3; have := j.isLt; omega⟩ : Fin 512) p) := by
  have hi := idx3_s t
  unfold iblk3
  rw [View.read_apply]
  show V c main_v13 _ = V c main_v13 _
  congr 1
  funext a
  apply Fin.ext
  match a with
  | ⟨0, _⟩ => show win3_5.index t 0 * 8 + 1 * j.val = 8 * (t.val / 8) + j.val; rw [hi.2.2.2.2.1]; omega
  | ⟨1, _⟩ => show win3_5.index t 1 * 128 + 1 * p.val = p.val; rw [hi.2.2.2.2.2]; omega

end Region

end Cert.KernelIdeal.Hand

end
-- ==== Proof.KI3Sum.lean ====
/-
  The output of pallas_call 3 in closed form, at the ideal values. A group of 8 consecutive grid points (the two
  batch images × 4 row tiles of one tile of regions of interest) zeroes the accumulator, adds one partial term per
  point, and writes it out: so what the group's last point writes is the sum of the group's 8 partial terms. A
  point's partial term is stated over the whole arrays the region finds: the feature map, the cell indices and
  fractions of every sampling point, and the batch index of every region of interest.
-/
import proofs.«110520_j35545149342110_1_alg».proof.Proof.KI3Pay
import proofs.«110520_j35545149342110_1_alg».proof.Proof.KI3Blk

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The partial term point number `t` adds at channel `ch`, region of interest `n`, sampling point `p`, over the
    feature map `A`, the sampling points' column and row cells `X`, `Y` and fractions `WX`, `WY`, and the regions' batch
    indices `BI`: over the eight feature rows of the point's row tile, the row of batch image `(t / 4) % 2` contracted
    with the column tent of the sampling point (times 1 where the region's batch index is that image), times the row
    tent. -/
def term3 (A : S2x256x32x32.Idx → EReal) (X Y : S512x128.Idx → BitVec 32) (WX WY : S512x128.Idx → EReal) (BI : S512x128.Idx → BitVec 32)
    (t : ℕ) (n : Fin 512) (ch : Fin 256) (p : Fin 128) : EReal :=
  ∑ hh : Fin 8,
    (∑ w : Fin 32, A (ix4 (⟨(t / 4) % 2, Nat.mod_lt _ (by decide)⟩ : Fin 2) ch
          (⟨8 * (t % 4) + hh.val, by have := hh.isLt; have := Nat.mod_lt t (show 0 < 4 by decide); omega⟩ : Fin 32) w)
        * (((if BitVec.ofNat 32 w.val = X (ix2 n p) then Ideal.ofBits .f32 0x3F800000#32 - WX (ix2 n p) else 0)
            + (if BitVec.ofNat 32 w.val = X (ix2 n p) + 1#32 then WX (ix2 n p) else 0))
           * (if BI (ix2 n p) = BitVec.ofNat 32 ((t / 4) % 2) then (1 : EReal) else 0)))
    * ((if BitVec.ofNat 32 hh.val + BitVec.ofNat 32 (t % 4) * 8#32 = Y (ix2 n p) then Ideal.ofBits .f32 0x3F800000#32 - WY (ix2 n p) else 0)
        + (if BitVec.ofNat 32 hh.val + BitVec.ofNat 32 (t % 4) * 8#32 = Y (ix2 n p) + 1#32 then WY (ix2 n p) else 0))

section Region

variable (V : (c : Dev nD) → (b : Ref sig .tc) → Buf (Elt Ideal) ((c : Thread nD τ).loc b))

/-- The zero block at an index. -/
theorem zeroAcc3_apply (i : S256x8x128.Idx) : zeroAcc3 (F := Ideal) i = 0 := by
  unfold zeroAcc3 k3_pay3
  simp only [shapeCast_self, broadcast_apply, Ideal.ofBits_def, Ideal.ofBits_zero_f32]

/-- One point: the accumulator after point `t` is what it started the point with plus the point's partial term, at the
    region of interest `n = 8·(t / 8) + j`. -/
theorem acc3_point (c : Dev nD) (t : Fin cfg3.N) (ch : Fin 256) (j : Fin 8) (p : Fin 128) (prev : Vec Ideal S256x8x128 .f32)
    (n : Fin 512) (hn : n.val = 8 * (t.val / 8) + j.val) :
    step3 (F := Ideal) (grid3.coords t) (iblk3 V c 0 t) (iblk3 V c 1 t) (iblk3 V c 2 t) (iblk3 V c 3 t) (iblk3 V c 4 t) (iblk3 V c 5 t) prev (ix3 ch j p)
      = prev (ix3 ch j p) + term3 (V c main_arg3) (V c main_v87) (V c main_v88) (V c main_v85) (V c main_v86) (V c main_v13) t.val n ch p := by
  have hN : cfg3.N = 512 := N_3
  have e : (⟨8 * (t.val / 8) + j.val, by have := t.isLt; have := j.isLt; omega⟩ : Fin 512) = n := Fin.ext hn.symm
  rw [step3_apply]
  unfold term3
  simp only [iblk3_0_apply, iblk3_1_apply, iblk3_2_apply, iblk3_3_apply, iblk3_4_apply, iblk3_5_apply,
    (coord3 t).1, (coord3 t).2, e]

/-- The accumulator's contents depend on the point's number only. -/
theorem acc3_congr (c : Dev nD) (a b : ℕ) (ha : a < cfg3.N) (hb : b < cfg3.N) (h : a = b) : acc3 V c a ha = acc3 V c b hb := by
  subst h; rfl

/-- A GROUP: after its `s`-th point the accumulator holds the sum of the group's first `s + 1` partial terms. -/
theorem acc3_group (c : Dev nD) (g : ℕ) (hg : g < 64) (ch : Fin 256) (j : Fin 8) (p : Fin 128) (n : Fin 512) (hn : n.val = 8 * g + j.val) :
    ∀ (s : ℕ) (hs : s < 8) (h : g * 8 + s < cfg3.N),
      acc3 V c (g * 8 + s) h (ix3 ch j p)
        = ∑ s' ∈ Finset.range (s + 1), term3 (V c main_arg3) (V c main_v87) (V c main_v88) (V c main_v85) (V c main_v86) (V c main_v13) (g * 8 + s') n ch p := by
  intro s
  induction s with
  | zero =>
    intro hs h
    have h0 : (⟨g * 8 + 0, h⟩ : Fin cfg3.N).val % 8 = 0 := by show (g * 8 + 0) % 8 = 0; omega
    have e := acc3_first V c ⟨g * 8 + 0, h⟩ h0
    rw [show acc3 V c (g * 8 + 0) h = _ from e,
      acc3_point V c ⟨g * 8 + 0, h⟩ ch j p _ n (by show n.val = 8 * ((g * 8 + 0) / 8) + j.val; omega),
      zeroAcc3_apply, zero_add, Finset.sum_range_one]
  | succ s ih =>
    intro hs h
    have hn' : ¬(⟨g * 8 + (s + 1), h⟩ : Fin cfg3.N).val % 8 = 0 := by show ¬(g * 8 + (s + 1)) % 8 = 0; omega
    have e := acc3_next V c ⟨g * 8 + (s + 1), h⟩ hn'
    rw [show acc3 V c (g * 8 + (s + 1)) h = _ from e,
      acc3_point V c ⟨g * 8 + (s + 1), h⟩ ch j p _ n (by show n.val = 8 * ((g * 8 + (s + 1)) / 8) + j.val; omega),
      Finset.sum_range_succ]
    congr 1
    have := ih (by omega) (by omega)
    rw [← this]
    exact congrFun (acc3_congr V c _ _ _ _ (by show g * 8 + (s + 1) - 1 = g * 8 + s; omega)) _

end Region

end Cert.KernelIdeal.Hand

end
-- ==== Proof.KI3Out.lean ====
/-
  What pallas_call 3 leaves in its output array [512, 256, 128], at the ideal values: at (region of interest n, channel,
  sampling point p) the sum of the 8 partial terms of group `n / 8`. The output window's block at a group's last point
  is rows `8·g … 8·g + 7` of the array, and what the point writes back is the accumulator with its first two axes
  exchanged; the 64 groups' write-backs cover the array.
-/
import proofs.«110520_j35545149342110_1_alg».proof.Proof.KI3Sum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region

variable (V : (c : Dev nD) → (b : Ref sig .tc) → Buf (Elt Ideal) ((c : Thread nD τ).loc b))

/-- The output array of region 3. -/
def out3 (c : Dev nD) : S512x256x128.Idx → EReal := fun y =>
  ∑ s ∈ Finset.range 8, term3 (V c main_arg3) (V c main_v87) (V c main_v88) (V c main_v85) (V c main_v86) (V c main_v13) ((y 0).val / 8 * 8 + s) (y 0) (y 1) (y 2)

/-- The accumulator with its first two axes exchanged, at an index. -/
theorem pay2_3_apply (a : Vec Ideal S256x8x128 .f32) (j : Fin 8) (ch : Fin 256) (p : Fin 128) :
    k3_pay2 (F := Ideal) a (ix3 j ch p) = a (ix3 ch j p) := by
  unfold k3_pay2
  exact transpose_apply _ a _ _ _ fun b => match b with | ⟨0, _⟩ => rfl | ⟨1, _⟩ => rfl | ⟨2, _⟩ => rfl

/-- What a group's last point writes back is the output array read through the window's block there. -/
theorem flushed3_eq (c : Dev nD) (t : Fin cfg3.N) (hf : (cfg3.win 6).flush t = true) :
    (dat3 V c).flushed 6 t = ((cfg3.win 6).blk t).view.read (Elt Ideal) (out3 V c) := by
  have hN : cfg3.N = 512 := N_3
  have hlast : t.val % 8 = 7 := (flush3_6 t).mp hf
  have hi := idx3_o t
  funext y
  obtain ⟨j, ch, p, rfl⟩ : ∃ (j : Fin 8) (ch : Fin 256) (p : Fin 128), y = ix3 j ch p := ⟨y 0, y 1, y 2, eq_ix3 y⟩
  rw [View.read_apply]
  show (cfg3.win 6).cut (grid3.coords t) ((dat3 V c).after 6 t) (ix3 j ch p) = _
  rw [after3_6]
  show k3_pay2 (F := Ideal) (acc3 V c t.val t.isLt) (ix3 j ch p) = _
  rw [pay2_3_apply]
  have ht : t.val = t.val / 8 * 8 + 7 := by omega
  rw [congrFun (acc3_congr V c t.val (t.val / 8 * 8 + 7) t.isLt (by omega) ht) _,
    acc3_group V c (t.val / 8) (by have := t.isLt; omega) ch j p (⟨8 * (t.val / 8) + j.val, by have := t.isLt; have := j.isLt; omega⟩ : Fin 512) rfl 7 (by decide) (by omega)]
  have hy : ((cfg3.win 6).blk t).view.emb (ix3 j ch p)
      = ix3 (⟨8 * (t.val / 8) + j.val, by have := t.isLt; have := j.isLt; omega⟩ : Fin 512) ch p := by
    funext a; apply Fin.ext
    match a with
    | ⟨0, _⟩ => show win3_6.index t 0 * 8 + 1 * j.val = 8 * (t.val / 8) + j.val; rw [hi.1]; omega
    | ⟨1, _⟩ => show win3_6.index t 1 * 256 + 1 * ch.val = ch.val; rw [hi.2.1]; omega
    | ⟨2, _⟩ => show win3_6.index t 2 * 128 + 1 * p.val = p.val; rw [hi.2.2]; omega
  show _ = out3 V c (((cfg3.win 6).blk t).view.emb (ix3 j ch p))
  rw [hy]
  show _ = ∑ s ∈ Finset.range 8, term3 (V c main_arg3) (V c main_v87) (V c main_v88) (V c main_v85) (V c main_v86) (V c main_v13) ((8 * (t.val / 8) + j.val) / 8 * 8 + s)
    (⟨8 * (t.val / 8) + j.val, by have := t.isLt; have := j.isLt; omega⟩ : Fin 512) ch p
  rw [show (8 * (t.val / 8) + j.val) / 8 = t.val / 8 from by have := j.isLt; omega]

/-- The 64 groups' write-backs cover the output array, so it ends holding `out3`. -/
theorem final3 (c : Dev nD) : (dat3 V c).arrAt 6 cfg3.N = out3 V c :=
  (dat3 V c).arrAt_eq_of_cover 6 (out3 V c) (flushed3_eq V c) fun i => by
    have hN : cfg3.N = 512 := N_3
    have h0 : (i 0 : Nat) < 512 := (i 0).isLt
    have h1 : (i 1 : Nat) < 256 := (i 1).isLt
    have h2 : (i 2 : Nat) < 128 := (i 2).isLt
    let t : Fin cfg3.N := ⟨(i 0).val / 8 * 8 + 7, by omega⟩
    have hi := idx3_o t
    refine ⟨t, (flush3_6 t).mpr (by show ((i 0).val / 8 * 8 + 7) % 8 = 7; omega), ?_⟩
    show i ∈ ((View.whole main_v89).slice (win3_6.rect t)).set
    rw [View.set_slice_whole, Rect.mem_set_unit]
    intro a
    have ht : t.val / 8 = (i 0).val / 8 := by show ((i 0).val / 8 * 8 + 7) / 8 = (i 0).val / 8; omega
    match a with
    | ⟨0, _⟩ => show win3_6.index t 0 * win3_6.size 0 ≤ (i 0 : Nat) ∧ (i 0 : Nat) < win3_6.index t 0 * win3_6.size 0 + win3_6.xsize (grid3.coords t) 0
                rw [hi.1, ht, show win3_6.size 0 = 8 from rfl, show win3_6.xsize (grid3.coords t) 0 = 8 from rfl]; omega
    | ⟨1, _⟩ => show win3_6.index t 1 * win3_6.size 1 ≤ (i 1 : Nat) ∧ (i 1 : Nat) < win3_6.index t 1 * win3_6.size 1 + win3_6.xsize (grid3.coords t) 1
                rw [hi.2.1, show win3_6.size 1 = 256 from rfl, show win3_6.xsize (grid3.coords t) 1 = 256 from rfl]; omega
    | ⟨2, _⟩ => show win3_6.index t 2 * win3_6.size 2 ≤ (i 2 : Nat) ∧ (i 2 : Nat) < win3_6.index t 2 * win3_6.size 2 + win3_6.xsize (grid3.coords t) 2
                rw [hi.2.2, show win3_6.size 2 = 128 from rfl, show win3_6.xsize (grid3.coords t) 2 = 128 from rfl]; omega

end Region

end Cert.KernelIdeal.Hand

end
-- ==== Proof.KI3Lvl.lean ====
/-
  Level 3: the kernel's output entry as the nested sample. A group's 8 partial terms, their point numbers rewritten
  as (batch image, row tile), are exactly the steps of the tiled contraction that collapses to the row sample of the
  column samples of the region's batch image; the feature map enters as a function on naturals (zero outside the map).
-/
import proofs.«110520_j35545149342110_1_alg».proof.Proof.KI3Out
import proofs.«110520_j35545149342110_1_alg».proof.Proof.LibBilinear

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.LibBilinear

/-- The level's feature map at channel `ch` as a function of (batch image, row, column) numbers, zero outside the map. -/
def featN3 (A : S2x256x32x32.Idx → EReal) (ch : Fin 256) : ℕ → ℕ → ℕ → EReal := fun b h w =>
  if hb : b < 2 then if hh : h < 32 then if hw : w < 32 then A (ix4 ⟨b, hb⟩ ch ⟨h, hh⟩ ⟨w, hw⟩) else 0 else 0 else 0

theorem featN3_eq (A : S2x256x32x32.Idx → EReal) (ch : Fin 256) (b h : ℕ) (hb : b < 2) (hh : h < 32) (w : Fin 32) :
    A (ix4 ⟨b, hb⟩ ch ⟨h, hh⟩ w) = featN3 A ch b h w.val := by
  unfold featN3
  rw [dif_pos hb, dif_pos hh, dif_pos w.isLt]

/-- A group's partial terms sum to the nested sample. -/
theorem sumTerm3_nested (A : S2x256x32x32.Idx → EReal) (X Y : S512x128.Idx → BitVec 32) (WX WY : S512x128.Idx → EReal) (BI : S512x128.Idx → BitVec 32)
    (g : ℕ) (n : Fin 512) (ch : Fin 256) (p : Fin 128) (hB : (BI (ix2 n p)).toNat < 2) :
    (∑ s ∈ Finset.range 8, term3 A X Y WX WY BI (g * 8 + s) n ch p)
      = (if (Y (ix2 n p)).toNat < 4 * 8 then colSample 32 (featN3 A ch) (BI (ix2 n p)).toNat (Y (ix2 n p)).toNat (X (ix2 n p))
            (Ideal.ofBits .f32 0x3F800000#32 - WX (ix2 n p)) (WX (ix2 n p)) * (Ideal.ofBits .f32 0x3F800000#32 - WY (ix2 n p)) else 0)
        + (if (Y (ix2 n p) + 1).toNat < 4 * 8 then colSample 32 (featN3 A ch) (BI (ix2 n p)).toNat (Y (ix2 n p) + 1).toNat (X (ix2 n p))
            (Ideal.ofBits .f32 0x3F800000#32 - WX (ix2 n p)) (WX (ix2 n p)) * (WY (ix2 n p)) else 0) := by
  have key : ∀ s ∈ Finset.range (2 * 4), term3 A X Y WX WY BI (g * 8 + s) n ch p
      = ∑ hh : Fin 8,
        (∑ w : Fin 32, featN3 A ch (s / 4 % 2) (8 * (s % 4) + hh.val) w.val
            * (((if BitVec.ofNat 32 w.val = X (ix2 n p) then Ideal.ofBits .f32 0x3F800000#32 - WX (ix2 n p) else 0)
                + (if BitVec.ofNat 32 w.val = X (ix2 n p) + 1 then WX (ix2 n p) else 0))
               * (if BI (ix2 n p) = BitVec.ofNat 32 (s / 4 % 2) then (1 : EReal) else 0)))
          * ((if BitVec.ofNat 32 hh.val + BitVec.ofNat 32 (s % 4) * 8#32 = Y (ix2 n p) then Ideal.ofBits .f32 0x3F800000#32 - WY (ix2 n p) else 0)
              + (if BitVec.ofNat 32 hh.val + BitVec.ofNat 32 (s % 4) * 8#32 = Y (ix2 n p) + 1 then WY (ix2 n p) else 0)) := by
    intro s hs
    have hs' : s < 2 * 4 := Finset.mem_range.mp hs
    have e1 : (g * 8 + s) / 4 % 2 = s / 4 % 2 := by omega
    have e2 : (g * 8 + s) % 4 = s % 4 := by omega
    unfold term3
    simp only [featN3_eq, e1, e2]
    rfl
  show (∑ s ∈ Finset.range (2 * 4), _) = _
  rw [Finset.sum_congr rfl key]
  exact collapse 32 4 (by norm_num) (by norm_num) (by norm_num) (featN3 A ch) (X (ix2 n p)) (Y (ix2 n p)) (BI (ix2 n p)) hB _ _ _ _

section Region

variable (V : (c : Dev nD) → (b : Ref sig .tc) → Buf (Elt Ideal) ((c : Thread nD τ).loc b))

/-- The region's output array at an index. -/
theorem out3_apply (c : Dev nD) (n : Fin 512) (ch : Fin 256) (p : Fin 128) :
    out3 V c (ix3 n ch p) = ∑ s ∈ Finset.range 8, term3 (V c main_arg3) (V c main_v87) (V c main_v88) (V c main_v85) (V c main_v86) (V c main_v13) (n.val / 8 * 8 + s) n ch p := rfl

end Region

end Cert.KernelIdeal.Hand

end
-- ==== Proof.RefLevel3.lean ====
/-
  Level 3 of the reference (the map of extent 32 × 32), read at one output element.

  The reference gathers, for every region `n`, sampling point `p` and channel `ch`, the four corners of the point's cell
  from the map — each corner's indices clipped into the map and passed through array indexing's negative-index rule,
  the gathered value multiplied by the corner's validity bit —, weights them with the point's fractions and adds the
  four terms; the level's output is that array with its last two axes exchanged. Read at `(n, ch, p)` this is the
  four-corner bilinear sample `refSample` of the map at channel `ch`, given the region's image index, the point's cell
  and its fractions, which stay the reference's own arrays. Each corner is one use of `corner_read`; the weights are
  broadcasts read at an index.
-/
import proofs.«110520_j35545149342110_1_alg».proof.Proof.RefReadP
import proofs.«110520_j35545149342110_1_alg».proof.Proof.LibRefSample
import proofs.«110520_j35545149342110_1_alg».proof.Proof.LibGatherPoint

noncomputable section

namespace Cert.RefLevel

open Cert.ReferenceIdeal Cert.ReferenceIdeal.Gen Cert.ReferenceIdeal.Read Idealize.ShloMosaic Idealize.ShloMosaic.ValueIdx
  Idealize.SL.Sem Cert.LibGatherPoint

/-- The elementwise operations and the broadcast constants of level 3, read at an index. -/
macro "lvl3_simp" : tactic => `(tactic| simp only [val_main_c_206_apply, val_main_v666_apply, val_main_v667_apply, val_main_c_207_apply, val_main_v668_apply, val_main_v669_apply, val_main_v670_apply, val_main_c_208_apply, val_main_v671_apply, val_main_v672_apply, val_main_v673_apply, val_main_c_209_apply, val_main_v674_apply, val_main_v675_apply, val_main_v676_apply, val_main_c_210_apply, val_main_c_211_apply, val_main_call24_v0_apply, val_main_call24_v1_apply, val_main_call24_v2_apply, val_main_call24_v3_apply, val_main_call24_v4_apply, val_main_v677_apply, val_main_c_212_apply, val_main_c_213_apply, val_main_call25_v0_apply, val_main_call25_v1_apply, val_main_call25_v2_apply, val_main_call25_v3_apply, val_main_call25_v4_apply, val_main_v678_apply, val_main_c_214_apply, val_main_v680_apply, val_main_v681_apply, val_main_c_215_apply, val_main_v682_apply, val_main_v683_apply, val_main_v684_apply, val_main_c_216_apply, val_main_v685_apply, val_main_v686_apply, val_main_c_217_apply, val_main_v687_apply, val_main_v688_apply, val_main_v689_apply, val_main_c_218_apply, val_main_v690_apply, val_main_v691_apply, val_main_c_219_apply, val_main_v692_apply, val_main_v693_apply, val_main_v694_apply, val_main_v702_apply, val_main_v704_apply, val_main_c_220_apply, val_main_v705_apply, val_main_v706_apply, val_main_c_221_apply, val_main_v707_apply, val_main_v708_apply, val_main_c_222_apply, val_main_v709_apply, val_main_v710_apply, val_main_v711_apply, val_main_c_223_apply, val_main_v712_apply, val_main_v713_apply, val_main_v714_apply, val_main_c_224_apply, val_main_v715_apply, val_main_v716_apply, val_main_v717_apply, val_main_c_225_apply, val_main_c_226_apply, val_main_call26_v0_apply, val_main_call26_v1_apply, val_main_call26_v2_apply, val_main_call26_v3_apply, val_main_call26_v4_apply, val_main_v718_apply, val_main_c_227_apply, val_main_c_228_apply, val_main_call27_v0_apply, val_main_call27_v1_apply, val_main_call27_v2_apply, val_main_call27_v3_apply, val_main_call27_v4_apply, val_main_v719_apply, val_main_c_229_apply, val_main_v721_apply, val_main_v722_apply, val_main_c_230_apply, val_main_v723_apply, val_main_v724_apply, val_main_v725_apply, val_main_c_231_apply, val_main_v726_apply, val_main_v727_apply, val_main_c_232_apply, val_main_v728_apply, val_main_v729_apply, val_main_v730_apply, val_main_c_233_apply, val_main_v731_apply, val_main_v732_apply, val_main_c_234_apply, val_main_v733_apply, val_main_v734_apply, val_main_v735_apply, val_main_v743_apply, val_main_v745_apply, val_main_c_235_apply, val_main_v746_apply, val_main_v747_apply, val_main_c_236_apply, val_main_v748_apply, val_main_v749_apply, val_main_c_237_apply, val_main_v750_apply, val_main_v751_apply, val_main_v752_apply, val_main_c_238_apply, val_main_v753_apply, val_main_v754_apply, val_main_v755_apply, val_main_c_239_apply, val_main_v756_apply, val_main_v757_apply, val_main_v758_apply, val_main_c_240_apply, val_main_c_241_apply, val_main_call28_v0_apply, val_main_call28_v1_apply, val_main_call28_v2_apply, val_main_call28_v3_apply, val_main_call28_v4_apply, val_main_v759_apply, val_main_c_242_apply, val_main_c_243_apply, val_main_call29_v0_apply, val_main_call29_v1_apply, val_main_call29_v2_apply, val_main_call29_v3_apply, val_main_call29_v4_apply, val_main_v760_apply, val_main_c_244_apply, val_main_v762_apply, val_main_v763_apply, val_main_c_245_apply, val_main_v764_apply, val_main_v765_apply, val_main_v766_apply, val_main_c_246_apply, val_main_v767_apply, val_main_v768_apply, val_main_c_247_apply, val_main_v769_apply, val_main_v770_apply, val_main_v771_apply, val_main_c_248_apply, val_main_v772_apply, val_main_v773_apply, val_main_c_249_apply, val_main_v774_apply, val_main_v775_apply, val_main_v776_apply, val_main_v784_apply, val_main_v786_apply, val_main_c_250_apply, val_main_v787_apply, val_main_v788_apply, val_main_c_251_apply, val_main_v789_apply, val_main_v790_apply, val_main_c_252_apply, val_main_v791_apply, val_main_v792_apply, val_main_c_253_apply, val_main_v793_apply, val_main_v794_apply, val_main_v795_apply, val_main_c_254_apply, val_main_v796_apply, val_main_v797_apply, val_main_v798_apply, val_main_c_255_apply, val_main_v799_apply, val_main_v800_apply, val_main_v801_apply, val_main_c_256_apply, val_main_c_257_apply, val_main_call30_v0_apply, val_main_call30_v1_apply, val_main_call30_v2_apply, val_main_call30_v3_apply, val_main_call30_v4_apply, val_main_v802_apply, val_main_c_258_apply, val_main_c_259_apply, val_main_call31_v0_apply, val_main_call31_v1_apply, val_main_call31_v2_apply, val_main_call31_v3_apply, val_main_call31_v4_apply, val_main_v803_apply, val_main_c_260_apply, val_main_v805_apply, val_main_v806_apply, val_main_c_261_apply, val_main_v807_apply, val_main_v808_apply, val_main_v809_apply, val_main_c_262_apply, val_main_v810_apply, val_main_v811_apply, val_main_c_263_apply, val_main_v812_apply, val_main_v813_apply, val_main_v814_apply, val_main_c_264_apply, val_main_v815_apply, val_main_v816_apply, val_main_c_265_apply, val_main_v817_apply, val_main_v818_apply, val_main_v819_apply, val_main_v827_apply, val_main_v829_apply, val_main_cst_266_apply, val_main_v832_apply, val_main_v833_apply, val_main_v835_apply, val_main_cst_267_apply, val_main_v836_apply, val_main_v837_apply, val_main_v839_apply, val_main_v841_apply, val_main_cst_268_apply, val_main_v842_apply, val_main_v843_apply, val_main_v845_apply, val_main_v846_apply, val_main_cst_269_apply, val_main_v847_apply, val_main_v848_apply, val_main_v850_apply, val_main_v852_apply, val_main_v853_apply, val_main_v855_apply, val_main_v857_apply, val_main_v858_apply])

/-- Corner `c00` of level 3: the gathered value times the validity bit is the map's value at the corner's cell, or zero
    when the cell lies outside the map. -/
theorem l3_c00 (x3 : (⟨S2x256x32x32, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v704 (F := Ideal) x3 x4 x5 (ix3 n p ch)
      = if (val_main_v664 (F := Ideal) x4 x5 (ix2 n p)).toNat < 32 ∧ (val_main_v665 (F := Ideal) x4 x5 (ix2 n p)).toNat < 32
          then natMap (N := 2) (C := 256) (H := 32) (W := 32) x3 ch (val_main_v2 (F := Ideal) x4 (ix1 n)).toNat (val_main_v665 (F := Ideal) x4 x5 (ix2 n p)).toNat (val_main_v664 (F := Ideal) x4 x5 (ix2 n p)).toNat else 0 := by
  have h0 : val_main_v699 (F := Ideal) x4 x5 (ix3 n p (0 : Fin 3)) = normIdx 2#32 (val_main_v2 (F := Ideal) x4 (ix1 n)) := by
    refine (concat3_apply0 _ _ _ _ n p).trans ?_
    rw [val_main_v696_apply, show idx_main_v696 (ix3 n p (0 : Fin 1)) = ix2 n p from idx2_eq rfl rfl,
      val_main_v695_apply, show idx_main_v695 (ix2 n p) = ix2 n (0 : Fin 1) from idx2_eq rfl rfl]
    lvl3_simp
    rw [val_main_v679_apply, show idx_main_v679 (ix2 n (0 : Fin 1)) = ix1 n from idx1_eq rfl]
    all_goals rfl
  have h1 : val_main_v699 (F := Ideal) x4 x5 (ix3 n p (1 : Fin 3)) = normIdx 32#32 (clip 31#32 (val_main_v665 (F := Ideal) x4 x5 (ix2 n p))) := by
    refine (concat3_apply1 _ _ _ _ n p).trans ?_
    rw [val_main_v697_apply, show idx_main_v697 (ix3 n p (0 : Fin 1)) = ix2 n p from idx2_eq rfl rfl]
    lvl3_simp
    all_goals rfl
  have h2 : val_main_v699 (F := Ideal) x4 x5 (ix3 n p (2 : Fin 3)) = normIdx 32#32 (clip 31#32 (val_main_v664 (F := Ideal) x4 x5 (ix2 n p))) := by
    refine (concat3_apply2 _ _ _ _ n p).trans ?_
    rw [val_main_v698_apply, show idx_main_v698 (ix3 n p (0 : Fin 1)) = ix2 n p from idx2_eq rfl rfl]
    lvl3_simp
    all_goals rfl
  have hv : val_main_v703 (F := Ideal) x4 x5 (ix3 n p ch) = (((validBit 32#32 32#32 (val_main_v664 (F := Ideal) x4 x5 (ix2 n p)) (val_main_v665 (F := Ideal) x4 x5 (ix2 n p))).toNat : ℝ) : EReal) := by
    rw [val_main_v703_apply, show idx_main_v703 (ix3 n p ch) = ix3 n p (0 : Fin 1) from idx3_eq rfl rfl rfl,
      val_main_v702_apply, val_main_v701_apply, show idx_main_v701 (ix3 n p (0 : Fin 1)) = ix2 n p from idx2_eq rfl rfl]
    lvl3_simp
    all_goals rfl
  rw [val_main_v704_apply, hv]
  exact corner_read (N := 2) (C := 256) (H := 32) (W := 32) (R := 512) (P := 128) (by norm_num) (by norm_num) (by norm_num)
    _ x3 (val_main_v699 (F := Ideal) x4 x5) n p ch (val_main_v2 (F := Ideal) x4 (ix1 n)) (val_main_v664 (F := Ideal) x4 x5 (ix2 n p)) (val_main_v665 (F := Ideal) x4 x5 (ix2 n p)) 2#32 32#32 32#32 31#32 31#32 rfl rfl rfl rfl hB h0 h1 h2

/-- Corner `c01` of level 3: the gathered value times the validity bit is the map's value at the corner's cell, or zero
    when the cell lies outside the map. -/
theorem l3_c01 (x3 : (⟨S2x256x32x32, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v745 (F := Ideal) x3 x4 x5 (ix3 n p ch)
      = if ((val_main_v664 (F := Ideal) x4 x5 (ix2 n p)) + 1).toNat < 32 ∧ (val_main_v665 (F := Ideal) x4 x5 (ix2 n p)).toNat < 32
          then natMap (N := 2) (C := 256) (H := 32) (W := 32) x3 ch (val_main_v2 (F := Ideal) x4 (ix1 n)).toNat (val_main_v665 (F := Ideal) x4 x5 (ix2 n p)).toNat ((val_main_v664 (F := Ideal) x4 x5 (ix2 n p)) + 1).toNat else 0 := by
  have h0 : val_main_v740 (F := Ideal) x4 x5 (ix3 n p (0 : Fin 3)) = normIdx 2#32 (val_main_v2 (F := Ideal) x4 (ix1 n)) := by
    refine (concat3_apply0 _ _ _ _ n p).trans ?_
    rw [val_main_v737_apply, show idx_main_v737 (ix3 n p (0 : Fin 1)) = ix2 n p from idx2_eq rfl rfl,
      val_main_v736_apply, show idx_main_v736 (ix2 n p) = ix2 n (0 : Fin 1) from idx2_eq rfl rfl]
    lvl3_simp
    rw [val_main_v720_apply, show idx_main_v720 (ix2 n (0 : Fin 1)) = ix1 n from idx1_eq rfl]
    all_goals rfl
  have h1 : val_main_v740 (F := Ideal) x4 x5 (ix3 n p (1 : Fin 3)) = normIdx 32#32 (clip 31#32 (val_main_v665 (F := Ideal) x4 x5 (ix2 n p))) := by
    refine (concat3_apply1 _ _ _ _ n p).trans ?_
    rw [val_main_v738_apply, show idx_main_v738 (ix3 n p (0 : Fin 1)) = ix2 n p from idx2_eq rfl rfl]
    lvl3_simp
    all_goals rfl
  have h2 : val_main_v740 (F := Ideal) x4 x5 (ix3 n p (2 : Fin 3)) = normIdx 32#32 (clip 31#32 ((val_main_v664 (F := Ideal) x4 x5 (ix2 n p)) + 1)) := by
    refine (concat3_apply2 _ _ _ _ n p).trans ?_
    rw [val_main_v739_apply, show idx_main_v739 (ix3 n p (0 : Fin 1)) = ix2 n p from idx2_eq rfl rfl]
    lvl3_simp
    all_goals rfl
  have hv : val_main_v744 (F := Ideal) x4 x5 (ix3 n p ch) = (((validBit 32#32 32#32 ((val_main_v664 (F := Ideal) x4 x5 (ix2 n p)) + 1) (val_main_v665 (F := Ideal) x4 x5 (ix2 n p))).toNat : ℝ) : EReal) := by
    rw [val_main_v744_apply, show idx_main_v744 (ix3 n p ch) = ix3 n p (0 : Fin 1) from idx3_eq rfl rfl rfl,
      val_main_v743_apply, val_main_v742_apply, show idx_main_v742 (ix3 n p (0 : Fin 1)) = ix2 n p from idx2_eq rfl rfl]
    lvl3_simp
    all_goals rfl
  rw [val_main_v745_apply, hv]
  exact corner_read (N := 2) (C := 256) (H := 32) (W := 32) (R := 512) (P := 128) (by norm_num) (by norm_num) (by norm_num)
    _ x3 (val_main_v740 (F := Ideal) x4 x5) n p ch (val_main_v2 (F := Ideal) x4 (ix1 n)) ((val_main_v664 (F := Ideal) x4 x5 (ix2 n p)) + 1) (val_main_v665 (F := Ideal) x4 x5 (ix2 n p)) 2#32 32#32 32#32 31#32 31#32 rfl rfl rfl rfl hB h0 h1 h2

/-- Corner `c10` of level 3: the gathered value times the validity bit is the map's value at the corner's cell, or zero
    when the cell lies outside the map. -/
theorem l3_c10 (x3 : (⟨S2x256x32x32, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v786 (F := Ideal) x3 x4 x5 (ix3 n p ch)
      = if (val_main_v664 (F := Ideal) x4 x5 (ix2 n p)).toNat < 32 ∧ ((val_main_v665 (F := Ideal) x4 x5 (ix2 n p)) + 1).toNat < 32
          then natMap (N := 2) (C := 256) (H := 32) (W := 32) x3 ch (val_main_v2 (F := Ideal) x4 (ix1 n)).toNat ((val_main_v665 (F := Ideal) x4 x5 (ix2 n p)) + 1).toNat (val_main_v664 (F := Ideal) x4 x5 (ix2 n p)).toNat else 0 := by
  have h0 : val_main_v781 (F := Ideal) x4 x5 (ix3 n p (0 : Fin 3)) = normIdx 2#32 (val_main_v2 (F := Ideal) x4 (ix1 n)) := by
    refine (concat3_apply0 _ _ _ _ n p).trans ?_
    rw [val_main_v778_apply, show idx_main_v778 (ix3 n p (0 : Fin 1)) = ix2 n p from idx2_eq rfl rfl,
      val_main_v777_apply, show idx_main_v777 (ix2 n p) = ix2 n (0 : Fin 1) from idx2_eq rfl rfl]
    lvl3_simp
    rw [val_main_v761_apply, show idx_main_v761 (ix2 n (0 : Fin 1)) = ix1 n from idx1_eq rfl]
    all_goals rfl
  have h1 : val_main_v781 (F := Ideal) x4 x5 (ix3 n p (1 : Fin 3)) = normIdx 32#32 (clip 31#32 ((val_main_v665 (F := Ideal) x4 x5 (ix2 n p)) + 1)) := by
    refine (concat3_apply1 _ _ _ _ n p).trans ?_
    rw [val_main_v779_apply, show idx_main_v779 (ix3 n p (0 : Fin 1)) = ix2 n p from idx2_eq rfl rfl]
    lvl3_simp
    all_goals rfl
  have h2 : val_main_v781 (F := Ideal) x4 x5 (ix3 n p (2 : Fin 3)) = normIdx 32#32 (clip 31#32 (val_main_v664 (F := Ideal) x4 x5 (ix2 n p))) := by
    refine (concat3_apply2 _ _ _ _ n p).trans ?_
    rw [val_main_v780_apply, show idx_main_v780 (ix3 n p (0 : Fin 1)) = ix2 n p from idx2_eq rfl rfl]
    lvl3_simp
    all_goals rfl
  have hv : val_main_v785 (F := Ideal) x4 x5 (ix3 n p ch) = (((validBit 32#32 32#32 (val_main_v664 (F := Ideal) x4 x5 (ix2 n p)) ((val_main_v665 (F := Ideal) x4 x5 (ix2 n p)) + 1)).toNat : ℝ) : EReal) := by
    rw [val_main_v785_apply, show idx_main_v785 (ix3 n p ch) = ix3 n p (0 : Fin 1) from idx3_eq rfl rfl rfl,
      val_main_v784_apply, val_main_v783_apply, show idx_main_v783 (ix3 n p (0 : Fin 1)) = ix2 n p from idx2_eq rfl rfl]
    lvl3_simp
    all_goals rfl
  rw [val_main_v786_apply, hv]
  exact corner_read (N := 2) (C := 256) (H := 32) (W := 32) (R := 512) (P := 128) (by norm_num) (by norm_num) (by norm_num)
    _ x3 (val_main_v781 (F := Ideal) x4 x5) n p ch (val_main_v2 (F := Ideal) x4 (ix1 n)) (val_main_v664 (F := Ideal) x4 x5 (ix2 n p)) ((val_main_v665 (F := Ideal) x4 x5 (ix2 n p)) + 1) 2#32 32#32 32#32 31#32 31#32 rfl rfl rfl rfl hB h0 h1 h2

/-- Corner `c11` of level 3: the gathered value times the validity bit is the map's value at the corner's cell, or zero
    when the cell lies outside the map. -/
theorem l3_c11 (x3 : (⟨S2x256x32x32, .f32⟩ : BufTy).Contents (Elt Ideal)) (x4 : (⟨S512x5, .f32⟩ : BufTy).Contents (Elt Ideal))
    (x5 : (⟨S512x128x2, .f32⟩ : BufTy).Contents (Elt Ideal)) (n : Fin 512) (p : Fin 128) (ch : Fin 256)
    (hB : (val_main_v2 (F := Ideal) x4 (ix1 n)).toNat < 2) :
    val_main_v829 (F := Ideal) x3 x4 x5 (ix3 n p ch)
      = if ((val_main_v664 (F := Ideal) x4 x5 (ix2 n p)) + 1).toNat < 32 ∧ ((val_main_v665 (F := Ideal) x4 x5 (ix2 n p)) + 1).toNat < 32
          then natMap (N := 2) (C := 256) (H := 32) (W := 32) x3 ch (val_main_v2 (F := Ideal) x4 (ix1 n)).toNat ((val_main_v665 (F := Ideal) x4 x5 (ix2 n p)) + 1).toNat ((val_main_v664 (F := Ideal) x4 x5 (ix2 n p)) + 1).toNat else 0 := by
  have h0 : val_main_v824 (F := Ideal) x4 x5 (ix3 n p (0 : Fin 3)) = normIdx 2#32 (val_main_v2 (F := Ideal) x4 (ix1 n)) := by
    refine (concat3_apply0 _ _ _ _ n p).trans ?_
    rw [val_main_v821_apply, show idx_main_v821 (ix3 n p (0 : Fin 1)) = ix2 n p from idx2_eq rfl rfl,
      val_main_v820_apply, show idx_main_v820 (ix2 n p) = ix2 n (0 : Fin 1) from idx2_eq rfl rfl]
    lvl3_simp
    rw [val_main_v804_apply, show idx_main_v804 (ix2 n (0 : Fin 1)) = ix1 n from idx1_eq rfl]
    all_goals rfl
  have h1 : val_main_v824 (F := Ideal) x4 x5 (ix3 n p (1 : Fin 3)) = normIdx 32#32 (clip 31#32 ((val_main_v665 (F := Ideal) x4 x5 (ix2 n p)) + 1)) := by
    refine (concat3_apply1 _ _ _ _ n p).trans ?_
    rw [val_main_v822_apply, show idx_main_v822 (ix3 n p (0 : Fin 1)) = ix2 n p from idx2_eq rfl rfl]
    lvl3_simp
    all_goals rfl
  have h2 : val_main_v824 (F := Ideal) x4 x5 (ix3 n p (2 : Fin 3)) = normIdx 32#32 (clip 31#32 ((val_main_v664 (F := Ideal) x4 x5 (ix2 n p)) + 1)) := by
    refine (concat3_apply2 _ _ _ _ n p).trans ?_
    rw [val_main_v823_apply, show idx_main_v823 (ix3 n p (0 : Fin 1)) = ix2 n p from idx2_eq rfl rfl]
    lvl3_simp
    all_goals rfl
  have hv : val_main_v828 (F := Ideal) x4 x5 (ix3 n p ch) = (((validBit 32#32 32#32 ((val_main_v664 (F := Ideal) x4 x5 (ix2 n p)) + 1) ((val_main_v665 (F := Ideal) x4 x5 (ix2 n p)) + 1)).toNat : ℝ) : EReal) := by
    rw [val_main_v828_apply, show idx_main_v828 (ix3 n p ch) = ix3 n p (0 : Fin 1) from idx3_eq rfl rfl rfl,
      val_main_v827_apply, val_main_v826_apply, show idx_main_v826 (ix3 n p (0 : Fin 1)) = ix2 n p from idx2_eq rfl rfl]
    lvl3_simp
    all_goals rfl
  rw [val_main_v829_apply, hv]
  exact corner_read (N := 2) (C := 256) (H := 32) (W := 32) (R := 512) (P := 128) (by norm_num) (by norm_num) (by norm_num)
    _ x3 (val_main_v824 (F := Ideal) x4 x5) n p ch (val_main_v2 (F := Ideal) x4 (ix1 n)) ((val_main_v664 (F := Ideal) x4 x5 (ix2 n p)) + 1) ((val_main_v665 (F := Ideal) x4 x5 (ix2 n p)) + 1) 2#32 32#32 32#32 31#32 31#32 rfl rfl rfl rfl hB h0 h1 h2

/-- LEVEL 3 AT ONE OUTPUT ELEMENT: the reference's value at region `n`, channel `ch`, point `p` is the four-corner
    bilinear sample of the map at channel `ch`, for a region whose image index is 0 or 1. -/
theorem ref3_apply (x3 : (⟨S2x256x32x32, .f32⟩ : BufTy).Contents (Elt Ideal)) (x4 : (⟨S512x5, .f32⟩ : BufTy).Contents (Elt Ideal))
    (x5 : (⟨S512x128x2, .f32⟩ : BufTy).Contents (Elt Ideal)) (n : Fin 512) (ch : Fin 256) (p : Fin 128)
    (hB : (val_main_v2 (F := Ideal) x4 (ix1 n)).toNat < 2) :
    val_main_v859 (F := Ideal) x3 x4 x5 (ix3 n ch p)
      = Cert.LibRefSample.refSample 32 32 (natMap (N := 2) (C := 256) (H := 32) (W := 32) x3 ch) (val_main_v2 (F := Ideal) x4 (ix1 n))
          (val_main_v664 (F := Ideal) x4 x5 (ix2 n p)) (val_main_v665 (F := Ideal) x4 x5 (ix2 n p)) (Idealize.ShloMosaic.Ideal.ofBits .f32 0x3F800000#32)
          (val_main_v662 (F := Ideal) x4 x5 (ix2 n p)) (val_main_v663 (F := Ideal) x4 x5 (ix2 n p)) := by
  have w198 : val_main_v834 (F := Ideal) x4 x5 (ix3 n p ch) = (Idealize.ShloMosaic.Ideal.ofBits .f32 0x3F800000#32) - (val_main_v662 (F := Ideal) x4 x5 (ix2 n p)) := by
    rw [val_main_v834_apply, show idx_main_v834 (ix3 n p ch) = ix3 n p (0 : Fin 1) from idx3_eq rfl rfl rfl, val_main_v833_apply,
      val_main_v832_apply, val_main_cst_266_apply, val_main_v830_apply,
      show idx_main_v830 (ix3 n p (0 : Fin 1)) = ix2 n p from idx2_eq rfl rfl]
    all_goals rfl
  have w202 : val_main_v838 (F := Ideal) x4 x5 (ix3 n p ch) = (Idealize.ShloMosaic.Ideal.ofBits .f32 0x3F800000#32) - (val_main_v663 (F := Ideal) x4 x5 (ix2 n p)) := by
    rw [val_main_v838_apply, show idx_main_v838 (ix3 n p ch) = ix3 n p (0 : Fin 1) from idx3_eq rfl rfl rfl, val_main_v837_apply,
      val_main_v836_apply, val_main_cst_267_apply, val_main_v831_apply,
      show idx_main_v831 (ix3 n p (0 : Fin 1)) = ix2 n p from idx2_eq rfl rfl]
    all_goals rfl
  have w204 : val_main_v840 (F := Ideal) x4 x5 (ix3 n p ch) = (val_main_v662 (F := Ideal) x4 x5 (ix2 n p)) := by
    rw [val_main_v840_apply, show idx_main_v840 (ix3 n p ch) = ix3 n p (0 : Fin 1) from idx3_eq rfl rfl rfl, val_main_v830_apply,
      show idx_main_v830 (ix3 n p (0 : Fin 1)) = ix2 n p from idx2_eq rfl rfl]
  have w208 : val_main_v844 (F := Ideal) x4 x5 (ix3 n p ch) = (Idealize.ShloMosaic.Ideal.ofBits .f32 0x3F800000#32) - (val_main_v663 (F := Ideal) x4 x5 (ix2 n p)) := by
    rw [val_main_v844_apply, show idx_main_v844 (ix3 n p ch) = ix3 n p (0 : Fin 1) from idx3_eq rfl rfl rfl, val_main_v843_apply,
      val_main_v842_apply, val_main_cst_268_apply, val_main_v831_apply,
      show idx_main_v831 (ix3 n p (0 : Fin 1)) = ix2 n p from idx2_eq rfl rfl]
    all_goals rfl
  have w213 : val_main_v849 (F := Ideal) x4 x5 (ix3 n p ch) = (Idealize.ShloMosaic.Ideal.ofBits .f32 0x3F800000#32) - (val_main_v662 (F := Ideal) x4 x5 (ix2 n p)) := by
    rw [val_main_v849_apply, show idx_main_v849 (ix3 n p ch) = ix3 n p (0 : Fin 1) from idx3_eq rfl rfl rfl, val_main_v848_apply,
      val_main_v847_apply, val_main_cst_269_apply, val_main_v830_apply,
      show idx_main_v830 (ix3 n p (0 : Fin 1)) = ix2 n p from idx2_eq rfl rfl]
    all_goals rfl
  have w215 : val_main_v851 (F := Ideal) x4 x5 (ix3 n p ch) = (val_main_v663 (F := Ideal) x4 x5 (ix2 n p)) := by
    rw [val_main_v851_apply, show idx_main_v851 (ix3 n p ch) = ix3 n p (0 : Fin 1) from idx3_eq rfl rfl rfl, val_main_v831_apply,
      show idx_main_v831 (ix3 n p (0 : Fin 1)) = ix2 n p from idx2_eq rfl rfl]
  have w218 : val_main_v854 (F := Ideal) x4 x5 (ix3 n p ch) = (val_main_v662 (F := Ideal) x4 x5 (ix2 n p)) := by
    rw [val_main_v854_apply, show idx_main_v854 (ix3 n p ch) = ix3 n p (0 : Fin 1) from idx3_eq rfl rfl rfl, val_main_v830_apply,
      show idx_main_v830 (ix3 n p (0 : Fin 1)) = ix2 n p from idx2_eq rfl rfl]
  have w220 : val_main_v856 (F := Ideal) x4 x5 (ix3 n p ch) = (val_main_v663 (F := Ideal) x4 x5 (ix2 n p)) := by
    rw [val_main_v856_apply, show idx_main_v856 (ix3 n p ch) = ix3 n p (0 : Fin 1) from idx3_eq rfl rfl rfl, val_main_v831_apply,
      show idx_main_v831 (ix3 n p (0 : Fin 1)) = ix2 n p from idx2_eq rfl rfl]
  rw [val_main_v859_apply, show idx_main_v859 (ix3 n ch p) = ix3 n p ch from idx3_eq rfl rfl rfl,
    val_main_v858_apply, val_main_v853_apply, val_main_v846_apply, val_main_v839_apply, val_main_v835_apply, val_main_v845_apply, val_main_v841_apply,
    val_main_v852_apply, val_main_v850_apply, val_main_v857_apply, val_main_v855_apply,
    l3_c00 x3 x4 x5 n p ch hB, l3_c01 x3 x4 x5 n p ch hB, l3_c10 x3 x4 x5 n p ch hB, l3_c11 x3 x4 x5 n p ch hB,
    w198, w202, w204, w208, w213, w215, w218, w220]
  all_goals rfl

end Cert.RefLevel

end
-- ==== Proof.KI3Eq.lean ====
/-
  Level 3: what the kernel leaves in its output array is the reference's stage. Entry by entry: the region's output is
  the nested sample over the arrays the region finds; those arrays are the reference's cells, fractions and batch
  indices, and the launch's feature map; the nested sample is the reference's four-corner formula when the values are
  real; and that formula is the reference's stage read at the entry.
-/
import proofs.«110520_j35545149342110_1_alg».proof.Proof.KI3Lvl
import proofs.«110520_j35545149342110_1_alg».proof.Proof.KIPrelude
import proofs.«110520_j35545149342110_1_alg».proof.Proof.RefLevel3
import proofs.«110520_j35545149342110_1_alg».proof.Proof.RefReal
import proofs.«110520_j35545149342110_1_alg».proof.Proof.LibRefSample

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LibBilinear Cert.LibRefSample Cert.LibReal Cert.LibGatherPoint

variable (m : (ℓ : Loc nD τ sig) → Buf (Elt Ideal) ℓ)

/-- The level's feature map as region 3 finds it is the launch's. -/
theorem W7_feat3 (c : Dev nD) : W7 m c (Proc.devRef .tc main_arg3) = m ((c.tc : Thread nD τ).loc main_arg3) :=
  calc W7 m c (Proc.devRef .tc main_arg3)
    _ = W6 m c (Proc.devRef .tc main_arg3) := by unfold W7; exact StableHlo.after_of_writes_sub hostOps3 _ hostOps3_writes (by decide)
    _ = W5 m c (Proc.devRef .tc main_arg3) := W6_of_ne m c main_arg3 (by decide)
    _ = W4 m c (Proc.devRef .tc main_arg3) := by unfold W5; exact StableHlo.after_of_writes_sub hostOps2 _ hostOps2_writes (by decide)
    _ = W3 m c (Proc.devRef .tc main_arg3) := W4_of_ne m c main_arg3 (by decide)
    _ = W2 m c (Proc.devRef .tc main_arg3) := by unfold W3; exact StableHlo.after_of_writes_sub hostOps1 _ hostOps1_writes (by decide)
    _ = W1 m c (Proc.devRef .tc main_arg3) := W2_of_ne m c main_arg3 (by decide)
    _ = W0 m c (Proc.devRef .tc main_arg3) := by unfold W1; exact StableHlo.after_of_writes_sub hostOps0 _ hostOps0_writes (by decide)
    _ = m ((c.tc : Thread nD τ).loc main_arg3) := rfl

/-- The feature map on naturals is real when the map is. -/
theorem featN3_real (A : S2x256x32x32.Idx → EReal) (hA : ∀ i, IsReal (A i)) (ch : Fin 256) (b h w : ℕ) : ∃ r : ℝ, featN3 A ch b h w = (r : EReal) := by
  unfold featN3
  split_ifs
  · exact hA _
  · exact ⟨0, rfl⟩
  · exact ⟨0, rfl⟩
  · exact ⟨0, rfl⟩

set_option maxHeartbeats 4000000 in
/-- LEVEL 3: the kernel's output array is the reference's stage `%859`. -/
theorem level3_eq (c : Dev nD)
    (hA : ∀ i, IsReal ((m ((c.tc : Thread nD τ).loc main_arg3) : S2x256x32x32.Idx → EReal) i))
    (h4 : ∀ i, IsReal ((m ((c.tc : Thread nD τ).loc main_arg4) : S512x5.Idx → EReal) i))
    (h5 : ∀ i, IsReal ((m ((c.tc : Thread nD τ).loc main_arg5) : S512x128x2.Idx → EReal) i))
    (hB : ∀ n : Fin 512, (Cert.ReferenceIdeal.Read.val_main_v2 (F := Ideal) (m ((c.tc : Thread nD τ).loc main_arg4)) (ix1 n)).toNat < 2) :
    (W8 m c (Proc.devRef .tc main_v89) : S512x256x128.Idx → EReal) = Cert.ReferenceIdeal.Read.val_main_v859 (F := Ideal) (m ((c.tc : Thread nD τ).loc main_arg3)) (m ((c.tc : Thread nD τ).loc main_arg4)) (m ((c.tc : Thread nD τ).loc main_arg5)) := by
  funext y
  obtain ⟨n, ch, p, rfl⟩ : ∃ (n : Fin 512) (ch : Fin 256) (p : Fin 128), y = ix3 n ch p := ⟨y 0, y 1, y 2, eq_ix3 y⟩
  have hk : W8 m c (Proc.devRef .tc main_v89) = out3 (V7 m) c := (W8_arr m c 6).trans (final3 (V7 m) c)
  have hbi : (W7 m c (Proc.devRef .tc main_v13) : S512x128.Idx → BitVec 32) (ix2 n p) = Cert.ReferenceIdeal.Read.val_main_v2 (F := Ideal) (m ((c.tc : Thread nD τ).loc main_arg4)) (ix1 n) := by
    rw [lvl3_bi m c]; exact W1_bi m c n p
  rw [congrFun hk (ix3 n ch p), out3_apply,
    sumTerm3_nested _ _ _ _ _ _ (n.val / 8) n ch p (by show ((W7 m c (Proc.devRef .tc main_v13) : S512x128.Idx → BitVec 32) (ix2 n p)).toNat < 2; rw [hbi]; exact hB n)]
  rw [Cert.RefLevel.ref3_apply _ _ _ n ch p (hB n),
    refSample_eq 32 32 _ (fun b h w => by rw [natMap_eq_nested]; exact featN3_real _ hA ch b h w) _ _ _ _ _ _ ⟨1, lit_one⟩
      (Cert.RefReal.real3_wx _ _ h4 h5 _) (Cert.RefReal.real3_wy _ _ h4 h5 _)]
  have e1 : V7 m c main_v87 = Cert.ReferenceIdeal.Read.val_main_v664 (F := Ideal) (m ((c.tc : Thread nD τ).loc main_arg4)) (m ((c.tc : Thread nD τ).loc main_arg5)) := lvl3_x m c
  have e2 : V7 m c main_v88 = Cert.ReferenceIdeal.Read.val_main_v665 (F := Ideal) (m ((c.tc : Thread nD τ).loc main_arg4)) (m ((c.tc : Thread nD τ).loc main_arg5)) := lvl3_y m c
  have e3 : V7 m c main_v85 = Cert.ReferenceIdeal.Read.val_main_v662 (F := Ideal) (m ((c.tc : Thread nD τ).loc main_arg4)) (m ((c.tc : Thread nD τ).loc main_arg5)) := lvl3_wx m c
  have e4 : V7 m c main_v86 = Cert.ReferenceIdeal.Read.val_main_v663 (F := Ideal) (m ((c.tc : Thread nD τ).loc main_arg4)) (m ((c.tc : Thread nD τ).loc main_arg5)) := lvl3_wy m c
  have e5 : (V7 m c main_v13 : S512x128.Idx → BitVec 32) (ix2 n p) = Cert.ReferenceIdeal.Read.val_main_v2 (F := Ideal) (m ((c.tc : Thread nD τ).loc main_arg4)) (ix1 n) := hbi
  have e6 : V7 m c main_arg3 = (m ((c.tc : Thread nD τ).loc main_arg3)) := W7_feat3 m c
  have e7 : featN3 (m ((c.tc : Thread nD τ).loc main_arg3)) ch = natMap (N := 2) (C := 256) (H := 32) (W := 32) (m ((c.tc : Thread nD τ).loc main_arg3)) ch := by
    rw [natMap_eq_nested]; rfl
  rw [e1, e2, e3, e4, e5, e6, e7]

end Cert.KernelIdeal.Hand

end
-- ==== Proof.KIFinal.lean ====
/-
  The kernel program's result against the reference's last stage. Each level's output array is left alone by every later
  segment; the last host operation concatenates the four along the channel axis, as the reference's last operation
  does with its four level outputs; level by level the two are equal, so the concatenations are.
-/
import proofs.«110520_j35545149342110_1_alg».proof.Proof.KI0Eq
import proofs.«110520_j35545149342110_1_alg».proof.Proof.KI1Eq
import proofs.«110520_j35545149342110_1_alg».proof.Proof.KI2Eq
import proofs.«110520_j35545149342110_1_alg».proof.Proof.KI3Eq

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibReal

variable (m : (ℓ : Loc nD τ sig) → Buf (Elt Ideal) ℓ)

theorem W8_out0 (c : Dev nD) : W8 m c (Proc.devRef .tc main_v32) = W2 m c (Proc.devRef .tc main_v32) :=
  calc W8 m c (Proc.devRef .tc main_v32)
    _ = W7 m c (Proc.devRef .tc main_v32) := W8_of_ne m c main_v32 (by decide)
    _ = W6 m c (Proc.devRef .tc main_v32) := by unfold W7; exact StableHlo.after_of_writes_sub hostOps3 _ hostOps3_writes (by decide)
    _ = W5 m c (Proc.devRef .tc main_v32) := W6_of_ne m c main_v32 (by decide)
    _ = W4 m c (Proc.devRef .tc main_v32) := by unfold W5; exact StableHlo.after_of_writes_sub hostOps2 _ hostOps2_writes (by decide)
    _ = W3 m c (Proc.devRef .tc main_v32) := W4_of_ne m c main_v32 (by decide)
    _ = W2 m c (Proc.devRef .tc main_v32) := by unfold W3; exact StableHlo.after_of_writes_sub hostOps1 _ hostOps1_writes (by decide)

theorem W8_out1 (c : Dev nD) : W8 m c (Proc.devRef .tc main_v51) = W4 m c (Proc.devRef .tc main_v51) :=
  calc W8 m c (Proc.devRef .tc main_v51)
    _ = W7 m c (Proc.devRef .tc main_v51) := W8_of_ne m c main_v51 (by decide)
    _ = W6 m c (Proc.devRef .tc main_v51) := by unfold W7; exact StableHlo.after_of_writes_sub hostOps3 _ hostOps3_writes (by decide)
    _ = W5 m c (Proc.devRef .tc main_v51) := W6_of_ne m c main_v51 (by decide)
    _ = W4 m c (Proc.devRef .tc main_v51) := by unfold W5; exact StableHlo.after_of_writes_sub hostOps2 _ hostOps2_writes (by decide)

theorem W8_out2 (c : Dev nD) : W8 m c (Proc.devRef .tc main_v70) = W6 m c (Proc.devRef .tc main_v70) :=
  calc W8 m c (Proc.devRef .tc main_v70)
    _ = W7 m c (Proc.devRef .tc main_v70) := W8_of_ne m c main_v70 (by decide)
    _ = W6 m c (Proc.devRef .tc main_v70) := by unfold W7; exact StableHlo.after_of_writes_sub hostOps3 _ hostOps3_writes (by decide)

theorem W8_out3 (c : Dev nD) : W8 m c (Proc.devRef .tc main_v89) = W8 m c (Proc.devRef .tc main_v89) := rfl

set_option maxHeartbeats 4000000 in
/-- THE KERNEL PROGRAM'S RESULT is the reference's last stage of the launch's arguments. -/
theorem result_eq (c : Dev nD)
    (h0 : ∀ i, IsReal (((m ((c.tc : Thread nD τ).loc main_arg0)) : S2x256x256x256.Idx → EReal) i)) (h1 : ∀ i, IsReal (((m ((c.tc : Thread nD τ).loc main_arg1)) : S2x256x128x128.Idx → EReal) i))
    (h2 : ∀ i, IsReal (((m ((c.tc : Thread nD τ).loc main_arg2)) : S2x256x64x64.Idx → EReal) i)) (h3 : ∀ i, IsReal (((m ((c.tc : Thread nD τ).loc main_arg3)) : S2x256x32x32.Idx → EReal) i))
    (h4 : ∀ i, IsReal (((m ((c.tc : Thread nD τ).loc main_arg4)) : S512x5.Idx → EReal) i)) (h5 : ∀ i, IsReal (((m ((c.tc : Thread nD τ).loc main_arg5)) : S512x128x2.Idx → EReal) i))
    (hB : ∀ n : Fin 512, (Cert.ReferenceIdeal.Read.val_main_v2 (F := Ideal) (m ((c.tc : Thread nD τ).loc main_arg4)) (ValueIdx.ix1 n)).toNat < 2) :
    W9 m c (Proc.devRef .tc main_v90) = Cert.ReferenceIdeal.Read.val_main_v860 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := (W8_out0 m c).trans (level0_eq m c h0 h4 h5 hB)
  have e1 := (W8_out1 m c).trans (level1_eq m c h1 h4 h5 hB)
  have e2 := (W8_out2 m c).trans (level2_eq m c h2 h4 h5 hB)
  have e3 := (W8_out3 m c).trans (level3_eq m c h3 h4 h5 hB)
  unfold W9
  after_results
  show concatenate S512x1024x128 1
      [⟨S512x256x128, W8 m c (Proc.devRef .tc main_v32)⟩, ⟨S512x256x128, W8 m c (Proc.devRef .tc main_v51)⟩,
        ⟨S512x256x128, W8 m c (Proc.devRef .tc main_v70)⟩, ⟨S512x256x128, W8 m c (Proc.devRef .tc main_v89)⟩]
      concatenates_S512x256x128_S512x256x128_S512x256x128_S512x256x128_S512x1024x128_d1 = _
  rw [e0, e1, e2, e3]
  rfl

end Cert.KernelIdeal.Hand

end
-- ==== Proof.PreFacts.lean ====
/-
  The precondition, read back. The printed predicate is the conjunction of six `jnp.all(|x| < +inf)`, one per float
  input, and of `jnp.all(0 <= b & b < 2)` over the batch indices `b` of the regions of interest (the first column of
  `rois` converted to i32). It being all ones says: every entry of every input is a real number (an extended real whose
  absolute value is below +∞ is neither infinity), and every batch index, as a 32-bit word, is 0 or 1 (a word that is
  signed-nonnegative and signed-below 2 has a number below 2).
-/
import proofs.«110520_j35545149342110_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost
import Idealize.ShloMosaic.Lib.ValueLayout

set_option maxRecDepth 16384

noncomputable section

namespace Cert.PreFacts

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- An extended real whose absolute value is below +∞ is a real. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exfalso; revert h; simp [Ideal.cmpf_def, Ideal.cmp, Ideal.absf_def]
  | top => exfalso; revert h; simp [Ideal.cmpf_def, Ideal.cmp, Ideal.absf_def]
  | coe r => exact ⟨r, rfl⟩

/-- What the precondition says of the six inputs. -/
theorem decode (a0 : FVec Ideal S2x256x256x256 .f32) (a1 : FVec Ideal S2x256x128x128 .f32) (a2 : FVec Ideal S2x256x64x64 .f32) (a3 : FVec Ideal S2x256x32x32 .f32)
    (a4 : FVec Ideal S512x5 .f32) (a5 : FVec Ideal S512x128x2 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ n : Fin 512, ((fptosi 32 (shapeCast S512 (extractStridedSlice S512x1 ![0, 0] a4 slices_S512x5_S512x1_0_0) shapeCasts_S512x1_S512) : IVec S512 32) (ix1 n)).toNat < 2) := by
  have h0 := congrFun h ix0
  unfold fn fn_part1 fn_part2 at h0
  simp only [andi, IntOp.andi_eq_one] at h0
  obtain ⟨⟨⟨⟨⟨⟨h_0, h_1⟩, h_2⟩, h_3⟩, h_4⟩, h_5⟩, h_b⟩ := h0
  have r0 : ∀ i : S2x256x256x256.Idx, ∃ r : ℝ, a0 i = (r : EReal) := fun i => by
    have e := Host.reduce_andi_all _ _ _ _ _ h_0 i
    exact real_of_abs_lt (a0 i) e
  have r1 : ∀ i : S2x256x128x128.Idx, ∃ r : ℝ, a1 i = (r : EReal) := fun i => by
    have e := Host.reduce_andi_all _ _ _ _ _ h_1 i
    exact real_of_abs_lt (a1 i) e
  have r2 : ∀ i : S2x256x64x64.Idx, ∃ r : ℝ, a2 i = (r : EReal) := fun i => by
    have e := Host.reduce_andi_all _ _ _ _ _ h_2 i
    exact real_of_abs_lt (a2 i) e
  have r3 : ∀ i : S2x256x32x32.Idx, ∃ r : ℝ, a3 i = (r : EReal) := fun i => by
    have e := Host.reduce_andi_all _ _ _ _ _ h_3 i
    exact real_of_abs_lt (a3 i) e
  have r4 : ∀ i : S512x5.Idx, ∃ r : ℝ, a4 i = (r : EReal) := fun i => by
    have e := Host.reduce_andi_all _ _ _ _ _ h_4 i
    exact real_of_abs_lt (a4 i) e
  have r5 : ∀ i : S512x128x2.Idx, ∃ r : ℝ, a5 i = (r : EReal) := fun i => by
    have e := Host.reduce_andi_all _ _ _ _ _ h_5 i
    exact real_of_abs_lt (a5 i) e
  refine ⟨r0, r1, r2, r3, r4, r5, fun n => ?_⟩
  have e := Host.reduce_andi_all _ _ _ _ _ h_b (ix1 n)
  simp only [andi, IntOp.andi_eq_one, cmpi, broadcastInDim_scalar_apply, constantI_apply] at e
  obtain ⟨e1, e2⟩ := e
  have hz : (broadcastInDim S512 ![] bcast_S_S512 (constantI S_ 32 0#32) : IVec S512 32) (ix1 n) = 0#32 :=
    broadcastInDim_scalar_apply bcast_S_S512 _ _
  have ht : (broadcastInDim S512 ![] bcast_S_S512 (constantI S_ 32 2#32) : IVec S512 32) (ix1 n) = 2#32 :=
    broadcastInDim_scalar_apply bcast_S_S512 _ _
  rw [hz] at e1
  rw [ht] at e2
  generalize (fptosi 32 (shapeCast S512 (extractStridedSlice S512x1 ![0, 0] a4 slices_S512x5_S512x1_0_0) shapeCasts_S512x1_S512) : IVec S512 32) (ix1 n) = b at e1 e2 ⊢
  unfold IntOp.cmpi at e1 e2
  dsimp only at e1 e2
  have h1 : (0#32 : BitVec 32).sle b = true := by
    by_contra hc
    rw [Bool.not_eq_true] at hc
    rw [hc] at e1
    exact absurd e1 (by decide)
  have h2 : b.slt (2#32) = true := by
    by_contra hc
    rw [Bool.not_eq_true] at hc
    rw [hc] at e2
    exact absurd e2 (by decide)
  rw [BitVec.sle_iff_toInt_le] at h1
  rw [BitVec.slt_iff_toInt_lt] at h2
  have hc := BitVec.toInt_eq_toNat_cond b
  have hb := b.isLt
  have z0 : (0#32 : BitVec 32).toInt = 0 := by decide
  have z2 : (2#32 : BitVec 32).toInt = 2 := by decide
  rw [z0] at h1
  rw [z2] at h2
  split_ifs at hc <;> omega

end Cert.PreFacts

end
-- ==== Proof.LibSsaRun.lean ====
/-
  A straight line of host operations in which every reference is written once, and read only afterwards.

  When the operation at position `j` of a line writes the reference of index `base + j`, and each operation reads only
  references of smaller index, the valuation at the END of the line satisfies every operation's own equation: the
  contents of its result are its function of the FINAL contents of its operands. Nothing is evaluated: the line is cut
  at the operation (`after` of a concatenation is the composition), the operations after it write neither its result nor
  its operands (their results have larger indices), and the ones before it have already left its operands as they will
  stay. A reference whose index is below `base` (an argument) is never written and keeps its launch contents.
  `Later ops base j` is the fact about the line's tail this rests on, proved one position at a time from the end.
-/
import Idealize.ShloMosaic.Lib.StableHlo.Run

namespace Cert.LibSsaRun

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- From position `j` on, every operation of the line determines its results and writes only references of index at
    least `base + j`. -/
def Later (ops : List (HloOp τ sig Val)) (base j : ℕ) : Prop :=
  ∀ op ∈ ops.drop j, op.fresh = ∅ ∧ ∀ r : Ref sig .tc, Proc.devRef (τ := τ) .tc r ∈ op.writes → base + j ≤ r.idx.val

namespace Later

variable {ops : List (HloOp τ sig Val)} {base : ℕ}

/-- Past the end of the line there is nothing to say. -/
theorem nil {j : ℕ} (h : ops.length ≤ j) : Later ops base j := by
  intro op hop
  rw [List.drop_eq_nil_of_le h] at hop
  exact absurd hop List.not_mem_nil

/-- One position earlier: the operation at `j` determines its result and writes the reference of index `base + j`. -/
theorem step (j : ℕ) (hk : j < ops.length) (y : Ref sig .tc) (hw : (ops[j]'hk).writes = {Proc.devRef (τ := τ) .tc y})
    (hf : (ops[j]'hk).fresh = ∅) (hy : y.idx.val = base + j) (h : Later ops base (j + 1)) : Later ops base j := by
  intro op hop
  rw [List.drop_eq_getElem_cons hk] at hop
  rcases List.mem_cons.mp hop with rfl | hop'
  · refine ⟨hf, fun r hr => ?_⟩
    rw [hw, Finset.mem_singleton] at hr
    have hry : r = y := Proc.devRef_injective _ hr
    subst hry; omega
  · obtain ⟨h1, h2⟩ := h op hop'
    exact ⟨h1, fun r hr => by have := h2 r hr; omega⟩

/-- No operation of the line leaves a result undetermined. -/
theorem fresh_eq (L : Later ops base 0) : ∀ op ∈ ops, op.fresh = ∅ := fun op hop =>
  (L op (by rwa [List.drop_zero])).1

/-- The operations from position `j` on leave a reference of index below `base + j` as it is. -/
theorem frame {j : ℕ} (L : Later ops base j) (V : Valuation τ sig Val) (r : Ref sig .tc) (hr : r.idx.val < base + j) :
    after (ops.drop j) V (Proc.devRef .tc r) = V (Proc.devRef .tc r) :=
  after_of_forall_not_mem _ V fun op hop hmem => absurd ((L op hop).2 r hmem) (Nat.not_le.mpr hr)

/-- A reference of index below `base` (an argument) keeps its contents. -/
theorem arg (L : Later ops base 0) (V : Valuation τ sig Val) (r : Ref sig .tc) (hr : r.idx.val < base) :
    after ops V (Proc.devRef .tc r) = V (Proc.devRef .tc r) := by
  have h := L.frame V r (by omega)
  rwa [List.drop_zero] at h

/-- A reference of index below `base + k` is, at the end, as the first `k` operations leave it. -/
theorem pre {k : ℕ} (L : Later ops base k) (V : Valuation τ sig Val) (r : Ref sig .tc) (hr : r.idx.val < base + k) :
    after ops V (Proc.devRef .tc r) = after (ops.take k) V (Proc.devRef .tc r) := by
  conv_lhs => rw [← List.take_append_drop k ops, after_append]
  exact L.frame _ r hr

/-- The result of the operation at position `k` is, at the end, as that operation leaves it. -/
theorem at_ {k : ℕ} (L' : Later ops base (k + 1)) (hk : k < ops.length) (V : Valuation τ sig Val) (y : Ref sig .tc)
    (hy : y.idx.val < base + (k + 1)) :
    after ops V (Proc.devRef .tc y) = (ops[k]'hk).result (after (ops.take k) V) (Proc.devRef .tc y) := by
  conv_lhs => rw [← List.take_append_drop k ops, after_append, List.drop_eq_getElem_cons hk, after_cons]
  exact L'.frame _ y hy

end Later

/-! ### Each builder's equation at the end of the line

The references and the function are given and compared with the operation at position `k` (`hop`, by `rfl` on a literal
line); the builders' side conditions are proofs, found by the builders' own default. -/

section Builders

variable {ops : List (HloOp τ sig Val)} {base k : ℕ} (L : Later ops base k) (L' : Later ops base (k + 1)) (hk : k < ops.length)
  (V : Valuation τ sig Val)
include L L'

theorem nullary_eq (y : Ref sig .tc) (v : y.ty.Contents Val)
    (hy : y.space ≠ .host ∧ (Proc.devRef (τ := τ) .tc y).isScoped = false := by exact ⟨by decide, rfl⟩)
    (hop : ops[k]'hk = nullary y v hy) (hyi : y.idx.val < base + (k + 1)) :
    after ops V (Proc.devRef .tc y) = v := by
  rw [L'.at_ hk V y hyi, hop]
  exact nullary_result y v hy _

theorem unary_eq (x y : Ref sig .tc) (f : x.ty.Contents Val → y.ty.Contents Val)
    (hx : x.space ≠ .host ∧ (Proc.devRef (τ := τ) .tc x).isScoped = false := by exact ⟨by decide, rfl⟩) (hy : y.space ≠ .host ∧ (Proc.devRef (τ := τ) .tc y).isScoped = false := by exact ⟨by decide, rfl⟩)
    (hop : ops[k]'hk = unary x y f hx hy)
    (hyi : y.idx.val < base + (k + 1)) (hxi : x.idx.val < base + k) :
    after ops V (Proc.devRef .tc y) = f (after ops V (Proc.devRef .tc x)) := by
  rw [L'.at_ hk V y hyi, hop, L.pre V x hxi]
  exact unary_result x y f hx hy _

theorem binary_eq (a b y : Ref sig .tc) (f : a.ty.Contents Val → b.ty.Contents Val → y.ty.Contents Val)
    (ha : a.space ≠ .host ∧ (Proc.devRef (τ := τ) .tc a).isScoped = false := by exact ⟨by decide, rfl⟩) (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hop : ops[k]'hk = binary a b y f ha hb hy)
    (hyi : y.idx.val < base + (k + 1)) (hai : a.idx.val < base + k) (hbi : b.idx.val < base + k) :
    after ops V (Proc.devRef .tc y) = f (after ops V (Proc.devRef .tc a)) (after ops V (Proc.devRef .tc b)) := by
  rw [L'.at_ hk V y hyi, hop, L.pre V a hai, L.pre V b hbi]
  exact binary_result a b y f ha hb hy _

theorem ternary_eq (c a b y : Ref sig .tc)
    (f : c.ty.Contents Val → a.ty.Contents Val → b.ty.Contents Val → y.ty.Contents Val)
    (hc : c.space ≠ .host ∧ (Proc.devRef (τ := τ) .tc c).isScoped = false := by exact ⟨by decide, rfl⟩) (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩) (hy : y.space ≠ .host ∧ (Proc.devRef (τ := τ) .tc y).isScoped = false := by exact ⟨by decide, rfl⟩)
    (hop : ops[k]'hk = ternary c a b y f hc ha hb hy)
    (hyi : y.idx.val < base + (k + 1)) (hci : c.idx.val < base + k) (hai : a.idx.val < base + k) (hbi : b.idx.val < base + k) :
    after ops V (Proc.devRef .tc y)
      = f (after ops V (Proc.devRef .tc c)) (after ops V (Proc.devRef .tc a)) (after ops V (Proc.devRef .tc b)) := by
  rw [L'.at_ hk V y hyi, hop, L.pre V c hci, L.pre V a hai, L.pre V b hbi]
  exact ternary_result c a b y f hc ha hb hy _

theorem reshape_eq (x y : Ref sig .tc) (he : x.ty.elt = y.ty.elt) (hn : x.ty.shape.ShapeCasts y.ty.shape)
    (hx : x.space ≠ .host ∧ (Proc.devRef (τ := τ) .tc x).isScoped = false := by exact ⟨by decide, rfl⟩) (hy : y.space ≠ .host ∧ (Proc.devRef (τ := τ) .tc y).isScoped = false := by exact ⟨by decide, rfl⟩)
    (hop : ops[k]'hk = reshape x y he hn hx hy)
    (hyi : y.idx.val < base + (k + 1)) (hxi : x.idx.val < base + k) :
    after ops V (Proc.devRef .tc y) = fun i => he ▸ shapeCast y.ty.shape (after ops V (Proc.devRef .tc x)) hn i := by
  rw [L'.at_ hk V y hyi, hop, L.pre V x hxi]
  exact reshape_result x y he hn hx hy _

theorem nary_eq {n : ℕ} (xs : Fin n → Ref sig .tc) (y : Ref sig .tc)
    (f : ((i : Fin n) → (xs i).ty.Contents Val) → y.ty.Contents Val)
    (hxs : ∀ i, (xs i).space ≠ .host ∧ (Proc.devRef (τ := τ) .tc (xs i)).isScoped = false := by decide)
    (hy : y.space ≠ .host ∧ (Proc.devRef (τ := τ) .tc y).isScoped = false := by exact ⟨by decide, rfl⟩)
    (hop : ops[k]'hk = nary xs y f hxs hy)
    (hyi : y.idx.val < base + (k + 1)) (hxi : ∀ i, (xs i).idx.val < base + k) :
    after ops V (Proc.devRef .tc y) = f (fun i => after ops V (Proc.devRef .tc (xs i))) := by
  rw [L'.at_ hk V y hyi, hop]
  refine (nary_result xs y f hxs hy _).trans (congrArg f (funext fun i => ?_))
  exact (L.pre V (xs i) (hxi i)).symm

/-! ### The same for an operation of an inlined function, stated over typed references -/

theorem tunary_eq {Tx Ty : BufTy} (x : TRef sig Tx) (y : TRef sig Ty)
    (f : Tx.Contents Val → Ty.Contents Val) (hop : ops[k]'hk = TRef.unary x y f)
    (hyi : y.ref.idx.val < base + (k + 1)) (hxi : x.ref.idx.val < base + k) :
    after ops V (Proc.devRef .tc y.ref) = y.toBuf (f (x.ofBuf (after ops V (Proc.devRef .tc x.ref)))) :=
  unary_eq L L' hk V x.ref y.ref (fun u => y.toBuf (f (x.ofBuf u))) x.dev y.dev hop hyi hxi

theorem tbinary_eq {Ta Tb Ty : BufTy} (a : TRef sig Ta) (b : TRef sig Tb)
    (y : TRef sig Ty) (f : Ta.Contents Val → Tb.Contents Val → Ty.Contents Val) (hop : ops[k]'hk = TRef.binary a b y f)
    (hyi : y.ref.idx.val < base + (k + 1)) (hai : a.ref.idx.val < base + k) (hbi : b.ref.idx.val < base + k) :
    after ops V (Proc.devRef .tc y.ref)
      = y.toBuf (f (a.ofBuf (after ops V (Proc.devRef .tc a.ref))) (b.ofBuf (after ops V (Proc.devRef .tc b.ref)))) :=
  binary_eq L L' hk V a.ref b.ref y.ref (fun u v => y.toBuf (f (a.ofBuf u) (b.ofBuf v))) a.dev b.dev y.dev hop hyi hai hbi

end Builders

end Cert.LibSsaRun
-- ==== Proof.RefRunH.lean ====
/-
  The reference program's run, read back stage by stage.

  The program is a straight line of 1293 host operations, the one at position `j` writing the reference of index `6 + j`
  (the six arguments come first) and reading only references of smaller index. At the end of the line every operation's
  equation therefore holds of the final contents (`LibSsaRun`), and each stage's final contents are the stage's value as
  a function of the arguments (`val_main_…`), by the stage's equation, the same fact for its operands, and the definition
  of the value. The last stage is the program's result; the arguments are never written. (The statement over the
  program's executions is in the next module.)
-/
import proofs.«110520_j35545149342110_1_alg».proof.Proof.RefOpsA
import proofs.«110520_j35545149342110_1_alg».proof.Proof.RefReadP
import proofs.«110520_j35545149342110_1_alg».proof.Proof.LibSsaRun

noncomputable section

namespace Cert.ReferenceIdeal.RunH

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibSsaRun

variable {F : FTy → Type} [FloatOps F]

set_option maxRecDepth 1000000
set_option maxHeartbeats 4000000

theorem ops_len : (ops (F := F)).length = 1293 := rfl

/-- Three equal arguments give equal values. -/
theorem congr3 {α β γ δ : Type} (f : α → β → γ → δ) {a a' : α} {b b' : β} {c c' : γ} (ha : a = a') (hb : b = b') (hc : c = c') :
    f a b c = f a' b' c' := by subst ha hb hc; rfl

/-! ## The line's tails, from the end: the operation at `j` writes the reference of index `6 + j` -/

theorem later_1293 : Later (τ := τ) (ops (F := F)) 6 1293 := Later.nil (Nat.le_of_eq ops_len)
theorem later_1292 : Later (τ := τ) (ops (F := F)) 6 1292 := Later.step 1292 (Nat.lt_of_lt_of_eq (by decide : 1292 < 1293) ops_len.symm) main_v860 rfl rfl (by decide) later_1293
theorem later_1291 : Later (τ := τ) (ops (F := F)) 6 1291 := Later.step 1291 (Nat.lt_of_lt_of_eq (by decide : 1291 < 1293) ops_len.symm) main_v859 rfl rfl (by decide) later_1292
theorem later_1290 : Later (τ := τ) (ops (F := F)) 6 1290 := Later.step 1290 (Nat.lt_of_lt_of_eq (by decide : 1290 < 1293) ops_len.symm) main_v858 rfl rfl (by decide) later_1291
theorem later_1289 : Later (τ := τ) (ops (F := F)) 6 1289 := Later.step 1289 (Nat.lt_of_lt_of_eq (by decide : 1289 < 1293) ops_len.symm) main_v857 rfl rfl (by decide) later_1290
theorem later_1288 : Later (τ := τ) (ops (F := F)) 6 1288 := Later.step 1288 (Nat.lt_of_lt_of_eq (by decide : 1288 < 1293) ops_len.symm) main_v856 rfl rfl (by decide) later_1289
theorem later_1287 : Later (τ := τ) (ops (F := F)) 6 1287 := Later.step 1287 (Nat.lt_of_lt_of_eq (by decide : 1287 < 1293) ops_len.symm) main_v855 rfl rfl (by decide) later_1288
theorem later_1286 : Later (τ := τ) (ops (F := F)) 6 1286 := Later.step 1286 (Nat.lt_of_lt_of_eq (by decide : 1286 < 1293) ops_len.symm) main_v854 rfl rfl (by decide) later_1287
theorem later_1285 : Later (τ := τ) (ops (F := F)) 6 1285 := Later.step 1285 (Nat.lt_of_lt_of_eq (by decide : 1285 < 1293) ops_len.symm) main_v853 rfl rfl (by decide) later_1286
theorem later_1284 : Later (τ := τ) (ops (F := F)) 6 1284 := Later.step 1284 (Nat.lt_of_lt_of_eq (by decide : 1284 < 1293) ops_len.symm) main_v852 rfl rfl (by decide) later_1285
theorem later_1283 : Later (τ := τ) (ops (F := F)) 6 1283 := Later.step 1283 (Nat.lt_of_lt_of_eq (by decide : 1283 < 1293) ops_len.symm) main_v851 rfl rfl (by decide) later_1284
theorem later_1282 : Later (τ := τ) (ops (F := F)) 6 1282 := Later.step 1282 (Nat.lt_of_lt_of_eq (by decide : 1282 < 1293) ops_len.symm) main_v850 rfl rfl (by decide) later_1283
theorem later_1281 : Later (τ := τ) (ops (F := F)) 6 1281 := Later.step 1281 (Nat.lt_of_lt_of_eq (by decide : 1281 < 1293) ops_len.symm) main_v849 rfl rfl (by decide) later_1282
theorem later_1280 : Later (τ := τ) (ops (F := F)) 6 1280 := Later.step 1280 (Nat.lt_of_lt_of_eq (by decide : 1280 < 1293) ops_len.symm) main_v848 rfl rfl (by decide) later_1281
theorem later_1279 : Later (τ := τ) (ops (F := F)) 6 1279 := Later.step 1279 (Nat.lt_of_lt_of_eq (by decide : 1279 < 1293) ops_len.symm) main_v847 rfl rfl (by decide) later_1280
theorem later_1278 : Later (τ := τ) (ops (F := F)) 6 1278 := Later.step 1278 (Nat.lt_of_lt_of_eq (by decide : 1278 < 1293) ops_len.symm) main_cst_269 rfl rfl (by decide) later_1279
theorem later_1277 : Later (τ := τ) (ops (F := F)) 6 1277 := Later.step 1277 (Nat.lt_of_lt_of_eq (by decide : 1277 < 1293) ops_len.symm) main_v846 rfl rfl (by decide) later_1278
theorem later_1276 : Later (τ := τ) (ops (F := F)) 6 1276 := Later.step 1276 (Nat.lt_of_lt_of_eq (by decide : 1276 < 1293) ops_len.symm) main_v845 rfl rfl (by decide) later_1277
theorem later_1275 : Later (τ := τ) (ops (F := F)) 6 1275 := Later.step 1275 (Nat.lt_of_lt_of_eq (by decide : 1275 < 1293) ops_len.symm) main_v844 rfl rfl (by decide) later_1276
theorem later_1274 : Later (τ := τ) (ops (F := F)) 6 1274 := Later.step 1274 (Nat.lt_of_lt_of_eq (by decide : 1274 < 1293) ops_len.symm) main_v843 rfl rfl (by decide) later_1275
theorem later_1273 : Later (τ := τ) (ops (F := F)) 6 1273 := Later.step 1273 (Nat.lt_of_lt_of_eq (by decide : 1273 < 1293) ops_len.symm) main_v842 rfl rfl (by decide) later_1274
theorem later_1272 : Later (τ := τ) (ops (F := F)) 6 1272 := Later.step 1272 (Nat.lt_of_lt_of_eq (by decide : 1272 < 1293) ops_len.symm) main_cst_268 rfl rfl (by decide) later_1273
theorem later_1271 : Later (τ := τ) (ops (F := F)) 6 1271 := Later.step 1271 (Nat.lt_of_lt_of_eq (by decide : 1271 < 1293) ops_len.symm) main_v841 rfl rfl (by decide) later_1272
theorem later_1270 : Later (τ := τ) (ops (F := F)) 6 1270 := Later.step 1270 (Nat.lt_of_lt_of_eq (by decide : 1270 < 1293) ops_len.symm) main_v840 rfl rfl (by decide) later_1271
theorem later_1269 : Later (τ := τ) (ops (F := F)) 6 1269 := Later.step 1269 (Nat.lt_of_lt_of_eq (by decide : 1269 < 1293) ops_len.symm) main_v839 rfl rfl (by decide) later_1270
theorem later_1268 : Later (τ := τ) (ops (F := F)) 6 1268 := Later.step 1268 (Nat.lt_of_lt_of_eq (by decide : 1268 < 1293) ops_len.symm) main_v838 rfl rfl (by decide) later_1269
theorem later_1267 : Later (τ := τ) (ops (F := F)) 6 1267 := Later.step 1267 (Nat.lt_of_lt_of_eq (by decide : 1267 < 1293) ops_len.symm) main_v837 rfl rfl (by decide) later_1268
theorem later_1266 : Later (τ := τ) (ops (F := F)) 6 1266 := Later.step 1266 (Nat.lt_of_lt_of_eq (by decide : 1266 < 1293) ops_len.symm) main_v836 rfl rfl (by decide) later_1267
theorem later_1265 : Later (τ := τ) (ops (F := F)) 6 1265 := Later.step 1265 (Nat.lt_of_lt_of_eq (by decide : 1265 < 1293) ops_len.symm) main_cst_267 rfl rfl (by decide) later_1266
theorem later_1264 : Later (τ := τ) (ops (F := F)) 6 1264 := Later.step 1264 (Nat.lt_of_lt_of_eq (by decide : 1264 < 1293) ops_len.symm) main_v835 rfl rfl (by decide) later_1265
theorem later_1263 : Later (τ := τ) (ops (F := F)) 6 1263 := Later.step 1263 (Nat.lt_of_lt_of_eq (by decide : 1263 < 1293) ops_len.symm) main_v834 rfl rfl (by decide) later_1264
theorem later_1262 : Later (τ := τ) (ops (F := F)) 6 1262 := Later.step 1262 (Nat.lt_of_lt_of_eq (by decide : 1262 < 1293) ops_len.symm) main_v833 rfl rfl (by decide) later_1263
theorem later_1261 : Later (τ := τ) (ops (F := F)) 6 1261 := Later.step 1261 (Nat.lt_of_lt_of_eq (by decide : 1261 < 1293) ops_len.symm) main_v832 rfl rfl (by decide) later_1262
theorem later_1260 : Later (τ := τ) (ops (F := F)) 6 1260 := Later.step 1260 (Nat.lt_of_lt_of_eq (by decide : 1260 < 1293) ops_len.symm) main_cst_266 rfl rfl (by decide) later_1261
theorem later_1259 : Later (τ := τ) (ops (F := F)) 6 1259 := Later.step 1259 (Nat.lt_of_lt_of_eq (by decide : 1259 < 1293) ops_len.symm) main_v831 rfl rfl (by decide) later_1260
theorem later_1258 : Later (τ := τ) (ops (F := F)) 6 1258 := Later.step 1258 (Nat.lt_of_lt_of_eq (by decide : 1258 < 1293) ops_len.symm) main_v830 rfl rfl (by decide) later_1259
theorem later_1257 : Later (τ := τ) (ops (F := F)) 6 1257 := Later.step 1257 (Nat.lt_of_lt_of_eq (by decide : 1257 < 1293) ops_len.symm) main_v829 rfl rfl (by decide) later_1258
theorem later_1256 : Later (τ := τ) (ops (F := F)) 6 1256 := Later.step 1256 (Nat.lt_of_lt_of_eq (by decide : 1256 < 1293) ops_len.symm) main_v828 rfl rfl (by decide) later_1257
theorem later_1255 : Later (τ := τ) (ops (F := F)) 6 1255 := Later.step 1255 (Nat.lt_of_lt_of_eq (by decide : 1255 < 1293) ops_len.symm) main_v827 rfl rfl (by decide) later_1256
theorem later_1254 : Later (τ := τ) (ops (F := F)) 6 1254 := Later.step 1254 (Nat.lt_of_lt_of_eq (by decide : 1254 < 1293) ops_len.symm) main_v826 rfl rfl (by decide) later_1255
theorem later_1253 : Later (τ := τ) (ops (F := F)) 6 1253 := Later.step 1253 (Nat.lt_of_lt_of_eq (by decide : 1253 < 1293) ops_len.symm) main_v825 rfl rfl (by decide) later_1254
theorem later_1252 : Later (τ := τ) (ops (F := F)) 6 1252 := Later.step 1252 (Nat.lt_of_lt_of_eq (by decide : 1252 < 1293) ops_len.symm) main_v824 rfl rfl (by decide) later_1253
theorem later_1251 : Later (τ := τ) (ops (F := F)) 6 1251 := Later.step 1251 (Nat.lt_of_lt_of_eq (by decide : 1251 < 1293) ops_len.symm) main_v823 rfl rfl (by decide) later_1252
theorem later_1250 : Later (τ := τ) (ops (F := F)) 6 1250 := Later.step 1250 (Nat.lt_of_lt_of_eq (by decide : 1250 < 1293) ops_len.symm) main_v822 rfl rfl (by decide) later_1251
theorem later_1249 : Later (τ := τ) (ops (F := F)) 6 1249 := Later.step 1249 (Nat.lt_of_lt_of_eq (by decide : 1249 < 1293) ops_len.symm) main_v821 rfl rfl (by decide) later_1250
theorem later_1248 : Later (τ := τ) (ops (F := F)) 6 1248 := Later.step 1248 (Nat.lt_of_lt_of_eq (by decide : 1248 < 1293) ops_len.symm) main_v820 rfl rfl (by decide) later_1249
theorem later_1247 : Later (τ := τ) (ops (F := F)) 6 1247 := Later.step 1247 (Nat.lt_of_lt_of_eq (by decide : 1247 < 1293) ops_len.symm) main_v819 rfl rfl (by decide) later_1248
theorem later_1246 : Later (τ := τ) (ops (F := F)) 6 1246 := Later.step 1246 (Nat.lt_of_lt_of_eq (by decide : 1246 < 1293) ops_len.symm) main_v818 rfl rfl (by decide) later_1247
theorem later_1245 : Later (τ := τ) (ops (F := F)) 6 1245 := Later.step 1245 (Nat.lt_of_lt_of_eq (by decide : 1245 < 1293) ops_len.symm) main_v817 rfl rfl (by decide) later_1246
theorem later_1244 : Later (τ := τ) (ops (F := F)) 6 1244 := Later.step 1244 (Nat.lt_of_lt_of_eq (by decide : 1244 < 1293) ops_len.symm) main_c_265 rfl rfl (by decide) later_1245
theorem later_1243 : Later (τ := τ) (ops (F := F)) 6 1243 := Later.step 1243 (Nat.lt_of_lt_of_eq (by decide : 1243 < 1293) ops_len.symm) main_v816 rfl rfl (by decide) later_1244
theorem later_1242 : Later (τ := τ) (ops (F := F)) 6 1242 := Later.step 1242 (Nat.lt_of_lt_of_eq (by decide : 1242 < 1293) ops_len.symm) main_v815 rfl rfl (by decide) later_1243
theorem later_1241 : Later (τ := τ) (ops (F := F)) 6 1241 := Later.step 1241 (Nat.lt_of_lt_of_eq (by decide : 1241 < 1293) ops_len.symm) main_c_264 rfl rfl (by decide) later_1242
theorem later_1240 : Later (τ := τ) (ops (F := F)) 6 1240 := Later.step 1240 (Nat.lt_of_lt_of_eq (by decide : 1240 < 1293) ops_len.symm) main_v814 rfl rfl (by decide) later_1241
theorem later_1239 : Later (τ := τ) (ops (F := F)) 6 1239 := Later.step 1239 (Nat.lt_of_lt_of_eq (by decide : 1239 < 1293) ops_len.symm) main_v813 rfl rfl (by decide) later_1240
theorem later_1238 : Later (τ := τ) (ops (F := F)) 6 1238 := Later.step 1238 (Nat.lt_of_lt_of_eq (by decide : 1238 < 1293) ops_len.symm) main_v812 rfl rfl (by decide) later_1239
theorem later_1237 : Later (τ := τ) (ops (F := F)) 6 1237 := Later.step 1237 (Nat.lt_of_lt_of_eq (by decide : 1237 < 1293) ops_len.symm) main_c_263 rfl rfl (by decide) later_1238
theorem later_1236 : Later (τ := τ) (ops (F := F)) 6 1236 := Later.step 1236 (Nat.lt_of_lt_of_eq (by decide : 1236 < 1293) ops_len.symm) main_v811 rfl rfl (by decide) later_1237
theorem later_1235 : Later (τ := τ) (ops (F := F)) 6 1235 := Later.step 1235 (Nat.lt_of_lt_of_eq (by decide : 1235 < 1293) ops_len.symm) main_v810 rfl rfl (by decide) later_1236
theorem later_1234 : Later (τ := τ) (ops (F := F)) 6 1234 := Later.step 1234 (Nat.lt_of_lt_of_eq (by decide : 1234 < 1293) ops_len.symm) main_c_262 rfl rfl (by decide) later_1235
theorem later_1233 : Later (τ := τ) (ops (F := F)) 6 1233 := Later.step 1233 (Nat.lt_of_lt_of_eq (by decide : 1233 < 1293) ops_len.symm) main_v809 rfl rfl (by decide) later_1234
theorem later_1232 : Later (τ := τ) (ops (F := F)) 6 1232 := Later.step 1232 (Nat.lt_of_lt_of_eq (by decide : 1232 < 1293) ops_len.symm) main_v808 rfl rfl (by decide) later_1233
theorem later_1231 : Later (τ := τ) (ops (F := F)) 6 1231 := Later.step 1231 (Nat.lt_of_lt_of_eq (by decide : 1231 < 1293) ops_len.symm) main_v807 rfl rfl (by decide) later_1232
theorem later_1230 : Later (τ := τ) (ops (F := F)) 6 1230 := Later.step 1230 (Nat.lt_of_lt_of_eq (by decide : 1230 < 1293) ops_len.symm) main_c_261 rfl rfl (by decide) later_1231
theorem later_1229 : Later (τ := τ) (ops (F := F)) 6 1229 := Later.step 1229 (Nat.lt_of_lt_of_eq (by decide : 1229 < 1293) ops_len.symm) main_v806 rfl rfl (by decide) later_1230
theorem later_1228 : Later (τ := τ) (ops (F := F)) 6 1228 := Later.step 1228 (Nat.lt_of_lt_of_eq (by decide : 1228 < 1293) ops_len.symm) main_v805 rfl rfl (by decide) later_1229
theorem later_1227 : Later (τ := τ) (ops (F := F)) 6 1227 := Later.step 1227 (Nat.lt_of_lt_of_eq (by decide : 1227 < 1293) ops_len.symm) main_c_260 rfl rfl (by decide) later_1228
theorem later_1226 : Later (τ := τ) (ops (F := F)) 6 1226 := Later.step 1226 (Nat.lt_of_lt_of_eq (by decide : 1226 < 1293) ops_len.symm) main_v804 rfl rfl (by decide) later_1227
theorem later_1225 : Later (τ := τ) (ops (F := F)) 6 1225 := Later.step 1225 (Nat.lt_of_lt_of_eq (by decide : 1225 < 1293) ops_len.symm) main_v803 rfl rfl (by decide) later_1226
theorem later_1224 : Later (τ := τ) (ops (F := F)) 6 1224 := Later.step 1224 (Nat.lt_of_lt_of_eq (by decide : 1224 < 1293) ops_len.symm) main_call31_v4 rfl rfl (by decide) later_1225
theorem later_1223 : Later (τ := τ) (ops (F := F)) 6 1223 := Later.step 1223 (Nat.lt_of_lt_of_eq (by decide : 1223 < 1293) ops_len.symm) main_call31_v3 rfl rfl (by decide) later_1224
theorem later_1222 : Later (τ := τ) (ops (F := F)) 6 1222 := Later.step 1222 (Nat.lt_of_lt_of_eq (by decide : 1222 < 1293) ops_len.symm) main_call31_v2 rfl rfl (by decide) later_1223
theorem later_1221 : Later (τ := τ) (ops (F := F)) 6 1221 := Later.step 1221 (Nat.lt_of_lt_of_eq (by decide : 1221 < 1293) ops_len.symm) main_call31_v1 rfl rfl (by decide) later_1222
theorem later_1220 : Later (τ := τ) (ops (F := F)) 6 1220 := Later.step 1220 (Nat.lt_of_lt_of_eq (by decide : 1220 < 1293) ops_len.symm) main_call31_v0 rfl rfl (by decide) later_1221
theorem later_1219 : Later (τ := τ) (ops (F := F)) 6 1219 := Later.step 1219 (Nat.lt_of_lt_of_eq (by decide : 1219 < 1293) ops_len.symm) main_c_259 rfl rfl (by decide) later_1220
theorem later_1218 : Later (τ := τ) (ops (F := F)) 6 1218 := Later.step 1218 (Nat.lt_of_lt_of_eq (by decide : 1218 < 1293) ops_len.symm) main_c_258 rfl rfl (by decide) later_1219
theorem later_1217 : Later (τ := τ) (ops (F := F)) 6 1217 := Later.step 1217 (Nat.lt_of_lt_of_eq (by decide : 1217 < 1293) ops_len.symm) main_v802 rfl rfl (by decide) later_1218
theorem later_1216 : Later (τ := τ) (ops (F := F)) 6 1216 := Later.step 1216 (Nat.lt_of_lt_of_eq (by decide : 1216 < 1293) ops_len.symm) main_call30_v4 rfl rfl (by decide) later_1217
theorem later_1215 : Later (τ := τ) (ops (F := F)) 6 1215 := Later.step 1215 (Nat.lt_of_lt_of_eq (by decide : 1215 < 1293) ops_len.symm) main_call30_v3 rfl rfl (by decide) later_1216
theorem later_1214 : Later (τ := τ) (ops (F := F)) 6 1214 := Later.step 1214 (Nat.lt_of_lt_of_eq (by decide : 1214 < 1293) ops_len.symm) main_call30_v2 rfl rfl (by decide) later_1215
theorem later_1213 : Later (τ := τ) (ops (F := F)) 6 1213 := Later.step 1213 (Nat.lt_of_lt_of_eq (by decide : 1213 < 1293) ops_len.symm) main_call30_v1 rfl rfl (by decide) later_1214
theorem later_1212 : Later (τ := τ) (ops (F := F)) 6 1212 := Later.step 1212 (Nat.lt_of_lt_of_eq (by decide : 1212 < 1293) ops_len.symm) main_call30_v0 rfl rfl (by decide) later_1213
theorem later_1211 : Later (τ := τ) (ops (F := F)) 6 1211 := Later.step 1211 (Nat.lt_of_lt_of_eq (by decide : 1211 < 1293) ops_len.symm) main_c_257 rfl rfl (by decide) later_1212
theorem later_1210 : Later (τ := τ) (ops (F := F)) 6 1210 := Later.step 1210 (Nat.lt_of_lt_of_eq (by decide : 1210 < 1293) ops_len.symm) main_c_256 rfl rfl (by decide) later_1211
theorem later_1209 : Later (τ := τ) (ops (F := F)) 6 1209 := Later.step 1209 (Nat.lt_of_lt_of_eq (by decide : 1209 < 1293) ops_len.symm) main_v801 rfl rfl (by decide) later_1210
theorem later_1208 : Later (τ := τ) (ops (F := F)) 6 1208 := Later.step 1208 (Nat.lt_of_lt_of_eq (by decide : 1208 < 1293) ops_len.symm) main_v800 rfl rfl (by decide) later_1209
theorem later_1207 : Later (τ := τ) (ops (F := F)) 6 1207 := Later.step 1207 (Nat.lt_of_lt_of_eq (by decide : 1207 < 1293) ops_len.symm) main_v799 rfl rfl (by decide) later_1208
theorem later_1206 : Later (τ := τ) (ops (F := F)) 6 1206 := Later.step 1206 (Nat.lt_of_lt_of_eq (by decide : 1206 < 1293) ops_len.symm) main_c_255 rfl rfl (by decide) later_1207
theorem later_1205 : Later (τ := τ) (ops (F := F)) 6 1205 := Later.step 1205 (Nat.lt_of_lt_of_eq (by decide : 1205 < 1293) ops_len.symm) main_v798 rfl rfl (by decide) later_1206
theorem later_1204 : Later (τ := τ) (ops (F := F)) 6 1204 := Later.step 1204 (Nat.lt_of_lt_of_eq (by decide : 1204 < 1293) ops_len.symm) main_v797 rfl rfl (by decide) later_1205
theorem later_1203 : Later (τ := τ) (ops (F := F)) 6 1203 := Later.step 1203 (Nat.lt_of_lt_of_eq (by decide : 1203 < 1293) ops_len.symm) main_v796 rfl rfl (by decide) later_1204
theorem later_1202 : Later (τ := τ) (ops (F := F)) 6 1202 := Later.step 1202 (Nat.lt_of_lt_of_eq (by decide : 1202 < 1293) ops_len.symm) main_c_254 rfl rfl (by decide) later_1203
theorem later_1201 : Later (τ := τ) (ops (F := F)) 6 1201 := Later.step 1201 (Nat.lt_of_lt_of_eq (by decide : 1201 < 1293) ops_len.symm) main_v795 rfl rfl (by decide) later_1202
theorem later_1200 : Later (τ := τ) (ops (F := F)) 6 1200 := Later.step 1200 (Nat.lt_of_lt_of_eq (by decide : 1200 < 1293) ops_len.symm) main_v794 rfl rfl (by decide) later_1201
theorem later_1199 : Later (τ := τ) (ops (F := F)) 6 1199 := Later.step 1199 (Nat.lt_of_lt_of_eq (by decide : 1199 < 1293) ops_len.symm) main_v793 rfl rfl (by decide) later_1200
theorem later_1198 : Later (τ := τ) (ops (F := F)) 6 1198 := Later.step 1198 (Nat.lt_of_lt_of_eq (by decide : 1198 < 1293) ops_len.symm) main_c_253 rfl rfl (by decide) later_1199
theorem later_1197 : Later (τ := τ) (ops (F := F)) 6 1197 := Later.step 1197 (Nat.lt_of_lt_of_eq (by decide : 1197 < 1293) ops_len.symm) main_v792 rfl rfl (by decide) later_1198
theorem later_1196 : Later (τ := τ) (ops (F := F)) 6 1196 := Later.step 1196 (Nat.lt_of_lt_of_eq (by decide : 1196 < 1293) ops_len.symm) main_v791 rfl rfl (by decide) later_1197
theorem later_1195 : Later (τ := τ) (ops (F := F)) 6 1195 := Later.step 1195 (Nat.lt_of_lt_of_eq (by decide : 1195 < 1293) ops_len.symm) main_c_252 rfl rfl (by decide) later_1196
theorem later_1194 : Later (τ := τ) (ops (F := F)) 6 1194 := Later.step 1194 (Nat.lt_of_lt_of_eq (by decide : 1194 < 1293) ops_len.symm) main_v790 rfl rfl (by decide) later_1195
theorem later_1193 : Later (τ := τ) (ops (F := F)) 6 1193 := Later.step 1193 (Nat.lt_of_lt_of_eq (by decide : 1193 < 1293) ops_len.symm) main_v789 rfl rfl (by decide) later_1194
theorem later_1192 : Later (τ := τ) (ops (F := F)) 6 1192 := Later.step 1192 (Nat.lt_of_lt_of_eq (by decide : 1192 < 1293) ops_len.symm) main_c_251 rfl rfl (by decide) later_1193
theorem later_1191 : Later (τ := τ) (ops (F := F)) 6 1191 := Later.step 1191 (Nat.lt_of_lt_of_eq (by decide : 1191 < 1293) ops_len.symm) main_v788 rfl rfl (by decide) later_1192
theorem later_1190 : Later (τ := τ) (ops (F := F)) 6 1190 := Later.step 1190 (Nat.lt_of_lt_of_eq (by decide : 1190 < 1293) ops_len.symm) main_v787 rfl rfl (by decide) later_1191
theorem later_1189 : Later (τ := τ) (ops (F := F)) 6 1189 := Later.step 1189 (Nat.lt_of_lt_of_eq (by decide : 1189 < 1293) ops_len.symm) main_c_250 rfl rfl (by decide) later_1190
theorem later_1188 : Later (τ := τ) (ops (F := F)) 6 1188 := Later.step 1188 (Nat.lt_of_lt_of_eq (by decide : 1188 < 1293) ops_len.symm) main_v786 rfl rfl (by decide) later_1189
theorem later_1187 : Later (τ := τ) (ops (F := F)) 6 1187 := Later.step 1187 (Nat.lt_of_lt_of_eq (by decide : 1187 < 1293) ops_len.symm) main_v785 rfl rfl (by decide) later_1188
theorem later_1186 : Later (τ := τ) (ops (F := F)) 6 1186 := Later.step 1186 (Nat.lt_of_lt_of_eq (by decide : 1186 < 1293) ops_len.symm) main_v784 rfl rfl (by decide) later_1187
theorem later_1185 : Later (τ := τ) (ops (F := F)) 6 1185 := Later.step 1185 (Nat.lt_of_lt_of_eq (by decide : 1185 < 1293) ops_len.symm) main_v783 rfl rfl (by decide) later_1186
theorem later_1184 : Later (τ := τ) (ops (F := F)) 6 1184 := Later.step 1184 (Nat.lt_of_lt_of_eq (by decide : 1184 < 1293) ops_len.symm) main_v782 rfl rfl (by decide) later_1185
theorem later_1183 : Later (τ := τ) (ops (F := F)) 6 1183 := Later.step 1183 (Nat.lt_of_lt_of_eq (by decide : 1183 < 1293) ops_len.symm) main_v781 rfl rfl (by decide) later_1184
theorem later_1182 : Later (τ := τ) (ops (F := F)) 6 1182 := Later.step 1182 (Nat.lt_of_lt_of_eq (by decide : 1182 < 1293) ops_len.symm) main_v780 rfl rfl (by decide) later_1183
theorem later_1181 : Later (τ := τ) (ops (F := F)) 6 1181 := Later.step 1181 (Nat.lt_of_lt_of_eq (by decide : 1181 < 1293) ops_len.symm) main_v779 rfl rfl (by decide) later_1182
theorem later_1180 : Later (τ := τ) (ops (F := F)) 6 1180 := Later.step 1180 (Nat.lt_of_lt_of_eq (by decide : 1180 < 1293) ops_len.symm) main_v778 rfl rfl (by decide) later_1181
theorem later_1179 : Later (τ := τ) (ops (F := F)) 6 1179 := Later.step 1179 (Nat.lt_of_lt_of_eq (by decide : 1179 < 1293) ops_len.symm) main_v777 rfl rfl (by decide) later_1180
theorem later_1178 : Later (τ := τ) (ops (F := F)) 6 1178 := Later.step 1178 (Nat.lt_of_lt_of_eq (by decide : 1178 < 1293) ops_len.symm) main_v776 rfl rfl (by decide) later_1179
theorem later_1177 : Later (τ := τ) (ops (F := F)) 6 1177 := Later.step 1177 (Nat.lt_of_lt_of_eq (by decide : 1177 < 1293) ops_len.symm) main_v775 rfl rfl (by decide) later_1178
theorem later_1176 : Later (τ := τ) (ops (F := F)) 6 1176 := Later.step 1176 (Nat.lt_of_lt_of_eq (by decide : 1176 < 1293) ops_len.symm) main_v774 rfl rfl (by decide) later_1177
theorem later_1175 : Later (τ := τ) (ops (F := F)) 6 1175 := Later.step 1175 (Nat.lt_of_lt_of_eq (by decide : 1175 < 1293) ops_len.symm) main_c_249 rfl rfl (by decide) later_1176
theorem later_1174 : Later (τ := τ) (ops (F := F)) 6 1174 := Later.step 1174 (Nat.lt_of_lt_of_eq (by decide : 1174 < 1293) ops_len.symm) main_v773 rfl rfl (by decide) later_1175
theorem later_1173 : Later (τ := τ) (ops (F := F)) 6 1173 := Later.step 1173 (Nat.lt_of_lt_of_eq (by decide : 1173 < 1293) ops_len.symm) main_v772 rfl rfl (by decide) later_1174
theorem later_1172 : Later (τ := τ) (ops (F := F)) 6 1172 := Later.step 1172 (Nat.lt_of_lt_of_eq (by decide : 1172 < 1293) ops_len.symm) main_c_248 rfl rfl (by decide) later_1173
theorem later_1171 : Later (τ := τ) (ops (F := F)) 6 1171 := Later.step 1171 (Nat.lt_of_lt_of_eq (by decide : 1171 < 1293) ops_len.symm) main_v771 rfl rfl (by decide) later_1172
theorem later_1170 : Later (τ := τ) (ops (F := F)) 6 1170 := Later.step 1170 (Nat.lt_of_lt_of_eq (by decide : 1170 < 1293) ops_len.symm) main_v770 rfl rfl (by decide) later_1171
theorem later_1169 : Later (τ := τ) (ops (F := F)) 6 1169 := Later.step 1169 (Nat.lt_of_lt_of_eq (by decide : 1169 < 1293) ops_len.symm) main_v769 rfl rfl (by decide) later_1170
theorem later_1168 : Later (τ := τ) (ops (F := F)) 6 1168 := Later.step 1168 (Nat.lt_of_lt_of_eq (by decide : 1168 < 1293) ops_len.symm) main_c_247 rfl rfl (by decide) later_1169
theorem later_1167 : Later (τ := τ) (ops (F := F)) 6 1167 := Later.step 1167 (Nat.lt_of_lt_of_eq (by decide : 1167 < 1293) ops_len.symm) main_v768 rfl rfl (by decide) later_1168
theorem later_1166 : Later (τ := τ) (ops (F := F)) 6 1166 := Later.step 1166 (Nat.lt_of_lt_of_eq (by decide : 1166 < 1293) ops_len.symm) main_v767 rfl rfl (by decide) later_1167
theorem later_1165 : Later (τ := τ) (ops (F := F)) 6 1165 := Later.step 1165 (Nat.lt_of_lt_of_eq (by decide : 1165 < 1293) ops_len.symm) main_c_246 rfl rfl (by decide) later_1166
theorem later_1164 : Later (τ := τ) (ops (F := F)) 6 1164 := Later.step 1164 (Nat.lt_of_lt_of_eq (by decide : 1164 < 1293) ops_len.symm) main_v766 rfl rfl (by decide) later_1165
theorem later_1163 : Later (τ := τ) (ops (F := F)) 6 1163 := Later.step 1163 (Nat.lt_of_lt_of_eq (by decide : 1163 < 1293) ops_len.symm) main_v765 rfl rfl (by decide) later_1164
theorem later_1162 : Later (τ := τ) (ops (F := F)) 6 1162 := Later.step 1162 (Nat.lt_of_lt_of_eq (by decide : 1162 < 1293) ops_len.symm) main_v764 rfl rfl (by decide) later_1163
theorem later_1161 : Later (τ := τ) (ops (F := F)) 6 1161 := Later.step 1161 (Nat.lt_of_lt_of_eq (by decide : 1161 < 1293) ops_len.symm) main_c_245 rfl rfl (by decide) later_1162
theorem later_1160 : Later (τ := τ) (ops (F := F)) 6 1160 := Later.step 1160 (Nat.lt_of_lt_of_eq (by decide : 1160 < 1293) ops_len.symm) main_v763 rfl rfl (by decide) later_1161
theorem later_1159 : Later (τ := τ) (ops (F := F)) 6 1159 := Later.step 1159 (Nat.lt_of_lt_of_eq (by decide : 1159 < 1293) ops_len.symm) main_v762 rfl rfl (by decide) later_1160
theorem later_1158 : Later (τ := τ) (ops (F := F)) 6 1158 := Later.step 1158 (Nat.lt_of_lt_of_eq (by decide : 1158 < 1293) ops_len.symm) main_c_244 rfl rfl (by decide) later_1159
theorem later_1157 : Later (τ := τ) (ops (F := F)) 6 1157 := Later.step 1157 (Nat.lt_of_lt_of_eq (by decide : 1157 < 1293) ops_len.symm) main_v761 rfl rfl (by decide) later_1158
theorem later_1156 : Later (τ := τ) (ops (F := F)) 6 1156 := Later.step 1156 (Nat.lt_of_lt_of_eq (by decide : 1156 < 1293) ops_len.symm) main_v760 rfl rfl (by decide) later_1157
theorem later_1155 : Later (τ := τ) (ops (F := F)) 6 1155 := Later.step 1155 (Nat.lt_of_lt_of_eq (by decide : 1155 < 1293) ops_len.symm) main_call29_v4 rfl rfl (by decide) later_1156
theorem later_1154 : Later (τ := τ) (ops (F := F)) 6 1154 := Later.step 1154 (Nat.lt_of_lt_of_eq (by decide : 1154 < 1293) ops_len.symm) main_call29_v3 rfl rfl (by decide) later_1155
theorem later_1153 : Later (τ := τ) (ops (F := F)) 6 1153 := Later.step 1153 (Nat.lt_of_lt_of_eq (by decide : 1153 < 1293) ops_len.symm) main_call29_v2 rfl rfl (by decide) later_1154
theorem later_1152 : Later (τ := τ) (ops (F := F)) 6 1152 := Later.step 1152 (Nat.lt_of_lt_of_eq (by decide : 1152 < 1293) ops_len.symm) main_call29_v1 rfl rfl (by decide) later_1153
theorem later_1151 : Later (τ := τ) (ops (F := F)) 6 1151 := Later.step 1151 (Nat.lt_of_lt_of_eq (by decide : 1151 < 1293) ops_len.symm) main_call29_v0 rfl rfl (by decide) later_1152
theorem later_1150 : Later (τ := τ) (ops (F := F)) 6 1150 := Later.step 1150 (Nat.lt_of_lt_of_eq (by decide : 1150 < 1293) ops_len.symm) main_c_243 rfl rfl (by decide) later_1151
theorem later_1149 : Later (τ := τ) (ops (F := F)) 6 1149 := Later.step 1149 (Nat.lt_of_lt_of_eq (by decide : 1149 < 1293) ops_len.symm) main_c_242 rfl rfl (by decide) later_1150
theorem later_1148 : Later (τ := τ) (ops (F := F)) 6 1148 := Later.step 1148 (Nat.lt_of_lt_of_eq (by decide : 1148 < 1293) ops_len.symm) main_v759 rfl rfl (by decide) later_1149
theorem later_1147 : Later (τ := τ) (ops (F := F)) 6 1147 := Later.step 1147 (Nat.lt_of_lt_of_eq (by decide : 1147 < 1293) ops_len.symm) main_call28_v4 rfl rfl (by decide) later_1148
theorem later_1146 : Later (τ := τ) (ops (F := F)) 6 1146 := Later.step 1146 (Nat.lt_of_lt_of_eq (by decide : 1146 < 1293) ops_len.symm) main_call28_v3 rfl rfl (by decide) later_1147
theorem later_1145 : Later (τ := τ) (ops (F := F)) 6 1145 := Later.step 1145 (Nat.lt_of_lt_of_eq (by decide : 1145 < 1293) ops_len.symm) main_call28_v2 rfl rfl (by decide) later_1146
theorem later_1144 : Later (τ := τ) (ops (F := F)) 6 1144 := Later.step 1144 (Nat.lt_of_lt_of_eq (by decide : 1144 < 1293) ops_len.symm) main_call28_v1 rfl rfl (by decide) later_1145
theorem later_1143 : Later (τ := τ) (ops (F := F)) 6 1143 := Later.step 1143 (Nat.lt_of_lt_of_eq (by decide : 1143 < 1293) ops_len.symm) main_call28_v0 rfl rfl (by decide) later_1144
theorem later_1142 : Later (τ := τ) (ops (F := F)) 6 1142 := Later.step 1142 (Nat.lt_of_lt_of_eq (by decide : 1142 < 1293) ops_len.symm) main_c_241 rfl rfl (by decide) later_1143
theorem later_1141 : Later (τ := τ) (ops (F := F)) 6 1141 := Later.step 1141 (Nat.lt_of_lt_of_eq (by decide : 1141 < 1293) ops_len.symm) main_c_240 rfl rfl (by decide) later_1142
theorem later_1140 : Later (τ := τ) (ops (F := F)) 6 1140 := Later.step 1140 (Nat.lt_of_lt_of_eq (by decide : 1140 < 1293) ops_len.symm) main_v758 rfl rfl (by decide) later_1141
theorem later_1139 : Later (τ := τ) (ops (F := F)) 6 1139 := Later.step 1139 (Nat.lt_of_lt_of_eq (by decide : 1139 < 1293) ops_len.symm) main_v757 rfl rfl (by decide) later_1140
theorem later_1138 : Later (τ := τ) (ops (F := F)) 6 1138 := Later.step 1138 (Nat.lt_of_lt_of_eq (by decide : 1138 < 1293) ops_len.symm) main_v756 rfl rfl (by decide) later_1139
theorem later_1137 : Later (τ := τ) (ops (F := F)) 6 1137 := Later.step 1137 (Nat.lt_of_lt_of_eq (by decide : 1137 < 1293) ops_len.symm) main_c_239 rfl rfl (by decide) later_1138
theorem later_1136 : Later (τ := τ) (ops (F := F)) 6 1136 := Later.step 1136 (Nat.lt_of_lt_of_eq (by decide : 1136 < 1293) ops_len.symm) main_v755 rfl rfl (by decide) later_1137
theorem later_1135 : Later (τ := τ) (ops (F := F)) 6 1135 := Later.step 1135 (Nat.lt_of_lt_of_eq (by decide : 1135 < 1293) ops_len.symm) main_v754 rfl rfl (by decide) later_1136
theorem later_1134 : Later (τ := τ) (ops (F := F)) 6 1134 := Later.step 1134 (Nat.lt_of_lt_of_eq (by decide : 1134 < 1293) ops_len.symm) main_v753 rfl rfl (by decide) later_1135
theorem later_1133 : Later (τ := τ) (ops (F := F)) 6 1133 := Later.step 1133 (Nat.lt_of_lt_of_eq (by decide : 1133 < 1293) ops_len.symm) main_c_238 rfl rfl (by decide) later_1134
theorem later_1132 : Later (τ := τ) (ops (F := F)) 6 1132 := Later.step 1132 (Nat.lt_of_lt_of_eq (by decide : 1132 < 1293) ops_len.symm) main_v752 rfl rfl (by decide) later_1133
theorem later_1131 : Later (τ := τ) (ops (F := F)) 6 1131 := Later.step 1131 (Nat.lt_of_lt_of_eq (by decide : 1131 < 1293) ops_len.symm) main_v751 rfl rfl (by decide) later_1132
theorem later_1130 : Later (τ := τ) (ops (F := F)) 6 1130 := Later.step 1130 (Nat.lt_of_lt_of_eq (by decide : 1130 < 1293) ops_len.symm) main_v750 rfl rfl (by decide) later_1131
theorem later_1129 : Later (τ := τ) (ops (F := F)) 6 1129 := Later.step 1129 (Nat.lt_of_lt_of_eq (by decide : 1129 < 1293) ops_len.symm) main_c_237 rfl rfl (by decide) later_1130
theorem later_1128 : Later (τ := τ) (ops (F := F)) 6 1128 := Later.step 1128 (Nat.lt_of_lt_of_eq (by decide : 1128 < 1293) ops_len.symm) main_v749 rfl rfl (by decide) later_1129
theorem later_1127 : Later (τ := τ) (ops (F := F)) 6 1127 := Later.step 1127 (Nat.lt_of_lt_of_eq (by decide : 1127 < 1293) ops_len.symm) main_v748 rfl rfl (by decide) later_1128
theorem later_1126 : Later (τ := τ) (ops (F := F)) 6 1126 := Later.step 1126 (Nat.lt_of_lt_of_eq (by decide : 1126 < 1293) ops_len.symm) main_c_236 rfl rfl (by decide) later_1127
theorem later_1125 : Later (τ := τ) (ops (F := F)) 6 1125 := Later.step 1125 (Nat.lt_of_lt_of_eq (by decide : 1125 < 1293) ops_len.symm) main_v747 rfl rfl (by decide) later_1126
theorem later_1124 : Later (τ := τ) (ops (F := F)) 6 1124 := Later.step 1124 (Nat.lt_of_lt_of_eq (by decide : 1124 < 1293) ops_len.symm) main_v746 rfl rfl (by decide) later_1125
theorem later_1123 : Later (τ := τ) (ops (F := F)) 6 1123 := Later.step 1123 (Nat.lt_of_lt_of_eq (by decide : 1123 < 1293) ops_len.symm) main_c_235 rfl rfl (by decide) later_1124
theorem later_1122 : Later (τ := τ) (ops (F := F)) 6 1122 := Later.step 1122 (Nat.lt_of_lt_of_eq (by decide : 1122 < 1293) ops_len.symm) main_v745 rfl rfl (by decide) later_1123
theorem later_1121 : Later (τ := τ) (ops (F := F)) 6 1121 := Later.step 1121 (Nat.lt_of_lt_of_eq (by decide : 1121 < 1293) ops_len.symm) main_v744 rfl rfl (by decide) later_1122
theorem later_1120 : Later (τ := τ) (ops (F := F)) 6 1120 := Later.step 1120 (Nat.lt_of_lt_of_eq (by decide : 1120 < 1293) ops_len.symm) main_v743 rfl rfl (by decide) later_1121
theorem later_1119 : Later (τ := τ) (ops (F := F)) 6 1119 := Later.step 1119 (Nat.lt_of_lt_of_eq (by decide : 1119 < 1293) ops_len.symm) main_v742 rfl rfl (by decide) later_1120
theorem later_1118 : Later (τ := τ) (ops (F := F)) 6 1118 := Later.step 1118 (Nat.lt_of_lt_of_eq (by decide : 1118 < 1293) ops_len.symm) main_v741 rfl rfl (by decide) later_1119
theorem later_1117 : Later (τ := τ) (ops (F := F)) 6 1117 := Later.step 1117 (Nat.lt_of_lt_of_eq (by decide : 1117 < 1293) ops_len.symm) main_v740 rfl rfl (by decide) later_1118
theorem later_1116 : Later (τ := τ) (ops (F := F)) 6 1116 := Later.step 1116 (Nat.lt_of_lt_of_eq (by decide : 1116 < 1293) ops_len.symm) main_v739 rfl rfl (by decide) later_1117
theorem later_1115 : Later (τ := τ) (ops (F := F)) 6 1115 := Later.step 1115 (Nat.lt_of_lt_of_eq (by decide : 1115 < 1293) ops_len.symm) main_v738 rfl rfl (by decide) later_1116
theorem later_1114 : Later (τ := τ) (ops (F := F)) 6 1114 := Later.step 1114 (Nat.lt_of_lt_of_eq (by decide : 1114 < 1293) ops_len.symm) main_v737 rfl rfl (by decide) later_1115
theorem later_1113 : Later (τ := τ) (ops (F := F)) 6 1113 := Later.step 1113 (Nat.lt_of_lt_of_eq (by decide : 1113 < 1293) ops_len.symm) main_v736 rfl rfl (by decide) later_1114
theorem later_1112 : Later (τ := τ) (ops (F := F)) 6 1112 := Later.step 1112 (Nat.lt_of_lt_of_eq (by decide : 1112 < 1293) ops_len.symm) main_v735 rfl rfl (by decide) later_1113
theorem later_1111 : Later (τ := τ) (ops (F := F)) 6 1111 := Later.step 1111 (Nat.lt_of_lt_of_eq (by decide : 1111 < 1293) ops_len.symm) main_v734 rfl rfl (by decide) later_1112
theorem later_1110 : Later (τ := τ) (ops (F := F)) 6 1110 := Later.step 1110 (Nat.lt_of_lt_of_eq (by decide : 1110 < 1293) ops_len.symm) main_v733 rfl rfl (by decide) later_1111
theorem later_1109 : Later (τ := τ) (ops (F := F)) 6 1109 := Later.step 1109 (Nat.lt_of_lt_of_eq (by decide : 1109 < 1293) ops_len.symm) main_c_234 rfl rfl (by decide) later_1110
theorem later_1108 : Later (τ := τ) (ops (F := F)) 6 1108 := Later.step 1108 (Nat.lt_of_lt_of_eq (by decide : 1108 < 1293) ops_len.symm) main_v732 rfl rfl (by decide) later_1109
theorem later_1107 : Later (τ := τ) (ops (F := F)) 6 1107 := Later.step 1107 (Nat.lt_of_lt_of_eq (by decide : 1107 < 1293) ops_len.symm) main_v731 rfl rfl (by decide) later_1108
theorem later_1106 : Later (τ := τ) (ops (F := F)) 6 1106 := Later.step 1106 (Nat.lt_of_lt_of_eq (by decide : 1106 < 1293) ops_len.symm) main_c_233 rfl rfl (by decide) later_1107
theorem later_1105 : Later (τ := τ) (ops (F := F)) 6 1105 := Later.step 1105 (Nat.lt_of_lt_of_eq (by decide : 1105 < 1293) ops_len.symm) main_v730 rfl rfl (by decide) later_1106
theorem later_1104 : Later (τ := τ) (ops (F := F)) 6 1104 := Later.step 1104 (Nat.lt_of_lt_of_eq (by decide : 1104 < 1293) ops_len.symm) main_v729 rfl rfl (by decide) later_1105
theorem later_1103 : Later (τ := τ) (ops (F := F)) 6 1103 := Later.step 1103 (Nat.lt_of_lt_of_eq (by decide : 1103 < 1293) ops_len.symm) main_v728 rfl rfl (by decide) later_1104
theorem later_1102 : Later (τ := τ) (ops (F := F)) 6 1102 := Later.step 1102 (Nat.lt_of_lt_of_eq (by decide : 1102 < 1293) ops_len.symm) main_c_232 rfl rfl (by decide) later_1103
theorem later_1101 : Later (τ := τ) (ops (F := F)) 6 1101 := Later.step 1101 (Nat.lt_of_lt_of_eq (by decide : 1101 < 1293) ops_len.symm) main_v727 rfl rfl (by decide) later_1102
theorem later_1100 : Later (τ := τ) (ops (F := F)) 6 1100 := Later.step 1100 (Nat.lt_of_lt_of_eq (by decide : 1100 < 1293) ops_len.symm) main_v726 rfl rfl (by decide) later_1101
theorem later_1099 : Later (τ := τ) (ops (F := F)) 6 1099 := Later.step 1099 (Nat.lt_of_lt_of_eq (by decide : 1099 < 1293) ops_len.symm) main_c_231 rfl rfl (by decide) later_1100
theorem later_1098 : Later (τ := τ) (ops (F := F)) 6 1098 := Later.step 1098 (Nat.lt_of_lt_of_eq (by decide : 1098 < 1293) ops_len.symm) main_v725 rfl rfl (by decide) later_1099
theorem later_1097 : Later (τ := τ) (ops (F := F)) 6 1097 := Later.step 1097 (Nat.lt_of_lt_of_eq (by decide : 1097 < 1293) ops_len.symm) main_v724 rfl rfl (by decide) later_1098
theorem later_1096 : Later (τ := τ) (ops (F := F)) 6 1096 := Later.step 1096 (Nat.lt_of_lt_of_eq (by decide : 1096 < 1293) ops_len.symm) main_v723 rfl rfl (by decide) later_1097
theorem later_1095 : Later (τ := τ) (ops (F := F)) 6 1095 := Later.step 1095 (Nat.lt_of_lt_of_eq (by decide : 1095 < 1293) ops_len.symm) main_c_230 rfl rfl (by decide) later_1096
theorem later_1094 : Later (τ := τ) (ops (F := F)) 6 1094 := Later.step 1094 (Nat.lt_of_lt_of_eq (by decide : 1094 < 1293) ops_len.symm) main_v722 rfl rfl (by decide) later_1095
theorem later_1093 : Later (τ := τ) (ops (F := F)) 6 1093 := Later.step 1093 (Nat.lt_of_lt_of_eq (by decide : 1093 < 1293) ops_len.symm) main_v721 rfl rfl (by decide) later_1094
theorem later_1092 : Later (τ := τ) (ops (F := F)) 6 1092 := Later.step 1092 (Nat.lt_of_lt_of_eq (by decide : 1092 < 1293) ops_len.symm) main_c_229 rfl rfl (by decide) later_1093
theorem later_1091 : Later (τ := τ) (ops (F := F)) 6 1091 := Later.step 1091 (Nat.lt_of_lt_of_eq (by decide : 1091 < 1293) ops_len.symm) main_v720 rfl rfl (by decide) later_1092
theorem later_1090 : Later (τ := τ) (ops (F := F)) 6 1090 := Later.step 1090 (Nat.lt_of_lt_of_eq (by decide : 1090 < 1293) ops_len.symm) main_v719 rfl rfl (by decide) later_1091
theorem later_1089 : Later (τ := τ) (ops (F := F)) 6 1089 := Later.step 1089 (Nat.lt_of_lt_of_eq (by decide : 1089 < 1293) ops_len.symm) main_call27_v4 rfl rfl (by decide) later_1090
theorem later_1088 : Later (τ := τ) (ops (F := F)) 6 1088 := Later.step 1088 (Nat.lt_of_lt_of_eq (by decide : 1088 < 1293) ops_len.symm) main_call27_v3 rfl rfl (by decide) later_1089
theorem later_1087 : Later (τ := τ) (ops (F := F)) 6 1087 := Later.step 1087 (Nat.lt_of_lt_of_eq (by decide : 1087 < 1293) ops_len.symm) main_call27_v2 rfl rfl (by decide) later_1088
theorem later_1086 : Later (τ := τ) (ops (F := F)) 6 1086 := Later.step 1086 (Nat.lt_of_lt_of_eq (by decide : 1086 < 1293) ops_len.symm) main_call27_v1 rfl rfl (by decide) later_1087
theorem later_1085 : Later (τ := τ) (ops (F := F)) 6 1085 := Later.step 1085 (Nat.lt_of_lt_of_eq (by decide : 1085 < 1293) ops_len.symm) main_call27_v0 rfl rfl (by decide) later_1086
theorem later_1084 : Later (τ := τ) (ops (F := F)) 6 1084 := Later.step 1084 (Nat.lt_of_lt_of_eq (by decide : 1084 < 1293) ops_len.symm) main_c_228 rfl rfl (by decide) later_1085
theorem later_1083 : Later (τ := τ) (ops (F := F)) 6 1083 := Later.step 1083 (Nat.lt_of_lt_of_eq (by decide : 1083 < 1293) ops_len.symm) main_c_227 rfl rfl (by decide) later_1084
theorem later_1082 : Later (τ := τ) (ops (F := F)) 6 1082 := Later.step 1082 (Nat.lt_of_lt_of_eq (by decide : 1082 < 1293) ops_len.symm) main_v718 rfl rfl (by decide) later_1083
theorem later_1081 : Later (τ := τ) (ops (F := F)) 6 1081 := Later.step 1081 (Nat.lt_of_lt_of_eq (by decide : 1081 < 1293) ops_len.symm) main_call26_v4 rfl rfl (by decide) later_1082
theorem later_1080 : Later (τ := τ) (ops (F := F)) 6 1080 := Later.step 1080 (Nat.lt_of_lt_of_eq (by decide : 1080 < 1293) ops_len.symm) main_call26_v3 rfl rfl (by decide) later_1081
theorem later_1079 : Later (τ := τ) (ops (F := F)) 6 1079 := Later.step 1079 (Nat.lt_of_lt_of_eq (by decide : 1079 < 1293) ops_len.symm) main_call26_v2 rfl rfl (by decide) later_1080
theorem later_1078 : Later (τ := τ) (ops (F := F)) 6 1078 := Later.step 1078 (Nat.lt_of_lt_of_eq (by decide : 1078 < 1293) ops_len.symm) main_call26_v1 rfl rfl (by decide) later_1079
theorem later_1077 : Later (τ := τ) (ops (F := F)) 6 1077 := Later.step 1077 (Nat.lt_of_lt_of_eq (by decide : 1077 < 1293) ops_len.symm) main_call26_v0 rfl rfl (by decide) later_1078
theorem later_1076 : Later (τ := τ) (ops (F := F)) 6 1076 := Later.step 1076 (Nat.lt_of_lt_of_eq (by decide : 1076 < 1293) ops_len.symm) main_c_226 rfl rfl (by decide) later_1077
theorem later_1075 : Later (τ := τ) (ops (F := F)) 6 1075 := Later.step 1075 (Nat.lt_of_lt_of_eq (by decide : 1075 < 1293) ops_len.symm) main_c_225 rfl rfl (by decide) later_1076
theorem later_1074 : Later (τ := τ) (ops (F := F)) 6 1074 := Later.step 1074 (Nat.lt_of_lt_of_eq (by decide : 1074 < 1293) ops_len.symm) main_v717 rfl rfl (by decide) later_1075
theorem later_1073 : Later (τ := τ) (ops (F := F)) 6 1073 := Later.step 1073 (Nat.lt_of_lt_of_eq (by decide : 1073 < 1293) ops_len.symm) main_v716 rfl rfl (by decide) later_1074
theorem later_1072 : Later (τ := τ) (ops (F := F)) 6 1072 := Later.step 1072 (Nat.lt_of_lt_of_eq (by decide : 1072 < 1293) ops_len.symm) main_v715 rfl rfl (by decide) later_1073
theorem later_1071 : Later (τ := τ) (ops (F := F)) 6 1071 := Later.step 1071 (Nat.lt_of_lt_of_eq (by decide : 1071 < 1293) ops_len.symm) main_c_224 rfl rfl (by decide) later_1072
theorem later_1070 : Later (τ := τ) (ops (F := F)) 6 1070 := Later.step 1070 (Nat.lt_of_lt_of_eq (by decide : 1070 < 1293) ops_len.symm) main_v714 rfl rfl (by decide) later_1071
theorem later_1069 : Later (τ := τ) (ops (F := F)) 6 1069 := Later.step 1069 (Nat.lt_of_lt_of_eq (by decide : 1069 < 1293) ops_len.symm) main_v713 rfl rfl (by decide) later_1070
theorem later_1068 : Later (τ := τ) (ops (F := F)) 6 1068 := Later.step 1068 (Nat.lt_of_lt_of_eq (by decide : 1068 < 1293) ops_len.symm) main_v712 rfl rfl (by decide) later_1069
theorem later_1067 : Later (τ := τ) (ops (F := F)) 6 1067 := Later.step 1067 (Nat.lt_of_lt_of_eq (by decide : 1067 < 1293) ops_len.symm) main_c_223 rfl rfl (by decide) later_1068
theorem later_1066 : Later (τ := τ) (ops (F := F)) 6 1066 := Later.step 1066 (Nat.lt_of_lt_of_eq (by decide : 1066 < 1293) ops_len.symm) main_v711 rfl rfl (by decide) later_1067
theorem later_1065 : Later (τ := τ) (ops (F := F)) 6 1065 := Later.step 1065 (Nat.lt_of_lt_of_eq (by decide : 1065 < 1293) ops_len.symm) main_v710 rfl rfl (by decide) later_1066
theorem later_1064 : Later (τ := τ) (ops (F := F)) 6 1064 := Later.step 1064 (Nat.lt_of_lt_of_eq (by decide : 1064 < 1293) ops_len.symm) main_v709 rfl rfl (by decide) later_1065
theorem later_1063 : Later (τ := τ) (ops (F := F)) 6 1063 := Later.step 1063 (Nat.lt_of_lt_of_eq (by decide : 1063 < 1293) ops_len.symm) main_c_222 rfl rfl (by decide) later_1064
theorem later_1062 : Later (τ := τ) (ops (F := F)) 6 1062 := Later.step 1062 (Nat.lt_of_lt_of_eq (by decide : 1062 < 1293) ops_len.symm) main_v708 rfl rfl (by decide) later_1063
theorem later_1061 : Later (τ := τ) (ops (F := F)) 6 1061 := Later.step 1061 (Nat.lt_of_lt_of_eq (by decide : 1061 < 1293) ops_len.symm) main_v707 rfl rfl (by decide) later_1062
theorem later_1060 : Later (τ := τ) (ops (F := F)) 6 1060 := Later.step 1060 (Nat.lt_of_lt_of_eq (by decide : 1060 < 1293) ops_len.symm) main_c_221 rfl rfl (by decide) later_1061
theorem later_1059 : Later (τ := τ) (ops (F := F)) 6 1059 := Later.step 1059 (Nat.lt_of_lt_of_eq (by decide : 1059 < 1293) ops_len.symm) main_v706 rfl rfl (by decide) later_1060
theorem later_1058 : Later (τ := τ) (ops (F := F)) 6 1058 := Later.step 1058 (Nat.lt_of_lt_of_eq (by decide : 1058 < 1293) ops_len.symm) main_v705 rfl rfl (by decide) later_1059
theorem later_1057 : Later (τ := τ) (ops (F := F)) 6 1057 := Later.step 1057 (Nat.lt_of_lt_of_eq (by decide : 1057 < 1293) ops_len.symm) main_c_220 rfl rfl (by decide) later_1058
theorem later_1056 : Later (τ := τ) (ops (F := F)) 6 1056 := Later.step 1056 (Nat.lt_of_lt_of_eq (by decide : 1056 < 1293) ops_len.symm) main_v704 rfl rfl (by decide) later_1057
theorem later_1055 : Later (τ := τ) (ops (F := F)) 6 1055 := Later.step 1055 (Nat.lt_of_lt_of_eq (by decide : 1055 < 1293) ops_len.symm) main_v703 rfl rfl (by decide) later_1056
theorem later_1054 : Later (τ := τ) (ops (F := F)) 6 1054 := Later.step 1054 (Nat.lt_of_lt_of_eq (by decide : 1054 < 1293) ops_len.symm) main_v702 rfl rfl (by decide) later_1055
theorem later_1053 : Later (τ := τ) (ops (F := F)) 6 1053 := Later.step 1053 (Nat.lt_of_lt_of_eq (by decide : 1053 < 1293) ops_len.symm) main_v701 rfl rfl (by decide) later_1054
theorem later_1052 : Later (τ := τ) (ops (F := F)) 6 1052 := Later.step 1052 (Nat.lt_of_lt_of_eq (by decide : 1052 < 1293) ops_len.symm) main_v700 rfl rfl (by decide) later_1053
theorem later_1051 : Later (τ := τ) (ops (F := F)) 6 1051 := Later.step 1051 (Nat.lt_of_lt_of_eq (by decide : 1051 < 1293) ops_len.symm) main_v699 rfl rfl (by decide) later_1052
theorem later_1050 : Later (τ := τ) (ops (F := F)) 6 1050 := Later.step 1050 (Nat.lt_of_lt_of_eq (by decide : 1050 < 1293) ops_len.symm) main_v698 rfl rfl (by decide) later_1051
theorem later_1049 : Later (τ := τ) (ops (F := F)) 6 1049 := Later.step 1049 (Nat.lt_of_lt_of_eq (by decide : 1049 < 1293) ops_len.symm) main_v697 rfl rfl (by decide) later_1050
theorem later_1048 : Later (τ := τ) (ops (F := F)) 6 1048 := Later.step 1048 (Nat.lt_of_lt_of_eq (by decide : 1048 < 1293) ops_len.symm) main_v696 rfl rfl (by decide) later_1049
theorem later_1047 : Later (τ := τ) (ops (F := F)) 6 1047 := Later.step 1047 (Nat.lt_of_lt_of_eq (by decide : 1047 < 1293) ops_len.symm) main_v695 rfl rfl (by decide) later_1048
theorem later_1046 : Later (τ := τ) (ops (F := F)) 6 1046 := Later.step 1046 (Nat.lt_of_lt_of_eq (by decide : 1046 < 1293) ops_len.symm) main_v694 rfl rfl (by decide) later_1047
theorem later_1045 : Later (τ := τ) (ops (F := F)) 6 1045 := Later.step 1045 (Nat.lt_of_lt_of_eq (by decide : 1045 < 1293) ops_len.symm) main_v693 rfl rfl (by decide) later_1046
theorem later_1044 : Later (τ := τ) (ops (F := F)) 6 1044 := Later.step 1044 (Nat.lt_of_lt_of_eq (by decide : 1044 < 1293) ops_len.symm) main_v692 rfl rfl (by decide) later_1045
theorem later_1043 : Later (τ := τ) (ops (F := F)) 6 1043 := Later.step 1043 (Nat.lt_of_lt_of_eq (by decide : 1043 < 1293) ops_len.symm) main_c_219 rfl rfl (by decide) later_1044
theorem later_1042 : Later (τ := τ) (ops (F := F)) 6 1042 := Later.step 1042 (Nat.lt_of_lt_of_eq (by decide : 1042 < 1293) ops_len.symm) main_v691 rfl rfl (by decide) later_1043
theorem later_1041 : Later (τ := τ) (ops (F := F)) 6 1041 := Later.step 1041 (Nat.lt_of_lt_of_eq (by decide : 1041 < 1293) ops_len.symm) main_v690 rfl rfl (by decide) later_1042
theorem later_1040 : Later (τ := τ) (ops (F := F)) 6 1040 := Later.step 1040 (Nat.lt_of_lt_of_eq (by decide : 1040 < 1293) ops_len.symm) main_c_218 rfl rfl (by decide) later_1041
theorem later_1039 : Later (τ := τ) (ops (F := F)) 6 1039 := Later.step 1039 (Nat.lt_of_lt_of_eq (by decide : 1039 < 1293) ops_len.symm) main_v689 rfl rfl (by decide) later_1040
theorem later_1038 : Later (τ := τ) (ops (F := F)) 6 1038 := Later.step 1038 (Nat.lt_of_lt_of_eq (by decide : 1038 < 1293) ops_len.symm) main_v688 rfl rfl (by decide) later_1039
theorem later_1037 : Later (τ := τ) (ops (F := F)) 6 1037 := Later.step 1037 (Nat.lt_of_lt_of_eq (by decide : 1037 < 1293) ops_len.symm) main_v687 rfl rfl (by decide) later_1038
theorem later_1036 : Later (τ := τ) (ops (F := F)) 6 1036 := Later.step 1036 (Nat.lt_of_lt_of_eq (by decide : 1036 < 1293) ops_len.symm) main_c_217 rfl rfl (by decide) later_1037
theorem later_1035 : Later (τ := τ) (ops (F := F)) 6 1035 := Later.step 1035 (Nat.lt_of_lt_of_eq (by decide : 1035 < 1293) ops_len.symm) main_v686 rfl rfl (by decide) later_1036
theorem later_1034 : Later (τ := τ) (ops (F := F)) 6 1034 := Later.step 1034 (Nat.lt_of_lt_of_eq (by decide : 1034 < 1293) ops_len.symm) main_v685 rfl rfl (by decide) later_1035
theorem later_1033 : Later (τ := τ) (ops (F := F)) 6 1033 := Later.step 1033 (Nat.lt_of_lt_of_eq (by decide : 1033 < 1293) ops_len.symm) main_c_216 rfl rfl (by decide) later_1034
theorem later_1032 : Later (τ := τ) (ops (F := F)) 6 1032 := Later.step 1032 (Nat.lt_of_lt_of_eq (by decide : 1032 < 1293) ops_len.symm) main_v684 rfl rfl (by decide) later_1033
theorem later_1031 : Later (τ := τ) (ops (F := F)) 6 1031 := Later.step 1031 (Nat.lt_of_lt_of_eq (by decide : 1031 < 1293) ops_len.symm) main_v683 rfl rfl (by decide) later_1032
theorem later_1030 : Later (τ := τ) (ops (F := F)) 6 1030 := Later.step 1030 (Nat.lt_of_lt_of_eq (by decide : 1030 < 1293) ops_len.symm) main_v682 rfl rfl (by decide) later_1031
theorem later_1029 : Later (τ := τ) (ops (F := F)) 6 1029 := Later.step 1029 (Nat.lt_of_lt_of_eq (by decide : 1029 < 1293) ops_len.symm) main_c_215 rfl rfl (by decide) later_1030
theorem later_1028 : Later (τ := τ) (ops (F := F)) 6 1028 := Later.step 1028 (Nat.lt_of_lt_of_eq (by decide : 1028 < 1293) ops_len.symm) main_v681 rfl rfl (by decide) later_1029
theorem later_1027 : Later (τ := τ) (ops (F := F)) 6 1027 := Later.step 1027 (Nat.lt_of_lt_of_eq (by decide : 1027 < 1293) ops_len.symm) main_v680 rfl rfl (by decide) later_1028
theorem later_1026 : Later (τ := τ) (ops (F := F)) 6 1026 := Later.step 1026 (Nat.lt_of_lt_of_eq (by decide : 1026 < 1293) ops_len.symm) main_c_214 rfl rfl (by decide) later_1027
theorem later_1025 : Later (τ := τ) (ops (F := F)) 6 1025 := Later.step 1025 (Nat.lt_of_lt_of_eq (by decide : 1025 < 1293) ops_len.symm) main_v679 rfl rfl (by decide) later_1026
theorem later_1024 : Later (τ := τ) (ops (F := F)) 6 1024 := Later.step 1024 (Nat.lt_of_lt_of_eq (by decide : 1024 < 1293) ops_len.symm) main_v678 rfl rfl (by decide) later_1025
theorem later_1023 : Later (τ := τ) (ops (F := F)) 6 1023 := Later.step 1023 (Nat.lt_of_lt_of_eq (by decide : 1023 < 1293) ops_len.symm) main_call25_v4 rfl rfl (by decide) later_1024
theorem later_1022 : Later (τ := τ) (ops (F := F)) 6 1022 := Later.step 1022 (Nat.lt_of_lt_of_eq (by decide : 1022 < 1293) ops_len.symm) main_call25_v3 rfl rfl (by decide) later_1023
theorem later_1021 : Later (τ := τ) (ops (F := F)) 6 1021 := Later.step 1021 (Nat.lt_of_lt_of_eq (by decide : 1021 < 1293) ops_len.symm) main_call25_v2 rfl rfl (by decide) later_1022
theorem later_1020 : Later (τ := τ) (ops (F := F)) 6 1020 := Later.step 1020 (Nat.lt_of_lt_of_eq (by decide : 1020 < 1293) ops_len.symm) main_call25_v1 rfl rfl (by decide) later_1021
theorem later_1019 : Later (τ := τ) (ops (F := F)) 6 1019 := Later.step 1019 (Nat.lt_of_lt_of_eq (by decide : 1019 < 1293) ops_len.symm) main_call25_v0 rfl rfl (by decide) later_1020
theorem later_1018 : Later (τ := τ) (ops (F := F)) 6 1018 := Later.step 1018 (Nat.lt_of_lt_of_eq (by decide : 1018 < 1293) ops_len.symm) main_c_213 rfl rfl (by decide) later_1019
theorem later_1017 : Later (τ := τ) (ops (F := F)) 6 1017 := Later.step 1017 (Nat.lt_of_lt_of_eq (by decide : 1017 < 1293) ops_len.symm) main_c_212 rfl rfl (by decide) later_1018
theorem later_1016 : Later (τ := τ) (ops (F := F)) 6 1016 := Later.step 1016 (Nat.lt_of_lt_of_eq (by decide : 1016 < 1293) ops_len.symm) main_v677 rfl rfl (by decide) later_1017
theorem later_1015 : Later (τ := τ) (ops (F := F)) 6 1015 := Later.step 1015 (Nat.lt_of_lt_of_eq (by decide : 1015 < 1293) ops_len.symm) main_call24_v4 rfl rfl (by decide) later_1016
theorem later_1014 : Later (τ := τ) (ops (F := F)) 6 1014 := Later.step 1014 (Nat.lt_of_lt_of_eq (by decide : 1014 < 1293) ops_len.symm) main_call24_v3 rfl rfl (by decide) later_1015
theorem later_1013 : Later (τ := τ) (ops (F := F)) 6 1013 := Later.step 1013 (Nat.lt_of_lt_of_eq (by decide : 1013 < 1293) ops_len.symm) main_call24_v2 rfl rfl (by decide) later_1014
theorem later_1012 : Later (τ := τ) (ops (F := F)) 6 1012 := Later.step 1012 (Nat.lt_of_lt_of_eq (by decide : 1012 < 1293) ops_len.symm) main_call24_v1 rfl rfl (by decide) later_1013
theorem later_1011 : Later (τ := τ) (ops (F := F)) 6 1011 := Later.step 1011 (Nat.lt_of_lt_of_eq (by decide : 1011 < 1293) ops_len.symm) main_call24_v0 rfl rfl (by decide) later_1012
theorem later_1010 : Later (τ := τ) (ops (F := F)) 6 1010 := Later.step 1010 (Nat.lt_of_lt_of_eq (by decide : 1010 < 1293) ops_len.symm) main_c_211 rfl rfl (by decide) later_1011
theorem later_1009 : Later (τ := τ) (ops (F := F)) 6 1009 := Later.step 1009 (Nat.lt_of_lt_of_eq (by decide : 1009 < 1293) ops_len.symm) main_c_210 rfl rfl (by decide) later_1010
theorem later_1008 : Later (τ := τ) (ops (F := F)) 6 1008 := Later.step 1008 (Nat.lt_of_lt_of_eq (by decide : 1008 < 1293) ops_len.symm) main_v676 rfl rfl (by decide) later_1009
theorem later_1007 : Later (τ := τ) (ops (F := F)) 6 1007 := Later.step 1007 (Nat.lt_of_lt_of_eq (by decide : 1007 < 1293) ops_len.symm) main_v675 rfl rfl (by decide) later_1008
theorem later_1006 : Later (τ := τ) (ops (F := F)) 6 1006 := Later.step 1006 (Nat.lt_of_lt_of_eq (by decide : 1006 < 1293) ops_len.symm) main_v674 rfl rfl (by decide) later_1007
theorem later_1005 : Later (τ := τ) (ops (F := F)) 6 1005 := Later.step 1005 (Nat.lt_of_lt_of_eq (by decide : 1005 < 1293) ops_len.symm) main_c_209 rfl rfl (by decide) later_1006
theorem later_1004 : Later (τ := τ) (ops (F := F)) 6 1004 := Later.step 1004 (Nat.lt_of_lt_of_eq (by decide : 1004 < 1293) ops_len.symm) main_v673 rfl rfl (by decide) later_1005
theorem later_1003 : Later (τ := τ) (ops (F := F)) 6 1003 := Later.step 1003 (Nat.lt_of_lt_of_eq (by decide : 1003 < 1293) ops_len.symm) main_v672 rfl rfl (by decide) later_1004
theorem later_1002 : Later (τ := τ) (ops (F := F)) 6 1002 := Later.step 1002 (Nat.lt_of_lt_of_eq (by decide : 1002 < 1293) ops_len.symm) main_v671 rfl rfl (by decide) later_1003
theorem later_1001 : Later (τ := τ) (ops (F := F)) 6 1001 := Later.step 1001 (Nat.lt_of_lt_of_eq (by decide : 1001 < 1293) ops_len.symm) main_c_208 rfl rfl (by decide) later_1002
theorem later_1000 : Later (τ := τ) (ops (F := F)) 6 1000 := Later.step 1000 (Nat.lt_of_lt_of_eq (by decide : 1000 < 1293) ops_len.symm) main_v670 rfl rfl (by decide) later_1001
theorem later_999 : Later (τ := τ) (ops (F := F)) 6 999 := Later.step 999 (Nat.lt_of_lt_of_eq (by decide : 999 < 1293) ops_len.symm) main_v669 rfl rfl (by decide) later_1000
theorem later_998 : Later (τ := τ) (ops (F := F)) 6 998 := Later.step 998 (Nat.lt_of_lt_of_eq (by decide : 998 < 1293) ops_len.symm) main_v668 rfl rfl (by decide) later_999
theorem later_997 : Later (τ := τ) (ops (F := F)) 6 997 := Later.step 997 (Nat.lt_of_lt_of_eq (by decide : 997 < 1293) ops_len.symm) main_c_207 rfl rfl (by decide) later_998
theorem later_996 : Later (τ := τ) (ops (F := F)) 6 996 := Later.step 996 (Nat.lt_of_lt_of_eq (by decide : 996 < 1293) ops_len.symm) main_v667 rfl rfl (by decide) later_997
theorem later_995 : Later (τ := τ) (ops (F := F)) 6 995 := Later.step 995 (Nat.lt_of_lt_of_eq (by decide : 995 < 1293) ops_len.symm) main_v666 rfl rfl (by decide) later_996
theorem later_994 : Later (τ := τ) (ops (F := F)) 6 994 := Later.step 994 (Nat.lt_of_lt_of_eq (by decide : 994 < 1293) ops_len.symm) main_c_206 rfl rfl (by decide) later_995
theorem later_993 : Later (τ := τ) (ops (F := F)) 6 993 := Later.step 993 (Nat.lt_of_lt_of_eq (by decide : 993 < 1293) ops_len.symm) main_v665 rfl rfl (by decide) later_994
theorem later_992 : Later (τ := τ) (ops (F := F)) 6 992 := Later.step 992 (Nat.lt_of_lt_of_eq (by decide : 992 < 1293) ops_len.symm) main_v664 rfl rfl (by decide) later_993
theorem later_991 : Later (τ := τ) (ops (F := F)) 6 991 := Later.step 991 (Nat.lt_of_lt_of_eq (by decide : 991 < 1293) ops_len.symm) main_v663 rfl rfl (by decide) later_992
theorem later_990 : Later (τ := τ) (ops (F := F)) 6 990 := Later.step 990 (Nat.lt_of_lt_of_eq (by decide : 990 < 1293) ops_len.symm) main_v662 rfl rfl (by decide) later_991
theorem later_989 : Later (τ := τ) (ops (F := F)) 6 989 := Later.step 989 (Nat.lt_of_lt_of_eq (by decide : 989 < 1293) ops_len.symm) main_v661 rfl rfl (by decide) later_990
theorem later_988 : Later (τ := τ) (ops (F := F)) 6 988 := Later.step 988 (Nat.lt_of_lt_of_eq (by decide : 988 < 1293) ops_len.symm) main_v660 rfl rfl (by decide) later_989
theorem later_987 : Later (τ := τ) (ops (F := F)) 6 987 := Later.step 987 (Nat.lt_of_lt_of_eq (by decide : 987 < 1293) ops_len.symm) main_v659 rfl rfl (by decide) later_988
theorem later_986 : Later (τ := τ) (ops (F := F)) 6 986 := Later.step 986 (Nat.lt_of_lt_of_eq (by decide : 986 < 1293) ops_len.symm) main_v658 rfl rfl (by decide) later_987
theorem later_985 : Later (τ := τ) (ops (F := F)) 6 985 := Later.step 985 (Nat.lt_of_lt_of_eq (by decide : 985 < 1293) ops_len.symm) main_cst_205 rfl rfl (by decide) later_986
theorem later_984 : Later (τ := τ) (ops (F := F)) 6 984 := Later.step 984 (Nat.lt_of_lt_of_eq (by decide : 984 < 1293) ops_len.symm) main_v657 rfl rfl (by decide) later_985
theorem later_983 : Later (τ := τ) (ops (F := F)) 6 983 := Later.step 983 (Nat.lt_of_lt_of_eq (by decide : 983 < 1293) ops_len.symm) main_v656 rfl rfl (by decide) later_984
theorem later_982 : Later (τ := τ) (ops (F := F)) 6 982 := Later.step 982 (Nat.lt_of_lt_of_eq (by decide : 982 < 1293) ops_len.symm) main_cst_204 rfl rfl (by decide) later_983
theorem later_981 : Later (τ := τ) (ops (F := F)) 6 981 := Later.step 981 (Nat.lt_of_lt_of_eq (by decide : 981 < 1293) ops_len.symm) main_v655 rfl rfl (by decide) later_982
theorem later_980 : Later (τ := τ) (ops (F := F)) 6 980 := Later.step 980 (Nat.lt_of_lt_of_eq (by decide : 980 < 1293) ops_len.symm) main_v654 rfl rfl (by decide) later_981
theorem later_979 : Later (τ := τ) (ops (F := F)) 6 979 := Later.step 979 (Nat.lt_of_lt_of_eq (by decide : 979 < 1293) ops_len.symm) main_v653 rfl rfl (by decide) later_980
theorem later_978 : Later (τ := τ) (ops (F := F)) 6 978 := Later.step 978 (Nat.lt_of_lt_of_eq (by decide : 978 < 1293) ops_len.symm) main_v652 rfl rfl (by decide) later_979
theorem later_977 : Later (τ := τ) (ops (F := F)) 6 977 := Later.step 977 (Nat.lt_of_lt_of_eq (by decide : 977 < 1293) ops_len.symm) main_cst_203 rfl rfl (by decide) later_978
theorem later_976 : Later (τ := τ) (ops (F := F)) 6 976 := Later.step 976 (Nat.lt_of_lt_of_eq (by decide : 976 < 1293) ops_len.symm) main_v651 rfl rfl (by decide) later_977
theorem later_975 : Later (τ := τ) (ops (F := F)) 6 975 := Later.step 975 (Nat.lt_of_lt_of_eq (by decide : 975 < 1293) ops_len.symm) main_v650 rfl rfl (by decide) later_976
theorem later_974 : Later (τ := τ) (ops (F := F)) 6 974 := Later.step 974 (Nat.lt_of_lt_of_eq (by decide : 974 < 1293) ops_len.symm) main_cst_202 rfl rfl (by decide) later_975
theorem later_973 : Later (τ := τ) (ops (F := F)) 6 973 := Later.step 973 (Nat.lt_of_lt_of_eq (by decide : 973 < 1293) ops_len.symm) main_v649 rfl rfl (by decide) later_974
theorem later_972 : Later (τ := τ) (ops (F := F)) 6 972 := Later.step 972 (Nat.lt_of_lt_of_eq (by decide : 972 < 1293) ops_len.symm) main_v648 rfl rfl (by decide) later_973
theorem later_971 : Later (τ := τ) (ops (F := F)) 6 971 := Later.step 971 (Nat.lt_of_lt_of_eq (by decide : 971 < 1293) ops_len.symm) main_v647 rfl rfl (by decide) later_972
theorem later_970 : Later (τ := τ) (ops (F := F)) 6 970 := Later.step 970 (Nat.lt_of_lt_of_eq (by decide : 970 < 1293) ops_len.symm) main_v646 rfl rfl (by decide) later_971
theorem later_969 : Later (τ := τ) (ops (F := F)) 6 969 := Later.step 969 (Nat.lt_of_lt_of_eq (by decide : 969 < 1293) ops_len.symm) main_v645 rfl rfl (by decide) later_970
theorem later_968 : Later (τ := τ) (ops (F := F)) 6 968 := Later.step 968 (Nat.lt_of_lt_of_eq (by decide : 968 < 1293) ops_len.symm) main_v644 rfl rfl (by decide) later_969
theorem later_967 : Later (τ := τ) (ops (F := F)) 6 967 := Later.step 967 (Nat.lt_of_lt_of_eq (by decide : 967 < 1293) ops_len.symm) main_v643 rfl rfl (by decide) later_968
theorem later_966 : Later (τ := τ) (ops (F := F)) 6 966 := Later.step 966 (Nat.lt_of_lt_of_eq (by decide : 966 < 1293) ops_len.symm) main_v642 rfl rfl (by decide) later_967
theorem later_965 : Later (τ := τ) (ops (F := F)) 6 965 := Later.step 965 (Nat.lt_of_lt_of_eq (by decide : 965 < 1293) ops_len.symm) main_v641 rfl rfl (by decide) later_966
theorem later_964 : Later (τ := τ) (ops (F := F)) 6 964 := Later.step 964 (Nat.lt_of_lt_of_eq (by decide : 964 < 1293) ops_len.symm) main_v640 rfl rfl (by decide) later_965
theorem later_963 : Later (τ := τ) (ops (F := F)) 6 963 := Later.step 963 (Nat.lt_of_lt_of_eq (by decide : 963 < 1293) ops_len.symm) main_v639 rfl rfl (by decide) later_964
theorem later_962 : Later (τ := τ) (ops (F := F)) 6 962 := Later.step 962 (Nat.lt_of_lt_of_eq (by decide : 962 < 1293) ops_len.symm) main_v638 rfl rfl (by decide) later_963
theorem later_961 : Later (τ := τ) (ops (F := F)) 6 961 := Later.step 961 (Nat.lt_of_lt_of_eq (by decide : 961 < 1293) ops_len.symm) main_v637 rfl rfl (by decide) later_962
theorem later_960 : Later (τ := τ) (ops (F := F)) 6 960 := Later.step 960 (Nat.lt_of_lt_of_eq (by decide : 960 < 1293) ops_len.symm) main_v636 rfl rfl (by decide) later_961
theorem later_959 : Later (τ := τ) (ops (F := F)) 6 959 := Later.step 959 (Nat.lt_of_lt_of_eq (by decide : 959 < 1293) ops_len.symm) main_v635 rfl rfl (by decide) later_960
theorem later_958 : Later (τ := τ) (ops (F := F)) 6 958 := Later.step 958 (Nat.lt_of_lt_of_eq (by decide : 958 < 1293) ops_len.symm) main_cst_201 rfl rfl (by decide) later_959
theorem later_957 : Later (τ := τ) (ops (F := F)) 6 957 := Later.step 957 (Nat.lt_of_lt_of_eq (by decide : 957 < 1293) ops_len.symm) main_v634 rfl rfl (by decide) later_958
theorem later_956 : Later (τ := τ) (ops (F := F)) 6 956 := Later.step 956 (Nat.lt_of_lt_of_eq (by decide : 956 < 1293) ops_len.symm) main_v633 rfl rfl (by decide) later_957
theorem later_955 : Later (τ := τ) (ops (F := F)) 6 955 := Later.step 955 (Nat.lt_of_lt_of_eq (by decide : 955 < 1293) ops_len.symm) main_v632 rfl rfl (by decide) later_956
theorem later_954 : Later (τ := τ) (ops (F := F)) 6 954 := Later.step 954 (Nat.lt_of_lt_of_eq (by decide : 954 < 1293) ops_len.symm) main_v631 rfl rfl (by decide) later_955
theorem later_953 : Later (τ := τ) (ops (F := F)) 6 953 := Later.step 953 (Nat.lt_of_lt_of_eq (by decide : 953 < 1293) ops_len.symm) main_v630 rfl rfl (by decide) later_954
theorem later_952 : Later (τ := τ) (ops (F := F)) 6 952 := Later.step 952 (Nat.lt_of_lt_of_eq (by decide : 952 < 1293) ops_len.symm) main_cst_200 rfl rfl (by decide) later_953
theorem later_951 : Later (τ := τ) (ops (F := F)) 6 951 := Later.step 951 (Nat.lt_of_lt_of_eq (by decide : 951 < 1293) ops_len.symm) main_v629 rfl rfl (by decide) later_952
theorem later_950 : Later (τ := τ) (ops (F := F)) 6 950 := Later.step 950 (Nat.lt_of_lt_of_eq (by decide : 950 < 1293) ops_len.symm) main_v628 rfl rfl (by decide) later_951
theorem later_949 : Later (τ := τ) (ops (F := F)) 6 949 := Later.step 949 (Nat.lt_of_lt_of_eq (by decide : 949 < 1293) ops_len.symm) main_v627 rfl rfl (by decide) later_950
theorem later_948 : Later (τ := τ) (ops (F := F)) 6 948 := Later.step 948 (Nat.lt_of_lt_of_eq (by decide : 948 < 1293) ops_len.symm) main_v626 rfl rfl (by decide) later_949
theorem later_947 : Later (τ := τ) (ops (F := F)) 6 947 := Later.step 947 (Nat.lt_of_lt_of_eq (by decide : 947 < 1293) ops_len.symm) main_v625 rfl rfl (by decide) later_948
theorem later_946 : Later (τ := τ) (ops (F := F)) 6 946 := Later.step 946 (Nat.lt_of_lt_of_eq (by decide : 946 < 1293) ops_len.symm) main_v624 rfl rfl (by decide) later_947
theorem later_945 : Later (τ := τ) (ops (F := F)) 6 945 := Later.step 945 (Nat.lt_of_lt_of_eq (by decide : 945 < 1293) ops_len.symm) main_cst_199 rfl rfl (by decide) later_946
theorem later_944 : Later (τ := τ) (ops (F := F)) 6 944 := Later.step 944 (Nat.lt_of_lt_of_eq (by decide : 944 < 1293) ops_len.symm) main_v623 rfl rfl (by decide) later_945
theorem later_943 : Later (τ := τ) (ops (F := F)) 6 943 := Later.step 943 (Nat.lt_of_lt_of_eq (by decide : 943 < 1293) ops_len.symm) main_v622 rfl rfl (by decide) later_944
theorem later_942 : Later (τ := τ) (ops (F := F)) 6 942 := Later.step 942 (Nat.lt_of_lt_of_eq (by decide : 942 < 1293) ops_len.symm) main_v621 rfl rfl (by decide) later_943
theorem later_941 : Later (τ := τ) (ops (F := F)) 6 941 := Later.step 941 (Nat.lt_of_lt_of_eq (by decide : 941 < 1293) ops_len.symm) main_v620 rfl rfl (by decide) later_942
theorem later_940 : Later (τ := τ) (ops (F := F)) 6 940 := Later.step 940 (Nat.lt_of_lt_of_eq (by decide : 940 < 1293) ops_len.symm) main_cst_198 rfl rfl (by decide) later_941
theorem later_939 : Later (τ := τ) (ops (F := F)) 6 939 := Later.step 939 (Nat.lt_of_lt_of_eq (by decide : 939 < 1293) ops_len.symm) main_v619 rfl rfl (by decide) later_940
theorem later_938 : Later (τ := τ) (ops (F := F)) 6 938 := Later.step 938 (Nat.lt_of_lt_of_eq (by decide : 938 < 1293) ops_len.symm) main_v618 rfl rfl (by decide) later_939
theorem later_937 : Later (τ := τ) (ops (F := F)) 6 937 := Later.step 937 (Nat.lt_of_lt_of_eq (by decide : 937 < 1293) ops_len.symm) main_v617 rfl rfl (by decide) later_938
theorem later_936 : Later (τ := τ) (ops (F := F)) 6 936 := Later.step 936 (Nat.lt_of_lt_of_eq (by decide : 936 < 1293) ops_len.symm) main_v616 rfl rfl (by decide) later_937
theorem later_935 : Later (τ := τ) (ops (F := F)) 6 935 := Later.step 935 (Nat.lt_of_lt_of_eq (by decide : 935 < 1293) ops_len.symm) main_v615 rfl rfl (by decide) later_936
theorem later_934 : Later (τ := τ) (ops (F := F)) 6 934 := Later.step 934 (Nat.lt_of_lt_of_eq (by decide : 934 < 1293) ops_len.symm) main_v614 rfl rfl (by decide) later_935
theorem later_933 : Later (τ := τ) (ops (F := F)) 6 933 := Later.step 933 (Nat.lt_of_lt_of_eq (by decide : 933 < 1293) ops_len.symm) main_v613 rfl rfl (by decide) later_934
theorem later_932 : Later (τ := τ) (ops (F := F)) 6 932 := Later.step 932 (Nat.lt_of_lt_of_eq (by decide : 932 < 1293) ops_len.symm) main_v612 rfl rfl (by decide) later_933
theorem later_931 : Later (τ := τ) (ops (F := F)) 6 931 := Later.step 931 (Nat.lt_of_lt_of_eq (by decide : 931 < 1293) ops_len.symm) main_v611 rfl rfl (by decide) later_932
theorem later_930 : Later (τ := τ) (ops (F := F)) 6 930 := Later.step 930 (Nat.lt_of_lt_of_eq (by decide : 930 < 1293) ops_len.symm) main_v610 rfl rfl (by decide) later_931
theorem later_929 : Later (τ := τ) (ops (F := F)) 6 929 := Later.step 929 (Nat.lt_of_lt_of_eq (by decide : 929 < 1293) ops_len.symm) main_v609 rfl rfl (by decide) later_930
theorem later_928 : Later (τ := τ) (ops (F := F)) 6 928 := Later.step 928 (Nat.lt_of_lt_of_eq (by decide : 928 < 1293) ops_len.symm) main_v608 rfl rfl (by decide) later_929
theorem later_927 : Later (τ := τ) (ops (F := F)) 6 927 := Later.step 927 (Nat.lt_of_lt_of_eq (by decide : 927 < 1293) ops_len.symm) main_v607 rfl rfl (by decide) later_928
theorem later_926 : Later (τ := τ) (ops (F := F)) 6 926 := Later.step 926 (Nat.lt_of_lt_of_eq (by decide : 926 < 1293) ops_len.symm) main_v606 rfl rfl (by decide) later_927
theorem later_925 : Later (τ := τ) (ops (F := F)) 6 925 := Later.step 925 (Nat.lt_of_lt_of_eq (by decide : 925 < 1293) ops_len.symm) main_v605 rfl rfl (by decide) later_926
theorem later_924 : Later (τ := τ) (ops (F := F)) 6 924 := Later.step 924 (Nat.lt_of_lt_of_eq (by decide : 924 < 1293) ops_len.symm) main_c_197 rfl rfl (by decide) later_925
theorem later_923 : Later (τ := τ) (ops (F := F)) 6 923 := Later.step 923 (Nat.lt_of_lt_of_eq (by decide : 923 < 1293) ops_len.symm) main_v604 rfl rfl (by decide) later_924
theorem later_922 : Later (τ := τ) (ops (F := F)) 6 922 := Later.step 922 (Nat.lt_of_lt_of_eq (by decide : 922 < 1293) ops_len.symm) main_v603 rfl rfl (by decide) later_923
theorem later_921 : Later (τ := τ) (ops (F := F)) 6 921 := Later.step 921 (Nat.lt_of_lt_of_eq (by decide : 921 < 1293) ops_len.symm) main_c_196 rfl rfl (by decide) later_922
theorem later_920 : Later (τ := τ) (ops (F := F)) 6 920 := Later.step 920 (Nat.lt_of_lt_of_eq (by decide : 920 < 1293) ops_len.symm) main_v602 rfl rfl (by decide) later_921
theorem later_919 : Later (τ := τ) (ops (F := F)) 6 919 := Later.step 919 (Nat.lt_of_lt_of_eq (by decide : 919 < 1293) ops_len.symm) main_v601 rfl rfl (by decide) later_920
theorem later_918 : Later (τ := τ) (ops (F := F)) 6 918 := Later.step 918 (Nat.lt_of_lt_of_eq (by decide : 918 < 1293) ops_len.symm) main_v600 rfl rfl (by decide) later_919
theorem later_917 : Later (τ := τ) (ops (F := F)) 6 917 := Later.step 917 (Nat.lt_of_lt_of_eq (by decide : 917 < 1293) ops_len.symm) main_c_195 rfl rfl (by decide) later_918
theorem later_916 : Later (τ := τ) (ops (F := F)) 6 916 := Later.step 916 (Nat.lt_of_lt_of_eq (by decide : 916 < 1293) ops_len.symm) main_v599 rfl rfl (by decide) later_917
theorem later_915 : Later (τ := τ) (ops (F := F)) 6 915 := Later.step 915 (Nat.lt_of_lt_of_eq (by decide : 915 < 1293) ops_len.symm) main_v598 rfl rfl (by decide) later_916
theorem later_914 : Later (τ := τ) (ops (F := F)) 6 914 := Later.step 914 (Nat.lt_of_lt_of_eq (by decide : 914 < 1293) ops_len.symm) main_c_194 rfl rfl (by decide) later_915
theorem later_913 : Later (τ := τ) (ops (F := F)) 6 913 := Later.step 913 (Nat.lt_of_lt_of_eq (by decide : 913 < 1293) ops_len.symm) main_v597 rfl rfl (by decide) later_914
theorem later_912 : Later (τ := τ) (ops (F := F)) 6 912 := Later.step 912 (Nat.lt_of_lt_of_eq (by decide : 912 < 1293) ops_len.symm) main_v596 rfl rfl (by decide) later_913
theorem later_911 : Later (τ := τ) (ops (F := F)) 6 911 := Later.step 911 (Nat.lt_of_lt_of_eq (by decide : 911 < 1293) ops_len.symm) main_v595 rfl rfl (by decide) later_912
theorem later_910 : Later (τ := τ) (ops (F := F)) 6 910 := Later.step 910 (Nat.lt_of_lt_of_eq (by decide : 910 < 1293) ops_len.symm) main_c_193 rfl rfl (by decide) later_911
theorem later_909 : Later (τ := τ) (ops (F := F)) 6 909 := Later.step 909 (Nat.lt_of_lt_of_eq (by decide : 909 < 1293) ops_len.symm) main_v594 rfl rfl (by decide) later_910
theorem later_908 : Later (τ := τ) (ops (F := F)) 6 908 := Later.step 908 (Nat.lt_of_lt_of_eq (by decide : 908 < 1293) ops_len.symm) main_v593 rfl rfl (by decide) later_909
theorem later_907 : Later (τ := τ) (ops (F := F)) 6 907 := Later.step 907 (Nat.lt_of_lt_of_eq (by decide : 907 < 1293) ops_len.symm) main_c_192 rfl rfl (by decide) later_908
theorem later_906 : Later (τ := τ) (ops (F := F)) 6 906 := Later.step 906 (Nat.lt_of_lt_of_eq (by decide : 906 < 1293) ops_len.symm) main_v592 rfl rfl (by decide) later_907
theorem later_905 : Later (τ := τ) (ops (F := F)) 6 905 := Later.step 905 (Nat.lt_of_lt_of_eq (by decide : 905 < 1293) ops_len.symm) main_v591 rfl rfl (by decide) later_906
theorem later_904 : Later (τ := τ) (ops (F := F)) 6 904 := Later.step 904 (Nat.lt_of_lt_of_eq (by decide : 904 < 1293) ops_len.symm) main_call23_v4 rfl rfl (by decide) later_905
theorem later_903 : Later (τ := τ) (ops (F := F)) 6 903 := Later.step 903 (Nat.lt_of_lt_of_eq (by decide : 903 < 1293) ops_len.symm) main_call23_v3 rfl rfl (by decide) later_904
theorem later_902 : Later (τ := τ) (ops (F := F)) 6 902 := Later.step 902 (Nat.lt_of_lt_of_eq (by decide : 902 < 1293) ops_len.symm) main_call23_v2 rfl rfl (by decide) later_903
theorem later_901 : Later (τ := τ) (ops (F := F)) 6 901 := Later.step 901 (Nat.lt_of_lt_of_eq (by decide : 901 < 1293) ops_len.symm) main_call23_v1 rfl rfl (by decide) later_902
theorem later_900 : Later (τ := τ) (ops (F := F)) 6 900 := Later.step 900 (Nat.lt_of_lt_of_eq (by decide : 900 < 1293) ops_len.symm) main_call23_v0 rfl rfl (by decide) later_901
theorem later_899 : Later (τ := τ) (ops (F := F)) 6 899 := Later.step 899 (Nat.lt_of_lt_of_eq (by decide : 899 < 1293) ops_len.symm) main_c_191 rfl rfl (by decide) later_900
theorem later_898 : Later (τ := τ) (ops (F := F)) 6 898 := Later.step 898 (Nat.lt_of_lt_of_eq (by decide : 898 < 1293) ops_len.symm) main_c_190 rfl rfl (by decide) later_899
theorem later_897 : Later (τ := τ) (ops (F := F)) 6 897 := Later.step 897 (Nat.lt_of_lt_of_eq (by decide : 897 < 1293) ops_len.symm) main_v590 rfl rfl (by decide) later_898
theorem later_896 : Later (τ := τ) (ops (F := F)) 6 896 := Later.step 896 (Nat.lt_of_lt_of_eq (by decide : 896 < 1293) ops_len.symm) main_call22_v4 rfl rfl (by decide) later_897
theorem later_895 : Later (τ := τ) (ops (F := F)) 6 895 := Later.step 895 (Nat.lt_of_lt_of_eq (by decide : 895 < 1293) ops_len.symm) main_call22_v3 rfl rfl (by decide) later_896
theorem later_894 : Later (τ := τ) (ops (F := F)) 6 894 := Later.step 894 (Nat.lt_of_lt_of_eq (by decide : 894 < 1293) ops_len.symm) main_call22_v2 rfl rfl (by decide) later_895
theorem later_893 : Later (τ := τ) (ops (F := F)) 6 893 := Later.step 893 (Nat.lt_of_lt_of_eq (by decide : 893 < 1293) ops_len.symm) main_call22_v1 rfl rfl (by decide) later_894
theorem later_892 : Later (τ := τ) (ops (F := F)) 6 892 := Later.step 892 (Nat.lt_of_lt_of_eq (by decide : 892 < 1293) ops_len.symm) main_call22_v0 rfl rfl (by decide) later_893
theorem later_891 : Later (τ := τ) (ops (F := F)) 6 891 := Later.step 891 (Nat.lt_of_lt_of_eq (by decide : 891 < 1293) ops_len.symm) main_c_189 rfl rfl (by decide) later_892
theorem later_890 : Later (τ := τ) (ops (F := F)) 6 890 := Later.step 890 (Nat.lt_of_lt_of_eq (by decide : 890 < 1293) ops_len.symm) main_c_188 rfl rfl (by decide) later_891
theorem later_889 : Later (τ := τ) (ops (F := F)) 6 889 := Later.step 889 (Nat.lt_of_lt_of_eq (by decide : 889 < 1293) ops_len.symm) main_v589 rfl rfl (by decide) later_890
theorem later_888 : Later (τ := τ) (ops (F := F)) 6 888 := Later.step 888 (Nat.lt_of_lt_of_eq (by decide : 888 < 1293) ops_len.symm) main_v588 rfl rfl (by decide) later_889
theorem later_887 : Later (τ := τ) (ops (F := F)) 6 887 := Later.step 887 (Nat.lt_of_lt_of_eq (by decide : 887 < 1293) ops_len.symm) main_v587 rfl rfl (by decide) later_888
theorem later_886 : Later (τ := τ) (ops (F := F)) 6 886 := Later.step 886 (Nat.lt_of_lt_of_eq (by decide : 886 < 1293) ops_len.symm) main_c_187 rfl rfl (by decide) later_887
theorem later_885 : Later (τ := τ) (ops (F := F)) 6 885 := Later.step 885 (Nat.lt_of_lt_of_eq (by decide : 885 < 1293) ops_len.symm) main_v586 rfl rfl (by decide) later_886
theorem later_884 : Later (τ := τ) (ops (F := F)) 6 884 := Later.step 884 (Nat.lt_of_lt_of_eq (by decide : 884 < 1293) ops_len.symm) main_v585 rfl rfl (by decide) later_885
theorem later_883 : Later (τ := τ) (ops (F := F)) 6 883 := Later.step 883 (Nat.lt_of_lt_of_eq (by decide : 883 < 1293) ops_len.symm) main_v584 rfl rfl (by decide) later_884
theorem later_882 : Later (τ := τ) (ops (F := F)) 6 882 := Later.step 882 (Nat.lt_of_lt_of_eq (by decide : 882 < 1293) ops_len.symm) main_c_186 rfl rfl (by decide) later_883
theorem later_881 : Later (τ := τ) (ops (F := F)) 6 881 := Later.step 881 (Nat.lt_of_lt_of_eq (by decide : 881 < 1293) ops_len.symm) main_v583 rfl rfl (by decide) later_882
theorem later_880 : Later (τ := τ) (ops (F := F)) 6 880 := Later.step 880 (Nat.lt_of_lt_of_eq (by decide : 880 < 1293) ops_len.symm) main_v582 rfl rfl (by decide) later_881
theorem later_879 : Later (τ := τ) (ops (F := F)) 6 879 := Later.step 879 (Nat.lt_of_lt_of_eq (by decide : 879 < 1293) ops_len.symm) main_v581 rfl rfl (by decide) later_880
theorem later_878 : Later (τ := τ) (ops (F := F)) 6 878 := Later.step 878 (Nat.lt_of_lt_of_eq (by decide : 878 < 1293) ops_len.symm) main_c_185 rfl rfl (by decide) later_879
theorem later_877 : Later (τ := τ) (ops (F := F)) 6 877 := Later.step 877 (Nat.lt_of_lt_of_eq (by decide : 877 < 1293) ops_len.symm) main_v580 rfl rfl (by decide) later_878
theorem later_876 : Later (τ := τ) (ops (F := F)) 6 876 := Later.step 876 (Nat.lt_of_lt_of_eq (by decide : 876 < 1293) ops_len.symm) main_v579 rfl rfl (by decide) later_877
theorem later_875 : Later (τ := τ) (ops (F := F)) 6 875 := Later.step 875 (Nat.lt_of_lt_of_eq (by decide : 875 < 1293) ops_len.symm) main_c_184 rfl rfl (by decide) later_876
theorem later_874 : Later (τ := τ) (ops (F := F)) 6 874 := Later.step 874 (Nat.lt_of_lt_of_eq (by decide : 874 < 1293) ops_len.symm) main_v578 rfl rfl (by decide) later_875
theorem later_873 : Later (τ := τ) (ops (F := F)) 6 873 := Later.step 873 (Nat.lt_of_lt_of_eq (by decide : 873 < 1293) ops_len.symm) main_v577 rfl rfl (by decide) later_874
theorem later_872 : Later (τ := τ) (ops (F := F)) 6 872 := Later.step 872 (Nat.lt_of_lt_of_eq (by decide : 872 < 1293) ops_len.symm) main_c_183 rfl rfl (by decide) later_873
theorem later_871 : Later (τ := τ) (ops (F := F)) 6 871 := Later.step 871 (Nat.lt_of_lt_of_eq (by decide : 871 < 1293) ops_len.symm) main_v576 rfl rfl (by decide) later_872
theorem later_870 : Later (τ := τ) (ops (F := F)) 6 870 := Later.step 870 (Nat.lt_of_lt_of_eq (by decide : 870 < 1293) ops_len.symm) main_v575 rfl rfl (by decide) later_871
theorem later_869 : Later (τ := τ) (ops (F := F)) 6 869 := Later.step 869 (Nat.lt_of_lt_of_eq (by decide : 869 < 1293) ops_len.symm) main_c_182 rfl rfl (by decide) later_870
theorem later_868 : Later (τ := τ) (ops (F := F)) 6 868 := Later.step 868 (Nat.lt_of_lt_of_eq (by decide : 868 < 1293) ops_len.symm) main_v574 rfl rfl (by decide) later_869
theorem later_867 : Later (τ := τ) (ops (F := F)) 6 867 := Later.step 867 (Nat.lt_of_lt_of_eq (by decide : 867 < 1293) ops_len.symm) main_v573 rfl rfl (by decide) later_868
theorem later_866 : Later (τ := τ) (ops (F := F)) 6 866 := Later.step 866 (Nat.lt_of_lt_of_eq (by decide : 866 < 1293) ops_len.symm) main_v572 rfl rfl (by decide) later_867
theorem later_865 : Later (τ := τ) (ops (F := F)) 6 865 := Later.step 865 (Nat.lt_of_lt_of_eq (by decide : 865 < 1293) ops_len.symm) main_v571 rfl rfl (by decide) later_866
theorem later_864 : Later (τ := τ) (ops (F := F)) 6 864 := Later.step 864 (Nat.lt_of_lt_of_eq (by decide : 864 < 1293) ops_len.symm) main_v570 rfl rfl (by decide) later_865
theorem later_863 : Later (τ := τ) (ops (F := F)) 6 863 := Later.step 863 (Nat.lt_of_lt_of_eq (by decide : 863 < 1293) ops_len.symm) main_v569 rfl rfl (by decide) later_864
theorem later_862 : Later (τ := τ) (ops (F := F)) 6 862 := Later.step 862 (Nat.lt_of_lt_of_eq (by decide : 862 < 1293) ops_len.symm) main_v568 rfl rfl (by decide) later_863
theorem later_861 : Later (τ := τ) (ops (F := F)) 6 861 := Later.step 861 (Nat.lt_of_lt_of_eq (by decide : 861 < 1293) ops_len.symm) main_v567 rfl rfl (by decide) later_862
theorem later_860 : Later (τ := τ) (ops (F := F)) 6 860 := Later.step 860 (Nat.lt_of_lt_of_eq (by decide : 860 < 1293) ops_len.symm) main_v566 rfl rfl (by decide) later_861
theorem later_859 : Later (τ := τ) (ops (F := F)) 6 859 := Later.step 859 (Nat.lt_of_lt_of_eq (by decide : 859 < 1293) ops_len.symm) main_v565 rfl rfl (by decide) later_860
theorem later_858 : Later (τ := τ) (ops (F := F)) 6 858 := Later.step 858 (Nat.lt_of_lt_of_eq (by decide : 858 < 1293) ops_len.symm) main_v564 rfl rfl (by decide) later_859
theorem later_857 : Later (τ := τ) (ops (F := F)) 6 857 := Later.step 857 (Nat.lt_of_lt_of_eq (by decide : 857 < 1293) ops_len.symm) main_v563 rfl rfl (by decide) later_858
theorem later_856 : Later (τ := τ) (ops (F := F)) 6 856 := Later.step 856 (Nat.lt_of_lt_of_eq (by decide : 856 < 1293) ops_len.symm) main_v562 rfl rfl (by decide) later_857
theorem later_855 : Later (τ := τ) (ops (F := F)) 6 855 := Later.step 855 (Nat.lt_of_lt_of_eq (by decide : 855 < 1293) ops_len.symm) main_c_181 rfl rfl (by decide) later_856
theorem later_854 : Later (τ := τ) (ops (F := F)) 6 854 := Later.step 854 (Nat.lt_of_lt_of_eq (by decide : 854 < 1293) ops_len.symm) main_v561 rfl rfl (by decide) later_855
theorem later_853 : Later (τ := τ) (ops (F := F)) 6 853 := Later.step 853 (Nat.lt_of_lt_of_eq (by decide : 853 < 1293) ops_len.symm) main_v560 rfl rfl (by decide) later_854
theorem later_852 : Later (τ := τ) (ops (F := F)) 6 852 := Later.step 852 (Nat.lt_of_lt_of_eq (by decide : 852 < 1293) ops_len.symm) main_c_180 rfl rfl (by decide) later_853
theorem later_851 : Later (τ := τ) (ops (F := F)) 6 851 := Later.step 851 (Nat.lt_of_lt_of_eq (by decide : 851 < 1293) ops_len.symm) main_v559 rfl rfl (by decide) later_852
theorem later_850 : Later (τ := τ) (ops (F := F)) 6 850 := Later.step 850 (Nat.lt_of_lt_of_eq (by decide : 850 < 1293) ops_len.symm) main_v558 rfl rfl (by decide) later_851
theorem later_849 : Later (τ := τ) (ops (F := F)) 6 849 := Later.step 849 (Nat.lt_of_lt_of_eq (by decide : 849 < 1293) ops_len.symm) main_v557 rfl rfl (by decide) later_850
theorem later_848 : Later (τ := τ) (ops (F := F)) 6 848 := Later.step 848 (Nat.lt_of_lt_of_eq (by decide : 848 < 1293) ops_len.symm) main_c_179 rfl rfl (by decide) later_849
theorem later_847 : Later (τ := τ) (ops (F := F)) 6 847 := Later.step 847 (Nat.lt_of_lt_of_eq (by decide : 847 < 1293) ops_len.symm) main_v556 rfl rfl (by decide) later_848
theorem later_846 : Later (τ := τ) (ops (F := F)) 6 846 := Later.step 846 (Nat.lt_of_lt_of_eq (by decide : 846 < 1293) ops_len.symm) main_v555 rfl rfl (by decide) later_847
theorem later_845 : Later (τ := τ) (ops (F := F)) 6 845 := Later.step 845 (Nat.lt_of_lt_of_eq (by decide : 845 < 1293) ops_len.symm) main_c_178 rfl rfl (by decide) later_846
theorem later_844 : Later (τ := τ) (ops (F := F)) 6 844 := Later.step 844 (Nat.lt_of_lt_of_eq (by decide : 844 < 1293) ops_len.symm) main_v554 rfl rfl (by decide) later_845
theorem later_843 : Later (τ := τ) (ops (F := F)) 6 843 := Later.step 843 (Nat.lt_of_lt_of_eq (by decide : 843 < 1293) ops_len.symm) main_v553 rfl rfl (by decide) later_844
theorem later_842 : Later (τ := τ) (ops (F := F)) 6 842 := Later.step 842 (Nat.lt_of_lt_of_eq (by decide : 842 < 1293) ops_len.symm) main_v552 rfl rfl (by decide) later_843
theorem later_841 : Later (τ := τ) (ops (F := F)) 6 841 := Later.step 841 (Nat.lt_of_lt_of_eq (by decide : 841 < 1293) ops_len.symm) main_c_177 rfl rfl (by decide) later_842
theorem later_840 : Later (τ := τ) (ops (F := F)) 6 840 := Later.step 840 (Nat.lt_of_lt_of_eq (by decide : 840 < 1293) ops_len.symm) main_v551 rfl rfl (by decide) later_841
theorem later_839 : Later (τ := τ) (ops (F := F)) 6 839 := Later.step 839 (Nat.lt_of_lt_of_eq (by decide : 839 < 1293) ops_len.symm) main_v550 rfl rfl (by decide) later_840
theorem later_838 : Later (τ := τ) (ops (F := F)) 6 838 := Later.step 838 (Nat.lt_of_lt_of_eq (by decide : 838 < 1293) ops_len.symm) main_c_176 rfl rfl (by decide) later_839
theorem later_837 : Later (τ := τ) (ops (F := F)) 6 837 := Later.step 837 (Nat.lt_of_lt_of_eq (by decide : 837 < 1293) ops_len.symm) main_v549 rfl rfl (by decide) later_838
theorem later_836 : Later (τ := τ) (ops (F := F)) 6 836 := Later.step 836 (Nat.lt_of_lt_of_eq (by decide : 836 < 1293) ops_len.symm) main_v548 rfl rfl (by decide) later_837
theorem later_835 : Later (τ := τ) (ops (F := F)) 6 835 := Later.step 835 (Nat.lt_of_lt_of_eq (by decide : 835 < 1293) ops_len.symm) main_call21_v4 rfl rfl (by decide) later_836
theorem later_834 : Later (τ := τ) (ops (F := F)) 6 834 := Later.step 834 (Nat.lt_of_lt_of_eq (by decide : 834 < 1293) ops_len.symm) main_call21_v3 rfl rfl (by decide) later_835
theorem later_833 : Later (τ := τ) (ops (F := F)) 6 833 := Later.step 833 (Nat.lt_of_lt_of_eq (by decide : 833 < 1293) ops_len.symm) main_call21_v2 rfl rfl (by decide) later_834
theorem later_832 : Later (τ := τ) (ops (F := F)) 6 832 := Later.step 832 (Nat.lt_of_lt_of_eq (by decide : 832 < 1293) ops_len.symm) main_call21_v1 rfl rfl (by decide) later_833
theorem later_831 : Later (τ := τ) (ops (F := F)) 6 831 := Later.step 831 (Nat.lt_of_lt_of_eq (by decide : 831 < 1293) ops_len.symm) main_call21_v0 rfl rfl (by decide) later_832
theorem later_830 : Later (τ := τ) (ops (F := F)) 6 830 := Later.step 830 (Nat.lt_of_lt_of_eq (by decide : 830 < 1293) ops_len.symm) main_c_175 rfl rfl (by decide) later_831
theorem later_829 : Later (τ := τ) (ops (F := F)) 6 829 := Later.step 829 (Nat.lt_of_lt_of_eq (by decide : 829 < 1293) ops_len.symm) main_c_174 rfl rfl (by decide) later_830
theorem later_828 : Later (τ := τ) (ops (F := F)) 6 828 := Later.step 828 (Nat.lt_of_lt_of_eq (by decide : 828 < 1293) ops_len.symm) main_v547 rfl rfl (by decide) later_829
theorem later_827 : Later (τ := τ) (ops (F := F)) 6 827 := Later.step 827 (Nat.lt_of_lt_of_eq (by decide : 827 < 1293) ops_len.symm) main_call20_v4 rfl rfl (by decide) later_828
theorem later_826 : Later (τ := τ) (ops (F := F)) 6 826 := Later.step 826 (Nat.lt_of_lt_of_eq (by decide : 826 < 1293) ops_len.symm) main_call20_v3 rfl rfl (by decide) later_827
theorem later_825 : Later (τ := τ) (ops (F := F)) 6 825 := Later.step 825 (Nat.lt_of_lt_of_eq (by decide : 825 < 1293) ops_len.symm) main_call20_v2 rfl rfl (by decide) later_826
theorem later_824 : Later (τ := τ) (ops (F := F)) 6 824 := Later.step 824 (Nat.lt_of_lt_of_eq (by decide : 824 < 1293) ops_len.symm) main_call20_v1 rfl rfl (by decide) later_825
theorem later_823 : Later (τ := τ) (ops (F := F)) 6 823 := Later.step 823 (Nat.lt_of_lt_of_eq (by decide : 823 < 1293) ops_len.symm) main_call20_v0 rfl rfl (by decide) later_824
theorem later_822 : Later (τ := τ) (ops (F := F)) 6 822 := Later.step 822 (Nat.lt_of_lt_of_eq (by decide : 822 < 1293) ops_len.symm) main_c_173 rfl rfl (by decide) later_823
theorem later_821 : Later (τ := τ) (ops (F := F)) 6 821 := Later.step 821 (Nat.lt_of_lt_of_eq (by decide : 821 < 1293) ops_len.symm) main_c_172 rfl rfl (by decide) later_822
theorem later_820 : Later (τ := τ) (ops (F := F)) 6 820 := Later.step 820 (Nat.lt_of_lt_of_eq (by decide : 820 < 1293) ops_len.symm) main_v546 rfl rfl (by decide) later_821
theorem later_819 : Later (τ := τ) (ops (F := F)) 6 819 := Later.step 819 (Nat.lt_of_lt_of_eq (by decide : 819 < 1293) ops_len.symm) main_v545 rfl rfl (by decide) later_820
theorem later_818 : Later (τ := τ) (ops (F := F)) 6 818 := Later.step 818 (Nat.lt_of_lt_of_eq (by decide : 818 < 1293) ops_len.symm) main_v544 rfl rfl (by decide) later_819
theorem later_817 : Later (τ := τ) (ops (F := F)) 6 817 := Later.step 817 (Nat.lt_of_lt_of_eq (by decide : 817 < 1293) ops_len.symm) main_c_171 rfl rfl (by decide) later_818
theorem later_816 : Later (τ := τ) (ops (F := F)) 6 816 := Later.step 816 (Nat.lt_of_lt_of_eq (by decide : 816 < 1293) ops_len.symm) main_v543 rfl rfl (by decide) later_817
theorem later_815 : Later (τ := τ) (ops (F := F)) 6 815 := Later.step 815 (Nat.lt_of_lt_of_eq (by decide : 815 < 1293) ops_len.symm) main_v542 rfl rfl (by decide) later_816
theorem later_814 : Later (τ := τ) (ops (F := F)) 6 814 := Later.step 814 (Nat.lt_of_lt_of_eq (by decide : 814 < 1293) ops_len.symm) main_v541 rfl rfl (by decide) later_815
theorem later_813 : Later (τ := τ) (ops (F := F)) 6 813 := Later.step 813 (Nat.lt_of_lt_of_eq (by decide : 813 < 1293) ops_len.symm) main_c_170 rfl rfl (by decide) later_814
theorem later_812 : Later (τ := τ) (ops (F := F)) 6 812 := Later.step 812 (Nat.lt_of_lt_of_eq (by decide : 812 < 1293) ops_len.symm) main_v540 rfl rfl (by decide) later_813
theorem later_811 : Later (τ := τ) (ops (F := F)) 6 811 := Later.step 811 (Nat.lt_of_lt_of_eq (by decide : 811 < 1293) ops_len.symm) main_v539 rfl rfl (by decide) later_812
theorem later_810 : Later (τ := τ) (ops (F := F)) 6 810 := Later.step 810 (Nat.lt_of_lt_of_eq (by decide : 810 < 1293) ops_len.symm) main_v538 rfl rfl (by decide) later_811
theorem later_809 : Later (τ := τ) (ops (F := F)) 6 809 := Later.step 809 (Nat.lt_of_lt_of_eq (by decide : 809 < 1293) ops_len.symm) main_c_169 rfl rfl (by decide) later_810
theorem later_808 : Later (τ := τ) (ops (F := F)) 6 808 := Later.step 808 (Nat.lt_of_lt_of_eq (by decide : 808 < 1293) ops_len.symm) main_v537 rfl rfl (by decide) later_809
theorem later_807 : Later (τ := τ) (ops (F := F)) 6 807 := Later.step 807 (Nat.lt_of_lt_of_eq (by decide : 807 < 1293) ops_len.symm) main_v536 rfl rfl (by decide) later_808
theorem later_806 : Later (τ := τ) (ops (F := F)) 6 806 := Later.step 806 (Nat.lt_of_lt_of_eq (by decide : 806 < 1293) ops_len.symm) main_c_168 rfl rfl (by decide) later_807
theorem later_805 : Later (τ := τ) (ops (F := F)) 6 805 := Later.step 805 (Nat.lt_of_lt_of_eq (by decide : 805 < 1293) ops_len.symm) main_v535 rfl rfl (by decide) later_806
theorem later_804 : Later (τ := τ) (ops (F := F)) 6 804 := Later.step 804 (Nat.lt_of_lt_of_eq (by decide : 804 < 1293) ops_len.symm) main_v534 rfl rfl (by decide) later_805
theorem later_803 : Later (τ := τ) (ops (F := F)) 6 803 := Later.step 803 (Nat.lt_of_lt_of_eq (by decide : 803 < 1293) ops_len.symm) main_c_167 rfl rfl (by decide) later_804
theorem later_802 : Later (τ := τ) (ops (F := F)) 6 802 := Later.step 802 (Nat.lt_of_lt_of_eq (by decide : 802 < 1293) ops_len.symm) main_v533 rfl rfl (by decide) later_803
theorem later_801 : Later (τ := τ) (ops (F := F)) 6 801 := Later.step 801 (Nat.lt_of_lt_of_eq (by decide : 801 < 1293) ops_len.symm) main_v532 rfl rfl (by decide) later_802
theorem later_800 : Later (τ := τ) (ops (F := F)) 6 800 := Later.step 800 (Nat.lt_of_lt_of_eq (by decide : 800 < 1293) ops_len.symm) main_v531 rfl rfl (by decide) later_801
theorem later_799 : Later (τ := τ) (ops (F := F)) 6 799 := Later.step 799 (Nat.lt_of_lt_of_eq (by decide : 799 < 1293) ops_len.symm) main_v530 rfl rfl (by decide) later_800
theorem later_798 : Later (τ := τ) (ops (F := F)) 6 798 := Later.step 798 (Nat.lt_of_lt_of_eq (by decide : 798 < 1293) ops_len.symm) main_v529 rfl rfl (by decide) later_799
theorem later_797 : Later (τ := τ) (ops (F := F)) 6 797 := Later.step 797 (Nat.lt_of_lt_of_eq (by decide : 797 < 1293) ops_len.symm) main_v528 rfl rfl (by decide) later_798
theorem later_796 : Later (τ := τ) (ops (F := F)) 6 796 := Later.step 796 (Nat.lt_of_lt_of_eq (by decide : 796 < 1293) ops_len.symm) main_v527 rfl rfl (by decide) later_797
theorem later_795 : Later (τ := τ) (ops (F := F)) 6 795 := Later.step 795 (Nat.lt_of_lt_of_eq (by decide : 795 < 1293) ops_len.symm) main_v526 rfl rfl (by decide) later_796
theorem later_794 : Later (τ := τ) (ops (F := F)) 6 794 := Later.step 794 (Nat.lt_of_lt_of_eq (by decide : 794 < 1293) ops_len.symm) main_v525 rfl rfl (by decide) later_795
theorem later_793 : Later (τ := τ) (ops (F := F)) 6 793 := Later.step 793 (Nat.lt_of_lt_of_eq (by decide : 793 < 1293) ops_len.symm) main_v524 rfl rfl (by decide) later_794
theorem later_792 : Later (τ := τ) (ops (F := F)) 6 792 := Later.step 792 (Nat.lt_of_lt_of_eq (by decide : 792 < 1293) ops_len.symm) main_v523 rfl rfl (by decide) later_793
theorem later_791 : Later (τ := τ) (ops (F := F)) 6 791 := Later.step 791 (Nat.lt_of_lt_of_eq (by decide : 791 < 1293) ops_len.symm) main_v522 rfl rfl (by decide) later_792
theorem later_790 : Later (τ := τ) (ops (F := F)) 6 790 := Later.step 790 (Nat.lt_of_lt_of_eq (by decide : 790 < 1293) ops_len.symm) main_v521 rfl rfl (by decide) later_791
theorem later_789 : Later (τ := τ) (ops (F := F)) 6 789 := Later.step 789 (Nat.lt_of_lt_of_eq (by decide : 789 < 1293) ops_len.symm) main_c_166 rfl rfl (by decide) later_790
theorem later_788 : Later (τ := τ) (ops (F := F)) 6 788 := Later.step 788 (Nat.lt_of_lt_of_eq (by decide : 788 < 1293) ops_len.symm) main_v520 rfl rfl (by decide) later_789
theorem later_787 : Later (τ := τ) (ops (F := F)) 6 787 := Later.step 787 (Nat.lt_of_lt_of_eq (by decide : 787 < 1293) ops_len.symm) main_v519 rfl rfl (by decide) later_788
theorem later_786 : Later (τ := τ) (ops (F := F)) 6 786 := Later.step 786 (Nat.lt_of_lt_of_eq (by decide : 786 < 1293) ops_len.symm) main_c_165 rfl rfl (by decide) later_787
theorem later_785 : Later (τ := τ) (ops (F := F)) 6 785 := Later.step 785 (Nat.lt_of_lt_of_eq (by decide : 785 < 1293) ops_len.symm) main_v518 rfl rfl (by decide) later_786
theorem later_784 : Later (τ := τ) (ops (F := F)) 6 784 := Later.step 784 (Nat.lt_of_lt_of_eq (by decide : 784 < 1293) ops_len.symm) main_v517 rfl rfl (by decide) later_785
theorem later_783 : Later (τ := τ) (ops (F := F)) 6 783 := Later.step 783 (Nat.lt_of_lt_of_eq (by decide : 783 < 1293) ops_len.symm) main_v516 rfl rfl (by decide) later_784
theorem later_782 : Later (τ := τ) (ops (F := F)) 6 782 := Later.step 782 (Nat.lt_of_lt_of_eq (by decide : 782 < 1293) ops_len.symm) main_c_164 rfl rfl (by decide) later_783
theorem later_781 : Later (τ := τ) (ops (F := F)) 6 781 := Later.step 781 (Nat.lt_of_lt_of_eq (by decide : 781 < 1293) ops_len.symm) main_v515 rfl rfl (by decide) later_782
theorem later_780 : Later (τ := τ) (ops (F := F)) 6 780 := Later.step 780 (Nat.lt_of_lt_of_eq (by decide : 780 < 1293) ops_len.symm) main_v514 rfl rfl (by decide) later_781
theorem later_779 : Later (τ := τ) (ops (F := F)) 6 779 := Later.step 779 (Nat.lt_of_lt_of_eq (by decide : 779 < 1293) ops_len.symm) main_c_163 rfl rfl (by decide) later_780
theorem later_778 : Later (τ := τ) (ops (F := F)) 6 778 := Later.step 778 (Nat.lt_of_lt_of_eq (by decide : 778 < 1293) ops_len.symm) main_v513 rfl rfl (by decide) later_779
theorem later_777 : Later (τ := τ) (ops (F := F)) 6 777 := Later.step 777 (Nat.lt_of_lt_of_eq (by decide : 777 < 1293) ops_len.symm) main_v512 rfl rfl (by decide) later_778
theorem later_776 : Later (τ := τ) (ops (F := F)) 6 776 := Later.step 776 (Nat.lt_of_lt_of_eq (by decide : 776 < 1293) ops_len.symm) main_v511 rfl rfl (by decide) later_777
theorem later_775 : Later (τ := τ) (ops (F := F)) 6 775 := Later.step 775 (Nat.lt_of_lt_of_eq (by decide : 775 < 1293) ops_len.symm) main_c_162 rfl rfl (by decide) later_776
theorem later_774 : Later (τ := τ) (ops (F := F)) 6 774 := Later.step 774 (Nat.lt_of_lt_of_eq (by decide : 774 < 1293) ops_len.symm) main_v510 rfl rfl (by decide) later_775
theorem later_773 : Later (τ := τ) (ops (F := F)) 6 773 := Later.step 773 (Nat.lt_of_lt_of_eq (by decide : 773 < 1293) ops_len.symm) main_v509 rfl rfl (by decide) later_774
theorem later_772 : Later (τ := τ) (ops (F := F)) 6 772 := Later.step 772 (Nat.lt_of_lt_of_eq (by decide : 772 < 1293) ops_len.symm) main_c_161 rfl rfl (by decide) later_773
theorem later_771 : Later (τ := τ) (ops (F := F)) 6 771 := Later.step 771 (Nat.lt_of_lt_of_eq (by decide : 771 < 1293) ops_len.symm) main_v508 rfl rfl (by decide) later_772
theorem later_770 : Later (τ := τ) (ops (F := F)) 6 770 := Later.step 770 (Nat.lt_of_lt_of_eq (by decide : 770 < 1293) ops_len.symm) main_v507 rfl rfl (by decide) later_771
theorem later_769 : Later (τ := τ) (ops (F := F)) 6 769 := Later.step 769 (Nat.lt_of_lt_of_eq (by decide : 769 < 1293) ops_len.symm) main_call19_v4 rfl rfl (by decide) later_770
theorem later_768 : Later (τ := τ) (ops (F := F)) 6 768 := Later.step 768 (Nat.lt_of_lt_of_eq (by decide : 768 < 1293) ops_len.symm) main_call19_v3 rfl rfl (by decide) later_769
theorem later_767 : Later (τ := τ) (ops (F := F)) 6 767 := Later.step 767 (Nat.lt_of_lt_of_eq (by decide : 767 < 1293) ops_len.symm) main_call19_v2 rfl rfl (by decide) later_768
theorem later_766 : Later (τ := τ) (ops (F := F)) 6 766 := Later.step 766 (Nat.lt_of_lt_of_eq (by decide : 766 < 1293) ops_len.symm) main_call19_v1 rfl rfl (by decide) later_767
theorem later_765 : Later (τ := τ) (ops (F := F)) 6 765 := Later.step 765 (Nat.lt_of_lt_of_eq (by decide : 765 < 1293) ops_len.symm) main_call19_v0 rfl rfl (by decide) later_766
theorem later_764 : Later (τ := τ) (ops (F := F)) 6 764 := Later.step 764 (Nat.lt_of_lt_of_eq (by decide : 764 < 1293) ops_len.symm) main_c_160 rfl rfl (by decide) later_765
theorem later_763 : Later (τ := τ) (ops (F := F)) 6 763 := Later.step 763 (Nat.lt_of_lt_of_eq (by decide : 763 < 1293) ops_len.symm) main_c_159 rfl rfl (by decide) later_764
theorem later_762 : Later (τ := τ) (ops (F := F)) 6 762 := Later.step 762 (Nat.lt_of_lt_of_eq (by decide : 762 < 1293) ops_len.symm) main_v506 rfl rfl (by decide) later_763
theorem later_761 : Later (τ := τ) (ops (F := F)) 6 761 := Later.step 761 (Nat.lt_of_lt_of_eq (by decide : 761 < 1293) ops_len.symm) main_call18_v4 rfl rfl (by decide) later_762
theorem later_760 : Later (τ := τ) (ops (F := F)) 6 760 := Later.step 760 (Nat.lt_of_lt_of_eq (by decide : 760 < 1293) ops_len.symm) main_call18_v3 rfl rfl (by decide) later_761
theorem later_759 : Later (τ := τ) (ops (F := F)) 6 759 := Later.step 759 (Nat.lt_of_lt_of_eq (by decide : 759 < 1293) ops_len.symm) main_call18_v2 rfl rfl (by decide) later_760
theorem later_758 : Later (τ := τ) (ops (F := F)) 6 758 := Later.step 758 (Nat.lt_of_lt_of_eq (by decide : 758 < 1293) ops_len.symm) main_call18_v1 rfl rfl (by decide) later_759
theorem later_757 : Later (τ := τ) (ops (F := F)) 6 757 := Later.step 757 (Nat.lt_of_lt_of_eq (by decide : 757 < 1293) ops_len.symm) main_call18_v0 rfl rfl (by decide) later_758
theorem later_756 : Later (τ := τ) (ops (F := F)) 6 756 := Later.step 756 (Nat.lt_of_lt_of_eq (by decide : 756 < 1293) ops_len.symm) main_c_158 rfl rfl (by decide) later_757
theorem later_755 : Later (τ := τ) (ops (F := F)) 6 755 := Later.step 755 (Nat.lt_of_lt_of_eq (by decide : 755 < 1293) ops_len.symm) main_c_157 rfl rfl (by decide) later_756
theorem later_754 : Later (τ := τ) (ops (F := F)) 6 754 := Later.step 754 (Nat.lt_of_lt_of_eq (by decide : 754 < 1293) ops_len.symm) main_v505 rfl rfl (by decide) later_755
theorem later_753 : Later (τ := τ) (ops (F := F)) 6 753 := Later.step 753 (Nat.lt_of_lt_of_eq (by decide : 753 < 1293) ops_len.symm) main_v504 rfl rfl (by decide) later_754
theorem later_752 : Later (τ := τ) (ops (F := F)) 6 752 := Later.step 752 (Nat.lt_of_lt_of_eq (by decide : 752 < 1293) ops_len.symm) main_v503 rfl rfl (by decide) later_753
theorem later_751 : Later (τ := τ) (ops (F := F)) 6 751 := Later.step 751 (Nat.lt_of_lt_of_eq (by decide : 751 < 1293) ops_len.symm) main_c_156 rfl rfl (by decide) later_752
theorem later_750 : Later (τ := τ) (ops (F := F)) 6 750 := Later.step 750 (Nat.lt_of_lt_of_eq (by decide : 750 < 1293) ops_len.symm) main_v502 rfl rfl (by decide) later_751
theorem later_749 : Later (τ := τ) (ops (F := F)) 6 749 := Later.step 749 (Nat.lt_of_lt_of_eq (by decide : 749 < 1293) ops_len.symm) main_v501 rfl rfl (by decide) later_750
theorem later_748 : Later (τ := τ) (ops (F := F)) 6 748 := Later.step 748 (Nat.lt_of_lt_of_eq (by decide : 748 < 1293) ops_len.symm) main_v500 rfl rfl (by decide) later_749
theorem later_747 : Later (τ := τ) (ops (F := F)) 6 747 := Later.step 747 (Nat.lt_of_lt_of_eq (by decide : 747 < 1293) ops_len.symm) main_c_155 rfl rfl (by decide) later_748
theorem later_746 : Later (τ := τ) (ops (F := F)) 6 746 := Later.step 746 (Nat.lt_of_lt_of_eq (by decide : 746 < 1293) ops_len.symm) main_v499 rfl rfl (by decide) later_747
theorem later_745 : Later (τ := τ) (ops (F := F)) 6 745 := Later.step 745 (Nat.lt_of_lt_of_eq (by decide : 745 < 1293) ops_len.symm) main_v498 rfl rfl (by decide) later_746
theorem later_744 : Later (τ := τ) (ops (F := F)) 6 744 := Later.step 744 (Nat.lt_of_lt_of_eq (by decide : 744 < 1293) ops_len.symm) main_v497 rfl rfl (by decide) later_745
theorem later_743 : Later (τ := τ) (ops (F := F)) 6 743 := Later.step 743 (Nat.lt_of_lt_of_eq (by decide : 743 < 1293) ops_len.symm) main_c_154 rfl rfl (by decide) later_744
theorem later_742 : Later (τ := τ) (ops (F := F)) 6 742 := Later.step 742 (Nat.lt_of_lt_of_eq (by decide : 742 < 1293) ops_len.symm) main_v496 rfl rfl (by decide) later_743
theorem later_741 : Later (τ := τ) (ops (F := F)) 6 741 := Later.step 741 (Nat.lt_of_lt_of_eq (by decide : 741 < 1293) ops_len.symm) main_v495 rfl rfl (by decide) later_742
theorem later_740 : Later (τ := τ) (ops (F := F)) 6 740 := Later.step 740 (Nat.lt_of_lt_of_eq (by decide : 740 < 1293) ops_len.symm) main_c_153 rfl rfl (by decide) later_741
theorem later_739 : Later (τ := τ) (ops (F := F)) 6 739 := Later.step 739 (Nat.lt_of_lt_of_eq (by decide : 739 < 1293) ops_len.symm) main_v494 rfl rfl (by decide) later_740
theorem later_738 : Later (τ := τ) (ops (F := F)) 6 738 := Later.step 738 (Nat.lt_of_lt_of_eq (by decide : 738 < 1293) ops_len.symm) main_v493 rfl rfl (by decide) later_739
theorem later_737 : Later (τ := τ) (ops (F := F)) 6 737 := Later.step 737 (Nat.lt_of_lt_of_eq (by decide : 737 < 1293) ops_len.symm) main_c_152 rfl rfl (by decide) later_738
theorem later_736 : Later (τ := τ) (ops (F := F)) 6 736 := Later.step 736 (Nat.lt_of_lt_of_eq (by decide : 736 < 1293) ops_len.symm) main_v492 rfl rfl (by decide) later_737
theorem later_735 : Later (τ := τ) (ops (F := F)) 6 735 := Later.step 735 (Nat.lt_of_lt_of_eq (by decide : 735 < 1293) ops_len.symm) main_v491 rfl rfl (by decide) later_736
theorem later_734 : Later (τ := τ) (ops (F := F)) 6 734 := Later.step 734 (Nat.lt_of_lt_of_eq (by decide : 734 < 1293) ops_len.symm) main_v490 rfl rfl (by decide) later_735
theorem later_733 : Later (τ := τ) (ops (F := F)) 6 733 := Later.step 733 (Nat.lt_of_lt_of_eq (by decide : 733 < 1293) ops_len.symm) main_v489 rfl rfl (by decide) later_734
theorem later_732 : Later (τ := τ) (ops (F := F)) 6 732 := Later.step 732 (Nat.lt_of_lt_of_eq (by decide : 732 < 1293) ops_len.symm) main_v488 rfl rfl (by decide) later_733
theorem later_731 : Later (τ := τ) (ops (F := F)) 6 731 := Later.step 731 (Nat.lt_of_lt_of_eq (by decide : 731 < 1293) ops_len.symm) main_v487 rfl rfl (by decide) later_732
theorem later_730 : Later (τ := τ) (ops (F := F)) 6 730 := Later.step 730 (Nat.lt_of_lt_of_eq (by decide : 730 < 1293) ops_len.symm) main_v486 rfl rfl (by decide) later_731
theorem later_729 : Later (τ := τ) (ops (F := F)) 6 729 := Later.step 729 (Nat.lt_of_lt_of_eq (by decide : 729 < 1293) ops_len.symm) main_v485 rfl rfl (by decide) later_730
theorem later_728 : Later (τ := τ) (ops (F := F)) 6 728 := Later.step 728 (Nat.lt_of_lt_of_eq (by decide : 728 < 1293) ops_len.symm) main_v484 rfl rfl (by decide) later_729
theorem later_727 : Later (τ := τ) (ops (F := F)) 6 727 := Later.step 727 (Nat.lt_of_lt_of_eq (by decide : 727 < 1293) ops_len.symm) main_v483 rfl rfl (by decide) later_728
theorem later_726 : Later (τ := τ) (ops (F := F)) 6 726 := Later.step 726 (Nat.lt_of_lt_of_eq (by decide : 726 < 1293) ops_len.symm) main_v482 rfl rfl (by decide) later_727
theorem later_725 : Later (τ := τ) (ops (F := F)) 6 725 := Later.step 725 (Nat.lt_of_lt_of_eq (by decide : 725 < 1293) ops_len.symm) main_v481 rfl rfl (by decide) later_726
theorem later_724 : Later (τ := τ) (ops (F := F)) 6 724 := Later.step 724 (Nat.lt_of_lt_of_eq (by decide : 724 < 1293) ops_len.symm) main_v480 rfl rfl (by decide) later_725
theorem later_723 : Later (τ := τ) (ops (F := F)) 6 723 := Later.step 723 (Nat.lt_of_lt_of_eq (by decide : 723 < 1293) ops_len.symm) main_c_151 rfl rfl (by decide) later_724
theorem later_722 : Later (τ := τ) (ops (F := F)) 6 722 := Later.step 722 (Nat.lt_of_lt_of_eq (by decide : 722 < 1293) ops_len.symm) main_v479 rfl rfl (by decide) later_723
theorem later_721 : Later (τ := τ) (ops (F := F)) 6 721 := Later.step 721 (Nat.lt_of_lt_of_eq (by decide : 721 < 1293) ops_len.symm) main_v478 rfl rfl (by decide) later_722
theorem later_720 : Later (τ := τ) (ops (F := F)) 6 720 := Later.step 720 (Nat.lt_of_lt_of_eq (by decide : 720 < 1293) ops_len.symm) main_c_150 rfl rfl (by decide) later_721
theorem later_719 : Later (τ := τ) (ops (F := F)) 6 719 := Later.step 719 (Nat.lt_of_lt_of_eq (by decide : 719 < 1293) ops_len.symm) main_v477 rfl rfl (by decide) later_720
theorem later_718 : Later (τ := τ) (ops (F := F)) 6 718 := Later.step 718 (Nat.lt_of_lt_of_eq (by decide : 718 < 1293) ops_len.symm) main_v476 rfl rfl (by decide) later_719
theorem later_717 : Later (τ := τ) (ops (F := F)) 6 717 := Later.step 717 (Nat.lt_of_lt_of_eq (by decide : 717 < 1293) ops_len.symm) main_v475 rfl rfl (by decide) later_718
theorem later_716 : Later (τ := τ) (ops (F := F)) 6 716 := Later.step 716 (Nat.lt_of_lt_of_eq (by decide : 716 < 1293) ops_len.symm) main_c_149 rfl rfl (by decide) later_717
theorem later_715 : Later (τ := τ) (ops (F := F)) 6 715 := Later.step 715 (Nat.lt_of_lt_of_eq (by decide : 715 < 1293) ops_len.symm) main_v474 rfl rfl (by decide) later_716
theorem later_714 : Later (τ := τ) (ops (F := F)) 6 714 := Later.step 714 (Nat.lt_of_lt_of_eq (by decide : 714 < 1293) ops_len.symm) main_v473 rfl rfl (by decide) later_715
theorem later_713 : Later (τ := τ) (ops (F := F)) 6 713 := Later.step 713 (Nat.lt_of_lt_of_eq (by decide : 713 < 1293) ops_len.symm) main_c_148 rfl rfl (by decide) later_714
theorem later_712 : Later (τ := τ) (ops (F := F)) 6 712 := Later.step 712 (Nat.lt_of_lt_of_eq (by decide : 712 < 1293) ops_len.symm) main_v472 rfl rfl (by decide) later_713
theorem later_711 : Later (τ := τ) (ops (F := F)) 6 711 := Later.step 711 (Nat.lt_of_lt_of_eq (by decide : 711 < 1293) ops_len.symm) main_v471 rfl rfl (by decide) later_712
theorem later_710 : Later (τ := τ) (ops (F := F)) 6 710 := Later.step 710 (Nat.lt_of_lt_of_eq (by decide : 710 < 1293) ops_len.symm) main_v470 rfl rfl (by decide) later_711
theorem later_709 : Later (τ := τ) (ops (F := F)) 6 709 := Later.step 709 (Nat.lt_of_lt_of_eq (by decide : 709 < 1293) ops_len.symm) main_c_147 rfl rfl (by decide) later_710
theorem later_708 : Later (τ := τ) (ops (F := F)) 6 708 := Later.step 708 (Nat.lt_of_lt_of_eq (by decide : 708 < 1293) ops_len.symm) main_v469 rfl rfl (by decide) later_709
theorem later_707 : Later (τ := τ) (ops (F := F)) 6 707 := Later.step 707 (Nat.lt_of_lt_of_eq (by decide : 707 < 1293) ops_len.symm) main_v468 rfl rfl (by decide) later_708
theorem later_706 : Later (τ := τ) (ops (F := F)) 6 706 := Later.step 706 (Nat.lt_of_lt_of_eq (by decide : 706 < 1293) ops_len.symm) main_c_146 rfl rfl (by decide) later_707
theorem later_705 : Later (τ := τ) (ops (F := F)) 6 705 := Later.step 705 (Nat.lt_of_lt_of_eq (by decide : 705 < 1293) ops_len.symm) main_v467 rfl rfl (by decide) later_706
theorem later_704 : Later (τ := τ) (ops (F := F)) 6 704 := Later.step 704 (Nat.lt_of_lt_of_eq (by decide : 704 < 1293) ops_len.symm) main_v466 rfl rfl (by decide) later_705
theorem later_703 : Later (τ := τ) (ops (F := F)) 6 703 := Later.step 703 (Nat.lt_of_lt_of_eq (by decide : 703 < 1293) ops_len.symm) main_call17_v4 rfl rfl (by decide) later_704
theorem later_702 : Later (τ := τ) (ops (F := F)) 6 702 := Later.step 702 (Nat.lt_of_lt_of_eq (by decide : 702 < 1293) ops_len.symm) main_call17_v3 rfl rfl (by decide) later_703
theorem later_701 : Later (τ := τ) (ops (F := F)) 6 701 := Later.step 701 (Nat.lt_of_lt_of_eq (by decide : 701 < 1293) ops_len.symm) main_call17_v2 rfl rfl (by decide) later_702
theorem later_700 : Later (τ := τ) (ops (F := F)) 6 700 := Later.step 700 (Nat.lt_of_lt_of_eq (by decide : 700 < 1293) ops_len.symm) main_call17_v1 rfl rfl (by decide) later_701
theorem later_699 : Later (τ := τ) (ops (F := F)) 6 699 := Later.step 699 (Nat.lt_of_lt_of_eq (by decide : 699 < 1293) ops_len.symm) main_call17_v0 rfl rfl (by decide) later_700
theorem later_698 : Later (τ := τ) (ops (F := F)) 6 698 := Later.step 698 (Nat.lt_of_lt_of_eq (by decide : 698 < 1293) ops_len.symm) main_c_145 rfl rfl (by decide) later_699
theorem later_697 : Later (τ := τ) (ops (F := F)) 6 697 := Later.step 697 (Nat.lt_of_lt_of_eq (by decide : 697 < 1293) ops_len.symm) main_c_144 rfl rfl (by decide) later_698
theorem later_696 : Later (τ := τ) (ops (F := F)) 6 696 := Later.step 696 (Nat.lt_of_lt_of_eq (by decide : 696 < 1293) ops_len.symm) main_v465 rfl rfl (by decide) later_697
theorem later_695 : Later (τ := τ) (ops (F := F)) 6 695 := Later.step 695 (Nat.lt_of_lt_of_eq (by decide : 695 < 1293) ops_len.symm) main_call16_v4 rfl rfl (by decide) later_696
theorem later_694 : Later (τ := τ) (ops (F := F)) 6 694 := Later.step 694 (Nat.lt_of_lt_of_eq (by decide : 694 < 1293) ops_len.symm) main_call16_v3 rfl rfl (by decide) later_695
theorem later_693 : Later (τ := τ) (ops (F := F)) 6 693 := Later.step 693 (Nat.lt_of_lt_of_eq (by decide : 693 < 1293) ops_len.symm) main_call16_v2 rfl rfl (by decide) later_694
theorem later_692 : Later (τ := τ) (ops (F := F)) 6 692 := Later.step 692 (Nat.lt_of_lt_of_eq (by decide : 692 < 1293) ops_len.symm) main_call16_v1 rfl rfl (by decide) later_693
theorem later_691 : Later (τ := τ) (ops (F := F)) 6 691 := Later.step 691 (Nat.lt_of_lt_of_eq (by decide : 691 < 1293) ops_len.symm) main_call16_v0 rfl rfl (by decide) later_692
theorem later_690 : Later (τ := τ) (ops (F := F)) 6 690 := Later.step 690 (Nat.lt_of_lt_of_eq (by decide : 690 < 1293) ops_len.symm) main_c_143 rfl rfl (by decide) later_691
theorem later_689 : Later (τ := τ) (ops (F := F)) 6 689 := Later.step 689 (Nat.lt_of_lt_of_eq (by decide : 689 < 1293) ops_len.symm) main_c_142 rfl rfl (by decide) later_690
theorem later_688 : Later (τ := τ) (ops (F := F)) 6 688 := Later.step 688 (Nat.lt_of_lt_of_eq (by decide : 688 < 1293) ops_len.symm) main_v464 rfl rfl (by decide) later_689
theorem later_687 : Later (τ := τ) (ops (F := F)) 6 687 := Later.step 687 (Nat.lt_of_lt_of_eq (by decide : 687 < 1293) ops_len.symm) main_v463 rfl rfl (by decide) later_688
theorem later_686 : Later (τ := τ) (ops (F := F)) 6 686 := Later.step 686 (Nat.lt_of_lt_of_eq (by decide : 686 < 1293) ops_len.symm) main_v462 rfl rfl (by decide) later_687
theorem later_685 : Later (τ := τ) (ops (F := F)) 6 685 := Later.step 685 (Nat.lt_of_lt_of_eq (by decide : 685 < 1293) ops_len.symm) main_c_141 rfl rfl (by decide) later_686
theorem later_684 : Later (τ := τ) (ops (F := F)) 6 684 := Later.step 684 (Nat.lt_of_lt_of_eq (by decide : 684 < 1293) ops_len.symm) main_v461 rfl rfl (by decide) later_685
theorem later_683 : Later (τ := τ) (ops (F := F)) 6 683 := Later.step 683 (Nat.lt_of_lt_of_eq (by decide : 683 < 1293) ops_len.symm) main_v460 rfl rfl (by decide) later_684
theorem later_682 : Later (τ := τ) (ops (F := F)) 6 682 := Later.step 682 (Nat.lt_of_lt_of_eq (by decide : 682 < 1293) ops_len.symm) main_v459 rfl rfl (by decide) later_683
theorem later_681 : Later (τ := τ) (ops (F := F)) 6 681 := Later.step 681 (Nat.lt_of_lt_of_eq (by decide : 681 < 1293) ops_len.symm) main_c_140 rfl rfl (by decide) later_682
theorem later_680 : Later (τ := τ) (ops (F := F)) 6 680 := Later.step 680 (Nat.lt_of_lt_of_eq (by decide : 680 < 1293) ops_len.symm) main_v458 rfl rfl (by decide) later_681
theorem later_679 : Later (τ := τ) (ops (F := F)) 6 679 := Later.step 679 (Nat.lt_of_lt_of_eq (by decide : 679 < 1293) ops_len.symm) main_v457 rfl rfl (by decide) later_680
theorem later_678 : Later (τ := τ) (ops (F := F)) 6 678 := Later.step 678 (Nat.lt_of_lt_of_eq (by decide : 678 < 1293) ops_len.symm) main_v456 rfl rfl (by decide) later_679
theorem later_677 : Later (τ := τ) (ops (F := F)) 6 677 := Later.step 677 (Nat.lt_of_lt_of_eq (by decide : 677 < 1293) ops_len.symm) main_c_139 rfl rfl (by decide) later_678
theorem later_676 : Later (τ := τ) (ops (F := F)) 6 676 := Later.step 676 (Nat.lt_of_lt_of_eq (by decide : 676 < 1293) ops_len.symm) main_v455 rfl rfl (by decide) later_677
theorem later_675 : Later (τ := τ) (ops (F := F)) 6 675 := Later.step 675 (Nat.lt_of_lt_of_eq (by decide : 675 < 1293) ops_len.symm) main_v454 rfl rfl (by decide) later_676
theorem later_674 : Later (τ := τ) (ops (F := F)) 6 674 := Later.step 674 (Nat.lt_of_lt_of_eq (by decide : 674 < 1293) ops_len.symm) main_c_138 rfl rfl (by decide) later_675
theorem later_673 : Later (τ := τ) (ops (F := F)) 6 673 := Later.step 673 (Nat.lt_of_lt_of_eq (by decide : 673 < 1293) ops_len.symm) main_v453 rfl rfl (by decide) later_674
theorem later_672 : Later (τ := τ) (ops (F := F)) 6 672 := Later.step 672 (Nat.lt_of_lt_of_eq (by decide : 672 < 1293) ops_len.symm) main_v452 rfl rfl (by decide) later_673
theorem later_671 : Later (τ := τ) (ops (F := F)) 6 671 := Later.step 671 (Nat.lt_of_lt_of_eq (by decide : 671 < 1293) ops_len.symm) main_v451 rfl rfl (by decide) later_672
theorem later_670 : Later (τ := τ) (ops (F := F)) 6 670 := Later.step 670 (Nat.lt_of_lt_of_eq (by decide : 670 < 1293) ops_len.symm) main_v450 rfl rfl (by decide) later_671
theorem later_669 : Later (τ := τ) (ops (F := F)) 6 669 := Later.step 669 (Nat.lt_of_lt_of_eq (by decide : 669 < 1293) ops_len.symm) main_v449 rfl rfl (by decide) later_670
theorem later_668 : Later (τ := τ) (ops (F := F)) 6 668 := Later.step 668 (Nat.lt_of_lt_of_eq (by decide : 668 < 1293) ops_len.symm) main_v448 rfl rfl (by decide) later_669
theorem later_667 : Later (τ := τ) (ops (F := F)) 6 667 := Later.step 667 (Nat.lt_of_lt_of_eq (by decide : 667 < 1293) ops_len.symm) main_v447 rfl rfl (by decide) later_668
theorem later_666 : Later (τ := τ) (ops (F := F)) 6 666 := Later.step 666 (Nat.lt_of_lt_of_eq (by decide : 666 < 1293) ops_len.symm) main_v446 rfl rfl (by decide) later_667
theorem later_665 : Later (τ := τ) (ops (F := F)) 6 665 := Later.step 665 (Nat.lt_of_lt_of_eq (by decide : 665 < 1293) ops_len.symm) main_cst_137 rfl rfl (by decide) later_666
theorem later_664 : Later (τ := τ) (ops (F := F)) 6 664 := Later.step 664 (Nat.lt_of_lt_of_eq (by decide : 664 < 1293) ops_len.symm) main_v445 rfl rfl (by decide) later_665
theorem later_663 : Later (τ := τ) (ops (F := F)) 6 663 := Later.step 663 (Nat.lt_of_lt_of_eq (by decide : 663 < 1293) ops_len.symm) main_v444 rfl rfl (by decide) later_664
theorem later_662 : Later (τ := τ) (ops (F := F)) 6 662 := Later.step 662 (Nat.lt_of_lt_of_eq (by decide : 662 < 1293) ops_len.symm) main_cst_136 rfl rfl (by decide) later_663
theorem later_661 : Later (τ := τ) (ops (F := F)) 6 661 := Later.step 661 (Nat.lt_of_lt_of_eq (by decide : 661 < 1293) ops_len.symm) main_v443 rfl rfl (by decide) later_662
theorem later_660 : Later (τ := τ) (ops (F := F)) 6 660 := Later.step 660 (Nat.lt_of_lt_of_eq (by decide : 660 < 1293) ops_len.symm) main_v442 rfl rfl (by decide) later_661
theorem later_659 : Later (τ := τ) (ops (F := F)) 6 659 := Later.step 659 (Nat.lt_of_lt_of_eq (by decide : 659 < 1293) ops_len.symm) main_v441 rfl rfl (by decide) later_660
theorem later_658 : Later (τ := τ) (ops (F := F)) 6 658 := Later.step 658 (Nat.lt_of_lt_of_eq (by decide : 658 < 1293) ops_len.symm) main_v440 rfl rfl (by decide) later_659
theorem later_657 : Later (τ := τ) (ops (F := F)) 6 657 := Later.step 657 (Nat.lt_of_lt_of_eq (by decide : 657 < 1293) ops_len.symm) main_cst_135 rfl rfl (by decide) later_658
theorem later_656 : Later (τ := τ) (ops (F := F)) 6 656 := Later.step 656 (Nat.lt_of_lt_of_eq (by decide : 656 < 1293) ops_len.symm) main_v439 rfl rfl (by decide) later_657
theorem later_655 : Later (τ := τ) (ops (F := F)) 6 655 := Later.step 655 (Nat.lt_of_lt_of_eq (by decide : 655 < 1293) ops_len.symm) main_v438 rfl rfl (by decide) later_656
theorem later_654 : Later (τ := τ) (ops (F := F)) 6 654 := Later.step 654 (Nat.lt_of_lt_of_eq (by decide : 654 < 1293) ops_len.symm) main_cst_134 rfl rfl (by decide) later_655
theorem later_653 : Later (τ := τ) (ops (F := F)) 6 653 := Later.step 653 (Nat.lt_of_lt_of_eq (by decide : 653 < 1293) ops_len.symm) main_v437 rfl rfl (by decide) later_654
theorem later_652 : Later (τ := τ) (ops (F := F)) 6 652 := Later.step 652 (Nat.lt_of_lt_of_eq (by decide : 652 < 1293) ops_len.symm) main_v436 rfl rfl (by decide) later_653
theorem later_651 : Later (τ := τ) (ops (F := F)) 6 651 := Later.step 651 (Nat.lt_of_lt_of_eq (by decide : 651 < 1293) ops_len.symm) main_v435 rfl rfl (by decide) later_652
theorem later_650 : Later (τ := τ) (ops (F := F)) 6 650 := Later.step 650 (Nat.lt_of_lt_of_eq (by decide : 650 < 1293) ops_len.symm) main_v434 rfl rfl (by decide) later_651
theorem later_649 : Later (τ := τ) (ops (F := F)) 6 649 := Later.step 649 (Nat.lt_of_lt_of_eq (by decide : 649 < 1293) ops_len.symm) main_v433 rfl rfl (by decide) later_650
theorem later_648 : Later (τ := τ) (ops (F := F)) 6 648 := Later.step 648 (Nat.lt_of_lt_of_eq (by decide : 648 < 1293) ops_len.symm) main_v432 rfl rfl (by decide) later_649
theorem later_647 : Later (τ := τ) (ops (F := F)) 6 647 := Later.step 647 (Nat.lt_of_lt_of_eq (by decide : 647 < 1293) ops_len.symm) main_v431 rfl rfl (by decide) later_648
theorem later_646 : Later (τ := τ) (ops (F := F)) 6 646 := Later.step 646 (Nat.lt_of_lt_of_eq (by decide : 646 < 1293) ops_len.symm) main_v430 rfl rfl (by decide) later_647
theorem later_645 : Later (τ := τ) (ops (F := F)) 6 645 := Later.step 645 (Nat.lt_of_lt_of_eq (by decide : 645 < 1293) ops_len.symm) main_v429 rfl rfl (by decide) later_646
theorem later_644 : Later (τ := τ) (ops (F := F)) 6 644 := Later.step 644 (Nat.lt_of_lt_of_eq (by decide : 644 < 1293) ops_len.symm) main_v428 rfl rfl (by decide) later_645
theorem later_643 : Later (τ := τ) (ops (F := F)) 6 643 := Later.step 643 (Nat.lt_of_lt_of_eq (by decide : 643 < 1293) ops_len.symm) main_v427 rfl rfl (by decide) later_644
theorem later_642 : Later (τ := τ) (ops (F := F)) 6 642 := Later.step 642 (Nat.lt_of_lt_of_eq (by decide : 642 < 1293) ops_len.symm) main_v426 rfl rfl (by decide) later_643
theorem later_641 : Later (τ := τ) (ops (F := F)) 6 641 := Later.step 641 (Nat.lt_of_lt_of_eq (by decide : 641 < 1293) ops_len.symm) main_v425 rfl rfl (by decide) later_642
theorem later_640 : Later (τ := τ) (ops (F := F)) 6 640 := Later.step 640 (Nat.lt_of_lt_of_eq (by decide : 640 < 1293) ops_len.symm) main_v424 rfl rfl (by decide) later_641
theorem later_639 : Later (τ := τ) (ops (F := F)) 6 639 := Later.step 639 (Nat.lt_of_lt_of_eq (by decide : 639 < 1293) ops_len.symm) main_v423 rfl rfl (by decide) later_640
theorem later_638 : Later (τ := τ) (ops (F := F)) 6 638 := Later.step 638 (Nat.lt_of_lt_of_eq (by decide : 638 < 1293) ops_len.symm) main_cst_133 rfl rfl (by decide) later_639
theorem later_637 : Later (τ := τ) (ops (F := F)) 6 637 := Later.step 637 (Nat.lt_of_lt_of_eq (by decide : 637 < 1293) ops_len.symm) main_v422 rfl rfl (by decide) later_638
theorem later_636 : Later (τ := τ) (ops (F := F)) 6 636 := Later.step 636 (Nat.lt_of_lt_of_eq (by decide : 636 < 1293) ops_len.symm) main_v421 rfl rfl (by decide) later_637
theorem later_635 : Later (τ := τ) (ops (F := F)) 6 635 := Later.step 635 (Nat.lt_of_lt_of_eq (by decide : 635 < 1293) ops_len.symm) main_v420 rfl rfl (by decide) later_636
theorem later_634 : Later (τ := τ) (ops (F := F)) 6 634 := Later.step 634 (Nat.lt_of_lt_of_eq (by decide : 634 < 1293) ops_len.symm) main_v419 rfl rfl (by decide) later_635
theorem later_633 : Later (τ := τ) (ops (F := F)) 6 633 := Later.step 633 (Nat.lt_of_lt_of_eq (by decide : 633 < 1293) ops_len.symm) main_v418 rfl rfl (by decide) later_634
theorem later_632 : Later (τ := τ) (ops (F := F)) 6 632 := Later.step 632 (Nat.lt_of_lt_of_eq (by decide : 632 < 1293) ops_len.symm) main_cst_132 rfl rfl (by decide) later_633
theorem later_631 : Later (τ := τ) (ops (F := F)) 6 631 := Later.step 631 (Nat.lt_of_lt_of_eq (by decide : 631 < 1293) ops_len.symm) main_v417 rfl rfl (by decide) later_632
theorem later_630 : Later (τ := τ) (ops (F := F)) 6 630 := Later.step 630 (Nat.lt_of_lt_of_eq (by decide : 630 < 1293) ops_len.symm) main_v416 rfl rfl (by decide) later_631
theorem later_629 : Later (τ := τ) (ops (F := F)) 6 629 := Later.step 629 (Nat.lt_of_lt_of_eq (by decide : 629 < 1293) ops_len.symm) main_v415 rfl rfl (by decide) later_630
theorem later_628 : Later (τ := τ) (ops (F := F)) 6 628 := Later.step 628 (Nat.lt_of_lt_of_eq (by decide : 628 < 1293) ops_len.symm) main_v414 rfl rfl (by decide) later_629
theorem later_627 : Later (τ := τ) (ops (F := F)) 6 627 := Later.step 627 (Nat.lt_of_lt_of_eq (by decide : 627 < 1293) ops_len.symm) main_v413 rfl rfl (by decide) later_628
theorem later_626 : Later (τ := τ) (ops (F := F)) 6 626 := Later.step 626 (Nat.lt_of_lt_of_eq (by decide : 626 < 1293) ops_len.symm) main_v412 rfl rfl (by decide) later_627
theorem later_625 : Later (τ := τ) (ops (F := F)) 6 625 := Later.step 625 (Nat.lt_of_lt_of_eq (by decide : 625 < 1293) ops_len.symm) main_cst_131 rfl rfl (by decide) later_626
theorem later_624 : Later (τ := τ) (ops (F := F)) 6 624 := Later.step 624 (Nat.lt_of_lt_of_eq (by decide : 624 < 1293) ops_len.symm) main_v411 rfl rfl (by decide) later_625
theorem later_623 : Later (τ := τ) (ops (F := F)) 6 623 := Later.step 623 (Nat.lt_of_lt_of_eq (by decide : 623 < 1293) ops_len.symm) main_v410 rfl rfl (by decide) later_624
theorem later_622 : Later (τ := τ) (ops (F := F)) 6 622 := Later.step 622 (Nat.lt_of_lt_of_eq (by decide : 622 < 1293) ops_len.symm) main_v409 rfl rfl (by decide) later_623
theorem later_621 : Later (τ := τ) (ops (F := F)) 6 621 := Later.step 621 (Nat.lt_of_lt_of_eq (by decide : 621 < 1293) ops_len.symm) main_v408 rfl rfl (by decide) later_622
theorem later_620 : Later (τ := τ) (ops (F := F)) 6 620 := Later.step 620 (Nat.lt_of_lt_of_eq (by decide : 620 < 1293) ops_len.symm) main_cst_130 rfl rfl (by decide) later_621
theorem later_619 : Later (τ := τ) (ops (F := F)) 6 619 := Later.step 619 (Nat.lt_of_lt_of_eq (by decide : 619 < 1293) ops_len.symm) main_v407 rfl rfl (by decide) later_620
theorem later_618 : Later (τ := τ) (ops (F := F)) 6 618 := Later.step 618 (Nat.lt_of_lt_of_eq (by decide : 618 < 1293) ops_len.symm) main_v406 rfl rfl (by decide) later_619
theorem later_617 : Later (τ := τ) (ops (F := F)) 6 617 := Later.step 617 (Nat.lt_of_lt_of_eq (by decide : 617 < 1293) ops_len.symm) main_v405 rfl rfl (by decide) later_618
theorem later_616 : Later (τ := τ) (ops (F := F)) 6 616 := Later.step 616 (Nat.lt_of_lt_of_eq (by decide : 616 < 1293) ops_len.symm) main_v404 rfl rfl (by decide) later_617
theorem later_615 : Later (τ := τ) (ops (F := F)) 6 615 := Later.step 615 (Nat.lt_of_lt_of_eq (by decide : 615 < 1293) ops_len.symm) main_v403 rfl rfl (by decide) later_616
theorem later_614 : Later (τ := τ) (ops (F := F)) 6 614 := Later.step 614 (Nat.lt_of_lt_of_eq (by decide : 614 < 1293) ops_len.symm) main_v402 rfl rfl (by decide) later_615
theorem later_613 : Later (τ := τ) (ops (F := F)) 6 613 := Later.step 613 (Nat.lt_of_lt_of_eq (by decide : 613 < 1293) ops_len.symm) main_v401 rfl rfl (by decide) later_614
theorem later_612 : Later (τ := τ) (ops (F := F)) 6 612 := Later.step 612 (Nat.lt_of_lt_of_eq (by decide : 612 < 1293) ops_len.symm) main_v400 rfl rfl (by decide) later_613
theorem later_611 : Later (τ := τ) (ops (F := F)) 6 611 := Later.step 611 (Nat.lt_of_lt_of_eq (by decide : 611 < 1293) ops_len.symm) main_v399 rfl rfl (by decide) later_612
theorem later_610 : Later (τ := τ) (ops (F := F)) 6 610 := Later.step 610 (Nat.lt_of_lt_of_eq (by decide : 610 < 1293) ops_len.symm) main_v398 rfl rfl (by decide) later_611
theorem later_609 : Later (τ := τ) (ops (F := F)) 6 609 := Later.step 609 (Nat.lt_of_lt_of_eq (by decide : 609 < 1293) ops_len.symm) main_v397 rfl rfl (by decide) later_610
theorem later_608 : Later (τ := τ) (ops (F := F)) 6 608 := Later.step 608 (Nat.lt_of_lt_of_eq (by decide : 608 < 1293) ops_len.symm) main_v396 rfl rfl (by decide) later_609
theorem later_607 : Later (τ := τ) (ops (F := F)) 6 607 := Later.step 607 (Nat.lt_of_lt_of_eq (by decide : 607 < 1293) ops_len.symm) main_v395 rfl rfl (by decide) later_608
theorem later_606 : Later (τ := τ) (ops (F := F)) 6 606 := Later.step 606 (Nat.lt_of_lt_of_eq (by decide : 606 < 1293) ops_len.symm) main_v394 rfl rfl (by decide) later_607
theorem later_605 : Later (τ := τ) (ops (F := F)) 6 605 := Later.step 605 (Nat.lt_of_lt_of_eq (by decide : 605 < 1293) ops_len.symm) main_v393 rfl rfl (by decide) later_606
theorem later_604 : Later (τ := τ) (ops (F := F)) 6 604 := Later.step 604 (Nat.lt_of_lt_of_eq (by decide : 604 < 1293) ops_len.symm) main_c_129 rfl rfl (by decide) later_605
theorem later_603 : Later (τ := τ) (ops (F := F)) 6 603 := Later.step 603 (Nat.lt_of_lt_of_eq (by decide : 603 < 1293) ops_len.symm) main_v392 rfl rfl (by decide) later_604
theorem later_602 : Later (τ := τ) (ops (F := F)) 6 602 := Later.step 602 (Nat.lt_of_lt_of_eq (by decide : 602 < 1293) ops_len.symm) main_v391 rfl rfl (by decide) later_603
theorem later_601 : Later (τ := τ) (ops (F := F)) 6 601 := Later.step 601 (Nat.lt_of_lt_of_eq (by decide : 601 < 1293) ops_len.symm) main_c_128 rfl rfl (by decide) later_602
theorem later_600 : Later (τ := τ) (ops (F := F)) 6 600 := Later.step 600 (Nat.lt_of_lt_of_eq (by decide : 600 < 1293) ops_len.symm) main_v390 rfl rfl (by decide) later_601
theorem later_599 : Later (τ := τ) (ops (F := F)) 6 599 := Later.step 599 (Nat.lt_of_lt_of_eq (by decide : 599 < 1293) ops_len.symm) main_v389 rfl rfl (by decide) later_600
theorem later_598 : Later (τ := τ) (ops (F := F)) 6 598 := Later.step 598 (Nat.lt_of_lt_of_eq (by decide : 598 < 1293) ops_len.symm) main_v388 rfl rfl (by decide) later_599
theorem later_597 : Later (τ := τ) (ops (F := F)) 6 597 := Later.step 597 (Nat.lt_of_lt_of_eq (by decide : 597 < 1293) ops_len.symm) main_c_127 rfl rfl (by decide) later_598
theorem later_596 : Later (τ := τ) (ops (F := F)) 6 596 := Later.step 596 (Nat.lt_of_lt_of_eq (by decide : 596 < 1293) ops_len.symm) main_v387 rfl rfl (by decide) later_597
theorem later_595 : Later (τ := τ) (ops (F := F)) 6 595 := Later.step 595 (Nat.lt_of_lt_of_eq (by decide : 595 < 1293) ops_len.symm) main_v386 rfl rfl (by decide) later_596
theorem later_594 : Later (τ := τ) (ops (F := F)) 6 594 := Later.step 594 (Nat.lt_of_lt_of_eq (by decide : 594 < 1293) ops_len.symm) main_c_126 rfl rfl (by decide) later_595
theorem later_593 : Later (τ := τ) (ops (F := F)) 6 593 := Later.step 593 (Nat.lt_of_lt_of_eq (by decide : 593 < 1293) ops_len.symm) main_v385 rfl rfl (by decide) later_594
theorem later_592 : Later (τ := τ) (ops (F := F)) 6 592 := Later.step 592 (Nat.lt_of_lt_of_eq (by decide : 592 < 1293) ops_len.symm) main_v384 rfl rfl (by decide) later_593
theorem later_591 : Later (τ := τ) (ops (F := F)) 6 591 := Later.step 591 (Nat.lt_of_lt_of_eq (by decide : 591 < 1293) ops_len.symm) main_v383 rfl rfl (by decide) later_592
theorem later_590 : Later (τ := τ) (ops (F := F)) 6 590 := Later.step 590 (Nat.lt_of_lt_of_eq (by decide : 590 < 1293) ops_len.symm) main_c_125 rfl rfl (by decide) later_591
theorem later_589 : Later (τ := τ) (ops (F := F)) 6 589 := Later.step 589 (Nat.lt_of_lt_of_eq (by decide : 589 < 1293) ops_len.symm) main_v382 rfl rfl (by decide) later_590
theorem later_588 : Later (τ := τ) (ops (F := F)) 6 588 := Later.step 588 (Nat.lt_of_lt_of_eq (by decide : 588 < 1293) ops_len.symm) main_v381 rfl rfl (by decide) later_589
theorem later_587 : Later (τ := τ) (ops (F := F)) 6 587 := Later.step 587 (Nat.lt_of_lt_of_eq (by decide : 587 < 1293) ops_len.symm) main_c_124 rfl rfl (by decide) later_588
theorem later_586 : Later (τ := τ) (ops (F := F)) 6 586 := Later.step 586 (Nat.lt_of_lt_of_eq (by decide : 586 < 1293) ops_len.symm) main_v380 rfl rfl (by decide) later_587
theorem later_585 : Later (τ := τ) (ops (F := F)) 6 585 := Later.step 585 (Nat.lt_of_lt_of_eq (by decide : 585 < 1293) ops_len.symm) main_v379 rfl rfl (by decide) later_586
theorem later_584 : Later (τ := τ) (ops (F := F)) 6 584 := Later.step 584 (Nat.lt_of_lt_of_eq (by decide : 584 < 1293) ops_len.symm) main_call15_v4 rfl rfl (by decide) later_585
theorem later_583 : Later (τ := τ) (ops (F := F)) 6 583 := Later.step 583 (Nat.lt_of_lt_of_eq (by decide : 583 < 1293) ops_len.symm) main_call15_v3 rfl rfl (by decide) later_584
theorem later_582 : Later (τ := τ) (ops (F := F)) 6 582 := Later.step 582 (Nat.lt_of_lt_of_eq (by decide : 582 < 1293) ops_len.symm) main_call15_v2 rfl rfl (by decide) later_583
theorem later_581 : Later (τ := τ) (ops (F := F)) 6 581 := Later.step 581 (Nat.lt_of_lt_of_eq (by decide : 581 < 1293) ops_len.symm) main_call15_v1 rfl rfl (by decide) later_582
theorem later_580 : Later (τ := τ) (ops (F := F)) 6 580 := Later.step 580 (Nat.lt_of_lt_of_eq (by decide : 580 < 1293) ops_len.symm) main_call15_v0 rfl rfl (by decide) later_581
theorem later_579 : Later (τ := τ) (ops (F := F)) 6 579 := Later.step 579 (Nat.lt_of_lt_of_eq (by decide : 579 < 1293) ops_len.symm) main_c_123 rfl rfl (by decide) later_580
theorem later_578 : Later (τ := τ) (ops (F := F)) 6 578 := Later.step 578 (Nat.lt_of_lt_of_eq (by decide : 578 < 1293) ops_len.symm) main_c_122 rfl rfl (by decide) later_579
theorem later_577 : Later (τ := τ) (ops (F := F)) 6 577 := Later.step 577 (Nat.lt_of_lt_of_eq (by decide : 577 < 1293) ops_len.symm) main_v378 rfl rfl (by decide) later_578
theorem later_576 : Later (τ := τ) (ops (F := F)) 6 576 := Later.step 576 (Nat.lt_of_lt_of_eq (by decide : 576 < 1293) ops_len.symm) main_call14_v4 rfl rfl (by decide) later_577
theorem later_575 : Later (τ := τ) (ops (F := F)) 6 575 := Later.step 575 (Nat.lt_of_lt_of_eq (by decide : 575 < 1293) ops_len.symm) main_call14_v3 rfl rfl (by decide) later_576
theorem later_574 : Later (τ := τ) (ops (F := F)) 6 574 := Later.step 574 (Nat.lt_of_lt_of_eq (by decide : 574 < 1293) ops_len.symm) main_call14_v2 rfl rfl (by decide) later_575
theorem later_573 : Later (τ := τ) (ops (F := F)) 6 573 := Later.step 573 (Nat.lt_of_lt_of_eq (by decide : 573 < 1293) ops_len.symm) main_call14_v1 rfl rfl (by decide) later_574
theorem later_572 : Later (τ := τ) (ops (F := F)) 6 572 := Later.step 572 (Nat.lt_of_lt_of_eq (by decide : 572 < 1293) ops_len.symm) main_call14_v0 rfl rfl (by decide) later_573
theorem later_571 : Later (τ := τ) (ops (F := F)) 6 571 := Later.step 571 (Nat.lt_of_lt_of_eq (by decide : 571 < 1293) ops_len.symm) main_c_121 rfl rfl (by decide) later_572
theorem later_570 : Later (τ := τ) (ops (F := F)) 6 570 := Later.step 570 (Nat.lt_of_lt_of_eq (by decide : 570 < 1293) ops_len.symm) main_c_120 rfl rfl (by decide) later_571
theorem later_569 : Later (τ := τ) (ops (F := F)) 6 569 := Later.step 569 (Nat.lt_of_lt_of_eq (by decide : 569 < 1293) ops_len.symm) main_v377 rfl rfl (by decide) later_570
theorem later_568 : Later (τ := τ) (ops (F := F)) 6 568 := Later.step 568 (Nat.lt_of_lt_of_eq (by decide : 568 < 1293) ops_len.symm) main_v376 rfl rfl (by decide) later_569
theorem later_567 : Later (τ := τ) (ops (F := F)) 6 567 := Later.step 567 (Nat.lt_of_lt_of_eq (by decide : 567 < 1293) ops_len.symm) main_v375 rfl rfl (by decide) later_568
theorem later_566 : Later (τ := τ) (ops (F := F)) 6 566 := Later.step 566 (Nat.lt_of_lt_of_eq (by decide : 566 < 1293) ops_len.symm) main_c_119 rfl rfl (by decide) later_567
theorem later_565 : Later (τ := τ) (ops (F := F)) 6 565 := Later.step 565 (Nat.lt_of_lt_of_eq (by decide : 565 < 1293) ops_len.symm) main_v374 rfl rfl (by decide) later_566
theorem later_564 : Later (τ := τ) (ops (F := F)) 6 564 := Later.step 564 (Nat.lt_of_lt_of_eq (by decide : 564 < 1293) ops_len.symm) main_v373 rfl rfl (by decide) later_565
theorem later_563 : Later (τ := τ) (ops (F := F)) 6 563 := Later.step 563 (Nat.lt_of_lt_of_eq (by decide : 563 < 1293) ops_len.symm) main_v372 rfl rfl (by decide) later_564
theorem later_562 : Later (τ := τ) (ops (F := F)) 6 562 := Later.step 562 (Nat.lt_of_lt_of_eq (by decide : 562 < 1293) ops_len.symm) main_c_118 rfl rfl (by decide) later_563
theorem later_561 : Later (τ := τ) (ops (F := F)) 6 561 := Later.step 561 (Nat.lt_of_lt_of_eq (by decide : 561 < 1293) ops_len.symm) main_v371 rfl rfl (by decide) later_562
theorem later_560 : Later (τ := τ) (ops (F := F)) 6 560 := Later.step 560 (Nat.lt_of_lt_of_eq (by decide : 560 < 1293) ops_len.symm) main_v370 rfl rfl (by decide) later_561
theorem later_559 : Later (τ := τ) (ops (F := F)) 6 559 := Later.step 559 (Nat.lt_of_lt_of_eq (by decide : 559 < 1293) ops_len.symm) main_v369 rfl rfl (by decide) later_560
theorem later_558 : Later (τ := τ) (ops (F := F)) 6 558 := Later.step 558 (Nat.lt_of_lt_of_eq (by decide : 558 < 1293) ops_len.symm) main_c_117 rfl rfl (by decide) later_559
theorem later_557 : Later (τ := τ) (ops (F := F)) 6 557 := Later.step 557 (Nat.lt_of_lt_of_eq (by decide : 557 < 1293) ops_len.symm) main_v368 rfl rfl (by decide) later_558
theorem later_556 : Later (τ := τ) (ops (F := F)) 6 556 := Later.step 556 (Nat.lt_of_lt_of_eq (by decide : 556 < 1293) ops_len.symm) main_v367 rfl rfl (by decide) later_557
theorem later_555 : Later (τ := τ) (ops (F := F)) 6 555 := Later.step 555 (Nat.lt_of_lt_of_eq (by decide : 555 < 1293) ops_len.symm) main_c_116 rfl rfl (by decide) later_556
theorem later_554 : Later (τ := τ) (ops (F := F)) 6 554 := Later.step 554 (Nat.lt_of_lt_of_eq (by decide : 554 < 1293) ops_len.symm) main_v366 rfl rfl (by decide) later_555
theorem later_553 : Later (τ := τ) (ops (F := F)) 6 553 := Later.step 553 (Nat.lt_of_lt_of_eq (by decide : 553 < 1293) ops_len.symm) main_v365 rfl rfl (by decide) later_554
theorem later_552 : Later (τ := τ) (ops (F := F)) 6 552 := Later.step 552 (Nat.lt_of_lt_of_eq (by decide : 552 < 1293) ops_len.symm) main_c_115 rfl rfl (by decide) later_553
theorem later_551 : Later (τ := τ) (ops (F := F)) 6 551 := Later.step 551 (Nat.lt_of_lt_of_eq (by decide : 551 < 1293) ops_len.symm) main_v364 rfl rfl (by decide) later_552
theorem later_550 : Later (τ := τ) (ops (F := F)) 6 550 := Later.step 550 (Nat.lt_of_lt_of_eq (by decide : 550 < 1293) ops_len.symm) main_v363 rfl rfl (by decide) later_551
theorem later_549 : Later (τ := τ) (ops (F := F)) 6 549 := Later.step 549 (Nat.lt_of_lt_of_eq (by decide : 549 < 1293) ops_len.symm) main_c_114 rfl rfl (by decide) later_550
theorem later_548 : Later (τ := τ) (ops (F := F)) 6 548 := Later.step 548 (Nat.lt_of_lt_of_eq (by decide : 548 < 1293) ops_len.symm) main_v362 rfl rfl (by decide) later_549
theorem later_547 : Later (τ := τ) (ops (F := F)) 6 547 := Later.step 547 (Nat.lt_of_lt_of_eq (by decide : 547 < 1293) ops_len.symm) main_v361 rfl rfl (by decide) later_548
theorem later_546 : Later (τ := τ) (ops (F := F)) 6 546 := Later.step 546 (Nat.lt_of_lt_of_eq (by decide : 546 < 1293) ops_len.symm) main_v360 rfl rfl (by decide) later_547
theorem later_545 : Later (τ := τ) (ops (F := F)) 6 545 := Later.step 545 (Nat.lt_of_lt_of_eq (by decide : 545 < 1293) ops_len.symm) main_v359 rfl rfl (by decide) later_546
theorem later_544 : Later (τ := τ) (ops (F := F)) 6 544 := Later.step 544 (Nat.lt_of_lt_of_eq (by decide : 544 < 1293) ops_len.symm) main_v358 rfl rfl (by decide) later_545
theorem later_543 : Later (τ := τ) (ops (F := F)) 6 543 := Later.step 543 (Nat.lt_of_lt_of_eq (by decide : 543 < 1293) ops_len.symm) main_v357 rfl rfl (by decide) later_544
theorem later_542 : Later (τ := τ) (ops (F := F)) 6 542 := Later.step 542 (Nat.lt_of_lt_of_eq (by decide : 542 < 1293) ops_len.symm) main_v356 rfl rfl (by decide) later_543
theorem later_541 : Later (τ := τ) (ops (F := F)) 6 541 := Later.step 541 (Nat.lt_of_lt_of_eq (by decide : 541 < 1293) ops_len.symm) main_v355 rfl rfl (by decide) later_542
theorem later_540 : Later (τ := τ) (ops (F := F)) 6 540 := Later.step 540 (Nat.lt_of_lt_of_eq (by decide : 540 < 1293) ops_len.symm) main_v354 rfl rfl (by decide) later_541
theorem later_539 : Later (τ := τ) (ops (F := F)) 6 539 := Later.step 539 (Nat.lt_of_lt_of_eq (by decide : 539 < 1293) ops_len.symm) main_v353 rfl rfl (by decide) later_540
theorem later_538 : Later (τ := τ) (ops (F := F)) 6 538 := Later.step 538 (Nat.lt_of_lt_of_eq (by decide : 538 < 1293) ops_len.symm) main_v352 rfl rfl (by decide) later_539
theorem later_537 : Later (τ := τ) (ops (F := F)) 6 537 := Later.step 537 (Nat.lt_of_lt_of_eq (by decide : 537 < 1293) ops_len.symm) main_v351 rfl rfl (by decide) later_538
theorem later_536 : Later (τ := τ) (ops (F := F)) 6 536 := Later.step 536 (Nat.lt_of_lt_of_eq (by decide : 536 < 1293) ops_len.symm) main_v350 rfl rfl (by decide) later_537
theorem later_535 : Later (τ := τ) (ops (F := F)) 6 535 := Later.step 535 (Nat.lt_of_lt_of_eq (by decide : 535 < 1293) ops_len.symm) main_c_113 rfl rfl (by decide) later_536
theorem later_534 : Later (τ := τ) (ops (F := F)) 6 534 := Later.step 534 (Nat.lt_of_lt_of_eq (by decide : 534 < 1293) ops_len.symm) main_v349 rfl rfl (by decide) later_535
theorem later_533 : Later (τ := τ) (ops (F := F)) 6 533 := Later.step 533 (Nat.lt_of_lt_of_eq (by decide : 533 < 1293) ops_len.symm) main_v348 rfl rfl (by decide) later_534
theorem later_532 : Later (τ := τ) (ops (F := F)) 6 532 := Later.step 532 (Nat.lt_of_lt_of_eq (by decide : 532 < 1293) ops_len.symm) main_c_112 rfl rfl (by decide) later_533
theorem later_531 : Later (τ := τ) (ops (F := F)) 6 531 := Later.step 531 (Nat.lt_of_lt_of_eq (by decide : 531 < 1293) ops_len.symm) main_v347 rfl rfl (by decide) later_532
theorem later_530 : Later (τ := τ) (ops (F := F)) 6 530 := Later.step 530 (Nat.lt_of_lt_of_eq (by decide : 530 < 1293) ops_len.symm) main_v346 rfl rfl (by decide) later_531
theorem later_529 : Later (τ := τ) (ops (F := F)) 6 529 := Later.step 529 (Nat.lt_of_lt_of_eq (by decide : 529 < 1293) ops_len.symm) main_v345 rfl rfl (by decide) later_530
theorem later_528 : Later (τ := τ) (ops (F := F)) 6 528 := Later.step 528 (Nat.lt_of_lt_of_eq (by decide : 528 < 1293) ops_len.symm) main_c_111 rfl rfl (by decide) later_529
theorem later_527 : Later (τ := τ) (ops (F := F)) 6 527 := Later.step 527 (Nat.lt_of_lt_of_eq (by decide : 527 < 1293) ops_len.symm) main_v344 rfl rfl (by decide) later_528
theorem later_526 : Later (τ := τ) (ops (F := F)) 6 526 := Later.step 526 (Nat.lt_of_lt_of_eq (by decide : 526 < 1293) ops_len.symm) main_v343 rfl rfl (by decide) later_527
theorem later_525 : Later (τ := τ) (ops (F := F)) 6 525 := Later.step 525 (Nat.lt_of_lt_of_eq (by decide : 525 < 1293) ops_len.symm) main_c_110 rfl rfl (by decide) later_526
theorem later_524 : Later (τ := τ) (ops (F := F)) 6 524 := Later.step 524 (Nat.lt_of_lt_of_eq (by decide : 524 < 1293) ops_len.symm) main_v342 rfl rfl (by decide) later_525
theorem later_523 : Later (τ := τ) (ops (F := F)) 6 523 := Later.step 523 (Nat.lt_of_lt_of_eq (by decide : 523 < 1293) ops_len.symm) main_v341 rfl rfl (by decide) later_524
theorem later_522 : Later (τ := τ) (ops (F := F)) 6 522 := Later.step 522 (Nat.lt_of_lt_of_eq (by decide : 522 < 1293) ops_len.symm) main_v340 rfl rfl (by decide) later_523
theorem later_521 : Later (τ := τ) (ops (F := F)) 6 521 := Later.step 521 (Nat.lt_of_lt_of_eq (by decide : 521 < 1293) ops_len.symm) main_c_109 rfl rfl (by decide) later_522
theorem later_520 : Later (τ := τ) (ops (F := F)) 6 520 := Later.step 520 (Nat.lt_of_lt_of_eq (by decide : 520 < 1293) ops_len.symm) main_v339 rfl rfl (by decide) later_521
theorem later_519 : Later (τ := τ) (ops (F := F)) 6 519 := Later.step 519 (Nat.lt_of_lt_of_eq (by decide : 519 < 1293) ops_len.symm) main_v338 rfl rfl (by decide) later_520
theorem later_518 : Later (τ := τ) (ops (F := F)) 6 518 := Later.step 518 (Nat.lt_of_lt_of_eq (by decide : 518 < 1293) ops_len.symm) main_c_108 rfl rfl (by decide) later_519
theorem later_517 : Later (τ := τ) (ops (F := F)) 6 517 := Later.step 517 (Nat.lt_of_lt_of_eq (by decide : 517 < 1293) ops_len.symm) main_v337 rfl rfl (by decide) later_518
theorem later_516 : Later (τ := τ) (ops (F := F)) 6 516 := Later.step 516 (Nat.lt_of_lt_of_eq (by decide : 516 < 1293) ops_len.symm) main_v336 rfl rfl (by decide) later_517
theorem later_515 : Later (τ := τ) (ops (F := F)) 6 515 := Later.step 515 (Nat.lt_of_lt_of_eq (by decide : 515 < 1293) ops_len.symm) main_call13_v4 rfl rfl (by decide) later_516
theorem later_514 : Later (τ := τ) (ops (F := F)) 6 514 := Later.step 514 (Nat.lt_of_lt_of_eq (by decide : 514 < 1293) ops_len.symm) main_call13_v3 rfl rfl (by decide) later_515
theorem later_513 : Later (τ := τ) (ops (F := F)) 6 513 := Later.step 513 (Nat.lt_of_lt_of_eq (by decide : 513 < 1293) ops_len.symm) main_call13_v2 rfl rfl (by decide) later_514
theorem later_512 : Later (τ := τ) (ops (F := F)) 6 512 := Later.step 512 (Nat.lt_of_lt_of_eq (by decide : 512 < 1293) ops_len.symm) main_call13_v1 rfl rfl (by decide) later_513
theorem later_511 : Later (τ := τ) (ops (F := F)) 6 511 := Later.step 511 (Nat.lt_of_lt_of_eq (by decide : 511 < 1293) ops_len.symm) main_call13_v0 rfl rfl (by decide) later_512
theorem later_510 : Later (τ := τ) (ops (F := F)) 6 510 := Later.step 510 (Nat.lt_of_lt_of_eq (by decide : 510 < 1293) ops_len.symm) main_c_107 rfl rfl (by decide) later_511
theorem later_509 : Later (τ := τ) (ops (F := F)) 6 509 := Later.step 509 (Nat.lt_of_lt_of_eq (by decide : 509 < 1293) ops_len.symm) main_c_106 rfl rfl (by decide) later_510
theorem later_508 : Later (τ := τ) (ops (F := F)) 6 508 := Later.step 508 (Nat.lt_of_lt_of_eq (by decide : 508 < 1293) ops_len.symm) main_v335 rfl rfl (by decide) later_509
theorem later_507 : Later (τ := τ) (ops (F := F)) 6 507 := Later.step 507 (Nat.lt_of_lt_of_eq (by decide : 507 < 1293) ops_len.symm) main_call12_v4 rfl rfl (by decide) later_508
theorem later_506 : Later (τ := τ) (ops (F := F)) 6 506 := Later.step 506 (Nat.lt_of_lt_of_eq (by decide : 506 < 1293) ops_len.symm) main_call12_v3 rfl rfl (by decide) later_507
theorem later_505 : Later (τ := τ) (ops (F := F)) 6 505 := Later.step 505 (Nat.lt_of_lt_of_eq (by decide : 505 < 1293) ops_len.symm) main_call12_v2 rfl rfl (by decide) later_506
theorem later_504 : Later (τ := τ) (ops (F := F)) 6 504 := Later.step 504 (Nat.lt_of_lt_of_eq (by decide : 504 < 1293) ops_len.symm) main_call12_v1 rfl rfl (by decide) later_505
theorem later_503 : Later (τ := τ) (ops (F := F)) 6 503 := Later.step 503 (Nat.lt_of_lt_of_eq (by decide : 503 < 1293) ops_len.symm) main_call12_v0 rfl rfl (by decide) later_504
theorem later_502 : Later (τ := τ) (ops (F := F)) 6 502 := Later.step 502 (Nat.lt_of_lt_of_eq (by decide : 502 < 1293) ops_len.symm) main_c_105 rfl rfl (by decide) later_503
theorem later_501 : Later (τ := τ) (ops (F := F)) 6 501 := Later.step 501 (Nat.lt_of_lt_of_eq (by decide : 501 < 1293) ops_len.symm) main_c_104 rfl rfl (by decide) later_502
theorem later_500 : Later (τ := τ) (ops (F := F)) 6 500 := Later.step 500 (Nat.lt_of_lt_of_eq (by decide : 500 < 1293) ops_len.symm) main_v334 rfl rfl (by decide) later_501
theorem later_499 : Later (τ := τ) (ops (F := F)) 6 499 := Later.step 499 (Nat.lt_of_lt_of_eq (by decide : 499 < 1293) ops_len.symm) main_v333 rfl rfl (by decide) later_500
theorem later_498 : Later (τ := τ) (ops (F := F)) 6 498 := Later.step 498 (Nat.lt_of_lt_of_eq (by decide : 498 < 1293) ops_len.symm) main_v332 rfl rfl (by decide) later_499
theorem later_497 : Later (τ := τ) (ops (F := F)) 6 497 := Later.step 497 (Nat.lt_of_lt_of_eq (by decide : 497 < 1293) ops_len.symm) main_c_103 rfl rfl (by decide) later_498
theorem later_496 : Later (τ := τ) (ops (F := F)) 6 496 := Later.step 496 (Nat.lt_of_lt_of_eq (by decide : 496 < 1293) ops_len.symm) main_v331 rfl rfl (by decide) later_497
theorem later_495 : Later (τ := τ) (ops (F := F)) 6 495 := Later.step 495 (Nat.lt_of_lt_of_eq (by decide : 495 < 1293) ops_len.symm) main_v330 rfl rfl (by decide) later_496
theorem later_494 : Later (τ := τ) (ops (F := F)) 6 494 := Later.step 494 (Nat.lt_of_lt_of_eq (by decide : 494 < 1293) ops_len.symm) main_v329 rfl rfl (by decide) later_495
theorem later_493 : Later (τ := τ) (ops (F := F)) 6 493 := Later.step 493 (Nat.lt_of_lt_of_eq (by decide : 493 < 1293) ops_len.symm) main_c_102 rfl rfl (by decide) later_494
theorem later_492 : Later (τ := τ) (ops (F := F)) 6 492 := Later.step 492 (Nat.lt_of_lt_of_eq (by decide : 492 < 1293) ops_len.symm) main_v328 rfl rfl (by decide) later_493
theorem later_491 : Later (τ := τ) (ops (F := F)) 6 491 := Later.step 491 (Nat.lt_of_lt_of_eq (by decide : 491 < 1293) ops_len.symm) main_v327 rfl rfl (by decide) later_492
theorem later_490 : Later (τ := τ) (ops (F := F)) 6 490 := Later.step 490 (Nat.lt_of_lt_of_eq (by decide : 490 < 1293) ops_len.symm) main_v326 rfl rfl (by decide) later_491
theorem later_489 : Later (τ := τ) (ops (F := F)) 6 489 := Later.step 489 (Nat.lt_of_lt_of_eq (by decide : 489 < 1293) ops_len.symm) main_c_101 rfl rfl (by decide) later_490
theorem later_488 : Later (τ := τ) (ops (F := F)) 6 488 := Later.step 488 (Nat.lt_of_lt_of_eq (by decide : 488 < 1293) ops_len.symm) main_v325 rfl rfl (by decide) later_489
theorem later_487 : Later (τ := τ) (ops (F := F)) 6 487 := Later.step 487 (Nat.lt_of_lt_of_eq (by decide : 487 < 1293) ops_len.symm) main_v324 rfl rfl (by decide) later_488
theorem later_486 : Later (τ := τ) (ops (F := F)) 6 486 := Later.step 486 (Nat.lt_of_lt_of_eq (by decide : 486 < 1293) ops_len.symm) main_c_100 rfl rfl (by decide) later_487
theorem later_485 : Later (τ := τ) (ops (F := F)) 6 485 := Later.step 485 (Nat.lt_of_lt_of_eq (by decide : 485 < 1293) ops_len.symm) main_v323 rfl rfl (by decide) later_486
theorem later_484 : Later (τ := τ) (ops (F := F)) 6 484 := Later.step 484 (Nat.lt_of_lt_of_eq (by decide : 484 < 1293) ops_len.symm) main_v322 rfl rfl (by decide) later_485
theorem later_483 : Later (τ := τ) (ops (F := F)) 6 483 := Later.step 483 (Nat.lt_of_lt_of_eq (by decide : 483 < 1293) ops_len.symm) main_c_99 rfl rfl (by decide) later_484
theorem later_482 : Later (τ := τ) (ops (F := F)) 6 482 := Later.step 482 (Nat.lt_of_lt_of_eq (by decide : 482 < 1293) ops_len.symm) main_v321 rfl rfl (by decide) later_483
theorem later_481 : Later (τ := τ) (ops (F := F)) 6 481 := Later.step 481 (Nat.lt_of_lt_of_eq (by decide : 481 < 1293) ops_len.symm) main_v320 rfl rfl (by decide) later_482
theorem later_480 : Later (τ := τ) (ops (F := F)) 6 480 := Later.step 480 (Nat.lt_of_lt_of_eq (by decide : 480 < 1293) ops_len.symm) main_v319 rfl rfl (by decide) later_481
theorem later_479 : Later (τ := τ) (ops (F := F)) 6 479 := Later.step 479 (Nat.lt_of_lt_of_eq (by decide : 479 < 1293) ops_len.symm) main_v318 rfl rfl (by decide) later_480
theorem later_478 : Later (τ := τ) (ops (F := F)) 6 478 := Later.step 478 (Nat.lt_of_lt_of_eq (by decide : 478 < 1293) ops_len.symm) main_v317 rfl rfl (by decide) later_479
theorem later_477 : Later (τ := τ) (ops (F := F)) 6 477 := Later.step 477 (Nat.lt_of_lt_of_eq (by decide : 477 < 1293) ops_len.symm) main_v316 rfl rfl (by decide) later_478
theorem later_476 : Later (τ := τ) (ops (F := F)) 6 476 := Later.step 476 (Nat.lt_of_lt_of_eq (by decide : 476 < 1293) ops_len.symm) main_v315 rfl rfl (by decide) later_477
theorem later_475 : Later (τ := τ) (ops (F := F)) 6 475 := Later.step 475 (Nat.lt_of_lt_of_eq (by decide : 475 < 1293) ops_len.symm) main_v314 rfl rfl (by decide) later_476
theorem later_474 : Later (τ := τ) (ops (F := F)) 6 474 := Later.step 474 (Nat.lt_of_lt_of_eq (by decide : 474 < 1293) ops_len.symm) main_v313 rfl rfl (by decide) later_475
theorem later_473 : Later (τ := τ) (ops (F := F)) 6 473 := Later.step 473 (Nat.lt_of_lt_of_eq (by decide : 473 < 1293) ops_len.symm) main_v312 rfl rfl (by decide) later_474
theorem later_472 : Later (τ := τ) (ops (F := F)) 6 472 := Later.step 472 (Nat.lt_of_lt_of_eq (by decide : 472 < 1293) ops_len.symm) main_v311 rfl rfl (by decide) later_473
theorem later_471 : Later (τ := τ) (ops (F := F)) 6 471 := Later.step 471 (Nat.lt_of_lt_of_eq (by decide : 471 < 1293) ops_len.symm) main_v310 rfl rfl (by decide) later_472
theorem later_470 : Later (τ := τ) (ops (F := F)) 6 470 := Later.step 470 (Nat.lt_of_lt_of_eq (by decide : 470 < 1293) ops_len.symm) main_v309 rfl rfl (by decide) later_471
theorem later_469 : Later (τ := τ) (ops (F := F)) 6 469 := Later.step 469 (Nat.lt_of_lt_of_eq (by decide : 469 < 1293) ops_len.symm) main_c_98 rfl rfl (by decide) later_470
theorem later_468 : Later (τ := τ) (ops (F := F)) 6 468 := Later.step 468 (Nat.lt_of_lt_of_eq (by decide : 468 < 1293) ops_len.symm) main_v308 rfl rfl (by decide) later_469
theorem later_467 : Later (τ := τ) (ops (F := F)) 6 467 := Later.step 467 (Nat.lt_of_lt_of_eq (by decide : 467 < 1293) ops_len.symm) main_v307 rfl rfl (by decide) later_468
theorem later_466 : Later (τ := τ) (ops (F := F)) 6 466 := Later.step 466 (Nat.lt_of_lt_of_eq (by decide : 466 < 1293) ops_len.symm) main_c_97 rfl rfl (by decide) later_467
theorem later_465 : Later (τ := τ) (ops (F := F)) 6 465 := Later.step 465 (Nat.lt_of_lt_of_eq (by decide : 465 < 1293) ops_len.symm) main_v306 rfl rfl (by decide) later_466
theorem later_464 : Later (τ := τ) (ops (F := F)) 6 464 := Later.step 464 (Nat.lt_of_lt_of_eq (by decide : 464 < 1293) ops_len.symm) main_v305 rfl rfl (by decide) later_465
theorem later_463 : Later (τ := τ) (ops (F := F)) 6 463 := Later.step 463 (Nat.lt_of_lt_of_eq (by decide : 463 < 1293) ops_len.symm) main_v304 rfl rfl (by decide) later_464
theorem later_462 : Later (τ := τ) (ops (F := F)) 6 462 := Later.step 462 (Nat.lt_of_lt_of_eq (by decide : 462 < 1293) ops_len.symm) main_c_96 rfl rfl (by decide) later_463
theorem later_461 : Later (τ := τ) (ops (F := F)) 6 461 := Later.step 461 (Nat.lt_of_lt_of_eq (by decide : 461 < 1293) ops_len.symm) main_v303 rfl rfl (by decide) later_462
theorem later_460 : Later (τ := τ) (ops (F := F)) 6 460 := Later.step 460 (Nat.lt_of_lt_of_eq (by decide : 460 < 1293) ops_len.symm) main_v302 rfl rfl (by decide) later_461
theorem later_459 : Later (τ := τ) (ops (F := F)) 6 459 := Later.step 459 (Nat.lt_of_lt_of_eq (by decide : 459 < 1293) ops_len.symm) main_c_95 rfl rfl (by decide) later_460
theorem later_458 : Later (τ := τ) (ops (F := F)) 6 458 := Later.step 458 (Nat.lt_of_lt_of_eq (by decide : 458 < 1293) ops_len.symm) main_v301 rfl rfl (by decide) later_459
theorem later_457 : Later (τ := τ) (ops (F := F)) 6 457 := Later.step 457 (Nat.lt_of_lt_of_eq (by decide : 457 < 1293) ops_len.symm) main_v300 rfl rfl (by decide) later_458
theorem later_456 : Later (τ := τ) (ops (F := F)) 6 456 := Later.step 456 (Nat.lt_of_lt_of_eq (by decide : 456 < 1293) ops_len.symm) main_v299 rfl rfl (by decide) later_457
theorem later_455 : Later (τ := τ) (ops (F := F)) 6 455 := Later.step 455 (Nat.lt_of_lt_of_eq (by decide : 455 < 1293) ops_len.symm) main_c_94 rfl rfl (by decide) later_456
theorem later_454 : Later (τ := τ) (ops (F := F)) 6 454 := Later.step 454 (Nat.lt_of_lt_of_eq (by decide : 454 < 1293) ops_len.symm) main_v298 rfl rfl (by decide) later_455
theorem later_453 : Later (τ := τ) (ops (F := F)) 6 453 := Later.step 453 (Nat.lt_of_lt_of_eq (by decide : 453 < 1293) ops_len.symm) main_v297 rfl rfl (by decide) later_454
theorem later_452 : Later (τ := τ) (ops (F := F)) 6 452 := Later.step 452 (Nat.lt_of_lt_of_eq (by decide : 452 < 1293) ops_len.symm) main_c_93 rfl rfl (by decide) later_453
theorem later_451 : Later (τ := τ) (ops (F := F)) 6 451 := Later.step 451 (Nat.lt_of_lt_of_eq (by decide : 451 < 1293) ops_len.symm) main_v296 rfl rfl (by decide) later_452
theorem later_450 : Later (τ := τ) (ops (F := F)) 6 450 := Later.step 450 (Nat.lt_of_lt_of_eq (by decide : 450 < 1293) ops_len.symm) main_v295 rfl rfl (by decide) later_451
theorem later_449 : Later (τ := τ) (ops (F := F)) 6 449 := Later.step 449 (Nat.lt_of_lt_of_eq (by decide : 449 < 1293) ops_len.symm) main_call11_v4 rfl rfl (by decide) later_450
theorem later_448 : Later (τ := τ) (ops (F := F)) 6 448 := Later.step 448 (Nat.lt_of_lt_of_eq (by decide : 448 < 1293) ops_len.symm) main_call11_v3 rfl rfl (by decide) later_449
theorem later_447 : Later (τ := τ) (ops (F := F)) 6 447 := Later.step 447 (Nat.lt_of_lt_of_eq (by decide : 447 < 1293) ops_len.symm) main_call11_v2 rfl rfl (by decide) later_448
theorem later_446 : Later (τ := τ) (ops (F := F)) 6 446 := Later.step 446 (Nat.lt_of_lt_of_eq (by decide : 446 < 1293) ops_len.symm) main_call11_v1 rfl rfl (by decide) later_447
theorem later_445 : Later (τ := τ) (ops (F := F)) 6 445 := Later.step 445 (Nat.lt_of_lt_of_eq (by decide : 445 < 1293) ops_len.symm) main_call11_v0 rfl rfl (by decide) later_446
theorem later_444 : Later (τ := τ) (ops (F := F)) 6 444 := Later.step 444 (Nat.lt_of_lt_of_eq (by decide : 444 < 1293) ops_len.symm) main_c_92 rfl rfl (by decide) later_445
theorem later_443 : Later (τ := τ) (ops (F := F)) 6 443 := Later.step 443 (Nat.lt_of_lt_of_eq (by decide : 443 < 1293) ops_len.symm) main_c_91 rfl rfl (by decide) later_444
theorem later_442 : Later (τ := τ) (ops (F := F)) 6 442 := Later.step 442 (Nat.lt_of_lt_of_eq (by decide : 442 < 1293) ops_len.symm) main_v294 rfl rfl (by decide) later_443
theorem later_441 : Later (τ := τ) (ops (F := F)) 6 441 := Later.step 441 (Nat.lt_of_lt_of_eq (by decide : 441 < 1293) ops_len.symm) main_call10_v4 rfl rfl (by decide) later_442
theorem later_440 : Later (τ := τ) (ops (F := F)) 6 440 := Later.step 440 (Nat.lt_of_lt_of_eq (by decide : 440 < 1293) ops_len.symm) main_call10_v3 rfl rfl (by decide) later_441
theorem later_439 : Later (τ := τ) (ops (F := F)) 6 439 := Later.step 439 (Nat.lt_of_lt_of_eq (by decide : 439 < 1293) ops_len.symm) main_call10_v2 rfl rfl (by decide) later_440
theorem later_438 : Later (τ := τ) (ops (F := F)) 6 438 := Later.step 438 (Nat.lt_of_lt_of_eq (by decide : 438 < 1293) ops_len.symm) main_call10_v1 rfl rfl (by decide) later_439
theorem later_437 : Later (τ := τ) (ops (F := F)) 6 437 := Later.step 437 (Nat.lt_of_lt_of_eq (by decide : 437 < 1293) ops_len.symm) main_call10_v0 rfl rfl (by decide) later_438
theorem later_436 : Later (τ := τ) (ops (F := F)) 6 436 := Later.step 436 (Nat.lt_of_lt_of_eq (by decide : 436 < 1293) ops_len.symm) main_c_90 rfl rfl (by decide) later_437
theorem later_435 : Later (τ := τ) (ops (F := F)) 6 435 := Later.step 435 (Nat.lt_of_lt_of_eq (by decide : 435 < 1293) ops_len.symm) main_c_89 rfl rfl (by decide) later_436
theorem later_434 : Later (τ := τ) (ops (F := F)) 6 434 := Later.step 434 (Nat.lt_of_lt_of_eq (by decide : 434 < 1293) ops_len.symm) main_v293 rfl rfl (by decide) later_435
theorem later_433 : Later (τ := τ) (ops (F := F)) 6 433 := Later.step 433 (Nat.lt_of_lt_of_eq (by decide : 433 < 1293) ops_len.symm) main_v292 rfl rfl (by decide) later_434
theorem later_432 : Later (τ := τ) (ops (F := F)) 6 432 := Later.step 432 (Nat.lt_of_lt_of_eq (by decide : 432 < 1293) ops_len.symm) main_v291 rfl rfl (by decide) later_433
theorem later_431 : Later (τ := τ) (ops (F := F)) 6 431 := Later.step 431 (Nat.lt_of_lt_of_eq (by decide : 431 < 1293) ops_len.symm) main_c_88 rfl rfl (by decide) later_432
theorem later_430 : Later (τ := τ) (ops (F := F)) 6 430 := Later.step 430 (Nat.lt_of_lt_of_eq (by decide : 430 < 1293) ops_len.symm) main_v290 rfl rfl (by decide) later_431
theorem later_429 : Later (τ := τ) (ops (F := F)) 6 429 := Later.step 429 (Nat.lt_of_lt_of_eq (by decide : 429 < 1293) ops_len.symm) main_v289 rfl rfl (by decide) later_430
theorem later_428 : Later (τ := τ) (ops (F := F)) 6 428 := Later.step 428 (Nat.lt_of_lt_of_eq (by decide : 428 < 1293) ops_len.symm) main_v288 rfl rfl (by decide) later_429
theorem later_427 : Later (τ := τ) (ops (F := F)) 6 427 := Later.step 427 (Nat.lt_of_lt_of_eq (by decide : 427 < 1293) ops_len.symm) main_c_87 rfl rfl (by decide) later_428
theorem later_426 : Later (τ := τ) (ops (F := F)) 6 426 := Later.step 426 (Nat.lt_of_lt_of_eq (by decide : 426 < 1293) ops_len.symm) main_v287 rfl rfl (by decide) later_427
theorem later_425 : Later (τ := τ) (ops (F := F)) 6 425 := Later.step 425 (Nat.lt_of_lt_of_eq (by decide : 425 < 1293) ops_len.symm) main_v286 rfl rfl (by decide) later_426
theorem later_424 : Later (τ := τ) (ops (F := F)) 6 424 := Later.step 424 (Nat.lt_of_lt_of_eq (by decide : 424 < 1293) ops_len.symm) main_v285 rfl rfl (by decide) later_425
theorem later_423 : Later (τ := τ) (ops (F := F)) 6 423 := Later.step 423 (Nat.lt_of_lt_of_eq (by decide : 423 < 1293) ops_len.symm) main_c_86 rfl rfl (by decide) later_424
theorem later_422 : Later (τ := τ) (ops (F := F)) 6 422 := Later.step 422 (Nat.lt_of_lt_of_eq (by decide : 422 < 1293) ops_len.symm) main_v284 rfl rfl (by decide) later_423
theorem later_421 : Later (τ := τ) (ops (F := F)) 6 421 := Later.step 421 (Nat.lt_of_lt_of_eq (by decide : 421 < 1293) ops_len.symm) main_v283 rfl rfl (by decide) later_422
theorem later_420 : Later (τ := τ) (ops (F := F)) 6 420 := Later.step 420 (Nat.lt_of_lt_of_eq (by decide : 420 < 1293) ops_len.symm) main_c_85 rfl rfl (by decide) later_421
theorem later_419 : Later (τ := τ) (ops (F := F)) 6 419 := Later.step 419 (Nat.lt_of_lt_of_eq (by decide : 419 < 1293) ops_len.symm) main_v282 rfl rfl (by decide) later_420
theorem later_418 : Later (τ := τ) (ops (F := F)) 6 418 := Later.step 418 (Nat.lt_of_lt_of_eq (by decide : 418 < 1293) ops_len.symm) main_v281 rfl rfl (by decide) later_419
theorem later_417 : Later (τ := τ) (ops (F := F)) 6 417 := Later.step 417 (Nat.lt_of_lt_of_eq (by decide : 417 < 1293) ops_len.symm) main_c_84 rfl rfl (by decide) later_418
theorem later_416 : Later (τ := τ) (ops (F := F)) 6 416 := Later.step 416 (Nat.lt_of_lt_of_eq (by decide : 416 < 1293) ops_len.symm) main_v280 rfl rfl (by decide) later_417
theorem later_415 : Later (τ := τ) (ops (F := F)) 6 415 := Later.step 415 (Nat.lt_of_lt_of_eq (by decide : 415 < 1293) ops_len.symm) main_v279 rfl rfl (by decide) later_416
theorem later_414 : Later (τ := τ) (ops (F := F)) 6 414 := Later.step 414 (Nat.lt_of_lt_of_eq (by decide : 414 < 1293) ops_len.symm) main_v278 rfl rfl (by decide) later_415
theorem later_413 : Later (τ := τ) (ops (F := F)) 6 413 := Later.step 413 (Nat.lt_of_lt_of_eq (by decide : 413 < 1293) ops_len.symm) main_v277 rfl rfl (by decide) later_414
theorem later_412 : Later (τ := τ) (ops (F := F)) 6 412 := Later.step 412 (Nat.lt_of_lt_of_eq (by decide : 412 < 1293) ops_len.symm) main_v276 rfl rfl (by decide) later_413
theorem later_411 : Later (τ := τ) (ops (F := F)) 6 411 := Later.step 411 (Nat.lt_of_lt_of_eq (by decide : 411 < 1293) ops_len.symm) main_v275 rfl rfl (by decide) later_412
theorem later_410 : Later (τ := τ) (ops (F := F)) 6 410 := Later.step 410 (Nat.lt_of_lt_of_eq (by decide : 410 < 1293) ops_len.symm) main_v274 rfl rfl (by decide) later_411
theorem later_409 : Later (τ := τ) (ops (F := F)) 6 409 := Later.step 409 (Nat.lt_of_lt_of_eq (by decide : 409 < 1293) ops_len.symm) main_v273 rfl rfl (by decide) later_410
theorem later_408 : Later (τ := τ) (ops (F := F)) 6 408 := Later.step 408 (Nat.lt_of_lt_of_eq (by decide : 408 < 1293) ops_len.symm) main_v272 rfl rfl (by decide) later_409
theorem later_407 : Later (τ := τ) (ops (F := F)) 6 407 := Later.step 407 (Nat.lt_of_lt_of_eq (by decide : 407 < 1293) ops_len.symm) main_v271 rfl rfl (by decide) later_408
theorem later_406 : Later (τ := τ) (ops (F := F)) 6 406 := Later.step 406 (Nat.lt_of_lt_of_eq (by decide : 406 < 1293) ops_len.symm) main_v270 rfl rfl (by decide) later_407
theorem later_405 : Later (τ := τ) (ops (F := F)) 6 405 := Later.step 405 (Nat.lt_of_lt_of_eq (by decide : 405 < 1293) ops_len.symm) main_v269 rfl rfl (by decide) later_406
theorem later_404 : Later (τ := τ) (ops (F := F)) 6 404 := Later.step 404 (Nat.lt_of_lt_of_eq (by decide : 404 < 1293) ops_len.symm) main_v268 rfl rfl (by decide) later_405
theorem later_403 : Later (τ := τ) (ops (F := F)) 6 403 := Later.step 403 (Nat.lt_of_lt_of_eq (by decide : 403 < 1293) ops_len.symm) main_c_83 rfl rfl (by decide) later_404
theorem later_402 : Later (τ := τ) (ops (F := F)) 6 402 := Later.step 402 (Nat.lt_of_lt_of_eq (by decide : 402 < 1293) ops_len.symm) main_v267 rfl rfl (by decide) later_403
theorem later_401 : Later (τ := τ) (ops (F := F)) 6 401 := Later.step 401 (Nat.lt_of_lt_of_eq (by decide : 401 < 1293) ops_len.symm) main_v266 rfl rfl (by decide) later_402
theorem later_400 : Later (τ := τ) (ops (F := F)) 6 400 := Later.step 400 (Nat.lt_of_lt_of_eq (by decide : 400 < 1293) ops_len.symm) main_c_82 rfl rfl (by decide) later_401
theorem later_399 : Later (τ := τ) (ops (F := F)) 6 399 := Later.step 399 (Nat.lt_of_lt_of_eq (by decide : 399 < 1293) ops_len.symm) main_v265 rfl rfl (by decide) later_400
theorem later_398 : Later (τ := τ) (ops (F := F)) 6 398 := Later.step 398 (Nat.lt_of_lt_of_eq (by decide : 398 < 1293) ops_len.symm) main_v264 rfl rfl (by decide) later_399
theorem later_397 : Later (τ := τ) (ops (F := F)) 6 397 := Later.step 397 (Nat.lt_of_lt_of_eq (by decide : 397 < 1293) ops_len.symm) main_v263 rfl rfl (by decide) later_398
theorem later_396 : Later (τ := τ) (ops (F := F)) 6 396 := Later.step 396 (Nat.lt_of_lt_of_eq (by decide : 396 < 1293) ops_len.symm) main_c_81 rfl rfl (by decide) later_397
theorem later_395 : Later (τ := τ) (ops (F := F)) 6 395 := Later.step 395 (Nat.lt_of_lt_of_eq (by decide : 395 < 1293) ops_len.symm) main_v262 rfl rfl (by decide) later_396
theorem later_394 : Later (τ := τ) (ops (F := F)) 6 394 := Later.step 394 (Nat.lt_of_lt_of_eq (by decide : 394 < 1293) ops_len.symm) main_v261 rfl rfl (by decide) later_395
theorem later_393 : Later (τ := τ) (ops (F := F)) 6 393 := Later.step 393 (Nat.lt_of_lt_of_eq (by decide : 393 < 1293) ops_len.symm) main_c_80 rfl rfl (by decide) later_394
theorem later_392 : Later (τ := τ) (ops (F := F)) 6 392 := Later.step 392 (Nat.lt_of_lt_of_eq (by decide : 392 < 1293) ops_len.symm) main_v260 rfl rfl (by decide) later_393
theorem later_391 : Later (τ := τ) (ops (F := F)) 6 391 := Later.step 391 (Nat.lt_of_lt_of_eq (by decide : 391 < 1293) ops_len.symm) main_v259 rfl rfl (by decide) later_392
theorem later_390 : Later (τ := τ) (ops (F := F)) 6 390 := Later.step 390 (Nat.lt_of_lt_of_eq (by decide : 390 < 1293) ops_len.symm) main_v258 rfl rfl (by decide) later_391
theorem later_389 : Later (τ := τ) (ops (F := F)) 6 389 := Later.step 389 (Nat.lt_of_lt_of_eq (by decide : 389 < 1293) ops_len.symm) main_c_79 rfl rfl (by decide) later_390
theorem later_388 : Later (τ := τ) (ops (F := F)) 6 388 := Later.step 388 (Nat.lt_of_lt_of_eq (by decide : 388 < 1293) ops_len.symm) main_v257 rfl rfl (by decide) later_389
theorem later_387 : Later (τ := τ) (ops (F := F)) 6 387 := Later.step 387 (Nat.lt_of_lt_of_eq (by decide : 387 < 1293) ops_len.symm) main_v256 rfl rfl (by decide) later_388
theorem later_386 : Later (τ := τ) (ops (F := F)) 6 386 := Later.step 386 (Nat.lt_of_lt_of_eq (by decide : 386 < 1293) ops_len.symm) main_c_78 rfl rfl (by decide) later_387
theorem later_385 : Later (τ := τ) (ops (F := F)) 6 385 := Later.step 385 (Nat.lt_of_lt_of_eq (by decide : 385 < 1293) ops_len.symm) main_v255 rfl rfl (by decide) later_386
theorem later_384 : Later (τ := τ) (ops (F := F)) 6 384 := Later.step 384 (Nat.lt_of_lt_of_eq (by decide : 384 < 1293) ops_len.symm) main_v254 rfl rfl (by decide) later_385
theorem later_383 : Later (τ := τ) (ops (F := F)) 6 383 := Later.step 383 (Nat.lt_of_lt_of_eq (by decide : 383 < 1293) ops_len.symm) main_call9_v4 rfl rfl (by decide) later_384
theorem later_382 : Later (τ := τ) (ops (F := F)) 6 382 := Later.step 382 (Nat.lt_of_lt_of_eq (by decide : 382 < 1293) ops_len.symm) main_call9_v3 rfl rfl (by decide) later_383
theorem later_381 : Later (τ := τ) (ops (F := F)) 6 381 := Later.step 381 (Nat.lt_of_lt_of_eq (by decide : 381 < 1293) ops_len.symm) main_call9_v2 rfl rfl (by decide) later_382
theorem later_380 : Later (τ := τ) (ops (F := F)) 6 380 := Later.step 380 (Nat.lt_of_lt_of_eq (by decide : 380 < 1293) ops_len.symm) main_call9_v1 rfl rfl (by decide) later_381
theorem later_379 : Later (τ := τ) (ops (F := F)) 6 379 := Later.step 379 (Nat.lt_of_lt_of_eq (by decide : 379 < 1293) ops_len.symm) main_call9_v0 rfl rfl (by decide) later_380
theorem later_378 : Later (τ := τ) (ops (F := F)) 6 378 := Later.step 378 (Nat.lt_of_lt_of_eq (by decide : 378 < 1293) ops_len.symm) main_c_77 rfl rfl (by decide) later_379
theorem later_377 : Later (τ := τ) (ops (F := F)) 6 377 := Later.step 377 (Nat.lt_of_lt_of_eq (by decide : 377 < 1293) ops_len.symm) main_c_76 rfl rfl (by decide) later_378
theorem later_376 : Later (τ := τ) (ops (F := F)) 6 376 := Later.step 376 (Nat.lt_of_lt_of_eq (by decide : 376 < 1293) ops_len.symm) main_v253 rfl rfl (by decide) later_377
theorem later_375 : Later (τ := τ) (ops (F := F)) 6 375 := Later.step 375 (Nat.lt_of_lt_of_eq (by decide : 375 < 1293) ops_len.symm) main_call8_v4 rfl rfl (by decide) later_376
theorem later_374 : Later (τ := τ) (ops (F := F)) 6 374 := Later.step 374 (Nat.lt_of_lt_of_eq (by decide : 374 < 1293) ops_len.symm) main_call8_v3 rfl rfl (by decide) later_375
theorem later_373 : Later (τ := τ) (ops (F := F)) 6 373 := Later.step 373 (Nat.lt_of_lt_of_eq (by decide : 373 < 1293) ops_len.symm) main_call8_v2 rfl rfl (by decide) later_374
theorem later_372 : Later (τ := τ) (ops (F := F)) 6 372 := Later.step 372 (Nat.lt_of_lt_of_eq (by decide : 372 < 1293) ops_len.symm) main_call8_v1 rfl rfl (by decide) later_373
theorem later_371 : Later (τ := τ) (ops (F := F)) 6 371 := Later.step 371 (Nat.lt_of_lt_of_eq (by decide : 371 < 1293) ops_len.symm) main_call8_v0 rfl rfl (by decide) later_372
theorem later_370 : Later (τ := τ) (ops (F := F)) 6 370 := Later.step 370 (Nat.lt_of_lt_of_eq (by decide : 370 < 1293) ops_len.symm) main_c_75 rfl rfl (by decide) later_371
theorem later_369 : Later (τ := τ) (ops (F := F)) 6 369 := Later.step 369 (Nat.lt_of_lt_of_eq (by decide : 369 < 1293) ops_len.symm) main_c_74 rfl rfl (by decide) later_370
theorem later_368 : Later (τ := τ) (ops (F := F)) 6 368 := Later.step 368 (Nat.lt_of_lt_of_eq (by decide : 368 < 1293) ops_len.symm) main_v252 rfl rfl (by decide) later_369
theorem later_367 : Later (τ := τ) (ops (F := F)) 6 367 := Later.step 367 (Nat.lt_of_lt_of_eq (by decide : 367 < 1293) ops_len.symm) main_v251 rfl rfl (by decide) later_368
theorem later_366 : Later (τ := τ) (ops (F := F)) 6 366 := Later.step 366 (Nat.lt_of_lt_of_eq (by decide : 366 < 1293) ops_len.symm) main_v250 rfl rfl (by decide) later_367
theorem later_365 : Later (τ := τ) (ops (F := F)) 6 365 := Later.step 365 (Nat.lt_of_lt_of_eq (by decide : 365 < 1293) ops_len.symm) main_c_73 rfl rfl (by decide) later_366
theorem later_364 : Later (τ := τ) (ops (F := F)) 6 364 := Later.step 364 (Nat.lt_of_lt_of_eq (by decide : 364 < 1293) ops_len.symm) main_v249 rfl rfl (by decide) later_365
theorem later_363 : Later (τ := τ) (ops (F := F)) 6 363 := Later.step 363 (Nat.lt_of_lt_of_eq (by decide : 363 < 1293) ops_len.symm) main_v248 rfl rfl (by decide) later_364
theorem later_362 : Later (τ := τ) (ops (F := F)) 6 362 := Later.step 362 (Nat.lt_of_lt_of_eq (by decide : 362 < 1293) ops_len.symm) main_v247 rfl rfl (by decide) later_363
theorem later_361 : Later (τ := τ) (ops (F := F)) 6 361 := Later.step 361 (Nat.lt_of_lt_of_eq (by decide : 361 < 1293) ops_len.symm) main_c_72 rfl rfl (by decide) later_362
theorem later_360 : Later (τ := τ) (ops (F := F)) 6 360 := Later.step 360 (Nat.lt_of_lt_of_eq (by decide : 360 < 1293) ops_len.symm) main_v246 rfl rfl (by decide) later_361
theorem later_359 : Later (τ := τ) (ops (F := F)) 6 359 := Later.step 359 (Nat.lt_of_lt_of_eq (by decide : 359 < 1293) ops_len.symm) main_v245 rfl rfl (by decide) later_360
theorem later_358 : Later (τ := τ) (ops (F := F)) 6 358 := Later.step 358 (Nat.lt_of_lt_of_eq (by decide : 358 < 1293) ops_len.symm) main_v244 rfl rfl (by decide) later_359
theorem later_357 : Later (τ := τ) (ops (F := F)) 6 357 := Later.step 357 (Nat.lt_of_lt_of_eq (by decide : 357 < 1293) ops_len.symm) main_c_71 rfl rfl (by decide) later_358
theorem later_356 : Later (τ := τ) (ops (F := F)) 6 356 := Later.step 356 (Nat.lt_of_lt_of_eq (by decide : 356 < 1293) ops_len.symm) main_v243 rfl rfl (by decide) later_357
theorem later_355 : Later (τ := τ) (ops (F := F)) 6 355 := Later.step 355 (Nat.lt_of_lt_of_eq (by decide : 355 < 1293) ops_len.symm) main_v242 rfl rfl (by decide) later_356
theorem later_354 : Later (τ := τ) (ops (F := F)) 6 354 := Later.step 354 (Nat.lt_of_lt_of_eq (by decide : 354 < 1293) ops_len.symm) main_c_70 rfl rfl (by decide) later_355
theorem later_353 : Later (τ := τ) (ops (F := F)) 6 353 := Later.step 353 (Nat.lt_of_lt_of_eq (by decide : 353 < 1293) ops_len.symm) main_v241 rfl rfl (by decide) later_354
theorem later_352 : Later (τ := τ) (ops (F := F)) 6 352 := Later.step 352 (Nat.lt_of_lt_of_eq (by decide : 352 < 1293) ops_len.symm) main_v240 rfl rfl (by decide) later_353
theorem later_351 : Later (τ := τ) (ops (F := F)) 6 351 := Later.step 351 (Nat.lt_of_lt_of_eq (by decide : 351 < 1293) ops_len.symm) main_v239 rfl rfl (by decide) later_352
theorem later_350 : Later (τ := τ) (ops (F := F)) 6 350 := Later.step 350 (Nat.lt_of_lt_of_eq (by decide : 350 < 1293) ops_len.symm) main_v238 rfl rfl (by decide) later_351
theorem later_349 : Later (τ := τ) (ops (F := F)) 6 349 := Later.step 349 (Nat.lt_of_lt_of_eq (by decide : 349 < 1293) ops_len.symm) main_v237 rfl rfl (by decide) later_350
theorem later_348 : Later (τ := τ) (ops (F := F)) 6 348 := Later.step 348 (Nat.lt_of_lt_of_eq (by decide : 348 < 1293) ops_len.symm) main_v236 rfl rfl (by decide) later_349
theorem later_347 : Later (τ := τ) (ops (F := F)) 6 347 := Later.step 347 (Nat.lt_of_lt_of_eq (by decide : 347 < 1293) ops_len.symm) main_v235 rfl rfl (by decide) later_348
theorem later_346 : Later (τ := τ) (ops (F := F)) 6 346 := Later.step 346 (Nat.lt_of_lt_of_eq (by decide : 346 < 1293) ops_len.symm) main_v234 rfl rfl (by decide) later_347
theorem later_345 : Later (τ := τ) (ops (F := F)) 6 345 := Later.step 345 (Nat.lt_of_lt_of_eq (by decide : 345 < 1293) ops_len.symm) main_cst_69 rfl rfl (by decide) later_346
theorem later_344 : Later (τ := τ) (ops (F := F)) 6 344 := Later.step 344 (Nat.lt_of_lt_of_eq (by decide : 344 < 1293) ops_len.symm) main_v233 rfl rfl (by decide) later_345
theorem later_343 : Later (τ := τ) (ops (F := F)) 6 343 := Later.step 343 (Nat.lt_of_lt_of_eq (by decide : 343 < 1293) ops_len.symm) main_v232 rfl rfl (by decide) later_344
theorem later_342 : Later (τ := τ) (ops (F := F)) 6 342 := Later.step 342 (Nat.lt_of_lt_of_eq (by decide : 342 < 1293) ops_len.symm) main_cst_68 rfl rfl (by decide) later_343
theorem later_341 : Later (τ := τ) (ops (F := F)) 6 341 := Later.step 341 (Nat.lt_of_lt_of_eq (by decide : 341 < 1293) ops_len.symm) main_v231 rfl rfl (by decide) later_342
theorem later_340 : Later (τ := τ) (ops (F := F)) 6 340 := Later.step 340 (Nat.lt_of_lt_of_eq (by decide : 340 < 1293) ops_len.symm) main_v230 rfl rfl (by decide) later_341
theorem later_339 : Later (τ := τ) (ops (F := F)) 6 339 := Later.step 339 (Nat.lt_of_lt_of_eq (by decide : 339 < 1293) ops_len.symm) main_v229 rfl rfl (by decide) later_340
theorem later_338 : Later (τ := τ) (ops (F := F)) 6 338 := Later.step 338 (Nat.lt_of_lt_of_eq (by decide : 338 < 1293) ops_len.symm) main_v228 rfl rfl (by decide) later_339
theorem later_337 : Later (τ := τ) (ops (F := F)) 6 337 := Later.step 337 (Nat.lt_of_lt_of_eq (by decide : 337 < 1293) ops_len.symm) main_cst_67 rfl rfl (by decide) later_338
theorem later_336 : Later (τ := τ) (ops (F := F)) 6 336 := Later.step 336 (Nat.lt_of_lt_of_eq (by decide : 336 < 1293) ops_len.symm) main_v227 rfl rfl (by decide) later_337
theorem later_335 : Later (τ := τ) (ops (F := F)) 6 335 := Later.step 335 (Nat.lt_of_lt_of_eq (by decide : 335 < 1293) ops_len.symm) main_v226 rfl rfl (by decide) later_336
theorem later_334 : Later (τ := τ) (ops (F := F)) 6 334 := Later.step 334 (Nat.lt_of_lt_of_eq (by decide : 334 < 1293) ops_len.symm) main_cst_66 rfl rfl (by decide) later_335
theorem later_333 : Later (τ := τ) (ops (F := F)) 6 333 := Later.step 333 (Nat.lt_of_lt_of_eq (by decide : 333 < 1293) ops_len.symm) main_v225 rfl rfl (by decide) later_334
theorem later_332 : Later (τ := τ) (ops (F := F)) 6 332 := Later.step 332 (Nat.lt_of_lt_of_eq (by decide : 332 < 1293) ops_len.symm) main_v224 rfl rfl (by decide) later_333
theorem later_331 : Later (τ := τ) (ops (F := F)) 6 331 := Later.step 331 (Nat.lt_of_lt_of_eq (by decide : 331 < 1293) ops_len.symm) main_v223 rfl rfl (by decide) later_332
theorem later_330 : Later (τ := τ) (ops (F := F)) 6 330 := Later.step 330 (Nat.lt_of_lt_of_eq (by decide : 330 < 1293) ops_len.symm) main_v222 rfl rfl (by decide) later_331
theorem later_329 : Later (τ := τ) (ops (F := F)) 6 329 := Later.step 329 (Nat.lt_of_lt_of_eq (by decide : 329 < 1293) ops_len.symm) main_v221 rfl rfl (by decide) later_330
theorem later_328 : Later (τ := τ) (ops (F := F)) 6 328 := Later.step 328 (Nat.lt_of_lt_of_eq (by decide : 328 < 1293) ops_len.symm) main_v220 rfl rfl (by decide) later_329
theorem later_327 : Later (τ := τ) (ops (F := F)) 6 327 := Later.step 327 (Nat.lt_of_lt_of_eq (by decide : 327 < 1293) ops_len.symm) main_v219 rfl rfl (by decide) later_328
theorem later_326 : Later (τ := τ) (ops (F := F)) 6 326 := Later.step 326 (Nat.lt_of_lt_of_eq (by decide : 326 < 1293) ops_len.symm) main_v218 rfl rfl (by decide) later_327
theorem later_325 : Later (τ := τ) (ops (F := F)) 6 325 := Later.step 325 (Nat.lt_of_lt_of_eq (by decide : 325 < 1293) ops_len.symm) main_v217 rfl rfl (by decide) later_326
theorem later_324 : Later (τ := τ) (ops (F := F)) 6 324 := Later.step 324 (Nat.lt_of_lt_of_eq (by decide : 324 < 1293) ops_len.symm) main_v216 rfl rfl (by decide) later_325
theorem later_323 : Later (τ := τ) (ops (F := F)) 6 323 := Later.step 323 (Nat.lt_of_lt_of_eq (by decide : 323 < 1293) ops_len.symm) main_v215 rfl rfl (by decide) later_324
theorem later_322 : Later (τ := τ) (ops (F := F)) 6 322 := Later.step 322 (Nat.lt_of_lt_of_eq (by decide : 322 < 1293) ops_len.symm) main_v214 rfl rfl (by decide) later_323
theorem later_321 : Later (τ := τ) (ops (F := F)) 6 321 := Later.step 321 (Nat.lt_of_lt_of_eq (by decide : 321 < 1293) ops_len.symm) main_v213 rfl rfl (by decide) later_322
theorem later_320 : Later (τ := τ) (ops (F := F)) 6 320 := Later.step 320 (Nat.lt_of_lt_of_eq (by decide : 320 < 1293) ops_len.symm) main_v212 rfl rfl (by decide) later_321
theorem later_319 : Later (τ := τ) (ops (F := F)) 6 319 := Later.step 319 (Nat.lt_of_lt_of_eq (by decide : 319 < 1293) ops_len.symm) main_v211 rfl rfl (by decide) later_320
theorem later_318 : Later (τ := τ) (ops (F := F)) 6 318 := Later.step 318 (Nat.lt_of_lt_of_eq (by decide : 318 < 1293) ops_len.symm) main_cst_65 rfl rfl (by decide) later_319
theorem later_317 : Later (τ := τ) (ops (F := F)) 6 317 := Later.step 317 (Nat.lt_of_lt_of_eq (by decide : 317 < 1293) ops_len.symm) main_v210 rfl rfl (by decide) later_318
theorem later_316 : Later (τ := τ) (ops (F := F)) 6 316 := Later.step 316 (Nat.lt_of_lt_of_eq (by decide : 316 < 1293) ops_len.symm) main_v209 rfl rfl (by decide) later_317
theorem later_315 : Later (τ := τ) (ops (F := F)) 6 315 := Later.step 315 (Nat.lt_of_lt_of_eq (by decide : 315 < 1293) ops_len.symm) main_v208 rfl rfl (by decide) later_316
theorem later_314 : Later (τ := τ) (ops (F := F)) 6 314 := Later.step 314 (Nat.lt_of_lt_of_eq (by decide : 314 < 1293) ops_len.symm) main_v207 rfl rfl (by decide) later_315
theorem later_313 : Later (τ := τ) (ops (F := F)) 6 313 := Later.step 313 (Nat.lt_of_lt_of_eq (by decide : 313 < 1293) ops_len.symm) main_v206 rfl rfl (by decide) later_314
theorem later_312 : Later (τ := τ) (ops (F := F)) 6 312 := Later.step 312 (Nat.lt_of_lt_of_eq (by decide : 312 < 1293) ops_len.symm) main_cst_64 rfl rfl (by decide) later_313
theorem later_311 : Later (τ := τ) (ops (F := F)) 6 311 := Later.step 311 (Nat.lt_of_lt_of_eq (by decide : 311 < 1293) ops_len.symm) main_v205 rfl rfl (by decide) later_312
theorem later_310 : Later (τ := τ) (ops (F := F)) 6 310 := Later.step 310 (Nat.lt_of_lt_of_eq (by decide : 310 < 1293) ops_len.symm) main_v204 rfl rfl (by decide) later_311
theorem later_309 : Later (τ := τ) (ops (F := F)) 6 309 := Later.step 309 (Nat.lt_of_lt_of_eq (by decide : 309 < 1293) ops_len.symm) main_v203 rfl rfl (by decide) later_310
theorem later_308 : Later (τ := τ) (ops (F := F)) 6 308 := Later.step 308 (Nat.lt_of_lt_of_eq (by decide : 308 < 1293) ops_len.symm) main_v202 rfl rfl (by decide) later_309
theorem later_307 : Later (τ := τ) (ops (F := F)) 6 307 := Later.step 307 (Nat.lt_of_lt_of_eq (by decide : 307 < 1293) ops_len.symm) main_v201 rfl rfl (by decide) later_308
theorem later_306 : Later (τ := τ) (ops (F := F)) 6 306 := Later.step 306 (Nat.lt_of_lt_of_eq (by decide : 306 < 1293) ops_len.symm) main_v200 rfl rfl (by decide) later_307
theorem later_305 : Later (τ := τ) (ops (F := F)) 6 305 := Later.step 305 (Nat.lt_of_lt_of_eq (by decide : 305 < 1293) ops_len.symm) main_cst_63 rfl rfl (by decide) later_306
theorem later_304 : Later (τ := τ) (ops (F := F)) 6 304 := Later.step 304 (Nat.lt_of_lt_of_eq (by decide : 304 < 1293) ops_len.symm) main_v199 rfl rfl (by decide) later_305
theorem later_303 : Later (τ := τ) (ops (F := F)) 6 303 := Later.step 303 (Nat.lt_of_lt_of_eq (by decide : 303 < 1293) ops_len.symm) main_v198 rfl rfl (by decide) later_304
theorem later_302 : Later (τ := τ) (ops (F := F)) 6 302 := Later.step 302 (Nat.lt_of_lt_of_eq (by decide : 302 < 1293) ops_len.symm) main_v197 rfl rfl (by decide) later_303
theorem later_301 : Later (τ := τ) (ops (F := F)) 6 301 := Later.step 301 (Nat.lt_of_lt_of_eq (by decide : 301 < 1293) ops_len.symm) main_v196 rfl rfl (by decide) later_302
theorem later_300 : Later (τ := τ) (ops (F := F)) 6 300 := Later.step 300 (Nat.lt_of_lt_of_eq (by decide : 300 < 1293) ops_len.symm) main_cst_62 rfl rfl (by decide) later_301
theorem later_299 : Later (τ := τ) (ops (F := F)) 6 299 := Later.step 299 (Nat.lt_of_lt_of_eq (by decide : 299 < 1293) ops_len.symm) main_v195 rfl rfl (by decide) later_300
theorem later_298 : Later (τ := τ) (ops (F := F)) 6 298 := Later.step 298 (Nat.lt_of_lt_of_eq (by decide : 298 < 1293) ops_len.symm) main_v194 rfl rfl (by decide) later_299
theorem later_297 : Later (τ := τ) (ops (F := F)) 6 297 := Later.step 297 (Nat.lt_of_lt_of_eq (by decide : 297 < 1293) ops_len.symm) main_v193 rfl rfl (by decide) later_298
theorem later_296 : Later (τ := τ) (ops (F := F)) 6 296 := Later.step 296 (Nat.lt_of_lt_of_eq (by decide : 296 < 1293) ops_len.symm) main_v192 rfl rfl (by decide) later_297
theorem later_295 : Later (τ := τ) (ops (F := F)) 6 295 := Later.step 295 (Nat.lt_of_lt_of_eq (by decide : 295 < 1293) ops_len.symm) main_v191 rfl rfl (by decide) later_296
theorem later_294 : Later (τ := τ) (ops (F := F)) 6 294 := Later.step 294 (Nat.lt_of_lt_of_eq (by decide : 294 < 1293) ops_len.symm) main_v190 rfl rfl (by decide) later_295
theorem later_293 : Later (τ := τ) (ops (F := F)) 6 293 := Later.step 293 (Nat.lt_of_lt_of_eq (by decide : 293 < 1293) ops_len.symm) main_v189 rfl rfl (by decide) later_294
theorem later_292 : Later (τ := τ) (ops (F := F)) 6 292 := Later.step 292 (Nat.lt_of_lt_of_eq (by decide : 292 < 1293) ops_len.symm) main_v188 rfl rfl (by decide) later_293
theorem later_291 : Later (τ := τ) (ops (F := F)) 6 291 := Later.step 291 (Nat.lt_of_lt_of_eq (by decide : 291 < 1293) ops_len.symm) main_v187 rfl rfl (by decide) later_292
theorem later_290 : Later (τ := τ) (ops (F := F)) 6 290 := Later.step 290 (Nat.lt_of_lt_of_eq (by decide : 290 < 1293) ops_len.symm) main_v186 rfl rfl (by decide) later_291
theorem later_289 : Later (τ := τ) (ops (F := F)) 6 289 := Later.step 289 (Nat.lt_of_lt_of_eq (by decide : 289 < 1293) ops_len.symm) main_v185 rfl rfl (by decide) later_290
theorem later_288 : Later (τ := τ) (ops (F := F)) 6 288 := Later.step 288 (Nat.lt_of_lt_of_eq (by decide : 288 < 1293) ops_len.symm) main_v184 rfl rfl (by decide) later_289
theorem later_287 : Later (τ := τ) (ops (F := F)) 6 287 := Later.step 287 (Nat.lt_of_lt_of_eq (by decide : 287 < 1293) ops_len.symm) main_v183 rfl rfl (by decide) later_288
theorem later_286 : Later (τ := τ) (ops (F := F)) 6 286 := Later.step 286 (Nat.lt_of_lt_of_eq (by decide : 286 < 1293) ops_len.symm) main_v182 rfl rfl (by decide) later_287
theorem later_285 : Later (τ := τ) (ops (F := F)) 6 285 := Later.step 285 (Nat.lt_of_lt_of_eq (by decide : 285 < 1293) ops_len.symm) main_v181 rfl rfl (by decide) later_286
theorem later_284 : Later (τ := τ) (ops (F := F)) 6 284 := Later.step 284 (Nat.lt_of_lt_of_eq (by decide : 284 < 1293) ops_len.symm) main_c_61 rfl rfl (by decide) later_285
theorem later_283 : Later (τ := τ) (ops (F := F)) 6 283 := Later.step 283 (Nat.lt_of_lt_of_eq (by decide : 283 < 1293) ops_len.symm) main_v180 rfl rfl (by decide) later_284
theorem later_282 : Later (τ := τ) (ops (F := F)) 6 282 := Later.step 282 (Nat.lt_of_lt_of_eq (by decide : 282 < 1293) ops_len.symm) main_v179 rfl rfl (by decide) later_283
theorem later_281 : Later (τ := τ) (ops (F := F)) 6 281 := Later.step 281 (Nat.lt_of_lt_of_eq (by decide : 281 < 1293) ops_len.symm) main_c_60 rfl rfl (by decide) later_282
theorem later_280 : Later (τ := τ) (ops (F := F)) 6 280 := Later.step 280 (Nat.lt_of_lt_of_eq (by decide : 280 < 1293) ops_len.symm) main_v178 rfl rfl (by decide) later_281
theorem later_279 : Later (τ := τ) (ops (F := F)) 6 279 := Later.step 279 (Nat.lt_of_lt_of_eq (by decide : 279 < 1293) ops_len.symm) main_v177 rfl rfl (by decide) later_280
theorem later_278 : Later (τ := τ) (ops (F := F)) 6 278 := Later.step 278 (Nat.lt_of_lt_of_eq (by decide : 278 < 1293) ops_len.symm) main_v176 rfl rfl (by decide) later_279
theorem later_277 : Later (τ := τ) (ops (F := F)) 6 277 := Later.step 277 (Nat.lt_of_lt_of_eq (by decide : 277 < 1293) ops_len.symm) main_c_59 rfl rfl (by decide) later_278
theorem later_276 : Later (τ := τ) (ops (F := F)) 6 276 := Later.step 276 (Nat.lt_of_lt_of_eq (by decide : 276 < 1293) ops_len.symm) main_v175 rfl rfl (by decide) later_277
theorem later_275 : Later (τ := τ) (ops (F := F)) 6 275 := Later.step 275 (Nat.lt_of_lt_of_eq (by decide : 275 < 1293) ops_len.symm) main_v174 rfl rfl (by decide) later_276
theorem later_274 : Later (τ := τ) (ops (F := F)) 6 274 := Later.step 274 (Nat.lt_of_lt_of_eq (by decide : 274 < 1293) ops_len.symm) main_c_58 rfl rfl (by decide) later_275
theorem later_273 : Later (τ := τ) (ops (F := F)) 6 273 := Later.step 273 (Nat.lt_of_lt_of_eq (by decide : 273 < 1293) ops_len.symm) main_v173 rfl rfl (by decide) later_274
theorem later_272 : Later (τ := τ) (ops (F := F)) 6 272 := Later.step 272 (Nat.lt_of_lt_of_eq (by decide : 272 < 1293) ops_len.symm) main_v172 rfl rfl (by decide) later_273
theorem later_271 : Later (τ := τ) (ops (F := F)) 6 271 := Later.step 271 (Nat.lt_of_lt_of_eq (by decide : 271 < 1293) ops_len.symm) main_v171 rfl rfl (by decide) later_272
theorem later_270 : Later (τ := τ) (ops (F := F)) 6 270 := Later.step 270 (Nat.lt_of_lt_of_eq (by decide : 270 < 1293) ops_len.symm) main_c_57 rfl rfl (by decide) later_271
theorem later_269 : Later (τ := τ) (ops (F := F)) 6 269 := Later.step 269 (Nat.lt_of_lt_of_eq (by decide : 269 < 1293) ops_len.symm) main_v170 rfl rfl (by decide) later_270
theorem later_268 : Later (τ := τ) (ops (F := F)) 6 268 := Later.step 268 (Nat.lt_of_lt_of_eq (by decide : 268 < 1293) ops_len.symm) main_v169 rfl rfl (by decide) later_269
theorem later_267 : Later (τ := τ) (ops (F := F)) 6 267 := Later.step 267 (Nat.lt_of_lt_of_eq (by decide : 267 < 1293) ops_len.symm) main_c_56 rfl rfl (by decide) later_268
theorem later_266 : Later (τ := τ) (ops (F := F)) 6 266 := Later.step 266 (Nat.lt_of_lt_of_eq (by decide : 266 < 1293) ops_len.symm) main_v168 rfl rfl (by decide) later_267
theorem later_265 : Later (τ := τ) (ops (F := F)) 6 265 := Later.step 265 (Nat.lt_of_lt_of_eq (by decide : 265 < 1293) ops_len.symm) main_v167 rfl rfl (by decide) later_266
theorem later_264 : Later (τ := τ) (ops (F := F)) 6 264 := Later.step 264 (Nat.lt_of_lt_of_eq (by decide : 264 < 1293) ops_len.symm) main_call7_v4 rfl rfl (by decide) later_265
theorem later_263 : Later (τ := τ) (ops (F := F)) 6 263 := Later.step 263 (Nat.lt_of_lt_of_eq (by decide : 263 < 1293) ops_len.symm) main_call7_v3 rfl rfl (by decide) later_264
theorem later_262 : Later (τ := τ) (ops (F := F)) 6 262 := Later.step 262 (Nat.lt_of_lt_of_eq (by decide : 262 < 1293) ops_len.symm) main_call7_v2 rfl rfl (by decide) later_263
theorem later_261 : Later (τ := τ) (ops (F := F)) 6 261 := Later.step 261 (Nat.lt_of_lt_of_eq (by decide : 261 < 1293) ops_len.symm) main_call7_v1 rfl rfl (by decide) later_262
theorem later_260 : Later (τ := τ) (ops (F := F)) 6 260 := Later.step 260 (Nat.lt_of_lt_of_eq (by decide : 260 < 1293) ops_len.symm) main_call7_v0 rfl rfl (by decide) later_261
theorem later_259 : Later (τ := τ) (ops (F := F)) 6 259 := Later.step 259 (Nat.lt_of_lt_of_eq (by decide : 259 < 1293) ops_len.symm) main_c_55 rfl rfl (by decide) later_260
theorem later_258 : Later (τ := τ) (ops (F := F)) 6 258 := Later.step 258 (Nat.lt_of_lt_of_eq (by decide : 258 < 1293) ops_len.symm) main_c_54 rfl rfl (by decide) later_259
theorem later_257 : Later (τ := τ) (ops (F := F)) 6 257 := Later.step 257 (Nat.lt_of_lt_of_eq (by decide : 257 < 1293) ops_len.symm) main_v166 rfl rfl (by decide) later_258
theorem later_256 : Later (τ := τ) (ops (F := F)) 6 256 := Later.step 256 (Nat.lt_of_lt_of_eq (by decide : 256 < 1293) ops_len.symm) main_call6_v4 rfl rfl (by decide) later_257
theorem later_255 : Later (τ := τ) (ops (F := F)) 6 255 := Later.step 255 (Nat.lt_of_lt_of_eq (by decide : 255 < 1293) ops_len.symm) main_call6_v3 rfl rfl (by decide) later_256
theorem later_254 : Later (τ := τ) (ops (F := F)) 6 254 := Later.step 254 (Nat.lt_of_lt_of_eq (by decide : 254 < 1293) ops_len.symm) main_call6_v2 rfl rfl (by decide) later_255
theorem later_253 : Later (τ := τ) (ops (F := F)) 6 253 := Later.step 253 (Nat.lt_of_lt_of_eq (by decide : 253 < 1293) ops_len.symm) main_call6_v1 rfl rfl (by decide) later_254
theorem later_252 : Later (τ := τ) (ops (F := F)) 6 252 := Later.step 252 (Nat.lt_of_lt_of_eq (by decide : 252 < 1293) ops_len.symm) main_call6_v0 rfl rfl (by decide) later_253
theorem later_251 : Later (τ := τ) (ops (F := F)) 6 251 := Later.step 251 (Nat.lt_of_lt_of_eq (by decide : 251 < 1293) ops_len.symm) main_c_53 rfl rfl (by decide) later_252
theorem later_250 : Later (τ := τ) (ops (F := F)) 6 250 := Later.step 250 (Nat.lt_of_lt_of_eq (by decide : 250 < 1293) ops_len.symm) main_c_52 rfl rfl (by decide) later_251
theorem later_249 : Later (τ := τ) (ops (F := F)) 6 249 := Later.step 249 (Nat.lt_of_lt_of_eq (by decide : 249 < 1293) ops_len.symm) main_v165 rfl rfl (by decide) later_250
theorem later_248 : Later (τ := τ) (ops (F := F)) 6 248 := Later.step 248 (Nat.lt_of_lt_of_eq (by decide : 248 < 1293) ops_len.symm) main_v164 rfl rfl (by decide) later_249
theorem later_247 : Later (τ := τ) (ops (F := F)) 6 247 := Later.step 247 (Nat.lt_of_lt_of_eq (by decide : 247 < 1293) ops_len.symm) main_v163 rfl rfl (by decide) later_248
theorem later_246 : Later (τ := τ) (ops (F := F)) 6 246 := Later.step 246 (Nat.lt_of_lt_of_eq (by decide : 246 < 1293) ops_len.symm) main_c_51 rfl rfl (by decide) later_247
theorem later_245 : Later (τ := τ) (ops (F := F)) 6 245 := Later.step 245 (Nat.lt_of_lt_of_eq (by decide : 245 < 1293) ops_len.symm) main_v162 rfl rfl (by decide) later_246
theorem later_244 : Later (τ := τ) (ops (F := F)) 6 244 := Later.step 244 (Nat.lt_of_lt_of_eq (by decide : 244 < 1293) ops_len.symm) main_v161 rfl rfl (by decide) later_245
theorem later_243 : Later (τ := τ) (ops (F := F)) 6 243 := Later.step 243 (Nat.lt_of_lt_of_eq (by decide : 243 < 1293) ops_len.symm) main_v160 rfl rfl (by decide) later_244
theorem later_242 : Later (τ := τ) (ops (F := F)) 6 242 := Later.step 242 (Nat.lt_of_lt_of_eq (by decide : 242 < 1293) ops_len.symm) main_c_50 rfl rfl (by decide) later_243
theorem later_241 : Later (τ := τ) (ops (F := F)) 6 241 := Later.step 241 (Nat.lt_of_lt_of_eq (by decide : 241 < 1293) ops_len.symm) main_v159 rfl rfl (by decide) later_242
theorem later_240 : Later (τ := τ) (ops (F := F)) 6 240 := Later.step 240 (Nat.lt_of_lt_of_eq (by decide : 240 < 1293) ops_len.symm) main_v158 rfl rfl (by decide) later_241
theorem later_239 : Later (τ := τ) (ops (F := F)) 6 239 := Later.step 239 (Nat.lt_of_lt_of_eq (by decide : 239 < 1293) ops_len.symm) main_v157 rfl rfl (by decide) later_240
theorem later_238 : Later (τ := τ) (ops (F := F)) 6 238 := Later.step 238 (Nat.lt_of_lt_of_eq (by decide : 238 < 1293) ops_len.symm) main_c_49 rfl rfl (by decide) later_239
theorem later_237 : Later (τ := τ) (ops (F := F)) 6 237 := Later.step 237 (Nat.lt_of_lt_of_eq (by decide : 237 < 1293) ops_len.symm) main_v156 rfl rfl (by decide) later_238
theorem later_236 : Later (τ := τ) (ops (F := F)) 6 236 := Later.step 236 (Nat.lt_of_lt_of_eq (by decide : 236 < 1293) ops_len.symm) main_v155 rfl rfl (by decide) later_237
theorem later_235 : Later (τ := τ) (ops (F := F)) 6 235 := Later.step 235 (Nat.lt_of_lt_of_eq (by decide : 235 < 1293) ops_len.symm) main_c_48 rfl rfl (by decide) later_236
theorem later_234 : Later (τ := τ) (ops (F := F)) 6 234 := Later.step 234 (Nat.lt_of_lt_of_eq (by decide : 234 < 1293) ops_len.symm) main_v154 rfl rfl (by decide) later_235
theorem later_233 : Later (τ := τ) (ops (F := F)) 6 233 := Later.step 233 (Nat.lt_of_lt_of_eq (by decide : 233 < 1293) ops_len.symm) main_v153 rfl rfl (by decide) later_234
theorem later_232 : Later (τ := τ) (ops (F := F)) 6 232 := Later.step 232 (Nat.lt_of_lt_of_eq (by decide : 232 < 1293) ops_len.symm) main_c_47 rfl rfl (by decide) later_233
theorem later_231 : Later (τ := τ) (ops (F := F)) 6 231 := Later.step 231 (Nat.lt_of_lt_of_eq (by decide : 231 < 1293) ops_len.symm) main_v152 rfl rfl (by decide) later_232
theorem later_230 : Later (τ := τ) (ops (F := F)) 6 230 := Later.step 230 (Nat.lt_of_lt_of_eq (by decide : 230 < 1293) ops_len.symm) main_v151 rfl rfl (by decide) later_231
theorem later_229 : Later (τ := τ) (ops (F := F)) 6 229 := Later.step 229 (Nat.lt_of_lt_of_eq (by decide : 229 < 1293) ops_len.symm) main_c_46 rfl rfl (by decide) later_230
theorem later_228 : Later (τ := τ) (ops (F := F)) 6 228 := Later.step 228 (Nat.lt_of_lt_of_eq (by decide : 228 < 1293) ops_len.symm) main_v150 rfl rfl (by decide) later_229
theorem later_227 : Later (τ := τ) (ops (F := F)) 6 227 := Later.step 227 (Nat.lt_of_lt_of_eq (by decide : 227 < 1293) ops_len.symm) main_v149 rfl rfl (by decide) later_228
theorem later_226 : Later (τ := τ) (ops (F := F)) 6 226 := Later.step 226 (Nat.lt_of_lt_of_eq (by decide : 226 < 1293) ops_len.symm) main_v148 rfl rfl (by decide) later_227
theorem later_225 : Later (τ := τ) (ops (F := F)) 6 225 := Later.step 225 (Nat.lt_of_lt_of_eq (by decide : 225 < 1293) ops_len.symm) main_v147 rfl rfl (by decide) later_226
theorem later_224 : Later (τ := τ) (ops (F := F)) 6 224 := Later.step 224 (Nat.lt_of_lt_of_eq (by decide : 224 < 1293) ops_len.symm) main_v146 rfl rfl (by decide) later_225
theorem later_223 : Later (τ := τ) (ops (F := F)) 6 223 := Later.step 223 (Nat.lt_of_lt_of_eq (by decide : 223 < 1293) ops_len.symm) main_v145 rfl rfl (by decide) later_224
theorem later_222 : Later (τ := τ) (ops (F := F)) 6 222 := Later.step 222 (Nat.lt_of_lt_of_eq (by decide : 222 < 1293) ops_len.symm) main_v144 rfl rfl (by decide) later_223
theorem later_221 : Later (τ := τ) (ops (F := F)) 6 221 := Later.step 221 (Nat.lt_of_lt_of_eq (by decide : 221 < 1293) ops_len.symm) main_v143 rfl rfl (by decide) later_222
theorem later_220 : Later (τ := τ) (ops (F := F)) 6 220 := Later.step 220 (Nat.lt_of_lt_of_eq (by decide : 220 < 1293) ops_len.symm) main_v142 rfl rfl (by decide) later_221
theorem later_219 : Later (τ := τ) (ops (F := F)) 6 219 := Later.step 219 (Nat.lt_of_lt_of_eq (by decide : 219 < 1293) ops_len.symm) main_v141 rfl rfl (by decide) later_220
theorem later_218 : Later (τ := τ) (ops (F := F)) 6 218 := Later.step 218 (Nat.lt_of_lt_of_eq (by decide : 218 < 1293) ops_len.symm) main_v140 rfl rfl (by decide) later_219
theorem later_217 : Later (τ := τ) (ops (F := F)) 6 217 := Later.step 217 (Nat.lt_of_lt_of_eq (by decide : 217 < 1293) ops_len.symm) main_v139 rfl rfl (by decide) later_218
theorem later_216 : Later (τ := τ) (ops (F := F)) 6 216 := Later.step 216 (Nat.lt_of_lt_of_eq (by decide : 216 < 1293) ops_len.symm) main_v138 rfl rfl (by decide) later_217
theorem later_215 : Later (τ := τ) (ops (F := F)) 6 215 := Later.step 215 (Nat.lt_of_lt_of_eq (by decide : 215 < 1293) ops_len.symm) main_c_45 rfl rfl (by decide) later_216
theorem later_214 : Later (τ := τ) (ops (F := F)) 6 214 := Later.step 214 (Nat.lt_of_lt_of_eq (by decide : 214 < 1293) ops_len.symm) main_v137 rfl rfl (by decide) later_215
theorem later_213 : Later (τ := τ) (ops (F := F)) 6 213 := Later.step 213 (Nat.lt_of_lt_of_eq (by decide : 213 < 1293) ops_len.symm) main_v136 rfl rfl (by decide) later_214
theorem later_212 : Later (τ := τ) (ops (F := F)) 6 212 := Later.step 212 (Nat.lt_of_lt_of_eq (by decide : 212 < 1293) ops_len.symm) main_c_44 rfl rfl (by decide) later_213
theorem later_211 : Later (τ := τ) (ops (F := F)) 6 211 := Later.step 211 (Nat.lt_of_lt_of_eq (by decide : 211 < 1293) ops_len.symm) main_v135 rfl rfl (by decide) later_212
theorem later_210 : Later (τ := τ) (ops (F := F)) 6 210 := Later.step 210 (Nat.lt_of_lt_of_eq (by decide : 210 < 1293) ops_len.symm) main_v134 rfl rfl (by decide) later_211
theorem later_209 : Later (τ := τ) (ops (F := F)) 6 209 := Later.step 209 (Nat.lt_of_lt_of_eq (by decide : 209 < 1293) ops_len.symm) main_v133 rfl rfl (by decide) later_210
theorem later_208 : Later (τ := τ) (ops (F := F)) 6 208 := Later.step 208 (Nat.lt_of_lt_of_eq (by decide : 208 < 1293) ops_len.symm) main_c_43 rfl rfl (by decide) later_209
theorem later_207 : Later (τ := τ) (ops (F := F)) 6 207 := Later.step 207 (Nat.lt_of_lt_of_eq (by decide : 207 < 1293) ops_len.symm) main_v132 rfl rfl (by decide) later_208
theorem later_206 : Later (τ := τ) (ops (F := F)) 6 206 := Later.step 206 (Nat.lt_of_lt_of_eq (by decide : 206 < 1293) ops_len.symm) main_v131 rfl rfl (by decide) later_207
theorem later_205 : Later (τ := τ) (ops (F := F)) 6 205 := Later.step 205 (Nat.lt_of_lt_of_eq (by decide : 205 < 1293) ops_len.symm) main_c_42 rfl rfl (by decide) later_206
theorem later_204 : Later (τ := τ) (ops (F := F)) 6 204 := Later.step 204 (Nat.lt_of_lt_of_eq (by decide : 204 < 1293) ops_len.symm) main_v130 rfl rfl (by decide) later_205
theorem later_203 : Later (τ := τ) (ops (F := F)) 6 203 := Later.step 203 (Nat.lt_of_lt_of_eq (by decide : 203 < 1293) ops_len.symm) main_v129 rfl rfl (by decide) later_204
theorem later_202 : Later (τ := τ) (ops (F := F)) 6 202 := Later.step 202 (Nat.lt_of_lt_of_eq (by decide : 202 < 1293) ops_len.symm) main_v128 rfl rfl (by decide) later_203
theorem later_201 : Later (τ := τ) (ops (F := F)) 6 201 := Later.step 201 (Nat.lt_of_lt_of_eq (by decide : 201 < 1293) ops_len.symm) main_c_41 rfl rfl (by decide) later_202
theorem later_200 : Later (τ := τ) (ops (F := F)) 6 200 := Later.step 200 (Nat.lt_of_lt_of_eq (by decide : 200 < 1293) ops_len.symm) main_v127 rfl rfl (by decide) later_201
theorem later_199 : Later (τ := τ) (ops (F := F)) 6 199 := Later.step 199 (Nat.lt_of_lt_of_eq (by decide : 199 < 1293) ops_len.symm) main_v126 rfl rfl (by decide) later_200
theorem later_198 : Later (τ := τ) (ops (F := F)) 6 198 := Later.step 198 (Nat.lt_of_lt_of_eq (by decide : 198 < 1293) ops_len.symm) main_c_40 rfl rfl (by decide) later_199
theorem later_197 : Later (τ := τ) (ops (F := F)) 6 197 := Later.step 197 (Nat.lt_of_lt_of_eq (by decide : 197 < 1293) ops_len.symm) main_v125 rfl rfl (by decide) later_198
theorem later_196 : Later (τ := τ) (ops (F := F)) 6 196 := Later.step 196 (Nat.lt_of_lt_of_eq (by decide : 196 < 1293) ops_len.symm) main_v124 rfl rfl (by decide) later_197
theorem later_195 : Later (τ := τ) (ops (F := F)) 6 195 := Later.step 195 (Nat.lt_of_lt_of_eq (by decide : 195 < 1293) ops_len.symm) main_call5_v4 rfl rfl (by decide) later_196
theorem later_194 : Later (τ := τ) (ops (F := F)) 6 194 := Later.step 194 (Nat.lt_of_lt_of_eq (by decide : 194 < 1293) ops_len.symm) main_call5_v3 rfl rfl (by decide) later_195
theorem later_193 : Later (τ := τ) (ops (F := F)) 6 193 := Later.step 193 (Nat.lt_of_lt_of_eq (by decide : 193 < 1293) ops_len.symm) main_call5_v2 rfl rfl (by decide) later_194
theorem later_192 : Later (τ := τ) (ops (F := F)) 6 192 := Later.step 192 (Nat.lt_of_lt_of_eq (by decide : 192 < 1293) ops_len.symm) main_call5_v1 rfl rfl (by decide) later_193
theorem later_191 : Later (τ := τ) (ops (F := F)) 6 191 := Later.step 191 (Nat.lt_of_lt_of_eq (by decide : 191 < 1293) ops_len.symm) main_call5_v0 rfl rfl (by decide) later_192
theorem later_190 : Later (τ := τ) (ops (F := F)) 6 190 := Later.step 190 (Nat.lt_of_lt_of_eq (by decide : 190 < 1293) ops_len.symm) main_c_39 rfl rfl (by decide) later_191
theorem later_189 : Later (τ := τ) (ops (F := F)) 6 189 := Later.step 189 (Nat.lt_of_lt_of_eq (by decide : 189 < 1293) ops_len.symm) main_c_38 rfl rfl (by decide) later_190
theorem later_188 : Later (τ := τ) (ops (F := F)) 6 188 := Later.step 188 (Nat.lt_of_lt_of_eq (by decide : 188 < 1293) ops_len.symm) main_v123 rfl rfl (by decide) later_189
theorem later_187 : Later (τ := τ) (ops (F := F)) 6 187 := Later.step 187 (Nat.lt_of_lt_of_eq (by decide : 187 < 1293) ops_len.symm) main_call4_v4 rfl rfl (by decide) later_188
theorem later_186 : Later (τ := τ) (ops (F := F)) 6 186 := Later.step 186 (Nat.lt_of_lt_of_eq (by decide : 186 < 1293) ops_len.symm) main_call4_v3 rfl rfl (by decide) later_187
theorem later_185 : Later (τ := τ) (ops (F := F)) 6 185 := Later.step 185 (Nat.lt_of_lt_of_eq (by decide : 185 < 1293) ops_len.symm) main_call4_v2 rfl rfl (by decide) later_186
theorem later_184 : Later (τ := τ) (ops (F := F)) 6 184 := Later.step 184 (Nat.lt_of_lt_of_eq (by decide : 184 < 1293) ops_len.symm) main_call4_v1 rfl rfl (by decide) later_185
theorem later_183 : Later (τ := τ) (ops (F := F)) 6 183 := Later.step 183 (Nat.lt_of_lt_of_eq (by decide : 183 < 1293) ops_len.symm) main_call4_v0 rfl rfl (by decide) later_184
theorem later_182 : Later (τ := τ) (ops (F := F)) 6 182 := Later.step 182 (Nat.lt_of_lt_of_eq (by decide : 182 < 1293) ops_len.symm) main_c_37 rfl rfl (by decide) later_183
theorem later_181 : Later (τ := τ) (ops (F := F)) 6 181 := Later.step 181 (Nat.lt_of_lt_of_eq (by decide : 181 < 1293) ops_len.symm) main_c_36 rfl rfl (by decide) later_182
theorem later_180 : Later (τ := τ) (ops (F := F)) 6 180 := Later.step 180 (Nat.lt_of_lt_of_eq (by decide : 180 < 1293) ops_len.symm) main_v122 rfl rfl (by decide) later_181
theorem later_179 : Later (τ := τ) (ops (F := F)) 6 179 := Later.step 179 (Nat.lt_of_lt_of_eq (by decide : 179 < 1293) ops_len.symm) main_v121 rfl rfl (by decide) later_180
theorem later_178 : Later (τ := τ) (ops (F := F)) 6 178 := Later.step 178 (Nat.lt_of_lt_of_eq (by decide : 178 < 1293) ops_len.symm) main_v120 rfl rfl (by decide) later_179
theorem later_177 : Later (τ := τ) (ops (F := F)) 6 177 := Later.step 177 (Nat.lt_of_lt_of_eq (by decide : 177 < 1293) ops_len.symm) main_c_35 rfl rfl (by decide) later_178
theorem later_176 : Later (τ := τ) (ops (F := F)) 6 176 := Later.step 176 (Nat.lt_of_lt_of_eq (by decide : 176 < 1293) ops_len.symm) main_v119 rfl rfl (by decide) later_177
theorem later_175 : Later (τ := τ) (ops (F := F)) 6 175 := Later.step 175 (Nat.lt_of_lt_of_eq (by decide : 175 < 1293) ops_len.symm) main_v118 rfl rfl (by decide) later_176
theorem later_174 : Later (τ := τ) (ops (F := F)) 6 174 := Later.step 174 (Nat.lt_of_lt_of_eq (by decide : 174 < 1293) ops_len.symm) main_v117 rfl rfl (by decide) later_175
theorem later_173 : Later (τ := τ) (ops (F := F)) 6 173 := Later.step 173 (Nat.lt_of_lt_of_eq (by decide : 173 < 1293) ops_len.symm) main_c_34 rfl rfl (by decide) later_174
theorem later_172 : Later (τ := τ) (ops (F := F)) 6 172 := Later.step 172 (Nat.lt_of_lt_of_eq (by decide : 172 < 1293) ops_len.symm) main_v116 rfl rfl (by decide) later_173
theorem later_171 : Later (τ := τ) (ops (F := F)) 6 171 := Later.step 171 (Nat.lt_of_lt_of_eq (by decide : 171 < 1293) ops_len.symm) main_v115 rfl rfl (by decide) later_172
theorem later_170 : Later (τ := τ) (ops (F := F)) 6 170 := Later.step 170 (Nat.lt_of_lt_of_eq (by decide : 170 < 1293) ops_len.symm) main_v114 rfl rfl (by decide) later_171
theorem later_169 : Later (τ := τ) (ops (F := F)) 6 169 := Later.step 169 (Nat.lt_of_lt_of_eq (by decide : 169 < 1293) ops_len.symm) main_c_33 rfl rfl (by decide) later_170
theorem later_168 : Later (τ := τ) (ops (F := F)) 6 168 := Later.step 168 (Nat.lt_of_lt_of_eq (by decide : 168 < 1293) ops_len.symm) main_v113 rfl rfl (by decide) later_169
theorem later_167 : Later (τ := τ) (ops (F := F)) 6 167 := Later.step 167 (Nat.lt_of_lt_of_eq (by decide : 167 < 1293) ops_len.symm) main_v112 rfl rfl (by decide) later_168
theorem later_166 : Later (τ := τ) (ops (F := F)) 6 166 := Later.step 166 (Nat.lt_of_lt_of_eq (by decide : 166 < 1293) ops_len.symm) main_c_32 rfl rfl (by decide) later_167
theorem later_165 : Later (τ := τ) (ops (F := F)) 6 165 := Later.step 165 (Nat.lt_of_lt_of_eq (by decide : 165 < 1293) ops_len.symm) main_v111 rfl rfl (by decide) later_166
theorem later_164 : Later (τ := τ) (ops (F := F)) 6 164 := Later.step 164 (Nat.lt_of_lt_of_eq (by decide : 164 < 1293) ops_len.symm) main_v110 rfl rfl (by decide) later_165
theorem later_163 : Later (τ := τ) (ops (F := F)) 6 163 := Later.step 163 (Nat.lt_of_lt_of_eq (by decide : 163 < 1293) ops_len.symm) main_c_31 rfl rfl (by decide) later_164
theorem later_162 : Later (τ := τ) (ops (F := F)) 6 162 := Later.step 162 (Nat.lt_of_lt_of_eq (by decide : 162 < 1293) ops_len.symm) main_v109 rfl rfl (by decide) later_163
theorem later_161 : Later (τ := τ) (ops (F := F)) 6 161 := Later.step 161 (Nat.lt_of_lt_of_eq (by decide : 161 < 1293) ops_len.symm) main_v108 rfl rfl (by decide) later_162
theorem later_160 : Later (τ := τ) (ops (F := F)) 6 160 := Later.step 160 (Nat.lt_of_lt_of_eq (by decide : 160 < 1293) ops_len.symm) main_v107 rfl rfl (by decide) later_161
theorem later_159 : Later (τ := τ) (ops (F := F)) 6 159 := Later.step 159 (Nat.lt_of_lt_of_eq (by decide : 159 < 1293) ops_len.symm) main_v106 rfl rfl (by decide) later_160
theorem later_158 : Later (τ := τ) (ops (F := F)) 6 158 := Later.step 158 (Nat.lt_of_lt_of_eq (by decide : 158 < 1293) ops_len.symm) main_v105 rfl rfl (by decide) later_159
theorem later_157 : Later (τ := τ) (ops (F := F)) 6 157 := Later.step 157 (Nat.lt_of_lt_of_eq (by decide : 157 < 1293) ops_len.symm) main_v104 rfl rfl (by decide) later_158
theorem later_156 : Later (τ := τ) (ops (F := F)) 6 156 := Later.step 156 (Nat.lt_of_lt_of_eq (by decide : 156 < 1293) ops_len.symm) main_v103 rfl rfl (by decide) later_157
theorem later_155 : Later (τ := τ) (ops (F := F)) 6 155 := Later.step 155 (Nat.lt_of_lt_of_eq (by decide : 155 < 1293) ops_len.symm) main_v102 rfl rfl (by decide) later_156
theorem later_154 : Later (τ := τ) (ops (F := F)) 6 154 := Later.step 154 (Nat.lt_of_lt_of_eq (by decide : 154 < 1293) ops_len.symm) main_v101 rfl rfl (by decide) later_155
theorem later_153 : Later (τ := τ) (ops (F := F)) 6 153 := Later.step 153 (Nat.lt_of_lt_of_eq (by decide : 153 < 1293) ops_len.symm) main_v100 rfl rfl (by decide) later_154
theorem later_152 : Later (τ := τ) (ops (F := F)) 6 152 := Later.step 152 (Nat.lt_of_lt_of_eq (by decide : 152 < 1293) ops_len.symm) main_v99 rfl rfl (by decide) later_153
theorem later_151 : Later (τ := τ) (ops (F := F)) 6 151 := Later.step 151 (Nat.lt_of_lt_of_eq (by decide : 151 < 1293) ops_len.symm) main_v98 rfl rfl (by decide) later_152
theorem later_150 : Later (τ := τ) (ops (F := F)) 6 150 := Later.step 150 (Nat.lt_of_lt_of_eq (by decide : 150 < 1293) ops_len.symm) main_v97 rfl rfl (by decide) later_151
theorem later_149 : Later (τ := τ) (ops (F := F)) 6 149 := Later.step 149 (Nat.lt_of_lt_of_eq (by decide : 149 < 1293) ops_len.symm) main_c_30 rfl rfl (by decide) later_150
theorem later_148 : Later (τ := τ) (ops (F := F)) 6 148 := Later.step 148 (Nat.lt_of_lt_of_eq (by decide : 148 < 1293) ops_len.symm) main_v96 rfl rfl (by decide) later_149
theorem later_147 : Later (τ := τ) (ops (F := F)) 6 147 := Later.step 147 (Nat.lt_of_lt_of_eq (by decide : 147 < 1293) ops_len.symm) main_v95 rfl rfl (by decide) later_148
theorem later_146 : Later (τ := τ) (ops (F := F)) 6 146 := Later.step 146 (Nat.lt_of_lt_of_eq (by decide : 146 < 1293) ops_len.symm) main_c_29 rfl rfl (by decide) later_147
theorem later_145 : Later (τ := τ) (ops (F := F)) 6 145 := Later.step 145 (Nat.lt_of_lt_of_eq (by decide : 145 < 1293) ops_len.symm) main_v94 rfl rfl (by decide) later_146
theorem later_144 : Later (τ := τ) (ops (F := F)) 6 144 := Later.step 144 (Nat.lt_of_lt_of_eq (by decide : 144 < 1293) ops_len.symm) main_v93 rfl rfl (by decide) later_145
theorem later_143 : Later (τ := τ) (ops (F := F)) 6 143 := Later.step 143 (Nat.lt_of_lt_of_eq (by decide : 143 < 1293) ops_len.symm) main_v92 rfl rfl (by decide) later_144
theorem later_142 : Later (τ := τ) (ops (F := F)) 6 142 := Later.step 142 (Nat.lt_of_lt_of_eq (by decide : 142 < 1293) ops_len.symm) main_c_28 rfl rfl (by decide) later_143
theorem later_141 : Later (τ := τ) (ops (F := F)) 6 141 := Later.step 141 (Nat.lt_of_lt_of_eq (by decide : 141 < 1293) ops_len.symm) main_v91 rfl rfl (by decide) later_142
theorem later_140 : Later (τ := τ) (ops (F := F)) 6 140 := Later.step 140 (Nat.lt_of_lt_of_eq (by decide : 140 < 1293) ops_len.symm) main_v90 rfl rfl (by decide) later_141
theorem later_139 : Later (τ := τ) (ops (F := F)) 6 139 := Later.step 139 (Nat.lt_of_lt_of_eq (by decide : 139 < 1293) ops_len.symm) main_c_27 rfl rfl (by decide) later_140
theorem later_138 : Later (τ := τ) (ops (F := F)) 6 138 := Later.step 138 (Nat.lt_of_lt_of_eq (by decide : 138 < 1293) ops_len.symm) main_v89 rfl rfl (by decide) later_139
theorem later_137 : Later (τ := τ) (ops (F := F)) 6 137 := Later.step 137 (Nat.lt_of_lt_of_eq (by decide : 137 < 1293) ops_len.symm) main_v88 rfl rfl (by decide) later_138
theorem later_136 : Later (τ := τ) (ops (F := F)) 6 136 := Later.step 136 (Nat.lt_of_lt_of_eq (by decide : 136 < 1293) ops_len.symm) main_v87 rfl rfl (by decide) later_137
theorem later_135 : Later (τ := τ) (ops (F := F)) 6 135 := Later.step 135 (Nat.lt_of_lt_of_eq (by decide : 135 < 1293) ops_len.symm) main_c_26 rfl rfl (by decide) later_136
theorem later_134 : Later (τ := τ) (ops (F := F)) 6 134 := Later.step 134 (Nat.lt_of_lt_of_eq (by decide : 134 < 1293) ops_len.symm) main_v86 rfl rfl (by decide) later_135
theorem later_133 : Later (τ := τ) (ops (F := F)) 6 133 := Later.step 133 (Nat.lt_of_lt_of_eq (by decide : 133 < 1293) ops_len.symm) main_v85 rfl rfl (by decide) later_134
theorem later_132 : Later (τ := τ) (ops (F := F)) 6 132 := Later.step 132 (Nat.lt_of_lt_of_eq (by decide : 132 < 1293) ops_len.symm) main_c_25 rfl rfl (by decide) later_133
theorem later_131 : Later (τ := τ) (ops (F := F)) 6 131 := Later.step 131 (Nat.lt_of_lt_of_eq (by decide : 131 < 1293) ops_len.symm) main_v84 rfl rfl (by decide) later_132
theorem later_130 : Later (τ := τ) (ops (F := F)) 6 130 := Later.step 130 (Nat.lt_of_lt_of_eq (by decide : 130 < 1293) ops_len.symm) main_v83 rfl rfl (by decide) later_131
theorem later_129 : Later (τ := τ) (ops (F := F)) 6 129 := Later.step 129 (Nat.lt_of_lt_of_eq (by decide : 129 < 1293) ops_len.symm) main_call3_v4 rfl rfl (by decide) later_130
theorem later_128 : Later (τ := τ) (ops (F := F)) 6 128 := Later.step 128 (Nat.lt_of_lt_of_eq (by decide : 128 < 1293) ops_len.symm) main_call3_v3 rfl rfl (by decide) later_129
theorem later_127 : Later (τ := τ) (ops (F := F)) 6 127 := Later.step 127 (Nat.lt_of_lt_of_eq (by decide : 127 < 1293) ops_len.symm) main_call3_v2 rfl rfl (by decide) later_128
theorem later_126 : Later (τ := τ) (ops (F := F)) 6 126 := Later.step 126 (Nat.lt_of_lt_of_eq (by decide : 126 < 1293) ops_len.symm) main_call3_v1 rfl rfl (by decide) later_127
theorem later_125 : Later (τ := τ) (ops (F := F)) 6 125 := Later.step 125 (Nat.lt_of_lt_of_eq (by decide : 125 < 1293) ops_len.symm) main_call3_v0 rfl rfl (by decide) later_126
theorem later_124 : Later (τ := τ) (ops (F := F)) 6 124 := Later.step 124 (Nat.lt_of_lt_of_eq (by decide : 124 < 1293) ops_len.symm) main_c_24 rfl rfl (by decide) later_125
theorem later_123 : Later (τ := τ) (ops (F := F)) 6 123 := Later.step 123 (Nat.lt_of_lt_of_eq (by decide : 123 < 1293) ops_len.symm) main_c_23 rfl rfl (by decide) later_124
theorem later_122 : Later (τ := τ) (ops (F := F)) 6 122 := Later.step 122 (Nat.lt_of_lt_of_eq (by decide : 122 < 1293) ops_len.symm) main_v82 rfl rfl (by decide) later_123
theorem later_121 : Later (τ := τ) (ops (F := F)) 6 121 := Later.step 121 (Nat.lt_of_lt_of_eq (by decide : 121 < 1293) ops_len.symm) main_call2_v4 rfl rfl (by decide) later_122
theorem later_120 : Later (τ := τ) (ops (F := F)) 6 120 := Later.step 120 (Nat.lt_of_lt_of_eq (by decide : 120 < 1293) ops_len.symm) main_call2_v3 rfl rfl (by decide) later_121
theorem later_119 : Later (τ := τ) (ops (F := F)) 6 119 := Later.step 119 (Nat.lt_of_lt_of_eq (by decide : 119 < 1293) ops_len.symm) main_call2_v2 rfl rfl (by decide) later_120
theorem later_118 : Later (τ := τ) (ops (F := F)) 6 118 := Later.step 118 (Nat.lt_of_lt_of_eq (by decide : 118 < 1293) ops_len.symm) main_call2_v1 rfl rfl (by decide) later_119
theorem later_117 : Later (τ := τ) (ops (F := F)) 6 117 := Later.step 117 (Nat.lt_of_lt_of_eq (by decide : 117 < 1293) ops_len.symm) main_call2_v0 rfl rfl (by decide) later_118
theorem later_116 : Later (τ := τ) (ops (F := F)) 6 116 := Later.step 116 (Nat.lt_of_lt_of_eq (by decide : 116 < 1293) ops_len.symm) main_c_22 rfl rfl (by decide) later_117
theorem later_115 : Later (τ := τ) (ops (F := F)) 6 115 := Later.step 115 (Nat.lt_of_lt_of_eq (by decide : 115 < 1293) ops_len.symm) main_c_21 rfl rfl (by decide) later_116
theorem later_114 : Later (τ := τ) (ops (F := F)) 6 114 := Later.step 114 (Nat.lt_of_lt_of_eq (by decide : 114 < 1293) ops_len.symm) main_v81 rfl rfl (by decide) later_115
theorem later_113 : Later (τ := τ) (ops (F := F)) 6 113 := Later.step 113 (Nat.lt_of_lt_of_eq (by decide : 113 < 1293) ops_len.symm) main_v80 rfl rfl (by decide) later_114
theorem later_112 : Later (τ := τ) (ops (F := F)) 6 112 := Later.step 112 (Nat.lt_of_lt_of_eq (by decide : 112 < 1293) ops_len.symm) main_v79 rfl rfl (by decide) later_113
theorem later_111 : Later (τ := τ) (ops (F := F)) 6 111 := Later.step 111 (Nat.lt_of_lt_of_eq (by decide : 111 < 1293) ops_len.symm) main_c_20 rfl rfl (by decide) later_112
theorem later_110 : Later (τ := τ) (ops (F := F)) 6 110 := Later.step 110 (Nat.lt_of_lt_of_eq (by decide : 110 < 1293) ops_len.symm) main_v78 rfl rfl (by decide) later_111
theorem later_109 : Later (τ := τ) (ops (F := F)) 6 109 := Later.step 109 (Nat.lt_of_lt_of_eq (by decide : 109 < 1293) ops_len.symm) main_v77 rfl rfl (by decide) later_110
theorem later_108 : Later (τ := τ) (ops (F := F)) 6 108 := Later.step 108 (Nat.lt_of_lt_of_eq (by decide : 108 < 1293) ops_len.symm) main_v76 rfl rfl (by decide) later_109
theorem later_107 : Later (τ := τ) (ops (F := F)) 6 107 := Later.step 107 (Nat.lt_of_lt_of_eq (by decide : 107 < 1293) ops_len.symm) main_c_19 rfl rfl (by decide) later_108
theorem later_106 : Later (τ := τ) (ops (F := F)) 6 106 := Later.step 106 (Nat.lt_of_lt_of_eq (by decide : 106 < 1293) ops_len.symm) main_v75 rfl rfl (by decide) later_107
theorem later_105 : Later (τ := τ) (ops (F := F)) 6 105 := Later.step 105 (Nat.lt_of_lt_of_eq (by decide : 105 < 1293) ops_len.symm) main_v74 rfl rfl (by decide) later_106
theorem later_104 : Later (τ := τ) (ops (F := F)) 6 104 := Later.step 104 (Nat.lt_of_lt_of_eq (by decide : 104 < 1293) ops_len.symm) main_v73 rfl rfl (by decide) later_105
theorem later_103 : Later (τ := τ) (ops (F := F)) 6 103 := Later.step 103 (Nat.lt_of_lt_of_eq (by decide : 103 < 1293) ops_len.symm) main_c_18 rfl rfl (by decide) later_104
theorem later_102 : Later (τ := τ) (ops (F := F)) 6 102 := Later.step 102 (Nat.lt_of_lt_of_eq (by decide : 102 < 1293) ops_len.symm) main_v72 rfl rfl (by decide) later_103
theorem later_101 : Later (τ := τ) (ops (F := F)) 6 101 := Later.step 101 (Nat.lt_of_lt_of_eq (by decide : 101 < 1293) ops_len.symm) main_v71 rfl rfl (by decide) later_102
theorem later_100 : Later (τ := τ) (ops (F := F)) 6 100 := Later.step 100 (Nat.lt_of_lt_of_eq (by decide : 100 < 1293) ops_len.symm) main_c_17 rfl rfl (by decide) later_101
theorem later_99 : Later (τ := τ) (ops (F := F)) 6 99 := Later.step 99 (Nat.lt_of_lt_of_eq (by decide : 99 < 1293) ops_len.symm) main_v70 rfl rfl (by decide) later_100
theorem later_98 : Later (τ := τ) (ops (F := F)) 6 98 := Later.step 98 (Nat.lt_of_lt_of_eq (by decide : 98 < 1293) ops_len.symm) main_v69 rfl rfl (by decide) later_99
theorem later_97 : Later (τ := τ) (ops (F := F)) 6 97 := Later.step 97 (Nat.lt_of_lt_of_eq (by decide : 97 < 1293) ops_len.symm) main_c_16 rfl rfl (by decide) later_98
theorem later_96 : Later (τ := τ) (ops (F := F)) 6 96 := Later.step 96 (Nat.lt_of_lt_of_eq (by decide : 96 < 1293) ops_len.symm) main_v68 rfl rfl (by decide) later_97
theorem later_95 : Later (τ := τ) (ops (F := F)) 6 95 := Later.step 95 (Nat.lt_of_lt_of_eq (by decide : 95 < 1293) ops_len.symm) main_v67 rfl rfl (by decide) later_96
theorem later_94 : Later (τ := τ) (ops (F := F)) 6 94 := Later.step 94 (Nat.lt_of_lt_of_eq (by decide : 94 < 1293) ops_len.symm) main_v66 rfl rfl (by decide) later_95
theorem later_93 : Later (τ := τ) (ops (F := F)) 6 93 := Later.step 93 (Nat.lt_of_lt_of_eq (by decide : 93 < 1293) ops_len.symm) main_v65 rfl rfl (by decide) later_94
theorem later_92 : Later (τ := τ) (ops (F := F)) 6 92 := Later.step 92 (Nat.lt_of_lt_of_eq (by decide : 92 < 1293) ops_len.symm) main_v64 rfl rfl (by decide) later_93
theorem later_91 : Later (τ := τ) (ops (F := F)) 6 91 := Later.step 91 (Nat.lt_of_lt_of_eq (by decide : 91 < 1293) ops_len.symm) main_v63 rfl rfl (by decide) later_92
theorem later_90 : Later (τ := τ) (ops (F := F)) 6 90 := Later.step 90 (Nat.lt_of_lt_of_eq (by decide : 90 < 1293) ops_len.symm) main_v62 rfl rfl (by decide) later_91
theorem later_89 : Later (τ := τ) (ops (F := F)) 6 89 := Later.step 89 (Nat.lt_of_lt_of_eq (by decide : 89 < 1293) ops_len.symm) main_v61 rfl rfl (by decide) later_90
theorem later_88 : Later (τ := τ) (ops (F := F)) 6 88 := Later.step 88 (Nat.lt_of_lt_of_eq (by decide : 88 < 1293) ops_len.symm) main_v60 rfl rfl (by decide) later_89
theorem later_87 : Later (τ := τ) (ops (F := F)) 6 87 := Later.step 87 (Nat.lt_of_lt_of_eq (by decide : 87 < 1293) ops_len.symm) main_v59 rfl rfl (by decide) later_88
theorem later_86 : Later (τ := τ) (ops (F := F)) 6 86 := Later.step 86 (Nat.lt_of_lt_of_eq (by decide : 86 < 1293) ops_len.symm) main_v58 rfl rfl (by decide) later_87
theorem later_85 : Later (τ := τ) (ops (F := F)) 6 85 := Later.step 85 (Nat.lt_of_lt_of_eq (by decide : 85 < 1293) ops_len.symm) main_v57 rfl rfl (by decide) later_86
theorem later_84 : Later (τ := τ) (ops (F := F)) 6 84 := Later.step 84 (Nat.lt_of_lt_of_eq (by decide : 84 < 1293) ops_len.symm) main_v56 rfl rfl (by decide) later_85
theorem later_83 : Later (τ := τ) (ops (F := F)) 6 83 := Later.step 83 (Nat.lt_of_lt_of_eq (by decide : 83 < 1293) ops_len.symm) main_c_15 rfl rfl (by decide) later_84
theorem later_82 : Later (τ := τ) (ops (F := F)) 6 82 := Later.step 82 (Nat.lt_of_lt_of_eq (by decide : 82 < 1293) ops_len.symm) main_v55 rfl rfl (by decide) later_83
theorem later_81 : Later (τ := τ) (ops (F := F)) 6 81 := Later.step 81 (Nat.lt_of_lt_of_eq (by decide : 81 < 1293) ops_len.symm) main_v54 rfl rfl (by decide) later_82
theorem later_80 : Later (τ := τ) (ops (F := F)) 6 80 := Later.step 80 (Nat.lt_of_lt_of_eq (by decide : 80 < 1293) ops_len.symm) main_c_14 rfl rfl (by decide) later_81
theorem later_79 : Later (τ := τ) (ops (F := F)) 6 79 := Later.step 79 (Nat.lt_of_lt_of_eq (by decide : 79 < 1293) ops_len.symm) main_v53 rfl rfl (by decide) later_80
theorem later_78 : Later (τ := τ) (ops (F := F)) 6 78 := Later.step 78 (Nat.lt_of_lt_of_eq (by decide : 78 < 1293) ops_len.symm) main_v52 rfl rfl (by decide) later_79
theorem later_77 : Later (τ := τ) (ops (F := F)) 6 77 := Later.step 77 (Nat.lt_of_lt_of_eq (by decide : 77 < 1293) ops_len.symm) main_v51 rfl rfl (by decide) later_78
theorem later_76 : Later (τ := τ) (ops (F := F)) 6 76 := Later.step 76 (Nat.lt_of_lt_of_eq (by decide : 76 < 1293) ops_len.symm) main_c_13 rfl rfl (by decide) later_77
theorem later_75 : Later (τ := τ) (ops (F := F)) 6 75 := Later.step 75 (Nat.lt_of_lt_of_eq (by decide : 75 < 1293) ops_len.symm) main_v50 rfl rfl (by decide) later_76
theorem later_74 : Later (τ := τ) (ops (F := F)) 6 74 := Later.step 74 (Nat.lt_of_lt_of_eq (by decide : 74 < 1293) ops_len.symm) main_v49 rfl rfl (by decide) later_75
theorem later_73 : Later (τ := τ) (ops (F := F)) 6 73 := Later.step 73 (Nat.lt_of_lt_of_eq (by decide : 73 < 1293) ops_len.symm) main_c_12 rfl rfl (by decide) later_74
theorem later_72 : Later (τ := τ) (ops (F := F)) 6 72 := Later.step 72 (Nat.lt_of_lt_of_eq (by decide : 72 < 1293) ops_len.symm) main_v48 rfl rfl (by decide) later_73
theorem later_71 : Later (τ := τ) (ops (F := F)) 6 71 := Later.step 71 (Nat.lt_of_lt_of_eq (by decide : 71 < 1293) ops_len.symm) main_v47 rfl rfl (by decide) later_72
theorem later_70 : Later (τ := τ) (ops (F := F)) 6 70 := Later.step 70 (Nat.lt_of_lt_of_eq (by decide : 70 < 1293) ops_len.symm) main_v46 rfl rfl (by decide) later_71
theorem later_69 : Later (τ := τ) (ops (F := F)) 6 69 := Later.step 69 (Nat.lt_of_lt_of_eq (by decide : 69 < 1293) ops_len.symm) main_c_11 rfl rfl (by decide) later_70
theorem later_68 : Later (τ := τ) (ops (F := F)) 6 68 := Later.step 68 (Nat.lt_of_lt_of_eq (by decide : 68 < 1293) ops_len.symm) main_v45 rfl rfl (by decide) later_69
theorem later_67 : Later (τ := τ) (ops (F := F)) 6 67 := Later.step 67 (Nat.lt_of_lt_of_eq (by decide : 67 < 1293) ops_len.symm) main_v44 rfl rfl (by decide) later_68
theorem later_66 : Later (τ := τ) (ops (F := F)) 6 66 := Later.step 66 (Nat.lt_of_lt_of_eq (by decide : 66 < 1293) ops_len.symm) main_c_10 rfl rfl (by decide) later_67
theorem later_65 : Later (τ := τ) (ops (F := F)) 6 65 := Later.step 65 (Nat.lt_of_lt_of_eq (by decide : 65 < 1293) ops_len.symm) main_v43 rfl rfl (by decide) later_66
theorem later_64 : Later (τ := τ) (ops (F := F)) 6 64 := Later.step 64 (Nat.lt_of_lt_of_eq (by decide : 64 < 1293) ops_len.symm) main_v42 rfl rfl (by decide) later_65
theorem later_63 : Later (τ := τ) (ops (F := F)) 6 63 := Later.step 63 (Nat.lt_of_lt_of_eq (by decide : 63 < 1293) ops_len.symm) main_call1_v4 rfl rfl (by decide) later_64
theorem later_62 : Later (τ := τ) (ops (F := F)) 6 62 := Later.step 62 (Nat.lt_of_lt_of_eq (by decide : 62 < 1293) ops_len.symm) main_call1_v3 rfl rfl (by decide) later_63
theorem later_61 : Later (τ := τ) (ops (F := F)) 6 61 := Later.step 61 (Nat.lt_of_lt_of_eq (by decide : 61 < 1293) ops_len.symm) main_call1_v2 rfl rfl (by decide) later_62
theorem later_60 : Later (τ := τ) (ops (F := F)) 6 60 := Later.step 60 (Nat.lt_of_lt_of_eq (by decide : 60 < 1293) ops_len.symm) main_call1_v1 rfl rfl (by decide) later_61
theorem later_59 : Later (τ := τ) (ops (F := F)) 6 59 := Later.step 59 (Nat.lt_of_lt_of_eq (by decide : 59 < 1293) ops_len.symm) main_call1_v0 rfl rfl (by decide) later_60
theorem later_58 : Later (τ := τ) (ops (F := F)) 6 58 := Later.step 58 (Nat.lt_of_lt_of_eq (by decide : 58 < 1293) ops_len.symm) main_c_9 rfl rfl (by decide) later_59
theorem later_57 : Later (τ := τ) (ops (F := F)) 6 57 := Later.step 57 (Nat.lt_of_lt_of_eq (by decide : 57 < 1293) ops_len.symm) main_c_8 rfl rfl (by decide) later_58
theorem later_56 : Later (τ := τ) (ops (F := F)) 6 56 := Later.step 56 (Nat.lt_of_lt_of_eq (by decide : 56 < 1293) ops_len.symm) main_v41 rfl rfl (by decide) later_57
theorem later_55 : Later (τ := τ) (ops (F := F)) 6 55 := Later.step 55 (Nat.lt_of_lt_of_eq (by decide : 55 < 1293) ops_len.symm) main_call0_v4 rfl rfl (by decide) later_56
theorem later_54 : Later (τ := τ) (ops (F := F)) 6 54 := Later.step 54 (Nat.lt_of_lt_of_eq (by decide : 54 < 1293) ops_len.symm) main_call0_v3 rfl rfl (by decide) later_55
theorem later_53 : Later (τ := τ) (ops (F := F)) 6 53 := Later.step 53 (Nat.lt_of_lt_of_eq (by decide : 53 < 1293) ops_len.symm) main_call0_v2 rfl rfl (by decide) later_54
theorem later_52 : Later (τ := τ) (ops (F := F)) 6 52 := Later.step 52 (Nat.lt_of_lt_of_eq (by decide : 52 < 1293) ops_len.symm) main_call0_v1 rfl rfl (by decide) later_53
theorem later_51 : Later (τ := τ) (ops (F := F)) 6 51 := Later.step 51 (Nat.lt_of_lt_of_eq (by decide : 51 < 1293) ops_len.symm) main_call0_v0 rfl rfl (by decide) later_52
theorem later_50 : Later (τ := τ) (ops (F := F)) 6 50 := Later.step 50 (Nat.lt_of_lt_of_eq (by decide : 50 < 1293) ops_len.symm) main_c_7 rfl rfl (by decide) later_51
theorem later_49 : Later (τ := τ) (ops (F := F)) 6 49 := Later.step 49 (Nat.lt_of_lt_of_eq (by decide : 49 < 1293) ops_len.symm) main_c_6 rfl rfl (by decide) later_50
theorem later_48 : Later (τ := τ) (ops (F := F)) 6 48 := Later.step 48 (Nat.lt_of_lt_of_eq (by decide : 48 < 1293) ops_len.symm) main_v40 rfl rfl (by decide) later_49
theorem later_47 : Later (τ := τ) (ops (F := F)) 6 47 := Later.step 47 (Nat.lt_of_lt_of_eq (by decide : 47 < 1293) ops_len.symm) main_v39 rfl rfl (by decide) later_48
theorem later_46 : Later (τ := τ) (ops (F := F)) 6 46 := Later.step 46 (Nat.lt_of_lt_of_eq (by decide : 46 < 1293) ops_len.symm) main_v38 rfl rfl (by decide) later_47
theorem later_45 : Later (τ := τ) (ops (F := F)) 6 45 := Later.step 45 (Nat.lt_of_lt_of_eq (by decide : 45 < 1293) ops_len.symm) main_c_5 rfl rfl (by decide) later_46
theorem later_44 : Later (τ := τ) (ops (F := F)) 6 44 := Later.step 44 (Nat.lt_of_lt_of_eq (by decide : 44 < 1293) ops_len.symm) main_v37 rfl rfl (by decide) later_45
theorem later_43 : Later (τ := τ) (ops (F := F)) 6 43 := Later.step 43 (Nat.lt_of_lt_of_eq (by decide : 43 < 1293) ops_len.symm) main_v36 rfl rfl (by decide) later_44
theorem later_42 : Later (τ := τ) (ops (F := F)) 6 42 := Later.step 42 (Nat.lt_of_lt_of_eq (by decide : 42 < 1293) ops_len.symm) main_v35 rfl rfl (by decide) later_43
theorem later_41 : Later (τ := τ) (ops (F := F)) 6 41 := Later.step 41 (Nat.lt_of_lt_of_eq (by decide : 41 < 1293) ops_len.symm) main_c_4 rfl rfl (by decide) later_42
theorem later_40 : Later (τ := τ) (ops (F := F)) 6 40 := Later.step 40 (Nat.lt_of_lt_of_eq (by decide : 40 < 1293) ops_len.symm) main_v34 rfl rfl (by decide) later_41
theorem later_39 : Later (τ := τ) (ops (F := F)) 6 39 := Later.step 39 (Nat.lt_of_lt_of_eq (by decide : 39 < 1293) ops_len.symm) main_v33 rfl rfl (by decide) later_40
theorem later_38 : Later (τ := τ) (ops (F := F)) 6 38 := Later.step 38 (Nat.lt_of_lt_of_eq (by decide : 38 < 1293) ops_len.symm) main_v32 rfl rfl (by decide) later_39
theorem later_37 : Later (τ := τ) (ops (F := F)) 6 37 := Later.step 37 (Nat.lt_of_lt_of_eq (by decide : 37 < 1293) ops_len.symm) main_c_3 rfl rfl (by decide) later_38
theorem later_36 : Later (τ := τ) (ops (F := F)) 6 36 := Later.step 36 (Nat.lt_of_lt_of_eq (by decide : 36 < 1293) ops_len.symm) main_v31 rfl rfl (by decide) later_37
theorem later_35 : Later (τ := τ) (ops (F := F)) 6 35 := Later.step 35 (Nat.lt_of_lt_of_eq (by decide : 35 < 1293) ops_len.symm) main_v30 rfl rfl (by decide) later_36
theorem later_34 : Later (τ := τ) (ops (F := F)) 6 34 := Later.step 34 (Nat.lt_of_lt_of_eq (by decide : 34 < 1293) ops_len.symm) main_c rfl rfl (by decide) later_35
theorem later_33 : Later (τ := τ) (ops (F := F)) 6 33 := Later.step 33 (Nat.lt_of_lt_of_eq (by decide : 33 < 1293) ops_len.symm) main_v29 rfl rfl (by decide) later_34
theorem later_32 : Later (τ := τ) (ops (F := F)) 6 32 := Later.step 32 (Nat.lt_of_lt_of_eq (by decide : 32 < 1293) ops_len.symm) main_v28 rfl rfl (by decide) later_33
theorem later_31 : Later (τ := τ) (ops (F := F)) 6 31 := Later.step 31 (Nat.lt_of_lt_of_eq (by decide : 31 < 1293) ops_len.symm) main_v27 rfl rfl (by decide) later_32
theorem later_30 : Later (τ := τ) (ops (F := F)) 6 30 := Later.step 30 (Nat.lt_of_lt_of_eq (by decide : 30 < 1293) ops_len.symm) main_v26 rfl rfl (by decide) later_31
theorem later_29 : Later (τ := τ) (ops (F := F)) 6 29 := Later.step 29 (Nat.lt_of_lt_of_eq (by decide : 29 < 1293) ops_len.symm) main_v25 rfl rfl (by decide) later_30
theorem later_28 : Later (τ := τ) (ops (F := F)) 6 28 := Later.step 28 (Nat.lt_of_lt_of_eq (by decide : 28 < 1293) ops_len.symm) main_v24 rfl rfl (by decide) later_29
theorem later_27 : Later (τ := τ) (ops (F := F)) 6 27 := Later.step 27 (Nat.lt_of_lt_of_eq (by decide : 27 < 1293) ops_len.symm) main_v23 rfl rfl (by decide) later_28
theorem later_26 : Later (τ := τ) (ops (F := F)) 6 26 := Later.step 26 (Nat.lt_of_lt_of_eq (by decide : 26 < 1293) ops_len.symm) main_v22 rfl rfl (by decide) later_27
theorem later_25 : Later (τ := τ) (ops (F := F)) 6 25 := Later.step 25 (Nat.lt_of_lt_of_eq (by decide : 25 < 1293) ops_len.symm) main_cst_2 rfl rfl (by decide) later_26
theorem later_24 : Later (τ := τ) (ops (F := F)) 6 24 := Later.step 24 (Nat.lt_of_lt_of_eq (by decide : 24 < 1293) ops_len.symm) main_v21 rfl rfl (by decide) later_25
theorem later_23 : Later (τ := τ) (ops (F := F)) 6 23 := Later.step 23 (Nat.lt_of_lt_of_eq (by decide : 23 < 1293) ops_len.symm) main_v20 rfl rfl (by decide) later_24
theorem later_22 : Later (τ := τ) (ops (F := F)) 6 22 := Later.step 22 (Nat.lt_of_lt_of_eq (by decide : 22 < 1293) ops_len.symm) main_cst_1 rfl rfl (by decide) later_23
theorem later_21 : Later (τ := τ) (ops (F := F)) 6 21 := Later.step 21 (Nat.lt_of_lt_of_eq (by decide : 21 < 1293) ops_len.symm) main_v19 rfl rfl (by decide) later_22
theorem later_20 : Later (τ := τ) (ops (F := F)) 6 20 := Later.step 20 (Nat.lt_of_lt_of_eq (by decide : 20 < 1293) ops_len.symm) main_v18 rfl rfl (by decide) later_21
theorem later_19 : Later (τ := τ) (ops (F := F)) 6 19 := Later.step 19 (Nat.lt_of_lt_of_eq (by decide : 19 < 1293) ops_len.symm) main_v17 rfl rfl (by decide) later_20
theorem later_18 : Later (τ := τ) (ops (F := F)) 6 18 := Later.step 18 (Nat.lt_of_lt_of_eq (by decide : 18 < 1293) ops_len.symm) main_v16 rfl rfl (by decide) later_19
theorem later_17 : Later (τ := τ) (ops (F := F)) 6 17 := Later.step 17 (Nat.lt_of_lt_of_eq (by decide : 17 < 1293) ops_len.symm) main_cst_0 rfl rfl (by decide) later_18
theorem later_16 : Later (τ := τ) (ops (F := F)) 6 16 := Later.step 16 (Nat.lt_of_lt_of_eq (by decide : 16 < 1293) ops_len.symm) main_v15 rfl rfl (by decide) later_17
theorem later_15 : Later (τ := τ) (ops (F := F)) 6 15 := Later.step 15 (Nat.lt_of_lt_of_eq (by decide : 15 < 1293) ops_len.symm) main_v14 rfl rfl (by decide) later_16
theorem later_14 : Later (τ := τ) (ops (F := F)) 6 14 := Later.step 14 (Nat.lt_of_lt_of_eq (by decide : 14 < 1293) ops_len.symm) main_cst rfl rfl (by decide) later_15
theorem later_13 : Later (τ := τ) (ops (F := F)) 6 13 := Later.step 13 (Nat.lt_of_lt_of_eq (by decide : 13 < 1293) ops_len.symm) main_v13 rfl rfl (by decide) later_14
theorem later_12 : Later (τ := τ) (ops (F := F)) 6 12 := Later.step 12 (Nat.lt_of_lt_of_eq (by decide : 12 < 1293) ops_len.symm) main_v12 rfl rfl (by decide) later_13
theorem later_11 : Later (τ := τ) (ops (F := F)) 6 11 := Later.step 11 (Nat.lt_of_lt_of_eq (by decide : 11 < 1293) ops_len.symm) main_v11 rfl rfl (by decide) later_12
theorem later_10 : Later (τ := τ) (ops (F := F)) 6 10 := Later.step 10 (Nat.lt_of_lt_of_eq (by decide : 10 < 1293) ops_len.symm) main_v10 rfl rfl (by decide) later_11
theorem later_9 : Later (τ := τ) (ops (F := F)) 6 9 := Later.step 9 (Nat.lt_of_lt_of_eq (by decide : 9 < 1293) ops_len.symm) main_v9 rfl rfl (by decide) later_10
theorem later_8 : Later (τ := τ) (ops (F := F)) 6 8 := Later.step 8 (Nat.lt_of_lt_of_eq (by decide : 8 < 1293) ops_len.symm) main_v8 rfl rfl (by decide) later_9
theorem later_7 : Later (τ := τ) (ops (F := F)) 6 7 := Later.step 7 (Nat.lt_of_lt_of_eq (by decide : 7 < 1293) ops_len.symm) main_v7 rfl rfl (by decide) later_8
theorem later_6 : Later (τ := τ) (ops (F := F)) 6 6 := Later.step 6 (Nat.lt_of_lt_of_eq (by decide : 6 < 1293) ops_len.symm) main_v6 rfl rfl (by decide) later_7
theorem later_5 : Later (τ := τ) (ops (F := F)) 6 5 := Later.step 5 (Nat.lt_of_lt_of_eq (by decide : 5 < 1293) ops_len.symm) main_v5 rfl rfl (by decide) later_6
theorem later_4 : Later (τ := τ) (ops (F := F)) 6 4 := Later.step 4 (Nat.lt_of_lt_of_eq (by decide : 4 < 1293) ops_len.symm) main_v4 rfl rfl (by decide) later_5
theorem later_3 : Later (τ := τ) (ops (F := F)) 6 3 := Later.step 3 (Nat.lt_of_lt_of_eq (by decide : 3 < 1293) ops_len.symm) main_v3 rfl rfl (by decide) later_4
theorem later_2 : Later (τ := τ) (ops (F := F)) 6 2 := Later.step 2 (Nat.lt_of_lt_of_eq (by decide : 2 < 1293) ops_len.symm) main_v2 rfl rfl (by decide) later_3
theorem later_1 : Later (τ := τ) (ops (F := F)) 6 1 := Later.step 1 (Nat.lt_of_lt_of_eq (by decide : 1 < 1293) ops_len.symm) main_v1 rfl rfl (by decide) later_2
theorem later_0 : Later (τ := τ) (ops (F := F)) 6 0 := Later.step 0 (Nat.lt_of_lt_of_eq (by decide : 0 < 1293) ops_len.symm) main_v0 rfl rfl (by decide) later_1

section Stages

variable (V : Valuation τ sig (Elt F))

/-! ## The arguments' launch contents, and that they stay -/

/-- Argument 0's contents at the launch. -/
abbrev a0 : (⟨S2x256x256x256, .f32⟩ : BufTy).Contents (Elt F) := V (Proc.devRef .tc main_arg0)
theorem e_main_arg0 : after (ops (F := F)) V (Proc.devRef .tc main_arg0) = a0 V := Later.arg later_0 V main_arg0 (by decide)
/-- Argument 1's contents at the launch. -/
abbrev a1 : (⟨S2x256x128x128, .f32⟩ : BufTy).Contents (Elt F) := V (Proc.devRef .tc main_arg1)
theorem e_main_arg1 : after (ops (F := F)) V (Proc.devRef .tc main_arg1) = a1 V := Later.arg later_0 V main_arg1 (by decide)
/-- Argument 2's contents at the launch. -/
abbrev a2 : (⟨S2x256x64x64, .f32⟩ : BufTy).Contents (Elt F) := V (Proc.devRef .tc main_arg2)
theorem e_main_arg2 : after (ops (F := F)) V (Proc.devRef .tc main_arg2) = a2 V := Later.arg later_0 V main_arg2 (by decide)
/-- Argument 3's contents at the launch. -/
abbrev a3 : (⟨S2x256x32x32, .f32⟩ : BufTy).Contents (Elt F) := V (Proc.devRef .tc main_arg3)
theorem e_main_arg3 : after (ops (F := F)) V (Proc.devRef .tc main_arg3) = a3 V := Later.arg later_0 V main_arg3 (by decide)
/-- Argument 4's contents at the launch. -/
abbrev a4 : (⟨S512x5, .f32⟩ : BufTy).Contents (Elt F) := V (Proc.devRef .tc main_arg4)
theorem e_main_arg4 : after (ops (F := F)) V (Proc.devRef .tc main_arg4) = a4 V := Later.arg later_0 V main_arg4 (by decide)
/-- Argument 5's contents at the launch. -/
abbrev a5 : (⟨S512x128x2, .f32⟩ : BufTy).Contents (Elt F) := V (Proc.devRef .tc main_arg5)
theorem e_main_arg5 : after (ops (F := F)) V (Proc.devRef .tc main_arg5) = a5 V := Later.arg later_0 V main_arg5 (by decide)

/-! ## The stages, in program order: each one's final contents are its value -/

theorem e_main_v0 : after (ops (F := F)) V (Proc.devRef .tc main_v0) = val_main_v0 (F := F) (a4 V) :=
  (unary_eq later_0 later_1 (Nat.lt_of_lt_of_eq (by decide : 0 < 1293) ops_len.symm) V main_arg4 main_v0 ((extractStridedSlice S512x1 ![0, 0] · slices_S512x5_S512x1_0_0) : (⟨S512x5, .f32⟩ : BufTy).Contents (Elt F) → (⟨S512x1, .f32⟩ : BufTy).Contents (Elt F)) (hop := rfl) (hyi := (by decide)) (hxi := (by decide))).trans
    (congrArg ((extractStridedSlice S512x1 ![0, 0] · slices_S512x5_S512x1_0_0) : (⟨S512x5, .f32⟩ : BufTy).Contents (Elt F) → (⟨S512x1, .f32⟩ : BufTy).Contents (Elt F)) (e_main_arg4 V))
theorem e_main_v1 : after (ops (F := F)) V (Proc.devRef .tc main_v1) = val_main_v1 (F := F) (a4 V) :=
  (reshape_eq later_1 later_2 (Nat.lt_of_lt_of_eq (by decide : 1 < 1293) ops_len.symm) V main_v0 main_v1 rfl shapeCasts_S512x1_S512 (hop := rfl) (hyi := (by decide)) (hxi := (by decide))).trans
    (congrArg (fun t => fun i => (rfl : (main_v0).ty.elt = (main_v1).ty.elt) ▸ shapeCast (main_v1).ty.shape t shapeCasts_S512x1_S512 i) (e_main_v0 V))
theorem e_main_v2 : after (ops (F := F)) V (Proc.devRef .tc main_v2) = val_main_v2 (F := F) (a4 V) :=
  (unary_eq later_2 later_3 (Nat.lt_of_lt_of_eq (by decide : 2 < 1293) ops_len.symm) V main_v1 main_v2 (fptosi 32 : (⟨S512, .f32⟩ : BufTy).Contents (Elt F) → (⟨S512, .i32⟩ : BufTy).Contents (Elt F)) (hop := rfl) (hyi := (by decide)) (hxi := (by decide))).trans
    (congrArg (fptosi 32 : (⟨S512, .f32⟩ : BufTy).Contents (Elt F) → (⟨S512, .i32⟩ : BufTy).Contents (Elt F)) (e_main_v1 V))
theorem e_main_v3 : after (ops (F := F)) V (Proc.devRef .tc main_v3) = val_main_v3 (F := F) (a4 V) :=
  (unary_eq later_3 later_4 (Nat.lt_of_lt_of_eq (by decide : 3 < 1293) ops_len.symm) V main_arg4 main_v3 ((extractStridedSlice S512x2 ![0, 1] · slices_S512x5_S512x2_0_1) : (⟨S512x5, .f32⟩ : BufTy).Contents (Elt F) → (⟨S512x2, .f32⟩ : BufTy).Contents (Elt F)) (hop := rfl) (hyi := (by decide)) (hxi := (by decide))).trans
    (congrArg ((extractStridedSlice S512x2 ![0, 1] · slices_S512x5_S512x2_0_1) : (⟨S512x5, .f32⟩ : BufTy).Contents (Elt F) → (⟨S512x2, .f32⟩ : BufTy).Contents (Elt F)) (e_main_arg4 V))
theorem e_main_v4 : after (ops (F := F)) V (Proc.devRef .tc main_v4) = val_main_v4 (F := F) (a4 V) :=
  (unary_eq later_4 later_5 (Nat.lt_of_lt_of_eq (by decide : 4 < 1293) ops_len.symm) V main_arg4 main_v4 ((extractStridedSlice S512x2 ![0, 3] · slices_S512x5_S512x2_0_3) : (⟨S512x5, .f32⟩ : BufTy).Contents (Elt F) → (⟨S512x2, .f32⟩ : BufTy).Contents (Elt F)) (hop := rfl) (hyi := (by decide)) (hxi := (by decide))).trans
    (congrArg ((extractStridedSlice S512x2 ![0, 3] · slices_S512x5_S512x2_0_3) : (⟨S512x5, .f32⟩ : BufTy).Contents (Elt F) → (⟨S512x2, .f32⟩ : BufTy).Contents (Elt F)) (e_main_arg4 V))
theorem e_main_v5 : after (ops (F := F)) V (Proc.devRef .tc main_v5) = val_main_v5 (F := F) (a4 V) :=
  (unary_eq later_5 later_6 (Nat.lt_of_lt_of_eq (by decide : 5 < 1293) ops_len.symm) V main_v3 main_v5 (broadcastInDim S512x1x2 ![0, 2] bcast_S512x2_S512x1x2_0_2 : (⟨S512x2, .f32⟩ : BufTy).Contents (Elt F) → (⟨S512x1x2, .f32⟩ : BufTy).Contents (Elt F)) (hop := rfl) (hyi := (by decide)) (hxi := (by decide))).trans
    (congrArg (broadcastInDim S512x1x2 ![0, 2] bcast_S512x2_S512x1x2_0_2 : (⟨S512x2, .f32⟩ : BufTy).Contents (Elt F) → (⟨S512x1x2, .f32⟩ : BufTy).Contents (Elt F)) (e_main_v3 V))
theorem e_main_v6 : after (ops (F := F)) V (Proc.devRef .tc main_v6) = val_main_v6 (F := F) (a4 V) :=
  (binary_eq later_6 later_7 (Nat.lt_of_lt_of_eq (by decide : 6 < 1293) ops_len.symm) V main_v4 main_v3 main_v6 (subf : (⟨S512x2, .f32⟩ : BufTy).Contents (Elt F) → (⟨S512x2, .f32⟩ : BufTy).Contents (Elt F) → (⟨S512x2, .f32⟩ : BufTy).Contents (Elt F)) (hop := rfl) (hyi := (by decide)) (hai := (by decide)) (hbi := (by decide))).trans
    (congrArg₂ (subf : (⟨S512x2, .f32⟩ : BufTy).Contents (Elt F) → (⟨S512x2, .f32⟩ : BufTy).Contents (Elt F) → (⟨S512x2, .f32⟩ : BufTy).Contents (Elt F)) (e_main_v4 V) (e_main_v3 V))
theorem e_main_v7 : after (ops (F := F)) V (Proc.devRef .tc main_v7) = val_main_v7 (F := F) (a4 V) :=
  (unary_eq later_7 later_8 (Nat.lt_of_lt_of_eq (by decide : 7 < 1293) ops_len.symm) V main_v6 main_v7 (broadcastInDim S512x1x2 ![0, 2] bcast_S512x2_S512x1x2_0_2 : (⟨S512x2, .f32⟩ : BufTy).Contents (Elt F) → (⟨S512x1x2, .f32⟩ : BufTy).Contents (Elt F)) (hop := rfl) (hyi := (by decide)) (hxi := (by decide))).trans
    (congrArg (broadcastInDim S512x1x2 ![0, 2] bcast_S512x2_S512x1x2_0_2 : (⟨S512x2, .f32⟩ : BufTy).Contents (Elt F) → (⟨S512x1x2, .f32⟩ : BufTy).Contents (Elt F)) (e_main_v6 V))
theorem e_main_v8 : after (ops (F := F)) V (Proc.devRef .tc main_v8) = val_main_v8 (F := F) (a4 V) :=
  (unary_eq later_8 later_9 (Nat.lt_of_lt_of_eq (by decide : 8 < 1293) ops_len.symm) V main_v7 main_v8 (broadcastInDim S512x128x2 ![0, 1, 2] bcast_S512x1x2_S512x128x2_0_1_2 : (⟨S512x1x2, .f32⟩ : BufTy).Contents (Elt F) → (⟨S512x128x2, .f32⟩ : BufTy).Contents (Elt F)) (hop := rfl) (hyi := (by decide)) (hxi := (by decide))).trans
    (congrArg (broadcastInDim S512x128x2 ![0, 1, 2] bcast_S512x1x2_S512x128x2_0_1_2 : (⟨S512x1x2, .f32⟩ : BufTy).Contents (Elt F) → (⟨S512x128x2, .f32⟩ : BufTy).Contents (Elt F)) (e_main_v7 V))
theorem e_main_v9 : after (ops (F := F)) V (Proc.devRef .tc main_v9) = val_main_v9 (F := F) (a4 V) (a5 V) :=
  (binary_eq later_9 later_10 (Nat.lt_of_lt_of_eq (by decide : 9 < 1293) ops_len.symm) V main_arg5 main_v8 main_v9 (mulf : (⟨S512x128x2, .f32⟩ : BufTy).Contents (Elt F) → (⟨S512x128x2, .f32⟩ : BufTy).Contents (Elt F) → (⟨S512x128x2, .f32⟩ : BufTy).Contents (Elt F)) (hop := rfl) (hyi := (by decide)) (hai := (by decide)) (hbi := (by decide))).trans
    (congrArg₂ (mulf : (⟨S512x128x2, .f32⟩ : BufTy).Contents (Elt F) → (⟨S512x128x2, .f32⟩ : BufTy).Contents (Elt F) → (⟨S512x128x2, .f32⟩ : BufTy).Contents (Elt F)) (e_main_arg5 V) (e_main_v8 V))
theorem e_main_v10 : after (ops (F := F)) V (Proc.devRef .tc main_v10) = val_main_v10 (F := F) (a4 V) :=
  (unary_eq later_10 later_11 (Nat.lt_of_lt_of_eq (by decide : 10 < 1293) ops_len.symm) V main_v5 main_v10 (broadcastInDim S512x128x2 ![0, 1, 2] bcast_S512x1x2_S512x128x2_0_1_2 : (⟨S512x1x2, .f32⟩ : BufTy).Contents (Elt F) → (⟨S512x128x2, .f32⟩ : BufTy).Contents (Elt F)) (hop := rfl) (hyi := (by decide)) (hxi := (by decide))).trans
    (congrArg (broadcastInDim S512x128x2 ![0, 1, 2] bcast_S512x1x2_S512x128x2_0_1_2 : (⟨S512x1x2, .f32⟩ : BufTy).Contents (Elt F) → (⟨S512x128x2, .f32⟩ : BufTy).Contents (Elt F)) (e_main_v5 V))
theorem e_main_v11 : after (ops (F := F)) V (Proc.devRef .tc main_v11) = val_main_v11 (F := F) (a4 V) (a5 V) :=
  (binary_eq later_11 later_12 (Nat.lt_of_lt_of_eq (by decide : 11 < 1293) ops_len.symm) V main_v10 main_v9 main_v11 (addf : (⟨S512x128x2, .f32⟩ : BufTy).Contents (Elt F) → (⟨S512x128x2, .f32⟩ : BufTy).Contents (Elt F) → (⟨S512x128x2, .f32⟩ : BufTy).Contents (Elt F)) (hop := rfl) (hyi := (by decide)) (hai := (by decide)) (hbi := (by decide))).trans
    (congrArg₂ (addf : (⟨S512x128x2, .f32⟩ : BufTy).Contents (Elt F) → (⟨S512x128x2, .f32⟩ : BufTy).Contents (Elt F) → (⟨S512x128x2, .f32⟩ : BufTy).Contents (Elt F)) (e_main_v10 V) (e_main_v9 V))
theorem e_main_v12 : after (ops (F := F)) V (Proc.devRef .tc main_v12) = val_main_v12 (F := F) (a4 V) (a5 V) :=
  (unary_eq later_12 later_13 (Nat.lt_of_lt_of_eq (by decide : 12 < 1293) ops_len.symm) V main_v11 main_v12 ((extractStridedSlice S512x128x1 ![0, 0, 0] · slices_S512x128x2_S512x128x1_0_0_0) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 0] · slices_S512x128x2_S512x128x1_0_0_0) : (⟨S512x128x2, .f32⟩ : BufTy).Contents (Elt F) → (⟨S512x128x1, .f32⟩ : BufTy).Contents (Elt F)) (e_main_v11 V))
theorem e_main_v13 : after (ops (F := F)) V (Proc.devRef .tc main_v13) = val_main_v13 (F := F) (a4 V) (a5 V) :=
  (reshape_eq later_13 later_14 (Nat.lt_of_lt_of_eq (by decide : 13 < 1293) ops_len.symm) V main_v12 main_v13 rfl shapeCasts_S512x128x1_S512x128 (hop := rfl) (hyi := (by decide)) (hxi := (by decide))).trans
    (congrArg (fun t => fun i => (rfl : (main_v12).ty.elt = (main_v13).ty.elt) ▸ shapeCast (main_v13).ty.shape t shapeCasts_S512x128x1_S512x128 i) (e_main_v12 V))
theorem e_main_cst : after (ops (F := F)) V (Proc.devRef .tc main_cst) = val_main_cst (F := F) :=
  nullary_eq later_14 later_15 (Nat.lt_of_lt_of_eq (by decide : 14 < 1293) ops_len.symm) V main_cst (constant S_ .f32 0x40800000#32) (hop := rfl) (hyi := (by decide))
theorem e_main_v14 : after (ops (F := F)) V (Proc.devRef .tc main_v14) = val_main_v14 (F := F) :=
  (unary_eq later_15 later_16 (Nat.lt_of_lt_of_eq (by decide : 15 < 1293) ops_len.symm) V main_cst main_v14 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst V))
theorem e_main_v15 : after (ops (F := F)) V (Proc.devRef .tc main_v15) = val_main_v15 (F := F) (a4 V) (a5 V) :=
  (binary_eq later_16 later_17 (Nat.lt_of_lt_of_eq (by decide : 16 < 1293) ops_len.symm) V main_v13 main_v14 main_v15 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v13 V) (e_main_v14 V))
theorem e_main_cst_0 : after (ops (F := F)) V (Proc.devRef .tc main_cst_0) = val_main_cst_0 (F := F) :=
  nullary_eq later_17 later_18 (Nat.lt_of_lt_of_eq (by decide : 17 < 1293) ops_len.symm) V main_cst_0 (constant S_ .f32 0x3F000000#32) (hop := rfl) (hyi := (by decide))
theorem e_main_v16 : after (ops (F := F)) V (Proc.devRef .tc main_v16) = val_main_v16 (F := F) :=
  (unary_eq later_18 later_19 (Nat.lt_of_lt_of_eq (by decide : 18 < 1293) ops_len.symm) V main_cst_0 main_v16 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_0 V))
theorem e_main_v17 : after (ops (F := F)) V (Proc.devRef .tc main_v17) = val_main_v17 (F := F) (a4 V) (a5 V) :=
  (binary_eq later_19 later_20 (Nat.lt_of_lt_of_eq (by decide : 19 < 1293) ops_len.symm) V main_v15 main_v16 main_v17 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v15 V) (e_main_v16 V))
theorem e_main_v18 : after (ops (F := F)) V (Proc.devRef .tc main_v18) = val_main_v18 (F := F) (a4 V) (a5 V) :=
  (unary_eq later_20 later_21 (Nat.lt_of_lt_of_eq (by decide : 20 < 1293) ops_len.symm) V main_v11 main_v18 ((extractStridedSlice S512x128x1 ![0, 0, 1] · slices_S512x128x2_S512x128x1_0_0_1) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 1] · slices_S512x128x2_S512x128x1_0_0_1) : (⟨S512x128x2, .f32⟩ : BufTy).Contents (Elt F) → (⟨S512x128x1, .f32⟩ : BufTy).Contents (Elt F)) (e_main_v11 V))
theorem e_main_v19 : after (ops (F := F)) V (Proc.devRef .tc main_v19) = val_main_v19 (F := F) (a4 V) (a5 V) :=
  (reshape_eq later_21 later_22 (Nat.lt_of_lt_of_eq (by decide : 21 < 1293) ops_len.symm) V main_v18 main_v19 rfl shapeCasts_S512x128x1_S512x128 (hop := rfl) (hyi := (by decide)) (hxi := (by decide))).trans
    (congrArg (fun t => fun i => (rfl : (main_v18).ty.elt = (main_v19).ty.elt) ▸ shapeCast (main_v19).ty.shape t shapeCasts_S512x128x1_S512x128 i) (e_main_v18 V))
theorem e_main_cst_1 : after (ops (F := F)) V (Proc.devRef .tc main_cst_1) = val_main_cst_1 (F := F) :=
  nullary_eq later_22 later_23 (Nat.lt_of_lt_of_eq (by decide : 22 < 1293) ops_len.symm) V main_cst_1 (constant S_ .f32 0x40800000#32) (hop := rfl) (hyi := (by decide))
theorem e_main_v20 : after (ops (F := F)) V (Proc.devRef .tc main_v20) = val_main_v20 (F := F) :=
  (unary_eq later_23 later_24 (Nat.lt_of_lt_of_eq (by decide : 23 < 1293) ops_len.symm) V main_cst_1 main_v20 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_1 V))
theorem e_main_v21 : after (ops (F := F)) V (Proc.devRef .tc main_v21) = val_main_v21 (F := F) (a4 V) (a5 V) :=
  (binary_eq later_24 later_25 (Nat.lt_of_lt_of_eq (by decide : 24 < 1293) ops_len.symm) V main_v19 main_v20 main_v21 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v19 V) (e_main_v20 V))
theorem e_main_cst_2 : after (ops (F := F)) V (Proc.devRef .tc main_cst_2) = val_main_cst_2 (F := F) :=
  nullary_eq later_25 later_26 (Nat.lt_of_lt_of_eq (by decide : 25 < 1293) ops_len.symm) V main_cst_2 (constant S_ .f32 0x3F000000#32) (hop := rfl) (hyi := (by decide))
theorem e_main_v22 : after (ops (F := F)) V (Proc.devRef .tc main_v22) = val_main_v22 (F := F) :=
  (unary_eq later_26 later_27 (Nat.lt_of_lt_of_eq (by decide : 26 < 1293) ops_len.symm) V main_cst_2 main_v22 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_2 V))
theorem e_main_v23 : after (ops (F := F)) V (Proc.devRef .tc main_v23) = val_main_v23 (F := F) (a4 V) (a5 V) :=
  (binary_eq later_27 later_28 (Nat.lt_of_lt_of_eq (by decide : 27 < 1293) ops_len.symm) V main_v21 main_v22 main_v23 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v21 V) (e_main_v22 V))
theorem e_main_v24 : after (ops (F := F)) V (Proc.devRef .tc main_v24) = val_main_v24 (F := F) (a4 V) (a5 V) :=
  (unary_eq later_28 later_29 (Nat.lt_of_lt_of_eq (by decide : 28 < 1293) ops_len.symm) V main_v17 main_v24 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v17 V))
theorem e_main_v25 : after (ops (F := F)) V (Proc.devRef .tc main_v25) = val_main_v25 (F := F) (a4 V) (a5 V) :=
  (unary_eq later_29 later_30 (Nat.lt_of_lt_of_eq (by decide : 29 < 1293) ops_len.symm) V main_v23 main_v25 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v23 V))
theorem e_main_v26 : after (ops (F := F)) V (Proc.devRef .tc main_v26) = val_main_v26 (F := F) (a4 V) (a5 V) :=
  (binary_eq later_30 later_31 (Nat.lt_of_lt_of_eq (by decide : 30 < 1293) ops_len.symm) V main_v17 main_v24 main_v26 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v17 V) (e_main_v24 V))
theorem e_main_v27 : after (ops (F := F)) V (Proc.devRef .tc main_v27) = val_main_v27 (F := F) (a4 V) (a5 V) :=
  (binary_eq later_31 later_32 (Nat.lt_of_lt_of_eq (by decide : 31 < 1293) ops_len.symm) V main_v23 main_v25 main_v27 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v23 V) (e_main_v25 V))
theorem e_main_v28 : after (ops (F := F)) V (Proc.devRef .tc main_v28) = val_main_v28 (F := F) (a4 V) (a5 V) :=
  (unary_eq later_32 later_33 (Nat.lt_of_lt_of_eq (by decide : 32 < 1293) ops_len.symm) V main_v24 main_v28 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v24 V))
theorem e_main_v29 : after (ops (F := F)) V (Proc.devRef .tc main_v29) = val_main_v29 (F := F) (a4 V) (a5 V) :=
  (unary_eq later_33 later_34 (Nat.lt_of_lt_of_eq (by decide : 33 < 1293) ops_len.symm) V main_v25 main_v29 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v25 V))
theorem e_main_c : after (ops (F := F)) V (Proc.devRef .tc main_c) = val_main_c (F := F) :=
  nullary_eq later_34 later_35 (Nat.lt_of_lt_of_eq (by decide : 34 < 1293) ops_len.symm) V main_c (constantI S_ 32 0#32) (hop := rfl) (hyi := (by decide))
theorem e_main_v30 : after (ops (F := F)) V (Proc.devRef .tc main_v30) = val_main_v30 (F := F) :=
  (unary_eq later_35 later_36 (Nat.lt_of_lt_of_eq (by decide : 35 < 1293) ops_len.symm) V main_c main_v30 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c V))
theorem e_main_v31 : after (ops (F := F)) V (Proc.devRef .tc main_v31) = val_main_v31 (F := F) (a4 V) (a5 V) :=
  (binary_eq later_36 later_37 (Nat.lt_of_lt_of_eq (by decide : 36 < 1293) ops_len.symm) V main_v28 main_v30 main_v31 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v28 V) (e_main_v30 V))
theorem e_main_c_3 : after (ops (F := F)) V (Proc.devRef .tc main_c_3) = val_main_c_3 (F := F) :=
  nullary_eq later_37 later_38 (Nat.lt_of_lt_of_eq (by decide : 37 < 1293) ops_len.symm) V main_c_3 (constantI S_ 32 256#32) (hop := rfl) (hyi := (by decide))
theorem e_main_v32 : after (ops (F := F)) V (Proc.devRef .tc main_v32) = val_main_v32 (F := F) :=
  (unary_eq later_38 later_39 (Nat.lt_of_lt_of_eq (by decide : 38 < 1293) ops_len.symm) V main_c_3 main_v32 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_3 V))
theorem e_main_v33 : after (ops (F := F)) V (Proc.devRef .tc main_v33) = val_main_v33 (F := F) (a4 V) (a5 V) :=
  (binary_eq later_39 later_40 (Nat.lt_of_lt_of_eq (by decide : 39 < 1293) ops_len.symm) V main_v28 main_v32 main_v33 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v28 V) (e_main_v32 V))
theorem e_main_v34 : after (ops (F := F)) V (Proc.devRef .tc main_v34) = val_main_v34 (F := F) (a4 V) (a5 V) :=
  (binary_eq later_40 later_41 (Nat.lt_of_lt_of_eq (by decide : 40 < 1293) ops_len.symm) V main_v31 main_v33 main_v34 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v31 V) (e_main_v33 V))
theorem e_main_c_4 : after (ops (F := F)) V (Proc.devRef .tc main_c_4) = val_main_c_4 (F := F) :=
  nullary_eq later_41 later_42 (Nat.lt_of_lt_of_eq (by decide : 41 < 1293) ops_len.symm) V main_c_4 (constantI S_ 32 0#32) (hop := rfl) (hyi := (by decide))
theorem e_main_v35 : after (ops (F := F)) V (Proc.devRef .tc main_v35) = val_main_v35 (F := F) :=
  (unary_eq later_42 later_43 (Nat.lt_of_lt_of_eq (by decide : 42 < 1293) ops_len.symm) V main_c_4 main_v35 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_4 V))
theorem e_main_v36 : after (ops (F := F)) V (Proc.devRef .tc main_v36) = val_main_v36 (F := F) (a4 V) (a5 V) :=
  (binary_eq later_43 later_44 (Nat.lt_of_lt_of_eq (by decide : 43 < 1293) ops_len.symm) V main_v29 main_v35 main_v36 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v29 V) (e_main_v35 V))
theorem e_main_v37 : after (ops (F := F)) V (Proc.devRef .tc main_v37) = val_main_v37 (F := F) (a4 V) (a5 V) :=
  (binary_eq later_44 later_45 (Nat.lt_of_lt_of_eq (by decide : 44 < 1293) ops_len.symm) V main_v34 main_v36 main_v37 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v34 V) (e_main_v36 V))
theorem e_main_c_5 : after (ops (F := F)) V (Proc.devRef .tc main_c_5) = val_main_c_5 (F := F) :=
  nullary_eq later_45 later_46 (Nat.lt_of_lt_of_eq (by decide : 45 < 1293) ops_len.symm) V main_c_5 (constantI S_ 32 256#32) (hop := rfl) (hyi := (by decide))
theorem e_main_v38 : after (ops (F := F)) V (Proc.devRef .tc main_v38) = val_main_v38 (F := F) :=
  (unary_eq later_46 later_47 (Nat.lt_of_lt_of_eq (by decide : 46 < 1293) ops_len.symm) V main_c_5 main_v38 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_5 V))
theorem e_main_v39 : after (ops (F := F)) V (Proc.devRef .tc main_v39) = val_main_v39 (F := F) (a4 V) (a5 V) :=
  (binary_eq later_47 later_48 (Nat.lt_of_lt_of_eq (by decide : 47 < 1293) ops_len.symm) V main_v29 main_v38 main_v39 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v29 V) (e_main_v38 V))
theorem e_main_v40 : after (ops (F := F)) V (Proc.devRef .tc main_v40) = val_main_v40 (F := F) (a4 V) (a5 V) :=
  (binary_eq later_48 later_49 (Nat.lt_of_lt_of_eq (by decide : 48 < 1293) ops_len.symm) V main_v37 main_v39 main_v40 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v37 V) (e_main_v39 V))
theorem e_main_c_6 : after (ops (F := F)) V (Proc.devRef .tc main_c_6) = val_main_c_6 (F := F) :=
  nullary_eq later_49 later_50 (Nat.lt_of_lt_of_eq (by decide : 49 < 1293) ops_len.symm) V main_c_6 (constantI S_ 32 0#32) (hop := rfl) (hyi := (by decide))
theorem e_main_c_7 : after (ops (F := F)) V (Proc.devRef .tc main_c_7) = val_main_c_7 (F := F) :=
  nullary_eq later_50 later_51 (Nat.lt_of_lt_of_eq (by decide : 50 < 1293) ops_len.symm) V main_c_7 (constantI S_ 32 255#32) (hop := rfl) (hyi := (by decide))
theorem e_main_call0_v0 : after (ops (F := F)) V (Proc.devRef .tc main_call0_v0) = val_main_call0_v0 (F := F) :=
  (tunary_eq later_51 later_52 (Nat.lt_of_lt_of_eq (by decide : 51 < 1293) ops_len.symm) V (TRef.of (T := ⟨S_, .i32⟩) main_c_6) (TRef.of (T := ⟨S_, .i32⟩) main_call0_v0) id (hop := rfl) (hyi := (by decide)) (hxi := (by decide))).trans
    (congrArg (fun t => (TRef.of (T := ⟨S_, .i32⟩) main_call0_v0).toBuf ((id) ((TRef.of (T := ⟨S_, .i32⟩) main_c_6).ofBuf t))) (e_main_c_6 V))
theorem e_main_call0_v1 : after (ops (F := F)) V (Proc.devRef .tc main_call0_v1) = val_main_call0_v1 (F := F) :=
  (tunary_eq later_52 later_53 (Nat.lt_of_lt_of_eq (by decide : 52 < 1293) ops_len.symm) V (TRef.of (T := ⟨S_, .i32⟩) main_call0_v0) (TRef.of (T := ⟨S512x128, .i32⟩) main_call0_v1) (broadcastInDim S512x128 ![] bcast_S_S512x128) (hop := rfl) (hyi := (by decide)) (hxi := (by decide))).trans
    (congrArg (fun t => (TRef.of (T := ⟨S512x128, .i32⟩) main_call0_v1).toBuf (((broadcastInDim S512x128 ![] bcast_S_S512x128)) ((TRef.of (T := ⟨S_, .i32⟩) main_call0_v0).ofBuf t))) (e_main_call0_v0 V))
theorem e_main_call0_v2 : after (ops (F := F)) V (Proc.devRef .tc main_call0_v2) = val_main_call0_v2 (F := F) (a4 V) (a5 V) :=
  (tbinary_eq later_53 later_54 (Nat.lt_of_lt_of_eq (by decide : 53 < 1293) ops_len.symm) V (TRef.of (T := ⟨S512x128, .i32⟩) main_call0_v1) (TRef.of (T := ⟨S512x128, .i32⟩) main_v28) (TRef.of (T := ⟨S512x128, .i32⟩) main_call0_v2) maxsi (hop := rfl) (hyi := (by decide)) (hai := (by decide)) (hbi := (by decide))).trans
    (by rw [e_main_call0_v1 V, e_main_v28 V]; rfl)
theorem e_main_call0_v3 : after (ops (F := F)) V (Proc.devRef .tc main_call0_v3) = val_main_call0_v3 (F := F) :=
  (tunary_eq later_54 later_55 (Nat.lt_of_lt_of_eq (by decide : 54 < 1293) ops_len.symm) V (TRef.of (T := ⟨S_, .i32⟩) main_c_7) (TRef.of (T := ⟨S_, .i32⟩) main_call0_v3) id (hop := rfl) (hyi := (by decide)) (hxi := (by decide))).trans
    (congrArg (fun t => (TRef.of (T := ⟨S_, .i32⟩) main_call0_v3).toBuf ((id) ((TRef.of (T := ⟨S_, .i32⟩) main_c_7).ofBuf t))) (e_main_c_7 V))
theorem e_main_call0_v4 : after (ops (F := F)) V (Proc.devRef .tc main_call0_v4) = val_main_call0_v4 (F := F) :=
  (tunary_eq later_55 later_56 (Nat.lt_of_lt_of_eq (by decide : 55 < 1293) ops_len.symm) V (TRef.of (T := ⟨S_, .i32⟩) main_call0_v3) (TRef.of (T := ⟨S512x128, .i32⟩) main_call0_v4) (broadcastInDim S512x128 ![] bcast_S_S512x128) (hop := rfl) (hyi := (by decide)) (hxi := (by decide))).trans
    (congrArg (fun t => (TRef.of (T := ⟨S512x128, .i32⟩) main_call0_v4).toBuf (((broadcastInDim S512x128 ![] bcast_S_S512x128)) ((TRef.of (T := ⟨S_, .i32⟩) main_call0_v3).ofBuf t))) (e_main_call0_v3 V))
theorem e_main_v41 : after (ops (F := F)) V (Proc.devRef .tc main_v41) = val_main_v41 (F := F) (a4 V) (a5 V) :=
  (tbinary_eq later_56 later_57 (Nat.lt_of_lt_of_eq (by decide : 56 < 1293) ops_len.symm) V (TRef.of (T := ⟨S512x128, .i32⟩) main_call0_v4) (TRef.of (T := ⟨S512x128, .i32⟩) main_call0_v2) (TRef.of (T := ⟨S512x128, .i32⟩) main_v41) minsi (hop := rfl) (hyi := (by decide)) (hai := (by decide)) (hbi := (by decide))).trans
    (by rw [e_main_call0_v4 V, e_main_call0_v2 V]; rfl)
theorem e_main_c_8 : after (ops (F := F)) V (Proc.devRef .tc main_c_8) = val_main_c_8 (F := F) :=
  nullary_eq later_57 later_58 (Nat.lt_of_lt_of_eq (by decide : 57 < 1293) ops_len.symm) V main_c_8 (constantI S_ 32 0#32) (hop := rfl) (hyi := (by decide))
theorem e_main_c_9 : after (ops (F := F)) V (Proc.devRef .tc main_c_9) = val_main_c_9 (F := F) :=
  nullary_eq later_58 later_59 (Nat.lt_of_lt_of_eq (by decide : 58 < 1293) ops_len.symm) V main_c_9 (constantI S_ 32 255#32) (hop := rfl) (hyi := (by decide))
theorem e_main_call1_v0 : after (ops (F := F)) V (Proc.devRef .tc main_call1_v0) = val_main_call1_v0 (F := F) :=
  (tunary_eq later_59 later_60 (Nat.lt_of_lt_of_eq (by decide : 59 < 1293) ops_len.symm) V (TRef.of (T := ⟨S_, .i32⟩) main_c_8) (TRef.of (T := ⟨S_, .i32⟩) main_call1_v0) id (hop := rfl) (hyi := (by decide)) (hxi := (by decide))).trans
    (congrArg (fun t => (TRef.of (T := ⟨S_, .i32⟩) main_call1_v0).toBuf ((id) ((TRef.of (T := ⟨S_, .i32⟩) main_c_8).ofBuf t))) (e_main_c_8 V))
theorem e_main_call1_v1 : after (ops (F := F)) V (Proc.devRef .tc main_call1_v1) = val_main_call1_v1 (F := F) :=
  (tunary_eq later_60 later_61 (Nat.lt_of_lt_of_eq (by decide : 60 < 1293) ops_len.symm) V (TRef.of (T := ⟨S_, .i32⟩) main_call1_v0) (TRef.of (T := ⟨S512x128, .i32⟩) main_call1_v1) (broadcastInDim S512x128 ![] bcast_S_S512x128) (hop := rfl) (hyi := (by decide)) (hxi := (by decide))).trans
    (congrArg (fun t => (TRef.of (T := ⟨S512x128, .i32⟩) main_call1_v1).toBuf (((broadcastInDim S512x128 ![] bcast_S_S512x128)) ((TRef.of (T := ⟨S_, .i32⟩) main_call1_v0).ofBuf t))) (e_main_call1_v0 V))
theorem e_main_call1_v2 : after (ops (F := F)) V (Proc.devRef .tc main_call1_v2) = val_main_call1_v2 (F := F) (a4 V) (a5 V) :=
  (tbinary_eq later_61 later_62 (Nat.lt_of_lt_of_eq (by decide : 61 < 1293) ops_len.symm) V (TRef.of (T := ⟨S512x128, .i32⟩) main_call1_v1) (TRef.of (T := ⟨S512x128, .i32⟩) main_v29) (TRef.of (T := ⟨S512x128, .i32⟩) main_call1_v2) maxsi (hop := rfl) (hyi := (by decide)) (hai := (by decide)) (hbi := (by decide))).trans
    (by rw [e_main_call1_v1 V, e_main_v29 V]; rfl)
theorem e_main_call1_v3 : after (ops (F := F)) V (Proc.devRef .tc main_call1_v3) = val_main_call1_v3 (F := F) :=
  (tunary_eq later_62 later_63 (Nat.lt_of_lt_of_eq (by decide : 62 < 1293) ops_len.symm) V (TRef.of (T := ⟨S_, .i32⟩) main_c_9) (TRef.of (T := ⟨S_, .i32⟩) main_call1_v3) id (hop := rfl) (hyi := (by decide)) (hxi := (by decide))).trans
    (congrArg (fun t => (TRef.of (T := ⟨S_, .i32⟩) main_call1_v3).toBuf ((id) ((TRef.of (T := ⟨S_, .i32⟩) main_c_9).ofBuf t))) (e_main_c_9 V))
theorem e_main_call1_v4 : after (ops (F := F)) V (Proc.devRef .tc main_call1_v4) = val_main_call1_v4 (F := F) :=
  (tunary_eq later_63 later_64 (Nat.lt_of_lt_of_eq (by decide : 63 < 1293) ops_len.symm) V (TRef.of (T := ⟨S_, .i32⟩) main_call1_v3) (TRef.of (T := ⟨S512x128, .i32⟩) main_call1_v4) (broadcastInDim S512x128 ![] bcast_S_S512x128) (hop := rfl) (hyi := (by decide)) (hxi := (by decide))).trans
    (congrArg (fun t => (TRef.of (T := ⟨S512x128, .i32⟩) main_call1_v4).toBuf (((broadcastInDim S512x128 ![] bcast_S_S512x128)) ((TRef.of (T := ⟨S_, .i32⟩) main_call1_v3).ofBuf t))) (e_main_call1_v3 V))
theorem e_main_v42 : after (ops (F := F)) V (Proc.devRef .tc main_v42) = val_main_v42 (F := F) (a4 V) (a5 V) :=
  (tbinary_eq later_64 later_65 (Nat.lt_of_lt_of_eq (by decide : 64 < 1293) ops_len.symm) V (TRef.of (T := ⟨S512x128, .i32⟩) main_call1_v4) (TRef.of (T := ⟨S512x128, .i32⟩) main_call1_v2) (TRef.of (T := ⟨S512x128, .i32⟩) main_v42) minsi (hop := rfl) (hyi := (by decide)) (hai := (by decide)) (hbi := (by decide))).trans
    (by rw [e_main_call1_v4 V, e_main_call1_v2 V]; rfl)
theorem e_main_v43 : after (ops (F := F)) V (Proc.devRef .tc main_v43) = val_main_v43 (F := F) (a4 V) :=
  (unary_eq later_65 later_66 (Nat.lt_of_lt_of_eq (by decide : 65 < 1293) ops_len.symm) V main_v2 main_v43 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_10 : after (ops (F := F)) V (Proc.devRef .tc main_c_10) = val_main_c_10 (F := F) :=
  nullary_eq later_66 later_67 (Nat.lt_of_lt_of_eq (by decide : 66 < 1293) ops_len.symm) V main_c_10 (constantI S_ 32 0#32) (hop := rfl) (hyi := (by decide))
theorem e_main_v44 : after (ops (F := F)) V (Proc.devRef .tc main_v44) = val_main_v44 (F := F) :=
  (unary_eq later_67 later_68 (Nat.lt_of_lt_of_eq (by decide : 67 < 1293) ops_len.symm) V main_c_10 main_v44 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_10 V))
theorem e_main_v45 : after (ops (F := F)) V (Proc.devRef .tc main_v45) = val_main_v45 (F := F) (a4 V) :=
  (binary_eq later_68 later_69 (Nat.lt_of_lt_of_eq (by decide : 68 < 1293) ops_len.symm) V main_v43 main_v44 main_v45 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v43 V) (e_main_v44 V))
theorem e_main_c_11 : after (ops (F := F)) V (Proc.devRef .tc main_c_11) = val_main_c_11 (F := F) :=
  nullary_eq later_69 later_70 (Nat.lt_of_lt_of_eq (by decide : 69 < 1293) ops_len.symm) V main_c_11 (constantI S_ 32 2#32) (hop := rfl) (hyi := (by decide))
theorem e_main_v46 : after (ops (F := F)) V (Proc.devRef .tc main_v46) = val_main_v46 (F := F) :=
  (unary_eq later_70 later_71 (Nat.lt_of_lt_of_eq (by decide : 70 < 1293) ops_len.symm) V main_c_11 main_v46 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_11 V))
theorem e_main_v47 : after (ops (F := F)) V (Proc.devRef .tc main_v47) = val_main_v47 (F := F) (a4 V) :=
  (binary_eq later_71 later_72 (Nat.lt_of_lt_of_eq (by decide : 71 < 1293) ops_len.symm) V main_v43 main_v46 main_v47 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v43 V) (e_main_v46 V))
theorem e_main_v48 : after (ops (F := F)) V (Proc.devRef .tc main_v48) = val_main_v48 (F := F) (a4 V) :=
  (ternary_eq later_72 later_73 (Nat.lt_of_lt_of_eq (by decide : 72 < 1293) ops_len.symm) V main_v45 main_v47 main_v43 main_v48 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v45 V) (e_main_v47 V) (e_main_v43 V))
theorem e_main_c_12 : after (ops (F := F)) V (Proc.devRef .tc main_c_12) = val_main_c_12 (F := F) :=
  nullary_eq later_73 later_74 (Nat.lt_of_lt_of_eq (by decide : 73 < 1293) ops_len.symm) V main_c_12 (constantI S_ 32 0#32) (hop := rfl) (hyi := (by decide))
theorem e_main_v49 : after (ops (F := F)) V (Proc.devRef .tc main_v49) = val_main_v49 (F := F) :=
  (unary_eq later_74 later_75 (Nat.lt_of_lt_of_eq (by decide : 74 < 1293) ops_len.symm) V main_c_12 main_v49 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_12 V))
theorem e_main_v50 : after (ops (F := F)) V (Proc.devRef .tc main_v50) = val_main_v50 (F := F) (a4 V) (a5 V) :=
  (binary_eq later_75 later_76 (Nat.lt_of_lt_of_eq (by decide : 75 < 1293) ops_len.symm) V main_v42 main_v49 main_v50 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v42 V) (e_main_v49 V))
theorem e_main_c_13 : after (ops (F := F)) V (Proc.devRef .tc main_c_13) = val_main_c_13 (F := F) :=
  nullary_eq later_76 later_77 (Nat.lt_of_lt_of_eq (by decide : 76 < 1293) ops_len.symm) V main_c_13 (constantI S_ 32 256#32) (hop := rfl) (hyi := (by decide))
theorem e_main_v51 : after (ops (F := F)) V (Proc.devRef .tc main_v51) = val_main_v51 (F := F) :=
  (unary_eq later_77 later_78 (Nat.lt_of_lt_of_eq (by decide : 77 < 1293) ops_len.symm) V main_c_13 main_v51 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_13 V))
theorem e_main_v52 : after (ops (F := F)) V (Proc.devRef .tc main_v52) = val_main_v52 (F := F) (a4 V) (a5 V) :=
  (binary_eq later_78 later_79 (Nat.lt_of_lt_of_eq (by decide : 78 < 1293) ops_len.symm) V main_v42 main_v51 main_v52 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v42 V) (e_main_v51 V))
theorem e_main_v53 : after (ops (F := F)) V (Proc.devRef .tc main_v53) = val_main_v53 (F := F) (a4 V) (a5 V) :=
  (ternary_eq later_79 later_80 (Nat.lt_of_lt_of_eq (by decide : 79 < 1293) ops_len.symm) V main_v50 main_v52 main_v42 main_v53 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v50 V) (e_main_v52 V) (e_main_v42 V))
theorem e_main_c_14 : after (ops (F := F)) V (Proc.devRef .tc main_c_14) = val_main_c_14 (F := F) :=
  nullary_eq later_80 later_81 (Nat.lt_of_lt_of_eq (by decide : 80 < 1293) ops_len.symm) V main_c_14 (constantI S_ 32 0#32) (hop := rfl) (hyi := (by decide))
theorem e_main_v54 : after (ops (F := F)) V (Proc.devRef .tc main_v54) = val_main_v54 (F := F) :=
  (unary_eq later_81 later_82 (Nat.lt_of_lt_of_eq (by decide : 81 < 1293) ops_len.symm) V main_c_14 main_v54 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_14 V))
theorem e_main_v55 : after (ops (F := F)) V (Proc.devRef .tc main_v55) = val_main_v55 (F := F) (a4 V) (a5 V) :=
  (binary_eq later_82 later_83 (Nat.lt_of_lt_of_eq (by decide : 82 < 1293) ops_len.symm) V main_v41 main_v54 main_v55 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v41 V) (e_main_v54 V))
theorem e_main_c_15 : after (ops (F := F)) V (Proc.devRef .tc main_c_15) = val_main_c_15 (F := F) :=
  nullary_eq later_83 later_84 (Nat.lt_of_lt_of_eq (by decide : 83 < 1293) ops_len.symm) V main_c_15 (constantI S_ 32 256#32) (hop := rfl) (hyi := (by decide))
theorem e_main_v56 : after (ops (F := F)) V (Proc.devRef .tc main_v56) = val_main_v56 (F := F) :=
  (unary_eq later_84 later_85 (Nat.lt_of_lt_of_eq (by decide : 84 < 1293) ops_len.symm) V main_c_15 main_v56 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_15 V))
theorem e_main_v57 : after (ops (F := F)) V (Proc.devRef .tc main_v57) = val_main_v57 (F := F) (a4 V) (a5 V) :=
  (binary_eq later_85 later_86 (Nat.lt_of_lt_of_eq (by decide : 85 < 1293) ops_len.symm) V main_v41 main_v56 main_v57 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v41 V) (e_main_v56 V))
theorem e_main_v58 : after (ops (F := F)) V (Proc.devRef .tc main_v58) = val_main_v58 (F := F) (a4 V) (a5 V) :=
  (ternary_eq later_86 later_87 (Nat.lt_of_lt_of_eq (by decide : 86 < 1293) ops_len.symm) V main_v55 main_v57 main_v41 main_v58 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v55 V) (e_main_v57 V) (e_main_v41 V))
theorem e_main_v59 : after (ops (F := F)) V (Proc.devRef .tc main_v59) = val_main_v59 (F := F) (a4 V) :=
  (unary_eq later_87 later_88 (Nat.lt_of_lt_of_eq (by decide : 87 < 1293) ops_len.symm) V main_v48 main_v59 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v48 V))
theorem e_main_v60 : after (ops (F := F)) V (Proc.devRef .tc main_v60) = val_main_v60 (F := F) (a4 V) :=
  (unary_eq later_88 later_89 (Nat.lt_of_lt_of_eq (by decide : 88 < 1293) ops_len.symm) V main_v59 main_v60 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v59 V))
theorem e_main_v61 : after (ops (F := F)) V (Proc.devRef .tc main_v61) = val_main_v61 (F := F) (a4 V) (a5 V) :=
  (unary_eq later_89 later_90 (Nat.lt_of_lt_of_eq (by decide : 89 < 1293) ops_len.symm) V main_v53 main_v61 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v53 V))
theorem e_main_v62 : after (ops (F := F)) V (Proc.devRef .tc main_v62) = val_main_v62 (F := F) (a4 V) (a5 V) :=
  (unary_eq later_90 later_91 (Nat.lt_of_lt_of_eq (by decide : 90 < 1293) ops_len.symm) V main_v58 main_v62 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v58 V))
theorem e_main_v63 : after (ops (F := F)) V (Proc.devRef .tc main_v63) = val_main_v63 (F := F) (a4 V) (a5 V) :=
  (nary_eq later_91 later_92 (Nat.lt_of_lt_of_eq (by decide : 91 < 1293) ops_len.symm) V ![main_v60, main_v61, main_v62] main_v63 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v60)⟩, ⟨S512x128x1, after (ops (F := F)) V (Proc.devRef .tc main_v61)⟩, ⟨S512x128x1, after (ops (F := F)) V (Proc.devRef .tc main_v62)⟩] concatenates_S512x128x1_S512x128x1_S512x128x1_S512x128x3_d2 = _
    rw [e_main_v60 V, e_main_v61 V, e_main_v62 V]; rfl)
theorem e_main_v64 : after (ops (F := F)) V (Proc.devRef .tc main_v64) = val_main_v64 (F := F) (a0 V) (a4 V) (a5 V) :=
  (binary_eq later_92 later_93 (Nat.lt_of_lt_of_eq (by decide : 92 < 1293) ops_len.symm) V main_arg0 main_v63 main_v64 ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (e_main_arg0 V) (e_main_v63 V))
theorem e_main_v65 : after (ops (F := F)) V (Proc.devRef .tc main_v65) = val_main_v65 (F := F) (a4 V) (a5 V) :=
  (unary_eq later_93 later_94 (Nat.lt_of_lt_of_eq (by decide : 93 < 1293) ops_len.symm) V main_v40 main_v65 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v40 V))
theorem e_main_v66 : after (ops (F := F)) V (Proc.devRef .tc main_v66) = val_main_v66 (F := F) (a4 V) (a5 V) :=
  (unary_eq later_94 later_95 (Nat.lt_of_lt_of_eq (by decide : 94 < 1293) ops_len.symm) V main_v65 main_v66 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v65 V))
theorem e_main_v67 : after (ops (F := F)) V (Proc.devRef .tc main_v67) = val_main_v67 (F := F) (a4 V) (a5 V) :=
  (unary_eq later_95 later_96 (Nat.lt_of_lt_of_eq (by decide : 95 < 1293) ops_len.symm) V main_v66 main_v67 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v66 V))
theorem e_main_v68 : after (ops (F := F)) V (Proc.devRef .tc main_v68) = val_main_v68 (F := F) (a0 V) (a4 V) (a5 V) :=
  (binary_eq later_96 later_97 (Nat.lt_of_lt_of_eq (by decide : 96 < 1293) ops_len.symm) V main_v64 main_v67 main_v68 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v64 V) (e_main_v67 V))
theorem e_main_c_16 : after (ops (F := F)) V (Proc.devRef .tc main_c_16) = val_main_c_16 (F := F) :=
  nullary_eq later_97 later_98 (Nat.lt_of_lt_of_eq (by decide : 97 < 1293) ops_len.symm) V main_c_16 (constantI S_ 32 1#32) (hop := rfl) (hyi := (by decide))
theorem e_main_v69 : after (ops (F := F)) V (Proc.devRef .tc main_v69) = val_main_v69 (F := F) :=
  (unary_eq later_98 later_99 (Nat.lt_of_lt_of_eq (by decide : 98 < 1293) ops_len.symm) V main_c_16 main_v69 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_16 V))
theorem e_main_v70 : after (ops (F := F)) V (Proc.devRef .tc main_v70) = val_main_v70 (F := F) (a4 V) (a5 V) :=
  (binary_eq later_99 later_100 (Nat.lt_of_lt_of_eq (by decide : 99 < 1293) ops_len.symm) V main_v28 main_v69 main_v70 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v28 V) (e_main_v69 V))
theorem e_main_c_17 : after (ops (F := F)) V (Proc.devRef .tc main_c_17) = val_main_c_17 (F := F) :=
  nullary_eq later_100 later_101 (Nat.lt_of_lt_of_eq (by decide : 100 < 1293) ops_len.symm) V main_c_17 (constantI S_ 32 0#32) (hop := rfl) (hyi := (by decide))
theorem e_main_v71 : after (ops (F := F)) V (Proc.devRef .tc main_v71) = val_main_v71 (F := F) :=
  (unary_eq later_101 later_102 (Nat.lt_of_lt_of_eq (by decide : 101 < 1293) ops_len.symm) V main_c_17 main_v71 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_17 V))
theorem e_main_v72 : after (ops (F := F)) V (Proc.devRef .tc main_v72) = val_main_v72 (F := F) (a4 V) (a5 V) :=
  (binary_eq later_102 later_103 (Nat.lt_of_lt_of_eq (by decide : 102 < 1293) ops_len.symm) V main_v70 main_v71 main_v72 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v70 V) (e_main_v71 V))
theorem e_main_c_18 : after (ops (F := F)) V (Proc.devRef .tc main_c_18) = val_main_c_18 (F := F) :=
  nullary_eq later_103 later_104 (Nat.lt_of_lt_of_eq (by decide : 103 < 1293) ops_len.symm) V main_c_18 (constantI S_ 32 256#32) (hop := rfl) (hyi := (by decide))
theorem e_main_v73 : after (ops (F := F)) V (Proc.devRef .tc main_v73) = val_main_v73 (F := F) :=
  (unary_eq later_104 later_105 (Nat.lt_of_lt_of_eq (by decide : 104 < 1293) ops_len.symm) V main_c_18 main_v73 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_18 V))
theorem e_main_v74 : after (ops (F := F)) V (Proc.devRef .tc main_v74) = val_main_v74 (F := F) (a4 V) (a5 V) :=
  (binary_eq later_105 later_106 (Nat.lt_of_lt_of_eq (by decide : 105 < 1293) ops_len.symm) V main_v70 main_v73 main_v74 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v70 V) (e_main_v73 V))
theorem e_main_v75 : after (ops (F := F)) V (Proc.devRef .tc main_v75) = val_main_v75 (F := F) (a4 V) (a5 V) :=
  (binary_eq later_106 later_107 (Nat.lt_of_lt_of_eq (by decide : 106 < 1293) ops_len.symm) V main_v72 main_v74 main_v75 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v72 V) (e_main_v74 V))
theorem e_main_c_19 : after (ops (F := F)) V (Proc.devRef .tc main_c_19) = val_main_c_19 (F := F) :=
  nullary_eq later_107 later_108 (Nat.lt_of_lt_of_eq (by decide : 107 < 1293) ops_len.symm) V main_c_19 (constantI S_ 32 0#32) (hop := rfl) (hyi := (by decide))
theorem e_main_v76 : after (ops (F := F)) V (Proc.devRef .tc main_v76) = val_main_v76 (F := F) :=
  (unary_eq later_108 later_109 (Nat.lt_of_lt_of_eq (by decide : 108 < 1293) ops_len.symm) V main_c_19 main_v76 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_19 V))
theorem e_main_v77 : after (ops (F := F)) V (Proc.devRef .tc main_v77) = val_main_v77 (F := F) (a4 V) (a5 V) :=
  (binary_eq later_109 later_110 (Nat.lt_of_lt_of_eq (by decide : 109 < 1293) ops_len.symm) V main_v29 main_v76 main_v77 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v29 V) (e_main_v76 V))
theorem e_main_v78 : after (ops (F := F)) V (Proc.devRef .tc main_v78) = val_main_v78 (F := F) (a4 V) (a5 V) :=
  (binary_eq later_110 later_111 (Nat.lt_of_lt_of_eq (by decide : 110 < 1293) ops_len.symm) V main_v75 main_v77 main_v78 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v75 V) (e_main_v77 V))
theorem e_main_c_20 : after (ops (F := F)) V (Proc.devRef .tc main_c_20) = val_main_c_20 (F := F) :=
  nullary_eq later_111 later_112 (Nat.lt_of_lt_of_eq (by decide : 111 < 1293) ops_len.symm) V main_c_20 (constantI S_ 32 256#32) (hop := rfl) (hyi := (by decide))
theorem e_main_v79 : after (ops (F := F)) V (Proc.devRef .tc main_v79) = val_main_v79 (F := F) :=
  (unary_eq later_112 later_113 (Nat.lt_of_lt_of_eq (by decide : 112 < 1293) ops_len.symm) V main_c_20 main_v79 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_20 V))
theorem e_main_v80 : after (ops (F := F)) V (Proc.devRef .tc main_v80) = val_main_v80 (F := F) (a4 V) (a5 V) :=
  (binary_eq later_113 later_114 (Nat.lt_of_lt_of_eq (by decide : 113 < 1293) ops_len.symm) V main_v29 main_v79 main_v80 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v29 V) (e_main_v79 V))
theorem e_main_v81 : after (ops (F := F)) V (Proc.devRef .tc main_v81) = val_main_v81 (F := F) (a4 V) (a5 V) :=
  (binary_eq later_114 later_115 (Nat.lt_of_lt_of_eq (by decide : 114 < 1293) ops_len.symm) V main_v78 main_v80 main_v81 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v78 V) (e_main_v80 V))
theorem e_main_c_21 : after (ops (F := F)) V (Proc.devRef .tc main_c_21) = val_main_c_21 (F := F) :=
  nullary_eq later_115 later_116 (Nat.lt_of_lt_of_eq (by decide : 115 < 1293) ops_len.symm) V main_c_21 (constantI S_ 32 0#32) (hop := rfl) (hyi := (by decide))
theorem e_main_c_22 : after (ops (F := F)) V (Proc.devRef .tc main_c_22) = val_main_c_22 (F := F) :=
  nullary_eq later_116 later_117 (Nat.lt_of_lt_of_eq (by decide : 116 < 1293) ops_len.symm) V main_c_22 (constantI S_ 32 255#32) (hop := rfl) (hyi := (by decide))
theorem e_main_call2_v0 : after (ops (F := F)) V (Proc.devRef .tc main_call2_v0) = val_main_call2_v0 (F := F) :=
  (tunary_eq later_117 later_118 (Nat.lt_of_lt_of_eq (by decide : 117 < 1293) ops_len.symm) V (TRef.of (T := ⟨S_, .i32⟩) main_c_21) (TRef.of (T := ⟨S_, .i32⟩) main_call2_v0) id (hop := rfl) (hyi := (by decide)) (hxi := (by decide))).trans
    (congrArg (fun t => (TRef.of (T := ⟨S_, .i32⟩) main_call2_v0).toBuf ((id) ((TRef.of (T := ⟨S_, .i32⟩) main_c_21).ofBuf t))) (e_main_c_21 V))
theorem e_main_call2_v1 : after (ops (F := F)) V (Proc.devRef .tc main_call2_v1) = val_main_call2_v1 (F := F) :=
  (tunary_eq later_118 later_119 (Nat.lt_of_lt_of_eq (by decide : 118 < 1293) ops_len.symm) V (TRef.of (T := ⟨S_, .i32⟩) main_call2_v0) (TRef.of (T := ⟨S512x128, .i32⟩) main_call2_v1) (broadcastInDim S512x128 ![] bcast_S_S512x128) (hop := rfl) (hyi := (by decide)) (hxi := (by decide))).trans
    (congrArg (fun t => (TRef.of (T := ⟨S512x128, .i32⟩) main_call2_v1).toBuf (((broadcastInDim S512x128 ![] bcast_S_S512x128)) ((TRef.of (T := ⟨S_, .i32⟩) main_call2_v0).ofBuf t))) (e_main_call2_v0 V))
theorem e_main_call2_v2 : after (ops (F := F)) V (Proc.devRef .tc main_call2_v2) = val_main_call2_v2 (F := F) (a4 V) (a5 V) :=
  (tbinary_eq later_119 later_120 (Nat.lt_of_lt_of_eq (by decide : 119 < 1293) ops_len.symm) V (TRef.of (T := ⟨S512x128, .i32⟩) main_call2_v1) (TRef.of (T := ⟨S512x128, .i32⟩) main_v70) (TRef.of (T := ⟨S512x128, .i32⟩) main_call2_v2) maxsi (hop := rfl) (hyi := (by decide)) (hai := (by decide)) (hbi := (by decide))).trans
    (by rw [e_main_call2_v1 V, e_main_v70 V]; rfl)
theorem e_main_call2_v3 : after (ops (F := F)) V (Proc.devRef .tc main_call2_v3) = val_main_call2_v3 (F := F) :=
  (tunary_eq later_120 later_121 (Nat.lt_of_lt_of_eq (by decide : 120 < 1293) ops_len.symm) V (TRef.of (T := ⟨S_, .i32⟩) main_c_22) (TRef.of (T := ⟨S_, .i32⟩) main_call2_v3) id (hop := rfl) (hyi := (by decide)) (hxi := (by decide))).trans
    (congrArg (fun t => (TRef.of (T := ⟨S_, .i32⟩) main_call2_v3).toBuf ((id) ((TRef.of (T := ⟨S_, .i32⟩) main_c_22).ofBuf t))) (e_main_c_22 V))
theorem e_main_call2_v4 : after (ops (F := F)) V (Proc.devRef .tc main_call2_v4) = val_main_call2_v4 (F := F) :=
  (tunary_eq later_121 later_122 (Nat.lt_of_lt_of_eq (by decide : 121 < 1293) ops_len.symm) V (TRef.of (T := ⟨S_, .i32⟩) main_call2_v3) (TRef.of (T := ⟨S512x128, .i32⟩) main_call2_v4) (broadcastInDim S512x128 ![] bcast_S_S512x128) (hop := rfl) (hyi := (by decide)) (hxi := (by decide))).trans
    (congrArg (fun t => (TRef.of (T := ⟨S512x128, .i32⟩) main_call2_v4).toBuf (((broadcastInDim S512x128 ![] bcast_S_S512x128)) ((TRef.of (T := ⟨S_, .i32⟩) main_call2_v3).ofBuf t))) (e_main_call2_v3 V))
theorem e_main_v82 : after (ops (F := F)) V (Proc.devRef .tc main_v82) = val_main_v82 (F := F) (a4 V) (a5 V) :=
  (tbinary_eq later_122 later_123 (Nat.lt_of_lt_of_eq (by decide : 122 < 1293) ops_len.symm) V (TRef.of (T := ⟨S512x128, .i32⟩) main_call2_v4) (TRef.of (T := ⟨S512x128, .i32⟩) main_call2_v2) (TRef.of (T := ⟨S512x128, .i32⟩) main_v82) minsi (hop := rfl) (hyi := (by decide)) (hai := (by decide)) (hbi := (by decide))).trans
    (by rw [e_main_call2_v4 V, e_main_call2_v2 V]; rfl)
theorem e_main_c_23 : after (ops (F := F)) V (Proc.devRef .tc main_c_23) = val_main_c_23 (F := F) :=
  nullary_eq later_123 later_124 (Nat.lt_of_lt_of_eq (by decide : 123 < 1293) ops_len.symm) V main_c_23 (constantI S_ 32 0#32) (hop := rfl) (hyi := (by decide))
theorem e_main_c_24 : after (ops (F := F)) V (Proc.devRef .tc main_c_24) = val_main_c_24 (F := F) :=
  nullary_eq later_124 later_125 (Nat.lt_of_lt_of_eq (by decide : 124 < 1293) ops_len.symm) V main_c_24 (constantI S_ 32 255#32) (hop := rfl) (hyi := (by decide))
theorem e_main_call3_v0 : after (ops (F := F)) V (Proc.devRef .tc main_call3_v0) = val_main_call3_v0 (F := F) :=
  (tunary_eq later_125 later_126 (Nat.lt_of_lt_of_eq (by decide : 125 < 1293) ops_len.symm) V (TRef.of (T := ⟨S_, .i32⟩) main_c_23) (TRef.of (T := ⟨S_, .i32⟩) main_call3_v0) id (hop := rfl) (hyi := (by decide)) (hxi := (by decide))).trans
    (congrArg (fun t => (TRef.of (T := ⟨S_, .i32⟩) main_call3_v0).toBuf ((id) ((TRef.of (T := ⟨S_, .i32⟩) main_c_23).ofBuf t))) (e_main_c_23 V))
theorem e_main_call3_v1 : after (ops (F := F)) V (Proc.devRef .tc main_call3_v1) = val_main_call3_v1 (F := F) :=
  (tunary_eq later_126 later_127 (Nat.lt_of_lt_of_eq (by decide : 126 < 1293) ops_len.symm) V (TRef.of (T := ⟨S_, .i32⟩) main_call3_v0) (TRef.of (T := ⟨S512x128, .i32⟩) main_call3_v1) (broadcastInDim S512x128 ![] bcast_S_S512x128) (hop := rfl) (hyi := (by decide)) (hxi := (by decide))).trans
    (congrArg (fun t => (TRef.of (T := ⟨S512x128, .i32⟩) main_call3_v1).toBuf (((broadcastInDim S512x128 ![] bcast_S_S512x128)) ((TRef.of (T := ⟨S_, .i32⟩) main_call3_v0).ofBuf t))) (e_main_call3_v0 V))
theorem e_main_call3_v2 : after (ops (F := F)) V (Proc.devRef .tc main_call3_v2) = val_main_call3_v2 (F := F) (a4 V) (a5 V) :=
  (tbinary_eq later_127 later_128 (Nat.lt_of_lt_of_eq (by decide : 127 < 1293) ops_len.symm) V (TRef.of (T := ⟨S512x128, .i32⟩) main_call3_v1) (TRef.of (T := ⟨S512x128, .i32⟩) main_v29) (TRef.of (T := ⟨S512x128, .i32⟩) main_call3_v2) maxsi (hop := rfl) (hyi := (by decide)) (hai := (by decide)) (hbi := (by decide))).trans
    (by rw [e_main_call3_v1 V, e_main_v29 V]; rfl)
theorem e_main_call3_v3 : after (ops (F := F)) V (Proc.devRef .tc main_call3_v3) = val_main_call3_v3 (F := F) :=
  (tunary_eq later_128 later_129 (Nat.lt_of_lt_of_eq (by decide : 128 < 1293) ops_len.symm) V (TRef.of (T := ⟨S_, .i32⟩) main_c_24) (TRef.of (T := ⟨S_, .i32⟩) main_call3_v3) id (hop := rfl) (hyi := (by decide)) (hxi := (by decide))).trans
    (congrArg (fun t => (TRef.of (T := ⟨S_, .i32⟩) main_call3_v3).toBuf ((id) ((TRef.of (T := ⟨S_, .i32⟩) main_c_24).ofBuf t))) (e_main_c_24 V))
theorem e_main_call3_v4 : after (ops (F := F)) V (Proc.devRef .tc main_call3_v4) = val_main_call3_v4 (F := F) :=
  (tunary_eq later_129 later_130 (Nat.lt_of_lt_of_eq (by decide : 129 < 1293) ops_len.symm) V (TRef.of (T := ⟨S_, .i32⟩) main_call3_v3) (TRef.of (T := ⟨S512x128, .i32⟩) main_call3_v4) (broadcastInDim S512x128 ![] bcast_S_S512x128) (hop := rfl) (hyi := (by decide)) (hxi := (by decide))).trans
    (congrArg (fun t => (TRef.of (T := ⟨S512x128, .i32⟩) main_call3_v4).toBuf (((broadcastInDim S512x128 ![] bcast_S_S512x128)) ((TRef.of (T := ⟨S_, .i32⟩) main_call3_v3).ofBuf t))) (e_main_call3_v3 V))
theorem e_main_v83 : after (ops (F := F)) V (Proc.devRef .tc main_v83) = val_main_v83 (F := F) (a4 V) (a5 V) :=
  (tbinary_eq later_130 later_131 (Nat.lt_of_lt_of_eq (by decide : 130 < 1293) ops_len.symm) V (TRef.of (T := ⟨S512x128, .i32⟩) main_call3_v4) (TRef.of (T := ⟨S512x128, .i32⟩) main_call3_v2) (TRef.of (T := ⟨S512x128, .i32⟩) main_v83) minsi (hop := rfl) (hyi := (by decide)) (hai := (by decide)) (hbi := (by decide))).trans
    (by rw [e_main_call3_v4 V, e_main_call3_v2 V]; rfl)
theorem e_main_v84 : after (ops (F := F)) V (Proc.devRef .tc main_v84) = val_main_v84 (F := F) (a4 V) :=
  (unary_eq later_131 later_132 (Nat.lt_of_lt_of_eq (by decide : 131 < 1293) ops_len.symm) V main_v2 main_v84 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_25 : after (ops (F := F)) V (Proc.devRef .tc main_c_25) = val_main_c_25 (F := F) :=
  nullary_eq later_132 later_133 (Nat.lt_of_lt_of_eq (by decide : 132 < 1293) ops_len.symm) V main_c_25 (constantI S_ 32 0#32) (hop := rfl) (hyi := (by decide))
theorem e_main_v85 : after (ops (F := F)) V (Proc.devRef .tc main_v85) = val_main_v85 (F := F) :=
  (unary_eq later_133 later_134 (Nat.lt_of_lt_of_eq (by decide : 133 < 1293) ops_len.symm) V main_c_25 main_v85 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_25 V))
theorem e_main_v86 : after (ops (F := F)) V (Proc.devRef .tc main_v86) = val_main_v86 (F := F) (a4 V) :=
  (binary_eq later_134 later_135 (Nat.lt_of_lt_of_eq (by decide : 134 < 1293) ops_len.symm) V main_v84 main_v85 main_v86 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v84 V) (e_main_v85 V))
theorem e_main_c_26 : after (ops (F := F)) V (Proc.devRef .tc main_c_26) = val_main_c_26 (F := F) :=
  nullary_eq later_135 later_136 (Nat.lt_of_lt_of_eq (by decide : 135 < 1293) ops_len.symm) V main_c_26 (constantI S_ 32 2#32) (hop := rfl) (hyi := (by decide))
theorem e_main_v87 : after (ops (F := F)) V (Proc.devRef .tc main_v87) = val_main_v87 (F := F) :=
  (unary_eq later_136 later_137 (Nat.lt_of_lt_of_eq (by decide : 136 < 1293) ops_len.symm) V main_c_26 main_v87 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_26 V))
theorem e_main_v88 : after (ops (F := F)) V (Proc.devRef .tc main_v88) = val_main_v88 (F := F) (a4 V) :=
  (binary_eq later_137 later_138 (Nat.lt_of_lt_of_eq (by decide : 137 < 1293) ops_len.symm) V main_v84 main_v87 main_v88 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v84 V) (e_main_v87 V))
theorem e_main_v89 : after (ops (F := F)) V (Proc.devRef .tc main_v89) = val_main_v89 (F := F) (a4 V) :=
  (ternary_eq later_138 later_139 (Nat.lt_of_lt_of_eq (by decide : 138 < 1293) ops_len.symm) V main_v86 main_v88 main_v84 main_v89 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v86 V) (e_main_v88 V) (e_main_v84 V))
theorem e_main_c_27 : after (ops (F := F)) V (Proc.devRef .tc main_c_27) = val_main_c_27 (F := F) :=
  nullary_eq later_139 later_140 (Nat.lt_of_lt_of_eq (by decide : 139 < 1293) ops_len.symm) V main_c_27 (constantI S_ 32 0#32) (hop := rfl) (hyi := (by decide))
theorem e_main_v90 : after (ops (F := F)) V (Proc.devRef .tc main_v90) = val_main_v90 (F := F) :=
  (unary_eq later_140 later_141 (Nat.lt_of_lt_of_eq (by decide : 140 < 1293) ops_len.symm) V main_c_27 main_v90 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_27 V))
theorem e_main_v91 : after (ops (F := F)) V (Proc.devRef .tc main_v91) = val_main_v91 (F := F) (a4 V) (a5 V) :=
  (binary_eq later_141 later_142 (Nat.lt_of_lt_of_eq (by decide : 141 < 1293) ops_len.symm) V main_v83 main_v90 main_v91 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v83 V) (e_main_v90 V))
theorem e_main_c_28 : after (ops (F := F)) V (Proc.devRef .tc main_c_28) = val_main_c_28 (F := F) :=
  nullary_eq later_142 later_143 (Nat.lt_of_lt_of_eq (by decide : 142 < 1293) ops_len.symm) V main_c_28 (constantI S_ 32 256#32) (hop := rfl) (hyi := (by decide))
theorem e_main_v92 : after (ops (F := F)) V (Proc.devRef .tc main_v92) = val_main_v92 (F := F) :=
  (unary_eq later_143 later_144 (Nat.lt_of_lt_of_eq (by decide : 143 < 1293) ops_len.symm) V main_c_28 main_v92 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_28 V))
theorem e_main_v93 : after (ops (F := F)) V (Proc.devRef .tc main_v93) = val_main_v93 (F := F) (a4 V) (a5 V) :=
  (binary_eq later_144 later_145 (Nat.lt_of_lt_of_eq (by decide : 144 < 1293) ops_len.symm) V main_v83 main_v92 main_v93 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v83 V) (e_main_v92 V))
theorem e_main_v94 : after (ops (F := F)) V (Proc.devRef .tc main_v94) = val_main_v94 (F := F) (a4 V) (a5 V) :=
  (ternary_eq later_145 later_146 (Nat.lt_of_lt_of_eq (by decide : 145 < 1293) ops_len.symm) V main_v91 main_v93 main_v83 main_v94 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v91 V) (e_main_v93 V) (e_main_v83 V))
theorem e_main_c_29 : after (ops (F := F)) V (Proc.devRef .tc main_c_29) = val_main_c_29 (F := F) :=
  nullary_eq later_146 later_147 (Nat.lt_of_lt_of_eq (by decide : 146 < 1293) ops_len.symm) V main_c_29 (constantI S_ 32 0#32) (hop := rfl) (hyi := (by decide))
theorem e_main_v95 : after (ops (F := F)) V (Proc.devRef .tc main_v95) = val_main_v95 (F := F) :=
  (unary_eq later_147 later_148 (Nat.lt_of_lt_of_eq (by decide : 147 < 1293) ops_len.symm) V main_c_29 main_v95 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_29 V))
theorem e_main_v96 : after (ops (F := F)) V (Proc.devRef .tc main_v96) = val_main_v96 (F := F) (a4 V) (a5 V) :=
  (binary_eq later_148 later_149 (Nat.lt_of_lt_of_eq (by decide : 148 < 1293) ops_len.symm) V main_v82 main_v95 main_v96 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v82 V) (e_main_v95 V))
theorem e_main_c_30 : after (ops (F := F)) V (Proc.devRef .tc main_c_30) = val_main_c_30 (F := F) :=
  nullary_eq later_149 later_150 (Nat.lt_of_lt_of_eq (by decide : 149 < 1293) ops_len.symm) V main_c_30 (constantI S_ 32 256#32) (hop := rfl) (hyi := (by decide))
theorem e_main_v97 : after (ops (F := F)) V (Proc.devRef .tc main_v97) = val_main_v97 (F := F) :=
  (unary_eq later_150 later_151 (Nat.lt_of_lt_of_eq (by decide : 150 < 1293) ops_len.symm) V main_c_30 main_v97 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_30 V))
theorem e_main_v98 : after (ops (F := F)) V (Proc.devRef .tc main_v98) = val_main_v98 (F := F) (a4 V) (a5 V) :=
  (binary_eq later_151 later_152 (Nat.lt_of_lt_of_eq (by decide : 151 < 1293) ops_len.symm) V main_v82 main_v97 main_v98 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v82 V) (e_main_v97 V))
theorem e_main_v99 : after (ops (F := F)) V (Proc.devRef .tc main_v99) = val_main_v99 (F := F) (a4 V) (a5 V) :=
  (ternary_eq later_152 later_153 (Nat.lt_of_lt_of_eq (by decide : 152 < 1293) ops_len.symm) V main_v96 main_v98 main_v82 main_v99 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v96 V) (e_main_v98 V) (e_main_v82 V))
theorem e_main_v100 : after (ops (F := F)) V (Proc.devRef .tc main_v100) = val_main_v100 (F := F) (a4 V) :=
  (unary_eq later_153 later_154 (Nat.lt_of_lt_of_eq (by decide : 153 < 1293) ops_len.symm) V main_v89 main_v100 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v89 V))
theorem e_main_v101 : after (ops (F := F)) V (Proc.devRef .tc main_v101) = val_main_v101 (F := F) (a4 V) :=
  (unary_eq later_154 later_155 (Nat.lt_of_lt_of_eq (by decide : 154 < 1293) ops_len.symm) V main_v100 main_v101 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v100 V))
theorem e_main_v102 : after (ops (F := F)) V (Proc.devRef .tc main_v102) = val_main_v102 (F := F) (a4 V) (a5 V) :=
  (unary_eq later_155 later_156 (Nat.lt_of_lt_of_eq (by decide : 155 < 1293) ops_len.symm) V main_v94 main_v102 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v94 V))
theorem e_main_v103 : after (ops (F := F)) V (Proc.devRef .tc main_v103) = val_main_v103 (F := F) (a4 V) (a5 V) :=
  (unary_eq later_156 later_157 (Nat.lt_of_lt_of_eq (by decide : 156 < 1293) ops_len.symm) V main_v99 main_v103 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v99 V))
theorem e_main_v104 : after (ops (F := F)) V (Proc.devRef .tc main_v104) = val_main_v104 (F := F) (a4 V) (a5 V) :=
  (nary_eq later_157 later_158 (Nat.lt_of_lt_of_eq (by decide : 157 < 1293) ops_len.symm) V ![main_v101, main_v102, main_v103] main_v104 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v101)⟩, ⟨S512x128x1, after (ops (F := F)) V (Proc.devRef .tc main_v102)⟩, ⟨S512x128x1, after (ops (F := F)) V (Proc.devRef .tc main_v103)⟩] concatenates_S512x128x1_S512x128x1_S512x128x1_S512x128x3_d2 = _
    rw [e_main_v101 V, e_main_v102 V, e_main_v103 V]; rfl)
theorem e_main_v105 : after (ops (F := F)) V (Proc.devRef .tc main_v105) = val_main_v105 (F := F) (a0 V) (a4 V) (a5 V) :=
  (binary_eq later_158 later_159 (Nat.lt_of_lt_of_eq (by decide : 158 < 1293) ops_len.symm) V main_arg0 main_v104 main_v105 ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (e_main_arg0 V) (e_main_v104 V))
theorem e_main_v106 : after (ops (F := F)) V (Proc.devRef .tc main_v106) = val_main_v106 (F := F) (a4 V) (a5 V) :=
  (unary_eq later_159 later_160 (Nat.lt_of_lt_of_eq (by decide : 159 < 1293) ops_len.symm) V main_v81 main_v106 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v81 V))
theorem e_main_v107 : after (ops (F := F)) V (Proc.devRef .tc main_v107) = val_main_v107 (F := F) (a4 V) (a5 V) :=
  (unary_eq later_160 later_161 (Nat.lt_of_lt_of_eq (by decide : 160 < 1293) ops_len.symm) V main_v106 main_v107 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v106 V))
theorem e_main_v108 : after (ops (F := F)) V (Proc.devRef .tc main_v108) = val_main_v108 (F := F) (a4 V) (a5 V) :=
  (unary_eq later_161 later_162 (Nat.lt_of_lt_of_eq (by decide : 161 < 1293) ops_len.symm) V main_v107 main_v108 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v107 V))
theorem e_main_v109 : after (ops (F := F)) V (Proc.devRef .tc main_v109) = val_main_v109 (F := F) (a0 V) (a4 V) (a5 V) :=
  (binary_eq later_162 later_163 (Nat.lt_of_lt_of_eq (by decide : 162 < 1293) ops_len.symm) V main_v105 main_v108 main_v109 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v105 V) (e_main_v108 V))
theorem e_main_c_31 : after (ops (F := F)) V (Proc.devRef .tc main_c_31) = val_main_c_31 (F := F) :=
  nullary_eq later_163 later_164 (Nat.lt_of_lt_of_eq (by decide : 163 < 1293) ops_len.symm) V main_c_31 (constantI S_ 32 1#32) (hop := rfl) (hyi := (by decide))
theorem e_main_v110 : after (ops (F := F)) V (Proc.devRef .tc main_v110) = val_main_v110 (F := F) :=
  (unary_eq later_164 later_165 (Nat.lt_of_lt_of_eq (by decide : 164 < 1293) ops_len.symm) V main_c_31 main_v110 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_31 V))
theorem e_main_v111 : after (ops (F := F)) V (Proc.devRef .tc main_v111) = val_main_v111 (F := F) (a4 V) (a5 V) :=
  (binary_eq later_165 later_166 (Nat.lt_of_lt_of_eq (by decide : 165 < 1293) ops_len.symm) V main_v29 main_v110 main_v111 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v29 V) (e_main_v110 V))
theorem e_main_c_32 : after (ops (F := F)) V (Proc.devRef .tc main_c_32) = val_main_c_32 (F := F) :=
  nullary_eq later_166 later_167 (Nat.lt_of_lt_of_eq (by decide : 166 < 1293) ops_len.symm) V main_c_32 (constantI S_ 32 0#32) (hop := rfl) (hyi := (by decide))
theorem e_main_v112 : after (ops (F := F)) V (Proc.devRef .tc main_v112) = val_main_v112 (F := F) :=
  (unary_eq later_167 later_168 (Nat.lt_of_lt_of_eq (by decide : 167 < 1293) ops_len.symm) V main_c_32 main_v112 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_32 V))
theorem e_main_v113 : after (ops (F := F)) V (Proc.devRef .tc main_v113) = val_main_v113 (F := F) (a4 V) (a5 V) :=
  (binary_eq later_168 later_169 (Nat.lt_of_lt_of_eq (by decide : 168 < 1293) ops_len.symm) V main_v28 main_v112 main_v113 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v28 V) (e_main_v112 V))
theorem e_main_c_33 : after (ops (F := F)) V (Proc.devRef .tc main_c_33) = val_main_c_33 (F := F) :=
  nullary_eq later_169 later_170 (Nat.lt_of_lt_of_eq (by decide : 169 < 1293) ops_len.symm) V main_c_33 (constantI S_ 32 256#32) (hop := rfl) (hyi := (by decide))
theorem e_main_v114 : after (ops (F := F)) V (Proc.devRef .tc main_v114) = val_main_v114 (F := F) :=
  (unary_eq later_170 later_171 (Nat.lt_of_lt_of_eq (by decide : 170 < 1293) ops_len.symm) V main_c_33 main_v114 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_33 V))
theorem e_main_v115 : after (ops (F := F)) V (Proc.devRef .tc main_v115) = val_main_v115 (F := F) (a4 V) (a5 V) :=
  (binary_eq later_171 later_172 (Nat.lt_of_lt_of_eq (by decide : 171 < 1293) ops_len.symm) V main_v28 main_v114 main_v115 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v28 V) (e_main_v114 V))
theorem e_main_v116 : after (ops (F := F)) V (Proc.devRef .tc main_v116) = val_main_v116 (F := F) (a4 V) (a5 V) :=
  (binary_eq later_172 later_173 (Nat.lt_of_lt_of_eq (by decide : 172 < 1293) ops_len.symm) V main_v113 main_v115 main_v116 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v113 V) (e_main_v115 V))
theorem e_main_c_34 : after (ops (F := F)) V (Proc.devRef .tc main_c_34) = val_main_c_34 (F := F) :=
  nullary_eq later_173 later_174 (Nat.lt_of_lt_of_eq (by decide : 173 < 1293) ops_len.symm) V main_c_34 (constantI S_ 32 0#32) (hop := rfl) (hyi := (by decide))
theorem e_main_v117 : after (ops (F := F)) V (Proc.devRef .tc main_v117) = val_main_v117 (F := F) :=
  (unary_eq later_174 later_175 (Nat.lt_of_lt_of_eq (by decide : 174 < 1293) ops_len.symm) V main_c_34 main_v117 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_34 V))
theorem e_main_v118 : after (ops (F := F)) V (Proc.devRef .tc main_v118) = val_main_v118 (F := F) (a4 V) (a5 V) :=
  (binary_eq later_175 later_176 (Nat.lt_of_lt_of_eq (by decide : 175 < 1293) ops_len.symm) V main_v111 main_v117 main_v118 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v111 V) (e_main_v117 V))
theorem e_main_v119 : after (ops (F := F)) V (Proc.devRef .tc main_v119) = val_main_v119 (F := F) (a4 V) (a5 V) :=
  (binary_eq later_176 later_177 (Nat.lt_of_lt_of_eq (by decide : 176 < 1293) ops_len.symm) V main_v116 main_v118 main_v119 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v116 V) (e_main_v118 V))
theorem e_main_c_35 : after (ops (F := F)) V (Proc.devRef .tc main_c_35) = val_main_c_35 (F := F) :=
  nullary_eq later_177 later_178 (Nat.lt_of_lt_of_eq (by decide : 177 < 1293) ops_len.symm) V main_c_35 (constantI S_ 32 256#32) (hop := rfl) (hyi := (by decide))
theorem e_main_v120 : after (ops (F := F)) V (Proc.devRef .tc main_v120) = val_main_v120 (F := F) :=
  (unary_eq later_178 later_179 (Nat.lt_of_lt_of_eq (by decide : 178 < 1293) ops_len.symm) V main_c_35 main_v120 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_35 V))
theorem e_main_v121 : after (ops (F := F)) V (Proc.devRef .tc main_v121) = val_main_v121 (F := F) (a4 V) (a5 V) :=
  (binary_eq later_179 later_180 (Nat.lt_of_lt_of_eq (by decide : 179 < 1293) ops_len.symm) V main_v111 main_v120 main_v121 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v111 V) (e_main_v120 V))
theorem e_main_v122 : after (ops (F := F)) V (Proc.devRef .tc main_v122) = val_main_v122 (F := F) (a4 V) (a5 V) :=
  (binary_eq later_180 later_181 (Nat.lt_of_lt_of_eq (by decide : 180 < 1293) ops_len.symm) V main_v119 main_v121 main_v122 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v119 V) (e_main_v121 V))
theorem e_main_c_36 : after (ops (F := F)) V (Proc.devRef .tc main_c_36) = val_main_c_36 (F := F) :=
  nullary_eq later_181 later_182 (Nat.lt_of_lt_of_eq (by decide : 181 < 1293) ops_len.symm) V main_c_36 (constantI S_ 32 0#32) (hop := rfl) (hyi := (by decide))
theorem e_main_c_37 : after (ops (F := F)) V (Proc.devRef .tc main_c_37) = val_main_c_37 (F := F) :=
  nullary_eq later_182 later_183 (Nat.lt_of_lt_of_eq (by decide : 182 < 1293) ops_len.symm) V main_c_37 (constantI S_ 32 255#32) (hop := rfl) (hyi := (by decide))
theorem e_main_call4_v0 : after (ops (F := F)) V (Proc.devRef .tc main_call4_v0) = val_main_call4_v0 (F := F) :=
  (tunary_eq later_183 later_184 (Nat.lt_of_lt_of_eq (by decide : 183 < 1293) ops_len.symm) V (TRef.of (T := ⟨S_, .i32⟩) main_c_36) (TRef.of (T := ⟨S_, .i32⟩) main_call4_v0) id (hop := rfl) (hyi := (by decide)) (hxi := (by decide))).trans
    (congrArg (fun t => (TRef.of (T := ⟨S_, .i32⟩) main_call4_v0).toBuf ((id) ((TRef.of (T := ⟨S_, .i32⟩) main_c_36).ofBuf t))) (e_main_c_36 V))
theorem e_main_call4_v1 : after (ops (F := F)) V (Proc.devRef .tc main_call4_v1) = val_main_call4_v1 (F := F) :=
  (tunary_eq later_184 later_185 (Nat.lt_of_lt_of_eq (by decide : 184 < 1293) ops_len.symm) V (TRef.of (T := ⟨S_, .i32⟩) main_call4_v0) (TRef.of (T := ⟨S512x128, .i32⟩) main_call4_v1) (broadcastInDim S512x128 ![] bcast_S_S512x128) (hop := rfl) (hyi := (by decide)) (hxi := (by decide))).trans
    (congrArg (fun t => (TRef.of (T := ⟨S512x128, .i32⟩) main_call4_v1).toBuf (((broadcastInDim S512x128 ![] bcast_S_S512x128)) ((TRef.of (T := ⟨S_, .i32⟩) main_call4_v0).ofBuf t))) (e_main_call4_v0 V))
theorem e_main_call4_v2 : after (ops (F := F)) V (Proc.devRef .tc main_call4_v2) = val_main_call4_v2 (F := F) (a4 V) (a5 V) :=
  (tbinary_eq later_185 later_186 (Nat.lt_of_lt_of_eq (by decide : 185 < 1293) ops_len.symm) V (TRef.of (T := ⟨S512x128, .i32⟩) main_call4_v1) (TRef.of (T := ⟨S512x128, .i32⟩) main_v28) (TRef.of (T := ⟨S512x128, .i32⟩) main_call4_v2) maxsi (hop := rfl) (hyi := (by decide)) (hai := (by decide)) (hbi := (by decide))).trans
    (by rw [e_main_call4_v1 V, e_main_v28 V]; rfl)
theorem e_main_call4_v3 : after (ops (F := F)) V (Proc.devRef .tc main_call4_v3) = val_main_call4_v3 (F := F) :=
  (tunary_eq later_186 later_187 (Nat.lt_of_lt_of_eq (by decide : 186 < 1293) ops_len.symm) V (TRef.of (T := ⟨S_, .i32⟩) main_c_37) (TRef.of (T := ⟨S_, .i32⟩) main_call4_v3) id (hop := rfl) (hyi := (by decide)) (hxi := (by decide))).trans
    (congrArg (fun t => (TRef.of (T := ⟨S_, .i32⟩) main_call4_v3).toBuf ((id) ((TRef.of (T := ⟨S_, .i32⟩) main_c_37).ofBuf t))) (e_main_c_37 V))
theorem e_main_call4_v4 : after (ops (F := F)) V (Proc.devRef .tc main_call4_v4) = val_main_call4_v4 (F := F) :=
  (tunary_eq later_187 later_188 (Nat.lt_of_lt_of_eq (by decide : 187 < 1293) ops_len.symm) V (TRef.of (T := ⟨S_, .i32⟩) main_call4_v3) (TRef.of (T := ⟨S512x128, .i32⟩) main_call4_v4) (broadcastInDim S512x128 ![] bcast_S_S512x128) (hop := rfl) (hyi := (by decide)) (hxi := (by decide))).trans
    (congrArg (fun t => (TRef.of (T := ⟨S512x128, .i32⟩) main_call4_v4).toBuf (((broadcastInDim S512x128 ![] bcast_S_S512x128)) ((TRef.of (T := ⟨S_, .i32⟩) main_call4_v3).ofBuf t))) (e_main_call4_v3 V))
theorem e_main_v123 : after (ops (F := F)) V (Proc.devRef .tc main_v123) = val_main_v123 (F := F) (a4 V) (a5 V) :=
  (tbinary_eq later_188 later_189 (Nat.lt_of_lt_of_eq (by decide : 188 < 1293) ops_len.symm) V (TRef.of (T := ⟨S512x128, .i32⟩) main_call4_v4) (TRef.of (T := ⟨S512x128, .i32⟩) main_call4_v2) (TRef.of (T := ⟨S512x128, .i32⟩) main_v123) minsi (hop := rfl) (hyi := (by decide)) (hai := (by decide)) (hbi := (by decide))).trans
    (by rw [e_main_call4_v4 V, e_main_call4_v2 V]; rfl)
theorem e_main_c_38 : after (ops (F := F)) V (Proc.devRef .tc main_c_38) = val_main_c_38 (F := F) :=
  nullary_eq later_189 later_190 (Nat.lt_of_lt_of_eq (by decide : 189 < 1293) ops_len.symm) V main_c_38 (constantI S_ 32 0#32) (hop := rfl) (hyi := (by decide))
theorem e_main_c_39 : after (ops (F := F)) V (Proc.devRef .tc main_c_39) = val_main_c_39 (F := F) :=
  nullary_eq later_190 later_191 (Nat.lt_of_lt_of_eq (by decide : 190 < 1293) ops_len.symm) V main_c_39 (constantI S_ 32 255#32) (hop := rfl) (hyi := (by decide))
theorem e_main_call5_v0 : after (ops (F := F)) V (Proc.devRef .tc main_call5_v0) = val_main_call5_v0 (F := F) :=
  (tunary_eq later_191 later_192 (Nat.lt_of_lt_of_eq (by decide : 191 < 1293) ops_len.symm) V (TRef.of (T := ⟨S_, .i32⟩) main_c_38) (TRef.of (T := ⟨S_, .i32⟩) main_call5_v0) id (hop := rfl) (hyi := (by decide)) (hxi := (by decide))).trans
    (congrArg (fun t => (TRef.of (T := ⟨S_, .i32⟩) main_call5_v0).toBuf ((id) ((TRef.of (T := ⟨S_, .i32⟩) main_c_38).ofBuf t))) (e_main_c_38 V))
theorem e_main_call5_v1 : after (ops (F := F)) V (Proc.devRef .tc main_call5_v1) = val_main_call5_v1 (F := F) :=
  (tunary_eq later_192 later_193 (Nat.lt_of_lt_of_eq (by decide : 192 < 1293) ops_len.symm) V (TRef.of (T := ⟨S_, .i32⟩) main_call5_v0) (TRef.of (T := ⟨S512x128, .i32⟩) main_call5_v1) (broadcastInDim S512x128 ![] bcast_S_S512x128) (hop := rfl) (hyi := (by decide)) (hxi := (by decide))).trans
    (congrArg (fun t => (TRef.of (T := ⟨S512x128, .i32⟩) main_call5_v1).toBuf (((broadcastInDim S512x128 ![] bcast_S_S512x128)) ((TRef.of (T := ⟨S_, .i32⟩) main_call5_v0).ofBuf t))) (e_main_call5_v0 V))
theorem e_main_call5_v2 : after (ops (F := F)) V (Proc.devRef .tc main_call5_v2) = val_main_call5_v2 (F := F) (a4 V) (a5 V) :=
  (tbinary_eq later_193 later_194 (Nat.lt_of_lt_of_eq (by decide : 193 < 1293) ops_len.symm) V (TRef.of (T := ⟨S512x128, .i32⟩) main_call5_v1) (TRef.of (T := ⟨S512x128, .i32⟩) main_v111) (TRef.of (T := ⟨S512x128, .i32⟩) main_call5_v2) maxsi (hop := rfl) (hyi := (by decide)) (hai := (by decide)) (hbi := (by decide))).trans
    (by rw [e_main_call5_v1 V, e_main_v111 V]; rfl)
theorem e_main_call5_v3 : after (ops (F := F)) V (Proc.devRef .tc main_call5_v3) = val_main_call5_v3 (F := F) :=
  (tunary_eq later_194 later_195 (Nat.lt_of_lt_of_eq (by decide : 194 < 1293) ops_len.symm) V (TRef.of (T := ⟨S_, .i32⟩) main_c_39) (TRef.of (T := ⟨S_, .i32⟩) main_call5_v3) id (hop := rfl) (hyi := (by decide)) (hxi := (by decide))).trans
    (congrArg (fun t => (TRef.of (T := ⟨S_, .i32⟩) main_call5_v3).toBuf ((id) ((TRef.of (T := ⟨S_, .i32⟩) main_c_39).ofBuf t))) (e_main_c_39 V))
theorem e_main_call5_v4 : after (ops (F := F)) V (Proc.devRef .tc main_call5_v4) = val_main_call5_v4 (F := F) :=
  (tunary_eq later_195 later_196 (Nat.lt_of_lt_of_eq (by decide : 195 < 1293) ops_len.symm) V (TRef.of (T := ⟨S_, .i32⟩) main_call5_v3) (TRef.of (T := ⟨S512x128, .i32⟩) main_call5_v4) (broadcastInDim S512x128 ![] bcast_S_S512x128) (hop := rfl) (hyi := (by decide)) (hxi := (by decide))).trans
    (congrArg (fun t => (TRef.of (T := ⟨S512x128, .i32⟩) main_call5_v4).toBuf (((broadcastInDim S512x128 ![] bcast_S_S512x128)) ((TRef.of (T := ⟨S_, .i32⟩) main_call5_v3).ofBuf t))) (e_main_call5_v3 V))
theorem e_main_v124 : after (ops (F := F)) V (Proc.devRef .tc main_v124) = val_main_v124 (F := F) (a4 V) (a5 V) :=
  (tbinary_eq later_196 later_197 (Nat.lt_of_lt_of_eq (by decide : 196 < 1293) ops_len.symm) V (TRef.of (T := ⟨S512x128, .i32⟩) main_call5_v4) (TRef.of (T := ⟨S512x128, .i32⟩) main_call5_v2) (TRef.of (T := ⟨S512x128, .i32⟩) main_v124) minsi (hop := rfl) (hyi := (by decide)) (hai := (by decide)) (hbi := (by decide))).trans
    (by rw [e_main_call5_v4 V, e_main_call5_v2 V]; rfl)
theorem e_main_v125 : after (ops (F := F)) V (Proc.devRef .tc main_v125) = val_main_v125 (F := F) (a4 V) :=
  (unary_eq later_197 later_198 (Nat.lt_of_lt_of_eq (by decide : 197 < 1293) ops_len.symm) V main_v2 main_v125 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_40 : after (ops (F := F)) V (Proc.devRef .tc main_c_40) = val_main_c_40 (F := F) :=
  nullary_eq later_198 later_199 (Nat.lt_of_lt_of_eq (by decide : 198 < 1293) ops_len.symm) V main_c_40 (constantI S_ 32 0#32) (hop := rfl) (hyi := (by decide))
theorem e_main_v126 : after (ops (F := F)) V (Proc.devRef .tc main_v126) = val_main_v126 (F := F) :=
  (unary_eq later_199 later_200 (Nat.lt_of_lt_of_eq (by decide : 199 < 1293) ops_len.symm) V main_c_40 main_v126 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_40 V))
theorem e_main_v127 : after (ops (F := F)) V (Proc.devRef .tc main_v127) = val_main_v127 (F := F) (a4 V) :=
  (binary_eq later_200 later_201 (Nat.lt_of_lt_of_eq (by decide : 200 < 1293) ops_len.symm) V main_v125 main_v126 main_v127 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v125 V) (e_main_v126 V))
theorem e_main_c_41 : after (ops (F := F)) V (Proc.devRef .tc main_c_41) = val_main_c_41 (F := F) :=
  nullary_eq later_201 later_202 (Nat.lt_of_lt_of_eq (by decide : 201 < 1293) ops_len.symm) V main_c_41 (constantI S_ 32 2#32) (hop := rfl) (hyi := (by decide))
theorem e_main_v128 : after (ops (F := F)) V (Proc.devRef .tc main_v128) = val_main_v128 (F := F) :=
  (unary_eq later_202 later_203 (Nat.lt_of_lt_of_eq (by decide : 202 < 1293) ops_len.symm) V main_c_41 main_v128 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_41 V))
theorem e_main_v129 : after (ops (F := F)) V (Proc.devRef .tc main_v129) = val_main_v129 (F := F) (a4 V) :=
  (binary_eq later_203 later_204 (Nat.lt_of_lt_of_eq (by decide : 203 < 1293) ops_len.symm) V main_v125 main_v128 main_v129 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v125 V) (e_main_v128 V))
theorem e_main_v130 : after (ops (F := F)) V (Proc.devRef .tc main_v130) = val_main_v130 (F := F) (a4 V) :=
  (ternary_eq later_204 later_205 (Nat.lt_of_lt_of_eq (by decide : 204 < 1293) ops_len.symm) V main_v127 main_v129 main_v125 main_v130 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v127 V) (e_main_v129 V) (e_main_v125 V))
theorem e_main_c_42 : after (ops (F := F)) V (Proc.devRef .tc main_c_42) = val_main_c_42 (F := F) :=
  nullary_eq later_205 later_206 (Nat.lt_of_lt_of_eq (by decide : 205 < 1293) ops_len.symm) V main_c_42 (constantI S_ 32 0#32) (hop := rfl) (hyi := (by decide))
theorem e_main_v131 : after (ops (F := F)) V (Proc.devRef .tc main_v131) = val_main_v131 (F := F) :=
  (unary_eq later_206 later_207 (Nat.lt_of_lt_of_eq (by decide : 206 < 1293) ops_len.symm) V main_c_42 main_v131 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_42 V))
theorem e_main_v132 : after (ops (F := F)) V (Proc.devRef .tc main_v132) = val_main_v132 (F := F) (a4 V) (a5 V) :=
  (binary_eq later_207 later_208 (Nat.lt_of_lt_of_eq (by decide : 207 < 1293) ops_len.symm) V main_v124 main_v131 main_v132 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v124 V) (e_main_v131 V))
theorem e_main_c_43 : after (ops (F := F)) V (Proc.devRef .tc main_c_43) = val_main_c_43 (F := F) :=
  nullary_eq later_208 later_209 (Nat.lt_of_lt_of_eq (by decide : 208 < 1293) ops_len.symm) V main_c_43 (constantI S_ 32 256#32) (hop := rfl) (hyi := (by decide))
theorem e_main_v133 : after (ops (F := F)) V (Proc.devRef .tc main_v133) = val_main_v133 (F := F) :=
  (unary_eq later_209 later_210 (Nat.lt_of_lt_of_eq (by decide : 209 < 1293) ops_len.symm) V main_c_43 main_v133 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_43 V))
theorem e_main_v134 : after (ops (F := F)) V (Proc.devRef .tc main_v134) = val_main_v134 (F := F) (a4 V) (a5 V) :=
  (binary_eq later_210 later_211 (Nat.lt_of_lt_of_eq (by decide : 210 < 1293) ops_len.symm) V main_v124 main_v133 main_v134 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v124 V) (e_main_v133 V))
theorem e_main_v135 : after (ops (F := F)) V (Proc.devRef .tc main_v135) = val_main_v135 (F := F) (a4 V) (a5 V) :=
  (ternary_eq later_211 later_212 (Nat.lt_of_lt_of_eq (by decide : 211 < 1293) ops_len.symm) V main_v132 main_v134 main_v124 main_v135 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v132 V) (e_main_v134 V) (e_main_v124 V))
theorem e_main_c_44 : after (ops (F := F)) V (Proc.devRef .tc main_c_44) = val_main_c_44 (F := F) :=
  nullary_eq later_212 later_213 (Nat.lt_of_lt_of_eq (by decide : 212 < 1293) ops_len.symm) V main_c_44 (constantI S_ 32 0#32) (hop := rfl) (hyi := (by decide))
theorem e_main_v136 : after (ops (F := F)) V (Proc.devRef .tc main_v136) = val_main_v136 (F := F) :=
  (unary_eq later_213 later_214 (Nat.lt_of_lt_of_eq (by decide : 213 < 1293) ops_len.symm) V main_c_44 main_v136 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_44 V))
theorem e_main_v137 : after (ops (F := F)) V (Proc.devRef .tc main_v137) = val_main_v137 (F := F) (a4 V) (a5 V) :=
  (binary_eq later_214 later_215 (Nat.lt_of_lt_of_eq (by decide : 214 < 1293) ops_len.symm) V main_v123 main_v136 main_v137 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v123 V) (e_main_v136 V))
theorem e_main_c_45 : after (ops (F := F)) V (Proc.devRef .tc main_c_45) = val_main_c_45 (F := F) :=
  nullary_eq later_215 later_216 (Nat.lt_of_lt_of_eq (by decide : 215 < 1293) ops_len.symm) V main_c_45 (constantI S_ 32 256#32) (hop := rfl) (hyi := (by decide))
theorem e_main_v138 : after (ops (F := F)) V (Proc.devRef .tc main_v138) = val_main_v138 (F := F) :=
  (unary_eq later_216 later_217 (Nat.lt_of_lt_of_eq (by decide : 216 < 1293) ops_len.symm) V main_c_45 main_v138 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_45 V))
theorem e_main_v139 : after (ops (F := F)) V (Proc.devRef .tc main_v139) = val_main_v139 (F := F) (a4 V) (a5 V) :=
  (binary_eq later_217 later_218 (Nat.lt_of_lt_of_eq (by decide : 217 < 1293) ops_len.symm) V main_v123 main_v138 main_v139 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v123 V) (e_main_v138 V))
theorem e_main_v140 : after (ops (F := F)) V (Proc.devRef .tc main_v140) = val_main_v140 (F := F) (a4 V) (a5 V) :=
  (ternary_eq later_218 later_219 (Nat.lt_of_lt_of_eq (by decide : 218 < 1293) ops_len.symm) V main_v137 main_v139 main_v123 main_v140 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v137 V) (e_main_v139 V) (e_main_v123 V))
theorem e_main_v141 : after (ops (F := F)) V (Proc.devRef .tc main_v141) = val_main_v141 (F := F) (a4 V) :=
  (unary_eq later_219 later_220 (Nat.lt_of_lt_of_eq (by decide : 219 < 1293) ops_len.symm) V main_v130 main_v141 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v130 V))
theorem e_main_v142 : after (ops (F := F)) V (Proc.devRef .tc main_v142) = val_main_v142 (F := F) (a4 V) :=
  (unary_eq later_220 later_221 (Nat.lt_of_lt_of_eq (by decide : 220 < 1293) ops_len.symm) V main_v141 main_v142 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v141 V))
theorem e_main_v143 : after (ops (F := F)) V (Proc.devRef .tc main_v143) = val_main_v143 (F := F) (a4 V) (a5 V) :=
  (unary_eq later_221 later_222 (Nat.lt_of_lt_of_eq (by decide : 221 < 1293) ops_len.symm) V main_v135 main_v143 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v135 V))
theorem e_main_v144 : after (ops (F := F)) V (Proc.devRef .tc main_v144) = val_main_v144 (F := F) (a4 V) (a5 V) :=
  (unary_eq later_222 later_223 (Nat.lt_of_lt_of_eq (by decide : 222 < 1293) ops_len.symm) V main_v140 main_v144 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v140 V))
theorem e_main_v145 : after (ops (F := F)) V (Proc.devRef .tc main_v145) = val_main_v145 (F := F) (a4 V) (a5 V) :=
  (nary_eq later_223 later_224 (Nat.lt_of_lt_of_eq (by decide : 223 < 1293) ops_len.symm) V ![main_v142, main_v143, main_v144] main_v145 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v142)⟩, ⟨S512x128x1, after (ops (F := F)) V (Proc.devRef .tc main_v143)⟩, ⟨S512x128x1, after (ops (F := F)) V (Proc.devRef .tc main_v144)⟩] concatenates_S512x128x1_S512x128x1_S512x128x1_S512x128x3_d2 = _
    rw [e_main_v142 V, e_main_v143 V, e_main_v144 V]; rfl)
theorem e_main_v146 : after (ops (F := F)) V (Proc.devRef .tc main_v146) = val_main_v146 (F := F) (a0 V) (a4 V) (a5 V) :=
  (binary_eq later_224 later_225 (Nat.lt_of_lt_of_eq (by decide : 224 < 1293) ops_len.symm) V main_arg0 main_v145 main_v146 ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (e_main_arg0 V) (e_main_v145 V))
theorem e_main_v147 : after (ops (F := F)) V (Proc.devRef .tc main_v147) = val_main_v147 (F := F) (a4 V) (a5 V) :=
  (unary_eq later_225 later_226 (Nat.lt_of_lt_of_eq (by decide : 225 < 1293) ops_len.symm) V main_v122 main_v147 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v122 V))
theorem e_main_v148 : after (ops (F := F)) V (Proc.devRef .tc main_v148) = val_main_v148 (F := F) (a4 V) (a5 V) :=
  (unary_eq later_226 later_227 (Nat.lt_of_lt_of_eq (by decide : 226 < 1293) ops_len.symm) V main_v147 main_v148 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v147 V))
theorem e_main_v149 : after (ops (F := F)) V (Proc.devRef .tc main_v149) = val_main_v149 (F := F) (a4 V) (a5 V) :=
  (unary_eq later_227 later_228 (Nat.lt_of_lt_of_eq (by decide : 227 < 1293) ops_len.symm) V main_v148 main_v149 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v148 V))
theorem e_main_v150 : after (ops (F := F)) V (Proc.devRef .tc main_v150) = val_main_v150 (F := F) (a0 V) (a4 V) (a5 V) :=
  (binary_eq later_228 later_229 (Nat.lt_of_lt_of_eq (by decide : 228 < 1293) ops_len.symm) V main_v146 main_v149 main_v150 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v146 V) (e_main_v149 V))
theorem e_main_c_46 : after (ops (F := F)) V (Proc.devRef .tc main_c_46) = val_main_c_46 (F := F) :=
  nullary_eq later_229 later_230 (Nat.lt_of_lt_of_eq (by decide : 229 < 1293) ops_len.symm) V main_c_46 (constantI S_ 32 1#32) (hop := rfl) (hyi := (by decide))
theorem e_main_v151 : after (ops (F := F)) V (Proc.devRef .tc main_v151) = val_main_v151 (F := F) :=
  (unary_eq later_230 later_231 (Nat.lt_of_lt_of_eq (by decide : 230 < 1293) ops_len.symm) V main_c_46 main_v151 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_46 V))
theorem e_main_v152 : after (ops (F := F)) V (Proc.devRef .tc main_v152) = val_main_v152 (F := F) (a4 V) (a5 V) :=
  (binary_eq later_231 later_232 (Nat.lt_of_lt_of_eq (by decide : 231 < 1293) ops_len.symm) V main_v29 main_v151 main_v152 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v29 V) (e_main_v151 V))
theorem e_main_c_47 : after (ops (F := F)) V (Proc.devRef .tc main_c_47) = val_main_c_47 (F := F) :=
  nullary_eq later_232 later_233 (Nat.lt_of_lt_of_eq (by decide : 232 < 1293) ops_len.symm) V main_c_47 (constantI S_ 32 1#32) (hop := rfl) (hyi := (by decide))
theorem e_main_v153 : after (ops (F := F)) V (Proc.devRef .tc main_v153) = val_main_v153 (F := F) :=
  (unary_eq later_233 later_234 (Nat.lt_of_lt_of_eq (by decide : 233 < 1293) ops_len.symm) V main_c_47 main_v153 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_47 V))
theorem e_main_v154 : after (ops (F := F)) V (Proc.devRef .tc main_v154) = val_main_v154 (F := F) (a4 V) (a5 V) :=
  (binary_eq later_234 later_235 (Nat.lt_of_lt_of_eq (by decide : 234 < 1293) ops_len.symm) V main_v28 main_v153 main_v154 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v28 V) (e_main_v153 V))
theorem e_main_c_48 : after (ops (F := F)) V (Proc.devRef .tc main_c_48) = val_main_c_48 (F := F) :=
  nullary_eq later_235 later_236 (Nat.lt_of_lt_of_eq (by decide : 235 < 1293) ops_len.symm) V main_c_48 (constantI S_ 32 0#32) (hop := rfl) (hyi := (by decide))
theorem e_main_v155 : after (ops (F := F)) V (Proc.devRef .tc main_v155) = val_main_v155 (F := F) :=
  (unary_eq later_236 later_237 (Nat.lt_of_lt_of_eq (by decide : 236 < 1293) ops_len.symm) V main_c_48 main_v155 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_48 V))
theorem e_main_v156 : after (ops (F := F)) V (Proc.devRef .tc main_v156) = val_main_v156 (F := F) (a4 V) (a5 V) :=
  (binary_eq later_237 later_238 (Nat.lt_of_lt_of_eq (by decide : 237 < 1293) ops_len.symm) V main_v154 main_v155 main_v156 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v154 V) (e_main_v155 V))
theorem e_main_c_49 : after (ops (F := F)) V (Proc.devRef .tc main_c_49) = val_main_c_49 (F := F) :=
  nullary_eq later_238 later_239 (Nat.lt_of_lt_of_eq (by decide : 238 < 1293) ops_len.symm) V main_c_49 (constantI S_ 32 256#32) (hop := rfl) (hyi := (by decide))
theorem e_main_v157 : after (ops (F := F)) V (Proc.devRef .tc main_v157) = val_main_v157 (F := F) :=
  (unary_eq later_239 later_240 (Nat.lt_of_lt_of_eq (by decide : 239 < 1293) ops_len.symm) V main_c_49 main_v157 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_49 V))
theorem e_main_v158 : after (ops (F := F)) V (Proc.devRef .tc main_v158) = val_main_v158 (F := F) (a4 V) (a5 V) :=
  (binary_eq later_240 later_241 (Nat.lt_of_lt_of_eq (by decide : 240 < 1293) ops_len.symm) V main_v154 main_v157 main_v158 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v154 V) (e_main_v157 V))
theorem e_main_v159 : after (ops (F := F)) V (Proc.devRef .tc main_v159) = val_main_v159 (F := F) (a4 V) (a5 V) :=
  (binary_eq later_241 later_242 (Nat.lt_of_lt_of_eq (by decide : 241 < 1293) ops_len.symm) V main_v156 main_v158 main_v159 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v156 V) (e_main_v158 V))
theorem e_main_c_50 : after (ops (F := F)) V (Proc.devRef .tc main_c_50) = val_main_c_50 (F := F) :=
  nullary_eq later_242 later_243 (Nat.lt_of_lt_of_eq (by decide : 242 < 1293) ops_len.symm) V main_c_50 (constantI S_ 32 0#32) (hop := rfl) (hyi := (by decide))
theorem e_main_v160 : after (ops (F := F)) V (Proc.devRef .tc main_v160) = val_main_v160 (F := F) :=
  (unary_eq later_243 later_244 (Nat.lt_of_lt_of_eq (by decide : 243 < 1293) ops_len.symm) V main_c_50 main_v160 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_50 V))
theorem e_main_v161 : after (ops (F := F)) V (Proc.devRef .tc main_v161) = val_main_v161 (F := F) (a4 V) (a5 V) :=
  (binary_eq later_244 later_245 (Nat.lt_of_lt_of_eq (by decide : 244 < 1293) ops_len.symm) V main_v152 main_v160 main_v161 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v152 V) (e_main_v160 V))
theorem e_main_v162 : after (ops (F := F)) V (Proc.devRef .tc main_v162) = val_main_v162 (F := F) (a4 V) (a5 V) :=
  (binary_eq later_245 later_246 (Nat.lt_of_lt_of_eq (by decide : 245 < 1293) ops_len.symm) V main_v159 main_v161 main_v162 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v159 V) (e_main_v161 V))
theorem e_main_c_51 : after (ops (F := F)) V (Proc.devRef .tc main_c_51) = val_main_c_51 (F := F) :=
  nullary_eq later_246 later_247 (Nat.lt_of_lt_of_eq (by decide : 246 < 1293) ops_len.symm) V main_c_51 (constantI S_ 32 256#32) (hop := rfl) (hyi := (by decide))
theorem e_main_v163 : after (ops (F := F)) V (Proc.devRef .tc main_v163) = val_main_v163 (F := F) :=
  (unary_eq later_247 later_248 (Nat.lt_of_lt_of_eq (by decide : 247 < 1293) ops_len.symm) V main_c_51 main_v163 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_51 V))
theorem e_main_v164 : after (ops (F := F)) V (Proc.devRef .tc main_v164) = val_main_v164 (F := F) (a4 V) (a5 V) :=
  (binary_eq later_248 later_249 (Nat.lt_of_lt_of_eq (by decide : 248 < 1293) ops_len.symm) V main_v152 main_v163 main_v164 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v152 V) (e_main_v163 V))
theorem e_main_v165 : after (ops (F := F)) V (Proc.devRef .tc main_v165) = val_main_v165 (F := F) (a4 V) (a5 V) :=
  (binary_eq later_249 later_250 (Nat.lt_of_lt_of_eq (by decide : 249 < 1293) ops_len.symm) V main_v162 main_v164 main_v165 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v162 V) (e_main_v164 V))
theorem e_main_c_52 : after (ops (F := F)) V (Proc.devRef .tc main_c_52) = val_main_c_52 (F := F) :=
  nullary_eq later_250 later_251 (Nat.lt_of_lt_of_eq (by decide : 250 < 1293) ops_len.symm) V main_c_52 (constantI S_ 32 0#32) (hop := rfl) (hyi := (by decide))
theorem e_main_c_53 : after (ops (F := F)) V (Proc.devRef .tc main_c_53) = val_main_c_53 (F := F) :=
  nullary_eq later_251 later_252 (Nat.lt_of_lt_of_eq (by decide : 251 < 1293) ops_len.symm) V main_c_53 (constantI S_ 32 255#32) (hop := rfl) (hyi := (by decide))
theorem e_main_call6_v0 : after (ops (F := F)) V (Proc.devRef .tc main_call6_v0) = val_main_call6_v0 (F := F) :=
  (tunary_eq later_252 later_253 (Nat.lt_of_lt_of_eq (by decide : 252 < 1293) ops_len.symm) V (TRef.of (T := ⟨S_, .i32⟩) main_c_52) (TRef.of (T := ⟨S_, .i32⟩) main_call6_v0) id (hop := rfl) (hyi := (by decide)) (hxi := (by decide))).trans
    (congrArg (fun t => (TRef.of (T := ⟨S_, .i32⟩) main_call6_v0).toBuf ((id) ((TRef.of (T := ⟨S_, .i32⟩) main_c_52).ofBuf t))) (e_main_c_52 V))
theorem e_main_call6_v1 : after (ops (F := F)) V (Proc.devRef .tc main_call6_v1) = val_main_call6_v1 (F := F) :=
  (tunary_eq later_253 later_254 (Nat.lt_of_lt_of_eq (by decide : 253 < 1293) ops_len.symm) V (TRef.of (T := ⟨S_, .i32⟩) main_call6_v0) (TRef.of (T := ⟨S512x128, .i32⟩) main_call6_v1) (broadcastInDim S512x128 ![] bcast_S_S512x128) (hop := rfl) (hyi := (by decide)) (hxi := (by decide))).trans
    (congrArg (fun t => (TRef.of (T := ⟨S512x128, .i32⟩) main_call6_v1).toBuf (((broadcastInDim S512x128 ![] bcast_S_S512x128)) ((TRef.of (T := ⟨S_, .i32⟩) main_call6_v0).ofBuf t))) (e_main_call6_v0 V))
theorem e_main_call6_v2 : after (ops (F := F)) V (Proc.devRef .tc main_call6_v2) = val_main_call6_v2 (F := F) (a4 V) (a5 V) :=
  (tbinary_eq later_254 later_255 (Nat.lt_of_lt_of_eq (by decide : 254 < 1293) ops_len.symm) V (TRef.of (T := ⟨S512x128, .i32⟩) main_call6_v1) (TRef.of (T := ⟨S512x128, .i32⟩) main_v154) (TRef.of (T := ⟨S512x128, .i32⟩) main_call6_v2) maxsi (hop := rfl) (hyi := (by decide)) (hai := (by decide)) (hbi := (by decide))).trans
    (by rw [e_main_call6_v1 V, e_main_v154 V]; rfl)
theorem e_main_call6_v3 : after (ops (F := F)) V (Proc.devRef .tc main_call6_v3) = val_main_call6_v3 (F := F) :=
  (tunary_eq later_255 later_256 (Nat.lt_of_lt_of_eq (by decide : 255 < 1293) ops_len.symm) V (TRef.of (T := ⟨S_, .i32⟩) main_c_53) (TRef.of (T := ⟨S_, .i32⟩) main_call6_v3) id (hop := rfl) (hyi := (by decide)) (hxi := (by decide))).trans
    (congrArg (fun t => (TRef.of (T := ⟨S_, .i32⟩) main_call6_v3).toBuf ((id) ((TRef.of (T := ⟨S_, .i32⟩) main_c_53).ofBuf t))) (e_main_c_53 V))
theorem e_main_call6_v4 : after (ops (F := F)) V (Proc.devRef .tc main_call6_v4) = val_main_call6_v4 (F := F) :=
  (tunary_eq later_256 later_257 (Nat.lt_of_lt_of_eq (by decide : 256 < 1293) ops_len.symm) V (TRef.of (T := ⟨S_, .i32⟩) main_call6_v3) (TRef.of (T := ⟨S512x128, .i32⟩) main_call6_v4) (broadcastInDim S512x128 ![] bcast_S_S512x128) (hop := rfl) (hyi := (by decide)) (hxi := (by decide))).trans
    (congrArg (fun t => (TRef.of (T := ⟨S512x128, .i32⟩) main_call6_v4).toBuf (((broadcastInDim S512x128 ![] bcast_S_S512x128)) ((TRef.of (T := ⟨S_, .i32⟩) main_call6_v3).ofBuf t))) (e_main_call6_v3 V))
theorem e_main_v166 : after (ops (F := F)) V (Proc.devRef .tc main_v166) = val_main_v166 (F := F) (a4 V) (a5 V) :=
  (tbinary_eq later_257 later_258 (Nat.lt_of_lt_of_eq (by decide : 257 < 1293) ops_len.symm) V (TRef.of (T := ⟨S512x128, .i32⟩) main_call6_v4) (TRef.of (T := ⟨S512x128, .i32⟩) main_call6_v2) (TRef.of (T := ⟨S512x128, .i32⟩) main_v166) minsi (hop := rfl) (hyi := (by decide)) (hai := (by decide)) (hbi := (by decide))).trans
    (by rw [e_main_call6_v4 V, e_main_call6_v2 V]; rfl)
theorem e_main_c_54 : after (ops (F := F)) V (Proc.devRef .tc main_c_54) = val_main_c_54 (F := F) :=
  nullary_eq later_258 later_259 (Nat.lt_of_lt_of_eq (by decide : 258 < 1293) ops_len.symm) V main_c_54 (constantI S_ 32 0#32) (hop := rfl) (hyi := (by decide))
theorem e_main_c_55 : after (ops (F := F)) V (Proc.devRef .tc main_c_55) = val_main_c_55 (F := F) :=
  nullary_eq later_259 later_260 (Nat.lt_of_lt_of_eq (by decide : 259 < 1293) ops_len.symm) V main_c_55 (constantI S_ 32 255#32) (hop := rfl) (hyi := (by decide))
theorem e_main_call7_v0 : after (ops (F := F)) V (Proc.devRef .tc main_call7_v0) = val_main_call7_v0 (F := F) :=
  (tunary_eq later_260 later_261 (Nat.lt_of_lt_of_eq (by decide : 260 < 1293) ops_len.symm) V (TRef.of (T := ⟨S_, .i32⟩) main_c_54) (TRef.of (T := ⟨S_, .i32⟩) main_call7_v0) id (hop := rfl) (hyi := (by decide)) (hxi := (by decide))).trans
    (congrArg (fun t => (TRef.of (T := ⟨S_, .i32⟩) main_call7_v0).toBuf ((id) ((TRef.of (T := ⟨S_, .i32⟩) main_c_54).ofBuf t))) (e_main_c_54 V))
theorem e_main_call7_v1 : after (ops (F := F)) V (Proc.devRef .tc main_call7_v1) = val_main_call7_v1 (F := F) :=
  (tunary_eq later_261 later_262 (Nat.lt_of_lt_of_eq (by decide : 261 < 1293) ops_len.symm) V (TRef.of (T := ⟨S_, .i32⟩) main_call7_v0) (TRef.of (T := ⟨S512x128, .i32⟩) main_call7_v1) (broadcastInDim S512x128 ![] bcast_S_S512x128) (hop := rfl) (hyi := (by decide)) (hxi := (by decide))).trans
    (congrArg (fun t => (TRef.of (T := ⟨S512x128, .i32⟩) main_call7_v1).toBuf (((broadcastInDim S512x128 ![] bcast_S_S512x128)) ((TRef.of (T := ⟨S_, .i32⟩) main_call7_v0).ofBuf t))) (e_main_call7_v0 V))
theorem e_main_call7_v2 : after (ops (F := F)) V (Proc.devRef .tc main_call7_v2) = val_main_call7_v2 (F := F) (a4 V) (a5 V) :=
  (tbinary_eq later_262 later_263 (Nat.lt_of_lt_of_eq (by decide : 262 < 1293) ops_len.symm) V (TRef.of (T := ⟨S512x128, .i32⟩) main_call7_v1) (TRef.of (T := ⟨S512x128, .i32⟩) main_v152) (TRef.of (T := ⟨S512x128, .i32⟩) main_call7_v2) maxsi (hop := rfl) (hyi := (by decide)) (hai := (by decide)) (hbi := (by decide))).trans
    (by rw [e_main_call7_v1 V, e_main_v152 V]; rfl)
theorem e_main_call7_v3 : after (ops (F := F)) V (Proc.devRef .tc main_call7_v3) = val_main_call7_v3 (F := F) :=
  (tunary_eq later_263 later_264 (Nat.lt_of_lt_of_eq (by decide : 263 < 1293) ops_len.symm) V (TRef.of (T := ⟨S_, .i32⟩) main_c_55) (TRef.of (T := ⟨S_, .i32⟩) main_call7_v3) id (hop := rfl) (hyi := (by decide)) (hxi := (by decide))).trans
    (congrArg (fun t => (TRef.of (T := ⟨S_, .i32⟩) main_call7_v3).toBuf ((id) ((TRef.of (T := ⟨S_, .i32⟩) main_c_55).ofBuf t))) (e_main_c_55 V))
theorem e_main_call7_v4 : after (ops (F := F)) V (Proc.devRef .tc main_call7_v4) = val_main_call7_v4 (F := F) :=
  (tunary_eq later_264 later_265 (Nat.lt_of_lt_of_eq (by decide : 264 < 1293) ops_len.symm) V (TRef.of (T := ⟨S_, .i32⟩) main_call7_v3) (TRef.of (T := ⟨S512x128, .i32⟩) main_call7_v4) (broadcastInDim S512x128 ![] bcast_S_S512x128) (hop := rfl) (hyi := (by decide)) (hxi := (by decide))).trans
    (congrArg (fun t => (TRef.of (T := ⟨S512x128, .i32⟩) main_call7_v4).toBuf (((broadcastInDim S512x128 ![] bcast_S_S512x128)) ((TRef.of (T := ⟨S_, .i32⟩) main_call7_v3).ofBuf t))) (e_main_call7_v3 V))
theorem e_main_v167 : after (ops (F := F)) V (Proc.devRef .tc main_v167) = val_main_v167 (F := F) (a4 V) (a5 V) :=
  (tbinary_eq later_265 later_266 (Nat.lt_of_lt_of_eq (by decide : 265 < 1293) ops_len.symm) V (TRef.of (T := ⟨S512x128, .i32⟩) main_call7_v4) (TRef.of (T := ⟨S512x128, .i32⟩) main_call7_v2) (TRef.of (T := ⟨S512x128, .i32⟩) main_v167) minsi (hop := rfl) (hyi := (by decide)) (hai := (by decide)) (hbi := (by decide))).trans
    (by rw [e_main_call7_v4 V, e_main_call7_v2 V]; rfl)
theorem e_main_v168 : after (ops (F := F)) V (Proc.devRef .tc main_v168) = val_main_v168 (F := F) (a4 V) :=
  (unary_eq later_266 later_267 (Nat.lt_of_lt_of_eq (by decide : 266 < 1293) ops_len.symm) V main_v2 main_v168 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_56 : after (ops (F := F)) V (Proc.devRef .tc main_c_56) = val_main_c_56 (F := F) :=
  nullary_eq later_267 later_268 (Nat.lt_of_lt_of_eq (by decide : 267 < 1293) ops_len.symm) V main_c_56 (constantI S_ 32 0#32) (hop := rfl) (hyi := (by decide))
theorem e_main_v169 : after (ops (F := F)) V (Proc.devRef .tc main_v169) = val_main_v169 (F := F) :=
  (unary_eq later_268 later_269 (Nat.lt_of_lt_of_eq (by decide : 268 < 1293) ops_len.symm) V main_c_56 main_v169 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_56 V))
theorem e_main_v170 : after (ops (F := F)) V (Proc.devRef .tc main_v170) = val_main_v170 (F := F) (a4 V) :=
  (binary_eq later_269 later_270 (Nat.lt_of_lt_of_eq (by decide : 269 < 1293) ops_len.symm) V main_v168 main_v169 main_v170 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v168 V) (e_main_v169 V))
theorem e_main_c_57 : after (ops (F := F)) V (Proc.devRef .tc main_c_57) = val_main_c_57 (F := F) :=
  nullary_eq later_270 later_271 (Nat.lt_of_lt_of_eq (by decide : 270 < 1293) ops_len.symm) V main_c_57 (constantI S_ 32 2#32) (hop := rfl) (hyi := (by decide))
theorem e_main_v171 : after (ops (F := F)) V (Proc.devRef .tc main_v171) = val_main_v171 (F := F) :=
  (unary_eq later_271 later_272 (Nat.lt_of_lt_of_eq (by decide : 271 < 1293) ops_len.symm) V main_c_57 main_v171 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_57 V))
theorem e_main_v172 : after (ops (F := F)) V (Proc.devRef .tc main_v172) = val_main_v172 (F := F) (a4 V) :=
  (binary_eq later_272 later_273 (Nat.lt_of_lt_of_eq (by decide : 272 < 1293) ops_len.symm) V main_v168 main_v171 main_v172 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v168 V) (e_main_v171 V))
theorem e_main_v173 : after (ops (F := F)) V (Proc.devRef .tc main_v173) = val_main_v173 (F := F) (a4 V) :=
  (ternary_eq later_273 later_274 (Nat.lt_of_lt_of_eq (by decide : 273 < 1293) ops_len.symm) V main_v170 main_v172 main_v168 main_v173 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v170 V) (e_main_v172 V) (e_main_v168 V))
theorem e_main_c_58 : after (ops (F := F)) V (Proc.devRef .tc main_c_58) = val_main_c_58 (F := F) :=
  nullary_eq later_274 later_275 (Nat.lt_of_lt_of_eq (by decide : 274 < 1293) ops_len.symm) V main_c_58 (constantI S_ 32 0#32) (hop := rfl) (hyi := (by decide))
theorem e_main_v174 : after (ops (F := F)) V (Proc.devRef .tc main_v174) = val_main_v174 (F := F) :=
  (unary_eq later_275 later_276 (Nat.lt_of_lt_of_eq (by decide : 275 < 1293) ops_len.symm) V main_c_58 main_v174 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_58 V))
theorem e_main_v175 : after (ops (F := F)) V (Proc.devRef .tc main_v175) = val_main_v175 (F := F) (a4 V) (a5 V) :=
  (binary_eq later_276 later_277 (Nat.lt_of_lt_of_eq (by decide : 276 < 1293) ops_len.symm) V main_v167 main_v174 main_v175 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v167 V) (e_main_v174 V))
theorem e_main_c_59 : after (ops (F := F)) V (Proc.devRef .tc main_c_59) = val_main_c_59 (F := F) :=
  nullary_eq later_277 later_278 (Nat.lt_of_lt_of_eq (by decide : 277 < 1293) ops_len.symm) V main_c_59 (constantI S_ 32 256#32) (hop := rfl) (hyi := (by decide))
theorem e_main_v176 : after (ops (F := F)) V (Proc.devRef .tc main_v176) = val_main_v176 (F := F) :=
  (unary_eq later_278 later_279 (Nat.lt_of_lt_of_eq (by decide : 278 < 1293) ops_len.symm) V main_c_59 main_v176 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_59 V))
theorem e_main_v177 : after (ops (F := F)) V (Proc.devRef .tc main_v177) = val_main_v177 (F := F) (a4 V) (a5 V) :=
  (binary_eq later_279 later_280 (Nat.lt_of_lt_of_eq (by decide : 279 < 1293) ops_len.symm) V main_v167 main_v176 main_v177 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v167 V) (e_main_v176 V))
theorem e_main_v178 : after (ops (F := F)) V (Proc.devRef .tc main_v178) = val_main_v178 (F := F) (a4 V) (a5 V) :=
  (ternary_eq later_280 later_281 (Nat.lt_of_lt_of_eq (by decide : 280 < 1293) ops_len.symm) V main_v175 main_v177 main_v167 main_v178 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v175 V) (e_main_v177 V) (e_main_v167 V))
theorem e_main_c_60 : after (ops (F := F)) V (Proc.devRef .tc main_c_60) = val_main_c_60 (F := F) :=
  nullary_eq later_281 later_282 (Nat.lt_of_lt_of_eq (by decide : 281 < 1293) ops_len.symm) V main_c_60 (constantI S_ 32 0#32) (hop := rfl) (hyi := (by decide))
theorem e_main_v179 : after (ops (F := F)) V (Proc.devRef .tc main_v179) = val_main_v179 (F := F) :=
  (unary_eq later_282 later_283 (Nat.lt_of_lt_of_eq (by decide : 282 < 1293) ops_len.symm) V main_c_60 main_v179 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_60 V))
theorem e_main_v180 : after (ops (F := F)) V (Proc.devRef .tc main_v180) = val_main_v180 (F := F) (a4 V) (a5 V) :=
  (binary_eq later_283 later_284 (Nat.lt_of_lt_of_eq (by decide : 283 < 1293) ops_len.symm) V main_v166 main_v179 main_v180 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v166 V) (e_main_v179 V))
theorem e_main_c_61 : after (ops (F := F)) V (Proc.devRef .tc main_c_61) = val_main_c_61 (F := F) :=
  nullary_eq later_284 later_285 (Nat.lt_of_lt_of_eq (by decide : 284 < 1293) ops_len.symm) V main_c_61 (constantI S_ 32 256#32) (hop := rfl) (hyi := (by decide))
theorem e_main_v181 : after (ops (F := F)) V (Proc.devRef .tc main_v181) = val_main_v181 (F := F) :=
  (unary_eq later_285 later_286 (Nat.lt_of_lt_of_eq (by decide : 285 < 1293) ops_len.symm) V main_c_61 main_v181 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_61 V))
theorem e_main_v182 : after (ops (F := F)) V (Proc.devRef .tc main_v182) = val_main_v182 (F := F) (a4 V) (a5 V) :=
  (binary_eq later_286 later_287 (Nat.lt_of_lt_of_eq (by decide : 286 < 1293) ops_len.symm) V main_v166 main_v181 main_v182 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v166 V) (e_main_v181 V))
theorem e_main_v183 : after (ops (F := F)) V (Proc.devRef .tc main_v183) = val_main_v183 (F := F) (a4 V) (a5 V) :=
  (ternary_eq later_287 later_288 (Nat.lt_of_lt_of_eq (by decide : 287 < 1293) ops_len.symm) V main_v180 main_v182 main_v166 main_v183 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v180 V) (e_main_v182 V) (e_main_v166 V))
theorem e_main_v184 : after (ops (F := F)) V (Proc.devRef .tc main_v184) = val_main_v184 (F := F) (a4 V) :=
  (unary_eq later_288 later_289 (Nat.lt_of_lt_of_eq (by decide : 288 < 1293) ops_len.symm) V main_v173 main_v184 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v173 V))
theorem e_main_v185 : after (ops (F := F)) V (Proc.devRef .tc main_v185) = val_main_v185 (F := F) (a4 V) :=
  (unary_eq later_289 later_290 (Nat.lt_of_lt_of_eq (by decide : 289 < 1293) ops_len.symm) V main_v184 main_v185 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v184 V))
theorem e_main_v186 : after (ops (F := F)) V (Proc.devRef .tc main_v186) = val_main_v186 (F := F) (a4 V) (a5 V) :=
  (unary_eq later_290 later_291 (Nat.lt_of_lt_of_eq (by decide : 290 < 1293) ops_len.symm) V main_v178 main_v186 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v178 V))
theorem e_main_v187 : after (ops (F := F)) V (Proc.devRef .tc main_v187) = val_main_v187 (F := F) (a4 V) (a5 V) :=
  (unary_eq later_291 later_292 (Nat.lt_of_lt_of_eq (by decide : 291 < 1293) ops_len.symm) V main_v183 main_v187 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v183 V))
theorem e_main_v188 : after (ops (F := F)) V (Proc.devRef .tc main_v188) = val_main_v188 (F := F) (a4 V) (a5 V) :=
  (nary_eq later_292 later_293 (Nat.lt_of_lt_of_eq (by decide : 292 < 1293) ops_len.symm) V ![main_v185, main_v186, main_v187] main_v188 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v185)⟩, ⟨S512x128x1, after (ops (F := F)) V (Proc.devRef .tc main_v186)⟩, ⟨S512x128x1, after (ops (F := F)) V (Proc.devRef .tc main_v187)⟩] concatenates_S512x128x1_S512x128x1_S512x128x1_S512x128x3_d2 = _
    rw [e_main_v185 V, e_main_v186 V, e_main_v187 V]; rfl)
theorem e_main_v189 : after (ops (F := F)) V (Proc.devRef .tc main_v189) = val_main_v189 (F := F) (a0 V) (a4 V) (a5 V) :=
  (binary_eq later_293 later_294 (Nat.lt_of_lt_of_eq (by decide : 293 < 1293) ops_len.symm) V main_arg0 main_v188 main_v189 ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x256x256_S512x128x3_S512x128x256_2_023_n_n_023_2_125611 x i) : (⟨S2x256x256x256, .f32⟩ : BufTy).Contents (Elt F) → (⟨S512x128x3, .i32⟩ : BufTy).Contents (Elt F) → (⟨S512x128x256, .f32⟩ : BufTy).Contents (Elt F)) (e_main_arg0 V) (e_main_v188 V))
theorem e_main_v190 : after (ops (F := F)) V (Proc.devRef .tc main_v190) = val_main_v190 (F := F) (a4 V) (a5 V) :=
  (unary_eq later_294 later_295 (Nat.lt_of_lt_of_eq (by decide : 294 < 1293) ops_len.symm) V main_v165 main_v190 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v165 V))
theorem e_main_v191 : after (ops (F := F)) V (Proc.devRef .tc main_v191) = val_main_v191 (F := F) (a4 V) (a5 V) :=
  (unary_eq later_295 later_296 (Nat.lt_of_lt_of_eq (by decide : 295 < 1293) ops_len.symm) V main_v190 main_v191 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v190 V))
theorem e_main_v192 : after (ops (F := F)) V (Proc.devRef .tc main_v192) = val_main_v192 (F := F) (a4 V) (a5 V) :=
  (unary_eq later_296 later_297 (Nat.lt_of_lt_of_eq (by decide : 296 < 1293) ops_len.symm) V main_v191 main_v192 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v191 V))
theorem e_main_v193 : after (ops (F := F)) V (Proc.devRef .tc main_v193) = val_main_v193 (F := F) (a0 V) (a4 V) (a5 V) :=
  (binary_eq later_297 later_298 (Nat.lt_of_lt_of_eq (by decide : 297 < 1293) ops_len.symm) V main_v189 main_v192 main_v193 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v189 V) (e_main_v192 V))
theorem e_main_v194 : after (ops (F := F)) V (Proc.devRef .tc main_v194) = val_main_v194 (F := F) (a4 V) (a5 V) :=
  (unary_eq later_298 later_299 (Nat.lt_of_lt_of_eq (by decide : 298 < 1293) ops_len.symm) V main_v26 main_v194 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v26 V))
theorem e_main_v195 : after (ops (F := F)) V (Proc.devRef .tc main_v195) = val_main_v195 (F := F) (a4 V) (a5 V) :=
  (unary_eq later_299 later_300 (Nat.lt_of_lt_of_eq (by decide : 299 < 1293) ops_len.symm) V main_v27 main_v195 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v27 V))
theorem e_main_cst_62 : after (ops (F := F)) V (Proc.devRef .tc main_cst_62) = val_main_cst_62 (F := F) :=
  nullary_eq later_300 later_301 (Nat.lt_of_lt_of_eq (by decide : 300 < 1293) ops_len.symm) V main_cst_62 (constant S_ .f32 0x3F800000#32) (hop := rfl) (hyi := (by decide))
theorem e_main_v196 : after (ops (F := F)) V (Proc.devRef .tc main_v196) = val_main_v196 (F := F) :=
  (unary_eq later_301 later_302 (Nat.lt_of_lt_of_eq (by decide : 301 < 1293) ops_len.symm) V main_cst_62 main_v196 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_62 V))
theorem e_main_v197 : after (ops (F := F)) V (Proc.devRef .tc main_v197) = val_main_v197 (F := F) (a4 V) (a5 V) :=
  (binary_eq later_302 later_303 (Nat.lt_of_lt_of_eq (by decide : 302 < 1293) ops_len.symm) V main_v196 main_v194 main_v197 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v196 V) (e_main_v194 V))
theorem e_main_v198 : after (ops (F := F)) V (Proc.devRef .tc main_v198) = val_main_v198 (F := F) (a4 V) (a5 V) :=
  (unary_eq later_303 later_304 (Nat.lt_of_lt_of_eq (by decide : 303 < 1293) ops_len.symm) V main_v197 main_v198 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v197 V))
theorem e_main_v199 : after (ops (F := F)) V (Proc.devRef .tc main_v199) = val_main_v199 (F := F) (a0 V) (a4 V) (a5 V) :=
  (binary_eq later_304 later_305 (Nat.lt_of_lt_of_eq (by decide : 304 < 1293) ops_len.symm) V main_v68 main_v198 main_v199 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v68 V) (e_main_v198 V))
theorem e_main_cst_63 : after (ops (F := F)) V (Proc.devRef .tc main_cst_63) = val_main_cst_63 (F := F) :=
  nullary_eq later_305 later_306 (Nat.lt_of_lt_of_eq (by decide : 305 < 1293) ops_len.symm) V main_cst_63 (constant S_ .f32 0x3F800000#32) (hop := rfl) (hyi := (by decide))
theorem e_main_v200 : after (ops (F := F)) V (Proc.devRef .tc main_v200) = val_main_v200 (F := F) :=
  (unary_eq later_306 later_307 (Nat.lt_of_lt_of_eq (by decide : 306 < 1293) ops_len.symm) V main_cst_63 main_v200 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_63 V))
theorem e_main_v201 : after (ops (F := F)) V (Proc.devRef .tc main_v201) = val_main_v201 (F := F) (a4 V) (a5 V) :=
  (binary_eq later_307 later_308 (Nat.lt_of_lt_of_eq (by decide : 307 < 1293) ops_len.symm) V main_v200 main_v195 main_v201 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v200 V) (e_main_v195 V))
theorem e_main_v202 : after (ops (F := F)) V (Proc.devRef .tc main_v202) = val_main_v202 (F := F) (a4 V) (a5 V) :=
  (unary_eq later_308 later_309 (Nat.lt_of_lt_of_eq (by decide : 308 < 1293) ops_len.symm) V main_v201 main_v202 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v201 V))
theorem e_main_v203 : after (ops (F := F)) V (Proc.devRef .tc main_v203) = val_main_v203 (F := F) (a0 V) (a4 V) (a5 V) :=
  (binary_eq later_309 later_310 (Nat.lt_of_lt_of_eq (by decide : 309 < 1293) ops_len.symm) V main_v199 main_v202 main_v203 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v199 V) (e_main_v202 V))
theorem e_main_v204 : after (ops (F := F)) V (Proc.devRef .tc main_v204) = val_main_v204 (F := F) (a4 V) (a5 V) :=
  (unary_eq later_310 later_311 (Nat.lt_of_lt_of_eq (by decide : 310 < 1293) ops_len.symm) V main_v194 main_v204 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v194 V))
theorem e_main_v205 : after (ops (F := F)) V (Proc.devRef .tc main_v205) = val_main_v205 (F := F) (a0 V) (a4 V) (a5 V) :=
  (binary_eq later_311 later_312 (Nat.lt_of_lt_of_eq (by decide : 311 < 1293) ops_len.symm) V main_v109 main_v204 main_v205 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v109 V) (e_main_v204 V))
theorem e_main_cst_64 : after (ops (F := F)) V (Proc.devRef .tc main_cst_64) = val_main_cst_64 (F := F) :=
  nullary_eq later_312 later_313 (Nat.lt_of_lt_of_eq (by decide : 312 < 1293) ops_len.symm) V main_cst_64 (constant S_ .f32 0x3F800000#32) (hop := rfl) (hyi := (by decide))
theorem e_main_v206 : after (ops (F := F)) V (Proc.devRef .tc main_v206) = val_main_v206 (F := F) :=
  (unary_eq later_313 later_314 (Nat.lt_of_lt_of_eq (by decide : 313 < 1293) ops_len.symm) V main_cst_64 main_v206 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_64 V))
theorem e_main_v207 : after (ops (F := F)) V (Proc.devRef .tc main_v207) = val_main_v207 (F := F) (a4 V) (a5 V) :=
  (binary_eq later_314 later_315 (Nat.lt_of_lt_of_eq (by decide : 314 < 1293) ops_len.symm) V main_v206 main_v195 main_v207 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v206 V) (e_main_v195 V))
theorem e_main_v208 : after (ops (F := F)) V (Proc.devRef .tc main_v208) = val_main_v208 (F := F) (a4 V) (a5 V) :=
  (unary_eq later_315 later_316 (Nat.lt_of_lt_of_eq (by decide : 315 < 1293) ops_len.symm) V main_v207 main_v208 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v207 V))
theorem e_main_v209 : after (ops (F := F)) V (Proc.devRef .tc main_v209) = val_main_v209 (F := F) (a0 V) (a4 V) (a5 V) :=
  (binary_eq later_316 later_317 (Nat.lt_of_lt_of_eq (by decide : 316 < 1293) ops_len.symm) V main_v205 main_v208 main_v209 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v205 V) (e_main_v208 V))
theorem e_main_v210 : after (ops (F := F)) V (Proc.devRef .tc main_v210) = val_main_v210 (F := F) (a0 V) (a4 V) (a5 V) :=
  (binary_eq later_317 later_318 (Nat.lt_of_lt_of_eq (by decide : 317 < 1293) ops_len.symm) V main_v203 main_v209 main_v210 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v203 V) (e_main_v209 V))
theorem e_main_cst_65 : after (ops (F := F)) V (Proc.devRef .tc main_cst_65) = val_main_cst_65 (F := F) :=
  nullary_eq later_318 later_319 (Nat.lt_of_lt_of_eq (by decide : 318 < 1293) ops_len.symm) V main_cst_65 (constant S_ .f32 0x3F800000#32) (hop := rfl) (hyi := (by decide))
theorem e_main_v211 : after (ops (F := F)) V (Proc.devRef .tc main_v211) = val_main_v211 (F := F) :=
  (unary_eq later_319 later_320 (Nat.lt_of_lt_of_eq (by decide : 319 < 1293) ops_len.symm) V main_cst_65 main_v211 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_65 V))
theorem e_main_v212 : after (ops (F := F)) V (Proc.devRef .tc main_v212) = val_main_v212 (F := F) (a4 V) (a5 V) :=
  (binary_eq later_320 later_321 (Nat.lt_of_lt_of_eq (by decide : 320 < 1293) ops_len.symm) V main_v211 main_v194 main_v212 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v211 V) (e_main_v194 V))
theorem e_main_v213 : after (ops (F := F)) V (Proc.devRef .tc main_v213) = val_main_v213 (F := F) (a4 V) (a5 V) :=
  (unary_eq later_321 later_322 (Nat.lt_of_lt_of_eq (by decide : 321 < 1293) ops_len.symm) V main_v212 main_v213 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v212 V))
theorem e_main_v214 : after (ops (F := F)) V (Proc.devRef .tc main_v214) = val_main_v214 (F := F) (a0 V) (a4 V) (a5 V) :=
  (binary_eq later_322 later_323 (Nat.lt_of_lt_of_eq (by decide : 322 < 1293) ops_len.symm) V main_v150 main_v213 main_v214 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v150 V) (e_main_v213 V))
theorem e_main_v215 : after (ops (F := F)) V (Proc.devRef .tc main_v215) = val_main_v215 (F := F) (a4 V) (a5 V) :=
  (unary_eq later_323 later_324 (Nat.lt_of_lt_of_eq (by decide : 323 < 1293) ops_len.symm) V main_v195 main_v215 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v195 V))
theorem e_main_v216 : after (ops (F := F)) V (Proc.devRef .tc main_v216) = val_main_v216 (F := F) (a0 V) (a4 V) (a5 V) :=
  (binary_eq later_324 later_325 (Nat.lt_of_lt_of_eq (by decide : 324 < 1293) ops_len.symm) V main_v214 main_v215 main_v216 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v214 V) (e_main_v215 V))
theorem e_main_v217 : after (ops (F := F)) V (Proc.devRef .tc main_v217) = val_main_v217 (F := F) (a0 V) (a4 V) (a5 V) :=
  (binary_eq later_325 later_326 (Nat.lt_of_lt_of_eq (by decide : 325 < 1293) ops_len.symm) V main_v210 main_v216 main_v217 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v210 V) (e_main_v216 V))
theorem e_main_v218 : after (ops (F := F)) V (Proc.devRef .tc main_v218) = val_main_v218 (F := F) (a4 V) (a5 V) :=
  (unary_eq later_326 later_327 (Nat.lt_of_lt_of_eq (by decide : 326 < 1293) ops_len.symm) V main_v194 main_v218 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v194 V))
theorem e_main_v219 : after (ops (F := F)) V (Proc.devRef .tc main_v219) = val_main_v219 (F := F) (a0 V) (a4 V) (a5 V) :=
  (binary_eq later_327 later_328 (Nat.lt_of_lt_of_eq (by decide : 327 < 1293) ops_len.symm) V main_v193 main_v218 main_v219 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v193 V) (e_main_v218 V))
theorem e_main_v220 : after (ops (F := F)) V (Proc.devRef .tc main_v220) = val_main_v220 (F := F) (a4 V) (a5 V) :=
  (unary_eq later_328 later_329 (Nat.lt_of_lt_of_eq (by decide : 328 < 1293) ops_len.symm) V main_v195 main_v220 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v195 V))
theorem e_main_v221 : after (ops (F := F)) V (Proc.devRef .tc main_v221) = val_main_v221 (F := F) (a0 V) (a4 V) (a5 V) :=
  (binary_eq later_329 later_330 (Nat.lt_of_lt_of_eq (by decide : 329 < 1293) ops_len.symm) V main_v219 main_v220 main_v221 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v219 V) (e_main_v220 V))
theorem e_main_v222 : after (ops (F := F)) V (Proc.devRef .tc main_v222) = val_main_v222 (F := F) (a0 V) (a4 V) (a5 V) :=
  (binary_eq later_330 later_331 (Nat.lt_of_lt_of_eq (by decide : 330 < 1293) ops_len.symm) V main_v217 main_v221 main_v222 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v217 V) (e_main_v221 V))
theorem e_main_v223 : after (ops (F := F)) V (Proc.devRef .tc main_v223) = val_main_v223 (F := F) (a0 V) (a4 V) (a5 V) :=
  (unary_eq later_331 later_332 (Nat.lt_of_lt_of_eq (by decide : 331 < 1293) ops_len.symm) V main_v222 main_v223 ((transpose S512x256x128 [0, 2, 1] · transposes_S512x128x256_S512x256x128_0_2_1) : (⟨S512x128x256, .f32⟩ : BufTy).Contents (Elt F) → (⟨S512x256x128, .f32⟩ : BufTy).Contents (Elt F)) (hop := rfl) (hyi := (by decide)) (hxi := (by decide))).trans
    (congrArg ((transpose S512x256x128 [0, 2, 1] · transposes_S512x128x256_S512x256x128_0_2_1) : (⟨S512x128x256, .f32⟩ : BufTy).Contents (Elt F) → (⟨S512x256x128, .f32⟩ : BufTy).Contents (Elt F)) (e_main_v222 V))
theorem e_main_v224 : after (ops (F := F)) V (Proc.devRef .tc main_v224) = val_main_v224 (F := F) (a4 V) (a5 V) :=
  (unary_eq later_332 later_333 (Nat.lt_of_lt_of_eq (by decide : 332 < 1293) ops_len.symm) V main_v11 main_v224 ((extractStridedSlice S512x128x1 ![0, 0, 0] · slices_S512x128x2_S512x128x1_0_0_0) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 0] · slices_S512x128x2_S512x128x1_0_0_0) : (⟨S512x128x2, .f32⟩ : BufTy).Contents (Elt F) → (⟨S512x128x1, .f32⟩ : BufTy).Contents (Elt F)) (e_main_v11 V))
theorem e_main_v225 : after (ops (F := F)) V (Proc.devRef .tc main_v225) = val_main_v225 (F := F) (a4 V) (a5 V) :=
  (reshape_eq later_333 later_334 (Nat.lt_of_lt_of_eq (by decide : 333 < 1293) ops_len.symm) V main_v224 main_v225 rfl shapeCasts_S512x128x1_S512x128 (hop := rfl) (hyi := (by decide)) (hxi := (by decide))).trans
    (congrArg (fun t => fun i => (rfl : (main_v224).ty.elt = (main_v225).ty.elt) ▸ shapeCast (main_v225).ty.shape t shapeCasts_S512x128x1_S512x128 i) (e_main_v224 V))
theorem e_main_cst_66 : after (ops (F := F)) V (Proc.devRef .tc main_cst_66) = val_main_cst_66 (F := F) :=
  nullary_eq later_334 later_335 (Nat.lt_of_lt_of_eq (by decide : 334 < 1293) ops_len.symm) V main_cst_66 (constant S_ .f32 0x41000000#32) (hop := rfl) (hyi := (by decide))
theorem e_main_v226 : after (ops (F := F)) V (Proc.devRef .tc main_v226) = val_main_v226 (F := F) :=
  (unary_eq later_335 later_336 (Nat.lt_of_lt_of_eq (by decide : 335 < 1293) ops_len.symm) V main_cst_66 main_v226 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_66 V))
theorem e_main_v227 : after (ops (F := F)) V (Proc.devRef .tc main_v227) = val_main_v227 (F := F) (a4 V) (a5 V) :=
  (binary_eq later_336 later_337 (Nat.lt_of_lt_of_eq (by decide : 336 < 1293) ops_len.symm) V main_v225 main_v226 main_v227 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v225 V) (e_main_v226 V))
theorem e_main_cst_67 : after (ops (F := F)) V (Proc.devRef .tc main_cst_67) = val_main_cst_67 (F := F) :=
  nullary_eq later_337 later_338 (Nat.lt_of_lt_of_eq (by decide : 337 < 1293) ops_len.symm) V main_cst_67 (constant S_ .f32 0x3F000000#32) (hop := rfl) (hyi := (by decide))
theorem e_main_v228 : after (ops (F := F)) V (Proc.devRef .tc main_v228) = val_main_v228 (F := F) :=
  (unary_eq later_338 later_339 (Nat.lt_of_lt_of_eq (by decide : 338 < 1293) ops_len.symm) V main_cst_67 main_v228 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_67 V))
theorem e_main_v229 : after (ops (F := F)) V (Proc.devRef .tc main_v229) = val_main_v229 (F := F) (a4 V) (a5 V) :=
  (binary_eq later_339 later_340 (Nat.lt_of_lt_of_eq (by decide : 339 < 1293) ops_len.symm) V main_v227 main_v228 main_v229 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v227 V) (e_main_v228 V))
theorem e_main_v230 : after (ops (F := F)) V (Proc.devRef .tc main_v230) = val_main_v230 (F := F) (a4 V) (a5 V) :=
  (unary_eq later_340 later_341 (Nat.lt_of_lt_of_eq (by decide : 340 < 1293) ops_len.symm) V main_v11 main_v230 ((extractStridedSlice S512x128x1 ![0, 0, 1] · slices_S512x128x2_S512x128x1_0_0_1) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 1] · slices_S512x128x2_S512x128x1_0_0_1) : (⟨S512x128x2, .f32⟩ : BufTy).Contents (Elt F) → (⟨S512x128x1, .f32⟩ : BufTy).Contents (Elt F)) (e_main_v11 V))
theorem e_main_v231 : after (ops (F := F)) V (Proc.devRef .tc main_v231) = val_main_v231 (F := F) (a4 V) (a5 V) :=
  (reshape_eq later_341 later_342 (Nat.lt_of_lt_of_eq (by decide : 341 < 1293) ops_len.symm) V main_v230 main_v231 rfl shapeCasts_S512x128x1_S512x128 (hop := rfl) (hyi := (by decide)) (hxi := (by decide))).trans
    (congrArg (fun t => fun i => (rfl : (main_v230).ty.elt = (main_v231).ty.elt) ▸ shapeCast (main_v231).ty.shape t shapeCasts_S512x128x1_S512x128 i) (e_main_v230 V))
theorem e_main_cst_68 : after (ops (F := F)) V (Proc.devRef .tc main_cst_68) = val_main_cst_68 (F := F) :=
  nullary_eq later_342 later_343 (Nat.lt_of_lt_of_eq (by decide : 342 < 1293) ops_len.symm) V main_cst_68 (constant S_ .f32 0x41000000#32) (hop := rfl) (hyi := (by decide))
theorem e_main_v232 : after (ops (F := F)) V (Proc.devRef .tc main_v232) = val_main_v232 (F := F) :=
  (unary_eq later_343 later_344 (Nat.lt_of_lt_of_eq (by decide : 343 < 1293) ops_len.symm) V main_cst_68 main_v232 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_68 V))
theorem e_main_v233 : after (ops (F := F)) V (Proc.devRef .tc main_v233) = val_main_v233 (F := F) (a4 V) (a5 V) :=
  (binary_eq later_344 later_345 (Nat.lt_of_lt_of_eq (by decide : 344 < 1293) ops_len.symm) V main_v231 main_v232 main_v233 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v231 V) (e_main_v232 V))
theorem e_main_cst_69 : after (ops (F := F)) V (Proc.devRef .tc main_cst_69) = val_main_cst_69 (F := F) :=
  nullary_eq later_345 later_346 (Nat.lt_of_lt_of_eq (by decide : 345 < 1293) ops_len.symm) V main_cst_69 (constant S_ .f32 0x3F000000#32) (hop := rfl) (hyi := (by decide))
theorem e_main_v234 : after (ops (F := F)) V (Proc.devRef .tc main_v234) = val_main_v234 (F := F) :=
  (unary_eq later_346 later_347 (Nat.lt_of_lt_of_eq (by decide : 346 < 1293) ops_len.symm) V main_cst_69 main_v234 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_69 V))
theorem e_main_v235 : after (ops (F := F)) V (Proc.devRef .tc main_v235) = val_main_v235 (F := F) (a4 V) (a5 V) :=
  (binary_eq later_347 later_348 (Nat.lt_of_lt_of_eq (by decide : 347 < 1293) ops_len.symm) V main_v233 main_v234 main_v235 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v233 V) (e_main_v234 V))
theorem e_main_v236 : after (ops (F := F)) V (Proc.devRef .tc main_v236) = val_main_v236 (F := F) (a4 V) (a5 V) :=
  (unary_eq later_348 later_349 (Nat.lt_of_lt_of_eq (by decide : 348 < 1293) ops_len.symm) V main_v229 main_v236 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v229 V))
theorem e_main_v237 : after (ops (F := F)) V (Proc.devRef .tc main_v237) = val_main_v237 (F := F) (a4 V) (a5 V) :=
  (unary_eq later_349 later_350 (Nat.lt_of_lt_of_eq (by decide : 349 < 1293) ops_len.symm) V main_v235 main_v237 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v235 V))
theorem e_main_v238 : after (ops (F := F)) V (Proc.devRef .tc main_v238) = val_main_v238 (F := F) (a4 V) (a5 V) :=
  (binary_eq later_350 later_351 (Nat.lt_of_lt_of_eq (by decide : 350 < 1293) ops_len.symm) V main_v229 main_v236 main_v238 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v229 V) (e_main_v236 V))
theorem e_main_v239 : after (ops (F := F)) V (Proc.devRef .tc main_v239) = val_main_v239 (F := F) (a4 V) (a5 V) :=
  (binary_eq later_351 later_352 (Nat.lt_of_lt_of_eq (by decide : 351 < 1293) ops_len.symm) V main_v235 main_v237 main_v239 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v235 V) (e_main_v237 V))
theorem e_main_v240 : after (ops (F := F)) V (Proc.devRef .tc main_v240) = val_main_v240 (F := F) (a4 V) (a5 V) :=
  (unary_eq later_352 later_353 (Nat.lt_of_lt_of_eq (by decide : 352 < 1293) ops_len.symm) V main_v236 main_v240 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v236 V))
theorem e_main_v241 : after (ops (F := F)) V (Proc.devRef .tc main_v241) = val_main_v241 (F := F) (a4 V) (a5 V) :=
  (unary_eq later_353 later_354 (Nat.lt_of_lt_of_eq (by decide : 353 < 1293) ops_len.symm) V main_v237 main_v241 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v237 V))
theorem e_main_c_70 : after (ops (F := F)) V (Proc.devRef .tc main_c_70) = val_main_c_70 (F := F) :=
  nullary_eq later_354 later_355 (Nat.lt_of_lt_of_eq (by decide : 354 < 1293) ops_len.symm) V main_c_70 (constantI S_ 32 0#32) (hop := rfl) (hyi := (by decide))
theorem e_main_v242 : after (ops (F := F)) V (Proc.devRef .tc main_v242) = val_main_v242 (F := F) :=
  (unary_eq later_355 later_356 (Nat.lt_of_lt_of_eq (by decide : 355 < 1293) ops_len.symm) V main_c_70 main_v242 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_70 V))
theorem e_main_v243 : after (ops (F := F)) V (Proc.devRef .tc main_v243) = val_main_v243 (F := F) (a4 V) (a5 V) :=
  (binary_eq later_356 later_357 (Nat.lt_of_lt_of_eq (by decide : 356 < 1293) ops_len.symm) V main_v240 main_v242 main_v243 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v240 V) (e_main_v242 V))
theorem e_main_c_71 : after (ops (F := F)) V (Proc.devRef .tc main_c_71) = val_main_c_71 (F := F) :=
  nullary_eq later_357 later_358 (Nat.lt_of_lt_of_eq (by decide : 357 < 1293) ops_len.symm) V main_c_71 (constantI S_ 32 128#32) (hop := rfl) (hyi := (by decide))
theorem e_main_v244 : after (ops (F := F)) V (Proc.devRef .tc main_v244) = val_main_v244 (F := F) :=
  (unary_eq later_358 later_359 (Nat.lt_of_lt_of_eq (by decide : 358 < 1293) ops_len.symm) V main_c_71 main_v244 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_71 V))
theorem e_main_v245 : after (ops (F := F)) V (Proc.devRef .tc main_v245) = val_main_v245 (F := F) (a4 V) (a5 V) :=
  (binary_eq later_359 later_360 (Nat.lt_of_lt_of_eq (by decide : 359 < 1293) ops_len.symm) V main_v240 main_v244 main_v245 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v240 V) (e_main_v244 V))
theorem e_main_v246 : after (ops (F := F)) V (Proc.devRef .tc main_v246) = val_main_v246 (F := F) (a4 V) (a5 V) :=
  (binary_eq later_360 later_361 (Nat.lt_of_lt_of_eq (by decide : 360 < 1293) ops_len.symm) V main_v243 main_v245 main_v246 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v243 V) (e_main_v245 V))
theorem e_main_c_72 : after (ops (F := F)) V (Proc.devRef .tc main_c_72) = val_main_c_72 (F := F) :=
  nullary_eq later_361 later_362 (Nat.lt_of_lt_of_eq (by decide : 361 < 1293) ops_len.symm) V main_c_72 (constantI S_ 32 0#32) (hop := rfl) (hyi := (by decide))
theorem e_main_v247 : after (ops (F := F)) V (Proc.devRef .tc main_v247) = val_main_v247 (F := F) :=
  (unary_eq later_362 later_363 (Nat.lt_of_lt_of_eq (by decide : 362 < 1293) ops_len.symm) V main_c_72 main_v247 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_72 V))
theorem e_main_v248 : after (ops (F := F)) V (Proc.devRef .tc main_v248) = val_main_v248 (F := F) (a4 V) (a5 V) :=
  (binary_eq later_363 later_364 (Nat.lt_of_lt_of_eq (by decide : 363 < 1293) ops_len.symm) V main_v241 main_v247 main_v248 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v241 V) (e_main_v247 V))
theorem e_main_v249 : after (ops (F := F)) V (Proc.devRef .tc main_v249) = val_main_v249 (F := F) (a4 V) (a5 V) :=
  (binary_eq later_364 later_365 (Nat.lt_of_lt_of_eq (by decide : 364 < 1293) ops_len.symm) V main_v246 main_v248 main_v249 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v246 V) (e_main_v248 V))
theorem e_main_c_73 : after (ops (F := F)) V (Proc.devRef .tc main_c_73) = val_main_c_73 (F := F) :=
  nullary_eq later_365 later_366 (Nat.lt_of_lt_of_eq (by decide : 365 < 1293) ops_len.symm) V main_c_73 (constantI S_ 32 128#32) (hop := rfl) (hyi := (by decide))
theorem e_main_v250 : after (ops (F := F)) V (Proc.devRef .tc main_v250) = val_main_v250 (F := F) :=
  (unary_eq later_366 later_367 (Nat.lt_of_lt_of_eq (by decide : 366 < 1293) ops_len.symm) V main_c_73 main_v250 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_73 V))
theorem e_main_v251 : after (ops (F := F)) V (Proc.devRef .tc main_v251) = val_main_v251 (F := F) (a4 V) (a5 V) :=
  (binary_eq later_367 later_368 (Nat.lt_of_lt_of_eq (by decide : 367 < 1293) ops_len.symm) V main_v241 main_v250 main_v251 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v241 V) (e_main_v250 V))
theorem e_main_v252 : after (ops (F := F)) V (Proc.devRef .tc main_v252) = val_main_v252 (F := F) (a4 V) (a5 V) :=
  (binary_eq later_368 later_369 (Nat.lt_of_lt_of_eq (by decide : 368 < 1293) ops_len.symm) V main_v249 main_v251 main_v252 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v249 V) (e_main_v251 V))
theorem e_main_c_74 : after (ops (F := F)) V (Proc.devRef .tc main_c_74) = val_main_c_74 (F := F) :=
  nullary_eq later_369 later_370 (Nat.lt_of_lt_of_eq (by decide : 369 < 1293) ops_len.symm) V main_c_74 (constantI S_ 32 0#32) (hop := rfl) (hyi := (by decide))
theorem e_main_c_75 : after (ops (F := F)) V (Proc.devRef .tc main_c_75) = val_main_c_75 (F := F) :=
  nullary_eq later_370 later_371 (Nat.lt_of_lt_of_eq (by decide : 370 < 1293) ops_len.symm) V main_c_75 (constantI S_ 32 127#32) (hop := rfl) (hyi := (by decide))
theorem e_main_call8_v0 : after (ops (F := F)) V (Proc.devRef .tc main_call8_v0) = val_main_call8_v0 (F := F) :=
  (tunary_eq later_371 later_372 (Nat.lt_of_lt_of_eq (by decide : 371 < 1293) ops_len.symm) V (TRef.of (T := ⟨S_, .i32⟩) main_c_74) (TRef.of (T := ⟨S_, .i32⟩) main_call8_v0) id (hop := rfl) (hyi := (by decide)) (hxi := (by decide))).trans
    (congrArg (fun t => (TRef.of (T := ⟨S_, .i32⟩) main_call8_v0).toBuf ((id) ((TRef.of (T := ⟨S_, .i32⟩) main_c_74).ofBuf t))) (e_main_c_74 V))
theorem e_main_call8_v1 : after (ops (F := F)) V (Proc.devRef .tc main_call8_v1) = val_main_call8_v1 (F := F) :=
  (tunary_eq later_372 later_373 (Nat.lt_of_lt_of_eq (by decide : 372 < 1293) ops_len.symm) V (TRef.of (T := ⟨S_, .i32⟩) main_call8_v0) (TRef.of (T := ⟨S512x128, .i32⟩) main_call8_v1) (broadcastInDim S512x128 ![] bcast_S_S512x128) (hop := rfl) (hyi := (by decide)) (hxi := (by decide))).trans
    (congrArg (fun t => (TRef.of (T := ⟨S512x128, .i32⟩) main_call8_v1).toBuf (((broadcastInDim S512x128 ![] bcast_S_S512x128)) ((TRef.of (T := ⟨S_, .i32⟩) main_call8_v0).ofBuf t))) (e_main_call8_v0 V))
theorem e_main_call8_v2 : after (ops (F := F)) V (Proc.devRef .tc main_call8_v2) = val_main_call8_v2 (F := F) (a4 V) (a5 V) :=
  (tbinary_eq later_373 later_374 (Nat.lt_of_lt_of_eq (by decide : 373 < 1293) ops_len.symm) V (TRef.of (T := ⟨S512x128, .i32⟩) main_call8_v1) (TRef.of (T := ⟨S512x128, .i32⟩) main_v240) (TRef.of (T := ⟨S512x128, .i32⟩) main_call8_v2) maxsi (hop := rfl) (hyi := (by decide)) (hai := (by decide)) (hbi := (by decide))).trans
    (by rw [e_main_call8_v1 V, e_main_v240 V]; rfl)
theorem e_main_call8_v3 : after (ops (F := F)) V (Proc.devRef .tc main_call8_v3) = val_main_call8_v3 (F := F) :=
  (tunary_eq later_374 later_375 (Nat.lt_of_lt_of_eq (by decide : 374 < 1293) ops_len.symm) V (TRef.of (T := ⟨S_, .i32⟩) main_c_75) (TRef.of (T := ⟨S_, .i32⟩) main_call8_v3) id (hop := rfl) (hyi := (by decide)) (hxi := (by decide))).trans
    (congrArg (fun t => (TRef.of (T := ⟨S_, .i32⟩) main_call8_v3).toBuf ((id) ((TRef.of (T := ⟨S_, .i32⟩) main_c_75).ofBuf t))) (e_main_c_75 V))
theorem e_main_call8_v4 : after (ops (F := F)) V (Proc.devRef .tc main_call8_v4) = val_main_call8_v4 (F := F) :=
  (tunary_eq later_375 later_376 (Nat.lt_of_lt_of_eq (by decide : 375 < 1293) ops_len.symm) V (TRef.of (T := ⟨S_, .i32⟩) main_call8_v3) (TRef.of (T := ⟨S512x128, .i32⟩) main_call8_v4) (broadcastInDim S512x128 ![] bcast_S_S512x128) (hop := rfl) (hyi := (by decide)) (hxi := (by decide))).trans
    (congrArg (fun t => (TRef.of (T := ⟨S512x128, .i32⟩) main_call8_v4).toBuf (((broadcastInDim S512x128 ![] bcast_S_S512x128)) ((TRef.of (T := ⟨S_, .i32⟩) main_call8_v3).ofBuf t))) (e_main_call8_v3 V))
theorem e_main_v253 : after (ops (F := F)) V (Proc.devRef .tc main_v253) = val_main_v253 (F := F) (a4 V) (a5 V) :=
  (tbinary_eq later_376 later_377 (Nat.lt_of_lt_of_eq (by decide : 376 < 1293) ops_len.symm) V (TRef.of (T := ⟨S512x128, .i32⟩) main_call8_v4) (TRef.of (T := ⟨S512x128, .i32⟩) main_call8_v2) (TRef.of (T := ⟨S512x128, .i32⟩) main_v253) minsi (hop := rfl) (hyi := (by decide)) (hai := (by decide)) (hbi := (by decide))).trans
    (by rw [e_main_call8_v4 V, e_main_call8_v2 V]; rfl)
theorem e_main_c_76 : after (ops (F := F)) V (Proc.devRef .tc main_c_76) = val_main_c_76 (F := F) :=
  nullary_eq later_377 later_378 (Nat.lt_of_lt_of_eq (by decide : 377 < 1293) ops_len.symm) V main_c_76 (constantI S_ 32 0#32) (hop := rfl) (hyi := (by decide))
theorem e_main_c_77 : after (ops (F := F)) V (Proc.devRef .tc main_c_77) = val_main_c_77 (F := F) :=
  nullary_eq later_378 later_379 (Nat.lt_of_lt_of_eq (by decide : 378 < 1293) ops_len.symm) V main_c_77 (constantI S_ 32 127#32) (hop := rfl) (hyi := (by decide))
theorem e_main_call9_v0 : after (ops (F := F)) V (Proc.devRef .tc main_call9_v0) = val_main_call9_v0 (F := F) :=
  (tunary_eq later_379 later_380 (Nat.lt_of_lt_of_eq (by decide : 379 < 1293) ops_len.symm) V (TRef.of (T := ⟨S_, .i32⟩) main_c_76) (TRef.of (T := ⟨S_, .i32⟩) main_call9_v0) id (hop := rfl) (hyi := (by decide)) (hxi := (by decide))).trans
    (congrArg (fun t => (TRef.of (T := ⟨S_, .i32⟩) main_call9_v0).toBuf ((id) ((TRef.of (T := ⟨S_, .i32⟩) main_c_76).ofBuf t))) (e_main_c_76 V))
theorem e_main_call9_v1 : after (ops (F := F)) V (Proc.devRef .tc main_call9_v1) = val_main_call9_v1 (F := F) :=
  (tunary_eq later_380 later_381 (Nat.lt_of_lt_of_eq (by decide : 380 < 1293) ops_len.symm) V (TRef.of (T := ⟨S_, .i32⟩) main_call9_v0) (TRef.of (T := ⟨S512x128, .i32⟩) main_call9_v1) (broadcastInDim S512x128 ![] bcast_S_S512x128) (hop := rfl) (hyi := (by decide)) (hxi := (by decide))).trans
    (congrArg (fun t => (TRef.of (T := ⟨S512x128, .i32⟩) main_call9_v1).toBuf (((broadcastInDim S512x128 ![] bcast_S_S512x128)) ((TRef.of (T := ⟨S_, .i32⟩) main_call9_v0).ofBuf t))) (e_main_call9_v0 V))
theorem e_main_call9_v2 : after (ops (F := F)) V (Proc.devRef .tc main_call9_v2) = val_main_call9_v2 (F := F) (a4 V) (a5 V) :=
  (tbinary_eq later_381 later_382 (Nat.lt_of_lt_of_eq (by decide : 381 < 1293) ops_len.symm) V (TRef.of (T := ⟨S512x128, .i32⟩) main_call9_v1) (TRef.of (T := ⟨S512x128, .i32⟩) main_v241) (TRef.of (T := ⟨S512x128, .i32⟩) main_call9_v2) maxsi (hop := rfl) (hyi := (by decide)) (hai := (by decide)) (hbi := (by decide))).trans
    (by rw [e_main_call9_v1 V, e_main_v241 V]; rfl)
theorem e_main_call9_v3 : after (ops (F := F)) V (Proc.devRef .tc main_call9_v3) = val_main_call9_v3 (F := F) :=
  (tunary_eq later_382 later_383 (Nat.lt_of_lt_of_eq (by decide : 382 < 1293) ops_len.symm) V (TRef.of (T := ⟨S_, .i32⟩) main_c_77) (TRef.of (T := ⟨S_, .i32⟩) main_call9_v3) id (hop := rfl) (hyi := (by decide)) (hxi := (by decide))).trans
    (congrArg (fun t => (TRef.of (T := ⟨S_, .i32⟩) main_call9_v3).toBuf ((id) ((TRef.of (T := ⟨S_, .i32⟩) main_c_77).ofBuf t))) (e_main_c_77 V))
theorem e_main_call9_v4 : after (ops (F := F)) V (Proc.devRef .tc main_call9_v4) = val_main_call9_v4 (F := F) :=
  (tunary_eq later_383 later_384 (Nat.lt_of_lt_of_eq (by decide : 383 < 1293) ops_len.symm) V (TRef.of (T := ⟨S_, .i32⟩) main_call9_v3) (TRef.of (T := ⟨S512x128, .i32⟩) main_call9_v4) (broadcastInDim S512x128 ![] bcast_S_S512x128) (hop := rfl) (hyi := (by decide)) (hxi := (by decide))).trans
    (congrArg (fun t => (TRef.of (T := ⟨S512x128, .i32⟩) main_call9_v4).toBuf (((broadcastInDim S512x128 ![] bcast_S_S512x128)) ((TRef.of (T := ⟨S_, .i32⟩) main_call9_v3).ofBuf t))) (e_main_call9_v3 V))
theorem e_main_v254 : after (ops (F := F)) V (Proc.devRef .tc main_v254) = val_main_v254 (F := F) (a4 V) (a5 V) :=
  (tbinary_eq later_384 later_385 (Nat.lt_of_lt_of_eq (by decide : 384 < 1293) ops_len.symm) V (TRef.of (T := ⟨S512x128, .i32⟩) main_call9_v4) (TRef.of (T := ⟨S512x128, .i32⟩) main_call9_v2) (TRef.of (T := ⟨S512x128, .i32⟩) main_v254) minsi (hop := rfl) (hyi := (by decide)) (hai := (by decide)) (hbi := (by decide))).trans
    (by rw [e_main_call9_v4 V, e_main_call9_v2 V]; rfl)
theorem e_main_v255 : after (ops (F := F)) V (Proc.devRef .tc main_v255) = val_main_v255 (F := F) (a4 V) :=
  (unary_eq later_385 later_386 (Nat.lt_of_lt_of_eq (by decide : 385 < 1293) ops_len.symm) V main_v2 main_v255 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_78 : after (ops (F := F)) V (Proc.devRef .tc main_c_78) = val_main_c_78 (F := F) :=
  nullary_eq later_386 later_387 (Nat.lt_of_lt_of_eq (by decide : 386 < 1293) ops_len.symm) V main_c_78 (constantI S_ 32 0#32) (hop := rfl) (hyi := (by decide))
theorem e_main_v256 : after (ops (F := F)) V (Proc.devRef .tc main_v256) = val_main_v256 (F := F) :=
  (unary_eq later_387 later_388 (Nat.lt_of_lt_of_eq (by decide : 387 < 1293) ops_len.symm) V main_c_78 main_v256 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_78 V))
theorem e_main_v257 : after (ops (F := F)) V (Proc.devRef .tc main_v257) = val_main_v257 (F := F) (a4 V) :=
  (binary_eq later_388 later_389 (Nat.lt_of_lt_of_eq (by decide : 388 < 1293) ops_len.symm) V main_v255 main_v256 main_v257 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v255 V) (e_main_v256 V))
theorem e_main_c_79 : after (ops (F := F)) V (Proc.devRef .tc main_c_79) = val_main_c_79 (F := F) :=
  nullary_eq later_389 later_390 (Nat.lt_of_lt_of_eq (by decide : 389 < 1293) ops_len.symm) V main_c_79 (constantI S_ 32 2#32) (hop := rfl) (hyi := (by decide))
theorem e_main_v258 : after (ops (F := F)) V (Proc.devRef .tc main_v258) = val_main_v258 (F := F) :=
  (unary_eq later_390 later_391 (Nat.lt_of_lt_of_eq (by decide : 390 < 1293) ops_len.symm) V main_c_79 main_v258 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_79 V))
theorem e_main_v259 : after (ops (F := F)) V (Proc.devRef .tc main_v259) = val_main_v259 (F := F) (a4 V) :=
  (binary_eq later_391 later_392 (Nat.lt_of_lt_of_eq (by decide : 391 < 1293) ops_len.symm) V main_v255 main_v258 main_v259 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v255 V) (e_main_v258 V))
theorem e_main_v260 : after (ops (F := F)) V (Proc.devRef .tc main_v260) = val_main_v260 (F := F) (a4 V) :=
  (ternary_eq later_392 later_393 (Nat.lt_of_lt_of_eq (by decide : 392 < 1293) ops_len.symm) V main_v257 main_v259 main_v255 main_v260 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v257 V) (e_main_v259 V) (e_main_v255 V))
theorem e_main_c_80 : after (ops (F := F)) V (Proc.devRef .tc main_c_80) = val_main_c_80 (F := F) :=
  nullary_eq later_393 later_394 (Nat.lt_of_lt_of_eq (by decide : 393 < 1293) ops_len.symm) V main_c_80 (constantI S_ 32 0#32) (hop := rfl) (hyi := (by decide))
theorem e_main_v261 : after (ops (F := F)) V (Proc.devRef .tc main_v261) = val_main_v261 (F := F) :=
  (unary_eq later_394 later_395 (Nat.lt_of_lt_of_eq (by decide : 394 < 1293) ops_len.symm) V main_c_80 main_v261 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_80 V))
theorem e_main_v262 : after (ops (F := F)) V (Proc.devRef .tc main_v262) = val_main_v262 (F := F) (a4 V) (a5 V) :=
  (binary_eq later_395 later_396 (Nat.lt_of_lt_of_eq (by decide : 395 < 1293) ops_len.symm) V main_v254 main_v261 main_v262 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v254 V) (e_main_v261 V))
theorem e_main_c_81 : after (ops (F := F)) V (Proc.devRef .tc main_c_81) = val_main_c_81 (F := F) :=
  nullary_eq later_396 later_397 (Nat.lt_of_lt_of_eq (by decide : 396 < 1293) ops_len.symm) V main_c_81 (constantI S_ 32 128#32) (hop := rfl) (hyi := (by decide))
theorem e_main_v263 : after (ops (F := F)) V (Proc.devRef .tc main_v263) = val_main_v263 (F := F) :=
  (unary_eq later_397 later_398 (Nat.lt_of_lt_of_eq (by decide : 397 < 1293) ops_len.symm) V main_c_81 main_v263 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_81 V))
theorem e_main_v264 : after (ops (F := F)) V (Proc.devRef .tc main_v264) = val_main_v264 (F := F) (a4 V) (a5 V) :=
  (binary_eq later_398 later_399 (Nat.lt_of_lt_of_eq (by decide : 398 < 1293) ops_len.symm) V main_v254 main_v263 main_v264 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v254 V) (e_main_v263 V))
theorem e_main_v265 : after (ops (F := F)) V (Proc.devRef .tc main_v265) = val_main_v265 (F := F) (a4 V) (a5 V) :=
  (ternary_eq later_399 later_400 (Nat.lt_of_lt_of_eq (by decide : 399 < 1293) ops_len.symm) V main_v262 main_v264 main_v254 main_v265 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v262 V) (e_main_v264 V) (e_main_v254 V))
theorem e_main_c_82 : after (ops (F := F)) V (Proc.devRef .tc main_c_82) = val_main_c_82 (F := F) :=
  nullary_eq later_400 later_401 (Nat.lt_of_lt_of_eq (by decide : 400 < 1293) ops_len.symm) V main_c_82 (constantI S_ 32 0#32) (hop := rfl) (hyi := (by decide))
theorem e_main_v266 : after (ops (F := F)) V (Proc.devRef .tc main_v266) = val_main_v266 (F := F) :=
  (unary_eq later_401 later_402 (Nat.lt_of_lt_of_eq (by decide : 401 < 1293) ops_len.symm) V main_c_82 main_v266 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_82 V))
theorem e_main_v267 : after (ops (F := F)) V (Proc.devRef .tc main_v267) = val_main_v267 (F := F) (a4 V) (a5 V) :=
  (binary_eq later_402 later_403 (Nat.lt_of_lt_of_eq (by decide : 402 < 1293) ops_len.symm) V main_v253 main_v266 main_v267 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v253 V) (e_main_v266 V))
theorem e_main_c_83 : after (ops (F := F)) V (Proc.devRef .tc main_c_83) = val_main_c_83 (F := F) :=
  nullary_eq later_403 later_404 (Nat.lt_of_lt_of_eq (by decide : 403 < 1293) ops_len.symm) V main_c_83 (constantI S_ 32 128#32) (hop := rfl) (hyi := (by decide))
theorem e_main_v268 : after (ops (F := F)) V (Proc.devRef .tc main_v268) = val_main_v268 (F := F) :=
  (unary_eq later_404 later_405 (Nat.lt_of_lt_of_eq (by decide : 404 < 1293) ops_len.symm) V main_c_83 main_v268 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_83 V))
theorem e_main_v269 : after (ops (F := F)) V (Proc.devRef .tc main_v269) = val_main_v269 (F := F) (a4 V) (a5 V) :=
  (binary_eq later_405 later_406 (Nat.lt_of_lt_of_eq (by decide : 405 < 1293) ops_len.symm) V main_v253 main_v268 main_v269 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v253 V) (e_main_v268 V))
theorem e_main_v270 : after (ops (F := F)) V (Proc.devRef .tc main_v270) = val_main_v270 (F := F) (a4 V) (a5 V) :=
  (ternary_eq later_406 later_407 (Nat.lt_of_lt_of_eq (by decide : 406 < 1293) ops_len.symm) V main_v267 main_v269 main_v253 main_v270 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v267 V) (e_main_v269 V) (e_main_v253 V))
theorem e_main_v271 : after (ops (F := F)) V (Proc.devRef .tc main_v271) = val_main_v271 (F := F) (a4 V) :=
  (unary_eq later_407 later_408 (Nat.lt_of_lt_of_eq (by decide : 407 < 1293) ops_len.symm) V main_v260 main_v271 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v260 V))
theorem e_main_v272 : after (ops (F := F)) V (Proc.devRef .tc main_v272) = val_main_v272 (F := F) (a4 V) :=
  (unary_eq later_408 later_409 (Nat.lt_of_lt_of_eq (by decide : 408 < 1293) ops_len.symm) V main_v271 main_v272 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v271 V))
theorem e_main_v273 : after (ops (F := F)) V (Proc.devRef .tc main_v273) = val_main_v273 (F := F) (a4 V) (a5 V) :=
  (unary_eq later_409 later_410 (Nat.lt_of_lt_of_eq (by decide : 409 < 1293) ops_len.symm) V main_v265 main_v273 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v265 V))
theorem e_main_v274 : after (ops (F := F)) V (Proc.devRef .tc main_v274) = val_main_v274 (F := F) (a4 V) (a5 V) :=
  (unary_eq later_410 later_411 (Nat.lt_of_lt_of_eq (by decide : 410 < 1293) ops_len.symm) V main_v270 main_v274 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v270 V))
theorem e_main_v275 : after (ops (F := F)) V (Proc.devRef .tc main_v275) = val_main_v275 (F := F) (a4 V) (a5 V) :=
  (nary_eq later_411 later_412 (Nat.lt_of_lt_of_eq (by decide : 411 < 1293) ops_len.symm) V ![main_v272, main_v273, main_v274] main_v275 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v272)⟩, ⟨S512x128x1, after (ops (F := F)) V (Proc.devRef .tc main_v273)⟩, ⟨S512x128x1, after (ops (F := F)) V (Proc.devRef .tc main_v274)⟩] concatenates_S512x128x1_S512x128x1_S512x128x1_S512x128x3_d2 = _
    rw [e_main_v272 V, e_main_v273 V, e_main_v274 V]; rfl)
theorem e_main_v276 : after (ops (F := F)) V (Proc.devRef .tc main_v276) = val_main_v276 (F := F) (a1 V) (a4 V) (a5 V) :=
  (binary_eq later_412 later_413 (Nat.lt_of_lt_of_eq (by decide : 412 < 1293) ops_len.symm) V main_arg1 main_v275 main_v276 ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (e_main_arg1 V) (e_main_v275 V))
theorem e_main_v277 : after (ops (F := F)) V (Proc.devRef .tc main_v277) = val_main_v277 (F := F) (a4 V) (a5 V) :=
  (unary_eq later_413 later_414 (Nat.lt_of_lt_of_eq (by decide : 413 < 1293) ops_len.symm) V main_v252 main_v277 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v252 V))
theorem e_main_v278 : after (ops (F := F)) V (Proc.devRef .tc main_v278) = val_main_v278 (F := F) (a4 V) (a5 V) :=
  (unary_eq later_414 later_415 (Nat.lt_of_lt_of_eq (by decide : 414 < 1293) ops_len.symm) V main_v277 main_v278 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v277 V))
theorem e_main_v279 : after (ops (F := F)) V (Proc.devRef .tc main_v279) = val_main_v279 (F := F) (a4 V) (a5 V) :=
  (unary_eq later_415 later_416 (Nat.lt_of_lt_of_eq (by decide : 415 < 1293) ops_len.symm) V main_v278 main_v279 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v278 V))
theorem e_main_v280 : after (ops (F := F)) V (Proc.devRef .tc main_v280) = val_main_v280 (F := F) (a1 V) (a4 V) (a5 V) :=
  (binary_eq later_416 later_417 (Nat.lt_of_lt_of_eq (by decide : 416 < 1293) ops_len.symm) V main_v276 main_v279 main_v280 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v276 V) (e_main_v279 V))
theorem e_main_c_84 : after (ops (F := F)) V (Proc.devRef .tc main_c_84) = val_main_c_84 (F := F) :=
  nullary_eq later_417 later_418 (Nat.lt_of_lt_of_eq (by decide : 417 < 1293) ops_len.symm) V main_c_84 (constantI S_ 32 1#32) (hop := rfl) (hyi := (by decide))
theorem e_main_v281 : after (ops (F := F)) V (Proc.devRef .tc main_v281) = val_main_v281 (F := F) :=
  (unary_eq later_418 later_419 (Nat.lt_of_lt_of_eq (by decide : 418 < 1293) ops_len.symm) V main_c_84 main_v281 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_84 V))
theorem e_main_v282 : after (ops (F := F)) V (Proc.devRef .tc main_v282) = val_main_v282 (F := F) (a4 V) (a5 V) :=
  (binary_eq later_419 later_420 (Nat.lt_of_lt_of_eq (by decide : 419 < 1293) ops_len.symm) V main_v240 main_v281 main_v282 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v240 V) (e_main_v281 V))
theorem e_main_c_85 : after (ops (F := F)) V (Proc.devRef .tc main_c_85) = val_main_c_85 (F := F) :=
  nullary_eq later_420 later_421 (Nat.lt_of_lt_of_eq (by decide : 420 < 1293) ops_len.symm) V main_c_85 (constantI S_ 32 0#32) (hop := rfl) (hyi := (by decide))
theorem e_main_v283 : after (ops (F := F)) V (Proc.devRef .tc main_v283) = val_main_v283 (F := F) :=
  (unary_eq later_421 later_422 (Nat.lt_of_lt_of_eq (by decide : 421 < 1293) ops_len.symm) V main_c_85 main_v283 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_85 V))
theorem e_main_v284 : after (ops (F := F)) V (Proc.devRef .tc main_v284) = val_main_v284 (F := F) (a4 V) (a5 V) :=
  (binary_eq later_422 later_423 (Nat.lt_of_lt_of_eq (by decide : 422 < 1293) ops_len.symm) V main_v282 main_v283 main_v284 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v282 V) (e_main_v283 V))
theorem e_main_c_86 : after (ops (F := F)) V (Proc.devRef .tc main_c_86) = val_main_c_86 (F := F) :=
  nullary_eq later_423 later_424 (Nat.lt_of_lt_of_eq (by decide : 423 < 1293) ops_len.symm) V main_c_86 (constantI S_ 32 128#32) (hop := rfl) (hyi := (by decide))
theorem e_main_v285 : after (ops (F := F)) V (Proc.devRef .tc main_v285) = val_main_v285 (F := F) :=
  (unary_eq later_424 later_425 (Nat.lt_of_lt_of_eq (by decide : 424 < 1293) ops_len.symm) V main_c_86 main_v285 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_86 V))
theorem e_main_v286 : after (ops (F := F)) V (Proc.devRef .tc main_v286) = val_main_v286 (F := F) (a4 V) (a5 V) :=
  (binary_eq later_425 later_426 (Nat.lt_of_lt_of_eq (by decide : 425 < 1293) ops_len.symm) V main_v282 main_v285 main_v286 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v282 V) (e_main_v285 V))
theorem e_main_v287 : after (ops (F := F)) V (Proc.devRef .tc main_v287) = val_main_v287 (F := F) (a4 V) (a5 V) :=
  (binary_eq later_426 later_427 (Nat.lt_of_lt_of_eq (by decide : 426 < 1293) ops_len.symm) V main_v284 main_v286 main_v287 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v284 V) (e_main_v286 V))
theorem e_main_c_87 : after (ops (F := F)) V (Proc.devRef .tc main_c_87) = val_main_c_87 (F := F) :=
  nullary_eq later_427 later_428 (Nat.lt_of_lt_of_eq (by decide : 427 < 1293) ops_len.symm) V main_c_87 (constantI S_ 32 0#32) (hop := rfl) (hyi := (by decide))
theorem e_main_v288 : after (ops (F := F)) V (Proc.devRef .tc main_v288) = val_main_v288 (F := F) :=
  (unary_eq later_428 later_429 (Nat.lt_of_lt_of_eq (by decide : 428 < 1293) ops_len.symm) V main_c_87 main_v288 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_87 V))
theorem e_main_v289 : after (ops (F := F)) V (Proc.devRef .tc main_v289) = val_main_v289 (F := F) (a4 V) (a5 V) :=
  (binary_eq later_429 later_430 (Nat.lt_of_lt_of_eq (by decide : 429 < 1293) ops_len.symm) V main_v241 main_v288 main_v289 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v241 V) (e_main_v288 V))
theorem e_main_v290 : after (ops (F := F)) V (Proc.devRef .tc main_v290) = val_main_v290 (F := F) (a4 V) (a5 V) :=
  (binary_eq later_430 later_431 (Nat.lt_of_lt_of_eq (by decide : 430 < 1293) ops_len.symm) V main_v287 main_v289 main_v290 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v287 V) (e_main_v289 V))
theorem e_main_c_88 : after (ops (F := F)) V (Proc.devRef .tc main_c_88) = val_main_c_88 (F := F) :=
  nullary_eq later_431 later_432 (Nat.lt_of_lt_of_eq (by decide : 431 < 1293) ops_len.symm) V main_c_88 (constantI S_ 32 128#32) (hop := rfl) (hyi := (by decide))
theorem e_main_v291 : after (ops (F := F)) V (Proc.devRef .tc main_v291) = val_main_v291 (F := F) :=
  (unary_eq later_432 later_433 (Nat.lt_of_lt_of_eq (by decide : 432 < 1293) ops_len.symm) V main_c_88 main_v291 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_88 V))
theorem e_main_v292 : after (ops (F := F)) V (Proc.devRef .tc main_v292) = val_main_v292 (F := F) (a4 V) (a5 V) :=
  (binary_eq later_433 later_434 (Nat.lt_of_lt_of_eq (by decide : 433 < 1293) ops_len.symm) V main_v241 main_v291 main_v292 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v241 V) (e_main_v291 V))
theorem e_main_v293 : after (ops (F := F)) V (Proc.devRef .tc main_v293) = val_main_v293 (F := F) (a4 V) (a5 V) :=
  (binary_eq later_434 later_435 (Nat.lt_of_lt_of_eq (by decide : 434 < 1293) ops_len.symm) V main_v290 main_v292 main_v293 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v290 V) (e_main_v292 V))
theorem e_main_c_89 : after (ops (F := F)) V (Proc.devRef .tc main_c_89) = val_main_c_89 (F := F) :=
  nullary_eq later_435 later_436 (Nat.lt_of_lt_of_eq (by decide : 435 < 1293) ops_len.symm) V main_c_89 (constantI S_ 32 0#32) (hop := rfl) (hyi := (by decide))
theorem e_main_c_90 : after (ops (F := F)) V (Proc.devRef .tc main_c_90) = val_main_c_90 (F := F) :=
  nullary_eq later_436 later_437 (Nat.lt_of_lt_of_eq (by decide : 436 < 1293) ops_len.symm) V main_c_90 (constantI S_ 32 127#32) (hop := rfl) (hyi := (by decide))
theorem e_main_call10_v0 : after (ops (F := F)) V (Proc.devRef .tc main_call10_v0) = val_main_call10_v0 (F := F) :=
  (tunary_eq later_437 later_438 (Nat.lt_of_lt_of_eq (by decide : 437 < 1293) ops_len.symm) V (TRef.of (T := ⟨S_, .i32⟩) main_c_89) (TRef.of (T := ⟨S_, .i32⟩) main_call10_v0) id (hop := rfl) (hyi := (by decide)) (hxi := (by decide))).trans
    (congrArg (fun t => (TRef.of (T := ⟨S_, .i32⟩) main_call10_v0).toBuf ((id) ((TRef.of (T := ⟨S_, .i32⟩) main_c_89).ofBuf t))) (e_main_c_89 V))
theorem e_main_call10_v1 : after (ops (F := F)) V (Proc.devRef .tc main_call10_v1) = val_main_call10_v1 (F := F) :=
  (tunary_eq later_438 later_439 (Nat.lt_of_lt_of_eq (by decide : 438 < 1293) ops_len.symm) V (TRef.of (T := ⟨S_, .i32⟩) main_call10_v0) (TRef.of (T := ⟨S512x128, .i32⟩) main_call10_v1) (broadcastInDim S512x128 ![] bcast_S_S512x128) (hop := rfl) (hyi := (by decide)) (hxi := (by decide))).trans
    (congrArg (fun t => (TRef.of (T := ⟨S512x128, .i32⟩) main_call10_v1).toBuf (((broadcastInDim S512x128 ![] bcast_S_S512x128)) ((TRef.of (T := ⟨S_, .i32⟩) main_call10_v0).ofBuf t))) (e_main_call10_v0 V))
theorem e_main_call10_v2 : after (ops (F := F)) V (Proc.devRef .tc main_call10_v2) = val_main_call10_v2 (F := F) (a4 V) (a5 V) :=
  (tbinary_eq later_439 later_440 (Nat.lt_of_lt_of_eq (by decide : 439 < 1293) ops_len.symm) V (TRef.of (T := ⟨S512x128, .i32⟩) main_call10_v1) (TRef.of (T := ⟨S512x128, .i32⟩) main_v282) (TRef.of (T := ⟨S512x128, .i32⟩) main_call10_v2) maxsi (hop := rfl) (hyi := (by decide)) (hai := (by decide)) (hbi := (by decide))).trans
    (by rw [e_main_call10_v1 V, e_main_v282 V]; rfl)
theorem e_main_call10_v3 : after (ops (F := F)) V (Proc.devRef .tc main_call10_v3) = val_main_call10_v3 (F := F) :=
  (tunary_eq later_440 later_441 (Nat.lt_of_lt_of_eq (by decide : 440 < 1293) ops_len.symm) V (TRef.of (T := ⟨S_, .i32⟩) main_c_90) (TRef.of (T := ⟨S_, .i32⟩) main_call10_v3) id (hop := rfl) (hyi := (by decide)) (hxi := (by decide))).trans
    (congrArg (fun t => (TRef.of (T := ⟨S_, .i32⟩) main_call10_v3).toBuf ((id) ((TRef.of (T := ⟨S_, .i32⟩) main_c_90).ofBuf t))) (e_main_c_90 V))
theorem e_main_call10_v4 : after (ops (F := F)) V (Proc.devRef .tc main_call10_v4) = val_main_call10_v4 (F := F) :=
  (tunary_eq later_441 later_442 (Nat.lt_of_lt_of_eq (by decide : 441 < 1293) ops_len.symm) V (TRef.of (T := ⟨S_, .i32⟩) main_call10_v3) (TRef.of (T := ⟨S512x128, .i32⟩) main_call10_v4) (broadcastInDim S512x128 ![] bcast_S_S512x128) (hop := rfl) (hyi := (by decide)) (hxi := (by decide))).trans
    (congrArg (fun t => (TRef.of (T := ⟨S512x128, .i32⟩) main_call10_v4).toBuf (((broadcastInDim S512x128 ![] bcast_S_S512x128)) ((TRef.of (T := ⟨S_, .i32⟩) main_call10_v3).ofBuf t))) (e_main_call10_v3 V))
theorem e_main_v294 : after (ops (F := F)) V (Proc.devRef .tc main_v294) = val_main_v294 (F := F) (a4 V) (a5 V) :=
  (tbinary_eq later_442 later_443 (Nat.lt_of_lt_of_eq (by decide : 442 < 1293) ops_len.symm) V (TRef.of (T := ⟨S512x128, .i32⟩) main_call10_v4) (TRef.of (T := ⟨S512x128, .i32⟩) main_call10_v2) (TRef.of (T := ⟨S512x128, .i32⟩) main_v294) minsi (hop := rfl) (hyi := (by decide)) (hai := (by decide)) (hbi := (by decide))).trans
    (by rw [e_main_call10_v4 V, e_main_call10_v2 V]; rfl)
theorem e_main_c_91 : after (ops (F := F)) V (Proc.devRef .tc main_c_91) = val_main_c_91 (F := F) :=
  nullary_eq later_443 later_444 (Nat.lt_of_lt_of_eq (by decide : 443 < 1293) ops_len.symm) V main_c_91 (constantI S_ 32 0#32) (hop := rfl) (hyi := (by decide))
theorem e_main_c_92 : after (ops (F := F)) V (Proc.devRef .tc main_c_92) = val_main_c_92 (F := F) :=
  nullary_eq later_444 later_445 (Nat.lt_of_lt_of_eq (by decide : 444 < 1293) ops_len.symm) V main_c_92 (constantI S_ 32 127#32) (hop := rfl) (hyi := (by decide))
theorem e_main_call11_v0 : after (ops (F := F)) V (Proc.devRef .tc main_call11_v0) = val_main_call11_v0 (F := F) :=
  (tunary_eq later_445 later_446 (Nat.lt_of_lt_of_eq (by decide : 445 < 1293) ops_len.symm) V (TRef.of (T := ⟨S_, .i32⟩) main_c_91) (TRef.of (T := ⟨S_, .i32⟩) main_call11_v0) id (hop := rfl) (hyi := (by decide)) (hxi := (by decide))).trans
    (congrArg (fun t => (TRef.of (T := ⟨S_, .i32⟩) main_call11_v0).toBuf ((id) ((TRef.of (T := ⟨S_, .i32⟩) main_c_91).ofBuf t))) (e_main_c_91 V))
theorem e_main_call11_v1 : after (ops (F := F)) V (Proc.devRef .tc main_call11_v1) = val_main_call11_v1 (F := F) :=
  (tunary_eq later_446 later_447 (Nat.lt_of_lt_of_eq (by decide : 446 < 1293) ops_len.symm) V (TRef.of (T := ⟨S_, .i32⟩) main_call11_v0) (TRef.of (T := ⟨S512x128, .i32⟩) main_call11_v1) (broadcastInDim S512x128 ![] bcast_S_S512x128) (hop := rfl) (hyi := (by decide)) (hxi := (by decide))).trans
    (congrArg (fun t => (TRef.of (T := ⟨S512x128, .i32⟩) main_call11_v1).toBuf (((broadcastInDim S512x128 ![] bcast_S_S512x128)) ((TRef.of (T := ⟨S_, .i32⟩) main_call11_v0).ofBuf t))) (e_main_call11_v0 V))
theorem e_main_call11_v2 : after (ops (F := F)) V (Proc.devRef .tc main_call11_v2) = val_main_call11_v2 (F := F) (a4 V) (a5 V) :=
  (tbinary_eq later_447 later_448 (Nat.lt_of_lt_of_eq (by decide : 447 < 1293) ops_len.symm) V (TRef.of (T := ⟨S512x128, .i32⟩) main_call11_v1) (TRef.of (T := ⟨S512x128, .i32⟩) main_v241) (TRef.of (T := ⟨S512x128, .i32⟩) main_call11_v2) maxsi (hop := rfl) (hyi := (by decide)) (hai := (by decide)) (hbi := (by decide))).trans
    (by rw [e_main_call11_v1 V, e_main_v241 V]; rfl)
theorem e_main_call11_v3 : after (ops (F := F)) V (Proc.devRef .tc main_call11_v3) = val_main_call11_v3 (F := F) :=
  (tunary_eq later_448 later_449 (Nat.lt_of_lt_of_eq (by decide : 448 < 1293) ops_len.symm) V (TRef.of (T := ⟨S_, .i32⟩) main_c_92) (TRef.of (T := ⟨S_, .i32⟩) main_call11_v3) id (hop := rfl) (hyi := (by decide)) (hxi := (by decide))).trans
    (congrArg (fun t => (TRef.of (T := ⟨S_, .i32⟩) main_call11_v3).toBuf ((id) ((TRef.of (T := ⟨S_, .i32⟩) main_c_92).ofBuf t))) (e_main_c_92 V))
theorem e_main_call11_v4 : after (ops (F := F)) V (Proc.devRef .tc main_call11_v4) = val_main_call11_v4 (F := F) :=
  (tunary_eq later_449 later_450 (Nat.lt_of_lt_of_eq (by decide : 449 < 1293) ops_len.symm) V (TRef.of (T := ⟨S_, .i32⟩) main_call11_v3) (TRef.of (T := ⟨S512x128, .i32⟩) main_call11_v4) (broadcastInDim S512x128 ![] bcast_S_S512x128) (hop := rfl) (hyi := (by decide)) (hxi := (by decide))).trans
    (congrArg (fun t => (TRef.of (T := ⟨S512x128, .i32⟩) main_call11_v4).toBuf (((broadcastInDim S512x128 ![] bcast_S_S512x128)) ((TRef.of (T := ⟨S_, .i32⟩) main_call11_v3).ofBuf t))) (e_main_call11_v3 V))
theorem e_main_v295 : after (ops (F := F)) V (Proc.devRef .tc main_v295) = val_main_v295 (F := F) (a4 V) (a5 V) :=
  (tbinary_eq later_450 later_451 (Nat.lt_of_lt_of_eq (by decide : 450 < 1293) ops_len.symm) V (TRef.of (T := ⟨S512x128, .i32⟩) main_call11_v4) (TRef.of (T := ⟨S512x128, .i32⟩) main_call11_v2) (TRef.of (T := ⟨S512x128, .i32⟩) main_v295) minsi (hop := rfl) (hyi := (by decide)) (hai := (by decide)) (hbi := (by decide))).trans
    (by rw [e_main_call11_v4 V, e_main_call11_v2 V]; rfl)
theorem e_main_v296 : after (ops (F := F)) V (Proc.devRef .tc main_v296) = val_main_v296 (F := F) (a4 V) :=
  (unary_eq later_451 later_452 (Nat.lt_of_lt_of_eq (by decide : 451 < 1293) ops_len.symm) V main_v2 main_v296 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_93 : after (ops (F := F)) V (Proc.devRef .tc main_c_93) = val_main_c_93 (F := F) :=
  nullary_eq later_452 later_453 (Nat.lt_of_lt_of_eq (by decide : 452 < 1293) ops_len.symm) V main_c_93 (constantI S_ 32 0#32) (hop := rfl) (hyi := (by decide))
theorem e_main_v297 : after (ops (F := F)) V (Proc.devRef .tc main_v297) = val_main_v297 (F := F) :=
  (unary_eq later_453 later_454 (Nat.lt_of_lt_of_eq (by decide : 453 < 1293) ops_len.symm) V main_c_93 main_v297 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_93 V))
theorem e_main_v298 : after (ops (F := F)) V (Proc.devRef .tc main_v298) = val_main_v298 (F := F) (a4 V) :=
  (binary_eq later_454 later_455 (Nat.lt_of_lt_of_eq (by decide : 454 < 1293) ops_len.symm) V main_v296 main_v297 main_v298 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v296 V) (e_main_v297 V))
theorem e_main_c_94 : after (ops (F := F)) V (Proc.devRef .tc main_c_94) = val_main_c_94 (F := F) :=
  nullary_eq later_455 later_456 (Nat.lt_of_lt_of_eq (by decide : 455 < 1293) ops_len.symm) V main_c_94 (constantI S_ 32 2#32) (hop := rfl) (hyi := (by decide))
theorem e_main_v299 : after (ops (F := F)) V (Proc.devRef .tc main_v299) = val_main_v299 (F := F) :=
  (unary_eq later_456 later_457 (Nat.lt_of_lt_of_eq (by decide : 456 < 1293) ops_len.symm) V main_c_94 main_v299 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_94 V))
theorem e_main_v300 : after (ops (F := F)) V (Proc.devRef .tc main_v300) = val_main_v300 (F := F) (a4 V) :=
  (binary_eq later_457 later_458 (Nat.lt_of_lt_of_eq (by decide : 457 < 1293) ops_len.symm) V main_v296 main_v299 main_v300 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v296 V) (e_main_v299 V))
theorem e_main_v301 : after (ops (F := F)) V (Proc.devRef .tc main_v301) = val_main_v301 (F := F) (a4 V) :=
  (ternary_eq later_458 later_459 (Nat.lt_of_lt_of_eq (by decide : 458 < 1293) ops_len.symm) V main_v298 main_v300 main_v296 main_v301 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v298 V) (e_main_v300 V) (e_main_v296 V))
theorem e_main_c_95 : after (ops (F := F)) V (Proc.devRef .tc main_c_95) = val_main_c_95 (F := F) :=
  nullary_eq later_459 later_460 (Nat.lt_of_lt_of_eq (by decide : 459 < 1293) ops_len.symm) V main_c_95 (constantI S_ 32 0#32) (hop := rfl) (hyi := (by decide))
theorem e_main_v302 : after (ops (F := F)) V (Proc.devRef .tc main_v302) = val_main_v302 (F := F) :=
  (unary_eq later_460 later_461 (Nat.lt_of_lt_of_eq (by decide : 460 < 1293) ops_len.symm) V main_c_95 main_v302 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_95 V))
theorem e_main_v303 : after (ops (F := F)) V (Proc.devRef .tc main_v303) = val_main_v303 (F := F) (a4 V) (a5 V) :=
  (binary_eq later_461 later_462 (Nat.lt_of_lt_of_eq (by decide : 461 < 1293) ops_len.symm) V main_v295 main_v302 main_v303 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v295 V) (e_main_v302 V))
theorem e_main_c_96 : after (ops (F := F)) V (Proc.devRef .tc main_c_96) = val_main_c_96 (F := F) :=
  nullary_eq later_462 later_463 (Nat.lt_of_lt_of_eq (by decide : 462 < 1293) ops_len.symm) V main_c_96 (constantI S_ 32 128#32) (hop := rfl) (hyi := (by decide))
theorem e_main_v304 : after (ops (F := F)) V (Proc.devRef .tc main_v304) = val_main_v304 (F := F) :=
  (unary_eq later_463 later_464 (Nat.lt_of_lt_of_eq (by decide : 463 < 1293) ops_len.symm) V main_c_96 main_v304 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_96 V))
theorem e_main_v305 : after (ops (F := F)) V (Proc.devRef .tc main_v305) = val_main_v305 (F := F) (a4 V) (a5 V) :=
  (binary_eq later_464 later_465 (Nat.lt_of_lt_of_eq (by decide : 464 < 1293) ops_len.symm) V main_v295 main_v304 main_v305 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v295 V) (e_main_v304 V))
theorem e_main_v306 : after (ops (F := F)) V (Proc.devRef .tc main_v306) = val_main_v306 (F := F) (a4 V) (a5 V) :=
  (ternary_eq later_465 later_466 (Nat.lt_of_lt_of_eq (by decide : 465 < 1293) ops_len.symm) V main_v303 main_v305 main_v295 main_v306 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v303 V) (e_main_v305 V) (e_main_v295 V))
theorem e_main_c_97 : after (ops (F := F)) V (Proc.devRef .tc main_c_97) = val_main_c_97 (F := F) :=
  nullary_eq later_466 later_467 (Nat.lt_of_lt_of_eq (by decide : 466 < 1293) ops_len.symm) V main_c_97 (constantI S_ 32 0#32) (hop := rfl) (hyi := (by decide))
theorem e_main_v307 : after (ops (F := F)) V (Proc.devRef .tc main_v307) = val_main_v307 (F := F) :=
  (unary_eq later_467 later_468 (Nat.lt_of_lt_of_eq (by decide : 467 < 1293) ops_len.symm) V main_c_97 main_v307 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_97 V))
theorem e_main_v308 : after (ops (F := F)) V (Proc.devRef .tc main_v308) = val_main_v308 (F := F) (a4 V) (a5 V) :=
  (binary_eq later_468 later_469 (Nat.lt_of_lt_of_eq (by decide : 468 < 1293) ops_len.symm) V main_v294 main_v307 main_v308 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v294 V) (e_main_v307 V))
theorem e_main_c_98 : after (ops (F := F)) V (Proc.devRef .tc main_c_98) = val_main_c_98 (F := F) :=
  nullary_eq later_469 later_470 (Nat.lt_of_lt_of_eq (by decide : 469 < 1293) ops_len.symm) V main_c_98 (constantI S_ 32 128#32) (hop := rfl) (hyi := (by decide))
theorem e_main_v309 : after (ops (F := F)) V (Proc.devRef .tc main_v309) = val_main_v309 (F := F) :=
  (unary_eq later_470 later_471 (Nat.lt_of_lt_of_eq (by decide : 470 < 1293) ops_len.symm) V main_c_98 main_v309 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_98 V))
theorem e_main_v310 : after (ops (F := F)) V (Proc.devRef .tc main_v310) = val_main_v310 (F := F) (a4 V) (a5 V) :=
  (binary_eq later_471 later_472 (Nat.lt_of_lt_of_eq (by decide : 471 < 1293) ops_len.symm) V main_v294 main_v309 main_v310 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v294 V) (e_main_v309 V))
theorem e_main_v311 : after (ops (F := F)) V (Proc.devRef .tc main_v311) = val_main_v311 (F := F) (a4 V) (a5 V) :=
  (ternary_eq later_472 later_473 (Nat.lt_of_lt_of_eq (by decide : 472 < 1293) ops_len.symm) V main_v308 main_v310 main_v294 main_v311 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v308 V) (e_main_v310 V) (e_main_v294 V))
theorem e_main_v312 : after (ops (F := F)) V (Proc.devRef .tc main_v312) = val_main_v312 (F := F) (a4 V) :=
  (unary_eq later_473 later_474 (Nat.lt_of_lt_of_eq (by decide : 473 < 1293) ops_len.symm) V main_v301 main_v312 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v301 V))
theorem e_main_v313 : after (ops (F := F)) V (Proc.devRef .tc main_v313) = val_main_v313 (F := F) (a4 V) :=
  (unary_eq later_474 later_475 (Nat.lt_of_lt_of_eq (by decide : 474 < 1293) ops_len.symm) V main_v312 main_v313 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v312 V))
theorem e_main_v314 : after (ops (F := F)) V (Proc.devRef .tc main_v314) = val_main_v314 (F := F) (a4 V) (a5 V) :=
  (unary_eq later_475 later_476 (Nat.lt_of_lt_of_eq (by decide : 475 < 1293) ops_len.symm) V main_v306 main_v314 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v306 V))
theorem e_main_v315 : after (ops (F := F)) V (Proc.devRef .tc main_v315) = val_main_v315 (F := F) (a4 V) (a5 V) :=
  (unary_eq later_476 later_477 (Nat.lt_of_lt_of_eq (by decide : 476 < 1293) ops_len.symm) V main_v311 main_v315 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v311 V))
theorem e_main_v316 : after (ops (F := F)) V (Proc.devRef .tc main_v316) = val_main_v316 (F := F) (a4 V) (a5 V) :=
  (nary_eq later_477 later_478 (Nat.lt_of_lt_of_eq (by decide : 477 < 1293) ops_len.symm) V ![main_v313, main_v314, main_v315] main_v316 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v313)⟩, ⟨S512x128x1, after (ops (F := F)) V (Proc.devRef .tc main_v314)⟩, ⟨S512x128x1, after (ops (F := F)) V (Proc.devRef .tc main_v315)⟩] concatenates_S512x128x1_S512x128x1_S512x128x1_S512x128x3_d2 = _
    rw [e_main_v313 V, e_main_v314 V, e_main_v315 V]; rfl)
theorem e_main_v317 : after (ops (F := F)) V (Proc.devRef .tc main_v317) = val_main_v317 (F := F) (a1 V) (a4 V) (a5 V) :=
  (binary_eq later_478 later_479 (Nat.lt_of_lt_of_eq (by decide : 478 < 1293) ops_len.symm) V main_arg1 main_v316 main_v317 ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (e_main_arg1 V) (e_main_v316 V))
theorem e_main_v318 : after (ops (F := F)) V (Proc.devRef .tc main_v318) = val_main_v318 (F := F) (a4 V) (a5 V) :=
  (unary_eq later_479 later_480 (Nat.lt_of_lt_of_eq (by decide : 479 < 1293) ops_len.symm) V main_v293 main_v318 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v293 V))
theorem e_main_v319 : after (ops (F := F)) V (Proc.devRef .tc main_v319) = val_main_v319 (F := F) (a4 V) (a5 V) :=
  (unary_eq later_480 later_481 (Nat.lt_of_lt_of_eq (by decide : 480 < 1293) ops_len.symm) V main_v318 main_v319 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v318 V))
theorem e_main_v320 : after (ops (F := F)) V (Proc.devRef .tc main_v320) = val_main_v320 (F := F) (a4 V) (a5 V) :=
  (unary_eq later_481 later_482 (Nat.lt_of_lt_of_eq (by decide : 481 < 1293) ops_len.symm) V main_v319 main_v320 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v319 V))
theorem e_main_v321 : after (ops (F := F)) V (Proc.devRef .tc main_v321) = val_main_v321 (F := F) (a1 V) (a4 V) (a5 V) :=
  (binary_eq later_482 later_483 (Nat.lt_of_lt_of_eq (by decide : 482 < 1293) ops_len.symm) V main_v317 main_v320 main_v321 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v317 V) (e_main_v320 V))
theorem e_main_c_99 : after (ops (F := F)) V (Proc.devRef .tc main_c_99) = val_main_c_99 (F := F) :=
  nullary_eq later_483 later_484 (Nat.lt_of_lt_of_eq (by decide : 483 < 1293) ops_len.symm) V main_c_99 (constantI S_ 32 1#32) (hop := rfl) (hyi := (by decide))
theorem e_main_v322 : after (ops (F := F)) V (Proc.devRef .tc main_v322) = val_main_v322 (F := F) :=
  (unary_eq later_484 later_485 (Nat.lt_of_lt_of_eq (by decide : 484 < 1293) ops_len.symm) V main_c_99 main_v322 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_99 V))
theorem e_main_v323 : after (ops (F := F)) V (Proc.devRef .tc main_v323) = val_main_v323 (F := F) (a4 V) (a5 V) :=
  (binary_eq later_485 later_486 (Nat.lt_of_lt_of_eq (by decide : 485 < 1293) ops_len.symm) V main_v241 main_v322 main_v323 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v241 V) (e_main_v322 V))
theorem e_main_c_100 : after (ops (F := F)) V (Proc.devRef .tc main_c_100) = val_main_c_100 (F := F) :=
  nullary_eq later_486 later_487 (Nat.lt_of_lt_of_eq (by decide : 486 < 1293) ops_len.symm) V main_c_100 (constantI S_ 32 0#32) (hop := rfl) (hyi := (by decide))
theorem e_main_v324 : after (ops (F := F)) V (Proc.devRef .tc main_v324) = val_main_v324 (F := F) :=
  (unary_eq later_487 later_488 (Nat.lt_of_lt_of_eq (by decide : 487 < 1293) ops_len.symm) V main_c_100 main_v324 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_100 V))
theorem e_main_v325 : after (ops (F := F)) V (Proc.devRef .tc main_v325) = val_main_v325 (F := F) (a4 V) (a5 V) :=
  (binary_eq later_488 later_489 (Nat.lt_of_lt_of_eq (by decide : 488 < 1293) ops_len.symm) V main_v240 main_v324 main_v325 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v240 V) (e_main_v324 V))
theorem e_main_c_101 : after (ops (F := F)) V (Proc.devRef .tc main_c_101) = val_main_c_101 (F := F) :=
  nullary_eq later_489 later_490 (Nat.lt_of_lt_of_eq (by decide : 489 < 1293) ops_len.symm) V main_c_101 (constantI S_ 32 128#32) (hop := rfl) (hyi := (by decide))
theorem e_main_v326 : after (ops (F := F)) V (Proc.devRef .tc main_v326) = val_main_v326 (F := F) :=
  (unary_eq later_490 later_491 (Nat.lt_of_lt_of_eq (by decide : 490 < 1293) ops_len.symm) V main_c_101 main_v326 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_101 V))
theorem e_main_v327 : after (ops (F := F)) V (Proc.devRef .tc main_v327) = val_main_v327 (F := F) (a4 V) (a5 V) :=
  (binary_eq later_491 later_492 (Nat.lt_of_lt_of_eq (by decide : 491 < 1293) ops_len.symm) V main_v240 main_v326 main_v327 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v240 V) (e_main_v326 V))
theorem e_main_v328 : after (ops (F := F)) V (Proc.devRef .tc main_v328) = val_main_v328 (F := F) (a4 V) (a5 V) :=
  (binary_eq later_492 later_493 (Nat.lt_of_lt_of_eq (by decide : 492 < 1293) ops_len.symm) V main_v325 main_v327 main_v328 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v325 V) (e_main_v327 V))
theorem e_main_c_102 : after (ops (F := F)) V (Proc.devRef .tc main_c_102) = val_main_c_102 (F := F) :=
  nullary_eq later_493 later_494 (Nat.lt_of_lt_of_eq (by decide : 493 < 1293) ops_len.symm) V main_c_102 (constantI S_ 32 0#32) (hop := rfl) (hyi := (by decide))
theorem e_main_v329 : after (ops (F := F)) V (Proc.devRef .tc main_v329) = val_main_v329 (F := F) :=
  (unary_eq later_494 later_495 (Nat.lt_of_lt_of_eq (by decide : 494 < 1293) ops_len.symm) V main_c_102 main_v329 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_102 V))
theorem e_main_v330 : after (ops (F := F)) V (Proc.devRef .tc main_v330) = val_main_v330 (F := F) (a4 V) (a5 V) :=
  (binary_eq later_495 later_496 (Nat.lt_of_lt_of_eq (by decide : 495 < 1293) ops_len.symm) V main_v323 main_v329 main_v330 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v323 V) (e_main_v329 V))
theorem e_main_v331 : after (ops (F := F)) V (Proc.devRef .tc main_v331) = val_main_v331 (F := F) (a4 V) (a5 V) :=
  (binary_eq later_496 later_497 (Nat.lt_of_lt_of_eq (by decide : 496 < 1293) ops_len.symm) V main_v328 main_v330 main_v331 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v328 V) (e_main_v330 V))
theorem e_main_c_103 : after (ops (F := F)) V (Proc.devRef .tc main_c_103) = val_main_c_103 (F := F) :=
  nullary_eq later_497 later_498 (Nat.lt_of_lt_of_eq (by decide : 497 < 1293) ops_len.symm) V main_c_103 (constantI S_ 32 128#32) (hop := rfl) (hyi := (by decide))
theorem e_main_v332 : after (ops (F := F)) V (Proc.devRef .tc main_v332) = val_main_v332 (F := F) :=
  (unary_eq later_498 later_499 (Nat.lt_of_lt_of_eq (by decide : 498 < 1293) ops_len.symm) V main_c_103 main_v332 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_103 V))
theorem e_main_v333 : after (ops (F := F)) V (Proc.devRef .tc main_v333) = val_main_v333 (F := F) (a4 V) (a5 V) :=
  (binary_eq later_499 later_500 (Nat.lt_of_lt_of_eq (by decide : 499 < 1293) ops_len.symm) V main_v323 main_v332 main_v333 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v323 V) (e_main_v332 V))
theorem e_main_v334 : after (ops (F := F)) V (Proc.devRef .tc main_v334) = val_main_v334 (F := F) (a4 V) (a5 V) :=
  (binary_eq later_500 later_501 (Nat.lt_of_lt_of_eq (by decide : 500 < 1293) ops_len.symm) V main_v331 main_v333 main_v334 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v331 V) (e_main_v333 V))
theorem e_main_c_104 : after (ops (F := F)) V (Proc.devRef .tc main_c_104) = val_main_c_104 (F := F) :=
  nullary_eq later_501 later_502 (Nat.lt_of_lt_of_eq (by decide : 501 < 1293) ops_len.symm) V main_c_104 (constantI S_ 32 0#32) (hop := rfl) (hyi := (by decide))
theorem e_main_c_105 : after (ops (F := F)) V (Proc.devRef .tc main_c_105) = val_main_c_105 (F := F) :=
  nullary_eq later_502 later_503 (Nat.lt_of_lt_of_eq (by decide : 502 < 1293) ops_len.symm) V main_c_105 (constantI S_ 32 127#32) (hop := rfl) (hyi := (by decide))
theorem e_main_call12_v0 : after (ops (F := F)) V (Proc.devRef .tc main_call12_v0) = val_main_call12_v0 (F := F) :=
  (tunary_eq later_503 later_504 (Nat.lt_of_lt_of_eq (by decide : 503 < 1293) ops_len.symm) V (TRef.of (T := ⟨S_, .i32⟩) main_c_104) (TRef.of (T := ⟨S_, .i32⟩) main_call12_v0) id (hop := rfl) (hyi := (by decide)) (hxi := (by decide))).trans
    (congrArg (fun t => (TRef.of (T := ⟨S_, .i32⟩) main_call12_v0).toBuf ((id) ((TRef.of (T := ⟨S_, .i32⟩) main_c_104).ofBuf t))) (e_main_c_104 V))
theorem e_main_call12_v1 : after (ops (F := F)) V (Proc.devRef .tc main_call12_v1) = val_main_call12_v1 (F := F) :=
  (tunary_eq later_504 later_505 (Nat.lt_of_lt_of_eq (by decide : 504 < 1293) ops_len.symm) V (TRef.of (T := ⟨S_, .i32⟩) main_call12_v0) (TRef.of (T := ⟨S512x128, .i32⟩) main_call12_v1) (broadcastInDim S512x128 ![] bcast_S_S512x128) (hop := rfl) (hyi := (by decide)) (hxi := (by decide))).trans
    (congrArg (fun t => (TRef.of (T := ⟨S512x128, .i32⟩) main_call12_v1).toBuf (((broadcastInDim S512x128 ![] bcast_S_S512x128)) ((TRef.of (T := ⟨S_, .i32⟩) main_call12_v0).ofBuf t))) (e_main_call12_v0 V))
theorem e_main_call12_v2 : after (ops (F := F)) V (Proc.devRef .tc main_call12_v2) = val_main_call12_v2 (F := F) (a4 V) (a5 V) :=
  (tbinary_eq later_505 later_506 (Nat.lt_of_lt_of_eq (by decide : 505 < 1293) ops_len.symm) V (TRef.of (T := ⟨S512x128, .i32⟩) main_call12_v1) (TRef.of (T := ⟨S512x128, .i32⟩) main_v240) (TRef.of (T := ⟨S512x128, .i32⟩) main_call12_v2) maxsi (hop := rfl) (hyi := (by decide)) (hai := (by decide)) (hbi := (by decide))).trans
    (by rw [e_main_call12_v1 V, e_main_v240 V]; rfl)
theorem e_main_call12_v3 : after (ops (F := F)) V (Proc.devRef .tc main_call12_v3) = val_main_call12_v3 (F := F) :=
  (tunary_eq later_506 later_507 (Nat.lt_of_lt_of_eq (by decide : 506 < 1293) ops_len.symm) V (TRef.of (T := ⟨S_, .i32⟩) main_c_105) (TRef.of (T := ⟨S_, .i32⟩) main_call12_v3) id (hop := rfl) (hyi := (by decide)) (hxi := (by decide))).trans
    (congrArg (fun t => (TRef.of (T := ⟨S_, .i32⟩) main_call12_v3).toBuf ((id) ((TRef.of (T := ⟨S_, .i32⟩) main_c_105).ofBuf t))) (e_main_c_105 V))
theorem e_main_call12_v4 : after (ops (F := F)) V (Proc.devRef .tc main_call12_v4) = val_main_call12_v4 (F := F) :=
  (tunary_eq later_507 later_508 (Nat.lt_of_lt_of_eq (by decide : 507 < 1293) ops_len.symm) V (TRef.of (T := ⟨S_, .i32⟩) main_call12_v3) (TRef.of (T := ⟨S512x128, .i32⟩) main_call12_v4) (broadcastInDim S512x128 ![] bcast_S_S512x128) (hop := rfl) (hyi := (by decide)) (hxi := (by decide))).trans
    (congrArg (fun t => (TRef.of (T := ⟨S512x128, .i32⟩) main_call12_v4).toBuf (((broadcastInDim S512x128 ![] bcast_S_S512x128)) ((TRef.of (T := ⟨S_, .i32⟩) main_call12_v3).ofBuf t))) (e_main_call12_v3 V))
theorem e_main_v335 : after (ops (F := F)) V (Proc.devRef .tc main_v335) = val_main_v335 (F := F) (a4 V) (a5 V) :=
  (tbinary_eq later_508 later_509 (Nat.lt_of_lt_of_eq (by decide : 508 < 1293) ops_len.symm) V (TRef.of (T := ⟨S512x128, .i32⟩) main_call12_v4) (TRef.of (T := ⟨S512x128, .i32⟩) main_call12_v2) (TRef.of (T := ⟨S512x128, .i32⟩) main_v335) minsi (hop := rfl) (hyi := (by decide)) (hai := (by decide)) (hbi := (by decide))).trans
    (by rw [e_main_call12_v4 V, e_main_call12_v2 V]; rfl)
theorem e_main_c_106 : after (ops (F := F)) V (Proc.devRef .tc main_c_106) = val_main_c_106 (F := F) :=
  nullary_eq later_509 later_510 (Nat.lt_of_lt_of_eq (by decide : 509 < 1293) ops_len.symm) V main_c_106 (constantI S_ 32 0#32) (hop := rfl) (hyi := (by decide))
theorem e_main_c_107 : after (ops (F := F)) V (Proc.devRef .tc main_c_107) = val_main_c_107 (F := F) :=
  nullary_eq later_510 later_511 (Nat.lt_of_lt_of_eq (by decide : 510 < 1293) ops_len.symm) V main_c_107 (constantI S_ 32 127#32) (hop := rfl) (hyi := (by decide))
theorem e_main_call13_v0 : after (ops (F := F)) V (Proc.devRef .tc main_call13_v0) = val_main_call13_v0 (F := F) :=
  (tunary_eq later_511 later_512 (Nat.lt_of_lt_of_eq (by decide : 511 < 1293) ops_len.symm) V (TRef.of (T := ⟨S_, .i32⟩) main_c_106) (TRef.of (T := ⟨S_, .i32⟩) main_call13_v0) id (hop := rfl) (hyi := (by decide)) (hxi := (by decide))).trans
    (congrArg (fun t => (TRef.of (T := ⟨S_, .i32⟩) main_call13_v0).toBuf ((id) ((TRef.of (T := ⟨S_, .i32⟩) main_c_106).ofBuf t))) (e_main_c_106 V))
theorem e_main_call13_v1 : after (ops (F := F)) V (Proc.devRef .tc main_call13_v1) = val_main_call13_v1 (F := F) :=
  (tunary_eq later_512 later_513 (Nat.lt_of_lt_of_eq (by decide : 512 < 1293) ops_len.symm) V (TRef.of (T := ⟨S_, .i32⟩) main_call13_v0) (TRef.of (T := ⟨S512x128, .i32⟩) main_call13_v1) (broadcastInDim S512x128 ![] bcast_S_S512x128) (hop := rfl) (hyi := (by decide)) (hxi := (by decide))).trans
    (congrArg (fun t => (TRef.of (T := ⟨S512x128, .i32⟩) main_call13_v1).toBuf (((broadcastInDim S512x128 ![] bcast_S_S512x128)) ((TRef.of (T := ⟨S_, .i32⟩) main_call13_v0).ofBuf t))) (e_main_call13_v0 V))
theorem e_main_call13_v2 : after (ops (F := F)) V (Proc.devRef .tc main_call13_v2) = val_main_call13_v2 (F := F) (a4 V) (a5 V) :=
  (tbinary_eq later_513 later_514 (Nat.lt_of_lt_of_eq (by decide : 513 < 1293) ops_len.symm) V (TRef.of (T := ⟨S512x128, .i32⟩) main_call13_v1) (TRef.of (T := ⟨S512x128, .i32⟩) main_v323) (TRef.of (T := ⟨S512x128, .i32⟩) main_call13_v2) maxsi (hop := rfl) (hyi := (by decide)) (hai := (by decide)) (hbi := (by decide))).trans
    (by rw [e_main_call13_v1 V, e_main_v323 V]; rfl)
theorem e_main_call13_v3 : after (ops (F := F)) V (Proc.devRef .tc main_call13_v3) = val_main_call13_v3 (F := F) :=
  (tunary_eq later_514 later_515 (Nat.lt_of_lt_of_eq (by decide : 514 < 1293) ops_len.symm) V (TRef.of (T := ⟨S_, .i32⟩) main_c_107) (TRef.of (T := ⟨S_, .i32⟩) main_call13_v3) id (hop := rfl) (hyi := (by decide)) (hxi := (by decide))).trans
    (congrArg (fun t => (TRef.of (T := ⟨S_, .i32⟩) main_call13_v3).toBuf ((id) ((TRef.of (T := ⟨S_, .i32⟩) main_c_107).ofBuf t))) (e_main_c_107 V))
theorem e_main_call13_v4 : after (ops (F := F)) V (Proc.devRef .tc main_call13_v4) = val_main_call13_v4 (F := F) :=
  (tunary_eq later_515 later_516 (Nat.lt_of_lt_of_eq (by decide : 515 < 1293) ops_len.symm) V (TRef.of (T := ⟨S_, .i32⟩) main_call13_v3) (TRef.of (T := ⟨S512x128, .i32⟩) main_call13_v4) (broadcastInDim S512x128 ![] bcast_S_S512x128) (hop := rfl) (hyi := (by decide)) (hxi := (by decide))).trans
    (congrArg (fun t => (TRef.of (T := ⟨S512x128, .i32⟩) main_call13_v4).toBuf (((broadcastInDim S512x128 ![] bcast_S_S512x128)) ((TRef.of (T := ⟨S_, .i32⟩) main_call13_v3).ofBuf t))) (e_main_call13_v3 V))
theorem e_main_v336 : after (ops (F := F)) V (Proc.devRef .tc main_v336) = val_main_v336 (F := F) (a4 V) (a5 V) :=
  (tbinary_eq later_516 later_517 (Nat.lt_of_lt_of_eq (by decide : 516 < 1293) ops_len.symm) V (TRef.of (T := ⟨S512x128, .i32⟩) main_call13_v4) (TRef.of (T := ⟨S512x128, .i32⟩) main_call13_v2) (TRef.of (T := ⟨S512x128, .i32⟩) main_v336) minsi (hop := rfl) (hyi := (by decide)) (hai := (by decide)) (hbi := (by decide))).trans
    (by rw [e_main_call13_v4 V, e_main_call13_v2 V]; rfl)
theorem e_main_v337 : after (ops (F := F)) V (Proc.devRef .tc main_v337) = val_main_v337 (F := F) (a4 V) :=
  (unary_eq later_517 later_518 (Nat.lt_of_lt_of_eq (by decide : 517 < 1293) ops_len.symm) V main_v2 main_v337 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_108 : after (ops (F := F)) V (Proc.devRef .tc main_c_108) = val_main_c_108 (F := F) :=
  nullary_eq later_518 later_519 (Nat.lt_of_lt_of_eq (by decide : 518 < 1293) ops_len.symm) V main_c_108 (constantI S_ 32 0#32) (hop := rfl) (hyi := (by decide))
theorem e_main_v338 : after (ops (F := F)) V (Proc.devRef .tc main_v338) = val_main_v338 (F := F) :=
  (unary_eq later_519 later_520 (Nat.lt_of_lt_of_eq (by decide : 519 < 1293) ops_len.symm) V main_c_108 main_v338 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_108 V))
theorem e_main_v339 : after (ops (F := F)) V (Proc.devRef .tc main_v339) = val_main_v339 (F := F) (a4 V) :=
  (binary_eq later_520 later_521 (Nat.lt_of_lt_of_eq (by decide : 520 < 1293) ops_len.symm) V main_v337 main_v338 main_v339 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v337 V) (e_main_v338 V))
theorem e_main_c_109 : after (ops (F := F)) V (Proc.devRef .tc main_c_109) = val_main_c_109 (F := F) :=
  nullary_eq later_521 later_522 (Nat.lt_of_lt_of_eq (by decide : 521 < 1293) ops_len.symm) V main_c_109 (constantI S_ 32 2#32) (hop := rfl) (hyi := (by decide))
theorem e_main_v340 : after (ops (F := F)) V (Proc.devRef .tc main_v340) = val_main_v340 (F := F) :=
  (unary_eq later_522 later_523 (Nat.lt_of_lt_of_eq (by decide : 522 < 1293) ops_len.symm) V main_c_109 main_v340 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_109 V))
theorem e_main_v341 : after (ops (F := F)) V (Proc.devRef .tc main_v341) = val_main_v341 (F := F) (a4 V) :=
  (binary_eq later_523 later_524 (Nat.lt_of_lt_of_eq (by decide : 523 < 1293) ops_len.symm) V main_v337 main_v340 main_v341 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v337 V) (e_main_v340 V))
theorem e_main_v342 : after (ops (F := F)) V (Proc.devRef .tc main_v342) = val_main_v342 (F := F) (a4 V) :=
  (ternary_eq later_524 later_525 (Nat.lt_of_lt_of_eq (by decide : 524 < 1293) ops_len.symm) V main_v339 main_v341 main_v337 main_v342 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v339 V) (e_main_v341 V) (e_main_v337 V))
theorem e_main_c_110 : after (ops (F := F)) V (Proc.devRef .tc main_c_110) = val_main_c_110 (F := F) :=
  nullary_eq later_525 later_526 (Nat.lt_of_lt_of_eq (by decide : 525 < 1293) ops_len.symm) V main_c_110 (constantI S_ 32 0#32) (hop := rfl) (hyi := (by decide))
theorem e_main_v343 : after (ops (F := F)) V (Proc.devRef .tc main_v343) = val_main_v343 (F := F) :=
  (unary_eq later_526 later_527 (Nat.lt_of_lt_of_eq (by decide : 526 < 1293) ops_len.symm) V main_c_110 main_v343 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_110 V))
theorem e_main_v344 : after (ops (F := F)) V (Proc.devRef .tc main_v344) = val_main_v344 (F := F) (a4 V) (a5 V) :=
  (binary_eq later_527 later_528 (Nat.lt_of_lt_of_eq (by decide : 527 < 1293) ops_len.symm) V main_v336 main_v343 main_v344 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v336 V) (e_main_v343 V))
theorem e_main_c_111 : after (ops (F := F)) V (Proc.devRef .tc main_c_111) = val_main_c_111 (F := F) :=
  nullary_eq later_528 later_529 (Nat.lt_of_lt_of_eq (by decide : 528 < 1293) ops_len.symm) V main_c_111 (constantI S_ 32 128#32) (hop := rfl) (hyi := (by decide))
theorem e_main_v345 : after (ops (F := F)) V (Proc.devRef .tc main_v345) = val_main_v345 (F := F) :=
  (unary_eq later_529 later_530 (Nat.lt_of_lt_of_eq (by decide : 529 < 1293) ops_len.symm) V main_c_111 main_v345 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_111 V))
theorem e_main_v346 : after (ops (F := F)) V (Proc.devRef .tc main_v346) = val_main_v346 (F := F) (a4 V) (a5 V) :=
  (binary_eq later_530 later_531 (Nat.lt_of_lt_of_eq (by decide : 530 < 1293) ops_len.symm) V main_v336 main_v345 main_v346 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v336 V) (e_main_v345 V))
theorem e_main_v347 : after (ops (F := F)) V (Proc.devRef .tc main_v347) = val_main_v347 (F := F) (a4 V) (a5 V) :=
  (ternary_eq later_531 later_532 (Nat.lt_of_lt_of_eq (by decide : 531 < 1293) ops_len.symm) V main_v344 main_v346 main_v336 main_v347 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v344 V) (e_main_v346 V) (e_main_v336 V))
theorem e_main_c_112 : after (ops (F := F)) V (Proc.devRef .tc main_c_112) = val_main_c_112 (F := F) :=
  nullary_eq later_532 later_533 (Nat.lt_of_lt_of_eq (by decide : 532 < 1293) ops_len.symm) V main_c_112 (constantI S_ 32 0#32) (hop := rfl) (hyi := (by decide))
theorem e_main_v348 : after (ops (F := F)) V (Proc.devRef .tc main_v348) = val_main_v348 (F := F) :=
  (unary_eq later_533 later_534 (Nat.lt_of_lt_of_eq (by decide : 533 < 1293) ops_len.symm) V main_c_112 main_v348 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_112 V))
theorem e_main_v349 : after (ops (F := F)) V (Proc.devRef .tc main_v349) = val_main_v349 (F := F) (a4 V) (a5 V) :=
  (binary_eq later_534 later_535 (Nat.lt_of_lt_of_eq (by decide : 534 < 1293) ops_len.symm) V main_v335 main_v348 main_v349 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v335 V) (e_main_v348 V))
theorem e_main_c_113 : after (ops (F := F)) V (Proc.devRef .tc main_c_113) = val_main_c_113 (F := F) :=
  nullary_eq later_535 later_536 (Nat.lt_of_lt_of_eq (by decide : 535 < 1293) ops_len.symm) V main_c_113 (constantI S_ 32 128#32) (hop := rfl) (hyi := (by decide))
theorem e_main_v350 : after (ops (F := F)) V (Proc.devRef .tc main_v350) = val_main_v350 (F := F) :=
  (unary_eq later_536 later_537 (Nat.lt_of_lt_of_eq (by decide : 536 < 1293) ops_len.symm) V main_c_113 main_v350 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_113 V))
theorem e_main_v351 : after (ops (F := F)) V (Proc.devRef .tc main_v351) = val_main_v351 (F := F) (a4 V) (a5 V) :=
  (binary_eq later_537 later_538 (Nat.lt_of_lt_of_eq (by decide : 537 < 1293) ops_len.symm) V main_v335 main_v350 main_v351 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v335 V) (e_main_v350 V))
theorem e_main_v352 : after (ops (F := F)) V (Proc.devRef .tc main_v352) = val_main_v352 (F := F) (a4 V) (a5 V) :=
  (ternary_eq later_538 later_539 (Nat.lt_of_lt_of_eq (by decide : 538 < 1293) ops_len.symm) V main_v349 main_v351 main_v335 main_v352 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v349 V) (e_main_v351 V) (e_main_v335 V))
theorem e_main_v353 : after (ops (F := F)) V (Proc.devRef .tc main_v353) = val_main_v353 (F := F) (a4 V) :=
  (unary_eq later_539 later_540 (Nat.lt_of_lt_of_eq (by decide : 539 < 1293) ops_len.symm) V main_v342 main_v353 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v342 V))
theorem e_main_v354 : after (ops (F := F)) V (Proc.devRef .tc main_v354) = val_main_v354 (F := F) (a4 V) :=
  (unary_eq later_540 later_541 (Nat.lt_of_lt_of_eq (by decide : 540 < 1293) ops_len.symm) V main_v353 main_v354 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v353 V))
theorem e_main_v355 : after (ops (F := F)) V (Proc.devRef .tc main_v355) = val_main_v355 (F := F) (a4 V) (a5 V) :=
  (unary_eq later_541 later_542 (Nat.lt_of_lt_of_eq (by decide : 541 < 1293) ops_len.symm) V main_v347 main_v355 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v347 V))
theorem e_main_v356 : after (ops (F := F)) V (Proc.devRef .tc main_v356) = val_main_v356 (F := F) (a4 V) (a5 V) :=
  (unary_eq later_542 later_543 (Nat.lt_of_lt_of_eq (by decide : 542 < 1293) ops_len.symm) V main_v352 main_v356 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v352 V))
theorem e_main_v357 : after (ops (F := F)) V (Proc.devRef .tc main_v357) = val_main_v357 (F := F) (a4 V) (a5 V) :=
  (nary_eq later_543 later_544 (Nat.lt_of_lt_of_eq (by decide : 543 < 1293) ops_len.symm) V ![main_v354, main_v355, main_v356] main_v357 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v354)⟩, ⟨S512x128x1, after (ops (F := F)) V (Proc.devRef .tc main_v355)⟩, ⟨S512x128x1, after (ops (F := F)) V (Proc.devRef .tc main_v356)⟩] concatenates_S512x128x1_S512x128x1_S512x128x1_S512x128x3_d2 = _
    rw [e_main_v354 V, e_main_v355 V, e_main_v356 V]; rfl)
theorem e_main_v358 : after (ops (F := F)) V (Proc.devRef .tc main_v358) = val_main_v358 (F := F) (a1 V) (a4 V) (a5 V) :=
  (binary_eq later_544 later_545 (Nat.lt_of_lt_of_eq (by decide : 544 < 1293) ops_len.symm) V main_arg1 main_v357 main_v358 ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (e_main_arg1 V) (e_main_v357 V))
theorem e_main_v359 : after (ops (F := F)) V (Proc.devRef .tc main_v359) = val_main_v359 (F := F) (a4 V) (a5 V) :=
  (unary_eq later_545 later_546 (Nat.lt_of_lt_of_eq (by decide : 545 < 1293) ops_len.symm) V main_v334 main_v359 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v334 V))
theorem e_main_v360 : after (ops (F := F)) V (Proc.devRef .tc main_v360) = val_main_v360 (F := F) (a4 V) (a5 V) :=
  (unary_eq later_546 later_547 (Nat.lt_of_lt_of_eq (by decide : 546 < 1293) ops_len.symm) V main_v359 main_v360 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v359 V))
theorem e_main_v361 : after (ops (F := F)) V (Proc.devRef .tc main_v361) = val_main_v361 (F := F) (a4 V) (a5 V) :=
  (unary_eq later_547 later_548 (Nat.lt_of_lt_of_eq (by decide : 547 < 1293) ops_len.symm) V main_v360 main_v361 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v360 V))
theorem e_main_v362 : after (ops (F := F)) V (Proc.devRef .tc main_v362) = val_main_v362 (F := F) (a1 V) (a4 V) (a5 V) :=
  (binary_eq later_548 later_549 (Nat.lt_of_lt_of_eq (by decide : 548 < 1293) ops_len.symm) V main_v358 main_v361 main_v362 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v358 V) (e_main_v361 V))
theorem e_main_c_114 : after (ops (F := F)) V (Proc.devRef .tc main_c_114) = val_main_c_114 (F := F) :=
  nullary_eq later_549 later_550 (Nat.lt_of_lt_of_eq (by decide : 549 < 1293) ops_len.symm) V main_c_114 (constantI S_ 32 1#32) (hop := rfl) (hyi := (by decide))
theorem e_main_v363 : after (ops (F := F)) V (Proc.devRef .tc main_v363) = val_main_v363 (F := F) :=
  (unary_eq later_550 later_551 (Nat.lt_of_lt_of_eq (by decide : 550 < 1293) ops_len.symm) V main_c_114 main_v363 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_114 V))
theorem e_main_v364 : after (ops (F := F)) V (Proc.devRef .tc main_v364) = val_main_v364 (F := F) (a4 V) (a5 V) :=
  (binary_eq later_551 later_552 (Nat.lt_of_lt_of_eq (by decide : 551 < 1293) ops_len.symm) V main_v241 main_v363 main_v364 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v241 V) (e_main_v363 V))
theorem e_main_c_115 : after (ops (F := F)) V (Proc.devRef .tc main_c_115) = val_main_c_115 (F := F) :=
  nullary_eq later_552 later_553 (Nat.lt_of_lt_of_eq (by decide : 552 < 1293) ops_len.symm) V main_c_115 (constantI S_ 32 1#32) (hop := rfl) (hyi := (by decide))
theorem e_main_v365 : after (ops (F := F)) V (Proc.devRef .tc main_v365) = val_main_v365 (F := F) :=
  (unary_eq later_553 later_554 (Nat.lt_of_lt_of_eq (by decide : 553 < 1293) ops_len.symm) V main_c_115 main_v365 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_115 V))
theorem e_main_v366 : after (ops (F := F)) V (Proc.devRef .tc main_v366) = val_main_v366 (F := F) (a4 V) (a5 V) :=
  (binary_eq later_554 later_555 (Nat.lt_of_lt_of_eq (by decide : 554 < 1293) ops_len.symm) V main_v240 main_v365 main_v366 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v240 V) (e_main_v365 V))
theorem e_main_c_116 : after (ops (F := F)) V (Proc.devRef .tc main_c_116) = val_main_c_116 (F := F) :=
  nullary_eq later_555 later_556 (Nat.lt_of_lt_of_eq (by decide : 555 < 1293) ops_len.symm) V main_c_116 (constantI S_ 32 0#32) (hop := rfl) (hyi := (by decide))
theorem e_main_v367 : after (ops (F := F)) V (Proc.devRef .tc main_v367) = val_main_v367 (F := F) :=
  (unary_eq later_556 later_557 (Nat.lt_of_lt_of_eq (by decide : 556 < 1293) ops_len.symm) V main_c_116 main_v367 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_116 V))
theorem e_main_v368 : after (ops (F := F)) V (Proc.devRef .tc main_v368) = val_main_v368 (F := F) (a4 V) (a5 V) :=
  (binary_eq later_557 later_558 (Nat.lt_of_lt_of_eq (by decide : 557 < 1293) ops_len.symm) V main_v366 main_v367 main_v368 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v366 V) (e_main_v367 V))
theorem e_main_c_117 : after (ops (F := F)) V (Proc.devRef .tc main_c_117) = val_main_c_117 (F := F) :=
  nullary_eq later_558 later_559 (Nat.lt_of_lt_of_eq (by decide : 558 < 1293) ops_len.symm) V main_c_117 (constantI S_ 32 128#32) (hop := rfl) (hyi := (by decide))
theorem e_main_v369 : after (ops (F := F)) V (Proc.devRef .tc main_v369) = val_main_v369 (F := F) :=
  (unary_eq later_559 later_560 (Nat.lt_of_lt_of_eq (by decide : 559 < 1293) ops_len.symm) V main_c_117 main_v369 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_117 V))
theorem e_main_v370 : after (ops (F := F)) V (Proc.devRef .tc main_v370) = val_main_v370 (F := F) (a4 V) (a5 V) :=
  (binary_eq later_560 later_561 (Nat.lt_of_lt_of_eq (by decide : 560 < 1293) ops_len.symm) V main_v366 main_v369 main_v370 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v366 V) (e_main_v369 V))
theorem e_main_v371 : after (ops (F := F)) V (Proc.devRef .tc main_v371) = val_main_v371 (F := F) (a4 V) (a5 V) :=
  (binary_eq later_561 later_562 (Nat.lt_of_lt_of_eq (by decide : 561 < 1293) ops_len.symm) V main_v368 main_v370 main_v371 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v368 V) (e_main_v370 V))
theorem e_main_c_118 : after (ops (F := F)) V (Proc.devRef .tc main_c_118) = val_main_c_118 (F := F) :=
  nullary_eq later_562 later_563 (Nat.lt_of_lt_of_eq (by decide : 562 < 1293) ops_len.symm) V main_c_118 (constantI S_ 32 0#32) (hop := rfl) (hyi := (by decide))
theorem e_main_v372 : after (ops (F := F)) V (Proc.devRef .tc main_v372) = val_main_v372 (F := F) :=
  (unary_eq later_563 later_564 (Nat.lt_of_lt_of_eq (by decide : 563 < 1293) ops_len.symm) V main_c_118 main_v372 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_118 V))
theorem e_main_v373 : after (ops (F := F)) V (Proc.devRef .tc main_v373) = val_main_v373 (F := F) (a4 V) (a5 V) :=
  (binary_eq later_564 later_565 (Nat.lt_of_lt_of_eq (by decide : 564 < 1293) ops_len.symm) V main_v364 main_v372 main_v373 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v364 V) (e_main_v372 V))
theorem e_main_v374 : after (ops (F := F)) V (Proc.devRef .tc main_v374) = val_main_v374 (F := F) (a4 V) (a5 V) :=
  (binary_eq later_565 later_566 (Nat.lt_of_lt_of_eq (by decide : 565 < 1293) ops_len.symm) V main_v371 main_v373 main_v374 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v371 V) (e_main_v373 V))
theorem e_main_c_119 : after (ops (F := F)) V (Proc.devRef .tc main_c_119) = val_main_c_119 (F := F) :=
  nullary_eq later_566 later_567 (Nat.lt_of_lt_of_eq (by decide : 566 < 1293) ops_len.symm) V main_c_119 (constantI S_ 32 128#32) (hop := rfl) (hyi := (by decide))
theorem e_main_v375 : after (ops (F := F)) V (Proc.devRef .tc main_v375) = val_main_v375 (F := F) :=
  (unary_eq later_567 later_568 (Nat.lt_of_lt_of_eq (by decide : 567 < 1293) ops_len.symm) V main_c_119 main_v375 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_119 V))
theorem e_main_v376 : after (ops (F := F)) V (Proc.devRef .tc main_v376) = val_main_v376 (F := F) (a4 V) (a5 V) :=
  (binary_eq later_568 later_569 (Nat.lt_of_lt_of_eq (by decide : 568 < 1293) ops_len.symm) V main_v364 main_v375 main_v376 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v364 V) (e_main_v375 V))
theorem e_main_v377 : after (ops (F := F)) V (Proc.devRef .tc main_v377) = val_main_v377 (F := F) (a4 V) (a5 V) :=
  (binary_eq later_569 later_570 (Nat.lt_of_lt_of_eq (by decide : 569 < 1293) ops_len.symm) V main_v374 main_v376 main_v377 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v374 V) (e_main_v376 V))
theorem e_main_c_120 : after (ops (F := F)) V (Proc.devRef .tc main_c_120) = val_main_c_120 (F := F) :=
  nullary_eq later_570 later_571 (Nat.lt_of_lt_of_eq (by decide : 570 < 1293) ops_len.symm) V main_c_120 (constantI S_ 32 0#32) (hop := rfl) (hyi := (by decide))
theorem e_main_c_121 : after (ops (F := F)) V (Proc.devRef .tc main_c_121) = val_main_c_121 (F := F) :=
  nullary_eq later_571 later_572 (Nat.lt_of_lt_of_eq (by decide : 571 < 1293) ops_len.symm) V main_c_121 (constantI S_ 32 127#32) (hop := rfl) (hyi := (by decide))
theorem e_main_call14_v0 : after (ops (F := F)) V (Proc.devRef .tc main_call14_v0) = val_main_call14_v0 (F := F) :=
  (tunary_eq later_572 later_573 (Nat.lt_of_lt_of_eq (by decide : 572 < 1293) ops_len.symm) V (TRef.of (T := ⟨S_, .i32⟩) main_c_120) (TRef.of (T := ⟨S_, .i32⟩) main_call14_v0) id (hop := rfl) (hyi := (by decide)) (hxi := (by decide))).trans
    (congrArg (fun t => (TRef.of (T := ⟨S_, .i32⟩) main_call14_v0).toBuf ((id) ((TRef.of (T := ⟨S_, .i32⟩) main_c_120).ofBuf t))) (e_main_c_120 V))
theorem e_main_call14_v1 : after (ops (F := F)) V (Proc.devRef .tc main_call14_v1) = val_main_call14_v1 (F := F) :=
  (tunary_eq later_573 later_574 (Nat.lt_of_lt_of_eq (by decide : 573 < 1293) ops_len.symm) V (TRef.of (T := ⟨S_, .i32⟩) main_call14_v0) (TRef.of (T := ⟨S512x128, .i32⟩) main_call14_v1) (broadcastInDim S512x128 ![] bcast_S_S512x128) (hop := rfl) (hyi := (by decide)) (hxi := (by decide))).trans
    (congrArg (fun t => (TRef.of (T := ⟨S512x128, .i32⟩) main_call14_v1).toBuf (((broadcastInDim S512x128 ![] bcast_S_S512x128)) ((TRef.of (T := ⟨S_, .i32⟩) main_call14_v0).ofBuf t))) (e_main_call14_v0 V))
theorem e_main_call14_v2 : after (ops (F := F)) V (Proc.devRef .tc main_call14_v2) = val_main_call14_v2 (F := F) (a4 V) (a5 V) :=
  (tbinary_eq later_574 later_575 (Nat.lt_of_lt_of_eq (by decide : 574 < 1293) ops_len.symm) V (TRef.of (T := ⟨S512x128, .i32⟩) main_call14_v1) (TRef.of (T := ⟨S512x128, .i32⟩) main_v366) (TRef.of (T := ⟨S512x128, .i32⟩) main_call14_v2) maxsi (hop := rfl) (hyi := (by decide)) (hai := (by decide)) (hbi := (by decide))).trans
    (by rw [e_main_call14_v1 V, e_main_v366 V]; rfl)
theorem e_main_call14_v3 : after (ops (F := F)) V (Proc.devRef .tc main_call14_v3) = val_main_call14_v3 (F := F) :=
  (tunary_eq later_575 later_576 (Nat.lt_of_lt_of_eq (by decide : 575 < 1293) ops_len.symm) V (TRef.of (T := ⟨S_, .i32⟩) main_c_121) (TRef.of (T := ⟨S_, .i32⟩) main_call14_v3) id (hop := rfl) (hyi := (by decide)) (hxi := (by decide))).trans
    (congrArg (fun t => (TRef.of (T := ⟨S_, .i32⟩) main_call14_v3).toBuf ((id) ((TRef.of (T := ⟨S_, .i32⟩) main_c_121).ofBuf t))) (e_main_c_121 V))
theorem e_main_call14_v4 : after (ops (F := F)) V (Proc.devRef .tc main_call14_v4) = val_main_call14_v4 (F := F) :=
  (tunary_eq later_576 later_577 (Nat.lt_of_lt_of_eq (by decide : 576 < 1293) ops_len.symm) V (TRef.of (T := ⟨S_, .i32⟩) main_call14_v3) (TRef.of (T := ⟨S512x128, .i32⟩) main_call14_v4) (broadcastInDim S512x128 ![] bcast_S_S512x128) (hop := rfl) (hyi := (by decide)) (hxi := (by decide))).trans
    (congrArg (fun t => (TRef.of (T := ⟨S512x128, .i32⟩) main_call14_v4).toBuf (((broadcastInDim S512x128 ![] bcast_S_S512x128)) ((TRef.of (T := ⟨S_, .i32⟩) main_call14_v3).ofBuf t))) (e_main_call14_v3 V))
theorem e_main_v378 : after (ops (F := F)) V (Proc.devRef .tc main_v378) = val_main_v378 (F := F) (a4 V) (a5 V) :=
  (tbinary_eq later_577 later_578 (Nat.lt_of_lt_of_eq (by decide : 577 < 1293) ops_len.symm) V (TRef.of (T := ⟨S512x128, .i32⟩) main_call14_v4) (TRef.of (T := ⟨S512x128, .i32⟩) main_call14_v2) (TRef.of (T := ⟨S512x128, .i32⟩) main_v378) minsi (hop := rfl) (hyi := (by decide)) (hai := (by decide)) (hbi := (by decide))).trans
    (by rw [e_main_call14_v4 V, e_main_call14_v2 V]; rfl)
theorem e_main_c_122 : after (ops (F := F)) V (Proc.devRef .tc main_c_122) = val_main_c_122 (F := F) :=
  nullary_eq later_578 later_579 (Nat.lt_of_lt_of_eq (by decide : 578 < 1293) ops_len.symm) V main_c_122 (constantI S_ 32 0#32) (hop := rfl) (hyi := (by decide))
theorem e_main_c_123 : after (ops (F := F)) V (Proc.devRef .tc main_c_123) = val_main_c_123 (F := F) :=
  nullary_eq later_579 later_580 (Nat.lt_of_lt_of_eq (by decide : 579 < 1293) ops_len.symm) V main_c_123 (constantI S_ 32 127#32) (hop := rfl) (hyi := (by decide))
theorem e_main_call15_v0 : after (ops (F := F)) V (Proc.devRef .tc main_call15_v0) = val_main_call15_v0 (F := F) :=
  (tunary_eq later_580 later_581 (Nat.lt_of_lt_of_eq (by decide : 580 < 1293) ops_len.symm) V (TRef.of (T := ⟨S_, .i32⟩) main_c_122) (TRef.of (T := ⟨S_, .i32⟩) main_call15_v0) id (hop := rfl) (hyi := (by decide)) (hxi := (by decide))).trans
    (congrArg (fun t => (TRef.of (T := ⟨S_, .i32⟩) main_call15_v0).toBuf ((id) ((TRef.of (T := ⟨S_, .i32⟩) main_c_122).ofBuf t))) (e_main_c_122 V))
theorem e_main_call15_v1 : after (ops (F := F)) V (Proc.devRef .tc main_call15_v1) = val_main_call15_v1 (F := F) :=
  (tunary_eq later_581 later_582 (Nat.lt_of_lt_of_eq (by decide : 581 < 1293) ops_len.symm) V (TRef.of (T := ⟨S_, .i32⟩) main_call15_v0) (TRef.of (T := ⟨S512x128, .i32⟩) main_call15_v1) (broadcastInDim S512x128 ![] bcast_S_S512x128) (hop := rfl) (hyi := (by decide)) (hxi := (by decide))).trans
    (congrArg (fun t => (TRef.of (T := ⟨S512x128, .i32⟩) main_call15_v1).toBuf (((broadcastInDim S512x128 ![] bcast_S_S512x128)) ((TRef.of (T := ⟨S_, .i32⟩) main_call15_v0).ofBuf t))) (e_main_call15_v0 V))
theorem e_main_call15_v2 : after (ops (F := F)) V (Proc.devRef .tc main_call15_v2) = val_main_call15_v2 (F := F) (a4 V) (a5 V) :=
  (tbinary_eq later_582 later_583 (Nat.lt_of_lt_of_eq (by decide : 582 < 1293) ops_len.symm) V (TRef.of (T := ⟨S512x128, .i32⟩) main_call15_v1) (TRef.of (T := ⟨S512x128, .i32⟩) main_v364) (TRef.of (T := ⟨S512x128, .i32⟩) main_call15_v2) maxsi (hop := rfl) (hyi := (by decide)) (hai := (by decide)) (hbi := (by decide))).trans
    (by rw [e_main_call15_v1 V, e_main_v364 V]; rfl)
theorem e_main_call15_v3 : after (ops (F := F)) V (Proc.devRef .tc main_call15_v3) = val_main_call15_v3 (F := F) :=
  (tunary_eq later_583 later_584 (Nat.lt_of_lt_of_eq (by decide : 583 < 1293) ops_len.symm) V (TRef.of (T := ⟨S_, .i32⟩) main_c_123) (TRef.of (T := ⟨S_, .i32⟩) main_call15_v3) id (hop := rfl) (hyi := (by decide)) (hxi := (by decide))).trans
    (congrArg (fun t => (TRef.of (T := ⟨S_, .i32⟩) main_call15_v3).toBuf ((id) ((TRef.of (T := ⟨S_, .i32⟩) main_c_123).ofBuf t))) (e_main_c_123 V))
theorem e_main_call15_v4 : after (ops (F := F)) V (Proc.devRef .tc main_call15_v4) = val_main_call15_v4 (F := F) :=
  (tunary_eq later_584 later_585 (Nat.lt_of_lt_of_eq (by decide : 584 < 1293) ops_len.symm) V (TRef.of (T := ⟨S_, .i32⟩) main_call15_v3) (TRef.of (T := ⟨S512x128, .i32⟩) main_call15_v4) (broadcastInDim S512x128 ![] bcast_S_S512x128) (hop := rfl) (hyi := (by decide)) (hxi := (by decide))).trans
    (congrArg (fun t => (TRef.of (T := ⟨S512x128, .i32⟩) main_call15_v4).toBuf (((broadcastInDim S512x128 ![] bcast_S_S512x128)) ((TRef.of (T := ⟨S_, .i32⟩) main_call15_v3).ofBuf t))) (e_main_call15_v3 V))
theorem e_main_v379 : after (ops (F := F)) V (Proc.devRef .tc main_v379) = val_main_v379 (F := F) (a4 V) (a5 V) :=
  (tbinary_eq later_585 later_586 (Nat.lt_of_lt_of_eq (by decide : 585 < 1293) ops_len.symm) V (TRef.of (T := ⟨S512x128, .i32⟩) main_call15_v4) (TRef.of (T := ⟨S512x128, .i32⟩) main_call15_v2) (TRef.of (T := ⟨S512x128, .i32⟩) main_v379) minsi (hop := rfl) (hyi := (by decide)) (hai := (by decide)) (hbi := (by decide))).trans
    (by rw [e_main_call15_v4 V, e_main_call15_v2 V]; rfl)
theorem e_main_v380 : after (ops (F := F)) V (Proc.devRef .tc main_v380) = val_main_v380 (F := F) (a4 V) :=
  (unary_eq later_586 later_587 (Nat.lt_of_lt_of_eq (by decide : 586 < 1293) ops_len.symm) V main_v2 main_v380 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_124 : after (ops (F := F)) V (Proc.devRef .tc main_c_124) = val_main_c_124 (F := F) :=
  nullary_eq later_587 later_588 (Nat.lt_of_lt_of_eq (by decide : 587 < 1293) ops_len.symm) V main_c_124 (constantI S_ 32 0#32) (hop := rfl) (hyi := (by decide))
theorem e_main_v381 : after (ops (F := F)) V (Proc.devRef .tc main_v381) = val_main_v381 (F := F) :=
  (unary_eq later_588 later_589 (Nat.lt_of_lt_of_eq (by decide : 588 < 1293) ops_len.symm) V main_c_124 main_v381 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_124 V))
theorem e_main_v382 : after (ops (F := F)) V (Proc.devRef .tc main_v382) = val_main_v382 (F := F) (a4 V) :=
  (binary_eq later_589 later_590 (Nat.lt_of_lt_of_eq (by decide : 589 < 1293) ops_len.symm) V main_v380 main_v381 main_v382 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v380 V) (e_main_v381 V))
theorem e_main_c_125 : after (ops (F := F)) V (Proc.devRef .tc main_c_125) = val_main_c_125 (F := F) :=
  nullary_eq later_590 later_591 (Nat.lt_of_lt_of_eq (by decide : 590 < 1293) ops_len.symm) V main_c_125 (constantI S_ 32 2#32) (hop := rfl) (hyi := (by decide))
theorem e_main_v383 : after (ops (F := F)) V (Proc.devRef .tc main_v383) = val_main_v383 (F := F) :=
  (unary_eq later_591 later_592 (Nat.lt_of_lt_of_eq (by decide : 591 < 1293) ops_len.symm) V main_c_125 main_v383 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_125 V))
theorem e_main_v384 : after (ops (F := F)) V (Proc.devRef .tc main_v384) = val_main_v384 (F := F) (a4 V) :=
  (binary_eq later_592 later_593 (Nat.lt_of_lt_of_eq (by decide : 592 < 1293) ops_len.symm) V main_v380 main_v383 main_v384 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v380 V) (e_main_v383 V))
theorem e_main_v385 : after (ops (F := F)) V (Proc.devRef .tc main_v385) = val_main_v385 (F := F) (a4 V) :=
  (ternary_eq later_593 later_594 (Nat.lt_of_lt_of_eq (by decide : 593 < 1293) ops_len.symm) V main_v382 main_v384 main_v380 main_v385 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v382 V) (e_main_v384 V) (e_main_v380 V))
theorem e_main_c_126 : after (ops (F := F)) V (Proc.devRef .tc main_c_126) = val_main_c_126 (F := F) :=
  nullary_eq later_594 later_595 (Nat.lt_of_lt_of_eq (by decide : 594 < 1293) ops_len.symm) V main_c_126 (constantI S_ 32 0#32) (hop := rfl) (hyi := (by decide))
theorem e_main_v386 : after (ops (F := F)) V (Proc.devRef .tc main_v386) = val_main_v386 (F := F) :=
  (unary_eq later_595 later_596 (Nat.lt_of_lt_of_eq (by decide : 595 < 1293) ops_len.symm) V main_c_126 main_v386 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_126 V))
theorem e_main_v387 : after (ops (F := F)) V (Proc.devRef .tc main_v387) = val_main_v387 (F := F) (a4 V) (a5 V) :=
  (binary_eq later_596 later_597 (Nat.lt_of_lt_of_eq (by decide : 596 < 1293) ops_len.symm) V main_v379 main_v386 main_v387 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v379 V) (e_main_v386 V))
theorem e_main_c_127 : after (ops (F := F)) V (Proc.devRef .tc main_c_127) = val_main_c_127 (F := F) :=
  nullary_eq later_597 later_598 (Nat.lt_of_lt_of_eq (by decide : 597 < 1293) ops_len.symm) V main_c_127 (constantI S_ 32 128#32) (hop := rfl) (hyi := (by decide))
theorem e_main_v388 : after (ops (F := F)) V (Proc.devRef .tc main_v388) = val_main_v388 (F := F) :=
  (unary_eq later_598 later_599 (Nat.lt_of_lt_of_eq (by decide : 598 < 1293) ops_len.symm) V main_c_127 main_v388 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_127 V))
theorem e_main_v389 : after (ops (F := F)) V (Proc.devRef .tc main_v389) = val_main_v389 (F := F) (a4 V) (a5 V) :=
  (binary_eq later_599 later_600 (Nat.lt_of_lt_of_eq (by decide : 599 < 1293) ops_len.symm) V main_v379 main_v388 main_v389 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v379 V) (e_main_v388 V))
theorem e_main_v390 : after (ops (F := F)) V (Proc.devRef .tc main_v390) = val_main_v390 (F := F) (a4 V) (a5 V) :=
  (ternary_eq later_600 later_601 (Nat.lt_of_lt_of_eq (by decide : 600 < 1293) ops_len.symm) V main_v387 main_v389 main_v379 main_v390 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v387 V) (e_main_v389 V) (e_main_v379 V))
theorem e_main_c_128 : after (ops (F := F)) V (Proc.devRef .tc main_c_128) = val_main_c_128 (F := F) :=
  nullary_eq later_601 later_602 (Nat.lt_of_lt_of_eq (by decide : 601 < 1293) ops_len.symm) V main_c_128 (constantI S_ 32 0#32) (hop := rfl) (hyi := (by decide))
theorem e_main_v391 : after (ops (F := F)) V (Proc.devRef .tc main_v391) = val_main_v391 (F := F) :=
  (unary_eq later_602 later_603 (Nat.lt_of_lt_of_eq (by decide : 602 < 1293) ops_len.symm) V main_c_128 main_v391 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_128 V))
theorem e_main_v392 : after (ops (F := F)) V (Proc.devRef .tc main_v392) = val_main_v392 (F := F) (a4 V) (a5 V) :=
  (binary_eq later_603 later_604 (Nat.lt_of_lt_of_eq (by decide : 603 < 1293) ops_len.symm) V main_v378 main_v391 main_v392 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v378 V) (e_main_v391 V))
theorem e_main_c_129 : after (ops (F := F)) V (Proc.devRef .tc main_c_129) = val_main_c_129 (F := F) :=
  nullary_eq later_604 later_605 (Nat.lt_of_lt_of_eq (by decide : 604 < 1293) ops_len.symm) V main_c_129 (constantI S_ 32 128#32) (hop := rfl) (hyi := (by decide))
theorem e_main_v393 : after (ops (F := F)) V (Proc.devRef .tc main_v393) = val_main_v393 (F := F) :=
  (unary_eq later_605 later_606 (Nat.lt_of_lt_of_eq (by decide : 605 < 1293) ops_len.symm) V main_c_129 main_v393 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_129 V))
theorem e_main_v394 : after (ops (F := F)) V (Proc.devRef .tc main_v394) = val_main_v394 (F := F) (a4 V) (a5 V) :=
  (binary_eq later_606 later_607 (Nat.lt_of_lt_of_eq (by decide : 606 < 1293) ops_len.symm) V main_v378 main_v393 main_v394 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v378 V) (e_main_v393 V))
theorem e_main_v395 : after (ops (F := F)) V (Proc.devRef .tc main_v395) = val_main_v395 (F := F) (a4 V) (a5 V) :=
  (ternary_eq later_607 later_608 (Nat.lt_of_lt_of_eq (by decide : 607 < 1293) ops_len.symm) V main_v392 main_v394 main_v378 main_v395 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v392 V) (e_main_v394 V) (e_main_v378 V))
theorem e_main_v396 : after (ops (F := F)) V (Proc.devRef .tc main_v396) = val_main_v396 (F := F) (a4 V) :=
  (unary_eq later_608 later_609 (Nat.lt_of_lt_of_eq (by decide : 608 < 1293) ops_len.symm) V main_v385 main_v396 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v385 V))
theorem e_main_v397 : after (ops (F := F)) V (Proc.devRef .tc main_v397) = val_main_v397 (F := F) (a4 V) :=
  (unary_eq later_609 later_610 (Nat.lt_of_lt_of_eq (by decide : 609 < 1293) ops_len.symm) V main_v396 main_v397 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v396 V))
theorem e_main_v398 : after (ops (F := F)) V (Proc.devRef .tc main_v398) = val_main_v398 (F := F) (a4 V) (a5 V) :=
  (unary_eq later_610 later_611 (Nat.lt_of_lt_of_eq (by decide : 610 < 1293) ops_len.symm) V main_v390 main_v398 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v390 V))
theorem e_main_v399 : after (ops (F := F)) V (Proc.devRef .tc main_v399) = val_main_v399 (F := F) (a4 V) (a5 V) :=
  (unary_eq later_611 later_612 (Nat.lt_of_lt_of_eq (by decide : 611 < 1293) ops_len.symm) V main_v395 main_v399 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v395 V))
theorem e_main_v400 : after (ops (F := F)) V (Proc.devRef .tc main_v400) = val_main_v400 (F := F) (a4 V) (a5 V) :=
  (nary_eq later_612 later_613 (Nat.lt_of_lt_of_eq (by decide : 612 < 1293) ops_len.symm) V ![main_v397, main_v398, main_v399] main_v400 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v397)⟩, ⟨S512x128x1, after (ops (F := F)) V (Proc.devRef .tc main_v398)⟩, ⟨S512x128x1, after (ops (F := F)) V (Proc.devRef .tc main_v399)⟩] concatenates_S512x128x1_S512x128x1_S512x128x1_S512x128x3_d2 = _
    rw [e_main_v397 V, e_main_v398 V, e_main_v399 V]; rfl)
theorem e_main_v401 : after (ops (F := F)) V (Proc.devRef .tc main_v401) = val_main_v401 (F := F) (a1 V) (a4 V) (a5 V) :=
  (binary_eq later_613 later_614 (Nat.lt_of_lt_of_eq (by decide : 613 < 1293) ops_len.symm) V main_arg1 main_v400 main_v401 ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x128x128_S512x128x3_S512x128x256_2_023_n_n_023_2_125611 x i) : (⟨S2x256x128x128, .f32⟩ : BufTy).Contents (Elt F) → (⟨S512x128x3, .i32⟩ : BufTy).Contents (Elt F) → (⟨S512x128x256, .f32⟩ : BufTy).Contents (Elt F)) (e_main_arg1 V) (e_main_v400 V))
theorem e_main_v402 : after (ops (F := F)) V (Proc.devRef .tc main_v402) = val_main_v402 (F := F) (a4 V) (a5 V) :=
  (unary_eq later_614 later_615 (Nat.lt_of_lt_of_eq (by decide : 614 < 1293) ops_len.symm) V main_v377 main_v402 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v377 V))
theorem e_main_v403 : after (ops (F := F)) V (Proc.devRef .tc main_v403) = val_main_v403 (F := F) (a4 V) (a5 V) :=
  (unary_eq later_615 later_616 (Nat.lt_of_lt_of_eq (by decide : 615 < 1293) ops_len.symm) V main_v402 main_v403 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v402 V))
theorem e_main_v404 : after (ops (F := F)) V (Proc.devRef .tc main_v404) = val_main_v404 (F := F) (a4 V) (a5 V) :=
  (unary_eq later_616 later_617 (Nat.lt_of_lt_of_eq (by decide : 616 < 1293) ops_len.symm) V main_v403 main_v404 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v403 V))
theorem e_main_v405 : after (ops (F := F)) V (Proc.devRef .tc main_v405) = val_main_v405 (F := F) (a1 V) (a4 V) (a5 V) :=
  (binary_eq later_617 later_618 (Nat.lt_of_lt_of_eq (by decide : 617 < 1293) ops_len.symm) V main_v401 main_v404 main_v405 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v401 V) (e_main_v404 V))
theorem e_main_v406 : after (ops (F := F)) V (Proc.devRef .tc main_v406) = val_main_v406 (F := F) (a4 V) (a5 V) :=
  (unary_eq later_618 later_619 (Nat.lt_of_lt_of_eq (by decide : 618 < 1293) ops_len.symm) V main_v238 main_v406 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v238 V))
theorem e_main_v407 : after (ops (F := F)) V (Proc.devRef .tc main_v407) = val_main_v407 (F := F) (a4 V) (a5 V) :=
  (unary_eq later_619 later_620 (Nat.lt_of_lt_of_eq (by decide : 619 < 1293) ops_len.symm) V main_v239 main_v407 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v239 V))
theorem e_main_cst_130 : after (ops (F := F)) V (Proc.devRef .tc main_cst_130) = val_main_cst_130 (F := F) :=
  nullary_eq later_620 later_621 (Nat.lt_of_lt_of_eq (by decide : 620 < 1293) ops_len.symm) V main_cst_130 (constant S_ .f32 0x3F800000#32) (hop := rfl) (hyi := (by decide))
theorem e_main_v408 : after (ops (F := F)) V (Proc.devRef .tc main_v408) = val_main_v408 (F := F) :=
  (unary_eq later_621 later_622 (Nat.lt_of_lt_of_eq (by decide : 621 < 1293) ops_len.symm) V main_cst_130 main_v408 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_130 V))
theorem e_main_v409 : after (ops (F := F)) V (Proc.devRef .tc main_v409) = val_main_v409 (F := F) (a4 V) (a5 V) :=
  (binary_eq later_622 later_623 (Nat.lt_of_lt_of_eq (by decide : 622 < 1293) ops_len.symm) V main_v408 main_v406 main_v409 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v408 V) (e_main_v406 V))
theorem e_main_v410 : after (ops (F := F)) V (Proc.devRef .tc main_v410) = val_main_v410 (F := F) (a4 V) (a5 V) :=
  (unary_eq later_623 later_624 (Nat.lt_of_lt_of_eq (by decide : 623 < 1293) ops_len.symm) V main_v409 main_v410 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v409 V))
theorem e_main_v411 : after (ops (F := F)) V (Proc.devRef .tc main_v411) = val_main_v411 (F := F) (a1 V) (a4 V) (a5 V) :=
  (binary_eq later_624 later_625 (Nat.lt_of_lt_of_eq (by decide : 624 < 1293) ops_len.symm) V main_v280 main_v410 main_v411 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v280 V) (e_main_v410 V))
theorem e_main_cst_131 : after (ops (F := F)) V (Proc.devRef .tc main_cst_131) = val_main_cst_131 (F := F) :=
  nullary_eq later_625 later_626 (Nat.lt_of_lt_of_eq (by decide : 625 < 1293) ops_len.symm) V main_cst_131 (constant S_ .f32 0x3F800000#32) (hop := rfl) (hyi := (by decide))
theorem e_main_v412 : after (ops (F := F)) V (Proc.devRef .tc main_v412) = val_main_v412 (F := F) :=
  (unary_eq later_626 later_627 (Nat.lt_of_lt_of_eq (by decide : 626 < 1293) ops_len.symm) V main_cst_131 main_v412 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_131 V))
theorem e_main_v413 : after (ops (F := F)) V (Proc.devRef .tc main_v413) = val_main_v413 (F := F) (a4 V) (a5 V) :=
  (binary_eq later_627 later_628 (Nat.lt_of_lt_of_eq (by decide : 627 < 1293) ops_len.symm) V main_v412 main_v407 main_v413 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v412 V) (e_main_v407 V))
theorem e_main_v414 : after (ops (F := F)) V (Proc.devRef .tc main_v414) = val_main_v414 (F := F) (a4 V) (a5 V) :=
  (unary_eq later_628 later_629 (Nat.lt_of_lt_of_eq (by decide : 628 < 1293) ops_len.symm) V main_v413 main_v414 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v413 V))
theorem e_main_v415 : after (ops (F := F)) V (Proc.devRef .tc main_v415) = val_main_v415 (F := F) (a1 V) (a4 V) (a5 V) :=
  (binary_eq later_629 later_630 (Nat.lt_of_lt_of_eq (by decide : 629 < 1293) ops_len.symm) V main_v411 main_v414 main_v415 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v411 V) (e_main_v414 V))
theorem e_main_v416 : after (ops (F := F)) V (Proc.devRef .tc main_v416) = val_main_v416 (F := F) (a4 V) (a5 V) :=
  (unary_eq later_630 later_631 (Nat.lt_of_lt_of_eq (by decide : 630 < 1293) ops_len.symm) V main_v406 main_v416 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v406 V))
theorem e_main_v417 : after (ops (F := F)) V (Proc.devRef .tc main_v417) = val_main_v417 (F := F) (a1 V) (a4 V) (a5 V) :=
  (binary_eq later_631 later_632 (Nat.lt_of_lt_of_eq (by decide : 631 < 1293) ops_len.symm) V main_v321 main_v416 main_v417 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v321 V) (e_main_v416 V))
theorem e_main_cst_132 : after (ops (F := F)) V (Proc.devRef .tc main_cst_132) = val_main_cst_132 (F := F) :=
  nullary_eq later_632 later_633 (Nat.lt_of_lt_of_eq (by decide : 632 < 1293) ops_len.symm) V main_cst_132 (constant S_ .f32 0x3F800000#32) (hop := rfl) (hyi := (by decide))
theorem e_main_v418 : after (ops (F := F)) V (Proc.devRef .tc main_v418) = val_main_v418 (F := F) :=
  (unary_eq later_633 later_634 (Nat.lt_of_lt_of_eq (by decide : 633 < 1293) ops_len.symm) V main_cst_132 main_v418 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_132 V))
theorem e_main_v419 : after (ops (F := F)) V (Proc.devRef .tc main_v419) = val_main_v419 (F := F) (a4 V) (a5 V) :=
  (binary_eq later_634 later_635 (Nat.lt_of_lt_of_eq (by decide : 634 < 1293) ops_len.symm) V main_v418 main_v407 main_v419 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v418 V) (e_main_v407 V))
theorem e_main_v420 : after (ops (F := F)) V (Proc.devRef .tc main_v420) = val_main_v420 (F := F) (a4 V) (a5 V) :=
  (unary_eq later_635 later_636 (Nat.lt_of_lt_of_eq (by decide : 635 < 1293) ops_len.symm) V main_v419 main_v420 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v419 V))
theorem e_main_v421 : after (ops (F := F)) V (Proc.devRef .tc main_v421) = val_main_v421 (F := F) (a1 V) (a4 V) (a5 V) :=
  (binary_eq later_636 later_637 (Nat.lt_of_lt_of_eq (by decide : 636 < 1293) ops_len.symm) V main_v417 main_v420 main_v421 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v417 V) (e_main_v420 V))
theorem e_main_v422 : after (ops (F := F)) V (Proc.devRef .tc main_v422) = val_main_v422 (F := F) (a1 V) (a4 V) (a5 V) :=
  (binary_eq later_637 later_638 (Nat.lt_of_lt_of_eq (by decide : 637 < 1293) ops_len.symm) V main_v415 main_v421 main_v422 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v415 V) (e_main_v421 V))
theorem e_main_cst_133 : after (ops (F := F)) V (Proc.devRef .tc main_cst_133) = val_main_cst_133 (F := F) :=
  nullary_eq later_638 later_639 (Nat.lt_of_lt_of_eq (by decide : 638 < 1293) ops_len.symm) V main_cst_133 (constant S_ .f32 0x3F800000#32) (hop := rfl) (hyi := (by decide))
theorem e_main_v423 : after (ops (F := F)) V (Proc.devRef .tc main_v423) = val_main_v423 (F := F) :=
  (unary_eq later_639 later_640 (Nat.lt_of_lt_of_eq (by decide : 639 < 1293) ops_len.symm) V main_cst_133 main_v423 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_133 V))
theorem e_main_v424 : after (ops (F := F)) V (Proc.devRef .tc main_v424) = val_main_v424 (F := F) (a4 V) (a5 V) :=
  (binary_eq later_640 later_641 (Nat.lt_of_lt_of_eq (by decide : 640 < 1293) ops_len.symm) V main_v423 main_v406 main_v424 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v423 V) (e_main_v406 V))
theorem e_main_v425 : after (ops (F := F)) V (Proc.devRef .tc main_v425) = val_main_v425 (F := F) (a4 V) (a5 V) :=
  (unary_eq later_641 later_642 (Nat.lt_of_lt_of_eq (by decide : 641 < 1293) ops_len.symm) V main_v424 main_v425 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v424 V))
theorem e_main_v426 : after (ops (F := F)) V (Proc.devRef .tc main_v426) = val_main_v426 (F := F) (a1 V) (a4 V) (a5 V) :=
  (binary_eq later_642 later_643 (Nat.lt_of_lt_of_eq (by decide : 642 < 1293) ops_len.symm) V main_v362 main_v425 main_v426 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v362 V) (e_main_v425 V))
theorem e_main_v427 : after (ops (F := F)) V (Proc.devRef .tc main_v427) = val_main_v427 (F := F) (a4 V) (a5 V) :=
  (unary_eq later_643 later_644 (Nat.lt_of_lt_of_eq (by decide : 643 < 1293) ops_len.symm) V main_v407 main_v427 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v407 V))
theorem e_main_v428 : after (ops (F := F)) V (Proc.devRef .tc main_v428) = val_main_v428 (F := F) (a1 V) (a4 V) (a5 V) :=
  (binary_eq later_644 later_645 (Nat.lt_of_lt_of_eq (by decide : 644 < 1293) ops_len.symm) V main_v426 main_v427 main_v428 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v426 V) (e_main_v427 V))
theorem e_main_v429 : after (ops (F := F)) V (Proc.devRef .tc main_v429) = val_main_v429 (F := F) (a1 V) (a4 V) (a5 V) :=
  (binary_eq later_645 later_646 (Nat.lt_of_lt_of_eq (by decide : 645 < 1293) ops_len.symm) V main_v422 main_v428 main_v429 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v422 V) (e_main_v428 V))
theorem e_main_v430 : after (ops (F := F)) V (Proc.devRef .tc main_v430) = val_main_v430 (F := F) (a4 V) (a5 V) :=
  (unary_eq later_646 later_647 (Nat.lt_of_lt_of_eq (by decide : 646 < 1293) ops_len.symm) V main_v406 main_v430 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v406 V))
theorem e_main_v431 : after (ops (F := F)) V (Proc.devRef .tc main_v431) = val_main_v431 (F := F) (a1 V) (a4 V) (a5 V) :=
  (binary_eq later_647 later_648 (Nat.lt_of_lt_of_eq (by decide : 647 < 1293) ops_len.symm) V main_v405 main_v430 main_v431 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v405 V) (e_main_v430 V))
theorem e_main_v432 : after (ops (F := F)) V (Proc.devRef .tc main_v432) = val_main_v432 (F := F) (a4 V) (a5 V) :=
  (unary_eq later_648 later_649 (Nat.lt_of_lt_of_eq (by decide : 648 < 1293) ops_len.symm) V main_v407 main_v432 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v407 V))
theorem e_main_v433 : after (ops (F := F)) V (Proc.devRef .tc main_v433) = val_main_v433 (F := F) (a1 V) (a4 V) (a5 V) :=
  (binary_eq later_649 later_650 (Nat.lt_of_lt_of_eq (by decide : 649 < 1293) ops_len.symm) V main_v431 main_v432 main_v433 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v431 V) (e_main_v432 V))
theorem e_main_v434 : after (ops (F := F)) V (Proc.devRef .tc main_v434) = val_main_v434 (F := F) (a1 V) (a4 V) (a5 V) :=
  (binary_eq later_650 later_651 (Nat.lt_of_lt_of_eq (by decide : 650 < 1293) ops_len.symm) V main_v429 main_v433 main_v434 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v429 V) (e_main_v433 V))
theorem e_main_v435 : after (ops (F := F)) V (Proc.devRef .tc main_v435) = val_main_v435 (F := F) (a1 V) (a4 V) (a5 V) :=
  (unary_eq later_651 later_652 (Nat.lt_of_lt_of_eq (by decide : 651 < 1293) ops_len.symm) V main_v434 main_v435 ((transpose S512x256x128 [0, 2, 1] · transposes_S512x128x256_S512x256x128_0_2_1) : (⟨S512x128x256, .f32⟩ : BufTy).Contents (Elt F) → (⟨S512x256x128, .f32⟩ : BufTy).Contents (Elt F)) (hop := rfl) (hyi := (by decide)) (hxi := (by decide))).trans
    (congrArg ((transpose S512x256x128 [0, 2, 1] · transposes_S512x128x256_S512x256x128_0_2_1) : (⟨S512x128x256, .f32⟩ : BufTy).Contents (Elt F) → (⟨S512x256x128, .f32⟩ : BufTy).Contents (Elt F)) (e_main_v434 V))
theorem e_main_v436 : after (ops (F := F)) V (Proc.devRef .tc main_v436) = val_main_v436 (F := F) (a4 V) (a5 V) :=
  (unary_eq later_652 later_653 (Nat.lt_of_lt_of_eq (by decide : 652 < 1293) ops_len.symm) V main_v11 main_v436 ((extractStridedSlice S512x128x1 ![0, 0, 0] · slices_S512x128x2_S512x128x1_0_0_0) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 0] · slices_S512x128x2_S512x128x1_0_0_0) : (⟨S512x128x2, .f32⟩ : BufTy).Contents (Elt F) → (⟨S512x128x1, .f32⟩ : BufTy).Contents (Elt F)) (e_main_v11 V))
theorem e_main_v437 : after (ops (F := F)) V (Proc.devRef .tc main_v437) = val_main_v437 (F := F) (a4 V) (a5 V) :=
  (reshape_eq later_653 later_654 (Nat.lt_of_lt_of_eq (by decide : 653 < 1293) ops_len.symm) V main_v436 main_v437 rfl shapeCasts_S512x128x1_S512x128 (hop := rfl) (hyi := (by decide)) (hxi := (by decide))).trans
    (congrArg (fun t => fun i => (rfl : (main_v436).ty.elt = (main_v437).ty.elt) ▸ shapeCast (main_v437).ty.shape t shapeCasts_S512x128x1_S512x128 i) (e_main_v436 V))
theorem e_main_cst_134 : after (ops (F := F)) V (Proc.devRef .tc main_cst_134) = val_main_cst_134 (F := F) :=
  nullary_eq later_654 later_655 (Nat.lt_of_lt_of_eq (by decide : 654 < 1293) ops_len.symm) V main_cst_134 (constant S_ .f32 0x41800000#32) (hop := rfl) (hyi := (by decide))
theorem e_main_v438 : after (ops (F := F)) V (Proc.devRef .tc main_v438) = val_main_v438 (F := F) :=
  (unary_eq later_655 later_656 (Nat.lt_of_lt_of_eq (by decide : 655 < 1293) ops_len.symm) V main_cst_134 main_v438 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_134 V))
theorem e_main_v439 : after (ops (F := F)) V (Proc.devRef .tc main_v439) = val_main_v439 (F := F) (a4 V) (a5 V) :=
  (binary_eq later_656 later_657 (Nat.lt_of_lt_of_eq (by decide : 656 < 1293) ops_len.symm) V main_v437 main_v438 main_v439 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v437 V) (e_main_v438 V))
theorem e_main_cst_135 : after (ops (F := F)) V (Proc.devRef .tc main_cst_135) = val_main_cst_135 (F := F) :=
  nullary_eq later_657 later_658 (Nat.lt_of_lt_of_eq (by decide : 657 < 1293) ops_len.symm) V main_cst_135 (constant S_ .f32 0x3F000000#32) (hop := rfl) (hyi := (by decide))
theorem e_main_v440 : after (ops (F := F)) V (Proc.devRef .tc main_v440) = val_main_v440 (F := F) :=
  (unary_eq later_658 later_659 (Nat.lt_of_lt_of_eq (by decide : 658 < 1293) ops_len.symm) V main_cst_135 main_v440 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_135 V))
theorem e_main_v441 : after (ops (F := F)) V (Proc.devRef .tc main_v441) = val_main_v441 (F := F) (a4 V) (a5 V) :=
  (binary_eq later_659 later_660 (Nat.lt_of_lt_of_eq (by decide : 659 < 1293) ops_len.symm) V main_v439 main_v440 main_v441 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v439 V) (e_main_v440 V))
theorem e_main_v442 : after (ops (F := F)) V (Proc.devRef .tc main_v442) = val_main_v442 (F := F) (a4 V) (a5 V) :=
  (unary_eq later_660 later_661 (Nat.lt_of_lt_of_eq (by decide : 660 < 1293) ops_len.symm) V main_v11 main_v442 ((extractStridedSlice S512x128x1 ![0, 0, 1] · slices_S512x128x2_S512x128x1_0_0_1) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 1] · slices_S512x128x2_S512x128x1_0_0_1) : (⟨S512x128x2, .f32⟩ : BufTy).Contents (Elt F) → (⟨S512x128x1, .f32⟩ : BufTy).Contents (Elt F)) (e_main_v11 V))
theorem e_main_v443 : after (ops (F := F)) V (Proc.devRef .tc main_v443) = val_main_v443 (F := F) (a4 V) (a5 V) :=
  (reshape_eq later_661 later_662 (Nat.lt_of_lt_of_eq (by decide : 661 < 1293) ops_len.symm) V main_v442 main_v443 rfl shapeCasts_S512x128x1_S512x128 (hop := rfl) (hyi := (by decide)) (hxi := (by decide))).trans
    (congrArg (fun t => fun i => (rfl : (main_v442).ty.elt = (main_v443).ty.elt) ▸ shapeCast (main_v443).ty.shape t shapeCasts_S512x128x1_S512x128 i) (e_main_v442 V))
theorem e_main_cst_136 : after (ops (F := F)) V (Proc.devRef .tc main_cst_136) = val_main_cst_136 (F := F) :=
  nullary_eq later_662 later_663 (Nat.lt_of_lt_of_eq (by decide : 662 < 1293) ops_len.symm) V main_cst_136 (constant S_ .f32 0x41800000#32) (hop := rfl) (hyi := (by decide))
theorem e_main_v444 : after (ops (F := F)) V (Proc.devRef .tc main_v444) = val_main_v444 (F := F) :=
  (unary_eq later_663 later_664 (Nat.lt_of_lt_of_eq (by decide : 663 < 1293) ops_len.symm) V main_cst_136 main_v444 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_136 V))
theorem e_main_v445 : after (ops (F := F)) V (Proc.devRef .tc main_v445) = val_main_v445 (F := F) (a4 V) (a5 V) :=
  (binary_eq later_664 later_665 (Nat.lt_of_lt_of_eq (by decide : 664 < 1293) ops_len.symm) V main_v443 main_v444 main_v445 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v443 V) (e_main_v444 V))
theorem e_main_cst_137 : after (ops (F := F)) V (Proc.devRef .tc main_cst_137) = val_main_cst_137 (F := F) :=
  nullary_eq later_665 later_666 (Nat.lt_of_lt_of_eq (by decide : 665 < 1293) ops_len.symm) V main_cst_137 (constant S_ .f32 0x3F000000#32) (hop := rfl) (hyi := (by decide))
theorem e_main_v446 : after (ops (F := F)) V (Proc.devRef .tc main_v446) = val_main_v446 (F := F) :=
  (unary_eq later_666 later_667 (Nat.lt_of_lt_of_eq (by decide : 666 < 1293) ops_len.symm) V main_cst_137 main_v446 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_137 V))
theorem e_main_v447 : after (ops (F := F)) V (Proc.devRef .tc main_v447) = val_main_v447 (F := F) (a4 V) (a5 V) :=
  (binary_eq later_667 later_668 (Nat.lt_of_lt_of_eq (by decide : 667 < 1293) ops_len.symm) V main_v445 main_v446 main_v447 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v445 V) (e_main_v446 V))
theorem e_main_v448 : after (ops (F := F)) V (Proc.devRef .tc main_v448) = val_main_v448 (F := F) (a4 V) (a5 V) :=
  (unary_eq later_668 later_669 (Nat.lt_of_lt_of_eq (by decide : 668 < 1293) ops_len.symm) V main_v441 main_v448 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v441 V))
theorem e_main_v449 : after (ops (F := F)) V (Proc.devRef .tc main_v449) = val_main_v449 (F := F) (a4 V) (a5 V) :=
  (unary_eq later_669 later_670 (Nat.lt_of_lt_of_eq (by decide : 669 < 1293) ops_len.symm) V main_v447 main_v449 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v447 V))
theorem e_main_v450 : after (ops (F := F)) V (Proc.devRef .tc main_v450) = val_main_v450 (F := F) (a4 V) (a5 V) :=
  (binary_eq later_670 later_671 (Nat.lt_of_lt_of_eq (by decide : 670 < 1293) ops_len.symm) V main_v441 main_v448 main_v450 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v441 V) (e_main_v448 V))
theorem e_main_v451 : after (ops (F := F)) V (Proc.devRef .tc main_v451) = val_main_v451 (F := F) (a4 V) (a5 V) :=
  (binary_eq later_671 later_672 (Nat.lt_of_lt_of_eq (by decide : 671 < 1293) ops_len.symm) V main_v447 main_v449 main_v451 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v447 V) (e_main_v449 V))
theorem e_main_v452 : after (ops (F := F)) V (Proc.devRef .tc main_v452) = val_main_v452 (F := F) (a4 V) (a5 V) :=
  (unary_eq later_672 later_673 (Nat.lt_of_lt_of_eq (by decide : 672 < 1293) ops_len.symm) V main_v448 main_v452 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v448 V))
theorem e_main_v453 : after (ops (F := F)) V (Proc.devRef .tc main_v453) = val_main_v453 (F := F) (a4 V) (a5 V) :=
  (unary_eq later_673 later_674 (Nat.lt_of_lt_of_eq (by decide : 673 < 1293) ops_len.symm) V main_v449 main_v453 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v449 V))
theorem e_main_c_138 : after (ops (F := F)) V (Proc.devRef .tc main_c_138) = val_main_c_138 (F := F) :=
  nullary_eq later_674 later_675 (Nat.lt_of_lt_of_eq (by decide : 674 < 1293) ops_len.symm) V main_c_138 (constantI S_ 32 0#32) (hop := rfl) (hyi := (by decide))
theorem e_main_v454 : after (ops (F := F)) V (Proc.devRef .tc main_v454) = val_main_v454 (F := F) :=
  (unary_eq later_675 later_676 (Nat.lt_of_lt_of_eq (by decide : 675 < 1293) ops_len.symm) V main_c_138 main_v454 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_138 V))
theorem e_main_v455 : after (ops (F := F)) V (Proc.devRef .tc main_v455) = val_main_v455 (F := F) (a4 V) (a5 V) :=
  (binary_eq later_676 later_677 (Nat.lt_of_lt_of_eq (by decide : 676 < 1293) ops_len.symm) V main_v452 main_v454 main_v455 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v452 V) (e_main_v454 V))
theorem e_main_c_139 : after (ops (F := F)) V (Proc.devRef .tc main_c_139) = val_main_c_139 (F := F) :=
  nullary_eq later_677 later_678 (Nat.lt_of_lt_of_eq (by decide : 677 < 1293) ops_len.symm) V main_c_139 (constantI S_ 32 64#32) (hop := rfl) (hyi := (by decide))
theorem e_main_v456 : after (ops (F := F)) V (Proc.devRef .tc main_v456) = val_main_v456 (F := F) :=
  (unary_eq later_678 later_679 (Nat.lt_of_lt_of_eq (by decide : 678 < 1293) ops_len.symm) V main_c_139 main_v456 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_139 V))
theorem e_main_v457 : after (ops (F := F)) V (Proc.devRef .tc main_v457) = val_main_v457 (F := F) (a4 V) (a5 V) :=
  (binary_eq later_679 later_680 (Nat.lt_of_lt_of_eq (by decide : 679 < 1293) ops_len.symm) V main_v452 main_v456 main_v457 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v452 V) (e_main_v456 V))
theorem e_main_v458 : after (ops (F := F)) V (Proc.devRef .tc main_v458) = val_main_v458 (F := F) (a4 V) (a5 V) :=
  (binary_eq later_680 later_681 (Nat.lt_of_lt_of_eq (by decide : 680 < 1293) ops_len.symm) V main_v455 main_v457 main_v458 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v455 V) (e_main_v457 V))
theorem e_main_c_140 : after (ops (F := F)) V (Proc.devRef .tc main_c_140) = val_main_c_140 (F := F) :=
  nullary_eq later_681 later_682 (Nat.lt_of_lt_of_eq (by decide : 681 < 1293) ops_len.symm) V main_c_140 (constantI S_ 32 0#32) (hop := rfl) (hyi := (by decide))
theorem e_main_v459 : after (ops (F := F)) V (Proc.devRef .tc main_v459) = val_main_v459 (F := F) :=
  (unary_eq later_682 later_683 (Nat.lt_of_lt_of_eq (by decide : 682 < 1293) ops_len.symm) V main_c_140 main_v459 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_140 V))
theorem e_main_v460 : after (ops (F := F)) V (Proc.devRef .tc main_v460) = val_main_v460 (F := F) (a4 V) (a5 V) :=
  (binary_eq later_683 later_684 (Nat.lt_of_lt_of_eq (by decide : 683 < 1293) ops_len.symm) V main_v453 main_v459 main_v460 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v453 V) (e_main_v459 V))
theorem e_main_v461 : after (ops (F := F)) V (Proc.devRef .tc main_v461) = val_main_v461 (F := F) (a4 V) (a5 V) :=
  (binary_eq later_684 later_685 (Nat.lt_of_lt_of_eq (by decide : 684 < 1293) ops_len.symm) V main_v458 main_v460 main_v461 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v458 V) (e_main_v460 V))
theorem e_main_c_141 : after (ops (F := F)) V (Proc.devRef .tc main_c_141) = val_main_c_141 (F := F) :=
  nullary_eq later_685 later_686 (Nat.lt_of_lt_of_eq (by decide : 685 < 1293) ops_len.symm) V main_c_141 (constantI S_ 32 64#32) (hop := rfl) (hyi := (by decide))
theorem e_main_v462 : after (ops (F := F)) V (Proc.devRef .tc main_v462) = val_main_v462 (F := F) :=
  (unary_eq later_686 later_687 (Nat.lt_of_lt_of_eq (by decide : 686 < 1293) ops_len.symm) V main_c_141 main_v462 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_141 V))
theorem e_main_v463 : after (ops (F := F)) V (Proc.devRef .tc main_v463) = val_main_v463 (F := F) (a4 V) (a5 V) :=
  (binary_eq later_687 later_688 (Nat.lt_of_lt_of_eq (by decide : 687 < 1293) ops_len.symm) V main_v453 main_v462 main_v463 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v453 V) (e_main_v462 V))
theorem e_main_v464 : after (ops (F := F)) V (Proc.devRef .tc main_v464) = val_main_v464 (F := F) (a4 V) (a5 V) :=
  (binary_eq later_688 later_689 (Nat.lt_of_lt_of_eq (by decide : 688 < 1293) ops_len.symm) V main_v461 main_v463 main_v464 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v461 V) (e_main_v463 V))
theorem e_main_c_142 : after (ops (F := F)) V (Proc.devRef .tc main_c_142) = val_main_c_142 (F := F) :=
  nullary_eq later_689 later_690 (Nat.lt_of_lt_of_eq (by decide : 689 < 1293) ops_len.symm) V main_c_142 (constantI S_ 32 0#32) (hop := rfl) (hyi := (by decide))
theorem e_main_c_143 : after (ops (F := F)) V (Proc.devRef .tc main_c_143) = val_main_c_143 (F := F) :=
  nullary_eq later_690 later_691 (Nat.lt_of_lt_of_eq (by decide : 690 < 1293) ops_len.symm) V main_c_143 (constantI S_ 32 63#32) (hop := rfl) (hyi := (by decide))
theorem e_main_call16_v0 : after (ops (F := F)) V (Proc.devRef .tc main_call16_v0) = val_main_call16_v0 (F := F) :=
  (tunary_eq later_691 later_692 (Nat.lt_of_lt_of_eq (by decide : 691 < 1293) ops_len.symm) V (TRef.of (T := ⟨S_, .i32⟩) main_c_142) (TRef.of (T := ⟨S_, .i32⟩) main_call16_v0) id (hop := rfl) (hyi := (by decide)) (hxi := (by decide))).trans
    (congrArg (fun t => (TRef.of (T := ⟨S_, .i32⟩) main_call16_v0).toBuf ((id) ((TRef.of (T := ⟨S_, .i32⟩) main_c_142).ofBuf t))) (e_main_c_142 V))
theorem e_main_call16_v1 : after (ops (F := F)) V (Proc.devRef .tc main_call16_v1) = val_main_call16_v1 (F := F) :=
  (tunary_eq later_692 later_693 (Nat.lt_of_lt_of_eq (by decide : 692 < 1293) ops_len.symm) V (TRef.of (T := ⟨S_, .i32⟩) main_call16_v0) (TRef.of (T := ⟨S512x128, .i32⟩) main_call16_v1) (broadcastInDim S512x128 ![] bcast_S_S512x128) (hop := rfl) (hyi := (by decide)) (hxi := (by decide))).trans
    (congrArg (fun t => (TRef.of (T := ⟨S512x128, .i32⟩) main_call16_v1).toBuf (((broadcastInDim S512x128 ![] bcast_S_S512x128)) ((TRef.of (T := ⟨S_, .i32⟩) main_call16_v0).ofBuf t))) (e_main_call16_v0 V))
theorem e_main_call16_v2 : after (ops (F := F)) V (Proc.devRef .tc main_call16_v2) = val_main_call16_v2 (F := F) (a4 V) (a5 V) :=
  (tbinary_eq later_693 later_694 (Nat.lt_of_lt_of_eq (by decide : 693 < 1293) ops_len.symm) V (TRef.of (T := ⟨S512x128, .i32⟩) main_call16_v1) (TRef.of (T := ⟨S512x128, .i32⟩) main_v452) (TRef.of (T := ⟨S512x128, .i32⟩) main_call16_v2) maxsi (hop := rfl) (hyi := (by decide)) (hai := (by decide)) (hbi := (by decide))).trans
    (by rw [e_main_call16_v1 V, e_main_v452 V]; rfl)
theorem e_main_call16_v3 : after (ops (F := F)) V (Proc.devRef .tc main_call16_v3) = val_main_call16_v3 (F := F) :=
  (tunary_eq later_694 later_695 (Nat.lt_of_lt_of_eq (by decide : 694 < 1293) ops_len.symm) V (TRef.of (T := ⟨S_, .i32⟩) main_c_143) (TRef.of (T := ⟨S_, .i32⟩) main_call16_v3) id (hop := rfl) (hyi := (by decide)) (hxi := (by decide))).trans
    (congrArg (fun t => (TRef.of (T := ⟨S_, .i32⟩) main_call16_v3).toBuf ((id) ((TRef.of (T := ⟨S_, .i32⟩) main_c_143).ofBuf t))) (e_main_c_143 V))
theorem e_main_call16_v4 : after (ops (F := F)) V (Proc.devRef .tc main_call16_v4) = val_main_call16_v4 (F := F) :=
  (tunary_eq later_695 later_696 (Nat.lt_of_lt_of_eq (by decide : 695 < 1293) ops_len.symm) V (TRef.of (T := ⟨S_, .i32⟩) main_call16_v3) (TRef.of (T := ⟨S512x128, .i32⟩) main_call16_v4) (broadcastInDim S512x128 ![] bcast_S_S512x128) (hop := rfl) (hyi := (by decide)) (hxi := (by decide))).trans
    (congrArg (fun t => (TRef.of (T := ⟨S512x128, .i32⟩) main_call16_v4).toBuf (((broadcastInDim S512x128 ![] bcast_S_S512x128)) ((TRef.of (T := ⟨S_, .i32⟩) main_call16_v3).ofBuf t))) (e_main_call16_v3 V))
theorem e_main_v465 : after (ops (F := F)) V (Proc.devRef .tc main_v465) = val_main_v465 (F := F) (a4 V) (a5 V) :=
  (tbinary_eq later_696 later_697 (Nat.lt_of_lt_of_eq (by decide : 696 < 1293) ops_len.symm) V (TRef.of (T := ⟨S512x128, .i32⟩) main_call16_v4) (TRef.of (T := ⟨S512x128, .i32⟩) main_call16_v2) (TRef.of (T := ⟨S512x128, .i32⟩) main_v465) minsi (hop := rfl) (hyi := (by decide)) (hai := (by decide)) (hbi := (by decide))).trans
    (by rw [e_main_call16_v4 V, e_main_call16_v2 V]; rfl)
theorem e_main_c_144 : after (ops (F := F)) V (Proc.devRef .tc main_c_144) = val_main_c_144 (F := F) :=
  nullary_eq later_697 later_698 (Nat.lt_of_lt_of_eq (by decide : 697 < 1293) ops_len.symm) V main_c_144 (constantI S_ 32 0#32) (hop := rfl) (hyi := (by decide))
theorem e_main_c_145 : after (ops (F := F)) V (Proc.devRef .tc main_c_145) = val_main_c_145 (F := F) :=
  nullary_eq later_698 later_699 (Nat.lt_of_lt_of_eq (by decide : 698 < 1293) ops_len.symm) V main_c_145 (constantI S_ 32 63#32) (hop := rfl) (hyi := (by decide))
theorem e_main_call17_v0 : after (ops (F := F)) V (Proc.devRef .tc main_call17_v0) = val_main_call17_v0 (F := F) :=
  (tunary_eq later_699 later_700 (Nat.lt_of_lt_of_eq (by decide : 699 < 1293) ops_len.symm) V (TRef.of (T := ⟨S_, .i32⟩) main_c_144) (TRef.of (T := ⟨S_, .i32⟩) main_call17_v0) id (hop := rfl) (hyi := (by decide)) (hxi := (by decide))).trans
    (congrArg (fun t => (TRef.of (T := ⟨S_, .i32⟩) main_call17_v0).toBuf ((id) ((TRef.of (T := ⟨S_, .i32⟩) main_c_144).ofBuf t))) (e_main_c_144 V))
theorem e_main_call17_v1 : after (ops (F := F)) V (Proc.devRef .tc main_call17_v1) = val_main_call17_v1 (F := F) :=
  (tunary_eq later_700 later_701 (Nat.lt_of_lt_of_eq (by decide : 700 < 1293) ops_len.symm) V (TRef.of (T := ⟨S_, .i32⟩) main_call17_v0) (TRef.of (T := ⟨S512x128, .i32⟩) main_call17_v1) (broadcastInDim S512x128 ![] bcast_S_S512x128) (hop := rfl) (hyi := (by decide)) (hxi := (by decide))).trans
    (congrArg (fun t => (TRef.of (T := ⟨S512x128, .i32⟩) main_call17_v1).toBuf (((broadcastInDim S512x128 ![] bcast_S_S512x128)) ((TRef.of (T := ⟨S_, .i32⟩) main_call17_v0).ofBuf t))) (e_main_call17_v0 V))
theorem e_main_call17_v2 : after (ops (F := F)) V (Proc.devRef .tc main_call17_v2) = val_main_call17_v2 (F := F) (a4 V) (a5 V) :=
  (tbinary_eq later_701 later_702 (Nat.lt_of_lt_of_eq (by decide : 701 < 1293) ops_len.symm) V (TRef.of (T := ⟨S512x128, .i32⟩) main_call17_v1) (TRef.of (T := ⟨S512x128, .i32⟩) main_v453) (TRef.of (T := ⟨S512x128, .i32⟩) main_call17_v2) maxsi (hop := rfl) (hyi := (by decide)) (hai := (by decide)) (hbi := (by decide))).trans
    (by rw [e_main_call17_v1 V, e_main_v453 V]; rfl)
theorem e_main_call17_v3 : after (ops (F := F)) V (Proc.devRef .tc main_call17_v3) = val_main_call17_v3 (F := F) :=
  (tunary_eq later_702 later_703 (Nat.lt_of_lt_of_eq (by decide : 702 < 1293) ops_len.symm) V (TRef.of (T := ⟨S_, .i32⟩) main_c_145) (TRef.of (T := ⟨S_, .i32⟩) main_call17_v3) id (hop := rfl) (hyi := (by decide)) (hxi := (by decide))).trans
    (congrArg (fun t => (TRef.of (T := ⟨S_, .i32⟩) main_call17_v3).toBuf ((id) ((TRef.of (T := ⟨S_, .i32⟩) main_c_145).ofBuf t))) (e_main_c_145 V))
theorem e_main_call17_v4 : after (ops (F := F)) V (Proc.devRef .tc main_call17_v4) = val_main_call17_v4 (F := F) :=
  (tunary_eq later_703 later_704 (Nat.lt_of_lt_of_eq (by decide : 703 < 1293) ops_len.symm) V (TRef.of (T := ⟨S_, .i32⟩) main_call17_v3) (TRef.of (T := ⟨S512x128, .i32⟩) main_call17_v4) (broadcastInDim S512x128 ![] bcast_S_S512x128) (hop := rfl) (hyi := (by decide)) (hxi := (by decide))).trans
    (congrArg (fun t => (TRef.of (T := ⟨S512x128, .i32⟩) main_call17_v4).toBuf (((broadcastInDim S512x128 ![] bcast_S_S512x128)) ((TRef.of (T := ⟨S_, .i32⟩) main_call17_v3).ofBuf t))) (e_main_call17_v3 V))
theorem e_main_v466 : after (ops (F := F)) V (Proc.devRef .tc main_v466) = val_main_v466 (F := F) (a4 V) (a5 V) :=
  (tbinary_eq later_704 later_705 (Nat.lt_of_lt_of_eq (by decide : 704 < 1293) ops_len.symm) V (TRef.of (T := ⟨S512x128, .i32⟩) main_call17_v4) (TRef.of (T := ⟨S512x128, .i32⟩) main_call17_v2) (TRef.of (T := ⟨S512x128, .i32⟩) main_v466) minsi (hop := rfl) (hyi := (by decide)) (hai := (by decide)) (hbi := (by decide))).trans
    (by rw [e_main_call17_v4 V, e_main_call17_v2 V]; rfl)
theorem e_main_v467 : after (ops (F := F)) V (Proc.devRef .tc main_v467) = val_main_v467 (F := F) (a4 V) :=
  (unary_eq later_705 later_706 (Nat.lt_of_lt_of_eq (by decide : 705 < 1293) ops_len.symm) V main_v2 main_v467 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_146 : after (ops (F := F)) V (Proc.devRef .tc main_c_146) = val_main_c_146 (F := F) :=
  nullary_eq later_706 later_707 (Nat.lt_of_lt_of_eq (by decide : 706 < 1293) ops_len.symm) V main_c_146 (constantI S_ 32 0#32) (hop := rfl) (hyi := (by decide))
theorem e_main_v468 : after (ops (F := F)) V (Proc.devRef .tc main_v468) = val_main_v468 (F := F) :=
  (unary_eq later_707 later_708 (Nat.lt_of_lt_of_eq (by decide : 707 < 1293) ops_len.symm) V main_c_146 main_v468 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_146 V))
theorem e_main_v469 : after (ops (F := F)) V (Proc.devRef .tc main_v469) = val_main_v469 (F := F) (a4 V) :=
  (binary_eq later_708 later_709 (Nat.lt_of_lt_of_eq (by decide : 708 < 1293) ops_len.symm) V main_v467 main_v468 main_v469 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v467 V) (e_main_v468 V))
theorem e_main_c_147 : after (ops (F := F)) V (Proc.devRef .tc main_c_147) = val_main_c_147 (F := F) :=
  nullary_eq later_709 later_710 (Nat.lt_of_lt_of_eq (by decide : 709 < 1293) ops_len.symm) V main_c_147 (constantI S_ 32 2#32) (hop := rfl) (hyi := (by decide))
theorem e_main_v470 : after (ops (F := F)) V (Proc.devRef .tc main_v470) = val_main_v470 (F := F) :=
  (unary_eq later_710 later_711 (Nat.lt_of_lt_of_eq (by decide : 710 < 1293) ops_len.symm) V main_c_147 main_v470 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_147 V))
theorem e_main_v471 : after (ops (F := F)) V (Proc.devRef .tc main_v471) = val_main_v471 (F := F) (a4 V) :=
  (binary_eq later_711 later_712 (Nat.lt_of_lt_of_eq (by decide : 711 < 1293) ops_len.symm) V main_v467 main_v470 main_v471 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v467 V) (e_main_v470 V))
theorem e_main_v472 : after (ops (F := F)) V (Proc.devRef .tc main_v472) = val_main_v472 (F := F) (a4 V) :=
  (ternary_eq later_712 later_713 (Nat.lt_of_lt_of_eq (by decide : 712 < 1293) ops_len.symm) V main_v469 main_v471 main_v467 main_v472 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v469 V) (e_main_v471 V) (e_main_v467 V))
theorem e_main_c_148 : after (ops (F := F)) V (Proc.devRef .tc main_c_148) = val_main_c_148 (F := F) :=
  nullary_eq later_713 later_714 (Nat.lt_of_lt_of_eq (by decide : 713 < 1293) ops_len.symm) V main_c_148 (constantI S_ 32 0#32) (hop := rfl) (hyi := (by decide))
theorem e_main_v473 : after (ops (F := F)) V (Proc.devRef .tc main_v473) = val_main_v473 (F := F) :=
  (unary_eq later_714 later_715 (Nat.lt_of_lt_of_eq (by decide : 714 < 1293) ops_len.symm) V main_c_148 main_v473 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_148 V))
theorem e_main_v474 : after (ops (F := F)) V (Proc.devRef .tc main_v474) = val_main_v474 (F := F) (a4 V) (a5 V) :=
  (binary_eq later_715 later_716 (Nat.lt_of_lt_of_eq (by decide : 715 < 1293) ops_len.symm) V main_v466 main_v473 main_v474 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v466 V) (e_main_v473 V))
theorem e_main_c_149 : after (ops (F := F)) V (Proc.devRef .tc main_c_149) = val_main_c_149 (F := F) :=
  nullary_eq later_716 later_717 (Nat.lt_of_lt_of_eq (by decide : 716 < 1293) ops_len.symm) V main_c_149 (constantI S_ 32 64#32) (hop := rfl) (hyi := (by decide))
theorem e_main_v475 : after (ops (F := F)) V (Proc.devRef .tc main_v475) = val_main_v475 (F := F) :=
  (unary_eq later_717 later_718 (Nat.lt_of_lt_of_eq (by decide : 717 < 1293) ops_len.symm) V main_c_149 main_v475 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_149 V))
theorem e_main_v476 : after (ops (F := F)) V (Proc.devRef .tc main_v476) = val_main_v476 (F := F) (a4 V) (a5 V) :=
  (binary_eq later_718 later_719 (Nat.lt_of_lt_of_eq (by decide : 718 < 1293) ops_len.symm) V main_v466 main_v475 main_v476 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v466 V) (e_main_v475 V))
theorem e_main_v477 : after (ops (F := F)) V (Proc.devRef .tc main_v477) = val_main_v477 (F := F) (a4 V) (a5 V) :=
  (ternary_eq later_719 later_720 (Nat.lt_of_lt_of_eq (by decide : 719 < 1293) ops_len.symm) V main_v474 main_v476 main_v466 main_v477 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v474 V) (e_main_v476 V) (e_main_v466 V))
theorem e_main_c_150 : after (ops (F := F)) V (Proc.devRef .tc main_c_150) = val_main_c_150 (F := F) :=
  nullary_eq later_720 later_721 (Nat.lt_of_lt_of_eq (by decide : 720 < 1293) ops_len.symm) V main_c_150 (constantI S_ 32 0#32) (hop := rfl) (hyi := (by decide))
theorem e_main_v478 : after (ops (F := F)) V (Proc.devRef .tc main_v478) = val_main_v478 (F := F) :=
  (unary_eq later_721 later_722 (Nat.lt_of_lt_of_eq (by decide : 721 < 1293) ops_len.symm) V main_c_150 main_v478 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_150 V))
theorem e_main_v479 : after (ops (F := F)) V (Proc.devRef .tc main_v479) = val_main_v479 (F := F) (a4 V) (a5 V) :=
  (binary_eq later_722 later_723 (Nat.lt_of_lt_of_eq (by decide : 722 < 1293) ops_len.symm) V main_v465 main_v478 main_v479 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v465 V) (e_main_v478 V))
theorem e_main_c_151 : after (ops (F := F)) V (Proc.devRef .tc main_c_151) = val_main_c_151 (F := F) :=
  nullary_eq later_723 later_724 (Nat.lt_of_lt_of_eq (by decide : 723 < 1293) ops_len.symm) V main_c_151 (constantI S_ 32 64#32) (hop := rfl) (hyi := (by decide))
theorem e_main_v480 : after (ops (F := F)) V (Proc.devRef .tc main_v480) = val_main_v480 (F := F) :=
  (unary_eq later_724 later_725 (Nat.lt_of_lt_of_eq (by decide : 724 < 1293) ops_len.symm) V main_c_151 main_v480 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_151 V))
theorem e_main_v481 : after (ops (F := F)) V (Proc.devRef .tc main_v481) = val_main_v481 (F := F) (a4 V) (a5 V) :=
  (binary_eq later_725 later_726 (Nat.lt_of_lt_of_eq (by decide : 725 < 1293) ops_len.symm) V main_v465 main_v480 main_v481 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v465 V) (e_main_v480 V))
theorem e_main_v482 : after (ops (F := F)) V (Proc.devRef .tc main_v482) = val_main_v482 (F := F) (a4 V) (a5 V) :=
  (ternary_eq later_726 later_727 (Nat.lt_of_lt_of_eq (by decide : 726 < 1293) ops_len.symm) V main_v479 main_v481 main_v465 main_v482 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v479 V) (e_main_v481 V) (e_main_v465 V))
theorem e_main_v483 : after (ops (F := F)) V (Proc.devRef .tc main_v483) = val_main_v483 (F := F) (a4 V) :=
  (unary_eq later_727 later_728 (Nat.lt_of_lt_of_eq (by decide : 727 < 1293) ops_len.symm) V main_v472 main_v483 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v472 V))
theorem e_main_v484 : after (ops (F := F)) V (Proc.devRef .tc main_v484) = val_main_v484 (F := F) (a4 V) :=
  (unary_eq later_728 later_729 (Nat.lt_of_lt_of_eq (by decide : 728 < 1293) ops_len.symm) V main_v483 main_v484 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v483 V))
theorem e_main_v485 : after (ops (F := F)) V (Proc.devRef .tc main_v485) = val_main_v485 (F := F) (a4 V) (a5 V) :=
  (unary_eq later_729 later_730 (Nat.lt_of_lt_of_eq (by decide : 729 < 1293) ops_len.symm) V main_v477 main_v485 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v477 V))
theorem e_main_v486 : after (ops (F := F)) V (Proc.devRef .tc main_v486) = val_main_v486 (F := F) (a4 V) (a5 V) :=
  (unary_eq later_730 later_731 (Nat.lt_of_lt_of_eq (by decide : 730 < 1293) ops_len.symm) V main_v482 main_v486 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v482 V))
theorem e_main_v487 : after (ops (F := F)) V (Proc.devRef .tc main_v487) = val_main_v487 (F := F) (a4 V) (a5 V) :=
  (nary_eq later_731 later_732 (Nat.lt_of_lt_of_eq (by decide : 731 < 1293) ops_len.symm) V ![main_v484, main_v485, main_v486] main_v487 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v484)⟩, ⟨S512x128x1, after (ops (F := F)) V (Proc.devRef .tc main_v485)⟩, ⟨S512x128x1, after (ops (F := F)) V (Proc.devRef .tc main_v486)⟩] concatenates_S512x128x1_S512x128x1_S512x128x1_S512x128x3_d2 = _
    rw [e_main_v484 V, e_main_v485 V, e_main_v486 V]; rfl)
theorem e_main_v488 : after (ops (F := F)) V (Proc.devRef .tc main_v488) = val_main_v488 (F := F) (a2 V) (a4 V) (a5 V) :=
  (binary_eq later_732 later_733 (Nat.lt_of_lt_of_eq (by decide : 732 < 1293) ops_len.symm) V main_arg2 main_v487 main_v488 ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (e_main_arg2 V) (e_main_v487 V))
theorem e_main_v489 : after (ops (F := F)) V (Proc.devRef .tc main_v489) = val_main_v489 (F := F) (a4 V) (a5 V) :=
  (unary_eq later_733 later_734 (Nat.lt_of_lt_of_eq (by decide : 733 < 1293) ops_len.symm) V main_v464 main_v489 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v464 V))
theorem e_main_v490 : after (ops (F := F)) V (Proc.devRef .tc main_v490) = val_main_v490 (F := F) (a4 V) (a5 V) :=
  (unary_eq later_734 later_735 (Nat.lt_of_lt_of_eq (by decide : 734 < 1293) ops_len.symm) V main_v489 main_v490 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v489 V))
theorem e_main_v491 : after (ops (F := F)) V (Proc.devRef .tc main_v491) = val_main_v491 (F := F) (a4 V) (a5 V) :=
  (unary_eq later_735 later_736 (Nat.lt_of_lt_of_eq (by decide : 735 < 1293) ops_len.symm) V main_v490 main_v491 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v490 V))
theorem e_main_v492 : after (ops (F := F)) V (Proc.devRef .tc main_v492) = val_main_v492 (F := F) (a2 V) (a4 V) (a5 V) :=
  (binary_eq later_736 later_737 (Nat.lt_of_lt_of_eq (by decide : 736 < 1293) ops_len.symm) V main_v488 main_v491 main_v492 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v488 V) (e_main_v491 V))
theorem e_main_c_152 : after (ops (F := F)) V (Proc.devRef .tc main_c_152) = val_main_c_152 (F := F) :=
  nullary_eq later_737 later_738 (Nat.lt_of_lt_of_eq (by decide : 737 < 1293) ops_len.symm) V main_c_152 (constantI S_ 32 1#32) (hop := rfl) (hyi := (by decide))
theorem e_main_v493 : after (ops (F := F)) V (Proc.devRef .tc main_v493) = val_main_v493 (F := F) :=
  (unary_eq later_738 later_739 (Nat.lt_of_lt_of_eq (by decide : 738 < 1293) ops_len.symm) V main_c_152 main_v493 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_152 V))
theorem e_main_v494 : after (ops (F := F)) V (Proc.devRef .tc main_v494) = val_main_v494 (F := F) (a4 V) (a5 V) :=
  (binary_eq later_739 later_740 (Nat.lt_of_lt_of_eq (by decide : 739 < 1293) ops_len.symm) V main_v452 main_v493 main_v494 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v452 V) (e_main_v493 V))
theorem e_main_c_153 : after (ops (F := F)) V (Proc.devRef .tc main_c_153) = val_main_c_153 (F := F) :=
  nullary_eq later_740 later_741 (Nat.lt_of_lt_of_eq (by decide : 740 < 1293) ops_len.symm) V main_c_153 (constantI S_ 32 0#32) (hop := rfl) (hyi := (by decide))
theorem e_main_v495 : after (ops (F := F)) V (Proc.devRef .tc main_v495) = val_main_v495 (F := F) :=
  (unary_eq later_741 later_742 (Nat.lt_of_lt_of_eq (by decide : 741 < 1293) ops_len.symm) V main_c_153 main_v495 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_153 V))
theorem e_main_v496 : after (ops (F := F)) V (Proc.devRef .tc main_v496) = val_main_v496 (F := F) (a4 V) (a5 V) :=
  (binary_eq later_742 later_743 (Nat.lt_of_lt_of_eq (by decide : 742 < 1293) ops_len.symm) V main_v494 main_v495 main_v496 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v494 V) (e_main_v495 V))
theorem e_main_c_154 : after (ops (F := F)) V (Proc.devRef .tc main_c_154) = val_main_c_154 (F := F) :=
  nullary_eq later_743 later_744 (Nat.lt_of_lt_of_eq (by decide : 743 < 1293) ops_len.symm) V main_c_154 (constantI S_ 32 64#32) (hop := rfl) (hyi := (by decide))
theorem e_main_v497 : after (ops (F := F)) V (Proc.devRef .tc main_v497) = val_main_v497 (F := F) :=
  (unary_eq later_744 later_745 (Nat.lt_of_lt_of_eq (by decide : 744 < 1293) ops_len.symm) V main_c_154 main_v497 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_154 V))
theorem e_main_v498 : after (ops (F := F)) V (Proc.devRef .tc main_v498) = val_main_v498 (F := F) (a4 V) (a5 V) :=
  (binary_eq later_745 later_746 (Nat.lt_of_lt_of_eq (by decide : 745 < 1293) ops_len.symm) V main_v494 main_v497 main_v498 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v494 V) (e_main_v497 V))
theorem e_main_v499 : after (ops (F := F)) V (Proc.devRef .tc main_v499) = val_main_v499 (F := F) (a4 V) (a5 V) :=
  (binary_eq later_746 later_747 (Nat.lt_of_lt_of_eq (by decide : 746 < 1293) ops_len.symm) V main_v496 main_v498 main_v499 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v496 V) (e_main_v498 V))
theorem e_main_c_155 : after (ops (F := F)) V (Proc.devRef .tc main_c_155) = val_main_c_155 (F := F) :=
  nullary_eq later_747 later_748 (Nat.lt_of_lt_of_eq (by decide : 747 < 1293) ops_len.symm) V main_c_155 (constantI S_ 32 0#32) (hop := rfl) (hyi := (by decide))
theorem e_main_v500 : after (ops (F := F)) V (Proc.devRef .tc main_v500) = val_main_v500 (F := F) :=
  (unary_eq later_748 later_749 (Nat.lt_of_lt_of_eq (by decide : 748 < 1293) ops_len.symm) V main_c_155 main_v500 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_155 V))
theorem e_main_v501 : after (ops (F := F)) V (Proc.devRef .tc main_v501) = val_main_v501 (F := F) (a4 V) (a5 V) :=
  (binary_eq later_749 later_750 (Nat.lt_of_lt_of_eq (by decide : 749 < 1293) ops_len.symm) V main_v453 main_v500 main_v501 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v453 V) (e_main_v500 V))
theorem e_main_v502 : after (ops (F := F)) V (Proc.devRef .tc main_v502) = val_main_v502 (F := F) (a4 V) (a5 V) :=
  (binary_eq later_750 later_751 (Nat.lt_of_lt_of_eq (by decide : 750 < 1293) ops_len.symm) V main_v499 main_v501 main_v502 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v499 V) (e_main_v501 V))
theorem e_main_c_156 : after (ops (F := F)) V (Proc.devRef .tc main_c_156) = val_main_c_156 (F := F) :=
  nullary_eq later_751 later_752 (Nat.lt_of_lt_of_eq (by decide : 751 < 1293) ops_len.symm) V main_c_156 (constantI S_ 32 64#32) (hop := rfl) (hyi := (by decide))
theorem e_main_v503 : after (ops (F := F)) V (Proc.devRef .tc main_v503) = val_main_v503 (F := F) :=
  (unary_eq later_752 later_753 (Nat.lt_of_lt_of_eq (by decide : 752 < 1293) ops_len.symm) V main_c_156 main_v503 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_156 V))
theorem e_main_v504 : after (ops (F := F)) V (Proc.devRef .tc main_v504) = val_main_v504 (F := F) (a4 V) (a5 V) :=
  (binary_eq later_753 later_754 (Nat.lt_of_lt_of_eq (by decide : 753 < 1293) ops_len.symm) V main_v453 main_v503 main_v504 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v453 V) (e_main_v503 V))
theorem e_main_v505 : after (ops (F := F)) V (Proc.devRef .tc main_v505) = val_main_v505 (F := F) (a4 V) (a5 V) :=
  (binary_eq later_754 later_755 (Nat.lt_of_lt_of_eq (by decide : 754 < 1293) ops_len.symm) V main_v502 main_v504 main_v505 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v502 V) (e_main_v504 V))
theorem e_main_c_157 : after (ops (F := F)) V (Proc.devRef .tc main_c_157) = val_main_c_157 (F := F) :=
  nullary_eq later_755 later_756 (Nat.lt_of_lt_of_eq (by decide : 755 < 1293) ops_len.symm) V main_c_157 (constantI S_ 32 0#32) (hop := rfl) (hyi := (by decide))
theorem e_main_c_158 : after (ops (F := F)) V (Proc.devRef .tc main_c_158) = val_main_c_158 (F := F) :=
  nullary_eq later_756 later_757 (Nat.lt_of_lt_of_eq (by decide : 756 < 1293) ops_len.symm) V main_c_158 (constantI S_ 32 63#32) (hop := rfl) (hyi := (by decide))
theorem e_main_call18_v0 : after (ops (F := F)) V (Proc.devRef .tc main_call18_v0) = val_main_call18_v0 (F := F) :=
  (tunary_eq later_757 later_758 (Nat.lt_of_lt_of_eq (by decide : 757 < 1293) ops_len.symm) V (TRef.of (T := ⟨S_, .i32⟩) main_c_157) (TRef.of (T := ⟨S_, .i32⟩) main_call18_v0) id (hop := rfl) (hyi := (by decide)) (hxi := (by decide))).trans
    (congrArg (fun t => (TRef.of (T := ⟨S_, .i32⟩) main_call18_v0).toBuf ((id) ((TRef.of (T := ⟨S_, .i32⟩) main_c_157).ofBuf t))) (e_main_c_157 V))
theorem e_main_call18_v1 : after (ops (F := F)) V (Proc.devRef .tc main_call18_v1) = val_main_call18_v1 (F := F) :=
  (tunary_eq later_758 later_759 (Nat.lt_of_lt_of_eq (by decide : 758 < 1293) ops_len.symm) V (TRef.of (T := ⟨S_, .i32⟩) main_call18_v0) (TRef.of (T := ⟨S512x128, .i32⟩) main_call18_v1) (broadcastInDim S512x128 ![] bcast_S_S512x128) (hop := rfl) (hyi := (by decide)) (hxi := (by decide))).trans
    (congrArg (fun t => (TRef.of (T := ⟨S512x128, .i32⟩) main_call18_v1).toBuf (((broadcastInDim S512x128 ![] bcast_S_S512x128)) ((TRef.of (T := ⟨S_, .i32⟩) main_call18_v0).ofBuf t))) (e_main_call18_v0 V))
theorem e_main_call18_v2 : after (ops (F := F)) V (Proc.devRef .tc main_call18_v2) = val_main_call18_v2 (F := F) (a4 V) (a5 V) :=
  (tbinary_eq later_759 later_760 (Nat.lt_of_lt_of_eq (by decide : 759 < 1293) ops_len.symm) V (TRef.of (T := ⟨S512x128, .i32⟩) main_call18_v1) (TRef.of (T := ⟨S512x128, .i32⟩) main_v494) (TRef.of (T := ⟨S512x128, .i32⟩) main_call18_v2) maxsi (hop := rfl) (hyi := (by decide)) (hai := (by decide)) (hbi := (by decide))).trans
    (by rw [e_main_call18_v1 V, e_main_v494 V]; rfl)
theorem e_main_call18_v3 : after (ops (F := F)) V (Proc.devRef .tc main_call18_v3) = val_main_call18_v3 (F := F) :=
  (tunary_eq later_760 later_761 (Nat.lt_of_lt_of_eq (by decide : 760 < 1293) ops_len.symm) V (TRef.of (T := ⟨S_, .i32⟩) main_c_158) (TRef.of (T := ⟨S_, .i32⟩) main_call18_v3) id (hop := rfl) (hyi := (by decide)) (hxi := (by decide))).trans
    (congrArg (fun t => (TRef.of (T := ⟨S_, .i32⟩) main_call18_v3).toBuf ((id) ((TRef.of (T := ⟨S_, .i32⟩) main_c_158).ofBuf t))) (e_main_c_158 V))
theorem e_main_call18_v4 : after (ops (F := F)) V (Proc.devRef .tc main_call18_v4) = val_main_call18_v4 (F := F) :=
  (tunary_eq later_761 later_762 (Nat.lt_of_lt_of_eq (by decide : 761 < 1293) ops_len.symm) V (TRef.of (T := ⟨S_, .i32⟩) main_call18_v3) (TRef.of (T := ⟨S512x128, .i32⟩) main_call18_v4) (broadcastInDim S512x128 ![] bcast_S_S512x128) (hop := rfl) (hyi := (by decide)) (hxi := (by decide))).trans
    (congrArg (fun t => (TRef.of (T := ⟨S512x128, .i32⟩) main_call18_v4).toBuf (((broadcastInDim S512x128 ![] bcast_S_S512x128)) ((TRef.of (T := ⟨S_, .i32⟩) main_call18_v3).ofBuf t))) (e_main_call18_v3 V))
theorem e_main_v506 : after (ops (F := F)) V (Proc.devRef .tc main_v506) = val_main_v506 (F := F) (a4 V) (a5 V) :=
  (tbinary_eq later_762 later_763 (Nat.lt_of_lt_of_eq (by decide : 762 < 1293) ops_len.symm) V (TRef.of (T := ⟨S512x128, .i32⟩) main_call18_v4) (TRef.of (T := ⟨S512x128, .i32⟩) main_call18_v2) (TRef.of (T := ⟨S512x128, .i32⟩) main_v506) minsi (hop := rfl) (hyi := (by decide)) (hai := (by decide)) (hbi := (by decide))).trans
    (by rw [e_main_call18_v4 V, e_main_call18_v2 V]; rfl)
theorem e_main_c_159 : after (ops (F := F)) V (Proc.devRef .tc main_c_159) = val_main_c_159 (F := F) :=
  nullary_eq later_763 later_764 (Nat.lt_of_lt_of_eq (by decide : 763 < 1293) ops_len.symm) V main_c_159 (constantI S_ 32 0#32) (hop := rfl) (hyi := (by decide))
theorem e_main_c_160 : after (ops (F := F)) V (Proc.devRef .tc main_c_160) = val_main_c_160 (F := F) :=
  nullary_eq later_764 later_765 (Nat.lt_of_lt_of_eq (by decide : 764 < 1293) ops_len.symm) V main_c_160 (constantI S_ 32 63#32) (hop := rfl) (hyi := (by decide))
theorem e_main_call19_v0 : after (ops (F := F)) V (Proc.devRef .tc main_call19_v0) = val_main_call19_v0 (F := F) :=
  (tunary_eq later_765 later_766 (Nat.lt_of_lt_of_eq (by decide : 765 < 1293) ops_len.symm) V (TRef.of (T := ⟨S_, .i32⟩) main_c_159) (TRef.of (T := ⟨S_, .i32⟩) main_call19_v0) id (hop := rfl) (hyi := (by decide)) (hxi := (by decide))).trans
    (congrArg (fun t => (TRef.of (T := ⟨S_, .i32⟩) main_call19_v0).toBuf ((id) ((TRef.of (T := ⟨S_, .i32⟩) main_c_159).ofBuf t))) (e_main_c_159 V))
theorem e_main_call19_v1 : after (ops (F := F)) V (Proc.devRef .tc main_call19_v1) = val_main_call19_v1 (F := F) :=
  (tunary_eq later_766 later_767 (Nat.lt_of_lt_of_eq (by decide : 766 < 1293) ops_len.symm) V (TRef.of (T := ⟨S_, .i32⟩) main_call19_v0) (TRef.of (T := ⟨S512x128, .i32⟩) main_call19_v1) (broadcastInDim S512x128 ![] bcast_S_S512x128) (hop := rfl) (hyi := (by decide)) (hxi := (by decide))).trans
    (congrArg (fun t => (TRef.of (T := ⟨S512x128, .i32⟩) main_call19_v1).toBuf (((broadcastInDim S512x128 ![] bcast_S_S512x128)) ((TRef.of (T := ⟨S_, .i32⟩) main_call19_v0).ofBuf t))) (e_main_call19_v0 V))
theorem e_main_call19_v2 : after (ops (F := F)) V (Proc.devRef .tc main_call19_v2) = val_main_call19_v2 (F := F) (a4 V) (a5 V) :=
  (tbinary_eq later_767 later_768 (Nat.lt_of_lt_of_eq (by decide : 767 < 1293) ops_len.symm) V (TRef.of (T := ⟨S512x128, .i32⟩) main_call19_v1) (TRef.of (T := ⟨S512x128, .i32⟩) main_v453) (TRef.of (T := ⟨S512x128, .i32⟩) main_call19_v2) maxsi (hop := rfl) (hyi := (by decide)) (hai := (by decide)) (hbi := (by decide))).trans
    (by rw [e_main_call19_v1 V, e_main_v453 V]; rfl)
theorem e_main_call19_v3 : after (ops (F := F)) V (Proc.devRef .tc main_call19_v3) = val_main_call19_v3 (F := F) :=
  (tunary_eq later_768 later_769 (Nat.lt_of_lt_of_eq (by decide : 768 < 1293) ops_len.symm) V (TRef.of (T := ⟨S_, .i32⟩) main_c_160) (TRef.of (T := ⟨S_, .i32⟩) main_call19_v3) id (hop := rfl) (hyi := (by decide)) (hxi := (by decide))).trans
    (congrArg (fun t => (TRef.of (T := ⟨S_, .i32⟩) main_call19_v3).toBuf ((id) ((TRef.of (T := ⟨S_, .i32⟩) main_c_160).ofBuf t))) (e_main_c_160 V))
theorem e_main_call19_v4 : after (ops (F := F)) V (Proc.devRef .tc main_call19_v4) = val_main_call19_v4 (F := F) :=
  (tunary_eq later_769 later_770 (Nat.lt_of_lt_of_eq (by decide : 769 < 1293) ops_len.symm) V (TRef.of (T := ⟨S_, .i32⟩) main_call19_v3) (TRef.of (T := ⟨S512x128, .i32⟩) main_call19_v4) (broadcastInDim S512x128 ![] bcast_S_S512x128) (hop := rfl) (hyi := (by decide)) (hxi := (by decide))).trans
    (congrArg (fun t => (TRef.of (T := ⟨S512x128, .i32⟩) main_call19_v4).toBuf (((broadcastInDim S512x128 ![] bcast_S_S512x128)) ((TRef.of (T := ⟨S_, .i32⟩) main_call19_v3).ofBuf t))) (e_main_call19_v3 V))
theorem e_main_v507 : after (ops (F := F)) V (Proc.devRef .tc main_v507) = val_main_v507 (F := F) (a4 V) (a5 V) :=
  (tbinary_eq later_770 later_771 (Nat.lt_of_lt_of_eq (by decide : 770 < 1293) ops_len.symm) V (TRef.of (T := ⟨S512x128, .i32⟩) main_call19_v4) (TRef.of (T := ⟨S512x128, .i32⟩) main_call19_v2) (TRef.of (T := ⟨S512x128, .i32⟩) main_v507) minsi (hop := rfl) (hyi := (by decide)) (hai := (by decide)) (hbi := (by decide))).trans
    (by rw [e_main_call19_v4 V, e_main_call19_v2 V]; rfl)
theorem e_main_v508 : after (ops (F := F)) V (Proc.devRef .tc main_v508) = val_main_v508 (F := F) (a4 V) :=
  (unary_eq later_771 later_772 (Nat.lt_of_lt_of_eq (by decide : 771 < 1293) ops_len.symm) V main_v2 main_v508 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_161 : after (ops (F := F)) V (Proc.devRef .tc main_c_161) = val_main_c_161 (F := F) :=
  nullary_eq later_772 later_773 (Nat.lt_of_lt_of_eq (by decide : 772 < 1293) ops_len.symm) V main_c_161 (constantI S_ 32 0#32) (hop := rfl) (hyi := (by decide))
theorem e_main_v509 : after (ops (F := F)) V (Proc.devRef .tc main_v509) = val_main_v509 (F := F) :=
  (unary_eq later_773 later_774 (Nat.lt_of_lt_of_eq (by decide : 773 < 1293) ops_len.symm) V main_c_161 main_v509 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_161 V))
theorem e_main_v510 : after (ops (F := F)) V (Proc.devRef .tc main_v510) = val_main_v510 (F := F) (a4 V) :=
  (binary_eq later_774 later_775 (Nat.lt_of_lt_of_eq (by decide : 774 < 1293) ops_len.symm) V main_v508 main_v509 main_v510 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v508 V) (e_main_v509 V))
theorem e_main_c_162 : after (ops (F := F)) V (Proc.devRef .tc main_c_162) = val_main_c_162 (F := F) :=
  nullary_eq later_775 later_776 (Nat.lt_of_lt_of_eq (by decide : 775 < 1293) ops_len.symm) V main_c_162 (constantI S_ 32 2#32) (hop := rfl) (hyi := (by decide))
theorem e_main_v511 : after (ops (F := F)) V (Proc.devRef .tc main_v511) = val_main_v511 (F := F) :=
  (unary_eq later_776 later_777 (Nat.lt_of_lt_of_eq (by decide : 776 < 1293) ops_len.symm) V main_c_162 main_v511 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_162 V))
theorem e_main_v512 : after (ops (F := F)) V (Proc.devRef .tc main_v512) = val_main_v512 (F := F) (a4 V) :=
  (binary_eq later_777 later_778 (Nat.lt_of_lt_of_eq (by decide : 777 < 1293) ops_len.symm) V main_v508 main_v511 main_v512 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v508 V) (e_main_v511 V))
theorem e_main_v513 : after (ops (F := F)) V (Proc.devRef .tc main_v513) = val_main_v513 (F := F) (a4 V) :=
  (ternary_eq later_778 later_779 (Nat.lt_of_lt_of_eq (by decide : 778 < 1293) ops_len.symm) V main_v510 main_v512 main_v508 main_v513 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v510 V) (e_main_v512 V) (e_main_v508 V))
theorem e_main_c_163 : after (ops (F := F)) V (Proc.devRef .tc main_c_163) = val_main_c_163 (F := F) :=
  nullary_eq later_779 later_780 (Nat.lt_of_lt_of_eq (by decide : 779 < 1293) ops_len.symm) V main_c_163 (constantI S_ 32 0#32) (hop := rfl) (hyi := (by decide))
theorem e_main_v514 : after (ops (F := F)) V (Proc.devRef .tc main_v514) = val_main_v514 (F := F) :=
  (unary_eq later_780 later_781 (Nat.lt_of_lt_of_eq (by decide : 780 < 1293) ops_len.symm) V main_c_163 main_v514 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_163 V))
theorem e_main_v515 : after (ops (F := F)) V (Proc.devRef .tc main_v515) = val_main_v515 (F := F) (a4 V) (a5 V) :=
  (binary_eq later_781 later_782 (Nat.lt_of_lt_of_eq (by decide : 781 < 1293) ops_len.symm) V main_v507 main_v514 main_v515 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v507 V) (e_main_v514 V))
theorem e_main_c_164 : after (ops (F := F)) V (Proc.devRef .tc main_c_164) = val_main_c_164 (F := F) :=
  nullary_eq later_782 later_783 (Nat.lt_of_lt_of_eq (by decide : 782 < 1293) ops_len.symm) V main_c_164 (constantI S_ 32 64#32) (hop := rfl) (hyi := (by decide))
theorem e_main_v516 : after (ops (F := F)) V (Proc.devRef .tc main_v516) = val_main_v516 (F := F) :=
  (unary_eq later_783 later_784 (Nat.lt_of_lt_of_eq (by decide : 783 < 1293) ops_len.symm) V main_c_164 main_v516 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_164 V))
theorem e_main_v517 : after (ops (F := F)) V (Proc.devRef .tc main_v517) = val_main_v517 (F := F) (a4 V) (a5 V) :=
  (binary_eq later_784 later_785 (Nat.lt_of_lt_of_eq (by decide : 784 < 1293) ops_len.symm) V main_v507 main_v516 main_v517 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v507 V) (e_main_v516 V))
theorem e_main_v518 : after (ops (F := F)) V (Proc.devRef .tc main_v518) = val_main_v518 (F := F) (a4 V) (a5 V) :=
  (ternary_eq later_785 later_786 (Nat.lt_of_lt_of_eq (by decide : 785 < 1293) ops_len.symm) V main_v515 main_v517 main_v507 main_v518 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v515 V) (e_main_v517 V) (e_main_v507 V))
theorem e_main_c_165 : after (ops (F := F)) V (Proc.devRef .tc main_c_165) = val_main_c_165 (F := F) :=
  nullary_eq later_786 later_787 (Nat.lt_of_lt_of_eq (by decide : 786 < 1293) ops_len.symm) V main_c_165 (constantI S_ 32 0#32) (hop := rfl) (hyi := (by decide))
theorem e_main_v519 : after (ops (F := F)) V (Proc.devRef .tc main_v519) = val_main_v519 (F := F) :=
  (unary_eq later_787 later_788 (Nat.lt_of_lt_of_eq (by decide : 787 < 1293) ops_len.symm) V main_c_165 main_v519 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_165 V))
theorem e_main_v520 : after (ops (F := F)) V (Proc.devRef .tc main_v520) = val_main_v520 (F := F) (a4 V) (a5 V) :=
  (binary_eq later_788 later_789 (Nat.lt_of_lt_of_eq (by decide : 788 < 1293) ops_len.symm) V main_v506 main_v519 main_v520 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v506 V) (e_main_v519 V))
theorem e_main_c_166 : after (ops (F := F)) V (Proc.devRef .tc main_c_166) = val_main_c_166 (F := F) :=
  nullary_eq later_789 later_790 (Nat.lt_of_lt_of_eq (by decide : 789 < 1293) ops_len.symm) V main_c_166 (constantI S_ 32 64#32) (hop := rfl) (hyi := (by decide))
theorem e_main_v521 : after (ops (F := F)) V (Proc.devRef .tc main_v521) = val_main_v521 (F := F) :=
  (unary_eq later_790 later_791 (Nat.lt_of_lt_of_eq (by decide : 790 < 1293) ops_len.symm) V main_c_166 main_v521 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_166 V))
theorem e_main_v522 : after (ops (F := F)) V (Proc.devRef .tc main_v522) = val_main_v522 (F := F) (a4 V) (a5 V) :=
  (binary_eq later_791 later_792 (Nat.lt_of_lt_of_eq (by decide : 791 < 1293) ops_len.symm) V main_v506 main_v521 main_v522 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v506 V) (e_main_v521 V))
theorem e_main_v523 : after (ops (F := F)) V (Proc.devRef .tc main_v523) = val_main_v523 (F := F) (a4 V) (a5 V) :=
  (ternary_eq later_792 later_793 (Nat.lt_of_lt_of_eq (by decide : 792 < 1293) ops_len.symm) V main_v520 main_v522 main_v506 main_v523 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v520 V) (e_main_v522 V) (e_main_v506 V))
theorem e_main_v524 : after (ops (F := F)) V (Proc.devRef .tc main_v524) = val_main_v524 (F := F) (a4 V) :=
  (unary_eq later_793 later_794 (Nat.lt_of_lt_of_eq (by decide : 793 < 1293) ops_len.symm) V main_v513 main_v524 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v513 V))
theorem e_main_v525 : after (ops (F := F)) V (Proc.devRef .tc main_v525) = val_main_v525 (F := F) (a4 V) :=
  (unary_eq later_794 later_795 (Nat.lt_of_lt_of_eq (by decide : 794 < 1293) ops_len.symm) V main_v524 main_v525 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v524 V))
theorem e_main_v526 : after (ops (F := F)) V (Proc.devRef .tc main_v526) = val_main_v526 (F := F) (a4 V) (a5 V) :=
  (unary_eq later_795 later_796 (Nat.lt_of_lt_of_eq (by decide : 795 < 1293) ops_len.symm) V main_v518 main_v526 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v518 V))
theorem e_main_v527 : after (ops (F := F)) V (Proc.devRef .tc main_v527) = val_main_v527 (F := F) (a4 V) (a5 V) :=
  (unary_eq later_796 later_797 (Nat.lt_of_lt_of_eq (by decide : 796 < 1293) ops_len.symm) V main_v523 main_v527 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v523 V))
theorem e_main_v528 : after (ops (F := F)) V (Proc.devRef .tc main_v528) = val_main_v528 (F := F) (a4 V) (a5 V) :=
  (nary_eq later_797 later_798 (Nat.lt_of_lt_of_eq (by decide : 797 < 1293) ops_len.symm) V ![main_v525, main_v526, main_v527] main_v528 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v525)⟩, ⟨S512x128x1, after (ops (F := F)) V (Proc.devRef .tc main_v526)⟩, ⟨S512x128x1, after (ops (F := F)) V (Proc.devRef .tc main_v527)⟩] concatenates_S512x128x1_S512x128x1_S512x128x1_S512x128x3_d2 = _
    rw [e_main_v525 V, e_main_v526 V, e_main_v527 V]; rfl)
theorem e_main_v529 : after (ops (F := F)) V (Proc.devRef .tc main_v529) = val_main_v529 (F := F) (a2 V) (a4 V) (a5 V) :=
  (binary_eq later_798 later_799 (Nat.lt_of_lt_of_eq (by decide : 798 < 1293) ops_len.symm) V main_arg2 main_v528 main_v529 ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (e_main_arg2 V) (e_main_v528 V))
theorem e_main_v530 : after (ops (F := F)) V (Proc.devRef .tc main_v530) = val_main_v530 (F := F) (a4 V) (a5 V) :=
  (unary_eq later_799 later_800 (Nat.lt_of_lt_of_eq (by decide : 799 < 1293) ops_len.symm) V main_v505 main_v530 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v505 V))
theorem e_main_v531 : after (ops (F := F)) V (Proc.devRef .tc main_v531) = val_main_v531 (F := F) (a4 V) (a5 V) :=
  (unary_eq later_800 later_801 (Nat.lt_of_lt_of_eq (by decide : 800 < 1293) ops_len.symm) V main_v530 main_v531 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v530 V))
theorem e_main_v532 : after (ops (F := F)) V (Proc.devRef .tc main_v532) = val_main_v532 (F := F) (a4 V) (a5 V) :=
  (unary_eq later_801 later_802 (Nat.lt_of_lt_of_eq (by decide : 801 < 1293) ops_len.symm) V main_v531 main_v532 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v531 V))
theorem e_main_v533 : after (ops (F := F)) V (Proc.devRef .tc main_v533) = val_main_v533 (F := F) (a2 V) (a4 V) (a5 V) :=
  (binary_eq later_802 later_803 (Nat.lt_of_lt_of_eq (by decide : 802 < 1293) ops_len.symm) V main_v529 main_v532 main_v533 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v529 V) (e_main_v532 V))
theorem e_main_c_167 : after (ops (F := F)) V (Proc.devRef .tc main_c_167) = val_main_c_167 (F := F) :=
  nullary_eq later_803 later_804 (Nat.lt_of_lt_of_eq (by decide : 803 < 1293) ops_len.symm) V main_c_167 (constantI S_ 32 1#32) (hop := rfl) (hyi := (by decide))
theorem e_main_v534 : after (ops (F := F)) V (Proc.devRef .tc main_v534) = val_main_v534 (F := F) :=
  (unary_eq later_804 later_805 (Nat.lt_of_lt_of_eq (by decide : 804 < 1293) ops_len.symm) V main_c_167 main_v534 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_167 V))
theorem e_main_v535 : after (ops (F := F)) V (Proc.devRef .tc main_v535) = val_main_v535 (F := F) (a4 V) (a5 V) :=
  (binary_eq later_805 later_806 (Nat.lt_of_lt_of_eq (by decide : 805 < 1293) ops_len.symm) V main_v453 main_v534 main_v535 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v453 V) (e_main_v534 V))
theorem e_main_c_168 : after (ops (F := F)) V (Proc.devRef .tc main_c_168) = val_main_c_168 (F := F) :=
  nullary_eq later_806 later_807 (Nat.lt_of_lt_of_eq (by decide : 806 < 1293) ops_len.symm) V main_c_168 (constantI S_ 32 0#32) (hop := rfl) (hyi := (by decide))
theorem e_main_v536 : after (ops (F := F)) V (Proc.devRef .tc main_v536) = val_main_v536 (F := F) :=
  (unary_eq later_807 later_808 (Nat.lt_of_lt_of_eq (by decide : 807 < 1293) ops_len.symm) V main_c_168 main_v536 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_168 V))
theorem e_main_v537 : after (ops (F := F)) V (Proc.devRef .tc main_v537) = val_main_v537 (F := F) (a4 V) (a5 V) :=
  (binary_eq later_808 later_809 (Nat.lt_of_lt_of_eq (by decide : 808 < 1293) ops_len.symm) V main_v452 main_v536 main_v537 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v452 V) (e_main_v536 V))
theorem e_main_c_169 : after (ops (F := F)) V (Proc.devRef .tc main_c_169) = val_main_c_169 (F := F) :=
  nullary_eq later_809 later_810 (Nat.lt_of_lt_of_eq (by decide : 809 < 1293) ops_len.symm) V main_c_169 (constantI S_ 32 64#32) (hop := rfl) (hyi := (by decide))
theorem e_main_v538 : after (ops (F := F)) V (Proc.devRef .tc main_v538) = val_main_v538 (F := F) :=
  (unary_eq later_810 later_811 (Nat.lt_of_lt_of_eq (by decide : 810 < 1293) ops_len.symm) V main_c_169 main_v538 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_169 V))
theorem e_main_v539 : after (ops (F := F)) V (Proc.devRef .tc main_v539) = val_main_v539 (F := F) (a4 V) (a5 V) :=
  (binary_eq later_811 later_812 (Nat.lt_of_lt_of_eq (by decide : 811 < 1293) ops_len.symm) V main_v452 main_v538 main_v539 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v452 V) (e_main_v538 V))
theorem e_main_v540 : after (ops (F := F)) V (Proc.devRef .tc main_v540) = val_main_v540 (F := F) (a4 V) (a5 V) :=
  (binary_eq later_812 later_813 (Nat.lt_of_lt_of_eq (by decide : 812 < 1293) ops_len.symm) V main_v537 main_v539 main_v540 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v537 V) (e_main_v539 V))
theorem e_main_c_170 : after (ops (F := F)) V (Proc.devRef .tc main_c_170) = val_main_c_170 (F := F) :=
  nullary_eq later_813 later_814 (Nat.lt_of_lt_of_eq (by decide : 813 < 1293) ops_len.symm) V main_c_170 (constantI S_ 32 0#32) (hop := rfl) (hyi := (by decide))
theorem e_main_v541 : after (ops (F := F)) V (Proc.devRef .tc main_v541) = val_main_v541 (F := F) :=
  (unary_eq later_814 later_815 (Nat.lt_of_lt_of_eq (by decide : 814 < 1293) ops_len.symm) V main_c_170 main_v541 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_170 V))
theorem e_main_v542 : after (ops (F := F)) V (Proc.devRef .tc main_v542) = val_main_v542 (F := F) (a4 V) (a5 V) :=
  (binary_eq later_815 later_816 (Nat.lt_of_lt_of_eq (by decide : 815 < 1293) ops_len.symm) V main_v535 main_v541 main_v542 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v535 V) (e_main_v541 V))
theorem e_main_v543 : after (ops (F := F)) V (Proc.devRef .tc main_v543) = val_main_v543 (F := F) (a4 V) (a5 V) :=
  (binary_eq later_816 later_817 (Nat.lt_of_lt_of_eq (by decide : 816 < 1293) ops_len.symm) V main_v540 main_v542 main_v543 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v540 V) (e_main_v542 V))
theorem e_main_c_171 : after (ops (F := F)) V (Proc.devRef .tc main_c_171) = val_main_c_171 (F := F) :=
  nullary_eq later_817 later_818 (Nat.lt_of_lt_of_eq (by decide : 817 < 1293) ops_len.symm) V main_c_171 (constantI S_ 32 64#32) (hop := rfl) (hyi := (by decide))
theorem e_main_v544 : after (ops (F := F)) V (Proc.devRef .tc main_v544) = val_main_v544 (F := F) :=
  (unary_eq later_818 later_819 (Nat.lt_of_lt_of_eq (by decide : 818 < 1293) ops_len.symm) V main_c_171 main_v544 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_171 V))
theorem e_main_v545 : after (ops (F := F)) V (Proc.devRef .tc main_v545) = val_main_v545 (F := F) (a4 V) (a5 V) :=
  (binary_eq later_819 later_820 (Nat.lt_of_lt_of_eq (by decide : 819 < 1293) ops_len.symm) V main_v535 main_v544 main_v545 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v535 V) (e_main_v544 V))
theorem e_main_v546 : after (ops (F := F)) V (Proc.devRef .tc main_v546) = val_main_v546 (F := F) (a4 V) (a5 V) :=
  (binary_eq later_820 later_821 (Nat.lt_of_lt_of_eq (by decide : 820 < 1293) ops_len.symm) V main_v543 main_v545 main_v546 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v543 V) (e_main_v545 V))
theorem e_main_c_172 : after (ops (F := F)) V (Proc.devRef .tc main_c_172) = val_main_c_172 (F := F) :=
  nullary_eq later_821 later_822 (Nat.lt_of_lt_of_eq (by decide : 821 < 1293) ops_len.symm) V main_c_172 (constantI S_ 32 0#32) (hop := rfl) (hyi := (by decide))
theorem e_main_c_173 : after (ops (F := F)) V (Proc.devRef .tc main_c_173) = val_main_c_173 (F := F) :=
  nullary_eq later_822 later_823 (Nat.lt_of_lt_of_eq (by decide : 822 < 1293) ops_len.symm) V main_c_173 (constantI S_ 32 63#32) (hop := rfl) (hyi := (by decide))
theorem e_main_call20_v0 : after (ops (F := F)) V (Proc.devRef .tc main_call20_v0) = val_main_call20_v0 (F := F) :=
  (tunary_eq later_823 later_824 (Nat.lt_of_lt_of_eq (by decide : 823 < 1293) ops_len.symm) V (TRef.of (T := ⟨S_, .i32⟩) main_c_172) (TRef.of (T := ⟨S_, .i32⟩) main_call20_v0) id (hop := rfl) (hyi := (by decide)) (hxi := (by decide))).trans
    (congrArg (fun t => (TRef.of (T := ⟨S_, .i32⟩) main_call20_v0).toBuf ((id) ((TRef.of (T := ⟨S_, .i32⟩) main_c_172).ofBuf t))) (e_main_c_172 V))
theorem e_main_call20_v1 : after (ops (F := F)) V (Proc.devRef .tc main_call20_v1) = val_main_call20_v1 (F := F) :=
  (tunary_eq later_824 later_825 (Nat.lt_of_lt_of_eq (by decide : 824 < 1293) ops_len.symm) V (TRef.of (T := ⟨S_, .i32⟩) main_call20_v0) (TRef.of (T := ⟨S512x128, .i32⟩) main_call20_v1) (broadcastInDim S512x128 ![] bcast_S_S512x128) (hop := rfl) (hyi := (by decide)) (hxi := (by decide))).trans
    (congrArg (fun t => (TRef.of (T := ⟨S512x128, .i32⟩) main_call20_v1).toBuf (((broadcastInDim S512x128 ![] bcast_S_S512x128)) ((TRef.of (T := ⟨S_, .i32⟩) main_call20_v0).ofBuf t))) (e_main_call20_v0 V))
theorem e_main_call20_v2 : after (ops (F := F)) V (Proc.devRef .tc main_call20_v2) = val_main_call20_v2 (F := F) (a4 V) (a5 V) :=
  (tbinary_eq later_825 later_826 (Nat.lt_of_lt_of_eq (by decide : 825 < 1293) ops_len.symm) V (TRef.of (T := ⟨S512x128, .i32⟩) main_call20_v1) (TRef.of (T := ⟨S512x128, .i32⟩) main_v452) (TRef.of (T := ⟨S512x128, .i32⟩) main_call20_v2) maxsi (hop := rfl) (hyi := (by decide)) (hai := (by decide)) (hbi := (by decide))).trans
    (by rw [e_main_call20_v1 V, e_main_v452 V]; rfl)
theorem e_main_call20_v3 : after (ops (F := F)) V (Proc.devRef .tc main_call20_v3) = val_main_call20_v3 (F := F) :=
  (tunary_eq later_826 later_827 (Nat.lt_of_lt_of_eq (by decide : 826 < 1293) ops_len.symm) V (TRef.of (T := ⟨S_, .i32⟩) main_c_173) (TRef.of (T := ⟨S_, .i32⟩) main_call20_v3) id (hop := rfl) (hyi := (by decide)) (hxi := (by decide))).trans
    (congrArg (fun t => (TRef.of (T := ⟨S_, .i32⟩) main_call20_v3).toBuf ((id) ((TRef.of (T := ⟨S_, .i32⟩) main_c_173).ofBuf t))) (e_main_c_173 V))
theorem e_main_call20_v4 : after (ops (F := F)) V (Proc.devRef .tc main_call20_v4) = val_main_call20_v4 (F := F) :=
  (tunary_eq later_827 later_828 (Nat.lt_of_lt_of_eq (by decide : 827 < 1293) ops_len.symm) V (TRef.of (T := ⟨S_, .i32⟩) main_call20_v3) (TRef.of (T := ⟨S512x128, .i32⟩) main_call20_v4) (broadcastInDim S512x128 ![] bcast_S_S512x128) (hop := rfl) (hyi := (by decide)) (hxi := (by decide))).trans
    (congrArg (fun t => (TRef.of (T := ⟨S512x128, .i32⟩) main_call20_v4).toBuf (((broadcastInDim S512x128 ![] bcast_S_S512x128)) ((TRef.of (T := ⟨S_, .i32⟩) main_call20_v3).ofBuf t))) (e_main_call20_v3 V))
theorem e_main_v547 : after (ops (F := F)) V (Proc.devRef .tc main_v547) = val_main_v547 (F := F) (a4 V) (a5 V) :=
  (tbinary_eq later_828 later_829 (Nat.lt_of_lt_of_eq (by decide : 828 < 1293) ops_len.symm) V (TRef.of (T := ⟨S512x128, .i32⟩) main_call20_v4) (TRef.of (T := ⟨S512x128, .i32⟩) main_call20_v2) (TRef.of (T := ⟨S512x128, .i32⟩) main_v547) minsi (hop := rfl) (hyi := (by decide)) (hai := (by decide)) (hbi := (by decide))).trans
    (by rw [e_main_call20_v4 V, e_main_call20_v2 V]; rfl)
theorem e_main_c_174 : after (ops (F := F)) V (Proc.devRef .tc main_c_174) = val_main_c_174 (F := F) :=
  nullary_eq later_829 later_830 (Nat.lt_of_lt_of_eq (by decide : 829 < 1293) ops_len.symm) V main_c_174 (constantI S_ 32 0#32) (hop := rfl) (hyi := (by decide))
theorem e_main_c_175 : after (ops (F := F)) V (Proc.devRef .tc main_c_175) = val_main_c_175 (F := F) :=
  nullary_eq later_830 later_831 (Nat.lt_of_lt_of_eq (by decide : 830 < 1293) ops_len.symm) V main_c_175 (constantI S_ 32 63#32) (hop := rfl) (hyi := (by decide))
theorem e_main_call21_v0 : after (ops (F := F)) V (Proc.devRef .tc main_call21_v0) = val_main_call21_v0 (F := F) :=
  (tunary_eq later_831 later_832 (Nat.lt_of_lt_of_eq (by decide : 831 < 1293) ops_len.symm) V (TRef.of (T := ⟨S_, .i32⟩) main_c_174) (TRef.of (T := ⟨S_, .i32⟩) main_call21_v0) id (hop := rfl) (hyi := (by decide)) (hxi := (by decide))).trans
    (congrArg (fun t => (TRef.of (T := ⟨S_, .i32⟩) main_call21_v0).toBuf ((id) ((TRef.of (T := ⟨S_, .i32⟩) main_c_174).ofBuf t))) (e_main_c_174 V))
theorem e_main_call21_v1 : after (ops (F := F)) V (Proc.devRef .tc main_call21_v1) = val_main_call21_v1 (F := F) :=
  (tunary_eq later_832 later_833 (Nat.lt_of_lt_of_eq (by decide : 832 < 1293) ops_len.symm) V (TRef.of (T := ⟨S_, .i32⟩) main_call21_v0) (TRef.of (T := ⟨S512x128, .i32⟩) main_call21_v1) (broadcastInDim S512x128 ![] bcast_S_S512x128) (hop := rfl) (hyi := (by decide)) (hxi := (by decide))).trans
    (congrArg (fun t => (TRef.of (T := ⟨S512x128, .i32⟩) main_call21_v1).toBuf (((broadcastInDim S512x128 ![] bcast_S_S512x128)) ((TRef.of (T := ⟨S_, .i32⟩) main_call21_v0).ofBuf t))) (e_main_call21_v0 V))
theorem e_main_call21_v2 : after (ops (F := F)) V (Proc.devRef .tc main_call21_v2) = val_main_call21_v2 (F := F) (a4 V) (a5 V) :=
  (tbinary_eq later_833 later_834 (Nat.lt_of_lt_of_eq (by decide : 833 < 1293) ops_len.symm) V (TRef.of (T := ⟨S512x128, .i32⟩) main_call21_v1) (TRef.of (T := ⟨S512x128, .i32⟩) main_v535) (TRef.of (T := ⟨S512x128, .i32⟩) main_call21_v2) maxsi (hop := rfl) (hyi := (by decide)) (hai := (by decide)) (hbi := (by decide))).trans
    (by rw [e_main_call21_v1 V, e_main_v535 V]; rfl)
theorem e_main_call21_v3 : after (ops (F := F)) V (Proc.devRef .tc main_call21_v3) = val_main_call21_v3 (F := F) :=
  (tunary_eq later_834 later_835 (Nat.lt_of_lt_of_eq (by decide : 834 < 1293) ops_len.symm) V (TRef.of (T := ⟨S_, .i32⟩) main_c_175) (TRef.of (T := ⟨S_, .i32⟩) main_call21_v3) id (hop := rfl) (hyi := (by decide)) (hxi := (by decide))).trans
    (congrArg (fun t => (TRef.of (T := ⟨S_, .i32⟩) main_call21_v3).toBuf ((id) ((TRef.of (T := ⟨S_, .i32⟩) main_c_175).ofBuf t))) (e_main_c_175 V))
theorem e_main_call21_v4 : after (ops (F := F)) V (Proc.devRef .tc main_call21_v4) = val_main_call21_v4 (F := F) :=
  (tunary_eq later_835 later_836 (Nat.lt_of_lt_of_eq (by decide : 835 < 1293) ops_len.symm) V (TRef.of (T := ⟨S_, .i32⟩) main_call21_v3) (TRef.of (T := ⟨S512x128, .i32⟩) main_call21_v4) (broadcastInDim S512x128 ![] bcast_S_S512x128) (hop := rfl) (hyi := (by decide)) (hxi := (by decide))).trans
    (congrArg (fun t => (TRef.of (T := ⟨S512x128, .i32⟩) main_call21_v4).toBuf (((broadcastInDim S512x128 ![] bcast_S_S512x128)) ((TRef.of (T := ⟨S_, .i32⟩) main_call21_v3).ofBuf t))) (e_main_call21_v3 V))
theorem e_main_v548 : after (ops (F := F)) V (Proc.devRef .tc main_v548) = val_main_v548 (F := F) (a4 V) (a5 V) :=
  (tbinary_eq later_836 later_837 (Nat.lt_of_lt_of_eq (by decide : 836 < 1293) ops_len.symm) V (TRef.of (T := ⟨S512x128, .i32⟩) main_call21_v4) (TRef.of (T := ⟨S512x128, .i32⟩) main_call21_v2) (TRef.of (T := ⟨S512x128, .i32⟩) main_v548) minsi (hop := rfl) (hyi := (by decide)) (hai := (by decide)) (hbi := (by decide))).trans
    (by rw [e_main_call21_v4 V, e_main_call21_v2 V]; rfl)
theorem e_main_v549 : after (ops (F := F)) V (Proc.devRef .tc main_v549) = val_main_v549 (F := F) (a4 V) :=
  (unary_eq later_837 later_838 (Nat.lt_of_lt_of_eq (by decide : 837 < 1293) ops_len.symm) V main_v2 main_v549 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_176 : after (ops (F := F)) V (Proc.devRef .tc main_c_176) = val_main_c_176 (F := F) :=
  nullary_eq later_838 later_839 (Nat.lt_of_lt_of_eq (by decide : 838 < 1293) ops_len.symm) V main_c_176 (constantI S_ 32 0#32) (hop := rfl) (hyi := (by decide))
theorem e_main_v550 : after (ops (F := F)) V (Proc.devRef .tc main_v550) = val_main_v550 (F := F) :=
  (unary_eq later_839 later_840 (Nat.lt_of_lt_of_eq (by decide : 839 < 1293) ops_len.symm) V main_c_176 main_v550 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_176 V))
theorem e_main_v551 : after (ops (F := F)) V (Proc.devRef .tc main_v551) = val_main_v551 (F := F) (a4 V) :=
  (binary_eq later_840 later_841 (Nat.lt_of_lt_of_eq (by decide : 840 < 1293) ops_len.symm) V main_v549 main_v550 main_v551 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v549 V) (e_main_v550 V))
theorem e_main_c_177 : after (ops (F := F)) V (Proc.devRef .tc main_c_177) = val_main_c_177 (F := F) :=
  nullary_eq later_841 later_842 (Nat.lt_of_lt_of_eq (by decide : 841 < 1293) ops_len.symm) V main_c_177 (constantI S_ 32 2#32) (hop := rfl) (hyi := (by decide))
theorem e_main_v552 : after (ops (F := F)) V (Proc.devRef .tc main_v552) = val_main_v552 (F := F) :=
  (unary_eq later_842 later_843 (Nat.lt_of_lt_of_eq (by decide : 842 < 1293) ops_len.symm) V main_c_177 main_v552 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_177 V))
theorem e_main_v553 : after (ops (F := F)) V (Proc.devRef .tc main_v553) = val_main_v553 (F := F) (a4 V) :=
  (binary_eq later_843 later_844 (Nat.lt_of_lt_of_eq (by decide : 843 < 1293) ops_len.symm) V main_v549 main_v552 main_v553 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v549 V) (e_main_v552 V))
theorem e_main_v554 : after (ops (F := F)) V (Proc.devRef .tc main_v554) = val_main_v554 (F := F) (a4 V) :=
  (ternary_eq later_844 later_845 (Nat.lt_of_lt_of_eq (by decide : 844 < 1293) ops_len.symm) V main_v551 main_v553 main_v549 main_v554 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v551 V) (e_main_v553 V) (e_main_v549 V))
theorem e_main_c_178 : after (ops (F := F)) V (Proc.devRef .tc main_c_178) = val_main_c_178 (F := F) :=
  nullary_eq later_845 later_846 (Nat.lt_of_lt_of_eq (by decide : 845 < 1293) ops_len.symm) V main_c_178 (constantI S_ 32 0#32) (hop := rfl) (hyi := (by decide))
theorem e_main_v555 : after (ops (F := F)) V (Proc.devRef .tc main_v555) = val_main_v555 (F := F) :=
  (unary_eq later_846 later_847 (Nat.lt_of_lt_of_eq (by decide : 846 < 1293) ops_len.symm) V main_c_178 main_v555 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_178 V))
theorem e_main_v556 : after (ops (F := F)) V (Proc.devRef .tc main_v556) = val_main_v556 (F := F) (a4 V) (a5 V) :=
  (binary_eq later_847 later_848 (Nat.lt_of_lt_of_eq (by decide : 847 < 1293) ops_len.symm) V main_v548 main_v555 main_v556 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v548 V) (e_main_v555 V))
theorem e_main_c_179 : after (ops (F := F)) V (Proc.devRef .tc main_c_179) = val_main_c_179 (F := F) :=
  nullary_eq later_848 later_849 (Nat.lt_of_lt_of_eq (by decide : 848 < 1293) ops_len.symm) V main_c_179 (constantI S_ 32 64#32) (hop := rfl) (hyi := (by decide))
theorem e_main_v557 : after (ops (F := F)) V (Proc.devRef .tc main_v557) = val_main_v557 (F := F) :=
  (unary_eq later_849 later_850 (Nat.lt_of_lt_of_eq (by decide : 849 < 1293) ops_len.symm) V main_c_179 main_v557 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_179 V))
theorem e_main_v558 : after (ops (F := F)) V (Proc.devRef .tc main_v558) = val_main_v558 (F := F) (a4 V) (a5 V) :=
  (binary_eq later_850 later_851 (Nat.lt_of_lt_of_eq (by decide : 850 < 1293) ops_len.symm) V main_v548 main_v557 main_v558 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v548 V) (e_main_v557 V))
theorem e_main_v559 : after (ops (F := F)) V (Proc.devRef .tc main_v559) = val_main_v559 (F := F) (a4 V) (a5 V) :=
  (ternary_eq later_851 later_852 (Nat.lt_of_lt_of_eq (by decide : 851 < 1293) ops_len.symm) V main_v556 main_v558 main_v548 main_v559 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v556 V) (e_main_v558 V) (e_main_v548 V))
theorem e_main_c_180 : after (ops (F := F)) V (Proc.devRef .tc main_c_180) = val_main_c_180 (F := F) :=
  nullary_eq later_852 later_853 (Nat.lt_of_lt_of_eq (by decide : 852 < 1293) ops_len.symm) V main_c_180 (constantI S_ 32 0#32) (hop := rfl) (hyi := (by decide))
theorem e_main_v560 : after (ops (F := F)) V (Proc.devRef .tc main_v560) = val_main_v560 (F := F) :=
  (unary_eq later_853 later_854 (Nat.lt_of_lt_of_eq (by decide : 853 < 1293) ops_len.symm) V main_c_180 main_v560 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_180 V))
theorem e_main_v561 : after (ops (F := F)) V (Proc.devRef .tc main_v561) = val_main_v561 (F := F) (a4 V) (a5 V) :=
  (binary_eq later_854 later_855 (Nat.lt_of_lt_of_eq (by decide : 854 < 1293) ops_len.symm) V main_v547 main_v560 main_v561 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v547 V) (e_main_v560 V))
theorem e_main_c_181 : after (ops (F := F)) V (Proc.devRef .tc main_c_181) = val_main_c_181 (F := F) :=
  nullary_eq later_855 later_856 (Nat.lt_of_lt_of_eq (by decide : 855 < 1293) ops_len.symm) V main_c_181 (constantI S_ 32 64#32) (hop := rfl) (hyi := (by decide))
theorem e_main_v562 : after (ops (F := F)) V (Proc.devRef .tc main_v562) = val_main_v562 (F := F) :=
  (unary_eq later_856 later_857 (Nat.lt_of_lt_of_eq (by decide : 856 < 1293) ops_len.symm) V main_c_181 main_v562 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_181 V))
theorem e_main_v563 : after (ops (F := F)) V (Proc.devRef .tc main_v563) = val_main_v563 (F := F) (a4 V) (a5 V) :=
  (binary_eq later_857 later_858 (Nat.lt_of_lt_of_eq (by decide : 857 < 1293) ops_len.symm) V main_v547 main_v562 main_v563 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v547 V) (e_main_v562 V))
theorem e_main_v564 : after (ops (F := F)) V (Proc.devRef .tc main_v564) = val_main_v564 (F := F) (a4 V) (a5 V) :=
  (ternary_eq later_858 later_859 (Nat.lt_of_lt_of_eq (by decide : 858 < 1293) ops_len.symm) V main_v561 main_v563 main_v547 main_v564 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v561 V) (e_main_v563 V) (e_main_v547 V))
theorem e_main_v565 : after (ops (F := F)) V (Proc.devRef .tc main_v565) = val_main_v565 (F := F) (a4 V) :=
  (unary_eq later_859 later_860 (Nat.lt_of_lt_of_eq (by decide : 859 < 1293) ops_len.symm) V main_v554 main_v565 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v554 V))
theorem e_main_v566 : after (ops (F := F)) V (Proc.devRef .tc main_v566) = val_main_v566 (F := F) (a4 V) :=
  (unary_eq later_860 later_861 (Nat.lt_of_lt_of_eq (by decide : 860 < 1293) ops_len.symm) V main_v565 main_v566 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v565 V))
theorem e_main_v567 : after (ops (F := F)) V (Proc.devRef .tc main_v567) = val_main_v567 (F := F) (a4 V) (a5 V) :=
  (unary_eq later_861 later_862 (Nat.lt_of_lt_of_eq (by decide : 861 < 1293) ops_len.symm) V main_v559 main_v567 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v559 V))
theorem e_main_v568 : after (ops (F := F)) V (Proc.devRef .tc main_v568) = val_main_v568 (F := F) (a4 V) (a5 V) :=
  (unary_eq later_862 later_863 (Nat.lt_of_lt_of_eq (by decide : 862 < 1293) ops_len.symm) V main_v564 main_v568 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v564 V))
theorem e_main_v569 : after (ops (F := F)) V (Proc.devRef .tc main_v569) = val_main_v569 (F := F) (a4 V) (a5 V) :=
  (nary_eq later_863 later_864 (Nat.lt_of_lt_of_eq (by decide : 863 < 1293) ops_len.symm) V ![main_v566, main_v567, main_v568] main_v569 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v566)⟩, ⟨S512x128x1, after (ops (F := F)) V (Proc.devRef .tc main_v567)⟩, ⟨S512x128x1, after (ops (F := F)) V (Proc.devRef .tc main_v568)⟩] concatenates_S512x128x1_S512x128x1_S512x128x1_S512x128x3_d2 = _
    rw [e_main_v566 V, e_main_v567 V, e_main_v568 V]; rfl)
theorem e_main_v570 : after (ops (F := F)) V (Proc.devRef .tc main_v570) = val_main_v570 (F := F) (a2 V) (a4 V) (a5 V) :=
  (binary_eq later_864 later_865 (Nat.lt_of_lt_of_eq (by decide : 864 < 1293) ops_len.symm) V main_arg2 main_v569 main_v570 ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (e_main_arg2 V) (e_main_v569 V))
theorem e_main_v571 : after (ops (F := F)) V (Proc.devRef .tc main_v571) = val_main_v571 (F := F) (a4 V) (a5 V) :=
  (unary_eq later_865 later_866 (Nat.lt_of_lt_of_eq (by decide : 865 < 1293) ops_len.symm) V main_v546 main_v571 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v546 V))
theorem e_main_v572 : after (ops (F := F)) V (Proc.devRef .tc main_v572) = val_main_v572 (F := F) (a4 V) (a5 V) :=
  (unary_eq later_866 later_867 (Nat.lt_of_lt_of_eq (by decide : 866 < 1293) ops_len.symm) V main_v571 main_v572 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v571 V))
theorem e_main_v573 : after (ops (F := F)) V (Proc.devRef .tc main_v573) = val_main_v573 (F := F) (a4 V) (a5 V) :=
  (unary_eq later_867 later_868 (Nat.lt_of_lt_of_eq (by decide : 867 < 1293) ops_len.symm) V main_v572 main_v573 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v572 V))
theorem e_main_v574 : after (ops (F := F)) V (Proc.devRef .tc main_v574) = val_main_v574 (F := F) (a2 V) (a4 V) (a5 V) :=
  (binary_eq later_868 later_869 (Nat.lt_of_lt_of_eq (by decide : 868 < 1293) ops_len.symm) V main_v570 main_v573 main_v574 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v570 V) (e_main_v573 V))
theorem e_main_c_182 : after (ops (F := F)) V (Proc.devRef .tc main_c_182) = val_main_c_182 (F := F) :=
  nullary_eq later_869 later_870 (Nat.lt_of_lt_of_eq (by decide : 869 < 1293) ops_len.symm) V main_c_182 (constantI S_ 32 1#32) (hop := rfl) (hyi := (by decide))
theorem e_main_v575 : after (ops (F := F)) V (Proc.devRef .tc main_v575) = val_main_v575 (F := F) :=
  (unary_eq later_870 later_871 (Nat.lt_of_lt_of_eq (by decide : 870 < 1293) ops_len.symm) V main_c_182 main_v575 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_182 V))
theorem e_main_v576 : after (ops (F := F)) V (Proc.devRef .tc main_v576) = val_main_v576 (F := F) (a4 V) (a5 V) :=
  (binary_eq later_871 later_872 (Nat.lt_of_lt_of_eq (by decide : 871 < 1293) ops_len.symm) V main_v453 main_v575 main_v576 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v453 V) (e_main_v575 V))
theorem e_main_c_183 : after (ops (F := F)) V (Proc.devRef .tc main_c_183) = val_main_c_183 (F := F) :=
  nullary_eq later_872 later_873 (Nat.lt_of_lt_of_eq (by decide : 872 < 1293) ops_len.symm) V main_c_183 (constantI S_ 32 1#32) (hop := rfl) (hyi := (by decide))
theorem e_main_v577 : after (ops (F := F)) V (Proc.devRef .tc main_v577) = val_main_v577 (F := F) :=
  (unary_eq later_873 later_874 (Nat.lt_of_lt_of_eq (by decide : 873 < 1293) ops_len.symm) V main_c_183 main_v577 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_183 V))
theorem e_main_v578 : after (ops (F := F)) V (Proc.devRef .tc main_v578) = val_main_v578 (F := F) (a4 V) (a5 V) :=
  (binary_eq later_874 later_875 (Nat.lt_of_lt_of_eq (by decide : 874 < 1293) ops_len.symm) V main_v452 main_v577 main_v578 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v452 V) (e_main_v577 V))
theorem e_main_c_184 : after (ops (F := F)) V (Proc.devRef .tc main_c_184) = val_main_c_184 (F := F) :=
  nullary_eq later_875 later_876 (Nat.lt_of_lt_of_eq (by decide : 875 < 1293) ops_len.symm) V main_c_184 (constantI S_ 32 0#32) (hop := rfl) (hyi := (by decide))
theorem e_main_v579 : after (ops (F := F)) V (Proc.devRef .tc main_v579) = val_main_v579 (F := F) :=
  (unary_eq later_876 later_877 (Nat.lt_of_lt_of_eq (by decide : 876 < 1293) ops_len.symm) V main_c_184 main_v579 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_184 V))
theorem e_main_v580 : after (ops (F := F)) V (Proc.devRef .tc main_v580) = val_main_v580 (F := F) (a4 V) (a5 V) :=
  (binary_eq later_877 later_878 (Nat.lt_of_lt_of_eq (by decide : 877 < 1293) ops_len.symm) V main_v578 main_v579 main_v580 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v578 V) (e_main_v579 V))
theorem e_main_c_185 : after (ops (F := F)) V (Proc.devRef .tc main_c_185) = val_main_c_185 (F := F) :=
  nullary_eq later_878 later_879 (Nat.lt_of_lt_of_eq (by decide : 878 < 1293) ops_len.symm) V main_c_185 (constantI S_ 32 64#32) (hop := rfl) (hyi := (by decide))
theorem e_main_v581 : after (ops (F := F)) V (Proc.devRef .tc main_v581) = val_main_v581 (F := F) :=
  (unary_eq later_879 later_880 (Nat.lt_of_lt_of_eq (by decide : 879 < 1293) ops_len.symm) V main_c_185 main_v581 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_185 V))
theorem e_main_v582 : after (ops (F := F)) V (Proc.devRef .tc main_v582) = val_main_v582 (F := F) (a4 V) (a5 V) :=
  (binary_eq later_880 later_881 (Nat.lt_of_lt_of_eq (by decide : 880 < 1293) ops_len.symm) V main_v578 main_v581 main_v582 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v578 V) (e_main_v581 V))
theorem e_main_v583 : after (ops (F := F)) V (Proc.devRef .tc main_v583) = val_main_v583 (F := F) (a4 V) (a5 V) :=
  (binary_eq later_881 later_882 (Nat.lt_of_lt_of_eq (by decide : 881 < 1293) ops_len.symm) V main_v580 main_v582 main_v583 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v580 V) (e_main_v582 V))
theorem e_main_c_186 : after (ops (F := F)) V (Proc.devRef .tc main_c_186) = val_main_c_186 (F := F) :=
  nullary_eq later_882 later_883 (Nat.lt_of_lt_of_eq (by decide : 882 < 1293) ops_len.symm) V main_c_186 (constantI S_ 32 0#32) (hop := rfl) (hyi := (by decide))
theorem e_main_v584 : after (ops (F := F)) V (Proc.devRef .tc main_v584) = val_main_v584 (F := F) :=
  (unary_eq later_883 later_884 (Nat.lt_of_lt_of_eq (by decide : 883 < 1293) ops_len.symm) V main_c_186 main_v584 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_186 V))
theorem e_main_v585 : after (ops (F := F)) V (Proc.devRef .tc main_v585) = val_main_v585 (F := F) (a4 V) (a5 V) :=
  (binary_eq later_884 later_885 (Nat.lt_of_lt_of_eq (by decide : 884 < 1293) ops_len.symm) V main_v576 main_v584 main_v585 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v576 V) (e_main_v584 V))
theorem e_main_v586 : after (ops (F := F)) V (Proc.devRef .tc main_v586) = val_main_v586 (F := F) (a4 V) (a5 V) :=
  (binary_eq later_885 later_886 (Nat.lt_of_lt_of_eq (by decide : 885 < 1293) ops_len.symm) V main_v583 main_v585 main_v586 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v583 V) (e_main_v585 V))
theorem e_main_c_187 : after (ops (F := F)) V (Proc.devRef .tc main_c_187) = val_main_c_187 (F := F) :=
  nullary_eq later_886 later_887 (Nat.lt_of_lt_of_eq (by decide : 886 < 1293) ops_len.symm) V main_c_187 (constantI S_ 32 64#32) (hop := rfl) (hyi := (by decide))
theorem e_main_v587 : after (ops (F := F)) V (Proc.devRef .tc main_v587) = val_main_v587 (F := F) :=
  (unary_eq later_887 later_888 (Nat.lt_of_lt_of_eq (by decide : 887 < 1293) ops_len.symm) V main_c_187 main_v587 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_187 V))
theorem e_main_v588 : after (ops (F := F)) V (Proc.devRef .tc main_v588) = val_main_v588 (F := F) (a4 V) (a5 V) :=
  (binary_eq later_888 later_889 (Nat.lt_of_lt_of_eq (by decide : 888 < 1293) ops_len.symm) V main_v576 main_v587 main_v588 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v576 V) (e_main_v587 V))
theorem e_main_v589 : after (ops (F := F)) V (Proc.devRef .tc main_v589) = val_main_v589 (F := F) (a4 V) (a5 V) :=
  (binary_eq later_889 later_890 (Nat.lt_of_lt_of_eq (by decide : 889 < 1293) ops_len.symm) V main_v586 main_v588 main_v589 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v586 V) (e_main_v588 V))
theorem e_main_c_188 : after (ops (F := F)) V (Proc.devRef .tc main_c_188) = val_main_c_188 (F := F) :=
  nullary_eq later_890 later_891 (Nat.lt_of_lt_of_eq (by decide : 890 < 1293) ops_len.symm) V main_c_188 (constantI S_ 32 0#32) (hop := rfl) (hyi := (by decide))
theorem e_main_c_189 : after (ops (F := F)) V (Proc.devRef .tc main_c_189) = val_main_c_189 (F := F) :=
  nullary_eq later_891 later_892 (Nat.lt_of_lt_of_eq (by decide : 891 < 1293) ops_len.symm) V main_c_189 (constantI S_ 32 63#32) (hop := rfl) (hyi := (by decide))
theorem e_main_call22_v0 : after (ops (F := F)) V (Proc.devRef .tc main_call22_v0) = val_main_call22_v0 (F := F) :=
  (tunary_eq later_892 later_893 (Nat.lt_of_lt_of_eq (by decide : 892 < 1293) ops_len.symm) V (TRef.of (T := ⟨S_, .i32⟩) main_c_188) (TRef.of (T := ⟨S_, .i32⟩) main_call22_v0) id (hop := rfl) (hyi := (by decide)) (hxi := (by decide))).trans
    (congrArg (fun t => (TRef.of (T := ⟨S_, .i32⟩) main_call22_v0).toBuf ((id) ((TRef.of (T := ⟨S_, .i32⟩) main_c_188).ofBuf t))) (e_main_c_188 V))
theorem e_main_call22_v1 : after (ops (F := F)) V (Proc.devRef .tc main_call22_v1) = val_main_call22_v1 (F := F) :=
  (tunary_eq later_893 later_894 (Nat.lt_of_lt_of_eq (by decide : 893 < 1293) ops_len.symm) V (TRef.of (T := ⟨S_, .i32⟩) main_call22_v0) (TRef.of (T := ⟨S512x128, .i32⟩) main_call22_v1) (broadcastInDim S512x128 ![] bcast_S_S512x128) (hop := rfl) (hyi := (by decide)) (hxi := (by decide))).trans
    (congrArg (fun t => (TRef.of (T := ⟨S512x128, .i32⟩) main_call22_v1).toBuf (((broadcastInDim S512x128 ![] bcast_S_S512x128)) ((TRef.of (T := ⟨S_, .i32⟩) main_call22_v0).ofBuf t))) (e_main_call22_v0 V))
theorem e_main_call22_v2 : after (ops (F := F)) V (Proc.devRef .tc main_call22_v2) = val_main_call22_v2 (F := F) (a4 V) (a5 V) :=
  (tbinary_eq later_894 later_895 (Nat.lt_of_lt_of_eq (by decide : 894 < 1293) ops_len.symm) V (TRef.of (T := ⟨S512x128, .i32⟩) main_call22_v1) (TRef.of (T := ⟨S512x128, .i32⟩) main_v578) (TRef.of (T := ⟨S512x128, .i32⟩) main_call22_v2) maxsi (hop := rfl) (hyi := (by decide)) (hai := (by decide)) (hbi := (by decide))).trans
    (by rw [e_main_call22_v1 V, e_main_v578 V]; rfl)
theorem e_main_call22_v3 : after (ops (F := F)) V (Proc.devRef .tc main_call22_v3) = val_main_call22_v3 (F := F) :=
  (tunary_eq later_895 later_896 (Nat.lt_of_lt_of_eq (by decide : 895 < 1293) ops_len.symm) V (TRef.of (T := ⟨S_, .i32⟩) main_c_189) (TRef.of (T := ⟨S_, .i32⟩) main_call22_v3) id (hop := rfl) (hyi := (by decide)) (hxi := (by decide))).trans
    (congrArg (fun t => (TRef.of (T := ⟨S_, .i32⟩) main_call22_v3).toBuf ((id) ((TRef.of (T := ⟨S_, .i32⟩) main_c_189).ofBuf t))) (e_main_c_189 V))
theorem e_main_call22_v4 : after (ops (F := F)) V (Proc.devRef .tc main_call22_v4) = val_main_call22_v4 (F := F) :=
  (tunary_eq later_896 later_897 (Nat.lt_of_lt_of_eq (by decide : 896 < 1293) ops_len.symm) V (TRef.of (T := ⟨S_, .i32⟩) main_call22_v3) (TRef.of (T := ⟨S512x128, .i32⟩) main_call22_v4) (broadcastInDim S512x128 ![] bcast_S_S512x128) (hop := rfl) (hyi := (by decide)) (hxi := (by decide))).trans
    (congrArg (fun t => (TRef.of (T := ⟨S512x128, .i32⟩) main_call22_v4).toBuf (((broadcastInDim S512x128 ![] bcast_S_S512x128)) ((TRef.of (T := ⟨S_, .i32⟩) main_call22_v3).ofBuf t))) (e_main_call22_v3 V))
theorem e_main_v590 : after (ops (F := F)) V (Proc.devRef .tc main_v590) = val_main_v590 (F := F) (a4 V) (a5 V) :=
  (tbinary_eq later_897 later_898 (Nat.lt_of_lt_of_eq (by decide : 897 < 1293) ops_len.symm) V (TRef.of (T := ⟨S512x128, .i32⟩) main_call22_v4) (TRef.of (T := ⟨S512x128, .i32⟩) main_call22_v2) (TRef.of (T := ⟨S512x128, .i32⟩) main_v590) minsi (hop := rfl) (hyi := (by decide)) (hai := (by decide)) (hbi := (by decide))).trans
    (by rw [e_main_call22_v4 V, e_main_call22_v2 V]; rfl)
theorem e_main_c_190 : after (ops (F := F)) V (Proc.devRef .tc main_c_190) = val_main_c_190 (F := F) :=
  nullary_eq later_898 later_899 (Nat.lt_of_lt_of_eq (by decide : 898 < 1293) ops_len.symm) V main_c_190 (constantI S_ 32 0#32) (hop := rfl) (hyi := (by decide))
theorem e_main_c_191 : after (ops (F := F)) V (Proc.devRef .tc main_c_191) = val_main_c_191 (F := F) :=
  nullary_eq later_899 later_900 (Nat.lt_of_lt_of_eq (by decide : 899 < 1293) ops_len.symm) V main_c_191 (constantI S_ 32 63#32) (hop := rfl) (hyi := (by decide))
theorem e_main_call23_v0 : after (ops (F := F)) V (Proc.devRef .tc main_call23_v0) = val_main_call23_v0 (F := F) :=
  (tunary_eq later_900 later_901 (Nat.lt_of_lt_of_eq (by decide : 900 < 1293) ops_len.symm) V (TRef.of (T := ⟨S_, .i32⟩) main_c_190) (TRef.of (T := ⟨S_, .i32⟩) main_call23_v0) id (hop := rfl) (hyi := (by decide)) (hxi := (by decide))).trans
    (congrArg (fun t => (TRef.of (T := ⟨S_, .i32⟩) main_call23_v0).toBuf ((id) ((TRef.of (T := ⟨S_, .i32⟩) main_c_190).ofBuf t))) (e_main_c_190 V))
theorem e_main_call23_v1 : after (ops (F := F)) V (Proc.devRef .tc main_call23_v1) = val_main_call23_v1 (F := F) :=
  (tunary_eq later_901 later_902 (Nat.lt_of_lt_of_eq (by decide : 901 < 1293) ops_len.symm) V (TRef.of (T := ⟨S_, .i32⟩) main_call23_v0) (TRef.of (T := ⟨S512x128, .i32⟩) main_call23_v1) (broadcastInDim S512x128 ![] bcast_S_S512x128) (hop := rfl) (hyi := (by decide)) (hxi := (by decide))).trans
    (congrArg (fun t => (TRef.of (T := ⟨S512x128, .i32⟩) main_call23_v1).toBuf (((broadcastInDim S512x128 ![] bcast_S_S512x128)) ((TRef.of (T := ⟨S_, .i32⟩) main_call23_v0).ofBuf t))) (e_main_call23_v0 V))
theorem e_main_call23_v2 : after (ops (F := F)) V (Proc.devRef .tc main_call23_v2) = val_main_call23_v2 (F := F) (a4 V) (a5 V) :=
  (tbinary_eq later_902 later_903 (Nat.lt_of_lt_of_eq (by decide : 902 < 1293) ops_len.symm) V (TRef.of (T := ⟨S512x128, .i32⟩) main_call23_v1) (TRef.of (T := ⟨S512x128, .i32⟩) main_v576) (TRef.of (T := ⟨S512x128, .i32⟩) main_call23_v2) maxsi (hop := rfl) (hyi := (by decide)) (hai := (by decide)) (hbi := (by decide))).trans
    (by rw [e_main_call23_v1 V, e_main_v576 V]; rfl)
theorem e_main_call23_v3 : after (ops (F := F)) V (Proc.devRef .tc main_call23_v3) = val_main_call23_v3 (F := F) :=
  (tunary_eq later_903 later_904 (Nat.lt_of_lt_of_eq (by decide : 903 < 1293) ops_len.symm) V (TRef.of (T := ⟨S_, .i32⟩) main_c_191) (TRef.of (T := ⟨S_, .i32⟩) main_call23_v3) id (hop := rfl) (hyi := (by decide)) (hxi := (by decide))).trans
    (congrArg (fun t => (TRef.of (T := ⟨S_, .i32⟩) main_call23_v3).toBuf ((id) ((TRef.of (T := ⟨S_, .i32⟩) main_c_191).ofBuf t))) (e_main_c_191 V))
theorem e_main_call23_v4 : after (ops (F := F)) V (Proc.devRef .tc main_call23_v4) = val_main_call23_v4 (F := F) :=
  (tunary_eq later_904 later_905 (Nat.lt_of_lt_of_eq (by decide : 904 < 1293) ops_len.symm) V (TRef.of (T := ⟨S_, .i32⟩) main_call23_v3) (TRef.of (T := ⟨S512x128, .i32⟩) main_call23_v4) (broadcastInDim S512x128 ![] bcast_S_S512x128) (hop := rfl) (hyi := (by decide)) (hxi := (by decide))).trans
    (congrArg (fun t => (TRef.of (T := ⟨S512x128, .i32⟩) main_call23_v4).toBuf (((broadcastInDim S512x128 ![] bcast_S_S512x128)) ((TRef.of (T := ⟨S_, .i32⟩) main_call23_v3).ofBuf t))) (e_main_call23_v3 V))
theorem e_main_v591 : after (ops (F := F)) V (Proc.devRef .tc main_v591) = val_main_v591 (F := F) (a4 V) (a5 V) :=
  (tbinary_eq later_905 later_906 (Nat.lt_of_lt_of_eq (by decide : 905 < 1293) ops_len.symm) V (TRef.of (T := ⟨S512x128, .i32⟩) main_call23_v4) (TRef.of (T := ⟨S512x128, .i32⟩) main_call23_v2) (TRef.of (T := ⟨S512x128, .i32⟩) main_v591) minsi (hop := rfl) (hyi := (by decide)) (hai := (by decide)) (hbi := (by decide))).trans
    (by rw [e_main_call23_v4 V, e_main_call23_v2 V]; rfl)
theorem e_main_v592 : after (ops (F := F)) V (Proc.devRef .tc main_v592) = val_main_v592 (F := F) (a4 V) :=
  (unary_eq later_906 later_907 (Nat.lt_of_lt_of_eq (by decide : 906 < 1293) ops_len.symm) V main_v2 main_v592 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_192 : after (ops (F := F)) V (Proc.devRef .tc main_c_192) = val_main_c_192 (F := F) :=
  nullary_eq later_907 later_908 (Nat.lt_of_lt_of_eq (by decide : 907 < 1293) ops_len.symm) V main_c_192 (constantI S_ 32 0#32) (hop := rfl) (hyi := (by decide))
theorem e_main_v593 : after (ops (F := F)) V (Proc.devRef .tc main_v593) = val_main_v593 (F := F) :=
  (unary_eq later_908 later_909 (Nat.lt_of_lt_of_eq (by decide : 908 < 1293) ops_len.symm) V main_c_192 main_v593 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_192 V))
theorem e_main_v594 : after (ops (F := F)) V (Proc.devRef .tc main_v594) = val_main_v594 (F := F) (a4 V) :=
  (binary_eq later_909 later_910 (Nat.lt_of_lt_of_eq (by decide : 909 < 1293) ops_len.symm) V main_v592 main_v593 main_v594 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v592 V) (e_main_v593 V))
theorem e_main_c_193 : after (ops (F := F)) V (Proc.devRef .tc main_c_193) = val_main_c_193 (F := F) :=
  nullary_eq later_910 later_911 (Nat.lt_of_lt_of_eq (by decide : 910 < 1293) ops_len.symm) V main_c_193 (constantI S_ 32 2#32) (hop := rfl) (hyi := (by decide))
theorem e_main_v595 : after (ops (F := F)) V (Proc.devRef .tc main_v595) = val_main_v595 (F := F) :=
  (unary_eq later_911 later_912 (Nat.lt_of_lt_of_eq (by decide : 911 < 1293) ops_len.symm) V main_c_193 main_v595 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_193 V))
theorem e_main_v596 : after (ops (F := F)) V (Proc.devRef .tc main_v596) = val_main_v596 (F := F) (a4 V) :=
  (binary_eq later_912 later_913 (Nat.lt_of_lt_of_eq (by decide : 912 < 1293) ops_len.symm) V main_v592 main_v595 main_v596 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v592 V) (e_main_v595 V))
theorem e_main_v597 : after (ops (F := F)) V (Proc.devRef .tc main_v597) = val_main_v597 (F := F) (a4 V) :=
  (ternary_eq later_913 later_914 (Nat.lt_of_lt_of_eq (by decide : 913 < 1293) ops_len.symm) V main_v594 main_v596 main_v592 main_v597 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v594 V) (e_main_v596 V) (e_main_v592 V))
theorem e_main_c_194 : after (ops (F := F)) V (Proc.devRef .tc main_c_194) = val_main_c_194 (F := F) :=
  nullary_eq later_914 later_915 (Nat.lt_of_lt_of_eq (by decide : 914 < 1293) ops_len.symm) V main_c_194 (constantI S_ 32 0#32) (hop := rfl) (hyi := (by decide))
theorem e_main_v598 : after (ops (F := F)) V (Proc.devRef .tc main_v598) = val_main_v598 (F := F) :=
  (unary_eq later_915 later_916 (Nat.lt_of_lt_of_eq (by decide : 915 < 1293) ops_len.symm) V main_c_194 main_v598 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_194 V))
theorem e_main_v599 : after (ops (F := F)) V (Proc.devRef .tc main_v599) = val_main_v599 (F := F) (a4 V) (a5 V) :=
  (binary_eq later_916 later_917 (Nat.lt_of_lt_of_eq (by decide : 916 < 1293) ops_len.symm) V main_v591 main_v598 main_v599 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v591 V) (e_main_v598 V))
theorem e_main_c_195 : after (ops (F := F)) V (Proc.devRef .tc main_c_195) = val_main_c_195 (F := F) :=
  nullary_eq later_917 later_918 (Nat.lt_of_lt_of_eq (by decide : 917 < 1293) ops_len.symm) V main_c_195 (constantI S_ 32 64#32) (hop := rfl) (hyi := (by decide))
theorem e_main_v600 : after (ops (F := F)) V (Proc.devRef .tc main_v600) = val_main_v600 (F := F) :=
  (unary_eq later_918 later_919 (Nat.lt_of_lt_of_eq (by decide : 918 < 1293) ops_len.symm) V main_c_195 main_v600 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_195 V))
theorem e_main_v601 : after (ops (F := F)) V (Proc.devRef .tc main_v601) = val_main_v601 (F := F) (a4 V) (a5 V) :=
  (binary_eq later_919 later_920 (Nat.lt_of_lt_of_eq (by decide : 919 < 1293) ops_len.symm) V main_v591 main_v600 main_v601 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v591 V) (e_main_v600 V))
theorem e_main_v602 : after (ops (F := F)) V (Proc.devRef .tc main_v602) = val_main_v602 (F := F) (a4 V) (a5 V) :=
  (ternary_eq later_920 later_921 (Nat.lt_of_lt_of_eq (by decide : 920 < 1293) ops_len.symm) V main_v599 main_v601 main_v591 main_v602 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v599 V) (e_main_v601 V) (e_main_v591 V))
theorem e_main_c_196 : after (ops (F := F)) V (Proc.devRef .tc main_c_196) = val_main_c_196 (F := F) :=
  nullary_eq later_921 later_922 (Nat.lt_of_lt_of_eq (by decide : 921 < 1293) ops_len.symm) V main_c_196 (constantI S_ 32 0#32) (hop := rfl) (hyi := (by decide))
theorem e_main_v603 : after (ops (F := F)) V (Proc.devRef .tc main_v603) = val_main_v603 (F := F) :=
  (unary_eq later_922 later_923 (Nat.lt_of_lt_of_eq (by decide : 922 < 1293) ops_len.symm) V main_c_196 main_v603 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_196 V))
theorem e_main_v604 : after (ops (F := F)) V (Proc.devRef .tc main_v604) = val_main_v604 (F := F) (a4 V) (a5 V) :=
  (binary_eq later_923 later_924 (Nat.lt_of_lt_of_eq (by decide : 923 < 1293) ops_len.symm) V main_v590 main_v603 main_v604 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v590 V) (e_main_v603 V))
theorem e_main_c_197 : after (ops (F := F)) V (Proc.devRef .tc main_c_197) = val_main_c_197 (F := F) :=
  nullary_eq later_924 later_925 (Nat.lt_of_lt_of_eq (by decide : 924 < 1293) ops_len.symm) V main_c_197 (constantI S_ 32 64#32) (hop := rfl) (hyi := (by decide))
theorem e_main_v605 : after (ops (F := F)) V (Proc.devRef .tc main_v605) = val_main_v605 (F := F) :=
  (unary_eq later_925 later_926 (Nat.lt_of_lt_of_eq (by decide : 925 < 1293) ops_len.symm) V main_c_197 main_v605 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_197 V))
theorem e_main_v606 : after (ops (F := F)) V (Proc.devRef .tc main_v606) = val_main_v606 (F := F) (a4 V) (a5 V) :=
  (binary_eq later_926 later_927 (Nat.lt_of_lt_of_eq (by decide : 926 < 1293) ops_len.symm) V main_v590 main_v605 main_v606 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v590 V) (e_main_v605 V))
theorem e_main_v607 : after (ops (F := F)) V (Proc.devRef .tc main_v607) = val_main_v607 (F := F) (a4 V) (a5 V) :=
  (ternary_eq later_927 later_928 (Nat.lt_of_lt_of_eq (by decide : 927 < 1293) ops_len.symm) V main_v604 main_v606 main_v590 main_v607 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v604 V) (e_main_v606 V) (e_main_v590 V))
theorem e_main_v608 : after (ops (F := F)) V (Proc.devRef .tc main_v608) = val_main_v608 (F := F) (a4 V) :=
  (unary_eq later_928 later_929 (Nat.lt_of_lt_of_eq (by decide : 928 < 1293) ops_len.symm) V main_v597 main_v608 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v597 V))
theorem e_main_v609 : after (ops (F := F)) V (Proc.devRef .tc main_v609) = val_main_v609 (F := F) (a4 V) :=
  (unary_eq later_929 later_930 (Nat.lt_of_lt_of_eq (by decide : 929 < 1293) ops_len.symm) V main_v608 main_v609 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v608 V))
theorem e_main_v610 : after (ops (F := F)) V (Proc.devRef .tc main_v610) = val_main_v610 (F := F) (a4 V) (a5 V) :=
  (unary_eq later_930 later_931 (Nat.lt_of_lt_of_eq (by decide : 930 < 1293) ops_len.symm) V main_v602 main_v610 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v602 V))
theorem e_main_v611 : after (ops (F := F)) V (Proc.devRef .tc main_v611) = val_main_v611 (F := F) (a4 V) (a5 V) :=
  (unary_eq later_931 later_932 (Nat.lt_of_lt_of_eq (by decide : 931 < 1293) ops_len.symm) V main_v607 main_v611 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v607 V))
theorem e_main_v612 : after (ops (F := F)) V (Proc.devRef .tc main_v612) = val_main_v612 (F := F) (a4 V) (a5 V) :=
  (nary_eq later_932 later_933 (Nat.lt_of_lt_of_eq (by decide : 932 < 1293) ops_len.symm) V ![main_v609, main_v610, main_v611] main_v612 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v609)⟩, ⟨S512x128x1, after (ops (F := F)) V (Proc.devRef .tc main_v610)⟩, ⟨S512x128x1, after (ops (F := F)) V (Proc.devRef .tc main_v611)⟩] concatenates_S512x128x1_S512x128x1_S512x128x1_S512x128x3_d2 = _
    rw [e_main_v609 V, e_main_v610 V, e_main_v611 V]; rfl)
theorem e_main_v613 : after (ops (F := F)) V (Proc.devRef .tc main_v613) = val_main_v613 (F := F) (a2 V) (a4 V) (a5 V) :=
  (binary_eq later_933 later_934 (Nat.lt_of_lt_of_eq (by decide : 933 < 1293) ops_len.symm) V main_arg2 main_v612 main_v613 ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x64x64_S512x128x3_S512x128x256_2_023_n_n_023_2_125611 x i) : (⟨S2x256x64x64, .f32⟩ : BufTy).Contents (Elt F) → (⟨S512x128x3, .i32⟩ : BufTy).Contents (Elt F) → (⟨S512x128x256, .f32⟩ : BufTy).Contents (Elt F)) (e_main_arg2 V) (e_main_v612 V))
theorem e_main_v614 : after (ops (F := F)) V (Proc.devRef .tc main_v614) = val_main_v614 (F := F) (a4 V) (a5 V) :=
  (unary_eq later_934 later_935 (Nat.lt_of_lt_of_eq (by decide : 934 < 1293) ops_len.symm) V main_v589 main_v614 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v589 V))
theorem e_main_v615 : after (ops (F := F)) V (Proc.devRef .tc main_v615) = val_main_v615 (F := F) (a4 V) (a5 V) :=
  (unary_eq later_935 later_936 (Nat.lt_of_lt_of_eq (by decide : 935 < 1293) ops_len.symm) V main_v614 main_v615 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v614 V))
theorem e_main_v616 : after (ops (F := F)) V (Proc.devRef .tc main_v616) = val_main_v616 (F := F) (a4 V) (a5 V) :=
  (unary_eq later_936 later_937 (Nat.lt_of_lt_of_eq (by decide : 936 < 1293) ops_len.symm) V main_v615 main_v616 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v615 V))
theorem e_main_v617 : after (ops (F := F)) V (Proc.devRef .tc main_v617) = val_main_v617 (F := F) (a2 V) (a4 V) (a5 V) :=
  (binary_eq later_937 later_938 (Nat.lt_of_lt_of_eq (by decide : 937 < 1293) ops_len.symm) V main_v613 main_v616 main_v617 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v613 V) (e_main_v616 V))
theorem e_main_v618 : after (ops (F := F)) V (Proc.devRef .tc main_v618) = val_main_v618 (F := F) (a4 V) (a5 V) :=
  (unary_eq later_938 later_939 (Nat.lt_of_lt_of_eq (by decide : 938 < 1293) ops_len.symm) V main_v450 main_v618 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v450 V))
theorem e_main_v619 : after (ops (F := F)) V (Proc.devRef .tc main_v619) = val_main_v619 (F := F) (a4 V) (a5 V) :=
  (unary_eq later_939 later_940 (Nat.lt_of_lt_of_eq (by decide : 939 < 1293) ops_len.symm) V main_v451 main_v619 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v451 V))
theorem e_main_cst_198 : after (ops (F := F)) V (Proc.devRef .tc main_cst_198) = val_main_cst_198 (F := F) :=
  nullary_eq later_940 later_941 (Nat.lt_of_lt_of_eq (by decide : 940 < 1293) ops_len.symm) V main_cst_198 (constant S_ .f32 0x3F800000#32) (hop := rfl) (hyi := (by decide))
theorem e_main_v620 : after (ops (F := F)) V (Proc.devRef .tc main_v620) = val_main_v620 (F := F) :=
  (unary_eq later_941 later_942 (Nat.lt_of_lt_of_eq (by decide : 941 < 1293) ops_len.symm) V main_cst_198 main_v620 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_198 V))
theorem e_main_v621 : after (ops (F := F)) V (Proc.devRef .tc main_v621) = val_main_v621 (F := F) (a4 V) (a5 V) :=
  (binary_eq later_942 later_943 (Nat.lt_of_lt_of_eq (by decide : 942 < 1293) ops_len.symm) V main_v620 main_v618 main_v621 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v620 V) (e_main_v618 V))
theorem e_main_v622 : after (ops (F := F)) V (Proc.devRef .tc main_v622) = val_main_v622 (F := F) (a4 V) (a5 V) :=
  (unary_eq later_943 later_944 (Nat.lt_of_lt_of_eq (by decide : 943 < 1293) ops_len.symm) V main_v621 main_v622 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v621 V))
theorem e_main_v623 : after (ops (F := F)) V (Proc.devRef .tc main_v623) = val_main_v623 (F := F) (a2 V) (a4 V) (a5 V) :=
  (binary_eq later_944 later_945 (Nat.lt_of_lt_of_eq (by decide : 944 < 1293) ops_len.symm) V main_v492 main_v622 main_v623 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v492 V) (e_main_v622 V))
theorem e_main_cst_199 : after (ops (F := F)) V (Proc.devRef .tc main_cst_199) = val_main_cst_199 (F := F) :=
  nullary_eq later_945 later_946 (Nat.lt_of_lt_of_eq (by decide : 945 < 1293) ops_len.symm) V main_cst_199 (constant S_ .f32 0x3F800000#32) (hop := rfl) (hyi := (by decide))
theorem e_main_v624 : after (ops (F := F)) V (Proc.devRef .tc main_v624) = val_main_v624 (F := F) :=
  (unary_eq later_946 later_947 (Nat.lt_of_lt_of_eq (by decide : 946 < 1293) ops_len.symm) V main_cst_199 main_v624 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_199 V))
theorem e_main_v625 : after (ops (F := F)) V (Proc.devRef .tc main_v625) = val_main_v625 (F := F) (a4 V) (a5 V) :=
  (binary_eq later_947 later_948 (Nat.lt_of_lt_of_eq (by decide : 947 < 1293) ops_len.symm) V main_v624 main_v619 main_v625 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v624 V) (e_main_v619 V))
theorem e_main_v626 : after (ops (F := F)) V (Proc.devRef .tc main_v626) = val_main_v626 (F := F) (a4 V) (a5 V) :=
  (unary_eq later_948 later_949 (Nat.lt_of_lt_of_eq (by decide : 948 < 1293) ops_len.symm) V main_v625 main_v626 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v625 V))
theorem e_main_v627 : after (ops (F := F)) V (Proc.devRef .tc main_v627) = val_main_v627 (F := F) (a2 V) (a4 V) (a5 V) :=
  (binary_eq later_949 later_950 (Nat.lt_of_lt_of_eq (by decide : 949 < 1293) ops_len.symm) V main_v623 main_v626 main_v627 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v623 V) (e_main_v626 V))
theorem e_main_v628 : after (ops (F := F)) V (Proc.devRef .tc main_v628) = val_main_v628 (F := F) (a4 V) (a5 V) :=
  (unary_eq later_950 later_951 (Nat.lt_of_lt_of_eq (by decide : 950 < 1293) ops_len.symm) V main_v618 main_v628 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v618 V))
theorem e_main_v629 : after (ops (F := F)) V (Proc.devRef .tc main_v629) = val_main_v629 (F := F) (a2 V) (a4 V) (a5 V) :=
  (binary_eq later_951 later_952 (Nat.lt_of_lt_of_eq (by decide : 951 < 1293) ops_len.symm) V main_v533 main_v628 main_v629 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v533 V) (e_main_v628 V))
theorem e_main_cst_200 : after (ops (F := F)) V (Proc.devRef .tc main_cst_200) = val_main_cst_200 (F := F) :=
  nullary_eq later_952 later_953 (Nat.lt_of_lt_of_eq (by decide : 952 < 1293) ops_len.symm) V main_cst_200 (constant S_ .f32 0x3F800000#32) (hop := rfl) (hyi := (by decide))
theorem e_main_v630 : after (ops (F := F)) V (Proc.devRef .tc main_v630) = val_main_v630 (F := F) :=
  (unary_eq later_953 later_954 (Nat.lt_of_lt_of_eq (by decide : 953 < 1293) ops_len.symm) V main_cst_200 main_v630 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_200 V))
theorem e_main_v631 : after (ops (F := F)) V (Proc.devRef .tc main_v631) = val_main_v631 (F := F) (a4 V) (a5 V) :=
  (binary_eq later_954 later_955 (Nat.lt_of_lt_of_eq (by decide : 954 < 1293) ops_len.symm) V main_v630 main_v619 main_v631 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v630 V) (e_main_v619 V))
theorem e_main_v632 : after (ops (F := F)) V (Proc.devRef .tc main_v632) = val_main_v632 (F := F) (a4 V) (a5 V) :=
  (unary_eq later_955 later_956 (Nat.lt_of_lt_of_eq (by decide : 955 < 1293) ops_len.symm) V main_v631 main_v632 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v631 V))
theorem e_main_v633 : after (ops (F := F)) V (Proc.devRef .tc main_v633) = val_main_v633 (F := F) (a2 V) (a4 V) (a5 V) :=
  (binary_eq later_956 later_957 (Nat.lt_of_lt_of_eq (by decide : 956 < 1293) ops_len.symm) V main_v629 main_v632 main_v633 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v629 V) (e_main_v632 V))
theorem e_main_v634 : after (ops (F := F)) V (Proc.devRef .tc main_v634) = val_main_v634 (F := F) (a2 V) (a4 V) (a5 V) :=
  (binary_eq later_957 later_958 (Nat.lt_of_lt_of_eq (by decide : 957 < 1293) ops_len.symm) V main_v627 main_v633 main_v634 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v627 V) (e_main_v633 V))
theorem e_main_cst_201 : after (ops (F := F)) V (Proc.devRef .tc main_cst_201) = val_main_cst_201 (F := F) :=
  nullary_eq later_958 later_959 (Nat.lt_of_lt_of_eq (by decide : 958 < 1293) ops_len.symm) V main_cst_201 (constant S_ .f32 0x3F800000#32) (hop := rfl) (hyi := (by decide))
theorem e_main_v635 : after (ops (F := F)) V (Proc.devRef .tc main_v635) = val_main_v635 (F := F) :=
  (unary_eq later_959 later_960 (Nat.lt_of_lt_of_eq (by decide : 959 < 1293) ops_len.symm) V main_cst_201 main_v635 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_201 V))
theorem e_main_v636 : after (ops (F := F)) V (Proc.devRef .tc main_v636) = val_main_v636 (F := F) (a4 V) (a5 V) :=
  (binary_eq later_960 later_961 (Nat.lt_of_lt_of_eq (by decide : 960 < 1293) ops_len.symm) V main_v635 main_v618 main_v636 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v635 V) (e_main_v618 V))
theorem e_main_v637 : after (ops (F := F)) V (Proc.devRef .tc main_v637) = val_main_v637 (F := F) (a4 V) (a5 V) :=
  (unary_eq later_961 later_962 (Nat.lt_of_lt_of_eq (by decide : 961 < 1293) ops_len.symm) V main_v636 main_v637 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v636 V))
theorem e_main_v638 : after (ops (F := F)) V (Proc.devRef .tc main_v638) = val_main_v638 (F := F) (a2 V) (a4 V) (a5 V) :=
  (binary_eq later_962 later_963 (Nat.lt_of_lt_of_eq (by decide : 962 < 1293) ops_len.symm) V main_v574 main_v637 main_v638 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v574 V) (e_main_v637 V))
theorem e_main_v639 : after (ops (F := F)) V (Proc.devRef .tc main_v639) = val_main_v639 (F := F) (a4 V) (a5 V) :=
  (unary_eq later_963 later_964 (Nat.lt_of_lt_of_eq (by decide : 963 < 1293) ops_len.symm) V main_v619 main_v639 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v619 V))
theorem e_main_v640 : after (ops (F := F)) V (Proc.devRef .tc main_v640) = val_main_v640 (F := F) (a2 V) (a4 V) (a5 V) :=
  (binary_eq later_964 later_965 (Nat.lt_of_lt_of_eq (by decide : 964 < 1293) ops_len.symm) V main_v638 main_v639 main_v640 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v638 V) (e_main_v639 V))
theorem e_main_v641 : after (ops (F := F)) V (Proc.devRef .tc main_v641) = val_main_v641 (F := F) (a2 V) (a4 V) (a5 V) :=
  (binary_eq later_965 later_966 (Nat.lt_of_lt_of_eq (by decide : 965 < 1293) ops_len.symm) V main_v634 main_v640 main_v641 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v634 V) (e_main_v640 V))
theorem e_main_v642 : after (ops (F := F)) V (Proc.devRef .tc main_v642) = val_main_v642 (F := F) (a4 V) (a5 V) :=
  (unary_eq later_966 later_967 (Nat.lt_of_lt_of_eq (by decide : 966 < 1293) ops_len.symm) V main_v618 main_v642 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v618 V))
theorem e_main_v643 : after (ops (F := F)) V (Proc.devRef .tc main_v643) = val_main_v643 (F := F) (a2 V) (a4 V) (a5 V) :=
  (binary_eq later_967 later_968 (Nat.lt_of_lt_of_eq (by decide : 967 < 1293) ops_len.symm) V main_v617 main_v642 main_v643 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v617 V) (e_main_v642 V))
theorem e_main_v644 : after (ops (F := F)) V (Proc.devRef .tc main_v644) = val_main_v644 (F := F) (a4 V) (a5 V) :=
  (unary_eq later_968 later_969 (Nat.lt_of_lt_of_eq (by decide : 968 < 1293) ops_len.symm) V main_v619 main_v644 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v619 V))
theorem e_main_v645 : after (ops (F := F)) V (Proc.devRef .tc main_v645) = val_main_v645 (F := F) (a2 V) (a4 V) (a5 V) :=
  (binary_eq later_969 later_970 (Nat.lt_of_lt_of_eq (by decide : 969 < 1293) ops_len.symm) V main_v643 main_v644 main_v645 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v643 V) (e_main_v644 V))
theorem e_main_v646 : after (ops (F := F)) V (Proc.devRef .tc main_v646) = val_main_v646 (F := F) (a2 V) (a4 V) (a5 V) :=
  (binary_eq later_970 later_971 (Nat.lt_of_lt_of_eq (by decide : 970 < 1293) ops_len.symm) V main_v641 main_v645 main_v646 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v641 V) (e_main_v645 V))
theorem e_main_v647 : after (ops (F := F)) V (Proc.devRef .tc main_v647) = val_main_v647 (F := F) (a2 V) (a4 V) (a5 V) :=
  (unary_eq later_971 later_972 (Nat.lt_of_lt_of_eq (by decide : 971 < 1293) ops_len.symm) V main_v646 main_v647 ((transpose S512x256x128 [0, 2, 1] · transposes_S512x128x256_S512x256x128_0_2_1) : (⟨S512x128x256, .f32⟩ : BufTy).Contents (Elt F) → (⟨S512x256x128, .f32⟩ : BufTy).Contents (Elt F)) (hop := rfl) (hyi := (by decide)) (hxi := (by decide))).trans
    (congrArg ((transpose S512x256x128 [0, 2, 1] · transposes_S512x128x256_S512x256x128_0_2_1) : (⟨S512x128x256, .f32⟩ : BufTy).Contents (Elt F) → (⟨S512x256x128, .f32⟩ : BufTy).Contents (Elt F)) (e_main_v646 V))
theorem e_main_v648 : after (ops (F := F)) V (Proc.devRef .tc main_v648) = val_main_v648 (F := F) (a4 V) (a5 V) :=
  (unary_eq later_972 later_973 (Nat.lt_of_lt_of_eq (by decide : 972 < 1293) ops_len.symm) V main_v11 main_v648 ((extractStridedSlice S512x128x1 ![0, 0, 0] · slices_S512x128x2_S512x128x1_0_0_0) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 0] · slices_S512x128x2_S512x128x1_0_0_0) : (⟨S512x128x2, .f32⟩ : BufTy).Contents (Elt F) → (⟨S512x128x1, .f32⟩ : BufTy).Contents (Elt F)) (e_main_v11 V))
theorem e_main_v649 : after (ops (F := F)) V (Proc.devRef .tc main_v649) = val_main_v649 (F := F) (a4 V) (a5 V) :=
  (reshape_eq later_973 later_974 (Nat.lt_of_lt_of_eq (by decide : 973 < 1293) ops_len.symm) V main_v648 main_v649 rfl shapeCasts_S512x128x1_S512x128 (hop := rfl) (hyi := (by decide)) (hxi := (by decide))).trans
    (congrArg (fun t => fun i => (rfl : (main_v648).ty.elt = (main_v649).ty.elt) ▸ shapeCast (main_v649).ty.shape t shapeCasts_S512x128x1_S512x128 i) (e_main_v648 V))
theorem e_main_cst_202 : after (ops (F := F)) V (Proc.devRef .tc main_cst_202) = val_main_cst_202 (F := F) :=
  nullary_eq later_974 later_975 (Nat.lt_of_lt_of_eq (by decide : 974 < 1293) ops_len.symm) V main_cst_202 (constant S_ .f32 0x42000000#32) (hop := rfl) (hyi := (by decide))
theorem e_main_v650 : after (ops (F := F)) V (Proc.devRef .tc main_v650) = val_main_v650 (F := F) :=
  (unary_eq later_975 later_976 (Nat.lt_of_lt_of_eq (by decide : 975 < 1293) ops_len.symm) V main_cst_202 main_v650 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_202 V))
theorem e_main_v651 : after (ops (F := F)) V (Proc.devRef .tc main_v651) = val_main_v651 (F := F) (a4 V) (a5 V) :=
  (binary_eq later_976 later_977 (Nat.lt_of_lt_of_eq (by decide : 976 < 1293) ops_len.symm) V main_v649 main_v650 main_v651 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v649 V) (e_main_v650 V))
theorem e_main_cst_203 : after (ops (F := F)) V (Proc.devRef .tc main_cst_203) = val_main_cst_203 (F := F) :=
  nullary_eq later_977 later_978 (Nat.lt_of_lt_of_eq (by decide : 977 < 1293) ops_len.symm) V main_cst_203 (constant S_ .f32 0x3F000000#32) (hop := rfl) (hyi := (by decide))
theorem e_main_v652 : after (ops (F := F)) V (Proc.devRef .tc main_v652) = val_main_v652 (F := F) :=
  (unary_eq later_978 later_979 (Nat.lt_of_lt_of_eq (by decide : 978 < 1293) ops_len.symm) V main_cst_203 main_v652 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_203 V))
theorem e_main_v653 : after (ops (F := F)) V (Proc.devRef .tc main_v653) = val_main_v653 (F := F) (a4 V) (a5 V) :=
  (binary_eq later_979 later_980 (Nat.lt_of_lt_of_eq (by decide : 979 < 1293) ops_len.symm) V main_v651 main_v652 main_v653 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v651 V) (e_main_v652 V))
theorem e_main_v654 : after (ops (F := F)) V (Proc.devRef .tc main_v654) = val_main_v654 (F := F) (a4 V) (a5 V) :=
  (unary_eq later_980 later_981 (Nat.lt_of_lt_of_eq (by decide : 980 < 1293) ops_len.symm) V main_v11 main_v654 ((extractStridedSlice S512x128x1 ![0, 0, 1] · slices_S512x128x2_S512x128x1_0_0_1) : (⟨S512x128x2, .f32⟩ : BufTy).Contents (Elt F) → (⟨S512x128x1, .f32⟩ : BufTy).Contents (Elt F)) (hop := rfl) (hyi := (by decide)) (hxi := (by decide))).trans
    (congrArg ((extractStridedSlice S512x128x1 ![0, 0, 1] · slices_S512x128x2_S512x128x1_0_0_1) : (⟨S512x128x2, .f32⟩ : BufTy).Contents (Elt F) → (⟨S512x128x1, .f32⟩ : BufTy).Contents (Elt F)) (e_main_v11 V))
theorem e_main_v655 : after (ops (F := F)) V (Proc.devRef .tc main_v655) = val_main_v655 (F := F) (a4 V) (a5 V) :=
  (reshape_eq later_981 later_982 (Nat.lt_of_lt_of_eq (by decide : 981 < 1293) ops_len.symm) V main_v654 main_v655 rfl shapeCasts_S512x128x1_S512x128 (hop := rfl) (hyi := (by decide)) (hxi := (by decide))).trans
    (congrArg (fun t => fun i => (rfl : (main_v654).ty.elt = (main_v655).ty.elt) ▸ shapeCast (main_v655).ty.shape t shapeCasts_S512x128x1_S512x128 i) (e_main_v654 V))
theorem e_main_cst_204 : after (ops (F := F)) V (Proc.devRef .tc main_cst_204) = val_main_cst_204 (F := F) :=
  nullary_eq later_982 later_983 (Nat.lt_of_lt_of_eq (by decide : 982 < 1293) ops_len.symm) V main_cst_204 (constant S_ .f32 0x42000000#32) (hop := rfl) (hyi := (by decide))
theorem e_main_v656 : after (ops (F := F)) V (Proc.devRef .tc main_v656) = val_main_v656 (F := F) :=
  (unary_eq later_983 later_984 (Nat.lt_of_lt_of_eq (by decide : 983 < 1293) ops_len.symm) V main_cst_204 main_v656 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_204 V))
theorem e_main_v657 : after (ops (F := F)) V (Proc.devRef .tc main_v657) = val_main_v657 (F := F) (a4 V) (a5 V) :=
  (binary_eq later_984 later_985 (Nat.lt_of_lt_of_eq (by decide : 984 < 1293) ops_len.symm) V main_v655 main_v656 main_v657 (Host.divf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (Host.divf : (⟨S512x128, .f32⟩ : BufTy).Contents (Elt F) → (⟨S512x128, .f32⟩ : BufTy).Contents (Elt F) → (⟨S512x128, .f32⟩ : BufTy).Contents (Elt F)) (e_main_v655 V) (e_main_v656 V))
theorem e_main_cst_205 : after (ops (F := F)) V (Proc.devRef .tc main_cst_205) = val_main_cst_205 (F := F) :=
  nullary_eq later_985 later_986 (Nat.lt_of_lt_of_eq (by decide : 985 < 1293) ops_len.symm) V main_cst_205 (constant S_ .f32 0x3F000000#32) (hop := rfl) (hyi := (by decide))
theorem e_main_v658 : after (ops (F := F)) V (Proc.devRef .tc main_v658) = val_main_v658 (F := F) :=
  (unary_eq later_986 later_987 (Nat.lt_of_lt_of_eq (by decide : 986 < 1293) ops_len.symm) V main_cst_205 main_v658 (broadcastInDim S512x128 ![] bcast_S_S512x128 : (⟨S_, .f32⟩ : BufTy).Contents (Elt F) → (⟨S512x128, .f32⟩ : BufTy).Contents (Elt F)) (hop := rfl) (hyi := (by decide)) (hxi := (by decide))).trans
    (congrArg (broadcastInDim S512x128 ![] bcast_S_S512x128 : (⟨S_, .f32⟩ : BufTy).Contents (Elt F) → (⟨S512x128, .f32⟩ : BufTy).Contents (Elt F)) (e_main_cst_205 V))
theorem e_main_v659 : after (ops (F := F)) V (Proc.devRef .tc main_v659) = val_main_v659 (F := F) (a4 V) (a5 V) :=
  (binary_eq later_987 later_988 (Nat.lt_of_lt_of_eq (by decide : 987 < 1293) ops_len.symm) V main_v657 main_v658 main_v659 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v657 V) (e_main_v658 V))
theorem e_main_v660 : after (ops (F := F)) V (Proc.devRef .tc main_v660) = val_main_v660 (F := F) (a4 V) (a5 V) :=
  (unary_eq later_988 later_989 (Nat.lt_of_lt_of_eq (by decide : 988 < 1293) ops_len.symm) V main_v653 main_v660 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v653 V))
theorem e_main_v661 : after (ops (F := F)) V (Proc.devRef .tc main_v661) = val_main_v661 (F := F) (a4 V) (a5 V) :=
  (unary_eq later_989 later_990 (Nat.lt_of_lt_of_eq (by decide : 989 < 1293) ops_len.symm) V main_v659 main_v661 (Host.floor : (⟨S512x128, .f32⟩ : BufTy).Contents (Elt F) → (⟨S512x128, .f32⟩ : BufTy).Contents (Elt F)) (hop := rfl) (hyi := (by decide)) (hxi := (by decide))).trans
    (congrArg (Host.floor : (⟨S512x128, .f32⟩ : BufTy).Contents (Elt F) → (⟨S512x128, .f32⟩ : BufTy).Contents (Elt F)) (e_main_v659 V))
theorem e_main_v662 : after (ops (F := F)) V (Proc.devRef .tc main_v662) = val_main_v662 (F := F) (a4 V) (a5 V) :=
  (binary_eq later_990 later_991 (Nat.lt_of_lt_of_eq (by decide : 990 < 1293) ops_len.symm) V main_v653 main_v660 main_v662 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v653 V) (e_main_v660 V))
theorem e_main_v663 : after (ops (F := F)) V (Proc.devRef .tc main_v663) = val_main_v663 (F := F) (a4 V) (a5 V) :=
  (binary_eq later_991 later_992 (Nat.lt_of_lt_of_eq (by decide : 991 < 1293) ops_len.symm) V main_v659 main_v661 main_v663 (subf : (⟨S512x128, .f32⟩ : BufTy).Contents (Elt F) → (⟨S512x128, .f32⟩ : BufTy).Contents (Elt F) → (⟨S512x128, .f32⟩ : BufTy).Contents (Elt F)) (hop := rfl) (hyi := (by decide)) (hai := (by decide)) (hbi := (by decide))).trans
    (congrArg₂ (subf : (⟨S512x128, .f32⟩ : BufTy).Contents (Elt F) → (⟨S512x128, .f32⟩ : BufTy).Contents (Elt F) → (⟨S512x128, .f32⟩ : BufTy).Contents (Elt F)) (e_main_v659 V) (e_main_v661 V))
theorem e_main_v664 : after (ops (F := F)) V (Proc.devRef .tc main_v664) = val_main_v664 (F := F) (a4 V) (a5 V) :=
  (unary_eq later_992 later_993 (Nat.lt_of_lt_of_eq (by decide : 992 < 1293) ops_len.symm) V main_v660 main_v664 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v660 V))
theorem e_main_v665 : after (ops (F := F)) V (Proc.devRef .tc main_v665) = val_main_v665 (F := F) (a4 V) (a5 V) :=
  (unary_eq later_993 later_994 (Nat.lt_of_lt_of_eq (by decide : 993 < 1293) ops_len.symm) V main_v661 main_v665 (fptosi 32 : (⟨S512x128, .f32⟩ : BufTy).Contents (Elt F) → (⟨S512x128, .i32⟩ : BufTy).Contents (Elt F)) (hop := rfl) (hyi := (by decide)) (hxi := (by decide))).trans
    (congrArg (fptosi 32 : (⟨S512x128, .f32⟩ : BufTy).Contents (Elt F) → (⟨S512x128, .i32⟩ : BufTy).Contents (Elt F)) (e_main_v661 V))
theorem e_main_c_206 : after (ops (F := F)) V (Proc.devRef .tc main_c_206) = val_main_c_206 (F := F) :=
  nullary_eq later_994 later_995 (Nat.lt_of_lt_of_eq (by decide : 994 < 1293) ops_len.symm) V main_c_206 (constantI S_ 32 0#32) (hop := rfl) (hyi := (by decide))
theorem e_main_v666 : after (ops (F := F)) V (Proc.devRef .tc main_v666) = val_main_v666 (F := F) :=
  (unary_eq later_995 later_996 (Nat.lt_of_lt_of_eq (by decide : 995 < 1293) ops_len.symm) V main_c_206 main_v666 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_206 V))
theorem e_main_v667 : after (ops (F := F)) V (Proc.devRef .tc main_v667) = val_main_v667 (F := F) (a4 V) (a5 V) :=
  (binary_eq later_996 later_997 (Nat.lt_of_lt_of_eq (by decide : 996 < 1293) ops_len.symm) V main_v664 main_v666 main_v667 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v664 V) (e_main_v666 V))
theorem e_main_c_207 : after (ops (F := F)) V (Proc.devRef .tc main_c_207) = val_main_c_207 (F := F) :=
  nullary_eq later_997 later_998 (Nat.lt_of_lt_of_eq (by decide : 997 < 1293) ops_len.symm) V main_c_207 (constantI S_ 32 32#32) (hop := rfl) (hyi := (by decide))
theorem e_main_v668 : after (ops (F := F)) V (Proc.devRef .tc main_v668) = val_main_v668 (F := F) :=
  (unary_eq later_998 later_999 (Nat.lt_of_lt_of_eq (by decide : 998 < 1293) ops_len.symm) V main_c_207 main_v668 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_207 V))
theorem e_main_v669 : after (ops (F := F)) V (Proc.devRef .tc main_v669) = val_main_v669 (F := F) (a4 V) (a5 V) :=
  (binary_eq later_999 later_1000 (Nat.lt_of_lt_of_eq (by decide : 999 < 1293) ops_len.symm) V main_v664 main_v668 main_v669 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v664 V) (e_main_v668 V))
theorem e_main_v670 : after (ops (F := F)) V (Proc.devRef .tc main_v670) = val_main_v670 (F := F) (a4 V) (a5 V) :=
  (binary_eq later_1000 later_1001 (Nat.lt_of_lt_of_eq (by decide : 1000 < 1293) ops_len.symm) V main_v667 main_v669 main_v670 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v667 V) (e_main_v669 V))
theorem e_main_c_208 : after (ops (F := F)) V (Proc.devRef .tc main_c_208) = val_main_c_208 (F := F) :=
  nullary_eq later_1001 later_1002 (Nat.lt_of_lt_of_eq (by decide : 1001 < 1293) ops_len.symm) V main_c_208 (constantI S_ 32 0#32) (hop := rfl) (hyi := (by decide))
theorem e_main_v671 : after (ops (F := F)) V (Proc.devRef .tc main_v671) = val_main_v671 (F := F) :=
  (unary_eq later_1002 later_1003 (Nat.lt_of_lt_of_eq (by decide : 1002 < 1293) ops_len.symm) V main_c_208 main_v671 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_208 V))
theorem e_main_v672 : after (ops (F := F)) V (Proc.devRef .tc main_v672) = val_main_v672 (F := F) (a4 V) (a5 V) :=
  (binary_eq later_1003 later_1004 (Nat.lt_of_lt_of_eq (by decide : 1003 < 1293) ops_len.symm) V main_v665 main_v671 main_v672 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v665 V) (e_main_v671 V))
theorem e_main_v673 : after (ops (F := F)) V (Proc.devRef .tc main_v673) = val_main_v673 (F := F) (a4 V) (a5 V) :=
  (binary_eq later_1004 later_1005 (Nat.lt_of_lt_of_eq (by decide : 1004 < 1293) ops_len.symm) V main_v670 main_v672 main_v673 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v670 V) (e_main_v672 V))
theorem e_main_c_209 : after (ops (F := F)) V (Proc.devRef .tc main_c_209) = val_main_c_209 (F := F) :=
  nullary_eq later_1005 later_1006 (Nat.lt_of_lt_of_eq (by decide : 1005 < 1293) ops_len.symm) V main_c_209 (constantI S_ 32 32#32) (hop := rfl) (hyi := (by decide))
theorem e_main_v674 : after (ops (F := F)) V (Proc.devRef .tc main_v674) = val_main_v674 (F := F) :=
  (unary_eq later_1006 later_1007 (Nat.lt_of_lt_of_eq (by decide : 1006 < 1293) ops_len.symm) V main_c_209 main_v674 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_209 V))
theorem e_main_v675 : after (ops (F := F)) V (Proc.devRef .tc main_v675) = val_main_v675 (F := F) (a4 V) (a5 V) :=
  (binary_eq later_1007 later_1008 (Nat.lt_of_lt_of_eq (by decide : 1007 < 1293) ops_len.symm) V main_v665 main_v674 main_v675 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v665 V) (e_main_v674 V))
theorem e_main_v676 : after (ops (F := F)) V (Proc.devRef .tc main_v676) = val_main_v676 (F := F) (a4 V) (a5 V) :=
  (binary_eq later_1008 later_1009 (Nat.lt_of_lt_of_eq (by decide : 1008 < 1293) ops_len.symm) V main_v673 main_v675 main_v676 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v673 V) (e_main_v675 V))
theorem e_main_c_210 : after (ops (F := F)) V (Proc.devRef .tc main_c_210) = val_main_c_210 (F := F) :=
  nullary_eq later_1009 later_1010 (Nat.lt_of_lt_of_eq (by decide : 1009 < 1293) ops_len.symm) V main_c_210 (constantI S_ 32 0#32) (hop := rfl) (hyi := (by decide))
theorem e_main_c_211 : after (ops (F := F)) V (Proc.devRef .tc main_c_211) = val_main_c_211 (F := F) :=
  nullary_eq later_1010 later_1011 (Nat.lt_of_lt_of_eq (by decide : 1010 < 1293) ops_len.symm) V main_c_211 (constantI S_ 32 31#32) (hop := rfl) (hyi := (by decide))
theorem e_main_call24_v0 : after (ops (F := F)) V (Proc.devRef .tc main_call24_v0) = val_main_call24_v0 (F := F) :=
  (tunary_eq later_1011 later_1012 (Nat.lt_of_lt_of_eq (by decide : 1011 < 1293) ops_len.symm) V (TRef.of (T := ⟨S_, .i32⟩) main_c_210) (TRef.of (T := ⟨S_, .i32⟩) main_call24_v0) id (hop := rfl) (hyi := (by decide)) (hxi := (by decide))).trans
    (congrArg (fun t => (TRef.of (T := ⟨S_, .i32⟩) main_call24_v0).toBuf ((id) ((TRef.of (T := ⟨S_, .i32⟩) main_c_210).ofBuf t))) (e_main_c_210 V))
theorem e_main_call24_v1 : after (ops (F := F)) V (Proc.devRef .tc main_call24_v1) = val_main_call24_v1 (F := F) :=
  (tunary_eq later_1012 later_1013 (Nat.lt_of_lt_of_eq (by decide : 1012 < 1293) ops_len.symm) V (TRef.of (T := ⟨S_, .i32⟩) main_call24_v0) (TRef.of (T := ⟨S512x128, .i32⟩) main_call24_v1) (broadcastInDim S512x128 ![] bcast_S_S512x128) (hop := rfl) (hyi := (by decide)) (hxi := (by decide))).trans
    (congrArg (fun t => (TRef.of (T := ⟨S512x128, .i32⟩) main_call24_v1).toBuf (((broadcastInDim S512x128 ![] bcast_S_S512x128)) ((TRef.of (T := ⟨S_, .i32⟩) main_call24_v0).ofBuf t))) (e_main_call24_v0 V))
theorem e_main_call24_v2 : after (ops (F := F)) V (Proc.devRef .tc main_call24_v2) = val_main_call24_v2 (F := F) (a4 V) (a5 V) :=
  (tbinary_eq later_1013 later_1014 (Nat.lt_of_lt_of_eq (by decide : 1013 < 1293) ops_len.symm) V (TRef.of (T := ⟨S512x128, .i32⟩) main_call24_v1) (TRef.of (T := ⟨S512x128, .i32⟩) main_v664) (TRef.of (T := ⟨S512x128, .i32⟩) main_call24_v2) maxsi (hop := rfl) (hyi := (by decide)) (hai := (by decide)) (hbi := (by decide))).trans
    (by rw [e_main_call24_v1 V, e_main_v664 V]; rfl)
theorem e_main_call24_v3 : after (ops (F := F)) V (Proc.devRef .tc main_call24_v3) = val_main_call24_v3 (F := F) :=
  (tunary_eq later_1014 later_1015 (Nat.lt_of_lt_of_eq (by decide : 1014 < 1293) ops_len.symm) V (TRef.of (T := ⟨S_, .i32⟩) main_c_211) (TRef.of (T := ⟨S_, .i32⟩) main_call24_v3) id (hop := rfl) (hyi := (by decide)) (hxi := (by decide))).trans
    (congrArg (fun t => (TRef.of (T := ⟨S_, .i32⟩) main_call24_v3).toBuf ((id) ((TRef.of (T := ⟨S_, .i32⟩) main_c_211).ofBuf t))) (e_main_c_211 V))
theorem e_main_call24_v4 : after (ops (F := F)) V (Proc.devRef .tc main_call24_v4) = val_main_call24_v4 (F := F) :=
  (tunary_eq later_1015 later_1016 (Nat.lt_of_lt_of_eq (by decide : 1015 < 1293) ops_len.symm) V (TRef.of (T := ⟨S_, .i32⟩) main_call24_v3) (TRef.of (T := ⟨S512x128, .i32⟩) main_call24_v4) (broadcastInDim S512x128 ![] bcast_S_S512x128) (hop := rfl) (hyi := (by decide)) (hxi := (by decide))).trans
    (congrArg (fun t => (TRef.of (T := ⟨S512x128, .i32⟩) main_call24_v4).toBuf (((broadcastInDim S512x128 ![] bcast_S_S512x128)) ((TRef.of (T := ⟨S_, .i32⟩) main_call24_v3).ofBuf t))) (e_main_call24_v3 V))
theorem e_main_v677 : after (ops (F := F)) V (Proc.devRef .tc main_v677) = val_main_v677 (F := F) (a4 V) (a5 V) :=
  (tbinary_eq later_1016 later_1017 (Nat.lt_of_lt_of_eq (by decide : 1016 < 1293) ops_len.symm) V (TRef.of (T := ⟨S512x128, .i32⟩) main_call24_v4) (TRef.of (T := ⟨S512x128, .i32⟩) main_call24_v2) (TRef.of (T := ⟨S512x128, .i32⟩) main_v677) minsi (hop := rfl) (hyi := (by decide)) (hai := (by decide)) (hbi := (by decide))).trans
    (by rw [e_main_call24_v4 V, e_main_call24_v2 V]; rfl)
theorem e_main_c_212 : after (ops (F := F)) V (Proc.devRef .tc main_c_212) = val_main_c_212 (F := F) :=
  nullary_eq later_1017 later_1018 (Nat.lt_of_lt_of_eq (by decide : 1017 < 1293) ops_len.symm) V main_c_212 (constantI S_ 32 0#32) (hop := rfl) (hyi := (by decide))
theorem e_main_c_213 : after (ops (F := F)) V (Proc.devRef .tc main_c_213) = val_main_c_213 (F := F) :=
  nullary_eq later_1018 later_1019 (Nat.lt_of_lt_of_eq (by decide : 1018 < 1293) ops_len.symm) V main_c_213 (constantI S_ 32 31#32) (hop := rfl) (hyi := (by decide))
theorem e_main_call25_v0 : after (ops (F := F)) V (Proc.devRef .tc main_call25_v0) = val_main_call25_v0 (F := F) :=
  (tunary_eq later_1019 later_1020 (Nat.lt_of_lt_of_eq (by decide : 1019 < 1293) ops_len.symm) V (TRef.of (T := ⟨S_, .i32⟩) main_c_212) (TRef.of (T := ⟨S_, .i32⟩) main_call25_v0) id (hop := rfl) (hyi := (by decide)) (hxi := (by decide))).trans
    (congrArg (fun t => (TRef.of (T := ⟨S_, .i32⟩) main_call25_v0).toBuf ((id) ((TRef.of (T := ⟨S_, .i32⟩) main_c_212).ofBuf t))) (e_main_c_212 V))
theorem e_main_call25_v1 : after (ops (F := F)) V (Proc.devRef .tc main_call25_v1) = val_main_call25_v1 (F := F) :=
  (tunary_eq later_1020 later_1021 (Nat.lt_of_lt_of_eq (by decide : 1020 < 1293) ops_len.symm) V (TRef.of (T := ⟨S_, .i32⟩) main_call25_v0) (TRef.of (T := ⟨S512x128, .i32⟩) main_call25_v1) (broadcastInDim S512x128 ![] bcast_S_S512x128) (hop := rfl) (hyi := (by decide)) (hxi := (by decide))).trans
    (congrArg (fun t => (TRef.of (T := ⟨S512x128, .i32⟩) main_call25_v1).toBuf (((broadcastInDim S512x128 ![] bcast_S_S512x128)) ((TRef.of (T := ⟨S_, .i32⟩) main_call25_v0).ofBuf t))) (e_main_call25_v0 V))
theorem e_main_call25_v2 : after (ops (F := F)) V (Proc.devRef .tc main_call25_v2) = val_main_call25_v2 (F := F) (a4 V) (a5 V) :=
  (tbinary_eq later_1021 later_1022 (Nat.lt_of_lt_of_eq (by decide : 1021 < 1293) ops_len.symm) V (TRef.of (T := ⟨S512x128, .i32⟩) main_call25_v1) (TRef.of (T := ⟨S512x128, .i32⟩) main_v665) (TRef.of (T := ⟨S512x128, .i32⟩) main_call25_v2) maxsi (hop := rfl) (hyi := (by decide)) (hai := (by decide)) (hbi := (by decide))).trans
    (by rw [e_main_call25_v1 V, e_main_v665 V]; rfl)
theorem e_main_call25_v3 : after (ops (F := F)) V (Proc.devRef .tc main_call25_v3) = val_main_call25_v3 (F := F) :=
  (tunary_eq later_1022 later_1023 (Nat.lt_of_lt_of_eq (by decide : 1022 < 1293) ops_len.symm) V (TRef.of (T := ⟨S_, .i32⟩) main_c_213) (TRef.of (T := ⟨S_, .i32⟩) main_call25_v3) id (hop := rfl) (hyi := (by decide)) (hxi := (by decide))).trans
    (congrArg (fun t => (TRef.of (T := ⟨S_, .i32⟩) main_call25_v3).toBuf ((id) ((TRef.of (T := ⟨S_, .i32⟩) main_c_213).ofBuf t))) (e_main_c_213 V))
theorem e_main_call25_v4 : after (ops (F := F)) V (Proc.devRef .tc main_call25_v4) = val_main_call25_v4 (F := F) :=
  (tunary_eq later_1023 later_1024 (Nat.lt_of_lt_of_eq (by decide : 1023 < 1293) ops_len.symm) V (TRef.of (T := ⟨S_, .i32⟩) main_call25_v3) (TRef.of (T := ⟨S512x128, .i32⟩) main_call25_v4) (broadcastInDim S512x128 ![] bcast_S_S512x128) (hop := rfl) (hyi := (by decide)) (hxi := (by decide))).trans
    (congrArg (fun t => (TRef.of (T := ⟨S512x128, .i32⟩) main_call25_v4).toBuf (((broadcastInDim S512x128 ![] bcast_S_S512x128)) ((TRef.of (T := ⟨S_, .i32⟩) main_call25_v3).ofBuf t))) (e_main_call25_v3 V))
theorem e_main_v678 : after (ops (F := F)) V (Proc.devRef .tc main_v678) = val_main_v678 (F := F) (a4 V) (a5 V) :=
  (tbinary_eq later_1024 later_1025 (Nat.lt_of_lt_of_eq (by decide : 1024 < 1293) ops_len.symm) V (TRef.of (T := ⟨S512x128, .i32⟩) main_call25_v4) (TRef.of (T := ⟨S512x128, .i32⟩) main_call25_v2) (TRef.of (T := ⟨S512x128, .i32⟩) main_v678) minsi (hop := rfl) (hyi := (by decide)) (hai := (by decide)) (hbi := (by decide))).trans
    (by rw [e_main_call25_v4 V, e_main_call25_v2 V]; rfl)
theorem e_main_v679 : after (ops (F := F)) V (Proc.devRef .tc main_v679) = val_main_v679 (F := F) (a4 V) :=
  (unary_eq later_1025 later_1026 (Nat.lt_of_lt_of_eq (by decide : 1025 < 1293) ops_len.symm) V main_v2 main_v679 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_214 : after (ops (F := F)) V (Proc.devRef .tc main_c_214) = val_main_c_214 (F := F) :=
  nullary_eq later_1026 later_1027 (Nat.lt_of_lt_of_eq (by decide : 1026 < 1293) ops_len.symm) V main_c_214 (constantI S_ 32 0#32) (hop := rfl) (hyi := (by decide))
theorem e_main_v680 : after (ops (F := F)) V (Proc.devRef .tc main_v680) = val_main_v680 (F := F) :=
  (unary_eq later_1027 later_1028 (Nat.lt_of_lt_of_eq (by decide : 1027 < 1293) ops_len.symm) V main_c_214 main_v680 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_214 V))
theorem e_main_v681 : after (ops (F := F)) V (Proc.devRef .tc main_v681) = val_main_v681 (F := F) (a4 V) :=
  (binary_eq later_1028 later_1029 (Nat.lt_of_lt_of_eq (by decide : 1028 < 1293) ops_len.symm) V main_v679 main_v680 main_v681 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v679 V) (e_main_v680 V))
theorem e_main_c_215 : after (ops (F := F)) V (Proc.devRef .tc main_c_215) = val_main_c_215 (F := F) :=
  nullary_eq later_1029 later_1030 (Nat.lt_of_lt_of_eq (by decide : 1029 < 1293) ops_len.symm) V main_c_215 (constantI S_ 32 2#32) (hop := rfl) (hyi := (by decide))
theorem e_main_v682 : after (ops (F := F)) V (Proc.devRef .tc main_v682) = val_main_v682 (F := F) :=
  (unary_eq later_1030 later_1031 (Nat.lt_of_lt_of_eq (by decide : 1030 < 1293) ops_len.symm) V main_c_215 main_v682 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_215 V))
theorem e_main_v683 : after (ops (F := F)) V (Proc.devRef .tc main_v683) = val_main_v683 (F := F) (a4 V) :=
  (binary_eq later_1031 later_1032 (Nat.lt_of_lt_of_eq (by decide : 1031 < 1293) ops_len.symm) V main_v679 main_v682 main_v683 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v679 V) (e_main_v682 V))
theorem e_main_v684 : after (ops (F := F)) V (Proc.devRef .tc main_v684) = val_main_v684 (F := F) (a4 V) :=
  (ternary_eq later_1032 later_1033 (Nat.lt_of_lt_of_eq (by decide : 1032 < 1293) ops_len.symm) V main_v681 main_v683 main_v679 main_v684 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v681 V) (e_main_v683 V) (e_main_v679 V))
theorem e_main_c_216 : after (ops (F := F)) V (Proc.devRef .tc main_c_216) = val_main_c_216 (F := F) :=
  nullary_eq later_1033 later_1034 (Nat.lt_of_lt_of_eq (by decide : 1033 < 1293) ops_len.symm) V main_c_216 (constantI S_ 32 0#32) (hop := rfl) (hyi := (by decide))
theorem e_main_v685 : after (ops (F := F)) V (Proc.devRef .tc main_v685) = val_main_v685 (F := F) :=
  (unary_eq later_1034 later_1035 (Nat.lt_of_lt_of_eq (by decide : 1034 < 1293) ops_len.symm) V main_c_216 main_v685 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_216 V))
theorem e_main_v686 : after (ops (F := F)) V (Proc.devRef .tc main_v686) = val_main_v686 (F := F) (a4 V) (a5 V) :=
  (binary_eq later_1035 later_1036 (Nat.lt_of_lt_of_eq (by decide : 1035 < 1293) ops_len.symm) V main_v678 main_v685 main_v686 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v678 V) (e_main_v685 V))
theorem e_main_c_217 : after (ops (F := F)) V (Proc.devRef .tc main_c_217) = val_main_c_217 (F := F) :=
  nullary_eq later_1036 later_1037 (Nat.lt_of_lt_of_eq (by decide : 1036 < 1293) ops_len.symm) V main_c_217 (constantI S_ 32 32#32) (hop := rfl) (hyi := (by decide))
theorem e_main_v687 : after (ops (F := F)) V (Proc.devRef .tc main_v687) = val_main_v687 (F := F) :=
  (unary_eq later_1037 later_1038 (Nat.lt_of_lt_of_eq (by decide : 1037 < 1293) ops_len.symm) V main_c_217 main_v687 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_217 V))
theorem e_main_v688 : after (ops (F := F)) V (Proc.devRef .tc main_v688) = val_main_v688 (F := F) (a4 V) (a5 V) :=
  (binary_eq later_1038 later_1039 (Nat.lt_of_lt_of_eq (by decide : 1038 < 1293) ops_len.symm) V main_v678 main_v687 main_v688 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v678 V) (e_main_v687 V))
theorem e_main_v689 : after (ops (F := F)) V (Proc.devRef .tc main_v689) = val_main_v689 (F := F) (a4 V) (a5 V) :=
  (ternary_eq later_1039 later_1040 (Nat.lt_of_lt_of_eq (by decide : 1039 < 1293) ops_len.symm) V main_v686 main_v688 main_v678 main_v689 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v686 V) (e_main_v688 V) (e_main_v678 V))
theorem e_main_c_218 : after (ops (F := F)) V (Proc.devRef .tc main_c_218) = val_main_c_218 (F := F) :=
  nullary_eq later_1040 later_1041 (Nat.lt_of_lt_of_eq (by decide : 1040 < 1293) ops_len.symm) V main_c_218 (constantI S_ 32 0#32) (hop := rfl) (hyi := (by decide))
theorem e_main_v690 : after (ops (F := F)) V (Proc.devRef .tc main_v690) = val_main_v690 (F := F) :=
  (unary_eq later_1041 later_1042 (Nat.lt_of_lt_of_eq (by decide : 1041 < 1293) ops_len.symm) V main_c_218 main_v690 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_218 V))
theorem e_main_v691 : after (ops (F := F)) V (Proc.devRef .tc main_v691) = val_main_v691 (F := F) (a4 V) (a5 V) :=
  (binary_eq later_1042 later_1043 (Nat.lt_of_lt_of_eq (by decide : 1042 < 1293) ops_len.symm) V main_v677 main_v690 main_v691 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v677 V) (e_main_v690 V))
theorem e_main_c_219 : after (ops (F := F)) V (Proc.devRef .tc main_c_219) = val_main_c_219 (F := F) :=
  nullary_eq later_1043 later_1044 (Nat.lt_of_lt_of_eq (by decide : 1043 < 1293) ops_len.symm) V main_c_219 (constantI S_ 32 32#32) (hop := rfl) (hyi := (by decide))
theorem e_main_v692 : after (ops (F := F)) V (Proc.devRef .tc main_v692) = val_main_v692 (F := F) :=
  (unary_eq later_1044 later_1045 (Nat.lt_of_lt_of_eq (by decide : 1044 < 1293) ops_len.symm) V main_c_219 main_v692 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_219 V))
theorem e_main_v693 : after (ops (F := F)) V (Proc.devRef .tc main_v693) = val_main_v693 (F := F) (a4 V) (a5 V) :=
  (binary_eq later_1045 later_1046 (Nat.lt_of_lt_of_eq (by decide : 1045 < 1293) ops_len.symm) V main_v677 main_v692 main_v693 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v677 V) (e_main_v692 V))
theorem e_main_v694 : after (ops (F := F)) V (Proc.devRef .tc main_v694) = val_main_v694 (F := F) (a4 V) (a5 V) :=
  (ternary_eq later_1046 later_1047 (Nat.lt_of_lt_of_eq (by decide : 1046 < 1293) ops_len.symm) V main_v691 main_v693 main_v677 main_v694 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v691 V) (e_main_v693 V) (e_main_v677 V))
theorem e_main_v695 : after (ops (F := F)) V (Proc.devRef .tc main_v695) = val_main_v695 (F := F) (a4 V) :=
  (unary_eq later_1047 later_1048 (Nat.lt_of_lt_of_eq (by decide : 1047 < 1293) ops_len.symm) V main_v684 main_v695 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v684 V))
theorem e_main_v696 : after (ops (F := F)) V (Proc.devRef .tc main_v696) = val_main_v696 (F := F) (a4 V) :=
  (unary_eq later_1048 later_1049 (Nat.lt_of_lt_of_eq (by decide : 1048 < 1293) ops_len.symm) V main_v695 main_v696 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v695 V))
theorem e_main_v697 : after (ops (F := F)) V (Proc.devRef .tc main_v697) = val_main_v697 (F := F) (a4 V) (a5 V) :=
  (unary_eq later_1049 later_1050 (Nat.lt_of_lt_of_eq (by decide : 1049 < 1293) ops_len.symm) V main_v689 main_v697 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v689 V))
theorem e_main_v698 : after (ops (F := F)) V (Proc.devRef .tc main_v698) = val_main_v698 (F := F) (a4 V) (a5 V) :=
  (unary_eq later_1050 later_1051 (Nat.lt_of_lt_of_eq (by decide : 1050 < 1293) ops_len.symm) V main_v694 main_v698 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v694 V))
theorem e_main_v699 : after (ops (F := F)) V (Proc.devRef .tc main_v699) = val_main_v699 (F := F) (a4 V) (a5 V) :=
  (nary_eq later_1051 later_1052 (Nat.lt_of_lt_of_eq (by decide : 1051 < 1293) ops_len.symm) V ![main_v696, main_v697, main_v698] main_v699 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v696)⟩, ⟨S512x128x1, after (ops (F := F)) V (Proc.devRef .tc main_v697)⟩, ⟨S512x128x1, after (ops (F := F)) V (Proc.devRef .tc main_v698)⟩] concatenates_S512x128x1_S512x128x1_S512x128x1_S512x128x3_d2 = _
    rw [e_main_v696 V, e_main_v697 V, e_main_v698 V]; rfl)
theorem e_main_v700 : after (ops (F := F)) V (Proc.devRef .tc main_v700) = val_main_v700 (F := F) (a3 V) (a4 V) (a5 V) :=
  (binary_eq later_1052 later_1053 (Nat.lt_of_lt_of_eq (by decide : 1052 < 1293) ops_len.symm) V main_arg3 main_v699 main_v700 ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (e_main_arg3 V) (e_main_v699 V))
theorem e_main_v701 : after (ops (F := F)) V (Proc.devRef .tc main_v701) = val_main_v701 (F := F) (a4 V) (a5 V) :=
  (unary_eq later_1053 later_1054 (Nat.lt_of_lt_of_eq (by decide : 1053 < 1293) ops_len.symm) V main_v676 main_v701 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v676 V))
theorem e_main_v702 : after (ops (F := F)) V (Proc.devRef .tc main_v702) = val_main_v702 (F := F) (a4 V) (a5 V) :=
  (unary_eq later_1054 later_1055 (Nat.lt_of_lt_of_eq (by decide : 1054 < 1293) ops_len.symm) V main_v701 main_v702 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v701 V))
theorem e_main_v703 : after (ops (F := F)) V (Proc.devRef .tc main_v703) = val_main_v703 (F := F) (a4 V) (a5 V) :=
  (unary_eq later_1055 later_1056 (Nat.lt_of_lt_of_eq (by decide : 1055 < 1293) ops_len.symm) V main_v702 main_v703 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v702 V))
theorem e_main_v704 : after (ops (F := F)) V (Proc.devRef .tc main_v704) = val_main_v704 (F := F) (a3 V) (a4 V) (a5 V) :=
  (binary_eq later_1056 later_1057 (Nat.lt_of_lt_of_eq (by decide : 1056 < 1293) ops_len.symm) V main_v700 main_v703 main_v704 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v700 V) (e_main_v703 V))
theorem e_main_c_220 : after (ops (F := F)) V (Proc.devRef .tc main_c_220) = val_main_c_220 (F := F) :=
  nullary_eq later_1057 later_1058 (Nat.lt_of_lt_of_eq (by decide : 1057 < 1293) ops_len.symm) V main_c_220 (constantI S_ 32 1#32) (hop := rfl) (hyi := (by decide))
theorem e_main_v705 : after (ops (F := F)) V (Proc.devRef .tc main_v705) = val_main_v705 (F := F) :=
  (unary_eq later_1058 later_1059 (Nat.lt_of_lt_of_eq (by decide : 1058 < 1293) ops_len.symm) V main_c_220 main_v705 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_220 V))
theorem e_main_v706 : after (ops (F := F)) V (Proc.devRef .tc main_v706) = val_main_v706 (F := F) (a4 V) (a5 V) :=
  (binary_eq later_1059 later_1060 (Nat.lt_of_lt_of_eq (by decide : 1059 < 1293) ops_len.symm) V main_v664 main_v705 main_v706 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v664 V) (e_main_v705 V))
theorem e_main_c_221 : after (ops (F := F)) V (Proc.devRef .tc main_c_221) = val_main_c_221 (F := F) :=
  nullary_eq later_1060 later_1061 (Nat.lt_of_lt_of_eq (by decide : 1060 < 1293) ops_len.symm) V main_c_221 (constantI S_ 32 0#32) (hop := rfl) (hyi := (by decide))
theorem e_main_v707 : after (ops (F := F)) V (Proc.devRef .tc main_v707) = val_main_v707 (F := F) :=
  (unary_eq later_1061 later_1062 (Nat.lt_of_lt_of_eq (by decide : 1061 < 1293) ops_len.symm) V main_c_221 main_v707 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_221 V))
theorem e_main_v708 : after (ops (F := F)) V (Proc.devRef .tc main_v708) = val_main_v708 (F := F) (a4 V) (a5 V) :=
  (binary_eq later_1062 later_1063 (Nat.lt_of_lt_of_eq (by decide : 1062 < 1293) ops_len.symm) V main_v706 main_v707 main_v708 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v706 V) (e_main_v707 V))
theorem e_main_c_222 : after (ops (F := F)) V (Proc.devRef .tc main_c_222) = val_main_c_222 (F := F) :=
  nullary_eq later_1063 later_1064 (Nat.lt_of_lt_of_eq (by decide : 1063 < 1293) ops_len.symm) V main_c_222 (constantI S_ 32 32#32) (hop := rfl) (hyi := (by decide))
theorem e_main_v709 : after (ops (F := F)) V (Proc.devRef .tc main_v709) = val_main_v709 (F := F) :=
  (unary_eq later_1064 later_1065 (Nat.lt_of_lt_of_eq (by decide : 1064 < 1293) ops_len.symm) V main_c_222 main_v709 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_222 V))
theorem e_main_v710 : after (ops (F := F)) V (Proc.devRef .tc main_v710) = val_main_v710 (F := F) (a4 V) (a5 V) :=
  (binary_eq later_1065 later_1066 (Nat.lt_of_lt_of_eq (by decide : 1065 < 1293) ops_len.symm) V main_v706 main_v709 main_v710 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v706 V) (e_main_v709 V))
theorem e_main_v711 : after (ops (F := F)) V (Proc.devRef .tc main_v711) = val_main_v711 (F := F) (a4 V) (a5 V) :=
  (binary_eq later_1066 later_1067 (Nat.lt_of_lt_of_eq (by decide : 1066 < 1293) ops_len.symm) V main_v708 main_v710 main_v711 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v708 V) (e_main_v710 V))
theorem e_main_c_223 : after (ops (F := F)) V (Proc.devRef .tc main_c_223) = val_main_c_223 (F := F) :=
  nullary_eq later_1067 later_1068 (Nat.lt_of_lt_of_eq (by decide : 1067 < 1293) ops_len.symm) V main_c_223 (constantI S_ 32 0#32) (hop := rfl) (hyi := (by decide))
theorem e_main_v712 : after (ops (F := F)) V (Proc.devRef .tc main_v712) = val_main_v712 (F := F) :=
  (unary_eq later_1068 later_1069 (Nat.lt_of_lt_of_eq (by decide : 1068 < 1293) ops_len.symm) V main_c_223 main_v712 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_223 V))
theorem e_main_v713 : after (ops (F := F)) V (Proc.devRef .tc main_v713) = val_main_v713 (F := F) (a4 V) (a5 V) :=
  (binary_eq later_1069 later_1070 (Nat.lt_of_lt_of_eq (by decide : 1069 < 1293) ops_len.symm) V main_v665 main_v712 main_v713 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v665 V) (e_main_v712 V))
theorem e_main_v714 : after (ops (F := F)) V (Proc.devRef .tc main_v714) = val_main_v714 (F := F) (a4 V) (a5 V) :=
  (binary_eq later_1070 later_1071 (Nat.lt_of_lt_of_eq (by decide : 1070 < 1293) ops_len.symm) V main_v711 main_v713 main_v714 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v711 V) (e_main_v713 V))
theorem e_main_c_224 : after (ops (F := F)) V (Proc.devRef .tc main_c_224) = val_main_c_224 (F := F) :=
  nullary_eq later_1071 later_1072 (Nat.lt_of_lt_of_eq (by decide : 1071 < 1293) ops_len.symm) V main_c_224 (constantI S_ 32 32#32) (hop := rfl) (hyi := (by decide))
theorem e_main_v715 : after (ops (F := F)) V (Proc.devRef .tc main_v715) = val_main_v715 (F := F) :=
  (unary_eq later_1072 later_1073 (Nat.lt_of_lt_of_eq (by decide : 1072 < 1293) ops_len.symm) V main_c_224 main_v715 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_224 V))
theorem e_main_v716 : after (ops (F := F)) V (Proc.devRef .tc main_v716) = val_main_v716 (F := F) (a4 V) (a5 V) :=
  (binary_eq later_1073 later_1074 (Nat.lt_of_lt_of_eq (by decide : 1073 < 1293) ops_len.symm) V main_v665 main_v715 main_v716 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v665 V) (e_main_v715 V))
theorem e_main_v717 : after (ops (F := F)) V (Proc.devRef .tc main_v717) = val_main_v717 (F := F) (a4 V) (a5 V) :=
  (binary_eq later_1074 later_1075 (Nat.lt_of_lt_of_eq (by decide : 1074 < 1293) ops_len.symm) V main_v714 main_v716 main_v717 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v714 V) (e_main_v716 V))
theorem e_main_c_225 : after (ops (F := F)) V (Proc.devRef .tc main_c_225) = val_main_c_225 (F := F) :=
  nullary_eq later_1075 later_1076 (Nat.lt_of_lt_of_eq (by decide : 1075 < 1293) ops_len.symm) V main_c_225 (constantI S_ 32 0#32) (hop := rfl) (hyi := (by decide))
theorem e_main_c_226 : after (ops (F := F)) V (Proc.devRef .tc main_c_226) = val_main_c_226 (F := F) :=
  nullary_eq later_1076 later_1077 (Nat.lt_of_lt_of_eq (by decide : 1076 < 1293) ops_len.symm) V main_c_226 (constantI S_ 32 31#32) (hop := rfl) (hyi := (by decide))
theorem e_main_call26_v0 : after (ops (F := F)) V (Proc.devRef .tc main_call26_v0) = val_main_call26_v0 (F := F) :=
  (tunary_eq later_1077 later_1078 (Nat.lt_of_lt_of_eq (by decide : 1077 < 1293) ops_len.symm) V (TRef.of (T := ⟨S_, .i32⟩) main_c_225) (TRef.of (T := ⟨S_, .i32⟩) main_call26_v0) id (hop := rfl) (hyi := (by decide)) (hxi := (by decide))).trans
    (congrArg (fun t => (TRef.of (T := ⟨S_, .i32⟩) main_call26_v0).toBuf ((id) ((TRef.of (T := ⟨S_, .i32⟩) main_c_225).ofBuf t))) (e_main_c_225 V))
theorem e_main_call26_v1 : after (ops (F := F)) V (Proc.devRef .tc main_call26_v1) = val_main_call26_v1 (F := F) :=
  (tunary_eq later_1078 later_1079 (Nat.lt_of_lt_of_eq (by decide : 1078 < 1293) ops_len.symm) V (TRef.of (T := ⟨S_, .i32⟩) main_call26_v0) (TRef.of (T := ⟨S512x128, .i32⟩) main_call26_v1) (broadcastInDim S512x128 ![] bcast_S_S512x128) (hop := rfl) (hyi := (by decide)) (hxi := (by decide))).trans
    (congrArg (fun t => (TRef.of (T := ⟨S512x128, .i32⟩) main_call26_v1).toBuf (((broadcastInDim S512x128 ![] bcast_S_S512x128)) ((TRef.of (T := ⟨S_, .i32⟩) main_call26_v0).ofBuf t))) (e_main_call26_v0 V))
theorem e_main_call26_v2 : after (ops (F := F)) V (Proc.devRef .tc main_call26_v2) = val_main_call26_v2 (F := F) (a4 V) (a5 V) :=
  (tbinary_eq later_1079 later_1080 (Nat.lt_of_lt_of_eq (by decide : 1079 < 1293) ops_len.symm) V (TRef.of (T := ⟨S512x128, .i32⟩) main_call26_v1) (TRef.of (T := ⟨S512x128, .i32⟩) main_v706) (TRef.of (T := ⟨S512x128, .i32⟩) main_call26_v2) maxsi (hop := rfl) (hyi := (by decide)) (hai := (by decide)) (hbi := (by decide))).trans
    (by rw [e_main_call26_v1 V, e_main_v706 V]; rfl)
theorem e_main_call26_v3 : after (ops (F := F)) V (Proc.devRef .tc main_call26_v3) = val_main_call26_v3 (F := F) :=
  (tunary_eq later_1080 later_1081 (Nat.lt_of_lt_of_eq (by decide : 1080 < 1293) ops_len.symm) V (TRef.of (T := ⟨S_, .i32⟩) main_c_226) (TRef.of (T := ⟨S_, .i32⟩) main_call26_v3) id (hop := rfl) (hyi := (by decide)) (hxi := (by decide))).trans
    (congrArg (fun t => (TRef.of (T := ⟨S_, .i32⟩) main_call26_v3).toBuf ((id) ((TRef.of (T := ⟨S_, .i32⟩) main_c_226).ofBuf t))) (e_main_c_226 V))
theorem e_main_call26_v4 : after (ops (F := F)) V (Proc.devRef .tc main_call26_v4) = val_main_call26_v4 (F := F) :=
  (tunary_eq later_1081 later_1082 (Nat.lt_of_lt_of_eq (by decide : 1081 < 1293) ops_len.symm) V (TRef.of (T := ⟨S_, .i32⟩) main_call26_v3) (TRef.of (T := ⟨S512x128, .i32⟩) main_call26_v4) (broadcastInDim S512x128 ![] bcast_S_S512x128) (hop := rfl) (hyi := (by decide)) (hxi := (by decide))).trans
    (congrArg (fun t => (TRef.of (T := ⟨S512x128, .i32⟩) main_call26_v4).toBuf (((broadcastInDim S512x128 ![] bcast_S_S512x128)) ((TRef.of (T := ⟨S_, .i32⟩) main_call26_v3).ofBuf t))) (e_main_call26_v3 V))
theorem e_main_v718 : after (ops (F := F)) V (Proc.devRef .tc main_v718) = val_main_v718 (F := F) (a4 V) (a5 V) :=
  (tbinary_eq later_1082 later_1083 (Nat.lt_of_lt_of_eq (by decide : 1082 < 1293) ops_len.symm) V (TRef.of (T := ⟨S512x128, .i32⟩) main_call26_v4) (TRef.of (T := ⟨S512x128, .i32⟩) main_call26_v2) (TRef.of (T := ⟨S512x128, .i32⟩) main_v718) minsi (hop := rfl) (hyi := (by decide)) (hai := (by decide)) (hbi := (by decide))).trans
    (by rw [e_main_call26_v4 V, e_main_call26_v2 V]; rfl)
theorem e_main_c_227 : after (ops (F := F)) V (Proc.devRef .tc main_c_227) = val_main_c_227 (F := F) :=
  nullary_eq later_1083 later_1084 (Nat.lt_of_lt_of_eq (by decide : 1083 < 1293) ops_len.symm) V main_c_227 (constantI S_ 32 0#32) (hop := rfl) (hyi := (by decide))
theorem e_main_c_228 : after (ops (F := F)) V (Proc.devRef .tc main_c_228) = val_main_c_228 (F := F) :=
  nullary_eq later_1084 later_1085 (Nat.lt_of_lt_of_eq (by decide : 1084 < 1293) ops_len.symm) V main_c_228 (constantI S_ 32 31#32) (hop := rfl) (hyi := (by decide))
theorem e_main_call27_v0 : after (ops (F := F)) V (Proc.devRef .tc main_call27_v0) = val_main_call27_v0 (F := F) :=
  (tunary_eq later_1085 later_1086 (Nat.lt_of_lt_of_eq (by decide : 1085 < 1293) ops_len.symm) V (TRef.of (T := ⟨S_, .i32⟩) main_c_227) (TRef.of (T := ⟨S_, .i32⟩) main_call27_v0) id (hop := rfl) (hyi := (by decide)) (hxi := (by decide))).trans
    (congrArg (fun t => (TRef.of (T := ⟨S_, .i32⟩) main_call27_v0).toBuf ((id) ((TRef.of (T := ⟨S_, .i32⟩) main_c_227).ofBuf t))) (e_main_c_227 V))
theorem e_main_call27_v1 : after (ops (F := F)) V (Proc.devRef .tc main_call27_v1) = val_main_call27_v1 (F := F) :=
  (tunary_eq later_1086 later_1087 (Nat.lt_of_lt_of_eq (by decide : 1086 < 1293) ops_len.symm) V (TRef.of (T := ⟨S_, .i32⟩) main_call27_v0) (TRef.of (T := ⟨S512x128, .i32⟩) main_call27_v1) (broadcastInDim S512x128 ![] bcast_S_S512x128) (hop := rfl) (hyi := (by decide)) (hxi := (by decide))).trans
    (congrArg (fun t => (TRef.of (T := ⟨S512x128, .i32⟩) main_call27_v1).toBuf (((broadcastInDim S512x128 ![] bcast_S_S512x128)) ((TRef.of (T := ⟨S_, .i32⟩) main_call27_v0).ofBuf t))) (e_main_call27_v0 V))
theorem e_main_call27_v2 : after (ops (F := F)) V (Proc.devRef .tc main_call27_v2) = val_main_call27_v2 (F := F) (a4 V) (a5 V) :=
  (tbinary_eq later_1087 later_1088 (Nat.lt_of_lt_of_eq (by decide : 1087 < 1293) ops_len.symm) V (TRef.of (T := ⟨S512x128, .i32⟩) main_call27_v1) (TRef.of (T := ⟨S512x128, .i32⟩) main_v665) (TRef.of (T := ⟨S512x128, .i32⟩) main_call27_v2) maxsi (hop := rfl) (hyi := (by decide)) (hai := (by decide)) (hbi := (by decide))).trans
    (by rw [e_main_call27_v1 V, e_main_v665 V]; rfl)
theorem e_main_call27_v3 : after (ops (F := F)) V (Proc.devRef .tc main_call27_v3) = val_main_call27_v3 (F := F) :=
  (tunary_eq later_1088 later_1089 (Nat.lt_of_lt_of_eq (by decide : 1088 < 1293) ops_len.symm) V (TRef.of (T := ⟨S_, .i32⟩) main_c_228) (TRef.of (T := ⟨S_, .i32⟩) main_call27_v3) id (hop := rfl) (hyi := (by decide)) (hxi := (by decide))).trans
    (congrArg (fun t => (TRef.of (T := ⟨S_, .i32⟩) main_call27_v3).toBuf ((id) ((TRef.of (T := ⟨S_, .i32⟩) main_c_228).ofBuf t))) (e_main_c_228 V))
theorem e_main_call27_v4 : after (ops (F := F)) V (Proc.devRef .tc main_call27_v4) = val_main_call27_v4 (F := F) :=
  (tunary_eq later_1089 later_1090 (Nat.lt_of_lt_of_eq (by decide : 1089 < 1293) ops_len.symm) V (TRef.of (T := ⟨S_, .i32⟩) main_call27_v3) (TRef.of (T := ⟨S512x128, .i32⟩) main_call27_v4) (broadcastInDim S512x128 ![] bcast_S_S512x128) (hop := rfl) (hyi := (by decide)) (hxi := (by decide))).trans
    (congrArg (fun t => (TRef.of (T := ⟨S512x128, .i32⟩) main_call27_v4).toBuf (((broadcastInDim S512x128 ![] bcast_S_S512x128)) ((TRef.of (T := ⟨S_, .i32⟩) main_call27_v3).ofBuf t))) (e_main_call27_v3 V))
theorem e_main_v719 : after (ops (F := F)) V (Proc.devRef .tc main_v719) = val_main_v719 (F := F) (a4 V) (a5 V) :=
  (tbinary_eq later_1090 later_1091 (Nat.lt_of_lt_of_eq (by decide : 1090 < 1293) ops_len.symm) V (TRef.of (T := ⟨S512x128, .i32⟩) main_call27_v4) (TRef.of (T := ⟨S512x128, .i32⟩) main_call27_v2) (TRef.of (T := ⟨S512x128, .i32⟩) main_v719) minsi (hop := rfl) (hyi := (by decide)) (hai := (by decide)) (hbi := (by decide))).trans
    (by rw [e_main_call27_v4 V, e_main_call27_v2 V]; rfl)
theorem e_main_v720 : after (ops (F := F)) V (Proc.devRef .tc main_v720) = val_main_v720 (F := F) (a4 V) :=
  (unary_eq later_1091 later_1092 (Nat.lt_of_lt_of_eq (by decide : 1091 < 1293) ops_len.symm) V main_v2 main_v720 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_229 : after (ops (F := F)) V (Proc.devRef .tc main_c_229) = val_main_c_229 (F := F) :=
  nullary_eq later_1092 later_1093 (Nat.lt_of_lt_of_eq (by decide : 1092 < 1293) ops_len.symm) V main_c_229 (constantI S_ 32 0#32) (hop := rfl) (hyi := (by decide))
theorem e_main_v721 : after (ops (F := F)) V (Proc.devRef .tc main_v721) = val_main_v721 (F := F) :=
  (unary_eq later_1093 later_1094 (Nat.lt_of_lt_of_eq (by decide : 1093 < 1293) ops_len.symm) V main_c_229 main_v721 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_229 V))
theorem e_main_v722 : after (ops (F := F)) V (Proc.devRef .tc main_v722) = val_main_v722 (F := F) (a4 V) :=
  (binary_eq later_1094 later_1095 (Nat.lt_of_lt_of_eq (by decide : 1094 < 1293) ops_len.symm) V main_v720 main_v721 main_v722 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v720 V) (e_main_v721 V))
theorem e_main_c_230 : after (ops (F := F)) V (Proc.devRef .tc main_c_230) = val_main_c_230 (F := F) :=
  nullary_eq later_1095 later_1096 (Nat.lt_of_lt_of_eq (by decide : 1095 < 1293) ops_len.symm) V main_c_230 (constantI S_ 32 2#32) (hop := rfl) (hyi := (by decide))
theorem e_main_v723 : after (ops (F := F)) V (Proc.devRef .tc main_v723) = val_main_v723 (F := F) :=
  (unary_eq later_1096 later_1097 (Nat.lt_of_lt_of_eq (by decide : 1096 < 1293) ops_len.symm) V main_c_230 main_v723 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_230 V))
theorem e_main_v724 : after (ops (F := F)) V (Proc.devRef .tc main_v724) = val_main_v724 (F := F) (a4 V) :=
  (binary_eq later_1097 later_1098 (Nat.lt_of_lt_of_eq (by decide : 1097 < 1293) ops_len.symm) V main_v720 main_v723 main_v724 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v720 V) (e_main_v723 V))
theorem e_main_v725 : after (ops (F := F)) V (Proc.devRef .tc main_v725) = val_main_v725 (F := F) (a4 V) :=
  (ternary_eq later_1098 later_1099 (Nat.lt_of_lt_of_eq (by decide : 1098 < 1293) ops_len.symm) V main_v722 main_v724 main_v720 main_v725 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v722 V) (e_main_v724 V) (e_main_v720 V))
theorem e_main_c_231 : after (ops (F := F)) V (Proc.devRef .tc main_c_231) = val_main_c_231 (F := F) :=
  nullary_eq later_1099 later_1100 (Nat.lt_of_lt_of_eq (by decide : 1099 < 1293) ops_len.symm) V main_c_231 (constantI S_ 32 0#32) (hop := rfl) (hyi := (by decide))
theorem e_main_v726 : after (ops (F := F)) V (Proc.devRef .tc main_v726) = val_main_v726 (F := F) :=
  (unary_eq later_1100 later_1101 (Nat.lt_of_lt_of_eq (by decide : 1100 < 1293) ops_len.symm) V main_c_231 main_v726 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_231 V))
theorem e_main_v727 : after (ops (F := F)) V (Proc.devRef .tc main_v727) = val_main_v727 (F := F) (a4 V) (a5 V) :=
  (binary_eq later_1101 later_1102 (Nat.lt_of_lt_of_eq (by decide : 1101 < 1293) ops_len.symm) V main_v719 main_v726 main_v727 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v719 V) (e_main_v726 V))
theorem e_main_c_232 : after (ops (F := F)) V (Proc.devRef .tc main_c_232) = val_main_c_232 (F := F) :=
  nullary_eq later_1102 later_1103 (Nat.lt_of_lt_of_eq (by decide : 1102 < 1293) ops_len.symm) V main_c_232 (constantI S_ 32 32#32) (hop := rfl) (hyi := (by decide))
theorem e_main_v728 : after (ops (F := F)) V (Proc.devRef .tc main_v728) = val_main_v728 (F := F) :=
  (unary_eq later_1103 later_1104 (Nat.lt_of_lt_of_eq (by decide : 1103 < 1293) ops_len.symm) V main_c_232 main_v728 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_232 V))
theorem e_main_v729 : after (ops (F := F)) V (Proc.devRef .tc main_v729) = val_main_v729 (F := F) (a4 V) (a5 V) :=
  (binary_eq later_1104 later_1105 (Nat.lt_of_lt_of_eq (by decide : 1104 < 1293) ops_len.symm) V main_v719 main_v728 main_v729 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v719 V) (e_main_v728 V))
theorem e_main_v730 : after (ops (F := F)) V (Proc.devRef .tc main_v730) = val_main_v730 (F := F) (a4 V) (a5 V) :=
  (ternary_eq later_1105 later_1106 (Nat.lt_of_lt_of_eq (by decide : 1105 < 1293) ops_len.symm) V main_v727 main_v729 main_v719 main_v730 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v727 V) (e_main_v729 V) (e_main_v719 V))
theorem e_main_c_233 : after (ops (F := F)) V (Proc.devRef .tc main_c_233) = val_main_c_233 (F := F) :=
  nullary_eq later_1106 later_1107 (Nat.lt_of_lt_of_eq (by decide : 1106 < 1293) ops_len.symm) V main_c_233 (constantI S_ 32 0#32) (hop := rfl) (hyi := (by decide))
theorem e_main_v731 : after (ops (F := F)) V (Proc.devRef .tc main_v731) = val_main_v731 (F := F) :=
  (unary_eq later_1107 later_1108 (Nat.lt_of_lt_of_eq (by decide : 1107 < 1293) ops_len.symm) V main_c_233 main_v731 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_233 V))
theorem e_main_v732 : after (ops (F := F)) V (Proc.devRef .tc main_v732) = val_main_v732 (F := F) (a4 V) (a5 V) :=
  (binary_eq later_1108 later_1109 (Nat.lt_of_lt_of_eq (by decide : 1108 < 1293) ops_len.symm) V main_v718 main_v731 main_v732 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v718 V) (e_main_v731 V))
theorem e_main_c_234 : after (ops (F := F)) V (Proc.devRef .tc main_c_234) = val_main_c_234 (F := F) :=
  nullary_eq later_1109 later_1110 (Nat.lt_of_lt_of_eq (by decide : 1109 < 1293) ops_len.symm) V main_c_234 (constantI S_ 32 32#32) (hop := rfl) (hyi := (by decide))
theorem e_main_v733 : after (ops (F := F)) V (Proc.devRef .tc main_v733) = val_main_v733 (F := F) :=
  (unary_eq later_1110 later_1111 (Nat.lt_of_lt_of_eq (by decide : 1110 < 1293) ops_len.symm) V main_c_234 main_v733 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_234 V))
theorem e_main_v734 : after (ops (F := F)) V (Proc.devRef .tc main_v734) = val_main_v734 (F := F) (a4 V) (a5 V) :=
  (binary_eq later_1111 later_1112 (Nat.lt_of_lt_of_eq (by decide : 1111 < 1293) ops_len.symm) V main_v718 main_v733 main_v734 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v718 V) (e_main_v733 V))
theorem e_main_v735 : after (ops (F := F)) V (Proc.devRef .tc main_v735) = val_main_v735 (F := F) (a4 V) (a5 V) :=
  (ternary_eq later_1112 later_1113 (Nat.lt_of_lt_of_eq (by decide : 1112 < 1293) ops_len.symm) V main_v732 main_v734 main_v718 main_v735 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v732 V) (e_main_v734 V) (e_main_v718 V))
theorem e_main_v736 : after (ops (F := F)) V (Proc.devRef .tc main_v736) = val_main_v736 (F := F) (a4 V) :=
  (unary_eq later_1113 later_1114 (Nat.lt_of_lt_of_eq (by decide : 1113 < 1293) ops_len.symm) V main_v725 main_v736 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v725 V))
theorem e_main_v737 : after (ops (F := F)) V (Proc.devRef .tc main_v737) = val_main_v737 (F := F) (a4 V) :=
  (unary_eq later_1114 later_1115 (Nat.lt_of_lt_of_eq (by decide : 1114 < 1293) ops_len.symm) V main_v736 main_v737 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v736 V))
theorem e_main_v738 : after (ops (F := F)) V (Proc.devRef .tc main_v738) = val_main_v738 (F := F) (a4 V) (a5 V) :=
  (unary_eq later_1115 later_1116 (Nat.lt_of_lt_of_eq (by decide : 1115 < 1293) ops_len.symm) V main_v730 main_v738 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v730 V))
theorem e_main_v739 : after (ops (F := F)) V (Proc.devRef .tc main_v739) = val_main_v739 (F := F) (a4 V) (a5 V) :=
  (unary_eq later_1116 later_1117 (Nat.lt_of_lt_of_eq (by decide : 1116 < 1293) ops_len.symm) V main_v735 main_v739 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v735 V))
theorem e_main_v740 : after (ops (F := F)) V (Proc.devRef .tc main_v740) = val_main_v740 (F := F) (a4 V) (a5 V) :=
  (nary_eq later_1117 later_1118 (Nat.lt_of_lt_of_eq (by decide : 1117 < 1293) ops_len.symm) V ![main_v737, main_v738, main_v739] main_v740 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v737)⟩, ⟨S512x128x1, after (ops (F := F)) V (Proc.devRef .tc main_v738)⟩, ⟨S512x128x1, after (ops (F := F)) V (Proc.devRef .tc main_v739)⟩] concatenates_S512x128x1_S512x128x1_S512x128x1_S512x128x3_d2 = _
    rw [e_main_v737 V, e_main_v738 V, e_main_v739 V]; rfl)
theorem e_main_v741 : after (ops (F := F)) V (Proc.devRef .tc main_v741) = val_main_v741 (F := F) (a3 V) (a4 V) (a5 V) :=
  (binary_eq later_1118 later_1119 (Nat.lt_of_lt_of_eq (by decide : 1118 < 1293) ops_len.symm) V main_arg3 main_v740 main_v741 ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (e_main_arg3 V) (e_main_v740 V))
theorem e_main_v742 : after (ops (F := F)) V (Proc.devRef .tc main_v742) = val_main_v742 (F := F) (a4 V) (a5 V) :=
  (unary_eq later_1119 later_1120 (Nat.lt_of_lt_of_eq (by decide : 1119 < 1293) ops_len.symm) V main_v717 main_v742 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v717 V))
theorem e_main_v743 : after (ops (F := F)) V (Proc.devRef .tc main_v743) = val_main_v743 (F := F) (a4 V) (a5 V) :=
  (unary_eq later_1120 later_1121 (Nat.lt_of_lt_of_eq (by decide : 1120 < 1293) ops_len.symm) V main_v742 main_v743 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v742 V))
theorem e_main_v744 : after (ops (F := F)) V (Proc.devRef .tc main_v744) = val_main_v744 (F := F) (a4 V) (a5 V) :=
  (unary_eq later_1121 later_1122 (Nat.lt_of_lt_of_eq (by decide : 1121 < 1293) ops_len.symm) V main_v743 main_v744 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v743 V))
theorem e_main_v745 : after (ops (F := F)) V (Proc.devRef .tc main_v745) = val_main_v745 (F := F) (a3 V) (a4 V) (a5 V) :=
  (binary_eq later_1122 later_1123 (Nat.lt_of_lt_of_eq (by decide : 1122 < 1293) ops_len.symm) V main_v741 main_v744 main_v745 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v741 V) (e_main_v744 V))
theorem e_main_c_235 : after (ops (F := F)) V (Proc.devRef .tc main_c_235) = val_main_c_235 (F := F) :=
  nullary_eq later_1123 later_1124 (Nat.lt_of_lt_of_eq (by decide : 1123 < 1293) ops_len.symm) V main_c_235 (constantI S_ 32 1#32) (hop := rfl) (hyi := (by decide))
theorem e_main_v746 : after (ops (F := F)) V (Proc.devRef .tc main_v746) = val_main_v746 (F := F) :=
  (unary_eq later_1124 later_1125 (Nat.lt_of_lt_of_eq (by decide : 1124 < 1293) ops_len.symm) V main_c_235 main_v746 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_235 V))
theorem e_main_v747 : after (ops (F := F)) V (Proc.devRef .tc main_v747) = val_main_v747 (F := F) (a4 V) (a5 V) :=
  (binary_eq later_1125 later_1126 (Nat.lt_of_lt_of_eq (by decide : 1125 < 1293) ops_len.symm) V main_v665 main_v746 main_v747 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v665 V) (e_main_v746 V))
theorem e_main_c_236 : after (ops (F := F)) V (Proc.devRef .tc main_c_236) = val_main_c_236 (F := F) :=
  nullary_eq later_1126 later_1127 (Nat.lt_of_lt_of_eq (by decide : 1126 < 1293) ops_len.symm) V main_c_236 (constantI S_ 32 0#32) (hop := rfl) (hyi := (by decide))
theorem e_main_v748 : after (ops (F := F)) V (Proc.devRef .tc main_v748) = val_main_v748 (F := F) :=
  (unary_eq later_1127 later_1128 (Nat.lt_of_lt_of_eq (by decide : 1127 < 1293) ops_len.symm) V main_c_236 main_v748 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_236 V))
theorem e_main_v749 : after (ops (F := F)) V (Proc.devRef .tc main_v749) = val_main_v749 (F := F) (a4 V) (a5 V) :=
  (binary_eq later_1128 later_1129 (Nat.lt_of_lt_of_eq (by decide : 1128 < 1293) ops_len.symm) V main_v664 main_v748 main_v749 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v664 V) (e_main_v748 V))
theorem e_main_c_237 : after (ops (F := F)) V (Proc.devRef .tc main_c_237) = val_main_c_237 (F := F) :=
  nullary_eq later_1129 later_1130 (Nat.lt_of_lt_of_eq (by decide : 1129 < 1293) ops_len.symm) V main_c_237 (constantI S_ 32 32#32) (hop := rfl) (hyi := (by decide))
theorem e_main_v750 : after (ops (F := F)) V (Proc.devRef .tc main_v750) = val_main_v750 (F := F) :=
  (unary_eq later_1130 later_1131 (Nat.lt_of_lt_of_eq (by decide : 1130 < 1293) ops_len.symm) V main_c_237 main_v750 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_237 V))
theorem e_main_v751 : after (ops (F := F)) V (Proc.devRef .tc main_v751) = val_main_v751 (F := F) (a4 V) (a5 V) :=
  (binary_eq later_1131 later_1132 (Nat.lt_of_lt_of_eq (by decide : 1131 < 1293) ops_len.symm) V main_v664 main_v750 main_v751 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v664 V) (e_main_v750 V))
theorem e_main_v752 : after (ops (F := F)) V (Proc.devRef .tc main_v752) = val_main_v752 (F := F) (a4 V) (a5 V) :=
  (binary_eq later_1132 later_1133 (Nat.lt_of_lt_of_eq (by decide : 1132 < 1293) ops_len.symm) V main_v749 main_v751 main_v752 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v749 V) (e_main_v751 V))
theorem e_main_c_238 : after (ops (F := F)) V (Proc.devRef .tc main_c_238) = val_main_c_238 (F := F) :=
  nullary_eq later_1133 later_1134 (Nat.lt_of_lt_of_eq (by decide : 1133 < 1293) ops_len.symm) V main_c_238 (constantI S_ 32 0#32) (hop := rfl) (hyi := (by decide))
theorem e_main_v753 : after (ops (F := F)) V (Proc.devRef .tc main_v753) = val_main_v753 (F := F) :=
  (unary_eq later_1134 later_1135 (Nat.lt_of_lt_of_eq (by decide : 1134 < 1293) ops_len.symm) V main_c_238 main_v753 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_238 V))
theorem e_main_v754 : after (ops (F := F)) V (Proc.devRef .tc main_v754) = val_main_v754 (F := F) (a4 V) (a5 V) :=
  (binary_eq later_1135 later_1136 (Nat.lt_of_lt_of_eq (by decide : 1135 < 1293) ops_len.symm) V main_v747 main_v753 main_v754 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v747 V) (e_main_v753 V))
theorem e_main_v755 : after (ops (F := F)) V (Proc.devRef .tc main_v755) = val_main_v755 (F := F) (a4 V) (a5 V) :=
  (binary_eq later_1136 later_1137 (Nat.lt_of_lt_of_eq (by decide : 1136 < 1293) ops_len.symm) V main_v752 main_v754 main_v755 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v752 V) (e_main_v754 V))
theorem e_main_c_239 : after (ops (F := F)) V (Proc.devRef .tc main_c_239) = val_main_c_239 (F := F) :=
  nullary_eq later_1137 later_1138 (Nat.lt_of_lt_of_eq (by decide : 1137 < 1293) ops_len.symm) V main_c_239 (constantI S_ 32 32#32) (hop := rfl) (hyi := (by decide))
theorem e_main_v756 : after (ops (F := F)) V (Proc.devRef .tc main_v756) = val_main_v756 (F := F) :=
  (unary_eq later_1138 later_1139 (Nat.lt_of_lt_of_eq (by decide : 1138 < 1293) ops_len.symm) V main_c_239 main_v756 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_239 V))
theorem e_main_v757 : after (ops (F := F)) V (Proc.devRef .tc main_v757) = val_main_v757 (F := F) (a4 V) (a5 V) :=
  (binary_eq later_1139 later_1140 (Nat.lt_of_lt_of_eq (by decide : 1139 < 1293) ops_len.symm) V main_v747 main_v756 main_v757 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v747 V) (e_main_v756 V))
theorem e_main_v758 : after (ops (F := F)) V (Proc.devRef .tc main_v758) = val_main_v758 (F := F) (a4 V) (a5 V) :=
  (binary_eq later_1140 later_1141 (Nat.lt_of_lt_of_eq (by decide : 1140 < 1293) ops_len.symm) V main_v755 main_v757 main_v758 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v755 V) (e_main_v757 V))
theorem e_main_c_240 : after (ops (F := F)) V (Proc.devRef .tc main_c_240) = val_main_c_240 (F := F) :=
  nullary_eq later_1141 later_1142 (Nat.lt_of_lt_of_eq (by decide : 1141 < 1293) ops_len.symm) V main_c_240 (constantI S_ 32 0#32) (hop := rfl) (hyi := (by decide))
theorem e_main_c_241 : after (ops (F := F)) V (Proc.devRef .tc main_c_241) = val_main_c_241 (F := F) :=
  nullary_eq later_1142 later_1143 (Nat.lt_of_lt_of_eq (by decide : 1142 < 1293) ops_len.symm) V main_c_241 (constantI S_ 32 31#32) (hop := rfl) (hyi := (by decide))
theorem e_main_call28_v0 : after (ops (F := F)) V (Proc.devRef .tc main_call28_v0) = val_main_call28_v0 (F := F) :=
  (tunary_eq later_1143 later_1144 (Nat.lt_of_lt_of_eq (by decide : 1143 < 1293) ops_len.symm) V (TRef.of (T := ⟨S_, .i32⟩) main_c_240) (TRef.of (T := ⟨S_, .i32⟩) main_call28_v0) id (hop := rfl) (hyi := (by decide)) (hxi := (by decide))).trans
    (congrArg (fun t => (TRef.of (T := ⟨S_, .i32⟩) main_call28_v0).toBuf ((id) ((TRef.of (T := ⟨S_, .i32⟩) main_c_240).ofBuf t))) (e_main_c_240 V))
theorem e_main_call28_v1 : after (ops (F := F)) V (Proc.devRef .tc main_call28_v1) = val_main_call28_v1 (F := F) :=
  (tunary_eq later_1144 later_1145 (Nat.lt_of_lt_of_eq (by decide : 1144 < 1293) ops_len.symm) V (TRef.of (T := ⟨S_, .i32⟩) main_call28_v0) (TRef.of (T := ⟨S512x128, .i32⟩) main_call28_v1) (broadcastInDim S512x128 ![] bcast_S_S512x128) (hop := rfl) (hyi := (by decide)) (hxi := (by decide))).trans
    (congrArg (fun t => (TRef.of (T := ⟨S512x128, .i32⟩) main_call28_v1).toBuf (((broadcastInDim S512x128 ![] bcast_S_S512x128)) ((TRef.of (T := ⟨S_, .i32⟩) main_call28_v0).ofBuf t))) (e_main_call28_v0 V))
theorem e_main_call28_v2 : after (ops (F := F)) V (Proc.devRef .tc main_call28_v2) = val_main_call28_v2 (F := F) (a4 V) (a5 V) :=
  (tbinary_eq later_1145 later_1146 (Nat.lt_of_lt_of_eq (by decide : 1145 < 1293) ops_len.symm) V (TRef.of (T := ⟨S512x128, .i32⟩) main_call28_v1) (TRef.of (T := ⟨S512x128, .i32⟩) main_v664) (TRef.of (T := ⟨S512x128, .i32⟩) main_call28_v2) maxsi (hop := rfl) (hyi := (by decide)) (hai := (by decide)) (hbi := (by decide))).trans
    (by rw [e_main_call28_v1 V, e_main_v664 V]; rfl)
theorem e_main_call28_v3 : after (ops (F := F)) V (Proc.devRef .tc main_call28_v3) = val_main_call28_v3 (F := F) :=
  (tunary_eq later_1146 later_1147 (Nat.lt_of_lt_of_eq (by decide : 1146 < 1293) ops_len.symm) V (TRef.of (T := ⟨S_, .i32⟩) main_c_241) (TRef.of (T := ⟨S_, .i32⟩) main_call28_v3) id (hop := rfl) (hyi := (by decide)) (hxi := (by decide))).trans
    (congrArg (fun t => (TRef.of (T := ⟨S_, .i32⟩) main_call28_v3).toBuf ((id) ((TRef.of (T := ⟨S_, .i32⟩) main_c_241).ofBuf t))) (e_main_c_241 V))
theorem e_main_call28_v4 : after (ops (F := F)) V (Proc.devRef .tc main_call28_v4) = val_main_call28_v4 (F := F) :=
  (tunary_eq later_1147 later_1148 (Nat.lt_of_lt_of_eq (by decide : 1147 < 1293) ops_len.symm) V (TRef.of (T := ⟨S_, .i32⟩) main_call28_v3) (TRef.of (T := ⟨S512x128, .i32⟩) main_call28_v4) (broadcastInDim S512x128 ![] bcast_S_S512x128) (hop := rfl) (hyi := (by decide)) (hxi := (by decide))).trans
    (congrArg (fun t => (TRef.of (T := ⟨S512x128, .i32⟩) main_call28_v4).toBuf (((broadcastInDim S512x128 ![] bcast_S_S512x128)) ((TRef.of (T := ⟨S_, .i32⟩) main_call28_v3).ofBuf t))) (e_main_call28_v3 V))
theorem e_main_v759 : after (ops (F := F)) V (Proc.devRef .tc main_v759) = val_main_v759 (F := F) (a4 V) (a5 V) :=
  (tbinary_eq later_1148 later_1149 (Nat.lt_of_lt_of_eq (by decide : 1148 < 1293) ops_len.symm) V (TRef.of (T := ⟨S512x128, .i32⟩) main_call28_v4) (TRef.of (T := ⟨S512x128, .i32⟩) main_call28_v2) (TRef.of (T := ⟨S512x128, .i32⟩) main_v759) minsi (hop := rfl) (hyi := (by decide)) (hai := (by decide)) (hbi := (by decide))).trans
    (by rw [e_main_call28_v4 V, e_main_call28_v2 V]; rfl)
theorem e_main_c_242 : after (ops (F := F)) V (Proc.devRef .tc main_c_242) = val_main_c_242 (F := F) :=
  nullary_eq later_1149 later_1150 (Nat.lt_of_lt_of_eq (by decide : 1149 < 1293) ops_len.symm) V main_c_242 (constantI S_ 32 0#32) (hop := rfl) (hyi := (by decide))
theorem e_main_c_243 : after (ops (F := F)) V (Proc.devRef .tc main_c_243) = val_main_c_243 (F := F) :=
  nullary_eq later_1150 later_1151 (Nat.lt_of_lt_of_eq (by decide : 1150 < 1293) ops_len.symm) V main_c_243 (constantI S_ 32 31#32) (hop := rfl) (hyi := (by decide))
theorem e_main_call29_v0 : after (ops (F := F)) V (Proc.devRef .tc main_call29_v0) = val_main_call29_v0 (F := F) :=
  (tunary_eq later_1151 later_1152 (Nat.lt_of_lt_of_eq (by decide : 1151 < 1293) ops_len.symm) V (TRef.of (T := ⟨S_, .i32⟩) main_c_242) (TRef.of (T := ⟨S_, .i32⟩) main_call29_v0) id (hop := rfl) (hyi := (by decide)) (hxi := (by decide))).trans
    (congrArg (fun t => (TRef.of (T := ⟨S_, .i32⟩) main_call29_v0).toBuf ((id) ((TRef.of (T := ⟨S_, .i32⟩) main_c_242).ofBuf t))) (e_main_c_242 V))
theorem e_main_call29_v1 : after (ops (F := F)) V (Proc.devRef .tc main_call29_v1) = val_main_call29_v1 (F := F) :=
  (tunary_eq later_1152 later_1153 (Nat.lt_of_lt_of_eq (by decide : 1152 < 1293) ops_len.symm) V (TRef.of (T := ⟨S_, .i32⟩) main_call29_v0) (TRef.of (T := ⟨S512x128, .i32⟩) main_call29_v1) (broadcastInDim S512x128 ![] bcast_S_S512x128) (hop := rfl) (hyi := (by decide)) (hxi := (by decide))).trans
    (congrArg (fun t => (TRef.of (T := ⟨S512x128, .i32⟩) main_call29_v1).toBuf (((broadcastInDim S512x128 ![] bcast_S_S512x128)) ((TRef.of (T := ⟨S_, .i32⟩) main_call29_v0).ofBuf t))) (e_main_call29_v0 V))
theorem e_main_call29_v2 : after (ops (F := F)) V (Proc.devRef .tc main_call29_v2) = val_main_call29_v2 (F := F) (a4 V) (a5 V) :=
  (tbinary_eq later_1153 later_1154 (Nat.lt_of_lt_of_eq (by decide : 1153 < 1293) ops_len.symm) V (TRef.of (T := ⟨S512x128, .i32⟩) main_call29_v1) (TRef.of (T := ⟨S512x128, .i32⟩) main_v747) (TRef.of (T := ⟨S512x128, .i32⟩) main_call29_v2) maxsi (hop := rfl) (hyi := (by decide)) (hai := (by decide)) (hbi := (by decide))).trans
    (by rw [e_main_call29_v1 V, e_main_v747 V]; rfl)
theorem e_main_call29_v3 : after (ops (F := F)) V (Proc.devRef .tc main_call29_v3) = val_main_call29_v3 (F := F) :=
  (tunary_eq later_1154 later_1155 (Nat.lt_of_lt_of_eq (by decide : 1154 < 1293) ops_len.symm) V (TRef.of (T := ⟨S_, .i32⟩) main_c_243) (TRef.of (T := ⟨S_, .i32⟩) main_call29_v3) id (hop := rfl) (hyi := (by decide)) (hxi := (by decide))).trans
    (congrArg (fun t => (TRef.of (T := ⟨S_, .i32⟩) main_call29_v3).toBuf ((id) ((TRef.of (T := ⟨S_, .i32⟩) main_c_243).ofBuf t))) (e_main_c_243 V))
theorem e_main_call29_v4 : after (ops (F := F)) V (Proc.devRef .tc main_call29_v4) = val_main_call29_v4 (F := F) :=
  (tunary_eq later_1155 later_1156 (Nat.lt_of_lt_of_eq (by decide : 1155 < 1293) ops_len.symm) V (TRef.of (T := ⟨S_, .i32⟩) main_call29_v3) (TRef.of (T := ⟨S512x128, .i32⟩) main_call29_v4) (broadcastInDim S512x128 ![] bcast_S_S512x128) (hop := rfl) (hyi := (by decide)) (hxi := (by decide))).trans
    (congrArg (fun t => (TRef.of (T := ⟨S512x128, .i32⟩) main_call29_v4).toBuf (((broadcastInDim S512x128 ![] bcast_S_S512x128)) ((TRef.of (T := ⟨S_, .i32⟩) main_call29_v3).ofBuf t))) (e_main_call29_v3 V))
theorem e_main_v760 : after (ops (F := F)) V (Proc.devRef .tc main_v760) = val_main_v760 (F := F) (a4 V) (a5 V) :=
  (tbinary_eq later_1156 later_1157 (Nat.lt_of_lt_of_eq (by decide : 1156 < 1293) ops_len.symm) V (TRef.of (T := ⟨S512x128, .i32⟩) main_call29_v4) (TRef.of (T := ⟨S512x128, .i32⟩) main_call29_v2) (TRef.of (T := ⟨S512x128, .i32⟩) main_v760) minsi (hop := rfl) (hyi := (by decide)) (hai := (by decide)) (hbi := (by decide))).trans
    (by rw [e_main_call29_v4 V, e_main_call29_v2 V]; rfl)
theorem e_main_v761 : after (ops (F := F)) V (Proc.devRef .tc main_v761) = val_main_v761 (F := F) (a4 V) :=
  (unary_eq later_1157 later_1158 (Nat.lt_of_lt_of_eq (by decide : 1157 < 1293) ops_len.symm) V main_v2 main_v761 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_244 : after (ops (F := F)) V (Proc.devRef .tc main_c_244) = val_main_c_244 (F := F) :=
  nullary_eq later_1158 later_1159 (Nat.lt_of_lt_of_eq (by decide : 1158 < 1293) ops_len.symm) V main_c_244 (constantI S_ 32 0#32) (hop := rfl) (hyi := (by decide))
theorem e_main_v762 : after (ops (F := F)) V (Proc.devRef .tc main_v762) = val_main_v762 (F := F) :=
  (unary_eq later_1159 later_1160 (Nat.lt_of_lt_of_eq (by decide : 1159 < 1293) ops_len.symm) V main_c_244 main_v762 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_244 V))
theorem e_main_v763 : after (ops (F := F)) V (Proc.devRef .tc main_v763) = val_main_v763 (F := F) (a4 V) :=
  (binary_eq later_1160 later_1161 (Nat.lt_of_lt_of_eq (by decide : 1160 < 1293) ops_len.symm) V main_v761 main_v762 main_v763 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v761 V) (e_main_v762 V))
theorem e_main_c_245 : after (ops (F := F)) V (Proc.devRef .tc main_c_245) = val_main_c_245 (F := F) :=
  nullary_eq later_1161 later_1162 (Nat.lt_of_lt_of_eq (by decide : 1161 < 1293) ops_len.symm) V main_c_245 (constantI S_ 32 2#32) (hop := rfl) (hyi := (by decide))
theorem e_main_v764 : after (ops (F := F)) V (Proc.devRef .tc main_v764) = val_main_v764 (F := F) :=
  (unary_eq later_1162 later_1163 (Nat.lt_of_lt_of_eq (by decide : 1162 < 1293) ops_len.symm) V main_c_245 main_v764 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_245 V))
theorem e_main_v765 : after (ops (F := F)) V (Proc.devRef .tc main_v765) = val_main_v765 (F := F) (a4 V) :=
  (binary_eq later_1163 later_1164 (Nat.lt_of_lt_of_eq (by decide : 1163 < 1293) ops_len.symm) V main_v761 main_v764 main_v765 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v761 V) (e_main_v764 V))
theorem e_main_v766 : after (ops (F := F)) V (Proc.devRef .tc main_v766) = val_main_v766 (F := F) (a4 V) :=
  (ternary_eq later_1164 later_1165 (Nat.lt_of_lt_of_eq (by decide : 1164 < 1293) ops_len.symm) V main_v763 main_v765 main_v761 main_v766 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v763 V) (e_main_v765 V) (e_main_v761 V))
theorem e_main_c_246 : after (ops (F := F)) V (Proc.devRef .tc main_c_246) = val_main_c_246 (F := F) :=
  nullary_eq later_1165 later_1166 (Nat.lt_of_lt_of_eq (by decide : 1165 < 1293) ops_len.symm) V main_c_246 (constantI S_ 32 0#32) (hop := rfl) (hyi := (by decide))
theorem e_main_v767 : after (ops (F := F)) V (Proc.devRef .tc main_v767) = val_main_v767 (F := F) :=
  (unary_eq later_1166 later_1167 (Nat.lt_of_lt_of_eq (by decide : 1166 < 1293) ops_len.symm) V main_c_246 main_v767 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_246 V))
theorem e_main_v768 : after (ops (F := F)) V (Proc.devRef .tc main_v768) = val_main_v768 (F := F) (a4 V) (a5 V) :=
  (binary_eq later_1167 later_1168 (Nat.lt_of_lt_of_eq (by decide : 1167 < 1293) ops_len.symm) V main_v760 main_v767 main_v768 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v760 V) (e_main_v767 V))
theorem e_main_c_247 : after (ops (F := F)) V (Proc.devRef .tc main_c_247) = val_main_c_247 (F := F) :=
  nullary_eq later_1168 later_1169 (Nat.lt_of_lt_of_eq (by decide : 1168 < 1293) ops_len.symm) V main_c_247 (constantI S_ 32 32#32) (hop := rfl) (hyi := (by decide))
theorem e_main_v769 : after (ops (F := F)) V (Proc.devRef .tc main_v769) = val_main_v769 (F := F) :=
  (unary_eq later_1169 later_1170 (Nat.lt_of_lt_of_eq (by decide : 1169 < 1293) ops_len.symm) V main_c_247 main_v769 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_247 V))
theorem e_main_v770 : after (ops (F := F)) V (Proc.devRef .tc main_v770) = val_main_v770 (F := F) (a4 V) (a5 V) :=
  (binary_eq later_1170 later_1171 (Nat.lt_of_lt_of_eq (by decide : 1170 < 1293) ops_len.symm) V main_v760 main_v769 main_v770 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v760 V) (e_main_v769 V))
theorem e_main_v771 : after (ops (F := F)) V (Proc.devRef .tc main_v771) = val_main_v771 (F := F) (a4 V) (a5 V) :=
  (ternary_eq later_1171 later_1172 (Nat.lt_of_lt_of_eq (by decide : 1171 < 1293) ops_len.symm) V main_v768 main_v770 main_v760 main_v771 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v768 V) (e_main_v770 V) (e_main_v760 V))
theorem e_main_c_248 : after (ops (F := F)) V (Proc.devRef .tc main_c_248) = val_main_c_248 (F := F) :=
  nullary_eq later_1172 later_1173 (Nat.lt_of_lt_of_eq (by decide : 1172 < 1293) ops_len.symm) V main_c_248 (constantI S_ 32 0#32) (hop := rfl) (hyi := (by decide))
theorem e_main_v772 : after (ops (F := F)) V (Proc.devRef .tc main_v772) = val_main_v772 (F := F) :=
  (unary_eq later_1173 later_1174 (Nat.lt_of_lt_of_eq (by decide : 1173 < 1293) ops_len.symm) V main_c_248 main_v772 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_248 V))
theorem e_main_v773 : after (ops (F := F)) V (Proc.devRef .tc main_v773) = val_main_v773 (F := F) (a4 V) (a5 V) :=
  (binary_eq later_1174 later_1175 (Nat.lt_of_lt_of_eq (by decide : 1174 < 1293) ops_len.symm) V main_v759 main_v772 main_v773 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v759 V) (e_main_v772 V))
theorem e_main_c_249 : after (ops (F := F)) V (Proc.devRef .tc main_c_249) = val_main_c_249 (F := F) :=
  nullary_eq later_1175 later_1176 (Nat.lt_of_lt_of_eq (by decide : 1175 < 1293) ops_len.symm) V main_c_249 (constantI S_ 32 32#32) (hop := rfl) (hyi := (by decide))
theorem e_main_v774 : after (ops (F := F)) V (Proc.devRef .tc main_v774) = val_main_v774 (F := F) :=
  (unary_eq later_1176 later_1177 (Nat.lt_of_lt_of_eq (by decide : 1176 < 1293) ops_len.symm) V main_c_249 main_v774 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_249 V))
theorem e_main_v775 : after (ops (F := F)) V (Proc.devRef .tc main_v775) = val_main_v775 (F := F) (a4 V) (a5 V) :=
  (binary_eq later_1177 later_1178 (Nat.lt_of_lt_of_eq (by decide : 1177 < 1293) ops_len.symm) V main_v759 main_v774 main_v775 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v759 V) (e_main_v774 V))
theorem e_main_v776 : after (ops (F := F)) V (Proc.devRef .tc main_v776) = val_main_v776 (F := F) (a4 V) (a5 V) :=
  (ternary_eq later_1178 later_1179 (Nat.lt_of_lt_of_eq (by decide : 1178 < 1293) ops_len.symm) V main_v773 main_v775 main_v759 main_v776 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v773 V) (e_main_v775 V) (e_main_v759 V))
theorem e_main_v777 : after (ops (F := F)) V (Proc.devRef .tc main_v777) = val_main_v777 (F := F) (a4 V) :=
  (unary_eq later_1179 later_1180 (Nat.lt_of_lt_of_eq (by decide : 1179 < 1293) ops_len.symm) V main_v766 main_v777 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v766 V))
theorem e_main_v778 : after (ops (F := F)) V (Proc.devRef .tc main_v778) = val_main_v778 (F := F) (a4 V) :=
  (unary_eq later_1180 later_1181 (Nat.lt_of_lt_of_eq (by decide : 1180 < 1293) ops_len.symm) V main_v777 main_v778 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v777 V))
theorem e_main_v779 : after (ops (F := F)) V (Proc.devRef .tc main_v779) = val_main_v779 (F := F) (a4 V) (a5 V) :=
  (unary_eq later_1181 later_1182 (Nat.lt_of_lt_of_eq (by decide : 1181 < 1293) ops_len.symm) V main_v771 main_v779 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v771 V))
theorem e_main_v780 : after (ops (F := F)) V (Proc.devRef .tc main_v780) = val_main_v780 (F := F) (a4 V) (a5 V) :=
  (unary_eq later_1182 later_1183 (Nat.lt_of_lt_of_eq (by decide : 1182 < 1293) ops_len.symm) V main_v776 main_v780 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v776 V))
theorem e_main_v781 : after (ops (F := F)) V (Proc.devRef .tc main_v781) = val_main_v781 (F := F) (a4 V) (a5 V) :=
  (nary_eq later_1183 later_1184 (Nat.lt_of_lt_of_eq (by decide : 1183 < 1293) ops_len.symm) V ![main_v778, main_v779, main_v780] main_v781 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v778)⟩, ⟨S512x128x1, after (ops (F := F)) V (Proc.devRef .tc main_v779)⟩, ⟨S512x128x1, after (ops (F := F)) V (Proc.devRef .tc main_v780)⟩] concatenates_S512x128x1_S512x128x1_S512x128x1_S512x128x3_d2 = _
    rw [e_main_v778 V, e_main_v779 V, e_main_v780 V]; rfl)
theorem e_main_v782 : after (ops (F := F)) V (Proc.devRef .tc main_v782) = val_main_v782 (F := F) (a3 V) (a4 V) (a5 V) :=
  (binary_eq later_1184 later_1185 (Nat.lt_of_lt_of_eq (by decide : 1184 < 1293) ops_len.symm) V main_arg3 main_v781 main_v782 ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (e_main_arg3 V) (e_main_v781 V))
theorem e_main_v783 : after (ops (F := F)) V (Proc.devRef .tc main_v783) = val_main_v783 (F := F) (a4 V) (a5 V) :=
  (unary_eq later_1185 later_1186 (Nat.lt_of_lt_of_eq (by decide : 1185 < 1293) ops_len.symm) V main_v758 main_v783 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v758 V))
theorem e_main_v784 : after (ops (F := F)) V (Proc.devRef .tc main_v784) = val_main_v784 (F := F) (a4 V) (a5 V) :=
  (unary_eq later_1186 later_1187 (Nat.lt_of_lt_of_eq (by decide : 1186 < 1293) ops_len.symm) V main_v783 main_v784 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v783 V))
theorem e_main_v785 : after (ops (F := F)) V (Proc.devRef .tc main_v785) = val_main_v785 (F := F) (a4 V) (a5 V) :=
  (unary_eq later_1187 later_1188 (Nat.lt_of_lt_of_eq (by decide : 1187 < 1293) ops_len.symm) V main_v784 main_v785 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v784 V))
theorem e_main_v786 : after (ops (F := F)) V (Proc.devRef .tc main_v786) = val_main_v786 (F := F) (a3 V) (a4 V) (a5 V) :=
  (binary_eq later_1188 later_1189 (Nat.lt_of_lt_of_eq (by decide : 1188 < 1293) ops_len.symm) V main_v782 main_v785 main_v786 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v782 V) (e_main_v785 V))
theorem e_main_c_250 : after (ops (F := F)) V (Proc.devRef .tc main_c_250) = val_main_c_250 (F := F) :=
  nullary_eq later_1189 later_1190 (Nat.lt_of_lt_of_eq (by decide : 1189 < 1293) ops_len.symm) V main_c_250 (constantI S_ 32 1#32) (hop := rfl) (hyi := (by decide))
theorem e_main_v787 : after (ops (F := F)) V (Proc.devRef .tc main_v787) = val_main_v787 (F := F) :=
  (unary_eq later_1190 later_1191 (Nat.lt_of_lt_of_eq (by decide : 1190 < 1293) ops_len.symm) V main_c_250 main_v787 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_250 V))
theorem e_main_v788 : after (ops (F := F)) V (Proc.devRef .tc main_v788) = val_main_v788 (F := F) (a4 V) (a5 V) :=
  (binary_eq later_1191 later_1192 (Nat.lt_of_lt_of_eq (by decide : 1191 < 1293) ops_len.symm) V main_v665 main_v787 main_v788 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v665 V) (e_main_v787 V))
theorem e_main_c_251 : after (ops (F := F)) V (Proc.devRef .tc main_c_251) = val_main_c_251 (F := F) :=
  nullary_eq later_1192 later_1193 (Nat.lt_of_lt_of_eq (by decide : 1192 < 1293) ops_len.symm) V main_c_251 (constantI S_ 32 1#32) (hop := rfl) (hyi := (by decide))
theorem e_main_v789 : after (ops (F := F)) V (Proc.devRef .tc main_v789) = val_main_v789 (F := F) :=
  (unary_eq later_1193 later_1194 (Nat.lt_of_lt_of_eq (by decide : 1193 < 1293) ops_len.symm) V main_c_251 main_v789 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_251 V))
theorem e_main_v790 : after (ops (F := F)) V (Proc.devRef .tc main_v790) = val_main_v790 (F := F) (a4 V) (a5 V) :=
  (binary_eq later_1194 later_1195 (Nat.lt_of_lt_of_eq (by decide : 1194 < 1293) ops_len.symm) V main_v664 main_v789 main_v790 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v664 V) (e_main_v789 V))
theorem e_main_c_252 : after (ops (F := F)) V (Proc.devRef .tc main_c_252) = val_main_c_252 (F := F) :=
  nullary_eq later_1195 later_1196 (Nat.lt_of_lt_of_eq (by decide : 1195 < 1293) ops_len.symm) V main_c_252 (constantI S_ 32 0#32) (hop := rfl) (hyi := (by decide))
theorem e_main_v791 : after (ops (F := F)) V (Proc.devRef .tc main_v791) = val_main_v791 (F := F) :=
  (unary_eq later_1196 later_1197 (Nat.lt_of_lt_of_eq (by decide : 1196 < 1293) ops_len.symm) V main_c_252 main_v791 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_252 V))
theorem e_main_v792 : after (ops (F := F)) V (Proc.devRef .tc main_v792) = val_main_v792 (F := F) (a4 V) (a5 V) :=
  (binary_eq later_1197 later_1198 (Nat.lt_of_lt_of_eq (by decide : 1197 < 1293) ops_len.symm) V main_v790 main_v791 main_v792 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v790 V) (e_main_v791 V))
theorem e_main_c_253 : after (ops (F := F)) V (Proc.devRef .tc main_c_253) = val_main_c_253 (F := F) :=
  nullary_eq later_1198 later_1199 (Nat.lt_of_lt_of_eq (by decide : 1198 < 1293) ops_len.symm) V main_c_253 (constantI S_ 32 32#32) (hop := rfl) (hyi := (by decide))
theorem e_main_v793 : after (ops (F := F)) V (Proc.devRef .tc main_v793) = val_main_v793 (F := F) :=
  (unary_eq later_1199 later_1200 (Nat.lt_of_lt_of_eq (by decide : 1199 < 1293) ops_len.symm) V main_c_253 main_v793 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_253 V))
theorem e_main_v794 : after (ops (F := F)) V (Proc.devRef .tc main_v794) = val_main_v794 (F := F) (a4 V) (a5 V) :=
  (binary_eq later_1200 later_1201 (Nat.lt_of_lt_of_eq (by decide : 1200 < 1293) ops_len.symm) V main_v790 main_v793 main_v794 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v790 V) (e_main_v793 V))
theorem e_main_v795 : after (ops (F := F)) V (Proc.devRef .tc main_v795) = val_main_v795 (F := F) (a4 V) (a5 V) :=
  (binary_eq later_1201 later_1202 (Nat.lt_of_lt_of_eq (by decide : 1201 < 1293) ops_len.symm) V main_v792 main_v794 main_v795 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v792 V) (e_main_v794 V))
theorem e_main_c_254 : after (ops (F := F)) V (Proc.devRef .tc main_c_254) = val_main_c_254 (F := F) :=
  nullary_eq later_1202 later_1203 (Nat.lt_of_lt_of_eq (by decide : 1202 < 1293) ops_len.symm) V main_c_254 (constantI S_ 32 0#32) (hop := rfl) (hyi := (by decide))
theorem e_main_v796 : after (ops (F := F)) V (Proc.devRef .tc main_v796) = val_main_v796 (F := F) :=
  (unary_eq later_1203 later_1204 (Nat.lt_of_lt_of_eq (by decide : 1203 < 1293) ops_len.symm) V main_c_254 main_v796 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_254 V))
theorem e_main_v797 : after (ops (F := F)) V (Proc.devRef .tc main_v797) = val_main_v797 (F := F) (a4 V) (a5 V) :=
  (binary_eq later_1204 later_1205 (Nat.lt_of_lt_of_eq (by decide : 1204 < 1293) ops_len.symm) V main_v788 main_v796 main_v797 (cmpi .sge : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .sge : (⟨S512x128, .i32⟩ : BufTy).Contents (Elt F) → (⟨S512x128, .i32⟩ : BufTy).Contents (Elt F) → (⟨S512x128, .i1⟩ : BufTy).Contents (Elt F)) (e_main_v788 V) (e_main_v796 V))
theorem e_main_v798 : after (ops (F := F)) V (Proc.devRef .tc main_v798) = val_main_v798 (F := F) (a4 V) (a5 V) :=
  (binary_eq later_1205 later_1206 (Nat.lt_of_lt_of_eq (by decide : 1205 < 1293) ops_len.symm) V main_v795 main_v797 main_v798 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v795 V) (e_main_v797 V))
theorem e_main_c_255 : after (ops (F := F)) V (Proc.devRef .tc main_c_255) = val_main_c_255 (F := F) :=
  nullary_eq later_1206 later_1207 (Nat.lt_of_lt_of_eq (by decide : 1206 < 1293) ops_len.symm) V main_c_255 (constantI S_ 32 32#32) (hop := rfl) (hyi := (by decide))
theorem e_main_v799 : after (ops (F := F)) V (Proc.devRef .tc main_v799) = val_main_v799 (F := F) :=
  (unary_eq later_1207 later_1208 (Nat.lt_of_lt_of_eq (by decide : 1207 < 1293) ops_len.symm) V main_c_255 main_v799 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_255 V))
theorem e_main_v800 : after (ops (F := F)) V (Proc.devRef .tc main_v800) = val_main_v800 (F := F) (a4 V) (a5 V) :=
  (binary_eq later_1208 later_1209 (Nat.lt_of_lt_of_eq (by decide : 1208 < 1293) ops_len.symm) V main_v788 main_v799 main_v800 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v788 V) (e_main_v799 V))
theorem e_main_v801 : after (ops (F := F)) V (Proc.devRef .tc main_v801) = val_main_v801 (F := F) (a4 V) (a5 V) :=
  (binary_eq later_1209 later_1210 (Nat.lt_of_lt_of_eq (by decide : 1209 < 1293) ops_len.symm) V main_v798 main_v800 main_v801 (andi : (⟨S512x128, .i1⟩ : BufTy).Contents (Elt F) → (⟨S512x128, .i1⟩ : BufTy).Contents (Elt F) → (⟨S512x128, .i1⟩ : BufTy).Contents (Elt F)) (hop := rfl) (hyi := (by decide)) (hai := (by decide)) (hbi := (by decide))).trans
    (congrArg₂ (andi : (⟨S512x128, .i1⟩ : BufTy).Contents (Elt F) → (⟨S512x128, .i1⟩ : BufTy).Contents (Elt F) → (⟨S512x128, .i1⟩ : BufTy).Contents (Elt F)) (e_main_v798 V) (e_main_v800 V))
theorem e_main_c_256 : after (ops (F := F)) V (Proc.devRef .tc main_c_256) = val_main_c_256 (F := F) :=
  nullary_eq later_1210 later_1211 (Nat.lt_of_lt_of_eq (by decide : 1210 < 1293) ops_len.symm) V main_c_256 (constantI S_ 32 0#32) (hop := rfl) (hyi := (by decide))
theorem e_main_c_257 : after (ops (F := F)) V (Proc.devRef .tc main_c_257) = val_main_c_257 (F := F) :=
  nullary_eq later_1211 later_1212 (Nat.lt_of_lt_of_eq (by decide : 1211 < 1293) ops_len.symm) V main_c_257 (constantI S_ 32 31#32) (hop := rfl) (hyi := (by decide))
theorem e_main_call30_v0 : after (ops (F := F)) V (Proc.devRef .tc main_call30_v0) = val_main_call30_v0 (F := F) :=
  (tunary_eq later_1212 later_1213 (Nat.lt_of_lt_of_eq (by decide : 1212 < 1293) ops_len.symm) V (TRef.of (T := ⟨S_, .i32⟩) main_c_256) (TRef.of (T := ⟨S_, .i32⟩) main_call30_v0) id (hop := rfl) (hyi := (by decide)) (hxi := (by decide))).trans
    (congrArg (fun t => (TRef.of (T := ⟨S_, .i32⟩) main_call30_v0).toBuf ((id) ((TRef.of (T := ⟨S_, .i32⟩) main_c_256).ofBuf t))) (e_main_c_256 V))
theorem e_main_call30_v1 : after (ops (F := F)) V (Proc.devRef .tc main_call30_v1) = val_main_call30_v1 (F := F) :=
  (tunary_eq later_1213 later_1214 (Nat.lt_of_lt_of_eq (by decide : 1213 < 1293) ops_len.symm) V (TRef.of (T := ⟨S_, .i32⟩) main_call30_v0) (TRef.of (T := ⟨S512x128, .i32⟩) main_call30_v1) (broadcastInDim S512x128 ![] bcast_S_S512x128) (hop := rfl) (hyi := (by decide)) (hxi := (by decide))).trans
    (congrArg (fun t => (TRef.of (T := ⟨S512x128, .i32⟩) main_call30_v1).toBuf (((broadcastInDim S512x128 ![] bcast_S_S512x128)) ((TRef.of (T := ⟨S_, .i32⟩) main_call30_v0).ofBuf t))) (e_main_call30_v0 V))
theorem e_main_call30_v2 : after (ops (F := F)) V (Proc.devRef .tc main_call30_v2) = val_main_call30_v2 (F := F) (a4 V) (a5 V) :=
  (tbinary_eq later_1214 later_1215 (Nat.lt_of_lt_of_eq (by decide : 1214 < 1293) ops_len.symm) V (TRef.of (T := ⟨S512x128, .i32⟩) main_call30_v1) (TRef.of (T := ⟨S512x128, .i32⟩) main_v790) (TRef.of (T := ⟨S512x128, .i32⟩) main_call30_v2) maxsi (hop := rfl) (hyi := (by decide)) (hai := (by decide)) (hbi := (by decide))).trans
    (by rw [e_main_call30_v1 V, e_main_v790 V]; rfl)
theorem e_main_call30_v3 : after (ops (F := F)) V (Proc.devRef .tc main_call30_v3) = val_main_call30_v3 (F := F) :=
  (tunary_eq later_1215 later_1216 (Nat.lt_of_lt_of_eq (by decide : 1215 < 1293) ops_len.symm) V (TRef.of (T := ⟨S_, .i32⟩) main_c_257) (TRef.of (T := ⟨S_, .i32⟩) main_call30_v3) id (hop := rfl) (hyi := (by decide)) (hxi := (by decide))).trans
    (congrArg (fun t => (TRef.of (T := ⟨S_, .i32⟩) main_call30_v3).toBuf ((id) ((TRef.of (T := ⟨S_, .i32⟩) main_c_257).ofBuf t))) (e_main_c_257 V))
theorem e_main_call30_v4 : after (ops (F := F)) V (Proc.devRef .tc main_call30_v4) = val_main_call30_v4 (F := F) :=
  (tunary_eq later_1216 later_1217 (Nat.lt_of_lt_of_eq (by decide : 1216 < 1293) ops_len.symm) V (TRef.of (T := ⟨S_, .i32⟩) main_call30_v3) (TRef.of (T := ⟨S512x128, .i32⟩) main_call30_v4) (broadcastInDim S512x128 ![] bcast_S_S512x128) (hop := rfl) (hyi := (by decide)) (hxi := (by decide))).trans
    (congrArg (fun t => (TRef.of (T := ⟨S512x128, .i32⟩) main_call30_v4).toBuf (((broadcastInDim S512x128 ![] bcast_S_S512x128)) ((TRef.of (T := ⟨S_, .i32⟩) main_call30_v3).ofBuf t))) (e_main_call30_v3 V))
theorem e_main_v802 : after (ops (F := F)) V (Proc.devRef .tc main_v802) = val_main_v802 (F := F) (a4 V) (a5 V) :=
  (tbinary_eq later_1217 later_1218 (Nat.lt_of_lt_of_eq (by decide : 1217 < 1293) ops_len.symm) V (TRef.of (T := ⟨S512x128, .i32⟩) main_call30_v4) (TRef.of (T := ⟨S512x128, .i32⟩) main_call30_v2) (TRef.of (T := ⟨S512x128, .i32⟩) main_v802) minsi (hop := rfl) (hyi := (by decide)) (hai := (by decide)) (hbi := (by decide))).trans
    (by rw [e_main_call30_v4 V, e_main_call30_v2 V]; rfl)
theorem e_main_c_258 : after (ops (F := F)) V (Proc.devRef .tc main_c_258) = val_main_c_258 (F := F) :=
  nullary_eq later_1218 later_1219 (Nat.lt_of_lt_of_eq (by decide : 1218 < 1293) ops_len.symm) V main_c_258 (constantI S_ 32 0#32) (hop := rfl) (hyi := (by decide))
theorem e_main_c_259 : after (ops (F := F)) V (Proc.devRef .tc main_c_259) = val_main_c_259 (F := F) :=
  nullary_eq later_1219 later_1220 (Nat.lt_of_lt_of_eq (by decide : 1219 < 1293) ops_len.symm) V main_c_259 (constantI S_ 32 31#32) (hop := rfl) (hyi := (by decide))
theorem e_main_call31_v0 : after (ops (F := F)) V (Proc.devRef .tc main_call31_v0) = val_main_call31_v0 (F := F) :=
  (tunary_eq later_1220 later_1221 (Nat.lt_of_lt_of_eq (by decide : 1220 < 1293) ops_len.symm) V (TRef.of (T := ⟨S_, .i32⟩) main_c_258) (TRef.of (T := ⟨S_, .i32⟩) main_call31_v0) id (hop := rfl) (hyi := (by decide)) (hxi := (by decide))).trans
    (congrArg (fun t => (TRef.of (T := ⟨S_, .i32⟩) main_call31_v0).toBuf ((id) ((TRef.of (T := ⟨S_, .i32⟩) main_c_258).ofBuf t))) (e_main_c_258 V))
theorem e_main_call31_v1 : after (ops (F := F)) V (Proc.devRef .tc main_call31_v1) = val_main_call31_v1 (F := F) :=
  (tunary_eq later_1221 later_1222 (Nat.lt_of_lt_of_eq (by decide : 1221 < 1293) ops_len.symm) V (TRef.of (T := ⟨S_, .i32⟩) main_call31_v0) (TRef.of (T := ⟨S512x128, .i32⟩) main_call31_v1) (broadcastInDim S512x128 ![] bcast_S_S512x128) (hop := rfl) (hyi := (by decide)) (hxi := (by decide))).trans
    (congrArg (fun t => (TRef.of (T := ⟨S512x128, .i32⟩) main_call31_v1).toBuf (((broadcastInDim S512x128 ![] bcast_S_S512x128)) ((TRef.of (T := ⟨S_, .i32⟩) main_call31_v0).ofBuf t))) (e_main_call31_v0 V))
theorem e_main_call31_v2 : after (ops (F := F)) V (Proc.devRef .tc main_call31_v2) = val_main_call31_v2 (F := F) (a4 V) (a5 V) :=
  (tbinary_eq later_1222 later_1223 (Nat.lt_of_lt_of_eq (by decide : 1222 < 1293) ops_len.symm) V (TRef.of (T := ⟨S512x128, .i32⟩) main_call31_v1) (TRef.of (T := ⟨S512x128, .i32⟩) main_v788) (TRef.of (T := ⟨S512x128, .i32⟩) main_call31_v2) maxsi (hop := rfl) (hyi := (by decide)) (hai := (by decide)) (hbi := (by decide))).trans
    (by rw [e_main_call31_v1 V, e_main_v788 V]; rfl)
theorem e_main_call31_v3 : after (ops (F := F)) V (Proc.devRef .tc main_call31_v3) = val_main_call31_v3 (F := F) :=
  (tunary_eq later_1223 later_1224 (Nat.lt_of_lt_of_eq (by decide : 1223 < 1293) ops_len.symm) V (TRef.of (T := ⟨S_, .i32⟩) main_c_259) (TRef.of (T := ⟨S_, .i32⟩) main_call31_v3) id (hop := rfl) (hyi := (by decide)) (hxi := (by decide))).trans
    (congrArg (fun t => (TRef.of (T := ⟨S_, .i32⟩) main_call31_v3).toBuf ((id) ((TRef.of (T := ⟨S_, .i32⟩) main_c_259).ofBuf t))) (e_main_c_259 V))
theorem e_main_call31_v4 : after (ops (F := F)) V (Proc.devRef .tc main_call31_v4) = val_main_call31_v4 (F := F) :=
  (tunary_eq later_1224 later_1225 (Nat.lt_of_lt_of_eq (by decide : 1224 < 1293) ops_len.symm) V (TRef.of (T := ⟨S_, .i32⟩) main_call31_v3) (TRef.of (T := ⟨S512x128, .i32⟩) main_call31_v4) (broadcastInDim S512x128 ![] bcast_S_S512x128) (hop := rfl) (hyi := (by decide)) (hxi := (by decide))).trans
    (congrArg (fun t => (TRef.of (T := ⟨S512x128, .i32⟩) main_call31_v4).toBuf (((broadcastInDim S512x128 ![] bcast_S_S512x128)) ((TRef.of (T := ⟨S_, .i32⟩) main_call31_v3).ofBuf t))) (e_main_call31_v3 V))
theorem e_main_v803 : after (ops (F := F)) V (Proc.devRef .tc main_v803) = val_main_v803 (F := F) (a4 V) (a5 V) :=
  (tbinary_eq later_1225 later_1226 (Nat.lt_of_lt_of_eq (by decide : 1225 < 1293) ops_len.symm) V (TRef.of (T := ⟨S512x128, .i32⟩) main_call31_v4) (TRef.of (T := ⟨S512x128, .i32⟩) main_call31_v2) (TRef.of (T := ⟨S512x128, .i32⟩) main_v803) minsi (hop := rfl) (hyi := (by decide)) (hai := (by decide)) (hbi := (by decide))).trans
    (by rw [e_main_call31_v4 V, e_main_call31_v2 V]; rfl)
theorem e_main_v804 : after (ops (F := F)) V (Proc.devRef .tc main_v804) = val_main_v804 (F := F) (a4 V) :=
  (unary_eq later_1226 later_1227 (Nat.lt_of_lt_of_eq (by decide : 1226 < 1293) ops_len.symm) V main_v2 main_v804 (broadcastInDim S512x1 ![0] bcast_S512_S512x1_0 : (⟨S512, .i32⟩ : BufTy).Contents (Elt F) → (⟨S512x1, .i32⟩ : BufTy).Contents (Elt F)) (hop := rfl) (hyi := (by decide)) (hxi := (by decide))).trans
    (congrArg (broadcastInDim S512x1 ![0] bcast_S512_S512x1_0 : (⟨S512, .i32⟩ : BufTy).Contents (Elt F) → (⟨S512x1, .i32⟩ : BufTy).Contents (Elt F)) (e_main_v2 V))
theorem e_main_c_260 : after (ops (F := F)) V (Proc.devRef .tc main_c_260) = val_main_c_260 (F := F) :=
  nullary_eq later_1227 later_1228 (Nat.lt_of_lt_of_eq (by decide : 1227 < 1293) ops_len.symm) V main_c_260 (constantI S_ 32 0#32) (hop := rfl) (hyi := (by decide))
theorem e_main_v805 : after (ops (F := F)) V (Proc.devRef .tc main_v805) = val_main_v805 (F := F) :=
  (unary_eq later_1228 later_1229 (Nat.lt_of_lt_of_eq (by decide : 1228 < 1293) ops_len.symm) V main_c_260 main_v805 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_260 V))
theorem e_main_v806 : after (ops (F := F)) V (Proc.devRef .tc main_v806) = val_main_v806 (F := F) (a4 V) :=
  (binary_eq later_1229 later_1230 (Nat.lt_of_lt_of_eq (by decide : 1229 < 1293) ops_len.symm) V main_v804 main_v805 main_v806 (cmpi .slt : (⟨S512x1, .i32⟩ : BufTy).Contents (Elt F) → (⟨S512x1, .i32⟩ : BufTy).Contents (Elt F) → (⟨S512x1, .i1⟩ : BufTy).Contents (Elt F)) (hop := rfl) (hyi := (by decide)) (hai := (by decide)) (hbi := (by decide))).trans
    (congrArg₂ (cmpi .slt : (⟨S512x1, .i32⟩ : BufTy).Contents (Elt F) → (⟨S512x1, .i32⟩ : BufTy).Contents (Elt F) → (⟨S512x1, .i1⟩ : BufTy).Contents (Elt F)) (e_main_v804 V) (e_main_v805 V))
theorem e_main_c_261 : after (ops (F := F)) V (Proc.devRef .tc main_c_261) = val_main_c_261 (F := F) :=
  nullary_eq later_1230 later_1231 (Nat.lt_of_lt_of_eq (by decide : 1230 < 1293) ops_len.symm) V main_c_261 (constantI S_ 32 2#32) (hop := rfl) (hyi := (by decide))
theorem e_main_v807 : after (ops (F := F)) V (Proc.devRef .tc main_v807) = val_main_v807 (F := F) :=
  (unary_eq later_1231 later_1232 (Nat.lt_of_lt_of_eq (by decide : 1231 < 1293) ops_len.symm) V main_c_261 main_v807 (broadcastInDim S512x1 ![] bcast_S_S512x1 : (⟨S_, .i32⟩ : BufTy).Contents (Elt F) → (⟨S512x1, .i32⟩ : BufTy).Contents (Elt F)) (hop := rfl) (hyi := (by decide)) (hxi := (by decide))).trans
    (congrArg (broadcastInDim S512x1 ![] bcast_S_S512x1 : (⟨S_, .i32⟩ : BufTy).Contents (Elt F) → (⟨S512x1, .i32⟩ : BufTy).Contents (Elt F)) (e_main_c_261 V))
theorem e_main_v808 : after (ops (F := F)) V (Proc.devRef .tc main_v808) = val_main_v808 (F := F) (a4 V) :=
  (binary_eq later_1232 later_1233 (Nat.lt_of_lt_of_eq (by decide : 1232 < 1293) ops_len.symm) V main_v804 main_v807 main_v808 (addi : (⟨S512x1, .i32⟩ : BufTy).Contents (Elt F) → (⟨S512x1, .i32⟩ : BufTy).Contents (Elt F) → (⟨S512x1, .i32⟩ : BufTy).Contents (Elt F)) (hop := rfl) (hyi := (by decide)) (hai := (by decide)) (hbi := (by decide))).trans
    (congrArg₂ (addi : (⟨S512x1, .i32⟩ : BufTy).Contents (Elt F) → (⟨S512x1, .i32⟩ : BufTy).Contents (Elt F) → (⟨S512x1, .i32⟩ : BufTy).Contents (Elt F)) (e_main_v804 V) (e_main_v807 V))
theorem e_main_v809 : after (ops (F := F)) V (Proc.devRef .tc main_v809) = val_main_v809 (F := F) (a4 V) :=
  (ternary_eq later_1233 later_1234 (Nat.lt_of_lt_of_eq (by decide : 1233 < 1293) ops_len.symm) V main_v806 main_v808 main_v804 main_v809 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (hop := rfl) (hyi := (by decide)) (hci := (by decide)) (hai := (by decide)) (hbi := (by decide))).trans
    (congr3 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)) (e_main_v806 V) (e_main_v808 V) (e_main_v804 V))
theorem e_main_c_262 : after (ops (F := F)) V (Proc.devRef .tc main_c_262) = val_main_c_262 (F := F) :=
  nullary_eq later_1234 later_1235 (Nat.lt_of_lt_of_eq (by decide : 1234 < 1293) ops_len.symm) V main_c_262 (constantI S_ 32 0#32) (hop := rfl) (hyi := (by decide))
theorem e_main_v810 : after (ops (F := F)) V (Proc.devRef .tc main_v810) = val_main_v810 (F := F) :=
  (unary_eq later_1235 later_1236 (Nat.lt_of_lt_of_eq (by decide : 1235 < 1293) ops_len.symm) V main_c_262 main_v810 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_262 V))
theorem e_main_v811 : after (ops (F := F)) V (Proc.devRef .tc main_v811) = val_main_v811 (F := F) (a4 V) (a5 V) :=
  (binary_eq later_1236 later_1237 (Nat.lt_of_lt_of_eq (by decide : 1236 < 1293) ops_len.symm) V main_v803 main_v810 main_v811 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v803 V) (e_main_v810 V))
theorem e_main_c_263 : after (ops (F := F)) V (Proc.devRef .tc main_c_263) = val_main_c_263 (F := F) :=
  nullary_eq later_1237 later_1238 (Nat.lt_of_lt_of_eq (by decide : 1237 < 1293) ops_len.symm) V main_c_263 (constantI S_ 32 32#32) (hop := rfl) (hyi := (by decide))
theorem e_main_v812 : after (ops (F := F)) V (Proc.devRef .tc main_v812) = val_main_v812 (F := F) :=
  (unary_eq later_1238 later_1239 (Nat.lt_of_lt_of_eq (by decide : 1238 < 1293) ops_len.symm) V main_c_263 main_v812 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_263 V))
theorem e_main_v813 : after (ops (F := F)) V (Proc.devRef .tc main_v813) = val_main_v813 (F := F) (a4 V) (a5 V) :=
  (binary_eq later_1239 later_1240 (Nat.lt_of_lt_of_eq (by decide : 1239 < 1293) ops_len.symm) V main_v803 main_v812 main_v813 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v803 V) (e_main_v812 V))
theorem e_main_v814 : after (ops (F := F)) V (Proc.devRef .tc main_v814) = val_main_v814 (F := F) (a4 V) (a5 V) :=
  (ternary_eq later_1240 later_1241 (Nat.lt_of_lt_of_eq (by decide : 1240 < 1293) ops_len.symm) V main_v811 main_v813 main_v803 main_v814 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v811 V) (e_main_v813 V) (e_main_v803 V))
theorem e_main_c_264 : after (ops (F := F)) V (Proc.devRef .tc main_c_264) = val_main_c_264 (F := F) :=
  nullary_eq later_1241 later_1242 (Nat.lt_of_lt_of_eq (by decide : 1241 < 1293) ops_len.symm) V main_c_264 (constantI S_ 32 0#32) (hop := rfl) (hyi := (by decide))
theorem e_main_v815 : after (ops (F := F)) V (Proc.devRef .tc main_v815) = val_main_v815 (F := F) :=
  (unary_eq later_1242 later_1243 (Nat.lt_of_lt_of_eq (by decide : 1242 < 1293) ops_len.symm) V main_c_264 main_v815 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_264 V))
theorem e_main_v816 : after (ops (F := F)) V (Proc.devRef .tc main_v816) = val_main_v816 (F := F) (a4 V) (a5 V) :=
  (binary_eq later_1243 later_1244 (Nat.lt_of_lt_of_eq (by decide : 1243 < 1293) ops_len.symm) V main_v802 main_v815 main_v816 (cmpi .slt : (⟨S512x128, .i32⟩ : BufTy).Contents (Elt F) → (⟨S512x128, .i32⟩ : BufTy).Contents (Elt F) → (⟨S512x128, .i1⟩ : BufTy).Contents (Elt F)) (hop := rfl) (hyi := (by decide)) (hai := (by decide)) (hbi := (by decide))).trans
    (congrArg₂ (cmpi .slt : (⟨S512x128, .i32⟩ : BufTy).Contents (Elt F) → (⟨S512x128, .i32⟩ : BufTy).Contents (Elt F) → (⟨S512x128, .i1⟩ : BufTy).Contents (Elt F)) (e_main_v802 V) (e_main_v815 V))
theorem e_main_c_265 : after (ops (F := F)) V (Proc.devRef .tc main_c_265) = val_main_c_265 (F := F) :=
  nullary_eq later_1244 later_1245 (Nat.lt_of_lt_of_eq (by decide : 1244 < 1293) ops_len.symm) V main_c_265 (constantI S_ 32 32#32) (hop := rfl) (hyi := (by decide))
theorem e_main_v817 : after (ops (F := F)) V (Proc.devRef .tc main_v817) = val_main_v817 (F := F) :=
  (unary_eq later_1245 later_1246 (Nat.lt_of_lt_of_eq (by decide : 1245 < 1293) ops_len.symm) V main_c_265 main_v817 (broadcastInDim S512x128 ![] bcast_S_S512x128 : (⟨S_, .i32⟩ : BufTy).Contents (Elt F) → (⟨S512x128, .i32⟩ : BufTy).Contents (Elt F)) (hop := rfl) (hyi := (by decide)) (hxi := (by decide))).trans
    (congrArg (broadcastInDim S512x128 ![] bcast_S_S512x128 : (⟨S_, .i32⟩ : BufTy).Contents (Elt F) → (⟨S512x128, .i32⟩ : BufTy).Contents (Elt F)) (e_main_c_265 V))
theorem e_main_v818 : after (ops (F := F)) V (Proc.devRef .tc main_v818) = val_main_v818 (F := F) (a4 V) (a5 V) :=
  (binary_eq later_1246 later_1247 (Nat.lt_of_lt_of_eq (by decide : 1246 < 1293) ops_len.symm) V main_v802 main_v817 main_v818 (addi : (⟨S512x128, .i32⟩ : BufTy).Contents (Elt F) → (⟨S512x128, .i32⟩ : BufTy).Contents (Elt F) → (⟨S512x128, .i32⟩ : BufTy).Contents (Elt F)) (hop := rfl) (hyi := (by decide)) (hai := (by decide)) (hbi := (by decide))).trans
    (congrArg₂ (addi : (⟨S512x128, .i32⟩ : BufTy).Contents (Elt F) → (⟨S512x128, .i32⟩ : BufTy).Contents (Elt F) → (⟨S512x128, .i32⟩ : BufTy).Contents (Elt F)) (e_main_v802 V) (e_main_v817 V))
theorem e_main_v819 : after (ops (F := F)) V (Proc.devRef .tc main_v819) = val_main_v819 (F := F) (a4 V) (a5 V) :=
  (ternary_eq later_1247 later_1248 (Nat.lt_of_lt_of_eq (by decide : 1247 < 1293) ops_len.symm) V main_v816 main_v818 main_v802 main_v819 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (hop := rfl) (hyi := (by decide)) (hci := (by decide)) (hai := (by decide)) (hbi := (by decide))).trans
    (congr3 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F)) (e_main_v816 V) (e_main_v818 V) (e_main_v802 V))
theorem e_main_v820 : after (ops (F := F)) V (Proc.devRef .tc main_v820) = val_main_v820 (F := F) (a4 V) :=
  (unary_eq later_1248 later_1249 (Nat.lt_of_lt_of_eq (by decide : 1248 < 1293) ops_len.symm) V main_v809 main_v820 (broadcastInDim S512x128 ![0, 1] bcast_S512x1_S512x128_0_1 : (⟨S512x1, .i32⟩ : BufTy).Contents (Elt F) → (⟨S512x128, .i32⟩ : BufTy).Contents (Elt F)) (hop := rfl) (hyi := (by decide)) (hxi := (by decide))).trans
    (congrArg (broadcastInDim S512x128 ![0, 1] bcast_S512x1_S512x128_0_1 : (⟨S512x1, .i32⟩ : BufTy).Contents (Elt F) → (⟨S512x128, .i32⟩ : BufTy).Contents (Elt F)) (e_main_v809 V))
theorem e_main_v821 : after (ops (F := F)) V (Proc.devRef .tc main_v821) = val_main_v821 (F := F) (a4 V) :=
  (unary_eq later_1249 later_1250 (Nat.lt_of_lt_of_eq (by decide : 1249 < 1293) ops_len.symm) V main_v820 main_v821 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v820 V))
theorem e_main_v822 : after (ops (F := F)) V (Proc.devRef .tc main_v822) = val_main_v822 (F := F) (a4 V) (a5 V) :=
  (unary_eq later_1250 later_1251 (Nat.lt_of_lt_of_eq (by decide : 1250 < 1293) ops_len.symm) V main_v814 main_v822 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v814 V))
theorem e_main_v823 : after (ops (F := F)) V (Proc.devRef .tc main_v823) = val_main_v823 (F := F) (a4 V) (a5 V) :=
  (unary_eq later_1251 later_1252 (Nat.lt_of_lt_of_eq (by decide : 1251 < 1293) ops_len.symm) V main_v819 main_v823 (broadcastInDim S512x128x1 ![0, 1] bcast_S512x128_S512x128x1_0_1 : (⟨S512x128, .i32⟩ : BufTy).Contents (Elt F) → (⟨S512x128x1, .i32⟩ : BufTy).Contents (Elt F)) (hop := rfl) (hyi := (by decide)) (hxi := (by decide))).trans
    (congrArg (broadcastInDim S512x128x1 ![0, 1] bcast_S512x128_S512x128x1_0_1 : (⟨S512x128, .i32⟩ : BufTy).Contents (Elt F) → (⟨S512x128x1, .i32⟩ : BufTy).Contents (Elt F)) (e_main_v819 V))
theorem e_main_v824 : after (ops (F := F)) V (Proc.devRef .tc main_v824) = val_main_v824 (F := F) (a4 V) (a5 V) :=
  (nary_eq later_1252 later_1253 (Nat.lt_of_lt_of_eq (by decide : 1252 < 1293) ops_len.symm) V ![main_v821, main_v822, main_v823] main_v824 (fun u => concatenate S512x128x3 2 [⟨S512x128x1, u 0⟩, ⟨S512x128x1, u 1⟩, ⟨S512x128x1, u 2⟩] concatenates_S512x128x1_S512x128x1_S512x128x1_S512x128x3_d2) (hop := rfl) (hyi := (by decide)) (hxi := (by decide))).trans (by
    show concatenate S512x128x3 2 [⟨S512x128x1, after (ops (F := F)) V (Proc.devRef .tc main_v821)⟩, ⟨S512x128x1, after (ops (F := F)) V (Proc.devRef .tc main_v822)⟩, ⟨S512x128x1, after (ops (F := F)) V (Proc.devRef .tc main_v823)⟩] concatenates_S512x128x1_S512x128x1_S512x128x1_S512x128x3_d2 = _
    rw [e_main_v821 V, e_main_v822 V, e_main_v823 V]; rfl)
theorem e_main_v825 : after (ops (F := F)) V (Proc.devRef .tc main_v825) = val_main_v825 (F := F) (a3 V) (a4 V) (a5 V) :=
  (binary_eq later_1253 later_1254 (Nat.lt_of_lt_of_eq (by decide : 1253 < 1293) ops_len.symm) V main_arg3 main_v824 main_v825 ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (hop := rfl) (hyi := (by decide)) (hai := (by decide)) (hbi := (by decide))).trans
    (congrArg₂ ((fun x i => Host.gather gather_S2x256x32x32_S512x128x3_S512x128x256_2_023_n_n_023_2_125611 x i) : (⟨S2x256x32x32, .f32⟩ : BufTy).Contents (Elt F) → (⟨S512x128x3, .i32⟩ : BufTy).Contents (Elt F) → (⟨S512x128x256, .f32⟩ : BufTy).Contents (Elt F)) (e_main_arg3 V) (e_main_v824 V))
theorem e_main_v826 : after (ops (F := F)) V (Proc.devRef .tc main_v826) = val_main_v826 (F := F) (a4 V) (a5 V) :=
  (unary_eq later_1254 later_1255 (Nat.lt_of_lt_of_eq (by decide : 1254 < 1293) ops_len.symm) V main_v801 main_v826 (broadcastInDim S512x128x1 ![0, 1] bcast_S512x128_S512x128x1_0_1 : (⟨S512x128, .i1⟩ : BufTy).Contents (Elt F) → (⟨S512x128x1, .i1⟩ : BufTy).Contents (Elt F)) (hop := rfl) (hyi := (by decide)) (hxi := (by decide))).trans
    (congrArg (broadcastInDim S512x128x1 ![0, 1] bcast_S512x128_S512x128x1_0_1 : (⟨S512x128, .i1⟩ : BufTy).Contents (Elt F) → (⟨S512x128x1, .i1⟩ : BufTy).Contents (Elt F)) (e_main_v801 V))
theorem e_main_v827 : after (ops (F := F)) V (Proc.devRef .tc main_v827) = val_main_v827 (F := F) (a4 V) (a5 V) :=
  (unary_eq later_1255 later_1256 (Nat.lt_of_lt_of_eq (by decide : 1255 < 1293) ops_len.symm) V main_v826 main_v827 (uitofp .f32 : (⟨S512x128x1, .i1⟩ : BufTy).Contents (Elt F) → (⟨S512x128x1, .f32⟩ : BufTy).Contents (Elt F)) (hop := rfl) (hyi := (by decide)) (hxi := (by decide))).trans
    (congrArg (uitofp .f32 : (⟨S512x128x1, .i1⟩ : BufTy).Contents (Elt F) → (⟨S512x128x1, .f32⟩ : BufTy).Contents (Elt F)) (e_main_v826 V))
theorem e_main_v828 : after (ops (F := F)) V (Proc.devRef .tc main_v828) = val_main_v828 (F := F) (a4 V) (a5 V) :=
  (unary_eq later_1256 later_1257 (Nat.lt_of_lt_of_eq (by decide : 1256 < 1293) ops_len.symm) V main_v827 main_v828 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v827 V))
theorem e_main_v829 : after (ops (F := F)) V (Proc.devRef .tc main_v829) = val_main_v829 (F := F) (a3 V) (a4 V) (a5 V) :=
  (binary_eq later_1257 later_1258 (Nat.lt_of_lt_of_eq (by decide : 1257 < 1293) ops_len.symm) V main_v825 main_v828 main_v829 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v825 V) (e_main_v828 V))
theorem e_main_v830 : after (ops (F := F)) V (Proc.devRef .tc main_v830) = val_main_v830 (F := F) (a4 V) (a5 V) :=
  (unary_eq later_1258 later_1259 (Nat.lt_of_lt_of_eq (by decide : 1258 < 1293) ops_len.symm) V main_v662 main_v830 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v662 V))
theorem e_main_v831 : after (ops (F := F)) V (Proc.devRef .tc main_v831) = val_main_v831 (F := F) (a4 V) (a5 V) :=
  (unary_eq later_1259 later_1260 (Nat.lt_of_lt_of_eq (by decide : 1259 < 1293) ops_len.symm) V main_v663 main_v831 (broadcastInDim S512x128x1 ![0, 1] bcast_S512x128_S512x128x1_0_1 : (⟨S512x128, .f32⟩ : BufTy).Contents (Elt F) → (⟨S512x128x1, .f32⟩ : BufTy).Contents (Elt F)) (hop := rfl) (hyi := (by decide)) (hxi := (by decide))).trans
    (congrArg (broadcastInDim S512x128x1 ![0, 1] bcast_S512x128_S512x128x1_0_1 : (⟨S512x128, .f32⟩ : BufTy).Contents (Elt F) → (⟨S512x128x1, .f32⟩ : BufTy).Contents (Elt F)) (e_main_v663 V))
theorem e_main_cst_266 : after (ops (F := F)) V (Proc.devRef .tc main_cst_266) = val_main_cst_266 (F := F) :=
  nullary_eq later_1260 later_1261 (Nat.lt_of_lt_of_eq (by decide : 1260 < 1293) ops_len.symm) V main_cst_266 (constant S_ .f32 0x3F800000#32) (hop := rfl) (hyi := (by decide))
theorem e_main_v832 : after (ops (F := F)) V (Proc.devRef .tc main_v832) = val_main_v832 (F := F) :=
  (unary_eq later_1261 later_1262 (Nat.lt_of_lt_of_eq (by decide : 1261 < 1293) ops_len.symm) V main_cst_266 main_v832 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_266 V))
theorem e_main_v833 : after (ops (F := F)) V (Proc.devRef .tc main_v833) = val_main_v833 (F := F) (a4 V) (a5 V) :=
  (binary_eq later_1262 later_1263 (Nat.lt_of_lt_of_eq (by decide : 1262 < 1293) ops_len.symm) V main_v832 main_v830 main_v833 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v832 V) (e_main_v830 V))
theorem e_main_v834 : after (ops (F := F)) V (Proc.devRef .tc main_v834) = val_main_v834 (F := F) (a4 V) (a5 V) :=
  (unary_eq later_1263 later_1264 (Nat.lt_of_lt_of_eq (by decide : 1263 < 1293) ops_len.symm) V main_v833 main_v834 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v833 V))
theorem e_main_v835 : after (ops (F := F)) V (Proc.devRef .tc main_v835) = val_main_v835 (F := F) (a3 V) (a4 V) (a5 V) :=
  (binary_eq later_1264 later_1265 (Nat.lt_of_lt_of_eq (by decide : 1264 < 1293) ops_len.symm) V main_v704 main_v834 main_v835 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v704 V) (e_main_v834 V))
theorem e_main_cst_267 : after (ops (F := F)) V (Proc.devRef .tc main_cst_267) = val_main_cst_267 (F := F) :=
  nullary_eq later_1265 later_1266 (Nat.lt_of_lt_of_eq (by decide : 1265 < 1293) ops_len.symm) V main_cst_267 (constant S_ .f32 0x3F800000#32) (hop := rfl) (hyi := (by decide))
theorem e_main_v836 : after (ops (F := F)) V (Proc.devRef .tc main_v836) = val_main_v836 (F := F) :=
  (unary_eq later_1266 later_1267 (Nat.lt_of_lt_of_eq (by decide : 1266 < 1293) ops_len.symm) V main_cst_267 main_v836 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_267 V))
theorem e_main_v837 : after (ops (F := F)) V (Proc.devRef .tc main_v837) = val_main_v837 (F := F) (a4 V) (a5 V) :=
  (binary_eq later_1267 later_1268 (Nat.lt_of_lt_of_eq (by decide : 1267 < 1293) ops_len.symm) V main_v836 main_v831 main_v837 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v836 V) (e_main_v831 V))
theorem e_main_v838 : after (ops (F := F)) V (Proc.devRef .tc main_v838) = val_main_v838 (F := F) (a4 V) (a5 V) :=
  (unary_eq later_1268 later_1269 (Nat.lt_of_lt_of_eq (by decide : 1268 < 1293) ops_len.symm) V main_v837 main_v838 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v837 V))
theorem e_main_v839 : after (ops (F := F)) V (Proc.devRef .tc main_v839) = val_main_v839 (F := F) (a3 V) (a4 V) (a5 V) :=
  (binary_eq later_1269 later_1270 (Nat.lt_of_lt_of_eq (by decide : 1269 < 1293) ops_len.symm) V main_v835 main_v838 main_v839 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v835 V) (e_main_v838 V))
theorem e_main_v840 : after (ops (F := F)) V (Proc.devRef .tc main_v840) = val_main_v840 (F := F) (a4 V) (a5 V) :=
  (unary_eq later_1270 later_1271 (Nat.lt_of_lt_of_eq (by decide : 1270 < 1293) ops_len.symm) V main_v830 main_v840 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v830 V))
theorem e_main_v841 : after (ops (F := F)) V (Proc.devRef .tc main_v841) = val_main_v841 (F := F) (a3 V) (a4 V) (a5 V) :=
  (binary_eq later_1271 later_1272 (Nat.lt_of_lt_of_eq (by decide : 1271 < 1293) ops_len.symm) V main_v745 main_v840 main_v841 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v745 V) (e_main_v840 V))
theorem e_main_cst_268 : after (ops (F := F)) V (Proc.devRef .tc main_cst_268) = val_main_cst_268 (F := F) :=
  nullary_eq later_1272 later_1273 (Nat.lt_of_lt_of_eq (by decide : 1272 < 1293) ops_len.symm) V main_cst_268 (constant S_ .f32 0x3F800000#32) (hop := rfl) (hyi := (by decide))
theorem e_main_v842 : after (ops (F := F)) V (Proc.devRef .tc main_v842) = val_main_v842 (F := F) :=
  (unary_eq later_1273 later_1274 (Nat.lt_of_lt_of_eq (by decide : 1273 < 1293) ops_len.symm) V main_cst_268 main_v842 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_268 V))
theorem e_main_v843 : after (ops (F := F)) V (Proc.devRef .tc main_v843) = val_main_v843 (F := F) (a4 V) (a5 V) :=
  (binary_eq later_1274 later_1275 (Nat.lt_of_lt_of_eq (by decide : 1274 < 1293) ops_len.symm) V main_v842 main_v831 main_v843 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v842 V) (e_main_v831 V))
theorem e_main_v844 : after (ops (F := F)) V (Proc.devRef .tc main_v844) = val_main_v844 (F := F) (a4 V) (a5 V) :=
  (unary_eq later_1275 later_1276 (Nat.lt_of_lt_of_eq (by decide : 1275 < 1293) ops_len.symm) V main_v843 main_v844 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v843 V))
theorem e_main_v845 : after (ops (F := F)) V (Proc.devRef .tc main_v845) = val_main_v845 (F := F) (a3 V) (a4 V) (a5 V) :=
  (binary_eq later_1276 later_1277 (Nat.lt_of_lt_of_eq (by decide : 1276 < 1293) ops_len.symm) V main_v841 main_v844 main_v845 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v841 V) (e_main_v844 V))
theorem e_main_v846 : after (ops (F := F)) V (Proc.devRef .tc main_v846) = val_main_v846 (F := F) (a3 V) (a4 V) (a5 V) :=
  (binary_eq later_1277 later_1278 (Nat.lt_of_lt_of_eq (by decide : 1277 < 1293) ops_len.symm) V main_v839 main_v845 main_v846 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v839 V) (e_main_v845 V))
theorem e_main_cst_269 : after (ops (F := F)) V (Proc.devRef .tc main_cst_269) = val_main_cst_269 (F := F) :=
  nullary_eq later_1278 later_1279 (Nat.lt_of_lt_of_eq (by decide : 1278 < 1293) ops_len.symm) V main_cst_269 (constant S_ .f32 0x3F800000#32) (hop := rfl) (hyi := (by decide))
theorem e_main_v847 : after (ops (F := F)) V (Proc.devRef .tc main_v847) = val_main_v847 (F := F) :=
  (unary_eq later_1279 later_1280 (Nat.lt_of_lt_of_eq (by decide : 1279 < 1293) ops_len.symm) V main_cst_269 main_v847 (broadcastInDim S512x128x1 ![] bcast_S_S512x128x1 : (⟨S_, .f32⟩ : BufTy).Contents (Elt F) → (⟨S512x128x1, .f32⟩ : BufTy).Contents (Elt F)) (hop := rfl) (hyi := (by decide)) (hxi := (by decide))).trans
    (congrArg (broadcastInDim S512x128x1 ![] bcast_S_S512x128x1 : (⟨S_, .f32⟩ : BufTy).Contents (Elt F) → (⟨S512x128x1, .f32⟩ : BufTy).Contents (Elt F)) (e_main_cst_269 V))
theorem e_main_v848 : after (ops (F := F)) V (Proc.devRef .tc main_v848) = val_main_v848 (F := F) (a4 V) (a5 V) :=
  (binary_eq later_1280 later_1281 (Nat.lt_of_lt_of_eq (by decide : 1280 < 1293) ops_len.symm) V main_v847 main_v830 main_v848 (subf : (⟨S512x128x1, .f32⟩ : BufTy).Contents (Elt F) → (⟨S512x128x1, .f32⟩ : BufTy).Contents (Elt F) → (⟨S512x128x1, .f32⟩ : BufTy).Contents (Elt F)) (hop := rfl) (hyi := (by decide)) (hai := (by decide)) (hbi := (by decide))).trans
    (congrArg₂ (subf : (⟨S512x128x1, .f32⟩ : BufTy).Contents (Elt F) → (⟨S512x128x1, .f32⟩ : BufTy).Contents (Elt F) → (⟨S512x128x1, .f32⟩ : BufTy).Contents (Elt F)) (e_main_v847 V) (e_main_v830 V))
theorem e_main_v849 : after (ops (F := F)) V (Proc.devRef .tc main_v849) = val_main_v849 (F := F) (a4 V) (a5 V) :=
  (unary_eq later_1281 later_1282 (Nat.lt_of_lt_of_eq (by decide : 1281 < 1293) ops_len.symm) V main_v848 main_v849 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v848 V))
theorem e_main_v850 : after (ops (F := F)) V (Proc.devRef .tc main_v850) = val_main_v850 (F := F) (a3 V) (a4 V) (a5 V) :=
  (binary_eq later_1282 later_1283 (Nat.lt_of_lt_of_eq (by decide : 1282 < 1293) ops_len.symm) V main_v786 main_v849 main_v850 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v786 V) (e_main_v849 V))
theorem e_main_v851 : after (ops (F := F)) V (Proc.devRef .tc main_v851) = val_main_v851 (F := F) (a4 V) (a5 V) :=
  (unary_eq later_1283 later_1284 (Nat.lt_of_lt_of_eq (by decide : 1283 < 1293) ops_len.symm) V main_v831 main_v851 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v831 V))
theorem e_main_v852 : after (ops (F := F)) V (Proc.devRef .tc main_v852) = val_main_v852 (F := F) (a3 V) (a4 V) (a5 V) :=
  (binary_eq later_1284 later_1285 (Nat.lt_of_lt_of_eq (by decide : 1284 < 1293) ops_len.symm) V main_v850 main_v851 main_v852 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v850 V) (e_main_v851 V))
theorem e_main_v853 : after (ops (F := F)) V (Proc.devRef .tc main_v853) = val_main_v853 (F := F) (a3 V) (a4 V) (a5 V) :=
  (binary_eq later_1285 later_1286 (Nat.lt_of_lt_of_eq (by decide : 1285 < 1293) ops_len.symm) V main_v846 main_v852 main_v853 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v846 V) (e_main_v852 V))
theorem e_main_v854 : after (ops (F := F)) V (Proc.devRef .tc main_v854) = val_main_v854 (F := F) (a4 V) (a5 V) :=
  (unary_eq later_1286 later_1287 (Nat.lt_of_lt_of_eq (by decide : 1286 < 1293) ops_len.symm) V main_v830 main_v854 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v830 V))
theorem e_main_v855 : after (ops (F := F)) V (Proc.devRef .tc main_v855) = val_main_v855 (F := F) (a3 V) (a4 V) (a5 V) :=
  (binary_eq later_1287 later_1288 (Nat.lt_of_lt_of_eq (by decide : 1287 < 1293) ops_len.symm) V main_v829 main_v854 main_v855 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v829 V) (e_main_v854 V))
theorem e_main_v856 : after (ops (F := F)) V (Proc.devRef .tc main_v856) = val_main_v856 (F := F) (a4 V) (a5 V) :=
  (unary_eq later_1288 later_1289 (Nat.lt_of_lt_of_eq (by decide : 1288 < 1293) ops_len.symm) V main_v831 main_v856 (broadcastInDim S512x128x256 ![0, 1, 2] bcast_S512x128x1_S512x128x256_0_1_2 : (⟨S512x128x1, .f32⟩ : BufTy).Contents (Elt F) → (⟨S512x128x256, .f32⟩ : BufTy).Contents (Elt F)) (hop := rfl) (hyi := (by decide)) (hxi := (by decide))).trans
    (congrArg (broadcastInDim S512x128x256 ![0, 1, 2] bcast_S512x128x1_S512x128x256_0_1_2 : (⟨S512x128x1, .f32⟩ : BufTy).Contents (Elt F) → (⟨S512x128x256, .f32⟩ : BufTy).Contents (Elt F)) (e_main_v831 V))
theorem e_main_v857 : after (ops (F := F)) V (Proc.devRef .tc main_v857) = val_main_v857 (F := F) (a3 V) (a4 V) (a5 V) :=
  (binary_eq later_1289 later_1290 (Nat.lt_of_lt_of_eq (by decide : 1289 < 1293) ops_len.symm) V main_v855 main_v856 main_v857 (mulf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (mulf : (⟨S512x128x256, .f32⟩ : BufTy).Contents (Elt F) → (⟨S512x128x256, .f32⟩ : BufTy).Contents (Elt F) → (⟨S512x128x256, .f32⟩ : BufTy).Contents (Elt F)) (e_main_v855 V) (e_main_v856 V))
theorem e_main_v858 : after (ops (F := F)) V (Proc.devRef .tc main_v858) = val_main_v858 (F := F) (a3 V) (a4 V) (a5 V) :=
  (binary_eq later_1290 later_1291 (Nat.lt_of_lt_of_eq (by decide : 1290 < 1293) ops_len.symm) V main_v853 main_v857 main_v858 (addf : (⟨S512x128x256, .f32⟩ : BufTy).Contents (Elt F) → (⟨S512x128x256, .f32⟩ : BufTy).Contents (Elt F) → (⟨S512x128x256, .f32⟩ : BufTy).Contents (Elt F)) (hop := rfl) (hyi := (by decide)) (hai := (by decide)) (hbi := (by decide))).trans
    (congrArg₂ (addf : (⟨S512x128x256, .f32⟩ : BufTy).Contents (Elt F) → (⟨S512x128x256, .f32⟩ : BufTy).Contents (Elt F) → (⟨S512x128x256, .f32⟩ : BufTy).Contents (Elt F)) (e_main_v853 V) (e_main_v857 V))
theorem e_main_v859 : after (ops (F := F)) V (Proc.devRef .tc main_v859) = val_main_v859 (F := F) (a3 V) (a4 V) (a5 V) :=
  (unary_eq later_1291 later_1292 (Nat.lt_of_lt_of_eq (by decide : 1291 < 1293) ops_len.symm) V main_v858 main_v859 ((transpose S512x256x128 [0, 2, 1] · transposes_S512x128x256_S512x256x128_0_2_1) : (⟨S512x128x256, .f32⟩ : BufTy).Contents (Elt F) → (⟨S512x256x128, .f32⟩ : BufTy).Contents (Elt F)) (hop := rfl) (hyi := (by decide)) (hxi := (by decide))).trans
    (congrArg ((transpose S512x256x128 [0, 2, 1] · transposes_S512x128x256_S512x256x128_0_2_1) : (⟨S512x128x256, .f32⟩ : BufTy).Contents (Elt F) → (⟨S512x256x128, .f32⟩ : BufTy).Contents (Elt F)) (e_main_v858 V))
theorem e_main_v860 : after (ops (F := F)) V (Proc.devRef .tc main_v860) = val_main_v860 (F := F) (a0 V) (a1 V) (a2 V) (a3 V) (a4 V) (a5 V) :=
  (nary_eq later_1292 later_1293 (Nat.lt_of_lt_of_eq (by decide : 1292 < 1293) ops_len.symm) V ![main_v223, main_v435, main_v647, main_v859] main_v860 (fun u => concatenate S512x1024x128 1 [⟨S512x256x128, u 0⟩, ⟨S512x256x128, u 1⟩, ⟨S512x256x128, u 2⟩, ⟨S512x256x128, u 3⟩] concatenates_S512x256x128_S512x256x128_S512x256x128_S512x256x128_S512x1024x128_d1) (hop := rfl) (hyi := (by decide)) (hxi := (by decide))).trans (by
    show concatenate S512x1024x128 1 [⟨S512x256x128, after (ops (F := F)) V (Proc.devRef .tc main_v223)⟩, ⟨S512x256x128, after (ops (F := F)) V (Proc.devRef .tc main_v435)⟩, ⟨S512x256x128, after (ops (F := F)) V (Proc.devRef .tc main_v647)⟩, ⟨S512x256x128, after (ops (F := F)) V (Proc.devRef .tc main_v859)⟩] concatenates_S512x256x128_S512x256x128_S512x256x128_S512x256x128_S512x1024x128_d1 = _
    rw [e_main_v223 V, e_main_v435 V, e_main_v647 V, e_main_v859 V]; rfl)

end Stages

end Cert.ReferenceIdeal.RunH

end
-- ==== Proof.RefOpsB.lean ====
/-
  The facts the run needs about the reference's list of operations `ops`: @main is the run of the list (`main_eq`), no
  reference and no semaphore of the signature is scoped (`scopedRefs_eq`, `scopedSems_eq`), and every operation touches
  TensorCore references only (`ops_sub`). `main_eq` goes part by part: each of @main's nineteen printed parts is the run
  of its own slice of the list, and a line of operations run is its first entries run, then the rest.
-/
import proofs.«110520_j35545149342110_1_alg».proof.Proof.RefOpsA
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- A line of operations run is its first `n` run, then the rest. -/
theorem seq_split (l : List (HloOp τ sig (Elt F))) (n : Nat) :
    (seq l : Prog (TpuEff nD τ sig (Elt F) (Pipeline.Sig Λ₀ (Fin 0) fun p => (pcfgs (F := F) p).Adm) .tc) PUnit)
      = seq (l.take n) >>= fun _ => seq (l.drop n) := by
  rw [← seq_append, List.take_append_drop]

section Parts
set_option maxRecDepth 100000
set_option maxHeartbeats 40000000
theorem part0_eq (c : Dev nD) : main_part0 (F := F) c = seq (ops.take 70) := rfl
theorem part1_eq (c : Dev nD) : main_part1 (F := F) c = seq ((ops.drop 70).take 70) := rfl
theorem part2_eq (c : Dev nD) : main_part2 (F := F) c = seq (((ops.drop 70).drop 70).take 70) := rfl
theorem part3_eq (c : Dev nD) : main_part3 (F := F) c = seq ((((ops.drop 70).drop 70).drop 70).take 70) := rfl
theorem part4_eq (c : Dev nD) : main_part4 (F := F) c = seq (((((ops.drop 70).drop 70).drop 70).drop 70).take 60) := rfl
theorem part5_eq (c : Dev nD) : main_part5 (F := F) c = seq ((((((ops.drop 70).drop 70).drop 70).drop 70).drop 60).take 70) := rfl
theorem part6_eq (c : Dev nD) : main_part6 (F := F) c = seq (((((((ops.drop 70).drop 70).drop 70).drop 70).drop 60).drop 70).take 70) := rfl
theorem part7_eq (c : Dev nD) : main_part7 (F := F) c = seq ((((((((ops.drop 70).drop 70).drop 70).drop 70).drop 60).drop 70).drop 70).take 70) := rfl
theorem part8_eq (c : Dev nD) : main_part8 (F := F) c = seq (((((((((ops.drop 70).drop 70).drop 70).drop 70).drop 60).drop 70).drop 70).drop 70).take 70) := rfl
theorem part9_eq (c : Dev nD) : main_part9 (F := F) c = seq ((((((((((ops.drop 70).drop 70).drop 70).drop 70).drop 60).drop 70).drop 70).drop 70).drop 70).take 60) := rfl
theorem part10_eq (c : Dev nD) : main_part10 (F := F) c = seq (((((((((((ops.drop 70).drop 70).drop 70).drop 70).drop 60).drop 70).drop 70).drop 70).drop 70).drop 60).take 70) := rfl
theorem part11_eq (c : Dev nD) : main_part11 (F := F) c = seq ((((((((((((ops.drop 70).drop 70).drop 70).drop 70).drop 60).drop 70).drop 70).drop 70).drop 70).drop 60).drop 70).take 70) := rfl
theorem part12_eq (c : Dev nD) : main_part12 (F := F) c = seq (((((((((((((ops.drop 70).drop 70).drop 70).drop 70).drop 60).drop 70).drop 70).drop 70).drop 70).drop 60).drop 70).drop 70).take 70) := rfl
theorem part13_eq (c : Dev nD) : main_part13 (F := F) c = seq ((((((((((((((ops.drop 70).drop 70).drop 70).drop 70).drop 60).drop 70).drop 70).drop 70).drop 70).drop 60).drop 70).drop 70).drop 70).take 70) := rfl
theorem part14_eq (c : Dev nD) : main_part14 (F := F) c = seq (((((((((((((((ops.drop 70).drop 70).drop 70).drop 70).drop 60).drop 70).drop 70).drop 70).drop 70).drop 60).drop 70).drop 70).drop 70).drop 70).take 70) := rfl
theorem part15_eq (c : Dev nD) : main_part15 (F := F) c = seq ((((((((((((((((ops.drop 70).drop 70).drop 70).drop 70).drop 60).drop 70).drop 70).drop 70).drop 70).drop 60).drop 70).drop 70).drop 70).drop 70).drop 70).take 70) := rfl
theorem part16_eq (c : Dev nD) : main_part16 (F := F) c = seq (((((((((((((((((ops.drop 70).drop 70).drop 70).drop 70).drop 60).drop 70).drop 70).drop 70).drop 70).drop 60).drop 70).drop 70).drop 70).drop 70).drop 70).drop 70).take 70) := rfl
theorem part17_eq (c : Dev nD) : main_part17 (F := F) c = seq ((((((((((((((((((ops.drop 70).drop 70).drop 70).drop 70).drop 60).drop 70).drop 70).drop 70).drop 70).drop 60).drop 70).drop 70).drop 70).drop 70).drop 70).drop 70).drop 70).take 70) := rfl
theorem part18_eq (c : Dev nD) : main_part18 (F := F) c = seq ((((((((((((((((((ops.drop 70).drop 70).drop 70).drop 70).drop 60).drop 70).drop 70).drop 70).drop 70).drop 60).drop 70).drop 70).drop 70).drop 70).drop 70).drop 70).drop 70).drop 70) := rfl

end Parts

set_option maxRecDepth 100000 in
set_option maxHeartbeats 40000000 in
theorem main_eq (c : Dev nD) : main (F := F) c = seq ops := by
  unfold main
  symm
  rw [seq_split ops 70, ← part0_eq c]
  refine congrArg (fun k => main_part0 (F := F) c >>= k) (funext fun _ => ?_)
  rw [seq_split (ops.drop 70) 70, ← part1_eq c]
  refine congrArg (fun k => main_part1 (F := F) c >>= k) (funext fun _ => ?_)
  rw [seq_split ((ops.drop 70).drop 70) 70, ← part2_eq c]
  refine congrArg (fun k => main_part2 (F := F) c >>= k) (funext fun _ => ?_)
  rw [seq_split (((ops.drop 70).drop 70).drop 70) 70, ← part3_eq c]
  refine congrArg (fun k => main_part3 (F := F) c >>= k) (funext fun _ => ?_)
  rw [seq_split ((((ops.drop 70).drop 70).drop 70).drop 70) 60, ← part4_eq c]
  refine congrArg (fun k => main_part4 (F := F) c >>= k) (funext fun _ => ?_)
  rw [seq_split (((((ops.drop 70).drop 70).drop 70).drop 70).drop 60) 70, ← part5_eq c]
  refine congrArg (fun k => main_part5 (F := F) c >>= k) (funext fun _ => ?_)
  rw [seq_split ((((((ops.drop 70).drop 70).drop 70).drop 70).drop 60).drop 70) 70, ← part6_eq c]
  refine congrArg (fun k => main_part6 (F := F) c >>= k) (funext fun _ => ?_)
  rw [seq_split (((((((ops.drop 70).drop 70).drop 70).drop 70).drop 60).drop 70).drop 70) 70, ← part7_eq c]
  refine congrArg (fun k => main_part7 (F := F) c >>= k) (funext fun _ => ?_)
  rw [seq_split ((((((((ops.drop 70).drop 70).drop 70).drop 70).drop 60).drop 70).drop 70).drop 70) 70, ← part8_eq c]
  refine congrArg (fun k => main_part8 (F := F) c >>= k) (funext fun _ => ?_)
  rw [seq_split (((((((((ops.drop 70).drop 70).drop 70).drop 70).drop 60).drop 70).drop 70).drop 70).drop 70) 60, ← part9_eq c]
  refine congrArg (fun k => main_part9 (F := F) c >>= k) (funext fun _ => ?_)
  rw [seq_split ((((((((((ops.drop 70).drop 70).drop 70).drop 70).drop 60).drop 70).drop 70).drop 70).drop 70).drop 60) 70, ← part10_eq c]
  refine congrArg (fun k => main_part10 (F := F) c >>= k) (funext fun _ => ?_)
  rw [seq_split (((((((((((ops.drop 70).drop 70).drop 70).drop 70).drop 60).drop 70).drop 70).drop 70).drop 70).drop 60).drop 70) 70, ← part11_eq c]
  refine congrArg (fun k => main_part11 (F := F) c >>= k) (funext fun _ => ?_)
  rw [seq_split ((((((((((((ops.drop 70).drop 70).drop 70).drop 70).drop 60).drop 70).drop 70).drop 70).drop 70).drop 60).drop 70).drop 70) 70, ← part12_eq c]
  refine congrArg (fun k => main_part12 (F := F) c >>= k) (funext fun _ => ?_)
  rw [seq_split (((((((((((((ops.drop 70).drop 70).drop 70).drop 70).drop 60).drop 70).drop 70).drop 70).drop 70).drop 60).drop 70).drop 70).drop 70) 70, ← part13_eq c]
  refine congrArg (fun k => main_part13 (F := F) c >>= k) (funext fun _ => ?_)
  rw [seq_split ((((((((((((((ops.drop 70).drop 70).drop 70).drop 70).drop 60).drop 70).drop 70).drop 70).drop 70).drop 60).drop 70).drop 70).drop 70).drop 70) 70, ← part14_eq c]
  refine congrArg (fun k => main_part14 (F := F) c >>= k) (funext fun _ => ?_)
  rw [seq_split (((((((((((((((ops.drop 70).drop 70).drop 70).drop 70).drop 60).drop 70).drop 70).drop 70).drop 70).drop 60).drop 70).drop 70).drop 70).drop 70).drop 70) 70, ← part15_eq c]
  refine congrArg (fun k => main_part15 (F := F) c >>= k) (funext fun _ => ?_)
  rw [seq_split ((((((((((((((((ops.drop 70).drop 70).drop 70).drop 70).drop 60).drop 70).drop 70).drop 70).drop 70).drop 60).drop 70).drop 70).drop 70).drop 70).drop 70).drop 70) 70, ← part16_eq c]
  refine congrArg (fun k => main_part16 (F := F) c >>= k) (funext fun _ => ?_)
  rw [seq_split (((((((((((((((((ops.drop 70).drop 70).drop 70).drop 70).drop 60).drop 70).drop 70).drop 70).drop 70).drop 60).drop 70).drop 70).drop 70).drop 70).drop 70).drop 70).drop 70) 70, ← part17_eq c]
  refine congrArg (fun k => main_part17 (F := F) c >>= k) (funext fun _ => ?_)
  exact (part18_eq c).symm

theorem scopedRefs_eq : (Finset.univ.filter fun b : Ref sig .tc => b.isScoped) = ∅ := by decide
theorem scopedSems_eq : (Finset.univ.filter fun sm : SemLoc sig => sm.isScoped .tc) = ∅ := by decide
set_option maxRecDepth 1000000 in
set_option maxHeartbeats 400000000 in
theorem ops_sub : (ops : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., nary_bufs_sub ..⟩

end Cert.ReferenceIdeal.Value

end
-- ==== Proof.RefRunH2.lean ====
/-
  The reference program's run: every weakly fair execution of @main ends with the result at the reference's last stage as
  a function of the arguments, and the arguments unchanged. The line's run gives the final contents of every reference as
  `after ops` of the launch contents; the stage theorems say what that is at the result, and the arguments are never
  written.
-/
import proofs.«110520_j35545149342110_1_alg».proof.Proof.RefRunH
import proofs.«110520_j35545149342110_1_alg».proof.Proof.RefOpsB

noncomputable section

namespace Cert.ReferenceIdeal.RunH

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.LibSsaRun

variable {F : FTy → Type} [FloatOps F]

/-- On every device, from any memory with zero counters: every weakly fair execution of @main terminates with the result
    at the reference's last stage as a function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v860) = val_main_v860 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v860).trans (e_main_v860 (launchContents m c)),
      (h c main_arg0).trans (e_main_arg0 (launchContents m c)),
      (h c main_arg1).trans (e_main_arg1 (launchContents m c)),
      (h c main_arg2).trans (e_main_arg2 (launchContents m c)),
      (h c main_arg3).trans (e_main_arg3 (launchContents m c)),
      (h c main_arg4).trans (e_main_arg4 (launchContents m c)),
      (h c main_arg5).trans (e_main_arg5 (launchContents m c))⟩)
    (run_seq scopedRefs_eq scopedSems_eq defs main (fun _ => ops) main_eq (fun _ => ops_sub) m ρ (fun _ => later_0.fresh_eq))

end Cert.ReferenceIdeal.RunH

end
-- ==== Proof.lean ====
/- The proof of `Cert.Claim` (proofs.«110520_j35545149342110_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«110520_j35545149342110_1_alg».proof.Defs
import proofs.«110520_j35545149342110_1_alg».proof.Proof.Gen.Kernel
import proofs.«110520_j35545149342110_1_alg».proof.Proof.Gen.Kernel.Skeleton
import proofs.«110520_j35545149342110_1_alg».proof.Proof.Gen.Kernel.Launch
import proofs.«110520_j35545149342110_1_alg».proof.Proof.Gen.Kernel.Regions
import proofs.«110520_j35545149342110_1_alg».proof.Proof.Gen.Kernel.Points
import proofs.«110520_j35545149342110_1_alg».proof.Proof.Gen.KernelIdeal
import proofs.«110520_j35545149342110_1_alg».proof.Proof.Gen.KernelIdeal.Skeleton
import proofs.«110520_j35545149342110_1_alg».proof.Proof.Gen.KernelIdeal.Launch
import proofs.«110520_j35545149342110_1_alg».proof.Proof.Gen.KernelIdeal.Regions
import proofs.«110520_j35545149342110_1_alg».proof.Proof.Gen.KernelIdeal.Points
import proofs.«110520_j35545149342110_1_alg».proof.Proof.Gen.ReferenceIdeal
import proofs.«110520_j35545149342110_1_alg».proof.Proof.Gen.Pre_finite_inputs
import Idealize.ShloMosaic.Adequacy
import Idealize.ShloMosaic.Init

import proofs.«110520_j35545149342110_1_alg».proof.Proof.KBFrame
import proofs.«110520_j35545149342110_1_alg».proof.Proof.KIFrame
import proofs.«110520_j35545149342110_1_alg».proof.Proof.KIFinal
import proofs.«110520_j35545149342110_1_alg».proof.Proof.PreFacts
import proofs.«110520_j35545149342110_1_alg».proof.Proof.RefRunH2

set_option maxRecDepth 16384

noncomputable section

namespace Cert.Proof

open Idealize.ShloMosaic Idealize.SL.Sem

/-- THE REFERENCE'S RUN: from any memory with zero counters every weakly fair execution of the reference's @main
    terminates without a fault, leaves the six arguments unchanged, and leaves in the result buffer the value of the
    program's last operation as a function of the arguments (the composition of its 1293 host operations, stage by
    stage). -/
def ReferenceRun : Prop :=
  ∀ (m' : (ℓ : Loc Cert.ReferenceIdeal.nD Cert.ReferenceIdeal.τ Cert.ReferenceIdeal.sig) → Buf (Elt Ideal) ℓ) (g' : Dev Cert.ReferenceIdeal.nD → PrngReg),
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v860)
          = Cert.ReferenceIdeal.Read.val_main_v860 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

open Cert.KernelIdeal.Hand in
/-- THE CLAIM, given the reference's run. The kernel program's frame at both instances is the four regions' run; the
    kernel's result is the reference's last stage of the same arguments (level by level: the tiled, masked contraction
    collapses to the four-corner sample; the reals of the precondition carry the distributive step; the batch indices
    lie in range by the precondition); the reference's frame and its result are the hypothesis. -/
theorem claim_of_reference_run (hrun : ReferenceRun) : Cert.Claim :=
  ⟨Cert.Kernel.Gen.facts, Cert.KernelIdeal.Gen.facts, Cert.ReferenceIdeal.Gen.facts, Cert.Pre_finite_inputs.Gen.facts,
    fun m g _ => Cert.Kernel.Hand.frame m g,
    fun m g _ => Cert.KernelIdeal.Hand.frame m g,
    fun m' g' _ => (θ_run _ _ _).mono (fun _ h c => (h c).2) (hrun m' g'),
    trivial,
    fun m g m' g' hpre hagree => by
      refine ⟨fun c => W9 m c (Proc.devRef .tc Cert.KernelIdeal.main_v90), ?_, ?_⟩
      · exact (θ_run _ _ _).mono (fun _ h c =>
          ⟨h c _ (mem_uc Cert.KernelIdeal.main_v90 (by decide)),
           (h c _ (mem_uc Cert.KernelIdeal.main_arg0 (by decide))).trans (W9_main_arg0 m c),
           (h c _ (mem_uc Cert.KernelIdeal.main_arg1 (by decide))).trans (W9_main_arg1 m c),
           (h c _ (mem_uc Cert.KernelIdeal.main_arg2 (by decide))).trans (W9_main_arg2 m c),
           (h c _ (mem_uc Cert.KernelIdeal.main_arg3 (by decide))).trans (W9_main_arg3 m c),
           (h c _ (mem_uc Cert.KernelIdeal.main_arg4 (by decide))).trans (W9_main_arg4 m c),
           (h c _ (mem_uc Cert.KernelIdeal.main_arg5 (by decide))).trans (W9_main_arg5 m c)⟩) (run_all m g)
      · refine (θ_run _ _ _).mono (fun _ h c => ⟨(h c).1.trans ?_, (h c).2⟩) (hrun m' g')
        obtain ⟨r0, r1, r2, r3, r4, r5, hB⟩ := Cert.PreFacts.decode _ _ _ _ _ _ (hpre c)
        obtain ⟨e0, e1, e2, e3, e4, e5⟩ := hagree c
        rw [e0, e1, e2, e3, e4, e5]
        exact (result_eq m c r0 r1 r2 r3 r4 r5 hB).symm⟩

/-- THE CLAIM: the reference's run is the stage-by-stage run of its 1293 operations (each buffer is written once, so the
    final contents of a stage's buffer are that stage's function of the final contents of its operands' buffers). -/
theorem claim : Cert.Claim := claim_of_reference_run (fun m' g' => Cert.ReferenceIdeal.RunH.run m' g')

end Cert.Proof

end
